-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x256 : Shape := ⟨3, ![2, 1024, 256]⟩
abbrev S4x256x256 : Shape := ⟨3, ![4, 256, 256]⟩
abbrev S8388608x8 : Shape := ⟨2, ![8388608, 8]⟩
abbrev S_ : Shape := ⟨0, ![]⟩

class Facts : Prop where
  bcast_S_S2x1024x256 : S_.BroadcastsInDim S2x1024x256 (![] : Fin 0 → Fin S2x1024x256.rank)
  reducesTo_S2x1024x256_S_d0_1_2 : S2x1024x256.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S8388608x8 : S_.BroadcastsInDim S8388608x8 (![] : Fin 0 → Fin S8388608x8.rank)
  reducesTo_S8388608x8_S_d0_1 : S8388608x8.ReducesTo [0, 1] S_

variable [Facts]

def fn {F : FTy → Type} [FloatOps F] (main_arg0 : FVec F S2x1024x256 .f32) (main_arg1 : FVec F S4x256x256 .f32) (main_arg2 : FVec F S8388608x8 .f32) : IVec S_ 1 :=
  let main_v0 : FVec F S2x1024x256 .f32 := Host.absf main_arg0
  let main_cst : FVec F S_ .f32 := constant S_ .f32 0x7F800000#32
  let main_v1 : FVec F S2x1024x256 .f32 := broadcastInDim S2x1024x256 ![] bcast_S_S2x1024x256 main_cst
  let main_v2 : IVec S2x1024x256 1 := cmpf .olt main_v0 main_v1
  let main_c : IVec S_ 1 := constantI S_ 1 1#1
  let main_v3 : IVec S_ 1 := (fun x v => Host.reduce IntOp.andi x v reducesTo_S2x1024x256_S_d0_1_2 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S8388608x8 .f32 := Host.absf main_arg2
  let main_cst_2 : FVec F S_ .f32 := constant S_ .f32 0x7F800000#32
  let main_v10 : FVec F S8388608x8 .f32 := broadcastInDim S8388608x8 ![] bcast_S_S8388608x8 main_cst_2
  let main_v11 : IVec S8388608x8 1 := cmpf .olt main_v9 main_v10
  let main_c_3 : IVec S_ 1 := constantI S_ 1 1#1
  let main_v12 : IVec S_ 1 := (fun x v => Host.reduce IntOp.andi x v reducesTo_S8388608x8_S_d0_1 h_S_) main_v11 main_c_3
  let main_v13 : IVec S_ 1 := andi main_v8 main_v12
  main_v13
-- ==== Kernel.lean ====
abbrev S2x1024x256 : Shape := ⟨3, ![2, 1024, 256]⟩
abbrev S4x256x256 : Shape := ⟨3, ![4, 256, 256]⟩
abbrev S8388608x8 : Shape := ⟨2, ![8388608, 8]⟩
abbrev S2048x256 : Shape := ⟨2, ![2048, 256]⟩
abbrev S4x2048x256 : Shape := ⟨3, ![4, 2048, 256]⟩
abbrev S1x256x256 : Shape := ⟨3, ![1, 256, 256]⟩
abbrev S1x2048x256 : Shape := ⟨3, ![1, 2048, 256]⟩
abbrev S256x256 : Shape := ⟨2, ![256, 256]⟩
abbrev S4x2x1024x256 : Shape := ⟨4, ![4, 2, 1024, 256]⟩
abbrev S2x4x1024x256 : Shape := ⟨4, ![2, 4, 1024, 256]⟩
abbrev S2x4x1024x32x8 : Shape := ⟨5, ![2, 4, 1024, 32, 8]⟩
abbrev S_ : Shape := ⟨0, ![]⟩
abbrev S8 : Shape := ⟨1, ![8]⟩
abbrev S1x1x1x1x8 : Shape := ⟨5, ![1, 1, 1, 1, 8]⟩
abbrev S2x4x1024x32 : Shape := ⟨4, ![2, 4, 1024, 32]⟩
abbrev S2x4x1023x32 : Shape := ⟨4, ![2, 4, 1023, 32]⟩
abbrev S4 : Shape := ⟨1, ![4]⟩
abbrev S1x4x1x1 : Shape := ⟨4, ![1, 4, 1, 1]⟩
abbrev S32 : Shape := ⟨1, ![32]⟩
abbrev S1x1x1x32 : Shape := ⟨4, ![1, 1, 1, 32]⟩
abbrev S1x4x1x32 : Shape := ⟨4, ![1, 4, 1, 32]⟩
abbrev S2x4x32x1023 : Shape := ⟨4, ![2, 4, 32, 1023]⟩
abbrev S1x1x32x1023 : Shape := ⟨4, ![1, 1, 32, 1023]⟩
abbrev S32x1023 : Shape := ⟨2, ![32, 1023]⟩
abbrev S1023x32x8 : Shape := ⟨3, ![1023, 32, 8]⟩
abbrev S1x32x8 : Shape := ⟨3, ![1, 32, 8]⟩
abbrev S32x8 : Shape := ⟨2, ![32, 8]⟩
abbrev S1x1 : Shape := ⟨2, ![1, 1]⟩
abbrev S1 : Shape := ⟨1, ![1]⟩
abbrev S1x8 : Shape := ⟨2, ![1, 8]⟩
abbrev S1x1023x32x8 : Shape := ⟨4, ![1, 1023, 32, 8]⟩
abbrev S4x1023x32x8 : Shape := ⟨4, ![4, 1023, 32, 8]⟩
abbrev S1x4x1023x32x8 : Shape := ⟨5, ![1, 4, 1023, 32, 8]⟩
abbrev S2x4x1023x32x8 : Shape := ⟨5, ![2, 4, 1023, 32, 8]⟩
abbrev S2x4x1023x256 : Shape := ⟨4, ![2, 4, 1023, 256]⟩

abbrev nBuf : Space → Nat
  | .hbm => 71
  | .vmem => 29
  | .smem => 8
  | _ => 0

abbrev bufTy : (tb : Table) → Fin (tcTables nBuf tb) → BufTy
  | .hbm, ⟨0, _⟩ => ⟨S2x1024x256, .f32⟩
  | .hbm, ⟨1, _⟩ => ⟨S4x256x256, .f32⟩
  | .hbm, ⟨2, _⟩ => ⟨S8388608x8, .f32⟩
  | .hbm, ⟨3, _⟩ => ⟨S2048x256, .f32⟩
  | .hbm, ⟨4, _⟩ => ⟨S4x256x256, .f32⟩
  | .hbm, ⟨5, _⟩ => ⟨S4x2048x256, .f32⟩
  | .hbm, ⟨6, _⟩ => ⟨S4x2x1024x256, .f32⟩
  | .hbm, ⟨7, _⟩ => ⟨S2x4x1024x256, .f32⟩
  | .hbm, ⟨8, _⟩ => ⟨S2x4x1024x32x8, .f32⟩
  | .hbm, ⟨9, _⟩ => ⟨S_, .f32⟩
  | .hbm, ⟨10, _⟩ => ⟨S2x4x1024x32x8, .f32⟩
  | .hbm, ⟨11, _⟩ => ⟨S2x4x1024x32x8, .i1⟩
  | .hbm, ⟨12, _⟩ => ⟨S2x4x1024x32x8, .i32⟩
  | .hbm, ⟨13, _⟩ => ⟨S8, .i32⟩
  | .hbm, ⟨14, _⟩ => ⟨S1x1x1x1x8, .i32⟩
  | .hbm, ⟨15, _⟩ => ⟨S2x4x1024x32x8, .i32⟩
  | .hbm, ⟨16, _⟩ => ⟨S2x4x1024x32x8, .i32⟩
  | .hbm, ⟨17, _⟩ => ⟨S_, .i32⟩
  | .hbm, ⟨18, _⟩ => ⟨S2x4x1024x32, .i32⟩
  | .hbm, ⟨19, _⟩ => ⟨S2x4x1023x32, .i32⟩
  | .hbm, ⟨20, _⟩ => ⟨S2x4x1023x32, .i32⟩
  | .hbm, ⟨21, _⟩ => ⟨S_, .i32⟩
  | .hbm, ⟨22, _⟩ => ⟨S2x4x1023x32, .i32⟩
  | .hbm, ⟨23, _⟩ => ⟨S2x4x1023x32, .i32⟩
  | .hbm, ⟨24, _⟩ => ⟨S2x4x1023x32, .i32⟩
  | .hbm, ⟨25, _⟩ => ⟨S4, .i32⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S1x4x1x1, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S1x1x1x32, .i32⟩
  | .hbm, ⟨35, _⟩ => ⟨S1x4x1x32, .i32⟩
  | .hbm, ⟨36, _⟩ => ⟨S1x4x1x32, .i32⟩
  | .hbm, ⟨37, _⟩ => ⟨S1x4x1x32, .i32⟩
  | .hbm, ⟨38, _⟩ => ⟨S2x4x1023x32, .i32⟩
  | .hbm, ⟨39, _⟩ => ⟨S2x4x1023x32, .i32⟩
  | .hbm, ⟨40, _⟩ => ⟨S2x4x32x1023, .i32⟩
  | .hbm, ⟨41, _⟩ => ⟨S1x1x32x1023, .i32⟩
  | .hbm, ⟨42, _⟩ => ⟨S1023x32x8, .f32⟩
  | .hbm, ⟨43, _⟩ => ⟨S1x1x32x1023, .i32⟩
  | .hbm, ⟨44, _⟩ => ⟨S1023x32x8, .f32⟩
  | .hbm, ⟨45, _⟩ => ⟨S1x1x32x1023, .i32⟩
  | .hbm, ⟨46, _⟩ => ⟨S1023x32x8, .f32⟩
  | .hbm, ⟨47, _⟩ => ⟨S1x1x32x1023, .i32⟩
  | .hbm, ⟨48, _⟩ => ⟨S1023x32x8, .f32⟩
  | .hbm, ⟨49, _⟩ => ⟨S1x1023x32x8, .f32⟩
  | .hbm, ⟨50, _⟩ => ⟨S1x1023x32x8, .f32⟩
  | .hbm, ⟨51, _⟩ => ⟨S1x1023x32x8, .f32⟩
  | .hbm, ⟨52, _⟩ => ⟨S1x1023x32x8, .f32⟩
  | .hbm, ⟨53, _⟩ => ⟨S4x1023x32x8, .f32⟩
  | .hbm, ⟨54, _⟩ => ⟨S1x1x32x1023, .i32⟩
  | .hbm, ⟨55, _⟩ => ⟨S1023x32x8, .f32⟩
  | .hbm, ⟨56, _⟩ => ⟨S1x1x32x1023, .i32⟩
  | .hbm, ⟨57, _⟩ => ⟨S1023x32x8, .f32⟩
  | .hbm, ⟨58, _⟩ => ⟨S1x1x32x1023, .i32⟩
  | .hbm, ⟨59, _⟩ => ⟨S1023x32x8, .f32⟩
  | .hbm, ⟨60, _⟩ => ⟨S1x1x32x1023, .i32⟩
  | .hbm, ⟨61, _⟩ => ⟨S1023x32x8, .f32⟩
  | .hbm, ⟨62, _⟩ => ⟨S1x1023x32x8, .f32⟩
  | .hbm, ⟨63, _⟩ => ⟨S1x1023x32x8, .f32⟩
  | .hbm, ⟨64, _⟩ => ⟨S1x1023x32x8, .f32⟩
  | .hbm, ⟨65, _⟩ => ⟨S1x1023x32x8, .f32⟩
  | .hbm, ⟨66, _⟩ => ⟨S4x1023x32x8, .f32⟩
  | .hbm, ⟨67, _⟩ => ⟨S1x4x1023x32x8, .f32⟩
  | .hbm, ⟨68, _⟩ => ⟨S1x4x1023x32x8, .f32⟩
  | .hbm, ⟨69, _⟩ => ⟨S2x4x1023x32x8, .f32⟩
  | .hbm, ⟨70, _⟩ => ⟨S2x4x1023x256, .f32⟩
  | .local _ .vmem, ⟨0, _⟩ => ⟨S2048x256, .f32⟩
  | .local _ .vmem, ⟨1, _⟩ => ⟨S1x256x256, .f32⟩
  | .local _ .vmem, ⟨2, _⟩ => ⟨S1x256x256, .f32⟩
  | .local _ .vmem, ⟨3, _⟩ => ⟨S1x2048x256, .f32⟩
  | .local _ .vmem, ⟨4, _⟩ => ⟨S1x2048x256, .f32⟩
  | .local _ .vmem, ⟨5, _⟩ => ⟨S1x32x8, .f32⟩
  | .local _ .vmem, ⟨6, _⟩ => ⟨S1x32x8, .f32⟩
  | .local _ .vmem, ⟨7, _⟩ => ⟨S32x8, .f32⟩
  | .local _ .vmem, ⟨8, _⟩ => ⟨S1x32x8, .f32⟩
  | .local _ .vmem, ⟨9, _⟩ => ⟨S1x32x8, .f32⟩
  | .local _ .vmem, ⟨10, _⟩ => ⟨S32x8, .f32⟩
  | .local _ .vmem, ⟨11, _⟩ => ⟨S1x32x8, .f32⟩
  | .local _ .vmem, ⟨12, _⟩ => ⟨S1x32x8, .f32⟩
  | .local _ .vmem, ⟨13, _⟩ => ⟨S32x8, .f32⟩
  | .local _ .vmem, ⟨14, _⟩ => ⟨S1x32x8, .f32⟩
  | .local _ .vmem, ⟨15, _⟩ => ⟨S1x32x8, .f32⟩
  | .local _ .vmem, ⟨16, _⟩ => ⟨S32x8, .f32⟩
  | .local _ .vmem, ⟨17, _⟩ => ⟨S1x32x8, .f32⟩
  | .local _ .vmem, ⟨18, _⟩ => ⟨S1x32x8, .f32⟩
  | .local _ .vmem, ⟨19, _⟩ => ⟨S32x8, .f32⟩
  | .local _ .vmem, ⟨20, _⟩ => ⟨S1x32x8, .f32⟩
  | .local _ .vmem, ⟨21, _⟩ => ⟨S1x32x8, .f32⟩
  | .local _ .vmem, ⟨22, _⟩ => ⟨S32x8, .f32⟩
  | .local _ .vmem, ⟨23, _⟩ => ⟨S1x32x8, .f32⟩
  | .local _ .vmem, ⟨24, _⟩ => ⟨S1x32x8, .f32⟩
  | .local _ .vmem, ⟨25, _⟩ => ⟨S32x8, .f32⟩
  | .local _ .vmem, ⟨26, _⟩ => ⟨S1x32x8, .f32⟩
  | .local _ .vmem, ⟨27, _⟩ => ⟨S1x32x8, .f32⟩
  | .local _ .vmem, ⟨28, _⟩ => ⟨S32x8, .f32⟩
  | .local _ .smem, ⟨0, _⟩ => ⟨S32x1023, .i32⟩
  | .local _ .smem, ⟨1, _⟩ => ⟨S32x1023, .i32⟩
  | .local _ .smem, ⟨2, _⟩ => ⟨S32x1023, .i32⟩
  | .local _ .smem, ⟨3, _⟩ => ⟨S32x1023, .i32⟩
  | .local _ .smem, ⟨4, _⟩ => ⟨S32x1023, .i32⟩
  | .local _ .smem, ⟨5, _⟩ => ⟨S32x1023, .i32⟩
  | .local _ .smem, ⟨6, _⟩ => ⟨S32x1023, .i32⟩
  | .local _ .smem, ⟨7, _⟩ => ⟨S32x1023, .i32⟩
  | _, _ => ⟨S2x1024x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 277 → Bool
  | ⟨i, _⟩ => dmaSemScopedAt i

abbrev sig : RefSig :=
  ofTc nBuf bufTy 0 277 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v35 : Ref sig .tc := ⟨.hbm, 42, rfl⟩
abbrev main_v36 : Ref sig .tc := ⟨.hbm, 43, rfl⟩
abbrev main_v38 : Ref sig .tc := ⟨.hbm, 44, rfl⟩
abbrev main_v39 : Ref sig .tc := ⟨.hbm, 45, rfl⟩
abbrev main_v41 : Ref sig .tc := ⟨.hbm, 46, rfl⟩
abbrev main_v42 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v52 : Ref sig .tc := ⟨.hbm, 55, rfl⟩
abbrev main_v53 : Ref sig .tc := ⟨.hbm, 56, rfl⟩
abbrev main_v55 : Ref sig .tc := ⟨.hbm, 57, rfl⟩
abbrev main_v56 : Ref sig .tc := ⟨.hbm, 58, rfl⟩
abbrev main_v58 : Ref sig .tc := ⟨.hbm, 59, rfl⟩
abbrev main_v59 : Ref sig .tc := ⟨.hbm, 60, rfl⟩
abbrev main_v61 : Ref sig .tc := ⟨.hbm, 61, rfl⟩
abbrev main_v62 : Ref sig .tc := ⟨.hbm, 62, rfl⟩
abbrev main_v63 : Ref sig .tc := ⟨.hbm, 63, rfl⟩
abbrev main_v64 : Ref sig .tc := ⟨.hbm, 64, rfl⟩
abbrev main_v65 : Ref sig .tc := ⟨.hbm, 65, rfl⟩
abbrev main_v66 : Ref sig .tc := ⟨.hbm, 66, rfl⟩
abbrev main_v67 : Ref sig .tc := ⟨.hbm, 67, rfl⟩
abbrev main_v68 : Ref sig .tc := ⟨.hbm, 68, rfl⟩
abbrev main_v69 : Ref sig .tc := ⟨.hbm, 69, rfl⟩
abbrev main_v70 : Ref sig .tc := ⟨.hbm, 70, rfl⟩
abbrev main_v34 : Ref sig .tc := ⟨.smem, 0, rfl⟩
abbrev main_v37 : Ref sig .tc := ⟨.smem, 1, rfl⟩
abbrev main_v40 : Ref sig .tc := ⟨.smem, 2, rfl⟩
abbrev main_v43 : Ref sig .tc := ⟨.smem, 3, rfl⟩
abbrev main_v51 : Ref sig .tc := ⟨.smem, 4, rfl⟩
abbrev main_v54 : Ref sig .tc := ⟨.smem, 5, rfl⟩
abbrev main_v57 : Ref sig .tc := ⟨.smem, 6, rfl⟩
abbrev main_v60 : Ref sig .tc := ⟨.smem, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_scratch0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_scratch0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_scratch0 : Ref sig .tc := ⟨.vmem, 13, rfl⟩
abbrev cc4_stg0_0 : Ref sig .tc := ⟨.vmem, 14, rfl⟩
abbrev cc4_stg0_1 : Ref sig .tc := ⟨.vmem, 15, rfl⟩
abbrev cc4_scratch0 : Ref sig .tc := ⟨.vmem, 16, rfl⟩
abbrev cc5_stg0_0 : Ref sig .tc := ⟨.vmem, 17, rfl⟩
abbrev cc5_stg0_1 : Ref sig .tc := ⟨.vmem, 18, rfl⟩
abbrev cc5_scratch0 : Ref sig .tc := ⟨.vmem, 19, rfl⟩
abbrev cc6_stg0_0 : Ref sig .tc := ⟨.vmem, 20, rfl⟩
abbrev cc6_stg0_1 : Ref sig .tc := ⟨.vmem, 21, rfl⟩
abbrev cc6_scratch0 : Ref sig .tc := ⟨.vmem, 22, rfl⟩
abbrev cc7_stg0_0 : Ref sig .tc := ⟨.vmem, 23, rfl⟩
abbrev cc7_stg0_1 : Ref sig .tc := ⟨.vmem, 24, rfl⟩
abbrev cc7_scratch0 : Ref sig .tc := ⟨.vmem, 25, rfl⟩
abbrev cc8_stg0_0 : Ref sig .tc := ⟨.vmem, 26, rfl⟩
abbrev cc8_stg0_1 : Ref sig .tc := ⟨.vmem, 27, rfl⟩
abbrev cc8_scratch0 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc2_sem0_0 : DmaSem sig := 39
abbrev cc2_sem0_1 : DmaSem sig := 40
abbrev cc3_sem0_0 : DmaSem sig := 73
abbrev cc3_sem0_1 : DmaSem sig := 74
abbrev cc4_sem0_0 : DmaSem sig := 107
abbrev cc4_sem0_1 : DmaSem sig := 108
abbrev cc5_sem0_0 : DmaSem sig := 141
abbrev cc5_sem0_1 : DmaSem sig := 142
abbrev cc6_sem0_0 : DmaSem sig := 175
abbrev cc6_sem0_1 : DmaSem sig := 176
abbrev cc7_sem0_0 : DmaSem sig := 209
abbrev cc7_sem0_1 : DmaSem sig := 210
abbrev cc8_sem0_0 : DmaSem sig := 243
abbrev cc8_sem0_1 : DmaSem sig := 244

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1023], ![false]⟩

abbrev pre1 : Pipeline.Prefetch sig := ⟨1, ![main_v34.idx], fun | 0 => main_v34.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let c0 : Index := 0#32
  let arg0 : BitVec 32 := BitVec.ofNat 32 (i 0).val
  let v0 : Index := Scalar.indexCast arg0
  ![0, v0.toNat]
def k1_off2 (v1 : BitVec 32) : Fin 2 → Nat :=
  let c0_i32_2 : BitVec 32 := 0#32
  ![v1.toNat, 0]

def k1_off3 (i : grid1.Coords) : Fin 2 → Nat :=
  let c1 : Index := 1#32
  let arg0 : BitVec 32 := BitVec.ofNat 32 (i 0).val
  let v8 : Index := Scalar.indexCast arg0
  ![1, v8.toNat]
def k1_off4 (v9 : BitVec 32) : Fin 2 → Nat :=
  let c0_i32_5 : BitVec 32 := 0#32
  ![v9.toNat, 0]

def k1_off5 (i : grid1.Coords) : Fin 2 → Nat :=
  let c2 : Index := 2#32
  let arg0 : BitVec 32 := BitVec.ofNat 32 (i 0).val
  let v16 : Index := Scalar.indexCast arg0
  ![2, v16.toNat]
def k1_off6 (v17 : BitVec 32) : Fin 2 → Nat :=
  let c0_i32_8 : BitVec 32 := 0#32
  ![v17.toNat, 0]

def k1_off7 (i : grid1.Coords) : Fin 2 → Nat :=
  let c3 : Index := 3#32
  let arg0 : BitVec 32 := BitVec.ofNat 32 (i 0).val
  let v24 : Index := Scalar.indexCast arg0
  ![3, v24.toNat]
def k1_off8 (v25 : BitVec 32) : Fin 2 → Nat :=
  let c0_i32_11 : BitVec 32 := 0#32
  ![v25.toNat, 0]

def k1_off9 (i : grid1.Coords) : Fin 2 → Nat :=
  let c4 : Index := 4#32
  let arg0 : BitVec 32 := BitVec.ofNat 32 (i 0).val
  let v32 : Index := Scalar.indexCast arg0
  ![4, v32.toNat]
def k1_off10 (v33 : BitVec 32) : Fin 2 → Nat :=
  let c0_i32_14 : BitVec 32 := 0#32
  ![v33.toNat, 0]

def k1_off11 (i : grid1.Coords) : Fin 2 → Nat :=
  let c5 : Index := 5#32
  let arg0 : BitVec 32 := BitVec.ofNat 32 (i 0).val
  let v40 : Index := Scalar.indexCast arg0
  ![5, v40.toNat]
def k1_off12 (v41 : BitVec 32) : Fin 2 → Nat :=
  let c0_i32_17 : BitVec 32 := 0#32
  ![v41.toNat, 0]

def k1_off13 (i : grid1.Coords) : Fin 2 → Nat :=
  let c6 : Index := 6#32
  let arg0 : BitVec 32 := BitVec.ofNat 32 (i 0).val
  let v48 : Index := Scalar.indexCast arg0
  ![6, v48.toNat]
def k1_off14 (v49 : BitVec 32) : Fin 2 → Nat :=
  let c0_i32_20 : BitVec 32 := 0#32
  ![v49.toNat, 0]

def k1_off15 (i : grid1.Coords) : Fin 2 → Nat :=
  let c7 : Index := 7#32
  let arg0 : BitVec 32 := BitVec.ofNat 32 (i 0).val
  let v56 : Index := Scalar.indexCast arg0
  ![7, v56.toNat]
def k1_off16 (v57 : BitVec 32) : Fin 2 → Nat :=
  let c0_i32_23 : BitVec 32 := 0#32
  ![v57.toNat, 0]

def k1_off17 (i : grid1.Coords) : Fin 2 → Nat :=
  let c8 : Index := 8#32
  let arg0 : BitVec 32 := BitVec.ofNat 32 (i 0).val
  let v64 : Index := Scalar.indexCast arg0
  ![8, v64.toNat]
def k1_off18 (v65 : BitVec 32) : Fin 2 → Nat :=
  let c0_i32_26 : BitVec 32 := 0#32
  ![v65.toNat, 0]

def k1_off19 (i : grid1.Coords) : Fin 2 → Nat :=
  let c9 : Index := 9#32
  let arg0 : BitVec 32 := BitVec.ofNat 32 (i 0).val
  let v72 : Index := Scalar.indexCast arg0
  ![9, v72.toNat]
def k1_off20 (v73 : BitVec 32) : Fin 2 → Nat :=
  let c0_i32_29 : BitVec 32 := 0#32
  ![v73.toNat, 0]

def k1_off21 (i : grid1.Coords) : Fin 2 → Nat :=
  let c10 : Index := 10#32
  let arg0 : BitVec 32 := BitVec.ofNat 32 (i 0).val
  let v80 : Index := Scalar.indexCast arg0
  ![10, v80.toNat]
def k1_off22 (v81 : BitVec 32) : Fin 2 → Nat :=
  let c0_i32_32 : BitVec 32 := 0#32
  ![v81.toNat, 0]

def k1_off23 (i : grid1.Coords) : Fin 2 → Nat :=
  let c11 : Index := 11#32
  let arg0 : BitVec 32 := BitVec.ofNat 32 (i 0).val
  let v88 : Index := Scalar.indexCast arg0
  ![11, v88.toNat]
def k1_off24 (v89 : BitVec 32) : Fin 2 → Nat :=
  let c0_i32_35 : BitVec 32 := 0#32
  ![v89.toNat, 0]

def k1_off25 (i : grid1.Coords) : Fin 2 → Nat :=
  let c12 : Index := 12#32
  let arg0 : BitVec 32 := BitVec.ofNat 32 (i 0).val
  let v96 : Index := Scalar.indexCast arg0
  ![12, v96.toNat]
def k1_off26 (v97 : BitVec 32) : Fin 2 → Nat :=
  let c0_i32_38 : BitVec 32 := 0#32
  ![v97.toNat, 0]

def k1_off27 (i : grid1.Coords) : Fin 2 → Nat :=
  let c13 : Index := 13#32
  let arg0 : BitVec 32 := BitVec.ofNat 32 (i 0).val
  let v104 : Index := Scalar.indexCast arg0
  ![13, v104.toNat]
def k1_off28 (v105 : BitVec 32) : Fin 2 → Nat :=
  let c0_i32_41 : BitVec 32 := 0#32
  ![v105.toNat, 0]

def k1_off29 (i : grid1.Coords) : Fin 2 → Nat :=
  let c14 : Index := 14#32
  let arg0 : BitVec 32 := BitVec.ofNat 32 (i 0).val
  let v112 : Index := Scalar.indexCast arg0
  ![14, v112.toNat]
def k1_off30 (v113 : BitVec 32) : Fin 2 → Nat :=
  let c0_i32_44 : BitVec 32 := 0#32
  ![v113.toNat, 0]

def k1_off31 (i : grid1.Coords) : Fin 2 → Nat :=
  let c15 : Index := 15#32
  let arg0 : BitVec 32 := BitVec.ofNat 32 (i 0).val
  let v120 : Index := Scalar.indexCast arg0
  ![15, v120.toNat]
def k1_off32 (v121 : BitVec 32) : Fin 2 → Nat :=
  let c0_i32_47 : BitVec 32 := 0#32
  ![v121.toNat, 0]

def k1_off33 (i : grid1.Coords) : Fin 2 → Nat :=
  let c16 : Index := 16#32
  let arg0 : BitVec 32 := BitVec.ofNat 32 (i 0).val
  let v128 : Index := Scalar.indexCast arg0
  ![16, v128.toNat]
def k1_off34 (v129 : BitVec 32) : Fin 2 → Nat :=
  let c0_i32_50 : BitVec 32 := 0#32
  ![v129.toNat, 0]

def k1_off35 (i : grid1.Coords) : Fin 2 → Nat :=
  let c17 : Index := 17#32
  let arg0 : BitVec 32 := BitVec.ofNat 32 (i 0).val
  let v136 : Index := Scalar.indexCast arg0
  ![17, v136.toNat]
def k1_off36 (v137 : BitVec 32) : Fin 2 → Nat :=
  let c0_i32_53 : BitVec 32 := 0#32
  ![v137.toNat, 0]

def k1_off37 (i : grid1.Coords) : Fin 2 → Nat :=
  let c18 : Index := 18#32
  let arg0 : BitVec 32 := BitVec.ofNat 32 (i 0).val
  let v144 : Index := Scalar.indexCast arg0
  ![18, v144.toNat]
def k1_off38 (v145 : BitVec 32) : Fin 2 → Nat :=
  let c0_i32_56 : BitVec 32 := 0#32
  ![v145.toNat, 0]

def k1_off39 (i : grid1.Coords) : Fin 2 → Nat :=
  let c19 : Index := 19#32
  let arg0 : BitVec 32 := BitVec.ofNat 32 (i 0).val
  let v152 : Index := Scalar.indexCast arg0
  ![19, v152.toNat]
def k1_off40 (v153 : BitVec 32) : Fin 2 → Nat :=
  let c0_i32_59 : BitVec 32 := 0#32
  ![v153.toNat, 0]

def k1_off41 (i : grid1.Coords) : Fin 2 → Nat :=
  let c20 : Index := 20#32
  let arg0 : BitVec 32 := BitVec.ofNat 32 (i 0).val
  let v160 : Index := Scalar.indexCast arg0
  ![20, v160.toNat]
def k1_off42 (v161 : BitVec 32) : Fin 2 → Nat :=
  let c0_i32_62 : BitVec 32 := 0#32
  ![v161.toNat, 0]

def k1_off43 (i : grid1.Coords) : Fin 2 → Nat :=
  let c21 : Index := 21#32
  let arg0 : BitVec 32 := BitVec.ofNat 32 (i 0).val
  let v168 : Index := Scalar.indexCast arg0
  ![21, v168.toNat]
def k1_off44 (v169 : BitVec 32) : Fin 2 → Nat :=
  let c0_i32_65 : BitVec 32 := 0#32
  ![v169.toNat, 0]

def k1_off45 (i : grid1.Coords) : Fin 2 → Nat :=
  let c22 : Index := 22#32
  let arg0 : BitVec 32 := BitVec.ofNat 32 (i 0).val
  let v176 : Index := Scalar.indexCast arg0
  ![22, v176.toNat]
def k1_off46 (v177 : BitVec 32) : Fin 2 → Nat :=
  let c0_i32_68 : BitVec 32 := 0#32
  ![v177.toNat, 0]

def k1_off47 (i : grid1.Coords) : Fin 2 → Nat :=
  let c23 : Index := 23#32
  let arg0 : BitVec 32 := BitVec.ofNat 32 (i 0).val
  let v184 : Index := Scalar.indexCast arg0
  ![23, v184.toNat]
def k1_off48 (v185 : BitVec 32) : Fin 2 → Nat :=
  let c0_i32_71 : BitVec 32 := 0#32
  ![v185.toNat, 0]

def k1_off49 (i : grid1.Coords) : Fin 2 → Nat :=
  let c24 : Index := 24#32
  let arg0 : BitVec 32 := BitVec.ofNat 32 (i 0).val
  let v192 : Index := Scalar.indexCast arg0
  ![24, v192.toNat]
def k1_off50 (v193 : BitVec 32) : Fin 2 → Nat :=
  let c0_i32_74 : BitVec 32 := 0#32
  ![v193.toNat, 0]

def k1_off51 (i : grid1.Coords) : Fin 2 → Nat :=
  let c25 : Index := 25#32
  let arg0 : BitVec 32 := BitVec.ofNat 32 (i 0).val
  let v200 : Index := Scalar.indexCast arg0
  ![25, v200.toNat]
def k1_off52 (v201 : BitVec 32) : Fin 2 → Nat :=
  let c0_i32_77 : BitVec 32 := 0#32
  ![v201.toNat, 0]

def k1_off53 (i : grid1.Coords) : Fin 2 → Nat :=
  let c26 : Index := 26#32
  let arg0 : BitVec 32 := BitVec.ofNat 32 (i 0).val
  let v208 : Index := Scalar.indexCast arg0
  ![26, v208.toNat]
def k1_off54 (v209 : BitVec 32) : Fin 2 → Nat :=
  let c0_i32_80 : BitVec 32 := 0#32
  ![v209.toNat, 0]

def k1_off55 (i : grid1.Coords) : Fin 2 → Nat :=
  let c27 : Index := 27#32
  let arg0 : BitVec 32 := BitVec.ofNat 32 (i 0).val
  let v216 : Index := Scalar.indexCast arg0
  ![27, v216.toNat]
def k1_off56 (v217 : BitVec 32) : Fin 2 → Nat :=
  let c0_i32_83 : BitVec 32 := 0#32
  ![v217.toNat, 0]

def k1_off57 (i : grid1.Coords) : Fin 2 → Nat :=
  let c28 : Index := 28#32
  let arg0 : BitVec 32 := BitVec.ofNat 32 (i 0).val
  let v224 : Index := Scalar.indexCast arg0
  ![28, v224.toNat]
def k1_off58 (v225 : BitVec 32) : Fin 2 → Nat :=
  let c0_i32_86 : BitVec 32 := 0#32
  ![v225.toNat, 0]

def k1_off59 (i : grid1.Coords) : Fin 2 → Nat :=
  let c29 : Index := 29#32
  let arg0 : BitVec 32 := BitVec.ofNat 32 (i 0).val
  let v232 : Index := Scalar.indexCast arg0
  ![29, v232.toNat]
def k1_off60 (v233 : BitVec 32) : Fin 2 → Nat :=
  let c0_i32_89 : BitVec 32 := 0#32
  ![v233.toNat, 0]

def k1_off61 (i : grid1.Coords) : Fin 2 → Nat :=
  let c30 : Index := 30#32
  let arg0 : BitVec 32 := BitVec.ofNat 32 (i 0).val
  let v240 : Index := Scalar.indexCast arg0
  ![30, v240.toNat]
def k1_off62 (v241 : BitVec 32) : Fin 2 → Nat :=
  let c0_i32_92 : BitVec 32 := 0#32
  ![v241.toNat, 0]

def k1_off63 (i : grid1.Coords) : Fin 2 → Nat :=
  let c31 : Index := 31#32
  let arg0 : BitVec 32 := BitVec.ofNat 32 (i 0).val
  let v248 : Index := Scalar.indexCast arg0
  ![31, v248.toNat]
def k1_off64 (v249 : BitVec 32) : Fin 2 → Nat :=
  let c0_i32_95 : BitVec 32 := 0#32
  ![v249.toNat, 0]

def k1_chk32 (v249 : BitVec 32) : Prop :=
  (∀ a, (k1_off64 v249) a + S1x8.size a ≤ S8388608x8.size a)
instance k1_chk32.dec : ∀ (v249 : BitVec 32), Decidable (k1_chk32 v249) := fun v249 => decidable_of_iff' _ (Iff.of_eq (k1_chk32.eq_1 v249))
theorem k1_off64_inb : ∀ (v249 : BitVec 32) (k1_hw32 : k1_chk32 v249), ∀ a, (k1_off64 v249) a + S1x8.size a ≤ S8388608x8.size a := fun v249 k1_hw32 => k1_hw32

def k1_off65 (v1 : BitVec 32) : Fin 2 → Nat :=
  let c0_i32_99 : BitVec 32 := 0#32
  ![v1.toNat, 0]

def k1_chk1 (v1 : BitVec 32) : Prop :=
  (∀ a, (k1_off2 v1) a + S1x8.size a ≤ S8388608x8.size a) ∧
  (∀ a, (k1_off65 v1) a + S1x8.size a ≤ S8388608x8.size a)
instance k1_chk1.dec : ∀ (v1 : BitVec 32), Decidable (k1_chk1 v1) := fun v1 => decidable_of_iff' _ (Iff.of_eq (k1_chk1.eq_1 v1))
theorem k1_off2_inb : ∀ (v1 : BitVec 32) (k1_hw1 : k1_chk1 v1), ∀ a, (k1_off2 v1) a + S1x8.size a ≤ S8388608x8.size a := fun v1 k1_hw1 => k1_hw1.1
theorem k1_off65_inb : ∀ (v1 : BitVec 32) (k1_hw1 : k1_chk1 v1), ∀ a, (k1_off65 v1) a + S1x8.size a ≤ S8388608x8.size a := fun v1 k1_hw1 => k1_hw1.2

def k1_off66 (v9 : BitVec 32) : Fin 2 → Nat :=
  let c0_i32_103 : BitVec 32 := 0#32
  ![v9.toNat, 0]

def k1_chk2 (v9 : BitVec 32) : Prop :=
  (∀ a, (k1_off4 v9) a + S1x8.size a ≤ S8388608x8.size a) ∧
  (∀ a, (k1_off66 v9) a + S1x8.size a ≤ S8388608x8.size a)
instance k1_chk2.dec : ∀ (v9 : BitVec 32), Decidable (k1_chk2 v9) := fun v9 => decidable_of_iff' _ (Iff.of_eq (k1_chk2.eq_1 v9))
theorem k1_off4_inb : ∀ (v9 : BitVec 32) (k1_hw2 : k1_chk2 v9), ∀ a, (k1_off4 v9) a + S1x8.size a ≤ S8388608x8.size a := fun v9 k1_hw2 => k1_hw2.1
theorem k1_off66_inb : ∀ (v9 : BitVec 32) (k1_hw2 : k1_chk2 v9), ∀ a, (k1_off66 v9) a + S1x8.size a ≤ S8388608x8.size a := fun v9 k1_hw2 => k1_hw2.2

def k1_off67 (v17 : BitVec 32) : Fin 2 → Nat :=
  let c0_i32_107 : BitVec 32 := 0#32
  ![v17.toNat, 0]

def k1_chk3 (v17 : BitVec 32) : Prop :=
  (∀ a, (k1_off6 v17) a + S1x8.size a ≤ S8388608x8.size a) ∧
  (∀ a, (k1_off67 v17) a + S1x8.size a ≤ S8388608x8.size a)
instance k1_chk3.dec : ∀ (v17 : BitVec 32), Decidable (k1_chk3 v17) := fun v17 => decidable_of_iff' _ (Iff.of_eq (k1_chk3.eq_1 v17))
theorem k1_off6_inb : ∀ (v17 : BitVec 32) (k1_hw3 : k1_chk3 v17), ∀ a, (k1_off6 v17) a + S1x8.size a ≤ S8388608x8.size a := fun v17 k1_hw3 => k1_hw3.1
theorem k1_off67_inb : ∀ (v17 : BitVec 32) (k1_hw3 : k1_chk3 v17), ∀ a, (k1_off67 v17) a + S1x8.size a ≤ S8388608x8.size a := fun v17 k1_hw3 => k1_hw3.2

def k1_off68 (v25 : BitVec 32) : Fin 2 → Nat :=
  let c0_i32_111 : BitVec 32 := 0#32
  ![v25.toNat, 0]

def k1_chk4 (v25 : BitVec 32) : Prop :=
  (∀ a, (k1_off8 v25) a + S1x8.size a ≤ S8388608x8.size a) ∧
  (∀ a, (k1_off68 v25) a + S1x8.size a ≤ S8388608x8.size a)
instance k1_chk4.dec : ∀ (v25 : BitVec 32), Decidable (k1_chk4 v25) := fun v25 => decidable_of_iff' _ (Iff.of_eq (k1_chk4.eq_1 v25))
theorem k1_off8_inb : ∀ (v25 : BitVec 32) (k1_hw4 : k1_chk4 v25), ∀ a, (k1_off8 v25) a + S1x8.size a ≤ S8388608x8.size a := fun v25 k1_hw4 => k1_hw4.1
theorem k1_off68_inb : ∀ (v25 : BitVec 32) (k1_hw4 : k1_chk4 v25), ∀ a, (k1_off68 v25) a + S1x8.size a ≤ S8388608x8.size a := fun v25 k1_hw4 => k1_hw4.2

def k1_off69 (v33 : BitVec 32) : Fin 2 → Nat :=
  let c0_i32_115 : BitVec 32 := 0#32
  ![v33.toNat, 0]

def k1_chk5 (v33 : BitVec 32) : Prop :=
  (∀ a, (k1_off10 v33) a + S1x8.size a ≤ S8388608x8.size a) ∧
  (∀ a, (k1_off69 v33) a + S1x8.size a ≤ S8388608x8.size a)
instance k1_chk5.dec : ∀ (v33 : BitVec 32), Decidable (k1_chk5 v33) := fun v33 => decidable_of_iff' _ (Iff.of_eq (k1_chk5.eq_1 v33))
theorem k1_off10_inb : ∀ (v33 : BitVec 32) (k1_hw5 : k1_chk5 v33), ∀ a, (k1_off10 v33) a + S1x8.size a ≤ S8388608x8.size a := fun v33 k1_hw5 => k1_hw5.1
theorem k1_off69_inb : ∀ (v33 : BitVec 32) (k1_hw5 : k1_chk5 v33), ∀ a, (k1_off69 v33) a + S1x8.size a ≤ S8388608x8.size a := fun v33 k1_hw5 => k1_hw5.2

def k1_off70 (v41 : BitVec 32) : Fin 2 → Nat :=
  let c0_i32_119 : BitVec 32 := 0#32
  ![v41.toNat, 0]

def k1_chk6 (v41 : BitVec 32) : Prop :=
  (∀ a, (k1_off12 v41) a + S1x8.size a ≤ S8388608x8.size a) ∧
  (∀ a, (k1_off70 v41) a + S1x8.size a ≤ S8388608x8.size a)
instance k1_chk6.dec : ∀ (v41 : BitVec 32), Decidable (k1_chk6 v41) := fun v41 => decidable_of_iff' _ (Iff.of_eq (k1_chk6.eq_1 v41))
theorem k1_off12_inb : ∀ (v41 : BitVec 32) (k1_hw6 : k1_chk6 v41), ∀ a, (k1_off12 v41) a + S1x8.size a ≤ S8388608x8.size a := fun v41 k1_hw6 => k1_hw6.1
theorem k1_off70_inb : ∀ (v41 : BitVec 32) (k1_hw6 : k1_chk6 v41), ∀ a, (k1_off70 v41) a + S1x8.size a ≤ S8388608x8.size a := fun v41 k1_hw6 => k1_hw6.2

def k1_off71 (v49 : BitVec 32) : Fin 2 → Nat :=
  let c0_i32_123 : BitVec 32 := 0#32
  ![v49.toNat, 0]

def k1_chk7 (v49 : BitVec 32) : Prop :=
  (∀ a, (k1_off14 v49) a + S1x8.size a ≤ S8388608x8.size a) ∧
  (∀ a, (k1_off71 v49) a + S1x8.size a ≤ S8388608x8.size a)
instance k1_chk7.dec : ∀ (v49 : BitVec 32), Decidable (k1_chk7 v49) := fun v49 => decidable_of_iff' _ (Iff.of_eq (k1_chk7.eq_1 v49))
theorem k1_off14_inb : ∀ (v49 : BitVec 32) (k1_hw7 : k1_chk7 v49), ∀ a, (k1_off14 v49) a + S1x8.size a ≤ S8388608x8.size a := fun v49 k1_hw7 => k1_hw7.1
theorem k1_off71_inb : ∀ (v49 : BitVec 32) (k1_hw7 : k1_chk7 v49), ∀ a, (k1_off71 v49) a + S1x8.size a ≤ S8388608x8.size a := fun v49 k1_hw7 => k1_hw7.2

def k1_off72 (v57 : BitVec 32) : Fin 2 → Nat :=
  let c0_i32_127 : BitVec 32 := 0#32
  ![v57.toNat, 0]

def k1_chk8 (v57 : BitVec 32) : Prop :=
  (∀ a, (k1_off16 v57) a + S1x8.size a ≤ S8388608x8.size a) ∧
  (∀ a, (k1_off72 v57) a + S1x8.size a ≤ S8388608x8.size a)
instance k1_chk8.dec : ∀ (v57 : BitVec 32), Decidable (k1_chk8 v57) := fun v57 => decidable_of_iff' _ (Iff.of_eq (k1_chk8.eq_1 v57))
theorem k1_off16_inb : ∀ (v57 : BitVec 32) (k1_hw8 : k1_chk8 v57), ∀ a, (k1_off16 v57) a + S1x8.size a ≤ S8388608x8.size a := fun v57 k1_hw8 => k1_hw8.1
theorem k1_off72_inb : ∀ (v57 : BitVec 32) (k1_hw8 : k1_chk8 v57), ∀ a, (k1_off72 v57) a + S1x8.size a ≤ S8388608x8.size a := fun v57 k1_hw8 => k1_hw8.2

def k1_off73 (v65 : BitVec 32) : Fin 2 → Nat :=
  let c0_i32_131 : BitVec 32 := 0#32
  ![v65.toNat, 0]

def k1_chk9 (v65 : BitVec 32) : Prop :=
  (∀ a, (k1_off18 v65) a + S1x8.size a ≤ S8388608x8.size a) ∧
  (∀ a, (k1_off73 v65) a + S1x8.size a ≤ S8388608x8.size a)
instance k1_chk9.dec : ∀ (v65 : BitVec 32), Decidable (k1_chk9 v65) := fun v65 => decidable_of_iff' _ (Iff.of_eq (k1_chk9.eq_1 v65))
theorem k1_off18_inb : ∀ (v65 : BitVec 32) (k1_hw9 : k1_chk9 v65), ∀ a, (k1_off18 v65) a + S1x8.size a ≤ S8388608x8.size a := fun v65 k1_hw9 => k1_hw9.1
theorem k1_off73_inb : ∀ (v65 : BitVec 32) (k1_hw9 : k1_chk9 v65), ∀ a, (k1_off73 v65) a + S1x8.size a ≤ S8388608x8.size a := fun v65 k1_hw9 => k1_hw9.2

def k1_off74 (v73 : BitVec 32) : Fin 2 → Nat :=
  let c0_i32_135 : BitVec 32 := 0#32
  ![v73.toNat, 0]

def k1_chk10 (v73 : BitVec 32) : Prop :=
  (∀ a, (k1_off20 v73) a + S1x8.size a ≤ S8388608x8.size a) ∧
  (∀ a, (k1_off74 v73) a + S1x8.size a ≤ S8388608x8.size a)
instance k1_chk10.dec : ∀ (v73 : BitVec 32), Decidable (k1_chk10 v73) := fun v73 => decidable_of_iff' _ (Iff.of_eq (k1_chk10.eq_1 v73))
theorem k1_off20_inb : ∀ (v73 : BitVec 32) (k1_hw10 : k1_chk10 v73), ∀ a, (k1_off20 v73) a + S1x8.size a ≤ S8388608x8.size a := fun v73 k1_hw10 => k1_hw10.1
theorem k1_off74_inb : ∀ (v73 : BitVec 32) (k1_hw10 : k1_chk10 v73), ∀ a, (k1_off74 v73) a + S1x8.size a ≤ S8388608x8.size a := fun v73 k1_hw10 => k1_hw10.2

def k1_off75 (v81 : BitVec 32) : Fin 2 → Nat :=
  let c0_i32_139 : BitVec 32 := 0#32
  ![v81.toNat, 0]

def k1_chk11 (v81 : BitVec 32) : Prop :=
  (∀ a, (k1_off22 v81) a + S1x8.size a ≤ S8388608x8.size a) ∧
  (∀ a, (k1_off75 v81) a + S1x8.size a ≤ S8388608x8.size a)
instance k1_chk11.dec : ∀ (v81 : BitVec 32), Decidable (k1_chk11 v81) := fun v81 => decidable_of_iff' _ (Iff.of_eq (k1_chk11.eq_1 v81))
theorem k1_off22_inb : ∀ (v81 : BitVec 32) (k1_hw11 : k1_chk11 v81), ∀ a, (k1_off22 v81) a + S1x8.size a ≤ S8388608x8.size a := fun v81 k1_hw11 => k1_hw11.1
theorem k1_off75_inb : ∀ (v81 : BitVec 32) (k1_hw11 : k1_chk11 v81), ∀ a, (k1_off75 v81) a + S1x8.size a ≤ S8388608x8.size a := fun v81 k1_hw11 => k1_hw11.2

def k1_off76 (v89 : BitVec 32) : Fin 2 → Nat :=
  let c0_i32_143 : BitVec 32 := 0#32
  ![v89.toNat, 0]

def k1_chk12 (v89 : BitVec 32) : Prop :=
  (∀ a, (k1_off24 v89) a + S1x8.size a ≤ S8388608x8.size a) ∧
  (∀ a, (k1_off76 v89) a + S1x8.size a ≤ S8388608x8.size a)
instance k1_chk12.dec : ∀ (v89 : BitVec 32), Decidable (k1_chk12 v89) := fun v89 => decidable_of_iff' _ (Iff.of_eq (k1_chk12.eq_1 v89))
theorem k1_off24_inb : ∀ (v89 : BitVec 32) (k1_hw12 : k1_chk12 v89), ∀ a, (k1_off24 v89) a + S1x8.size a ≤ S8388608x8.size a := fun v89 k1_hw12 => k1_hw12.1
theorem k1_off76_inb : ∀ (v89 : BitVec 32) (k1_hw12 : k1_chk12 v89), ∀ a, (k1_off76 v89) a + S1x8.size a ≤ S8388608x8.size a := fun v89 k1_hw12 => k1_hw12.2

def k1_off77 (v97 : BitVec 32) : Fin 2 → Nat :=
  let c0_i32_147 : BitVec 32 := 0#32
  ![v97.toNat, 0]

def k1_chk13 (v97 : BitVec 32) : Prop :=
  (∀ a, (k1_off26 v97) a + S1x8.size a ≤ S8388608x8.size a) ∧
  (∀ a, (k1_off77 v97) a + S1x8.size a ≤ S8388608x8.size a)
instance k1_chk13.dec : ∀ (v97 : BitVec 32), Decidable (k1_chk13 v97) := fun v97 => decidable_of_iff' _ (Iff.of_eq (k1_chk13.eq_1 v97))
theorem k1_off26_inb : ∀ (v97 : BitVec 32) (k1_hw13 : k1_chk13 v97), ∀ a, (k1_off26 v97) a + S1x8.size a ≤ S8388608x8.size a := fun v97 k1_hw13 => k1_hw13.1
theorem k1_off77_inb : ∀ (v97 : BitVec 32) (k1_hw13 : k1_chk13 v97), ∀ a, (k1_off77 v97) a + S1x8.size a ≤ S8388608x8.size a := fun v97 k1_hw13 => k1_hw13.2

def k1_off78 (v105 : BitVec 32) : Fin 2 → Nat :=
  let c0_i32_151 : BitVec 32 := 0#32
  ![v105.toNat, 0]

def k1_chk14 (v105 : BitVec 32) : Prop :=
  (∀ a, (k1_off28 v105) a + S1x8.size a ≤ S8388608x8.size a) ∧
  (∀ a, (k1_off78 v105) a + S1x8.size a ≤ S8388608x8.size a)
instance k1_chk14.dec : ∀ (v105 : BitVec 32), Decidable (k1_chk14 v105) := fun v105 => decidable_of_iff' _ (Iff.of_eq (k1_chk14.eq_1 v105))
theorem k1_off28_inb : ∀ (v105 : BitVec 32) (k1_hw14 : k1_chk14 v105), ∀ a, (k1_off28 v105) a + S1x8.size a ≤ S8388608x8.size a := fun v105 k1_hw14 => k1_hw14.1
theorem k1_off78_inb : ∀ (v105 : BitVec 32) (k1_hw14 : k1_chk14 v105), ∀ a, (k1_off78 v105) a + S1x8.size a ≤ S8388608x8.size a := fun v105 k1_hw14 => k1_hw14.2

def k1_off79 (v113 : BitVec 32) : Fin 2 → Nat :=
  let c0_i32_155 : BitVec 32 := 0#32
  ![v113.toNat, 0]

def k1_chk15 (v113 : BitVec 32) : Prop :=
  (∀ a, (k1_off30 v113) a + S1x8.size a ≤ S8388608x8.size a) ∧
  (∀ a, (k1_off79 v113) a + S1x8.size a ≤ S8388608x8.size a)
instance k1_chk15.dec : ∀ (v113 : BitVec 32), Decidable (k1_chk15 v113) := fun v113 => decidable_of_iff' _ (Iff.of_eq (k1_chk15.eq_1 v113))
theorem k1_off30_inb : ∀ (v113 : BitVec 32) (k1_hw15 : k1_chk15 v113), ∀ a, (k1_off30 v113) a + S1x8.size a ≤ S8388608x8.size a := fun v113 k1_hw15 => k1_hw15.1
theorem k1_off79_inb : ∀ (v113 : BitVec 32) (k1_hw15 : k1_chk15 v113), ∀ a, (k1_off79 v113) a + S1x8.size a ≤ S8388608x8.size a := fun v113 k1_hw15 => k1_hw15.2

def k1_off80 (v121 : BitVec 32) : Fin 2 → Nat :=
  let c0_i32_159 : BitVec 32 := 0#32
  ![v121.toNat, 0]

def k1_chk16 (v121 : BitVec 32) : Prop :=
  (∀ a, (k1_off32 v121) a + S1x8.size a ≤ S8388608x8.size a) ∧
  (∀ a, (k1_off80 v121) a + S1x8.size a ≤ S8388608x8.size a)
instance k1_chk16.dec : ∀ (v121 : BitVec 32), Decidable (k1_chk16 v121) := fun v121 => decidable_of_iff' _ (Iff.of_eq (k1_chk16.eq_1 v121))
theorem k1_off32_inb : ∀ (v121 : BitVec 32) (k1_hw16 : k1_chk16 v121), ∀ a, (k1_off32 v121) a + S1x8.size a ≤ S8388608x8.size a := fun v121 k1_hw16 => k1_hw16.1
theorem k1_off80_inb : ∀ (v121 : BitVec 32) (k1_hw16 : k1_chk16 v121), ∀ a, (k1_off80 v121) a + S1x8.size a ≤ S8388608x8.size a := fun v121 k1_hw16 => k1_hw16.2

def k1_off81 (v129 : BitVec 32) : Fin 2 → Nat :=
  let c0_i32_163 : BitVec 32 := 0#32
  ![v129.toNat, 0]

def k1_chk17 (v129 : BitVec 32) : Prop :=
  (∀ a, (k1_off34 v129) a + S1x8.size a ≤ S8388608x8.size a) ∧
  (∀ a, (k1_off81 v129) a + S1x8.size a ≤ S8388608x8.size a)
instance k1_chk17.dec : ∀ (v129 : BitVec 32), Decidable (k1_chk17 v129) := fun v129 => decidable_of_iff' _ (Iff.of_eq (k1_chk17.eq_1 v129))
theorem k1_off34_inb : ∀ (v129 : BitVec 32) (k1_hw17 : k1_chk17 v129), ∀ a, (k1_off34 v129) a + S1x8.size a ≤ S8388608x8.size a := fun v129 k1_hw17 => k1_hw17.1
theorem k1_off81_inb : ∀ (v129 : BitVec 32) (k1_hw17 : k1_chk17 v129), ∀ a, (k1_off81 v129) a + S1x8.size a ≤ S8388608x8.size a := fun v129 k1_hw17 => k1_hw17.2

def k1_off82 (v137 : BitVec 32) : Fin 2 → Nat :=
  let c0_i32_167 : BitVec 32 := 0#32
  ![v137.toNat, 0]

def k1_chk18 (v137 : BitVec 32) : Prop :=
  (∀ a, (k1_off36 v137) a + S1x8.size a ≤ S8388608x8.size a) ∧
  (∀ a, (k1_off82 v137) a + S1x8.size a ≤ S8388608x8.size a)
instance k1_chk18.dec : ∀ (v137 : BitVec 32), Decidable (k1_chk18 v137) := fun v137 => decidable_of_iff' _ (Iff.of_eq (k1_chk18.eq_1 v137))
theorem k1_off36_inb : ∀ (v137 : BitVec 32) (k1_hw18 : k1_chk18 v137), ∀ a, (k1_off36 v137) a + S1x8.size a ≤ S8388608x8.size a := fun v137 k1_hw18 => k1_hw18.1
theorem k1_off82_inb : ∀ (v137 : BitVec 32) (k1_hw18 : k1_chk18 v137), ∀ a, (k1_off82 v137) a + S1x8.size a ≤ S8388608x8.size a := fun v137 k1_hw18 => k1_hw18.2

def k1_off83 (v145 : BitVec 32) : Fin 2 → Nat :=
  let c0_i32_171 : BitVec 32 := 0#32
  ![v145.toNat, 0]

def k1_chk19 (v145 : BitVec 32) : Prop :=
  (∀ a, (k1_off38 v145) a + S1x8.size a ≤ S8388608x8.size a) ∧
  (∀ a, (k1_off83 v145) a + S1x8.size a ≤ S8388608x8.size a)
instance k1_chk19.dec : ∀ (v145 : BitVec 32), Decidable (k1_chk19 v145) := fun v145 => decidable_of_iff' _ (Iff.of_eq (k1_chk19.eq_1 v145))
theorem k1_off38_inb : ∀ (v145 : BitVec 32) (k1_hw19 : k1_chk19 v145), ∀ a, (k1_off38 v145) a + S1x8.size a ≤ S8388608x8.size a := fun v145 k1_hw19 => k1_hw19.1
theorem k1_off83_inb : ∀ (v145 : BitVec 32) (k1_hw19 : k1_chk19 v145), ∀ a, (k1_off83 v145) a + S1x8.size a ≤ S8388608x8.size a := fun v145 k1_hw19 => k1_hw19.2

def k1_off84 (v153 : BitVec 32) : Fin 2 → Nat :=
  let c0_i32_175 : BitVec 32 := 0#32
  ![v153.toNat, 0]

def k1_chk20 (v153 : BitVec 32) : Prop :=
  (∀ a, (k1_off40 v153) a + S1x8.size a ≤ S8388608x8.size a) ∧
  (∀ a, (k1_off84 v153) a + S1x8.size a ≤ S8388608x8.size a)
instance k1_chk20.dec : ∀ (v153 : BitVec 32), Decidable (k1_chk20 v153) := fun v153 => decidable_of_iff' _ (Iff.of_eq (k1_chk20.eq_1 v153))
theorem k1_off40_inb : ∀ (v153 : BitVec 32) (k1_hw20 : k1_chk20 v153), ∀ a, (k1_off40 v153) a + S1x8.size a ≤ S8388608x8.size a := fun v153 k1_hw20 => k1_hw20.1
theorem k1_off84_inb : ∀ (v153 : BitVec 32) (k1_hw20 : k1_chk20 v153), ∀ a, (k1_off84 v153) a + S1x8.size a ≤ S8388608x8.size a := fun v153 k1_hw20 => k1_hw20.2

def k1_off85 (v161 : BitVec 32) : Fin 2 → Nat :=
  let c0_i32_179 : BitVec 32 := 0#32
  ![v161.toNat, 0]

def k1_chk21 (v161 : BitVec 32) : Prop :=
  (∀ a, (k1_off42 v161) a + S1x8.size a ≤ S8388608x8.size a) ∧
  (∀ a, (k1_off85 v161) a + S1x8.size a ≤ S8388608x8.size a)
instance k1_chk21.dec : ∀ (v161 : BitVec 32), Decidable (k1_chk21 v161) := fun v161 => decidable_of_iff' _ (Iff.of_eq (k1_chk21.eq_1 v161))
theorem k1_off42_inb : ∀ (v161 : BitVec 32) (k1_hw21 : k1_chk21 v161), ∀ a, (k1_off42 v161) a + S1x8.size a ≤ S8388608x8.size a := fun v161 k1_hw21 => k1_hw21.1
theorem k1_off85_inb : ∀ (v161 : BitVec 32) (k1_hw21 : k1_chk21 v161), ∀ a, (k1_off85 v161) a + S1x8.size a ≤ S8388608x8.size a := fun v161 k1_hw21 => k1_hw21.2

def k1_off86 (v169 : BitVec 32) : Fin 2 → Nat :=
  let c0_i32_183 : BitVec 32 := 0#32
  ![v169.toNat, 0]

def k1_chk22 (v169 : BitVec 32) : Prop :=
  (∀ a, (k1_off44 v169) a + S1x8.size a ≤ S8388608x8.size a) ∧
  (∀ a, (k1_off86 v169) a + S1x8.size a ≤ S8388608x8.size a)
instance k1_chk22.dec : ∀ (v169 : BitVec 32), Decidable (k1_chk22 v169) := fun v169 => decidable_of_iff' _ (Iff.of_eq (k1_chk22.eq_1 v169))
theorem k1_off44_inb : ∀ (v169 : BitVec 32) (k1_hw22 : k1_chk22 v169), ∀ a, (k1_off44 v169) a + S1x8.size a ≤ S8388608x8.size a := fun v169 k1_hw22 => k1_hw22.1
theorem k1_off86_inb : ∀ (v169 : BitVec 32) (k1_hw22 : k1_chk22 v169), ∀ a, (k1_off86 v169) a + S1x8.size a ≤ S8388608x8.size a := fun v169 k1_hw22 => k1_hw22.2

def k1_off87 (v177 : BitVec 32) : Fin 2 → Nat :=
  let c0_i32_187 : BitVec 32 := 0#32
  ![v177.toNat, 0]

def k1_chk23 (v177 : BitVec 32) : Prop :=
  (∀ a, (k1_off46 v177) a + S1x8.size a ≤ S8388608x8.size a) ∧
  (∀ a, (k1_off87 v177) a + S1x8.size a ≤ S8388608x8.size a)
instance k1_chk23.dec : ∀ (v177 : BitVec 32), Decidable (k1_chk23 v177) := fun v177 => decidable_of_iff' _ (Iff.of_eq (k1_chk23.eq_1 v177))
theorem k1_off46_inb : ∀ (v177 : BitVec 32) (k1_hw23 : k1_chk23 v177), ∀ a, (k1_off46 v177) a + S1x8.size a ≤ S8388608x8.size a := fun v177 k1_hw23 => k1_hw23.1
theorem k1_off87_inb : ∀ (v177 : BitVec 32) (k1_hw23 : k1_chk23 v177), ∀ a, (k1_off87 v177) a + S1x8.size a ≤ S8388608x8.size a := fun v177 k1_hw23 => k1_hw23.2

def k1_off88 (v185 : BitVec 32) : Fin 2 → Nat :=
  let c0_i32_191 : BitVec 32 := 0#32
  ![v185.toNat, 0]

def k1_chk24 (v185 : BitVec 32) : Prop :=
  (∀ a, (k1_off48 v185) a + S1x8.size a ≤ S8388608x8.size a) ∧
  (∀ a, (k1_off88 v185) a + S1x8.size a ≤ S8388608x8.size a)
instance k1_chk24.dec : ∀ (v185 : BitVec 32), Decidable (k1_chk24 v185) := fun v185 => decidable_of_iff' _ (Iff.of_eq (k1_chk24.eq_1 v185))
theorem k1_off48_inb : ∀ (v185 : BitVec 32) (k1_hw24 : k1_chk24 v185), ∀ a, (k1_off48 v185) a + S1x8.size a ≤ S8388608x8.size a := fun v185 k1_hw24 => k1_hw24.1
theorem k1_off88_inb : ∀ (v185 : BitVec 32) (k1_hw24 : k1_chk24 v185), ∀ a, (k1_off88 v185) a + S1x8.size a ≤ S8388608x8.size a := fun v185 k1_hw24 => k1_hw24.2

def k1_off89 (v193 : BitVec 32) : Fin 2 → Nat :=
  let c0_i32_195 : BitVec 32 := 0#32
  ![v193.toNat, 0]

def k1_chk25 (v193 : BitVec 32) : Prop :=
  (∀ a, (k1_off50 v193) a + S1x8.size a ≤ S8388608x8.size a) ∧
  (∀ a, (k1_off89 v193) a + S1x8.size a ≤ S8388608x8.size a)
instance k1_chk25.dec : ∀ (v193 : BitVec 32), Decidable (k1_chk25 v193) := fun v193 => decidable_of_iff' _ (Iff.of_eq (k1_chk25.eq_1 v193))
theorem k1_off50_inb : ∀ (v193 : BitVec 32) (k1_hw25 : k1_chk25 v193), ∀ a, (k1_off50 v193) a + S1x8.size a ≤ S8388608x8.size a := fun v193 k1_hw25 => k1_hw25.1
theorem k1_off89_inb : ∀ (v193 : BitVec 32) (k1_hw25 : k1_chk25 v193), ∀ a, (k1_off89 v193) a + S1x8.size a ≤ S8388608x8.size a := fun v193 k1_hw25 => k1_hw25.2

def k1_off90 (v201 : BitVec 32) : Fin 2 → Nat :=
  let c0_i32_199 : BitVec 32 := 0#32
  ![v201.toNat, 0]

def k1_chk26 (v201 : BitVec 32) : Prop :=
  (∀ a, (k1_off52 v201) a + S1x8.size a ≤ S8388608x8.size a) ∧
  (∀ a, (k1_off90 v201) a + S1x8.size a ≤ S8388608x8.size a)
instance k1_chk26.dec : ∀ (v201 : BitVec 32), Decidable (k1_chk26 v201) := fun v201 => decidable_of_iff' _ (Iff.of_eq (k1_chk26.eq_1 v201))
theorem k1_off52_inb : ∀ (v201 : BitVec 32) (k1_hw26 : k1_chk26 v201), ∀ a, (k1_off52 v201) a + S1x8.size a ≤ S8388608x8.size a := fun v201 k1_hw26 => k1_hw26.1
theorem k1_off90_inb : ∀ (v201 : BitVec 32) (k1_hw26 : k1_chk26 v201), ∀ a, (k1_off90 v201) a + S1x8.size a ≤ S8388608x8.size a := fun v201 k1_hw26 => k1_hw26.2

def k1_off91 (v209 : BitVec 32) : Fin 2 → Nat :=
  let c0_i32_203 : BitVec 32 := 0#32
  ![v209.toNat, 0]

def k1_chk27 (v209 : BitVec 32) : Prop :=
  (∀ a, (k1_off54 v209) a + S1x8.size a ≤ S8388608x8.size a) ∧
  (∀ a, (k1_off91 v209) a + S1x8.size a ≤ S8388608x8.size a)
instance k1_chk27.dec : ∀ (v209 : BitVec 32), Decidable (k1_chk27 v209) := fun v209 => decidable_of_iff' _ (Iff.of_eq (k1_chk27.eq_1 v209))
theorem k1_off54_inb : ∀ (v209 : BitVec 32) (k1_hw27 : k1_chk27 v209), ∀ a, (k1_off54 v209) a + S1x8.size a ≤ S8388608x8.size a := fun v209 k1_hw27 => k1_hw27.1
theorem k1_off91_inb : ∀ (v209 : BitVec 32) (k1_hw27 : k1_chk27 v209), ∀ a, (k1_off91 v209) a + S1x8.size a ≤ S8388608x8.size a := fun v209 k1_hw27 => k1_hw27.2

def k1_off92 (v217 : BitVec 32) : Fin 2 → Nat :=
  let c0_i32_207 : BitVec 32 := 0#32
  ![v217.toNat, 0]

def k1_chk28 (v217 : BitVec 32) : Prop :=
  (∀ a, (k1_off56 v217) a + S1x8.size a ≤ S8388608x8.size a) ∧
  (∀ a, (k1_off92 v217) a + S1x8.size a ≤ S8388608x8.size a)
instance k1_chk28.dec : ∀ (v217 : BitVec 32), Decidable (k1_chk28 v217) := fun v217 => decidable_of_iff' _ (Iff.of_eq (k1_chk28.eq_1 v217))
theorem k1_off56_inb : ∀ (v217 : BitVec 32) (k1_hw28 : k1_chk28 v217), ∀ a, (k1_off56 v217) a + S1x8.size a ≤ S8388608x8.size a := fun v217 k1_hw28 => k1_hw28.1
theorem k1_off92_inb : ∀ (v217 : BitVec 32) (k1_hw28 : k1_chk28 v217), ∀ a, (k1_off92 v217) a + S1x8.size a ≤ S8388608x8.size a := fun v217 k1_hw28 => k1_hw28.2

def k1_off93 (v225 : BitVec 32) : Fin 2 → Nat :=
  let c0_i32_211 : BitVec 32 := 0#32
  ![v225.toNat, 0]

def k1_chk29 (v225 : BitVec 32) : Prop :=
  (∀ a, (k1_off58 v225) a + S1x8.size a ≤ S8388608x8.size a) ∧
  (∀ a, (k1_off93 v225) a + S1x8.size a ≤ S8388608x8.size a)
instance k1_chk29.dec : ∀ (v225 : BitVec 32), Decidable (k1_chk29 v225) := fun v225 => decidable_of_iff' _ (Iff.of_eq (k1_chk29.eq_1 v225))
theorem k1_off58_inb : ∀ (v225 : BitVec 32) (k1_hw29 : k1_chk29 v225), ∀ a, (k1_off58 v225) a + S1x8.size a ≤ S8388608x8.size a := fun v225 k1_hw29 => k1_hw29.1
theorem k1_off93_inb : ∀ (v225 : BitVec 32) (k1_hw29 : k1_chk29 v225), ∀ a, (k1_off93 v225) a + S1x8.size a ≤ S8388608x8.size a := fun v225 k1_hw29 => k1_hw29.2

def k1_off94 (v233 : BitVec 32) : Fin 2 → Nat :=
  let c0_i32_215 : BitVec 32 := 0#32
  ![v233.toNat, 0]

def k1_chk30 (v233 : BitVec 32) : Prop :=
  (∀ a, (k1_off60 v233) a + S1x8.size a ≤ S8388608x8.size a) ∧
  (∀ a, (k1_off94 v233) a + S1x8.size a ≤ S8388608x8.size a)
instance k1_chk30.dec : ∀ (v233 : BitVec 32), Decidable (k1_chk30 v233) := fun v233 => decidable_of_iff' _ (Iff.of_eq (k1_chk30.eq_1 v233))
theorem k1_off60_inb : ∀ (v233 : BitVec 32) (k1_hw30 : k1_chk30 v233), ∀ a, (k1_off60 v233) a + S1x8.size a ≤ S8388608x8.size a := fun v233 k1_hw30 => k1_hw30.1
theorem k1_off94_inb : ∀ (v233 : BitVec 32) (k1_hw30 : k1_chk30 v233), ∀ a, (k1_off94 v233) a + S1x8.size a ≤ S8388608x8.size a := fun v233 k1_hw30 => k1_hw30.2

def k1_off95 (v241 : BitVec 32) : Fin 2 → Nat :=
  let c0_i32_219 : BitVec 32 := 0#32
  ![v241.toNat, 0]

def k1_chk31 (v241 : BitVec 32) : Prop :=
  (∀ a, (k1_off62 v241) a + S1x8.size a ≤ S8388608x8.size a) ∧
  (∀ a, (k1_off95 v241) a + S1x8.size a ≤ S8388608x8.size a)
instance k1_chk31.dec : ∀ (v241 : BitVec 32), Decidable (k1_chk31 v241) := fun v241 => decidable_of_iff' _ (Iff.of_eq (k1_chk31.eq_1 v241))
theorem k1_off62_inb : ∀ (v241 : BitVec 32) (k1_hw31 : k1_chk31 v241), ∀ a, (k1_off62 v241) a + S1x8.size a ≤ S8388608x8.size a := fun v241 k1_hw31 => k1_hw31.1
theorem k1_off95_inb : ∀ (v241 : BitVec 32) (k1_hw31 : k1_chk31 v241), ∀ a, (k1_off95 v241) a + S1x8.size a ≤ S8388608x8.size a := fun v241 k1_hw31 => k1_hw31.2

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![1023], ![false]⟩

abbrev pre2 : Pipeline.Prefetch sig := ⟨1, ![main_v37.idx], fun | 0 => main_v37.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let c0 : Index := 0#32
  let arg0 : BitVec 32 := BitVec.ofNat 32 (i 0).val
  let v0 : Index := Scalar.indexCast arg0
  ![0, v0.toNat]
def k2_off2 (v1 : BitVec 32) : Fin 2 → Nat :=
  let c0_i32_2 : BitVec 32 := 0#32
  ![v1.toNat, 0]

def k2_off3 (i : grid2.Coords) : Fin 2 → Nat :=
  let c1 : Index := 1#32
  let arg0 : BitVec 32 := BitVec.ofNat 32 (i 0).val
  let v8 : Index := Scalar.indexCast arg0
  ![1, v8.toNat]
def k2_off4 (v9 : BitVec 32) : Fin 2 → Nat :=
  let c0_i32_5 : BitVec 32 := 0#32
  ![v9.toNat, 0]

def k2_off5 (i : grid2.Coords) : Fin 2 → Nat :=
  let c2 : Index := 2#32
  let arg0 : BitVec 32 := BitVec.ofNat 32 (i 0).val
  let v16 : Index := Scalar.indexCast arg0
  ![2, v16.toNat]
def k2_off6 (v17 : BitVec 32) : Fin 2 → Nat :=
  let c0_i32_8 : BitVec 32 := 0#32
  ![v17.toNat, 0]

def k2_off7 (i : grid2.Coords) : Fin 2 → Nat :=
  let c3 : Index := 3#32
  let arg0 : BitVec 32 := BitVec.ofNat 32 (i 0).val
  let v24 : Index := Scalar.indexCast arg0
  ![3, v24.toNat]
def k2_off8 (v25 : BitVec 32) : Fin 2 → Nat :=
  let c0_i32_11 : BitVec 32 := 0#32
  ![v25.toNat, 0]

def k2_off9 (i : grid2.Coords) : Fin 2 → Nat :=
  let c4 : Index := 4#32
  let arg0 : BitVec 32 := BitVec.ofNat 32 (i 0).val
  let v32 : Index := Scalar.indexCast arg0
  ![4, v32.toNat]
def k2_off10 (v33 : BitVec 32) : Fin 2 → Nat :=
  let c0_i32_14 : BitVec 32 := 0#32
  ![v33.toNat, 0]

def k2_off11 (i : grid2.Coords) : Fin 2 → Nat :=
  let c5 : Index := 5#32
  let arg0 : BitVec 32 := BitVec.ofNat 32 (i 0).val
  let v40 : Index := Scalar.indexCast arg0
  ![5, v40.toNat]
def k2_off12 (v41 : BitVec 32) : Fin 2 → Nat :=
  let c0_i32_17 : BitVec 32 := 0#32
  ![v41.toNat, 0]

def k2_off13 (i : grid2.Coords) : Fin 2 → Nat :=
  let c6 : Index := 6#32
  let arg0 : BitVec 32 := BitVec.ofNat 32 (i 0).val
  let v48 : Index := Scalar.indexCast arg0
  ![6, v48.toNat]
def k2_off14 (v49 : BitVec 32) : Fin 2 → Nat :=
  let c0_i32_20 : BitVec 32 := 0#32
  ![v49.toNat, 0]

def k2_off15 (i : grid2.Coords) : Fin 2 → Nat :=
  let c7 : Index := 7#32
  let arg0 : BitVec 32 := BitVec.ofNat 32 (i 0).val
  let v56 : Index := Scalar.indexCast arg0
  ![7, v56.toNat]
def k2_off16 (v57 : BitVec 32) : Fin 2 → Nat :=
  let c0_i32_23 : BitVec 32 := 0#32
  ![v57.toNat, 0]

def k2_off17 (i : grid2.Coords) : Fin 2 → Nat :=
  let c8 : Index := 8#32
  let arg0 : BitVec 32 := BitVec.ofNat 32 (i 0).val
  let v64 : Index := Scalar.indexCast arg0
  ![8, v64.toNat]
def k2_off18 (v65 : BitVec 32) : Fin 2 → Nat :=
  let c0_i32_26 : BitVec 32 := 0#32
  ![v65.toNat, 0]

def k2_off19 (i : grid2.Coords) : Fin 2 → Nat :=
  let c9 : Index := 9#32
  let arg0 : BitVec 32 := BitVec.ofNat 32 (i 0).val
  let v72 : Index := Scalar.indexCast arg0
  ![9, v72.toNat]
def k2_off20 (v73 : BitVec 32) : Fin 2 → Nat :=
  let c0_i32_29 : BitVec 32 := 0#32
  ![v73.toNat, 0]

def k2_off21 (i : grid2.Coords) : Fin 2 → Nat :=
  let c10 : Index := 10#32
  let arg0 : BitVec 32 := BitVec.ofNat 32 (i 0).val
  let v80 : Index := Scalar.indexCast arg0
  ![10, v80.toNat]
def k2_off22 (v81 : BitVec 32) : Fin 2 → Nat :=
  let c0_i32_32 : BitVec 32 := 0#32
  ![v81.toNat, 0]

def k2_off23 (i : grid2.Coords) : Fin 2 → Nat :=
  let c11 : Index := 11#32
  let arg0 : BitVec 32 := BitVec.ofNat 32 (i 0).val
  let v88 : Index := Scalar.indexCast arg0
  ![11, v88.toNat]
def k2_off24 (v89 : BitVec 32) : Fin 2 → Nat :=
  let c0_i32_35 : BitVec 32 := 0#32
  ![v89.toNat, 0]

def k2_off25 (i : grid2.Coords) : Fin 2 → Nat :=
  let c12 : Index := 12#32
  let arg0 : BitVec 32 := BitVec.ofNat 32 (i 0).val
  let v96 : Index := Scalar.indexCast arg0
  ![12, v96.toNat]
def k2_off26 (v97 : BitVec 32) : Fin 2 → Nat :=
  let c0_i32_38 : BitVec 32 := 0#32
  ![v97.toNat, 0]

def k2_off27 (i : grid2.Coords) : Fin 2 → Nat :=
  let c13 : Index := 13#32
  let arg0 : BitVec 32 := BitVec.ofNat 32 (i 0).val
  let v104 : Index := Scalar.indexCast arg0
  ![13, v104.toNat]
def k2_off28 (v105 : BitVec 32) : Fin 2 → Nat :=
  let c0_i32_41 : BitVec 32 := 0#32
  ![v105.toNat, 0]

def k2_off29 (i : grid2.Coords) : Fin 2 → Nat :=
  let c14 : Index := 14#32
  let arg0 : BitVec 32 := BitVec.ofNat 32 (i 0).val
  let v112 : Index := Scalar.indexCast arg0
  ![14, v112.toNat]
def k2_off30 (v113 : BitVec 32) : Fin 2 → Nat :=
  let c0_i32_44 : BitVec 32 := 0#32
  ![v113.toNat, 0]

def k2_off31 (i : grid2.Coords) : Fin 2 → Nat :=
  let c15 : Index := 15#32
  let arg0 : BitVec 32 := BitVec.ofNat 32 (i 0).val
  let v120 : Index := Scalar.indexCast arg0
  ![15, v120.toNat]
def k2_off32 (v121 : BitVec 32) : Fin 2 → Nat :=
  let c0_i32_47 : BitVec 32 := 0#32
  ![v121.toNat, 0]

def k2_off33 (i : grid2.Coords) : Fin 2 → Nat :=
  let c16 : Index := 16#32
  let arg0 : BitVec 32 := BitVec.ofNat 32 (i 0).val
  let v128 : Index := Scalar.indexCast arg0
  ![16, v128.toNat]
def k2_off34 (v129 : BitVec 32) : Fin 2 → Nat :=
  let c0_i32_50 : BitVec 32 := 0#32
  ![v129.toNat, 0]

def k2_off35 (i : grid2.Coords) : Fin 2 → Nat :=
  let c17 : Index := 17#32
  let arg0 : BitVec 32 := BitVec.ofNat 32 (i 0).val
  let v136 : Index := Scalar.indexCast arg0
  ![17, v136.toNat]
def k2_off36 (v137 : BitVec 32) : Fin 2 → Nat :=
  let c0_i32_53 : BitVec 32 := 0#32
  ![v137.toNat, 0]

def k2_off37 (i : grid2.Coords) : Fin 2 → Nat :=
  let c18 : Index := 18#32
  let arg0 : BitVec 32 := BitVec.ofNat 32 (i 0).val
  let v144 : Index := Scalar.indexCast arg0
  ![18, v144.toNat]
def k2_off38 (v145 : BitVec 32) : Fin 2 → Nat :=
  let c0_i32_56 : BitVec 32 := 0#32
  ![v145.toNat, 0]

def k2_off39 (i : grid2.Coords) : Fin 2 → Nat :=
  let c19 : Index := 19#32
  let arg0 : BitVec 32 := BitVec.ofNat 32 (i 0).val
  let v152 : Index := Scalar.indexCast arg0
  ![19, v152.toNat]
def k2_off40 (v153 : BitVec 32) : Fin 2 → Nat :=
  let c0_i32_59 : BitVec 32 := 0#32
  ![v153.toNat, 0]

def k2_off41 (i : grid2.Coords) : Fin 2 → Nat :=
  let c20 : Index := 20#32
  let arg0 : BitVec 32 := BitVec.ofNat 32 (i 0).val
  let v160 : Index := Scalar.indexCast arg0
  ![20, v160.toNat]
def k2_off42 (v161 : BitVec 32) : Fin 2 → Nat :=
  let c0_i32_62 : BitVec 32 := 0#32
  ![v161.toNat, 0]

def k2_off43 (i : grid2.Coords) : Fin 2 → Nat :=
  let c21 : Index := 21#32
  let arg0 : BitVec 32 := BitVec.ofNat 32 (i 0).val
  let v168 : Index := Scalar.indexCast arg0
  ![21, v168.toNat]
def k2_off44 (v169 : BitVec 32) : Fin 2 → Nat :=
  let c0_i32_65 : BitVec 32 := 0#32
  ![v169.toNat, 0]

def k2_off45 (i : grid2.Coords) : Fin 2 → Nat :=
  let c22 : Index := 22#32
  let arg0 : BitVec 32 := BitVec.ofNat 32 (i 0).val
  let v176 : Index := Scalar.indexCast arg0
  ![22, v176.toNat]
def k2_off46 (v177 : BitVec 32) : Fin 2 → Nat :=
  let c0_i32_68 : BitVec 32 := 0#32
  ![v177.toNat, 0]

def k2_off47 (i : grid2.Coords) : Fin 2 → Nat :=
  let c23 : Index := 23#32
  let arg0 : BitVec 32 := BitVec.ofNat 32 (i 0).val
  let v184 : Index := Scalar.indexCast arg0
  ![23, v184.toNat]
def k2_off48 (v185 : BitVec 32) : Fin 2 → Nat :=
  let c0_i32_71 : BitVec 32 := 0#32
  ![v185.toNat, 0]

def k2_off49 (i : grid2.Coords) : Fin 2 → Nat :=
  let c24 : Index := 24#32
  let arg0 : BitVec 32 := BitVec.ofNat 32 (i 0).val
  let v192 : Index := Scalar.indexCast arg0
  ![24, v192.toNat]
def k2_off50 (v193 : BitVec 32) : Fin 2 → Nat :=
  let c0_i32_74 : BitVec 32 := 0#32
  ![v193.toNat, 0]

def k2_off51 (i : grid2.Coords) : Fin 2 → Nat :=
  let c25 : Index := 25#32
  let arg0 : BitVec 32 := BitVec.ofNat 32 (i 0).val
  let v200 : Index := Scalar.indexCast arg0
  ![25, v200.toNat]
def k2_off52 (v201 : BitVec 32) : Fin 2 → Nat :=
  let c0_i32_77 : BitVec 32 := 0#32
  ![v201.toNat, 0]

def k2_off53 (i : grid2.Coords) : Fin 2 → Nat :=
  let c26 : Index := 26#32
  let arg0 : BitVec 32 := BitVec.ofNat 32 (i 0).val
  let v208 : Index := Scalar.indexCast arg0
  ![26, v208.toNat]
def k2_off54 (v209 : BitVec 32) : Fin 2 → Nat :=
  let c0_i32_80 : BitVec 32 := 0#32
  ![v209.toNat, 0]

def k2_off55 (i : grid2.Coords) : Fin 2 → Nat :=
  let c27 : Index := 27#32
  let arg0 : BitVec 32 := BitVec.ofNat 32 (i 0).val
  let v216 : Index := Scalar.indexCast arg0
  ![27, v216.toNat]
def k2_off56 (v217 : BitVec 32) : Fin 2 → Nat :=
  let c0_i32_83 : BitVec 32 := 0#32
  ![v217.toNat, 0]

def k2_off57 (i : grid2.Coords) : Fin 2 → Nat :=
  let c28 : Index := 28#32
  let arg0 : BitVec 32 := BitVec.ofNat 32 (i 0).val
  let v224 : Index := Scalar.indexCast arg0
  ![28, v224.toNat]
def k2_off58 (v225 : BitVec 32) : Fin 2 → Nat :=
  let c0_i32_86 : BitVec 32 := 0#32
  ![v225.toNat, 0]

def k2_off59 (i : grid2.Coords) : Fin 2 → Nat :=
  let c29 : Index := 29#32
  let arg0 : BitVec 32 := BitVec.ofNat 32 (i 0).val
  let v232 : Index := Scalar.indexCast arg0
  ![29, v232.toNat]
def k2_off60 (v233 : BitVec 32) : Fin 2 → Nat :=
  let c0_i32_89 : BitVec 32 := 0#32
  ![v233.toNat, 0]

def k2_off61 (i : grid2.Coords) : Fin 2 → Nat :=
  let c30 : Index := 30#32
  let arg0 : BitVec 32 := BitVec.ofNat 32 (i 0).val
  let v240 : Index := Scalar.indexCast arg0
  ![30, v240.toNat]
def k2_off62 (v241 : BitVec 32) : Fin 2 → Nat :=
  let c0_i32_92 : BitVec 32 := 0#32
  ![v241.toNat, 0]

def k2_off63 (i : grid2.Coords) : Fin 2 → Nat :=
  let c31 : Index := 31#32
  let arg0 : BitVec 32 := BitVec.ofNat 32 (i 0).val
  let v248 : Index := Scalar.indexCast arg0
  ![31, v248.toNat]
def k2_off64 (v249 : BitVec 32) : Fin 2 → Nat :=
  let c0_i32_95 : BitVec 32 := 0#32
  ![v249.toNat, 0]

def k2_chk32 (v249 : BitVec 32) : Prop :=
  (∀ a, (k2_off64 v249) a + S1x8.size a ≤ S8388608x8.size a)
instance k2_chk32.dec : ∀ (v249 : BitVec 32), Decidable (k2_chk32 v249) := fun v249 => decidable_of_iff' _ (Iff.of_eq (k2_chk32.eq_1 v249))
theorem k2_off64_inb : ∀ (v249 : BitVec 32) (k2_hw32 : k2_chk32 v249), ∀ a, (k2_off64 v249) a + S1x8.size a ≤ S8388608x8.size a := fun v249 k2_hw32 => k2_hw32

def k2_off65 (v1 : BitVec 32) : Fin 2 → Nat :=
  let c0_i32_99 : BitVec 32 := 0#32
  ![v1.toNat, 0]

def k2_chk1 (v1 : BitVec 32) : Prop :=
  (∀ a, (k2_off2 v1) a + S1x8.size a ≤ S8388608x8.size a) ∧
  (∀ a, (k2_off65 v1) a + S1x8.size a ≤ S8388608x8.size a)
instance k2_chk1.dec : ∀ (v1 : BitVec 32), Decidable (k2_chk1 v1) := fun v1 => decidable_of_iff' _ (Iff.of_eq (k2_chk1.eq_1 v1))
theorem k2_off2_inb : ∀ (v1 : BitVec 32) (k2_hw1 : k2_chk1 v1), ∀ a, (k2_off2 v1) a + S1x8.size a ≤ S8388608x8.size a := fun v1 k2_hw1 => k2_hw1.1
theorem k2_off65_inb : ∀ (v1 : BitVec 32) (k2_hw1 : k2_chk1 v1), ∀ a, (k2_off65 v1) a + S1x8.size a ≤ S8388608x8.size a := fun v1 k2_hw1 => k2_hw1.2

def k2_off66 (v9 : BitVec 32) : Fin 2 → Nat :=
  let c0_i32_103 : BitVec 32 := 0#32
  ![v9.toNat, 0]

def k2_chk2 (v9 : BitVec 32) : Prop :=
  (∀ a, (k2_off4 v9) a + S1x8.size a ≤ S8388608x8.size a) ∧
  (∀ a, (k2_off66 v9) a + S1x8.size a ≤ S8388608x8.size a)
instance k2_chk2.dec : ∀ (v9 : BitVec 32), Decidable (k2_chk2 v9) := fun v9 => decidable_of_iff' _ (Iff.of_eq (k2_chk2.eq_1 v9))
theorem k2_off4_inb : ∀ (v9 : BitVec 32) (k2_hw2 : k2_chk2 v9), ∀ a, (k2_off4 v9) a + S1x8.size a ≤ S8388608x8.size a := fun v9 k2_hw2 => k2_hw2.1
theorem k2_off66_inb : ∀ (v9 : BitVec 32) (k2_hw2 : k2_chk2 v9), ∀ a, (k2_off66 v9) a + S1x8.size a ≤ S8388608x8.size a := fun v9 k2_hw2 => k2_hw2.2

def k2_off67 (v17 : BitVec 32) : Fin 2 → Nat :=
  let c0_i32_107 : BitVec 32 := 0#32
  ![v17.toNat, 0]

def k2_chk3 (v17 : BitVec 32) : Prop :=
  (∀ a, (k2_off6 v17) a + S1x8.size a ≤ S8388608x8.size a) ∧
  (∀ a, (k2_off67 v17) a + S1x8.size a ≤ S8388608x8.size a)
instance k2_chk3.dec : ∀ (v17 : BitVec 32), Decidable (k2_chk3 v17) := fun v17 => decidable_of_iff' _ (Iff.of_eq (k2_chk3.eq_1 v17))
theorem k2_off6_inb : ∀ (v17 : BitVec 32) (k2_hw3 : k2_chk3 v17), ∀ a, (k2_off6 v17) a + S1x8.size a ≤ S8388608x8.size a := fun v17 k2_hw3 => k2_hw3.1
theorem k2_off67_inb : ∀ (v17 : BitVec 32) (k2_hw3 : k2_chk3 v17), ∀ a, (k2_off67 v17) a + S1x8.size a ≤ S8388608x8.size a := fun v17 k2_hw3 => k2_hw3.2

def k2_off68 (v25 : BitVec 32) : Fin 2 → Nat :=
  let c0_i32_111 : BitVec 32 := 0#32
  ![v25.toNat, 0]

def k2_chk4 (v25 : BitVec 32) : Prop :=
  (∀ a, (k2_off8 v25) a + S1x8.size a ≤ S8388608x8.size a) ∧
  (∀ a, (k2_off68 v25) a + S1x8.size a ≤ S8388608x8.size a)
instance k2_chk4.dec : ∀ (v25 : BitVec 32), Decidable (k2_chk4 v25) := fun v25 => decidable_of_iff' _ (Iff.of_eq (k2_chk4.eq_1 v25))
theorem k2_off8_inb : ∀ (v25 : BitVec 32) (k2_hw4 : k2_chk4 v25), ∀ a, (k2_off8 v25) a + S1x8.size a ≤ S8388608x8.size a := fun v25 k2_hw4 => k2_hw4.1
theorem k2_off68_inb : ∀ (v25 : BitVec 32) (k2_hw4 : k2_chk4 v25), ∀ a, (k2_off68 v25) a + S1x8.size a ≤ S8388608x8.size a := fun v25 k2_hw4 => k2_hw4.2

def k2_off69 (v33 : BitVec 32) : Fin 2 → Nat :=
  let c0_i32_115 : BitVec 32 := 0#32
  ![v33.toNat, 0]

def k2_chk5 (v33 : BitVec 32) : Prop :=
  (∀ a, (k2_off10 v33) a + S1x8.size a ≤ S8388608x8.size a) ∧
  (∀ a, (k2_off69 v33) a + S1x8.size a ≤ S8388608x8.size a)
instance k2_chk5.dec : ∀ (v33 : BitVec 32), Decidable (k2_chk5 v33) := fun v33 => decidable_of_iff' _ (Iff.of_eq (k2_chk5.eq_1 v33))
theorem k2_off10_inb : ∀ (v33 : BitVec 32) (k2_hw5 : k2_chk5 v33), ∀ a, (k2_off10 v33) a + S1x8.size a ≤ S8388608x8.size a := fun v33 k2_hw5 => k2_hw5.1
theorem k2_off69_inb : ∀ (v33 : BitVec 32) (k2_hw5 : k2_chk5 v33), ∀ a, (k2_off69 v33) a + S1x8.size a ≤ S8388608x8.size a := fun v33 k2_hw5 => k2_hw5.2

def k2_off70 (v41 : BitVec 32) : Fin 2 → Nat :=
  let c0_i32_119 : BitVec 32 := 0#32
  ![v41.toNat, 0]

def k2_chk6 (v41 : BitVec 32) : Prop :=
  (∀ a, (k2_off12 v41) a + S1x8.size a ≤ S8388608x8.size a) ∧
  (∀ a, (k2_off70 v41) a + S1x8.size a ≤ S8388608x8.size a)
instance k2_chk6.dec : ∀ (v41 : BitVec 32), Decidable (k2_chk6 v41) := fun v41 => decidable_of_iff' _ (Iff.of_eq (k2_chk6.eq_1 v41))
theorem k2_off12_inb : ∀ (v41 : BitVec 32) (k2_hw6 : k2_chk6 v41), ∀ a, (k2_off12 v41) a + S1x8.size a ≤ S8388608x8.size a := fun v41 k2_hw6 => k2_hw6.1
theorem k2_off70_inb : ∀ (v41 : BitVec 32) (k2_hw6 : k2_chk6 v41), ∀ a, (k2_off70 v41) a + S1x8.size a ≤ S8388608x8.size a := fun v41 k2_hw6 => k2_hw6.2

def k2_off71 (v49 : BitVec 32) : Fin 2 → Nat :=
  let c0_i32_123 : BitVec 32 := 0#32
  ![v49.toNat, 0]

def k2_chk7 (v49 : BitVec 32) : Prop :=
  (∀ a, (k2_off14 v49) a + S1x8.size a ≤ S8388608x8.size a) ∧
  (∀ a, (k2_off71 v49) a + S1x8.size a ≤ S8388608x8.size a)
instance k2_chk7.dec : ∀ (v49 : BitVec 32), Decidable (k2_chk7 v49) := fun v49 => decidable_of_iff' _ (Iff.of_eq (k2_chk7.eq_1 v49))
theorem k2_off14_inb : ∀ (v49 : BitVec 32) (k2_hw7 : k2_chk7 v49), ∀ a, (k2_off14 v49) a + S1x8.size a ≤ S8388608x8.size a := fun v49 k2_hw7 => k2_hw7.1
theorem k2_off71_inb : ∀ (v49 : BitVec 32) (k2_hw7 : k2_chk7 v49), ∀ a, (k2_off71 v49) a + S1x8.size a ≤ S8388608x8.size a := fun v49 k2_hw7 => k2_hw7.2

def k2_off72 (v57 : BitVec 32) : Fin 2 → Nat :=
  let c0_i32_127 : BitVec 32 := 0#32
  ![v57.toNat, 0]

def k2_chk8 (v57 : BitVec 32) : Prop :=
  (∀ a, (k2_off16 v57) a + S1x8.size a ≤ S8388608x8.size a) ∧
  (∀ a, (k2_off72 v57) a + S1x8.size a ≤ S8388608x8.size a)
instance k2_chk8.dec : ∀ (v57 : BitVec 32), Decidable (k2_chk8 v57) := fun v57 => decidable_of_iff' _ (Iff.of_eq (k2_chk8.eq_1 v57))
theorem k2_off16_inb : ∀ (v57 : BitVec 32) (k2_hw8 : k2_chk8 v57), ∀ a, (k2_off16 v57) a + S1x8.size a ≤ S8388608x8.size a := fun v57 k2_hw8 => k2_hw8.1
theorem k2_off72_inb : ∀ (v57 : BitVec 32) (k2_hw8 : k2_chk8 v57), ∀ a, (k2_off72 v57) a + S1x8.size a ≤ S8388608x8.size a := fun v57 k2_hw8 => k2_hw8.2

def k2_off73 (v65 : BitVec 32) : Fin 2 → Nat :=
  let c0_i32_131 : BitVec 32 := 0#32
  ![v65.toNat, 0]

def k2_chk9 (v65 : BitVec 32) : Prop :=
  (∀ a, (k2_off18 v65) a + S1x8.size a ≤ S8388608x8.size a) ∧
  (∀ a, (k2_off73 v65) a + S1x8.size a ≤ S8388608x8.size a)
instance k2_chk9.dec : ∀ (v65 : BitVec 32), Decidable (k2_chk9 v65) := fun v65 => decidable_of_iff' _ (Iff.of_eq (k2_chk9.eq_1 v65))
theorem k2_off18_inb : ∀ (v65 : BitVec 32) (k2_hw9 : k2_chk9 v65), ∀ a, (k2_off18 v65) a + S1x8.size a ≤ S8388608x8.size a := fun v65 k2_hw9 => k2_hw9.1
theorem k2_off73_inb : ∀ (v65 : BitVec 32) (k2_hw9 : k2_chk9 v65), ∀ a, (k2_off73 v65) a + S1x8.size a ≤ S8388608x8.size a := fun v65 k2_hw9 => k2_hw9.2

def k2_off74 (v73 : BitVec 32) : Fin 2 → Nat :=
  let c0_i32_135 : BitVec 32 := 0#32
  ![v73.toNat, 0]

def k2_chk10 (v73 : BitVec 32) : Prop :=
  (∀ a, (k2_off20 v73) a + S1x8.size a ≤ S8388608x8.size a) ∧
  (∀ a, (k2_off74 v73) a + S1x8.size a ≤ S8388608x8.size a)
instance k2_chk10.dec : ∀ (v73 : BitVec 32), Decidable (k2_chk10 v73) := fun v73 => decidable_of_iff' _ (Iff.of_eq (k2_chk10.eq_1 v73))
theorem k2_off20_inb : ∀ (v73 : BitVec 32) (k2_hw10 : k2_chk10 v73), ∀ a, (k2_off20 v73) a + S1x8.size a ≤ S8388608x8.size a := fun v73 k2_hw10 => k2_hw10.1
theorem k2_off74_inb : ∀ (v73 : BitVec 32) (k2_hw10 : k2_chk10 v73), ∀ a, (k2_off74 v73) a + S1x8.size a ≤ S8388608x8.size a := fun v73 k2_hw10 => k2_hw10.2

def k2_off75 (v81 : BitVec 32) : Fin 2 → Nat :=
  let c0_i32_139 : BitVec 32 := 0#32
  ![v81.toNat, 0]

def k2_chk11 (v81 : BitVec 32) : Prop :=
  (∀ a, (k2_off22 v81) a + S1x8.size a ≤ S8388608x8.size a) ∧
  (∀ a, (k2_off75 v81) a + S1x8.size a ≤ S8388608x8.size a)
instance k2_chk11.dec : ∀ (v81 : BitVec 32), Decidable (k2_chk11 v81) := fun v81 => decidable_of_iff' _ (Iff.of_eq (k2_chk11.eq_1 v81))
theorem k2_off22_inb : ∀ (v81 : BitVec 32) (k2_hw11 : k2_chk11 v81), ∀ a, (k2_off22 v81) a + S1x8.size a ≤ S8388608x8.size a := fun v81 k2_hw11 => k2_hw11.1
theorem k2_off75_inb : ∀ (v81 : BitVec 32) (k2_hw11 : k2_chk11 v81), ∀ a, (k2_off75 v81) a + S1x8.size a ≤ S8388608x8.size a := fun v81 k2_hw11 => k2_hw11.2

def k2_off76 (v89 : BitVec 32) : Fin 2 → Nat :=
  let c0_i32_143 : BitVec 32 := 0#32
  ![v89.toNat, 0]

def k2_chk12 (v89 : BitVec 32) : Prop :=
  (∀ a, (k2_off24 v89) a + S1x8.size a ≤ S8388608x8.size a) ∧
  (∀ a, (k2_off76 v89) a + S1x8.size a ≤ S8388608x8.size a)
instance k2_chk12.dec : ∀ (v89 : BitVec 32), Decidable (k2_chk12 v89) := fun v89 => decidable_of_iff' _ (Iff.of_eq (k2_chk12.eq_1 v89))
theorem k2_off24_inb : ∀ (v89 : BitVec 32) (k2_hw12 : k2_chk12 v89), ∀ a, (k2_off24 v89) a + S1x8.size a ≤ S8388608x8.size a := fun v89 k2_hw12 => k2_hw12.1
theorem k2_off76_inb : ∀ (v89 : BitVec 32) (k2_hw12 : k2_chk12 v89), ∀ a, (k2_off76 v89) a + S1x8.size a ≤ S8388608x8.size a := fun v89 k2_hw12 => k2_hw12.2

def k2_off77 (v97 : BitVec 32) : Fin 2 → Nat :=
  let c0_i32_147 : BitVec 32 := 0#32
  ![v97.toNat, 0]

def k2_chk13 (v97 : BitVec 32) : Prop :=
  (∀ a, (k2_off26 v97) a + S1x8.size a ≤ S8388608x8.size a) ∧
  (∀ a, (k2_off77 v97) a + S1x8.size a ≤ S8388608x8.size a)
instance k2_chk13.dec : ∀ (v97 : BitVec 32), Decidable (k2_chk13 v97) := fun v97 => decidable_of_iff' _ (Iff.of_eq (k2_chk13.eq_1 v97))
theorem k2_off26_inb : ∀ (v97 : BitVec 32) (k2_hw13 : k2_chk13 v97), ∀ a, (k2_off26 v97) a + S1x8.size a ≤ S8388608x8.size a := fun v97 k2_hw13 => k2_hw13.1
theorem k2_off77_inb : ∀ (v97 : BitVec 32) (k2_hw13 : k2_chk13 v97), ∀ a, (k2_off77 v97) a + S1x8.size a ≤ S8388608x8.size a := fun v97 k2_hw13 => k2_hw13.2

def k2_off78 (v105 : BitVec 32) : Fin 2 → Nat :=
  let c0_i32_151 : BitVec 32 := 0#32
  ![v105.toNat, 0]

def k2_chk14 (v105 : BitVec 32) : Prop :=
  (∀ a, (k2_off28 v105) a + S1x8.size a ≤ S8388608x8.size a) ∧
  (∀ a, (k2_off78 v105) a + S1x8.size a ≤ S8388608x8.size a)
instance k2_chk14.dec : ∀ (v105 : BitVec 32), Decidable (k2_chk14 v105) := fun v105 => decidable_of_iff' _ (Iff.of_eq (k2_chk14.eq_1 v105))
theorem k2_off28_inb : ∀ (v105 : BitVec 32) (k2_hw14 : k2_chk14 v105), ∀ a, (k2_off28 v105) a + S1x8.size a ≤ S8388608x8.size a := fun v105 k2_hw14 => k2_hw14.1
theorem k2_off78_inb : ∀ (v105 : BitVec 32) (k2_hw14 : k2_chk14 v105), ∀ a, (k2_off78 v105) a + S1x8.size a ≤ S8388608x8.size a := fun v105 k2_hw14 => k2_hw14.2

def k2_off79 (v113 : BitVec 32) : Fin 2 → Nat :=
  let c0_i32_155 : BitVec 32 := 0#32
  ![v113.toNat, 0]

def k2_chk15 (v113 : BitVec 32) : Prop :=
  (∀ a, (k2_off30 v113) a + S1x8.size a ≤ S8388608x8.size a) ∧
  (∀ a, (k2_off79 v113) a + S1x8.size a ≤ S8388608x8.size a)
instance k2_chk15.dec : ∀ (v113 : BitVec 32), Decidable (k2_chk15 v113) := fun v113 => decidable_of_iff' _ (Iff.of_eq (k2_chk15.eq_1 v113))
theorem k2_off30_inb : ∀ (v113 : BitVec 32) (k2_hw15 : k2_chk15 v113), ∀ a, (k2_off30 v113) a + S1x8.size a ≤ S8388608x8.size a := fun v113 k2_hw15 => k2_hw15.1
theorem k2_off79_inb : ∀ (v113 : BitVec 32) (k2_hw15 : k2_chk15 v113), ∀ a, (k2_off79 v113) a + S1x8.size a ≤ S8388608x8.size a := fun v113 k2_hw15 => k2_hw15.2

def k2_off80 (v121 : BitVec 32) : Fin 2 → Nat :=
  let c0_i32_159 : BitVec 32 := 0#32
  ![v121.toNat, 0]

def k2_chk16 (v121 : BitVec 32) : Prop :=
  (∀ a, (k2_off32 v121) a + S1x8.size a ≤ S8388608x8.size a) ∧
  (∀ a, (k2_off80 v121) a + S1x8.size a ≤ S8388608x8.size a)
instance k2_chk16.dec : ∀ (v121 : BitVec 32), Decidable (k2_chk16 v121) := fun v121 => decidable_of_iff' _ (Iff.of_eq (k2_chk16.eq_1 v121))
theorem k2_off32_inb : ∀ (v121 : BitVec 32) (k2_hw16 : k2_chk16 v121), ∀ a, (k2_off32 v121) a + S1x8.size a ≤ S8388608x8.size a := fun v121 k2_hw16 => k2_hw16.1
theorem k2_off80_inb : ∀ (v121 : BitVec 32) (k2_hw16 : k2_chk16 v121), ∀ a, (k2_off80 v121) a + S1x8.size a ≤ S8388608x8.size a := fun v121 k2_hw16 => k2_hw16.2

def k2_off81 (v129 : BitVec 32) : Fin 2 → Nat :=
  let c0_i32_163 : BitVec 32 := 0#32
  ![v129.toNat, 0]

def k2_chk17 (v129 : BitVec 32) : Prop :=
  (∀ a, (k2_off34 v129) a + S1x8.size a ≤ S8388608x8.size a) ∧
  (∀ a, (k2_off81 v129) a + S1x8.size a ≤ S8388608x8.size a)
instance k2_chk17.dec : ∀ (v129 : BitVec 32), Decidable (k2_chk17 v129) := fun v129 => decidable_of_iff' _ (Iff.of_eq (k2_chk17.eq_1 v129))
theorem k2_off34_inb : ∀ (v129 : BitVec 32) (k2_hw17 : k2_chk17 v129), ∀ a, (k2_off34 v129) a + S1x8.size a ≤ S8388608x8.size a := fun v129 k2_hw17 => k2_hw17.1
theorem k2_off81_inb : ∀ (v129 : BitVec 32) (k2_hw17 : k2_chk17 v129), ∀ a, (k2_off81 v129) a + S1x8.size a ≤ S8388608x8.size a := fun v129 k2_hw17 => k2_hw17.2

def k2_off82 (v137 : BitVec 32) : Fin 2 → Nat :=
  let c0_i32_167 : BitVec 32 := 0#32
  ![v137.toNat, 0]

def k2_chk18 (v137 : BitVec 32) : Prop :=
  (∀ a, (k2_off36 v137) a + S1x8.size a ≤ S8388608x8.size a) ∧
  (∀ a, (k2_off82 v137) a + S1x8.size a ≤ S8388608x8.size a)
instance k2_chk18.dec : ∀ (v137 : BitVec 32), Decidable (k2_chk18 v137) := fun v137 => decidable_of_iff' _ (Iff.of_eq (k2_chk18.eq_1 v137))
theorem k2_off36_inb : ∀ (v137 : BitVec 32) (k2_hw18 : k2_chk18 v137), ∀ a, (k2_off36 v137) a + S1x8.size a ≤ S8388608x8.size a := fun v137 k2_hw18 => k2_hw18.1
theorem k2_off82_inb : ∀ (v137 : BitVec 32) (k2_hw18 : k2_chk18 v137), ∀ a, (k2_off82 v137) a + S1x8.size a ≤ S8388608x8.size a := fun v137 k2_hw18 => k2_hw18.2

def k2_off83 (v145 : BitVec 32) : Fin 2 → Nat :=
  let c0_i32_171 : BitVec 32 := 0#32
  ![v145.toNat, 0]

def k2_chk19 (v145 : BitVec 32) : Prop :=
  (∀ a, (k2_off38 v145) a + S1x8.size a ≤ S8388608x8.size a) ∧
  (∀ a, (k2_off83 v145) a + S1x8.size a ≤ S8388608x8.size a)
instance k2_chk19.dec : ∀ (v145 : BitVec 32), Decidable (k2_chk19 v145) := fun v145 => decidable_of_iff' _ (Iff.of_eq (k2_chk19.eq_1 v145))
theorem k2_off38_inb : ∀ (v145 : BitVec 32) (k2_hw19 : k2_chk19 v145), ∀ a, (k2_off38 v145) a + S1x8.size a ≤ S8388608x8.size a := fun v145 k2_hw19 => k2_hw19.1
theorem k2_off83_inb : ∀ (v145 : BitVec 32) (k2_hw19 : k2_chk19 v145), ∀ a, (k2_off83 v145) a + S1x8.size a ≤ S8388608x8.size a := fun v145 k2_hw19 => k2_hw19.2

def k2_off84 (v153 : BitVec 32) : Fin 2 → Nat :=
  let c0_i32_175 : BitVec 32 := 0#32
  ![v153.toNat, 0]

def k2_chk20 (v153 : BitVec 32) : Prop :=
  (∀ a, (k2_off40 v153) a + S1x8.size a ≤ S8388608x8.size a) ∧
  (∀ a, (k2_off84 v153) a + S1x8.size a ≤ S8388608x8.size a)
instance k2_chk20.dec : ∀ (v153 : BitVec 32), Decidable (k2_chk20 v153) := fun v153 => decidable_of_iff' _ (Iff.of_eq (k2_chk20.eq_1 v153))
theorem k2_off40_inb : ∀ (v153 : BitVec 32) (k2_hw20 : k2_chk20 v153), ∀ a, (k2_off40 v153) a + S1x8.size a ≤ S8388608x8.size a := fun v153 k2_hw20 => k2_hw20.1
theorem k2_off84_inb : ∀ (v153 : BitVec 32) (k2_hw20 : k2_chk20 v153), ∀ a, (k2_off84 v153) a + S1x8.size a ≤ S8388608x8.size a := fun v153 k2_hw20 => k2_hw20.2

def k2_off85 (v161 : BitVec 32) : Fin 2 → Nat :=
  let c0_i32_179 : BitVec 32 := 0#32
  ![v161.toNat, 0]

def k2_chk21 (v161 : BitVec 32) : Prop :=
  (∀ a, (k2_off42 v161) a + S1x8.size a ≤ S8388608x8.size a) ∧
  (∀ a, (k2_off85 v161) a + S1x8.size a ≤ S8388608x8.size a)
instance k2_chk21.dec : ∀ (v161 : BitVec 32), Decidable (k2_chk21 v161) := fun v161 => decidable_of_iff' _ (Iff.of_eq (k2_chk21.eq_1 v161))
theorem k2_off42_inb : ∀ (v161 : BitVec 32) (k2_hw21 : k2_chk21 v161), ∀ a, (k2_off42 v161) a + S1x8.size a ≤ S8388608x8.size a := fun v161 k2_hw21 => k2_hw21.1
theorem k2_off85_inb : ∀ (v161 : BitVec 32) (k2_hw21 : k2_chk21 v161), ∀ a, (k2_off85 v161) a + S1x8.size a ≤ S8388608x8.size a := fun v161 k2_hw21 => k2_hw21.2

def k2_off86 (v169 : BitVec 32) : Fin 2 → Nat :=
  let c0_i32_183 : BitVec 32 := 0#32
  ![v169.toNat, 0]

def k2_chk22 (v169 : BitVec 32) : Prop :=
  (∀ a, (k2_off44 v169) a + S1x8.size a ≤ S8388608x8.size a) ∧
  (∀ a, (k2_off86 v169) a + S1x8.size a ≤ S8388608x8.size a)
instance k2_chk22.dec : ∀ (v169 : BitVec 32), Decidable (k2_chk22 v169) := fun v169 => decidable_of_iff' _ (Iff.of_eq (k2_chk22.eq_1 v169))
theorem k2_off44_inb : ∀ (v169 : BitVec 32) (k2_hw22 : k2_chk22 v169), ∀ a, (k2_off44 v169) a + S1x8.size a ≤ S8388608x8.size a := fun v169 k2_hw22 => k2_hw22.1
theorem k2_off86_inb : ∀ (v169 : BitVec 32) (k2_hw22 : k2_chk22 v169), ∀ a, (k2_off86 v169) a + S1x8.size a ≤ S8388608x8.size a := fun v169 k2_hw22 => k2_hw22.2

def k2_off87 (v177 : BitVec 32) : Fin 2 → Nat :=
  let c0_i32_187 : BitVec 32 := 0#32
  ![v177.toNat, 0]

def k2_chk23 (v177 : BitVec 32) : Prop :=
  (∀ a, (k2_off46 v177) a + S1x8.size a ≤ S8388608x8.size a) ∧
  (∀ a, (k2_off87 v177) a + S1x8.size a ≤ S8388608x8.size a)
instance k2_chk23.dec : ∀ (v177 : BitVec 32), Decidable (k2_chk23 v177) := fun v177 => decidable_of_iff' _ (Iff.of_eq (k2_chk23.eq_1 v177))
theorem k2_off46_inb : ∀ (v177 : BitVec 32) (k2_hw23 : k2_chk23 v177), ∀ a, (k2_off46 v177) a + S1x8.size a ≤ S8388608x8.size a := fun v177 k2_hw23 => k2_hw23.1
theorem k2_off87_inb : ∀ (v177 : BitVec 32) (k2_hw23 : k2_chk23 v177), ∀ a, (k2_off87 v177) a + S1x8.size a ≤ S8388608x8.size a := fun v177 k2_hw23 => k2_hw23.2

def k2_off88 (v185 : BitVec 32) : Fin 2 → Nat :=
  let c0_i32_191 : BitVec 32 := 0#32
  ![v185.toNat, 0]

def k2_chk24 (v185 : BitVec 32) : Prop :=
  (∀ a, (k2_off48 v185) a + S1x8.size a ≤ S8388608x8.size a) ∧
  (∀ a, (k2_off88 v185) a + S1x8.size a ≤ S8388608x8.size a)
instance k2_chk24.dec : ∀ (v185 : BitVec 32), Decidable (k2_chk24 v185) := fun v185 => decidable_of_iff' _ (Iff.of_eq (k2_chk24.eq_1 v185))
theorem k2_off48_inb : ∀ (v185 : BitVec 32) (k2_hw24 : k2_chk24 v185), ∀ a, (k2_off48 v185) a + S1x8.size a ≤ S8388608x8.size a := fun v185 k2_hw24 => k2_hw24.1
theorem k2_off88_inb : ∀ (v185 : BitVec 32) (k2_hw24 : k2_chk24 v185), ∀ a, (k2_off88 v185) a + S1x8.size a ≤ S8388608x8.size a := fun v185 k2_hw24 => k2_hw24.2

def k2_off89 (v193 : BitVec 32) : Fin 2 → Nat :=
  let c0_i32_195 : BitVec 32 := 0#32
  ![v193.toNat, 0]

def k2_chk25 (v193 : BitVec 32) : Prop :=
  (∀ a, (k2_off50 v193) a + S1x8.size a ≤ S8388608x8.size a) ∧
  (∀ a, (k2_off89 v193) a + S1x8.size a ≤ S8388608x8.size a)
instance k2_chk25.dec : ∀ (v193 : BitVec 32), Decidable (k2_chk25 v193) := fun v193 => decidable_of_iff' _ (Iff.of_eq (k2_chk25.eq_1 v193))
theorem k2_off50_inb : ∀ (v193 : BitVec 32) (k2_hw25 : k2_chk25 v193), ∀ a, (k2_off50 v193) a + S1x8.size a ≤ S8388608x8.size a := fun v193 k2_hw25 => k2_hw25.1
theorem k2_off89_inb : ∀ (v193 : BitVec 32) (k2_hw25 : k2_chk25 v193), ∀ a, (k2_off89 v193) a + S1x8.size a ≤ S8388608x8.size a := fun v193 k2_hw25 => k2_hw25.2

def k2_off90 (v201 : BitVec 32) : Fin 2 → Nat :=
  let c0_i32_199 : BitVec 32 := 0#32
  ![v201.toNat, 0]

def k2_chk26 (v201 : BitVec 32) : Prop :=
  (∀ a, (k2_off52 v201) a + S1x8.size a ≤ S8388608x8.size a) ∧
  (∀ a, (k2_off90 v201) a + S1x8.size a ≤ S8388608x8.size a)
instance k2_chk26.dec : ∀ (v201 : BitVec 32), Decidable (k2_chk26 v201) := fun v201 => decidable_of_iff' _ (Iff.of_eq (k2_chk26.eq_1 v201))
theorem k2_off52_inb : ∀ (v201 : BitVec 32) (k2_hw26 : k2_chk26 v201), ∀ a, (k2_off52 v201) a + S1x8.size a ≤ S8388608x8.size a := fun v201 k2_hw26 => k2_hw26.1
theorem k2_off90_inb : ∀ (v201 : BitVec 32) (k2_hw26 : k2_chk26 v201), ∀ a, (k2_off90 v201) a + S1x8.size a ≤ S8388608x8.size a := fun v201 k2_hw26 => k2_hw26.2

def k2_off91 (v209 : BitVec 32) : Fin 2 → Nat :=
  let c0_i32_203 : BitVec 32 := 0#32
  ![v209.toNat, 0]

def k2_chk27 (v209 : BitVec 32) : Prop :=
  (∀ a, (k2_off54 v209) a + S1x8.size a ≤ S8388608x8.size a) ∧
  (∀ a, (k2_off91 v209) a + S1x8.size a ≤ S8388608x8.size a)
instance k2_chk27.dec : ∀ (v209 : BitVec 32), Decidable (k2_chk27 v209) := fun v209 => decidable_of_iff' _ (Iff.of_eq (k2_chk27.eq_1 v209))
theorem k2_off54_inb : ∀ (v209 : BitVec 32) (k2_hw27 : k2_chk27 v209), ∀ a, (k2_off54 v209) a + S1x8.size a ≤ S8388608x8.size a := fun v209 k2_hw27 => k2_hw27.1
theorem k2_off91_inb : ∀ (v209 : BitVec 32) (k2_hw27 : k2_chk27 v209), ∀ a, (k2_off91 v209) a + S1x8.size a ≤ S8388608x8.size a := fun v209 k2_hw27 => k2_hw27.2

def k2_off92 (v217 : BitVec 32) : Fin 2 → Nat :=
  let c0_i32_207 : BitVec 32 := 0#32
  ![v217.toNat, 0]

def k2_chk28 (v217 : BitVec 32) : Prop :=
  (∀ a, (k2_off56 v217) a + S1x8.size a ≤ S8388608x8.size a) ∧
  (∀ a, (k2_off92 v217) a + S1x8.size a ≤ S8388608x8.size a)
instance k2_chk28.dec : ∀ (v217 : BitVec 32), Decidable (k2_chk28 v217) := fun v217 => decidable_of_iff' _ (Iff.of_eq (k2_chk28.eq_1 v217))
theorem k2_off56_inb : ∀ (v217 : BitVec 32) (k2_hw28 : k2_chk28 v217), ∀ a, (k2_off56 v217) a + S1x8.size a ≤ S8388608x8.size a := fun v217 k2_hw28 => k2_hw28.1
theorem k2_off92_inb : ∀ (v217 : BitVec 32) (k2_hw28 : k2_chk28 v217), ∀ a, (k2_off92 v217) a + S1x8.size a ≤ S8388608x8.size a := fun v217 k2_hw28 => k2_hw28.2

def k2_off93 (v225 : BitVec 32) : Fin 2 → Nat :=
  let c0_i32_211 : BitVec 32 := 0#32
  ![v225.toNat, 0]

def k2_chk29 (v225 : BitVec 32) : Prop :=
  (∀ a, (k2_off58 v225) a + S1x8.size a ≤ S8388608x8.size a) ∧
  (∀ a, (k2_off93 v225) a + S1x8.size a ≤ S8388608x8.size a)
instance k2_chk29.dec : ∀ (v225 : BitVec 32), Decidable (k2_chk29 v225) := fun v225 => decidable_of_iff' _ (Iff.of_eq (k2_chk29.eq_1 v225))
theorem k2_off58_inb : ∀ (v225 : BitVec 32) (k2_hw29 : k2_chk29 v225), ∀ a, (k2_off58 v225) a + S1x8.size a ≤ S8388608x8.size a := fun v225 k2_hw29 => k2_hw29.1
theorem k2_off93_inb : ∀ (v225 : BitVec 32) (k2_hw29 : k2_chk29 v225), ∀ a, (k2_off93 v225) a + S1x8.size a ≤ S8388608x8.size a := fun v225 k2_hw29 => k2_hw29.2

def k2_off94 (v233 : BitVec 32) : Fin 2 → Nat :=
  let c0_i32_215 : BitVec 32 := 0#32
  ![v233.toNat, 0]

def k2_chk30 (v233 : BitVec 32) : Prop :=
  (∀ a, (k2_off60 v233) a + S1x8.size a ≤ S8388608x8.size a) ∧
  (∀ a, (k2_off94 v233) a + S1x8.size a ≤ S8388608x8.size a)
instance k2_chk30.dec : ∀ (v233 : BitVec 32), Decidable (k2_chk30 v233) := fun v233 => decidable_of_iff' _ (Iff.of_eq (k2_chk30.eq_1 v233))
theorem k2_off60_inb : ∀ (v233 : BitVec 32) (k2_hw30 : k2_chk30 v233), ∀ a, (k2_off60 v233) a + S1x8.size a ≤ S8388608x8.size a := fun v233 k2_hw30 => k2_hw30.1
theorem k2_off94_inb : ∀ (v233 : BitVec 32) (k2_hw30 : k2_chk30 v233), ∀ a, (k2_off94 v233) a + S1x8.size a ≤ S8388608x8.size a := fun v233 k2_hw30 => k2_hw30.2

def k2_off95 (v241 : BitVec 32) : Fin 2 → Nat :=
  let c0_i32_219 : BitVec 32 := 0#32
  ![v241.toNat, 0]

def k2_chk31 (v241 : BitVec 32) : Prop :=
  (∀ a, (k2_off62 v241) a + S1x8.size a ≤ S8388608x8.size a) ∧
  (∀ a, (k2_off95 v241) a + S1x8.size a ≤ S8388608x8.size a)
instance k2_chk31.dec : ∀ (v241 : BitVec 32), Decidable (k2_chk31 v241) := fun v241 => decidable_of_iff' _ (Iff.of_eq (k2_chk31.eq_1 v241))
theorem k2_off62_inb : ∀ (v241 : BitVec 32) (k2_hw31 : k2_chk31 v241), ∀ a, (k2_off62 v241) a + S1x8.size a ≤ S8388608x8.size a := fun v241 k2_hw31 => k2_hw31.1
theorem k2_off95_inb : ∀ (v241 : BitVec 32) (k2_hw31 : k2_chk31 v241), ∀ a, (k2_off95 v241) a + S1x8.size a ≤ S8388608x8.size a := fun v241 k2_hw31 => k2_hw31.2

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x32x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![1023], ![false]⟩

abbrev pre3 : Pipeline.Prefetch sig := ⟨1, ![main_v40.idx], fun | 0 => main_v40.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 2 → Nat :=
  let c0 : Index := 0#32
  let arg0 : BitVec 32 := BitVec.ofNat 32 (i 0).val
  let v0 : Index := Scalar.indexCast arg0
  ![0, v0.toNat]
def k3_off2 (v1 : BitVec 32) : Fin 2 → Nat :=
  let c0_i32_2 : BitVec 32 := 0#32
  ![v1.toNat, 0]

def k3_off3 (i : grid3.Coords) : Fin 2 → Nat :=
  let c1 : Index := 1#32
  let arg0 : BitVec 32 := BitVec.ofNat 32 (i 0).val
  let v8 : Index := Scalar.indexCast arg0
  ![1, v8.toNat]
def k3_off4 (v9 : BitVec 32) : Fin 2 → Nat :=
  let c0_i32_5 : BitVec 32 := 0#32
  ![v9.toNat, 0]

def k3_off5 (i : grid3.Coords) : Fin 2 → Nat :=
  let c2 : Index := 2#32
  let arg0 : BitVec 32 := BitVec.ofNat 32 (i 0).val
  let v16 : Index := Scalar.indexCast arg0
  ![2, v16.toNat]
def k3_off6 (v17 : BitVec 32) : Fin 2 → Nat :=
  let c0_i32_8 : BitVec 32 := 0#32
  ![v17.toNat, 0]

def k3_off7 (i : grid3.Coords) : Fin 2 → Nat :=
  let c3 : Index := 3#32
  let arg0 : BitVec 32 := BitVec.ofNat 32 (i 0).val
  let v24 : Index := Scalar.indexCast arg0
  ![3, v24.toNat]
def k3_off8 (v25 : BitVec 32) : Fin 2 → Nat :=
  let c0_i32_11 : BitVec 32 := 0#32
  ![v25.toNat, 0]

def k3_off9 (i : grid3.Coords) : Fin 2 → Nat :=
  let c4 : Index := 4#32
  let arg0 : BitVec 32 := BitVec.ofNat 32 (i 0).val
  let v32 : Index := Scalar.indexCast arg0
  ![4, v32.toNat]
def k3_off10 (v33 : BitVec 32) : Fin 2 → Nat :=
  let c0_i32_14 : BitVec 32 := 0#32
  ![v33.toNat, 0]

def k3_off11 (i : grid3.Coords) : Fin 2 → Nat :=
  let c5 : Index := 5#32
  let arg0 : BitVec 32 := BitVec.ofNat 32 (i 0).val
  let v40 : Index := Scalar.indexCast arg0
  ![5, v40.toNat]
def k3_off12 (v41 : BitVec 32) : Fin 2 → Nat :=
  let c0_i32_17 : BitVec 32 := 0#32
  ![v41.toNat, 0]

def k3_off13 (i : grid3.Coords) : Fin 2 → Nat :=
  let c6 : Index := 6#32
  let arg0 : BitVec 32 := BitVec.ofNat 32 (i 0).val
  let v48 : Index := Scalar.indexCast arg0
  ![6, v48.toNat]
def k3_off14 (v49 : BitVec 32) : Fin 2 → Nat :=
  let c0_i32_20 : BitVec 32 := 0#32
  ![v49.toNat, 0]

def k3_off15 (i : grid3.Coords) : Fin 2 → Nat :=
  let c7 : Index := 7#32
  let arg0 : BitVec 32 := BitVec.ofNat 32 (i 0).val
  let v56 : Index := Scalar.indexCast arg0
  ![7, v56.toNat]
def k3_off16 (v57 : BitVec 32) : Fin 2 → Nat :=
  let c0_i32_23 : BitVec 32 := 0#32
  ![v57.toNat, 0]

def k3_off17 (i : grid3.Coords) : Fin 2 → Nat :=
  let c8 : Index := 8#32
  let arg0 : BitVec 32 := BitVec.ofNat 32 (i 0).val
  let v64 : Index := Scalar.indexCast arg0
  ![8, v64.toNat]
def k3_off18 (v65 : BitVec 32) : Fin 2 → Nat :=
  let c0_i32_26 : BitVec 32 := 0#32
  ![v65.toNat, 0]

def k3_off19 (i : grid3.Coords) : Fin 2 → Nat :=
  let c9 : Index := 9#32
  let arg0 : BitVec 32 := BitVec.ofNat 32 (i 0).val
  let v72 : Index := Scalar.indexCast arg0
  ![9, v72.toNat]
def k3_off20 (v73 : BitVec 32) : Fin 2 → Nat :=
  let c0_i32_29 : BitVec 32 := 0#32
  ![v73.toNat, 0]

def k3_off21 (i : grid3.Coords) : Fin 2 → Nat :=
  let c10 : Index := 10#32
  let arg0 : BitVec 32 := BitVec.ofNat 32 (i 0).val
  let v80 : Index := Scalar.indexCast arg0
  ![10, v80.toNat]
def k3_off22 (v81 : BitVec 32) : Fin 2 → Nat :=
  let c0_i32_32 : BitVec 32 := 0#32
  ![v81.toNat, 0]

def k3_off23 (i : grid3.Coords) : Fin 2 → Nat :=
  let c11 : Index := 11#32
  let arg0 : BitVec 32 := BitVec.ofNat 32 (i 0).val
  let v88 : Index := Scalar.indexCast arg0
  ![11, v88.toNat]
def k3_off24 (v89 : BitVec 32) : Fin 2 → Nat :=
  let c0_i32_35 : BitVec 32 := 0#32
  ![v89.toNat, 0]

def k3_off25 (i : grid3.Coords) : Fin 2 → Nat :=
  let c12 : Index := 12#32
  let arg0 : BitVec 32 := BitVec.ofNat 32 (i 0).val
  let v96 : Index := Scalar.indexCast arg0
  ![12, v96.toNat]
def k3_off26 (v97 : BitVec 32) : Fin 2 → Nat :=
  let c0_i32_38 : BitVec 32 := 0#32
  ![v97.toNat, 0]

def k3_off27 (i : grid3.Coords) : Fin 2 → Nat :=
  let c13 : Index := 13#32
  let arg0 : BitVec 32 := BitVec.ofNat 32 (i 0).val
  let v104 : Index := Scalar.indexCast arg0
  ![13, v104.toNat]
def k3_off28 (v105 : BitVec 32) : Fin 2 → Nat :=
  let c0_i32_41 : BitVec 32 := 0#32
  ![v105.toNat, 0]

def k3_off29 (i : grid3.Coords) : Fin 2 → Nat :=
  let c14 : Index := 14#32
  let arg0 : BitVec 32 := BitVec.ofNat 32 (i 0).val
  let v112 : Index := Scalar.indexCast arg0
  ![14, v112.toNat]
def k3_off30 (v113 : BitVec 32) : Fin 2 → Nat :=
  let c0_i32_44 : BitVec 32 := 0#32
  ![v113.toNat, 0]

def k3_off31 (i : grid3.Coords) : Fin 2 → Nat :=
  let c15 : Index := 15#32
  let arg0 : BitVec 32 := BitVec.ofNat 32 (i 0).val
  let v120 : Index := Scalar.indexCast arg0
  ![15, v120.toNat]
def k3_off32 (v121 : BitVec 32) : Fin 2 → Nat :=
  let c0_i32_47 : BitVec 32 := 0#32
  ![v121.toNat, 0]

def k3_off33 (i : grid3.Coords) : Fin 2 → Nat :=
  let c16 : Index := 16#32
  let arg0 : BitVec 32 := BitVec.ofNat 32 (i 0).val
  let v128 : Index := Scalar.indexCast arg0
  ![16, v128.toNat]
def k3_off34 (v129 : BitVec 32) : Fin 2 → Nat :=
  let c0_i32_50 : BitVec 32 := 0#32
  ![v129.toNat, 0]

def k3_off35 (i : grid3.Coords) : Fin 2 → Nat :=
  let c17 : Index := 17#32
  let arg0 : BitVec 32 := BitVec.ofNat 32 (i 0).val
  let v136 : Index := Scalar.indexCast arg0
  ![17, v136.toNat]
def k3_off36 (v137 : BitVec 32) : Fin 2 → Nat :=
  let c0_i32_53 : BitVec 32 := 0#32
  ![v137.toNat, 0]

def k3_off37 (i : grid3.Coords) : Fin 2 → Nat :=
  let c18 : Index := 18#32
  let arg0 : BitVec 32 := BitVec.ofNat 32 (i 0).val
  let v144 : Index := Scalar.indexCast arg0
  ![18, v144.toNat]
def k3_off38 (v145 : BitVec 32) : Fin 2 → Nat :=
  let c0_i32_56 : BitVec 32 := 0#32
  ![v145.toNat, 0]

def k3_off39 (i : grid3.Coords) : Fin 2 → Nat :=
  let c19 : Index := 19#32
  let arg0 : BitVec 32 := BitVec.ofNat 32 (i 0).val
  let v152 : Index := Scalar.indexCast arg0
  ![19, v152.toNat]
def k3_off40 (v153 : BitVec 32) : Fin 2 → Nat :=
  let c0_i32_59 : BitVec 32 := 0#32
  ![v153.toNat, 0]

def k3_off41 (i : grid3.Coords) : Fin 2 → Nat :=
  let c20 : Index := 20#32
  let arg0 : BitVec 32 := BitVec.ofNat 32 (i 0).val
  let v160 : Index := Scalar.indexCast arg0
  ![20, v160.toNat]
def k3_off42 (v161 : BitVec 32) : Fin 2 → Nat :=
  let c0_i32_62 : BitVec 32 := 0#32
  ![v161.toNat, 0]

def k3_off43 (i : grid3.Coords) : Fin 2 → Nat :=
  let c21 : Index := 21#32
  let arg0 : BitVec 32 := BitVec.ofNat 32 (i 0).val
  let v168 : Index := Scalar.indexCast arg0
  ![21, v168.toNat]
def k3_off44 (v169 : BitVec 32) : Fin 2 → Nat :=
  let c0_i32_65 : BitVec 32 := 0#32
  ![v169.toNat, 0]

def k3_off45 (i : grid3.Coords) : Fin 2 → Nat :=
  let c22 : Index := 22#32
  let arg0 : BitVec 32 := BitVec.ofNat 32 (i 0).val
  let v176 : Index := Scalar.indexCast arg0
  ![22, v176.toNat]
def k3_off46 (v177 : BitVec 32) : Fin 2 → Nat :=
  let c0_i32_68 : BitVec 32 := 0#32
  ![v177.toNat, 0]

def k3_off47 (i : grid3.Coords) : Fin 2 → Nat :=
  let c23 : Index := 23#32
  let arg0 : BitVec 32 := BitVec.ofNat 32 (i 0).val
  let v184 : Index := Scalar.indexCast arg0
  ![23, v184.toNat]
def k3_off48 (v185 : BitVec 32) : Fin 2 → Nat :=
  let c0_i32_71 : BitVec 32 := 0#32
  ![v185.toNat, 0]

def k3_off49 (i : grid3.Coords) : Fin 2 → Nat :=
  let c24 : Index := 24#32
  let arg0 : BitVec 32 := BitVec.ofNat 32 (i 0).val
  let v192 : Index := Scalar.indexCast arg0
  ![24, v192.toNat]
def k3_off50 (v193 : BitVec 32) : Fin 2 → Nat :=
  let c0_i32_74 : BitVec 32 := 0#32
  ![v193.toNat, 0]

def k3_off51 (i : grid3.Coords) : Fin 2 → Nat :=
  let c25 : Index := 25#32
  let arg0 : BitVec 32 := BitVec.ofNat 32 (i 0).val
  let v200 : Index := Scalar.indexCast arg0
  ![25, v200.toNat]
def k3_off52 (v201 : BitVec 32) : Fin 2 → Nat :=
  let c0_i32_77 : BitVec 32 := 0#32
  ![v201.toNat, 0]

def k3_off53 (i : grid3.Coords) : Fin 2 → Nat :=
  let c26 : Index := 26#32
  let arg0 : BitVec 32 := BitVec.ofNat 32 (i 0).val
  let v208 : Index := Scalar.indexCast arg0
  ![26, v208.toNat]
def k3_off54 (v209 : BitVec 32) : Fin 2 → Nat :=
  let c0_i32_80 : BitVec 32 := 0#32
  ![v209.toNat, 0]

def k3_off55 (i : grid3.Coords) : Fin 2 → Nat :=
  let c27 : Index := 27#32
  let arg0 : BitVec 32 := BitVec.ofNat 32 (i 0).val
  let v216 : Index := Scalar.indexCast arg0
  ![27, v216.toNat]
def k3_off56 (v217 : BitVec 32) : Fin 2 → Nat :=
  let c0_i32_83 : BitVec 32 := 0#32
  ![v217.toNat, 0]

def k3_off57 (i : grid3.Coords) : Fin 2 → Nat :=
  let c28 : Index := 28#32
  let arg0 : BitVec 32 := BitVec.ofNat 32 (i 0).val
  let v224 : Index := Scalar.indexCast arg0
  ![28, v224.toNat]
def k3_off58 (v225 : BitVec 32) : Fin 2 → Nat :=
  let c0_i32_86 : BitVec 32 := 0#32
  ![v225.toNat, 0]

def k3_off59 (i : grid3.Coords) : Fin 2 → Nat :=
  let c29 : Index := 29#32
  let arg0 : BitVec 32 := BitVec.ofNat 32 (i 0).val
  let v232 : Index := Scalar.indexCast arg0
  ![29, v232.toNat]
def k3_off60 (v233 : BitVec 32) : Fin 2 → Nat :=
  let c0_i32_89 : BitVec 32 := 0#32
  ![v233.toNat, 0]

def k3_off61 (i : grid3.Coords) : Fin 2 → Nat :=
  let c30 : Index := 30#32
  let arg0 : BitVec 32 := BitVec.ofNat 32 (i 0).val
  let v240 : Index := Scalar.indexCast arg0
  ![30, v240.toNat]
def k3_off62 (v241 : BitVec 32) : Fin 2 → Nat :=
  let c0_i32_92 : BitVec 32 := 0#32
  ![v241.toNat, 0]

def k3_off63 (i : grid3.Coords) : Fin 2 → Nat :=
  let c31 : Index := 31#32
  let arg0 : BitVec 32 := BitVec.ofNat 32 (i 0).val
  let v248 : Index := Scalar.indexCast arg0
  ![31, v248.toNat]
def k3_off64 (v249 : BitVec 32) : Fin 2 → Nat :=
  let c0_i32_95 : BitVec 32 := 0#32
  ![v249.toNat, 0]

def k3_chk32 (v249 : BitVec 32) : Prop :=
  (∀ a, (k3_off64 v249) a + S1x8.size a ≤ S8388608x8.size a)
instance k3_chk32.dec : ∀ (v249 : BitVec 32), Decidable (k3_chk32 v249) := fun v249 => decidable_of_iff' _ (Iff.of_eq (k3_chk32.eq_1 v249))
theorem k3_off64_inb : ∀ (v249 : BitVec 32) (k3_hw32 : k3_chk32 v249), ∀ a, (k3_off64 v249) a + S1x8.size a ≤ S8388608x8.size a := fun v249 k3_hw32 => k3_hw32

def k3_off65 (v1 : BitVec 32) : Fin 2 → Nat :=
  let c0_i32_99 : BitVec 32 := 0#32
  ![v1.toNat, 0]

def k3_chk1 (v1 : BitVec 32) : Prop :=
  (∀ a, (k3_off2 v1) a + S1x8.size a ≤ S8388608x8.size a) ∧
  (∀ a, (k3_off65 v1) a + S1x8.size a ≤ S8388608x8.size a)
instance k3_chk1.dec : ∀ (v1 : BitVec 32), Decidable (k3_chk1 v1) := fun v1 => decidable_of_iff' _ (Iff.of_eq (k3_chk1.eq_1 v1))
theorem k3_off2_inb : ∀ (v1 : BitVec 32) (k3_hw1 : k3_chk1 v1), ∀ a, (k3_off2 v1) a + S1x8.size a ≤ S8388608x8.size a := fun v1 k3_hw1 => k3_hw1.1
theorem k3_off65_inb : ∀ (v1 : BitVec 32) (k3_hw1 : k3_chk1 v1), ∀ a, (k3_off65 v1) a + S1x8.size a ≤ S8388608x8.size a := fun v1 k3_hw1 => k3_hw1.2

def k3_off66 (v9 : BitVec 32) : Fin 2 → Nat :=
  let c0_i32_103 : BitVec 32 := 0#32
  ![v9.toNat, 0]

def k3_chk2 (v9 : BitVec 32) : Prop :=
  (∀ a, (k3_off4 v9) a + S1x8.size a ≤ S8388608x8.size a) ∧
  (∀ a, (k3_off66 v9) a + S1x8.size a ≤ S8388608x8.size a)
instance k3_chk2.dec : ∀ (v9 : BitVec 32), Decidable (k3_chk2 v9) := fun v9 => decidable_of_iff' _ (Iff.of_eq (k3_chk2.eq_1 v9))
theorem k3_off4_inb : ∀ (v9 : BitVec 32) (k3_hw2 : k3_chk2 v9), ∀ a, (k3_off4 v9) a + S1x8.size a ≤ S8388608x8.size a := fun v9 k3_hw2 => k3_hw2.1
theorem k3_off66_inb : ∀ (v9 : BitVec 32) (k3_hw2 : k3_chk2 v9), ∀ a, (k3_off66 v9) a + S1x8.size a ≤ S8388608x8.size a := fun v9 k3_hw2 => k3_hw2.2

def k3_off67 (v17 : BitVec 32) : Fin 2 → Nat :=
  let c0_i32_107 : BitVec 32 := 0#32
  ![v17.toNat, 0]

def k3_chk3 (v17 : BitVec 32) : Prop :=
  (∀ a, (k3_off6 v17) a + S1x8.size a ≤ S8388608x8.size a) ∧
  (∀ a, (k3_off67 v17) a + S1x8.size a ≤ S8388608x8.size a)
instance k3_chk3.dec : ∀ (v17 : BitVec 32), Decidable (k3_chk3 v17) := fun v17 => decidable_of_iff' _ (Iff.of_eq (k3_chk3.eq_1 v17))
theorem k3_off6_inb : ∀ (v17 : BitVec 32) (k3_hw3 : k3_chk3 v17), ∀ a, (k3_off6 v17) a + S1x8.size a ≤ S8388608x8.size a := fun v17 k3_hw3 => k3_hw3.1
theorem k3_off67_inb : ∀ (v17 : BitVec 32) (k3_hw3 : k3_chk3 v17), ∀ a, (k3_off67 v17) a + S1x8.size a ≤ S8388608x8.size a := fun v17 k3_hw3 => k3_hw3.2

def k3_off68 (v25 : BitVec 32) : Fin 2 → Nat :=
  let c0_i32_111 : BitVec 32 := 0#32
  ![v25.toNat, 0]

def k3_chk4 (v25 : BitVec 32) : Prop :=
  (∀ a, (k3_off8 v25) a + S1x8.size a ≤ S8388608x8.size a) ∧
  (∀ a, (k3_off68 v25) a + S1x8.size a ≤ S8388608x8.size a)
instance k3_chk4.dec : ∀ (v25 : BitVec 32), Decidable (k3_chk4 v25) := fun v25 => decidable_of_iff' _ (Iff.of_eq (k3_chk4.eq_1 v25))
theorem k3_off8_inb : ∀ (v25 : BitVec 32) (k3_hw4 : k3_chk4 v25), ∀ a, (k3_off8 v25) a + S1x8.size a ≤ S8388608x8.size a := fun v25 k3_hw4 => k3_hw4.1
theorem k3_off68_inb : ∀ (v25 : BitVec 32) (k3_hw4 : k3_chk4 v25), ∀ a, (k3_off68 v25) a + S1x8.size a ≤ S8388608x8.size a := fun v25 k3_hw4 => k3_hw4.2

def k3_off69 (v33 : BitVec 32) : Fin 2 → Nat :=
  let c0_i32_115 : BitVec 32 := 0#32
  ![v33.toNat, 0]

def k3_chk5 (v33 : BitVec 32) : Prop :=
  (∀ a, (k3_off10 v33) a + S1x8.size a ≤ S8388608x8.size a) ∧
  (∀ a, (k3_off69 v33) a + S1x8.size a ≤ S8388608x8.size a)
instance k3_chk5.dec : ∀ (v33 : BitVec 32), Decidable (k3_chk5 v33) := fun v33 => decidable_of_iff' _ (Iff.of_eq (k3_chk5.eq_1 v33))
theorem k3_off10_inb : ∀ (v33 : BitVec 32) (k3_hw5 : k3_chk5 v33), ∀ a, (k3_off10 v33) a + S1x8.size a ≤ S8388608x8.size a := fun v33 k3_hw5 => k3_hw5.1
theorem k3_off69_inb : ∀ (v33 : BitVec 32) (k3_hw5 : k3_chk5 v33), ∀ a, (k3_off69 v33) a + S1x8.size a ≤ S8388608x8.size a := fun v33 k3_hw5 => k3_hw5.2

def k3_off70 (v41 : BitVec 32) : Fin 2 → Nat :=
  let c0_i32_119 : BitVec 32 := 0#32
  ![v41.toNat, 0]

def k3_chk6 (v41 : BitVec 32) : Prop :=
  (∀ a, (k3_off12 v41) a + S1x8.size a ≤ S8388608x8.size a) ∧
  (∀ a, (k3_off70 v41) a + S1x8.size a ≤ S8388608x8.size a)
instance k3_chk6.dec : ∀ (v41 : BitVec 32), Decidable (k3_chk6 v41) := fun v41 => decidable_of_iff' _ (Iff.of_eq (k3_chk6.eq_1 v41))
theorem k3_off12_inb : ∀ (v41 : BitVec 32) (k3_hw6 : k3_chk6 v41), ∀ a, (k3_off12 v41) a + S1x8.size a ≤ S8388608x8.size a := fun v41 k3_hw6 => k3_hw6.1
theorem k3_off70_inb : ∀ (v41 : BitVec 32) (k3_hw6 : k3_chk6 v41), ∀ a, (k3_off70 v41) a + S1x8.size a ≤ S8388608x8.size a := fun v41 k3_hw6 => k3_hw6.2

def k3_off71 (v49 : BitVec 32) : Fin 2 → Nat :=
  let c0_i32_123 : BitVec 32 := 0#32
  ![v49.toNat, 0]

def k3_chk7 (v49 : BitVec 32) : Prop :=
  (∀ a, (k3_off14 v49) a + S1x8.size a ≤ S8388608x8.size a) ∧
  (∀ a, (k3_off71 v49) a + S1x8.size a ≤ S8388608x8.size a)
instance k3_chk7.dec : ∀ (v49 : BitVec 32), Decidable (k3_chk7 v49) := fun v49 => decidable_of_iff' _ (Iff.of_eq (k3_chk7.eq_1 v49))
theorem k3_off14_inb : ∀ (v49 : BitVec 32) (k3_hw7 : k3_chk7 v49), ∀ a, (k3_off14 v49) a + S1x8.size a ≤ S8388608x8.size a := fun v49 k3_hw7 => k3_hw7.1
theorem k3_off71_inb : ∀ (v49 : BitVec 32) (k3_hw7 : k3_chk7 v49), ∀ a, (k3_off71 v49) a + S1x8.size a ≤ S8388608x8.size a := fun v49 k3_hw7 => k3_hw7.2

def k3_off72 (v57 : BitVec 32) : Fin 2 → Nat :=
  let c0_i32_127 : BitVec 32 := 0#32
  ![v57.toNat, 0]

def k3_chk8 (v57 : BitVec 32) : Prop :=
  (∀ a, (k3_off16 v57) a + S1x8.size a ≤ S8388608x8.size a) ∧
  (∀ a, (k3_off72 v57) a + S1x8.size a ≤ S8388608x8.size a)
instance k3_chk8.dec : ∀ (v57 : BitVec 32), Decidable (k3_chk8 v57) := fun v57 => decidable_of_iff' _ (Iff.of_eq (k3_chk8.eq_1 v57))
theorem k3_off16_inb : ∀ (v57 : BitVec 32) (k3_hw8 : k3_chk8 v57), ∀ a, (k3_off16 v57) a + S1x8.size a ≤ S8388608x8.size a := fun v57 k3_hw8 => k3_hw8.1
theorem k3_off72_inb : ∀ (v57 : BitVec 32) (k3_hw8 : k3_chk8 v57), ∀ a, (k3_off72 v57) a + S1x8.size a ≤ S8388608x8.size a := fun v57 k3_hw8 => k3_hw8.2

def k3_off73 (v65 : BitVec 32) : Fin 2 → Nat :=
  let c0_i32_131 : BitVec 32 := 0#32
  ![v65.toNat, 0]

def k3_chk9 (v65 : BitVec 32) : Prop :=
  (∀ a, (k3_off18 v65) a + S1x8.size a ≤ S8388608x8.size a) ∧
  (∀ a, (k3_off73 v65) a + S1x8.size a ≤ S8388608x8.size a)
instance k3_chk9.dec : ∀ (v65 : BitVec 32), Decidable (k3_chk9 v65) := fun v65 => decidable_of_iff' _ (Iff.of_eq (k3_chk9.eq_1 v65))
theorem k3_off18_inb : ∀ (v65 : BitVec 32) (k3_hw9 : k3_chk9 v65), ∀ a, (k3_off18 v65) a + S1x8.size a ≤ S8388608x8.size a := fun v65 k3_hw9 => k3_hw9.1
theorem k3_off73_inb : ∀ (v65 : BitVec 32) (k3_hw9 : k3_chk9 v65), ∀ a, (k3_off73 v65) a + S1x8.size a ≤ S8388608x8.size a := fun v65 k3_hw9 => k3_hw9.2

def k3_off74 (v73 : BitVec 32) : Fin 2 → Nat :=
  let c0_i32_135 : BitVec 32 := 0#32
  ![v73.toNat, 0]

def k3_chk10 (v73 : BitVec 32) : Prop :=
  (∀ a, (k3_off20 v73) a + S1x8.size a ≤ S8388608x8.size a) ∧
  (∀ a, (k3_off74 v73) a + S1x8.size a ≤ S8388608x8.size a)
instance k3_chk10.dec : ∀ (v73 : BitVec 32), Decidable (k3_chk10 v73) := fun v73 => decidable_of_iff' _ (Iff.of_eq (k3_chk10.eq_1 v73))
theorem k3_off20_inb : ∀ (v73 : BitVec 32) (k3_hw10 : k3_chk10 v73), ∀ a, (k3_off20 v73) a + S1x8.size a ≤ S8388608x8.size a := fun v73 k3_hw10 => k3_hw10.1
theorem k3_off74_inb : ∀ (v73 : BitVec 32) (k3_hw10 : k3_chk10 v73), ∀ a, (k3_off74 v73) a + S1x8.size a ≤ S8388608x8.size a := fun v73 k3_hw10 => k3_hw10.2

def k3_off75 (v81 : BitVec 32) : Fin 2 → Nat :=
  let c0_i32_139 : BitVec 32 := 0#32
  ![v81.toNat, 0]

def k3_chk11 (v81 : BitVec 32) : Prop :=
  (∀ a, (k3_off22 v81) a + S1x8.size a ≤ S8388608x8.size a) ∧
  (∀ a, (k3_off75 v81) a + S1x8.size a ≤ S8388608x8.size a)
instance k3_chk11.dec : ∀ (v81 : BitVec 32), Decidable (k3_chk11 v81) := fun v81 => decidable_of_iff' _ (Iff.of_eq (k3_chk11.eq_1 v81))
theorem k3_off22_inb : ∀ (v81 : BitVec 32) (k3_hw11 : k3_chk11 v81), ∀ a, (k3_off22 v81) a + S1x8.size a ≤ S8388608x8.size a := fun v81 k3_hw11 => k3_hw11.1
theorem k3_off75_inb : ∀ (v81 : BitVec 32) (k3_hw11 : k3_chk11 v81), ∀ a, (k3_off75 v81) a + S1x8.size a ≤ S8388608x8.size a := fun v81 k3_hw11 => k3_hw11.2

def k3_off76 (v89 : BitVec 32) : Fin 2 → Nat :=
  let c0_i32_143 : BitVec 32 := 0#32
  ![v89.toNat, 0]

def k3_chk12 (v89 : BitVec 32) : Prop :=
  (∀ a, (k3_off24 v89) a + S1x8.size a ≤ S8388608x8.size a) ∧
  (∀ a, (k3_off76 v89) a + S1x8.size a ≤ S8388608x8.size a)
instance k3_chk12.dec : ∀ (v89 : BitVec 32), Decidable (k3_chk12 v89) := fun v89 => decidable_of_iff' _ (Iff.of_eq (k3_chk12.eq_1 v89))
theorem k3_off24_inb : ∀ (v89 : BitVec 32) (k3_hw12 : k3_chk12 v89), ∀ a, (k3_off24 v89) a + S1x8.size a ≤ S8388608x8.size a := fun v89 k3_hw12 => k3_hw12.1
theorem k3_off76_inb : ∀ (v89 : BitVec 32) (k3_hw12 : k3_chk12 v89), ∀ a, (k3_off76 v89) a + S1x8.size a ≤ S8388608x8.size a := fun v89 k3_hw12 => k3_hw12.2

def k3_off77 (v97 : BitVec 32) : Fin 2 → Nat :=
  let c0_i32_147 : BitVec 32 := 0#32
  ![v97.toNat, 0]

def k3_chk13 (v97 : BitVec 32) : Prop :=
  (∀ a, (k3_off26 v97) a + S1x8.size a ≤ S8388608x8.size a) ∧
  (∀ a, (k3_off77 v97) a + S1x8.size a ≤ S8388608x8.size a)
instance k3_chk13.dec : ∀ (v97 : BitVec 32), Decidable (k3_chk13 v97) := fun v97 => decidable_of_iff' _ (Iff.of_eq (k3_chk13.eq_1 v97))
theorem k3_off26_inb : ∀ (v97 : BitVec 32) (k3_hw13 : k3_chk13 v97), ∀ a, (k3_off26 v97) a + S1x8.size a ≤ S8388608x8.size a := fun v97 k3_hw13 => k3_hw13.1
theorem k3_off77_inb : ∀ (v97 : BitVec 32) (k3_hw13 : k3_chk13 v97), ∀ a, (k3_off77 v97) a + S1x8.size a ≤ S8388608x8.size a := fun v97 k3_hw13 => k3_hw13.2

def k3_off78 (v105 : BitVec 32) : Fin 2 → Nat :=
  let c0_i32_151 : BitVec 32 := 0#32
  ![v105.toNat, 0]

def k3_chk14 (v105 : BitVec 32) : Prop :=
  (∀ a, (k3_off28 v105) a + S1x8.size a ≤ S8388608x8.size a) ∧
  (∀ a, (k3_off78 v105) a + S1x8.size a ≤ S8388608x8.size a)
instance k3_chk14.dec : ∀ (v105 : BitVec 32), Decidable (k3_chk14 v105) := fun v105 => decidable_of_iff' _ (Iff.of_eq (k3_chk14.eq_1 v105))
theorem k3_off28_inb : ∀ (v105 : BitVec 32) (k3_hw14 : k3_chk14 v105), ∀ a, (k3_off28 v105) a + S1x8.size a ≤ S8388608x8.size a := fun v105 k3_hw14 => k3_hw14.1
theorem k3_off78_inb : ∀ (v105 : BitVec 32) (k3_hw14 : k3_chk14 v105), ∀ a, (k3_off78 v105) a + S1x8.size a ≤ S8388608x8.size a := fun v105 k3_hw14 => k3_hw14.2

def k3_off79 (v113 : BitVec 32) : Fin 2 → Nat :=
  let c0_i32_155 : BitVec 32 := 0#32
  ![v113.toNat, 0]

def k3_chk15 (v113 : BitVec 32) : Prop :=
  (∀ a, (k3_off30 v113) a + S1x8.size a ≤ S8388608x8.size a) ∧
  (∀ a, (k3_off79 v113) a + S1x8.size a ≤ S8388608x8.size a)
instance k3_chk15.dec : ∀ (v113 : BitVec 32), Decidable (k3_chk15 v113) := fun v113 => decidable_of_iff' _ (Iff.of_eq (k3_chk15.eq_1 v113))
theorem k3_off30_inb : ∀ (v113 : BitVec 32) (k3_hw15 : k3_chk15 v113), ∀ a, (k3_off30 v113) a + S1x8.size a ≤ S8388608x8.size a := fun v113 k3_hw15 => k3_hw15.1
theorem k3_off79_inb : ∀ (v113 : BitVec 32) (k3_hw15 : k3_chk15 v113), ∀ a, (k3_off79 v113) a + S1x8.size a ≤ S8388608x8.size a := fun v113 k3_hw15 => k3_hw15.2

def k3_off80 (v121 : BitVec 32) : Fin 2 → Nat :=
  let c0_i32_159 : BitVec 32 := 0#32
  ![v121.toNat, 0]

def k3_chk16 (v121 : BitVec 32) : Prop :=
  (∀ a, (k3_off32 v121) a + S1x8.size a ≤ S8388608x8.size a) ∧
  (∀ a, (k3_off80 v121) a + S1x8.size a ≤ S8388608x8.size a)
instance k3_chk16.dec : ∀ (v121 : BitVec 32), Decidable (k3_chk16 v121) := fun v121 => decidable_of_iff' _ (Iff.of_eq (k3_chk16.eq_1 v121))
theorem k3_off32_inb : ∀ (v121 : BitVec 32) (k3_hw16 : k3_chk16 v121), ∀ a, (k3_off32 v121) a + S1x8.size a ≤ S8388608x8.size a := fun v121 k3_hw16 => k3_hw16.1
theorem k3_off80_inb : ∀ (v121 : BitVec 32) (k3_hw16 : k3_chk16 v121), ∀ a, (k3_off80 v121) a + S1x8.size a ≤ S8388608x8.size a := fun v121 k3_hw16 => k3_hw16.2

def k3_off81 (v129 : BitVec 32) : Fin 2 → Nat :=
  let c0_i32_163 : BitVec 32 := 0#32
  ![v129.toNat, 0]

def k3_chk17 (v129 : BitVec 32) : Prop :=
  (∀ a, (k3_off34 v129) a + S1x8.size a ≤ S8388608x8.size a) ∧
  (∀ a, (k3_off81 v129) a + S1x8.size a ≤ S8388608x8.size a)
instance k3_chk17.dec : ∀ (v129 : BitVec 32), Decidable (k3_chk17 v129) := fun v129 => decidable_of_iff' _ (Iff.of_eq (k3_chk17.eq_1 v129))
theorem k3_off34_inb : ∀ (v129 : BitVec 32) (k3_hw17 : k3_chk17 v129), ∀ a, (k3_off34 v129) a + S1x8.size a ≤ S8388608x8.size a := fun v129 k3_hw17 => k3_hw17.1
theorem k3_off81_inb : ∀ (v129 : BitVec 32) (k3_hw17 : k3_chk17 v129), ∀ a, (k3_off81 v129) a + S1x8.size a ≤ S8388608x8.size a := fun v129 k3_hw17 => k3_hw17.2

def k3_off82 (v137 : BitVec 32) : Fin 2 → Nat :=
  let c0_i32_167 : BitVec 32 := 0#32
  ![v137.toNat, 0]

def k3_chk18 (v137 : BitVec 32) : Prop :=
  (∀ a, (k3_off36 v137) a + S1x8.size a ≤ S8388608x8.size a) ∧
  (∀ a, (k3_off82 v137) a + S1x8.size a ≤ S8388608x8.size a)
instance k3_chk18.dec : ∀ (v137 : BitVec 32), Decidable (k3_chk18 v137) := fun v137 => decidable_of_iff' _ (Iff.of_eq (k3_chk18.eq_1 v137))
theorem k3_off36_inb : ∀ (v137 : BitVec 32) (k3_hw18 : k3_chk18 v137), ∀ a, (k3_off36 v137) a + S1x8.size a ≤ S8388608x8.size a := fun v137 k3_hw18 => k3_hw18.1
theorem k3_off82_inb : ∀ (v137 : BitVec 32) (k3_hw18 : k3_chk18 v137), ∀ a, (k3_off82 v137) a + S1x8.size a ≤ S8388608x8.size a := fun v137 k3_hw18 => k3_hw18.2

def k3_off83 (v145 : BitVec 32) : Fin 2 → Nat :=
  let c0_i32_171 : BitVec 32 := 0#32
  ![v145.toNat, 0]

def k3_chk19 (v145 : BitVec 32) : Prop :=
  (∀ a, (k3_off38 v145) a + S1x8.size a ≤ S8388608x8.size a) ∧
  (∀ a, (k3_off83 v145) a + S1x8.size a ≤ S8388608x8.size a)
instance k3_chk19.dec : ∀ (v145 : BitVec 32), Decidable (k3_chk19 v145) := fun v145 => decidable_of_iff' _ (Iff.of_eq (k3_chk19.eq_1 v145))
theorem k3_off38_inb : ∀ (v145 : BitVec 32) (k3_hw19 : k3_chk19 v145), ∀ a, (k3_off38 v145) a + S1x8.size a ≤ S8388608x8.size a := fun v145 k3_hw19 => k3_hw19.1
theorem k3_off83_inb : ∀ (v145 : BitVec 32) (k3_hw19 : k3_chk19 v145), ∀ a, (k3_off83 v145) a + S1x8.size a ≤ S8388608x8.size a := fun v145 k3_hw19 => k3_hw19.2

def k3_off84 (v153 : BitVec 32) : Fin 2 → Nat :=
  let c0_i32_175 : BitVec 32 := 0#32
  ![v153.toNat, 0]

def k3_chk20 (v153 : BitVec 32) : Prop :=
  (∀ a, (k3_off40 v153) a + S1x8.size a ≤ S8388608x8.size a) ∧
  (∀ a, (k3_off84 v153) a + S1x8.size a ≤ S8388608x8.size a)
instance k3_chk20.dec : ∀ (v153 : BitVec 32), Decidable (k3_chk20 v153) := fun v153 => decidable_of_iff' _ (Iff.of_eq (k3_chk20.eq_1 v153))
theorem k3_off40_inb : ∀ (v153 : BitVec 32) (k3_hw20 : k3_chk20 v153), ∀ a, (k3_off40 v153) a + S1x8.size a ≤ S8388608x8.size a := fun v153 k3_hw20 => k3_hw20.1
theorem k3_off84_inb : ∀ (v153 : BitVec 32) (k3_hw20 : k3_chk20 v153), ∀ a, (k3_off84 v153) a + S1x8.size a ≤ S8388608x8.size a := fun v153 k3_hw20 => k3_hw20.2

def k3_off85 (v161 : BitVec 32) : Fin 2 → Nat :=
  let c0_i32_179 : BitVec 32 := 0#32
  ![v161.toNat, 0]

def k3_chk21 (v161 : BitVec 32) : Prop :=
  (∀ a, (k3_off42 v161) a + S1x8.size a ≤ S8388608x8.size a) ∧
  (∀ a, (k3_off85 v161) a + S1x8.size a ≤ S8388608x8.size a)
instance k3_chk21.dec : ∀ (v161 : BitVec 32), Decidable (k3_chk21 v161) := fun v161 => decidable_of_iff' _ (Iff.of_eq (k3_chk21.eq_1 v161))
theorem k3_off42_inb : ∀ (v161 : BitVec 32) (k3_hw21 : k3_chk21 v161), ∀ a, (k3_off42 v161) a + S1x8.size a ≤ S8388608x8.size a := fun v161 k3_hw21 => k3_hw21.1
theorem k3_off85_inb : ∀ (v161 : BitVec 32) (k3_hw21 : k3_chk21 v161), ∀ a, (k3_off85 v161) a + S1x8.size a ≤ S8388608x8.size a := fun v161 k3_hw21 => k3_hw21.2

def k3_off86 (v169 : BitVec 32) : Fin 2 → Nat :=
  let c0_i32_183 : BitVec 32 := 0#32
  ![v169.toNat, 0]

def k3_chk22 (v169 : BitVec 32) : Prop :=
  (∀ a, (k3_off44 v169) a + S1x8.size a ≤ S8388608x8.size a) ∧
  (∀ a, (k3_off86 v169) a + S1x8.size a ≤ S8388608x8.size a)
instance k3_chk22.dec : ∀ (v169 : BitVec 32), Decidable (k3_chk22 v169) := fun v169 => decidable_of_iff' _ (Iff.of_eq (k3_chk22.eq_1 v169))
theorem k3_off44_inb : ∀ (v169 : BitVec 32) (k3_hw22 : k3_chk22 v169), ∀ a, (k3_off44 v169) a + S1x8.size a ≤ S8388608x8.size a := fun v169 k3_hw22 => k3_hw22.1
theorem k3_off86_inb : ∀ (v169 : BitVec 32) (k3_hw22 : k3_chk22 v169), ∀ a, (k3_off86 v169) a + S1x8.size a ≤ S8388608x8.size a := fun v169 k3_hw22 => k3_hw22.2

def k3_off87 (v177 : BitVec 32) : Fin 2 → Nat :=
  let c0_i32_187 : BitVec 32 := 0#32
  ![v177.toNat, 0]

def k3_chk23 (v177 : BitVec 32) : Prop :=
  (∀ a, (k3_off46 v177) a + S1x8.size a ≤ S8388608x8.size a) ∧
  (∀ a, (k3_off87 v177) a + S1x8.size a ≤ S8388608x8.size a)
instance k3_chk23.dec : ∀ (v177 : BitVec 32), Decidable (k3_chk23 v177) := fun v177 => decidable_of_iff' _ (Iff.of_eq (k3_chk23.eq_1 v177))
theorem k3_off46_inb : ∀ (v177 : BitVec 32) (k3_hw23 : k3_chk23 v177), ∀ a, (k3_off46 v177) a + S1x8.size a ≤ S8388608x8.size a := fun v177 k3_hw23 => k3_hw23.1
theorem k3_off87_inb : ∀ (v177 : BitVec 32) (k3_hw23 : k3_chk23 v177), ∀ a, (k3_off87 v177) a + S1x8.size a ≤ S8388608x8.size a := fun v177 k3_hw23 => k3_hw23.2

def k3_off88 (v185 : BitVec 32) : Fin 2 → Nat :=
  let c0_i32_191 : BitVec 32 := 0#32
  ![v185.toNat, 0]

def k3_chk24 (v185 : BitVec 32) : Prop :=
  (∀ a, (k3_off48 v185) a + S1x8.size a ≤ S8388608x8.size a) ∧
  (∀ a, (k3_off88 v185) a + S1x8.size a ≤ S8388608x8.size a)
instance k3_chk24.dec : ∀ (v185 : BitVec 32), Decidable (k3_chk24 v185) := fun v185 => decidable_of_iff' _ (Iff.of_eq (k3_chk24.eq_1 v185))
theorem k3_off48_inb : ∀ (v185 : BitVec 32) (k3_hw24 : k3_chk24 v185), ∀ a, (k3_off48 v185) a + S1x8.size a ≤ S8388608x8.size a := fun v185 k3_hw24 => k3_hw24.1
theorem k3_off88_inb : ∀ (v185 : BitVec 32) (k3_hw24 : k3_chk24 v185), ∀ a, (k3_off88 v185) a + S1x8.size a ≤ S8388608x8.size a := fun v185 k3_hw24 => k3_hw24.2

def k3_off89 (v193 : BitVec 32) : Fin 2 → Nat :=
  let c0_i32_195 : BitVec 32 := 0#32
  ![v193.toNat, 0]

def k3_chk25 (v193 : BitVec 32) : Prop :=
  (∀ a, (k3_off50 v193) a + S1x8.size a ≤ S8388608x8.size a) ∧
  (∀ a, (k3_off89 v193) a + S1x8.size a ≤ S8388608x8.size a)
instance k3_chk25.dec : ∀ (v193 : BitVec 32), Decidable (k3_chk25 v193) := fun v193 => decidable_of_iff' _ (Iff.of_eq (k3_chk25.eq_1 v193))
theorem k3_off50_inb : ∀ (v193 : BitVec 32) (k3_hw25 : k3_chk25 v193), ∀ a, (k3_off50 v193) a + S1x8.size a ≤ S8388608x8.size a := fun v193 k3_hw25 => k3_hw25.1
theorem k3_off89_inb : ∀ (v193 : BitVec 32) (k3_hw25 : k3_chk25 v193), ∀ a, (k3_off89 v193) a + S1x8.size a ≤ S8388608x8.size a := fun v193 k3_hw25 => k3_hw25.2

def k3_off90 (v201 : BitVec 32) : Fin 2 → Nat :=
  let c0_i32_199 : BitVec 32 := 0#32
  ![v201.toNat, 0]

def k3_chk26 (v201 : BitVec 32) : Prop :=
  (∀ a, (k3_off52 v201) a + S1x8.size a ≤ S8388608x8.size a) ∧
  (∀ a, (k3_off90 v201) a + S1x8.size a ≤ S8388608x8.size a)
instance k3_chk26.dec : ∀ (v201 : BitVec 32), Decidable (k3_chk26 v201) := fun v201 => decidable_of_iff' _ (Iff.of_eq (k3_chk26.eq_1 v201))
theorem k3_off52_inb : ∀ (v201 : BitVec 32) (k3_hw26 : k3_chk26 v201), ∀ a, (k3_off52 v201) a + S1x8.size a ≤ S8388608x8.size a := fun v201 k3_hw26 => k3_hw26.1
theorem k3_off90_inb : ∀ (v201 : BitVec 32) (k3_hw26 : k3_chk26 v201), ∀ a, (k3_off90 v201) a + S1x8.size a ≤ S8388608x8.size a := fun v201 k3_hw26 => k3_hw26.2

def k3_off91 (v209 : BitVec 32) : Fin 2 → Nat :=
  let c0_i32_203 : BitVec 32 := 0#32
  ![v209.toNat, 0]

def k3_chk27 (v209 : BitVec 32) : Prop :=
  (∀ a, (k3_off54 v209) a + S1x8.size a ≤ S8388608x8.size a) ∧
  (∀ a, (k3_off91 v209) a + S1x8.size a ≤ S8388608x8.size a)
instance k3_chk27.dec : ∀ (v209 : BitVec 32), Decidable (k3_chk27 v209) := fun v209 => decidable_of_iff' _ (Iff.of_eq (k3_chk27.eq_1 v209))
theorem k3_off54_inb : ∀ (v209 : BitVec 32) (k3_hw27 : k3_chk27 v209), ∀ a, (k3_off54 v209) a + S1x8.size a ≤ S8388608x8.size a := fun v209 k3_hw27 => k3_hw27.1
theorem k3_off91_inb : ∀ (v209 : BitVec 32) (k3_hw27 : k3_chk27 v209), ∀ a, (k3_off91 v209) a + S1x8.size a ≤ S8388608x8.size a := fun v209 k3_hw27 => k3_hw27.2

def k3_off92 (v217 : BitVec 32) : Fin 2 → Nat :=
  let c0_i32_207 : BitVec 32 := 0#32
  ![v217.toNat, 0]

def k3_chk28 (v217 : BitVec 32) : Prop :=
  (∀ a, (k3_off56 v217) a + S1x8.size a ≤ S8388608x8.size a) ∧
  (∀ a, (k3_off92 v217) a + S1x8.size a ≤ S8388608x8.size a)
instance k3_chk28.dec : ∀ (v217 : BitVec 32), Decidable (k3_chk28 v217) := fun v217 => decidable_of_iff' _ (Iff.of_eq (k3_chk28.eq_1 v217))
theorem k3_off56_inb : ∀ (v217 : BitVec 32) (k3_hw28 : k3_chk28 v217), ∀ a, (k3_off56 v217) a + S1x8.size a ≤ S8388608x8.size a := fun v217 k3_hw28 => k3_hw28.1
theorem k3_off92_inb : ∀ (v217 : BitVec 32) (k3_hw28 : k3_chk28 v217), ∀ a, (k3_off92 v217) a + S1x8.size a ≤ S8388608x8.size a := fun v217 k3_hw28 => k3_hw28.2

def k3_off93 (v225 : BitVec 32) : Fin 2 → Nat :=
  let c0_i32_211 : BitVec 32 := 0#32
  ![v225.toNat, 0]

def k3_chk29 (v225 : BitVec 32) : Prop :=
  (∀ a, (k3_off58 v225) a + S1x8.size a ≤ S8388608x8.size a) ∧
  (∀ a, (k3_off93 v225) a + S1x8.size a ≤ S8388608x8.size a)
instance k3_chk29.dec : ∀ (v225 : BitVec 32), Decidable (k3_chk29 v225) := fun v225 => decidable_of_iff' _ (Iff.of_eq (k3_chk29.eq_1 v225))
theorem k3_off58_inb : ∀ (v225 : BitVec 32) (k3_hw29 : k3_chk29 v225), ∀ a, (k3_off58 v225) a + S1x8.size a ≤ S8388608x8.size a := fun v225 k3_hw29 => k3_hw29.1
theorem k3_off93_inb : ∀ (v225 : BitVec 32) (k3_hw29 : k3_chk29 v225), ∀ a, (k3_off93 v225) a + S1x8.size a ≤ S8388608x8.size a := fun v225 k3_hw29 => k3_hw29.2

def k3_off94 (v233 : BitVec 32) : Fin 2 → Nat :=
  let c0_i32_215 : BitVec 32 := 0#32
  ![v233.toNat, 0]

def k3_chk30 (v233 : BitVec 32) : Prop :=
  (∀ a, (k3_off60 v233) a + S1x8.size a ≤ S8388608x8.size a) ∧
  (∀ a, (k3_off94 v233) a + S1x8.size a ≤ S8388608x8.size a)
instance k3_chk30.dec : ∀ (v233 : BitVec 32), Decidable (k3_chk30 v233) := fun v233 => decidable_of_iff' _ (Iff.of_eq (k3_chk30.eq_1 v233))
theorem k3_off60_inb : ∀ (v233 : BitVec 32) (k3_hw30 : k3_chk30 v233), ∀ a, (k3_off60 v233) a + S1x8.size a ≤ S8388608x8.size a := fun v233 k3_hw30 => k3_hw30.1
theorem k3_off94_inb : ∀ (v233 : BitVec 32) (k3_hw30 : k3_chk30 v233), ∀ a, (k3_off94 v233) a + S1x8.size a ≤ S8388608x8.size a := fun v233 k3_hw30 => k3_hw30.2

def k3_off95 (v241 : BitVec 32) : Fin 2 → Nat :=
  let c0_i32_219 : BitVec 32 := 0#32
  ![v241.toNat, 0]

def k3_chk31 (v241 : BitVec 32) : Prop :=
  (∀ a, (k3_off62 v241) a + S1x8.size a ≤ S8388608x8.size a) ∧
  (∀ a, (k3_off95 v241) a + S1x8.size a ≤ S8388608x8.size a)
instance k3_chk31.dec : ∀ (v241 : BitVec 32), Decidable (k3_chk31 v241) := fun v241 => decidable_of_iff' _ (Iff.of_eq (k3_chk31.eq_1 v241))
theorem k3_off62_inb : ∀ (v241 : BitVec 32) (k3_hw31 : k3_chk31 v241), ∀ a, (k3_off62 v241) a + S1x8.size a ≤ S8388608x8.size a := fun v241 k3_hw31 => k3_hw31.1
theorem k3_off95_inb : ∀ (v241 : BitVec 32) (k3_hw31 : k3_chk31 v241), ∀ a, (k3_off95 v241) a + S1x8.size a ≤ S8388608x8.size a := fun v241 k3_hw31 => k3_hw31.2

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x32x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![1023], ![false]⟩

abbrev pre4 : Pipeline.Prefetch sig := ⟨1, ![main_v43.idx], fun | 0 => main_v43.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 2 → Nat :=
  let c0 : Index := 0#32
  let arg0 : BitVec 32 := BitVec.ofNat 32 (i 0).val
  let v0 : Index := Scalar.indexCast arg0
  ![0, v0.toNat]
def k4_off2 (v1 : BitVec 32) : Fin 2 → Nat :=
  let c0_i32_2 : BitVec 32 := 0#32
  ![v1.toNat, 0]

def k4_off3 (i : grid4.Coords) : Fin 2 → Nat :=
  let c1 : Index := 1#32
  let arg0 : BitVec 32 := BitVec.ofNat 32 (i 0).val
  let v8 : Index := Scalar.indexCast arg0
  ![1, v8.toNat]
def k4_off4 (v9 : BitVec 32) : Fin 2 → Nat :=
  let c0_i32_5 : BitVec 32 := 0#32
  ![v9.toNat, 0]

def k4_off5 (i : grid4.Coords) : Fin 2 → Nat :=
  let c2 : Index := 2#32
  let arg0 : BitVec 32 := BitVec.ofNat 32 (i 0).val
  let v16 : Index := Scalar.indexCast arg0
  ![2, v16.toNat]
def k4_off6 (v17 : BitVec 32) : Fin 2 → Nat :=
  let c0_i32_8 : BitVec 32 := 0#32
  ![v17.toNat, 0]

def k4_off7 (i : grid4.Coords) : Fin 2 → Nat :=
  let c3 : Index := 3#32
  let arg0 : BitVec 32 := BitVec.ofNat 32 (i 0).val
  let v24 : Index := Scalar.indexCast arg0
  ![3, v24.toNat]
def k4_off8 (v25 : BitVec 32) : Fin 2 → Nat :=
  let c0_i32_11 : BitVec 32 := 0#32
  ![v25.toNat, 0]

def k4_off9 (i : grid4.Coords) : Fin 2 → Nat :=
  let c4 : Index := 4#32
  let arg0 : BitVec 32 := BitVec.ofNat 32 (i 0).val
  let v32 : Index := Scalar.indexCast arg0
  ![4, v32.toNat]
def k4_off10 (v33 : BitVec 32) : Fin 2 → Nat :=
  let c0_i32_14 : BitVec 32 := 0#32
  ![v33.toNat, 0]

def k4_off11 (i : grid4.Coords) : Fin 2 → Nat :=
  let c5 : Index := 5#32
  let arg0 : BitVec 32 := BitVec.ofNat 32 (i 0).val
  let v40 : Index := Scalar.indexCast arg0
  ![5, v40.toNat]
def k4_off12 (v41 : BitVec 32) : Fin 2 → Nat :=
  let c0_i32_17 : BitVec 32 := 0#32
  ![v41.toNat, 0]

def k4_off13 (i : grid4.Coords) : Fin 2 → Nat :=
  let c6 : Index := 6#32
  let arg0 : BitVec 32 := BitVec.ofNat 32 (i 0).val
  let v48 : Index := Scalar.indexCast arg0
  ![6, v48.toNat]
def k4_off14 (v49 : BitVec 32) : Fin 2 → Nat :=
  let c0_i32_20 : BitVec 32 := 0#32
  ![v49.toNat, 0]

def k4_off15 (i : grid4.Coords) : Fin 2 → Nat :=
  let c7 : Index := 7#32
  let arg0 : BitVec 32 := BitVec.ofNat 32 (i 0).val
  let v56 : Index := Scalar.indexCast arg0
  ![7, v56.toNat]
def k4_off16 (v57 : BitVec 32) : Fin 2 → Nat :=
  let c0_i32_23 : BitVec 32 := 0#32
  ![v57.toNat, 0]

def k4_off17 (i : grid4.Coords) : Fin 2 → Nat :=
  let c8 : Index := 8#32
  let arg0 : BitVec 32 := BitVec.ofNat 32 (i 0).val
  let v64 : Index := Scalar.indexCast arg0
  ![8, v64.toNat]
def k4_off18 (v65 : BitVec 32) : Fin 2 → Nat :=
  let c0_i32_26 : BitVec 32 := 0#32
  ![v65.toNat, 0]

def k4_off19 (i : grid4.Coords) : Fin 2 → Nat :=
  let c9 : Index := 9#32
  let arg0 : BitVec 32 := BitVec.ofNat 32 (i 0).val
  let v72 : Index := Scalar.indexCast arg0
  ![9, v72.toNat]
def k4_off20 (v73 : BitVec 32) : Fin 2 → Nat :=
  let c0_i32_29 : BitVec 32 := 0#32
  ![v73.toNat, 0]

def k4_off21 (i : grid4.Coords) : Fin 2 → Nat :=
  let c10 : Index := 10#32
  let arg0 : BitVec 32 := BitVec.ofNat 32 (i 0).val
  let v80 : Index := Scalar.indexCast arg0
  ![10, v80.toNat]
def k4_off22 (v81 : BitVec 32) : Fin 2 → Nat :=
  let c0_i32_32 : BitVec 32 := 0#32
  ![v81.toNat, 0]

def k4_off23 (i : grid4.Coords) : Fin 2 → Nat :=
  let c11 : Index := 11#32
  let arg0 : BitVec 32 := BitVec.ofNat 32 (i 0).val
  let v88 : Index := Scalar.indexCast arg0
  ![11, v88.toNat]
def k4_off24 (v89 : BitVec 32) : Fin 2 → Nat :=
  let c0_i32_35 : BitVec 32 := 0#32
  ![v89.toNat, 0]

def k4_off25 (i : grid4.Coords) : Fin 2 → Nat :=
  let c12 : Index := 12#32
  let arg0 : BitVec 32 := BitVec.ofNat 32 (i 0).val
  let v96 : Index := Scalar.indexCast arg0
  ![12, v96.toNat]
def k4_off26 (v97 : BitVec 32) : Fin 2 → Nat :=
  let c0_i32_38 : BitVec 32 := 0#32
  ![v97.toNat, 0]

def k4_off27 (i : grid4.Coords) : Fin 2 → Nat :=
  let c13 : Index := 13#32
  let arg0 : BitVec 32 := BitVec.ofNat 32 (i 0).val
  let v104 : Index := Scalar.indexCast arg0
  ![13, v104.toNat]
def k4_off28 (v105 : BitVec 32) : Fin 2 → Nat :=
  let c0_i32_41 : BitVec 32 := 0#32
  ![v105.toNat, 0]

def k4_off29 (i : grid4.Coords) : Fin 2 → Nat :=
  let c14 : Index := 14#32
  let arg0 : BitVec 32 := BitVec.ofNat 32 (i 0).val
  let v112 : Index := Scalar.indexCast arg0
  ![14, v112.toNat]
def k4_off30 (v113 : BitVec 32) : Fin 2 → Nat :=
  let c0_i32_44 : BitVec 32 := 0#32
  ![v113.toNat, 0]

def k4_off31 (i : grid4.Coords) : Fin 2 → Nat :=
  let c15 : Index := 15#32
  let arg0 : BitVec 32 := BitVec.ofNat 32 (i 0).val
  let v120 : Index := Scalar.indexCast arg0
  ![15, v120.toNat]
def k4_off32 (v121 : BitVec 32) : Fin 2 → Nat :=
  let c0_i32_47 : BitVec 32 := 0#32
  ![v121.toNat, 0]

def k4_off33 (i : grid4.Coords) : Fin 2 → Nat :=
  let c16 : Index := 16#32
  let arg0 : BitVec 32 := BitVec.ofNat 32 (i 0).val
  let v128 : Index := Scalar.indexCast arg0
  ![16, v128.toNat]
def k4_off34 (v129 : BitVec 32) : Fin 2 → Nat :=
  let c0_i32_50 : BitVec 32 := 0#32
  ![v129.toNat, 0]

def k4_off35 (i : grid4.Coords) : Fin 2 → Nat :=
  let c17 : Index := 17#32
  let arg0 : BitVec 32 := BitVec.ofNat 32 (i 0).val
  let v136 : Index := Scalar.indexCast arg0
  ![17, v136.toNat]
def k4_off36 (v137 : BitVec 32) : Fin 2 → Nat :=
  let c0_i32_53 : BitVec 32 := 0#32
  ![v137.toNat, 0]

def k4_off37 (i : grid4.Coords) : Fin 2 → Nat :=
  let c18 : Index := 18#32
  let arg0 : BitVec 32 := BitVec.ofNat 32 (i 0).val
  let v144 : Index := Scalar.indexCast arg0
  ![18, v144.toNat]
def k4_off38 (v145 : BitVec 32) : Fin 2 → Nat :=
  let c0_i32_56 : BitVec 32 := 0#32
  ![v145.toNat, 0]

def k4_off39 (i : grid4.Coords) : Fin 2 → Nat :=
  let c19 : Index := 19#32
  let arg0 : BitVec 32 := BitVec.ofNat 32 (i 0).val
  let v152 : Index := Scalar.indexCast arg0
  ![19, v152.toNat]
def k4_off40 (v153 : BitVec 32) : Fin 2 → Nat :=
  let c0_i32_59 : BitVec 32 := 0#32
  ![v153.toNat, 0]

def k4_off41 (i : grid4.Coords) : Fin 2 → Nat :=
  let c20 : Index := 20#32
  let arg0 : BitVec 32 := BitVec.ofNat 32 (i 0).val
  let v160 : Index := Scalar.indexCast arg0
  ![20, v160.toNat]
def k4_off42 (v161 : BitVec 32) : Fin 2 → Nat :=
  let c0_i32_62 : BitVec 32 := 0#32
  ![v161.toNat, 0]

def k4_off43 (i : grid4.Coords) : Fin 2 → Nat :=
  let c21 : Index := 21#32
  let arg0 : BitVec 32 := BitVec.ofNat 32 (i 0).val
  let v168 : Index := Scalar.indexCast arg0
  ![21, v168.toNat]
def k4_off44 (v169 : BitVec 32) : Fin 2 → Nat :=
  let c0_i32_65 : BitVec 32 := 0#32
  ![v169.toNat, 0]

def k4_off45 (i : grid4.Coords) : Fin 2 → Nat :=
  let c22 : Index := 22#32
  let arg0 : BitVec 32 := BitVec.ofNat 32 (i 0).val
  let v176 : Index := Scalar.indexCast arg0
  ![22, v176.toNat]
def k4_off46 (v177 : BitVec 32) : Fin 2 → Nat :=
  let c0_i32_68 : BitVec 32 := 0#32
  ![v177.toNat, 0]

def k4_off47 (i : grid4.Coords) : Fin 2 → Nat :=
  let c23 : Index := 23#32
  let arg0 : BitVec 32 := BitVec.ofNat 32 (i 0).val
  let v184 : Index := Scalar.indexCast arg0
  ![23, v184.toNat]
def k4_off48 (v185 : BitVec 32) : Fin 2 → Nat :=
  let c0_i32_71 : BitVec 32 := 0#32
  ![v185.toNat, 0]

def k4_off49 (i : grid4.Coords) : Fin 2 → Nat :=
  let c24 : Index := 24#32
  let arg0 : BitVec 32 := BitVec.ofNat 32 (i 0).val
  let v192 : Index := Scalar.indexCast arg0
  ![24, v192.toNat]
def k4_off50 (v193 : BitVec 32) : Fin 2 → Nat :=
  let c0_i32_74 : BitVec 32 := 0#32
  ![v193.toNat, 0]

def k4_off51 (i : grid4.Coords) : Fin 2 → Nat :=
  let c25 : Index := 25#32
  let arg0 : BitVec 32 := BitVec.ofNat 32 (i 0).val
  let v200 : Index := Scalar.indexCast arg0
  ![25, v200.toNat]
def k4_off52 (v201 : BitVec 32) : Fin 2 → Nat :=
  let c0_i32_77 : BitVec 32 := 0#32
  ![v201.toNat, 0]

def k4_off53 (i : grid4.Coords) : Fin 2 → Nat :=
  let c26 : Index := 26#32
  let arg0 : BitVec 32 := BitVec.ofNat 32 (i 0).val
  let v208 : Index := Scalar.indexCast arg0
  ![26, v208.toNat]
def k4_off54 (v209 : BitVec 32) : Fin 2 → Nat :=
  let c0_i32_80 : BitVec 32 := 0#32
  ![v209.toNat, 0]

def k4_off55 (i : grid4.Coords) : Fin 2 → Nat :=
  let c27 : Index := 27#32
  let arg0 : BitVec 32 := BitVec.ofNat 32 (i 0).val
  let v216 : Index := Scalar.indexCast arg0
  ![27, v216.toNat]
def k4_off56 (v217 : BitVec 32) : Fin 2 → Nat :=
  let c0_i32_83 : BitVec 32 := 0#32
  ![v217.toNat, 0]

def k4_off57 (i : grid4.Coords) : Fin 2 → Nat :=
  let c28 : Index := 28#32
  let arg0 : BitVec 32 := BitVec.ofNat 32 (i 0).val
  let v224 : Index := Scalar.indexCast arg0
  ![28, v224.toNat]
def k4_off58 (v225 : BitVec 32) : Fin 2 → Nat :=
  let c0_i32_86 : BitVec 32 := 0#32
  ![v225.toNat, 0]

def k4_off59 (i : grid4.Coords) : Fin 2 → Nat :=
  let c29 : Index := 29#32
  let arg0 : BitVec 32 := BitVec.ofNat 32 (i 0).val
  let v232 : Index := Scalar.indexCast arg0
  ![29, v232.toNat]
def k4_off60 (v233 : BitVec 32) : Fin 2 → Nat :=
  let c0_i32_89 : BitVec 32 := 0#32
  ![v233.toNat, 0]

def k4_off61 (i : grid4.Coords) : Fin 2 → Nat :=
  let c30 : Index := 30#32
  let arg0 : BitVec 32 := BitVec.ofNat 32 (i 0).val
  let v240 : Index := Scalar.indexCast arg0
  ![30, v240.toNat]
def k4_off62 (v241 : BitVec 32) : Fin 2 → Nat :=
  let c0_i32_92 : BitVec 32 := 0#32
  ![v241.toNat, 0]

def k4_off63 (i : grid4.Coords) : Fin 2 → Nat :=
  let c31 : Index := 31#32
  let arg0 : BitVec 32 := BitVec.ofNat 32 (i 0).val
  let v248 : Index := Scalar.indexCast arg0
  ![31, v248.toNat]
def k4_off64 (v249 : BitVec 32) : Fin 2 → Nat :=
  let c0_i32_95 : BitVec 32 := 0#32
  ![v249.toNat, 0]

def k4_chk32 (v249 : BitVec 32) : Prop :=
  (∀ a, (k4_off64 v249) a + S1x8.size a ≤ S8388608x8.size a)
instance k4_chk32.dec : ∀ (v249 : BitVec 32), Decidable (k4_chk32 v249) := fun v249 => decidable_of_iff' _ (Iff.of_eq (k4_chk32.eq_1 v249))
theorem k4_off64_inb : ∀ (v249 : BitVec 32) (k4_hw32 : k4_chk32 v249), ∀ a, (k4_off64 v249) a + S1x8.size a ≤ S8388608x8.size a := fun v249 k4_hw32 => k4_hw32

def k4_off65 (v1 : BitVec 32) : Fin 2 → Nat :=
  let c0_i32_99 : BitVec 32 := 0#32
  ![v1.toNat, 0]

def k4_chk1 (v1 : BitVec 32) : Prop :=
  (∀ a, (k4_off2 v1) a + S1x8.size a ≤ S8388608x8.size a) ∧
  (∀ a, (k4_off65 v1) a + S1x8.size a ≤ S8388608x8.size a)
instance k4_chk1.dec : ∀ (v1 : BitVec 32), Decidable (k4_chk1 v1) := fun v1 => decidable_of_iff' _ (Iff.of_eq (k4_chk1.eq_1 v1))
theorem k4_off2_inb : ∀ (v1 : BitVec 32) (k4_hw1 : k4_chk1 v1), ∀ a, (k4_off2 v1) a + S1x8.size a ≤ S8388608x8.size a := fun v1 k4_hw1 => k4_hw1.1
theorem k4_off65_inb : ∀ (v1 : BitVec 32) (k4_hw1 : k4_chk1 v1), ∀ a, (k4_off65 v1) a + S1x8.size a ≤ S8388608x8.size a := fun v1 k4_hw1 => k4_hw1.2

def k4_off66 (v9 : BitVec 32) : Fin 2 → Nat :=
  let c0_i32_103 : BitVec 32 := 0#32
  ![v9.toNat, 0]

def k4_chk2 (v9 : BitVec 32) : Prop :=
  (∀ a, (k4_off4 v9) a + S1x8.size a ≤ S8388608x8.size a) ∧
  (∀ a, (k4_off66 v9) a + S1x8.size a ≤ S8388608x8.size a)
instance k4_chk2.dec : ∀ (v9 : BitVec 32), Decidable (k4_chk2 v9) := fun v9 => decidable_of_iff' _ (Iff.of_eq (k4_chk2.eq_1 v9))
theorem k4_off4_inb : ∀ (v9 : BitVec 32) (k4_hw2 : k4_chk2 v9), ∀ a, (k4_off4 v9) a + S1x8.size a ≤ S8388608x8.size a := fun v9 k4_hw2 => k4_hw2.1
theorem k4_off66_inb : ∀ (v9 : BitVec 32) (k4_hw2 : k4_chk2 v9), ∀ a, (k4_off66 v9) a + S1x8.size a ≤ S8388608x8.size a := fun v9 k4_hw2 => k4_hw2.2

def k4_off67 (v17 : BitVec 32) : Fin 2 → Nat :=
  let c0_i32_107 : BitVec 32 := 0#32
  ![v17.toNat, 0]

def k4_chk3 (v17 : BitVec 32) : Prop :=
  (∀ a, (k4_off6 v17) a + S1x8.size a ≤ S8388608x8.size a) ∧
  (∀ a, (k4_off67 v17) a + S1x8.size a ≤ S8388608x8.size a)
instance k4_chk3.dec : ∀ (v17 : BitVec 32), Decidable (k4_chk3 v17) := fun v17 => decidable_of_iff' _ (Iff.of_eq (k4_chk3.eq_1 v17))
theorem k4_off6_inb : ∀ (v17 : BitVec 32) (k4_hw3 : k4_chk3 v17), ∀ a, (k4_off6 v17) a + S1x8.size a ≤ S8388608x8.size a := fun v17 k4_hw3 => k4_hw3.1
theorem k4_off67_inb : ∀ (v17 : BitVec 32) (k4_hw3 : k4_chk3 v17), ∀ a, (k4_off67 v17) a + S1x8.size a ≤ S8388608x8.size a := fun v17 k4_hw3 => k4_hw3.2

def k4_off68 (v25 : BitVec 32) : Fin 2 → Nat :=
  let c0_i32_111 : BitVec 32 := 0#32
  ![v25.toNat, 0]

def k4_chk4 (v25 : BitVec 32) : Prop :=
  (∀ a, (k4_off8 v25) a + S1x8.size a ≤ S8388608x8.size a) ∧
  (∀ a, (k4_off68 v25) a + S1x8.size a ≤ S8388608x8.size a)
instance k4_chk4.dec : ∀ (v25 : BitVec 32), Decidable (k4_chk4 v25) := fun v25 => decidable_of_iff' _ (Iff.of_eq (k4_chk4.eq_1 v25))
theorem k4_off8_inb : ∀ (v25 : BitVec 32) (k4_hw4 : k4_chk4 v25), ∀ a, (k4_off8 v25) a + S1x8.size a ≤ S8388608x8.size a := fun v25 k4_hw4 => k4_hw4.1
theorem k4_off68_inb : ∀ (v25 : BitVec 32) (k4_hw4 : k4_chk4 v25), ∀ a, (k4_off68 v25) a + S1x8.size a ≤ S8388608x8.size a := fun v25 k4_hw4 => k4_hw4.2

def k4_off69 (v33 : BitVec 32) : Fin 2 → Nat :=
  let c0_i32_115 : BitVec 32 := 0#32
  ![v33.toNat, 0]

def k4_chk5 (v33 : BitVec 32) : Prop :=
  (∀ a, (k4_off10 v33) a + S1x8.size a ≤ S8388608x8.size a) ∧
  (∀ a, (k4_off69 v33) a + S1x8.size a ≤ S8388608x8.size a)
instance k4_chk5.dec : ∀ (v33 : BitVec 32), Decidable (k4_chk5 v33) := fun v33 => decidable_of_iff' _ (Iff.of_eq (k4_chk5.eq_1 v33))
theorem k4_off10_inb : ∀ (v33 : BitVec 32) (k4_hw5 : k4_chk5 v33), ∀ a, (k4_off10 v33) a + S1x8.size a ≤ S8388608x8.size a := fun v33 k4_hw5 => k4_hw5.1
theorem k4_off69_inb : ∀ (v33 : BitVec 32) (k4_hw5 : k4_chk5 v33), ∀ a, (k4_off69 v33) a + S1x8.size a ≤ S8388608x8.size a := fun v33 k4_hw5 => k4_hw5.2

def k4_off70 (v41 : BitVec 32) : Fin 2 → Nat :=
  let c0_i32_119 : BitVec 32 := 0#32
  ![v41.toNat, 0]

def k4_chk6 (v41 : BitVec 32) : Prop :=
  (∀ a, (k4_off12 v41) a + S1x8.size a ≤ S8388608x8.size a) ∧
  (∀ a, (k4_off70 v41) a + S1x8.size a ≤ S8388608x8.size a)
instance k4_chk6.dec : ∀ (v41 : BitVec 32), Decidable (k4_chk6 v41) := fun v41 => decidable_of_iff' _ (Iff.of_eq (k4_chk6.eq_1 v41))
theorem k4_off12_inb : ∀ (v41 : BitVec 32) (k4_hw6 : k4_chk6 v41), ∀ a, (k4_off12 v41) a + S1x8.size a ≤ S8388608x8.size a := fun v41 k4_hw6 => k4_hw6.1
theorem k4_off70_inb : ∀ (v41 : BitVec 32) (k4_hw6 : k4_chk6 v41), ∀ a, (k4_off70 v41) a + S1x8.size a ≤ S8388608x8.size a := fun v41 k4_hw6 => k4_hw6.2

def k4_off71 (v49 : BitVec 32) : Fin 2 → Nat :=
  let c0_i32_123 : BitVec 32 := 0#32
  ![v49.toNat, 0]

def k4_chk7 (v49 : BitVec 32) : Prop :=
  (∀ a, (k4_off14 v49) a + S1x8.size a ≤ S8388608x8.size a) ∧
  (∀ a, (k4_off71 v49) a + S1x8.size a ≤ S8388608x8.size a)
instance k4_chk7.dec : ∀ (v49 : BitVec 32), Decidable (k4_chk7 v49) := fun v49 => decidable_of_iff' _ (Iff.of_eq (k4_chk7.eq_1 v49))
theorem k4_off14_inb : ∀ (v49 : BitVec 32) (k4_hw7 : k4_chk7 v49), ∀ a, (k4_off14 v49) a + S1x8.size a ≤ S8388608x8.size a := fun v49 k4_hw7 => k4_hw7.1
theorem k4_off71_inb : ∀ (v49 : BitVec 32) (k4_hw7 : k4_chk7 v49), ∀ a, (k4_off71 v49) a + S1x8.size a ≤ S8388608x8.size a := fun v49 k4_hw7 => k4_hw7.2

def k4_off72 (v57 : BitVec 32) : Fin 2 → Nat :=
  let c0_i32_127 : BitVec 32 := 0#32
  ![v57.toNat, 0]

def k4_chk8 (v57 : BitVec 32) : Prop :=
  (∀ a, (k4_off16 v57) a + S1x8.size a ≤ S8388608x8.size a) ∧
  (∀ a, (k4_off72 v57) a + S1x8.size a ≤ S8388608x8.size a)
instance k4_chk8.dec : ∀ (v57 : BitVec 32), Decidable (k4_chk8 v57) := fun v57 => decidable_of_iff' _ (Iff.of_eq (k4_chk8.eq_1 v57))
theorem k4_off16_inb : ∀ (v57 : BitVec 32) (k4_hw8 : k4_chk8 v57), ∀ a, (k4_off16 v57) a + S1x8.size a ≤ S8388608x8.size a := fun v57 k4_hw8 => k4_hw8.1
theorem k4_off72_inb : ∀ (v57 : BitVec 32) (k4_hw8 : k4_chk8 v57), ∀ a, (k4_off72 v57) a + S1x8.size a ≤ S8388608x8.size a := fun v57 k4_hw8 => k4_hw8.2

def k4_off73 (v65 : BitVec 32) : Fin 2 → Nat :=
  let c0_i32_131 : BitVec 32 := 0#32
  ![v65.toNat, 0]

def k4_chk9 (v65 : BitVec 32) : Prop :=
  (∀ a, (k4_off18 v65) a + S1x8.size a ≤ S8388608x8.size a) ∧
  (∀ a, (k4_off73 v65) a + S1x8.size a ≤ S8388608x8.size a)
instance k4_chk9.dec : ∀ (v65 : BitVec 32), Decidable (k4_chk9 v65) := fun v65 => decidable_of_iff' _ (Iff.of_eq (k4_chk9.eq_1 v65))
theorem k4_off18_inb : ∀ (v65 : BitVec 32) (k4_hw9 : k4_chk9 v65), ∀ a, (k4_off18 v65) a + S1x8.size a ≤ S8388608x8.size a := fun v65 k4_hw9 => k4_hw9.1
theorem k4_off73_inb : ∀ (v65 : BitVec 32) (k4_hw9 : k4_chk9 v65), ∀ a, (k4_off73 v65) a + S1x8.size a ≤ S8388608x8.size a := fun v65 k4_hw9 => k4_hw9.2

def k4_off74 (v73 : BitVec 32) : Fin 2 → Nat :=
  let c0_i32_135 : BitVec 32 := 0#32
  ![v73.toNat, 0]

def k4_chk10 (v73 : BitVec 32) : Prop :=
  (∀ a, (k4_off20 v73) a + S1x8.size a ≤ S8388608x8.size a) ∧
  (∀ a, (k4_off74 v73) a + S1x8.size a ≤ S8388608x8.size a)
instance k4_chk10.dec : ∀ (v73 : BitVec 32), Decidable (k4_chk10 v73) := fun v73 => decidable_of_iff' _ (Iff.of_eq (k4_chk10.eq_1 v73))
theorem k4_off20_inb : ∀ (v73 : BitVec 32) (k4_hw10 : k4_chk10 v73), ∀ a, (k4_off20 v73) a + S1x8.size a ≤ S8388608x8.size a := fun v73 k4_hw10 => k4_hw10.1
theorem k4_off74_inb : ∀ (v73 : BitVec 32) (k4_hw10 : k4_chk10 v73), ∀ a, (k4_off74 v73) a + S1x8.size a ≤ S8388608x8.size a := fun v73 k4_hw10 => k4_hw10.2

def k4_off75 (v81 : BitVec 32) : Fin 2 → Nat :=
  let c0_i32_139 : BitVec 32 := 0#32
  ![v81.toNat, 0]

def k4_chk11 (v81 : BitVec 32) : Prop :=
  (∀ a, (k4_off22 v81) a + S1x8.size a ≤ S8388608x8.size a) ∧
  (∀ a, (k4_off75 v81) a + S1x8.size a ≤ S8388608x8.size a)
instance k4_chk11.dec : ∀ (v81 : BitVec 32), Decidable (k4_chk11 v81) := fun v81 => decidable_of_iff' _ (Iff.of_eq (k4_chk11.eq_1 v81))
theorem k4_off22_inb : ∀ (v81 : BitVec 32) (k4_hw11 : k4_chk11 v81), ∀ a, (k4_off22 v81) a + S1x8.size a ≤ S8388608x8.size a := fun v81 k4_hw11 => k4_hw11.1
theorem k4_off75_inb : ∀ (v81 : BitVec 32) (k4_hw11 : k4_chk11 v81), ∀ a, (k4_off75 v81) a + S1x8.size a ≤ S8388608x8.size a := fun v81 k4_hw11 => k4_hw11.2

def k4_off76 (v89 : BitVec 32) : Fin 2 → Nat :=
  let c0_i32_143 : BitVec 32 := 0#32
  ![v89.toNat, 0]

def k4_chk12 (v89 : BitVec 32) : Prop :=
  (∀ a, (k4_off24 v89) a + S1x8.size a ≤ S8388608x8.size a) ∧
  (∀ a, (k4_off76 v89) a + S1x8.size a ≤ S8388608x8.size a)
instance k4_chk12.dec : ∀ (v89 : BitVec 32), Decidable (k4_chk12 v89) := fun v89 => decidable_of_iff' _ (Iff.of_eq (k4_chk12.eq_1 v89))
theorem k4_off24_inb : ∀ (v89 : BitVec 32) (k4_hw12 : k4_chk12 v89), ∀ a, (k4_off24 v89) a + S1x8.size a ≤ S8388608x8.size a := fun v89 k4_hw12 => k4_hw12.1
theorem k4_off76_inb : ∀ (v89 : BitVec 32) (k4_hw12 : k4_chk12 v89), ∀ a, (k4_off76 v89) a + S1x8.size a ≤ S8388608x8.size a := fun v89 k4_hw12 => k4_hw12.2

def k4_off77 (v97 : BitVec 32) : Fin 2 → Nat :=
  let c0_i32_147 : BitVec 32 := 0#32
  ![v97.toNat, 0]

def k4_chk13 (v97 : BitVec 32) : Prop :=
  (∀ a, (k4_off26 v97) a + S1x8.size a ≤ S8388608x8.size a) ∧
  (∀ a, (k4_off77 v97) a + S1x8.size a ≤ S8388608x8.size a)
instance k4_chk13.dec : ∀ (v97 : BitVec 32), Decidable (k4_chk13 v97) := fun v97 => decidable_of_iff' _ (Iff.of_eq (k4_chk13.eq_1 v97))
theorem k4_off26_inb : ∀ (v97 : BitVec 32) (k4_hw13 : k4_chk13 v97), ∀ a, (k4_off26 v97) a + S1x8.size a ≤ S8388608x8.size a := fun v97 k4_hw13 => k4_hw13.1
theorem k4_off77_inb : ∀ (v97 : BitVec 32) (k4_hw13 : k4_chk13 v97), ∀ a, (k4_off77 v97) a + S1x8.size a ≤ S8388608x8.size a := fun v97 k4_hw13 => k4_hw13.2

def k4_off78 (v105 : BitVec 32) : Fin 2 → Nat :=
  let c0_i32_151 : BitVec 32 := 0#32
  ![v105.toNat, 0]

def k4_chk14 (v105 : BitVec 32) : Prop :=
  (∀ a, (k4_off28 v105) a + S1x8.size a ≤ S8388608x8.size a) ∧
  (∀ a, (k4_off78 v105) a + S1x8.size a ≤ S8388608x8.size a)
instance k4_chk14.dec : ∀ (v105 : BitVec 32), Decidable (k4_chk14 v105) := fun v105 => decidable_of_iff' _ (Iff.of_eq (k4_chk14.eq_1 v105))
theorem k4_off28_inb : ∀ (v105 : BitVec 32) (k4_hw14 : k4_chk14 v105), ∀ a, (k4_off28 v105) a + S1x8.size a ≤ S8388608x8.size a := fun v105 k4_hw14 => k4_hw14.1
theorem k4_off78_inb : ∀ (v105 : BitVec 32) (k4_hw14 : k4_chk14 v105), ∀ a, (k4_off78 v105) a + S1x8.size a ≤ S8388608x8.size a := fun v105 k4_hw14 => k4_hw14.2

def k4_off79 (v113 : BitVec 32) : Fin 2 → Nat :=
  let c0_i32_155 : BitVec 32 := 0#32
  ![v113.toNat, 0]

def k4_chk15 (v113 : BitVec 32) : Prop :=
  (∀ a, (k4_off30 v113) a + S1x8.size a ≤ S8388608x8.size a) ∧
  (∀ a, (k4_off79 v113) a + S1x8.size a ≤ S8388608x8.size a)
instance k4_chk15.dec : ∀ (v113 : BitVec 32), Decidable (k4_chk15 v113) := fun v113 => decidable_of_iff' _ (Iff.of_eq (k4_chk15.eq_1 v113))
theorem k4_off30_inb : ∀ (v113 : BitVec 32) (k4_hw15 : k4_chk15 v113), ∀ a, (k4_off30 v113) a + S1x8.size a ≤ S8388608x8.size a := fun v113 k4_hw15 => k4_hw15.1
theorem k4_off79_inb : ∀ (v113 : BitVec 32) (k4_hw15 : k4_chk15 v113), ∀ a, (k4_off79 v113) a + S1x8.size a ≤ S8388608x8.size a := fun v113 k4_hw15 => k4_hw15.2

def k4_off80 (v121 : BitVec 32) : Fin 2 → Nat :=
  let c0_i32_159 : BitVec 32 := 0#32
  ![v121.toNat, 0]

def k4_chk16 (v121 : BitVec 32) : Prop :=
  (∀ a, (k4_off32 v121) a + S1x8.size a ≤ S8388608x8.size a) ∧
  (∀ a, (k4_off80 v121) a + S1x8.size a ≤ S8388608x8.size a)
instance k4_chk16.dec : ∀ (v121 : BitVec 32), Decidable (k4_chk16 v121) := fun v121 => decidable_of_iff' _ (Iff.of_eq (k4_chk16.eq_1 v121))
theorem k4_off32_inb : ∀ (v121 : BitVec 32) (k4_hw16 : k4_chk16 v121), ∀ a, (k4_off32 v121) a + S1x8.size a ≤ S8388608x8.size a := fun v121 k4_hw16 => k4_hw16.1
theorem k4_off80_inb : ∀ (v121 : BitVec 32) (k4_hw16 : k4_chk16 v121), ∀ a, (k4_off80 v121) a + S1x8.size a ≤ S8388608x8.size a := fun v121 k4_hw16 => k4_hw16.2

def k4_off81 (v129 : BitVec 32) : Fin 2 → Nat :=
  let c0_i32_163 : BitVec 32 := 0#32
  ![v129.toNat, 0]

def k4_chk17 (v129 : BitVec 32) : Prop :=
  (∀ a, (k4_off34 v129) a + S1x8.size a ≤ S8388608x8.size a) ∧
  (∀ a, (k4_off81 v129) a + S1x8.size a ≤ S8388608x8.size a)
instance k4_chk17.dec : ∀ (v129 : BitVec 32), Decidable (k4_chk17 v129) := fun v129 => decidable_of_iff' _ (Iff.of_eq (k4_chk17.eq_1 v129))
theorem k4_off34_inb : ∀ (v129 : BitVec 32) (k4_hw17 : k4_chk17 v129), ∀ a, (k4_off34 v129) a + S1x8.size a ≤ S8388608x8.size a := fun v129 k4_hw17 => k4_hw17.1
theorem k4_off81_inb : ∀ (v129 : BitVec 32) (k4_hw17 : k4_chk17 v129), ∀ a, (k4_off81 v129) a + S1x8.size a ≤ S8388608x8.size a := fun v129 k4_hw17 => k4_hw17.2

def k4_off82 (v137 : BitVec 32) : Fin 2 → Nat :=
  let c0_i32_167 : BitVec 32 := 0#32
  ![v137.toNat, 0]

def k4_chk18 (v137 : BitVec 32) : Prop :=
  (∀ a, (k4_off36 v137) a + S1x8.size a ≤ S8388608x8.size a) ∧
  (∀ a, (k4_off82 v137) a + S1x8.size a ≤ S8388608x8.size a)
instance k4_chk18.dec : ∀ (v137 : BitVec 32), Decidable (k4_chk18 v137) := fun v137 => decidable_of_iff' _ (Iff.of_eq (k4_chk18.eq_1 v137))
theorem k4_off36_inb : ∀ (v137 : BitVec 32) (k4_hw18 : k4_chk18 v137), ∀ a, (k4_off36 v137) a + S1x8.size a ≤ S8388608x8.size a := fun v137 k4_hw18 => k4_hw18.1
theorem k4_off82_inb : ∀ (v137 : BitVec 32) (k4_hw18 : k4_chk18 v137), ∀ a, (k4_off82 v137) a + S1x8.size a ≤ S8388608x8.size a := fun v137 k4_hw18 => k4_hw18.2

def k4_off83 (v145 : BitVec 32) : Fin 2 → Nat :=
  let c0_i32_171 : BitVec 32 := 0#32
  ![v145.toNat, 0]

def k4_chk19 (v145 : BitVec 32) : Prop :=
  (∀ a, (k4_off38 v145) a + S1x8.size a ≤ S8388608x8.size a) ∧
  (∀ a, (k4_off83 v145) a + S1x8.size a ≤ S8388608x8.size a)
instance k4_chk19.dec : ∀ (v145 : BitVec 32), Decidable (k4_chk19 v145) := fun v145 => decidable_of_iff' _ (Iff.of_eq (k4_chk19.eq_1 v145))
theorem k4_off38_inb : ∀ (v145 : BitVec 32) (k4_hw19 : k4_chk19 v145), ∀ a, (k4_off38 v145) a + S1x8.size a ≤ S8388608x8.size a := fun v145 k4_hw19 => k4_hw19.1
theorem k4_off83_inb : ∀ (v145 : BitVec 32) (k4_hw19 : k4_chk19 v145), ∀ a, (k4_off83 v145) a + S1x8.size a ≤ S8388608x8.size a := fun v145 k4_hw19 => k4_hw19.2

def k4_off84 (v153 : BitVec 32) : Fin 2 → Nat :=
  let c0_i32_175 : BitVec 32 := 0#32
  ![v153.toNat, 0]

def k4_chk20 (v153 : BitVec 32) : Prop :=
  (∀ a, (k4_off40 v153) a + S1x8.size a ≤ S8388608x8.size a) ∧
  (∀ a, (k4_off84 v153) a + S1x8.size a ≤ S8388608x8.size a)
instance k4_chk20.dec : ∀ (v153 : BitVec 32), Decidable (k4_chk20 v153) := fun v153 => decidable_of_iff' _ (Iff.of_eq (k4_chk20.eq_1 v153))
theorem k4_off40_inb : ∀ (v153 : BitVec 32) (k4_hw20 : k4_chk20 v153), ∀ a, (k4_off40 v153) a + S1x8.size a ≤ S8388608x8.size a := fun v153 k4_hw20 => k4_hw20.1
theorem k4_off84_inb : ∀ (v153 : BitVec 32) (k4_hw20 : k4_chk20 v153), ∀ a, (k4_off84 v153) a + S1x8.size a ≤ S8388608x8.size a := fun v153 k4_hw20 => k4_hw20.2

def k4_off85 (v161 : BitVec 32) : Fin 2 → Nat :=
  let c0_i32_179 : BitVec 32 := 0#32
  ![v161.toNat, 0]

def k4_chk21 (v161 : BitVec 32) : Prop :=
  (∀ a, (k4_off42 v161) a + S1x8.size a ≤ S8388608x8.size a) ∧
  (∀ a, (k4_off85 v161) a + S1x8.size a ≤ S8388608x8.size a)
instance k4_chk21.dec : ∀ (v161 : BitVec 32), Decidable (k4_chk21 v161) := fun v161 => decidable_of_iff' _ (Iff.of_eq (k4_chk21.eq_1 v161))
theorem k4_off42_inb : ∀ (v161 : BitVec 32) (k4_hw21 : k4_chk21 v161), ∀ a, (k4_off42 v161) a + S1x8.size a ≤ S8388608x8.size a := fun v161 k4_hw21 => k4_hw21.1
theorem k4_off85_inb : ∀ (v161 : BitVec 32) (k4_hw21 : k4_chk21 v161), ∀ a, (k4_off85 v161) a + S1x8.size a ≤ S8388608x8.size a := fun v161 k4_hw21 => k4_hw21.2

def k4_off86 (v169 : BitVec 32) : Fin 2 → Nat :=
  let c0_i32_183 : BitVec 32 := 0#32
  ![v169.toNat, 0]

def k4_chk22 (v169 : BitVec 32) : Prop :=
  (∀ a, (k4_off44 v169) a + S1x8.size a ≤ S8388608x8.size a) ∧
  (∀ a, (k4_off86 v169) a + S1x8.size a ≤ S8388608x8.size a)
instance k4_chk22.dec : ∀ (v169 : BitVec 32), Decidable (k4_chk22 v169) := fun v169 => decidable_of_iff' _ (Iff.of_eq (k4_chk22.eq_1 v169))
theorem k4_off44_inb : ∀ (v169 : BitVec 32) (k4_hw22 : k4_chk22 v169), ∀ a, (k4_off44 v169) a + S1x8.size a ≤ S8388608x8.size a := fun v169 k4_hw22 => k4_hw22.1
theorem k4_off86_inb : ∀ (v169 : BitVec 32) (k4_hw22 : k4_chk22 v169), ∀ a, (k4_off86 v169) a + S1x8.size a ≤ S8388608x8.size a := fun v169 k4_hw22 => k4_hw22.2

def k4_off87 (v177 : BitVec 32) : Fin 2 → Nat :=
  let c0_i32_187 : BitVec 32 := 0#32
  ![v177.toNat, 0]

def k4_chk23 (v177 : BitVec 32) : Prop :=
  (∀ a, (k4_off46 v177) a + S1x8.size a ≤ S8388608x8.size a) ∧
  (∀ a, (k4_off87 v177) a + S1x8.size a ≤ S8388608x8.size a)
instance k4_chk23.dec : ∀ (v177 : BitVec 32), Decidable (k4_chk23 v177) := fun v177 => decidable_of_iff' _ (Iff.of_eq (k4_chk23.eq_1 v177))
theorem k4_off46_inb : ∀ (v177 : BitVec 32) (k4_hw23 : k4_chk23 v177), ∀ a, (k4_off46 v177) a + S1x8.size a ≤ S8388608x8.size a := fun v177 k4_hw23 => k4_hw23.1
theorem k4_off87_inb : ∀ (v177 : BitVec 32) (k4_hw23 : k4_chk23 v177), ∀ a, (k4_off87 v177) a + S1x8.size a ≤ S8388608x8.size a := fun v177 k4_hw23 => k4_hw23.2

def k4_off88 (v185 : BitVec 32) : Fin 2 → Nat :=
  let c0_i32_191 : BitVec 32 := 0#32
  ![v185.toNat, 0]

def k4_chk24 (v185 : BitVec 32) : Prop :=
  (∀ a, (k4_off48 v185) a + S1x8.size a ≤ S8388608x8.size a) ∧
  (∀ a, (k4_off88 v185) a + S1x8.size a ≤ S8388608x8.size a)
instance k4_chk24.dec : ∀ (v185 : BitVec 32), Decidable (k4_chk24 v185) := fun v185 => decidable_of_iff' _ (Iff.of_eq (k4_chk24.eq_1 v185))
theorem k4_off48_inb : ∀ (v185 : BitVec 32) (k4_hw24 : k4_chk24 v185), ∀ a, (k4_off48 v185) a + S1x8.size a ≤ S8388608x8.size a := fun v185 k4_hw24 => k4_hw24.1
theorem k4_off88_inb : ∀ (v185 : BitVec 32) (k4_hw24 : k4_chk24 v185), ∀ a, (k4_off88 v185) a + S1x8.size a ≤ S8388608x8.size a := fun v185 k4_hw24 => k4_hw24.2

def k4_off89 (v193 : BitVec 32) : Fin 2 → Nat :=
  let c0_i32_195 : BitVec 32 := 0#32
  ![v193.toNat, 0]

def k4_chk25 (v193 : BitVec 32) : Prop :=
  (∀ a, (k4_off50 v193) a + S1x8.size a ≤ S8388608x8.size a) ∧
  (∀ a, (k4_off89 v193) a + S1x8.size a ≤ S8388608x8.size a)
instance k4_chk25.dec : ∀ (v193 : BitVec 32), Decidable (k4_chk25 v193) := fun v193 => decidable_of_iff' _ (Iff.of_eq (k4_chk25.eq_1 v193))
theorem k4_off50_inb : ∀ (v193 : BitVec 32) (k4_hw25 : k4_chk25 v193), ∀ a, (k4_off50 v193) a + S1x8.size a ≤ S8388608x8.size a := fun v193 k4_hw25 => k4_hw25.1
theorem k4_off89_inb : ∀ (v193 : BitVec 32) (k4_hw25 : k4_chk25 v193), ∀ a, (k4_off89 v193) a + S1x8.size a ≤ S8388608x8.size a := fun v193 k4_hw25 => k4_hw25.2

def k4_off90 (v201 : BitVec 32) : Fin 2 → Nat :=
  let c0_i32_199 : BitVec 32 := 0#32
  ![v201.toNat, 0]

def k4_chk26 (v201 : BitVec 32) : Prop :=
  (∀ a, (k4_off52 v201) a + S1x8.size a ≤ S8388608x8.size a) ∧
  (∀ a, (k4_off90 v201) a + S1x8.size a ≤ S8388608x8.size a)
instance k4_chk26.dec : ∀ (v201 : BitVec 32), Decidable (k4_chk26 v201) := fun v201 => decidable_of_iff' _ (Iff.of_eq (k4_chk26.eq_1 v201))
theorem k4_off52_inb : ∀ (v201 : BitVec 32) (k4_hw26 : k4_chk26 v201), ∀ a, (k4_off52 v201) a + S1x8.size a ≤ S8388608x8.size a := fun v201 k4_hw26 => k4_hw26.1
theorem k4_off90_inb : ∀ (v201 : BitVec 32) (k4_hw26 : k4_chk26 v201), ∀ a, (k4_off90 v201) a + S1x8.size a ≤ S8388608x8.size a := fun v201 k4_hw26 => k4_hw26.2

def k4_off91 (v209 : BitVec 32) : Fin 2 → Nat :=
  let c0_i32_203 : BitVec 32 := 0#32
  ![v209.toNat, 0]

def k4_chk27 (v209 : BitVec 32) : Prop :=
  (∀ a, (k4_off54 v209) a + S1x8.size a ≤ S8388608x8.size a) ∧
  (∀ a, (k4_off91 v209) a + S1x8.size a ≤ S8388608x8.size a)
instance k4_chk27.dec : ∀ (v209 : BitVec 32), Decidable (k4_chk27 v209) := fun v209 => decidable_of_iff' _ (Iff.of_eq (k4_chk27.eq_1 v209))
theorem k4_off54_inb : ∀ (v209 : BitVec 32) (k4_hw27 : k4_chk27 v209), ∀ a, (k4_off54 v209) a + S1x8.size a ≤ S8388608x8.size a := fun v209 k4_hw27 => k4_hw27.1
theorem k4_off91_inb : ∀ (v209 : BitVec 32) (k4_hw27 : k4_chk27 v209), ∀ a, (k4_off91 v209) a + S1x8.size a ≤ S8388608x8.size a := fun v209 k4_hw27 => k4_hw27.2

def k4_off92 (v217 : BitVec 32) : Fin 2 → Nat :=
  let c0_i32_207 : BitVec 32 := 0#32
  ![v217.toNat, 0]

def k4_chk28 (v217 : BitVec 32) : Prop :=
  (∀ a, (k4_off56 v217) a + S1x8.size a ≤ S8388608x8.size a) ∧
  (∀ a, (k4_off92 v217) a + S1x8.size a ≤ S8388608x8.size a)
instance k4_chk28.dec : ∀ (v217 : BitVec 32), Decidable (k4_chk28 v217) := fun v217 => decidable_of_iff' _ (Iff.of_eq (k4_chk28.eq_1 v217))
theorem k4_off56_inb : ∀ (v217 : BitVec 32) (k4_hw28 : k4_chk28 v217), ∀ a, (k4_off56 v217) a + S1x8.size a ≤ S8388608x8.size a := fun v217 k4_hw28 => k4_hw28.1
theorem k4_off92_inb : ∀ (v217 : BitVec 32) (k4_hw28 : k4_chk28 v217), ∀ a, (k4_off92 v217) a + S1x8.size a ≤ S8388608x8.size a := fun v217 k4_hw28 => k4_hw28.2

def k4_off93 (v225 : BitVec 32) : Fin 2 → Nat :=
  let c0_i32_211 : BitVec 32 := 0#32
  ![v225.toNat, 0]

def k4_chk29 (v225 : BitVec 32) : Prop :=
  (∀ a, (k4_off58 v225) a + S1x8.size a ≤ S8388608x8.size a) ∧
  (∀ a, (k4_off93 v225) a + S1x8.size a ≤ S8388608x8.size a)
instance k4_chk29.dec : ∀ (v225 : BitVec 32), Decidable (k4_chk29 v225) := fun v225 => decidable_of_iff' _ (Iff.of_eq (k4_chk29.eq_1 v225))
theorem k4_off58_inb : ∀ (v225 : BitVec 32) (k4_hw29 : k4_chk29 v225), ∀ a, (k4_off58 v225) a + S1x8.size a ≤ S8388608x8.size a := fun v225 k4_hw29 => k4_hw29.1
theorem k4_off93_inb : ∀ (v225 : BitVec 32) (k4_hw29 : k4_chk29 v225), ∀ a, (k4_off93 v225) a + S1x8.size a ≤ S8388608x8.size a := fun v225 k4_hw29 => k4_hw29.2

def k4_off94 (v233 : BitVec 32) : Fin 2 → Nat :=
  let c0_i32_215 : BitVec 32 := 0#32
  ![v233.toNat, 0]

def k4_chk30 (v233 : BitVec 32) : Prop :=
  (∀ a, (k4_off60 v233) a + S1x8.size a ≤ S8388608x8.size a) ∧
  (∀ a, (k4_off94 v233) a + S1x8.size a ≤ S8388608x8.size a)
instance k4_chk30.dec : ∀ (v233 : BitVec 32), Decidable (k4_chk30 v233) := fun v233 => decidable_of_iff' _ (Iff.of_eq (k4_chk30.eq_1 v233))
theorem k4_off60_inb : ∀ (v233 : BitVec 32) (k4_hw30 : k4_chk30 v233), ∀ a, (k4_off60 v233) a + S1x8.size a ≤ S8388608x8.size a := fun v233 k4_hw30 => k4_hw30.1
theorem k4_off94_inb : ∀ (v233 : BitVec 32) (k4_hw30 : k4_chk30 v233), ∀ a, (k4_off94 v233) a + S1x8.size a ≤ S8388608x8.size a := fun v233 k4_hw30 => k4_hw30.2

def k4_off95 (v241 : BitVec 32) : Fin 2 → Nat :=
  let c0_i32_219 : BitVec 32 := 0#32
  ![v241.toNat, 0]

def k4_chk31 (v241 : BitVec 32) : Prop :=
  (∀ a, (k4_off62 v241) a + S1x8.size a ≤ S8388608x8.size a) ∧
  (∀ a, (k4_off95 v241) a + S1x8.size a ≤ S8388608x8.size a)
instance k4_chk31.dec : ∀ (v241 : BitVec 32), Decidable (k4_chk31 v241) := fun v241 => decidable_of_iff' _ (Iff.of_eq (k4_chk31.eq_1 v241))
theorem k4_off62_inb : ∀ (v241 : BitVec 32) (k4_hw31 : k4_chk31 v241), ∀ a, (k4_off62 v241) a + S1x8.size a ≤ S8388608x8.size a := fun v241 k4_hw31 => k4_hw31.1
theorem k4_off95_inb : ∀ (v241 : BitVec 32) (k4_hw31 : k4_chk31 v241), ∀ a, (k4_off95 v241) a + S1x8.size a ≤ S8388608x8.size a := fun v241 k4_hw31 => k4_hw31.2

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x32x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev grid5 : Pipeline.Grid := ⟨1, ![1023], ![false]⟩

abbrev pre5 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 2 → Nat :=
  let c0 : Index := 0#32
  let arg0 : BitVec 32 := BitVec.ofNat 32 (i 0).val
  let v0 : Index := Scalar.indexCast arg0
  ![0, v0.toNat]
def k5_off2 (v1 : BitVec 32) : Fin 2 → Nat :=
  let c0_i32_2 : BitVec 32 := 0#32
  ![v1.toNat, 0]

def k5_off3 (i : grid5.Coords) : Fin 2 → Nat :=
  let c1 : Index := 1#32
  let arg0 : BitVec 32 := BitVec.ofNat 32 (i 0).val
  let v8 : Index := Scalar.indexCast arg0
  ![1, v8.toNat]
def k5_off4 (v9 : BitVec 32) : Fin 2 → Nat :=
  let c0_i32_5 : BitVec 32 := 0#32
  ![v9.toNat, 0]

def k5_off5 (i : grid5.Coords) : Fin 2 → Nat :=
  let c2 : Index := 2#32
  let arg0 : BitVec 32 := BitVec.ofNat 32 (i 0).val
  let v16 : Index := Scalar.indexCast arg0
  ![2, v16.toNat]
def k5_off6 (v17 : BitVec 32) : Fin 2 → Nat :=
  let c0_i32_8 : BitVec 32 := 0#32
  ![v17.toNat, 0]

def k5_off7 (i : grid5.Coords) : Fin 2 → Nat :=
  let c3 : Index := 3#32
  let arg0 : BitVec 32 := BitVec.ofNat 32 (i 0).val
  let v24 : Index := Scalar.indexCast arg0
  ![3, v24.toNat]
def k5_off8 (v25 : BitVec 32) : Fin 2 → Nat :=
  let c0_i32_11 : BitVec 32 := 0#32
  ![v25.toNat, 0]

def k5_off9 (i : grid5.Coords) : Fin 2 → Nat :=
  let c4 : Index := 4#32
  let arg0 : BitVec 32 := BitVec.ofNat 32 (i 0).val
  let v32 : Index := Scalar.indexCast arg0
  ![4, v32.toNat]
def k5_off10 (v33 : BitVec 32) : Fin 2 → Nat :=
  let c0_i32_14 : BitVec 32 := 0#32
  ![v33.toNat, 0]

def k5_off11 (i : grid5.Coords) : Fin 2 → Nat :=
  let c5 : Index := 5#32
  let arg0 : BitVec 32 := BitVec.ofNat 32 (i 0).val
  let v40 : Index := Scalar.indexCast arg0
  ![5, v40.toNat]
def k5_off12 (v41 : BitVec 32) : Fin 2 → Nat :=
  let c0_i32_17 : BitVec 32 := 0#32
  ![v41.toNat, 0]

def k5_off13 (i : grid5.Coords) : Fin 2 → Nat :=
  let c6 : Index := 6#32
  let arg0 : BitVec 32 := BitVec.ofNat 32 (i 0).val
  let v48 : Index := Scalar.indexCast arg0
  ![6, v48.toNat]
def k5_off14 (v49 : BitVec 32) : Fin 2 → Nat :=
  let c0_i32_20 : BitVec 32 := 0#32
  ![v49.toNat, 0]

def k5_off15 (i : grid5.Coords) : Fin 2 → Nat :=
  let c7 : Index := 7#32
  let arg0 : BitVec 32 := BitVec.ofNat 32 (i 0).val
  let v56 : Index := Scalar.indexCast arg0
  ![7, v56.toNat]
def k5_off16 (v57 : BitVec 32) : Fin 2 → Nat :=
  let c0_i32_23 : BitVec 32 := 0#32
  ![v57.toNat, 0]

def k5_off17 (i : grid5.Coords) : Fin 2 → Nat :=
  let c8 : Index := 8#32
  let arg0 : BitVec 32 := BitVec.ofNat 32 (i 0).val
  let v64 : Index := Scalar.indexCast arg0
  ![8, v64.toNat]
def k5_off18 (v65 : BitVec 32) : Fin 2 → Nat :=
  let c0_i32_26 : BitVec 32 := 0#32
  ![v65.toNat, 0]

def k5_off19 (i : grid5.Coords) : Fin 2 → Nat :=
  let c9 : Index := 9#32
  let arg0 : BitVec 32 := BitVec.ofNat 32 (i 0).val
  let v72 : Index := Scalar.indexCast arg0
  ![9, v72.toNat]
def k5_off20 (v73 : BitVec 32) : Fin 2 → Nat :=
  let c0_i32_29 : BitVec 32 := 0#32
  ![v73.toNat, 0]

def k5_off21 (i : grid5.Coords) : Fin 2 → Nat :=
  let c10 : Index := 10#32
  let arg0 : BitVec 32 := BitVec.ofNat 32 (i 0).val
  let v80 : Index := Scalar.indexCast arg0
  ![10, v80.toNat]
def k5_off22 (v81 : BitVec 32) : Fin 2 → Nat :=
  let c0_i32_32 : BitVec 32 := 0#32
  ![v81.toNat, 0]

def k5_off23 (i : grid5.Coords) : Fin 2 → Nat :=
  let c11 : Index := 11#32
  let arg0 : BitVec 32 := BitVec.ofNat 32 (i 0).val
  let v88 : Index := Scalar.indexCast arg0
  ![11, v88.toNat]
def k5_off24 (v89 : BitVec 32) : Fin 2 → Nat :=
  let c0_i32_35 : BitVec 32 := 0#32
  ![v89.toNat, 0]

def k5_off25 (i : grid5.Coords) : Fin 2 → Nat :=
  let c12 : Index := 12#32
  let arg0 : BitVec 32 := BitVec.ofNat 32 (i 0).val
  let v96 : Index := Scalar.indexCast arg0
  ![12, v96.toNat]
def k5_off26 (v97 : BitVec 32) : Fin 2 → Nat :=
  let c0_i32_38 : BitVec 32 := 0#32
  ![v97.toNat, 0]

def k5_off27 (i : grid5.Coords) : Fin 2 → Nat :=
  let c13 : Index := 13#32
  let arg0 : BitVec 32 := BitVec.ofNat 32 (i 0).val
  let v104 : Index := Scalar.indexCast arg0
  ![13, v104.toNat]
def k5_off28 (v105 : BitVec 32) : Fin 2 → Nat :=
  let c0_i32_41 : BitVec 32 := 0#32
  ![v105.toNat, 0]

def k5_off29 (i : grid5.Coords) : Fin 2 → Nat :=
  let c14 : Index := 14#32
  let arg0 : BitVec 32 := BitVec.ofNat 32 (i 0).val
  let v112 : Index := Scalar.indexCast arg0
  ![14, v112.toNat]
def k5_off30 (v113 : BitVec 32) : Fin 2 → Nat :=
  let c0_i32_44 : BitVec 32 := 0#32
  ![v113.toNat, 0]

def k5_off31 (i : grid5.Coords) : Fin 2 → Nat :=
  let c15 : Index := 15#32
  let arg0 : BitVec 32 := BitVec.ofNat 32 (i 0).val
  let v120 : Index := Scalar.indexCast arg0
  ![15, v120.toNat]
def k5_off32 (v121 : BitVec 32) : Fin 2 → Nat :=
  let c0_i32_47 : BitVec 32 := 0#32
  ![v121.toNat, 0]

def k5_off33 (i : grid5.Coords) : Fin 2 → Nat :=
  let c16 : Index := 16#32
  let arg0 : BitVec 32 := BitVec.ofNat 32 (i 0).val
  let v128 : Index := Scalar.indexCast arg0
  ![16, v128.toNat]
def k5_off34 (v129 : BitVec 32) : Fin 2 → Nat :=
  let c0_i32_50 : BitVec 32 := 0#32
  ![v129.toNat, 0]

def k5_off35 (i : grid5.Coords) : Fin 2 → Nat :=
  let c17 : Index := 17#32
  let arg0 : BitVec 32 := BitVec.ofNat 32 (i 0).val
  let v136 : Index := Scalar.indexCast arg0
  ![17, v136.toNat]
def k5_off36 (v137 : BitVec 32) : Fin 2 → Nat :=
  let c0_i32_53 : BitVec 32 := 0#32
  ![v137.toNat, 0]

def k5_off37 (i : grid5.Coords) : Fin 2 → Nat :=
  let c18 : Index := 18#32
  let arg0 : BitVec 32 := BitVec.ofNat 32 (i 0).val
  let v144 : Index := Scalar.indexCast arg0
  ![18, v144.toNat]
def k5_off38 (v145 : BitVec 32) : Fin 2 → Nat :=
  let c0_i32_56 : BitVec 32 := 0#32
  ![v145.toNat, 0]

def k5_off39 (i : grid5.Coords) : Fin 2 → Nat :=
  let c19 : Index := 19#32
  let arg0 : BitVec 32 := BitVec.ofNat 32 (i 0).val
  let v152 : Index := Scalar.indexCast arg0
  ![19, v152.toNat]
def k5_off40 (v153 : BitVec 32) : Fin 2 → Nat :=
  let c0_i32_59 : BitVec 32 := 0#32
  ![v153.toNat, 0]

def k5_off41 (i : grid5.Coords) : Fin 2 → Nat :=
  let c20 : Index := 20#32
  let arg0 : BitVec 32 := BitVec.ofNat 32 (i 0).val
  let v160 : Index := Scalar.indexCast arg0
  ![20, v160.toNat]
def k5_off42 (v161 : BitVec 32) : Fin 2 → Nat :=
  let c0_i32_62 : BitVec 32 := 0#32
  ![v161.toNat, 0]

def k5_off43 (i : grid5.Coords) : Fin 2 → Nat :=
  let c21 : Index := 21#32
  let arg0 : BitVec 32 := BitVec.ofNat 32 (i 0).val
  let v168 : Index := Scalar.indexCast arg0
  ![21, v168.toNat]
def k5_off44 (v169 : BitVec 32) : Fin 2 → Nat :=
  let c0_i32_65 : BitVec 32 := 0#32
  ![v169.toNat, 0]

def k5_off45 (i : grid5.Coords) : Fin 2 → Nat :=
  let c22 : Index := 22#32
  let arg0 : BitVec 32 := BitVec.ofNat 32 (i 0).val
  let v176 : Index := Scalar.indexCast arg0
  ![22, v176.toNat]
def k5_off46 (v177 : BitVec 32) : Fin 2 → Nat :=
  let c0_i32_68 : BitVec 32 := 0#32
  ![v177.toNat, 0]

def k5_off47 (i : grid5.Coords) : Fin 2 → Nat :=
  let c23 : Index := 23#32
  let arg0 : BitVec 32 := BitVec.ofNat 32 (i 0).val
  let v184 : Index := Scalar.indexCast arg0
  ![23, v184.toNat]
def k5_off48 (v185 : BitVec 32) : Fin 2 → Nat :=
  let c0_i32_71 : BitVec 32 := 0#32
  ![v185.toNat, 0]

def k5_off49 (i : grid5.Coords) : Fin 2 → Nat :=
  let c24 : Index := 24#32
  let arg0 : BitVec 32 := BitVec.ofNat 32 (i 0).val
  let v192 : Index := Scalar.indexCast arg0
  ![24, v192.toNat]
def k5_off50 (v193 : BitVec 32) : Fin 2 → Nat :=
  let c0_i32_74 : BitVec 32 := 0#32
  ![v193.toNat, 0]

def k5_off51 (i : grid5.Coords) : Fin 2 → Nat :=
  let c25 : Index := 25#32
  let arg0 : BitVec 32 := BitVec.ofNat 32 (i 0).val
  let v200 : Index := Scalar.indexCast arg0
  ![25, v200.toNat]
def k5_off52 (v201 : BitVec 32) : Fin 2 → Nat :=
  let c0_i32_77 : BitVec 32 := 0#32
  ![v201.toNat, 0]

def k5_off53 (i : grid5.Coords) : Fin 2 → Nat :=
  let c26 : Index := 26#32
  let arg0 : BitVec 32 := BitVec.ofNat 32 (i 0).val
  let v208 : Index := Scalar.indexCast arg0
  ![26, v208.toNat]
def k5_off54 (v209 : BitVec 32) : Fin 2 → Nat :=
  let c0_i32_80 : BitVec 32 := 0#32
  ![v209.toNat, 0]

def k5_off55 (i : grid5.Coords) : Fin 2 → Nat :=
  let c27 : Index := 27#32
  let arg0 : BitVec 32 := BitVec.ofNat 32 (i 0).val
  let v216 : Index := Scalar.indexCast arg0
  ![27, v216.toNat]
def k5_off56 (v217 : BitVec 32) : Fin 2 → Nat :=
  let c0_i32_83 : BitVec 32 := 0#32
  ![v217.toNat, 0]

def k5_off57 (i : grid5.Coords) : Fin 2 → Nat :=
  let c28 : Index := 28#32
  let arg0 : BitVec 32 := BitVec.ofNat 32 (i 0).val
  let v224 : Index := Scalar.indexCast arg0
  ![28, v224.toNat]
def k5_off58 (v225 : BitVec 32) : Fin 2 → Nat :=
  let c0_i32_86 : BitVec 32 := 0#32
  ![v225.toNat, 0]

def k5_off59 (i : grid5.Coords) : Fin 2 → Nat :=
  let c29 : Index := 29#32
  let arg0 : BitVec 32 := BitVec.ofNat 32 (i 0).val
  let v232 : Index := Scalar.indexCast arg0
  ![29, v232.toNat]
def k5_off60 (v233 : BitVec 32) : Fin 2 → Nat :=
  let c0_i32_89 : BitVec 32 := 0#32
  ![v233.toNat, 0]

def k5_off61 (i : grid5.Coords) : Fin 2 → Nat :=
  let c30 : Index := 30#32
  let arg0 : BitVec 32 := BitVec.ofNat 32 (i 0).val
  let v240 : Index := Scalar.indexCast arg0
  ![30, v240.toNat]
def k5_off62 (v241 : BitVec 32) : Fin 2 → Nat :=
  let c0_i32_92 : BitVec 32 := 0#32
  ![v241.toNat, 0]

def k5_off63 (i : grid5.Coords) : Fin 2 → Nat :=
  let c31 : Index := 31#32
  let arg0 : BitVec 32 := BitVec.ofNat 32 (i 0).val
  let v248 : Index := Scalar.indexCast arg0
  ![31, v248.toNat]
def k5_off64 (v249 : BitVec 32) : Fin 2 → Nat :=
  let c0_i32_95 : BitVec 32 := 0#32
  ![v249.toNat, 0]

def k5_chk32 (v249 : BitVec 32) : Prop :=
  (∀ a, (k5_off64 v249) a + S1x8.size a ≤ S8388608x8.size a)
instance k5_chk32.dec : ∀ (v249 : BitVec 32), Decidable (k5_chk32 v249) := fun v249 => decidable_of_iff' _ (Iff.of_eq (k5_chk32.eq_1 v249))
theorem k5_off64_inb : ∀ (v249 : BitVec 32) (k5_hw32 : k5_chk32 v249), ∀ a, (k5_off64 v249) a + S1x8.size a ≤ S8388608x8.size a := fun v249 k5_hw32 => k5_hw32

def k5_off65 (v1 : BitVec 32) : Fin 2 → Nat :=
  let c0_i32_99 : BitVec 32 := 0#32
  ![v1.toNat, 0]

def k5_chk1 (v1 : BitVec 32) : Prop :=
  (∀ a, (k5_off2 v1) a + S1x8.size a ≤ S8388608x8.size a) ∧
  (∀ a, (k5_off65 v1) a + S1x8.size a ≤ S8388608x8.size a)
instance k5_chk1.dec : ∀ (v1 : BitVec 32), Decidable (k5_chk1 v1) := fun v1 => decidable_of_iff' _ (Iff.of_eq (k5_chk1.eq_1 v1))
theorem k5_off2_inb : ∀ (v1 : BitVec 32) (k5_hw1 : k5_chk1 v1), ∀ a, (k5_off2 v1) a + S1x8.size a ≤ S8388608x8.size a := fun v1 k5_hw1 => k5_hw1.1
theorem k5_off65_inb : ∀ (v1 : BitVec 32) (k5_hw1 : k5_chk1 v1), ∀ a, (k5_off65 v1) a + S1x8.size a ≤ S8388608x8.size a := fun v1 k5_hw1 => k5_hw1.2

def k5_off66 (v9 : BitVec 32) : Fin 2 → Nat :=
  let c0_i32_103 : BitVec 32 := 0#32
  ![v9.toNat, 0]

def k5_chk2 (v9 : BitVec 32) : Prop :=
  (∀ a, (k5_off4 v9) a + S1x8.size a ≤ S8388608x8.size a) ∧
  (∀ a, (k5_off66 v9) a + S1x8.size a ≤ S8388608x8.size a)
instance k5_chk2.dec : ∀ (v9 : BitVec 32), Decidable (k5_chk2 v9) := fun v9 => decidable_of_iff' _ (Iff.of_eq (k5_chk2.eq_1 v9))
theorem k5_off4_inb : ∀ (v9 : BitVec 32) (k5_hw2 : k5_chk2 v9), ∀ a, (k5_off4 v9) a + S1x8.size a ≤ S8388608x8.size a := fun v9 k5_hw2 => k5_hw2.1
theorem k5_off66_inb : ∀ (v9 : BitVec 32) (k5_hw2 : k5_chk2 v9), ∀ a, (k5_off66 v9) a + S1x8.size a ≤ S8388608x8.size a := fun v9 k5_hw2 => k5_hw2.2

def k5_off67 (v17 : BitVec 32) : Fin 2 → Nat :=
  let c0_i32_107 : BitVec 32 := 0#32
  ![v17.toNat, 0]

def k5_chk3 (v17 : BitVec 32) : Prop :=
  (∀ a, (k5_off6 v17) a + S1x8.size a ≤ S8388608x8.size a) ∧
  (∀ a, (k5_off67 v17) a + S1x8.size a ≤ S8388608x8.size a)
instance k5_chk3.dec : ∀ (v17 : BitVec 32), Decidable (k5_chk3 v17) := fun v17 => decidable_of_iff' _ (Iff.of_eq (k5_chk3.eq_1 v17))
theorem k5_off6_inb : ∀ (v17 : BitVec 32) (k5_hw3 : k5_chk3 v17), ∀ a, (k5_off6 v17) a + S1x8.size a ≤ S8388608x8.size a := fun v17 k5_hw3 => k5_hw3.1
theorem k5_off67_inb : ∀ (v17 : BitVec 32) (k5_hw3 : k5_chk3 v17), ∀ a, (k5_off67 v17) a + S1x8.size a ≤ S8388608x8.size a := fun v17 k5_hw3 => k5_hw3.2

def k5_off68 (v25 : BitVec 32) : Fin 2 → Nat :=
  let c0_i32_111 : BitVec 32 := 0#32
  ![v25.toNat, 0]

def k5_chk4 (v25 : BitVec 32) : Prop :=
  (∀ a, (k5_off8 v25) a + S1x8.size a ≤ S8388608x8.size a) ∧
  (∀ a, (k5_off68 v25) a + S1x8.size a ≤ S8388608x8.size a)
instance k5_chk4.dec : ∀ (v25 : BitVec 32), Decidable (k5_chk4 v25) := fun v25 => decidable_of_iff' _ (Iff.of_eq (k5_chk4.eq_1 v25))
theorem k5_off8_inb : ∀ (v25 : BitVec 32) (k5_hw4 : k5_chk4 v25), ∀ a, (k5_off8 v25) a + S1x8.size a ≤ S8388608x8.size a := fun v25 k5_hw4 => k5_hw4.1
theorem k5_off68_inb : ∀ (v25 : BitVec 32) (k5_hw4 : k5_chk4 v25), ∀ a, (k5_off68 v25) a + S1x8.size a ≤ S8388608x8.size a := fun v25 k5_hw4 => k5_hw4.2

def k5_off69 (v33 : BitVec 32) : Fin 2 → Nat :=
  let c0_i32_115 : BitVec 32 := 0#32
  ![v33.toNat, 0]

def k5_chk5 (v33 : BitVec 32) : Prop :=
  (∀ a, (k5_off10 v33) a + S1x8.size a ≤ S8388608x8.size a) ∧
  (∀ a, (k5_off69 v33) a + S1x8.size a ≤ S8388608x8.size a)
instance k5_chk5.dec : ∀ (v33 : BitVec 32), Decidable (k5_chk5 v33) := fun v33 => decidable_of_iff' _ (Iff.of_eq (k5_chk5.eq_1 v33))
theorem k5_off10_inb : ∀ (v33 : BitVec 32) (k5_hw5 : k5_chk5 v33), ∀ a, (k5_off10 v33) a + S1x8.size a ≤ S8388608x8.size a := fun v33 k5_hw5 => k5_hw5.1
theorem k5_off69_inb : ∀ (v33 : BitVec 32) (k5_hw5 : k5_chk5 v33), ∀ a, (k5_off69 v33) a + S1x8.size a ≤ S8388608x8.size a := fun v33 k5_hw5 => k5_hw5.2

def k5_off70 (v41 : BitVec 32) : Fin 2 → Nat :=
  let c0_i32_119 : BitVec 32 := 0#32
  ![v41.toNat, 0]

def k5_chk6 (v41 : BitVec 32) : Prop :=
  (∀ a, (k5_off12 v41) a + S1x8.size a ≤ S8388608x8.size a) ∧
  (∀ a, (k5_off70 v41) a + S1x8.size a ≤ S8388608x8.size a)
instance k5_chk6.dec : ∀ (v41 : BitVec 32), Decidable (k5_chk6 v41) := fun v41 => decidable_of_iff' _ (Iff.of_eq (k5_chk6.eq_1 v41))
theorem k5_off12_inb : ∀ (v41 : BitVec 32) (k5_hw6 : k5_chk6 v41), ∀ a, (k5_off12 v41) a + S1x8.size a ≤ S8388608x8.size a := fun v41 k5_hw6 => k5_hw6.1
theorem k5_off70_inb : ∀ (v41 : BitVec 32) (k5_hw6 : k5_chk6 v41), ∀ a, (k5_off70 v41) a + S1x8.size a ≤ S8388608x8.size a := fun v41 k5_hw6 => k5_hw6.2

def k5_off71 (v49 : BitVec 32) : Fin 2 → Nat :=
  let c0_i32_123 : BitVec 32 := 0#32
  ![v49.toNat, 0]

def k5_chk7 (v49 : BitVec 32) : Prop :=
  (∀ a, (k5_off14 v49) a + S1x8.size a ≤ S8388608x8.size a) ∧
  (∀ a, (k5_off71 v49) a + S1x8.size a ≤ S8388608x8.size a)
instance k5_chk7.dec : ∀ (v49 : BitVec 32), Decidable (k5_chk7 v49) := fun v49 => decidable_of_iff' _ (Iff.of_eq (k5_chk7.eq_1 v49))
theorem k5_off14_inb : ∀ (v49 : BitVec 32) (k5_hw7 : k5_chk7 v49), ∀ a, (k5_off14 v49) a + S1x8.size a ≤ S8388608x8.size a := fun v49 k5_hw7 => k5_hw7.1
theorem k5_off71_inb : ∀ (v49 : BitVec 32) (k5_hw7 : k5_chk7 v49), ∀ a, (k5_off71 v49) a + S1x8.size a ≤ S8388608x8.size a := fun v49 k5_hw7 => k5_hw7.2

def k5_off72 (v57 : BitVec 32) : Fin 2 → Nat :=
  let c0_i32_127 : BitVec 32 := 0#32
  ![v57.toNat, 0]

def k5_chk8 (v57 : BitVec 32) : Prop :=
  (∀ a, (k5_off16 v57) a + S1x8.size a ≤ S8388608x8.size a) ∧
  (∀ a, (k5_off72 v57) a + S1x8.size a ≤ S8388608x8.size a)
instance k5_chk8.dec : ∀ (v57 : BitVec 32), Decidable (k5_chk8 v57) := fun v57 => decidable_of_iff' _ (Iff.of_eq (k5_chk8.eq_1 v57))
theorem k5_off16_inb : ∀ (v57 : BitVec 32) (k5_hw8 : k5_chk8 v57), ∀ a, (k5_off16 v57) a + S1x8.size a ≤ S8388608x8.size a := fun v57 k5_hw8 => k5_hw8.1
theorem k5_off72_inb : ∀ (v57 : BitVec 32) (k5_hw8 : k5_chk8 v57), ∀ a, (k5_off72 v57) a + S1x8.size a ≤ S8388608x8.size a := fun v57 k5_hw8 => k5_hw8.2

def k5_off73 (v65 : BitVec 32) : Fin 2 → Nat :=
  let c0_i32_131 : BitVec 32 := 0#32
  ![v65.toNat, 0]

def k5_chk9 (v65 : BitVec 32) : Prop :=
  (∀ a, (k5_off18 v65) a + S1x8.size a ≤ S8388608x8.size a) ∧
  (∀ a, (k5_off73 v65) a + S1x8.size a ≤ S8388608x8.size a)
instance k5_chk9.dec : ∀ (v65 : BitVec 32), Decidable (k5_chk9 v65) := fun v65 => decidable_of_iff' _ (Iff.of_eq (k5_chk9.eq_1 v65))
theorem k5_off18_inb : ∀ (v65 : BitVec 32) (k5_hw9 : k5_chk9 v65), ∀ a, (k5_off18 v65) a + S1x8.size a ≤ S8388608x8.size a := fun v65 k5_hw9 => k5_hw9.1
theorem k5_off73_inb : ∀ (v65 : BitVec 32) (k5_hw9 : k5_chk9 v65), ∀ a, (k5_off73 v65) a + S1x8.size a ≤ S8388608x8.size a := fun v65 k5_hw9 => k5_hw9.2

def k5_off74 (v73 : BitVec 32) : Fin 2 → Nat :=
  let c0_i32_135 : BitVec 32 := 0#32
  ![v73.toNat, 0]

def k5_chk10 (v73 : BitVec 32) : Prop :=
  (∀ a, (k5_off20 v73) a + S1x8.size a ≤ S8388608x8.size a) ∧
  (∀ a, (k5_off74 v73) a + S1x8.size a ≤ S8388608x8.size a)
instance k5_chk10.dec : ∀ (v73 : BitVec 32), Decidable (k5_chk10 v73) := fun v73 => decidable_of_iff' _ (Iff.of_eq (k5_chk10.eq_1 v73))
theorem k5_off20_inb : ∀ (v73 : BitVec 32) (k5_hw10 : k5_chk10 v73), ∀ a, (k5_off20 v73) a + S1x8.size a ≤ S8388608x8.size a := fun v73 k5_hw10 => k5_hw10.1
theorem k5_off74_inb : ∀ (v73 : BitVec 32) (k5_hw10 : k5_chk10 v73), ∀ a, (k5_off74 v73) a + S1x8.size a ≤ S8388608x8.size a := fun v73 k5_hw10 => k5_hw10.2

def k5_off75 (v81 : BitVec 32) : Fin 2 → Nat :=
  let c0_i32_139 : BitVec 32 := 0#32
  ![v81.toNat, 0]

def k5_chk11 (v81 : BitVec 32) : Prop :=
  (∀ a, (k5_off22 v81) a + S1x8.size a ≤ S8388608x8.size a) ∧
  (∀ a, (k5_off75 v81) a + S1x8.size a ≤ S8388608x8.size a)
instance k5_chk11.dec : ∀ (v81 : BitVec 32), Decidable (k5_chk11 v81) := fun v81 => decidable_of_iff' _ (Iff.of_eq (k5_chk11.eq_1 v81))
theorem k5_off22_inb : ∀ (v81 : BitVec 32) (k5_hw11 : k5_chk11 v81), ∀ a, (k5_off22 v81) a + S1x8.size a ≤ S8388608x8.size a := fun v81 k5_hw11 => k5_hw11.1
theorem k5_off75_inb : ∀ (v81 : BitVec 32) (k5_hw11 : k5_chk11 v81), ∀ a, (k5_off75 v81) a + S1x8.size a ≤ S8388608x8.size a := fun v81 k5_hw11 => k5_hw11.2

def k5_off76 (v89 : BitVec 32) : Fin 2 → Nat :=
  let c0_i32_143 : BitVec 32 := 0#32
  ![v89.toNat, 0]

def k5_chk12 (v89 : BitVec 32) : Prop :=
  (∀ a, (k5_off24 v89) a + S1x8.size a ≤ S8388608x8.size a) ∧
  (∀ a, (k5_off76 v89) a + S1x8.size a ≤ S8388608x8.size a)
instance k5_chk12.dec : ∀ (v89 : BitVec 32), Decidable (k5_chk12 v89) := fun v89 => decidable_of_iff' _ (Iff.of_eq (k5_chk12.eq_1 v89))
theorem k5_off24_inb : ∀ (v89 : BitVec 32) (k5_hw12 : k5_chk12 v89), ∀ a, (k5_off24 v89) a + S1x8.size a ≤ S8388608x8.size a := fun v89 k5_hw12 => k5_hw12.1
theorem k5_off76_inb : ∀ (v89 : BitVec 32) (k5_hw12 : k5_chk12 v89), ∀ a, (k5_off76 v89) a + S1x8.size a ≤ S8388608x8.size a := fun v89 k5_hw12 => k5_hw12.2

def k5_off77 (v97 : BitVec 32) : Fin 2 → Nat :=
  let c0_i32_147 : BitVec 32 := 0#32
  ![v97.toNat, 0]

def k5_chk13 (v97 : BitVec 32) : Prop :=
  (∀ a, (k5_off26 v97) a + S1x8.size a ≤ S8388608x8.size a) ∧
  (∀ a, (k5_off77 v97) a + S1x8.size a ≤ S8388608x8.size a)
instance k5_chk13.dec : ∀ (v97 : BitVec 32), Decidable (k5_chk13 v97) := fun v97 => decidable_of_iff' _ (Iff.of_eq (k5_chk13.eq_1 v97))
theorem k5_off26_inb : ∀ (v97 : BitVec 32) (k5_hw13 : k5_chk13 v97), ∀ a, (k5_off26 v97) a + S1x8.size a ≤ S8388608x8.size a := fun v97 k5_hw13 => k5_hw13.1
theorem k5_off77_inb : ∀ (v97 : BitVec 32) (k5_hw13 : k5_chk13 v97), ∀ a, (k5_off77 v97) a + S1x8.size a ≤ S8388608x8.size a := fun v97 k5_hw13 => k5_hw13.2

def k5_off78 (v105 : BitVec 32) : Fin 2 → Nat :=
  let c0_i32_151 : BitVec 32 := 0#32
  ![v105.toNat, 0]

def k5_chk14 (v105 : BitVec 32) : Prop :=
  (∀ a, (k5_off28 v105) a + S1x8.size a ≤ S8388608x8.size a) ∧
  (∀ a, (k5_off78 v105) a + S1x8.size a ≤ S8388608x8.size a)
instance k5_chk14.dec : ∀ (v105 : BitVec 32), Decidable (k5_chk14 v105) := fun v105 => decidable_of_iff' _ (Iff.of_eq (k5_chk14.eq_1 v105))
theorem k5_off28_inb : ∀ (v105 : BitVec 32) (k5_hw14 : k5_chk14 v105), ∀ a, (k5_off28 v105) a + S1x8.size a ≤ S8388608x8.size a := fun v105 k5_hw14 => k5_hw14.1
theorem k5_off78_inb : ∀ (v105 : BitVec 32) (k5_hw14 : k5_chk14 v105), ∀ a, (k5_off78 v105) a + S1x8.size a ≤ S8388608x8.size a := fun v105 k5_hw14 => k5_hw14.2

def k5_off79 (v113 : BitVec 32) : Fin 2 → Nat :=
  let c0_i32_155 : BitVec 32 := 0#32
  ![v113.toNat, 0]

def k5_chk15 (v113 : BitVec 32) : Prop :=
  (∀ a, (k5_off30 v113) a + S1x8.size a ≤ S8388608x8.size a) ∧
  (∀ a, (k5_off79 v113) a + S1x8.size a ≤ S8388608x8.size a)
instance k5_chk15.dec : ∀ (v113 : BitVec 32), Decidable (k5_chk15 v113) := fun v113 => decidable_of_iff' _ (Iff.of_eq (k5_chk15.eq_1 v113))
theorem k5_off30_inb : ∀ (v113 : BitVec 32) (k5_hw15 : k5_chk15 v113), ∀ a, (k5_off30 v113) a + S1x8.size a ≤ S8388608x8.size a := fun v113 k5_hw15 => k5_hw15.1
theorem k5_off79_inb : ∀ (v113 : BitVec 32) (k5_hw15 : k5_chk15 v113), ∀ a, (k5_off79 v113) a + S1x8.size a ≤ S8388608x8.size a := fun v113 k5_hw15 => k5_hw15.2

def k5_off80 (v121 : BitVec 32) : Fin 2 → Nat :=
  let c0_i32_159 : BitVec 32 := 0#32
  ![v121.toNat, 0]

def k5_chk16 (v121 : BitVec 32) : Prop :=
  (∀ a, (k5_off32 v121) a + S1x8.size a ≤ S8388608x8.size a) ∧
  (∀ a, (k5_off80 v121) a + S1x8.size a ≤ S8388608x8.size a)
instance k5_chk16.dec : ∀ (v121 : BitVec 32), Decidable (k5_chk16 v121) := fun v121 => decidable_of_iff' _ (Iff.of_eq (k5_chk16.eq_1 v121))
theorem k5_off32_inb : ∀ (v121 : BitVec 32) (k5_hw16 : k5_chk16 v121), ∀ a, (k5_off32 v121) a + S1x8.size a ≤ S8388608x8.size a := fun v121 k5_hw16 => k5_hw16.1
theorem k5_off80_inb : ∀ (v121 : BitVec 32) (k5_hw16 : k5_chk16 v121), ∀ a, (k5_off80 v121) a + S1x8.size a ≤ S8388608x8.size a := fun v121 k5_hw16 => k5_hw16.2

def k5_off81 (v129 : BitVec 32) : Fin 2 → Nat :=
  let c0_i32_163 : BitVec 32 := 0#32
  ![v129.toNat, 0]

def k5_chk17 (v129 : BitVec 32) : Prop :=
  (∀ a, (k5_off34 v129) a + S1x8.size a ≤ S8388608x8.size a) ∧
  (∀ a, (k5_off81 v129) a + S1x8.size a ≤ S8388608x8.size a)
instance k5_chk17.dec : ∀ (v129 : BitVec 32), Decidable (k5_chk17 v129) := fun v129 => decidable_of_iff' _ (Iff.of_eq (k5_chk17.eq_1 v129))
theorem k5_off34_inb : ∀ (v129 : BitVec 32) (k5_hw17 : k5_chk17 v129), ∀ a, (k5_off34 v129) a + S1x8.size a ≤ S8388608x8.size a := fun v129 k5_hw17 => k5_hw17.1
theorem k5_off81_inb : ∀ (v129 : BitVec 32) (k5_hw17 : k5_chk17 v129), ∀ a, (k5_off81 v129) a + S1x8.size a ≤ S8388608x8.size a := fun v129 k5_hw17 => k5_hw17.2

def k5_off82 (v137 : BitVec 32) : Fin 2 → Nat :=
  let c0_i32_167 : BitVec 32 := 0#32
  ![v137.toNat, 0]

def k5_chk18 (v137 : BitVec 32) : Prop :=
  (∀ a, (k5_off36 v137) a + S1x8.size a ≤ S8388608x8.size a) ∧
  (∀ a, (k5_off82 v137) a + S1x8.size a ≤ S8388608x8.size a)
instance k5_chk18.dec : ∀ (v137 : BitVec 32), Decidable (k5_chk18 v137) := fun v137 => decidable_of_iff' _ (Iff.of_eq (k5_chk18.eq_1 v137))
theorem k5_off36_inb : ∀ (v137 : BitVec 32) (k5_hw18 : k5_chk18 v137), ∀ a, (k5_off36 v137) a + S1x8.size a ≤ S8388608x8.size a := fun v137 k5_hw18 => k5_hw18.1
theorem k5_off82_inb : ∀ (v137 : BitVec 32) (k5_hw18 : k5_chk18 v137), ∀ a, (k5_off82 v137) a + S1x8.size a ≤ S8388608x8.size a := fun v137 k5_hw18 => k5_hw18.2

def k5_off83 (v145 : BitVec 32) : Fin 2 → Nat :=
  let c0_i32_171 : BitVec 32 := 0#32
  ![v145.toNat, 0]

def k5_chk19 (v145 : BitVec 32) : Prop :=
  (∀ a, (k5_off38 v145) a + S1x8.size a ≤ S8388608x8.size a) ∧
  (∀ a, (k5_off83 v145) a + S1x8.size a ≤ S8388608x8.size a)
instance k5_chk19.dec : ∀ (v145 : BitVec 32), Decidable (k5_chk19 v145) := fun v145 => decidable_of_iff' _ (Iff.of_eq (k5_chk19.eq_1 v145))
theorem k5_off38_inb : ∀ (v145 : BitVec 32) (k5_hw19 : k5_chk19 v145), ∀ a, (k5_off38 v145) a + S1x8.size a ≤ S8388608x8.size a := fun v145 k5_hw19 => k5_hw19.1
theorem k5_off83_inb : ∀ (v145 : BitVec 32) (k5_hw19 : k5_chk19 v145), ∀ a, (k5_off83 v145) a + S1x8.size a ≤ S8388608x8.size a := fun v145 k5_hw19 => k5_hw19.2

def k5_off84 (v153 : BitVec 32) : Fin 2 → Nat :=
  let c0_i32_175 : BitVec 32 := 0#32
  ![v153.toNat, 0]

def k5_chk20 (v153 : BitVec 32) : Prop :=
  (∀ a, (k5_off40 v153) a + S1x8.size a ≤ S8388608x8.size a) ∧
  (∀ a, (k5_off84 v153) a + S1x8.size a ≤ S8388608x8.size a)
instance k5_chk20.dec : ∀ (v153 : BitVec 32), Decidable (k5_chk20 v153) := fun v153 => decidable_of_iff' _ (Iff.of_eq (k5_chk20.eq_1 v153))
theorem k5_off40_inb : ∀ (v153 : BitVec 32) (k5_hw20 : k5_chk20 v153), ∀ a, (k5_off40 v153) a + S1x8.size a ≤ S8388608x8.size a := fun v153 k5_hw20 => k5_hw20.1
theorem k5_off84_inb : ∀ (v153 : BitVec 32) (k5_hw20 : k5_chk20 v153), ∀ a, (k5_off84 v153) a + S1x8.size a ≤ S8388608x8.size a := fun v153 k5_hw20 => k5_hw20.2

def k5_off85 (v161 : BitVec 32) : Fin 2 → Nat :=
  let c0_i32_179 : BitVec 32 := 0#32
  ![v161.toNat, 0]

def k5_chk21 (v161 : BitVec 32) : Prop :=
  (∀ a, (k5_off42 v161) a + S1x8.size a ≤ S8388608x8.size a) ∧
  (∀ a, (k5_off85 v161) a + S1x8.size a ≤ S8388608x8.size a)
instance k5_chk21.dec : ∀ (v161 : BitVec 32), Decidable (k5_chk21 v161) := fun v161 => decidable_of_iff' _ (Iff.of_eq (k5_chk21.eq_1 v161))
theorem k5_off42_inb : ∀ (v161 : BitVec 32) (k5_hw21 : k5_chk21 v161), ∀ a, (k5_off42 v161) a + S1x8.size a ≤ S8388608x8.size a := fun v161 k5_hw21 => k5_hw21.1
theorem k5_off85_inb : ∀ (v161 : BitVec 32) (k5_hw21 : k5_chk21 v161), ∀ a, (k5_off85 v161) a + S1x8.size a ≤ S8388608x8.size a := fun v161 k5_hw21 => k5_hw21.2

def k5_off86 (v169 : BitVec 32) : Fin 2 → Nat :=
  let c0_i32_183 : BitVec 32 := 0#32
  ![v169.toNat, 0]

def k5_chk22 (v169 : BitVec 32) : Prop :=
  (∀ a, (k5_off44 v169) a + S1x8.size a ≤ S8388608x8.size a) ∧
  (∀ a, (k5_off86 v169) a + S1x8.size a ≤ S8388608x8.size a)
instance k5_chk22.dec : ∀ (v169 : BitVec 32), Decidable (k5_chk22 v169) := fun v169 => decidable_of_iff' _ (Iff.of_eq (k5_chk22.eq_1 v169))
theorem k5_off44_inb : ∀ (v169 : BitVec 32) (k5_hw22 : k5_chk22 v169), ∀ a, (k5_off44 v169) a + S1x8.size a ≤ S8388608x8.size a := fun v169 k5_hw22 => k5_hw22.1
theorem k5_off86_inb : ∀ (v169 : BitVec 32) (k5_hw22 : k5_chk22 v169), ∀ a, (k5_off86 v169) a + S1x8.size a ≤ S8388608x8.size a := fun v169 k5_hw22 => k5_hw22.2

def k5_off87 (v177 : BitVec 32) : Fin 2 → Nat :=
  let c0_i32_187 : BitVec 32 := 0#32
  ![v177.toNat, 0]

def k5_chk23 (v177 : BitVec 32) : Prop :=
  (∀ a, (k5_off46 v177) a + S1x8.size a ≤ S8388608x8.size a) ∧
  (∀ a, (k5_off87 v177) a + S1x8.size a ≤ S8388608x8.size a)
instance k5_chk23.dec : ∀ (v177 : BitVec 32), Decidable (k5_chk23 v177) := fun v177 => decidable_of_iff' _ (Iff.of_eq (k5_chk23.eq_1 v177))
theorem k5_off46_inb : ∀ (v177 : BitVec 32) (k5_hw23 : k5_chk23 v177), ∀ a, (k5_off46 v177) a + S1x8.size a ≤ S8388608x8.size a := fun v177 k5_hw23 => k5_hw23.1
theorem k5_off87_inb : ∀ (v177 : BitVec 32) (k5_hw23 : k5_chk23 v177), ∀ a, (k5_off87 v177) a + S1x8.size a ≤ S8388608x8.size a := fun v177 k5_hw23 => k5_hw23.2

def k5_off88 (v185 : BitVec 32) : Fin 2 → Nat :=
  let c0_i32_191 : BitVec 32 := 0#32
  ![v185.toNat, 0]

def k5_chk24 (v185 : BitVec 32) : Prop :=
  (∀ a, (k5_off48 v185) a + S1x8.size a ≤ S8388608x8.size a) ∧
  (∀ a, (k5_off88 v185) a + S1x8.size a ≤ S8388608x8.size a)
instance k5_chk24.dec : ∀ (v185 : BitVec 32), Decidable (k5_chk24 v185) := fun v185 => decidable_of_iff' _ (Iff.of_eq (k5_chk24.eq_1 v185))
theorem k5_off48_inb : ∀ (v185 : BitVec 32) (k5_hw24 : k5_chk24 v185), ∀ a, (k5_off48 v185) a + S1x8.size a ≤ S8388608x8.size a := fun v185 k5_hw24 => k5_hw24.1
theorem k5_off88_inb : ∀ (v185 : BitVec 32) (k5_hw24 : k5_chk24 v185), ∀ a, (k5_off88 v185) a + S1x8.size a ≤ S8388608x8.size a := fun v185 k5_hw24 => k5_hw24.2

def k5_off89 (v193 : BitVec 32) : Fin 2 → Nat :=
  let c0_i32_195 : BitVec 32 := 0#32
  ![v193.toNat, 0]

def k5_chk25 (v193 : BitVec 32) : Prop :=
  (∀ a, (k5_off50 v193) a + S1x8.size a ≤ S8388608x8.size a) ∧
  (∀ a, (k5_off89 v193) a + S1x8.size a ≤ S8388608x8.size a)
instance k5_chk25.dec : ∀ (v193 : BitVec 32), Decidable (k5_chk25 v193) := fun v193 => decidable_of_iff' _ (Iff.of_eq (k5_chk25.eq_1 v193))
theorem k5_off50_inb : ∀ (v193 : BitVec 32) (k5_hw25 : k5_chk25 v193), ∀ a, (k5_off50 v193) a + S1x8.size a ≤ S8388608x8.size a := fun v193 k5_hw25 => k5_hw25.1
theorem k5_off89_inb : ∀ (v193 : BitVec 32) (k5_hw25 : k5_chk25 v193), ∀ a, (k5_off89 v193) a + S1x8.size a ≤ S8388608x8.size a := fun v193 k5_hw25 => k5_hw25.2

def k5_off90 (v201 : BitVec 32) : Fin 2 → Nat :=
  let c0_i32_199 : BitVec 32 := 0#32
  ![v201.toNat, 0]

def k5_chk26 (v201 : BitVec 32) : Prop :=
  (∀ a, (k5_off52 v201) a + S1x8.size a ≤ S8388608x8.size a) ∧
  (∀ a, (k5_off90 v201) a + S1x8.size a ≤ S8388608x8.size a)
instance k5_chk26.dec : ∀ (v201 : BitVec 32), Decidable (k5_chk26 v201) := fun v201 => decidable_of_iff' _ (Iff.of_eq (k5_chk26.eq_1 v201))
theorem k5_off52_inb : ∀ (v201 : BitVec 32) (k5_hw26 : k5_chk26 v201), ∀ a, (k5_off52 v201) a + S1x8.size a ≤ S8388608x8.size a := fun v201 k5_hw26 => k5_hw26.1
theorem k5_off90_inb : ∀ (v201 : BitVec 32) (k5_hw26 : k5_chk26 v201), ∀ a, (k5_off90 v201) a + S1x8.size a ≤ S8388608x8.size a := fun v201 k5_hw26 => k5_hw26.2

def k5_off91 (v209 : BitVec 32) : Fin 2 → Nat :=
  let c0_i32_203 : BitVec 32 := 0#32
  ![v209.toNat, 0]

def k5_chk27 (v209 : BitVec 32) : Prop :=
  (∀ a, (k5_off54 v209) a + S1x8.size a ≤ S8388608x8.size a) ∧
  (∀ a, (k5_off91 v209) a + S1x8.size a ≤ S8388608x8.size a)
instance k5_chk27.dec : ∀ (v209 : BitVec 32), Decidable (k5_chk27 v209) := fun v209 => decidable_of_iff' _ (Iff.of_eq (k5_chk27.eq_1 v209))
theorem k5_off54_inb : ∀ (v209 : BitVec 32) (k5_hw27 : k5_chk27 v209), ∀ a, (k5_off54 v209) a + S1x8.size a ≤ S8388608x8.size a := fun v209 k5_hw27 => k5_hw27.1
theorem k5_off91_inb : ∀ (v209 : BitVec 32) (k5_hw27 : k5_chk27 v209), ∀ a, (k5_off91 v209) a + S1x8.size a ≤ S8388608x8.size a := fun v209 k5_hw27 => k5_hw27.2

def k5_off92 (v217 : BitVec 32) : Fin 2 → Nat :=
  let c0_i32_207 : BitVec 32 := 0#32
  ![v217.toNat, 0]

def k5_chk28 (v217 : BitVec 32) : Prop :=
  (∀ a, (k5_off56 v217) a + S1x8.size a ≤ S8388608x8.size a) ∧
  (∀ a, (k5_off92 v217) a + S1x8.size a ≤ S8388608x8.size a)
instance k5_chk28.dec : ∀ (v217 : BitVec 32), Decidable (k5_chk28 v217) := fun v217 => decidable_of_iff' _ (Iff.of_eq (k5_chk28.eq_1 v217))
theorem k5_off56_inb : ∀ (v217 : BitVec 32) (k5_hw28 : k5_chk28 v217), ∀ a, (k5_off56 v217) a + S1x8.size a ≤ S8388608x8.size a := fun v217 k5_hw28 => k5_hw28.1
theorem k5_off92_inb : ∀ (v217 : BitVec 32) (k5_hw28 : k5_chk28 v217), ∀ a, (k5_off92 v217) a + S1x8.size a ≤ S8388608x8.size a := fun v217 k5_hw28 => k5_hw28.2

def k5_off93 (v225 : BitVec 32) : Fin 2 → Nat :=
  let c0_i32_211 : BitVec 32 := 0#32
  ![v225.toNat, 0]

def k5_chk29 (v225 : BitVec 32) : Prop :=
  (∀ a, (k5_off58 v225) a + S1x8.size a ≤ S8388608x8.size a) ∧
  (∀ a, (k5_off93 v225) a + S1x8.size a ≤ S8388608x8.size a)
instance k5_chk29.dec : ∀ (v225 : BitVec 32), Decidable (k5_chk29 v225) := fun v225 => decidable_of_iff' _ (Iff.of_eq (k5_chk29.eq_1 v225))
theorem k5_off58_inb : ∀ (v225 : BitVec 32) (k5_hw29 : k5_chk29 v225), ∀ a, (k5_off58 v225) a + S1x8.size a ≤ S8388608x8.size a := fun v225 k5_hw29 => k5_hw29.1
theorem k5_off93_inb : ∀ (v225 : BitVec 32) (k5_hw29 : k5_chk29 v225), ∀ a, (k5_off93 v225) a + S1x8.size a ≤ S8388608x8.size a := fun v225 k5_hw29 => k5_hw29.2

def k5_off94 (v233 : BitVec 32) : Fin 2 → Nat :=
  let c0_i32_215 : BitVec 32 := 0#32
  ![v233.toNat, 0]

def k5_chk30 (v233 : BitVec 32) : Prop :=
  (∀ a, (k5_off60 v233) a + S1x8.size a ≤ S8388608x8.size a) ∧
  (∀ a, (k5_off94 v233) a + S1x8.size a ≤ S8388608x8.size a)
instance k5_chk30.dec : ∀ (v233 : BitVec 32), Decidable (k5_chk30 v233) := fun v233 => decidable_of_iff' _ (Iff.of_eq (k5_chk30.eq_1 v233))
theorem k5_off60_inb : ∀ (v233 : BitVec 32) (k5_hw30 : k5_chk30 v233), ∀ a, (k5_off60 v233) a + S1x8.size a ≤ S8388608x8.size a := fun v233 k5_hw30 => k5_hw30.1
theorem k5_off94_inb : ∀ (v233 : BitVec 32) (k5_hw30 : k5_chk30 v233), ∀ a, (k5_off94 v233) a + S1x8.size a ≤ S8388608x8.size a := fun v233 k5_hw30 => k5_hw30.2

def k5_off95 (v241 : BitVec 32) : Fin 2 → Nat :=
  let c0_i32_219 : BitVec 32 := 0#32
  ![v241.toNat, 0]

def k5_chk31 (v241 : BitVec 32) : Prop :=
  (∀ a, (k5_off62 v241) a + S1x8.size a ≤ S8388608x8.size a) ∧
  (∀ a, (k5_off95 v241) a + S1x8.size a ≤ S8388608x8.size a)
instance k5_chk31.dec : ∀ (v241 : BitVec 32), Decidable (k5_chk31 v241) := fun v241 => decidable_of_iff' _ (Iff.of_eq (k5_chk31.eq_1 v241))
theorem k5_off62_inb : ∀ (v241 : BitVec 32) (k5_hw31 : k5_chk31 v241), ∀ a, (k5_off62 v241) a + S1x8.size a ≤ S8388608x8.size a := fun v241 k5_hw31 => k5_hw31.1
theorem k5_off95_inb : ∀ (v241 : BitVec 32) (k5_hw31 : k5_chk31 v241), ∀ a, (k5_off95 v241) a + S1x8.size a ≤ S8388608x8.size a := fun v241 k5_hw31 => k5_hw31.2

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x32x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev grid6 : Pipeline.Grid := ⟨1, ![1023], ![false]⟩

abbrev pre6 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 2 → Nat :=
  let c0 : Index := 0#32
  let arg0 : BitVec 32 := BitVec.ofNat 32 (i 0).val
  let v0 : Index := Scalar.indexCast arg0
  ![0, v0.toNat]
def k6_off2 (v1 : BitVec 32) : Fin 2 → Nat :=
  let c0_i32_2 : BitVec 32 := 0#32
  ![v1.toNat, 0]

def k6_off3 (i : grid6.Coords) : Fin 2 → Nat :=
  let c1 : Index := 1#32
  let arg0 : BitVec 32 := BitVec.ofNat 32 (i 0).val
  let v8 : Index := Scalar.indexCast arg0
  ![1, v8.toNat]
def k6_off4 (v9 : BitVec 32) : Fin 2 → Nat :=
  let c0_i32_5 : BitVec 32 := 0#32
  ![v9.toNat, 0]

def k6_off5 (i : grid6.Coords) : Fin 2 → Nat :=
  let c2 : Index := 2#32
  let arg0 : BitVec 32 := BitVec.ofNat 32 (i 0).val
  let v16 : Index := Scalar.indexCast arg0
  ![2, v16.toNat]
def k6_off6 (v17 : BitVec 32) : Fin 2 → Nat :=
  let c0_i32_8 : BitVec 32 := 0#32
  ![v17.toNat, 0]

def k6_off7 (i : grid6.Coords) : Fin 2 → Nat :=
  let c3 : Index := 3#32
  let arg0 : BitVec 32 := BitVec.ofNat 32 (i 0).val
  let v24 : Index := Scalar.indexCast arg0
  ![3, v24.toNat]
def k6_off8 (v25 : BitVec 32) : Fin 2 → Nat :=
  let c0_i32_11 : BitVec 32 := 0#32
  ![v25.toNat, 0]

def k6_off9 (i : grid6.Coords) : Fin 2 → Nat :=
  let c4 : Index := 4#32
  let arg0 : BitVec 32 := BitVec.ofNat 32 (i 0).val
  let v32 : Index := Scalar.indexCast arg0
  ![4, v32.toNat]
def k6_off10 (v33 : BitVec 32) : Fin 2 → Nat :=
  let c0_i32_14 : BitVec 32 := 0#32
  ![v33.toNat, 0]

def k6_off11 (i : grid6.Coords) : Fin 2 → Nat :=
  let c5 : Index := 5#32
  let arg0 : BitVec 32 := BitVec.ofNat 32 (i 0).val
  let v40 : Index := Scalar.indexCast arg0
  ![5, v40.toNat]
def k6_off12 (v41 : BitVec 32) : Fin 2 → Nat :=
  let c0_i32_17 : BitVec 32 := 0#32
  ![v41.toNat, 0]

def k6_off13 (i : grid6.Coords) : Fin 2 → Nat :=
  let c6 : Index := 6#32
  let arg0 : BitVec 32 := BitVec.ofNat 32 (i 0).val
  let v48 : Index := Scalar.indexCast arg0
  ![6, v48.toNat]
def k6_off14 (v49 : BitVec 32) : Fin 2 → Nat :=
  let c0_i32_20 : BitVec 32 := 0#32
  ![v49.toNat, 0]

def k6_off15 (i : grid6.Coords) : Fin 2 → Nat :=
  let c7 : Index := 7#32
  let arg0 : BitVec 32 := BitVec.ofNat 32 (i 0).val
  let v56 : Index := Scalar.indexCast arg0
  ![7, v56.toNat]
def k6_off16 (v57 : BitVec 32) : Fin 2 → Nat :=
  let c0_i32_23 : BitVec 32 := 0#32
  ![v57.toNat, 0]

def k6_off17 (i : grid6.Coords) : Fin 2 → Nat :=
  let c8 : Index := 8#32
  let arg0 : BitVec 32 := BitVec.ofNat 32 (i 0).val
  let v64 : Index := Scalar.indexCast arg0
  ![8, v64.toNat]
def k6_off18 (v65 : BitVec 32) : Fin 2 → Nat :=
  let c0_i32_26 : BitVec 32 := 0#32
  ![v65.toNat, 0]

def k6_off19 (i : grid6.Coords) : Fin 2 → Nat :=
  let c9 : Index := 9#32
  let arg0 : BitVec 32 := BitVec.ofNat 32 (i 0).val
  let v72 : Index := Scalar.indexCast arg0
  ![9, v72.toNat]
def k6_off20 (v73 : BitVec 32) : Fin 2 → Nat :=
  let c0_i32_29 : BitVec 32 := 0#32
  ![v73.toNat, 0]

def k6_off21 (i : grid6.Coords) : Fin 2 → Nat :=
  let c10 : Index := 10#32
  let arg0 : BitVec 32 := BitVec.ofNat 32 (i 0).val
  let v80 : Index := Scalar.indexCast arg0
  ![10, v80.toNat]
def k6_off22 (v81 : BitVec 32) : Fin 2 → Nat :=
  let c0_i32_32 : BitVec 32 := 0#32
  ![v81.toNat, 0]

def k6_off23 (i : grid6.Coords) : Fin 2 → Nat :=
  let c11 : Index := 11#32
  let arg0 : BitVec 32 := BitVec.ofNat 32 (i 0).val
  let v88 : Index := Scalar.indexCast arg0
  ![11, v88.toNat]
def k6_off24 (v89 : BitVec 32) : Fin 2 → Nat :=
  let c0_i32_35 : BitVec 32 := 0#32
  ![v89.toNat, 0]

def k6_off25 (i : grid6.Coords) : Fin 2 → Nat :=
  let c12 : Index := 12#32
  let arg0 : BitVec 32 := BitVec.ofNat 32 (i 0).val
  let v96 : Index := Scalar.indexCast arg0
  ![12, v96.toNat]
def k6_off26 (v97 : BitVec 32) : Fin 2 → Nat :=
  let c0_i32_38 : BitVec 32 := 0#32
  ![v97.toNat, 0]

def k6_off27 (i : grid6.Coords) : Fin 2 → Nat :=
  let c13 : Index := 13#32
  let arg0 : BitVec 32 := BitVec.ofNat 32 (i 0).val
  let v104 : Index := Scalar.indexCast arg0
  ![13, v104.toNat]
def k6_off28 (v105 : BitVec 32) : Fin 2 → Nat :=
  let c0_i32_41 : BitVec 32 := 0#32
  ![v105.toNat, 0]

def k6_off29 (i : grid6.Coords) : Fin 2 → Nat :=
  let c14 : Index := 14#32
  let arg0 : BitVec 32 := BitVec.ofNat 32 (i 0).val
  let v112 : Index := Scalar.indexCast arg0
  ![14, v112.toNat]
def k6_off30 (v113 : BitVec 32) : Fin 2 → Nat :=
  let c0_i32_44 : BitVec 32 := 0#32
  ![v113.toNat, 0]

def k6_off31 (i : grid6.Coords) : Fin 2 → Nat :=
  let c15 : Index := 15#32
  let arg0 : BitVec 32 := BitVec.ofNat 32 (i 0).val
  let v120 : Index := Scalar.indexCast arg0
  ![15, v120.toNat]
def k6_off32 (v121 : BitVec 32) : Fin 2 → Nat :=
  let c0_i32_47 : BitVec 32 := 0#32
  ![v121.toNat, 0]

def k6_off33 (i : grid6.Coords) : Fin 2 → Nat :=
  let c16 : Index := 16#32
  let arg0 : BitVec 32 := BitVec.ofNat 32 (i 0).val
  let v128 : Index := Scalar.indexCast arg0
  ![16, v128.toNat]
def k6_off34 (v129 : BitVec 32) : Fin 2 → Nat :=
  let c0_i32_50 : BitVec 32 := 0#32
  ![v129.toNat, 0]

def k6_off35 (i : grid6.Coords) : Fin 2 → Nat :=
  let c17 : Index := 17#32
  let arg0 : BitVec 32 := BitVec.ofNat 32 (i 0).val
  let v136 : Index := Scalar.indexCast arg0
  ![17, v136.toNat]
def k6_off36 (v137 : BitVec 32) : Fin 2 → Nat :=
  let c0_i32_53 : BitVec 32 := 0#32
  ![v137.toNat, 0]

def k6_off37 (i : grid6.Coords) : Fin 2 → Nat :=
  let c18 : Index := 18#32
  let arg0 : BitVec 32 := BitVec.ofNat 32 (i 0).val
  let v144 : Index := Scalar.indexCast arg0
  ![18, v144.toNat]
def k6_off38 (v145 : BitVec 32) : Fin 2 → Nat :=
  let c0_i32_56 : BitVec 32 := 0#32
  ![v145.toNat, 0]

def k6_off39 (i : grid6.Coords) : Fin 2 → Nat :=
  let c19 : Index := 19#32
  let arg0 : BitVec 32 := BitVec.ofNat 32 (i 0).val
  let v152 : Index := Scalar.indexCast arg0
  ![19, v152.toNat]
def k6_off40 (v153 : BitVec 32) : Fin 2 → Nat :=
  let c0_i32_59 : BitVec 32 := 0#32
  ![v153.toNat, 0]

def k6_off41 (i : grid6.Coords) : Fin 2 → Nat :=
  let c20 : Index := 20#32
  let arg0 : BitVec 32 := BitVec.ofNat 32 (i 0).val
  let v160 : Index := Scalar.indexCast arg0
  ![20, v160.toNat]
def k6_off42 (v161 : BitVec 32) : Fin 2 → Nat :=
  let c0_i32_62 : BitVec 32 := 0#32
  ![v161.toNat, 0]

def k6_off43 (i : grid6.Coords) : Fin 2 → Nat :=
  let c21 : Index := 21#32
  let arg0 : BitVec 32 := BitVec.ofNat 32 (i 0).val
  let v168 : Index := Scalar.indexCast arg0
  ![21, v168.toNat]
def k6_off44 (v169 : BitVec 32) : Fin 2 → Nat :=
  let c0_i32_65 : BitVec 32 := 0#32
  ![v169.toNat, 0]

def k6_off45 (i : grid6.Coords) : Fin 2 → Nat :=
  let c22 : Index := 22#32
  let arg0 : BitVec 32 := BitVec.ofNat 32 (i 0).val
  let v176 : Index := Scalar.indexCast arg0
  ![22, v176.toNat]
def k6_off46 (v177 : BitVec 32) : Fin 2 → Nat :=
  let c0_i32_68 : BitVec 32 := 0#32
  ![v177.toNat, 0]

def k6_off47 (i : grid6.Coords) : Fin 2 → Nat :=
  let c23 : Index := 23#32
  let arg0 : BitVec 32 := BitVec.ofNat 32 (i 0).val
  let v184 : Index := Scalar.indexCast arg0
  ![23, v184.toNat]
def k6_off48 (v185 : BitVec 32) : Fin 2 → Nat :=
  let c0_i32_71 : BitVec 32 := 0#32
  ![v185.toNat, 0]

def k6_off49 (i : grid6.Coords) : Fin 2 → Nat :=
  let c24 : Index := 24#32
  let arg0 : BitVec 32 := BitVec.ofNat 32 (i 0).val
  let v192 : Index := Scalar.indexCast arg0
  ![24, v192.toNat]
def k6_off50 (v193 : BitVec 32) : Fin 2 → Nat :=
  let c0_i32_74 : BitVec 32 := 0#32
  ![v193.toNat, 0]

def k6_off51 (i : grid6.Coords) : Fin 2 → Nat :=
  let c25 : Index := 25#32
  let arg0 : BitVec 32 := BitVec.ofNat 32 (i 0).val
  let v200 : Index := Scalar.indexCast arg0
  ![25, v200.toNat]
def k6_off52 (v201 : BitVec 32) : Fin 2 → Nat :=
  let c0_i32_77 : BitVec 32 := 0#32
  ![v201.toNat, 0]

def k6_off53 (i : grid6.Coords) : Fin 2 → Nat :=
  let c26 : Index := 26#32
  let arg0 : BitVec 32 := BitVec.ofNat 32 (i 0).val
  let v208 : Index := Scalar.indexCast arg0
  ![26, v208.toNat]
def k6_off54 (v209 : BitVec 32) : Fin 2 → Nat :=
  let c0_i32_80 : BitVec 32 := 0#32
  ![v209.toNat, 0]

def k6_off55 (i : grid6.Coords) : Fin 2 → Nat :=
  let c27 : Index := 27#32
  let arg0 : BitVec 32 := BitVec.ofNat 32 (i 0).val
  let v216 : Index := Scalar.indexCast arg0
  ![27, v216.toNat]
def k6_off56 (v217 : BitVec 32) : Fin 2 → Nat :=
  let c0_i32_83 : BitVec 32 := 0#32
  ![v217.toNat, 0]

def k6_off57 (i : grid6.Coords) : Fin 2 → Nat :=
  let c28 : Index := 28#32
  let arg0 : BitVec 32 := BitVec.ofNat 32 (i 0).val
  let v224 : Index := Scalar.indexCast arg0
  ![28, v224.toNat]
def k6_off58 (v225 : BitVec 32) : Fin 2 → Nat :=
  let c0_i32_86 : BitVec 32 := 0#32
  ![v225.toNat, 0]

def k6_off59 (i : grid6.Coords) : Fin 2 → Nat :=
  let c29 : Index := 29#32
  let arg0 : BitVec 32 := BitVec.ofNat 32 (i 0).val
  let v232 : Index := Scalar.indexCast arg0
  ![29, v232.toNat]
def k6_off60 (v233 : BitVec 32) : Fin 2 → Nat :=
  let c0_i32_89 : BitVec 32 := 0#32
  ![v233.toNat, 0]

def k6_off61 (i : grid6.Coords) : Fin 2 → Nat :=
  let c30 : Index := 30#32
  let arg0 : BitVec 32 := BitVec.ofNat 32 (i 0).val
  let v240 : Index := Scalar.indexCast arg0
  ![30, v240.toNat]
def k6_off62 (v241 : BitVec 32) : Fin 2 → Nat :=
  let c0_i32_92 : BitVec 32 := 0#32
  ![v241.toNat, 0]

def k6_off63 (i : grid6.Coords) : Fin 2 → Nat :=
  let c31 : Index := 31#32
  let arg0 : BitVec 32 := BitVec.ofNat 32 (i 0).val
  let v248 : Index := Scalar.indexCast arg0
  ![31, v248.toNat]
def k6_off64 (v249 : BitVec 32) : Fin 2 → Nat :=
  let c0_i32_95 : BitVec 32 := 0#32
  ![v249.toNat, 0]

def k6_chk32 (v249 : BitVec 32) : Prop :=
  (∀ a, (k6_off64 v249) a + S1x8.size a ≤ S8388608x8.size a)
instance k6_chk32.dec : ∀ (v249 : BitVec 32), Decidable (k6_chk32 v249) := fun v249 => decidable_of_iff' _ (Iff.of_eq (k6_chk32.eq_1 v249))
theorem k6_off64_inb : ∀ (v249 : BitVec 32) (k6_hw32 : k6_chk32 v249), ∀ a, (k6_off64 v249) a + S1x8.size a ≤ S8388608x8.size a := fun v249 k6_hw32 => k6_hw32

def k6_off65 (v1 : BitVec 32) : Fin 2 → Nat :=
  let c0_i32_99 : BitVec 32 := 0#32
  ![v1.toNat, 0]

def k6_chk1 (v1 : BitVec 32) : Prop :=
  (∀ a, (k6_off2 v1) a + S1x8.size a ≤ S8388608x8.size a) ∧
  (∀ a, (k6_off65 v1) a + S1x8.size a ≤ S8388608x8.size a)
instance k6_chk1.dec : ∀ (v1 : BitVec 32), Decidable (k6_chk1 v1) := fun v1 => decidable_of_iff' _ (Iff.of_eq (k6_chk1.eq_1 v1))
theorem k6_off2_inb : ∀ (v1 : BitVec 32) (k6_hw1 : k6_chk1 v1), ∀ a, (k6_off2 v1) a + S1x8.size a ≤ S8388608x8.size a := fun v1 k6_hw1 => k6_hw1.1
theorem k6_off65_inb : ∀ (v1 : BitVec 32) (k6_hw1 : k6_chk1 v1), ∀ a, (k6_off65 v1) a + S1x8.size a ≤ S8388608x8.size a := fun v1 k6_hw1 => k6_hw1.2

def k6_off66 (v9 : BitVec 32) : Fin 2 → Nat :=
  let c0_i32_103 : BitVec 32 := 0#32
  ![v9.toNat, 0]

def k6_chk2 (v9 : BitVec 32) : Prop :=
  (∀ a, (k6_off4 v9) a + S1x8.size a ≤ S8388608x8.size a) ∧
  (∀ a, (k6_off66 v9) a + S1x8.size a ≤ S8388608x8.size a)
instance k6_chk2.dec : ∀ (v9 : BitVec 32), Decidable (k6_chk2 v9) := fun v9 => decidable_of_iff' _ (Iff.of_eq (k6_chk2.eq_1 v9))
theorem k6_off4_inb : ∀ (v9 : BitVec 32) (k6_hw2 : k6_chk2 v9), ∀ a, (k6_off4 v9) a + S1x8.size a ≤ S8388608x8.size a := fun v9 k6_hw2 => k6_hw2.1
theorem k6_off66_inb : ∀ (v9 : BitVec 32) (k6_hw2 : k6_chk2 v9), ∀ a, (k6_off66 v9) a + S1x8.size a ≤ S8388608x8.size a := fun v9 k6_hw2 => k6_hw2.2

def k6_off67 (v17 : BitVec 32) : Fin 2 → Nat :=
  let c0_i32_107 : BitVec 32 := 0#32
  ![v17.toNat, 0]

def k6_chk3 (v17 : BitVec 32) : Prop :=
  (∀ a, (k6_off6 v17) a + S1x8.size a ≤ S8388608x8.size a) ∧
  (∀ a, (k6_off67 v17) a + S1x8.size a ≤ S8388608x8.size a)
instance k6_chk3.dec : ∀ (v17 : BitVec 32), Decidable (k6_chk3 v17) := fun v17 => decidable_of_iff' _ (Iff.of_eq (k6_chk3.eq_1 v17))
theorem k6_off6_inb : ∀ (v17 : BitVec 32) (k6_hw3 : k6_chk3 v17), ∀ a, (k6_off6 v17) a + S1x8.size a ≤ S8388608x8.size a := fun v17 k6_hw3 => k6_hw3.1
theorem k6_off67_inb : ∀ (v17 : BitVec 32) (k6_hw3 : k6_chk3 v17), ∀ a, (k6_off67 v17) a + S1x8.size a ≤ S8388608x8.size a := fun v17 k6_hw3 => k6_hw3.2

def k6_off68 (v25 : BitVec 32) : Fin 2 → Nat :=
  let c0_i32_111 : BitVec 32 := 0#32
  ![v25.toNat, 0]

def k6_chk4 (v25 : BitVec 32) : Prop :=
  (∀ a, (k6_off8 v25) a + S1x8.size a ≤ S8388608x8.size a) ∧
  (∀ a, (k6_off68 v25) a + S1x8.size a ≤ S8388608x8.size a)
instance k6_chk4.dec : ∀ (v25 : BitVec 32), Decidable (k6_chk4 v25) := fun v25 => decidable_of_iff' _ (Iff.of_eq (k6_chk4.eq_1 v25))
theorem k6_off8_inb : ∀ (v25 : BitVec 32) (k6_hw4 : k6_chk4 v25), ∀ a, (k6_off8 v25) a + S1x8.size a ≤ S8388608x8.size a := fun v25 k6_hw4 => k6_hw4.1
theorem k6_off68_inb : ∀ (v25 : BitVec 32) (k6_hw4 : k6_chk4 v25), ∀ a, (k6_off68 v25) a + S1x8.size a ≤ S8388608x8.size a := fun v25 k6_hw4 => k6_hw4.2

def k6_off69 (v33 : BitVec 32) : Fin 2 → Nat :=
  let c0_i32_115 : BitVec 32 := 0#32
  ![v33.toNat, 0]

def k6_chk5 (v33 : BitVec 32) : Prop :=
  (∀ a, (k6_off10 v33) a + S1x8.size a ≤ S8388608x8.size a) ∧
  (∀ a, (k6_off69 v33) a + S1x8.size a ≤ S8388608x8.size a)
instance k6_chk5.dec : ∀ (v33 : BitVec 32), Decidable (k6_chk5 v33) := fun v33 => decidable_of_iff' _ (Iff.of_eq (k6_chk5.eq_1 v33))
theorem k6_off10_inb : ∀ (v33 : BitVec 32) (k6_hw5 : k6_chk5 v33), ∀ a, (k6_off10 v33) a + S1x8.size a ≤ S8388608x8.size a := fun v33 k6_hw5 => k6_hw5.1
theorem k6_off69_inb : ∀ (v33 : BitVec 32) (k6_hw5 : k6_chk5 v33), ∀ a, (k6_off69 v33) a + S1x8.size a ≤ S8388608x8.size a := fun v33 k6_hw5 => k6_hw5.2

def k6_off70 (v41 : BitVec 32) : Fin 2 → Nat :=
  let c0_i32_119 : BitVec 32 := 0#32
  ![v41.toNat, 0]

def k6_chk6 (v41 : BitVec 32) : Prop :=
  (∀ a, (k6_off12 v41) a + S1x8.size a ≤ S8388608x8.size a) ∧
  (∀ a, (k6_off70 v41) a + S1x8.size a ≤ S8388608x8.size a)
instance k6_chk6.dec : ∀ (v41 : BitVec 32), Decidable (k6_chk6 v41) := fun v41 => decidable_of_iff' _ (Iff.of_eq (k6_chk6.eq_1 v41))
theorem k6_off12_inb : ∀ (v41 : BitVec 32) (k6_hw6 : k6_chk6 v41), ∀ a, (k6_off12 v41) a + S1x8.size a ≤ S8388608x8.size a := fun v41 k6_hw6 => k6_hw6.1
theorem k6_off70_inb : ∀ (v41 : BitVec 32) (k6_hw6 : k6_chk6 v41), ∀ a, (k6_off70 v41) a + S1x8.size a ≤ S8388608x8.size a := fun v41 k6_hw6 => k6_hw6.2

def k6_off71 (v49 : BitVec 32) : Fin 2 → Nat :=
  let c0_i32_123 : BitVec 32 := 0#32
  ![v49.toNat, 0]

def k6_chk7 (v49 : BitVec 32) : Prop :=
  (∀ a, (k6_off14 v49) a + S1x8.size a ≤ S8388608x8.size a) ∧
  (∀ a, (k6_off71 v49) a + S1x8.size a ≤ S8388608x8.size a)
instance k6_chk7.dec : ∀ (v49 : BitVec 32), Decidable (k6_chk7 v49) := fun v49 => decidable_of_iff' _ (Iff.of_eq (k6_chk7.eq_1 v49))
theorem k6_off14_inb : ∀ (v49 : BitVec 32) (k6_hw7 : k6_chk7 v49), ∀ a, (k6_off14 v49) a + S1x8.size a ≤ S8388608x8.size a := fun v49 k6_hw7 => k6_hw7.1
theorem k6_off71_inb : ∀ (v49 : BitVec 32) (k6_hw7 : k6_chk7 v49), ∀ a, (k6_off71 v49) a + S1x8.size a ≤ S8388608x8.size a := fun v49 k6_hw7 => k6_hw7.2

def k6_off72 (v57 : BitVec 32) : Fin 2 → Nat :=
  let c0_i32_127 : BitVec 32 := 0#32
  ![v57.toNat, 0]

def k6_chk8 (v57 : BitVec 32) : Prop :=
  (∀ a, (k6_off16 v57) a + S1x8.size a ≤ S8388608x8.size a) ∧
  (∀ a, (k6_off72 v57) a + S1x8.size a ≤ S8388608x8.size a)
instance k6_chk8.dec : ∀ (v57 : BitVec 32), Decidable (k6_chk8 v57) := fun v57 => decidable_of_iff' _ (Iff.of_eq (k6_chk8.eq_1 v57))
theorem k6_off16_inb : ∀ (v57 : BitVec 32) (k6_hw8 : k6_chk8 v57), ∀ a, (k6_off16 v57) a + S1x8.size a ≤ S8388608x8.size a := fun v57 k6_hw8 => k6_hw8.1
theorem k6_off72_inb : ∀ (v57 : BitVec 32) (k6_hw8 : k6_chk8 v57), ∀ a, (k6_off72 v57) a + S1x8.size a ≤ S8388608x8.size a := fun v57 k6_hw8 => k6_hw8.2

def k6_off73 (v65 : BitVec 32) : Fin 2 → Nat :=
  let c0_i32_131 : BitVec 32 := 0#32
  ![v65.toNat, 0]

def k6_chk9 (v65 : BitVec 32) : Prop :=
  (∀ a, (k6_off18 v65) a + S1x8.size a ≤ S8388608x8.size a) ∧
  (∀ a, (k6_off73 v65) a + S1x8.size a ≤ S8388608x8.size a)
instance k6_chk9.dec : ∀ (v65 : BitVec 32), Decidable (k6_chk9 v65) := fun v65 => decidable_of_iff' _ (Iff.of_eq (k6_chk9.eq_1 v65))
theorem k6_off18_inb : ∀ (v65 : BitVec 32) (k6_hw9 : k6_chk9 v65), ∀ a, (k6_off18 v65) a + S1x8.size a ≤ S8388608x8.size a := fun v65 k6_hw9 => k6_hw9.1
theorem k6_off73_inb : ∀ (v65 : BitVec 32) (k6_hw9 : k6_chk9 v65), ∀ a, (k6_off73 v65) a + S1x8.size a ≤ S8388608x8.size a := fun v65 k6_hw9 => k6_hw9.2

def k6_off74 (v73 : BitVec 32) : Fin 2 → Nat :=
  let c0_i32_135 : BitVec 32 := 0#32
  ![v73.toNat, 0]

def k6_chk10 (v73 : BitVec 32) : Prop :=
  (∀ a, (k6_off20 v73) a + S1x8.size a ≤ S8388608x8.size a) ∧
  (∀ a, (k6_off74 v73) a + S1x8.size a ≤ S8388608x8.size a)
instance k6_chk10.dec : ∀ (v73 : BitVec 32), Decidable (k6_chk10 v73) := fun v73 => decidable_of_iff' _ (Iff.of_eq (k6_chk10.eq_1 v73))
theorem k6_off20_inb : ∀ (v73 : BitVec 32) (k6_hw10 : k6_chk10 v73), ∀ a, (k6_off20 v73) a + S1x8.size a ≤ S8388608x8.size a := fun v73 k6_hw10 => k6_hw10.1
theorem k6_off74_inb : ∀ (v73 : BitVec 32) (k6_hw10 : k6_chk10 v73), ∀ a, (k6_off74 v73) a + S1x8.size a ≤ S8388608x8.size a := fun v73 k6_hw10 => k6_hw10.2

def k6_off75 (v81 : BitVec 32) : Fin 2 → Nat :=
  let c0_i32_139 : BitVec 32 := 0#32
  ![v81.toNat, 0]

def k6_chk11 (v81 : BitVec 32) : Prop :=
  (∀ a, (k6_off22 v81) a + S1x8.size a ≤ S8388608x8.size a) ∧
  (∀ a, (k6_off75 v81) a + S1x8.size a ≤ S8388608x8.size a)
instance k6_chk11.dec : ∀ (v81 : BitVec 32), Decidable (k6_chk11 v81) := fun v81 => decidable_of_iff' _ (Iff.of_eq (k6_chk11.eq_1 v81))
theorem k6_off22_inb : ∀ (v81 : BitVec 32) (k6_hw11 : k6_chk11 v81), ∀ a, (k6_off22 v81) a + S1x8.size a ≤ S8388608x8.size a := fun v81 k6_hw11 => k6_hw11.1
theorem k6_off75_inb : ∀ (v81 : BitVec 32) (k6_hw11 : k6_chk11 v81), ∀ a, (k6_off75 v81) a + S1x8.size a ≤ S8388608x8.size a := fun v81 k6_hw11 => k6_hw11.2

def k6_off76 (v89 : BitVec 32) : Fin 2 → Nat :=
  let c0_i32_143 : BitVec 32 := 0#32
  ![v89.toNat, 0]

def k6_chk12 (v89 : BitVec 32) : Prop :=
  (∀ a, (k6_off24 v89) a + S1x8.size a ≤ S8388608x8.size a) ∧
  (∀ a, (k6_off76 v89) a + S1x8.size a ≤ S8388608x8.size a)
instance k6_chk12.dec : ∀ (v89 : BitVec 32), Decidable (k6_chk12 v89) := fun v89 => decidable_of_iff' _ (Iff.of_eq (k6_chk12.eq_1 v89))
theorem k6_off24_inb : ∀ (v89 : BitVec 32) (k6_hw12 : k6_chk12 v89), ∀ a, (k6_off24 v89) a + S1x8.size a ≤ S8388608x8.size a := fun v89 k6_hw12 => k6_hw12.1
theorem k6_off76_inb : ∀ (v89 : BitVec 32) (k6_hw12 : k6_chk12 v89), ∀ a, (k6_off76 v89) a + S1x8.size a ≤ S8388608x8.size a := fun v89 k6_hw12 => k6_hw12.2

def k6_off77 (v97 : BitVec 32) : Fin 2 → Nat :=
  let c0_i32_147 : BitVec 32 := 0#32
  ![v97.toNat, 0]

def k6_chk13 (v97 : BitVec 32) : Prop :=
  (∀ a, (k6_off26 v97) a + S1x8.size a ≤ S8388608x8.size a) ∧
  (∀ a, (k6_off77 v97) a + S1x8.size a ≤ S8388608x8.size a)
instance k6_chk13.dec : ∀ (v97 : BitVec 32), Decidable (k6_chk13 v97) := fun v97 => decidable_of_iff' _ (Iff.of_eq (k6_chk13.eq_1 v97))
theorem k6_off26_inb : ∀ (v97 : BitVec 32) (k6_hw13 : k6_chk13 v97), ∀ a, (k6_off26 v97) a + S1x8.size a ≤ S8388608x8.size a := fun v97 k6_hw13 => k6_hw13.1
theorem k6_off77_inb : ∀ (v97 : BitVec 32) (k6_hw13 : k6_chk13 v97), ∀ a, (k6_off77 v97) a + S1x8.size a ≤ S8388608x8.size a := fun v97 k6_hw13 => k6_hw13.2

def k6_off78 (v105 : BitVec 32) : Fin 2 → Nat :=
  let c0_i32_151 : BitVec 32 := 0#32
  ![v105.toNat, 0]

def k6_chk14 (v105 : BitVec 32) : Prop :=
  (∀ a, (k6_off28 v105) a + S1x8.size a ≤ S8388608x8.size a) ∧
  (∀ a, (k6_off78 v105) a + S1x8.size a ≤ S8388608x8.size a)
instance k6_chk14.dec : ∀ (v105 : BitVec 32), Decidable (k6_chk14 v105) := fun v105 => decidable_of_iff' _ (Iff.of_eq (k6_chk14.eq_1 v105))
theorem k6_off28_inb : ∀ (v105 : BitVec 32) (k6_hw14 : k6_chk14 v105), ∀ a, (k6_off28 v105) a + S1x8.size a ≤ S8388608x8.size a := fun v105 k6_hw14 => k6_hw14.1
theorem k6_off78_inb : ∀ (v105 : BitVec 32) (k6_hw14 : k6_chk14 v105), ∀ a, (k6_off78 v105) a + S1x8.size a ≤ S8388608x8.size a := fun v105 k6_hw14 => k6_hw14.2

def k6_off79 (v113 : BitVec 32) : Fin 2 → Nat :=
  let c0_i32_155 : BitVec 32 := 0#32
  ![v113.toNat, 0]

def k6_chk15 (v113 : BitVec 32) : Prop :=
  (∀ a, (k6_off30 v113) a + S1x8.size a ≤ S8388608x8.size a) ∧
  (∀ a, (k6_off79 v113) a + S1x8.size a ≤ S8388608x8.size a)
instance k6_chk15.dec : ∀ (v113 : BitVec 32), Decidable (k6_chk15 v113) := fun v113 => decidable_of_iff' _ (Iff.of_eq (k6_chk15.eq_1 v113))
theorem k6_off30_inb : ∀ (v113 : BitVec 32) (k6_hw15 : k6_chk15 v113), ∀ a, (k6_off30 v113) a + S1x8.size a ≤ S8388608x8.size a := fun v113 k6_hw15 => k6_hw15.1
theorem k6_off79_inb : ∀ (v113 : BitVec 32) (k6_hw15 : k6_chk15 v113), ∀ a, (k6_off79 v113) a + S1x8.size a ≤ S8388608x8.size a := fun v113 k6_hw15 => k6_hw15.2

def k6_off80 (v121 : BitVec 32) : Fin 2 → Nat :=
  let c0_i32_159 : BitVec 32 := 0#32
  ![v121.toNat, 0]

def k6_chk16 (v121 : BitVec 32) : Prop :=
  (∀ a, (k6_off32 v121) a + S1x8.size a ≤ S8388608x8.size a) ∧
  (∀ a, (k6_off80 v121) a + S1x8.size a ≤ S8388608x8.size a)
instance k6_chk16.dec : ∀ (v121 : BitVec 32), Decidable (k6_chk16 v121) := fun v121 => decidable_of_iff' _ (Iff.of_eq (k6_chk16.eq_1 v121))
theorem k6_off32_inb : ∀ (v121 : BitVec 32) (k6_hw16 : k6_chk16 v121), ∀ a, (k6_off32 v121) a + S1x8.size a ≤ S8388608x8.size a := fun v121 k6_hw16 => k6_hw16.1
theorem k6_off80_inb : ∀ (v121 : BitVec 32) (k6_hw16 : k6_chk16 v121), ∀ a, (k6_off80 v121) a + S1x8.size a ≤ S8388608x8.size a := fun v121 k6_hw16 => k6_hw16.2

def k6_off81 (v129 : BitVec 32) : Fin 2 → Nat :=
  let c0_i32_163 : BitVec 32 := 0#32
  ![v129.toNat, 0]

def k6_chk17 (v129 : BitVec 32) : Prop :=
  (∀ a, (k6_off34 v129) a + S1x8.size a ≤ S8388608x8.size a) ∧
  (∀ a, (k6_off81 v129) a + S1x8.size a ≤ S8388608x8.size a)
instance k6_chk17.dec : ∀ (v129 : BitVec 32), Decidable (k6_chk17 v129) := fun v129 => decidable_of_iff' _ (Iff.of_eq (k6_chk17.eq_1 v129))
theorem k6_off34_inb : ∀ (v129 : BitVec 32) (k6_hw17 : k6_chk17 v129), ∀ a, (k6_off34 v129) a + S1x8.size a ≤ S8388608x8.size a := fun v129 k6_hw17 => k6_hw17.1
theorem k6_off81_inb : ∀ (v129 : BitVec 32) (k6_hw17 : k6_chk17 v129), ∀ a, (k6_off81 v129) a + S1x8.size a ≤ S8388608x8.size a := fun v129 k6_hw17 => k6_hw17.2

def k6_off82 (v137 : BitVec 32) : Fin 2 → Nat :=
  let c0_i32_167 : BitVec 32 := 0#32
  ![v137.toNat, 0]

def k6_chk18 (v137 : BitVec 32) : Prop :=
  (∀ a, (k6_off36 v137) a + S1x8.size a ≤ S8388608x8.size a) ∧
  (∀ a, (k6_off82 v137) a + S1x8.size a ≤ S8388608x8.size a)
instance k6_chk18.dec : ∀ (v137 : BitVec 32), Decidable (k6_chk18 v137) := fun v137 => decidable_of_iff' _ (Iff.of_eq (k6_chk18.eq_1 v137))
theorem k6_off36_inb : ∀ (v137 : BitVec 32) (k6_hw18 : k6_chk18 v137), ∀ a, (k6_off36 v137) a + S1x8.size a ≤ S8388608x8.size a := fun v137 k6_hw18 => k6_hw18.1
theorem k6_off82_inb : ∀ (v137 : BitVec 32) (k6_hw18 : k6_chk18 v137), ∀ a, (k6_off82 v137) a + S1x8.size a ≤ S8388608x8.size a := fun v137 k6_hw18 => k6_hw18.2

def k6_off83 (v145 : BitVec 32) : Fin 2 → Nat :=
  let c0_i32_171 : BitVec 32 := 0#32
  ![v145.toNat, 0]

def k6_chk19 (v145 : BitVec 32) : Prop :=
  (∀ a, (k6_off38 v145) a + S1x8.size a ≤ S8388608x8.size a) ∧
  (∀ a, (k6_off83 v145) a + S1x8.size a ≤ S8388608x8.size a)
instance k6_chk19.dec : ∀ (v145 : BitVec 32), Decidable (k6_chk19 v145) := fun v145 => decidable_of_iff' _ (Iff.of_eq (k6_chk19.eq_1 v145))
theorem k6_off38_inb : ∀ (v145 : BitVec 32) (k6_hw19 : k6_chk19 v145), ∀ a, (k6_off38 v145) a + S1x8.size a ≤ S8388608x8.size a := fun v145 k6_hw19 => k6_hw19.1
theorem k6_off83_inb : ∀ (v145 : BitVec 32) (k6_hw19 : k6_chk19 v145), ∀ a, (k6_off83 v145) a + S1x8.size a ≤ S8388608x8.size a := fun v145 k6_hw19 => k6_hw19.2

def k6_off84 (v153 : BitVec 32) : Fin 2 → Nat :=
  let c0_i32_175 : BitVec 32 := 0#32
  ![v153.toNat, 0]

def k6_chk20 (v153 : BitVec 32) : Prop :=
  (∀ a, (k6_off40 v153) a + S1x8.size a ≤ S8388608x8.size a) ∧
  (∀ a, (k6_off84 v153) a + S1x8.size a ≤ S8388608x8.size a)
instance k6_chk20.dec : ∀ (v153 : BitVec 32), Decidable (k6_chk20 v153) := fun v153 => decidable_of_iff' _ (Iff.of_eq (k6_chk20.eq_1 v153))
theorem k6_off40_inb : ∀ (v153 : BitVec 32) (k6_hw20 : k6_chk20 v153), ∀ a, (k6_off40 v153) a + S1x8.size a ≤ S8388608x8.size a := fun v153 k6_hw20 => k6_hw20.1
theorem k6_off84_inb : ∀ (v153 : BitVec 32) (k6_hw20 : k6_chk20 v153), ∀ a, (k6_off84 v153) a + S1x8.size a ≤ S8388608x8.size a := fun v153 k6_hw20 => k6_hw20.2

def k6_off85 (v161 : BitVec 32) : Fin 2 → Nat :=
  let c0_i32_179 : BitVec 32 := 0#32
  ![v161.toNat, 0]

def k6_chk21 (v161 : BitVec 32) : Prop :=
  (∀ a, (k6_off42 v161) a + S1x8.size a ≤ S8388608x8.size a) ∧
  (∀ a, (k6_off85 v161) a + S1x8.size a ≤ S8388608x8.size a)
instance k6_chk21.dec : ∀ (v161 : BitVec 32), Decidable (k6_chk21 v161) := fun v161 => decidable_of_iff' _ (Iff.of_eq (k6_chk21.eq_1 v161))
theorem k6_off42_inb : ∀ (v161 : BitVec 32) (k6_hw21 : k6_chk21 v161), ∀ a, (k6_off42 v161) a + S1x8.size a ≤ S8388608x8.size a := fun v161 k6_hw21 => k6_hw21.1
theorem k6_off85_inb : ∀ (v161 : BitVec 32) (k6_hw21 : k6_chk21 v161), ∀ a, (k6_off85 v161) a + S1x8.size a ≤ S8388608x8.size a := fun v161 k6_hw21 => k6_hw21.2

def k6_off86 (v169 : BitVec 32) : Fin 2 → Nat :=
  let c0_i32_183 : BitVec 32 := 0#32
  ![v169.toNat, 0]

def k6_chk22 (v169 : BitVec 32) : Prop :=
  (∀ a, (k6_off44 v169) a + S1x8.size a ≤ S8388608x8.size a) ∧
  (∀ a, (k6_off86 v169) a + S1x8.size a ≤ S8388608x8.size a)
instance k6_chk22.dec : ∀ (v169 : BitVec 32), Decidable (k6_chk22 v169) := fun v169 => decidable_of_iff' _ (Iff.of_eq (k6_chk22.eq_1 v169))
theorem k6_off44_inb : ∀ (v169 : BitVec 32) (k6_hw22 : k6_chk22 v169), ∀ a, (k6_off44 v169) a + S1x8.size a ≤ S8388608x8.size a := fun v169 k6_hw22 => k6_hw22.1
theorem k6_off86_inb : ∀ (v169 : BitVec 32) (k6_hw22 : k6_chk22 v169), ∀ a, (k6_off86 v169) a + S1x8.size a ≤ S8388608x8.size a := fun v169 k6_hw22 => k6_hw22.2

def k6_off87 (v177 : BitVec 32) : Fin 2 → Nat :=
  let c0_i32_187 : BitVec 32 := 0#32
  ![v177.toNat, 0]

def k6_chk23 (v177 : BitVec 32) : Prop :=
  (∀ a, (k6_off46 v177) a + S1x8.size a ≤ S8388608x8.size a) ∧
  (∀ a, (k6_off87 v177) a + S1x8.size a ≤ S8388608x8.size a)
instance k6_chk23.dec : ∀ (v177 : BitVec 32), Decidable (k6_chk23 v177) := fun v177 => decidable_of_iff' _ (Iff.of_eq (k6_chk23.eq_1 v177))
theorem k6_off46_inb : ∀ (v177 : BitVec 32) (k6_hw23 : k6_chk23 v177), ∀ a, (k6_off46 v177) a + S1x8.size a ≤ S8388608x8.size a := fun v177 k6_hw23 => k6_hw23.1
theorem k6_off87_inb : ∀ (v177 : BitVec 32) (k6_hw23 : k6_chk23 v177), ∀ a, (k6_off87 v177) a + S1x8.size a ≤ S8388608x8.size a := fun v177 k6_hw23 => k6_hw23.2

def k6_off88 (v185 : BitVec 32) : Fin 2 → Nat :=
  let c0_i32_191 : BitVec 32 := 0#32
  ![v185.toNat, 0]

def k6_chk24 (v185 : BitVec 32) : Prop :=
  (∀ a, (k6_off48 v185) a + S1x8.size a ≤ S8388608x8.size a) ∧
  (∀ a, (k6_off88 v185) a + S1x8.size a ≤ S8388608x8.size a)
instance k6_chk24.dec : ∀ (v185 : BitVec 32), Decidable (k6_chk24 v185) := fun v185 => decidable_of_iff' _ (Iff.of_eq (k6_chk24.eq_1 v185))
theorem k6_off48_inb : ∀ (v185 : BitVec 32) (k6_hw24 : k6_chk24 v185), ∀ a, (k6_off48 v185) a + S1x8.size a ≤ S8388608x8.size a := fun v185 k6_hw24 => k6_hw24.1
theorem k6_off88_inb : ∀ (v185 : BitVec 32) (k6_hw24 : k6_chk24 v185), ∀ a, (k6_off88 v185) a + S1x8.size a ≤ S8388608x8.size a := fun v185 k6_hw24 => k6_hw24.2

def k6_off89 (v193 : BitVec 32) : Fin 2 → Nat :=
  let c0_i32_195 : BitVec 32 := 0#32
  ![v193.toNat, 0]

def k6_chk25 (v193 : BitVec 32) : Prop :=
  (∀ a, (k6_off50 v193) a + S1x8.size a ≤ S8388608x8.size a) ∧
  (∀ a, (k6_off89 v193) a + S1x8.size a ≤ S8388608x8.size a)
instance k6_chk25.dec : ∀ (v193 : BitVec 32), Decidable (k6_chk25 v193) := fun v193 => decidable_of_iff' _ (Iff.of_eq (k6_chk25.eq_1 v193))
theorem k6_off50_inb : ∀ (v193 : BitVec 32) (k6_hw25 : k6_chk25 v193), ∀ a, (k6_off50 v193) a + S1x8.size a ≤ S8388608x8.size a := fun v193 k6_hw25 => k6_hw25.1
theorem k6_off89_inb : ∀ (v193 : BitVec 32) (k6_hw25 : k6_chk25 v193), ∀ a, (k6_off89 v193) a + S1x8.size a ≤ S8388608x8.size a := fun v193 k6_hw25 => k6_hw25.2

def k6_off90 (v201 : BitVec 32) : Fin 2 → Nat :=
  let c0_i32_199 : BitVec 32 := 0#32
  ![v201.toNat, 0]

def k6_chk26 (v201 : BitVec 32) : Prop :=
  (∀ a, (k6_off52 v201) a + S1x8.size a ≤ S8388608x8.size a) ∧
  (∀ a, (k6_off90 v201) a + S1x8.size a ≤ S8388608x8.size a)
instance k6_chk26.dec : ∀ (v201 : BitVec 32), Decidable (k6_chk26 v201) := fun v201 => decidable_of_iff' _ (Iff.of_eq (k6_chk26.eq_1 v201))
theorem k6_off52_inb : ∀ (v201 : BitVec 32) (k6_hw26 : k6_chk26 v201), ∀ a, (k6_off52 v201) a + S1x8.size a ≤ S8388608x8.size a := fun v201 k6_hw26 => k6_hw26.1
theorem k6_off90_inb : ∀ (v201 : BitVec 32) (k6_hw26 : k6_chk26 v201), ∀ a, (k6_off90 v201) a + S1x8.size a ≤ S8388608x8.size a := fun v201 k6_hw26 => k6_hw26.2

def k6_off91 (v209 : BitVec 32) : Fin 2 → Nat :=
  let c0_i32_203 : BitVec 32 := 0#32
  ![v209.toNat, 0]

def k6_chk27 (v209 : BitVec 32) : Prop :=
  (∀ a, (k6_off54 v209) a + S1x8.size a ≤ S8388608x8.size a) ∧
  (∀ a, (k6_off91 v209) a + S1x8.size a ≤ S8388608x8.size a)
instance k6_chk27.dec : ∀ (v209 : BitVec 32), Decidable (k6_chk27 v209) := fun v209 => decidable_of_iff' _ (Iff.of_eq (k6_chk27.eq_1 v209))
theorem k6_off54_inb : ∀ (v209 : BitVec 32) (k6_hw27 : k6_chk27 v209), ∀ a, (k6_off54 v209) a + S1x8.size a ≤ S8388608x8.size a := fun v209 k6_hw27 => k6_hw27.1
theorem k6_off91_inb : ∀ (v209 : BitVec 32) (k6_hw27 : k6_chk27 v209), ∀ a, (k6_off91 v209) a + S1x8.size a ≤ S8388608x8.size a := fun v209 k6_hw27 => k6_hw27.2

def k6_off92 (v217 : BitVec 32) : Fin 2 → Nat :=
  let c0_i32_207 : BitVec 32 := 0#32
  ![v217.toNat, 0]

def k6_chk28 (v217 : BitVec 32) : Prop :=
  (∀ a, (k6_off56 v217) a + S1x8.size a ≤ S8388608x8.size a) ∧
  (∀ a, (k6_off92 v217) a + S1x8.size a ≤ S8388608x8.size a)
instance k6_chk28.dec : ∀ (v217 : BitVec 32), Decidable (k6_chk28 v217) := fun v217 => decidable_of_iff' _ (Iff.of_eq (k6_chk28.eq_1 v217))
theorem k6_off56_inb : ∀ (v217 : BitVec 32) (k6_hw28 : k6_chk28 v217), ∀ a, (k6_off56 v217) a + S1x8.size a ≤ S8388608x8.size a := fun v217 k6_hw28 => k6_hw28.1
theorem k6_off92_inb : ∀ (v217 : BitVec 32) (k6_hw28 : k6_chk28 v217), ∀ a, (k6_off92 v217) a + S1x8.size a ≤ S8388608x8.size a := fun v217 k6_hw28 => k6_hw28.2

def k6_off93 (v225 : BitVec 32) : Fin 2 → Nat :=
  let c0_i32_211 : BitVec 32 := 0#32
  ![v225.toNat, 0]

def k6_chk29 (v225 : BitVec 32) : Prop :=
  (∀ a, (k6_off58 v225) a + S1x8.size a ≤ S8388608x8.size a) ∧
  (∀ a, (k6_off93 v225) a + S1x8.size a ≤ S8388608x8.size a)
instance k6_chk29.dec : ∀ (v225 : BitVec 32), Decidable (k6_chk29 v225) := fun v225 => decidable_of_iff' _ (Iff.of_eq (k6_chk29.eq_1 v225))
theorem k6_off58_inb : ∀ (v225 : BitVec 32) (k6_hw29 : k6_chk29 v225), ∀ a, (k6_off58 v225) a + S1x8.size a ≤ S8388608x8.size a := fun v225 k6_hw29 => k6_hw29.1
theorem k6_off93_inb : ∀ (v225 : BitVec 32) (k6_hw29 : k6_chk29 v225), ∀ a, (k6_off93 v225) a + S1x8.size a ≤ S8388608x8.size a := fun v225 k6_hw29 => k6_hw29.2

def k6_off94 (v233 : BitVec 32) : Fin 2 → Nat :=
  let c0_i32_215 : BitVec 32 := 0#32
  ![v233.toNat, 0]

def k6_chk30 (v233 : BitVec 32) : Prop :=
  (∀ a, (k6_off60 v233) a + S1x8.size a ≤ S8388608x8.size a) ∧
  (∀ a, (k6_off94 v233) a + S1x8.size a ≤ S8388608x8.size a)
instance k6_chk30.dec : ∀ (v233 : BitVec 32), Decidable (k6_chk30 v233) := fun v233 => decidable_of_iff' _ (Iff.of_eq (k6_chk30.eq_1 v233))
theorem k6_off60_inb : ∀ (v233 : BitVec 32) (k6_hw30 : k6_chk30 v233), ∀ a, (k6_off60 v233) a + S1x8.size a ≤ S8388608x8.size a := fun v233 k6_hw30 => k6_hw30.1
theorem k6_off94_inb : ∀ (v233 : BitVec 32) (k6_hw30 : k6_chk30 v233), ∀ a, (k6_off94 v233) a + S1x8.size a ≤ S8388608x8.size a := fun v233 k6_hw30 => k6_hw30.2

def k6_off95 (v241 : BitVec 32) : Fin 2 → Nat :=
  let c0_i32_219 : BitVec 32 := 0#32
  ![v241.toNat, 0]

def k6_chk31 (v241 : BitVec 32) : Prop :=
  (∀ a, (k6_off62 v241) a + S1x8.size a ≤ S8388608x8.size a) ∧
  (∀ a, (k6_off95 v241) a + S1x8.size a ≤ S8388608x8.size a)
instance k6_chk31.dec : ∀ (v241 : BitVec 32), Decidable (k6_chk31 v241) := fun v241 => decidable_of_iff' _ (Iff.of_eq (k6_chk31.eq_1 v241))
theorem k6_off62_inb : ∀ (v241 : BitVec 32) (k6_hw31 : k6_chk31 v241), ∀ a, (k6_off62 v241) a + S1x8.size a ≤ S8388608x8.size a := fun v241 k6_hw31 => k6_hw31.1
theorem k6_off95_inb : ∀ (v241 : BitVec 32) (k6_hw31 : k6_chk31 v241), ∀ a, (k6_off95 v241) a + S1x8.size a ≤ S8388608x8.size a := fun v241 k6_hw31 => k6_hw31.2

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x32x8 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev grid7 : Pipeline.Grid := ⟨1, ![1023], ![false]⟩

abbrev pre7 : Pipeline.Prefetch sig := ⟨1, ![main_v57.idx], fun | 0 => main_v57.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 2 → Nat :=
  let c0 : Index := 0#32
  let arg0 : BitVec 32 := BitVec.ofNat 32 (i 0).val
  let v0 : Index := Scalar.indexCast arg0
  ![0, v0.toNat]
def k7_off2 (v1 : BitVec 32) : Fin 2 → Nat :=
  let c0_i32_2 : BitVec 32 := 0#32
  ![v1.toNat, 0]

def k7_off3 (i : grid7.Coords) : Fin 2 → Nat :=
  let c1 : Index := 1#32
  let arg0 : BitVec 32 := BitVec.ofNat 32 (i 0).val
  let v8 : Index := Scalar.indexCast arg0
  ![1, v8.toNat]
def k7_off4 (v9 : BitVec 32) : Fin 2 → Nat :=
  let c0_i32_5 : BitVec 32 := 0#32
  ![v9.toNat, 0]

def k7_off5 (i : grid7.Coords) : Fin 2 → Nat :=
  let c2 : Index := 2#32
  let arg0 : BitVec 32 := BitVec.ofNat 32 (i 0).val
  let v16 : Index := Scalar.indexCast arg0
  ![2, v16.toNat]
def k7_off6 (v17 : BitVec 32) : Fin 2 → Nat :=
  let c0_i32_8 : BitVec 32 := 0#32
  ![v17.toNat, 0]

def k7_off7 (i : grid7.Coords) : Fin 2 → Nat :=
  let c3 : Index := 3#32
  let arg0 : BitVec 32 := BitVec.ofNat 32 (i 0).val
  let v24 : Index := Scalar.indexCast arg0
  ![3, v24.toNat]
def k7_off8 (v25 : BitVec 32) : Fin 2 → Nat :=
  let c0_i32_11 : BitVec 32 := 0#32
  ![v25.toNat, 0]

def k7_off9 (i : grid7.Coords) : Fin 2 → Nat :=
  let c4 : Index := 4#32
  let arg0 : BitVec 32 := BitVec.ofNat 32 (i 0).val
  let v32 : Index := Scalar.indexCast arg0
  ![4, v32.toNat]
def k7_off10 (v33 : BitVec 32) : Fin 2 → Nat :=
  let c0_i32_14 : BitVec 32 := 0#32
  ![v33.toNat, 0]

def k7_off11 (i : grid7.Coords) : Fin 2 → Nat :=
  let c5 : Index := 5#32
  let arg0 : BitVec 32 := BitVec.ofNat 32 (i 0).val
  let v40 : Index := Scalar.indexCast arg0
  ![5, v40.toNat]
def k7_off12 (v41 : BitVec 32) : Fin 2 → Nat :=
  let c0_i32_17 : BitVec 32 := 0#32
  ![v41.toNat, 0]

def k7_off13 (i : grid7.Coords) : Fin 2 → Nat :=
  let c6 : Index := 6#32
  let arg0 : BitVec 32 := BitVec.ofNat 32 (i 0).val
  let v48 : Index := Scalar.indexCast arg0
  ![6, v48.toNat]
def k7_off14 (v49 : BitVec 32) : Fin 2 → Nat :=
  let c0_i32_20 : BitVec 32 := 0#32
  ![v49.toNat, 0]

def k7_off15 (i : grid7.Coords) : Fin 2 → Nat :=
  let c7 : Index := 7#32
  let arg0 : BitVec 32 := BitVec.ofNat 32 (i 0).val
  let v56 : Index := Scalar.indexCast arg0
  ![7, v56.toNat]
def k7_off16 (v57 : BitVec 32) : Fin 2 → Nat :=
  let c0_i32_23 : BitVec 32 := 0#32
  ![v57.toNat, 0]

def k7_off17 (i : grid7.Coords) : Fin 2 → Nat :=
  let c8 : Index := 8#32
  let arg0 : BitVec 32 := BitVec.ofNat 32 (i 0).val
  let v64 : Index := Scalar.indexCast arg0
  ![8, v64.toNat]
def k7_off18 (v65 : BitVec 32) : Fin 2 → Nat :=
  let c0_i32_26 : BitVec 32 := 0#32
  ![v65.toNat, 0]

def k7_off19 (i : grid7.Coords) : Fin 2 → Nat :=
  let c9 : Index := 9#32
  let arg0 : BitVec 32 := BitVec.ofNat 32 (i 0).val
  let v72 : Index := Scalar.indexCast arg0
  ![9, v72.toNat]
def k7_off20 (v73 : BitVec 32) : Fin 2 → Nat :=
  let c0_i32_29 : BitVec 32 := 0#32
  ![v73.toNat, 0]

def k7_off21 (i : grid7.Coords) : Fin 2 → Nat :=
  let c10 : Index := 10#32
  let arg0 : BitVec 32 := BitVec.ofNat 32 (i 0).val
  let v80 : Index := Scalar.indexCast arg0
  ![10, v80.toNat]
def k7_off22 (v81 : BitVec 32) : Fin 2 → Nat :=
  let c0_i32_32 : BitVec 32 := 0#32
  ![v81.toNat, 0]

def k7_off23 (i : grid7.Coords) : Fin 2 → Nat :=
  let c11 : Index := 11#32
  let arg0 : BitVec 32 := BitVec.ofNat 32 (i 0).val
  let v88 : Index := Scalar.indexCast arg0
  ![11, v88.toNat]
def k7_off24 (v89 : BitVec 32) : Fin 2 → Nat :=
  let c0_i32_35 : BitVec 32 := 0#32
  ![v89.toNat, 0]

def k7_off25 (i : grid7.Coords) : Fin 2 → Nat :=
  let c12 : Index := 12#32
  let arg0 : BitVec 32 := BitVec.ofNat 32 (i 0).val
  let v96 : Index := Scalar.indexCast arg0
  ![12, v96.toNat]
def k7_off26 (v97 : BitVec 32) : Fin 2 → Nat :=
  let c0_i32_38 : BitVec 32 := 0#32
  ![v97.toNat, 0]

def k7_off27 (i : grid7.Coords) : Fin 2 → Nat :=
  let c13 : Index := 13#32
  let arg0 : BitVec 32 := BitVec.ofNat 32 (i 0).val
  let v104 : Index := Scalar.indexCast arg0
  ![13, v104.toNat]
def k7_off28 (v105 : BitVec 32) : Fin 2 → Nat :=
  let c0_i32_41 : BitVec 32 := 0#32
  ![v105.toNat, 0]

def k7_off29 (i : grid7.Coords) : Fin 2 → Nat :=
  let c14 : Index := 14#32
  let arg0 : BitVec 32 := BitVec.ofNat 32 (i 0).val
  let v112 : Index := Scalar.indexCast arg0
  ![14, v112.toNat]
def k7_off30 (v113 : BitVec 32) : Fin 2 → Nat :=
  let c0_i32_44 : BitVec 32 := 0#32
  ![v113.toNat, 0]

def k7_off31 (i : grid7.Coords) : Fin 2 → Nat :=
  let c15 : Index := 15#32
  let arg0 : BitVec 32 := BitVec.ofNat 32 (i 0).val
  let v120 : Index := Scalar.indexCast arg0
  ![15, v120.toNat]
def k7_off32 (v121 : BitVec 32) : Fin 2 → Nat :=
  let c0_i32_47 : BitVec 32 := 0#32
  ![v121.toNat, 0]

def k7_off33 (i : grid7.Coords) : Fin 2 → Nat :=
  let c16 : Index := 16#32
  let arg0 : BitVec 32 := BitVec.ofNat 32 (i 0).val
  let v128 : Index := Scalar.indexCast arg0
  ![16, v128.toNat]
def k7_off34 (v129 : BitVec 32) : Fin 2 → Nat :=
  let c0_i32_50 : BitVec 32 := 0#32
  ![v129.toNat, 0]

def k7_off35 (i : grid7.Coords) : Fin 2 → Nat :=
  let c17 : Index := 17#32
  let arg0 : BitVec 32 := BitVec.ofNat 32 (i 0).val
  let v136 : Index := Scalar.indexCast arg0
  ![17, v136.toNat]
def k7_off36 (v137 : BitVec 32) : Fin 2 → Nat :=
  let c0_i32_53 : BitVec 32 := 0#32
  ![v137.toNat, 0]

def k7_off37 (i : grid7.Coords) : Fin 2 → Nat :=
  let c18 : Index := 18#32
  let arg0 : BitVec 32 := BitVec.ofNat 32 (i 0).val
  let v144 : Index := Scalar.indexCast arg0
  ![18, v144.toNat]
def k7_off38 (v145 : BitVec 32) : Fin 2 → Nat :=
  let c0_i32_56 : BitVec 32 := 0#32
  ![v145.toNat, 0]

def k7_off39 (i : grid7.Coords) : Fin 2 → Nat :=
  let c19 : Index := 19#32
  let arg0 : BitVec 32 := BitVec.ofNat 32 (i 0).val
  let v152 : Index := Scalar.indexCast arg0
  ![19, v152.toNat]
def k7_off40 (v153 : BitVec 32) : Fin 2 → Nat :=
  let c0_i32_59 : BitVec 32 := 0#32
  ![v153.toNat, 0]

def k7_off41 (i : grid7.Coords) : Fin 2 → Nat :=
  let c20 : Index := 20#32
  let arg0 : BitVec 32 := BitVec.ofNat 32 (i 0).val
  let v160 : Index := Scalar.indexCast arg0
  ![20, v160.toNat]
def k7_off42 (v161 : BitVec 32) : Fin 2 → Nat :=
  let c0_i32_62 : BitVec 32 := 0#32
  ![v161.toNat, 0]

def k7_off43 (i : grid7.Coords) : Fin 2 → Nat :=
  let c21 : Index := 21#32
  let arg0 : BitVec 32 := BitVec.ofNat 32 (i 0).val
  let v168 : Index := Scalar.indexCast arg0
  ![21, v168.toNat]
def k7_off44 (v169 : BitVec 32) : Fin 2 → Nat :=
  let c0_i32_65 : BitVec 32 := 0#32
  ![v169.toNat, 0]

def k7_off45 (i : grid7.Coords) : Fin 2 → Nat :=
  let c22 : Index := 22#32
  let arg0 : BitVec 32 := BitVec.ofNat 32 (i 0).val
  let v176 : Index := Scalar.indexCast arg0
  ![22, v176.toNat]
def k7_off46 (v177 : BitVec 32) : Fin 2 → Nat :=
  let c0_i32_68 : BitVec 32 := 0#32
  ![v177.toNat, 0]

def k7_off47 (i : grid7.Coords) : Fin 2 → Nat :=
  let c23 : Index := 23#32
  let arg0 : BitVec 32 := BitVec.ofNat 32 (i 0).val
  let v184 : Index := Scalar.indexCast arg0
  ![23, v184.toNat]
def k7_off48 (v185 : BitVec 32) : Fin 2 → Nat :=
  let c0_i32_71 : BitVec 32 := 0#32
  ![v185.toNat, 0]

def k7_off49 (i : grid7.Coords) : Fin 2 → Nat :=
  let c24 : Index := 24#32
  let arg0 : BitVec 32 := BitVec.ofNat 32 (i 0).val
  let v192 : Index := Scalar.indexCast arg0
  ![24, v192.toNat]
def k7_off50 (v193 : BitVec 32) : Fin 2 → Nat :=
  let c0_i32_74 : BitVec 32 := 0#32
  ![v193.toNat, 0]

def k7_off51 (i : grid7.Coords) : Fin 2 → Nat :=
  let c25 : Index := 25#32
  let arg0 : BitVec 32 := BitVec.ofNat 32 (i 0).val
  let v200 : Index := Scalar.indexCast arg0
  ![25, v200.toNat]
def k7_off52 (v201 : BitVec 32) : Fin 2 → Nat :=
  let c0_i32_77 : BitVec 32 := 0#32
  ![v201.toNat, 0]

def k7_off53 (i : grid7.Coords) : Fin 2 → Nat :=
  let c26 : Index := 26#32
  let arg0 : BitVec 32 := BitVec.ofNat 32 (i 0).val
  let v208 : Index := Scalar.indexCast arg0
  ![26, v208.toNat]
def k7_off54 (v209 : BitVec 32) : Fin 2 → Nat :=
  let c0_i32_80 : BitVec 32 := 0#32
  ![v209.toNat, 0]

def k7_off55 (i : grid7.Coords) : Fin 2 → Nat :=
  let c27 : Index := 27#32
  let arg0 : BitVec 32 := BitVec.ofNat 32 (i 0).val
  let v216 : Index := Scalar.indexCast arg0
  ![27, v216.toNat]
def k7_off56 (v217 : BitVec 32) : Fin 2 → Nat :=
  let c0_i32_83 : BitVec 32 := 0#32
  ![v217.toNat, 0]

def k7_off57 (i : grid7.Coords) : Fin 2 → Nat :=
  let c28 : Index := 28#32
  let arg0 : BitVec 32 := BitVec.ofNat 32 (i 0).val
  let v224 : Index := Scalar.indexCast arg0
  ![28, v224.toNat]
def k7_off58 (v225 : BitVec 32) : Fin 2 → Nat :=
  let c0_i32_86 : BitVec 32 := 0#32
  ![v225.toNat, 0]

def k7_off59 (i : grid7.Coords) : Fin 2 → Nat :=
  let c29 : Index := 29#32
  let arg0 : BitVec 32 := BitVec.ofNat 32 (i 0).val
  let v232 : Index := Scalar.indexCast arg0
  ![29, v232.toNat]
def k7_off60 (v233 : BitVec 32) : Fin 2 → Nat :=
  let c0_i32_89 : BitVec 32 := 0#32
  ![v233.toNat, 0]

def k7_off61 (i : grid7.Coords) : Fin 2 → Nat :=
  let c30 : Index := 30#32
  let arg0 : BitVec 32 := BitVec.ofNat 32 (i 0).val
  let v240 : Index := Scalar.indexCast arg0
  ![30, v240.toNat]
def k7_off62 (v241 : BitVec 32) : Fin 2 → Nat :=
  let c0_i32_92 : BitVec 32 := 0#32
  ![v241.toNat, 0]

def k7_off63 (i : grid7.Coords) : Fin 2 → Nat :=
  let c31 : Index := 31#32
  let arg0 : BitVec 32 := BitVec.ofNat 32 (i 0).val
  let v248 : Index := Scalar.indexCast arg0
  ![31, v248.toNat]
def k7_off64 (v249 : BitVec 32) : Fin 2 → Nat :=
  let c0_i32_95 : BitVec 32 := 0#32
  ![v249.toNat, 0]

def k7_chk32 (v249 : BitVec 32) : Prop :=
  (∀ a, (k7_off64 v249) a + S1x8.size a ≤ S8388608x8.size a)
instance k7_chk32.dec : ∀ (v249 : BitVec 32), Decidable (k7_chk32 v249) := fun v249 => decidable_of_iff' _ (Iff.of_eq (k7_chk32.eq_1 v249))
theorem k7_off64_inb : ∀ (v249 : BitVec 32) (k7_hw32 : k7_chk32 v249), ∀ a, (k7_off64 v249) a + S1x8.size a ≤ S8388608x8.size a := fun v249 k7_hw32 => k7_hw32

def k7_off65 (v1 : BitVec 32) : Fin 2 → Nat :=
  let c0_i32_99 : BitVec 32 := 0#32
  ![v1.toNat, 0]

def k7_chk1 (v1 : BitVec 32) : Prop :=
  (∀ a, (k7_off2 v1) a + S1x8.size a ≤ S8388608x8.size a) ∧
  (∀ a, (k7_off65 v1) a + S1x8.size a ≤ S8388608x8.size a)
instance k7_chk1.dec : ∀ (v1 : BitVec 32), Decidable (k7_chk1 v1) := fun v1 => decidable_of_iff' _ (Iff.of_eq (k7_chk1.eq_1 v1))
theorem k7_off2_inb : ∀ (v1 : BitVec 32) (k7_hw1 : k7_chk1 v1), ∀ a, (k7_off2 v1) a + S1x8.size a ≤ S8388608x8.size a := fun v1 k7_hw1 => k7_hw1.1
theorem k7_off65_inb : ∀ (v1 : BitVec 32) (k7_hw1 : k7_chk1 v1), ∀ a, (k7_off65 v1) a + S1x8.size a ≤ S8388608x8.size a := fun v1 k7_hw1 => k7_hw1.2

def k7_off66 (v9 : BitVec 32) : Fin 2 → Nat :=
  let c0_i32_103 : BitVec 32 := 0#32
  ![v9.toNat, 0]

def k7_chk2 (v9 : BitVec 32) : Prop :=
  (∀ a, (k7_off4 v9) a + S1x8.size a ≤ S8388608x8.size a) ∧
  (∀ a, (k7_off66 v9) a + S1x8.size a ≤ S8388608x8.size a)
instance k7_chk2.dec : ∀ (v9 : BitVec 32), Decidable (k7_chk2 v9) := fun v9 => decidable_of_iff' _ (Iff.of_eq (k7_chk2.eq_1 v9))
theorem k7_off4_inb : ∀ (v9 : BitVec 32) (k7_hw2 : k7_chk2 v9), ∀ a, (k7_off4 v9) a + S1x8.size a ≤ S8388608x8.size a := fun v9 k7_hw2 => k7_hw2.1
theorem k7_off66_inb : ∀ (v9 : BitVec 32) (k7_hw2 : k7_chk2 v9), ∀ a, (k7_off66 v9) a + S1x8.size a ≤ S8388608x8.size a := fun v9 k7_hw2 => k7_hw2.2

def k7_off67 (v17 : BitVec 32) : Fin 2 → Nat :=
  let c0_i32_107 : BitVec 32 := 0#32
  ![v17.toNat, 0]

def k7_chk3 (v17 : BitVec 32) : Prop :=
  (∀ a, (k7_off6 v17) a + S1x8.size a ≤ S8388608x8.size a) ∧
  (∀ a, (k7_off67 v17) a + S1x8.size a ≤ S8388608x8.size a)
instance k7_chk3.dec : ∀ (v17 : BitVec 32), Decidable (k7_chk3 v17) := fun v17 => decidable_of_iff' _ (Iff.of_eq (k7_chk3.eq_1 v17))
theorem k7_off6_inb : ∀ (v17 : BitVec 32) (k7_hw3 : k7_chk3 v17), ∀ a, (k7_off6 v17) a + S1x8.size a ≤ S8388608x8.size a := fun v17 k7_hw3 => k7_hw3.1
theorem k7_off67_inb : ∀ (v17 : BitVec 32) (k7_hw3 : k7_chk3 v17), ∀ a, (k7_off67 v17) a + S1x8.size a ≤ S8388608x8.size a := fun v17 k7_hw3 => k7_hw3.2

def k7_off68 (v25 : BitVec 32) : Fin 2 → Nat :=
  let c0_i32_111 : BitVec 32 := 0#32
  ![v25.toNat, 0]

def k7_chk4 (v25 : BitVec 32) : Prop :=
  (∀ a, (k7_off8 v25) a + S1x8.size a ≤ S8388608x8.size a) ∧
  (∀ a, (k7_off68 v25) a + S1x8.size a ≤ S8388608x8.size a)
instance k7_chk4.dec : ∀ (v25 : BitVec 32), Decidable (k7_chk4 v25) := fun v25 => decidable_of_iff' _ (Iff.of_eq (k7_chk4.eq_1 v25))
theorem k7_off8_inb : ∀ (v25 : BitVec 32) (k7_hw4 : k7_chk4 v25), ∀ a, (k7_off8 v25) a + S1x8.size a ≤ S8388608x8.size a := fun v25 k7_hw4 => k7_hw4.1
theorem k7_off68_inb : ∀ (v25 : BitVec 32) (k7_hw4 : k7_chk4 v25), ∀ a, (k7_off68 v25) a + S1x8.size a ≤ S8388608x8.size a := fun v25 k7_hw4 => k7_hw4.2

def k7_off69 (v33 : BitVec 32) : Fin 2 → Nat :=
  let c0_i32_115 : BitVec 32 := 0#32
  ![v33.toNat, 0]

def k7_chk5 (v33 : BitVec 32) : Prop :=
  (∀ a, (k7_off10 v33) a + S1x8.size a ≤ S8388608x8.size a) ∧
  (∀ a, (k7_off69 v33) a + S1x8.size a ≤ S8388608x8.size a)
instance k7_chk5.dec : ∀ (v33 : BitVec 32), Decidable (k7_chk5 v33) := fun v33 => decidable_of_iff' _ (Iff.of_eq (k7_chk5.eq_1 v33))
theorem k7_off10_inb : ∀ (v33 : BitVec 32) (k7_hw5 : k7_chk5 v33), ∀ a, (k7_off10 v33) a + S1x8.size a ≤ S8388608x8.size a := fun v33 k7_hw5 => k7_hw5.1
theorem k7_off69_inb : ∀ (v33 : BitVec 32) (k7_hw5 : k7_chk5 v33), ∀ a, (k7_off69 v33) a + S1x8.size a ≤ S8388608x8.size a := fun v33 k7_hw5 => k7_hw5.2

def k7_off70 (v41 : BitVec 32) : Fin 2 → Nat :=
  let c0_i32_119 : BitVec 32 := 0#32
  ![v41.toNat, 0]

def k7_chk6 (v41 : BitVec 32) : Prop :=
  (∀ a, (k7_off12 v41) a + S1x8.size a ≤ S8388608x8.size a) ∧
  (∀ a, (k7_off70 v41) a + S1x8.size a ≤ S8388608x8.size a)
instance k7_chk6.dec : ∀ (v41 : BitVec 32), Decidable (k7_chk6 v41) := fun v41 => decidable_of_iff' _ (Iff.of_eq (k7_chk6.eq_1 v41))
theorem k7_off12_inb : ∀ (v41 : BitVec 32) (k7_hw6 : k7_chk6 v41), ∀ a, (k7_off12 v41) a + S1x8.size a ≤ S8388608x8.size a := fun v41 k7_hw6 => k7_hw6.1
theorem k7_off70_inb : ∀ (v41 : BitVec 32) (k7_hw6 : k7_chk6 v41), ∀ a, (k7_off70 v41) a + S1x8.size a ≤ S8388608x8.size a := fun v41 k7_hw6 => k7_hw6.2

def k7_off71 (v49 : BitVec 32) : Fin 2 → Nat :=
  let c0_i32_123 : BitVec 32 := 0#32
  ![v49.toNat, 0]

def k7_chk7 (v49 : BitVec 32) : Prop :=
  (∀ a, (k7_off14 v49) a + S1x8.size a ≤ S8388608x8.size a) ∧
  (∀ a, (k7_off71 v49) a + S1x8.size a ≤ S8388608x8.size a)
instance k7_chk7.dec : ∀ (v49 : BitVec 32), Decidable (k7_chk7 v49) := fun v49 => decidable_of_iff' _ (Iff.of_eq (k7_chk7.eq_1 v49))
theorem k7_off14_inb : ∀ (v49 : BitVec 32) (k7_hw7 : k7_chk7 v49), ∀ a, (k7_off14 v49) a + S1x8.size a ≤ S8388608x8.size a := fun v49 k7_hw7 => k7_hw7.1
theorem k7_off71_inb : ∀ (v49 : BitVec 32) (k7_hw7 : k7_chk7 v49), ∀ a, (k7_off71 v49) a + S1x8.size a ≤ S8388608x8.size a := fun v49 k7_hw7 => k7_hw7.2

def k7_off72 (v57 : BitVec 32) : Fin 2 → Nat :=
  let c0_i32_127 : BitVec 32 := 0#32
  ![v57.toNat, 0]

def k7_chk8 (v57 : BitVec 32) : Prop :=
  (∀ a, (k7_off16 v57) a + S1x8.size a ≤ S8388608x8.size a) ∧
  (∀ a, (k7_off72 v57) a + S1x8.size a ≤ S8388608x8.size a)
instance k7_chk8.dec : ∀ (v57 : BitVec 32), Decidable (k7_chk8 v57) := fun v57 => decidable_of_iff' _ (Iff.of_eq (k7_chk8.eq_1 v57))
theorem k7_off16_inb : ∀ (v57 : BitVec 32) (k7_hw8 : k7_chk8 v57), ∀ a, (k7_off16 v57) a + S1x8.size a ≤ S8388608x8.size a := fun v57 k7_hw8 => k7_hw8.1
theorem k7_off72_inb : ∀ (v57 : BitVec 32) (k7_hw8 : k7_chk8 v57), ∀ a, (k7_off72 v57) a + S1x8.size a ≤ S8388608x8.size a := fun v57 k7_hw8 => k7_hw8.2

def k7_off73 (v65 : BitVec 32) : Fin 2 → Nat :=
  let c0_i32_131 : BitVec 32 := 0#32
  ![v65.toNat, 0]

def k7_chk9 (v65 : BitVec 32) : Prop :=
  (∀ a, (k7_off18 v65) a + S1x8.size a ≤ S8388608x8.size a) ∧
  (∀ a, (k7_off73 v65) a + S1x8.size a ≤ S8388608x8.size a)
instance k7_chk9.dec : ∀ (v65 : BitVec 32), Decidable (k7_chk9 v65) := fun v65 => decidable_of_iff' _ (Iff.of_eq (k7_chk9.eq_1 v65))
theorem k7_off18_inb : ∀ (v65 : BitVec 32) (k7_hw9 : k7_chk9 v65), ∀ a, (k7_off18 v65) a + S1x8.size a ≤ S8388608x8.size a := fun v65 k7_hw9 => k7_hw9.1
theorem k7_off73_inb : ∀ (v65 : BitVec 32) (k7_hw9 : k7_chk9 v65), ∀ a, (k7_off73 v65) a + S1x8.size a ≤ S8388608x8.size a := fun v65 k7_hw9 => k7_hw9.2

def k7_off74 (v73 : BitVec 32) : Fin 2 → Nat :=
  let c0_i32_135 : BitVec 32 := 0#32
  ![v73.toNat, 0]

def k7_chk10 (v73 : BitVec 32) : Prop :=
  (∀ a, (k7_off20 v73) a + S1x8.size a ≤ S8388608x8.size a) ∧
  (∀ a, (k7_off74 v73) a + S1x8.size a ≤ S8388608x8.size a)
instance k7_chk10.dec : ∀ (v73 : BitVec 32), Decidable (k7_chk10 v73) := fun v73 => decidable_of_iff' _ (Iff.of_eq (k7_chk10.eq_1 v73))
theorem k7_off20_inb : ∀ (v73 : BitVec 32) (k7_hw10 : k7_chk10 v73), ∀ a, (k7_off20 v73) a + S1x8.size a ≤ S8388608x8.size a := fun v73 k7_hw10 => k7_hw10.1
theorem k7_off74_inb : ∀ (v73 : BitVec 32) (k7_hw10 : k7_chk10 v73), ∀ a, (k7_off74 v73) a + S1x8.size a ≤ S8388608x8.size a := fun v73 k7_hw10 => k7_hw10.2

def k7_off75 (v81 : BitVec 32) : Fin 2 → Nat :=
  let c0_i32_139 : BitVec 32 := 0#32
  ![v81.toNat, 0]

def k7_chk11 (v81 : BitVec 32) : Prop :=
  (∀ a, (k7_off22 v81) a + S1x8.size a ≤ S8388608x8.size a) ∧
  (∀ a, (k7_off75 v81) a + S1x8.size a ≤ S8388608x8.size a)
instance k7_chk11.dec : ∀ (v81 : BitVec 32), Decidable (k7_chk11 v81) := fun v81 => decidable_of_iff' _ (Iff.of_eq (k7_chk11.eq_1 v81))
theorem k7_off22_inb : ∀ (v81 : BitVec 32) (k7_hw11 : k7_chk11 v81), ∀ a, (k7_off22 v81) a + S1x8.size a ≤ S8388608x8.size a := fun v81 k7_hw11 => k7_hw11.1
theorem k7_off75_inb : ∀ (v81 : BitVec 32) (k7_hw11 : k7_chk11 v81), ∀ a, (k7_off75 v81) a + S1x8.size a ≤ S8388608x8.size a := fun v81 k7_hw11 => k7_hw11.2

def k7_off76 (v89 : BitVec 32) : Fin 2 → Nat :=
  let c0_i32_143 : BitVec 32 := 0#32
  ![v89.toNat, 0]

def k7_chk12 (v89 : BitVec 32) : Prop :=
  (∀ a, (k7_off24 v89) a + S1x8.size a ≤ S8388608x8.size a) ∧
  (∀ a, (k7_off76 v89) a + S1x8.size a ≤ S8388608x8.size a)
instance k7_chk12.dec : ∀ (v89 : BitVec 32), Decidable (k7_chk12 v89) := fun v89 => decidable_of_iff' _ (Iff.of_eq (k7_chk12.eq_1 v89))
theorem k7_off24_inb : ∀ (v89 : BitVec 32) (k7_hw12 : k7_chk12 v89), ∀ a, (k7_off24 v89) a + S1x8.size a ≤ S8388608x8.size a := fun v89 k7_hw12 => k7_hw12.1
theorem k7_off76_inb : ∀ (v89 : BitVec 32) (k7_hw12 : k7_chk12 v89), ∀ a, (k7_off76 v89) a + S1x8.size a ≤ S8388608x8.size a := fun v89 k7_hw12 => k7_hw12.2

def k7_off77 (v97 : BitVec 32) : Fin 2 → Nat :=
  let c0_i32_147 : BitVec 32 := 0#32
  ![v97.toNat, 0]

def k7_chk13 (v97 : BitVec 32) : Prop :=
  (∀ a, (k7_off26 v97) a + S1x8.size a ≤ S8388608x8.size a) ∧
  (∀ a, (k7_off77 v97) a + S1x8.size a ≤ S8388608x8.size a)
instance k7_chk13.dec : ∀ (v97 : BitVec 32), Decidable (k7_chk13 v97) := fun v97 => decidable_of_iff' _ (Iff.of_eq (k7_chk13.eq_1 v97))
theorem k7_off26_inb : ∀ (v97 : BitVec 32) (k7_hw13 : k7_chk13 v97), ∀ a, (k7_off26 v97) a + S1x8.size a ≤ S8388608x8.size a := fun v97 k7_hw13 => k7_hw13.1
theorem k7_off77_inb : ∀ (v97 : BitVec 32) (k7_hw13 : k7_chk13 v97), ∀ a, (k7_off77 v97) a + S1x8.size a ≤ S8388608x8.size a := fun v97 k7_hw13 => k7_hw13.2

def k7_off78 (v105 : BitVec 32) : Fin 2 → Nat :=
  let c0_i32_151 : BitVec 32 := 0#32
  ![v105.toNat, 0]

def k7_chk14 (v105 : BitVec 32) : Prop :=
  (∀ a, (k7_off28 v105) a + S1x8.size a ≤ S8388608x8.size a) ∧
  (∀ a, (k7_off78 v105) a + S1x8.size a ≤ S8388608x8.size a)
instance k7_chk14.dec : ∀ (v105 : BitVec 32), Decidable (k7_chk14 v105) := fun v105 => decidable_of_iff' _ (Iff.of_eq (k7_chk14.eq_1 v105))
theorem k7_off28_inb : ∀ (v105 : BitVec 32) (k7_hw14 : k7_chk14 v105), ∀ a, (k7_off28 v105) a + S1x8.size a ≤ S8388608x8.size a := fun v105 k7_hw14 => k7_hw14.1
theorem k7_off78_inb : ∀ (v105 : BitVec 32) (k7_hw14 : k7_chk14 v105), ∀ a, (k7_off78 v105) a + S1x8.size a ≤ S8388608x8.size a := fun v105 k7_hw14 => k7_hw14.2

def k7_off79 (v113 : BitVec 32) : Fin 2 → Nat :=
  let c0_i32_155 : BitVec 32 := 0#32
  ![v113.toNat, 0]

def k7_chk15 (v113 : BitVec 32) : Prop :=
  (∀ a, (k7_off30 v113) a + S1x8.size a ≤ S8388608x8.size a) ∧
  (∀ a, (k7_off79 v113) a + S1x8.size a ≤ S8388608x8.size a)
instance k7_chk15.dec : ∀ (v113 : BitVec 32), Decidable (k7_chk15 v113) := fun v113 => decidable_of_iff' _ (Iff.of_eq (k7_chk15.eq_1 v113))
theorem k7_off30_inb : ∀ (v113 : BitVec 32) (k7_hw15 : k7_chk15 v113), ∀ a, (k7_off30 v113) a + S1x8.size a ≤ S8388608x8.size a := fun v113 k7_hw15 => k7_hw15.1
theorem k7_off79_inb : ∀ (v113 : BitVec 32) (k7_hw15 : k7_chk15 v113), ∀ a, (k7_off79 v113) a + S1x8.size a ≤ S8388608x8.size a := fun v113 k7_hw15 => k7_hw15.2

def k7_off80 (v121 : BitVec 32) : Fin 2 → Nat :=
  let c0_i32_159 : BitVec 32 := 0#32
  ![v121.toNat, 0]

def k7_chk16 (v121 : BitVec 32) : Prop :=
  (∀ a, (k7_off32 v121) a + S1x8.size a ≤ S8388608x8.size a) ∧
  (∀ a, (k7_off80 v121) a + S1x8.size a ≤ S8388608x8.size a)
instance k7_chk16.dec : ∀ (v121 : BitVec 32), Decidable (k7_chk16 v121) := fun v121 => decidable_of_iff' _ (Iff.of_eq (k7_chk16.eq_1 v121))
theorem k7_off32_inb : ∀ (v121 : BitVec 32) (k7_hw16 : k7_chk16 v121), ∀ a, (k7_off32 v121) a + S1x8.size a ≤ S8388608x8.size a := fun v121 k7_hw16 => k7_hw16.1
theorem k7_off80_inb : ∀ (v121 : BitVec 32) (k7_hw16 : k7_chk16 v121), ∀ a, (k7_off80 v121) a + S1x8.size a ≤ S8388608x8.size a := fun v121 k7_hw16 => k7_hw16.2

def k7_off81 (v129 : BitVec 32) : Fin 2 → Nat :=
  let c0_i32_163 : BitVec 32 := 0#32
  ![v129.toNat, 0]

def k7_chk17 (v129 : BitVec 32) : Prop :=
  (∀ a, (k7_off34 v129) a + S1x8.size a ≤ S8388608x8.size a) ∧
  (∀ a, (k7_off81 v129) a + S1x8.size a ≤ S8388608x8.size a)
instance k7_chk17.dec : ∀ (v129 : BitVec 32), Decidable (k7_chk17 v129) := fun v129 => decidable_of_iff' _ (Iff.of_eq (k7_chk17.eq_1 v129))
theorem k7_off34_inb : ∀ (v129 : BitVec 32) (k7_hw17 : k7_chk17 v129), ∀ a, (k7_off34 v129) a + S1x8.size a ≤ S8388608x8.size a := fun v129 k7_hw17 => k7_hw17.1
theorem k7_off81_inb : ∀ (v129 : BitVec 32) (k7_hw17 : k7_chk17 v129), ∀ a, (k7_off81 v129) a + S1x8.size a ≤ S8388608x8.size a := fun v129 k7_hw17 => k7_hw17.2

def k7_off82 (v137 : BitVec 32) : Fin 2 → Nat :=
  let c0_i32_167 : BitVec 32 := 0#32
  ![v137.toNat, 0]

def k7_chk18 (v137 : BitVec 32) : Prop :=
  (∀ a, (k7_off36 v137) a + S1x8.size a ≤ S8388608x8.size a) ∧
  (∀ a, (k7_off82 v137) a + S1x8.size a ≤ S8388608x8.size a)
instance k7_chk18.dec : ∀ (v137 : BitVec 32), Decidable (k7_chk18 v137) := fun v137 => decidable_of_iff' _ (Iff.of_eq (k7_chk18.eq_1 v137))
theorem k7_off36_inb : ∀ (v137 : BitVec 32) (k7_hw18 : k7_chk18 v137), ∀ a, (k7_off36 v137) a + S1x8.size a ≤ S8388608x8.size a := fun v137 k7_hw18 => k7_hw18.1
theorem k7_off82_inb : ∀ (v137 : BitVec 32) (k7_hw18 : k7_chk18 v137), ∀ a, (k7_off82 v137) a + S1x8.size a ≤ S8388608x8.size a := fun v137 k7_hw18 => k7_hw18.2

def k7_off83 (v145 : BitVec 32) : Fin 2 → Nat :=
  let c0_i32_171 : BitVec 32 := 0#32
  ![v145.toNat, 0]

def k7_chk19 (v145 : BitVec 32) : Prop :=
  (∀ a, (k7_off38 v145) a + S1x8.size a ≤ S8388608x8.size a) ∧
  (∀ a, (k7_off83 v145) a + S1x8.size a ≤ S8388608x8.size a)
instance k7_chk19.dec : ∀ (v145 : BitVec 32), Decidable (k7_chk19 v145) := fun v145 => decidable_of_iff' _ (Iff.of_eq (k7_chk19.eq_1 v145))
theorem k7_off38_inb : ∀ (v145 : BitVec 32) (k7_hw19 : k7_chk19 v145), ∀ a, (k7_off38 v145) a + S1x8.size a ≤ S8388608x8.size a := fun v145 k7_hw19 => k7_hw19.1
theorem k7_off83_inb : ∀ (v145 : BitVec 32) (k7_hw19 : k7_chk19 v145), ∀ a, (k7_off83 v145) a + S1x8.size a ≤ S8388608x8.size a := fun v145 k7_hw19 => k7_hw19.2

def k7_off84 (v153 : BitVec 32) : Fin 2 → Nat :=
  let c0_i32_175 : BitVec 32 := 0#32
  ![v153.toNat, 0]

def k7_chk20 (v153 : BitVec 32) : Prop :=
  (∀ a, (k7_off40 v153) a + S1x8.size a ≤ S8388608x8.size a) ∧
  (∀ a, (k7_off84 v153) a + S1x8.size a ≤ S8388608x8.size a)
instance k7_chk20.dec : ∀ (v153 : BitVec 32), Decidable (k7_chk20 v153) := fun v153 => decidable_of_iff' _ (Iff.of_eq (k7_chk20.eq_1 v153))
theorem k7_off40_inb : ∀ (v153 : BitVec 32) (k7_hw20 : k7_chk20 v153), ∀ a, (k7_off40 v153) a + S1x8.size a ≤ S8388608x8.size a := fun v153 k7_hw20 => k7_hw20.1
theorem k7_off84_inb : ∀ (v153 : BitVec 32) (k7_hw20 : k7_chk20 v153), ∀ a, (k7_off84 v153) a + S1x8.size a ≤ S8388608x8.size a := fun v153 k7_hw20 => k7_hw20.2

def k7_off85 (v161 : BitVec 32) : Fin 2 → Nat :=
  let c0_i32_179 : BitVec 32 := 0#32
  ![v161.toNat, 0]

def k7_chk21 (v161 : BitVec 32) : Prop :=
  (∀ a, (k7_off42 v161) a + S1x8.size a ≤ S8388608x8.size a) ∧
  (∀ a, (k7_off85 v161) a + S1x8.size a ≤ S8388608x8.size a)
instance k7_chk21.dec : ∀ (v161 : BitVec 32), Decidable (k7_chk21 v161) := fun v161 => decidable_of_iff' _ (Iff.of_eq (k7_chk21.eq_1 v161))
theorem k7_off42_inb : ∀ (v161 : BitVec 32) (k7_hw21 : k7_chk21 v161), ∀ a, (k7_off42 v161) a + S1x8.size a ≤ S8388608x8.size a := fun v161 k7_hw21 => k7_hw21.1
theorem k7_off85_inb : ∀ (v161 : BitVec 32) (k7_hw21 : k7_chk21 v161), ∀ a, (k7_off85 v161) a + S1x8.size a ≤ S8388608x8.size a := fun v161 k7_hw21 => k7_hw21.2

def k7_off86 (v169 : BitVec 32) : Fin 2 → Nat :=
  let c0_i32_183 : BitVec 32 := 0#32
  ![v169.toNat, 0]

def k7_chk22 (v169 : BitVec 32) : Prop :=
  (∀ a, (k7_off44 v169) a + S1x8.size a ≤ S8388608x8.size a) ∧
  (∀ a, (k7_off86 v169) a + S1x8.size a ≤ S8388608x8.size a)
instance k7_chk22.dec : ∀ (v169 : BitVec 32), Decidable (k7_chk22 v169) := fun v169 => decidable_of_iff' _ (Iff.of_eq (k7_chk22.eq_1 v169))
theorem k7_off44_inb : ∀ (v169 : BitVec 32) (k7_hw22 : k7_chk22 v169), ∀ a, (k7_off44 v169) a + S1x8.size a ≤ S8388608x8.size a := fun v169 k7_hw22 => k7_hw22.1
theorem k7_off86_inb : ∀ (v169 : BitVec 32) (k7_hw22 : k7_chk22 v169), ∀ a, (k7_off86 v169) a + S1x8.size a ≤ S8388608x8.size a := fun v169 k7_hw22 => k7_hw22.2

def k7_off87 (v177 : BitVec 32) : Fin 2 → Nat :=
  let c0_i32_187 : BitVec 32 := 0#32
  ![v177.toNat, 0]

def k7_chk23 (v177 : BitVec 32) : Prop :=
  (∀ a, (k7_off46 v177) a + S1x8.size a ≤ S8388608x8.size a) ∧
  (∀ a, (k7_off87 v177) a + S1x8.size a ≤ S8388608x8.size a)
instance k7_chk23.dec : ∀ (v177 : BitVec 32), Decidable (k7_chk23 v177) := fun v177 => decidable_of_iff' _ (Iff.of_eq (k7_chk23.eq_1 v177))
theorem k7_off46_inb : ∀ (v177 : BitVec 32) (k7_hw23 : k7_chk23 v177), ∀ a, (k7_off46 v177) a + S1x8.size a ≤ S8388608x8.size a := fun v177 k7_hw23 => k7_hw23.1
theorem k7_off87_inb : ∀ (v177 : BitVec 32) (k7_hw23 : k7_chk23 v177), ∀ a, (k7_off87 v177) a + S1x8.size a ≤ S8388608x8.size a := fun v177 k7_hw23 => k7_hw23.2

def k7_off88 (v185 : BitVec 32) : Fin 2 → Nat :=
  let c0_i32_191 : BitVec 32 := 0#32
  ![v185.toNat, 0]

def k7_chk24 (v185 : BitVec 32) : Prop :=
  (∀ a, (k7_off48 v185) a + S1x8.size a ≤ S8388608x8.size a) ∧
  (∀ a, (k7_off88 v185) a + S1x8.size a ≤ S8388608x8.size a)
instance k7_chk24.dec : ∀ (v185 : BitVec 32), Decidable (k7_chk24 v185) := fun v185 => decidable_of_iff' _ (Iff.of_eq (k7_chk24.eq_1 v185))
theorem k7_off48_inb : ∀ (v185 : BitVec 32) (k7_hw24 : k7_chk24 v185), ∀ a, (k7_off48 v185) a + S1x8.size a ≤ S8388608x8.size a := fun v185 k7_hw24 => k7_hw24.1
theorem k7_off88_inb : ∀ (v185 : BitVec 32) (k7_hw24 : k7_chk24 v185), ∀ a, (k7_off88 v185) a + S1x8.size a ≤ S8388608x8.size a := fun v185 k7_hw24 => k7_hw24.2

def k7_off89 (v193 : BitVec 32) : Fin 2 → Nat :=
  let c0_i32_195 : BitVec 32 := 0#32
  ![v193.toNat, 0]

def k7_chk25 (v193 : BitVec 32) : Prop :=
  (∀ a, (k7_off50 v193) a + S1x8.size a ≤ S8388608x8.size a) ∧
  (∀ a, (k7_off89 v193) a + S1x8.size a ≤ S8388608x8.size a)
instance k7_chk25.dec : ∀ (v193 : BitVec 32), Decidable (k7_chk25 v193) := fun v193 => decidable_of_iff' _ (Iff.of_eq (k7_chk25.eq_1 v193))
theorem k7_off50_inb : ∀ (v193 : BitVec 32) (k7_hw25 : k7_chk25 v193), ∀ a, (k7_off50 v193) a + S1x8.size a ≤ S8388608x8.size a := fun v193 k7_hw25 => k7_hw25.1
theorem k7_off89_inb : ∀ (v193 : BitVec 32) (k7_hw25 : k7_chk25 v193), ∀ a, (k7_off89 v193) a + S1x8.size a ≤ S8388608x8.size a := fun v193 k7_hw25 => k7_hw25.2

def k7_off90 (v201 : BitVec 32) : Fin 2 → Nat :=
  let c0_i32_199 : BitVec 32 := 0#32
  ![v201.toNat, 0]

def k7_chk26 (v201 : BitVec 32) : Prop :=
  (∀ a, (k7_off52 v201) a + S1x8.size a ≤ S8388608x8.size a) ∧
  (∀ a, (k7_off90 v201) a + S1x8.size a ≤ S8388608x8.size a)
instance k7_chk26.dec : ∀ (v201 : BitVec 32), Decidable (k7_chk26 v201) := fun v201 => decidable_of_iff' _ (Iff.of_eq (k7_chk26.eq_1 v201))
theorem k7_off52_inb : ∀ (v201 : BitVec 32) (k7_hw26 : k7_chk26 v201), ∀ a, (k7_off52 v201) a + S1x8.size a ≤ S8388608x8.size a := fun v201 k7_hw26 => k7_hw26.1
theorem k7_off90_inb : ∀ (v201 : BitVec 32) (k7_hw26 : k7_chk26 v201), ∀ a, (k7_off90 v201) a + S1x8.size a ≤ S8388608x8.size a := fun v201 k7_hw26 => k7_hw26.2

def k7_off91 (v209 : BitVec 32) : Fin 2 → Nat :=
  let c0_i32_203 : BitVec 32 := 0#32
  ![v209.toNat, 0]

def k7_chk27 (v209 : BitVec 32) : Prop :=
  (∀ a, (k7_off54 v209) a + S1x8.size a ≤ S8388608x8.size a) ∧
  (∀ a, (k7_off91 v209) a + S1x8.size a ≤ S8388608x8.size a)
instance k7_chk27.dec : ∀ (v209 : BitVec 32), Decidable (k7_chk27 v209) := fun v209 => decidable_of_iff' _ (Iff.of_eq (k7_chk27.eq_1 v209))
theorem k7_off54_inb : ∀ (v209 : BitVec 32) (k7_hw27 : k7_chk27 v209), ∀ a, (k7_off54 v209) a + S1x8.size a ≤ S8388608x8.size a := fun v209 k7_hw27 => k7_hw27.1
theorem k7_off91_inb : ∀ (v209 : BitVec 32) (k7_hw27 : k7_chk27 v209), ∀ a, (k7_off91 v209) a + S1x8.size a ≤ S8388608x8.size a := fun v209 k7_hw27 => k7_hw27.2

def k7_off92 (v217 : BitVec 32) : Fin 2 → Nat :=
  let c0_i32_207 : BitVec 32 := 0#32
  ![v217.toNat, 0]

def k7_chk28 (v217 : BitVec 32) : Prop :=
  (∀ a, (k7_off56 v217) a + S1x8.size a ≤ S8388608x8.size a) ∧
  (∀ a, (k7_off92 v217) a + S1x8.size a ≤ S8388608x8.size a)
instance k7_chk28.dec : ∀ (v217 : BitVec 32), Decidable (k7_chk28 v217) := fun v217 => decidable_of_iff' _ (Iff.of_eq (k7_chk28.eq_1 v217))
theorem k7_off56_inb : ∀ (v217 : BitVec 32) (k7_hw28 : k7_chk28 v217), ∀ a, (k7_off56 v217) a + S1x8.size a ≤ S8388608x8.size a := fun v217 k7_hw28 => k7_hw28.1
theorem k7_off92_inb : ∀ (v217 : BitVec 32) (k7_hw28 : k7_chk28 v217), ∀ a, (k7_off92 v217) a + S1x8.size a ≤ S8388608x8.size a := fun v217 k7_hw28 => k7_hw28.2

def k7_off93 (v225 : BitVec 32) : Fin 2 → Nat :=
  let c0_i32_211 : BitVec 32 := 0#32
  ![v225.toNat, 0]

def k7_chk29 (v225 : BitVec 32) : Prop :=
  (∀ a, (k7_off58 v225) a + S1x8.size a ≤ S8388608x8.size a) ∧
  (∀ a, (k7_off93 v225) a + S1x8.size a ≤ S8388608x8.size a)
instance k7_chk29.dec : ∀ (v225 : BitVec 32), Decidable (k7_chk29 v225) := fun v225 => decidable_of_iff' _ (Iff.of_eq (k7_chk29.eq_1 v225))
theorem k7_off58_inb : ∀ (v225 : BitVec 32) (k7_hw29 : k7_chk29 v225), ∀ a, (k7_off58 v225) a + S1x8.size a ≤ S8388608x8.size a := fun v225 k7_hw29 => k7_hw29.1
theorem k7_off93_inb : ∀ (v225 : BitVec 32) (k7_hw29 : k7_chk29 v225), ∀ a, (k7_off93 v225) a + S1x8.size a ≤ S8388608x8.size a := fun v225 k7_hw29 => k7_hw29.2

def k7_off94 (v233 : BitVec 32) : Fin 2 → Nat :=
  let c0_i32_215 : BitVec 32 := 0#32
  ![v233.toNat, 0]

def k7_chk30 (v233 : BitVec 32) : Prop :=
  (∀ a, (k7_off60 v233) a + S1x8.size a ≤ S8388608x8.size a) ∧
  (∀ a, (k7_off94 v233) a + S1x8.size a ≤ S8388608x8.size a)
instance k7_chk30.dec : ∀ (v233 : BitVec 32), Decidable (k7_chk30 v233) := fun v233 => decidable_of_iff' _ (Iff.of_eq (k7_chk30.eq_1 v233))
theorem k7_off60_inb : ∀ (v233 : BitVec 32) (k7_hw30 : k7_chk30 v233), ∀ a, (k7_off60 v233) a + S1x8.size a ≤ S8388608x8.size a := fun v233 k7_hw30 => k7_hw30.1
theorem k7_off94_inb : ∀ (v233 : BitVec 32) (k7_hw30 : k7_chk30 v233), ∀ a, (k7_off94 v233) a + S1x8.size a ≤ S8388608x8.size a := fun v233 k7_hw30 => k7_hw30.2

def k7_off95 (v241 : BitVec 32) : Fin 2 → Nat :=
  let c0_i32_219 : BitVec 32 := 0#32
  ![v241.toNat, 0]

def k7_chk31 (v241 : BitVec 32) : Prop :=
  (∀ a, (k7_off62 v241) a + S1x8.size a ≤ S8388608x8.size a) ∧
  (∀ a, (k7_off95 v241) a + S1x8.size a ≤ S8388608x8.size a)
instance k7_chk31.dec : ∀ (v241 : BitVec 32), Decidable (k7_chk31 v241) := fun v241 => decidable_of_iff' _ (Iff.of_eq (k7_chk31.eq_1 v241))
theorem k7_off62_inb : ∀ (v241 : BitVec 32) (k7_hw31 : k7_chk31 v241), ∀ a, (k7_off62 v241) a + S1x8.size a ≤ S8388608x8.size a := fun v241 k7_hw31 => k7_hw31.1
theorem k7_off95_inb : ∀ (v241 : BitVec 32) (k7_hw31 : k7_chk31 v241), ∀ a, (k7_off95 v241) a + S1x8.size a ≤ S8388608x8.size a := fun v241 k7_hw31 => k7_hw31.2

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x32x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev grid8 : Pipeline.Grid := ⟨1, ![1023], ![false]⟩

abbrev pre8 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 2 → Nat :=
  let c0 : Index := 0#32
  let arg0 : BitVec 32 := BitVec.ofNat 32 (i 0).val
  let v0 : Index := Scalar.indexCast arg0
  ![0, v0.toNat]
def k8_off2 (v1 : BitVec 32) : Fin 2 → Nat :=
  let c0_i32_2 : BitVec 32 := 0#32
  ![v1.toNat, 0]

def k8_off3 (i : grid8.Coords) : Fin 2 → Nat :=
  let c1 : Index := 1#32
  let arg0 : BitVec 32 := BitVec.ofNat 32 (i 0).val
  let v8 : Index := Scalar.indexCast arg0
  ![1, v8.toNat]
def k8_off4 (v9 : BitVec 32) : Fin 2 → Nat :=
  let c0_i32_5 : BitVec 32 := 0#32
  ![v9.toNat, 0]

def k8_off5 (i : grid8.Coords) : Fin 2 → Nat :=
  let c2 : Index := 2#32
  let arg0 : BitVec 32 := BitVec.ofNat 32 (i 0).val
  let v16 : Index := Scalar.indexCast arg0
  ![2, v16.toNat]
def k8_off6 (v17 : BitVec 32) : Fin 2 → Nat :=
  let c0_i32_8 : BitVec 32 := 0#32
  ![v17.toNat, 0]

def k8_off7 (i : grid8.Coords) : Fin 2 → Nat :=
  let c3 : Index := 3#32
  let arg0 : BitVec 32 := BitVec.ofNat 32 (i 0).val
  let v24 : Index := Scalar.indexCast arg0
  ![3, v24.toNat]
def k8_off8 (v25 : BitVec 32) : Fin 2 → Nat :=
  let c0_i32_11 : BitVec 32 := 0#32
  ![v25.toNat, 0]

def k8_off9 (i : grid8.Coords) : Fin 2 → Nat :=
  let c4 : Index := 4#32
  let arg0 : BitVec 32 := BitVec.ofNat 32 (i 0).val
  let v32 : Index := Scalar.indexCast arg0
  ![4, v32.toNat]
def k8_off10 (v33 : BitVec 32) : Fin 2 → Nat :=
  let c0_i32_14 : BitVec 32 := 0#32
  ![v33.toNat, 0]

def k8_off11 (i : grid8.Coords) : Fin 2 → Nat :=
  let c5 : Index := 5#32
  let arg0 : BitVec 32 := BitVec.ofNat 32 (i 0).val
  let v40 : Index := Scalar.indexCast arg0
  ![5, v40.toNat]
def k8_off12 (v41 : BitVec 32) : Fin 2 → Nat :=
  let c0_i32_17 : BitVec 32 := 0#32
  ![v41.toNat, 0]

def k8_off13 (i : grid8.Coords) : Fin 2 → Nat :=
  let c6 : Index := 6#32
  let arg0 : BitVec 32 := BitVec.ofNat 32 (i 0).val
  let v48 : Index := Scalar.indexCast arg0
  ![6, v48.toNat]
def k8_off14 (v49 : BitVec 32) : Fin 2 → Nat :=
  let c0_i32_20 : BitVec 32 := 0#32
  ![v49.toNat, 0]

def k8_off15 (i : grid8.Coords) : Fin 2 → Nat :=
  let c7 : Index := 7#32
  let arg0 : BitVec 32 := BitVec.ofNat 32 (i 0).val
  let v56 : Index := Scalar.indexCast arg0
  ![7, v56.toNat]
def k8_off16 (v57 : BitVec 32) : Fin 2 → Nat :=
  let c0_i32_23 : BitVec 32 := 0#32
  ![v57.toNat, 0]

def k8_off17 (i : grid8.Coords) : Fin 2 → Nat :=
  let c8 : Index := 8#32
  let arg0 : BitVec 32 := BitVec.ofNat 32 (i 0).val
  let v64 : Index := Scalar.indexCast arg0
  ![8, v64.toNat]
def k8_off18 (v65 : BitVec 32) : Fin 2 → Nat :=
  let c0_i32_26 : BitVec 32 := 0#32
  ![v65.toNat, 0]

def k8_off19 (i : grid8.Coords) : Fin 2 → Nat :=
  let c9 : Index := 9#32
  let arg0 : BitVec 32 := BitVec.ofNat 32 (i 0).val
  let v72 : Index := Scalar.indexCast arg0
  ![9, v72.toNat]
def k8_off20 (v73 : BitVec 32) : Fin 2 → Nat :=
  let c0_i32_29 : BitVec 32 := 0#32
  ![v73.toNat, 0]

def k8_off21 (i : grid8.Coords) : Fin 2 → Nat :=
  let c10 : Index := 10#32
  let arg0 : BitVec 32 := BitVec.ofNat 32 (i 0).val
  let v80 : Index := Scalar.indexCast arg0
  ![10, v80.toNat]
def k8_off22 (v81 : BitVec 32) : Fin 2 → Nat :=
  let c0_i32_32 : BitVec 32 := 0#32
  ![v81.toNat, 0]

def k8_off23 (i : grid8.Coords) : Fin 2 → Nat :=
  let c11 : Index := 11#32
  let arg0 : BitVec 32 := BitVec.ofNat 32 (i 0).val
  let v88 : Index := Scalar.indexCast arg0
  ![11, v88.toNat]
def k8_off24 (v89 : BitVec 32) : Fin 2 → Nat :=
  let c0_i32_35 : BitVec 32 := 0#32
  ![v89.toNat, 0]

def k8_off25 (i : grid8.Coords) : Fin 2 → Nat :=
  let c12 : Index := 12#32
  let arg0 : BitVec 32 := BitVec.ofNat 32 (i 0).val
  let v96 : Index := Scalar.indexCast arg0
  ![12, v96.toNat]
def k8_off26 (v97 : BitVec 32) : Fin 2 → Nat :=
  let c0_i32_38 : BitVec 32 := 0#32
  ![v97.toNat, 0]

def k8_off27 (i : grid8.Coords) : Fin 2 → Nat :=
  let c13 : Index := 13#32
  let arg0 : BitVec 32 := BitVec.ofNat 32 (i 0).val
  let v104 : Index := Scalar.indexCast arg0
  ![13, v104.toNat]
def k8_off28 (v105 : BitVec 32) : Fin 2 → Nat :=
  let c0_i32_41 : BitVec 32 := 0#32
  ![v105.toNat, 0]

def k8_off29 (i : grid8.Coords) : Fin 2 → Nat :=
  let c14 : Index := 14#32
  let arg0 : BitVec 32 := BitVec.ofNat 32 (i 0).val
  let v112 : Index := Scalar.indexCast arg0
  ![14, v112.toNat]
def k8_off30 (v113 : BitVec 32) : Fin 2 → Nat :=
  let c0_i32_44 : BitVec 32 := 0#32
  ![v113.toNat, 0]

def k8_off31 (i : grid8.Coords) : Fin 2 → Nat :=
  let c15 : Index := 15#32
  let arg0 : BitVec 32 := BitVec.ofNat 32 (i 0).val
  let v120 : Index := Scalar.indexCast arg0
  ![15, v120.toNat]
def k8_off32 (v121 : BitVec 32) : Fin 2 → Nat :=
  let c0_i32_47 : BitVec 32 := 0#32
  ![v121.toNat, 0]

def k8_off33 (i : grid8.Coords) : Fin 2 → Nat :=
  let c16 : Index := 16#32
  let arg0 : BitVec 32 := BitVec.ofNat 32 (i 0).val
  let v128 : Index := Scalar.indexCast arg0
  ![16, v128.toNat]
def k8_off34 (v129 : BitVec 32) : Fin 2 → Nat :=
  let c0_i32_50 : BitVec 32 := 0#32
  ![v129.toNat, 0]

def k8_off35 (i : grid8.Coords) : Fin 2 → Nat :=
  let c17 : Index := 17#32
  let arg0 : BitVec 32 := BitVec.ofNat 32 (i 0).val
  let v136 : Index := Scalar.indexCast arg0
  ![17, v136.toNat]
def k8_off36 (v137 : BitVec 32) : Fin 2 → Nat :=
  let c0_i32_53 : BitVec 32 := 0#32
  ![v137.toNat, 0]

def k8_off37 (i : grid8.Coords) : Fin 2 → Nat :=
  let c18 : Index := 18#32
  let arg0 : BitVec 32 := BitVec.ofNat 32 (i 0).val
  let v144 : Index := Scalar.indexCast arg0
  ![18, v144.toNat]
def k8_off38 (v145 : BitVec 32) : Fin 2 → Nat :=
  let c0_i32_56 : BitVec 32 := 0#32
  ![v145.toNat, 0]

def k8_off39 (i : grid8.Coords) : Fin 2 → Nat :=
  let c19 : Index := 19#32
  let arg0 : BitVec 32 := BitVec.ofNat 32 (i 0).val
  let v152 : Index := Scalar.indexCast arg0
  ![19, v152.toNat]
def k8_off40 (v153 : BitVec 32) : Fin 2 → Nat :=
  let c0_i32_59 : BitVec 32 := 0#32
  ![v153.toNat, 0]

def k8_off41 (i : grid8.Coords) : Fin 2 → Nat :=
  let c20 : Index := 20#32
  let arg0 : BitVec 32 := BitVec.ofNat 32 (i 0).val
  let v160 : Index := Scalar.indexCast arg0
  ![20, v160.toNat]
def k8_off42 (v161 : BitVec 32) : Fin 2 → Nat :=
  let c0_i32_62 : BitVec 32 := 0#32
  ![v161.toNat, 0]

def k8_off43 (i : grid8.Coords) : Fin 2 → Nat :=
  let c21 : Index := 21#32
  let arg0 : BitVec 32 := BitVec.ofNat 32 (i 0).val
  let v168 : Index := Scalar.indexCast arg0
  ![21, v168.toNat]
def k8_off44 (v169 : BitVec 32) : Fin 2 → Nat :=
  let c0_i32_65 : BitVec 32 := 0#32
  ![v169.toNat, 0]

def k8_off45 (i : grid8.Coords) : Fin 2 → Nat :=
  let c22 : Index := 22#32
  let arg0 : BitVec 32 := BitVec.ofNat 32 (i 0).val
  let v176 : Index := Scalar.indexCast arg0
  ![22, v176.toNat]
def k8_off46 (v177 : BitVec 32) : Fin 2 → Nat :=
  let c0_i32_68 : BitVec 32 := 0#32
  ![v177.toNat, 0]

def k8_off47 (i : grid8.Coords) : Fin 2 → Nat :=
  let c23 : Index := 23#32
  let arg0 : BitVec 32 := BitVec.ofNat 32 (i 0).val
  let v184 : Index := Scalar.indexCast arg0
  ![23, v184.toNat]
def k8_off48 (v185 : BitVec 32) : Fin 2 → Nat :=
  let c0_i32_71 : BitVec 32 := 0#32
  ![v185.toNat, 0]

def k8_off49 (i : grid8.Coords) : Fin 2 → Nat :=
  let c24 : Index := 24#32
  let arg0 : BitVec 32 := BitVec.ofNat 32 (i 0).val
  let v192 : Index := Scalar.indexCast arg0
  ![24, v192.toNat]
def k8_off50 (v193 : BitVec 32) : Fin 2 → Nat :=
  let c0_i32_74 : BitVec 32 := 0#32
  ![v193.toNat, 0]

def k8_off51 (i : grid8.Coords) : Fin 2 → Nat :=
  let c25 : Index := 25#32
  let arg0 : BitVec 32 := BitVec.ofNat 32 (i 0).val
  let v200 : Index := Scalar.indexCast arg0
  ![25, v200.toNat]
def k8_off52 (v201 : BitVec 32) : Fin 2 → Nat :=
  let c0_i32_77 : BitVec 32 := 0#32
  ![v201.toNat, 0]

def k8_off53 (i : grid8.Coords) : Fin 2 → Nat :=
  let c26 : Index := 26#32
  let arg0 : BitVec 32 := BitVec.ofNat 32 (i 0).val
  let v208 : Index := Scalar.indexCast arg0
  ![26, v208.toNat]
def k8_off54 (v209 : BitVec 32) : Fin 2 → Nat :=
  let c0_i32_80 : BitVec 32 := 0#32
  ![v209.toNat, 0]

def k8_off55 (i : grid8.Coords) : Fin 2 → Nat :=
  let c27 : Index := 27#32
  let arg0 : BitVec 32 := BitVec.ofNat 32 (i 0).val
  let v216 : Index := Scalar.indexCast arg0
  ![27, v216.toNat]
def k8_off56 (v217 : BitVec 32) : Fin 2 → Nat :=
  let c0_i32_83 : BitVec 32 := 0#32
  ![v217.toNat, 0]

def k8_off57 (i : grid8.Coords) : Fin 2 → Nat :=
  let c28 : Index := 28#32
  let arg0 : BitVec 32 := BitVec.ofNat 32 (i 0).val
  let v224 : Index := Scalar.indexCast arg0
  ![28, v224.toNat]
def k8_off58 (v225 : BitVec 32) : Fin 2 → Nat :=
  let c0_i32_86 : BitVec 32 := 0#32
  ![v225.toNat, 0]

def k8_off59 (i : grid8.Coords) : Fin 2 → Nat :=
  let c29 : Index := 29#32
  let arg0 : BitVec 32 := BitVec.ofNat 32 (i 0).val
  let v232 : Index := Scalar.indexCast arg0
  ![29, v232.toNat]
def k8_off60 (v233 : BitVec 32) : Fin 2 → Nat :=
  let c0_i32_89 : BitVec 32 := 0#32
  ![v233.toNat, 0]

def k8_off61 (i : grid8.Coords) : Fin 2 → Nat :=
  let c30 : Index := 30#32
  let arg0 : BitVec 32 := BitVec.ofNat 32 (i 0).val
  let v240 : Index := Scalar.indexCast arg0
  ![30, v240.toNat]
def k8_off62 (v241 : BitVec 32) : Fin 2 → Nat :=
  let c0_i32_92 : BitVec 32 := 0#32
  ![v241.toNat, 0]

def k8_off63 (i : grid8.Coords) : Fin 2 → Nat :=
  let c31 : Index := 31#32
  let arg0 : BitVec 32 := BitVec.ofNat 32 (i 0).val
  let v248 : Index := Scalar.indexCast arg0
  ![31, v248.toNat]
def k8_off64 (v249 : BitVec 32) : Fin 2 → Nat :=
  let c0_i32_95 : BitVec 32 := 0#32
  ![v249.toNat, 0]

def k8_chk32 (v249 : BitVec 32) : Prop :=
  (∀ a, (k8_off64 v249) a + S1x8.size a ≤ S8388608x8.size a)
instance k8_chk32.dec : ∀ (v249 : BitVec 32), Decidable (k8_chk32 v249) := fun v249 => decidable_of_iff' _ (Iff.of_eq (k8_chk32.eq_1 v249))
theorem k8_off64_inb : ∀ (v249 : BitVec 32) (k8_hw32 : k8_chk32 v249), ∀ a, (k8_off64 v249) a + S1x8.size a ≤ S8388608x8.size a := fun v249 k8_hw32 => k8_hw32

def k8_off65 (v1 : BitVec 32) : Fin 2 → Nat :=
  let c0_i32_99 : BitVec 32 := 0#32
  ![v1.toNat, 0]

def k8_chk1 (v1 : BitVec 32) : Prop :=
  (∀ a, (k8_off2 v1) a + S1x8.size a ≤ S8388608x8.size a) ∧
  (∀ a, (k8_off65 v1) a + S1x8.size a ≤ S8388608x8.size a)
instance k8_chk1.dec : ∀ (v1 : BitVec 32), Decidable (k8_chk1 v1) := fun v1 => decidable_of_iff' _ (Iff.of_eq (k8_chk1.eq_1 v1))
theorem k8_off2_inb : ∀ (v1 : BitVec 32) (k8_hw1 : k8_chk1 v1), ∀ a, (k8_off2 v1) a + S1x8.size a ≤ S8388608x8.size a := fun v1 k8_hw1 => k8_hw1.1
theorem k8_off65_inb : ∀ (v1 : BitVec 32) (k8_hw1 : k8_chk1 v1), ∀ a, (k8_off65 v1) a + S1x8.size a ≤ S8388608x8.size a := fun v1 k8_hw1 => k8_hw1.2

def k8_off66 (v9 : BitVec 32) : Fin 2 → Nat :=
  let c0_i32_103 : BitVec 32 := 0#32
  ![v9.toNat, 0]

def k8_chk2 (v9 : BitVec 32) : Prop :=
  (∀ a, (k8_off4 v9) a + S1x8.size a ≤ S8388608x8.size a) ∧
  (∀ a, (k8_off66 v9) a + S1x8.size a ≤ S8388608x8.size a)
instance k8_chk2.dec : ∀ (v9 : BitVec 32), Decidable (k8_chk2 v9) := fun v9 => decidable_of_iff' _ (Iff.of_eq (k8_chk2.eq_1 v9))
theorem k8_off4_inb : ∀ (v9 : BitVec 32) (k8_hw2 : k8_chk2 v9), ∀ a, (k8_off4 v9) a + S1x8.size a ≤ S8388608x8.size a := fun v9 k8_hw2 => k8_hw2.1
theorem k8_off66_inb : ∀ (v9 : BitVec 32) (k8_hw2 : k8_chk2 v9), ∀ a, (k8_off66 v9) a + S1x8.size a ≤ S8388608x8.size a := fun v9 k8_hw2 => k8_hw2.2

def k8_off67 (v17 : BitVec 32) : Fin 2 → Nat :=
  let c0_i32_107 : BitVec 32 := 0#32
  ![v17.toNat, 0]

def k8_chk3 (v17 : BitVec 32) : Prop :=
  (∀ a, (k8_off6 v17) a + S1x8.size a ≤ S8388608x8.size a) ∧
  (∀ a, (k8_off67 v17) a + S1x8.size a ≤ S8388608x8.size a)
instance k8_chk3.dec : ∀ (v17 : BitVec 32), Decidable (k8_chk3 v17) := fun v17 => decidable_of_iff' _ (Iff.of_eq (k8_chk3.eq_1 v17))
theorem k8_off6_inb : ∀ (v17 : BitVec 32) (k8_hw3 : k8_chk3 v17), ∀ a, (k8_off6 v17) a + S1x8.size a ≤ S8388608x8.size a := fun v17 k8_hw3 => k8_hw3.1
theorem k8_off67_inb : ∀ (v17 : BitVec 32) (k8_hw3 : k8_chk3 v17), ∀ a, (k8_off67 v17) a + S1x8.size a ≤ S8388608x8.size a := fun v17 k8_hw3 => k8_hw3.2

def k8_off68 (v25 : BitVec 32) : Fin 2 → Nat :=
  let c0_i32_111 : BitVec 32 := 0#32
  ![v25.toNat, 0]

def k8_chk4 (v25 : BitVec 32) : Prop :=
  (∀ a, (k8_off8 v25) a + S1x8.size a ≤ S8388608x8.size a) ∧
  (∀ a, (k8_off68 v25) a + S1x8.size a ≤ S8388608x8.size a)
instance k8_chk4.dec : ∀ (v25 : BitVec 32), Decidable (k8_chk4 v25) := fun v25 => decidable_of_iff' _ (Iff.of_eq (k8_chk4.eq_1 v25))
theorem k8_off8_inb : ∀ (v25 : BitVec 32) (k8_hw4 : k8_chk4 v25), ∀ a, (k8_off8 v25) a + S1x8.size a ≤ S8388608x8.size a := fun v25 k8_hw4 => k8_hw4.1
theorem k8_off68_inb : ∀ (v25 : BitVec 32) (k8_hw4 : k8_chk4 v25), ∀ a, (k8_off68 v25) a + S1x8.size a ≤ S8388608x8.size a := fun v25 k8_hw4 => k8_hw4.2

def k8_off69 (v33 : BitVec 32) : Fin 2 → Nat :=
  let c0_i32_115 : BitVec 32 := 0#32
  ![v33.toNat, 0]

def k8_chk5 (v33 : BitVec 32) : Prop :=
  (∀ a, (k8_off10 v33) a + S1x8.size a ≤ S8388608x8.size a) ∧
  (∀ a, (k8_off69 v33) a + S1x8.size a ≤ S8388608x8.size a)
instance k8_chk5.dec : ∀ (v33 : BitVec 32), Decidable (k8_chk5 v33) := fun v33 => decidable_of_iff' _ (Iff.of_eq (k8_chk5.eq_1 v33))
theorem k8_off10_inb : ∀ (v33 : BitVec 32) (k8_hw5 : k8_chk5 v33), ∀ a, (k8_off10 v33) a + S1x8.size a ≤ S8388608x8.size a := fun v33 k8_hw5 => k8_hw5.1
theorem k8_off69_inb : ∀ (v33 : BitVec 32) (k8_hw5 : k8_chk5 v33), ∀ a, (k8_off69 v33) a + S1x8.size a ≤ S8388608x8.size a := fun v33 k8_hw5 => k8_hw5.2

def k8_off70 (v41 : BitVec 32) : Fin 2 → Nat :=
  let c0_i32_119 : BitVec 32 := 0#32
  ![v41.toNat, 0]

def k8_chk6 (v41 : BitVec 32) : Prop :=
  (∀ a, (k8_off12 v41) a + S1x8.size a ≤ S8388608x8.size a) ∧
  (∀ a, (k8_off70 v41) a + S1x8.size a ≤ S8388608x8.size a)
instance k8_chk6.dec : ∀ (v41 : BitVec 32), Decidable (k8_chk6 v41) := fun v41 => decidable_of_iff' _ (Iff.of_eq (k8_chk6.eq_1 v41))
theorem k8_off12_inb : ∀ (v41 : BitVec 32) (k8_hw6 : k8_chk6 v41), ∀ a, (k8_off12 v41) a + S1x8.size a ≤ S8388608x8.size a := fun v41 k8_hw6 => k8_hw6.1
theorem k8_off70_inb : ∀ (v41 : BitVec 32) (k8_hw6 : k8_chk6 v41), ∀ a, (k8_off70 v41) a + S1x8.size a ≤ S8388608x8.size a := fun v41 k8_hw6 => k8_hw6.2

def k8_off71 (v49 : BitVec 32) : Fin 2 → Nat :=
  let c0_i32_123 : BitVec 32 := 0#32
  ![v49.toNat, 0]

def k8_chk7 (v49 : BitVec 32) : Prop :=
  (∀ a, (k8_off14 v49) a + S1x8.size a ≤ S8388608x8.size a) ∧
  (∀ a, (k8_off71 v49) a + S1x8.size a ≤ S8388608x8.size a)
instance k8_chk7.dec : ∀ (v49 : BitVec 32), Decidable (k8_chk7 v49) := fun v49 => decidable_of_iff' _ (Iff.of_eq (k8_chk7.eq_1 v49))
theorem k8_off14_inb : ∀ (v49 : BitVec 32) (k8_hw7 : k8_chk7 v49), ∀ a, (k8_off14 v49) a + S1x8.size a ≤ S8388608x8.size a := fun v49 k8_hw7 => k8_hw7.1
theorem k8_off71_inb : ∀ (v49 : BitVec 32) (k8_hw7 : k8_chk7 v49), ∀ a, (k8_off71 v49) a + S1x8.size a ≤ S8388608x8.size a := fun v49 k8_hw7 => k8_hw7.2

def k8_off72 (v57 : BitVec 32) : Fin 2 → Nat :=
  let c0_i32_127 : BitVec 32 := 0#32
  ![v57.toNat, 0]

def k8_chk8 (v57 : BitVec 32) : Prop :=
  (∀ a, (k8_off16 v57) a + S1x8.size a ≤ S8388608x8.size a) ∧
  (∀ a, (k8_off72 v57) a + S1x8.size a ≤ S8388608x8.size a)
instance k8_chk8.dec : ∀ (v57 : BitVec 32), Decidable (k8_chk8 v57) := fun v57 => decidable_of_iff' _ (Iff.of_eq (k8_chk8.eq_1 v57))
theorem k8_off16_inb : ∀ (v57 : BitVec 32) (k8_hw8 : k8_chk8 v57), ∀ a, (k8_off16 v57) a + S1x8.size a ≤ S8388608x8.size a := fun v57 k8_hw8 => k8_hw8.1
theorem k8_off72_inb : ∀ (v57 : BitVec 32) (k8_hw8 : k8_chk8 v57), ∀ a, (k8_off72 v57) a + S1x8.size a ≤ S8388608x8.size a := fun v57 k8_hw8 => k8_hw8.2

def k8_off73 (v65 : BitVec 32) : Fin 2 → Nat :=
  let c0_i32_131 : BitVec 32 := 0#32
  ![v65.toNat, 0]

def k8_chk9 (v65 : BitVec 32) : Prop :=
  (∀ a, (k8_off18 v65) a + S1x8.size a ≤ S8388608x8.size a) ∧
  (∀ a, (k8_off73 v65) a + S1x8.size a ≤ S8388608x8.size a)
instance k8_chk9.dec : ∀ (v65 : BitVec 32), Decidable (k8_chk9 v65) := fun v65 => decidable_of_iff' _ (Iff.of_eq (k8_chk9.eq_1 v65))
theorem k8_off18_inb : ∀ (v65 : BitVec 32) (k8_hw9 : k8_chk9 v65), ∀ a, (k8_off18 v65) a + S1x8.size a ≤ S8388608x8.size a := fun v65 k8_hw9 => k8_hw9.1
theorem k8_off73_inb : ∀ (v65 : BitVec 32) (k8_hw9 : k8_chk9 v65), ∀ a, (k8_off73 v65) a + S1x8.size a ≤ S8388608x8.size a := fun v65 k8_hw9 => k8_hw9.2

def k8_off74 (v73 : BitVec 32) : Fin 2 → Nat :=
  let c0_i32_135 : BitVec 32 := 0#32
  ![v73.toNat, 0]

def k8_chk10 (v73 : BitVec 32) : Prop :=
  (∀ a, (k8_off20 v73) a + S1x8.size a ≤ S8388608x8.size a) ∧
  (∀ a, (k8_off74 v73) a + S1x8.size a ≤ S8388608x8.size a)
instance k8_chk10.dec : ∀ (v73 : BitVec 32), Decidable (k8_chk10 v73) := fun v73 => decidable_of_iff' _ (Iff.of_eq (k8_chk10.eq_1 v73))
theorem k8_off20_inb : ∀ (v73 : BitVec 32) (k8_hw10 : k8_chk10 v73), ∀ a, (k8_off20 v73) a + S1x8.size a ≤ S8388608x8.size a := fun v73 k8_hw10 => k8_hw10.1
theorem k8_off74_inb : ∀ (v73 : BitVec 32) (k8_hw10 : k8_chk10 v73), ∀ a, (k8_off74 v73) a + S1x8.size a ≤ S8388608x8.size a := fun v73 k8_hw10 => k8_hw10.2

def k8_off75 (v81 : BitVec 32) : Fin 2 → Nat :=
  let c0_i32_139 : BitVec 32 := 0#32
  ![v81.toNat, 0]

def k8_chk11 (v81 : BitVec 32) : Prop :=
  (∀ a, (k8_off22 v81) a + S1x8.size a ≤ S8388608x8.size a) ∧
  (∀ a, (k8_off75 v81) a + S1x8.size a ≤ S8388608x8.size a)
instance k8_chk11.dec : ∀ (v81 : BitVec 32), Decidable (k8_chk11 v81) := fun v81 => decidable_of_iff' _ (Iff.of_eq (k8_chk11.eq_1 v81))
theorem k8_off22_inb : ∀ (v81 : BitVec 32) (k8_hw11 : k8_chk11 v81), ∀ a, (k8_off22 v81) a + S1x8.size a ≤ S8388608x8.size a := fun v81 k8_hw11 => k8_hw11.1
theorem k8_off75_inb : ∀ (v81 : BitVec 32) (k8_hw11 : k8_chk11 v81), ∀ a, (k8_off75 v81) a + S1x8.size a ≤ S8388608x8.size a := fun v81 k8_hw11 => k8_hw11.2

def k8_off76 (v89 : BitVec 32) : Fin 2 → Nat :=
  let c0_i32_143 : BitVec 32 := 0#32
  ![v89.toNat, 0]

def k8_chk12 (v89 : BitVec 32) : Prop :=
  (∀ a, (k8_off24 v89) a + S1x8.size a ≤ S8388608x8.size a) ∧
  (∀ a, (k8_off76 v89) a + S1x8.size a ≤ S8388608x8.size a)
instance k8_chk12.dec : ∀ (v89 : BitVec 32), Decidable (k8_chk12 v89) := fun v89 => decidable_of_iff' _ (Iff.of_eq (k8_chk12.eq_1 v89))
theorem k8_off24_inb : ∀ (v89 : BitVec 32) (k8_hw12 : k8_chk12 v89), ∀ a, (k8_off24 v89) a + S1x8.size a ≤ S8388608x8.size a := fun v89 k8_hw12 => k8_hw12.1
theorem k8_off76_inb : ∀ (v89 : BitVec 32) (k8_hw12 : k8_chk12 v89), ∀ a, (k8_off76 v89) a + S1x8.size a ≤ S8388608x8.size a := fun v89 k8_hw12 => k8_hw12.2

def k8_off77 (v97 : BitVec 32) : Fin 2 → Nat :=
  let c0_i32_147 : BitVec 32 := 0#32
  ![v97.toNat, 0]

def k8_chk13 (v97 : BitVec 32) : Prop :=
  (∀ a, (k8_off26 v97) a + S1x8.size a ≤ S8388608x8.size a) ∧
  (∀ a, (k8_off77 v97) a + S1x8.size a ≤ S8388608x8.size a)
instance k8_chk13.dec : ∀ (v97 : BitVec 32), Decidable (k8_chk13 v97) := fun v97 => decidable_of_iff' _ (Iff.of_eq (k8_chk13.eq_1 v97))
theorem k8_off26_inb : ∀ (v97 : BitVec 32) (k8_hw13 : k8_chk13 v97), ∀ a, (k8_off26 v97) a + S1x8.size a ≤ S8388608x8.size a := fun v97 k8_hw13 => k8_hw13.1
theorem k8_off77_inb : ∀ (v97 : BitVec 32) (k8_hw13 : k8_chk13 v97), ∀ a, (k8_off77 v97) a + S1x8.size a ≤ S8388608x8.size a := fun v97 k8_hw13 => k8_hw13.2

def k8_off78 (v105 : BitVec 32) : Fin 2 → Nat :=
  let c0_i32_151 : BitVec 32 := 0#32
  ![v105.toNat, 0]

def k8_chk14 (v105 : BitVec 32) : Prop :=
  (∀ a, (k8_off28 v105) a + S1x8.size a ≤ S8388608x8.size a) ∧
  (∀ a, (k8_off78 v105) a + S1x8.size a ≤ S8388608x8.size a)
instance k8_chk14.dec : ∀ (v105 : BitVec 32), Decidable (k8_chk14 v105) := fun v105 => decidable_of_iff' _ (Iff.of_eq (k8_chk14.eq_1 v105))
theorem k8_off28_inb : ∀ (v105 : BitVec 32) (k8_hw14 : k8_chk14 v105), ∀ a, (k8_off28 v105) a + S1x8.size a ≤ S8388608x8.size a := fun v105 k8_hw14 => k8_hw14.1
theorem k8_off78_inb : ∀ (v105 : BitVec 32) (k8_hw14 : k8_chk14 v105), ∀ a, (k8_off78 v105) a + S1x8.size a ≤ S8388608x8.size a := fun v105 k8_hw14 => k8_hw14.2

def k8_off79 (v113 : BitVec 32) : Fin 2 → Nat :=
  let c0_i32_155 : BitVec 32 := 0#32
  ![v113.toNat, 0]

def k8_chk15 (v113 : BitVec 32) : Prop :=
  (∀ a, (k8_off30 v113) a + S1x8.size a ≤ S8388608x8.size a) ∧
  (∀ a, (k8_off79 v113) a + S1x8.size a ≤ S8388608x8.size a)
instance k8_chk15.dec : ∀ (v113 : BitVec 32), Decidable (k8_chk15 v113) := fun v113 => decidable_of_iff' _ (Iff.of_eq (k8_chk15.eq_1 v113))
theorem k8_off30_inb : ∀ (v113 : BitVec 32) (k8_hw15 : k8_chk15 v113), ∀ a, (k8_off30 v113) a + S1x8.size a ≤ S8388608x8.size a := fun v113 k8_hw15 => k8_hw15.1
theorem k8_off79_inb : ∀ (v113 : BitVec 32) (k8_hw15 : k8_chk15 v113), ∀ a, (k8_off79 v113) a + S1x8.size a ≤ S8388608x8.size a := fun v113 k8_hw15 => k8_hw15.2

def k8_off80 (v121 : BitVec 32) : Fin 2 → Nat :=
  let c0_i32_159 : BitVec 32 := 0#32
  ![v121.toNat, 0]

def k8_chk16 (v121 : BitVec 32) : Prop :=
  (∀ a, (k8_off32 v121) a + S1x8.size a ≤ S8388608x8.size a) ∧
  (∀ a, (k8_off80 v121) a + S1x8.size a ≤ S8388608x8.size a)
instance k8_chk16.dec : ∀ (v121 : BitVec 32), Decidable (k8_chk16 v121) := fun v121 => decidable_of_iff' _ (Iff.of_eq (k8_chk16.eq_1 v121))
theorem k8_off32_inb : ∀ (v121 : BitVec 32) (k8_hw16 : k8_chk16 v121), ∀ a, (k8_off32 v121) a + S1x8.size a ≤ S8388608x8.size a := fun v121 k8_hw16 => k8_hw16.1
theorem k8_off80_inb : ∀ (v121 : BitVec 32) (k8_hw16 : k8_chk16 v121), ∀ a, (k8_off80 v121) a + S1x8.size a ≤ S8388608x8.size a := fun v121 k8_hw16 => k8_hw16.2

def k8_off81 (v129 : BitVec 32) : Fin 2 → Nat :=
  let c0_i32_163 : BitVec 32 := 0#32
  ![v129.toNat, 0]

def k8_chk17 (v129 : BitVec 32) : Prop :=
  (∀ a, (k8_off34 v129) a + S1x8.size a ≤ S8388608x8.size a) ∧
  (∀ a, (k8_off81 v129) a + S1x8.size a ≤ S8388608x8.size a)
instance k8_chk17.dec : ∀ (v129 : BitVec 32), Decidable (k8_chk17 v129) := fun v129 => decidable_of_iff' _ (Iff.of_eq (k8_chk17.eq_1 v129))
theorem k8_off34_inb : ∀ (v129 : BitVec 32) (k8_hw17 : k8_chk17 v129), ∀ a, (k8_off34 v129) a + S1x8.size a ≤ S8388608x8.size a := fun v129 k8_hw17 => k8_hw17.1
theorem k8_off81_inb : ∀ (v129 : BitVec 32) (k8_hw17 : k8_chk17 v129), ∀ a, (k8_off81 v129) a + S1x8.size a ≤ S8388608x8.size a := fun v129 k8_hw17 => k8_hw17.2

def k8_off82 (v137 : BitVec 32) : Fin 2 → Nat :=
  let c0_i32_167 : BitVec 32 := 0#32
  ![v137.toNat, 0]

def k8_chk18 (v137 : BitVec 32) : Prop :=
  (∀ a, (k8_off36 v137) a + S1x8.size a ≤ S8388608x8.size a) ∧
  (∀ a, (k8_off82 v137) a + S1x8.size a ≤ S8388608x8.size a)
instance k8_chk18.dec : ∀ (v137 : BitVec 32), Decidable (k8_chk18 v137) := fun v137 => decidable_of_iff' _ (Iff.of_eq (k8_chk18.eq_1 v137))
theorem k8_off36_inb : ∀ (v137 : BitVec 32) (k8_hw18 : k8_chk18 v137), ∀ a, (k8_off36 v137) a + S1x8.size a ≤ S8388608x8.size a := fun v137 k8_hw18 => k8_hw18.1
theorem k8_off82_inb : ∀ (v137 : BitVec 32) (k8_hw18 : k8_chk18 v137), ∀ a, (k8_off82 v137) a + S1x8.size a ≤ S8388608x8.size a := fun v137 k8_hw18 => k8_hw18.2

def k8_off83 (v145 : BitVec 32) : Fin 2 → Nat :=
  let c0_i32_171 : BitVec 32 := 0#32
  ![v145.toNat, 0]

def k8_chk19 (v145 : BitVec 32) : Prop :=
  (∀ a, (k8_off38 v145) a + S1x8.size a ≤ S8388608x8.size a) ∧
  (∀ a, (k8_off83 v145) a + S1x8.size a ≤ S8388608x8.size a)
instance k8_chk19.dec : ∀ (v145 : BitVec 32), Decidable (k8_chk19 v145) := fun v145 => decidable_of_iff' _ (Iff.of_eq (k8_chk19.eq_1 v145))
theorem k8_off38_inb : ∀ (v145 : BitVec 32) (k8_hw19 : k8_chk19 v145), ∀ a, (k8_off38 v145) a + S1x8.size a ≤ S8388608x8.size a := fun v145 k8_hw19 => k8_hw19.1
theorem k8_off83_inb : ∀ (v145 : BitVec 32) (k8_hw19 : k8_chk19 v145), ∀ a, (k8_off83 v145) a + S1x8.size a ≤ S8388608x8.size a := fun v145 k8_hw19 => k8_hw19.2

def k8_off84 (v153 : BitVec 32) : Fin 2 → Nat :=
  let c0_i32_175 : BitVec 32 := 0#32
  ![v153.toNat, 0]

def k8_chk20 (v153 : BitVec 32) : Prop :=
  (∀ a, (k8_off40 v153) a + S1x8.size a ≤ S8388608x8.size a) ∧
  (∀ a, (k8_off84 v153) a + S1x8.size a ≤ S8388608x8.size a)
instance k8_chk20.dec : ∀ (v153 : BitVec 32), Decidable (k8_chk20 v153) := fun v153 => decidable_of_iff' _ (Iff.of_eq (k8_chk20.eq_1 v153))
theorem k8_off40_inb : ∀ (v153 : BitVec 32) (k8_hw20 : k8_chk20 v153), ∀ a, (k8_off40 v153) a + S1x8.size a ≤ S8388608x8.size a := fun v153 k8_hw20 => k8_hw20.1
theorem k8_off84_inb : ∀ (v153 : BitVec 32) (k8_hw20 : k8_chk20 v153), ∀ a, (k8_off84 v153) a + S1x8.size a ≤ S8388608x8.size a := fun v153 k8_hw20 => k8_hw20.2

def k8_off85 (v161 : BitVec 32) : Fin 2 → Nat :=
  let c0_i32_179 : BitVec 32 := 0#32
  ![v161.toNat, 0]

def k8_chk21 (v161 : BitVec 32) : Prop :=
  (∀ a, (k8_off42 v161) a + S1x8.size a ≤ S8388608x8.size a) ∧
  (∀ a, (k8_off85 v161) a + S1x8.size a ≤ S8388608x8.size a)
instance k8_chk21.dec : ∀ (v161 : BitVec 32), Decidable (k8_chk21 v161) := fun v161 => decidable_of_iff' _ (Iff.of_eq (k8_chk21.eq_1 v161))
theorem k8_off42_inb : ∀ (v161 : BitVec 32) (k8_hw21 : k8_chk21 v161), ∀ a, (k8_off42 v161) a + S1x8.size a ≤ S8388608x8.size a := fun v161 k8_hw21 => k8_hw21.1
theorem k8_off85_inb : ∀ (v161 : BitVec 32) (k8_hw21 : k8_chk21 v161), ∀ a, (k8_off85 v161) a + S1x8.size a ≤ S8388608x8.size a := fun v161 k8_hw21 => k8_hw21.2

def k8_off86 (v169 : BitVec 32) : Fin 2 → Nat :=
  let c0_i32_183 : BitVec 32 := 0#32
  ![v169.toNat, 0]

def k8_chk22 (v169 : BitVec 32) : Prop :=
  (∀ a, (k8_off44 v169) a + S1x8.size a ≤ S8388608x8.size a) ∧
  (∀ a, (k8_off86 v169) a + S1x8.size a ≤ S8388608x8.size a)
instance k8_chk22.dec : ∀ (v169 : BitVec 32), Decidable (k8_chk22 v169) := fun v169 => decidable_of_iff' _ (Iff.of_eq (k8_chk22.eq_1 v169))
theorem k8_off44_inb : ∀ (v169 : BitVec 32) (k8_hw22 : k8_chk22 v169), ∀ a, (k8_off44 v169) a + S1x8.size a ≤ S8388608x8.size a := fun v169 k8_hw22 => k8_hw22.1
theorem k8_off86_inb : ∀ (v169 : BitVec 32) (k8_hw22 : k8_chk22 v169), ∀ a, (k8_off86 v169) a + S1x8.size a ≤ S8388608x8.size a := fun v169 k8_hw22 => k8_hw22.2

def k8_off87 (v177 : BitVec 32) : Fin 2 → Nat :=
  let c0_i32_187 : BitVec 32 := 0#32
  ![v177.toNat, 0]

def k8_chk23 (v177 : BitVec 32) : Prop :=
  (∀ a, (k8_off46 v177) a + S1x8.size a ≤ S8388608x8.size a) ∧
  (∀ a, (k8_off87 v177) a + S1x8.size a ≤ S8388608x8.size a)
instance k8_chk23.dec : ∀ (v177 : BitVec 32), Decidable (k8_chk23 v177) := fun v177 => decidable_of_iff' _ (Iff.of_eq (k8_chk23.eq_1 v177))
theorem k8_off46_inb : ∀ (v177 : BitVec 32) (k8_hw23 : k8_chk23 v177), ∀ a, (k8_off46 v177) a + S1x8.size a ≤ S8388608x8.size a := fun v177 k8_hw23 => k8_hw23.1
theorem k8_off87_inb : ∀ (v177 : BitVec 32) (k8_hw23 : k8_chk23 v177), ∀ a, (k8_off87 v177) a + S1x8.size a ≤ S8388608x8.size a := fun v177 k8_hw23 => k8_hw23.2

def k8_off88 (v185 : BitVec 32) : Fin 2 → Nat :=
  let c0_i32_191 : BitVec 32 := 0#32
  ![v185.toNat, 0]

def k8_chk24 (v185 : BitVec 32) : Prop :=
  (∀ a, (k8_off48 v185) a + S1x8.size a ≤ S8388608x8.size a) ∧
  (∀ a, (k8_off88 v185) a + S1x8.size a ≤ S8388608x8.size a)
instance k8_chk24.dec : ∀ (v185 : BitVec 32), Decidable (k8_chk24 v185) := fun v185 => decidable_of_iff' _ (Iff.of_eq (k8_chk24.eq_1 v185))
theorem k8_off48_inb : ∀ (v185 : BitVec 32) (k8_hw24 : k8_chk24 v185), ∀ a, (k8_off48 v185) a + S1x8.size a ≤ S8388608x8.size a := fun v185 k8_hw24 => k8_hw24.1
theorem k8_off88_inb : ∀ (v185 : BitVec 32) (k8_hw24 : k8_chk24 v185), ∀ a, (k8_off88 v185) a + S1x8.size a ≤ S8388608x8.size a := fun v185 k8_hw24 => k8_hw24.2

def k8_off89 (v193 : BitVec 32) : Fin 2 → Nat :=
  let c0_i32_195 : BitVec 32 := 0#32
  ![v193.toNat, 0]

def k8_chk25 (v193 : BitVec 32) : Prop :=
  (∀ a, (k8_off50 v193) a + S1x8.size a ≤ S8388608x8.size a) ∧
  (∀ a, (k8_off89 v193) a + S1x8.size a ≤ S8388608x8.size a)
instance k8_chk25.dec : ∀ (v193 : BitVec 32), Decidable (k8_chk25 v193) := fun v193 => decidable_of_iff' _ (Iff.of_eq (k8_chk25.eq_1 v193))
theorem k8_off50_inb : ∀ (v193 : BitVec 32) (k8_hw25 : k8_chk25 v193), ∀ a, (k8_off50 v193) a + S1x8.size a ≤ S8388608x8.size a := fun v193 k8_hw25 => k8_hw25.1
theorem k8_off89_inb : ∀ (v193 : BitVec 32) (k8_hw25 : k8_chk25 v193), ∀ a, (k8_off89 v193) a + S1x8.size a ≤ S8388608x8.size a := fun v193 k8_hw25 => k8_hw25.2

def k8_off90 (v201 : BitVec 32) : Fin 2 → Nat :=
  let c0_i32_199 : BitVec 32 := 0#32
  ![v201.toNat, 0]

def k8_chk26 (v201 : BitVec 32) : Prop :=
  (∀ a, (k8_off52 v201) a + S1x8.size a ≤ S8388608x8.size a) ∧
  (∀ a, (k8_off90 v201) a + S1x8.size a ≤ S8388608x8.size a)
instance k8_chk26.dec : ∀ (v201 : BitVec 32), Decidable (k8_chk26 v201) := fun v201 => decidable_of_iff' _ (Iff.of_eq (k8_chk26.eq_1 v201))
theorem k8_off52_inb : ∀ (v201 : BitVec 32) (k8_hw26 : k8_chk26 v201), ∀ a, (k8_off52 v201) a + S1x8.size a ≤ S8388608x8.size a := fun v201 k8_hw26 => k8_hw26.1
theorem k8_off90_inb : ∀ (v201 : BitVec 32) (k8_hw26 : k8_chk26 v201), ∀ a, (k8_off90 v201) a + S1x8.size a ≤ S8388608x8.size a := fun v201 k8_hw26 => k8_hw26.2

def k8_off91 (v209 : BitVec 32) : Fin 2 → Nat :=
  let c0_i32_203 : BitVec 32 := 0#32
  ![v209.toNat, 0]

def k8_chk27 (v209 : BitVec 32) : Prop :=
  (∀ a, (k8_off54 v209) a + S1x8.size a ≤ S8388608x8.size a) ∧
  (∀ a, (k8_off91 v209) a + S1x8.size a ≤ S8388608x8.size a)
instance k8_chk27.dec : ∀ (v209 : BitVec 32), Decidable (k8_chk27 v209) := fun v209 => decidable_of_iff' _ (Iff.of_eq (k8_chk27.eq_1 v209))
theorem k8_off54_inb : ∀ (v209 : BitVec 32) (k8_hw27 : k8_chk27 v209), ∀ a, (k8_off54 v209) a + S1x8.size a ≤ S8388608x8.size a := fun v209 k8_hw27 => k8_hw27.1
theorem k8_off91_inb : ∀ (v209 : BitVec 32) (k8_hw27 : k8_chk27 v209), ∀ a, (k8_off91 v209) a + S1x8.size a ≤ S8388608x8.size a := fun v209 k8_hw27 => k8_hw27.2

def k8_off92 (v217 : BitVec 32) : Fin 2 → Nat :=
  let c0_i32_207 : BitVec 32 := 0#32
  ![v217.toNat, 0]

def k8_chk28 (v217 : BitVec 32) : Prop :=
  (∀ a, (k8_off56 v217) a + S1x8.size a ≤ S8388608x8.size a) ∧
  (∀ a, (k8_off92 v217) a + S1x8.size a ≤ S8388608x8.size a)
instance k8_chk28.dec : ∀ (v217 : BitVec 32), Decidable (k8_chk28 v217) := fun v217 => decidable_of_iff' _ (Iff.of_eq (k8_chk28.eq_1 v217))
theorem k8_off56_inb : ∀ (v217 : BitVec 32) (k8_hw28 : k8_chk28 v217), ∀ a, (k8_off56 v217) a + S1x8.size a ≤ S8388608x8.size a := fun v217 k8_hw28 => k8_hw28.1
theorem k8_off92_inb : ∀ (v217 : BitVec 32) (k8_hw28 : k8_chk28 v217), ∀ a, (k8_off92 v217) a + S1x8.size a ≤ S8388608x8.size a := fun v217 k8_hw28 => k8_hw28.2

def k8_off93 (v225 : BitVec 32) : Fin 2 → Nat :=
  let c0_i32_211 : BitVec 32 := 0#32
  ![v225.toNat, 0]

def k8_chk29 (v225 : BitVec 32) : Prop :=
  (∀ a, (k8_off58 v225) a + S1x8.size a ≤ S8388608x8.size a) ∧
  (∀ a, (k8_off93 v225) a + S1x8.size a ≤ S8388608x8.size a)
instance k8_chk29.dec : ∀ (v225 : BitVec 32), Decidable (k8_chk29 v225) := fun v225 => decidable_of_iff' _ (Iff.of_eq (k8_chk29.eq_1 v225))
theorem k8_off58_inb : ∀ (v225 : BitVec 32) (k8_hw29 : k8_chk29 v225), ∀ a, (k8_off58 v225) a + S1x8.size a ≤ S8388608x8.size a := fun v225 k8_hw29 => k8_hw29.1
theorem k8_off93_inb : ∀ (v225 : BitVec 32) (k8_hw29 : k8_chk29 v225), ∀ a, (k8_off93 v225) a + S1x8.size a ≤ S8388608x8.size a := fun v225 k8_hw29 => k8_hw29.2

def k8_off94 (v233 : BitVec 32) : Fin 2 → Nat :=
  let c0_i32_215 : BitVec 32 := 0#32
  ![v233.toNat, 0]

def k8_chk30 (v233 : BitVec 32) : Prop :=
  (∀ a, (k8_off60 v233) a + S1x8.size a ≤ S8388608x8.size a) ∧
  (∀ a, (k8_off94 v233) a + S1x8.size a ≤ S8388608x8.size a)
instance k8_chk30.dec : ∀ (v233 : BitVec 32), Decidable (k8_chk30 v233) := fun v233 => decidable_of_iff' _ (Iff.of_eq (k8_chk30.eq_1 v233))
theorem k8_off60_inb : ∀ (v233 : BitVec 32) (k8_hw30 : k8_chk30 v233), ∀ a, (k8_off60 v233) a + S1x8.size a ≤ S8388608x8.size a := fun v233 k8_hw30 => k8_hw30.1
theorem k8_off94_inb : ∀ (v233 : BitVec 32) (k8_hw30 : k8_chk30 v233), ∀ a, (k8_off94 v233) a + S1x8.size a ≤ S8388608x8.size a := fun v233 k8_hw30 => k8_hw30.2

def k8_off95 (v241 : BitVec 32) : Fin 2 → Nat :=
  let c0_i32_219 : BitVec 32 := 0#32
  ![v241.toNat, 0]

def k8_chk31 (v241 : BitVec 32) : Prop :=
  (∀ a, (k8_off62 v241) a + S1x8.size a ≤ S8388608x8.size a) ∧
  (∀ a, (k8_off95 v241) a + S1x8.size a ≤ S8388608x8.size a)
instance k8_chk31.dec : ∀ (v241 : BitVec 32), Decidable (k8_chk31 v241) := fun v241 => decidable_of_iff' _ (Iff.of_eq (k8_chk31.eq_1 v241))
theorem k8_off62_inb : ∀ (v241 : BitVec 32) (k8_hw31 : k8_chk31 v241), ∀ a, (k8_off62 v241) a + S1x8.size a ≤ S8388608x8.size a := fun v241 k8_hw31 => k8_hw31.1
theorem k8_off95_inb : ∀ (v241 : BitVec 32) (k8_hw31 : k8_chk31 v241), ∀ a, (k8_off95 v241) a + S1x8.size a ≤ S8388608x8.size a := fun v241 k8_hw31 => k8_hw31.2

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x32x8 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

class Facts₀ : Prop where
  shapeCasts_S2x1024x256_S2048x256 : S2x1024x256.ShapeCasts S2048x256
  transposes_S4x256x256_S4x256x256_0_2_1 : S4x256x256.Transposes [0, 2, 1] S4x256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S4x2048x256_S4x2x1024x256 : S4x2048x256.ShapeCasts S4x2x1024x256
  transposes_S4x2x1024x256_S2x4x1024x256_1_0_2_3 : S4x2x1024x256.Transposes [1, 0, 2, 3] S2x4x1024x256
  shapeCasts_S2x4x1024x256_S2x4x1024x32x8 : S2x4x1024x256.ShapeCasts S2x4x1024x32x8
  bcast_S_S2x4x1024x32x8 : S_.BroadcastsInDim S2x4x1024x32x8 (![] : Fin 0 → Fin S2x4x1024x32x8.rank)
  natLt_1_32 : 1 < 32
  bcast_S8_S1x1x1x1x8_4 : S8.BroadcastsInDim S1x1x1x1x8 (![4] : Fin 1 → Fin S1x1x1x1x8.rank)
  bcast_S1x1x1x1x8_S2x4x1024x32x8_0_1_2_3_4 : S1x1x1x1x8.BroadcastsInDim S2x4x1024x32x8 (![0, 1, 2, 3, 4] : Fin 5 → Fin S2x4x1024x32x8.rank)
  reducesTo_S2x4x1024x32x8_S2x4x1024x32_d4 : S2x4x1024x32x8.ReducesTo [4] S2x4x1024x32
  h_S_ : 0 < S_.numel
  slices_S2x4x1024x32_S2x4x1023x32_0_0_0_0 : S2x4x1024x32.Slices ![0, 0, 0, 0] S2x4x1023x32
  slices_S2x4x1024x32_S2x4x1023x32_0_0_1_0 : S2x4x1024x32.Slices ![0, 0, 1, 0] S2x4x1023x32
  bcast_S_S2x4x1023x32 : S_.BroadcastsInDim S2x4x1023x32 (![] : Fin 0 → Fin S2x4x1023x32.rank)
  bcast_S_S4 : S_.BroadcastsInDim S4 (![] : Fin 0 → Fin S4.rank)
  shapeCasts_S4_S1x4x1x1 : S4.ShapeCasts S1x4x1x1
  bcast_S_S32 : S_.BroadcastsInDim S32 (![] : Fin 0 → Fin S32.rank)
  shapeCasts_S32_S1x1x1x32 : S32.ShapeCasts S1x1x1x32
  bcast_S1x4x1x1_S1x4x1x32_0_1_2_3 : S1x4x1x1.BroadcastsInDim S1x4x1x32 (![0, 1, 2, 3] : Fin 4 → Fin S1x4x1x32.rank)
  bcast_S1x1x1x32_S1x4x1x32_0_1_2_3 : S1x1x1x32.BroadcastsInDim S1x4x1x32 (![0, 1, 2, 3] : Fin 4 → Fin S1x4x1x32.rank)
  bcast_S1x4x1x32_S2x4x1023x32_0_1_2_3 : S1x4x1x32.BroadcastsInDim S2x4x1023x32 (![0, 1, 2, 3] : Fin 4 → Fin S2x4x1023x32.rank)
  transposes_S2x4x1023x32_S2x4x32x1023_0_1_3_2 : S2x4x1023x32.Transposes [0, 1, 3, 2] S2x4x32x1023
  slices_S2x4x32x1023_S1x1x32x1023_0_0_0_0 : S2x4x32x1023.Slices ![0, 0, 0, 0] S1x1x32x1023
  shapeCasts_S1x1x32x1023_S32x1023 : S1x1x32x1023.ShapeCasts S32x1023
  numel1_S1x1 : S1x1.numel = 1
  inb_S32_S1_0 : ∀ a, (![0] : Fin 1 → Nat) a + S1.size a ≤ S32.size a
  squeezes_S1_S_ : S1.Squeezes S_
  inb_S32x8_S1x8_0_0 : ∀ a, (![0, 0] : Fin 2 → Nat) a + S1x8.size a ≤ S32x8.size a
  squeezes_S1x8_S8 : S1x8.Squeezes S8
  inb_S32_S1_1 : ∀ a, (![1] : Fin 1 → Nat) a + S1.size a ≤ S32.size a
  inb_S32x8_S1x8_1_0 : ∀ a, (![1, 0] : Fin 2 → Nat) a + S1x8.size a ≤ S32x8.size a
  inb_S32_S1_2 : ∀ a, (![2] : Fin 1 → Nat) a + S1.size a ≤ S32.size a
  inb_S32x8_S1x8_2_0 : ∀ a, (![2, 0] : Fin 2 → Nat) a + S1x8.size a ≤ S32x8.size a
  inb_S32_S1_3 : ∀ a, (![3] : Fin 1 → Nat) a + S1.size a ≤ S32.size a
  inb_S32x8_S1x8_3_0 : ∀ a, (![3, 0] : Fin 2 → Nat) a + S1x8.size a ≤ S32x8.size a
  inb_S32_S1_4 : ∀ a, (![4] : Fin 1 → Nat) a + S1.size a ≤ S32.size a
  inb_S32x8_S1x8_4_0 : ∀ a, (![4, 0] : Fin 2 → Nat) a + S1x8.size a ≤ S32x8.size a
  inb_S32_S1_5 : ∀ a, (![5] : Fin 1 → Nat) a + S1.size a ≤ S32.size a
  inb_S32x8_S1x8_5_0 : ∀ a, (![5, 0] : Fin 2 → Nat) a + S1x8.size a ≤ S32x8.size a
  inb_S32_S1_6 : ∀ a, (![6] : Fin 1 → Nat) a + S1.size a ≤ S32.size a
  inb_S32x8_S1x8_6_0 : ∀ a, (![6, 0] : Fin 2 → Nat) a + S1x8.size a ≤ S32x8.size a
  inb_S32_S1_7 : ∀ a, (![7] : Fin 1 → Nat) a + S1.size a ≤ S32.size a
  inb_S32x8_S1x8_7_0 : ∀ a, (![7, 0] : Fin 2 → Nat) a + S1x8.size a ≤ S32x8.size a
  inb_S32_S1_8 : ∀ a, (![8] : Fin 1 → Nat) a + S1.size a ≤ S32.size a
  inb_S32x8_S1x8_8_0 : ∀ a, (![8, 0] : Fin 2 → Nat) a + S1x8.size a ≤ S32x8.size a
  inb_S32_S1_9 : ∀ a, (![9] : Fin 1 → Nat) a + S1.size a ≤ S32.size a
  inb_S32x8_S1x8_9_0 : ∀ a, (![9, 0] : Fin 2 → Nat) a + S1x8.size a ≤ S32x8.size a
  inb_S32_S1_10 : ∀ a, (![10] : Fin 1 → Nat) a + S1.size a ≤ S32.size a
  inb_S32x8_S1x8_10_0 : ∀ a, (![10, 0] : Fin 2 → Nat) a + S1x8.size a ≤ S32x8.size a
  inb_S32_S1_11 : ∀ a, (![11] : Fin 1 → Nat) a + S1.size a ≤ S32.size a
  inb_S32x8_S1x8_11_0 : ∀ a, (![11, 0] : Fin 2 → Nat) a + S1x8.size a ≤ S32x8.size a
  inb_S32_S1_12 : ∀ a, (![12] : Fin 1 → Nat) a + S1.size a ≤ S32.size a
  inb_S32x8_S1x8_12_0 : ∀ a, (![12, 0] : Fin 2 → Nat) a + S1x8.size a ≤ S32x8.size a
  inb_S32_S1_13 : ∀ a, (![13] : Fin 1 → Nat) a + S1.size a ≤ S32.size a
  inb_S32x8_S1x8_13_0 : ∀ a, (![13, 0] : Fin 2 → Nat) a + S1x8.size a ≤ S32x8.size a
  inb_S32_S1_14 : ∀ a, (![14] : Fin 1 → Nat) a + S1.size a ≤ S32.size a
  inb_S32x8_S1x8_14_0 : ∀ a, (![14, 0] : Fin 2 → Nat) a + S1x8.size a ≤ S32x8.size a
  inb_S32_S1_15 : ∀ a, (![15] : Fin 1 → Nat) a + S1.size a ≤ S32.size a
  inb_S32x8_S1x8_15_0 : ∀ a, (![15, 0] : Fin 2 → Nat) a + S1x8.size a ≤ S32x8.size a
  inb_S32_S1_16 : ∀ a, (![16] : Fin 1 → Nat) a + S1.size a ≤ S32.size a
  inb_S32x8_S1x8_16_0 : ∀ a, (![16, 0] : Fin 2 → Nat) a + S1x8.size a ≤ S32x8.size a
  inb_S32_S1_17 : ∀ a, (![17] : Fin 1 → Nat) a + S1.size a ≤ S32.size a
  inb_S32x8_S1x8_17_0 : ∀ a, (![17, 0] : Fin 2 → Nat) a + S1x8.size a ≤ S32x8.size a
  inb_S32_S1_18 : ∀ a, (![18] : Fin 1 → Nat) a + S1.size a ≤ S32.size a
  inb_S32x8_S1x8_18_0 : ∀ a, (![18, 0] : Fin 2 → Nat) a + S1x8.size a ≤ S32x8.size a
  inb_S32_S1_19 : ∀ a, (![19] : Fin 1 → Nat) a + S1.size a ≤ S32.size a
  inb_S32x8_S1x8_19_0 : ∀ a, (![19, 0] : Fin 2 → Nat) a + S1x8.size a ≤ S32x8.size a
  inb_S32_S1_20 : ∀ a, (![20] : Fin 1 → Nat) a + S1.size a ≤ S32.size a
  inb_S32x8_S1x8_20_0 : ∀ a, (![20, 0] : Fin 2 → Nat) a + S1x8.size a ≤ S32x8.size a
  inb_S32_S1_21 : ∀ a, (![21] : Fin 1 → Nat) a + S1.size a ≤ S32.size a
  inb_S32x8_S1x8_21_0 : ∀ a, (![21, 0] : Fin 2 → Nat) a + S1x8.size a ≤ S32x8.size a
  inb_S32_S1_22 : ∀ a, (![22] : Fin 1 → Nat) a + S1.size a ≤ S32.size a
  inb_S32x8_S1x8_22_0 : ∀ a, (![22, 0] : Fin 2 → Nat) a + S1x8.size a ≤ S32x8.size a
  inb_S32_S1_23 : ∀ a, (![23] : Fin 1 → Nat) a + S1.size a ≤ S32.size a
  inb_S32x8_S1x8_23_0 : ∀ a, (![23, 0] : Fin 2 → Nat) a + S1x8.size a ≤ S32x8.size a
  inb_S32_S1_24 : ∀ a, (![24] : Fin 1 → Nat) a + S1.size a ≤ S32.size a
  inb_S32x8_S1x8_24_0 : ∀ a, (![24, 0] : Fin 2 → Nat) a + S1x8.size a ≤ S32x8.size a
  inb_S32_S1_25 : ∀ a, (![25] : Fin 1 → Nat) a + S1.size a ≤ S32.size a
  inb_S32x8_S1x8_25_0 : ∀ a, (![25, 0] : Fin 2 → Nat) a + S1x8.size a ≤ S32x8.size a
  inb_S32_S1_26 : ∀ a, (![26] : Fin 1 → Nat) a + S1.size a ≤ S32.size a
  inb_S32x8_S1x8_26_0 : ∀ a, (![26, 0] : Fin 2 → Nat) a + S1x8.size a ≤ S32x8.size a
  inb_S32_S1_27 : ∀ a, (![27] : Fin 1 → Nat) a + S1.size a ≤ S32.size a
  inb_S32x8_S1x8_27_0 : ∀ a, (![27, 0] : Fin 2 → Nat) a + S1x8.size a ≤ S32x8.size a
  inb_S32_S1_28 : ∀ a, (![28] : Fin 1 → Nat) a + S1.size a ≤ S32.size a
  inb_S32x8_S1x8_28_0 : ∀ a, (![28, 0] : Fin 2 → Nat) a + S1x8.size a ≤ S32x8.size a
  inb_S32_S1_29 : ∀ a, (![29] : Fin 1 → Nat) a + S1.size a ≤ S32.size a
  inb_S32x8_S1x8_29_0 : ∀ a, (![29, 0] : Fin 2 → Nat) a + S1x8.size a ≤ S32x8.size a
  inb_S32_S1_30 : ∀ a, (![30] : Fin 1 → Nat) a + S1.size a ≤ S32.size a
  inb_S32x8_S1x8_30_0 : ∀ a, (![30, 0] : Fin 2 → Nat) a + S1x8.size a ≤ S32x8.size a
  inb_S32_S1_31 : ∀ a, (![31] : Fin 1 → Nat) a + S1.size a ≤ S32.size a
  inb_S32x8_S1x8_31_0 : ∀ a, (![31, 0] : Fin 2 → Nat) a + S1x8.size a ≤ S32x8.size a
  inb_S32x8_S32x8_0_0 : ∀ a, (![0, 0] : Fin 2 → Nat) a + S32x8.size a ≤ S32x8.size a
  h_S32x8 : 0 < S32x8.numel
  inb_S1x32x8_S1x32x8_0_0_0 : ∀ a, (![0, 0, 0] : Fin 3 → Nat) a + S1x32x8.size a ≤ S1x32x8.size a
  h_S1x32x8 : 0 < S1x32x8.numel
  shapeCasts_S1x32x8_S32x8 : S1x32x8.ShapeCasts S32x8
  shapeCasts_S32x8_S1x32x8 : S32x8.ShapeCasts S1x32x8
  slices_S2x4x32x1023_S1x1x32x1023_0_1_0_0 : S2x4x32x1023.Slices ![0, 1, 0, 0] S1x1x32x1023
  slices_S2x4x32x1023_S1x1x32x1023_0_2_0_0 : S2x4x32x1023.Slices ![0, 2, 0, 0] S1x1x32x1023
  slices_S2x4x32x1023_S1x1x32x1023_0_3_0_0 : S2x4x32x1023.Slices ![0, 3, 0, 0] S1x1x32x1023
  bcast_S1023x32x8_S1x1023x32x8_1_2_3 : S1023x32x8.BroadcastsInDim S1x1023x32x8 (![1, 2, 3] : Fin 3 → Fin S1x1023x32x8.rank)
  concatenates_S1x1023x32x8_S1x1023x32x8_S1x1023x32x8_S1x1023x32x8_S4x1023x32x8_d0 : Shape.Concatenates [S1x1023x32x8, S1x1023x32x8, S1x1023x32x8, S1x1023x32x8] S4x1023x32x8 0
  slices_S2x4x32x1023_S1x1x32x1023_1_0_0_0 : S2x4x32x1023.Slices ![1, 0, 0, 0] S1x1x32x1023
  slices_S2x4x32x1023_S1x1x32x1023_1_1_0_0 : S2x4x32x1023.Slices ![1, 1, 0, 0] S1x1x32x1023
  slices_S2x4x32x1023_S1x1x32x1023_1_2_0_0 : S2x4x32x1023.Slices ![1, 2, 0, 0] S1x1x32x1023
  slices_S2x4x32x1023_S1x1x32x1023_1_3_0_0 : S2x4x32x1023.Slices ![1, 3, 0, 0] S1x1x32x1023
  bcast_S4x1023x32x8_S1x4x1023x32x8_1_2_3_4 : S4x1023x32x8.BroadcastsInDim S1x4x1023x32x8 (![1, 2, 3, 4] : Fin 4 → Fin S1x4x1023x32x8.rank)
  concatenates_S1x4x1023x32x8_S1x4x1023x32x8_S2x4x1023x32x8_d0 : Shape.Concatenates [S1x4x1023x32x8, S1x4x1023x32x8] S2x4x1023x32x8 0
  shapeCasts_S2x4x1023x32x8_S2x4x1023x256 : S2x4x1023x32x8.ShapeCasts S2x4x1023x256
  dot_S2048x256_S256x256_S2048x256_1_0_0_1_n_n_wf : DotDims.WF S2048x256 S256x256 S2048x256 [1] [0] [0] [1] [] []
  hcc1_scratch1 : 7 + S32.numel ≤ 277
  hcc2_scratch1 : 41 + S32.numel ≤ 277
  hcc3_scratch1 : 75 + S32.numel ≤ 277
  hcc4_scratch1 : 109 + S32.numel ≤ 277
  hcc5_scratch1 : 143 + S32.numel ≤ 277
  hcc6_scratch1 : 177 + S32.numel ≤ 277
  hcc7_scratch1 : 211 + S32.numel ≤ 277
  hcc8_scratch1 : 245 + S32.numel ≤ 277
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S4x256x256.size a
  hwx0_1 : ∀ i : grid0.Coords, EltTy.bits .f32 = 32 ∨ (Rect.block (s := S4x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S4x2048x256.size a
  hwx0_2 : ∀ i : grid0.Coords, EltTy.bits .f32 = 32 ∨ (Rect.block (s := S4x2048x256) S1x2048x256.size (cc0_transform_2 i) (hinb0_2 i)).WholeWords (EltTy.packing .f32)
  hrank1 : 0 < grid1.rank
  k1_off1_inb : ∀ i : grid1.Coords, ∀ a, (k1_off1 i) a + S1x1.size a ≤ S32x1023.size a
  k1_off3_inb : ∀ i : grid1.Coords, ∀ a, (k1_off3 i) a + S1x1.size a ≤ S32x1023.size a
  k1_off5_inb : ∀ i : grid1.Coords, ∀ a, (k1_off5 i) a + S1x1.size a ≤ S32x1023.size a
  k1_off7_inb : ∀ i : grid1.Coords, ∀ a, (k1_off7 i) a + S1x1.size a ≤ S32x1023.size a
  k1_off9_inb : ∀ i : grid1.Coords, ∀ a, (k1_off9 i) a + S1x1.size a ≤ S32x1023.size a
  k1_off11_inb : ∀ i : grid1.Coords, ∀ a, (k1_off11 i) a + S1x1.size a ≤ S32x1023.size a
  k1_off13_inb : ∀ i : grid1.Coords, ∀ a, (k1_off13 i) a + S1x1.size a ≤ S32x1023.size a
  k1_off15_inb : ∀ i : grid1.Coords, ∀ a, (k1_off15 i) a + S1x1.size a ≤ S32x1023.size a
  k1_off17_inb : ∀ i : grid1.Coords, ∀ a, (k1_off17 i) a + S1x1.size a ≤ S32x1023.size a
  k1_off19_inb : ∀ i : grid1.Coords, ∀ a, (k1_off19 i) a + S1x1.size a ≤ S32x1023.size a
  k1_off21_inb : ∀ i : grid1.Coords, ∀ a, (k1_off21 i) a + S1x1.size a ≤ S32x1023.size a
  k1_off23_inb : ∀ i : grid1.Coords, ∀ a, (k1_off23 i) a + S1x1.size a ≤ S32x1023.size a
  k1_off25_inb : ∀ i : grid1.Coords, ∀ a, (k1_off25 i) a + S1x1.size a ≤ S32x1023.size a
  k1_off27_inb : ∀ i : grid1.Coords, ∀ a, (k1_off27 i) a + S1x1.size a ≤ S32x1023.size a
  k1_off29_inb : ∀ i : grid1.Coords, ∀ a, (k1_off29 i) a + S1x1.size a ≤ S32x1023.size a
  k1_off31_inb : ∀ i : grid1.Coords, ∀ a, (k1_off31 i) a + S1x1.size a ≤ S32x1023.size a
  k1_off33_inb : ∀ i : grid1.Coords, ∀ a, (k1_off33 i) a + S1x1.size a ≤ S32x1023.size a
  k1_off35_inb : ∀ i : grid1.Coords, ∀ a, (k1_off35 i) a + S1x1.size a ≤ S32x1023.size a
  k1_off37_inb : ∀ i : grid1.Coords, ∀ a, (k1_off37 i) a + S1x1.size a ≤ S32x1023.size a
  k1_off39_inb : ∀ i : grid1.Coords, ∀ a, (k1_off39 i) a + S1x1.size a ≤ S32x1023.size a
  k1_off41_inb : ∀ i : grid1.Coords, ∀ a, (k1_off41 i) a + S1x1.size a ≤ S32x1023.size a
  k1_off43_inb : ∀ i : grid1.Coords, ∀ a, (k1_off43 i) a + S1x1.size a ≤ S32x1023.size a
  k1_off45_inb : ∀ i : grid1.Coords, ∀ a, (k1_off45 i) a + S1x1.size a ≤ S32x1023.size a
  k1_off47_inb : ∀ i : grid1.Coords, ∀ a, (k1_off47 i) a + S1x1.size a ≤ S32x1023.size a
  k1_off49_inb : ∀ i : grid1.Coords, ∀ a, (k1_off49 i) a + S1x1.size a ≤ S32x1023.size a
  k1_off51_inb : ∀ i : grid1.Coords, ∀ a, (k1_off51 i) a + S1x1.size a ≤ S32x1023.size a
  k1_off53_inb : ∀ i : grid1.Coords, ∀ a, (k1_off53 i) a + S1x1.size a ≤ S32x1023.size a
  k1_off55_inb : ∀ i : grid1.Coords, ∀ a, (k1_off55 i) a + S1x1.size a ≤ S32x1023.size a
  k1_off57_inb : ∀ i : grid1.Coords, ∀ a, (k1_off57 i) a + S1x1.size a ≤ S32x1023.size a
  k1_off59_inb : ∀ i : grid1.Coords, ∀ a, (k1_off59 i) a + S1x1.size a ≤ S32x1023.size a
  k1_off61_inb : ∀ i : grid1.Coords, ∀ a, (k1_off61 i) a + S1x1.size a ≤ S32x1023.size a
  k1_off63_inb : ∀ i : grid1.Coords, ∀ a, (k1_off63 i) a + S1x1.size a ≤ S32x1023.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S1x32x8.size a ≤ S1023x32x8.size a
  hwx1_0 : ∀ i : grid1.Coords, EltTy.bits .f32 = 32 ∨ (Rect.block (s := S1023x32x8) S1x32x8.size (cc1_transform_1 i) (hinb1_0 i)).WholeWords (EltTy.packing .f32)
  hrank2 : 0 < grid2.rank
  k2_off1_inb : ∀ i : grid2.Coords, ∀ a, (k2_off1 i) a + S1x1.size a ≤ S32x1023.size a
  k2_off3_inb : ∀ i : grid2.Coords, ∀ a, (k2_off3 i) a + S1x1.size a ≤ S32x1023.size a
  k2_off5_inb : ∀ i : grid2.Coords, ∀ a, (k2_off5 i) a + S1x1.size a ≤ S32x1023.size a
  k2_off7_inb : ∀ i : grid2.Coords, ∀ a, (k2_off7 i) a + S1x1.size a ≤ S32x1023.size a
  k2_off9_inb : ∀ i : grid2.Coords, ∀ a, (k2_off9 i) a + S1x1.size a ≤ S32x1023.size a
  k2_off11_inb : ∀ i : grid2.Coords, ∀ a, (k2_off11 i) a + S1x1.size a ≤ S32x1023.size a
  k2_off13_inb : ∀ i : grid2.Coords, ∀ a, (k2_off13 i) a + S1x1.size a ≤ S32x1023.size a
  k2_off15_inb : ∀ i : grid2.Coords, ∀ a, (k2_off15 i) a + S1x1.size a ≤ S32x1023.size a
  k2_off17_inb : ∀ i : grid2.Coords, ∀ a, (k2_off17 i) a + S1x1.size a ≤ S32x1023.size a
  k2_off19_inb : ∀ i : grid2.Coords, ∀ a, (k2_off19 i) a + S1x1.size a ≤ S32x1023.size a
  k2_off21_inb : ∀ i : grid2.Coords, ∀ a, (k2_off21 i) a + S1x1.size a ≤ S32x1023.size a
  k2_off23_inb : ∀ i : grid2.Coords, ∀ a, (k2_off23 i) a + S1x1.size a ≤ S32x1023.size a
  k2_off25_inb : ∀ i : grid2.Coords, ∀ a, (k2_off25 i) a + S1x1.size a ≤ S32x1023.size a
  k2_off27_inb : ∀ i : grid2.Coords, ∀ a, (k2_off27 i) a + S1x1.size a ≤ S32x1023.size a
  k2_off29_inb : ∀ i : grid2.Coords, ∀ a, (k2_off29 i) a + S1x1.size a ≤ S32x1023.size a
  k2_off31_inb : ∀ i : grid2.Coords, ∀ a, (k2_off31 i) a + S1x1.size a ≤ S32x1023.size a
  k2_off33_inb : ∀ i : grid2.Coords, ∀ a, (k2_off33 i) a + S1x1.size a ≤ S32x1023.size a
  k2_off35_inb : ∀ i : grid2.Coords, ∀ a, (k2_off35 i) a + S1x1.size a ≤ S32x1023.size a
  k2_off37_inb : ∀ i : grid2.Coords, ∀ a, (k2_off37 i) a + S1x1.size a ≤ S32x1023.size a
  k2_off39_inb : ∀ i : grid2.Coords, ∀ a, (k2_off39 i) a + S1x1.size a ≤ S32x1023.size a
  k2_off41_inb : ∀ i : grid2.Coords, ∀ a, (k2_off41 i) a + S1x1.size a ≤ S32x1023.size a
  k2_off43_inb : ∀ i : grid2.Coords, ∀ a, (k2_off43 i) a + S1x1.size a ≤ S32x1023.size a
  k2_off45_inb : ∀ i : grid2.Coords, ∀ a, (k2_off45 i) a + S1x1.size a ≤ S32x1023.size a
  k2_off47_inb : ∀ i : grid2.Coords, ∀ a, (k2_off47 i) a + S1x1.size a ≤ S32x1023.size a
  k2_off49_inb : ∀ i : grid2.Coords, ∀ a, (k2_off49 i) a + S1x1.size a ≤ S32x1023.size a
  k2_off51_inb : ∀ i : grid2.Coords, ∀ a, (k2_off51 i) a + S1x1.size a ≤ S32x1023.size a
  k2_off53_inb : ∀ i : grid2.Coords, ∀ a, (k2_off53 i) a + S1x1.size a ≤ S32x1023.size a
  k2_off55_inb : ∀ i : grid2.Coords, ∀ a, (k2_off55 i) a + S1x1.size a ≤ S32x1023.size a
  k2_off57_inb : ∀ i : grid2.Coords, ∀ a, (k2_off57 i) a + S1x1.size a ≤ S32x1023.size a
  k2_off59_inb : ∀ i : grid2.Coords, ∀ a, (k2_off59 i) a + S1x1.size a ≤ S32x1023.size a
  k2_off61_inb : ∀ i : grid2.Coords, ∀ a, (k2_off61 i) a + S1x1.size a ≤ S32x1023.size a
  k2_off63_inb : ∀ i : grid2.Coords, ∀ a, (k2_off63 i) a + S1x1.size a ≤ S32x1023.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S1x32x8.size a ≤ S1023x32x8.size a
  hwx2_0 : ∀ i : grid2.Coords, EltTy.bits .f32 = 32 ∨ (Rect.block (s := S1023x32x8) S1x32x8.size (cc2_transform_1 i) (hinb2_0 i)).WholeWords (EltTy.packing .f32)
  hrank3 : 0 < grid3.rank
  k3_off1_inb : ∀ i : grid3.Coords, ∀ a, (k3_off1 i) a + S1x1.size a ≤ S32x1023.size a
  k3_off3_inb : ∀ i : grid3.Coords, ∀ a, (k3_off3 i) a + S1x1.size a ≤ S32x1023.size a
  k3_off5_inb : ∀ i : grid3.Coords, ∀ a, (k3_off5 i) a + S1x1.size a ≤ S32x1023.size a
  k3_off7_inb : ∀ i : grid3.Coords, ∀ a, (k3_off7 i) a + S1x1.size a ≤ S32x1023.size a
  k3_off9_inb : ∀ i : grid3.Coords, ∀ a, (k3_off9 i) a + S1x1.size a ≤ S32x1023.size a
  k3_off11_inb : ∀ i : grid3.Coords, ∀ a, (k3_off11 i) a + S1x1.size a ≤ S32x1023.size a
  k3_off13_inb : ∀ i : grid3.Coords, ∀ a, (k3_off13 i) a + S1x1.size a ≤ S32x1023.size a
  k3_off15_inb : ∀ i : grid3.Coords, ∀ a, (k3_off15 i) a + S1x1.size a ≤ S32x1023.size a
  k3_off17_inb : ∀ i : grid3.Coords, ∀ a, (k3_off17 i) a + S1x1.size a ≤ S32x1023.size a
  k3_off19_inb : ∀ i : grid3.Coords, ∀ a, (k3_off19 i) a + S1x1.size a ≤ S32x1023.size a
  k3_off21_inb : ∀ i : grid3.Coords, ∀ a, (k3_off21 i) a + S1x1.size a ≤ S32x1023.size a
  k3_off23_inb : ∀ i : grid3.Coords, ∀ a, (k3_off23 i) a + S1x1.size a ≤ S32x1023.size a
  k3_off25_inb : ∀ i : grid3.Coords, ∀ a, (k3_off25 i) a + S1x1.size a ≤ S32x1023.size a
  k3_off27_inb : ∀ i : grid3.Coords, ∀ a, (k3_off27 i) a + S1x1.size a ≤ S32x1023.size a
  k3_off29_inb : ∀ i : grid3.Coords, ∀ a, (k3_off29 i) a + S1x1.size a ≤ S32x1023.size a
  k3_off31_inb : ∀ i : grid3.Coords, ∀ a, (k3_off31 i) a + S1x1.size a ≤ S32x1023.size a
  k3_off33_inb : ∀ i : grid3.Coords, ∀ a, (k3_off33 i) a + S1x1.size a ≤ S32x1023.size a
  k3_off35_inb : ∀ i : grid3.Coords, ∀ a, (k3_off35 i) a + S1x1.size a ≤ S32x1023.size a
  k3_off37_inb : ∀ i : grid3.Coords, ∀ a, (k3_off37 i) a + S1x1.size a ≤ S32x1023.size a
  k3_off39_inb : ∀ i : grid3.Coords, ∀ a, (k3_off39 i) a + S1x1.size a ≤ S32x1023.size a
  k3_off41_inb : ∀ i : grid3.Coords, ∀ a, (k3_off41 i) a + S1x1.size a ≤ S32x1023.size a
  k3_off43_inb : ∀ i : grid3.Coords, ∀ a, (k3_off43 i) a + S1x1.size a ≤ S32x1023.size a
  k3_off45_inb : ∀ i : grid3.Coords, ∀ a, (k3_off45 i) a + S1x1.size a ≤ S32x1023.size a
  k3_off47_inb : ∀ i : grid3.Coords, ∀ a, (k3_off47 i) a + S1x1.size a ≤ S32x1023.size a
  k3_off49_inb : ∀ i : grid3.Coords, ∀ a, (k3_off49 i) a + S1x1.size a ≤ S32x1023.size a
  k3_off51_inb : ∀ i : grid3.Coords, ∀ a, (k3_off51 i) a + S1x1.size a ≤ S32x1023.size a
  k3_off53_inb : ∀ i : grid3.Coords, ∀ a, (k3_off53 i) a + S1x1.size a ≤ S32x1023.size a
  k3_off55_inb : ∀ i : grid3.Coords, ∀ a, (k3_off55 i) a + S1x1.size a ≤ S32x1023.size a
  k3_off57_inb : ∀ i : grid3.Coords, ∀ a, (k3_off57 i) a + S1x1.size a ≤ S32x1023.size a
  k3_off59_inb : ∀ i : grid3.Coords, ∀ a, (k3_off59 i) a + S1x1.size a ≤ S32x1023.size a
  k3_off61_inb : ∀ i : grid3.Coords, ∀ a, (k3_off61 i) a + S1x1.size a ≤ S32x1023.size a
  k3_off63_inb : ∀ i : grid3.Coords, ∀ a, (k3_off63 i) a + S1x1.size a ≤ S32x1023.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S1x32x8.size a ≤ S1023x32x8.size a
  hwx3_0 : ∀ i : grid3.Coords, EltTy.bits .f32 = 32 ∨ (Rect.block (s := S1023x32x8) S1x32x8.size (cc3_transform_1 i) (hinb3_0 i)).WholeWords (EltTy.packing .f32)
  hrank4 : 0 < grid4.rank
  k4_off1_inb : ∀ i : grid4.Coords, ∀ a, (k4_off1 i) a + S1x1.size a ≤ S32x1023.size a
  k4_off3_inb : ∀ i : grid4.Coords, ∀ a, (k4_off3 i) a + S1x1.size a ≤ S32x1023.size a
  k4_off5_inb : ∀ i : grid4.Coords, ∀ a, (k4_off5 i) a + S1x1.size a ≤ S32x1023.size a
  k4_off7_inb : ∀ i : grid4.Coords, ∀ a, (k4_off7 i) a + S1x1.size a ≤ S32x1023.size a
  k4_off9_inb : ∀ i : grid4.Coords, ∀ a, (k4_off9 i) a + S1x1.size a ≤ S32x1023.size a
  k4_off11_inb : ∀ i : grid4.Coords, ∀ a, (k4_off11 i) a + S1x1.size a ≤ S32x1023.size a
  k4_off13_inb : ∀ i : grid4.Coords, ∀ a, (k4_off13 i) a + S1x1.size a ≤ S32x1023.size a
  k4_off15_inb : ∀ i : grid4.Coords, ∀ a, (k4_off15 i) a + S1x1.size a ≤ S32x1023.size a
  k4_off17_inb : ∀ i : grid4.Coords, ∀ a, (k4_off17 i) a + S1x1.size a ≤ S32x1023.size a
  k4_off19_inb : ∀ i : grid4.Coords, ∀ a, (k4_off19 i) a + S1x1.size a ≤ S32x1023.size a
  k4_off21_inb : ∀ i : grid4.Coords, ∀ a, (k4_off21 i) a + S1x1.size a ≤ S32x1023.size a
  k4_off23_inb : ∀ i : grid4.Coords, ∀ a, (k4_off23 i) a + S1x1.size a ≤ S32x1023.size a
  k4_off25_inb : ∀ i : grid4.Coords, ∀ a, (k4_off25 i) a + S1x1.size a ≤ S32x1023.size a
  k4_off27_inb : ∀ i : grid4.Coords, ∀ a, (k4_off27 i) a + S1x1.size a ≤ S32x1023.size a
  k4_off29_inb : ∀ i : grid4.Coords, ∀ a, (k4_off29 i) a + S1x1.size a ≤ S32x1023.size a
  k4_off31_inb : ∀ i : grid4.Coords, ∀ a, (k4_off31 i) a + S1x1.size a ≤ S32x1023.size a
  k4_off33_inb : ∀ i : grid4.Coords, ∀ a, (k4_off33 i) a + S1x1.size a ≤ S32x1023.size a
  k4_off35_inb : ∀ i : grid4.Coords, ∀ a, (k4_off35 i) a + S1x1.size a ≤ S32x1023.size a
  k4_off37_inb : ∀ i : grid4.Coords, ∀ a, (k4_off37 i) a + S1x1.size a ≤ S32x1023.size a
  k4_off39_inb : ∀ i : grid4.Coords, ∀ a, (k4_off39 i) a + S1x1.size a ≤ S32x1023.size a
  k4_off41_inb : ∀ i : grid4.Coords, ∀ a, (k4_off41 i) a + S1x1.size a ≤ S32x1023.size a
  k4_off43_inb : ∀ i : grid4.Coords, ∀ a, (k4_off43 i) a + S1x1.size a ≤ S32x1023.size a
  k4_off45_inb : ∀ i : grid4.Coords, ∀ a, (k4_off45 i) a + S1x1.size a ≤ S32x1023.size a
  k4_off47_inb : ∀ i : grid4.Coords, ∀ a, (k4_off47 i) a + S1x1.size a ≤ S32x1023.size a
  k4_off49_inb : ∀ i : grid4.Coords, ∀ a, (k4_off49 i) a + S1x1.size a ≤ S32x1023.size a
  k4_off51_inb : ∀ i : grid4.Coords, ∀ a, (k4_off51 i) a + S1x1.size a ≤ S32x1023.size a
  k4_off53_inb : ∀ i : grid4.Coords, ∀ a, (k4_off53 i) a + S1x1.size a ≤ S32x1023.size a
  k4_off55_inb : ∀ i : grid4.Coords, ∀ a, (k4_off55 i) a + S1x1.size a ≤ S32x1023.size a
  k4_off57_inb : ∀ i : grid4.Coords, ∀ a, (k4_off57 i) a + S1x1.size a ≤ S32x1023.size a
  k4_off59_inb : ∀ i : grid4.Coords, ∀ a, (k4_off59 i) a + S1x1.size a ≤ S32x1023.size a
  k4_off61_inb : ∀ i : grid4.Coords, ∀ a, (k4_off61 i) a + S1x1.size a ≤ S32x1023.size a
  k4_off63_inb : ∀ i : grid4.Coords, ∀ a, (k4_off63 i) a + S1x1.size a ≤ S32x1023.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S1x32x8.size a ≤ S1023x32x8.size a
  hwx4_0 : ∀ i : grid4.Coords, EltTy.bits .f32 = 32 ∨ (Rect.block (s := S1023x32x8) S1x32x8.size (cc4_transform_1 i) (hinb4_0 i)).WholeWords (EltTy.packing .f32)
  hrank5 : 0 < grid5.rank
  k5_off1_inb : ∀ i : grid5.Coords, ∀ a, (k5_off1 i) a + S1x1.size a ≤ S32x1023.size a
  k5_off3_inb : ∀ i : grid5.Coords, ∀ a, (k5_off3 i) a + S1x1.size a ≤ S32x1023.size a
  k5_off5_inb : ∀ i : grid5.Coords, ∀ a, (k5_off5 i) a + S1x1.size a ≤ S32x1023.size a
  k5_off7_inb : ∀ i : grid5.Coords, ∀ a, (k5_off7 i) a + S1x1.size a ≤ S32x1023.size a
  k5_off9_inb : ∀ i : grid5.Coords, ∀ a, (k5_off9 i) a + S1x1.size a ≤ S32x1023.size a
  k5_off11_inb : ∀ i : grid5.Coords, ∀ a, (k5_off11 i) a + S1x1.size a ≤ S32x1023.size a
  k5_off13_inb : ∀ i : grid5.Coords, ∀ a, (k5_off13 i) a + S1x1.size a ≤ S32x1023.size a
  k5_off15_inb : ∀ i : grid5.Coords, ∀ a, (k5_off15 i) a + S1x1.size a ≤ S32x1023.size a
  k5_off17_inb : ∀ i : grid5.Coords, ∀ a, (k5_off17 i) a + S1x1.size a ≤ S32x1023.size a
  k5_off19_inb : ∀ i : grid5.Coords, ∀ a, (k5_off19 i) a + S1x1.size a ≤ S32x1023.size a
  k5_off21_inb : ∀ i : grid5.Coords, ∀ a, (k5_off21 i) a + S1x1.size a ≤ S32x1023.size a
  k5_off23_inb : ∀ i : grid5.Coords, ∀ a, (k5_off23 i) a + S1x1.size a ≤ S32x1023.size a
  k5_off25_inb : ∀ i : grid5.Coords, ∀ a, (k5_off25 i) a + S1x1.size a ≤ S32x1023.size a
  k5_off27_inb : ∀ i : grid5.Coords, ∀ a, (k5_off27 i) a + S1x1.size a ≤ S32x1023.size a
  k5_off29_inb : ∀ i : grid5.Coords, ∀ a, (k5_off29 i) a + S1x1.size a ≤ S32x1023.size a
  k5_off31_inb : ∀ i : grid5.Coords, ∀ a, (k5_off31 i) a + S1x1.size a ≤ S32x1023.size a
  k5_off33_inb : ∀ i : grid5.Coords, ∀ a, (k5_off33 i) a + S1x1.size a ≤ S32x1023.size a
  k5_off35_inb : ∀ i : grid5.Coords, ∀ a, (k5_off35 i) a + S1x1.size a ≤ S32x1023.size a
  k5_off37_inb : ∀ i : grid5.Coords, ∀ a, (k5_off37 i) a + S1x1.size a ≤ S32x1023.size a
  k5_off39_inb : ∀ i : grid5.Coords, ∀ a, (k5_off39 i) a + S1x1.size a ≤ S32x1023.size a
  k5_off41_inb : ∀ i : grid5.Coords, ∀ a, (k5_off41 i) a + S1x1.size a ≤ S32x1023.size a
  k5_off43_inb : ∀ i : grid5.Coords, ∀ a, (k5_off43 i) a + S1x1.size a ≤ S32x1023.size a
  k5_off45_inb : ∀ i : grid5.Coords, ∀ a, (k5_off45 i) a + S1x1.size a ≤ S32x1023.size a
  k5_off47_inb : ∀ i : grid5.Coords, ∀ a, (k5_off47 i) a + S1x1.size a ≤ S32x1023.size a
  k5_off49_inb : ∀ i : grid5.Coords, ∀ a, (k5_off49 i) a + S1x1.size a ≤ S32x1023.size a
  k5_off51_inb : ∀ i : grid5.Coords, ∀ a, (k5_off51 i) a + S1x1.size a ≤ S32x1023.size a
  k5_off53_inb : ∀ i : grid5.Coords, ∀ a, (k5_off53 i) a + S1x1.size a ≤ S32x1023.size a
  k5_off55_inb : ∀ i : grid5.Coords, ∀ a, (k5_off55 i) a + S1x1.size a ≤ S32x1023.size a
  k5_off57_inb : ∀ i : grid5.Coords, ∀ a, (k5_off57 i) a + S1x1.size a ≤ S32x1023.size a
  k5_off59_inb : ∀ i : grid5.Coords, ∀ a, (k5_off59 i) a + S1x1.size a ≤ S32x1023.size a
  k5_off61_inb : ∀ i : grid5.Coords, ∀ a, (k5_off61 i) a + S1x1.size a ≤ S32x1023.size a
  k5_off63_inb : ∀ i : grid5.Coords, ∀ a, (k5_off63 i) a + S1x1.size a ≤ S32x1023.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S1x32x8.size a ≤ S1023x32x8.size a
  hwx5_0 : ∀ i : grid5.Coords, EltTy.bits .f32 = 32 ∨ (Rect.block (s := S1023x32x8) S1x32x8.size (cc5_transform_1 i) (hinb5_0 i)).WholeWords (EltTy.packing .f32)
  hrank6 : 0 < grid6.rank
  k6_off1_inb : ∀ i : grid6.Coords, ∀ a, (k6_off1 i) a + S1x1.size a ≤ S32x1023.size a
  k6_off3_inb : ∀ i : grid6.Coords, ∀ a, (k6_off3 i) a + S1x1.size a ≤ S32x1023.size a
  k6_off5_inb : ∀ i : grid6.Coords, ∀ a, (k6_off5 i) a + S1x1.size a ≤ S32x1023.size a
  k6_off7_inb : ∀ i : grid6.Coords, ∀ a, (k6_off7 i) a + S1x1.size a ≤ S32x1023.size a
  k6_off9_inb : ∀ i : grid6.Coords, ∀ a, (k6_off9 i) a + S1x1.size a ≤ S32x1023.size a
  k6_off11_inb : ∀ i : grid6.Coords, ∀ a, (k6_off11 i) a + S1x1.size a ≤ S32x1023.size a
  k6_off13_inb : ∀ i : grid6.Coords, ∀ a, (k6_off13 i) a + S1x1.size a ≤ S32x1023.size a
  k6_off15_inb : ∀ i : grid6.Coords, ∀ a, (k6_off15 i) a + S1x1.size a ≤ S32x1023.size a
  k6_off17_inb : ∀ i : grid6.Coords, ∀ a, (k6_off17 i) a + S1x1.size a ≤ S32x1023.size a
  k6_off19_inb : ∀ i : grid6.Coords, ∀ a, (k6_off19 i) a + S1x1.size a ≤ S32x1023.size a
  k6_off21_inb : ∀ i : grid6.Coords, ∀ a, (k6_off21 i) a + S1x1.size a ≤ S32x1023.size a
  k6_off23_inb : ∀ i : grid6.Coords, ∀ a, (k6_off23 i) a + S1x1.size a ≤ S32x1023.size a
  k6_off25_inb : ∀ i : grid6.Coords, ∀ a, (k6_off25 i) a + S1x1.size a ≤ S32x1023.size a
  k6_off27_inb : ∀ i : grid6.Coords, ∀ a, (k6_off27 i) a + S1x1.size a ≤ S32x1023.size a
  k6_off29_inb : ∀ i : grid6.Coords, ∀ a, (k6_off29 i) a + S1x1.size a ≤ S32x1023.size a
  k6_off31_inb : ∀ i : grid6.Coords, ∀ a, (k6_off31 i) a + S1x1.size a ≤ S32x1023.size a
  k6_off33_inb : ∀ i : grid6.Coords, ∀ a, (k6_off33 i) a + S1x1.size a ≤ S32x1023.size a
  k6_off35_inb : ∀ i : grid6.Coords, ∀ a, (k6_off35 i) a + S1x1.size a ≤ S32x1023.size a
  k6_off37_inb : ∀ i : grid6.Coords, ∀ a, (k6_off37 i) a + S1x1.size a ≤ S32x1023.size a
  k6_off39_inb : ∀ i : grid6.Coords, ∀ a, (k6_off39 i) a + S1x1.size a ≤ S32x1023.size a
  k6_off41_inb : ∀ i : grid6.Coords, ∀ a, (k6_off41 i) a + S1x1.size a ≤ S32x1023.size a
  k6_off43_inb : ∀ i : grid6.Coords, ∀ a, (k6_off43 i) a + S1x1.size a ≤ S32x1023.size a
  k6_off45_inb : ∀ i : grid6.Coords, ∀ a, (k6_off45 i) a + S1x1.size a ≤ S32x1023.size a
  k6_off47_inb : ∀ i : grid6.Coords, ∀ a, (k6_off47 i) a + S1x1.size a ≤ S32x1023.size a
  k6_off49_inb : ∀ i : grid6.Coords, ∀ a, (k6_off49 i) a + S1x1.size a ≤ S32x1023.size a
  k6_off51_inb : ∀ i : grid6.Coords, ∀ a, (k6_off51 i) a + S1x1.size a ≤ S32x1023.size a
  k6_off53_inb : ∀ i : grid6.Coords, ∀ a, (k6_off53 i) a + S1x1.size a ≤ S32x1023.size a
  k6_off55_inb : ∀ i : grid6.Coords, ∀ a, (k6_off55 i) a + S1x1.size a ≤ S32x1023.size a
  k6_off57_inb : ∀ i : grid6.Coords, ∀ a, (k6_off57 i) a + S1x1.size a ≤ S32x1023.size a
  k6_off59_inb : ∀ i : grid6.Coords, ∀ a, (k6_off59 i) a + S1x1.size a ≤ S32x1023.size a
  k6_off61_inb : ∀ i : grid6.Coords, ∀ a, (k6_off61 i) a + S1x1.size a ≤ S32x1023.size a
  k6_off63_inb : ∀ i : grid6.Coords, ∀ a, (k6_off63 i) a + S1x1.size a ≤ S32x1023.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S1x32x8.size a ≤ S1023x32x8.size a
  hwx6_0 : ∀ i : grid6.Coords, EltTy.bits .f32 = 32 ∨ (Rect.block (s := S1023x32x8) S1x32x8.size (cc6_transform_1 i) (hinb6_0 i)).WholeWords (EltTy.packing .f32)
  hrank7 : 0 < grid7.rank
  k7_off1_inb : ∀ i : grid7.Coords, ∀ a, (k7_off1 i) a + S1x1.size a ≤ S32x1023.size a
  k7_off3_inb : ∀ i : grid7.Coords, ∀ a, (k7_off3 i) a + S1x1.size a ≤ S32x1023.size a
  k7_off5_inb : ∀ i : grid7.Coords, ∀ a, (k7_off5 i) a + S1x1.size a ≤ S32x1023.size a
  k7_off7_inb : ∀ i : grid7.Coords, ∀ a, (k7_off7 i) a + S1x1.size a ≤ S32x1023.size a
  k7_off9_inb : ∀ i : grid7.Coords, ∀ a, (k7_off9 i) a + S1x1.size a ≤ S32x1023.size a
  k7_off11_inb : ∀ i : grid7.Coords, ∀ a, (k7_off11 i) a + S1x1.size a ≤ S32x1023.size a
  k7_off13_inb : ∀ i : grid7.Coords, ∀ a, (k7_off13 i) a + S1x1.size a ≤ S32x1023.size a
  k7_off15_inb : ∀ i : grid7.Coords, ∀ a, (k7_off15 i) a + S1x1.size a ≤ S32x1023.size a
  k7_off17_inb : ∀ i : grid7.Coords, ∀ a, (k7_off17 i) a + S1x1.size a ≤ S32x1023.size a
  k7_off19_inb : ∀ i : grid7.Coords, ∀ a, (k7_off19 i) a + S1x1.size a ≤ S32x1023.size a
  k7_off21_inb : ∀ i : grid7.Coords, ∀ a, (k7_off21 i) a + S1x1.size a ≤ S32x1023.size a
  k7_off23_inb : ∀ i : grid7.Coords, ∀ a, (k7_off23 i) a + S1x1.size a ≤ S32x1023.size a
  k7_off25_inb : ∀ i : grid7.Coords, ∀ a, (k7_off25 i) a + S1x1.size a ≤ S32x1023.size a
  k7_off27_inb : ∀ i : grid7.Coords, ∀ a, (k7_off27 i) a + S1x1.size a ≤ S32x1023.size a
  k7_off29_inb : ∀ i : grid7.Coords, ∀ a, (k7_off29 i) a + S1x1.size a ≤ S32x1023.size a
  k7_off31_inb : ∀ i : grid7.Coords, ∀ a, (k7_off31 i) a + S1x1.size a ≤ S32x1023.size a
  k7_off33_inb : ∀ i : grid7.Coords, ∀ a, (k7_off33 i) a + S1x1.size a ≤ S32x1023.size a
  k7_off35_inb : ∀ i : grid7.Coords, ∀ a, (k7_off35 i) a + S1x1.size a ≤ S32x1023.size a
  k7_off37_inb : ∀ i : grid7.Coords, ∀ a, (k7_off37 i) a + S1x1.size a ≤ S32x1023.size a
  k7_off39_inb : ∀ i : grid7.Coords, ∀ a, (k7_off39 i) a + S1x1.size a ≤ S32x1023.size a
  k7_off41_inb : ∀ i : grid7.Coords, ∀ a, (k7_off41 i) a + S1x1.size a ≤ S32x1023.size a
  k7_off43_inb : ∀ i : grid7.Coords, ∀ a, (k7_off43 i) a + S1x1.size a ≤ S32x1023.size a
  k7_off45_inb : ∀ i : grid7.Coords, ∀ a, (k7_off45 i) a + S1x1.size a ≤ S32x1023.size a
  k7_off47_inb : ∀ i : grid7.Coords, ∀ a, (k7_off47 i) a + S1x1.size a ≤ S32x1023.size a
  k7_off49_inb : ∀ i : grid7.Coords, ∀ a, (k7_off49 i) a + S1x1.size a ≤ S32x1023.size a
  k7_off51_inb : ∀ i : grid7.Coords, ∀ a, (k7_off51 i) a + S1x1.size a ≤ S32x1023.size a
  k7_off53_inb : ∀ i : grid7.Coords, ∀ a, (k7_off53 i) a + S1x1.size a ≤ S32x1023.size a
  k7_off55_inb : ∀ i : grid7.Coords, ∀ a, (k7_off55 i) a + S1x1.size a ≤ S32x1023.size a
  k7_off57_inb : ∀ i : grid7.Coords, ∀ a, (k7_off57 i) a + S1x1.size a ≤ S32x1023.size a
  k7_off59_inb : ∀ i : grid7.Coords, ∀ a, (k7_off59 i) a + S1x1.size a ≤ S32x1023.size a
  k7_off61_inb : ∀ i : grid7.Coords, ∀ a, (k7_off61 i) a + S1x1.size a ≤ S32x1023.size a
  k7_off63_inb : ∀ i : grid7.Coords, ∀ a, (k7_off63 i) a + S1x1.size a ≤ S32x1023.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S1x32x8.size a ≤ S1023x32x8.size a
  hwx7_0 : ∀ i : grid7.Coords, EltTy.bits .f32 = 32 ∨ (Rect.block (s := S1023x32x8) S1x32x8.size (cc7_transform_1 i) (hinb7_0 i)).WholeWords (EltTy.packing .f32)
  hrank8 : 0 < grid8.rank
  k8_off1_inb : ∀ i : grid8.Coords, ∀ a, (k8_off1 i) a + S1x1.size a ≤ S32x1023.size a
  k8_off3_inb : ∀ i : grid8.Coords, ∀ a, (k8_off3 i) a + S1x1.size a ≤ S32x1023.size a
  k8_off5_inb : ∀ i : grid8.Coords, ∀ a, (k8_off5 i) a + S1x1.size a ≤ S32x1023.size a
  k8_off7_inb : ∀ i : grid8.Coords, ∀ a, (k8_off7 i) a + S1x1.size a ≤ S32x1023.size a
  k8_off9_inb : ∀ i : grid8.Coords, ∀ a, (k8_off9 i) a + S1x1.size a ≤ S32x1023.size a
  k8_off11_inb : ∀ i : grid8.Coords, ∀ a, (k8_off11 i) a + S1x1.size a ≤ S32x1023.size a
  k8_off13_inb : ∀ i : grid8.Coords, ∀ a, (k8_off13 i) a + S1x1.size a ≤ S32x1023.size a
  k8_off15_inb : ∀ i : grid8.Coords, ∀ a, (k8_off15 i) a + S1x1.size a ≤ S32x1023.size a
  k8_off17_inb : ∀ i : grid8.Coords, ∀ a, (k8_off17 i) a + S1x1.size a ≤ S32x1023.size a
  k8_off19_inb : ∀ i : grid8.Coords, ∀ a, (k8_off19 i) a + S1x1.size a ≤ S32x1023.size a
  k8_off21_inb : ∀ i : grid8.Coords, ∀ a, (k8_off21 i) a + S1x1.size a ≤ S32x1023.size a
  k8_off23_inb : ∀ i : grid8.Coords, ∀ a, (k8_off23 i) a + S1x1.size a ≤ S32x1023.size a
  k8_off25_inb : ∀ i : grid8.Coords, ∀ a, (k8_off25 i) a + S1x1.size a ≤ S32x1023.size a
  k8_off27_inb : ∀ i : grid8.Coords, ∀ a, (k8_off27 i) a + S1x1.size a ≤ S32x1023.size a
  k8_off29_inb : ∀ i : grid8.Coords, ∀ a, (k8_off29 i) a + S1x1.size a ≤ S32x1023.size a
  k8_off31_inb : ∀ i : grid8.Coords, ∀ a, (k8_off31 i) a + S1x1.size a ≤ S32x1023.size a
  k8_off33_inb : ∀ i : grid8.Coords, ∀ a, (k8_off33 i) a + S1x1.size a ≤ S32x1023.size a
  k8_off35_inb : ∀ i : grid8.Coords, ∀ a, (k8_off35 i) a + S1x1.size a ≤ S32x1023.size a
  k8_off37_inb : ∀ i : grid8.Coords, ∀ a, (k8_off37 i) a + S1x1.size a ≤ S32x1023.size a
  k8_off39_inb : ∀ i : grid8.Coords, ∀ a, (k8_off39 i) a + S1x1.size a ≤ S32x1023.size a
  k8_off41_inb : ∀ i : grid8.Coords, ∀ a, (k8_off41 i) a + S1x1.size a ≤ S32x1023.size a
  k8_off43_inb : ∀ i : grid8.Coords, ∀ a, (k8_off43 i) a + S1x1.size a ≤ S32x1023.size a
  k8_off45_inb : ∀ i : grid8.Coords, ∀ a, (k8_off45 i) a + S1x1.size a ≤ S32x1023.size a
  k8_off47_inb : ∀ i : grid8.Coords, ∀ a, (k8_off47 i) a + S1x1.size a ≤ S32x1023.size a
  k8_off49_inb : ∀ i : grid8.Coords, ∀ a, (k8_off49 i) a + S1x1.size a ≤ S32x1023.size a
  k8_off51_inb : ∀ i : grid8.Coords, ∀ a, (k8_off51 i) a + S1x1.size a ≤ S32x1023.size a
  k8_off53_inb : ∀ i : grid8.Coords, ∀ a, (k8_off53 i) a + S1x1.size a ≤ S32x1023.size a
  k8_off55_inb : ∀ i : grid8.Coords, ∀ a, (k8_off55 i) a + S1x1.size a ≤ S32x1023.size a
  k8_off57_inb : ∀ i : grid8.Coords, ∀ a, (k8_off57 i) a + S1x1.size a ≤ S32x1023.size a
  k8_off59_inb : ∀ i : grid8.Coords, ∀ a, (k8_off59 i) a + S1x1.size a ≤ S32x1023.size a
  k8_off61_inb : ∀ i : grid8.Coords, ∀ a, (k8_off61 i) a + S1x1.size a ≤ S32x1023.size a
  k8_off63_inb : ∀ i : grid8.Coords, ∀ a, (k8_off63 i) a + S1x1.size a ≤ S32x1023.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S1x32x8.size a ≤ S1023x32x8.size a
  hwx8_0 : ∀ i : grid8.Coords, EltTy.bits .f32 = 32 ∨ (Rect.block (s := S1023x32x8) S1x32x8.size (cc8_transform_1 i) (hinb8_0 i)).WholeWords (EltTy.packing .f32)

variable [Facts₀]

abbrev cc1_scratch1 : DmaSems sig S32 := SemArray.consecutive 7 S32 hcc1_scratch1
abbrev cc2_scratch1 : DmaSems sig S32 := SemArray.consecutive 41 S32 hcc2_scratch1
abbrev cc3_scratch1 : DmaSems sig S32 := SemArray.consecutive 75 S32 hcc3_scratch1
abbrev cc4_scratch1 : DmaSems sig S32 := SemArray.consecutive 109 S32 hcc4_scratch1
abbrev cc5_scratch1 : DmaSems sig S32 := SemArray.consecutive 143 S32 hcc5_scratch1
abbrev cc6_scratch1 : DmaSems sig S32 := SemArray.consecutive 177 S32 hcc6_scratch1
abbrev cc7_scratch1 : DmaSems sig S32 := SemArray.consecutive 211 S32 hcc7_scratch1
abbrev cc8_scratch1 : DmaSems sig S32 := SemArray.consecutive 245 S32 hcc8_scratch1
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v35) S1x32x8.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v38) S1x32x8.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v41) S1x32x8.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev spec4_0 : Pipeline.WinSpec sig grid4.rank :=
  Pipeline.WinSpec.ofSpec (Memref.whole main_v44) S1x32x8.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))
abbrev spec5_0 : Pipeline.WinSpec sig grid5.rank :=
  Pipeline.WinSpec.ofSpec (Memref.whole main_v52) S1x32x8.size reads5_0 true false 2 stage5_0 sem5_0 nbuf5_0 hstage5_0

abbrev spec5 : Fin 1 → Pipeline.WinSpec sig grid5.rank := fun | 0 => spec5_0 | ⟨_ + 1, h⟩ => absurd h (Nat.not_lt.2 (Nat.le_add_left _ _))
theorem hcount5 : ∀ w, grid5.bufCount (spec5 w).reads (spec5 w).sync = (spec5 w).nbuf := fun | 0 => nbuf5_0 | ⟨_ + 1, h⟩ => absurd h (Nat.not_lt.2 (Nat.le_add_left _ _))
abbrev ix5 (pf : pre5.Contents (Elt F)) : (w : Fin 1) → grid5.Coords → Fin (spec5 w).shape.rank → Nat := fun | 0 => cc5_transform_1 | ⟨_ + 1, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | ⟨_ + 1, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | ⟨_ + 1, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | ⟨_ + 1, h⟩ => absurd h (Nat.not_lt.2 (Nat.le_add_left _ _))
abbrev spec6_0 : Pipeline.WinSpec sig grid6.rank :=
  Pipeline.WinSpec.ofSpec (Memref.whole main_v55) S1x32x8.size reads6_0 true false 2 stage6_0 sem6_0 nbuf6_0 hstage6_0

abbrev spec6 : Fin 1 → Pipeline.WinSpec sig grid6.rank := fun | 0 => spec6_0 | ⟨_ + 1, h⟩ => absurd h (Nat.not_lt.2 (Nat.le_add_left _ _))
theorem hcount6 : ∀ w, grid6.bufCount (spec6 w).reads (spec6 w).sync = (spec6 w).nbuf := fun | 0 => nbuf6_0 | ⟨_ + 1, h⟩ => absurd h (Nat.not_lt.2 (Nat.le_add_left _ _))
abbrev ix6 (pf : pre6.Contents (Elt F)) : (w : Fin 1) → grid6.Coords → Fin (spec6 w).shape.rank → Nat := fun | 0 => cc6_transform_1 | ⟨_ + 1, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | ⟨_ + 1, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | ⟨_ + 1, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | ⟨_ + 1, h⟩ => absurd h (Nat.not_lt.2 (Nat.le_add_left _ _))
abbrev spec7_0 : Pipeline.WinSpec sig grid7.rank :=
  Pipeline.WinSpec.ofSpec (Memref.whole main_v58) S1x32x8.size reads7_0 true false 2 stage7_0 sem7_0 nbuf7_0 hstage7_0

abbrev spec7 : Fin 1 → Pipeline.WinSpec sig grid7.rank := fun | 0 => spec7_0 | ⟨_ + 1, h⟩ => absurd h (Nat.not_lt.2 (Nat.le_add_left _ _))
theorem hcount7 : ∀ w, grid7.bufCount (spec7 w).reads (spec7 w).sync = (spec7 w).nbuf := fun | 0 => nbuf7_0 | ⟨_ + 1, h⟩ => absurd h (Nat.not_lt.2 (Nat.le_add_left _ _))
abbrev ix7 (pf : pre7.Contents (Elt F)) : (w : Fin 1) → grid7.Coords → Fin (spec7 w).shape.rank → Nat := fun | 0 => cc7_transform_1 | ⟨_ + 1, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | ⟨_ + 1, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | ⟨_ + 1, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | ⟨_ + 1, h⟩ => absurd h (Nat.not_lt.2 (Nat.le_add_left _ _))
abbrev spec8_0 : Pipeline.WinSpec sig grid8.rank :=
  Pipeline.WinSpec.ofSpec (Memref.whole main_v61) S1x32x8.size reads8_0 true false 2 stage8_0 sem8_0 nbuf8_0 hstage8_0

abbrev spec8 : Fin 1 → Pipeline.WinSpec sig grid8.rank := fun | 0 => spec8_0 | ⟨_ + 1, h⟩ => absurd h (Nat.not_lt.2 (Nat.le_add_left _ _))
theorem hcount8 : ∀ w, grid8.bufCount (spec8 w).reads (spec8 w).sync = (spec8 w).nbuf := fun | 0 => nbuf8_0 | ⟨_ + 1, h⟩ => absurd h (Nat.not_lt.2 (Nat.le_add_left _ _))
abbrev ix8 (pf : pre8.Contents (Elt F)) : (w : Fin 1) → grid8.Coords → Fin (spec8 w).shape.rank → Nat := fun | 0 => cc8_transform_1 | ⟨_ + 1, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | ⟨_ + 1, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | ⟨_ + 1, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | ⟨_ + 1, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole

variable [Facts]
-- ==== ReferenceIdeal.lean ====
abbrev S2x1024x256 : Shape := ⟨3, ![2, 1024, 256]⟩
abbrev S4x256x256 : Shape := ⟨3, ![4, 256, 256]⟩
abbrev S8388608x8 : Shape := ⟨2, ![8388608, 8]⟩
abbrev S4x256x2x1024 : Shape := ⟨4, ![4, 256, 2, 1024]⟩
abbrev S2x4x1024x256 : Shape := ⟨4, ![2, 4, 1024, 256]⟩
abbrev S2x4x1024x32x8 : Shape := ⟨5, ![2, 4, 1024, 32, 8]⟩
abbrev S_ : Shape := ⟨0, ![]⟩
abbrev S8 : Shape := ⟨1, ![8]⟩
abbrev S1x1x1x1x8 : Shape := ⟨5, ![1, 1, 1, 1, 8]⟩
abbrev S2x4x1024x32 : Shape := ⟨4, ![2, 4, 1024, 32]⟩
abbrev S2x4x1023x32 : Shape := ⟨4, ![2, 4, 1023, 32]⟩
abbrev S4 : Shape := ⟨1, ![4]⟩
abbrev S1x4x1x1 : Shape := ⟨4, ![1, 4, 1, 1]⟩
abbrev S32 : Shape := ⟨1, ![32]⟩
abbrev S1x1x1x32 : Shape := ⟨4, ![1, 1, 1, 32]⟩
abbrev S1x4x1x32 : Shape := ⟨4, ![1, 4, 1, 32]⟩
abbrev S2x4x1023x32x1 : Shape := ⟨5, ![2, 4, 1023, 32, 1]⟩
abbrev S2x4x1023x32x8 : Shape := ⟨5, ![2, 4, 1023, 32, 8]⟩
abbrev S2x4x1023x256 : Shape := ⟨4, ![2, 4, 1023, 256]⟩

abbrev nBuf : Space → Nat
  | .hbm => 47
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S4x256x256, .f32⟩
  | .hbm, ⟨2, _⟩ => ⟨S8388608x8, .f32⟩
  | .hbm, ⟨3, _⟩ => ⟨S4x256x2x1024, .f32⟩
  | .hbm, ⟨4, _⟩ => ⟨S2x4x1024x256, .f32⟩
  | .hbm, ⟨5, _⟩ => ⟨S2x4x1024x32x8, .f32⟩
  | .hbm, ⟨6, _⟩ => ⟨S_, .f32⟩
  | .hbm, ⟨7, _⟩ => ⟨S2x4x1024x32x8, .f32⟩
  | .hbm, ⟨8, _⟩ => ⟨S2x4x1024x32x8, .i1⟩
  | .hbm, ⟨9, _⟩ => ⟨S2x4x1024x32x8, .i32⟩
  | .hbm, ⟨10, _⟩ => ⟨S8, .i32⟩
  | .hbm, ⟨11, _⟩ => ⟨S1x1x1x1x8, .i32⟩
  | .hbm, ⟨12, _⟩ => ⟨S2x4x1024x32x8, .i32⟩
  | .hbm, ⟨13, _⟩ => ⟨S2x4x1024x32x8, .i32⟩
  | .hbm, ⟨14, _⟩ => ⟨S_, .i32⟩
  | .hbm, ⟨15, _⟩ => ⟨S2x4x1024x32, .i32⟩
  | .hbm, ⟨16, _⟩ => ⟨S2x4x1023x32, .i32⟩
  | .hbm, ⟨17, _⟩ => ⟨S2x4x1023x32, .i32⟩
  | .hbm, ⟨18, _⟩ => ⟨S_, .i32⟩
  | .hbm, ⟨19, _⟩ => ⟨S2x4x1023x32, .i32⟩
  | .hbm, ⟨20, _⟩ => ⟨S2x4x1023x32, .i32⟩
  | .hbm, ⟨21, _⟩ => ⟨S2x4x1023x32, .i32⟩
  | .hbm, ⟨22, _⟩ => ⟨S4, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S1x4x1x1, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S1x1x1x32, .i32⟩
  | .hbm, ⟨32, _⟩ => ⟨S1x4x1x32, .i32⟩
  | .hbm, ⟨33, _⟩ => ⟨S1x4x1x32, .i32⟩
  | .hbm, ⟨34, _⟩ => ⟨S1x4x1x32, .i32⟩
  | .hbm, ⟨35, _⟩ => ⟨S2x4x1023x32, .i32⟩
  | .hbm, ⟨36, _⟩ => ⟨S2x4x1023x32, .i32⟩
  | .hbm, ⟨37, _⟩ => ⟨S_, .i32⟩
  | .hbm, ⟨38, _⟩ => ⟨S2x4x1023x32, .i32⟩
  | .hbm, ⟨39, _⟩ => ⟨S2x4x1023x32, .i1⟩
  | .hbm, ⟨40, _⟩ => ⟨S_, .i32⟩
  | .hbm, ⟨41, _⟩ => ⟨S2x4x1023x32, .i32⟩
  | .hbm, ⟨42, _⟩ => ⟨S2x4x1023x32, .i32⟩
  | .hbm, ⟨43, _⟩ => ⟨S2x4x1023x32, .i32⟩
  | .hbm, ⟨44, _⟩ => ⟨S2x4x1023x32x1, .i32⟩
  | .hbm, ⟨45, _⟩ => ⟨S2x4x1023x32x8, .f32⟩
  | .hbm, ⟨46, _⟩ => ⟨S2x4x1023x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  transposes_S4x256x2x1024_S2x4x1024x256_2_0_3_1 : S4x256x2x1024.Transposes [2, 0, 3, 1] S2x4x1024x256
  shapeCasts_S2x4x1024x256_S2x4x1024x32x8 : S2x4x1024x256.ShapeCasts S2x4x1024x32x8
  bcast_S_S2x4x1024x32x8 : S_.BroadcastsInDim S2x4x1024x32x8 (![] : Fin 0 → Fin S2x4x1024x32x8.rank)
  natLt_1_32 : 1 < 32
  bcast_S8_S1x1x1x1x8_4 : S8.BroadcastsInDim S1x1x1x1x8 (![4] : Fin 1 → Fin S1x1x1x1x8.rank)
  bcast_S1x1x1x1x8_S2x4x1024x32x8_0_1_2_3_4 : S1x1x1x1x8.BroadcastsInDim S2x4x1024x32x8 (![0, 1, 2, 3, 4] : Fin 5 → Fin S2x4x1024x32x8.rank)
  reducesTo_S2x4x1024x32x8_S2x4x1024x32_d4 : S2x4x1024x32x8.ReducesTo [4] S2x4x1024x32
  h_S_ : 0 < S_.numel
  slices_S2x4x1024x32_S2x4x1023x32_0_0_0_0 : S2x4x1024x32.Slices ![0, 0, 0, 0] S2x4x1023x32
  slices_S2x4x1024x32_S2x4x1023x32_0_0_1_0 : S2x4x1024x32.Slices ![0, 0, 1, 0] S2x4x1023x32
  bcast_S_S2x4x1023x32 : S_.BroadcastsInDim S2x4x1023x32 (![] : Fin 0 → Fin S2x4x1023x32.rank)
  bcast_S_S4 : S_.BroadcastsInDim S4 (![] : Fin 0 → Fin S4.rank)
  shapeCasts_S4_S1x4x1x1 : S4.ShapeCasts S1x4x1x1
  bcast_S_S32 : S_.BroadcastsInDim S32 (![] : Fin 0 → Fin S32.rank)
  shapeCasts_S32_S1x1x1x32 : S32.ShapeCasts S1x1x1x32
  bcast_S1x4x1x1_S1x4x1x32_0_1_2_3 : S1x4x1x1.BroadcastsInDim S1x4x1x32 (![0, 1, 2, 3] : Fin 4 → Fin S1x4x1x32.rank)
  bcast_S1x1x1x32_S1x4x1x32_0_1_2_3 : S1x1x1x32.BroadcastsInDim S1x4x1x32 (![0, 1, 2, 3] : Fin 4 → Fin S1x4x1x32.rank)
  bcast_S1x4x1x32_S2x4x1023x32_0_1_2_3 : S1x4x1x32.BroadcastsInDim S2x4x1023x32 (![0, 1, 2, 3] : Fin 4 → Fin S2x4x1023x32.rank)
  bcast_S2x4x1023x32_S2x4x1023x32x1_0_1_2_3 : S2x4x1023x32.BroadcastsInDim S2x4x1023x32x1 (![0, 1, 2, 3] : Fin 4 → Fin S2x4x1023x32x1.rank)
  shapeCasts_S2x4x1023x32x8_S2x4x1023x256 : S2x4x1023x32x8.ShapeCasts S2x4x1023x256
  dot_S4x256x256_S2x1024x256_S4x256x2x1024_2_2_01_01_n_n_wf : DotDims.WF S4x256x256 S2x1024x256 S4x256x2x1024 [2] [2] [0, 1] [0, 1] [] []
  gather_S8388608x8_S2x4x1023x32x1_S2x4x1023x32x8_4_0_n_n_0_4_18_wf : GatherDims.WF S8388608x8 S2x4x1023x32x1 S2x4x1023x32x8 [4] [0] [] [0] [] 4 ![1, 8]

variable [Facts₀]

def dot_S4x256x256_S2x1024x256_S4x256x2x1024_2_2_01_01_n_n : DotDims S4x256x256 S2x1024x256 S4x256x2x1024 where
  lhsContracting := [2]
  rhsContracting := [2]
  lhsNonContracting := [0, 1]
  rhsNonContracting := [0, 1]
  lhsBatch := []
  rhsBatch := []
  wf := dot_S4x256x256_S2x1024x256_S4x256x2x1024_2_2_01_01_n_n_wf
def gather_S8388608x8_S2x4x1023x32x1_S2x4x1023x32x8_4_0_n_n_0_4_18 : GatherDims S8388608x8 S2x4x1023x32x1 S2x4x1023x32x8 where
  offsetDims := [4]
  collapsedSliceDims := [0]
  operandBatchingDims := []
  startIndicesBatchingDims := []
  startIndexMap := [0]
  indexVectorDim := 4
  sliceSizes := ![1, 8]
  wf := gather_S8388608x8_S2x4x1023x32x1_S2x4x1023x32x8_4_0_n_n_0_4_18_wf

class Facts : Prop extends Facts₀ where

variable [Facts]
-- ==== Proof.KernelProj.lean ====
/-
  The projection kernel's region: at each of its four grid points the body multiplies the whole flattened hidden
  block by one subtable's transposed weight block and stores the product into that subtable's output block.
  Stated here: what the body leaves in the output block, the body's triple, the pipeline's proof data over the
  contents `V` the region is entered with, and the body obligation at every point. Everything is stated at any
  float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projection kernel (the first pallas_call): one grid point per subtable `s`

At point `s` the body loads the whole flattened hidden block (2048 × 256) and subtable `s`'s transposed weight block
(256 × 256), multiplies them on the matrix unit into a zero accumulator, and stores the product whole into the
output block `s`. -/

section Proj
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rH : Rect S2048x256 := Rect.unit (s := S2048x256) ![0, 0] S2048x256.size inb_S2048x256_S2048x256_0_0
abbrev rW : Rect S1x256x256 := Rect.unit (s := S1x256x256) ![0, 0, 0] S1x256x256.size inb_S1x256x256_S1x256x256_0_0_0
abbrev rO : Rect S1x2048x256 := Rect.unit (s := S1x2048x256) ![0, 0, 0] S1x2048x256.size inb_S1x2048x256_S1x2048x256_0_0_0

/-- The output block after the body: the product of the hidden block and the weight block, stored whole. -/
def projOut (x0 : Vec F S2048x256 .f32) (x1 : Vec F S1x256x256 .f32) : Vec F S1x2048x256 .f32 :=
  View.canon [⟨rO, k0_pay1 (View.ld x0 rH) (View.ld x1 rW)⟩]

theorem projCover (p0 : Vec F S1x2048x256 .f32) (y : S1x2048x256.Idx) :
    ∃ pc ∈ ([⟨rO, p0⟩] : List (View.Piece (Elt F) S1x2048x256 .f32)), y ∈ pc.1.set :=
  View.cover_of_tiled [⟨rO, p0⟩] S1x2048x256.size (by rfl) y

set_option maxHeartbeats 4000000 in
/-- The body on whole staging buffers: the two inputs are left as they were, the output holds `projOut` of them. -/
theorem sound_proj (c : Dev nD) (E : Set ℕ) (i : grid0.Coords) (arg1 : Memref sig .tc .vmem S2048x256 .f32) (harg1 : arg1.IsWhole)
    (arg2 : Memref sig .tc .vmem S1x256x256 .f32) (harg2 : arg2.IsWhole) (arg3 : Memref sig .tc .vmem S1x2048x256 .f32) (harg3 : arg3.IsWhole)
    (x0 : Vec F S2048x256 .f32) (x1 : Vec F S1x256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The proof data of the projection pipeline on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Proj

end Cert.Kernel.Hand

end
-- ==== Proof.KernelTables.lean ====
/-
  The row-index tables are in range. On the host, eight sign bits of a float array are packed into a code
  `0 ≤ code ≤ 255`; two consecutive codes make an address `code[t] + code[t + 1] · 256 ≤ 65535`; the row index is
  `s · 2097152 + r · 65536 + address` with `s < 4` and `r < 32`, so at most `3 · 2097152 + 31 · 65536 + 65535 = 8388607`.
  Every table the kernel reads is a block of that array, so every word of every table, read as a natural number,
  is below `8388608`. The float array is arbitrary and so is the float instance: the comparison's result is one bit,
  whatever it is. All bounds are upper bounds on `BitVec.toNat`, which wrapping arithmetic can only lower.
-/
import proofs.«145402_j1717986918579_1_alg».proof.Proof.Gen.Kernel.Launch
import Idealize.ShloMosaic.Lib.StableHlo.Run
import Idealize.ShloMosaic.Lib.ValueIdx
import Idealize.ShloMosaic.Lib.Pipeline.Value
import Idealize.ShloMosaic.PureOps.Reduce
noncomputable section
namespace Cert.Kernel.Hand
open Cert.Kernel Cert.Kernel.Gen Idealize.ShloMosaic Idealize.ShloMosaic.TcCoe Idealize.SL.Sem
variable {F : FTy → Type} [FloatOps F]

/-! The auxiliary definitions and bounds live in `Tables`, so that their short names meet no other module's. -/

namespace Tables

/-! ## Entrywise bounds

A layout operation (reshape, transpose, slice, broadcast) writes at each index one entry of its operand, so
a bound on every entry of the operand bounds every entry of the result. A 32-bit sum or product read as a natural
number is at most the sum or product of its operands read so: it can only wrap downward. -/

section Entrywise

variable {s t : Shape} {w n : ℕ}

theorem shapeCast_le (x : IVec s w) (h : s.ShapeCasts t) (hx : ∀ k, (x k).toNat ≤ n) :
    ∀ j, (shapeCast t x h j).toNat ≤ n := fun _ => hx _

theorem transpose_le (perm : List (Fin s.rank)) (x : IVec s w) (h : s.Transposes perm t)
    (hx : ∀ k, (x k).toNat ≤ n) : ∀ j, (transpose t perm x h j).toNat ≤ n := fun _ => hx _

theorem slice_le (off : Fin s.rank → ℕ) (x : IVec s w) (h : s.Slices off t)
    (hx : ∀ k, (x k).toNat ≤ n) : ∀ j, (extractStridedSlice t off x h j).toNat ≤ n := fun _ => hx _

theorem bcast_le (dims : Fin s.rank → Fin t.rank) (h : s.BroadcastsInDim t dims) (x : IVec s w)
    (hx : ∀ k, (x k).toNat ≤ n) : ∀ j, (broadcastInDim t dims h x j).toNat ≤ n := fun _ => hx _

theorem addi_le (x y : IVec s 32) (a b : ℕ) (hx : ∀ i, (x i).toNat ≤ a) (hy : ∀ i, (y i).toNat ≤ b) (hn : a + b ≤ n) :
    ∀ i, (addi x y i).toNat ≤ n := fun i => by
  show (x i + y i).toNat ≤ n
  rw [BitVec.toNat_add]
  exact (Nat.mod_le _ _).trans ((Nat.add_le_add (hx i) (hy i)).trans hn)

theorem muli_le (x y : IVec s 32) (a b : ℕ) (hx : ∀ i, (x i).toNat ≤ a) (hy : ∀ i, (y i).toNat ≤ b) (hn : a * b ≤ n) :
    ∀ i, (muli x y i).toNat ≤ n := fun i => by
  show (x i * y i).toNat ≤ n
  rw [BitVec.toNat_mul]
  exact (Nat.mod_le _ _).trans ((Nat.mul_le_mul (hx i) (hy i)).trans hn)

/-- An iota along an axis of size at most `n + 1` is at most `n`. -/
theorem iota_le (d : Fin s.rank) (hn : s.size d ≤ n + 1) : ∀ i, (iotaInDim s 32 d i).toNat ≤ n := fun i => by
  show (BitVec.ofNat 32 (i d).val).toNat ≤ n
  rw [BitVec.toNat_ofNat]
  have := (i d).isLt
  exact (Nat.mod_le _ _).trans (by omega)

theorem const_le (b : BitVec 32) (hb : b.toNat ≤ n) : ∀ i, (constantI s 32 b i).toNat ≤ n := fun _ => hb

/-- A fold of 32-bit addition over a finite set, read as a natural number, is at most the initial value plus the
    sum of the entries. -/
theorem fold_addi_le {ι : Type} (S : Finset ι) (g : ι → BitVec 32) (b : BitVec 32) :
    (S.fold IntOp.addi b g).toNat ≤ b.toNat + ∑ k ∈ S, (g k).toNat := by
  induction S using Finset.cons_induction with
  | empty => simp
  | cons a S ha ih =>
    rw [Finset.fold_cons, Finset.sum_cons]
    show (g a + _).toNat ≤ _
    rw [BitVec.toNat_add]
    exact (Nat.mod_le _ _).trans (by omega)

end Entrywise

/-! ## The codes

`codes` packs eight sign bits into one word: bit `k` of the word at `(b, s, t, r)` is the bit at `(b, s, t, r, k)`,
so a code is at most `2⁸ - 1`. -/

/-- The shift amounts: at `(b, s, t, r, k)` the amount is `k`. -/
abbrev shifts : IVec S2x4x1024x32x8 32 :=
  broadcastInDim S2x4x1024x32x8 ![0, 1, 2, 3, 4] bcast_S1x1x1x1x8_S2x4x1024x32x8_0_1_2_3_4
    (broadcastInDim S1x1x1x1x8 ![4] bcast_S8_S1x1x1x1x8_4 (iotaInDim S8 32 0))

theorem shifts_apply (i : S2x4x1024x32x8.Idx) : shifts i = BitVec.ofNat 32 (i 4).val := rfl

/-- One bit moved to position `k` is at most `2 ^ k`. -/
theorem bit_le (c : IVec S2x4x1024x32x8 1) (i : S2x4x1024x32x8.Idx) :
    (Host.shli (extui 32 c natLt_1_32) shifts i).toNat ≤ 2 ^ (i 4).val := by
  show (IntOp.shli .host ((c i).setWidth 32) (shifts i)).toNat ≤ _
  rw [shifts_apply]
  have hk : (i 4).val < 8 := (i 4).isLt
  have hs : (BitVec.ofNat 32 (i 4).val).toNat = (i 4).val := by
    rw [BitVec.toNat_ofNat]; exact Nat.mod_eq_of_lt (by omega)
  have hc : ((c i).setWidth 32).toNat ≤ 1 := by
    rw [BitVec.toNat_setWidth]; have := (c i).isLt; exact (Nat.mod_le _ _).trans (by omega)
  unfold IntOp.shli
  rw [if_pos (by rw [hs]; omega), BitVec.shiftLeft_eq', hs, BitVec.toNat_shiftLeft, Nat.shiftLeft_eq]
  exact (Nat.mod_le _ _).trans ((Nat.mul_le_mul_right _ hc).trans (by rw [Nat.one_mul]))

theorem reduces4 : S2x4x1024x32x8.Reduces [4] S2x4x1024x32 := by decide

theorem lift4 (j : S2x4x1024x32.Idx) (k : Fin (S2x4x1024x32x8.size 4)) : ((reduces4.lift j k) 4).val = k.val := rfl

theorem codes_le (c : IVec S2x4x1024x32x8 1) :
    ∀ j, (Host.reduce IntOp.addi (Host.shli (extui 32 c natLt_1_32) shifts) (constantI S_ 32 0#32)
      reducesTo_S2x4x1024x32x8_S2x4x1024x32_d4 h_S_ j).toNat ≤ 255 := fun j => by
  rw [Host.reduce_eq_fold_single IntOp.addi _ _ reducesTo_S2x4x1024x32x8_S2x4x1024x32_d4 reduces4 h_S_ j]
  refine (fold_addi_le _ _ _).trans ?_
  have hterm : ∀ k : Fin (S2x4x1024x32x8.size 4),
      (((Host.shli (extui 32 c natLt_1_32) shifts) ∘ reduces4.lift j) k).toNat ≤ 2 ^ k.val := fun k => by
    have := bit_le c (reduces4.lift j k)
    rwa [lift4] at this
  refine (Nat.add_le_add_left (Finset.sum_le_sum fun k _ => hterm k) _).trans ?_
  show (0#32).toNat + ∑ k : Fin 8, 2 ^ k.val ≤ 255
  decide

/-! ## The row indices

`addr = codes[t] + codes[t + 1] · 256 ≤ 255 + 255 · 256 = 65535`; the base `s · 2097152 + r · 65536` with `s < 4` and
`r < 32` is at most `3 · 2097152 + 31 · 65536 = 8323072`; their sum is at most `8388607`. -/

/-- The codes of a bit array. -/
abbrev codes (c : IVec S2x4x1024x32x8 1) : IVec S2x4x1024x32 32 :=
  Host.reduce IntOp.addi (Host.shli (extui 32 c natLt_1_32) shifts) (constantI S_ 32 0#32)
    reducesTo_S2x4x1024x32x8_S2x4x1024x32_d4 h_S_

/-- Two consecutive codes as one 16-bit address. -/
abbrev addr (c : IVec S2x4x1024x32x8 1) : IVec S2x4x1023x32 32 :=
  addi (extractStridedSlice S2x4x1023x32 ![0, 0, 0, 0] (codes c) slices_S2x4x1024x32_S2x4x1023x32_0_0_0_0)
    (muli (extractStridedSlice S2x4x1023x32 ![0, 0, 1, 0] (codes c) slices_S2x4x1024x32_S2x4x1023x32_0_0_1_0)
      (broadcastInDim S2x4x1023x32 ![] bcast_S_S2x4x1023x32 (constantI S_ 32 256#32)))

theorem addr_le (c : IVec S2x4x1024x32x8 1) : ∀ i, (addr c i).toNat ≤ 65535 :=
  addi_le _ _ 255 65280 (slice_le _ _ _ (codes_le c))
    (muli_le _ _ 255 256 (slice_le _ _ _ (codes_le c)) (bcast_le _ _ _ (const_le 256#32 (by decide))) (by decide))
    (by decide)

/-- `s · 2097152` at `(0, s, 0, 0)`. -/
abbrev baseS : IVec S1x4x1x1 32 :=
  shapeCast S1x4x1x1 (muli (iotaInDim S4 32 0) (broadcastInDim S4 ![] bcast_S_S4 (constantI S_ 32 2097152#32)))
    shapeCasts_S4_S1x4x1x1

theorem baseS_le : ∀ i, (baseS i).toNat ≤ 6291456 :=
  shapeCast_le _ _ (muli_le _ _ 3 2097152 (iota_le (s := S4) 0 (by decide))
    (bcast_le _ _ _ (const_le 2097152#32 (by decide))) (by decide))

/-- `r · 65536` at `(0, 0, 0, r)`. -/
abbrev baseR : IVec S1x1x1x32 32 :=
  shapeCast S1x1x1x32 (muli (iotaInDim S32 32 0) (broadcastInDim S32 ![] bcast_S_S32 (constantI S_ 32 65536#32)))
    shapeCasts_S32_S1x1x1x32

theorem baseR_le : ∀ i, (baseR i).toNat ≤ 2031616 :=
  shapeCast_le _ _ (muli_le _ _ 31 65536 (iota_le (s := S32) 0 (by decide))
    (bcast_le _ _ _ (const_le 65536#32 (by decide))) (by decide))

/-- The base `s · 2097152 + r · 65536` at `(b, s, t, r)`. -/
abbrev base : IVec S2x4x1023x32 32 :=
  broadcastInDim S2x4x1023x32 ![0, 1, 2, 3] bcast_S1x4x1x32_S2x4x1023x32_0_1_2_3
    (addi (broadcastInDim S1x4x1x32 ![0, 1, 2, 3] bcast_S1x4x1x1_S1x4x1x32_0_1_2_3 baseS)
      (broadcastInDim S1x4x1x32 ![0, 1, 2, 3] bcast_S1x1x1x32_S1x4x1x32_0_1_2_3 baseR))

theorem base_le : ∀ i, (base i).toNat ≤ 8323072 :=
  bcast_le _ _ _ (addi_le _ _ 6291456 2031616 (bcast_le _ _ _ baseS_le) (bcast_le _ _ _ baseR_le) (by decide))

/-- The row indices, `[2, 4, 32, 1023]`. -/
abbrev gidx (c : IVec S2x4x1024x32x8 1) : IVec S2x4x32x1023 32 :=
  transpose S2x4x32x1023 [0, 1, 3, 2] (addi base (addr c)) transposes_S2x4x1023x32_S2x4x32x1023_0_1_3_2

theorem gidx_le (c : IVec S2x4x1024x32x8 1) : ∀ i, (gidx c i).toNat ≤ 8388607 :=
  transpose_le _ _ _ (addi_le _ _ 8323072 65535 base_le (addr_le c) (by decide))

end Tables

open Tables

/-! ## The tables

`main_v32` is the row indices of the sign bits of `main_v2`; each table is one `[1, 1, 32, 1023]` block of it as
`[32, 1023]`. -/

open Idealize.ShloMosaic.StableHlo in
theorem v32_lt (V : Valuation τ sig (Elt F)) :
    ∀ i, ((StableHlo.after (hostOps1 (F := F)) V (Proc.devRef .tc main_v32)) i).toNat < 8388608 := by
  simp only [hostOps1]
  after_results_simp
  exact fun i => Nat.lt_succ_of_le (gidx_le _ i)

open Idealize.ShloMosaic.StableHlo in
theorem tbl34_lt (V : Valuation τ sig (Elt F)) :
    ∀ j, ((StableHlo.after (hostOps1 (F := F)) V (Proc.devRef .tc main_v34)) j).toNat < 8388608 := by
  simp only [hostOps1]
  after_results_simp
  exact fun j => Nat.lt_succ_of_le (shapeCast_le _ _ (slice_le _ _ _ (gidx_le _)) j)

open Idealize.ShloMosaic.StableHlo in
theorem tbl37_lt (V : Valuation τ sig (Elt F)) (h : ∀ i, ((V (Proc.devRef .tc main_v32)) i).toNat < 8388608) :
    ∀ j, ((StableHlo.after (hostOps2 (F := F)) V (Proc.devRef .tc main_v37)) j).toNat < 8388608 := by
  simp only [hostOps2]
  after_results_simp
  exact fun j => Nat.lt_succ_of_le (shapeCast_le _ _ (slice_le _ _ _ fun i => Nat.le_of_lt_succ (h i)) j)

open Idealize.ShloMosaic.StableHlo in
theorem tbl40_lt (V : Valuation τ sig (Elt F)) (h : ∀ i, ((V (Proc.devRef .tc main_v32)) i).toNat < 8388608) :
    ∀ j, ((StableHlo.after (hostOps3 (F := F)) V (Proc.devRef .tc main_v40)) j).toNat < 8388608 := by
  simp only [hostOps3]
  after_results_simp
  exact fun j => Nat.lt_succ_of_le (shapeCast_le _ _ (slice_le _ _ _ fun i => Nat.le_of_lt_succ (h i)) j)

open Idealize.ShloMosaic.StableHlo in
theorem tbl43_lt (V : Valuation τ sig (Elt F)) (h : ∀ i, ((V (Proc.devRef .tc main_v32)) i).toNat < 8388608) :
    ∀ j, ((StableHlo.after (hostOps4 (F := F)) V (Proc.devRef .tc main_v43)) j).toNat < 8388608 := by
  simp only [hostOps4]
  after_results_simp
  exact fun j => Nat.lt_succ_of_le (shapeCast_le _ _ (slice_le _ _ _ fun i => Nat.le_of_lt_succ (h i)) j)

open Idealize.ShloMosaic.StableHlo in
theorem tbl51_lt (V : Valuation τ sig (Elt F)) (h : ∀ i, ((V (Proc.devRef .tc main_v32)) i).toNat < 8388608) :
    ∀ j, ((StableHlo.after (hostOps5 (F := F)) V (Proc.devRef .tc main_v51)) j).toNat < 8388608 := by
  simp only [hostOps5]
  after_results_simp
  exact fun j => Nat.lt_succ_of_le (shapeCast_le _ _ (slice_le _ _ _ fun i => Nat.le_of_lt_succ (h i)) j)

open Idealize.ShloMosaic.StableHlo in
theorem tbl54_lt (V : Valuation τ sig (Elt F)) (h : ∀ i, ((V (Proc.devRef .tc main_v32)) i).toNat < 8388608) :
    ∀ j, ((StableHlo.after (hostOps6 (F := F)) V (Proc.devRef .tc main_v54)) j).toNat < 8388608 := by
  simp only [hostOps6]
  after_results_simp
  exact fun j => Nat.lt_succ_of_le (shapeCast_le _ _ (slice_le _ _ _ fun i => Nat.le_of_lt_succ (h i)) j)

open Idealize.ShloMosaic.StableHlo in
theorem tbl57_lt (V : Valuation τ sig (Elt F)) (h : ∀ i, ((V (Proc.devRef .tc main_v32)) i).toNat < 8388608) :
    ∀ j, ((StableHlo.after (hostOps7 (F := F)) V (Proc.devRef .tc main_v57)) j).toNat < 8388608 := by
  simp only [hostOps7]
  after_results_simp
  exact fun j => Nat.lt_succ_of_le (shapeCast_le _ _ (slice_le _ _ _ fun i => Nat.le_of_lt_succ (h i)) j)

open Idealize.ShloMosaic.StableHlo in
theorem tbl60_lt (V : Valuation τ sig (Elt F)) (h : ∀ i, ((V (Proc.devRef .tc main_v32)) i).toNat < 8388608) :
    ∀ j, ((StableHlo.after (hostOps8 (F := F)) V (Proc.devRef .tc main_v60)) j).toNat < 8388608 := by
  simp only [hostOps8]
  after_results_simp
  exact fun j => Nat.lt_succ_of_le (shapeCast_le _ _ (slice_le _ _ _ fun i => Nat.le_of_lt_succ (h i)) j)

end Cert.Kernel.Hand
end
-- ==== Proof.KernelCommon.lean ====
/-
  Shared by the eight gather regions: the weight array as the kernels receive it, the spelling of "a buffer held at
  a share", the read shares a buffer splits into when several copies read it at once, and the arithmetic fact that a
  row index below 8388608 names a row of the weight array.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row `n` of the weight array, eight entries wide, lies inside the array when `n` is one of its 8388608 rows. -/
theorem row_inb (n : Nat) (h : n < 8388608) : ∀ a, (![n, 0] : Fin 2 → Nat) a + S1x8.size a ≤ S8388608x8.size a := by
  intro a; match a with
  | ⟨0, _⟩ => show n + 1 ≤ 8388608; omega
  | ⟨1, _⟩ => show 0 + 8 ≤ 8; omega

/-- The weight array, left in HBM, as the kernels receive it: whole. -/
abbrev hbM : Memref sig .tc .hbm S8388608x8 .f32 := Memref.whole main_arg2
/-- The contents type of a memref's buffer on core `c`. -/
abbrev HbBuf (c : Dev nD) {sp : Space} {S : Shape} {e : EltTy} (M : Memref sig .tc sp S e) : Type := Buf (Elt F) (M.view.loc (c : Thread nD τ))
/-- A memref's buffer held through the memref's own elements at share `q`. -/
abbrev ptSet (c : Dev nD) {sp : Space} {S : Shape} {e : EltTy} (M : Memref sig .tc sp S e) (q : PosShare TreeShare) (f : HbBuf (F := F) c M) : sProp 𝕄 :=
  M.view.loc (c : Thread nD τ) ↦[M.view.set]{q} f
/-- The weight array held whole at the read share numbered `n`: the share the copy completing on DMA semaphore `n` reads it through. -/
abbrev tokH (c : Dev nD) (n : ℕ) (fh : HbBuf (F := F) c hbM) : sProp 𝕄 :=
  hbM.view.loc (c : Thread nD τ) ↦{Transfers.shareTokN fullShare n} fh

open Idealize.ShloMosaic.Transfers in
/-- The remainder after `a` read shares splits into the remainder after `a + n` and the `n` read shares numbered from `a`. -/
theorem toks_from {ℓ : Loc nD τ sig} {S : Finset (Idx ℓ)} {f : Buf (Elt F) ℓ} (q : PosShare TreeShare) (n a : ℕ) :
    (ℓ ↦[S]{shareDrop q a} f : sProp 𝕄) ⊣⊢ iprop((ℓ ↦[S]{shareDrop q (a + n)} f) ∗ bigSepL (List.range' a n) (fun i => (ℓ ↦[S]{shareTokN q i} f : sProp 𝕄))) := by
  induction n generalizing a with
  | zero => rw [List.range'_zero, bigSepL_nil, Nat.add_zero]; exact ⟨Laws.sep_emp.2, Laws.sep_emp.1⟩
  | succ n ih =>
    have hs : (ℓ ↦[S]{shareDrop q a} f : sProp 𝕄) ⊣⊢ iprop((ℓ ↦[S]{shareDrop q (a + 1)} f) ∗ ℓ ↦[S]{shareTokN q a} f) :=
      pointsTo_share (PosShare.mem_left_op_right _)
    have hc : (bigSepL (List.range' a (n + 1)) (fun i => (ℓ ↦[S]{shareTokN q i} f : sProp 𝕄)))
        = iprop((ℓ ↦[S]{shareTokN q a} f) ∗ bigSepL (List.range' (a + 1) n) (fun i => (ℓ ↦[S]{shareTokN q i} f : sProp 𝕄))) := by
      rw [List.range'_succ, bigSepL_cons]; rfl
    rw [hc, show a + (n + 1) = a + 1 + n by omega]
    constructor
    · refine hs.1.trans ((sep_mono_left (ih (a + 1)).1).trans ?_)
      iintro ⟨⟨Hd, Hts⟩, Ht⟩
      isplitl [Hd]; · iexact Hd
      isplitl [Ht] <;> iassumption
    · refine BIBase.Entails.trans ?_ ((sep_mono_left (ih (a + 1)).2).trans hs.2)
      iintro ⟨Hd, Ht, Hts⟩
      isplitl [Hd Hts]; · isplitl [Hd] <;> iassumption
      iexact Ht

open Idealize.ShloMosaic.Transfers in
/-- A buffer held whole at the full share, as: the remainder after `a + 32` read shares, the thirty-two read shares numbered
    from `a`, and the `a` read shares below them. -/
theorem toks32 {ℓ : Loc nD τ sig} {f : Buf (Elt F) ℓ} (a : ℕ) :
    (ℓ ↦{fullShare} f : sProp 𝕄) ⊣⊢ iprop(((ℓ ↦{shareDrop fullShare (a + 32)} f) ∗ bigSepL (List.range' a 32) (fun i => (ℓ ↦{shareTokN fullShare i} f : sProp 𝕄)))
      ∗ BI.bigSep (Finset.range a) (fun i => (ℓ ↦{shareTokN fullShare i} f : sProp 𝕄))) := by
  have h1 := pointsTo_toks_range (Ix := Unit) (Name := ℕ) (U := Pipeline.UD sig nD τ) (Lvl := ℕ) (ℓ := ℓ) (S := Finset.univ) (f := f) fullShare a
  have h2 := toks_from (F := F) (ℓ := ℓ) (S := Finset.univ) (f := f) fullShare 32 a
  exact ⟨h1.1.trans (sep_mono_left h2.1), (sep_mono_left h2.2).trans h1.2⟩

end Cert.Kernel.Hand

end
-- ==== Proof.KernelRows.lean ====
/-
  A [32,8] buffer held row by row: the whole buffer's points-to as the thirty-two points-tos of its rows, the rows
  joined back after each has been overwritten, and what the joined buffer reads at an index.
-/
import proofs.«145402_j1717986918579_1_alg».proof.Proof.KernelCommon
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row `r` of a [32,8] buffer, as the kernel spells it. -/
abbrev rowM (M : Memref sig .tc .vmem S32x8 .f32) (r : ℕ) (h : ∀ a, (![r, 0] : Fin 2 → ℕ) a + S1x8.size a ≤ S32x8.size a) : Memref sig .tc .vmem S8 .f32 :=
  (M.slice (Rect.unit (s := S32x8) ![r, 0] S1x8.size h) (fun _ => rfl)).squeeze S8 squeezes_S1x8_S8

/-- Row `r`, eight entries wide, lies inside the buffer when `r` is one of its 32 rows. -/
theorem row_inb32 (r : ℕ) (h : r < 32) : ∀ a, (![r, 0] : Fin 2 → ℕ) a + S1x8.size a ≤ S32x8.size a := by
  intro a; match a with
  | ⟨0, _⟩ => show r + 1 ≤ 32; omega
  | ⟨1, _⟩ => show 0 + 8 ≤ 8; omega

/-- An index of the [32,8] shape lies in row `r`'s rectangle exactly when its first coordinate is `r`. -/
theorem mem_rowRect {r : ℕ} {h : ∀ a, (![r, 0] : Fin 2 → ℕ) a + S1x8.size a ≤ S32x8.size a} {i : S32x8.Idx} :
    i ∈ (Rect.unit (s := S32x8) ![r, 0] S1x8.size h).set ↔ ((i 0 : Fin 32) : ℕ) = r := by
  rw [Rect.mem_set_unit]
  constructor
  · intro H
    have h0 : r ≤ ((i 0 : Fin 32) : ℕ) ∧ ((i 0 : Fin 32) : ℕ) < r + 1 := H 0
    omega
  · intro e a
    match a with
    | ⟨0, _⟩ => show r ≤ ((i 0 : Fin 32) : ℕ) ∧ ((i 0 : Fin 32) : ℕ) < r + 1; omega
    | ⟨1, _⟩ =>
      have := (i 1).isLt
      show 0 ≤ ((i 1 : Fin 8) : ℕ) ∧ ((i 1 : Fin 8) : ℕ) < 0 + 8
      have h8 : ((i 1 : Fin 8) : ℕ) < 8 := (i 1).isLt
      omega

/-- Row `r`'s elements: the buffer's elements under the indices of row `r`'s rectangle. -/
theorem set_rowM (M : Memref sig .tc .vmem S32x8 .f32) (r : ℕ) (h : ∀ a, (![r, 0] : Fin 2 → ℕ) a + S1x8.size a ≤ S32x8.size a) :
    (rowM M r h).view.set = (Rect.unit (s := S32x8) ![r, 0] S1x8.size h).set.map M.view.emb := by
  show ((M.view.slice _).reshape S8 _).set = _
  rw [View.set_reshape, View.set_slice]

/-- Different rows have no element in common. -/
theorem disjoint_rowM (M : Memref sig .tc .vmem S32x8 .f32) {r r' : ℕ} (hne : r ≠ r') (h h') :
    Disjoint (rowM M r h).view.set (rowM M r' h').view.set := by
  rw [set_rowM, set_rowM, Finset.disjoint_map]
  rw [Finset.disjoint_left]
  intro i hi hi'
  exact hne ((mem_rowRect.mp hi).symm.trans (mem_rowRect.mp hi'))

/-- Row `r`'s elements for `r < 32`, no element otherwise. -/
def rowSet (c : Dev nD) (M : Memref sig .tc .vmem S32x8 .f32) (r : ℕ) : Finset (Idx (M.view.loc (c : Thread nD τ))) :=
  if h : r < 32 then (rowM M r (row_inb32 r h)).view.set else ∅

/-- The 32 rows cover the buffer. -/
theorem set_eq_biUnion_rowSet (c : Dev nD) (M : Memref sig .tc .vmem S32x8 .f32) :
    M.view.set = (Finset.range 32).biUnion (rowSet c M) := by
  ext x
  simp only [Finset.mem_biUnion, Finset.mem_range]
  constructor
  · intro hx
    obtain ⟨i, -, rfl⟩ := Finset.mem_map.mp hx
    have hlt : ((i 0 : Fin 32) : ℕ) < 32 := (i 0).isLt
    refine ⟨((i 0 : Fin 32) : ℕ), hlt, ?_⟩
    unfold rowSet
    rw [dif_pos hlt, set_rowM]
    exact Finset.mem_map_of_mem _ (mem_rowRect.mpr rfl)
  · rintro ⟨r, hr, hx⟩
    unfold rowSet at hx
    rw [dif_pos hr, set_rowM] at hx
    obtain ⟨i, -, rfl⟩ := Finset.mem_map.mp hx
    exact M.view.emb_mem_set i

theorem disjoint_rowSet (c : Dev nD) (M : Memref sig .tc .vmem S32x8 .f32) {r r' : ℕ} (hne : r ≠ r') :
    Disjoint (rowSet c M r) (rowSet c M r') := by
  unfold rowSet
  by_cases h : r < 32
  · by_cases h' : r' < 32
    · rw [dif_pos h, dif_pos h']; exact disjoint_rowM M hne _ _
    · rw [dif_neg h']; exact Finset.disjoint_empty_right _
  · rw [dif_neg h]; exact Finset.disjoint_empty_left _

/-- The whole buffer held at the full share is its 32 rows held at the full share. -/
theorem rows_split (c : Dev nD) (M : Memref sig .tc .vmem S32x8 .f32) (hM : M.IsWhole) (f : HbBuf (F := F) c M) :
    (M.view.loc (c : Thread nD τ) ↦[M.view.set]{fullShare} f : sProp 𝕄)
      ⊣⊢ bigSepL (List.range 32) (fun r => if h : r < 32 then (M.view.loc (c : Thread nD τ) ↦[(rowM M r (row_inb32 r h)).view.set]{fullShare} f : sProp 𝕄) else iprop(emp)) := by
  have h1 := pointsTo_biUnion (Ix := Unit) (Name := ℕ) (U := Pipeline.UD sig nD τ) (Lvl := ℕ) (q := fullShare) (f := f)
    (Finset.range 32) (rowSet c M) (fun t _ t' _ hne => disjoint_rowSet c M hne)
  have h2 : (fun r => if h : r < 32 then (M.view.loc (c : Thread nD τ) ↦[(rowM M r (row_inb32 r h)).view.set]{fullShare} f : sProp 𝕄) else iprop(emp))
      = fun r => (M.view.loc (c : Thread nD τ) ↦[rowSet c M r]{fullShare} f : sProp 𝕄) := by
    funext r
    unfold rowSet
    by_cases h : r < 32
    · rw [dif_pos h, dif_pos h]
    · rw [dif_neg h, dif_neg h, pointsTo_empty]
  have h3 : Finset.range 32 = (List.range 32).toFinset := by decide
  have h4 := bigSep_eq_bigSepL_of_eq (List.range 32) h3 (List.nodup_range) (fun r => (M.view.loc (c : Thread nD τ) ↦[rowSet c M r]{fullShare} f : sProp 𝕄))
  have e : (M.view.loc (c : Thread nD τ) ↦[M.view.set]{fullShare} f : sProp 𝕄)
      = bigSepL (List.range 32) (fun r => if h : r < 32 then (M.view.loc (c : Thread nD τ) ↦[(rowM M r (row_inb32 r h)).view.set]{fullShare} f : sProp 𝕄) else iprop(emp)) := by
    rw [h2, ← h4, ← h1, ← set_eq_biUnion_rowSet]
  exact ⟨Entails.of_eq e, Entails.of_eq e.symm⟩

/-! ## The rows one by one: an explicit thirty-two-fold separating conjunction -/

/-- Row `r` held by exactly its own elements, at contents `f` of the whole buffer's type (the row's location is the buffer's). -/
abbrev rowPt (c : Dev nD) (M : Memref sig .tc .vmem S32x8 .f32) (r : ℕ) (h : r < 32) (f : HbBuf (F := F) c M) : sProp 𝕄 :=
  (rowM M r (row_inb32 r h)).view.loc (c : Thread nD τ) ↦[(rowM M r (row_inb32 r h)).view.set]{fullShare} (show HbBuf (F := F) c (rowM M r (row_inb32 r h)) from f)

theorem range32 : List.range 32 = [0, 1, 2, 3, 4, 5, 6, 7, 8, 9, 10, 11, 12, 13, 14, 15, 16, 17, 18, 19, 20, 21, 22, 23, 24, 25, 26, 27, 28, 29, 30, 31] := by decide

/-- The list-indexed conjunction of the rows, row `r` at contents `g r`, written out. -/
theorem rows_chain32 (c : Dev nD) (M : Memref sig .tc .vmem S32x8 .f32) (g : ℕ → HbBuf (F := F) c M) :
    bigSepL (List.range 32) (fun r => if h : r < 32 then (M.view.loc (c : Thread nD τ) ↦[(rowM M r (row_inb32 r h)).view.set]{fullShare} g r : sProp 𝕄) else iprop(emp))
      = iprop(rowPt c M 0 (by decide) (g 0) ∗ rowPt c M 1 (by decide) (g 1) ∗ rowPt c M 2 (by decide) (g 2) ∗ rowPt c M 3 (by decide) (g 3) ∗ rowPt c M 4 (by decide) (g 4) ∗ rowPt c M 5 (by decide) (g 5) ∗ rowPt c M 6 (by decide) (g 6) ∗ rowPt c M 7 (by decide) (g 7) ∗ rowPt c M 8 (by decide) (g 8) ∗ rowPt c M 9 (by decide) (g 9) ∗ rowPt c M 10 (by decide) (g 10) ∗ rowPt c M 11 (by decide) (g 11) ∗ rowPt c M 12 (by decide) (g 12) ∗ rowPt c M 13 (by decide) (g 13) ∗ rowPt c M 14 (by decide) (g 14) ∗ rowPt c M 15 (by decide) (g 15) ∗ rowPt c M 16 (by decide) (g 16) ∗ rowPt c M 17 (by decide) (g 17) ∗ rowPt c M 18 (by decide) (g 18) ∗ rowPt c M 19 (by decide) (g 19) ∗ rowPt c M 20 (by decide) (g 20) ∗ rowPt c M 21 (by decide) (g 21) ∗ rowPt c M 22 (by decide) (g 22) ∗ rowPt c M 23 (by decide) (g 23) ∗ rowPt c M 24 (by decide) (g 24) ∗ rowPt c M 25 (by decide) (g 25) ∗ rowPt c M 26 (by decide) (g 26) ∗ rowPt c M 27 (by decide) (g 27) ∗ rowPt c M 28 (by decide) (g 28) ∗ rowPt c M 29 (by decide) (g 29) ∗ rowPt c M 30 (by decide) (g 30) ∗ rowPt c M 31 (by decide) (g 31)) := by
  rw [range32]; rfl

/-- A whole [32,8] buffer held by its own elements is its thirty-two rows, each held by its own elements. -/
theorem rows_split32 (c : Dev nD) (M : Memref sig .tc .vmem S32x8 .f32) (hM : M.IsWhole) (f : HbBuf (F := F) c M) :
    (ptSet c M fullShare f : sProp 𝕄) ⊢ iprop(rowPt c M 0 (by decide) f ∗ rowPt c M 1 (by decide) f ∗ rowPt c M 2 (by decide) f ∗ rowPt c M 3 (by decide) f ∗ rowPt c M 4 (by decide) f ∗ rowPt c M 5 (by decide) f ∗ rowPt c M 6 (by decide) f ∗ rowPt c M 7 (by decide) f ∗ rowPt c M 8 (by decide) f ∗ rowPt c M 9 (by decide) f ∗ rowPt c M 10 (by decide) f ∗ rowPt c M 11 (by decide) f ∗ rowPt c M 12 (by decide) f ∗ rowPt c M 13 (by decide) f ∗ rowPt c M 14 (by decide) f ∗ rowPt c M 15 (by decide) f ∗ rowPt c M 16 (by decide) f ∗ rowPt c M 17 (by decide) f ∗ rowPt c M 18 (by decide) f ∗ rowPt c M 19 (by decide) f ∗ rowPt c M 20 (by decide) f ∗ rowPt c M 21 (by decide) f ∗ rowPt c M 22 (by decide) f ∗ rowPt c M 23 (by decide) f ∗ rowPt c M 24 (by decide) f ∗ rowPt c M 25 (by decide) f ∗ rowPt c M 26 (by decide) f ∗ rowPt c M 27 (by decide) f ∗ rowPt c M 28 (by decide) f ∗ rowPt c M 29 (by decide) f ∗ rowPt c M 30 (by decide) f ∗ rowPt c M 31 (by decide) f) :=
  (rows_split c M hM f).1.trans (Entails.of_eq (rows_chain32 c M fun _ => f))

/-- The thirty-two rows at one contents are the whole buffer at that contents. -/
theorem rows_unsplit32 (c : Dev nD) (M : Memref sig .tc .vmem S32x8 .f32) (hM : M.IsWhole) (f : HbBuf (F := F) c M) :
    (iprop(rowPt c M 0 (by decide) f ∗ rowPt c M 1 (by decide) f ∗ rowPt c M 2 (by decide) f ∗ rowPt c M 3 (by decide) f ∗ rowPt c M 4 (by decide) f ∗ rowPt c M 5 (by decide) f ∗ rowPt c M 6 (by decide) f ∗ rowPt c M 7 (by decide) f ∗ rowPt c M 8 (by decide) f ∗ rowPt c M 9 (by decide) f ∗ rowPt c M 10 (by decide) f ∗ rowPt c M 11 (by decide) f ∗ rowPt c M 12 (by decide) f ∗ rowPt c M 13 (by decide) f ∗ rowPt c M 14 (by decide) f ∗ rowPt c M 15 (by decide) f ∗ rowPt c M 16 (by decide) f ∗ rowPt c M 17 (by decide) f ∗ rowPt c M 18 (by decide) f ∗ rowPt c M 19 (by decide) f ∗ rowPt c M 20 (by decide) f ∗ rowPt c M 21 (by decide) f ∗ rowPt c M 22 (by decide) f ∗ rowPt c M 23 (by decide) f ∗ rowPt c M 24 (by decide) f ∗ rowPt c M 25 (by decide) f ∗ rowPt c M 26 (by decide) f ∗ rowPt c M 27 (by decide) f ∗ rowPt c M 28 (by decide) f ∗ rowPt c M 29 (by decide) f ∗ rowPt c M 30 (by decide) f ∗ rowPt c M 31 (by decide) f) : sProp 𝕄) ⊢ ptSet c M fullShare f :=
  (Entails.of_eq (rows_chain32 c M fun _ => f).symm).trans (rows_split c M hM f).2

/-! ## Joining rows held at contents of their own -/

/-- The row of the buffer an element lies in (row 0 for an element under none of the memref's indices). -/
def rowOf (c : Dev nD) (M : Memref sig .tc .vmem S32x8 .f32) (i : Idx (M.view.loc (c : Thread nD τ))) : ℕ :=
  match preimage? M.view.emb i with
  | some x => ((x 0 : Fin 32) : ℕ)
  | none => 0

theorem rowOf_emb (c : Dev nD) (M : Memref sig .tc .vmem S32x8 .f32) (x : S32x8.Idx) : rowOf c M (M.view.emb x) = ((x 0 : Fin 32) : ℕ) := by
  unfold rowOf; rw [preimage?_emb]

/-- The contents that at each element of row `r` are `g r`'s. -/
def joinRowsFn (c : Dev nD) (M : Memref sig .tc .vmem S32x8 .f32) (g : ℕ → HbBuf (F := F) c M) : HbBuf (F := F) c M :=
  fun i => g (rowOf c M i) i

theorem joinRowsFn_emb (c : Dev nD) (M : Memref sig .tc .vmem S32x8 .f32) (g : ℕ → HbBuf (F := F) c M) (x : S32x8.Idx) :
    joinRowsFn c M g (M.view.emb x) = g ((x 0 : Fin 32) : ℕ) (M.view.emb x) := by
  unfold joinRowsFn; rw [rowOf_emb]

/-- On row `r`'s elements the joined contents are `g r`'s. -/
theorem joinRowsFn_of_mem (c : Dev nD) (M : Memref sig .tc .vmem S32x8 .f32) (g : ℕ → HbBuf (F := F) c M) {r : ℕ} (hr : r < 32)
    {i : Idx (M.view.loc (c : Thread nD τ))} (hi : i ∈ (rowM M r (row_inb32 r hr)).view.set) : joinRowsFn c M g i = g r i := by
  rw [set_rowM] at hi
  obtain ⟨x, hx, rfl⟩ := Finset.mem_map.mp hi
  rw [joinRowsFn_emb, mem_rowRect.mp hx]

/-- The joined contents read, at an index of row `r`, what `g r` reads there. -/
theorem read_joinRowsFn (c : Dev nD) (M : Memref sig .tc .vmem S32x8 .f32) (g : ℕ → HbBuf (F := F) c M) (x : S32x8.Idx) :
    M.view.read (Elt F) (joinRowsFn c M g) x = M.view.read (Elt F) (g ((x 0 : Fin 32) : ℕ)) x := by
  rw [View.read_apply, View.read_apply, joinRowsFn_emb]

/-- The rows, row `r` held at `g r`, are the whole buffer held at the joined contents. -/
theorem rows_joinFn (c : Dev nD) (M : Memref sig .tc .vmem S32x8 .f32) (hM : M.IsWhole) (g : ℕ → HbBuf (F := F) c M) :
    bigSepL (List.range 32) (fun r => if h : r < 32 then (M.view.loc (c : Thread nD τ) ↦[(rowM M r (row_inb32 r h)).view.set]{fullShare} g r : sProp 𝕄) else iprop(emp))
      ⊢ (M.view.loc (c : Thread nD τ) ↦[M.view.set]{fullShare} joinRowsFn c M g) := by
  have e : (fun r => if h : r < 32 then (M.view.loc (c : Thread nD τ) ↦[(rowM M r (row_inb32 r h)).view.set]{fullShare} g r : sProp 𝕄) else iprop(emp))
      = fun r => if h : r < 32 then (M.view.loc (c : Thread nD τ) ↦[(rowM M r (row_inb32 r h)).view.set]{fullShare} joinRowsFn c M g : sProp 𝕄) else iprop(emp) := by
    funext r
    by_cases h : r < 32
    · rw [dif_pos h, dif_pos h]
      exact pointsTo_congr fun i hi => (joinRowsFn_of_mem c M g h hi).symm
    · rw [dif_neg h, dif_neg h]
  rw [e]
  exact (rows_split c M hM (joinRowsFn c M g)).2

/-- The `r`-th of thirty-two things (the last for `r ≥ 31`). -/
def rowSel32 {α : Type} (g0 : α) (g1 : α) (g2 : α) (g3 : α) (g4 : α) (g5 : α) (g6 : α) (g7 : α) (g8 : α) (g9 : α) (g10 : α) (g11 : α) (g12 : α) (g13 : α) (g14 : α) (g15 : α) (g16 : α) (g17 : α) (g18 : α) (g19 : α) (g20 : α) (g21 : α) (g22 : α) (g23 : α) (g24 : α) (g25 : α) (g26 : α) (g27 : α) (g28 : α) (g29 : α) (g30 : α) (g31 : α) : ℕ → α
  | 0 => g0
  | 1 => g1
  | 2 => g2
  | 3 => g3
  | 4 => g4
  | 5 => g5
  | 6 => g6
  | 7 => g7
  | 8 => g8
  | 9 => g9
  | 10 => g10
  | 11 => g11
  | 12 => g12
  | 13 => g13
  | 14 => g14
  | 15 => g15
  | 16 => g16
  | 17 => g17
  | 18 => g18
  | 19 => g19
  | 20 => g20
  | 21 => g21
  | 22 => g22
  | 23 => g23
  | 24 => g24
  | 25 => g25
  | 26 => g26
  | 27 => g27
  | 28 => g28
  | 29 => g29
  | 30 => g30
  | _ => g31

/-- The thirty-two rows joined: the contents that on row `r` are `g r`'s. -/
def joinRows32 (c : Dev nD) (M : Memref sig .tc .vmem S32x8 .f32) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) : HbBuf (F := F) c M :=
  joinRowsFn c M (rowSel32 g0 g1 g2 g3 g4 g5 g6 g7 g8 g9 g10 g11 g12 g13 g14 g15 g16 g17 g18 g19 g20 g21 g22 g23 g24 g25 g26 g27 g28 g29 g30 g31)

/-- The thirty-two rows, each at contents of its own, are the whole buffer at the joined contents. -/
theorem rows_join32 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) :
    (iprop(rowPt c M 0 (by decide) g0 ∗ rowPt c M 1 (by decide) g1 ∗ rowPt c M 2 (by decide) g2 ∗ rowPt c M 3 (by decide) g3 ∗ rowPt c M 4 (by decide) g4 ∗ rowPt c M 5 (by decide) g5 ∗ rowPt c M 6 (by decide) g6 ∗ rowPt c M 7 (by decide) g7 ∗ rowPt c M 8 (by decide) g8 ∗ rowPt c M 9 (by decide) g9 ∗ rowPt c M 10 (by decide) g10 ∗ rowPt c M 11 (by decide) g11 ∗ rowPt c M 12 (by decide) g12 ∗ rowPt c M 13 (by decide) g13 ∗ rowPt c M 14 (by decide) g14 ∗ rowPt c M 15 (by decide) g15 ∗ rowPt c M 16 (by decide) g16 ∗ rowPt c M 17 (by decide) g17 ∗ rowPt c M 18 (by decide) g18 ∗ rowPt c M 19 (by decide) g19 ∗ rowPt c M 20 (by decide) g20 ∗ rowPt c M 21 (by decide) g21 ∗ rowPt c M 22 (by decide) g22 ∗ rowPt c M 23 (by decide) g23 ∗ rowPt c M 24 (by decide) g24 ∗ rowPt c M 25 (by decide) g25 ∗ rowPt c M 26 (by decide) g26 ∗ rowPt c M 27 (by decide) g27 ∗ rowPt c M 28 (by decide) g28 ∗ rowPt c M 29 (by decide) g29 ∗ rowPt c M 30 (by decide) g30 ∗ rowPt c M 31 (by decide) g31) : sProp 𝕄) ⊢ ptSet c M fullShare (joinRows32 c M g0 g1 g2 g3 g4 g5 g6 g7 g8 g9 g10 g11 g12 g13 g14 g15 g16 g17 g18 g19 g20 g21 g22 g23 g24 g25 g26 g27 g28 g29 g30 g31) :=
  (Entails.of_eq (rows_chain32 c M (rowSel32 g0 g1 g2 g3 g4 g5 g6 g7 g8 g9 g10 g11 g12 g13 g14 g15 g16 g17 g18 g19 g20 g21 g22 g23 g24 g25 g26 g27 g28 g29 g30 g31)).symm).trans (rows_joinFn c M hM (rowSel32 g0 g1 g2 g3 g4 g5 g6 g7 g8 g9 g10 g11 g12 g13 g14 g15 g16 g17 g18 g19 g20 g21 g22 g23 g24 g25 g26 g27 g28 g29 g30 g31))

/-! ## Reading the joined buffer, and a row after it is overwritten -/

/-- The joined buffer reads, at row `r` and column `j`, what row `r`'s own contents read there. -/
theorem joinRows32_read (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (r : Fin 32) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 r j)
      = M.view.read (Elt F) (rowSel32 g0 g1 g2 g3 g4 g5 g6 g7 g8 g9 g10 g11 g12 g13 g14 g15 g16 g17 g18 g19 g20 g21 g22 g23 g24 g25 g26 g27 g28 g29 g30 g31 r.val) (ValueIdx.ix2 r j) :=
  read_joinRowsFn c M (rowSel32 g0 g1 g2 g3 g4 g5 g6 g7 g8 g9 g10 g11 g12 g13 g14 g15 g16 g17 g18 g19 g20 g21 g22 g23 g24 g25 g26 g27 g28 g29 g30 g31) (ValueIdx.ix2 r j)

theorem joinRows32_read_0 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (0 : Fin 32) j) = M.view.read (Elt F) g0 (ValueIdx.ix2 (0 : Fin 32) j) :=
  joinRows32_read c M hM g0 g1 g2 g3 g4 g5 g6 g7 g8 g9 g10 g11 g12 g13 g14 g15 g16 g17 g18 g19 g20 g21 g22 g23 g24 g25 g26 g27 g28 g29 g30 g31 0 j
theorem joinRows32_read_1 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (1 : Fin 32) j) = M.view.read (Elt F) g1 (ValueIdx.ix2 (1 : Fin 32) j) :=
  joinRows32_read c M hM g0 g1 g2 g3 g4 g5 g6 g7 g8 g9 g10 g11 g12 g13 g14 g15 g16 g17 g18 g19 g20 g21 g22 g23 g24 g25 g26 g27 g28 g29 g30 g31 1 j
theorem joinRows32_read_2 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (2 : Fin 32) j) = M.view.read (Elt F) g2 (ValueIdx.ix2 (2 : Fin 32) j) :=
  joinRows32_read c M hM g0 g1 g2 g3 g4 g5 g6 g7 g8 g9 g10 g11 g12 g13 g14 g15 g16 g17 g18 g19 g20 g21 g22 g23 g24 g25 g26 g27 g28 g29 g30 g31 2 j
theorem joinRows32_read_3 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (3 : Fin 32) j) = M.view.read (Elt F) g3 (ValueIdx.ix2 (3 : Fin 32) j) :=
  joinRows32_read c M hM g0 g1 g2 g3 g4 g5 g6 g7 g8 g9 g10 g11 g12 g13 g14 g15 g16 g17 g18 g19 g20 g21 g22 g23 g24 g25 g26 g27 g28 g29 g30 g31 3 j
theorem joinRows32_read_4 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (4 : Fin 32) j) = M.view.read (Elt F) g4 (ValueIdx.ix2 (4 : Fin 32) j) :=
  joinRows32_read c M hM g0 g1 g2 g3 g4 g5 g6 g7 g8 g9 g10 g11 g12 g13 g14 g15 g16 g17 g18 g19 g20 g21 g22 g23 g24 g25 g26 g27 g28 g29 g30 g31 4 j
theorem joinRows32_read_5 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (5 : Fin 32) j) = M.view.read (Elt F) g5 (ValueIdx.ix2 (5 : Fin 32) j) :=
  joinRows32_read c M hM g0 g1 g2 g3 g4 g5 g6 g7 g8 g9 g10 g11 g12 g13 g14 g15 g16 g17 g18 g19 g20 g21 g22 g23 g24 g25 g26 g27 g28 g29 g30 g31 5 j
theorem joinRows32_read_6 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (6 : Fin 32) j) = M.view.read (Elt F) g6 (ValueIdx.ix2 (6 : Fin 32) j) :=
  joinRows32_read c M hM g0 g1 g2 g3 g4 g5 g6 g7 g8 g9 g10 g11 g12 g13 g14 g15 g16 g17 g18 g19 g20 g21 g22 g23 g24 g25 g26 g27 g28 g29 g30 g31 6 j
theorem joinRows32_read_7 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (7 : Fin 32) j) = M.view.read (Elt F) g7 (ValueIdx.ix2 (7 : Fin 32) j) :=
  joinRows32_read c M hM g0 g1 g2 g3 g4 g5 g6 g7 g8 g9 g10 g11 g12 g13 g14 g15 g16 g17 g18 g19 g20 g21 g22 g23 g24 g25 g26 g27 g28 g29 g30 g31 7 j
theorem joinRows32_read_8 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (8 : Fin 32) j) = M.view.read (Elt F) g8 (ValueIdx.ix2 (8 : Fin 32) j) :=
  joinRows32_read c M hM g0 g1 g2 g3 g4 g5 g6 g7 g8 g9 g10 g11 g12 g13 g14 g15 g16 g17 g18 g19 g20 g21 g22 g23 g24 g25 g26 g27 g28 g29 g30 g31 8 j
theorem joinRows32_read_9 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (9 : Fin 32) j) = M.view.read (Elt F) g9 (ValueIdx.ix2 (9 : Fin 32) j) :=
  joinRows32_read c M hM g0 g1 g2 g3 g4 g5 g6 g7 g8 g9 g10 g11 g12 g13 g14 g15 g16 g17 g18 g19 g20 g21 g22 g23 g24 g25 g26 g27 g28 g29 g30 g31 9 j
theorem joinRows32_read_10 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (10 : Fin 32) j) = M.view.read (Elt F) g10 (ValueIdx.ix2 (10 : Fin 32) j) :=
  joinRows32_read c M hM g0 g1 g2 g3 g4 g5 g6 g7 g8 g9 g10 g11 g12 g13 g14 g15 g16 g17 g18 g19 g20 g21 g22 g23 g24 g25 g26 g27 g28 g29 g30 g31 10 j
theorem joinRows32_read_11 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (11 : Fin 32) j) = M.view.read (Elt F) g11 (ValueIdx.ix2 (11 : Fin 32) j) :=
  joinRows32_read c M hM g0 g1 g2 g3 g4 g5 g6 g7 g8 g9 g10 g11 g12 g13 g14 g15 g16 g17 g18 g19 g20 g21 g22 g23 g24 g25 g26 g27 g28 g29 g30 g31 11 j
theorem joinRows32_read_12 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (12 : Fin 32) j) = M.view.read (Elt F) g12 (ValueIdx.ix2 (12 : Fin 32) j) :=
  joinRows32_read c M hM g0 g1 g2 g3 g4 g5 g6 g7 g8 g9 g10 g11 g12 g13 g14 g15 g16 g17 g18 g19 g20 g21 g22 g23 g24 g25 g26 g27 g28 g29 g30 g31 12 j
theorem joinRows32_read_13 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (13 : Fin 32) j) = M.view.read (Elt F) g13 (ValueIdx.ix2 (13 : Fin 32) j) :=
  joinRows32_read c M hM g0 g1 g2 g3 g4 g5 g6 g7 g8 g9 g10 g11 g12 g13 g14 g15 g16 g17 g18 g19 g20 g21 g22 g23 g24 g25 g26 g27 g28 g29 g30 g31 13 j
theorem joinRows32_read_14 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (14 : Fin 32) j) = M.view.read (Elt F) g14 (ValueIdx.ix2 (14 : Fin 32) j) :=
  joinRows32_read c M hM g0 g1 g2 g3 g4 g5 g6 g7 g8 g9 g10 g11 g12 g13 g14 g15 g16 g17 g18 g19 g20 g21 g22 g23 g24 g25 g26 g27 g28 g29 g30 g31 14 j
theorem joinRows32_read_15 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (15 : Fin 32) j) = M.view.read (Elt F) g15 (ValueIdx.ix2 (15 : Fin 32) j) :=
  joinRows32_read c M hM g0 g1 g2 g3 g4 g5 g6 g7 g8 g9 g10 g11 g12 g13 g14 g15 g16 g17 g18 g19 g20 g21 g22 g23 g24 g25 g26 g27 g28 g29 g30 g31 15 j
theorem joinRows32_read_16 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (16 : Fin 32) j) = M.view.read (Elt F) g16 (ValueIdx.ix2 (16 : Fin 32) j) :=
  joinRows32_read c M hM g0 g1 g2 g3 g4 g5 g6 g7 g8 g9 g10 g11 g12 g13 g14 g15 g16 g17 g18 g19 g20 g21 g22 g23 g24 g25 g26 g27 g28 g29 g30 g31 16 j
theorem joinRows32_read_17 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (17 : Fin 32) j) = M.view.read (Elt F) g17 (ValueIdx.ix2 (17 : Fin 32) j) :=
  joinRows32_read c M hM g0 g1 g2 g3 g4 g5 g6 g7 g8 g9 g10 g11 g12 g13 g14 g15 g16 g17 g18 g19 g20 g21 g22 g23 g24 g25 g26 g27 g28 g29 g30 g31 17 j
theorem joinRows32_read_18 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (18 : Fin 32) j) = M.view.read (Elt F) g18 (ValueIdx.ix2 (18 : Fin 32) j) :=
  joinRows32_read c M hM g0 g1 g2 g3 g4 g5 g6 g7 g8 g9 g10 g11 g12 g13 g14 g15 g16 g17 g18 g19 g20 g21 g22 g23 g24 g25 g26 g27 g28 g29 g30 g31 18 j
theorem joinRows32_read_19 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (19 : Fin 32) j) = M.view.read (Elt F) g19 (ValueIdx.ix2 (19 : Fin 32) j) :=
  joinRows32_read c M hM g0 g1 g2 g3 g4 g5 g6 g7 g8 g9 g10 g11 g12 g13 g14 g15 g16 g17 g18 g19 g20 g21 g22 g23 g24 g25 g26 g27 g28 g29 g30 g31 19 j
theorem joinRows32_read_20 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (20 : Fin 32) j) = M.view.read (Elt F) g20 (ValueIdx.ix2 (20 : Fin 32) j) :=
  joinRows32_read c M hM g0 g1 g2 g3 g4 g5 g6 g7 g8 g9 g10 g11 g12 g13 g14 g15 g16 g17 g18 g19 g20 g21 g22 g23 g24 g25 g26 g27 g28 g29 g30 g31 20 j
theorem joinRows32_read_21 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (21 : Fin 32) j) = M.view.read (Elt F) g21 (ValueIdx.ix2 (21 : Fin 32) j) :=
  joinRows32_read c M hM g0 g1 g2 g3 g4 g5 g6 g7 g8 g9 g10 g11 g12 g13 g14 g15 g16 g17 g18 g19 g20 g21 g22 g23 g24 g25 g26 g27 g28 g29 g30 g31 21 j
theorem joinRows32_read_22 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (22 : Fin 32) j) = M.view.read (Elt F) g22 (ValueIdx.ix2 (22 : Fin 32) j) :=
  joinRows32_read c M hM g0 g1 g2 g3 g4 g5 g6 g7 g8 g9 g10 g11 g12 g13 g14 g15 g16 g17 g18 g19 g20 g21 g22 g23 g24 g25 g26 g27 g28 g29 g30 g31 22 j
theorem joinRows32_read_23 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (23 : Fin 32) j) = M.view.read (Elt F) g23 (ValueIdx.ix2 (23 : Fin 32) j) :=
  joinRows32_read c M hM g0 g1 g2 g3 g4 g5 g6 g7 g8 g9 g10 g11 g12 g13 g14 g15 g16 g17 g18 g19 g20 g21 g22 g23 g24 g25 g26 g27 g28 g29 g30 g31 23 j
theorem joinRows32_read_24 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (24 : Fin 32) j) = M.view.read (Elt F) g24 (ValueIdx.ix2 (24 : Fin 32) j) :=
  joinRows32_read c M hM g0 g1 g2 g3 g4 g5 g6 g7 g8 g9 g10 g11 g12 g13 g14 g15 g16 g17 g18 g19 g20 g21 g22 g23 g24 g25 g26 g27 g28 g29 g30 g31 24 j
theorem joinRows32_read_25 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (25 : Fin 32) j) = M.view.read (Elt F) g25 (ValueIdx.ix2 (25 : Fin 32) j) :=
  joinRows32_read c M hM g0 g1 g2 g3 g4 g5 g6 g7 g8 g9 g10 g11 g12 g13 g14 g15 g16 g17 g18 g19 g20 g21 g22 g23 g24 g25 g26 g27 g28 g29 g30 g31 25 j
theorem joinRows32_read_26 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (26 : Fin 32) j) = M.view.read (Elt F) g26 (ValueIdx.ix2 (26 : Fin 32) j) :=
  joinRows32_read c M hM g0 g1 g2 g3 g4 g5 g6 g7 g8 g9 g10 g11 g12 g13 g14 g15 g16 g17 g18 g19 g20 g21 g22 g23 g24 g25 g26 g27 g28 g29 g30 g31 26 j
theorem joinRows32_read_27 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (27 : Fin 32) j) = M.view.read (Elt F) g27 (ValueIdx.ix2 (27 : Fin 32) j) :=
  joinRows32_read c M hM g0 g1 g2 g3 g4 g5 g6 g7 g8 g9 g10 g11 g12 g13 g14 g15 g16 g17 g18 g19 g20 g21 g22 g23 g24 g25 g26 g27 g28 g29 g30 g31 27 j
theorem joinRows32_read_28 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (28 : Fin 32) j) = M.view.read (Elt F) g28 (ValueIdx.ix2 (28 : Fin 32) j) :=
  joinRows32_read c M hM g0 g1 g2 g3 g4 g5 g6 g7 g8 g9 g10 g11 g12 g13 g14 g15 g16 g17 g18 g19 g20 g21 g22 g23 g24 g25 g26 g27 g28 g29 g30 g31 28 j
theorem joinRows32_read_29 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (29 : Fin 32) j) = M.view.read (Elt F) g29 (ValueIdx.ix2 (29 : Fin 32) j) :=
  joinRows32_read c M hM g0 g1 g2 g3 g4 g5 g6 g7 g8 g9 g10 g11 g12 g13 g14 g15 g16 g17 g18 g19 g20 g21 g22 g23 g24 g25 g26 g27 g28 g29 g30 g31 29 j
theorem joinRows32_read_30 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (30 : Fin 32) j) = M.view.read (Elt F) g30 (ValueIdx.ix2 (30 : Fin 32) j) :=
  joinRows32_read c M hM g0 g1 g2 g3 g4 g5 g6 g7 g8 g9 g10 g11 g12 g13 g14 g15 g16 g17 g18 g19 g20 g21 g22 g23 g24 g25 g26 g27 g28 g29 g30 g31 30 j
theorem joinRows32_read_31 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (31 : Fin 32) j) = M.view.read (Elt F) g31 (ValueIdx.ix2 (31 : Fin 32) j) :=
  joinRows32_read c M hM g0 g1 g2 g3 g4 g5 g6 g7 g8 g9 g10 g11 g12 g13 g14 g15 g16 g17 g18 g19 g20 g21 g22 g23 g24 g25 g26 g27 g28 g29 g30 g31 31 j

/-- Row `r`'s index `j` sits in the buffer where the buffer's own index `(r, j)` does. -/
theorem emb_rowM (M : Memref sig .tc .vmem S32x8 .f32) (r : ℕ) (hr : r < 32) (j : Fin 8) :
    (rowM M r (row_inb32 r hr)).view.emb (ValueIdx.ix1 j) = M.view.emb (ValueIdx.ix2 (⟨r, hr⟩ : Fin 32) j) := by
  show M.view.emb ((Rect.unit (s := S32x8) ![r, 0] S1x8.size (row_inb32 r hr)).emb
      (Shape.reshapeEquiv squeezes_S1x8_S8.numel_eq (ValueIdx.ix1 j))) = _
  congr 1
  rw [show Shape.reshapeEquiv squeezes_S1x8_S8.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show r + 1 * 0 = r; omega
  | ⟨1, _⟩ => apply Fin.ext; show 0 + 1 * (j : ℕ) = j; omega

/-- Reading through the row is reading the buffer at that row. -/
theorem read_rowM (c : Dev nD) (M : Memref sig .tc .vmem S32x8 .f32) (f : HbBuf (F := F) c M) (r : ℕ) (h : r < 32) (j : Fin 8) :
    (rowM M r (row_inb32 r h)).view.read (Elt F) f (ValueIdx.ix1 j) = M.view.read (Elt F) f (ValueIdx.ix2 ⟨r, h⟩ j) := by
  rw [View.read_apply, View.read_apply, emb_rowM M r h j]

/-- After row `r` is overwritten by `p`, the buffer reads `p` at row `r`. -/
theorem rowWrite_read (c : Dev nD) (M : Memref sig .tc .vmem S32x8 .f32) (hM : M.IsWhole) (f0 : HbBuf (F := F) c M) (p : S8.Idx → Elt F .f32) (r : ℕ) (h : r < 32) (j : Fin 8) :
    M.view.read (Elt F) (show HbBuf (F := F) c M from View.write (Elt F) (rowM M r (row_inb32 r h)).view f0 p Finset.univ) (ValueIdx.ix2 ⟨r, h⟩ j) = p (ValueIdx.ix1 j) := by
  show M.view.read (Elt F) ((rowM M r (row_inb32 r h)).view.write (Elt F) f0 p Finset.univ) (ValueIdx.ix2 ⟨r, h⟩ j) = _
  rw [← read_rowM c M _ r h j]
  exact View.read_write_of_mem _ _ (Finset.mem_univ _)

/-- After row `r` is overwritten, the buffer reads at any other row what it read before. -/
theorem rowWrite_read_of_ne (c : Dev nD) (M : Memref sig .tc .vmem S32x8 .f32) (f0 : HbBuf (F := F) c M) (p : S8.Idx → Elt F .f32) (r : ℕ) (h : r < 32)
    (x : S32x8.Idx) (hx : ((x 0 : Fin 32) : ℕ) ≠ r) :
    M.view.read (Elt F) (show HbBuf (F := F) c M from View.write (Elt F) (rowM M r (row_inb32 r h)).view f0 p Finset.univ) x = M.view.read (Elt F) f0 x := by
  show M.view.read (Elt F) ((rowM M r (row_inb32 r h)).view.write (Elt F) f0 p Finset.univ) x = _
  have hn : M.view.emb x ∉ (rowM M r (row_inb32 r h)).view.setOn Finset.univ := by
    rw [View.setOn_univ, set_rowM]
    intro hm
    obtain ⟨y, hy, e⟩ := Finset.mem_map.mp hm
    rw [M.view.emb.injective e] at hy
    exact hx (mem_rowRect.mp hy)
  rw [View.read_apply, View.read_apply, View.write_of_not_mem _ _ _ hn]

/-! ## A row a copy has landed in, as one whole-row piece written over the prior contents -/

/-- On a view's own elements, what a write through the whole view leaves does not depend on the prior contents. -/
theorem write_univ_of_mem_set {κ : Kind} {sp : Space} {s : Shape} {e : EltTy} (v : View sig κ sp s e)
    (g g' : v.ty.Contents (Elt F)) (w : s.Idx → Elt F e) {x : v.ty.Idx} (hx : x ∈ v.set) :
    v.write (Elt F) g w Finset.univ x = v.write (Elt F) g' w Finset.univ x := by
  obtain ⟨j, -, rfl⟩ := Finset.mem_map.mp hx
  rw [View.write_emb_of_mem _ _ (Finset.mem_univ j), View.write_emb_of_mem _ _ (Finset.mem_univ j)]

/-- One whole-view piece written over `f` is the write through the whole view. -/
theorem writes_whole_eq_write {κ : Kind} {sp : Space} {s : Shape} {e : EltTy} (v : View sig κ sp s e)
    (f : v.ty.Contents (Elt F)) (w : s.Idx → Elt F e) :
    v.writes (Elt F) f [⟨Rect.whole s, w⟩] = v.write (Elt F) f w Finset.univ := by
  have h := View.write_univ_eq_writes_whole v f [] w
  rw [View.writes_nil] at h
  exact h.symm

/-- A row held at the whole-row piece `p` written over some contents: the contents underneath do not matter. -/
theorem rowPt_base (c : Dev nD) (M : Memref sig .tc .vmem S32x8 .f32) (r : ℕ) (h : r < 32) (f f' : HbBuf (F := F) c M) (p : S8.Idx → Elt F .f32) :
    (rowPt c M r h (show HbBuf (F := F) c M from (rowM M r (row_inb32 r h)).view.writes (Elt F) (show HbBuf (F := F) c (rowM M r (row_inb32 r h)) from f) [⟨Rect.whole S8, p⟩]) : sProp 𝕄)
      = rowPt c M r h (show HbBuf (F := F) c M from (rowM M r (row_inb32 r h)).view.writes (Elt F) (show HbBuf (F := F) c (rowM M r (row_inb32 r h)) from f') [⟨Rect.whole S8, p⟩]) := by
  refine pointsTo_congr fun i hi => ?_
  show (rowM M r (row_inb32 r h)).view.writes (Elt F) f [⟨Rect.whole S8, p⟩] i
    = (rowM M r (row_inb32 r h)).view.writes (Elt F) f' [⟨Rect.whole S8, p⟩] i
  rw [writes_whole_eq_write, writes_whole_eq_write]
  exact write_univ_of_mem_set _ _ _ _ hi

/-- The same with the contents underneath replaced by the row view's arbitrary contents, a closed term. -/
theorem rowPt_base_junk (c : Dev nD) (M : Memref sig .tc .vmem S32x8 .f32) (r : ℕ) (h : r < 32) (f : HbBuf (F := F) c M) (p : S8.Idx → Elt F .f32) :
    (rowPt c M r h (show HbBuf (F := F) c M from (rowM M r (row_inb32 r h)).view.writes (Elt F) (show HbBuf (F := F) c (rowM M r (row_inb32 r h)) from f) [⟨Rect.whole S8, p⟩]) : sProp 𝕄)
      = rowPt c M r h (show HbBuf (F := F) c M from (rowM M r (row_inb32 r h)).view.writes (Elt F) (rowM M r (row_inb32 r h)).view.junk [⟨Rect.whole S8, p⟩]) :=
  rowPt_base c M r h f (show HbBuf (F := F) c M from (rowM M r (row_inb32 r h)).view.junk) p

/-- After a copy lands in row `r` as the whole-row piece `p`, the buffer reads `p` at row `r`. -/
theorem rowWrites_read (c : Dev nD) (M : Memref sig .tc .vmem S32x8 .f32) (hM : M.IsWhole) (f0 : HbBuf (F := F) c M) (p : S8.Idx → Elt F .f32) (r : ℕ) (h : r < 32) (j : Fin 8) :
    M.view.read (Elt F) (show HbBuf (F := F) c M from (rowM M r (row_inb32 r h)).view.writes (Elt F) (show HbBuf (F := F) c (rowM M r (row_inb32 r h)) from f0) [⟨Rect.whole S8, p⟩]) (ValueIdx.ix2 ⟨r, h⟩ j) = p (ValueIdx.ix1 j) := by
  show M.view.read (Elt F) ((rowM M r (row_inb32 r h)).view.writes (Elt F) f0 [⟨Rect.whole S8, p⟩]) (ValueIdx.ix2 ⟨r, h⟩ j) = _
  rw [← read_rowM c M _ r h j, View.read_writes_whole]

end Cert.Kernel.Hand

end
-- ==== Proof.KernelRun1.lean ====
/-
  The body of gather kernel 1 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM1 : Memref sig .tc .smem S32x1023 .i32 := Memref.whole main_v34

set_option maxHeartbeats 40000000 in
/-- What the body of gather kernel 1 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun1 (c : Dev nD) (i : grid1.Coords) (arg3 : Memref sig .tc .vmem S1x32x8 .f32) (harg3 : arg3.IsWhole)
    (arg4 : Memref sig .tc .vmem S32x8 .f32) (harg4 : arg4.IsWhole)
    (f0 : HbBuf (F := F) c tbM1) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM1 fullShare f0 ∗ (∃ d, owns (c : Thread nD τ) arg3 fullShare d) ∗ (∃ d, owns (c : Thread nD τ) arg4 fullShare d)
            ∗ (tokH c 7 fh ∗ tokH c 8 fh ∗ tokH c 9 fh ∗ tokH c 10 fh ∗ tokH c 11 fh ∗ tokH c 12 fh ∗ tokH c 13 fh ∗ tokH c 14 fh ∗ tokH c 15 fh ∗ tokH c 16 fh ∗ tokH c 17 fh ∗ tokH c 18 fh ∗ tokH c 19 fh ∗ tokH c 20 fh ∗ tokH c 21 fh ∗ tokH c 22 fh ∗ tokH c 23 fh ∗ tokH c 24 fh ∗ tokH c 25 fh ∗ tokH c 26 fh ∗ tokH c 27 fh ∗ tokH c 28 fh ∗ tokH c 29 fh ∗ tokH c 30 fh ∗ tokH c 31 fh ∗ tokH c 32 fh ∗ tokH c 33 fh ∗ tokH c 34 fh ∗ tokH c 35 fh ∗ tokH c 36 fh ∗ tokH c 37 fh ∗ tokH c 38 fh)
            ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
            ∗ owes (c : Thread nD τ) 0 W
            ∗ (iprop(ptSet c tbM1 fullShare f0 ∗ (∃ f, arg3.view.loc (c : Thread nD τ) ↦[arg3.view.set]{fullShare} arg3.view.writes (Elt F) f L3) ∗ (∃ d, owns (c : Thread nD τ) arg4 fullShare d)
                ∗ (tokH c 7 fh ∗ tokH c 8 fh ∗ tokH c 9 fh ∗ tokH c 10 fh ∗ tokH c 11 fh ∗ tokH c 12 fh ∗ tokH c 13 fh ∗ tokH c 14 fh ∗ tokH c 15 fh ∗ tokH c 16 fh ∗ tokH c 17 fh ∗ tokH c 18 fh ∗ tokH c 19 fh ∗ tokH c 20 fh ∗ tokH c 21 fh ∗ tokH c 22 fh ∗ tokH c 23 fh ∗ tokH c 24 fh ∗ tokH c 25 fh ∗ tokH c 26 fh ∗ tokH c 27 fh ∗ tokH c 28 fh ∗ tokH c 29 fh ∗ tokH c 30 fh ∗ tokH c 31 fh ∗ tokH c 32 fh ∗ tokH c 33 fh ∗ tokH c 34 fh ∗ tokH c 35 fh ∗ tokH c 36 fh ∗ tokH c 37 fh ∗ tokH c 38 fh)
                ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
                ∗ (∃ W', owes (c : Thread nD τ) 0 W')) -∗ K ⟨⟩))
          ⊢ wp frame (wpE (defs₀ (F := F)) Variants.none c none) Set.univ (cc1__gather_kernel i tbM1 (Memref.isWhole_whole _) hbM (Memref.isWhole_whole _) arg3 harg3 arg4 harg4 cc1_scratch1) K } := by
  refine ⟨?_, fun W K => ?run⟩
  case run =>
    simp only [cc1__gather_kernel_eq_skeleton]; unfold cc1__gather_kernel_skel
    unfold owns
    iintro ⟨H0, ⟨%d1, %f1, -, H1⟩, ⟨%ds0, %fs0, -, HS0⟩, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
    · isplitl [HT7]; · iexact HT7
      isplitl [HT8]; · iexact HT8
      isplitl [HT9]; · iexact HT9
      isplitl [HT10]; · iexact HT10
      isplitl [HT11]; · iexact HT11
      isplitl [HT12]; · iexact HT12
      isplitl [HT13]; · iexact HT13
      isplitl [HT14]; · iexact HT14
      isplitl [HT15]; · iexact HT15
      isplitl [HT16]; · iexact HT16
      isplitl [HT17]; · iexact HT17
      isplitl [HT18]; · iexact HT18
      isplitl [HT19]; · iexact HT19
      isplitl [HT20]; · iexact HT20
      isplitl [HT21]; · iexact HT21
      isplitl [HT22]; · iexact HT22
      isplitl [HT23]; · iexact HT23
      isplitl [HT24]; · iexact HT24
      isplitl [HT25]; · iexact HT25
      isplitl [HT26]; · iexact HT26
      isplitl [HT27]; · iexact HT27
      isplitl [HT28]; · iexact HT28
      isplitl [HT29]; · iexact HT29
      isplitl [HT30]; · iexact HT30
      isplitl [HT31]; · iexact HT31
      isplitl [HT32]; · iexact HT32
      isplitl [HT33]; · iexact HT33
      isplitl [HT34]; · iexact HT34
      isplitl [HT35]; · iexact HT35
      isplitl [HT36]; · iexact HT36
      isplitl [HT37]; · iexact HT37
      iexact HT38
    isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    iexists _; iexact HW

/-- The run's pieces for the output block tile it (its one store writes the whole block), so they cover it. -/
theorem coverRun1 (c : Dev nD) (i : grid1.Coords) (arg3 : Memref sig .tc .vmem S1x32x8 .f32) (harg3 : arg3.IsWhole)
    (arg4 : Memref sig .tc .vmem S32x8 .f32) (harg4 : arg4.IsWhole)
    (f0 : HbBuf (F := F) c tbM1) (hall : ∀ j, (f0 j).toNat < 8388608) (fh : HbBuf (F := F) c hbM) (y : S1x32x8.Idx) :
    ∃ pc ∈ (kernelRun1 c i arg3 harg3 arg4 harg4 f0 hall fh).1, y ∈ pc.1.set :=
  View.cover_of_tiledL (kernelRun1 c i arg3 harg3 arg4 harg4 f0 hall fh).1 S1x32x8.size (by sl_kernel_rfl) y

end Cert.Kernel.Hand

end
-- ==== Proof.KernelGather1.lean ====
/-
  Gather kernel 1 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun1

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 1: its region, over the contents `V` it is entered with -/

section Gather1
variable (V : (c : Dev nD) → (b : Ref sig .tc) → Buf (Elt F) ((c : Thread nD τ).loc b))

/-- The row-index table of this launch as the region finds it. The pipeline asks nothing of a table (its windows' index
    maps do not read it), so every table is admissible. -/
def adm1 : (pcfg1 (F := F)).Adm := ⟨fun | ⟨0, _⟩ => V 0 main_v34 | ⟨_ + 1, h⟩ => absurd h (Nat.not_lt.2 (Nat.le_add_left _ _)), trivial⟩

/-- Every word of the table names a row of the weight array. -/
def InRange1 : Prop := ∀ (c : Dev nD) j, ((V c main_v34) j).toNat < 8388608

abbrev pcfgG1 : Pipeline.Cfg sig Λ₀ := cfg1 (adm1 (F := F) V)

/-- The output window's current staging buffer at point `t`, as the pipeline passes it to the body. -/
abbrev ms1 (t : Fin (pcfgG1 (F := F) V).N) : Memref sig .tc .vmem S1x32x8 .f32 := spec1_0.stage ((pcfgG1 (F := F) V).slots t 0)
abbrev hs1 (t : Fin (pcfgG1 (F := F) V).N) : (ms1 V t).IsWhole := hstage1_0 (((pcfgG1 (F := F) V).slots t 0).cast nbuf1_0)
/-- The kernel's scratch block, a whole scoped buffer of its own. -/
abbrev scM1 : Memref sig .tc .vmem S32x8 .f32 := Memref.whole cc1_scratch0
/-- One staging buffer of the output window, through which its contents are stated. -/
abbrev VO1 : View sig .tc .vmem S1x32x8 .f32 := (Memref.whole cc1_stg0_0 : Memref sig .tc .vmem S1x32x8 .f32).view

/-- The kernel's own DMA semaphores, one per route. -/
abbrev osem1 : Fin 32 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 32 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H1 : Finset (Ref sig .tc) := {main_arg2, main_v34}
theorem H1_sub : H1 ⊆ Pipeline.restRefs sig spec1 := by decide

/-- What the output block holds after the body at point `t`: the run's pieces read back. -/
def outsAt1 (hH : InRange1 V) (c : Dev nD) (t : Fin (pcfgG1 (F := F) V).N) : Vec F S1x32x8 .f32 :=
  (VO1).read (Elt F) ((VO1).writes (Elt F) (VO1).junk
    (kernelRun1 c (grid1.coords t) (ms1 V t) (hs1 V t) scM1 (Memref.isWhole_whole _) (V c main_v34) (hH c) (V c main_arg2)).1)

/-- The region's invariant: the scoped buffers no window stages (the scratch block among them), the generator register,
    the kernel's DMA semaphores at zero, the weight array and the table whole at their entry contents. -/
def ΦG1 (c : Dev nD) : sProp 𝕄 :=
  iprop(Pipeline.scopedRest (Ix := Unit) (Name := ℕ) (U := Pipeline.UD sig nD τ) (Lvl := ℕ) (Val := Elt F) spec1 c ∗ (∃ r, prngReg c r)
    ∗ Pipeline.ownSems0 (Ix := Unit) (Name := ℕ) (U := Pipeline.UD sig nD τ) (Lvl := ℕ) (Val := Elt F) (τ := τ) osem1 c
    ∗ (((c : Thread nD τ).loc main_arg2) ↦{fullShare} V c main_arg2)
    ∗ ptSet c tbM1 fullShare (V c main_v34))

/-- The proof data of gather pipeline 1 on core `c`. -/
def datG1 (hH : InRange1 V) (c : Dev nD) : Dat τ (Elt F) Unit ℕ (Pipeline.UD sig nD τ) ℕ (pcfgG1 (F := F) V) c where
  A w := V c (Pipeline.arrRef spec1 w)
  after w t := match w with
    | ⟨0, _⟩ => outsAt1 V hH c t
  Φ _ := ΦG1 V c
  q _ := fullShare
  owed _ := 0

theorem afterG1 (hH : InRange1 V) (c : Dev nD) (t) : (datG1 V hH c).after 0 t = outsAt1 V hH c t := by dsimp only [datG1]; rfl

end Gather1

section GatherBody1
variable (V : (c : Dev nD) → (b : Ref sig .tc) → Buf (Elt F) ((c : Thread nD τ).loc b))

open Idealize.ShloMosaic.Transfers in
/-- The weight array at the full share, as the read shares the thirty-two copies take and what is left beside them. -/
theorem hbSplit1 (c : Dev nD) :
    ((((c : Thread nD τ).loc main_arg2) ↦{fullShare} V c main_arg2) : sProp 𝕄)
      ⊣⊢ iprop((((((c : Thread nD τ).loc main_arg2) ↦{shareDrop fullShare (7 + 32)} V c main_arg2)) ∗ (tokH c 7 (V c main_arg2) ∗ tokH c 8 (V c main_arg2) ∗ tokH c 9 (V c main_arg2) ∗ tokH c 10 (V c main_arg2) ∗ tokH c 11 (V c main_arg2) ∗ tokH c 12 (V c main_arg2) ∗ tokH c 13 (V c main_arg2) ∗ tokH c 14 (V c main_arg2) ∗ tokH c 15 (V c main_arg2) ∗ tokH c 16 (V c main_arg2) ∗ tokH c 17 (V c main_arg2) ∗ tokH c 18 (V c main_arg2) ∗ tokH c 19 (V c main_arg2) ∗ tokH c 20 (V c main_arg2) ∗ tokH c 21 (V c main_arg2) ∗ tokH c 22 (V c main_arg2) ∗ tokH c 23 (V c main_arg2) ∗ tokH c 24 (V c main_arg2) ∗ tokH c 25 (V c main_arg2) ∗ tokH c 26 (V c main_arg2) ∗ tokH c 27 (V c main_arg2) ∗ tokH c 28 (V c main_arg2) ∗ tokH c 29 (V c main_arg2) ∗ tokH c 30 (V c main_arg2) ∗ tokH c 31 (V c main_arg2) ∗ tokH c 32 (V c main_arg2) ∗ tokH c 33 (V c main_arg2) ∗ tokH c 34 (V c main_arg2) ∗ tokH c 35 (V c main_arg2) ∗ tokH c 36 (V c main_arg2) ∗ tokH c 37 (V c main_arg2) ∗ tokH c 38 (V c main_arg2)))
        ∗ BI.bigSep (Finset.range 7) (fun i => ((((c : Thread nD τ).loc main_arg2) ↦{shareTokN fullShare i} V c main_arg2) : sProp 𝕄))) :=
  toks32 (F := F) 7

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG1 (hH : InRange1 V) (c : Dev nD) (t : Fin (pcfgG1 (F := F) V).N) :
    iprop((datG1 V hH c).Φ t.castSucc ∗ (datG1 V hH c).owesAt () t.castSucc
        ∗ (∃ d, owns (c : Thread nD τ) (ms1 V t) fullShare ((datG1 V hH c).before 0 t d)))
      ⊢ wp frame (wpE (defs₀ (F := F)) Variants.none c none) Set.univ
          (cc1__gather_kernel (grid1.coords t) tbM1 (Memref.isWhole_whole _) hbM (Memref.isWhole_whole _) (ms1 V t) (hs1 V t) scM1 (Memref.isWhole_whole _) cc1_scratch1)
          (fun _ => iprop((datG1 V hH c).Φ t.succ ∗ (datG1 V hH c).owesAt () t.succ
            ∗ owns (c : Thread nD τ) (ms1 V t) fullShare ((datG1 V hH c).after 0 t))) := by
  rw [show (datG1 V hH c).Φ t.succ = ΦG1 V c from rfl, show (datG1 V hH c).Φ t.castSucc = ΦG1 V c from rfl, afterG1]
  unfold ΦG1
  rw [scopedRest1_split, ownSems01_eq]
  unfold Dat.owesAt Pipeline.owesWithin
  rw [show (datG1 V hH c).owed t.castSucc = 0 from rfl, show (datG1 V hH c).owed t.succ = 0 from rfl]
  unfold outsAt1
  iintro ⟨⟨⟨HS0, HRB⟩, Hg, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, Hh, Ht⟩, ⟨%W, -, HW⟩, ⟨%d1, H1⟩⟩
  ihave Hh2 := (hbSplit1 V c).1 $$ Hh
  icases Hh2 with ⟨⟨Hdrop, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩⟩, Hlow⟩
  iapply ((kernelRun1 c (grid1.coords t) (ms1 V t) (hs1 V t) scM1 (Memref.isWhole_whole _) (V c main_v34) (hH c) (V c main_arg2)).2 W _)
  isplitl [Ht]; · iexact Ht
  isplitl [H1]; · iexists _; iexact H1
  isplitl [HS0]; · simp only [owns_whole]; iexact HS0
  isplitl [HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
  · isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    isplitl [HT19]; · iexact HT19
    isplitl [HT20]; · iexact HT20
    isplitl [HT21]; · iexact HT21
    isplitl [HT22]; · iexact HT22
    isplitl [HT23]; · iexact HT23
    isplitl [HT24]; · iexact HT24
    isplitl [HT25]; · iexact HT25
    isplitl [HT26]; · iexact HT26
    isplitl [HT27]; · iexact HT27
    isplitl [HT28]; · iexact HT28
    isplitl [HT29]; · iexact HT29
    isplitl [HT30]; · iexact HT30
    isplitl [HT31]; · iexact HT31
    isplitl [HT32]; · iexact HT32
    isplitl [HT33]; · iexact HT33
    isplitl [HT34]; · iexact HT34
    isplitl [HT35]; · iexact HT35
    isplitl [HT36]; · iexact HT36
    isplitl [HT37]; · iexact HT37
    iexact HT38
  isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
  · isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    iexact Hq38
  isplitl [HW]; · iexact HW
  iintro ⟨Ht, ⟨%e1, H1⟩, HS0, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, ⟨%W', HW'⟩⟩
  isplitl [Ht HS0 HRB Hg Hdrop Hlow HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
  · isplitl [HS0 HRB]
    · isplitl [HS0]; · simp only [owns_whole]; iexact HS0
      iexact HRB
    isplitl [Hg]; · iexact Hg
    isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    isplitl [Hdrop Hlow HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
    · iapply (hbSplit1 V c).2
      isplitl [Hdrop HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
      · isplitl [Hdrop]; · iexact Hdrop
        isplitl [HT7]; · iexact HT7
        isplitl [HT8]; · iexact HT8
        isplitl [HT9]; · iexact HT9
        isplitl [HT10]; · iexact HT10
        isplitl [HT11]; · iexact HT11
        isplitl [HT12]; · iexact HT12
        isplitl [HT13]; · iexact HT13
        isplitl [HT14]; · iexact HT14
        isplitl [HT15]; · iexact HT15
        isplitl [HT16]; · iexact HT16
        isplitl [HT17]; · iexact HT17
        isplitl [HT18]; · iexact HT18
        isplitl [HT19]; · iexact HT19
        isplitl [HT20]; · iexact HT20
        isplitl [HT21]; · iexact HT21
        isplitl [HT22]; · iexact HT22
        isplitl [HT23]; · iexact HT23
        isplitl [HT24]; · iexact HT24
        isplitl [HT25]; · iexact HT25
        isplitl [HT26]; · iexact HT26
        isplitl [HT27]; · iexact HT27
        isplitl [HT28]; · iexact HT28
        isplitl [HT29]; · iexact HT29
        isplitl [HT30]; · iexact HT30
        isplitl [HT31]; · iexact HT31
        isplitl [HT32]; · iexact HT32
        isplitl [HT33]; · iexact HT33
        isplitl [HT34]; · iexact HT34
        isplitl [HT35]; · iexact HT35
        isplitl [HT36]; · iexact HT36
        isplitl [HT37]; · iexact HT37
        iexact HT38
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun1 c _ _ _ _ _ _ _ _)

/-- The body obligation of gather pipeline 1, at every point. -/
theorem body_obligationG1 (hH : InRange1 V) (c : Dev nD) :
    BodyObligation (datG1 (F := F) V hH c) (defs₀ (F := F)) Variants.none () Set.univ := fun t => by
  rw [bigSep_W1, bigSep_W1]
  exact sound_bodyG1 V hH c t

end GatherBody1

section GatherLaunch1
variable (V : (c : Dev nD) → (b : Ref sig .tc) → Buf (Elt F) ((c : Thread nD τ).loc b))

/-- The table held through its own elements is the table's buffer held whole. -/
theorem tbPt1_eq (c : Dev nD) (f : HbBuf (F := F) c tbM1) :
    (ptSet c tbM1 fullShare f : sProp 𝕄) = (((c : Thread nD τ).loc main_v34) ↦{fullShare} f) := by
  show ((Memref.whole main_v34 : Memref sig .tc .smem S32x1023 .i32).view.loc (c : Thread nD τ) ↦[(Memref.whole main_v34 : Memref sig .tc .smem S32x1023 .i32).view.set]{fullShare} f) = _
  simp only [View.set_whole, Memref.view_whole]

/-- The launch's prefetched tables at the admitted contents: the one table's buffer held whole. -/
theorem prefHeld1_eq (c : Dev nD) :
    (Pipeline.prefHeld (Ix := Unit) (Name := ℕ) (U := Pipeline.UD sig nD τ) (Lvl := ℕ) pre1 c (fun _ => fullShare) (adm1 (F := F) V).1 : sProp 𝕄)
      = (((c : Thread nD τ).loc main_v34) ↦{fullShare} V c main_v34) := by
  obtain rfl : c = 0 := Subsingleton.elim _ _
  unfold Pipeline.prefHeld adm1
  rw [bigSep_W1]; rfl

/-- The two unscoped buffers the body reads by itself, their points-tos listed. -/
theorem hbmPts1_eq (c : Dev nD) :
    (BI.bigSep H1 (fun b => ((c : Thread nD τ).loc b) ↦{fullShare} V c b) : sProp 𝕄)
      = iprop((((c : Thread nD τ).loc main_arg2) ↦{fullShare} V c main_arg2) ∗ (((c : Thread nD τ).loc main_v34) ↦{fullShare} V c main_v34)) := by
  rw [BI.bigSep_eq_bigSepL_of_eq [main_arg2, main_v34] (by decide) (by decide)]; rfl

end GatherLaunch1

end Cert.Kernel.Hand

end
-- ==== Proof.KernelRun2.lean ====
/-
  The body of gather kernel 2 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM2 : Memref sig .tc .smem S32x1023 .i32 := Memref.whole main_v37

set_option maxHeartbeats 40000000 in
/-- What the body of gather kernel 2 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun2 (c : Dev nD) (i : grid2.Coords) (arg3 : Memref sig .tc .vmem S1x32x8 .f32) (harg3 : arg3.IsWhole)
    (arg4 : Memref sig .tc .vmem S32x8 .f32) (harg4 : arg4.IsWhole)
    (f0 : HbBuf (F := F) c tbM2) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM2 fullShare f0 ∗ (∃ d, owns (c : Thread nD τ) arg3 fullShare d) ∗ (∃ d, owns (c : Thread nD τ) arg4 fullShare d)
            ∗ (tokH c 41 fh ∗ tokH c 42 fh ∗ tokH c 43 fh ∗ tokH c 44 fh ∗ tokH c 45 fh ∗ tokH c 46 fh ∗ tokH c 47 fh ∗ tokH c 48 fh ∗ tokH c 49 fh ∗ tokH c 50 fh ∗ tokH c 51 fh ∗ tokH c 52 fh ∗ tokH c 53 fh ∗ tokH c 54 fh ∗ tokH c 55 fh ∗ tokH c 56 fh ∗ tokH c 57 fh ∗ tokH c 58 fh ∗ tokH c 59 fh ∗ tokH c 60 fh ∗ tokH c 61 fh ∗ tokH c 62 fh ∗ tokH c 63 fh ∗ tokH c 64 fh ∗ tokH c 65 fh ∗ tokH c 66 fh ∗ tokH c 67 fh ∗ tokH c 68 fh ∗ tokH c 69 fh ∗ tokH c 70 fh ∗ tokH c 71 fh ∗ tokH c 72 fh)
            ∗ (semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0)
            ∗ owes (c : Thread nD τ) 0 W
            ∗ (iprop(ptSet c tbM2 fullShare f0 ∗ (∃ f, arg3.view.loc (c : Thread nD τ) ↦[arg3.view.set]{fullShare} arg3.view.writes (Elt F) f L3) ∗ (∃ d, owns (c : Thread nD τ) arg4 fullShare d)
                ∗ (tokH c 41 fh ∗ tokH c 42 fh ∗ tokH c 43 fh ∗ tokH c 44 fh ∗ tokH c 45 fh ∗ tokH c 46 fh ∗ tokH c 47 fh ∗ tokH c 48 fh ∗ tokH c 49 fh ∗ tokH c 50 fh ∗ tokH c 51 fh ∗ tokH c 52 fh ∗ tokH c 53 fh ∗ tokH c 54 fh ∗ tokH c 55 fh ∗ tokH c 56 fh ∗ tokH c 57 fh ∗ tokH c 58 fh ∗ tokH c 59 fh ∗ tokH c 60 fh ∗ tokH c 61 fh ∗ tokH c 62 fh ∗ tokH c 63 fh ∗ tokH c 64 fh ∗ tokH c 65 fh ∗ tokH c 66 fh ∗ tokH c 67 fh ∗ tokH c 68 fh ∗ tokH c 69 fh ∗ tokH c 70 fh ∗ tokH c 71 fh ∗ tokH c 72 fh)
                ∗ (semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0)
                ∗ (∃ W', owes (c : Thread nD τ) 0 W')) -∗ K ⟨⟩))
          ⊢ wp frame (wpE (defs₀ (F := F)) Variants.none c none) Set.univ (cc2__gather_kernel i tbM2 (Memref.isWhole_whole _) hbM (Memref.isWhole_whole _) arg3 harg3 arg4 harg4 cc2_scratch1) K } := by
  refine ⟨?_, fun W K => ?run⟩
  case run =>
    simp only [cc2__gather_kernel_eq_skeleton]; unfold cc2__gather_kernel_skel
    unfold owns
    iintro ⟨H0, ⟨%d1, %f1, -, H1⟩, ⟨%ds0, %fs0, -, HS0⟩, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
    · isplitl [HT41]; · iexact HT41
      isplitl [HT42]; · iexact HT42
      isplitl [HT43]; · iexact HT43
      isplitl [HT44]; · iexact HT44
      isplitl [HT45]; · iexact HT45
      isplitl [HT46]; · iexact HT46
      isplitl [HT47]; · iexact HT47
      isplitl [HT48]; · iexact HT48
      isplitl [HT49]; · iexact HT49
      isplitl [HT50]; · iexact HT50
      isplitl [HT51]; · iexact HT51
      isplitl [HT52]; · iexact HT52
      isplitl [HT53]; · iexact HT53
      isplitl [HT54]; · iexact HT54
      isplitl [HT55]; · iexact HT55
      isplitl [HT56]; · iexact HT56
      isplitl [HT57]; · iexact HT57
      isplitl [HT58]; · iexact HT58
      isplitl [HT59]; · iexact HT59
      isplitl [HT60]; · iexact HT60
      isplitl [HT61]; · iexact HT61
      isplitl [HT62]; · iexact HT62
      isplitl [HT63]; · iexact HT63
      isplitl [HT64]; · iexact HT64
      isplitl [HT65]; · iexact HT65
      isplitl [HT66]; · iexact HT66
      isplitl [HT67]; · iexact HT67
      isplitl [HT68]; · iexact HT68
      isplitl [HT69]; · iexact HT69
      isplitl [HT70]; · iexact HT70
      isplitl [HT71]; · iexact HT71
      iexact HT72
    isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
    · isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      iexact Hq72
    iexists _; iexact HW

/-- The run's pieces for the output block tile it (its one store writes the whole block), so they cover it. -/
theorem coverRun2 (c : Dev nD) (i : grid2.Coords) (arg3 : Memref sig .tc .vmem S1x32x8 .f32) (harg3 : arg3.IsWhole)
    (arg4 : Memref sig .tc .vmem S32x8 .f32) (harg4 : arg4.IsWhole)
    (f0 : HbBuf (F := F) c tbM2) (hall : ∀ j, (f0 j).toNat < 8388608) (fh : HbBuf (F := F) c hbM) (y : S1x32x8.Idx) :
    ∃ pc ∈ (kernelRun2 c i arg3 harg3 arg4 harg4 f0 hall fh).1, y ∈ pc.1.set :=
  View.cover_of_tiledL (kernelRun2 c i arg3 harg3 arg4 harg4 f0 hall fh).1 S1x32x8.size (by sl_kernel_rfl) y

end Cert.Kernel.Hand

end
-- ==== Proof.KernelGather2.lean ====
/-
  Gather kernel 2 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun2

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 2: its region, over the contents `V` it is entered with -/

section Gather2
variable (V : (c : Dev nD) → (b : Ref sig .tc) → Buf (Elt F) ((c : Thread nD τ).loc b))

/-- The row-index table of this launch as the region finds it. The pipeline asks nothing of a table (its windows' index
    maps do not read it), so every table is admissible. -/
def adm2 : (pcfg2 (F := F)).Adm := ⟨fun | ⟨0, _⟩ => V 0 main_v37 | ⟨_ + 1, h⟩ => absurd h (Nat.not_lt.2 (Nat.le_add_left _ _)), trivial⟩

/-- Every word of the table names a row of the weight array. -/
def InRange2 : Prop := ∀ (c : Dev nD) j, ((V c main_v37) j).toNat < 8388608

abbrev pcfgG2 : Pipeline.Cfg sig Λ₀ := cfg2 (adm2 (F := F) V)

/-- The output window's current staging buffer at point `t`, as the pipeline passes it to the body. -/
abbrev ms2 (t : Fin (pcfgG2 (F := F) V).N) : Memref sig .tc .vmem S1x32x8 .f32 := spec2_0.stage ((pcfgG2 (F := F) V).slots t 0)
abbrev hs2 (t : Fin (pcfgG2 (F := F) V).N) : (ms2 V t).IsWhole := hstage2_0 (((pcfgG2 (F := F) V).slots t 0).cast nbuf2_0)
/-- The kernel's scratch block, a whole scoped buffer of its own. -/
abbrev scM2 : Memref sig .tc .vmem S32x8 .f32 := Memref.whole cc2_scratch0
/-- One staging buffer of the output window, through which its contents are stated. -/
abbrev VO2 : View sig .tc .vmem S1x32x8 .f32 := (Memref.whole cc2_stg0_0 : Memref sig .tc .vmem S1x32x8 .f32).view

/-- The kernel's own DMA semaphores, one per route. -/
abbrev osem2 : Fin 32 → SemLoc sig := fun j => (![SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72] : Fin 32 → SemLoc sig) j
theorem ownSemFacts2 : Pipeline.OwnSemFacts spec2 osem2 := by decide
theorem ownSems02_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0) := by
  rw [Pipeline.ownSems0_eq_of_list c osem2 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H2 : Finset (Ref sig .tc) := {main_arg2, main_v37}
theorem H2_sub : H2 ⊆ Pipeline.restRefs sig spec2 := by decide

/-- What the output block holds after the body at point `t`: the run's pieces read back. -/
def outsAt2 (hH : InRange2 V) (c : Dev nD) (t : Fin (pcfgG2 (F := F) V).N) : Vec F S1x32x8 .f32 :=
  (VO2).read (Elt F) ((VO2).writes (Elt F) (VO2).junk
    (kernelRun2 c (grid2.coords t) (ms2 V t) (hs2 V t) scM2 (Memref.isWhole_whole _) (V c main_v37) (hH c) (V c main_arg2)).1)

/-- The region's invariant: the scoped buffers no window stages (the scratch block among them), the generator register,
    the kernel's DMA semaphores at zero, the weight array and the table whole at their entry contents. -/
def ΦG2 (c : Dev nD) : sProp 𝕄 :=
  iprop(Pipeline.scopedRest (Ix := Unit) (Name := ℕ) (U := Pipeline.UD sig nD τ) (Lvl := ℕ) (Val := Elt F) spec2 c ∗ (∃ r, prngReg c r)
    ∗ Pipeline.ownSems0 (Ix := Unit) (Name := ℕ) (U := Pipeline.UD sig nD τ) (Lvl := ℕ) (Val := Elt F) (τ := τ) osem2 c
    ∗ (((c : Thread nD τ).loc main_arg2) ↦{fullShare} V c main_arg2)
    ∗ ptSet c tbM2 fullShare (V c main_v37))

/-- The proof data of gather pipeline 2 on core `c`. -/
def datG2 (hH : InRange2 V) (c : Dev nD) : Dat τ (Elt F) Unit ℕ (Pipeline.UD sig nD τ) ℕ (pcfgG2 (F := F) V) c where
  A w := V c (Pipeline.arrRef spec2 w)
  after w t := match w with
    | ⟨0, _⟩ => outsAt2 V hH c t
  Φ _ := ΦG2 V c
  q _ := fullShare
  owed _ := 0

theorem afterG2 (hH : InRange2 V) (c : Dev nD) (t) : (datG2 V hH c).after 0 t = outsAt2 V hH c t := by dsimp only [datG2]; rfl

end Gather2

section GatherBody2
variable (V : (c : Dev nD) → (b : Ref sig .tc) → Buf (Elt F) ((c : Thread nD τ).loc b))

open Idealize.ShloMosaic.Transfers in
/-- The weight array at the full share, as the read shares the thirty-two copies take and what is left beside them. -/
theorem hbSplit2 (c : Dev nD) :
    ((((c : Thread nD τ).loc main_arg2) ↦{fullShare} V c main_arg2) : sProp 𝕄)
      ⊣⊢ iprop((((((c : Thread nD τ).loc main_arg2) ↦{shareDrop fullShare (41 + 32)} V c main_arg2)) ∗ (tokH c 41 (V c main_arg2) ∗ tokH c 42 (V c main_arg2) ∗ tokH c 43 (V c main_arg2) ∗ tokH c 44 (V c main_arg2) ∗ tokH c 45 (V c main_arg2) ∗ tokH c 46 (V c main_arg2) ∗ tokH c 47 (V c main_arg2) ∗ tokH c 48 (V c main_arg2) ∗ tokH c 49 (V c main_arg2) ∗ tokH c 50 (V c main_arg2) ∗ tokH c 51 (V c main_arg2) ∗ tokH c 52 (V c main_arg2) ∗ tokH c 53 (V c main_arg2) ∗ tokH c 54 (V c main_arg2) ∗ tokH c 55 (V c main_arg2) ∗ tokH c 56 (V c main_arg2) ∗ tokH c 57 (V c main_arg2) ∗ tokH c 58 (V c main_arg2) ∗ tokH c 59 (V c main_arg2) ∗ tokH c 60 (V c main_arg2) ∗ tokH c 61 (V c main_arg2) ∗ tokH c 62 (V c main_arg2) ∗ tokH c 63 (V c main_arg2) ∗ tokH c 64 (V c main_arg2) ∗ tokH c 65 (V c main_arg2) ∗ tokH c 66 (V c main_arg2) ∗ tokH c 67 (V c main_arg2) ∗ tokH c 68 (V c main_arg2) ∗ tokH c 69 (V c main_arg2) ∗ tokH c 70 (V c main_arg2) ∗ tokH c 71 (V c main_arg2) ∗ tokH c 72 (V c main_arg2)))
        ∗ BI.bigSep (Finset.range 41) (fun i => ((((c : Thread nD τ).loc main_arg2) ↦{shareTokN fullShare i} V c main_arg2) : sProp 𝕄))) :=
  toks32 (F := F) 41

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG2 (hH : InRange2 V) (c : Dev nD) (t : Fin (pcfgG2 (F := F) V).N) :
    iprop((datG2 V hH c).Φ t.castSucc ∗ (datG2 V hH c).owesAt () t.castSucc
        ∗ (∃ d, owns (c : Thread nD τ) (ms2 V t) fullShare ((datG2 V hH c).before 0 t d)))
      ⊢ wp frame (wpE (defs₀ (F := F)) Variants.none c none) Set.univ
          (cc2__gather_kernel (grid2.coords t) tbM2 (Memref.isWhole_whole _) hbM (Memref.isWhole_whole _) (ms2 V t) (hs2 V t) scM2 (Memref.isWhole_whole _) cc2_scratch1)
          (fun _ => iprop((datG2 V hH c).Φ t.succ ∗ (datG2 V hH c).owesAt () t.succ
            ∗ owns (c : Thread nD τ) (ms2 V t) fullShare ((datG2 V hH c).after 0 t))) := by
  rw [show (datG2 V hH c).Φ t.succ = ΦG2 V c from rfl, show (datG2 V hH c).Φ t.castSucc = ΦG2 V c from rfl, afterG2]
  unfold ΦG2
  rw [scopedRest2_split, ownSems02_eq]
  unfold Dat.owesAt Pipeline.owesWithin
  rw [show (datG2 V hH c).owed t.castSucc = 0 from rfl, show (datG2 V hH c).owed t.succ = 0 from rfl]
  unfold outsAt2
  iintro ⟨⟨⟨HS0, HRB⟩, Hg, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, Hh, Ht⟩, ⟨%W, -, HW⟩, ⟨%d1, H1⟩⟩
  ihave Hh2 := (hbSplit2 V c).1 $$ Hh
  icases Hh2 with ⟨⟨Hdrop, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩⟩, Hlow⟩
  iapply ((kernelRun2 c (grid2.coords t) (ms2 V t) (hs2 V t) scM2 (Memref.isWhole_whole _) (V c main_v37) (hH c) (V c main_arg2)).2 W _)
  isplitl [Ht]; · iexact Ht
  isplitl [H1]; · iexists _; iexact H1
  isplitl [HS0]; · simp only [owns_whole]; iexact HS0
  isplitl [HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
  · isplitl [HT41]; · iexact HT41
    isplitl [HT42]; · iexact HT42
    isplitl [HT43]; · iexact HT43
    isplitl [HT44]; · iexact HT44
    isplitl [HT45]; · iexact HT45
    isplitl [HT46]; · iexact HT46
    isplitl [HT47]; · iexact HT47
    isplitl [HT48]; · iexact HT48
    isplitl [HT49]; · iexact HT49
    isplitl [HT50]; · iexact HT50
    isplitl [HT51]; · iexact HT51
    isplitl [HT52]; · iexact HT52
    isplitl [HT53]; · iexact HT53
    isplitl [HT54]; · iexact HT54
    isplitl [HT55]; · iexact HT55
    isplitl [HT56]; · iexact HT56
    isplitl [HT57]; · iexact HT57
    isplitl [HT58]; · iexact HT58
    isplitl [HT59]; · iexact HT59
    isplitl [HT60]; · iexact HT60
    isplitl [HT61]; · iexact HT61
    isplitl [HT62]; · iexact HT62
    isplitl [HT63]; · iexact HT63
    isplitl [HT64]; · iexact HT64
    isplitl [HT65]; · iexact HT65
    isplitl [HT66]; · iexact HT66
    isplitl [HT67]; · iexact HT67
    isplitl [HT68]; · iexact HT68
    isplitl [HT69]; · iexact HT69
    isplitl [HT70]; · iexact HT70
    isplitl [HT71]; · iexact HT71
    iexact HT72
  isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
  · isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    iexact Hq72
  isplitl [HW]; · iexact HW
  iintro ⟨Ht, ⟨%e1, H1⟩, HS0, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, ⟨%W', HW'⟩⟩
  isplitl [Ht HS0 HRB Hg Hdrop Hlow HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
  · isplitl [HS0 HRB]
    · isplitl [HS0]; · simp only [owns_whole]; iexact HS0
      iexact HRB
    isplitl [Hg]; · iexact Hg
    isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
    · isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      iexact Hq72
    isplitl [Hdrop Hlow HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
    · iapply (hbSplit2 V c).2
      isplitl [Hdrop HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
      · isplitl [Hdrop]; · iexact Hdrop
        isplitl [HT41]; · iexact HT41
        isplitl [HT42]; · iexact HT42
        isplitl [HT43]; · iexact HT43
        isplitl [HT44]; · iexact HT44
        isplitl [HT45]; · iexact HT45
        isplitl [HT46]; · iexact HT46
        isplitl [HT47]; · iexact HT47
        isplitl [HT48]; · iexact HT48
        isplitl [HT49]; · iexact HT49
        isplitl [HT50]; · iexact HT50
        isplitl [HT51]; · iexact HT51
        isplitl [HT52]; · iexact HT52
        isplitl [HT53]; · iexact HT53
        isplitl [HT54]; · iexact HT54
        isplitl [HT55]; · iexact HT55
        isplitl [HT56]; · iexact HT56
        isplitl [HT57]; · iexact HT57
        isplitl [HT58]; · iexact HT58
        isplitl [HT59]; · iexact HT59
        isplitl [HT60]; · iexact HT60
        isplitl [HT61]; · iexact HT61
        isplitl [HT62]; · iexact HT62
        isplitl [HT63]; · iexact HT63
        isplitl [HT64]; · iexact HT64
        isplitl [HT65]; · iexact HT65
        isplitl [HT66]; · iexact HT66
        isplitl [HT67]; · iexact HT67
        isplitl [HT68]; · iexact HT68
        isplitl [HT69]; · iexact HT69
        isplitl [HT70]; · iexact HT70
        isplitl [HT71]; · iexact HT71
        iexact HT72
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun2 c _ _ _ _ _ _ _ _)

/-- The body obligation of gather pipeline 2, at every point. -/
theorem body_obligationG2 (hH : InRange2 V) (c : Dev nD) :
    BodyObligation (datG2 (F := F) V hH c) (defs₀ (F := F)) Variants.none () Set.univ := fun t => by
  rw [bigSep_W2, bigSep_W2]
  exact sound_bodyG2 V hH c t

end GatherBody2

section GatherLaunch2
variable (V : (c : Dev nD) → (b : Ref sig .tc) → Buf (Elt F) ((c : Thread nD τ).loc b))

/-- The table held through its own elements is the table's buffer held whole. -/
theorem tbPt2_eq (c : Dev nD) (f : HbBuf (F := F) c tbM2) :
    (ptSet c tbM2 fullShare f : sProp 𝕄) = (((c : Thread nD τ).loc main_v37) ↦{fullShare} f) := by
  show ((Memref.whole main_v37 : Memref sig .tc .smem S32x1023 .i32).view.loc (c : Thread nD τ) ↦[(Memref.whole main_v37 : Memref sig .tc .smem S32x1023 .i32).view.set]{fullShare} f) = _
  simp only [View.set_whole, Memref.view_whole]

/-- The launch's prefetched tables at the admitted contents: the one table's buffer held whole. -/
theorem prefHeld2_eq (c : Dev nD) :
    (Pipeline.prefHeld (Ix := Unit) (Name := ℕ) (U := Pipeline.UD sig nD τ) (Lvl := ℕ) pre2 c (fun _ => fullShare) (adm2 (F := F) V).1 : sProp 𝕄)
      = (((c : Thread nD τ).loc main_v37) ↦{fullShare} V c main_v37) := by
  obtain rfl : c = 0 := Subsingleton.elim _ _
  unfold Pipeline.prefHeld adm2
  rw [bigSep_W2]; rfl

/-- The two unscoped buffers the body reads by itself, their points-tos listed. -/
theorem hbmPts2_eq (c : Dev nD) :
    (BI.bigSep H2 (fun b => ((c : Thread nD τ).loc b) ↦{fullShare} V c b) : sProp 𝕄)
      = iprop((((c : Thread nD τ).loc main_arg2) ↦{fullShare} V c main_arg2) ∗ (((c : Thread nD τ).loc main_v37) ↦{fullShare} V c main_v37)) := by
  rw [BI.bigSep_eq_bigSepL_of_eq [main_arg2, main_v37] (by decide) (by decide)]; rfl

end GatherLaunch2

end Cert.Kernel.Hand

end
-- ==== Proof.KernelRun3.lean ====
/-
  The body of gather kernel 3 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM3 : Memref sig .tc .smem S32x1023 .i32 := Memref.whole main_v40

set_option maxHeartbeats 40000000 in
/-- What the body of gather kernel 3 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun3 (c : Dev nD) (i : grid3.Coords) (arg3 : Memref sig .tc .vmem S1x32x8 .f32) (harg3 : arg3.IsWhole)
    (arg4 : Memref sig .tc .vmem S32x8 .f32) (harg4 : arg4.IsWhole)
    (f0 : HbBuf (F := F) c tbM3) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM3 fullShare f0 ∗ (∃ d, owns (c : Thread nD τ) arg3 fullShare d) ∗ (∃ d, owns (c : Thread nD τ) arg4 fullShare d)
            ∗ (tokH c 75 fh ∗ tokH c 76 fh ∗ tokH c 77 fh ∗ tokH c 78 fh ∗ tokH c 79 fh ∗ tokH c 80 fh ∗ tokH c 81 fh ∗ tokH c 82 fh ∗ tokH c 83 fh ∗ tokH c 84 fh ∗ tokH c 85 fh ∗ tokH c 86 fh ∗ tokH c 87 fh ∗ tokH c 88 fh ∗ tokH c 89 fh ∗ tokH c 90 fh ∗ tokH c 91 fh ∗ tokH c 92 fh ∗ tokH c 93 fh ∗ tokH c 94 fh ∗ tokH c 95 fh ∗ tokH c 96 fh ∗ tokH c 97 fh ∗ tokH c 98 fh ∗ tokH c 99 fh ∗ tokH c 100 fh ∗ tokH c 101 fh ∗ tokH c 102 fh ∗ tokH c 103 fh ∗ tokH c 104 fh ∗ tokH c 105 fh ∗ tokH c 106 fh)
            ∗ (semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0)
            ∗ owes (c : Thread nD τ) 0 W
            ∗ (iprop(ptSet c tbM3 fullShare f0 ∗ (∃ f, arg3.view.loc (c : Thread nD τ) ↦[arg3.view.set]{fullShare} arg3.view.writes (Elt F) f L3) ∗ (∃ d, owns (c : Thread nD τ) arg4 fullShare d)
                ∗ (tokH c 75 fh ∗ tokH c 76 fh ∗ tokH c 77 fh ∗ tokH c 78 fh ∗ tokH c 79 fh ∗ tokH c 80 fh ∗ tokH c 81 fh ∗ tokH c 82 fh ∗ tokH c 83 fh ∗ tokH c 84 fh ∗ tokH c 85 fh ∗ tokH c 86 fh ∗ tokH c 87 fh ∗ tokH c 88 fh ∗ tokH c 89 fh ∗ tokH c 90 fh ∗ tokH c 91 fh ∗ tokH c 92 fh ∗ tokH c 93 fh ∗ tokH c 94 fh ∗ tokH c 95 fh ∗ tokH c 96 fh ∗ tokH c 97 fh ∗ tokH c 98 fh ∗ tokH c 99 fh ∗ tokH c 100 fh ∗ tokH c 101 fh ∗ tokH c 102 fh ∗ tokH c 103 fh ∗ tokH c 104 fh ∗ tokH c 105 fh ∗ tokH c 106 fh)
                ∗ (semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0)
                ∗ (∃ W', owes (c : Thread nD τ) 0 W')) -∗ K ⟨⟩))
          ⊢ wp frame (wpE (defs₀ (F := F)) Variants.none c none) Set.univ (cc3__gather_kernel i tbM3 (Memref.isWhole_whole _) hbM (Memref.isWhole_whole _) arg3 harg3 arg4 harg4 cc3_scratch1) K } := by
  refine ⟨?_, fun W K => ?run⟩
  case run =>
    simp only [cc3__gather_kernel_eq_skeleton]; unfold cc3__gather_kernel_skel
    unfold owns
    iintro ⟨H0, ⟨%d1, %f1, -, H1⟩, ⟨%ds0, %fs0, -, HS0⟩, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
    · isplitl [HT75]; · iexact HT75
      isplitl [HT76]; · iexact HT76
      isplitl [HT77]; · iexact HT77
      isplitl [HT78]; · iexact HT78
      isplitl [HT79]; · iexact HT79
      isplitl [HT80]; · iexact HT80
      isplitl [HT81]; · iexact HT81
      isplitl [HT82]; · iexact HT82
      isplitl [HT83]; · iexact HT83
      isplitl [HT84]; · iexact HT84
      isplitl [HT85]; · iexact HT85
      isplitl [HT86]; · iexact HT86
      isplitl [HT87]; · iexact HT87
      isplitl [HT88]; · iexact HT88
      isplitl [HT89]; · iexact HT89
      isplitl [HT90]; · iexact HT90
      isplitl [HT91]; · iexact HT91
      isplitl [HT92]; · iexact HT92
      isplitl [HT93]; · iexact HT93
      isplitl [HT94]; · iexact HT94
      isplitl [HT95]; · iexact HT95
      isplitl [HT96]; · iexact HT96
      isplitl [HT97]; · iexact HT97
      isplitl [HT98]; · iexact HT98
      isplitl [HT99]; · iexact HT99
      isplitl [HT100]; · iexact HT100
      isplitl [HT101]; · iexact HT101
      isplitl [HT102]; · iexact HT102
      isplitl [HT103]; · iexact HT103
      isplitl [HT104]; · iexact HT104
      isplitl [HT105]; · iexact HT105
      iexact HT106
    isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
    · isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      iexact Hq106
    iexists _; iexact HW

/-- The run's pieces for the output block tile it (its one store writes the whole block), so they cover it. -/
theorem coverRun3 (c : Dev nD) (i : grid3.Coords) (arg3 : Memref sig .tc .vmem S1x32x8 .f32) (harg3 : arg3.IsWhole)
    (arg4 : Memref sig .tc .vmem S32x8 .f32) (harg4 : arg4.IsWhole)
    (f0 : HbBuf (F := F) c tbM3) (hall : ∀ j, (f0 j).toNat < 8388608) (fh : HbBuf (F := F) c hbM) (y : S1x32x8.Idx) :
    ∃ pc ∈ (kernelRun3 c i arg3 harg3 arg4 harg4 f0 hall fh).1, y ∈ pc.1.set :=
  View.cover_of_tiledL (kernelRun3 c i arg3 harg3 arg4 harg4 f0 hall fh).1 S1x32x8.size (by sl_kernel_rfl) y

end Cert.Kernel.Hand

end
-- ==== Proof.KernelGather3.lean ====
/-
  Gather kernel 3 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 3: its region, over the contents `V` it is entered with -/

section Gather3
variable (V : (c : Dev nD) → (b : Ref sig .tc) → Buf (Elt F) ((c : Thread nD τ).loc b))

/-- The row-index table of this launch as the region finds it. The pipeline asks nothing of a table (its windows' index
    maps do not read it), so every table is admissible. -/
def adm3 : (pcfg3 (F := F)).Adm := ⟨fun | ⟨0, _⟩ => V 0 main_v40 | ⟨_ + 1, h⟩ => absurd h (Nat.not_lt.2 (Nat.le_add_left _ _)), trivial⟩

/-- Every word of the table names a row of the weight array. -/
def InRange3 : Prop := ∀ (c : Dev nD) j, ((V c main_v40) j).toNat < 8388608

abbrev pcfgG3 : Pipeline.Cfg sig Λ₀ := cfg3 (adm3 (F := F) V)

/-- The output window's current staging buffer at point `t`, as the pipeline passes it to the body. -/
abbrev ms3 (t : Fin (pcfgG3 (F := F) V).N) : Memref sig .tc .vmem S1x32x8 .f32 := spec3_0.stage ((pcfgG3 (F := F) V).slots t 0)
abbrev hs3 (t : Fin (pcfgG3 (F := F) V).N) : (ms3 V t).IsWhole := hstage3_0 (((pcfgG3 (F := F) V).slots t 0).cast nbuf3_0)
/-- The kernel's scratch block, a whole scoped buffer of its own. -/
abbrev scM3 : Memref sig .tc .vmem S32x8 .f32 := Memref.whole cc3_scratch0
/-- One staging buffer of the output window, through which its contents are stated. -/
abbrev VO3 : View sig .tc .vmem S1x32x8 .f32 := (Memref.whole cc3_stg0_0 : Memref sig .tc .vmem S1x32x8 .f32).view

/-- The kernel's own DMA semaphores, one per route. -/
abbrev osem3 : Fin 32 → SemLoc sig := fun j => (![SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106] : Fin 32 → SemLoc sig) j
theorem ownSemFacts3 : Pipeline.OwnSemFacts spec3 osem3 := by decide
theorem ownSems03_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0) := by
  rw [Pipeline.ownSems0_eq_of_list c osem3 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H3 : Finset (Ref sig .tc) := {main_arg2, main_v40}
theorem H3_sub : H3 ⊆ Pipeline.restRefs sig spec3 := by decide

/-- What the output block holds after the body at point `t`: the run's pieces read back. -/
def outsAt3 (hH : InRange3 V) (c : Dev nD) (t : Fin (pcfgG3 (F := F) V).N) : Vec F S1x32x8 .f32 :=
  (VO3).read (Elt F) ((VO3).writes (Elt F) (VO3).junk
    (kernelRun3 c (grid3.coords t) (ms3 V t) (hs3 V t) scM3 (Memref.isWhole_whole _) (V c main_v40) (hH c) (V c main_arg2)).1)

/-- The region's invariant: the scoped buffers no window stages (the scratch block among them), the generator register,
    the kernel's DMA semaphores at zero, the weight array and the table whole at their entry contents. -/
def ΦG3 (c : Dev nD) : sProp 𝕄 :=
  iprop(Pipeline.scopedRest (Ix := Unit) (Name := ℕ) (U := Pipeline.UD sig nD τ) (Lvl := ℕ) (Val := Elt F) spec3 c ∗ (∃ r, prngReg c r)
    ∗ Pipeline.ownSems0 (Ix := Unit) (Name := ℕ) (U := Pipeline.UD sig nD τ) (Lvl := ℕ) (Val := Elt F) (τ := τ) osem3 c
    ∗ (((c : Thread nD τ).loc main_arg2) ↦{fullShare} V c main_arg2)
    ∗ ptSet c tbM3 fullShare (V c main_v40))

/-- The proof data of gather pipeline 3 on core `c`. -/
def datG3 (hH : InRange3 V) (c : Dev nD) : Dat τ (Elt F) Unit ℕ (Pipeline.UD sig nD τ) ℕ (pcfgG3 (F := F) V) c where
  A w := V c (Pipeline.arrRef spec3 w)
  after w t := match w with
    | ⟨0, _⟩ => outsAt3 V hH c t
  Φ _ := ΦG3 V c
  q _ := fullShare
  owed _ := 0

theorem afterG3 (hH : InRange3 V) (c : Dev nD) (t) : (datG3 V hH c).after 0 t = outsAt3 V hH c t := by dsimp only [datG3]; rfl

end Gather3

section GatherBody3
variable (V : (c : Dev nD) → (b : Ref sig .tc) → Buf (Elt F) ((c : Thread nD τ).loc b))

open Idealize.ShloMosaic.Transfers in
/-- The weight array at the full share, as the read shares the thirty-two copies take and what is left beside them. -/
theorem hbSplit3 (c : Dev nD) :
    ((((c : Thread nD τ).loc main_arg2) ↦{fullShare} V c main_arg2) : sProp 𝕄)
      ⊣⊢ iprop((((((c : Thread nD τ).loc main_arg2) ↦{shareDrop fullShare (75 + 32)} V c main_arg2)) ∗ (tokH c 75 (V c main_arg2) ∗ tokH c 76 (V c main_arg2) ∗ tokH c 77 (V c main_arg2) ∗ tokH c 78 (V c main_arg2) ∗ tokH c 79 (V c main_arg2) ∗ tokH c 80 (V c main_arg2) ∗ tokH c 81 (V c main_arg2) ∗ tokH c 82 (V c main_arg2) ∗ tokH c 83 (V c main_arg2) ∗ tokH c 84 (V c main_arg2) ∗ tokH c 85 (V c main_arg2) ∗ tokH c 86 (V c main_arg2) ∗ tokH c 87 (V c main_arg2) ∗ tokH c 88 (V c main_arg2) ∗ tokH c 89 (V c main_arg2) ∗ tokH c 90 (V c main_arg2) ∗ tokH c 91 (V c main_arg2) ∗ tokH c 92 (V c main_arg2) ∗ tokH c 93 (V c main_arg2) ∗ tokH c 94 (V c main_arg2) ∗ tokH c 95 (V c main_arg2) ∗ tokH c 96 (V c main_arg2) ∗ tokH c 97 (V c main_arg2) ∗ tokH c 98 (V c main_arg2) ∗ tokH c 99 (V c main_arg2) ∗ tokH c 100 (V c main_arg2) ∗ tokH c 101 (V c main_arg2) ∗ tokH c 102 (V c main_arg2) ∗ tokH c 103 (V c main_arg2) ∗ tokH c 104 (V c main_arg2) ∗ tokH c 105 (V c main_arg2) ∗ tokH c 106 (V c main_arg2)))
        ∗ BI.bigSep (Finset.range 75) (fun i => ((((c : Thread nD τ).loc main_arg2) ↦{shareTokN fullShare i} V c main_arg2) : sProp 𝕄))) :=
  toks32 (F := F) 75

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG3 (hH : InRange3 V) (c : Dev nD) (t : Fin (pcfgG3 (F := F) V).N) :
    iprop((datG3 V hH c).Φ t.castSucc ∗ (datG3 V hH c).owesAt () t.castSucc
        ∗ (∃ d, owns (c : Thread nD τ) (ms3 V t) fullShare ((datG3 V hH c).before 0 t d)))
      ⊢ wp frame (wpE (defs₀ (F := F)) Variants.none c none) Set.univ
          (cc3__gather_kernel (grid3.coords t) tbM3 (Memref.isWhole_whole _) hbM (Memref.isWhole_whole _) (ms3 V t) (hs3 V t) scM3 (Memref.isWhole_whole _) cc3_scratch1)
          (fun _ => iprop((datG3 V hH c).Φ t.succ ∗ (datG3 V hH c).owesAt () t.succ
            ∗ owns (c : Thread nD τ) (ms3 V t) fullShare ((datG3 V hH c).after 0 t))) := by
  rw [show (datG3 V hH c).Φ t.succ = ΦG3 V c from rfl, show (datG3 V hH c).Φ t.castSucc = ΦG3 V c from rfl, afterG3]
  unfold ΦG3
  rw [scopedRest3_split, ownSems03_eq]
  unfold Dat.owesAt Pipeline.owesWithin
  rw [show (datG3 V hH c).owed t.castSucc = 0 from rfl, show (datG3 V hH c).owed t.succ = 0 from rfl]
  unfold outsAt3
  iintro ⟨⟨⟨HS0, HRB⟩, Hg, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, Hh, Ht⟩, ⟨%W, -, HW⟩, ⟨%d1, H1⟩⟩
  ihave Hh2 := (hbSplit3 V c).1 $$ Hh
  icases Hh2 with ⟨⟨Hdrop, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩⟩, Hlow⟩
  iapply ((kernelRun3 c (grid3.coords t) (ms3 V t) (hs3 V t) scM3 (Memref.isWhole_whole _) (V c main_v40) (hH c) (V c main_arg2)).2 W _)
  isplitl [Ht]; · iexact Ht
  isplitl [H1]; · iexists _; iexact H1
  isplitl [HS0]; · simp only [owns_whole]; iexact HS0
  isplitl [HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
  · isplitl [HT75]; · iexact HT75
    isplitl [HT76]; · iexact HT76
    isplitl [HT77]; · iexact HT77
    isplitl [HT78]; · iexact HT78
    isplitl [HT79]; · iexact HT79
    isplitl [HT80]; · iexact HT80
    isplitl [HT81]; · iexact HT81
    isplitl [HT82]; · iexact HT82
    isplitl [HT83]; · iexact HT83
    isplitl [HT84]; · iexact HT84
    isplitl [HT85]; · iexact HT85
    isplitl [HT86]; · iexact HT86
    isplitl [HT87]; · iexact HT87
    isplitl [HT88]; · iexact HT88
    isplitl [HT89]; · iexact HT89
    isplitl [HT90]; · iexact HT90
    isplitl [HT91]; · iexact HT91
    isplitl [HT92]; · iexact HT92
    isplitl [HT93]; · iexact HT93
    isplitl [HT94]; · iexact HT94
    isplitl [HT95]; · iexact HT95
    isplitl [HT96]; · iexact HT96
    isplitl [HT97]; · iexact HT97
    isplitl [HT98]; · iexact HT98
    isplitl [HT99]; · iexact HT99
    isplitl [HT100]; · iexact HT100
    isplitl [HT101]; · iexact HT101
    isplitl [HT102]; · iexact HT102
    isplitl [HT103]; · iexact HT103
    isplitl [HT104]; · iexact HT104
    isplitl [HT105]; · iexact HT105
    iexact HT106
  isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
  · isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    isplitl [Hq84]; · iexact Hq84
    isplitl [Hq85]; · iexact Hq85
    isplitl [Hq86]; · iexact Hq86
    isplitl [Hq87]; · iexact Hq87
    isplitl [Hq88]; · iexact Hq88
    isplitl [Hq89]; · iexact Hq89
    isplitl [Hq90]; · iexact Hq90
    isplitl [Hq91]; · iexact Hq91
    isplitl [Hq92]; · iexact Hq92
    isplitl [Hq93]; · iexact Hq93
    isplitl [Hq94]; · iexact Hq94
    isplitl [Hq95]; · iexact Hq95
    isplitl [Hq96]; · iexact Hq96
    isplitl [Hq97]; · iexact Hq97
    isplitl [Hq98]; · iexact Hq98
    isplitl [Hq99]; · iexact Hq99
    isplitl [Hq100]; · iexact Hq100
    isplitl [Hq101]; · iexact Hq101
    isplitl [Hq102]; · iexact Hq102
    isplitl [Hq103]; · iexact Hq103
    isplitl [Hq104]; · iexact Hq104
    isplitl [Hq105]; · iexact Hq105
    iexact Hq106
  isplitl [HW]; · iexact HW
  iintro ⟨Ht, ⟨%e1, H1⟩, HS0, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, ⟨%W', HW'⟩⟩
  isplitl [Ht HS0 HRB Hg Hdrop Hlow HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
  · isplitl [HS0 HRB]
    · isplitl [HS0]; · simp only [owns_whole]; iexact HS0
      iexact HRB
    isplitl [Hg]; · iexact Hg
    isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
    · isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      iexact Hq106
    isplitl [Hdrop Hlow HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
    · iapply (hbSplit3 V c).2
      isplitl [Hdrop HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
      · isplitl [Hdrop]; · iexact Hdrop
        isplitl [HT75]; · iexact HT75
        isplitl [HT76]; · iexact HT76
        isplitl [HT77]; · iexact HT77
        isplitl [HT78]; · iexact HT78
        isplitl [HT79]; · iexact HT79
        isplitl [HT80]; · iexact HT80
        isplitl [HT81]; · iexact HT81
        isplitl [HT82]; · iexact HT82
        isplitl [HT83]; · iexact HT83
        isplitl [HT84]; · iexact HT84
        isplitl [HT85]; · iexact HT85
        isplitl [HT86]; · iexact HT86
        isplitl [HT87]; · iexact HT87
        isplitl [HT88]; · iexact HT88
        isplitl [HT89]; · iexact HT89
        isplitl [HT90]; · iexact HT90
        isplitl [HT91]; · iexact HT91
        isplitl [HT92]; · iexact HT92
        isplitl [HT93]; · iexact HT93
        isplitl [HT94]; · iexact HT94
        isplitl [HT95]; · iexact HT95
        isplitl [HT96]; · iexact HT96
        isplitl [HT97]; · iexact HT97
        isplitl [HT98]; · iexact HT98
        isplitl [HT99]; · iexact HT99
        isplitl [HT100]; · iexact HT100
        isplitl [HT101]; · iexact HT101
        isplitl [HT102]; · iexact HT102
        isplitl [HT103]; · iexact HT103
        isplitl [HT104]; · iexact HT104
        isplitl [HT105]; · iexact HT105
        iexact HT106
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun3 c _ _ _ _ _ _ _ _)

/-- The body obligation of gather pipeline 3, at every point. -/
theorem body_obligationG3 (hH : InRange3 V) (c : Dev nD) :
    BodyObligation (datG3 (F := F) V hH c) (defs₀ (F := F)) Variants.none () Set.univ := fun t => by
  rw [bigSep_W3, bigSep_W3]
  exact sound_bodyG3 V hH c t

end GatherBody3

section GatherLaunch3
variable (V : (c : Dev nD) → (b : Ref sig .tc) → Buf (Elt F) ((c : Thread nD τ).loc b))

/-- The table held through its own elements is the table's buffer held whole. -/
theorem tbPt3_eq (c : Dev nD) (f : HbBuf (F := F) c tbM3) :
    (ptSet c tbM3 fullShare f : sProp 𝕄) = (((c : Thread nD τ).loc main_v40) ↦{fullShare} f) := by
  show ((Memref.whole main_v40 : Memref sig .tc .smem S32x1023 .i32).view.loc (c : Thread nD τ) ↦[(Memref.whole main_v40 : Memref sig .tc .smem S32x1023 .i32).view.set]{fullShare} f) = _
  simp only [View.set_whole, Memref.view_whole]

/-- The launch's prefetched tables at the admitted contents: the one table's buffer held whole. -/
theorem prefHeld3_eq (c : Dev nD) :
    (Pipeline.prefHeld (Ix := Unit) (Name := ℕ) (U := Pipeline.UD sig nD τ) (Lvl := ℕ) pre3 c (fun _ => fullShare) (adm3 (F := F) V).1 : sProp 𝕄)
      = (((c : Thread nD τ).loc main_v40) ↦{fullShare} V c main_v40) := by
  obtain rfl : c = 0 := Subsingleton.elim _ _
  unfold Pipeline.prefHeld adm3
  rw [bigSep_W3]; rfl

/-- The two unscoped buffers the body reads by itself, their points-tos listed. -/
theorem hbmPts3_eq (c : Dev nD) :
    (BI.bigSep H3 (fun b => ((c : Thread nD τ).loc b) ↦{fullShare} V c b) : sProp 𝕄)
      = iprop((((c : Thread nD τ).loc main_arg2) ↦{fullShare} V c main_arg2) ∗ (((c : Thread nD τ).loc main_v40) ↦{fullShare} V c main_v40)) := by
  rw [BI.bigSep_eq_bigSepL_of_eq [main_arg2, main_v40] (by decide) (by decide)]; rfl

end GatherLaunch3

end Cert.Kernel.Hand

end
-- ==== Proof.KernelRun4.lean ====
/-
  The body of gather kernel 4 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM4 : Memref sig .tc .smem S32x1023 .i32 := Memref.whole main_v43

set_option maxHeartbeats 40000000 in
/-- What the body of gather kernel 4 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun4 (c : Dev nD) (i : grid4.Coords) (arg3 : Memref sig .tc .vmem S1x32x8 .f32) (harg3 : arg3.IsWhole)
    (arg4 : Memref sig .tc .vmem S32x8 .f32) (harg4 : arg4.IsWhole)
    (f0 : HbBuf (F := F) c tbM4) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM4 fullShare f0 ∗ (∃ d, owns (c : Thread nD τ) arg3 fullShare d) ∗ (∃ d, owns (c : Thread nD τ) arg4 fullShare d)
            ∗ (tokH c 109 fh ∗ tokH c 110 fh ∗ tokH c 111 fh ∗ tokH c 112 fh ∗ tokH c 113 fh ∗ tokH c 114 fh ∗ tokH c 115 fh ∗ tokH c 116 fh ∗ tokH c 117 fh ∗ tokH c 118 fh ∗ tokH c 119 fh ∗ tokH c 120 fh ∗ tokH c 121 fh ∗ tokH c 122 fh ∗ tokH c 123 fh ∗ tokH c 124 fh ∗ tokH c 125 fh ∗ tokH c 126 fh ∗ tokH c 127 fh ∗ tokH c 128 fh ∗ tokH c 129 fh ∗ tokH c 130 fh ∗ tokH c 131 fh ∗ tokH c 132 fh ∗ tokH c 133 fh ∗ tokH c 134 fh ∗ tokH c 135 fh ∗ tokH c 136 fh ∗ tokH c 137 fh ∗ tokH c 138 fh ∗ tokH c 139 fh ∗ tokH c 140 fh)
            ∗ (semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0)
            ∗ owes (c : Thread nD τ) 0 W
            ∗ (iprop(ptSet c tbM4 fullShare f0 ∗ (∃ f, arg3.view.loc (c : Thread nD τ) ↦[arg3.view.set]{fullShare} arg3.view.writes (Elt F) f L3) ∗ (∃ d, owns (c : Thread nD τ) arg4 fullShare d)
                ∗ (tokH c 109 fh ∗ tokH c 110 fh ∗ tokH c 111 fh ∗ tokH c 112 fh ∗ tokH c 113 fh ∗ tokH c 114 fh ∗ tokH c 115 fh ∗ tokH c 116 fh ∗ tokH c 117 fh ∗ tokH c 118 fh ∗ tokH c 119 fh ∗ tokH c 120 fh ∗ tokH c 121 fh ∗ tokH c 122 fh ∗ tokH c 123 fh ∗ tokH c 124 fh ∗ tokH c 125 fh ∗ tokH c 126 fh ∗ tokH c 127 fh ∗ tokH c 128 fh ∗ tokH c 129 fh ∗ tokH c 130 fh ∗ tokH c 131 fh ∗ tokH c 132 fh ∗ tokH c 133 fh ∗ tokH c 134 fh ∗ tokH c 135 fh ∗ tokH c 136 fh ∗ tokH c 137 fh ∗ tokH c 138 fh ∗ tokH c 139 fh ∗ tokH c 140 fh)
                ∗ (semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0)
                ∗ (∃ W', owes (c : Thread nD τ) 0 W')) -∗ K ⟨⟩))
          ⊢ wp frame (wpE (defs₀ (F := F)) Variants.none c none) Set.univ (cc4__gather_kernel i tbM4 (Memref.isWhole_whole _) hbM (Memref.isWhole_whole _) arg3 harg3 arg4 harg4 cc4_scratch1) K } := by
  refine ⟨?_, fun W K => ?run⟩
  case run =>
    simp only [cc4__gather_kernel_eq_skeleton]; unfold cc4__gather_kernel_skel
    unfold owns
    iintro ⟨H0, ⟨%d1, %f1, -, H1⟩, ⟨%ds0, %fs0, -, HS0⟩, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
    · isplitl [HT109]; · iexact HT109
      isplitl [HT110]; · iexact HT110
      isplitl [HT111]; · iexact HT111
      isplitl [HT112]; · iexact HT112
      isplitl [HT113]; · iexact HT113
      isplitl [HT114]; · iexact HT114
      isplitl [HT115]; · iexact HT115
      isplitl [HT116]; · iexact HT116
      isplitl [HT117]; · iexact HT117
      isplitl [HT118]; · iexact HT118
      isplitl [HT119]; · iexact HT119
      isplitl [HT120]; · iexact HT120
      isplitl [HT121]; · iexact HT121
      isplitl [HT122]; · iexact HT122
      isplitl [HT123]; · iexact HT123
      isplitl [HT124]; · iexact HT124
      isplitl [HT125]; · iexact HT125
      isplitl [HT126]; · iexact HT126
      isplitl [HT127]; · iexact HT127
      isplitl [HT128]; · iexact HT128
      isplitl [HT129]; · iexact HT129
      isplitl [HT130]; · iexact HT130
      isplitl [HT131]; · iexact HT131
      isplitl [HT132]; · iexact HT132
      isplitl [HT133]; · iexact HT133
      isplitl [HT134]; · iexact HT134
      isplitl [HT135]; · iexact HT135
      isplitl [HT136]; · iexact HT136
      isplitl [HT137]; · iexact HT137
      isplitl [HT138]; · iexact HT138
      isplitl [HT139]; · iexact HT139
      iexact HT140
    isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
    · isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      isplitl [Hq127]; · iexact Hq127
      isplitl [Hq128]; · iexact Hq128
      isplitl [Hq129]; · iexact Hq129
      isplitl [Hq130]; · iexact Hq130
      isplitl [Hq131]; · iexact Hq131
      isplitl [Hq132]; · iexact Hq132
      isplitl [Hq133]; · iexact Hq133
      isplitl [Hq134]; · iexact Hq134
      isplitl [Hq135]; · iexact Hq135
      isplitl [Hq136]; · iexact Hq136
      isplitl [Hq137]; · iexact Hq137
      isplitl [Hq138]; · iexact Hq138
      isplitl [Hq139]; · iexact Hq139
      iexact Hq140
    iexists _; iexact HW

/-- The run's pieces for the output block tile it (its one store writes the whole block), so they cover it. -/
theorem coverRun4 (c : Dev nD) (i : grid4.Coords) (arg3 : Memref sig .tc .vmem S1x32x8 .f32) (harg3 : arg3.IsWhole)
    (arg4 : Memref sig .tc .vmem S32x8 .f32) (harg4 : arg4.IsWhole)
    (f0 : HbBuf (F := F) c tbM4) (hall : ∀ j, (f0 j).toNat < 8388608) (fh : HbBuf (F := F) c hbM) (y : S1x32x8.Idx) :
    ∃ pc ∈ (kernelRun4 c i arg3 harg3 arg4 harg4 f0 hall fh).1, y ∈ pc.1.set :=
  View.cover_of_tiledL (kernelRun4 c i arg3 harg3 arg4 harg4 f0 hall fh).1 S1x32x8.size (by sl_kernel_rfl) y

end Cert.Kernel.Hand

end
-- ==== Proof.KernelGather4.lean ====
/-
  Gather kernel 4 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun4

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 4: its region, over the contents `V` it is entered with -/

section Gather4
variable (V : (c : Dev nD) → (b : Ref sig .tc) → Buf (Elt F) ((c : Thread nD τ).loc b))

/-- The row-index table of this launch as the region finds it. The pipeline asks nothing of a table (its windows' index
    maps do not read it), so every table is admissible. -/
def adm4 : (pcfg4 (F := F)).Adm := ⟨fun | ⟨0, _⟩ => V 0 main_v43 | ⟨_ + 1, h⟩ => absurd h (Nat.not_lt.2 (Nat.le_add_left _ _)), trivial⟩

/-- Every word of the table names a row of the weight array. -/
def InRange4 : Prop := ∀ (c : Dev nD) j, ((V c main_v43) j).toNat < 8388608

abbrev pcfgG4 : Pipeline.Cfg sig Λ₀ := cfg4 (adm4 (F := F) V)

/-- The output window's current staging buffer at point `t`, as the pipeline passes it to the body. -/
abbrev ms4 (t : Fin (pcfgG4 (F := F) V).N) : Memref sig .tc .vmem S1x32x8 .f32 := spec4_0.stage ((pcfgG4 (F := F) V).slots t 0)
abbrev hs4 (t : Fin (pcfgG4 (F := F) V).N) : (ms4 V t).IsWhole := hstage4_0 (((pcfgG4 (F := F) V).slots t 0).cast nbuf4_0)
/-- The kernel's scratch block, a whole scoped buffer of its own. -/
abbrev scM4 : Memref sig .tc .vmem S32x8 .f32 := Memref.whole cc4_scratch0
/-- One staging buffer of the output window, through which its contents are stated. -/
abbrev VO4 : View sig .tc .vmem S1x32x8 .f32 := (Memref.whole cc4_stg0_0 : Memref sig .tc .vmem S1x32x8 .f32).view

/-- The kernel's own DMA semaphores, one per route. -/
abbrev osem4 : Fin 32 → SemLoc sig := fun j => (![SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129, SemLoc.dma 130, SemLoc.dma 131, SemLoc.dma 132, SemLoc.dma 133, SemLoc.dma 134, SemLoc.dma 135, SemLoc.dma 136, SemLoc.dma 137, SemLoc.dma 138, SemLoc.dma 139, SemLoc.dma 140] : Fin 32 → SemLoc sig) j
theorem ownSemFacts4 : Pipeline.OwnSemFacts spec4 osem4 := by decide
theorem ownSems04_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0) := by
  rw [Pipeline.ownSems0_eq_of_list c osem4 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H4 : Finset (Ref sig .tc) := {main_arg2, main_v43}
theorem H4_sub : H4 ⊆ Pipeline.restRefs sig spec4 := by decide

/-- What the output block holds after the body at point `t`: the run's pieces read back. -/
def outsAt4 (hH : InRange4 V) (c : Dev nD) (t : Fin (pcfgG4 (F := F) V).N) : Vec F S1x32x8 .f32 :=
  (VO4).read (Elt F) ((VO4).writes (Elt F) (VO4).junk
    (kernelRun4 c (grid4.coords t) (ms4 V t) (hs4 V t) scM4 (Memref.isWhole_whole _) (V c main_v43) (hH c) (V c main_arg2)).1)

/-- The region's invariant: the scoped buffers no window stages (the scratch block among them), the generator register,
    the kernel's DMA semaphores at zero, the weight array and the table whole at their entry contents. -/
def ΦG4 (c : Dev nD) : sProp 𝕄 :=
  iprop(Pipeline.scopedRest (Ix := Unit) (Name := ℕ) (U := Pipeline.UD sig nD τ) (Lvl := ℕ) (Val := Elt F) spec4 c ∗ (∃ r, prngReg c r)
    ∗ Pipeline.ownSems0 (Ix := Unit) (Name := ℕ) (U := Pipeline.UD sig nD τ) (Lvl := ℕ) (Val := Elt F) (τ := τ) osem4 c
    ∗ (((c : Thread nD τ).loc main_arg2) ↦{fullShare} V c main_arg2)
    ∗ ptSet c tbM4 fullShare (V c main_v43))

/-- The proof data of gather pipeline 4 on core `c`. -/
def datG4 (hH : InRange4 V) (c : Dev nD) : Dat τ (Elt F) Unit ℕ (Pipeline.UD sig nD τ) ℕ (pcfgG4 (F := F) V) c where
  A w := V c (Pipeline.arrRef spec4 w)
  after w t := match w with
    | ⟨0, _⟩ => outsAt4 V hH c t
  Φ _ := ΦG4 V c
  q _ := fullShare
  owed _ := 0

theorem afterG4 (hH : InRange4 V) (c : Dev nD) (t) : (datG4 V hH c).after 0 t = outsAt4 V hH c t := by dsimp only [datG4]; rfl

end Gather4

section GatherBody4
variable (V : (c : Dev nD) → (b : Ref sig .tc) → Buf (Elt F) ((c : Thread nD τ).loc b))

open Idealize.ShloMosaic.Transfers in
/-- The weight array at the full share, as the read shares the thirty-two copies take and what is left beside them. -/
theorem hbSplit4 (c : Dev nD) :
    ((((c : Thread nD τ).loc main_arg2) ↦{fullShare} V c main_arg2) : sProp 𝕄)
      ⊣⊢ iprop((((((c : Thread nD τ).loc main_arg2) ↦{shareDrop fullShare (109 + 32)} V c main_arg2)) ∗ (tokH c 109 (V c main_arg2) ∗ tokH c 110 (V c main_arg2) ∗ tokH c 111 (V c main_arg2) ∗ tokH c 112 (V c main_arg2) ∗ tokH c 113 (V c main_arg2) ∗ tokH c 114 (V c main_arg2) ∗ tokH c 115 (V c main_arg2) ∗ tokH c 116 (V c main_arg2) ∗ tokH c 117 (V c main_arg2) ∗ tokH c 118 (V c main_arg2) ∗ tokH c 119 (V c main_arg2) ∗ tokH c 120 (V c main_arg2) ∗ tokH c 121 (V c main_arg2) ∗ tokH c 122 (V c main_arg2) ∗ tokH c 123 (V c main_arg2) ∗ tokH c 124 (V c main_arg2) ∗ tokH c 125 (V c main_arg2) ∗ tokH c 126 (V c main_arg2) ∗ tokH c 127 (V c main_arg2) ∗ tokH c 128 (V c main_arg2) ∗ tokH c 129 (V c main_arg2) ∗ tokH c 130 (V c main_arg2) ∗ tokH c 131 (V c main_arg2) ∗ tokH c 132 (V c main_arg2) ∗ tokH c 133 (V c main_arg2) ∗ tokH c 134 (V c main_arg2) ∗ tokH c 135 (V c main_arg2) ∗ tokH c 136 (V c main_arg2) ∗ tokH c 137 (V c main_arg2) ∗ tokH c 138 (V c main_arg2) ∗ tokH c 139 (V c main_arg2) ∗ tokH c 140 (V c main_arg2)))
        ∗ BI.bigSep (Finset.range 109) (fun i => ((((c : Thread nD τ).loc main_arg2) ↦{shareTokN fullShare i} V c main_arg2) : sProp 𝕄))) :=
  toks32 (F := F) 109

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG4 (hH : InRange4 V) (c : Dev nD) (t : Fin (pcfgG4 (F := F) V).N) :
    iprop((datG4 V hH c).Φ t.castSucc ∗ (datG4 V hH c).owesAt () t.castSucc
        ∗ (∃ d, owns (c : Thread nD τ) (ms4 V t) fullShare ((datG4 V hH c).before 0 t d)))
      ⊢ wp frame (wpE (defs₀ (F := F)) Variants.none c none) Set.univ
          (cc4__gather_kernel (grid4.coords t) tbM4 (Memref.isWhole_whole _) hbM (Memref.isWhole_whole _) (ms4 V t) (hs4 V t) scM4 (Memref.isWhole_whole _) cc4_scratch1)
          (fun _ => iprop((datG4 V hH c).Φ t.succ ∗ (datG4 V hH c).owesAt () t.succ
            ∗ owns (c : Thread nD τ) (ms4 V t) fullShare ((datG4 V hH c).after 0 t))) := by
  rw [show (datG4 V hH c).Φ t.succ = ΦG4 V c from rfl, show (datG4 V hH c).Φ t.castSucc = ΦG4 V c from rfl, afterG4]
  unfold ΦG4
  rw [scopedRest4_split, ownSems04_eq]
  unfold Dat.owesAt Pipeline.owesWithin
  rw [show (datG4 V hH c).owed t.castSucc = 0 from rfl, show (datG4 V hH c).owed t.succ = 0 from rfl]
  unfold outsAt4
  iintro ⟨⟨⟨HS0, HRB⟩, Hg, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, Hh, Ht⟩, ⟨%W, -, HW⟩, ⟨%d1, H1⟩⟩
  ihave Hh2 := (hbSplit4 V c).1 $$ Hh
  icases Hh2 with ⟨⟨Hdrop, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩⟩, Hlow⟩
  iapply ((kernelRun4 c (grid4.coords t) (ms4 V t) (hs4 V t) scM4 (Memref.isWhole_whole _) (V c main_v43) (hH c) (V c main_arg2)).2 W _)
  isplitl [Ht]; · iexact Ht
  isplitl [H1]; · iexists _; iexact H1
  isplitl [HS0]; · simp only [owns_whole]; iexact HS0
  isplitl [HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
  · isplitl [HT109]; · iexact HT109
    isplitl [HT110]; · iexact HT110
    isplitl [HT111]; · iexact HT111
    isplitl [HT112]; · iexact HT112
    isplitl [HT113]; · iexact HT113
    isplitl [HT114]; · iexact HT114
    isplitl [HT115]; · iexact HT115
    isplitl [HT116]; · iexact HT116
    isplitl [HT117]; · iexact HT117
    isplitl [HT118]; · iexact HT118
    isplitl [HT119]; · iexact HT119
    isplitl [HT120]; · iexact HT120
    isplitl [HT121]; · iexact HT121
    isplitl [HT122]; · iexact HT122
    isplitl [HT123]; · iexact HT123
    isplitl [HT124]; · iexact HT124
    isplitl [HT125]; · iexact HT125
    isplitl [HT126]; · iexact HT126
    isplitl [HT127]; · iexact HT127
    isplitl [HT128]; · iexact HT128
    isplitl [HT129]; · iexact HT129
    isplitl [HT130]; · iexact HT130
    isplitl [HT131]; · iexact HT131
    isplitl [HT132]; · iexact HT132
    isplitl [HT133]; · iexact HT133
    isplitl [HT134]; · iexact HT134
    isplitl [HT135]; · iexact HT135
    isplitl [HT136]; · iexact HT136
    isplitl [HT137]; · iexact HT137
    isplitl [HT138]; · iexact HT138
    isplitl [HT139]; · iexact HT139
    iexact HT140
  isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
  · isplitl [Hq109]; · iexact Hq109
    isplitl [Hq110]; · iexact Hq110
    isplitl [Hq111]; · iexact Hq111
    isplitl [Hq112]; · iexact Hq112
    isplitl [Hq113]; · iexact Hq113
    isplitl [Hq114]; · iexact Hq114
    isplitl [Hq115]; · iexact Hq115
    isplitl [Hq116]; · iexact Hq116
    isplitl [Hq117]; · iexact Hq117
    isplitl [Hq118]; · iexact Hq118
    isplitl [Hq119]; · iexact Hq119
    isplitl [Hq120]; · iexact Hq120
    isplitl [Hq121]; · iexact Hq121
    isplitl [Hq122]; · iexact Hq122
    isplitl [Hq123]; · iexact Hq123
    isplitl [Hq124]; · iexact Hq124
    isplitl [Hq125]; · iexact Hq125
    isplitl [Hq126]; · iexact Hq126
    isplitl [Hq127]; · iexact Hq127
    isplitl [Hq128]; · iexact Hq128
    isplitl [Hq129]; · iexact Hq129
    isplitl [Hq130]; · iexact Hq130
    isplitl [Hq131]; · iexact Hq131
    isplitl [Hq132]; · iexact Hq132
    isplitl [Hq133]; · iexact Hq133
    isplitl [Hq134]; · iexact Hq134
    isplitl [Hq135]; · iexact Hq135
    isplitl [Hq136]; · iexact Hq136
    isplitl [Hq137]; · iexact Hq137
    isplitl [Hq138]; · iexact Hq138
    isplitl [Hq139]; · iexact Hq139
    iexact Hq140
  isplitl [HW]; · iexact HW
  iintro ⟨Ht, ⟨%e1, H1⟩, HS0, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, ⟨%W', HW'⟩⟩
  isplitl [Ht HS0 HRB Hg Hdrop Hlow HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140 Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
  · isplitl [HS0 HRB]
    · isplitl [HS0]; · simp only [owns_whole]; iexact HS0
      iexact HRB
    isplitl [Hg]; · iexact Hg
    isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
    · isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      isplitl [Hq127]; · iexact Hq127
      isplitl [Hq128]; · iexact Hq128
      isplitl [Hq129]; · iexact Hq129
      isplitl [Hq130]; · iexact Hq130
      isplitl [Hq131]; · iexact Hq131
      isplitl [Hq132]; · iexact Hq132
      isplitl [Hq133]; · iexact Hq133
      isplitl [Hq134]; · iexact Hq134
      isplitl [Hq135]; · iexact Hq135
      isplitl [Hq136]; · iexact Hq136
      isplitl [Hq137]; · iexact Hq137
      isplitl [Hq138]; · iexact Hq138
      isplitl [Hq139]; · iexact Hq139
      iexact Hq140
    isplitl [Hdrop Hlow HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
    · iapply (hbSplit4 V c).2
      isplitl [Hdrop HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
      · isplitl [Hdrop]; · iexact Hdrop
        isplitl [HT109]; · iexact HT109
        isplitl [HT110]; · iexact HT110
        isplitl [HT111]; · iexact HT111
        isplitl [HT112]; · iexact HT112
        isplitl [HT113]; · iexact HT113
        isplitl [HT114]; · iexact HT114
        isplitl [HT115]; · iexact HT115
        isplitl [HT116]; · iexact HT116
        isplitl [HT117]; · iexact HT117
        isplitl [HT118]; · iexact HT118
        isplitl [HT119]; · iexact HT119
        isplitl [HT120]; · iexact HT120
        isplitl [HT121]; · iexact HT121
        isplitl [HT122]; · iexact HT122
        isplitl [HT123]; · iexact HT123
        isplitl [HT124]; · iexact HT124
        isplitl [HT125]; · iexact HT125
        isplitl [HT126]; · iexact HT126
        isplitl [HT127]; · iexact HT127
        isplitl [HT128]; · iexact HT128
        isplitl [HT129]; · iexact HT129
        isplitl [HT130]; · iexact HT130
        isplitl [HT131]; · iexact HT131
        isplitl [HT132]; · iexact HT132
        isplitl [HT133]; · iexact HT133
        isplitl [HT134]; · iexact HT134
        isplitl [HT135]; · iexact HT135
        isplitl [HT136]; · iexact HT136
        isplitl [HT137]; · iexact HT137
        isplitl [HT138]; · iexact HT138
        isplitl [HT139]; · iexact HT139
        iexact HT140
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun4 c _ _ _ _ _ _ _ _)

/-- The body obligation of gather pipeline 4, at every point. -/
theorem body_obligationG4 (hH : InRange4 V) (c : Dev nD) :
    BodyObligation (datG4 (F := F) V hH c) (defs₀ (F := F)) Variants.none () Set.univ := fun t => by
  rw [bigSep_W4, bigSep_W4]
  exact sound_bodyG4 V hH c t

end GatherBody4

section GatherLaunch4
variable (V : (c : Dev nD) → (b : Ref sig .tc) → Buf (Elt F) ((c : Thread nD τ).loc b))

/-- The table held through its own elements is the table's buffer held whole. -/
theorem tbPt4_eq (c : Dev nD) (f : HbBuf (F := F) c tbM4) :
    (ptSet c tbM4 fullShare f : sProp 𝕄) = (((c : Thread nD τ).loc main_v43) ↦{fullShare} f) := by
  show ((Memref.whole main_v43 : Memref sig .tc .smem S32x1023 .i32).view.loc (c : Thread nD τ) ↦[(Memref.whole main_v43 : Memref sig .tc .smem S32x1023 .i32).view.set]{fullShare} f) = _
  simp only [View.set_whole, Memref.view_whole]

/-- The launch's prefetched tables at the admitted contents: the one table's buffer held whole. -/
theorem prefHeld4_eq (c : Dev nD) :
    (Pipeline.prefHeld (Ix := Unit) (Name := ℕ) (U := Pipeline.UD sig nD τ) (Lvl := ℕ) pre4 c (fun _ => fullShare) (adm4 (F := F) V).1 : sProp 𝕄)
      = (((c : Thread nD τ).loc main_v43) ↦{fullShare} V c main_v43) := by
  obtain rfl : c = 0 := Subsingleton.elim _ _
  unfold Pipeline.prefHeld adm4
  rw [bigSep_W4]; rfl

/-- The two unscoped buffers the body reads by itself, their points-tos listed. -/
theorem hbmPts4_eq (c : Dev nD) :
    (BI.bigSep H4 (fun b => ((c : Thread nD τ).loc b) ↦{fullShare} V c b) : sProp 𝕄)
      = iprop((((c : Thread nD τ).loc main_arg2) ↦{fullShare} V c main_arg2) ∗ (((c : Thread nD τ).loc main_v43) ↦{fullShare} V c main_v43)) := by
  rw [BI.bigSep_eq_bigSepL_of_eq [main_arg2, main_v43] (by decide) (by decide)]; rfl

end GatherLaunch4

end Cert.Kernel.Hand

end
-- ==== Proof.KernelRun5.lean ====
/-
  The body of gather kernel 5 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM5 : Memref sig .tc .smem S32x1023 .i32 := Memref.whole main_v51

set_option maxHeartbeats 40000000 in
/-- What the body of gather kernel 5 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun5 (c : Dev nD) (i : grid5.Coords) (arg3 : Memref sig .tc .vmem S1x32x8 .f32) (harg3 : arg3.IsWhole)
    (arg4 : Memref sig .tc .vmem S32x8 .f32) (harg4 : arg4.IsWhole)
    (f0 : HbBuf (F := F) c tbM5) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM5 fullShare f0 ∗ (∃ d, owns (c : Thread nD τ) arg3 fullShare d) ∗ (∃ d, owns (c : Thread nD τ) arg4 fullShare d)
            ∗ (tokH c 143 fh ∗ tokH c 144 fh ∗ tokH c 145 fh ∗ tokH c 146 fh ∗ tokH c 147 fh ∗ tokH c 148 fh ∗ tokH c 149 fh ∗ tokH c 150 fh ∗ tokH c 151 fh ∗ tokH c 152 fh ∗ tokH c 153 fh ∗ tokH c 154 fh ∗ tokH c 155 fh ∗ tokH c 156 fh ∗ tokH c 157 fh ∗ tokH c 158 fh ∗ tokH c 159 fh ∗ tokH c 160 fh ∗ tokH c 161 fh ∗ tokH c 162 fh ∗ tokH c 163 fh ∗ tokH c 164 fh ∗ tokH c 165 fh ∗ tokH c 166 fh ∗ tokH c 167 fh ∗ tokH c 168 fh ∗ tokH c 169 fh ∗ tokH c 170 fh ∗ tokH c 171 fh ∗ tokH c 172 fh ∗ tokH c 173 fh ∗ tokH c 174 fh)
            ∗ (semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0)
            ∗ owes (c : Thread nD τ) 0 W
            ∗ (iprop(ptSet c tbM5 fullShare f0 ∗ (∃ f, arg3.view.loc (c : Thread nD τ) ↦[arg3.view.set]{fullShare} arg3.view.writes (Elt F) f L3) ∗ (∃ d, owns (c : Thread nD τ) arg4 fullShare d)
                ∗ (tokH c 143 fh ∗ tokH c 144 fh ∗ tokH c 145 fh ∗ tokH c 146 fh ∗ tokH c 147 fh ∗ tokH c 148 fh ∗ tokH c 149 fh ∗ tokH c 150 fh ∗ tokH c 151 fh ∗ tokH c 152 fh ∗ tokH c 153 fh ∗ tokH c 154 fh ∗ tokH c 155 fh ∗ tokH c 156 fh ∗ tokH c 157 fh ∗ tokH c 158 fh ∗ tokH c 159 fh ∗ tokH c 160 fh ∗ tokH c 161 fh ∗ tokH c 162 fh ∗ tokH c 163 fh ∗ tokH c 164 fh ∗ tokH c 165 fh ∗ tokH c 166 fh ∗ tokH c 167 fh ∗ tokH c 168 fh ∗ tokH c 169 fh ∗ tokH c 170 fh ∗ tokH c 171 fh ∗ tokH c 172 fh ∗ tokH c 173 fh ∗ tokH c 174 fh)
                ∗ (semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0)
                ∗ (∃ W', owes (c : Thread nD τ) 0 W')) -∗ K ⟨⟩))
          ⊢ wp frame (wpE (defs₀ (F := F)) Variants.none c none) Set.univ (cc5__gather_kernel i tbM5 (Memref.isWhole_whole _) hbM (Memref.isWhole_whole _) arg3 harg3 arg4 harg4 cc5_scratch1) K } := by
  refine ⟨?_, fun W K => ?run⟩
  case run =>
    simp only [cc5__gather_kernel_eq_skeleton]; unfold cc5__gather_kernel_skel
    unfold owns
    iintro ⟨H0, ⟨%d1, %f1, -, H1⟩, ⟨%ds0, %fs0, -, HS0⟩, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
    · isplitl [HT143]; · iexact HT143
      isplitl [HT144]; · iexact HT144
      isplitl [HT145]; · iexact HT145
      isplitl [HT146]; · iexact HT146
      isplitl [HT147]; · iexact HT147
      isplitl [HT148]; · iexact HT148
      isplitl [HT149]; · iexact HT149
      isplitl [HT150]; · iexact HT150
      isplitl [HT151]; · iexact HT151
      isplitl [HT152]; · iexact HT152
      isplitl [HT153]; · iexact HT153
      isplitl [HT154]; · iexact HT154
      isplitl [HT155]; · iexact HT155
      isplitl [HT156]; · iexact HT156
      isplitl [HT157]; · iexact HT157
      isplitl [HT158]; · iexact HT158
      isplitl [HT159]; · iexact HT159
      isplitl [HT160]; · iexact HT160
      isplitl [HT161]; · iexact HT161
      isplitl [HT162]; · iexact HT162
      isplitl [HT163]; · iexact HT163
      isplitl [HT164]; · iexact HT164
      isplitl [HT165]; · iexact HT165
      isplitl [HT166]; · iexact HT166
      isplitl [HT167]; · iexact HT167
      isplitl [HT168]; · iexact HT168
      isplitl [HT169]; · iexact HT169
      isplitl [HT170]; · iexact HT170
      isplitl [HT171]; · iexact HT171
      isplitl [HT172]; · iexact HT172
      isplitl [HT173]; · iexact HT173
      iexact HT174
    isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
    · isplitl [Hq143]; · iexact Hq143
      isplitl [Hq144]; · iexact Hq144
      isplitl [Hq145]; · iexact Hq145
      isplitl [Hq146]; · iexact Hq146
      isplitl [Hq147]; · iexact Hq147
      isplitl [Hq148]; · iexact Hq148
      isplitl [Hq149]; · iexact Hq149
      isplitl [Hq150]; · iexact Hq150
      isplitl [Hq151]; · iexact Hq151
      isplitl [Hq152]; · iexact Hq152
      isplitl [Hq153]; · iexact Hq153
      isplitl [Hq154]; · iexact Hq154
      isplitl [Hq155]; · iexact Hq155
      isplitl [Hq156]; · iexact Hq156
      isplitl [Hq157]; · iexact Hq157
      isplitl [Hq158]; · iexact Hq158
      isplitl [Hq159]; · iexact Hq159
      isplitl [Hq160]; · iexact Hq160
      isplitl [Hq161]; · iexact Hq161
      isplitl [Hq162]; · iexact Hq162
      isplitl [Hq163]; · iexact Hq163
      isplitl [Hq164]; · iexact Hq164
      isplitl [Hq165]; · iexact Hq165
      isplitl [Hq166]; · iexact Hq166
      isplitl [Hq167]; · iexact Hq167
      isplitl [Hq168]; · iexact Hq168
      isplitl [Hq169]; · iexact Hq169
      isplitl [Hq170]; · iexact Hq170
      isplitl [Hq171]; · iexact Hq171
      isplitl [Hq172]; · iexact Hq172
      isplitl [Hq173]; · iexact Hq173
      iexact Hq174
    iexists _; iexact HW

/-- The run's pieces for the output block tile it (its one store writes the whole block), so they cover it. -/
theorem coverRun5 (c : Dev nD) (i : grid5.Coords) (arg3 : Memref sig .tc .vmem S1x32x8 .f32) (harg3 : arg3.IsWhole)
    (arg4 : Memref sig .tc .vmem S32x8 .f32) (harg4 : arg4.IsWhole)
    (f0 : HbBuf (F := F) c tbM5) (hall : ∀ j, (f0 j).toNat < 8388608) (fh : HbBuf (F := F) c hbM) (y : S1x32x8.Idx) :
    ∃ pc ∈ (kernelRun5 c i arg3 harg3 arg4 harg4 f0 hall fh).1, y ∈ pc.1.set :=
  View.cover_of_tiledL (kernelRun5 c i arg3 harg3 arg4 harg4 f0 hall fh).1 S1x32x8.size (by sl_kernel_rfl) y

end Cert.Kernel.Hand

end
-- ==== Proof.KernelGather5.lean ====
/-
  Gather kernel 5 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun5

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 5: its region, over the contents `V` it is entered with -/

section Gather5
variable (V : (c : Dev nD) → (b : Ref sig .tc) → Buf (Elt F) ((c : Thread nD τ).loc b))

/-- The row-index table of this launch as the region finds it. The pipeline asks nothing of a table (its windows' index
    maps do not read it), so every table is admissible. -/
def adm5 : (pcfg5 (F := F)).Adm := ⟨fun | ⟨0, _⟩ => V 0 main_v51 | ⟨_ + 1, h⟩ => absurd h (Nat.not_lt.2 (Nat.le_add_left _ _)), trivial⟩

/-- Every word of the table names a row of the weight array. -/
def InRange5 : Prop := ∀ (c : Dev nD) j, ((V c main_v51) j).toNat < 8388608

abbrev pcfgG5 : Pipeline.Cfg sig Λ₀ := cfg5 (adm5 (F := F) V)

/-- The output window's current staging buffer at point `t`, as the pipeline passes it to the body. -/
abbrev ms5 (t : Fin (pcfgG5 (F := F) V).N) : Memref sig .tc .vmem S1x32x8 .f32 := spec5_0.stage ((pcfgG5 (F := F) V).slots t 0)
abbrev hs5 (t : Fin (pcfgG5 (F := F) V).N) : (ms5 V t).IsWhole := hstage5_0 (((pcfgG5 (F := F) V).slots t 0).cast nbuf5_0)
/-- The kernel's scratch block, a whole scoped buffer of its own. -/
abbrev scM5 : Memref sig .tc .vmem S32x8 .f32 := Memref.whole cc5_scratch0
/-- One staging buffer of the output window, through which its contents are stated. -/
abbrev VO5 : View sig .tc .vmem S1x32x8 .f32 := (Memref.whole cc5_stg0_0 : Memref sig .tc .vmem S1x32x8 .f32).view

/-- The kernel's own DMA semaphores, one per route. -/
abbrev osem5 : Fin 32 → SemLoc sig := fun j => (![SemLoc.dma 143, SemLoc.dma 144, SemLoc.dma 145, SemLoc.dma 146, SemLoc.dma 147, SemLoc.dma 148, SemLoc.dma 149, SemLoc.dma 150, SemLoc.dma 151, SemLoc.dma 152, SemLoc.dma 153, SemLoc.dma 154, SemLoc.dma 155, SemLoc.dma 156, SemLoc.dma 157, SemLoc.dma 158, SemLoc.dma 159, SemLoc.dma 160, SemLoc.dma 161, SemLoc.dma 162, SemLoc.dma 163, SemLoc.dma 164, SemLoc.dma 165, SemLoc.dma 166, SemLoc.dma 167, SemLoc.dma 168, SemLoc.dma 169, SemLoc.dma 170, SemLoc.dma 171, SemLoc.dma 172, SemLoc.dma 173, SemLoc.dma 174] : Fin 32 → SemLoc sig) j
theorem ownSemFacts5 : Pipeline.OwnSemFacts spec5 osem5 := by decide
theorem ownSems05_eq (c : Dev nD) :
    (Pipeline.ownSems0 (Ix := Unit) (Name := ℕ) (U := Pipeline.UD sig nD τ) (Lvl := ℕ) (Val := Elt F) (τ := τ) osem5 c : sProp 𝕄)
      = iprop(semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0) := by
  rw [Pipeline.ownSems0_eq_of_list c osem5 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H5 : Finset (Ref sig .tc) := {main_arg2, main_v51}
theorem H5_sub : H5 ⊆ Pipeline.restRefs sig spec5 := by decide

/-- What the output block holds after the body at point `t`: the run's pieces read back. -/
def outsAt5 (hH : InRange5 V) (c : Dev nD) (t : Fin (pcfgG5 (F := F) V).N) : Vec F S1x32x8 .f32 :=
  (VO5).read (Elt F) ((VO5).writes (Elt F) (VO5).junk
    (kernelRun5 c (grid5.coords t) (ms5 V t) (hs5 V t) scM5 (Memref.isWhole_whole _) (V c main_v51) (hH c) (V c main_arg2)).1)

/-- The region's invariant: the scoped buffers no window stages (the scratch block among them), the generator register,
    the kernel's DMA semaphores at zero, the weight array and the table whole at their entry contents. -/
def ΦG5 (c : Dev nD) : sProp 𝕄 :=
  iprop(Pipeline.scopedRest (Ix := Unit) (Name := ℕ) (U := Pipeline.UD sig nD τ) (Lvl := ℕ) (Val := Elt F) spec5 c ∗ (∃ r, prngReg c r)
    ∗ Pipeline.ownSems0 (Ix := Unit) (Name := ℕ) (U := Pipeline.UD sig nD τ) (Lvl := ℕ) (Val := Elt F) (τ := τ) osem5 c
    ∗ (((c : Thread nD τ).loc main_arg2) ↦{fullShare} V c main_arg2)
    ∗ ptSet c tbM5 fullShare (V c main_v51))

/-- The proof data of gather pipeline 5 on core `c`. -/
def datG5 (hH : InRange5 V) (c : Dev nD) : Dat τ (Elt F) Unit ℕ (Pipeline.UD sig nD τ) ℕ (pcfgG5 (F := F) V) c where
  A w := V c (Pipeline.arrRef spec5 w)
  after w t := match w with
    | ⟨0, _⟩ => outsAt5 V hH c t
  Φ _ := ΦG5 V c
  q _ := fullShare
  owed _ := 0

theorem afterG5 (hH : InRange5 V) (c : Dev nD) (t) : (datG5 V hH c).after 0 t = outsAt5 V hH c t := by dsimp only [datG5]; rfl

end Gather5

section GatherBody5
variable (V : (c : Dev nD) → (b : Ref sig .tc) → Buf (Elt F) ((c : Thread nD τ).loc b))

open Idealize.ShloMosaic.Transfers in
/-- The weight array at the full share, as the read shares the thirty-two copies take and what is left beside them. -/
theorem hbSplit5 (c : Dev nD) :
    ((((c : Thread nD τ).loc main_arg2) ↦{fullShare} V c main_arg2) : sProp 𝕄)
      ⊣⊢ iprop((((((c : Thread nD τ).loc main_arg2) ↦{shareDrop fullShare (143 + 32)} V c main_arg2)) ∗ (tokH c 143 (V c main_arg2) ∗ tokH c 144 (V c main_arg2) ∗ tokH c 145 (V c main_arg2) ∗ tokH c 146 (V c main_arg2) ∗ tokH c 147 (V c main_arg2) ∗ tokH c 148 (V c main_arg2) ∗ tokH c 149 (V c main_arg2) ∗ tokH c 150 (V c main_arg2) ∗ tokH c 151 (V c main_arg2) ∗ tokH c 152 (V c main_arg2) ∗ tokH c 153 (V c main_arg2) ∗ tokH c 154 (V c main_arg2) ∗ tokH c 155 (V c main_arg2) ∗ tokH c 156 (V c main_arg2) ∗ tokH c 157 (V c main_arg2) ∗ tokH c 158 (V c main_arg2) ∗ tokH c 159 (V c main_arg2) ∗ tokH c 160 (V c main_arg2) ∗ tokH c 161 (V c main_arg2) ∗ tokH c 162 (V c main_arg2) ∗ tokH c 163 (V c main_arg2) ∗ tokH c 164 (V c main_arg2) ∗ tokH c 165 (V c main_arg2) ∗ tokH c 166 (V c main_arg2) ∗ tokH c 167 (V c main_arg2) ∗ tokH c 168 (V c main_arg2) ∗ tokH c 169 (V c main_arg2) ∗ tokH c 170 (V c main_arg2) ∗ tokH c 171 (V c main_arg2) ∗ tokH c 172 (V c main_arg2) ∗ tokH c 173 (V c main_arg2) ∗ tokH c 174 (V c main_arg2)))
        ∗ BI.bigSep (Finset.range 143) (fun i => ((((c : Thread nD τ).loc main_arg2) ↦{shareTokN fullShare i} V c main_arg2) : sProp 𝕄))) :=
  toks32 (F := F) 143

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG5 (hH : InRange5 V) (c : Dev nD) (t : Fin (pcfgG5 (F := F) V).N) :
    iprop((datG5 V hH c).Φ t.castSucc ∗ (datG5 V hH c).owesAt () t.castSucc
        ∗ (∃ d, owns (c : Thread nD τ) (ms5 V t) fullShare ((datG5 V hH c).before 0 t d)))
      ⊢ wp frame (wpE (defs₀ (F := F)) Variants.none c none) Set.univ
          (cc5__gather_kernel (grid5.coords t) tbM5 (Memref.isWhole_whole _) hbM (Memref.isWhole_whole _) (ms5 V t) (hs5 V t) scM5 (Memref.isWhole_whole _) cc5_scratch1)
          (fun _ => iprop((datG5 V hH c).Φ t.succ ∗ (datG5 V hH c).owesAt () t.succ
            ∗ owns (c : Thread nD τ) (ms5 V t) fullShare ((datG5 V hH c).after 0 t))) := by
  rw [show (datG5 V hH c).Φ t.succ = ΦG5 V c from rfl, show (datG5 V hH c).Φ t.castSucc = ΦG5 V c from rfl, afterG5]
  unfold ΦG5
  rw [scopedRest5_split, ownSems05_eq]
  unfold Dat.owesAt Pipeline.owesWithin
  rw [show (datG5 V hH c).owed t.castSucc = 0 from rfl, show (datG5 V hH c).owed t.succ = 0 from rfl]
  unfold outsAt5
  iintro ⟨⟨⟨HS0, HRB⟩, Hg, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, Hh, Ht⟩, ⟨%W, -, HW⟩, ⟨%d1, H1⟩⟩
  ihave Hh2 := (hbSplit5 V c).1 $$ Hh
  icases Hh2 with ⟨⟨Hdrop, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩⟩, Hlow⟩
  iapply ((kernelRun5 c (grid5.coords t) (ms5 V t) (hs5 V t) scM5 (Memref.isWhole_whole _) (V c main_v51) (hH c) (V c main_arg2)).2 W _)
  isplitl [Ht]; · iexact Ht
  isplitl [H1]; · iexists _; iexact H1
  isplitl [HS0]; · simp only [owns_whole]; iexact HS0
  isplitl [HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
  · isplitl [HT143]; · iexact HT143
    isplitl [HT144]; · iexact HT144
    isplitl [HT145]; · iexact HT145
    isplitl [HT146]; · iexact HT146
    isplitl [HT147]; · iexact HT147
    isplitl [HT148]; · iexact HT148
    isplitl [HT149]; · iexact HT149
    isplitl [HT150]; · iexact HT150
    isplitl [HT151]; · iexact HT151
    isplitl [HT152]; · iexact HT152
    isplitl [HT153]; · iexact HT153
    isplitl [HT154]; · iexact HT154
    isplitl [HT155]; · iexact HT155
    isplitl [HT156]; · iexact HT156
    isplitl [HT157]; · iexact HT157
    isplitl [HT158]; · iexact HT158
    isplitl [HT159]; · iexact HT159
    isplitl [HT160]; · iexact HT160
    isplitl [HT161]; · iexact HT161
    isplitl [HT162]; · iexact HT162
    isplitl [HT163]; · iexact HT163
    isplitl [HT164]; · iexact HT164
    isplitl [HT165]; · iexact HT165
    isplitl [HT166]; · iexact HT166
    isplitl [HT167]; · iexact HT167
    isplitl [HT168]; · iexact HT168
    isplitl [HT169]; · iexact HT169
    isplitl [HT170]; · iexact HT170
    isplitl [HT171]; · iexact HT171
    isplitl [HT172]; · iexact HT172
    isplitl [HT173]; · iexact HT173
    iexact HT174
  isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
  · isplitl [Hq143]; · iexact Hq143
    isplitl [Hq144]; · iexact Hq144
    isplitl [Hq145]; · iexact Hq145
    isplitl [Hq146]; · iexact Hq146
    isplitl [Hq147]; · iexact Hq147
    isplitl [Hq148]; · iexact Hq148
    isplitl [Hq149]; · iexact Hq149
    isplitl [Hq150]; · iexact Hq150
    isplitl [Hq151]; · iexact Hq151
    isplitl [Hq152]; · iexact Hq152
    isplitl [Hq153]; · iexact Hq153
    isplitl [Hq154]; · iexact Hq154
    isplitl [Hq155]; · iexact Hq155
    isplitl [Hq156]; · iexact Hq156
    isplitl [Hq157]; · iexact Hq157
    isplitl [Hq158]; · iexact Hq158
    isplitl [Hq159]; · iexact Hq159
    isplitl [Hq160]; · iexact Hq160
    isplitl [Hq161]; · iexact Hq161
    isplitl [Hq162]; · iexact Hq162
    isplitl [Hq163]; · iexact Hq163
    isplitl [Hq164]; · iexact Hq164
    isplitl [Hq165]; · iexact Hq165
    isplitl [Hq166]; · iexact Hq166
    isplitl [Hq167]; · iexact Hq167
    isplitl [Hq168]; · iexact Hq168
    isplitl [Hq169]; · iexact Hq169
    isplitl [Hq170]; · iexact Hq170
    isplitl [Hq171]; · iexact Hq171
    isplitl [Hq172]; · iexact Hq172
    isplitl [Hq173]; · iexact Hq173
    iexact Hq174
  isplitl [HW]; · iexact HW
  iintro ⟨Ht, ⟨%e1, H1⟩, HS0, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, ⟨%W', HW'⟩⟩
  isplitl [Ht HS0 HRB Hg Hdrop Hlow HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174 Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
  · isplitl [HS0 HRB]
    · isplitl [HS0]; · simp only [owns_whole]; iexact HS0
      iexact HRB
    isplitl [Hg]; · iexact Hg
    isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
    · isplitl [Hq143]; · iexact Hq143
      isplitl [Hq144]; · iexact Hq144
      isplitl [Hq145]; · iexact Hq145
      isplitl [Hq146]; · iexact Hq146
      isplitl [Hq147]; · iexact Hq147
      isplitl [Hq148]; · iexact Hq148
      isplitl [Hq149]; · iexact Hq149
      isplitl [Hq150]; · iexact Hq150
      isplitl [Hq151]; · iexact Hq151
      isplitl [Hq152]; · iexact Hq152
      isplitl [Hq153]; · iexact Hq153
      isplitl [Hq154]; · iexact Hq154
      isplitl [Hq155]; · iexact Hq155
      isplitl [Hq156]; · iexact Hq156
      isplitl [Hq157]; · iexact Hq157
      isplitl [Hq158]; · iexact Hq158
      isplitl [Hq159]; · iexact Hq159
      isplitl [Hq160]; · iexact Hq160
      isplitl [Hq161]; · iexact Hq161
      isplitl [Hq162]; · iexact Hq162
      isplitl [Hq163]; · iexact Hq163
      isplitl [Hq164]; · iexact Hq164
      isplitl [Hq165]; · iexact Hq165
      isplitl [Hq166]; · iexact Hq166
      isplitl [Hq167]; · iexact Hq167
      isplitl [Hq168]; · iexact Hq168
      isplitl [Hq169]; · iexact Hq169
      isplitl [Hq170]; · iexact Hq170
      isplitl [Hq171]; · iexact Hq171
      isplitl [Hq172]; · iexact Hq172
      isplitl [Hq173]; · iexact Hq173
      iexact Hq174
    isplitl [Hdrop Hlow HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
    · iapply (hbSplit5 V c).2
      isplitl [Hdrop HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
      · isplitl [Hdrop]; · iexact Hdrop
        isplitl [HT143]; · iexact HT143
        isplitl [HT144]; · iexact HT144
        isplitl [HT145]; · iexact HT145
        isplitl [HT146]; · iexact HT146
        isplitl [HT147]; · iexact HT147
        isplitl [HT148]; · iexact HT148
        isplitl [HT149]; · iexact HT149
        isplitl [HT150]; · iexact HT150
        isplitl [HT151]; · iexact HT151
        isplitl [HT152]; · iexact HT152
        isplitl [HT153]; · iexact HT153
        isplitl [HT154]; · iexact HT154
        isplitl [HT155]; · iexact HT155
        isplitl [HT156]; · iexact HT156
        isplitl [HT157]; · iexact HT157
        isplitl [HT158]; · iexact HT158
        isplitl [HT159]; · iexact HT159
        isplitl [HT160]; · iexact HT160
        isplitl [HT161]; · iexact HT161
        isplitl [HT162]; · iexact HT162
        isplitl [HT163]; · iexact HT163
        isplitl [HT164]; · iexact HT164
        isplitl [HT165]; · iexact HT165
        isplitl [HT166]; · iexact HT166
        isplitl [HT167]; · iexact HT167
        isplitl [HT168]; · iexact HT168
        isplitl [HT169]; · iexact HT169
        isplitl [HT170]; · iexact HT170
        isplitl [HT171]; · iexact HT171
        isplitl [HT172]; · iexact HT172
        isplitl [HT173]; · iexact HT173
        iexact HT174
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun5 c _ _ _ _ _ _ _ _)

/-- The body obligation of gather pipeline 5, at every point. -/
theorem body_obligationG5 (hH : InRange5 V) (c : Dev nD) :
    BodyObligation (datG5 (F := F) V hH c) (defs₀ (F := F)) Variants.none () Set.univ := fun t => by
  rw [bigSep_W5, bigSep_W5]
  exact sound_bodyG5 V hH c t

end GatherBody5

section GatherLaunch5
variable (V : (c : Dev nD) → (b : Ref sig .tc) → Buf (Elt F) ((c : Thread nD τ).loc b))

/-- The table held through its own elements is the table's buffer held whole. -/
theorem tbPt5_eq (c : Dev nD) (f : HbBuf (F := F) c tbM5) :
    (ptSet c tbM5 fullShare f : sProp 𝕄) = (((c : Thread nD τ).loc main_v51) ↦{fullShare} f) := by
  show ((Memref.whole main_v51 : Memref sig .tc .smem S32x1023 .i32).view.loc (c : Thread nD τ) ↦[(Memref.whole main_v51 : Memref sig .tc .smem S32x1023 .i32).view.set]{fullShare} f) = _
  simp only [View.set_whole, Memref.view_whole]

/-- The launch's prefetched tables at the admitted contents: the one table's buffer held whole. -/
theorem prefHeld5_eq (c : Dev nD) :
    (Pipeline.prefHeld (Ix := Unit) (Name := ℕ) (U := Pipeline.UD sig nD τ) (Lvl := ℕ) pre5 c (fun _ => fullShare) (adm5 (F := F) V).1 : sProp 𝕄)
      = (((c : Thread nD τ).loc main_v51) ↦{fullShare} V c main_v51) := by
  obtain rfl : c = 0 := Subsingleton.elim _ _
  unfold Pipeline.prefHeld adm5
  rw [bigSep_W5]; rfl

/-- The two unscoped buffers the body reads by itself, their points-tos listed. -/
theorem hbmPts5_eq (c : Dev nD) :
    (BI.bigSep H5 (fun b => ((c : Thread nD τ).loc b) ↦{fullShare} V c b) : sProp 𝕄)
      = iprop((((c : Thread nD τ).loc main_arg2) ↦{fullShare} V c main_arg2) ∗ (((c : Thread nD τ).loc main_v51) ↦{fullShare} V c main_v51)) := by
  rw [BI.bigSep_eq_bigSepL_of_eq [main_arg2, main_v51] (by decide) (by decide)]; rfl

end GatherLaunch5

end Cert.Kernel.Hand

end
-- ==== Proof.KernelRun6.lean ====
/-
  The body of gather kernel 6 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM6 : Memref sig .tc .smem S32x1023 .i32 := Memref.whole main_v54

set_option maxHeartbeats 40000000 in
/-- What the body of gather kernel 6 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun6 (c : Dev nD) (i : grid6.Coords) (arg3 : Memref sig .tc .vmem S1x32x8 .f32) (harg3 : arg3.IsWhole)
    (arg4 : Memref sig .tc .vmem S32x8 .f32) (harg4 : arg4.IsWhole)
    (f0 : HbBuf (F := F) c tbM6) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM6 fullShare f0 ∗ (∃ d, owns (c : Thread nD τ) arg3 fullShare d) ∗ (∃ d, owns (c : Thread nD τ) arg4 fullShare d)
            ∗ (tokH c 177 fh ∗ tokH c 178 fh ∗ tokH c 179 fh ∗ tokH c 180 fh ∗ tokH c 181 fh ∗ tokH c 182 fh ∗ tokH c 183 fh ∗ tokH c 184 fh ∗ tokH c 185 fh ∗ tokH c 186 fh ∗ tokH c 187 fh ∗ tokH c 188 fh ∗ tokH c 189 fh ∗ tokH c 190 fh ∗ tokH c 191 fh ∗ tokH c 192 fh ∗ tokH c 193 fh ∗ tokH c 194 fh ∗ tokH c 195 fh ∗ tokH c 196 fh ∗ tokH c 197 fh ∗ tokH c 198 fh ∗ tokH c 199 fh ∗ tokH c 200 fh ∗ tokH c 201 fh ∗ tokH c 202 fh ∗ tokH c 203 fh ∗ tokH c 204 fh ∗ tokH c 205 fh ∗ tokH c 206 fh ∗ tokH c 207 fh ∗ tokH c 208 fh)
            ∗ (semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0)
            ∗ owes (c : Thread nD τ) 0 W
            ∗ (iprop(ptSet c tbM6 fullShare f0 ∗ (∃ f, arg3.view.loc (c : Thread nD τ) ↦[arg3.view.set]{fullShare} arg3.view.writes (Elt F) f L3) ∗ (∃ d, owns (c : Thread nD τ) arg4 fullShare d)
                ∗ (tokH c 177 fh ∗ tokH c 178 fh ∗ tokH c 179 fh ∗ tokH c 180 fh ∗ tokH c 181 fh ∗ tokH c 182 fh ∗ tokH c 183 fh ∗ tokH c 184 fh ∗ tokH c 185 fh ∗ tokH c 186 fh ∗ tokH c 187 fh ∗ tokH c 188 fh ∗ tokH c 189 fh ∗ tokH c 190 fh ∗ tokH c 191 fh ∗ tokH c 192 fh ∗ tokH c 193 fh ∗ tokH c 194 fh ∗ tokH c 195 fh ∗ tokH c 196 fh ∗ tokH c 197 fh ∗ tokH c 198 fh ∗ tokH c 199 fh ∗ tokH c 200 fh ∗ tokH c 201 fh ∗ tokH c 202 fh ∗ tokH c 203 fh ∗ tokH c 204 fh ∗ tokH c 205 fh ∗ tokH c 206 fh ∗ tokH c 207 fh ∗ tokH c 208 fh)
                ∗ (semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0)
                ∗ (∃ W', owes (c : Thread nD τ) 0 W')) -∗ K ⟨⟩))
          ⊢ wp frame (wpE (defs₀ (F := F)) Variants.none c none) Set.univ (cc6__gather_kernel i tbM6 (Memref.isWhole_whole _) hbM (Memref.isWhole_whole _) arg3 harg3 arg4 harg4 cc6_scratch1) K } := by
  refine ⟨?_, fun W K => ?run⟩
  case run =>
    simp only [cc6__gather_kernel_eq_skeleton]; unfold cc6__gather_kernel_skel
    unfold owns
    iintro ⟨H0, ⟨%d1, %f1, -, H1⟩, ⟨%ds0, %fs0, -, HS0⟩, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
    · isplitl [HT177]; · iexact HT177
      isplitl [HT178]; · iexact HT178
      isplitl [HT179]; · iexact HT179
      isplitl [HT180]; · iexact HT180
      isplitl [HT181]; · iexact HT181
      isplitl [HT182]; · iexact HT182
      isplitl [HT183]; · iexact HT183
      isplitl [HT184]; · iexact HT184
      isplitl [HT185]; · iexact HT185
      isplitl [HT186]; · iexact HT186
      isplitl [HT187]; · iexact HT187
      isplitl [HT188]; · iexact HT188
      isplitl [HT189]; · iexact HT189
      isplitl [HT190]; · iexact HT190
      isplitl [HT191]; · iexact HT191
      isplitl [HT192]; · iexact HT192
      isplitl [HT193]; · iexact HT193
      isplitl [HT194]; · iexact HT194
      isplitl [HT195]; · iexact HT195
      isplitl [HT196]; · iexact HT196
      isplitl [HT197]; · iexact HT197
      isplitl [HT198]; · iexact HT198
      isplitl [HT199]; · iexact HT199
      isplitl [HT200]; · iexact HT200
      isplitl [HT201]; · iexact HT201
      isplitl [HT202]; · iexact HT202
      isplitl [HT203]; · iexact HT203
      isplitl [HT204]; · iexact HT204
      isplitl [HT205]; · iexact HT205
      isplitl [HT206]; · iexact HT206
      isplitl [HT207]; · iexact HT207
      iexact HT208
    isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
    · isplitl [Hq177]; · iexact Hq177
      isplitl [Hq178]; · iexact Hq178
      isplitl [Hq179]; · iexact Hq179
      isplitl [Hq180]; · iexact Hq180
      isplitl [Hq181]; · iexact Hq181
      isplitl [Hq182]; · iexact Hq182
      isplitl [Hq183]; · iexact Hq183
      isplitl [Hq184]; · iexact Hq184
      isplitl [Hq185]; · iexact Hq185
      isplitl [Hq186]; · iexact Hq186
      isplitl [Hq187]; · iexact Hq187
      isplitl [Hq188]; · iexact Hq188
      isplitl [Hq189]; · iexact Hq189
      isplitl [Hq190]; · iexact Hq190
      isplitl [Hq191]; · iexact Hq191
      isplitl [Hq192]; · iexact Hq192
      isplitl [Hq193]; · iexact Hq193
      isplitl [Hq194]; · iexact Hq194
      isplitl [Hq195]; · iexact Hq195
      isplitl [Hq196]; · iexact Hq196
      isplitl [Hq197]; · iexact Hq197
      isplitl [Hq198]; · iexact Hq198
      isplitl [Hq199]; · iexact Hq199
      isplitl [Hq200]; · iexact Hq200
      isplitl [Hq201]; · iexact Hq201
      isplitl [Hq202]; · iexact Hq202
      isplitl [Hq203]; · iexact Hq203
      isplitl [Hq204]; · iexact Hq204
      isplitl [Hq205]; · iexact Hq205
      isplitl [Hq206]; · iexact Hq206
      isplitl [Hq207]; · iexact Hq207
      iexact Hq208
    iexists _; iexact HW

/-- The run's pieces for the output block tile it (its one store writes the whole block), so they cover it. -/
theorem coverRun6 (c : Dev nD) (i : grid6.Coords) (arg3 : Memref sig .tc .vmem S1x32x8 .f32) (harg3 : arg3.IsWhole)
    (arg4 : Memref sig .tc .vmem S32x8 .f32) (harg4 : arg4.IsWhole)
    (f0 : HbBuf (F := F) c tbM6) (hall : ∀ j, (f0 j).toNat < 8388608) (fh : HbBuf (F := F) c hbM) (y : S1x32x8.Idx) :
    ∃ pc ∈ (kernelRun6 c i arg3 harg3 arg4 harg4 f0 hall fh).1, y ∈ pc.1.set :=
  View.cover_of_tiledL (kernelRun6 c i arg3 harg3 arg4 harg4 f0 hall fh).1 S1x32x8.size (by sl_kernel_rfl) y

end Cert.Kernel.Hand

end
-- ==== Proof.KernelGather6.lean ====
/-
  Gather kernel 6 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun6

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 6: its region, over the contents `V` it is entered with -/

section Gather6
variable (V : (c : Dev nD) → (b : Ref sig .tc) → Buf (Elt F) ((c : Thread nD τ).loc b))

/-- The row-index table of this launch as the region finds it. The pipeline asks nothing of a table (its windows' index
    maps do not read it), so every table is admissible. -/
def adm6 : (pcfg6 (F := F)).Adm := ⟨fun | ⟨0, _⟩ => V 0 main_v54 | ⟨_ + 1, h⟩ => absurd h (Nat.not_lt.2 (Nat.le_add_left _ _)), trivial⟩

/-- Every word of the table names a row of the weight array. -/
def InRange6 : Prop := ∀ (c : Dev nD) j, ((V c main_v54) j).toNat < 8388608

abbrev pcfgG6 : Pipeline.Cfg sig Λ₀ := cfg6 (adm6 (F := F) V)

/-- The output window's current staging buffer at point `t`, as the pipeline passes it to the body. -/
abbrev ms6 (t : Fin (pcfgG6 (F := F) V).N) : Memref sig .tc .vmem S1x32x8 .f32 := spec6_0.stage ((pcfgG6 (F := F) V).slots t 0)
abbrev hs6 (t : Fin (pcfgG6 (F := F) V).N) : (ms6 V t).IsWhole := hstage6_0 (((pcfgG6 (F := F) V).slots t 0).cast nbuf6_0)
/-- The kernel's scratch block, a whole scoped buffer of its own. -/
abbrev scM6 : Memref sig .tc .vmem S32x8 .f32 := Memref.whole cc6_scratch0
/-- One staging buffer of the output window, through which its contents are stated. -/
abbrev VO6 : View sig .tc .vmem S1x32x8 .f32 := (Memref.whole cc6_stg0_0 : Memref sig .tc .vmem S1x32x8 .f32).view

/-- The kernel's own DMA semaphores, one per route. -/
abbrev osem6 : Fin 32 → SemLoc sig := fun j => (![SemLoc.dma 177, SemLoc.dma 178, SemLoc.dma 179, SemLoc.dma 180, SemLoc.dma 181, SemLoc.dma 182, SemLoc.dma 183, SemLoc.dma 184, SemLoc.dma 185, SemLoc.dma 186, SemLoc.dma 187, SemLoc.dma 188, SemLoc.dma 189, SemLoc.dma 190, SemLoc.dma 191, SemLoc.dma 192, SemLoc.dma 193, SemLoc.dma 194, SemLoc.dma 195, SemLoc.dma 196, SemLoc.dma 197, SemLoc.dma 198, SemLoc.dma 199, SemLoc.dma 200, SemLoc.dma 201, SemLoc.dma 202, SemLoc.dma 203, SemLoc.dma 204, SemLoc.dma 205, SemLoc.dma 206, SemLoc.dma 207, SemLoc.dma 208] : Fin 32 → SemLoc sig) j
theorem ownSemFacts6 : Pipeline.OwnSemFacts spec6 osem6 := by decide
theorem ownSems06_eq (c : Dev nD) :
    (Pipeline.ownSems0 (Ix := Unit) (Name := ℕ) (U := Pipeline.UD sig nD τ) (Lvl := ℕ) (Val := Elt F) (τ := τ) osem6 c : sProp 𝕄)
      = iprop(semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0) := by
  rw [Pipeline.ownSems0_eq_of_list c osem6 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H6 : Finset (Ref sig .tc) := {main_arg2, main_v54}
theorem H6_sub : H6 ⊆ Pipeline.restRefs sig spec6 := by decide

/-- What the output block holds after the body at point `t`: the run's pieces read back. -/
def outsAt6 (hH : InRange6 V) (c : Dev nD) (t : Fin (pcfgG6 (F := F) V).N) : Vec F S1x32x8 .f32 :=
  (VO6).read (Elt F) ((VO6).writes (Elt F) (VO6).junk
    (kernelRun6 c (grid6.coords t) (ms6 V t) (hs6 V t) scM6 (Memref.isWhole_whole _) (V c main_v54) (hH c) (V c main_arg2)).1)

/-- The region's invariant: the scoped buffers no window stages (the scratch block among them), the generator register,
    the kernel's DMA semaphores at zero, the weight array and the table whole at their entry contents. -/
def ΦG6 (c : Dev nD) : sProp 𝕄 :=
  iprop(Pipeline.scopedRest (Ix := Unit) (Name := ℕ) (U := Pipeline.UD sig nD τ) (Lvl := ℕ) (Val := Elt F) spec6 c ∗ (∃ r, prngReg c r)
    ∗ Pipeline.ownSems0 (Ix := Unit) (Name := ℕ) (U := Pipeline.UD sig nD τ) (Lvl := ℕ) (Val := Elt F) (τ := τ) osem6 c
    ∗ (((c : Thread nD τ).loc main_arg2) ↦{fullShare} V c main_arg2)
    ∗ ptSet c tbM6 fullShare (V c main_v54))

/-- The proof data of gather pipeline 6 on core `c`. -/
def datG6 (hH : InRange6 V) (c : Dev nD) : Dat τ (Elt F) Unit ℕ (Pipeline.UD sig nD τ) ℕ (pcfgG6 (F := F) V) c where
  A w := V c (Pipeline.arrRef spec6 w)
  after w t := match w with
    | ⟨0, _⟩ => outsAt6 V hH c t
  Φ _ := ΦG6 V c
  q _ := fullShare
  owed _ := 0

theorem afterG6 (hH : InRange6 V) (c : Dev nD) (t) : (datG6 V hH c).after 0 t = outsAt6 V hH c t := by dsimp only [datG6]; rfl

end Gather6

section GatherBody6
variable (V : (c : Dev nD) → (b : Ref sig .tc) → Buf (Elt F) ((c : Thread nD τ).loc b))

open Idealize.ShloMosaic.Transfers in
/-- The weight array at the full share, as the read shares the thirty-two copies take and what is left beside them. -/
theorem hbSplit6 (c : Dev nD) :
    ((((c : Thread nD τ).loc main_arg2) ↦{fullShare} V c main_arg2) : sProp 𝕄)
      ⊣⊢ iprop((((((c : Thread nD τ).loc main_arg2) ↦{shareDrop fullShare (177 + 32)} V c main_arg2)) ∗ (tokH c 177 (V c main_arg2) ∗ tokH c 178 (V c main_arg2) ∗ tokH c 179 (V c main_arg2) ∗ tokH c 180 (V c main_arg2) ∗ tokH c 181 (V c main_arg2) ∗ tokH c 182 (V c main_arg2) ∗ tokH c 183 (V c main_arg2) ∗ tokH c 184 (V c main_arg2) ∗ tokH c 185 (V c main_arg2) ∗ tokH c 186 (V c main_arg2) ∗ tokH c 187 (V c main_arg2) ∗ tokH c 188 (V c main_arg2) ∗ tokH c 189 (V c main_arg2) ∗ tokH c 190 (V c main_arg2) ∗ tokH c 191 (V c main_arg2) ∗ tokH c 192 (V c main_arg2) ∗ tokH c 193 (V c main_arg2) ∗ tokH c 194 (V c main_arg2) ∗ tokH c 195 (V c main_arg2) ∗ tokH c 196 (V c main_arg2) ∗ tokH c 197 (V c main_arg2) ∗ tokH c 198 (V c main_arg2) ∗ tokH c 199 (V c main_arg2) ∗ tokH c 200 (V c main_arg2) ∗ tokH c 201 (V c main_arg2) ∗ tokH c 202 (V c main_arg2) ∗ tokH c 203 (V c main_arg2) ∗ tokH c 204 (V c main_arg2) ∗ tokH c 205 (V c main_arg2) ∗ tokH c 206 (V c main_arg2) ∗ tokH c 207 (V c main_arg2) ∗ tokH c 208 (V c main_arg2)))
        ∗ BI.bigSep (Finset.range 177) (fun i => ((((c : Thread nD τ).loc main_arg2) ↦{shareTokN fullShare i} V c main_arg2) : sProp 𝕄))) :=
  toks32 (F := F) 177

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG6 (hH : InRange6 V) (c : Dev nD) (t : Fin (pcfgG6 (F := F) V).N) :
    iprop((datG6 V hH c).Φ t.castSucc ∗ (datG6 V hH c).owesAt () t.castSucc
        ∗ (∃ d, owns (c : Thread nD τ) (ms6 V t) fullShare ((datG6 V hH c).before 0 t d)))
      ⊢ wp frame (wpE (defs₀ (F := F)) Variants.none c none) Set.univ
          (cc6__gather_kernel (grid6.coords t) tbM6 (Memref.isWhole_whole _) hbM (Memref.isWhole_whole _) (ms6 V t) (hs6 V t) scM6 (Memref.isWhole_whole _) cc6_scratch1)
          (fun _ => iprop((datG6 V hH c).Φ t.succ ∗ (datG6 V hH c).owesAt () t.succ
            ∗ owns (c : Thread nD τ) (ms6 V t) fullShare ((datG6 V hH c).after 0 t))) := by
  rw [show (datG6 V hH c).Φ t.succ = ΦG6 V c from rfl, show (datG6 V hH c).Φ t.castSucc = ΦG6 V c from rfl, afterG6]
  unfold ΦG6
  rw [scopedRest6_split, ownSems06_eq]
  unfold Dat.owesAt Pipeline.owesWithin
  rw [show (datG6 V hH c).owed t.castSucc = 0 from rfl, show (datG6 V hH c).owed t.succ = 0 from rfl]
  unfold outsAt6
  iintro ⟨⟨⟨HS0, HRB⟩, Hg, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, Hh, Ht⟩, ⟨%W, -, HW⟩, ⟨%d1, H1⟩⟩
  ihave Hh2 := (hbSplit6 V c).1 $$ Hh
  icases Hh2 with ⟨⟨Hdrop, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩⟩, Hlow⟩
  iapply ((kernelRun6 c (grid6.coords t) (ms6 V t) (hs6 V t) scM6 (Memref.isWhole_whole _) (V c main_v54) (hH c) (V c main_arg2)).2 W _)
  isplitl [Ht]; · iexact Ht
  isplitl [H1]; · iexists _; iexact H1
  isplitl [HS0]; · simp only [owns_whole]; iexact HS0
  isplitl [HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
  · isplitl [HT177]; · iexact HT177
    isplitl [HT178]; · iexact HT178
    isplitl [HT179]; · iexact HT179
    isplitl [HT180]; · iexact HT180
    isplitl [HT181]; · iexact HT181
    isplitl [HT182]; · iexact HT182
    isplitl [HT183]; · iexact HT183
    isplitl [HT184]; · iexact HT184
    isplitl [HT185]; · iexact HT185
    isplitl [HT186]; · iexact HT186
    isplitl [HT187]; · iexact HT187
    isplitl [HT188]; · iexact HT188
    isplitl [HT189]; · iexact HT189
    isplitl [HT190]; · iexact HT190
    isplitl [HT191]; · iexact HT191
    isplitl [HT192]; · iexact HT192
    isplitl [HT193]; · iexact HT193
    isplitl [HT194]; · iexact HT194
    isplitl [HT195]; · iexact HT195
    isplitl [HT196]; · iexact HT196
    isplitl [HT197]; · iexact HT197
    isplitl [HT198]; · iexact HT198
    isplitl [HT199]; · iexact HT199
    isplitl [HT200]; · iexact HT200
    isplitl [HT201]; · iexact HT201
    isplitl [HT202]; · iexact HT202
    isplitl [HT203]; · iexact HT203
    isplitl [HT204]; · iexact HT204
    isplitl [HT205]; · iexact HT205
    isplitl [HT206]; · iexact HT206
    isplitl [HT207]; · iexact HT207
    iexact HT208
  isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
  · isplitl [Hq177]; · iexact Hq177
    isplitl [Hq178]; · iexact Hq178
    isplitl [Hq179]; · iexact Hq179
    isplitl [Hq180]; · iexact Hq180
    isplitl [Hq181]; · iexact Hq181
    isplitl [Hq182]; · iexact Hq182
    isplitl [Hq183]; · iexact Hq183
    isplitl [Hq184]; · iexact Hq184
    isplitl [Hq185]; · iexact Hq185
    isplitl [Hq186]; · iexact Hq186
    isplitl [Hq187]; · iexact Hq187
    isplitl [Hq188]; · iexact Hq188
    isplitl [Hq189]; · iexact Hq189
    isplitl [Hq190]; · iexact Hq190
    isplitl [Hq191]; · iexact Hq191
    isplitl [Hq192]; · iexact Hq192
    isplitl [Hq193]; · iexact Hq193
    isplitl [Hq194]; · iexact Hq194
    isplitl [Hq195]; · iexact Hq195
    isplitl [Hq196]; · iexact Hq196
    isplitl [Hq197]; · iexact Hq197
    isplitl [Hq198]; · iexact Hq198
    isplitl [Hq199]; · iexact Hq199
    isplitl [Hq200]; · iexact Hq200
    isplitl [Hq201]; · iexact Hq201
    isplitl [Hq202]; · iexact Hq202
    isplitl [Hq203]; · iexact Hq203
    isplitl [Hq204]; · iexact Hq204
    isplitl [Hq205]; · iexact Hq205
    isplitl [Hq206]; · iexact Hq206
    isplitl [Hq207]; · iexact Hq207
    iexact Hq208
  isplitl [HW]; · iexact HW
  iintro ⟨Ht, ⟨%e1, H1⟩, HS0, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, ⟨%W', HW'⟩⟩
  isplitl [Ht HS0 HRB Hg Hdrop Hlow HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208 Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
  · isplitl [HS0 HRB]
    · isplitl [HS0]; · simp only [owns_whole]; iexact HS0
      iexact HRB
    isplitl [Hg]; · iexact Hg
    isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
    · isplitl [Hq177]; · iexact Hq177
      isplitl [Hq178]; · iexact Hq178
      isplitl [Hq179]; · iexact Hq179
      isplitl [Hq180]; · iexact Hq180
      isplitl [Hq181]; · iexact Hq181
      isplitl [Hq182]; · iexact Hq182
      isplitl [Hq183]; · iexact Hq183
      isplitl [Hq184]; · iexact Hq184
      isplitl [Hq185]; · iexact Hq185
      isplitl [Hq186]; · iexact Hq186
      isplitl [Hq187]; · iexact Hq187
      isplitl [Hq188]; · iexact Hq188
      isplitl [Hq189]; · iexact Hq189
      isplitl [Hq190]; · iexact Hq190
      isplitl [Hq191]; · iexact Hq191
      isplitl [Hq192]; · iexact Hq192
      isplitl [Hq193]; · iexact Hq193
      isplitl [Hq194]; · iexact Hq194
      isplitl [Hq195]; · iexact Hq195
      isplitl [Hq196]; · iexact Hq196
      isplitl [Hq197]; · iexact Hq197
      isplitl [Hq198]; · iexact Hq198
      isplitl [Hq199]; · iexact Hq199
      isplitl [Hq200]; · iexact Hq200
      isplitl [Hq201]; · iexact Hq201
      isplitl [Hq202]; · iexact Hq202
      isplitl [Hq203]; · iexact Hq203
      isplitl [Hq204]; · iexact Hq204
      isplitl [Hq205]; · iexact Hq205
      isplitl [Hq206]; · iexact Hq206
      isplitl [Hq207]; · iexact Hq207
      iexact Hq208
    isplitl [Hdrop Hlow HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
    · iapply (hbSplit6 V c).2
      isplitl [Hdrop HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
      · isplitl [Hdrop]; · iexact Hdrop
        isplitl [HT177]; · iexact HT177
        isplitl [HT178]; · iexact HT178
        isplitl [HT179]; · iexact HT179
        isplitl [HT180]; · iexact HT180
        isplitl [HT181]; · iexact HT181
        isplitl [HT182]; · iexact HT182
        isplitl [HT183]; · iexact HT183
        isplitl [HT184]; · iexact HT184
        isplitl [HT185]; · iexact HT185
        isplitl [HT186]; · iexact HT186
        isplitl [HT187]; · iexact HT187
        isplitl [HT188]; · iexact HT188
        isplitl [HT189]; · iexact HT189
        isplitl [HT190]; · iexact HT190
        isplitl [HT191]; · iexact HT191
        isplitl [HT192]; · iexact HT192
        isplitl [HT193]; · iexact HT193
        isplitl [HT194]; · iexact HT194
        isplitl [HT195]; · iexact HT195
        isplitl [HT196]; · iexact HT196
        isplitl [HT197]; · iexact HT197
        isplitl [HT198]; · iexact HT198
        isplitl [HT199]; · iexact HT199
        isplitl [HT200]; · iexact HT200
        isplitl [HT201]; · iexact HT201
        isplitl [HT202]; · iexact HT202
        isplitl [HT203]; · iexact HT203
        isplitl [HT204]; · iexact HT204
        isplitl [HT205]; · iexact HT205
        isplitl [HT206]; · iexact HT206
        isplitl [HT207]; · iexact HT207
        iexact HT208
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun6 c _ _ _ _ _ _ _ _)

/-- The body obligation of gather pipeline 6, at every point. -/
theorem body_obligationG6 (hH : InRange6 V) (c : Dev nD) :
    BodyObligation (datG6 (F := F) V hH c) (defs₀ (F := F)) Variants.none () Set.univ := fun t => by
  rw [bigSep_W6, bigSep_W6]
  exact sound_bodyG6 V hH c t

end GatherBody6

section GatherLaunch6
variable (V : (c : Dev nD) → (b : Ref sig .tc) → Buf (Elt F) ((c : Thread nD τ).loc b))

/-- The table held through its own elements is the table's buffer held whole. -/
theorem tbPt6_eq (c : Dev nD) (f : HbBuf (F := F) c tbM6) :
    (ptSet c tbM6 fullShare f : sProp 𝕄) = (((c : Thread nD τ).loc main_v54) ↦{fullShare} f) := by
  show ((Memref.whole main_v54 : Memref sig .tc .smem S32x1023 .i32).view.loc (c : Thread nD τ) ↦[(Memref.whole main_v54 : Memref sig .tc .smem S32x1023 .i32).view.set]{fullShare} f) = _
  simp only [View.set_whole, Memref.view_whole]

/-- The launch's prefetched tables at the admitted contents: the one table's buffer held whole. -/
theorem prefHeld6_eq (c : Dev nD) :
    (Pipeline.prefHeld (Ix := Unit) (Name := ℕ) (U := Pipeline.UD sig nD τ) (Lvl := ℕ) pre6 c (fun _ => fullShare) (adm6 (F := F) V).1 : sProp 𝕄)
      = (((c : Thread nD τ).loc main_v54) ↦{fullShare} V c main_v54) := by
  obtain rfl : c = 0 := Subsingleton.elim _ _
  unfold Pipeline.prefHeld adm6
  rw [bigSep_W6]; rfl

/-- The two unscoped buffers the body reads by itself, their points-tos listed. -/
theorem hbmPts6_eq (c : Dev nD) :
    (BI.bigSep H6 (fun b => ((c : Thread nD τ).loc b) ↦{fullShare} V c b) : sProp 𝕄)
      = iprop((((c : Thread nD τ).loc main_arg2) ↦{fullShare} V c main_arg2) ∗ (((c : Thread nD τ).loc main_v54) ↦{fullShare} V c main_v54)) := by
  rw [BI.bigSep_eq_bigSepL_of_eq [main_arg2, main_v54] (by decide) (by decide)]; rfl

end GatherLaunch6

end Cert.Kernel.Hand

end
-- ==== Proof.KernelRun7.lean ====
/-
  The body of gather kernel 7 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM7 : Memref sig .tc .smem S32x1023 .i32 := Memref.whole main_v57

set_option maxHeartbeats 40000000 in
/-- What the body of gather kernel 7 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun7 (c : Dev nD) (i : grid7.Coords) (arg3 : Memref sig .tc .vmem S1x32x8 .f32) (harg3 : arg3.IsWhole)
    (arg4 : Memref sig .tc .vmem S32x8 .f32) (harg4 : arg4.IsWhole)
    (f0 : HbBuf (F := F) c tbM7) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM7 fullShare f0 ∗ (∃ d, owns (c : Thread nD τ) arg3 fullShare d) ∗ (∃ d, owns (c : Thread nD τ) arg4 fullShare d)
            ∗ (tokH c 211 fh ∗ tokH c 212 fh ∗ tokH c 213 fh ∗ tokH c 214 fh ∗ tokH c 215 fh ∗ tokH c 216 fh ∗ tokH c 217 fh ∗ tokH c 218 fh ∗ tokH c 219 fh ∗ tokH c 220 fh ∗ tokH c 221 fh ∗ tokH c 222 fh ∗ tokH c 223 fh ∗ tokH c 224 fh ∗ tokH c 225 fh ∗ tokH c 226 fh ∗ tokH c 227 fh ∗ tokH c 228 fh ∗ tokH c 229 fh ∗ tokH c 230 fh ∗ tokH c 231 fh ∗ tokH c 232 fh ∗ tokH c 233 fh ∗ tokH c 234 fh ∗ tokH c 235 fh ∗ tokH c 236 fh ∗ tokH c 237 fh ∗ tokH c 238 fh ∗ tokH c 239 fh ∗ tokH c 240 fh ∗ tokH c 241 fh ∗ tokH c 242 fh)
            ∗ (semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0)
            ∗ owes (c : Thread nD τ) 0 W
            ∗ (iprop(ptSet c tbM7 fullShare f0 ∗ (∃ f, arg3.view.loc (c : Thread nD τ) ↦[arg3.view.set]{fullShare} arg3.view.writes (Elt F) f L3) ∗ (∃ d, owns (c : Thread nD τ) arg4 fullShare d)
                ∗ (tokH c 211 fh ∗ tokH c 212 fh ∗ tokH c 213 fh ∗ tokH c 214 fh ∗ tokH c 215 fh ∗ tokH c 216 fh ∗ tokH c 217 fh ∗ tokH c 218 fh ∗ tokH c 219 fh ∗ tokH c 220 fh ∗ tokH c 221 fh ∗ tokH c 222 fh ∗ tokH c 223 fh ∗ tokH c 224 fh ∗ tokH c 225 fh ∗ tokH c 226 fh ∗ tokH c 227 fh ∗ tokH c 228 fh ∗ tokH c 229 fh ∗ tokH c 230 fh ∗ tokH c 231 fh ∗ tokH c 232 fh ∗ tokH c 233 fh ∗ tokH c 234 fh ∗ tokH c 235 fh ∗ tokH c 236 fh ∗ tokH c 237 fh ∗ tokH c 238 fh ∗ tokH c 239 fh ∗ tokH c 240 fh ∗ tokH c 241 fh ∗ tokH c 242 fh)
                ∗ (semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0)
                ∗ (∃ W', owes (c : Thread nD τ) 0 W')) -∗ K ⟨⟩))
          ⊢ wp frame (wpE (defs₀ (F := F)) Variants.none c none) Set.univ (cc7__gather_kernel i tbM7 (Memref.isWhole_whole _) hbM (Memref.isWhole_whole _) arg3 harg3 arg4 harg4 cc7_scratch1) K } := by
  refine ⟨?_, fun W K => ?run⟩
  case run =>
    simp only [cc7__gather_kernel_eq_skeleton]; unfold cc7__gather_kernel_skel
    unfold owns
    iintro ⟨H0, ⟨%d1, %f1, -, H1⟩, ⟨%ds0, %fs0, -, HS0⟩, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
    · isplitl [HT211]; · iexact HT211
      isplitl [HT212]; · iexact HT212
      isplitl [HT213]; · iexact HT213
      isplitl [HT214]; · iexact HT214
      isplitl [HT215]; · iexact HT215
      isplitl [HT216]; · iexact HT216
      isplitl [HT217]; · iexact HT217
      isplitl [HT218]; · iexact HT218
      isplitl [HT219]; · iexact HT219
      isplitl [HT220]; · iexact HT220
      isplitl [HT221]; · iexact HT221
      isplitl [HT222]; · iexact HT222
      isplitl [HT223]; · iexact HT223
      isplitl [HT224]; · iexact HT224
      isplitl [HT225]; · iexact HT225
      isplitl [HT226]; · iexact HT226
      isplitl [HT227]; · iexact HT227
      isplitl [HT228]; · iexact HT228
      isplitl [HT229]; · iexact HT229
      isplitl [HT230]; · iexact HT230
      isplitl [HT231]; · iexact HT231
      isplitl [HT232]; · iexact HT232
      isplitl [HT233]; · iexact HT233
      isplitl [HT234]; · iexact HT234
      isplitl [HT235]; · iexact HT235
      isplitl [HT236]; · iexact HT236
      isplitl [HT237]; · iexact HT237
      isplitl [HT238]; · iexact HT238
      isplitl [HT239]; · iexact HT239
      isplitl [HT240]; · iexact HT240
      isplitl [HT241]; · iexact HT241
      iexact HT242
    isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
    · isplitl [Hq211]; · iexact Hq211
      isplitl [Hq212]; · iexact Hq212
      isplitl [Hq213]; · iexact Hq213
      isplitl [Hq214]; · iexact Hq214
      isplitl [Hq215]; · iexact Hq215
      isplitl [Hq216]; · iexact Hq216
      isplitl [Hq217]; · iexact Hq217
      isplitl [Hq218]; · iexact Hq218
      isplitl [Hq219]; · iexact Hq219
      isplitl [Hq220]; · iexact Hq220
      isplitl [Hq221]; · iexact Hq221
      isplitl [Hq222]; · iexact Hq222
      isplitl [Hq223]; · iexact Hq223
      isplitl [Hq224]; · iexact Hq224
      isplitl [Hq225]; · iexact Hq225
      isplitl [Hq226]; · iexact Hq226
      isplitl [Hq227]; · iexact Hq227
      isplitl [Hq228]; · iexact Hq228
      isplitl [Hq229]; · iexact Hq229
      isplitl [Hq230]; · iexact Hq230
      isplitl [Hq231]; · iexact Hq231
      isplitl [Hq232]; · iexact Hq232
      isplitl [Hq233]; · iexact Hq233
      isplitl [Hq234]; · iexact Hq234
      isplitl [Hq235]; · iexact Hq235
      isplitl [Hq236]; · iexact Hq236
      isplitl [Hq237]; · iexact Hq237
      isplitl [Hq238]; · iexact Hq238
      isplitl [Hq239]; · iexact Hq239
      isplitl [Hq240]; · iexact Hq240
      isplitl [Hq241]; · iexact Hq241
      iexact Hq242
    iexists _; iexact HW

/-- The run's pieces for the output block tile it (its one store writes the whole block), so they cover it. -/
theorem coverRun7 (c : Dev nD) (i : grid7.Coords) (arg3 : Memref sig .tc .vmem S1x32x8 .f32) (harg3 : arg3.IsWhole)
    (arg4 : Memref sig .tc .vmem S32x8 .f32) (harg4 : arg4.IsWhole)
    (f0 : HbBuf (F := F) c tbM7) (hall : ∀ j, (f0 j).toNat < 8388608) (fh : HbBuf (F := F) c hbM) (y : S1x32x8.Idx) :
    ∃ pc ∈ (kernelRun7 c i arg3 harg3 arg4 harg4 f0 hall fh).1, y ∈ pc.1.set :=
  View.cover_of_tiledL (kernelRun7 c i arg3 harg3 arg4 harg4 f0 hall fh).1 S1x32x8.size (by sl_kernel_rfl) y

end Cert.Kernel.Hand

end
-- ==== Proof.KernelGather7.lean ====
/-
  Gather kernel 7 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun7

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 7: its region, over the contents `V` it is entered with -/

section Gather7
variable (V : (c : Dev nD) → (b : Ref sig .tc) → Buf (Elt F) ((c : Thread nD τ).loc b))

/-- The row-index table of this launch as the region finds it. The pipeline asks nothing of a table (its windows' index
    maps do not read it), so every table is admissible. -/
def adm7 : (pcfg7 (F := F)).Adm := ⟨fun | ⟨0, _⟩ => V 0 main_v57 | ⟨_ + 1, h⟩ => absurd h (Nat.not_lt.2 (Nat.le_add_left _ _)), trivial⟩

/-- Every word of the table names a row of the weight array. -/
def InRange7 : Prop := ∀ (c : Dev nD) j, ((V c main_v57) j).toNat < 8388608

abbrev pcfgG7 : Pipeline.Cfg sig Λ₀ := cfg7 (adm7 (F := F) V)

/-- The output window's current staging buffer at point `t`, as the pipeline passes it to the body. -/
abbrev ms7 (t : Fin (pcfgG7 (F := F) V).N) : Memref sig .tc .vmem S1x32x8 .f32 := spec7_0.stage ((pcfgG7 (F := F) V).slots t 0)
abbrev hs7 (t : Fin (pcfgG7 (F := F) V).N) : (ms7 V t).IsWhole := hstage7_0 (((pcfgG7 (F := F) V).slots t 0).cast nbuf7_0)
/-- The kernel's scratch block, a whole scoped buffer of its own. -/
abbrev scM7 : Memref sig .tc .vmem S32x8 .f32 := Memref.whole cc7_scratch0
/-- One staging buffer of the output window, through which its contents are stated. -/
abbrev VO7 : View sig .tc .vmem S1x32x8 .f32 := (Memref.whole cc7_stg0_0 : Memref sig .tc .vmem S1x32x8 .f32).view

/-- The kernel's own DMA semaphores, one per route. -/
abbrev osem7 : Fin 32 → SemLoc sig := fun j => (![SemLoc.dma 211, SemLoc.dma 212, SemLoc.dma 213, SemLoc.dma 214, SemLoc.dma 215, SemLoc.dma 216, SemLoc.dma 217, SemLoc.dma 218, SemLoc.dma 219, SemLoc.dma 220, SemLoc.dma 221, SemLoc.dma 222, SemLoc.dma 223, SemLoc.dma 224, SemLoc.dma 225, SemLoc.dma 226, SemLoc.dma 227, SemLoc.dma 228, SemLoc.dma 229, SemLoc.dma 230, SemLoc.dma 231, SemLoc.dma 232, SemLoc.dma 233, SemLoc.dma 234, SemLoc.dma 235, SemLoc.dma 236, SemLoc.dma 237, SemLoc.dma 238, SemLoc.dma 239, SemLoc.dma 240, SemLoc.dma 241, SemLoc.dma 242] : Fin 32 → SemLoc sig) j
theorem ownSemFacts7 : Pipeline.OwnSemFacts spec7 osem7 := by decide
theorem ownSems07_eq (c : Dev nD) :
    (Pipeline.ownSems0 (Ix := Unit) (Name := ℕ) (U := Pipeline.UD sig nD τ) (Lvl := ℕ) (Val := Elt F) (τ := τ) osem7 c : sProp 𝕄)
      = iprop(semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0) := by
  rw [Pipeline.ownSems0_eq_of_list c osem7 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H7 : Finset (Ref sig .tc) := {main_arg2, main_v57}
theorem H7_sub : H7 ⊆ Pipeline.restRefs sig spec7 := by decide

/-- What the output block holds after the body at point `t`: the run's pieces read back. -/
def outsAt7 (hH : InRange7 V) (c : Dev nD) (t : Fin (pcfgG7 (F := F) V).N) : Vec F S1x32x8 .f32 :=
  (VO7).read (Elt F) ((VO7).writes (Elt F) (VO7).junk
    (kernelRun7 c (grid7.coords t) (ms7 V t) (hs7 V t) scM7 (Memref.isWhole_whole _) (V c main_v57) (hH c) (V c main_arg2)).1)

/-- The region's invariant: the scoped buffers no window stages (the scratch block among them), the generator register,
    the kernel's DMA semaphores at zero, the weight array and the table whole at their entry contents. -/
def ΦG7 (c : Dev nD) : sProp 𝕄 :=
  iprop(Pipeline.scopedRest (Ix := Unit) (Name := ℕ) (U := Pipeline.UD sig nD τ) (Lvl := ℕ) (Val := Elt F) spec7 c ∗ (∃ r, prngReg c r)
    ∗ Pipeline.ownSems0 (Ix := Unit) (Name := ℕ) (U := Pipeline.UD sig nD τ) (Lvl := ℕ) (Val := Elt F) (τ := τ) osem7 c
    ∗ (((c : Thread nD τ).loc main_arg2) ↦{fullShare} V c main_arg2)
    ∗ ptSet c tbM7 fullShare (V c main_v57))

/-- The proof data of gather pipeline 7 on core `c`. -/
def datG7 (hH : InRange7 V) (c : Dev nD) : Dat τ (Elt F) Unit ℕ (Pipeline.UD sig nD τ) ℕ (pcfgG7 (F := F) V) c where
  A w := V c (Pipeline.arrRef spec7 w)
  after w t := match w with
    | ⟨0, _⟩ => outsAt7 V hH c t
  Φ _ := ΦG7 V c
  q _ := fullShare
  owed _ := 0

theorem afterG7 (hH : InRange7 V) (c : Dev nD) (t) : (datG7 V hH c).after 0 t = outsAt7 V hH c t := by dsimp only [datG7]; rfl

end Gather7

section GatherBody7
variable (V : (c : Dev nD) → (b : Ref sig .tc) → Buf (Elt F) ((c : Thread nD τ).loc b))

open Idealize.ShloMosaic.Transfers in
/-- The weight array at the full share, as the read shares the thirty-two copies take and what is left beside them. -/
theorem hbSplit7 (c : Dev nD) :
    ((((c : Thread nD τ).loc main_arg2) ↦{fullShare} V c main_arg2) : sProp 𝕄)
      ⊣⊢ iprop((((((c : Thread nD τ).loc main_arg2) ↦{shareDrop fullShare (211 + 32)} V c main_arg2)) ∗ (tokH c 211 (V c main_arg2) ∗ tokH c 212 (V c main_arg2) ∗ tokH c 213 (V c main_arg2) ∗ tokH c 214 (V c main_arg2) ∗ tokH c 215 (V c main_arg2) ∗ tokH c 216 (V c main_arg2) ∗ tokH c 217 (V c main_arg2) ∗ tokH c 218 (V c main_arg2) ∗ tokH c 219 (V c main_arg2) ∗ tokH c 220 (V c main_arg2) ∗ tokH c 221 (V c main_arg2) ∗ tokH c 222 (V c main_arg2) ∗ tokH c 223 (V c main_arg2) ∗ tokH c 224 (V c main_arg2) ∗ tokH c 225 (V c main_arg2) ∗ tokH c 226 (V c main_arg2) ∗ tokH c 227 (V c main_arg2) ∗ tokH c 228 (V c main_arg2) ∗ tokH c 229 (V c main_arg2) ∗ tokH c 230 (V c main_arg2) ∗ tokH c 231 (V c main_arg2) ∗ tokH c 232 (V c main_arg2) ∗ tokH c 233 (V c main_arg2) ∗ tokH c 234 (V c main_arg2) ∗ tokH c 235 (V c main_arg2) ∗ tokH c 236 (V c main_arg2) ∗ tokH c 237 (V c main_arg2) ∗ tokH c 238 (V c main_arg2) ∗ tokH c 239 (V c main_arg2) ∗ tokH c 240 (V c main_arg2) ∗ tokH c 241 (V c main_arg2) ∗ tokH c 242 (V c main_arg2)))
        ∗ BI.bigSep (Finset.range 211) (fun i => ((((c : Thread nD τ).loc main_arg2) ↦{shareTokN fullShare i} V c main_arg2) : sProp 𝕄))) :=
  toks32 (F := F) 211

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG7 (hH : InRange7 V) (c : Dev nD) (t : Fin (pcfgG7 (F := F) V).N) :
    iprop((datG7 V hH c).Φ t.castSucc ∗ (datG7 V hH c).owesAt () t.castSucc
        ∗ (∃ d, owns (c : Thread nD τ) (ms7 V t) fullShare ((datG7 V hH c).before 0 t d)))
      ⊢ wp frame (wpE (defs₀ (F := F)) Variants.none c none) Set.univ
          (cc7__gather_kernel (grid7.coords t) tbM7 (Memref.isWhole_whole _) hbM (Memref.isWhole_whole _) (ms7 V t) (hs7 V t) scM7 (Memref.isWhole_whole _) cc7_scratch1)
          (fun _ => iprop((datG7 V hH c).Φ t.succ ∗ (datG7 V hH c).owesAt () t.succ
            ∗ owns (c : Thread nD τ) (ms7 V t) fullShare ((datG7 V hH c).after 0 t))) := by
  rw [show (datG7 V hH c).Φ t.succ = ΦG7 V c from rfl, show (datG7 V hH c).Φ t.castSucc = ΦG7 V c from rfl, afterG7]
  unfold ΦG7
  rw [scopedRest7_split, ownSems07_eq]
  unfold Dat.owesAt Pipeline.owesWithin
  rw [show (datG7 V hH c).owed t.castSucc = 0 from rfl, show (datG7 V hH c).owed t.succ = 0 from rfl]
  unfold outsAt7
  iintro ⟨⟨⟨HS0, HRB⟩, Hg, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, Hh, Ht⟩, ⟨%W, -, HW⟩, ⟨%d1, H1⟩⟩
  ihave Hh2 := (hbSplit7 V c).1 $$ Hh
  icases Hh2 with ⟨⟨Hdrop, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩⟩, Hlow⟩
  iapply ((kernelRun7 c (grid7.coords t) (ms7 V t) (hs7 V t) scM7 (Memref.isWhole_whole _) (V c main_v57) (hH c) (V c main_arg2)).2 W _)
  isplitl [Ht]; · iexact Ht
  isplitl [H1]; · iexists _; iexact H1
  isplitl [HS0]; · simp only [owns_whole]; iexact HS0
  isplitl [HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
  · isplitl [HT211]; · iexact HT211
    isplitl [HT212]; · iexact HT212
    isplitl [HT213]; · iexact HT213
    isplitl [HT214]; · iexact HT214
    isplitl [HT215]; · iexact HT215
    isplitl [HT216]; · iexact HT216
    isplitl [HT217]; · iexact HT217
    isplitl [HT218]; · iexact HT218
    isplitl [HT219]; · iexact HT219
    isplitl [HT220]; · iexact HT220
    isplitl [HT221]; · iexact HT221
    isplitl [HT222]; · iexact HT222
    isplitl [HT223]; · iexact HT223
    isplitl [HT224]; · iexact HT224
    isplitl [HT225]; · iexact HT225
    isplitl [HT226]; · iexact HT226
    isplitl [HT227]; · iexact HT227
    isplitl [HT228]; · iexact HT228
    isplitl [HT229]; · iexact HT229
    isplitl [HT230]; · iexact HT230
    isplitl [HT231]; · iexact HT231
    isplitl [HT232]; · iexact HT232
    isplitl [HT233]; · iexact HT233
    isplitl [HT234]; · iexact HT234
    isplitl [HT235]; · iexact HT235
    isplitl [HT236]; · iexact HT236
    isplitl [HT237]; · iexact HT237
    isplitl [HT238]; · iexact HT238
    isplitl [HT239]; · iexact HT239
    isplitl [HT240]; · iexact HT240
    isplitl [HT241]; · iexact HT241
    iexact HT242
  isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
  · isplitl [Hq211]; · iexact Hq211
    isplitl [Hq212]; · iexact Hq212
    isplitl [Hq213]; · iexact Hq213
    isplitl [Hq214]; · iexact Hq214
    isplitl [Hq215]; · iexact Hq215
    isplitl [Hq216]; · iexact Hq216
    isplitl [Hq217]; · iexact Hq217
    isplitl [Hq218]; · iexact Hq218
    isplitl [Hq219]; · iexact Hq219
    isplitl [Hq220]; · iexact Hq220
    isplitl [Hq221]; · iexact Hq221
    isplitl [Hq222]; · iexact Hq222
    isplitl [Hq223]; · iexact Hq223
    isplitl [Hq224]; · iexact Hq224
    isplitl [Hq225]; · iexact Hq225
    isplitl [Hq226]; · iexact Hq226
    isplitl [Hq227]; · iexact Hq227
    isplitl [Hq228]; · iexact Hq228
    isplitl [Hq229]; · iexact Hq229
    isplitl [Hq230]; · iexact Hq230
    isplitl [Hq231]; · iexact Hq231
    isplitl [Hq232]; · iexact Hq232
    isplitl [Hq233]; · iexact Hq233
    isplitl [Hq234]; · iexact Hq234
    isplitl [Hq235]; · iexact Hq235
    isplitl [Hq236]; · iexact Hq236
    isplitl [Hq237]; · iexact Hq237
    isplitl [Hq238]; · iexact Hq238
    isplitl [Hq239]; · iexact Hq239
    isplitl [Hq240]; · iexact Hq240
    isplitl [Hq241]; · iexact Hq241
    iexact Hq242
  isplitl [HW]; · iexact HW
  iintro ⟨Ht, ⟨%e1, H1⟩, HS0, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, ⟨%W', HW'⟩⟩
  isplitl [Ht HS0 HRB Hg Hdrop Hlow HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242 Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
  · isplitl [HS0 HRB]
    · isplitl [HS0]; · simp only [owns_whole]; iexact HS0
      iexact HRB
    isplitl [Hg]; · iexact Hg
    isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
    · isplitl [Hq211]; · iexact Hq211
      isplitl [Hq212]; · iexact Hq212
      isplitl [Hq213]; · iexact Hq213
      isplitl [Hq214]; · iexact Hq214
      isplitl [Hq215]; · iexact Hq215
      isplitl [Hq216]; · iexact Hq216
      isplitl [Hq217]; · iexact Hq217
      isplitl [Hq218]; · iexact Hq218
      isplitl [Hq219]; · iexact Hq219
      isplitl [Hq220]; · iexact Hq220
      isplitl [Hq221]; · iexact Hq221
      isplitl [Hq222]; · iexact Hq222
      isplitl [Hq223]; · iexact Hq223
      isplitl [Hq224]; · iexact Hq224
      isplitl [Hq225]; · iexact Hq225
      isplitl [Hq226]; · iexact Hq226
      isplitl [Hq227]; · iexact Hq227
      isplitl [Hq228]; · iexact Hq228
      isplitl [Hq229]; · iexact Hq229
      isplitl [Hq230]; · iexact Hq230
      isplitl [Hq231]; · iexact Hq231
      isplitl [Hq232]; · iexact Hq232
      isplitl [Hq233]; · iexact Hq233
      isplitl [Hq234]; · iexact Hq234
      isplitl [Hq235]; · iexact Hq235
      isplitl [Hq236]; · iexact Hq236
      isplitl [Hq237]; · iexact Hq237
      isplitl [Hq238]; · iexact Hq238
      isplitl [Hq239]; · iexact Hq239
      isplitl [Hq240]; · iexact Hq240
      isplitl [Hq241]; · iexact Hq241
      iexact Hq242
    isplitl [Hdrop Hlow HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
    · iapply (hbSplit7 V c).2
      isplitl [Hdrop HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
      · isplitl [Hdrop]; · iexact Hdrop
        isplitl [HT211]; · iexact HT211
        isplitl [HT212]; · iexact HT212
        isplitl [HT213]; · iexact HT213
        isplitl [HT214]; · iexact HT214
        isplitl [HT215]; · iexact HT215
        isplitl [HT216]; · iexact HT216
        isplitl [HT217]; · iexact HT217
        isplitl [HT218]; · iexact HT218
        isplitl [HT219]; · iexact HT219
        isplitl [HT220]; · iexact HT220
        isplitl [HT221]; · iexact HT221
        isplitl [HT222]; · iexact HT222
        isplitl [HT223]; · iexact HT223
        isplitl [HT224]; · iexact HT224
        isplitl [HT225]; · iexact HT225
        isplitl [HT226]; · iexact HT226
        isplitl [HT227]; · iexact HT227
        isplitl [HT228]; · iexact HT228
        isplitl [HT229]; · iexact HT229
        isplitl [HT230]; · iexact HT230
        isplitl [HT231]; · iexact HT231
        isplitl [HT232]; · iexact HT232
        isplitl [HT233]; · iexact HT233
        isplitl [HT234]; · iexact HT234
        isplitl [HT235]; · iexact HT235
        isplitl [HT236]; · iexact HT236
        isplitl [HT237]; · iexact HT237
        isplitl [HT238]; · iexact HT238
        isplitl [HT239]; · iexact HT239
        isplitl [HT240]; · iexact HT240
        isplitl [HT241]; · iexact HT241
        iexact HT242
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun7 c _ _ _ _ _ _ _ _)

/-- The body obligation of gather pipeline 7, at every point. -/
theorem body_obligationG7 (hH : InRange7 V) (c : Dev nD) :
    BodyObligation (datG7 (F := F) V hH c) (defs₀ (F := F)) Variants.none () Set.univ := fun t => by
  rw [bigSep_W7, bigSep_W7]
  exact sound_bodyG7 V hH c t

end GatherBody7

section GatherLaunch7
variable (V : (c : Dev nD) → (b : Ref sig .tc) → Buf (Elt F) ((c : Thread nD τ).loc b))

/-- The table held through its own elements is the table's buffer held whole. -/
theorem tbPt7_eq (c : Dev nD) (f : HbBuf (F := F) c tbM7) :
    (ptSet c tbM7 fullShare f : sProp 𝕄) = (((c : Thread nD τ).loc main_v57) ↦{fullShare} f) := by
  show ((Memref.whole main_v57 : Memref sig .tc .smem S32x1023 .i32).view.loc (c : Thread nD τ) ↦[(Memref.whole main_v57 : Memref sig .tc .smem S32x1023 .i32).view.set]{fullShare} f) = _
  simp only [View.set_whole, Memref.view_whole]

/-- The launch's prefetched tables at the admitted contents: the one table's buffer held whole. -/
theorem prefHeld7_eq (c : Dev nD) :
    (Pipeline.prefHeld (Ix := Unit) (Name := ℕ) (U := Pipeline.UD sig nD τ) (Lvl := ℕ) pre7 c (fun _ => fullShare) (adm7 (F := F) V).1 : sProp 𝕄)
      = (((c : Thread nD τ).loc main_v57) ↦{fullShare} V c main_v57) := by
  obtain rfl : c = 0 := Subsingleton.elim _ _
  unfold Pipeline.prefHeld adm7
  rw [bigSep_W7]; rfl

/-- The two unscoped buffers the body reads by itself, their points-tos listed. -/
theorem hbmPts7_eq (c : Dev nD) :
    (BI.bigSep H7 (fun b => ((c : Thread nD τ).loc b) ↦{fullShare} V c b) : sProp 𝕄)
      = iprop((((c : Thread nD τ).loc main_arg2) ↦{fullShare} V c main_arg2) ∗ (((c : Thread nD τ).loc main_v57) ↦{fullShare} V c main_v57)) := by
  rw [BI.bigSep_eq_bigSepL_of_eq [main_arg2, main_v57] (by decide) (by decide)]; rfl

end GatherLaunch7

end Cert.Kernel.Hand

end
-- ==== Proof.KernelRun8.lean ====
/-
  The body of gather kernel 8 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM8 : Memref sig .tc .smem S32x1023 .i32 := Memref.whole main_v60

set_option maxHeartbeats 40000000 in
/-- What the body of gather kernel 8 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun8 (c : Dev nD) (i : grid8.Coords) (arg3 : Memref sig .tc .vmem S1x32x8 .f32) (harg3 : arg3.IsWhole)
    (arg4 : Memref sig .tc .vmem S32x8 .f32) (harg4 : arg4.IsWhole)
    (f0 : HbBuf (F := F) c tbM8) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM8 fullShare f0 ∗ (∃ d, owns (c : Thread nD τ) arg3 fullShare d) ∗ (∃ d, owns (c : Thread nD τ) arg4 fullShare d)
            ∗ (tokH c 245 fh ∗ tokH c 246 fh ∗ tokH c 247 fh ∗ tokH c 248 fh ∗ tokH c 249 fh ∗ tokH c 250 fh ∗ tokH c 251 fh ∗ tokH c 252 fh ∗ tokH c 253 fh ∗ tokH c 254 fh ∗ tokH c 255 fh ∗ tokH c 256 fh ∗ tokH c 257 fh ∗ tokH c 258 fh ∗ tokH c 259 fh ∗ tokH c 260 fh ∗ tokH c 261 fh ∗ tokH c 262 fh ∗ tokH c 263 fh ∗ tokH c 264 fh ∗ tokH c 265 fh ∗ tokH c 266 fh ∗ tokH c 267 fh ∗ tokH c 268 fh ∗ tokH c 269 fh ∗ tokH c 270 fh ∗ tokH c 271 fh ∗ tokH c 272 fh ∗ tokH c 273 fh ∗ tokH c 274 fh ∗ tokH c 275 fh ∗ tokH c 276 fh)
            ∗ (semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0)
            ∗ owes (c : Thread nD τ) 0 W
            ∗ (iprop(ptSet c tbM8 fullShare f0 ∗ (∃ f, arg3.view.loc (c : Thread nD τ) ↦[arg3.view.set]{fullShare} arg3.view.writes (Elt F) f L3) ∗ (∃ d, owns (c : Thread nD τ) arg4 fullShare d)
                ∗ (tokH c 245 fh ∗ tokH c 246 fh ∗ tokH c 247 fh ∗ tokH c 248 fh ∗ tokH c 249 fh ∗ tokH c 250 fh ∗ tokH c 251 fh ∗ tokH c 252 fh ∗ tokH c 253 fh ∗ tokH c 254 fh ∗ tokH c 255 fh ∗ tokH c 256 fh ∗ tokH c 257 fh ∗ tokH c 258 fh ∗ tokH c 259 fh ∗ tokH c 260 fh ∗ tokH c 261 fh ∗ tokH c 262 fh ∗ tokH c 263 fh ∗ tokH c 264 fh ∗ tokH c 265 fh ∗ tokH c 266 fh ∗ tokH c 267 fh ∗ tokH c 268 fh ∗ tokH c 269 fh ∗ tokH c 270 fh ∗ tokH c 271 fh ∗ tokH c 272 fh ∗ tokH c 273 fh ∗ tokH c 274 fh ∗ tokH c 275 fh ∗ tokH c 276 fh)
                ∗ (semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0)
                ∗ (∃ W', owes (c : Thread nD τ) 0 W')) -∗ K ⟨⟩))
          ⊢ wp frame (wpE (defs₀ (F := F)) Variants.none c none) Set.univ (cc8__gather_kernel i tbM8 (Memref.isWhole_whole _) hbM (Memref.isWhole_whole _) arg3 harg3 arg4 harg4 cc8_scratch1) K } := by
  refine ⟨?_, fun W K => ?run⟩
  case run =>
    simp only [cc8__gather_kernel_eq_skeleton]; unfold cc8__gather_kernel_skel
    unfold owns
    iintro ⟨H0, ⟨%d1, %f1, -, H1⟩, ⟨%ds0, %fs0, -, HS0⟩, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
    · isplitl [HT245]; · iexact HT245
      isplitl [HT246]; · iexact HT246
      isplitl [HT247]; · iexact HT247
      isplitl [HT248]; · iexact HT248
      isplitl [HT249]; · iexact HT249
      isplitl [HT250]; · iexact HT250
      isplitl [HT251]; · iexact HT251
      isplitl [HT252]; · iexact HT252
      isplitl [HT253]; · iexact HT253
      isplitl [HT254]; · iexact HT254
      isplitl [HT255]; · iexact HT255
      isplitl [HT256]; · iexact HT256
      isplitl [HT257]; · iexact HT257
      isplitl [HT258]; · iexact HT258
      isplitl [HT259]; · iexact HT259
      isplitl [HT260]; · iexact HT260
      isplitl [HT261]; · iexact HT261
      isplitl [HT262]; · iexact HT262
      isplitl [HT263]; · iexact HT263
      isplitl [HT264]; · iexact HT264
      isplitl [HT265]; · iexact HT265
      isplitl [HT266]; · iexact HT266
      isplitl [HT267]; · iexact HT267
      isplitl [HT268]; · iexact HT268
      isplitl [HT269]; · iexact HT269
      isplitl [HT270]; · iexact HT270
      isplitl [HT271]; · iexact HT271
      isplitl [HT272]; · iexact HT272
      isplitl [HT273]; · iexact HT273
      isplitl [HT274]; · iexact HT274
      isplitl [HT275]; · iexact HT275
      iexact HT276
    isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
    · isplitl [Hq245]; · iexact Hq245
      isplitl [Hq246]; · iexact Hq246
      isplitl [Hq247]; · iexact Hq247
      isplitl [Hq248]; · iexact Hq248
      isplitl [Hq249]; · iexact Hq249
      isplitl [Hq250]; · iexact Hq250
      isplitl [Hq251]; · iexact Hq251
      isplitl [Hq252]; · iexact Hq252
      isplitl [Hq253]; · iexact Hq253
      isplitl [Hq254]; · iexact Hq254
      isplitl [Hq255]; · iexact Hq255
      isplitl [Hq256]; · iexact Hq256
      isplitl [Hq257]; · iexact Hq257
      isplitl [Hq258]; · iexact Hq258
      isplitl [Hq259]; · iexact Hq259
      isplitl [Hq260]; · iexact Hq260
      isplitl [Hq261]; · iexact Hq261
      isplitl [Hq262]; · iexact Hq262
      isplitl [Hq263]; · iexact Hq263
      isplitl [Hq264]; · iexact Hq264
      isplitl [Hq265]; · iexact Hq265
      isplitl [Hq266]; · iexact Hq266
      isplitl [Hq267]; · iexact Hq267
      isplitl [Hq268]; · iexact Hq268
      isplitl [Hq269]; · iexact Hq269
      isplitl [Hq270]; · iexact Hq270
      isplitl [Hq271]; · iexact Hq271
      isplitl [Hq272]; · iexact Hq272
      isplitl [Hq273]; · iexact Hq273
      isplitl [Hq274]; · iexact Hq274
      isplitl [Hq275]; · iexact Hq275
      iexact Hq276
    iexists _; iexact HW

/-- The run's pieces for the output block tile it (its one store writes the whole block), so they cover it. -/
theorem coverRun8 (c : Dev nD) (i : grid8.Coords) (arg3 : Memref sig .tc .vmem S1x32x8 .f32) (harg3 : arg3.IsWhole)
    (arg4 : Memref sig .tc .vmem S32x8 .f32) (harg4 : arg4.IsWhole)
    (f0 : HbBuf (F := F) c tbM8) (hall : ∀ j, (f0 j).toNat < 8388608) (fh : HbBuf (F := F) c hbM) (y : S1x32x8.Idx) :
    ∃ pc ∈ (kernelRun8 c i arg3 harg3 arg4 harg4 f0 hall fh).1, y ∈ pc.1.set :=
  View.cover_of_tiledL (kernelRun8 c i arg3 harg3 arg4 harg4 f0 hall fh).1 S1x32x8.size (by sl_kernel_rfl) y

end Cert.Kernel.Hand

end
-- ==== Proof.KernelGather8.lean ====
/-
  Gather kernel 8 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.KernelCommon
import proofs.«145402_j1717986918579_1_alg».proof.Proof.KernelRun8

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 8: its region, over the contents `V` it is entered with -/

section Gather8
variable (V : (c : Dev nD) → (b : Ref sig .tc) → Buf (Elt F) ((c : Thread nD τ).loc b))

/-- The row-index table of this launch as the region finds it. The pipeline asks nothing of a table (its windows' index
    maps do not read it), so every table is admissible. -/
def adm8 : (pcfg8 (F := F)).Adm := ⟨fun | ⟨0, _⟩ => V 0 main_v60 | ⟨_ + 1, h⟩ => absurd h (Nat.not_lt.2 (Nat.le_add_left _ _)), trivial⟩

/-- Every word of the table names a row of the weight array. -/
def InRange8 : Prop := ∀ (c : Dev nD) j, ((V c main_v60) j).toNat < 8388608

abbrev pcfgG8 : Pipeline.Cfg sig Λ₀ := cfg8 (adm8 (F := F) V)

/-- The output window's current staging buffer at point `t`, as the pipeline passes it to the body. -/
abbrev ms8 (t : Fin (pcfgG8 (F := F) V).N) : Memref sig .tc .vmem S1x32x8 .f32 := spec8_0.stage ((pcfgG8 (F := F) V).slots t 0)
abbrev hs8 (t : Fin (pcfgG8 (F := F) V).N) : (ms8 V t).IsWhole := hstage8_0 (((pcfgG8 (F := F) V).slots t 0).cast nbuf8_0)
/-- The kernel's scratch block, a whole scoped buffer of its own. -/
abbrev scM8 : Memref sig .tc .vmem S32x8 .f32 := Memref.whole cc8_scratch0
/-- One staging buffer of the output window, through which its contents are stated. -/
abbrev VO8 : View sig .tc .vmem S1x32x8 .f32 := (Memref.whole cc8_stg0_0 : Memref sig .tc .vmem S1x32x8 .f32).view

/-- The kernel's own DMA semaphores, one per route. -/
abbrev osem8 : Fin 32 → SemLoc sig := fun j => (![SemLoc.dma 245, SemLoc.dma 246, SemLoc.dma 247, SemLoc.dma 248, SemLoc.dma 249, SemLoc.dma 250, SemLoc.dma 251, SemLoc.dma 252, SemLoc.dma 253, SemLoc.dma 254, SemLoc.dma 255, SemLoc.dma 256, SemLoc.dma 257, SemLoc.dma 258, SemLoc.dma 259, SemLoc.dma 260, SemLoc.dma 261, SemLoc.dma 262, SemLoc.dma 263, SemLoc.dma 264, SemLoc.dma 265, SemLoc.dma 266, SemLoc.dma 267, SemLoc.dma 268, SemLoc.dma 269, SemLoc.dma 270, SemLoc.dma 271, SemLoc.dma 272, SemLoc.dma 273, SemLoc.dma 274, SemLoc.dma 275, SemLoc.dma 276] : Fin 32 → SemLoc sig) j
theorem ownSemFacts8 : Pipeline.OwnSemFacts spec8 osem8 := by decide
theorem ownSems08_eq (c : Dev nD) :
    (Pipeline.ownSems0 (Ix := Unit) (Name := ℕ) (U := Pipeline.UD sig nD τ) (Lvl := ℕ) (Val := Elt F) (τ := τ) osem8 c : sProp 𝕄)
      = iprop(semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0) := by
  rw [Pipeline.ownSems0_eq_of_list c osem8 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H8 : Finset (Ref sig .tc) := {main_arg2, main_v60}
theorem H8_sub : H8 ⊆ Pipeline.restRefs sig spec8 := by decide

/-- What the output block holds after the body at point `t`: the run's pieces read back. -/
def outsAt8 (hH : InRange8 V) (c : Dev nD) (t : Fin (pcfgG8 (F := F) V).N) : Vec F S1x32x8 .f32 :=
  (VO8).read (Elt F) ((VO8).writes (Elt F) (VO8).junk
    (kernelRun8 c (grid8.coords t) (ms8 V t) (hs8 V t) scM8 (Memref.isWhole_whole _) (V c main_v60) (hH c) (V c main_arg2)).1)

/-- The region's invariant: the scoped buffers no window stages (the scratch block among them), the generator register,
    the kernel's DMA semaphores at zero, the weight array and the table whole at their entry contents. -/
def ΦG8 (c : Dev nD) : sProp 𝕄 :=
  iprop(Pipeline.scopedRest (Ix := Unit) (Name := ℕ) (U := Pipeline.UD sig nD τ) (Lvl := ℕ) (Val := Elt F) spec8 c ∗ (∃ r, prngReg c r)
    ∗ Pipeline.ownSems0 (Ix := Unit) (Name := ℕ) (U := Pipeline.UD sig nD τ) (Lvl := ℕ) (Val := Elt F) (τ := τ) osem8 c
    ∗ (((c : Thread nD τ).loc main_arg2) ↦{fullShare} V c main_arg2)
    ∗ ptSet c tbM8 fullShare (V c main_v60))

/-- The proof data of gather pipeline 8 on core `c`. -/
def datG8 (hH : InRange8 V) (c : Dev nD) : Dat τ (Elt F) Unit ℕ (Pipeline.UD sig nD τ) ℕ (pcfgG8 (F := F) V) c where
  A w := V c (Pipeline.arrRef spec8 w)
  after w t := match w with
    | ⟨0, _⟩ => outsAt8 V hH c t
  Φ _ := ΦG8 V c
  q _ := fullShare
  owed _ := 0

theorem afterG8 (hH : InRange8 V) (c : Dev nD) (t) : (datG8 V hH c).after 0 t = outsAt8 V hH c t := by dsimp only [datG8]; rfl

end Gather8

section GatherBody8
variable (V : (c : Dev nD) → (b : Ref sig .tc) → Buf (Elt F) ((c : Thread nD τ).loc b))

open Idealize.ShloMosaic.Transfers in
/-- The weight array at the full share, as the read shares the thirty-two copies take and what is left beside them. -/
theorem hbSplit8 (c : Dev nD) :
    ((((c : Thread nD τ).loc main_arg2) ↦{fullShare} V c main_arg2) : sProp 𝕄)
      ⊣⊢ iprop((((((c : Thread nD τ).loc main_arg2) ↦{shareDrop fullShare (245 + 32)} V c main_arg2)) ∗ (tokH c 245 (V c main_arg2) ∗ tokH c 246 (V c main_arg2) ∗ tokH c 247 (V c main_arg2) ∗ tokH c 248 (V c main_arg2) ∗ tokH c 249 (V c main_arg2) ∗ tokH c 250 (V c main_arg2) ∗ tokH c 251 (V c main_arg2) ∗ tokH c 252 (V c main_arg2) ∗ tokH c 253 (V c main_arg2) ∗ tokH c 254 (V c main_arg2) ∗ tokH c 255 (V c main_arg2) ∗ tokH c 256 (V c main_arg2) ∗ tokH c 257 (V c main_arg2) ∗ tokH c 258 (V c main_arg2) ∗ tokH c 259 (V c main_arg2) ∗ tokH c 260 (V c main_arg2) ∗ tokH c 261 (V c main_arg2) ∗ tokH c 262 (V c main_arg2) ∗ tokH c 263 (V c main_arg2) ∗ tokH c 264 (V c main_arg2) ∗ tokH c 265 (V c main_arg2) ∗ tokH c 266 (V c main_arg2) ∗ tokH c 267 (V c main_arg2) ∗ tokH c 268 (V c main_arg2) ∗ tokH c 269 (V c main_arg2) ∗ tokH c 270 (V c main_arg2) ∗ tokH c 271 (V c main_arg2) ∗ tokH c 272 (V c main_arg2) ∗ tokH c 273 (V c main_arg2) ∗ tokH c 274 (V c main_arg2) ∗ tokH c 275 (V c main_arg2) ∗ tokH c 276 (V c main_arg2)))
        ∗ BI.bigSep (Finset.range 245) (fun i => ((((c : Thread nD τ).loc main_arg2) ↦{shareTokN fullShare i} V c main_arg2) : sProp 𝕄))) :=
  toks32 (F := F) 245

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG8 (hH : InRange8 V) (c : Dev nD) (t : Fin (pcfgG8 (F := F) V).N) :
    iprop((datG8 V hH c).Φ t.castSucc ∗ (datG8 V hH c).owesAt () t.castSucc
        ∗ (∃ d, owns (c : Thread nD τ) (ms8 V t) fullShare ((datG8 V hH c).before 0 t d)))
      ⊢ wp frame (wpE (defs₀ (F := F)) Variants.none c none) Set.univ
          (cc8__gather_kernel (grid8.coords t) tbM8 (Memref.isWhole_whole _) hbM (Memref.isWhole_whole _) (ms8 V t) (hs8 V t) scM8 (Memref.isWhole_whole _) cc8_scratch1)
          (fun _ => iprop((datG8 V hH c).Φ t.succ ∗ (datG8 V hH c).owesAt () t.succ
            ∗ owns (c : Thread nD τ) (ms8 V t) fullShare ((datG8 V hH c).after 0 t))) := by
  rw [show (datG8 V hH c).Φ t.succ = ΦG8 V c from rfl, show (datG8 V hH c).Φ t.castSucc = ΦG8 V c from rfl, afterG8]
  unfold ΦG8
  rw [scopedRest8_split, ownSems08_eq]
  unfold Dat.owesAt Pipeline.owesWithin
  rw [show (datG8 V hH c).owed t.castSucc = 0 from rfl, show (datG8 V hH c).owed t.succ = 0 from rfl]
  unfold outsAt8
  iintro ⟨⟨⟨HS0, HRB⟩, Hg, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, Hh, Ht⟩, ⟨%W, -, HW⟩, ⟨%d1, H1⟩⟩
  ihave Hh2 := (hbSplit8 V c).1 $$ Hh
  icases Hh2 with ⟨⟨Hdrop, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩⟩, Hlow⟩
  iapply ((kernelRun8 c (grid8.coords t) (ms8 V t) (hs8 V t) scM8 (Memref.isWhole_whole _) (V c main_v60) (hH c) (V c main_arg2)).2 W _)
  isplitl [Ht]; · iexact Ht
  isplitl [H1]; · iexists _; iexact H1
  isplitl [HS0]; · simp only [owns_whole]; iexact HS0
  isplitl [HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
  · isplitl [HT245]; · iexact HT245
    isplitl [HT246]; · iexact HT246
    isplitl [HT247]; · iexact HT247
    isplitl [HT248]; · iexact HT248
    isplitl [HT249]; · iexact HT249
    isplitl [HT250]; · iexact HT250
    isplitl [HT251]; · iexact HT251
    isplitl [HT252]; · iexact HT252
    isplitl [HT253]; · iexact HT253
    isplitl [HT254]; · iexact HT254
    isplitl [HT255]; · iexact HT255
    isplitl [HT256]; · iexact HT256
    isplitl [HT257]; · iexact HT257
    isplitl [HT258]; · iexact HT258
    isplitl [HT259]; · iexact HT259
    isplitl [HT260]; · iexact HT260
    isplitl [HT261]; · iexact HT261
    isplitl [HT262]; · iexact HT262
    isplitl [HT263]; · iexact HT263
    isplitl [HT264]; · iexact HT264
    isplitl [HT265]; · iexact HT265
    isplitl [HT266]; · iexact HT266
    isplitl [HT267]; · iexact HT267
    isplitl [HT268]; · iexact HT268
    isplitl [HT269]; · iexact HT269
    isplitl [HT270]; · iexact HT270
    isplitl [HT271]; · iexact HT271
    isplitl [HT272]; · iexact HT272
    isplitl [HT273]; · iexact HT273
    isplitl [HT274]; · iexact HT274
    isplitl [HT275]; · iexact HT275
    iexact HT276
  isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
  · isplitl [Hq245]; · iexact Hq245
    isplitl [Hq246]; · iexact Hq246
    isplitl [Hq247]; · iexact Hq247
    isplitl [Hq248]; · iexact Hq248
    isplitl [Hq249]; · iexact Hq249
    isplitl [Hq250]; · iexact Hq250
    isplitl [Hq251]; · iexact Hq251
    isplitl [Hq252]; · iexact Hq252
    isplitl [Hq253]; · iexact Hq253
    isplitl [Hq254]; · iexact Hq254
    isplitl [Hq255]; · iexact Hq255
    isplitl [Hq256]; · iexact Hq256
    isplitl [Hq257]; · iexact Hq257
    isplitl [Hq258]; · iexact Hq258
    isplitl [Hq259]; · iexact Hq259
    isplitl [Hq260]; · iexact Hq260
    isplitl [Hq261]; · iexact Hq261
    isplitl [Hq262]; · iexact Hq262
    isplitl [Hq263]; · iexact Hq263
    isplitl [Hq264]; · iexact Hq264
    isplitl [Hq265]; · iexact Hq265
    isplitl [Hq266]; · iexact Hq266
    isplitl [Hq267]; · iexact Hq267
    isplitl [Hq268]; · iexact Hq268
    isplitl [Hq269]; · iexact Hq269
    isplitl [Hq270]; · iexact Hq270
    isplitl [Hq271]; · iexact Hq271
    isplitl [Hq272]; · iexact Hq272
    isplitl [Hq273]; · iexact Hq273
    isplitl [Hq274]; · iexact Hq274
    isplitl [Hq275]; · iexact Hq275
    iexact Hq276
  isplitl [HW]; · iexact HW
  iintro ⟨Ht, ⟨%e1, H1⟩, HS0, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, ⟨%W', HW'⟩⟩
  isplitl [Ht HS0 HRB Hg Hdrop Hlow HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276 Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
  · isplitl [HS0 HRB]
    · isplitl [HS0]; · simp only [owns_whole]; iexact HS0
      iexact HRB
    isplitl [Hg]; · iexact Hg
    isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
    · isplitl [Hq245]; · iexact Hq245
      isplitl [Hq246]; · iexact Hq246
      isplitl [Hq247]; · iexact Hq247
      isplitl [Hq248]; · iexact Hq248
      isplitl [Hq249]; · iexact Hq249
      isplitl [Hq250]; · iexact Hq250
      isplitl [Hq251]; · iexact Hq251
      isplitl [Hq252]; · iexact Hq252
      isplitl [Hq253]; · iexact Hq253
      isplitl [Hq254]; · iexact Hq254
      isplitl [Hq255]; · iexact Hq255
      isplitl [Hq256]; · iexact Hq256
      isplitl [Hq257]; · iexact Hq257
      isplitl [Hq258]; · iexact Hq258
      isplitl [Hq259]; · iexact Hq259
      isplitl [Hq260]; · iexact Hq260
      isplitl [Hq261]; · iexact Hq261
      isplitl [Hq262]; · iexact Hq262
      isplitl [Hq263]; · iexact Hq263
      isplitl [Hq264]; · iexact Hq264
      isplitl [Hq265]; · iexact Hq265
      isplitl [Hq266]; · iexact Hq266
      isplitl [Hq267]; · iexact Hq267
      isplitl [Hq268]; · iexact Hq268
      isplitl [Hq269]; · iexact Hq269
      isplitl [Hq270]; · iexact Hq270
      isplitl [Hq271]; · iexact Hq271
      isplitl [Hq272]; · iexact Hq272
      isplitl [Hq273]; · iexact Hq273
      isplitl [Hq274]; · iexact Hq274
      isplitl [Hq275]; · iexact Hq275
      iexact Hq276
    isplitl [Hdrop Hlow HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
    · iapply (hbSplit8 V c).2
      isplitl [Hdrop HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
      · isplitl [Hdrop]; · iexact Hdrop
        isplitl [HT245]; · iexact HT245
        isplitl [HT246]; · iexact HT246
        isplitl [HT247]; · iexact HT247
        isplitl [HT248]; · iexact HT248
        isplitl [HT249]; · iexact HT249
        isplitl [HT250]; · iexact HT250
        isplitl [HT251]; · iexact HT251
        isplitl [HT252]; · iexact HT252
        isplitl [HT253]; · iexact HT253
        isplitl [HT254]; · iexact HT254
        isplitl [HT255]; · iexact HT255
        isplitl [HT256]; · iexact HT256
        isplitl [HT257]; · iexact HT257
        isplitl [HT258]; · iexact HT258
        isplitl [HT259]; · iexact HT259
        isplitl [HT260]; · iexact HT260
        isplitl [HT261]; · iexact HT261
        isplitl [HT262]; · iexact HT262
        isplitl [HT263]; · iexact HT263
        isplitl [HT264]; · iexact HT264
        isplitl [HT265]; · iexact HT265
        isplitl [HT266]; · iexact HT266
        isplitl [HT267]; · iexact HT267
        isplitl [HT268]; · iexact HT268
        isplitl [HT269]; · iexact HT269
        isplitl [HT270]; · iexact HT270
        isplitl [HT271]; · iexact HT271
        isplitl [HT272]; · iexact HT272
        isplitl [HT273]; · iexact HT273
        isplitl [HT274]; · iexact HT274
        isplitl [HT275]; · iexact HT275
        iexact HT276
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun8 c _ _ _ _ _ _ _ _)

/-- The body obligation of gather pipeline 8, at every point. -/
theorem body_obligationG8 (hH : InRange8 V) (c : Dev nD) :
    BodyObligation (datG8 (F := F) V hH c) (defs₀ (F := F)) Variants.none () Set.univ := fun t => by
  rw [bigSep_W8, bigSep_W8]
  exact sound_bodyG8 V hH c t

end GatherBody8

section GatherLaunch8
variable (V : (c : Dev nD) → (b : Ref sig .tc) → Buf (Elt F) ((c : Thread nD τ).loc b))

/-- The table held through its own elements is the table's buffer held whole. -/
theorem tbPt8_eq (c : Dev nD) (f : HbBuf (F := F) c tbM8) :
    (ptSet c tbM8 fullShare f : sProp 𝕄) = (((c : Thread nD τ).loc main_v60) ↦{fullShare} f) := by
  show ((Memref.whole main_v60 : Memref sig .tc .smem S32x1023 .i32).view.loc (c : Thread nD τ) ↦[(Memref.whole main_v60 : Memref sig .tc .smem S32x1023 .i32).view.set]{fullShare} f) = _
  simp only [View.set_whole, Memref.view_whole]

/-- The launch's prefetched tables at the admitted contents: the one table's buffer held whole. -/
theorem prefHeld8_eq (c : Dev nD) :
    (Pipeline.prefHeld (Ix := Unit) (Name := ℕ) (U := Pipeline.UD sig nD τ) (Lvl := ℕ) pre8 c (fun _ => fullShare) (adm8 (F := F) V).1 : sProp 𝕄)
      = (((c : Thread nD τ).loc main_v60) ↦{fullShare} V c main_v60) := by
  obtain rfl : c = 0 := Subsingleton.elim _ _
  unfold Pipeline.prefHeld adm8
  rw [bigSep_W8]; rfl

/-- The two unscoped buffers the body reads by itself, their points-tos listed. -/
theorem hbmPts8_eq (c : Dev nD) :
    (BI.bigSep H8 (fun b => ((c : Thread nD τ).loc b) ↦{fullShare} V c b) : sProp 𝕄)
      = iprop((((c : Thread nD τ).loc main_arg2) ↦{fullShare} V c main_arg2) ∗ (((c : Thread nD τ).loc main_v60) ↦{fullShare} V c main_v60)) := by
  rw [BI.bigSep_eq_bigSepL_of_eq [main_arg2, main_v60] (by decide) (by decide)]; rfl

end GatherLaunch8

end Cert.Kernel.Hand

end
-- ==== Proof.KernelFrame.lean ====
/-
  @main as nine kernel regions among host stretches. The contents of every buffer at each boundary are named
  (`W`), each region's result filled in as what its pipeline's write-backs leave; each region is given its record —
  entered with every unscoped buffer at the boundary's contents, left at the next boundary's —; the gather regions'
  hypothesis, that every table word names a row of the weight array, is proved from the host arithmetic that makes
  the tables; and the records are chained through the host stretches into the frame: every weakly fair execution
  terminates, nothing faults, and the argument arrays end as launched. At any float instance `F`.
-/
import proofs.«145402_j1717986918579_1_alg».proof.Proof.Gen.Kernel.Launch
import proofs.«145402_j1717986918579_1_alg».proof.Proof.Gen.Kernel.Skeleton
import proofs.«145402_j1717986918579_1_alg».proof.Proof.Gen.Kernel.Points
import proofs.«145402_j1717986918579_1_alg».proof.Proof.Gen.Kernel.Regions
import proofs.«145402_j1717986918579_1_alg».proof.Proof.KernelProj
import proofs.«145402_j1717986918579_1_alg».proof.Proof.KernelTables
import proofs.«145402_j1717986918579_1_alg».proof.Proof.KernelGather1
import proofs.«145402_j1717986918579_1_alg».proof.Proof.KernelGather2
import proofs.«145402_j1717986918579_1_alg».proof.Proof.KernelGather3
import proofs.«145402_j1717986918579_1_alg».proof.Proof.KernelGather4
import proofs.«145402_j1717986918579_1_alg».proof.Proof.KernelGather5
import proofs.«145402_j1717986918579_1_alg».proof.Proof.KernelGather6
import proofs.«145402_j1717986918579_1_alg».proof.Proof.KernelGather7
import proofs.«145402_j1717986918579_1_alg».proof.Proof.KernelGather8

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run
variable (m : (ℓ : Loc nD τ sig) → Buf (Elt F) ℓ)

/-! ## The buffers' contents at every boundary of @main, the regions' results filled in

`W (2k+1)` is what region `k` is entered with; `W (2k+2)` what it leaves: its output array at what the pipeline's
write-backs leave, every other buffer unchanged. -/

/-- A valuation read at the TensorCore's references. -/
abbrev rd (W : Dev nD → Valuation τ sig (Elt F)) : (c : Dev nD) → (b : Ref sig .tc) → Buf (Elt F) ((c : Thread nD τ).loc b) := fun c b => W c b

def W0 (c : Dev nD) : Valuation τ sig (Elt F) := fun b => m (c, b)
def W1 (c : Dev nD) : Valuation τ sig (Elt F) := StableHlo.after hostOps0 (W0 m c)
/-- What the projection region leaves in its output array. -/
def res0 (c : Dev nD) : Buf (Elt F) ((c : Thread nD τ).loc main_v2) := (dat0 (rd (W1 m)) c).arrAt 2 cfg0.N
def W2 (c : Dev nD) : Valuation τ sig (Elt F) := Function.update (W1 m c) (Proc.devRef .tc main_v2) (res0 m c)
def W3 (c : Dev nD) : Valuation τ sig (Elt F) := StableHlo.after hostOps1 (W2 m c)

/-- The transposed row-index array, computed before the first gather region, is in range, -/
theorem v32_3 (c : Dev nD) : ∀ i, ((W3 (F := F) m c (Proc.devRef .tc main_v32)) i).toNat < 8388608 := by
  unfold W3; exact v32_lt (W2 m c)

/-- Every word of gather 1's table names a row of the weight array. -/
theorem inRange1 : InRange1 (rd (W3 (F := F) m)) := fun c j => by
  show ((W3 m c (Proc.devRef .tc main_v34)) j).toNat < 8388608
  unfold W3
  exact tbl34_lt (W2 m c) j
/-- What gather region 1 leaves in its output array. -/
def res1 (c : Dev nD) : Buf (Elt F) ((c : Thread nD τ).loc main_v35) := (datG1 (rd (W3 m)) (inRange1 m) c).arrAt 0 (pcfgG1 (F := F) (rd (W3 m))).N
def W4 (c : Dev nD) : Valuation τ sig (Elt F) := Function.update (W3 m c) (Proc.devRef .tc main_v35) (res1 m c)
/-- and no region and no later stretch writes it. -/
theorem v32_4 (c : Dev nD) : ∀ i, ((W4 (F := F) m c (Proc.devRef .tc main_v32)) i).toNat < 8388608 := by
  unfold W4
  rw [Function.update_of_ne (StableHlo.devRef_ne_of_ne (by decide : (main_v32 : Ref sig .tc) ≠ main_v35) : (Proc.devRef .tc main_v32 : DevRef τ sig) ≠ Proc.devRef .tc main_v35)]
  exact v32_3 m c
def W5 (c : Dev nD) : Valuation τ sig (Elt F) := StableHlo.after hostOps2 (W4 m c)
theorem v32_5 (c : Dev nD) : ∀ i, ((W5 (F := F) m c (Proc.devRef .tc main_v32)) i).toNat < 8388608 := by
  unfold W5
  rw [StableHlo.after_of_writes_sub hostOps2 _ hostOps2_writes (by decide : main_v32 ∉ hostOps2_W)]
  exact v32_4 m c

/-- Every word of gather 2's table names a row of the weight array. -/
theorem inRange2 : InRange2 (rd (W5 (F := F) m)) := fun c j => by
  show ((W5 m c (Proc.devRef .tc main_v37)) j).toNat < 8388608
  unfold W5
  exact tbl37_lt (W4 m c) (v32_4 m c) j
/-- What gather region 2 leaves in its output array. -/
def res2 (c : Dev nD) : Buf (Elt F) ((c : Thread nD τ).loc main_v38) := (datG2 (rd (W5 m)) (inRange2 m) c).arrAt 0 (pcfgG2 (F := F) (rd (W5 m))).N
def W6 (c : Dev nD) : Valuation τ sig (Elt F) := Function.update (W5 m c) (Proc.devRef .tc main_v38) (res2 m c)
/-- and no region and no later stretch writes it. -/
theorem v32_6 (c : Dev nD) : ∀ i, ((W6 (F := F) m c (Proc.devRef .tc main_v32)) i).toNat < 8388608 := by
  unfold W6
  rw [Function.update_of_ne (StableHlo.devRef_ne_of_ne (by decide : (main_v32 : Ref sig .tc) ≠ main_v38) : (Proc.devRef .tc main_v32 : DevRef τ sig) ≠ Proc.devRef .tc main_v38)]
  exact v32_5 m c
def W7 (c : Dev nD) : Valuation τ sig (Elt F) := StableHlo.after hostOps3 (W6 m c)
theorem v32_7 (c : Dev nD) : ∀ i, ((W7 (F := F) m c (Proc.devRef .tc main_v32)) i).toNat < 8388608 := by
  unfold W7
  rw [StableHlo.after_of_writes_sub hostOps3 _ hostOps3_writes (by decide : main_v32 ∉ hostOps3_W)]
  exact v32_6 m c

/-- Every word of gather 3's table names a row of the weight array. -/
theorem inRange3 : InRange3 (rd (W7 (F := F) m)) := fun c j => by
  show ((W7 m c (Proc.devRef .tc main_v40)) j).toNat < 8388608
  unfold W7
  exact tbl40_lt (W6 m c) (v32_6 m c) j
/-- What gather region 3 leaves in its output array. -/
def res3 (c : Dev nD) : Buf (Elt F) ((c : Thread nD τ).loc main_v41) := (datG3 (rd (W7 m)) (inRange3 m) c).arrAt 0 (pcfgG3 (F := F) (rd (W7 m))).N
def W8 (c : Dev nD) : Valuation τ sig (Elt F) := Function.update (W7 m c) (Proc.devRef .tc main_v41) (res3 m c)
/-- and no region and no later stretch writes it. -/
theorem v32_8 (c : Dev nD) : ∀ i, ((W8 (F := F) m c (Proc.devRef .tc main_v32)) i).toNat < 8388608 := by
  unfold W8
  rw [Function.update_of_ne (StableHlo.devRef_ne_of_ne (by decide : (main_v32 : Ref sig .tc) ≠ main_v41) : (Proc.devRef .tc main_v32 : DevRef τ sig) ≠ Proc.devRef .tc main_v41)]
  exact v32_7 m c
def W9 (c : Dev nD) : Valuation τ sig (Elt F) := StableHlo.after hostOps4 (W8 m c)
theorem v32_9 (c : Dev nD) : ∀ i, ((W9 (F := F) m c (Proc.devRef .tc main_v32)) i).toNat < 8388608 := by
  unfold W9
  rw [StableHlo.after_of_writes_sub hostOps4 _ hostOps4_writes (by decide : main_v32 ∉ hostOps4_W)]
  exact v32_8 m c

/-- Every word of gather 4's table names a row of the weight array. -/
theorem inRange4 : InRange4 (rd (W9 (F := F) m)) := fun c j => by
  show ((W9 m c (Proc.devRef .tc main_v43)) j).toNat < 8388608
  unfold W9
  exact tbl43_lt (W8 m c) (v32_8 m c) j
/-- What gather region 4 leaves in its output array. -/
def res4 (c : Dev nD) : Buf (Elt F) ((c : Thread nD τ).loc main_v44) := (datG4 (rd (W9 m)) (inRange4 m) c).arrAt 0 (pcfgG4 (F := F) (rd (W9 m))).N
def W10 (c : Dev nD) : Valuation τ sig (Elt F) := Function.update (W9 m c) (Proc.devRef .tc main_v44) (res4 m c)
/-- and no region and no later stretch writes it. -/
theorem v32_10 (c : Dev nD) : ∀ i, ((W10 (F := F) m c (Proc.devRef .tc main_v32)) i).toNat < 8388608 := by
  unfold W10
  rw [Function.update_of_ne (StableHlo.devRef_ne_of_ne (by decide : (main_v32 : Ref sig .tc) ≠ main_v44) : (Proc.devRef .tc main_v32 : DevRef τ sig) ≠ Proc.devRef .tc main_v44)]
  exact v32_9 m c
def W11 (c : Dev nD) : Valuation τ sig (Elt F) := StableHlo.after hostOps5 (W10 m c)
theorem v32_11 (c : Dev nD) : ∀ i, ((W11 (F := F) m c (Proc.devRef .tc main_v32)) i).toNat < 8388608 := by
  unfold W11
  rw [StableHlo.after_of_writes_sub hostOps5 _ hostOps5_writes (by decide : main_v32 ∉ hostOps5_W)]
  exact v32_10 m c

/-- Every word of gather 5's table names a row of the weight array. -/
theorem inRange5 : InRange5 (rd (W11 (F := F) m)) := fun c j => by
  show ((W11 m c (Proc.devRef .tc main_v51)) j).toNat < 8388608
  unfold W11
  exact tbl51_lt (W10 m c) (v32_10 m c) j
/-- What gather region 5 leaves in its output array. -/
def res5 (c : Dev nD) : Buf (Elt F) ((c : Thread nD τ).loc main_v52) := (datG5 (rd (W11 m)) (inRange5 m) c).arrAt 0 (pcfgG5 (F := F) (rd (W11 m))).N
def W12 (c : Dev nD) : Valuation τ sig (Elt F) := Function.update (W11 m c) (Proc.devRef .tc main_v52) (res5 m c)
/-- and no region and no later stretch writes it. -/
theorem v32_12 (c : Dev nD) : ∀ i, ((W12 (F := F) m c (Proc.devRef .tc main_v32)) i).toNat < 8388608 := by
  unfold W12
  rw [Function.update_of_ne (StableHlo.devRef_ne_of_ne (by decide : (main_v32 : Ref sig .tc) ≠ main_v52) : (Proc.devRef .tc main_v32 : DevRef τ sig) ≠ Proc.devRef .tc main_v52)]
  exact v32_11 m c
def W13 (c : Dev nD) : Valuation τ sig (Elt F) := StableHlo.after hostOps6 (W12 m c)
theorem v32_13 (c : Dev nD) : ∀ i, ((W13 (F := F) m c (Proc.devRef .tc main_v32)) i).toNat < 8388608 := by
  unfold W13
  rw [StableHlo.after_of_writes_sub hostOps6 _ hostOps6_writes (by decide : main_v32 ∉ hostOps6_W)]
  exact v32_12 m c

/-- Every word of gather 6's table names a row of the weight array. -/
theorem inRange6 : InRange6 (rd (W13 (F := F) m)) := fun c j => by
  show ((W13 m c (Proc.devRef .tc main_v54)) j).toNat < 8388608
  unfold W13
  exact tbl54_lt (W12 m c) (v32_12 m c) j
/-- What gather region 6 leaves in its output array. -/
def res6 (c : Dev nD) : Buf (Elt F) ((c : Thread nD τ).loc main_v55) := (datG6 (rd (W13 m)) (inRange6 m) c).arrAt 0 (pcfgG6 (F := F) (rd (W13 m))).N
def W14 (c : Dev nD) : Valuation τ sig (Elt F) := Function.update (W13 m c) (Proc.devRef .tc main_v55) (res6 m c)
/-- and no region and no later stretch writes it. -/
theorem v32_14 (c : Dev nD) : ∀ i, ((W14 (F := F) m c (Proc.devRef .tc main_v32)) i).toNat < 8388608 := by
  unfold W14
  rw [Function.update_of_ne (StableHlo.devRef_ne_of_ne (by decide : (main_v32 : Ref sig .tc) ≠ main_v55) : (Proc.devRef .tc main_v32 : DevRef τ sig) ≠ Proc.devRef .tc main_v55)]
  exact v32_13 m c
def W15 (c : Dev nD) : Valuation τ sig (Elt F) := StableHlo.after hostOps7 (W14 m c)
theorem v32_15 (c : Dev nD) : ∀ i, ((W15 (F := F) m c (Proc.devRef .tc main_v32)) i).toNat < 8388608 := by
  unfold W15
  rw [StableHlo.after_of_writes_sub hostOps7 _ hostOps7_writes (by decide : main_v32 ∉ hostOps7_W)]
  exact v32_14 m c

/-- Every word of gather 7's table names a row of the weight array. -/
theorem inRange7 : InRange7 (rd (W15 (F := F) m)) := fun c j => by
  show ((W15 m c (Proc.devRef .tc main_v57)) j).toNat < 8388608
  unfold W15
  exact tbl57_lt (W14 m c) (v32_14 m c) j
/-- What gather region 7 leaves in its output array. -/
def res7 (c : Dev nD) : Buf (Elt F) ((c : Thread nD τ).loc main_v58) := (datG7 (rd (W15 m)) (inRange7 m) c).arrAt 0 (pcfgG7 (F := F) (rd (W15 m))).N
def W16 (c : Dev nD) : Valuation τ sig (Elt F) := Function.update (W15 m c) (Proc.devRef .tc main_v58) (res7 m c)
/-- and no region and no later stretch writes it. -/
theorem v32_16 (c : Dev nD) : ∀ i, ((W16 (F := F) m c (Proc.devRef .tc main_v32)) i).toNat < 8388608 := by
  unfold W16
  rw [Function.update_of_ne (StableHlo.devRef_ne_of_ne (by decide : (main_v32 : Ref sig .tc) ≠ main_v58) : (Proc.devRef .tc main_v32 : DevRef τ sig) ≠ Proc.devRef .tc main_v58)]
  exact v32_15 m c
def W17 (c : Dev nD) : Valuation τ sig (Elt F) := StableHlo.after hostOps8 (W16 m c)
theorem v32_17 (c : Dev nD) : ∀ i, ((W17 (F := F) m c (Proc.devRef .tc main_v32)) i).toNat < 8388608 := by
  unfold W17
  rw [StableHlo.after_of_writes_sub hostOps8 _ hostOps8_writes (by decide : main_v32 ∉ hostOps8_W)]
  exact v32_16 m c

/-- Every word of gather 8's table names a row of the weight array. -/
theorem inRange8 : InRange8 (rd (W17 (F := F) m)) := fun c j => by
  show ((W17 m c (Proc.devRef .tc main_v60)) j).toNat < 8388608
  unfold W17
  exact tbl60_lt (W16 m c) (v32_16 m c) j
/-- What gather region 8 leaves in its output array. -/
def res8 (c : Dev nD) : Buf (Elt F) ((c : Thread nD τ).loc main_v61) := (datG8 (rd (W17 m)) (inRange8 m) c).arrAt 0 (pcfgG8 (F := F) (rd (W17 m))).N
def W18 (c : Dev nD) : Valuation τ sig (Elt F) := Function.update (W17 m c) (Proc.devRef .tc main_v61) (res8 m c)
/-- and no region and no later stretch writes it. -/
theorem v32_18 (c : Dev nD) : ∀ i, ((W18 (F := F) m c (Proc.devRef .tc main_v32)) i).toNat < 8388608 := by
  unfold W18
  rw [Function.update_of_ne (StableHlo.devRef_ne_of_ne (by decide : (main_v32 : Ref sig .tc) ≠ main_v61) : (Proc.devRef .tc main_v32 : DevRef τ sig) ≠ Proc.devRef .tc main_v61)]
  exact v32_17 m c
def W19 (c : Dev nD) : Valuation τ sig (Elt F) := StableHlo.after hostOps9 (W18 m c)
theorem v32_19 (c : Dev nD) : ∀ i, ((W19 (F := F) m c (Proc.devRef .tc main_v32)) i).toNat < 8388608 := by
  unfold W19
  rw [StableHlo.after_of_writes_sub hostOps9 _ hostOps9_writes (by decide : main_v32 ∉ hostOps9_W)]
  exact v32_18 m c

/-! ## The tables' contents and the proof data, pipeline by pipeline -/

/-- The prefetched tables at the contents their regions are entered with (the projection pipeline has none). -/
def adm : (p : Fin 9) → (pcfgs (F := F) p).Adm
  | ⟨0, _⟩ => cfg0.toPCfg_adm
  | ⟨1, _⟩ => adm1 (rd (W3 m))
  | ⟨2, _⟩ => adm2 (rd (W5 m))
  | ⟨3, _⟩ => adm3 (rd (W7 m))
  | ⟨4, _⟩ => adm4 (rd (W9 m))
  | ⟨5, _⟩ => adm5 (rd (W11 m))
  | ⟨6, _⟩ => adm6 (rd (W13 m))
  | ⟨7, _⟩ => adm7 (rd (W15 m))
  | ⟨8, _⟩ => adm8 (rd (W17 m))
  | ⟨_ + 9, h⟩ => absurd h (Nat.not_lt.2 (Nat.le_add_left _ _))

/-- Every pipeline's proof data, each over its region's entry contents. -/
def pdats : (p : Fin 9) → (c : Dev nD) → Dat τ (Elt F) Unit ℕ (Pipeline.UD sig nD τ) ℕ (Pipeline.pin (pcfgs (F := F)) (adm m) p) c
  | ⟨0, _⟩ => fun c => dat0 (rd (W1 m)) c
  | ⟨1, _⟩ => fun c => datG1 (rd (W3 m)) (inRange1 m) c
  | ⟨2, _⟩ => fun c => datG2 (rd (W5 m)) (inRange2 m) c
  | ⟨3, _⟩ => fun c => datG3 (rd (W7 m)) (inRange3 m) c
  | ⟨4, _⟩ => fun c => datG4 (rd (W9 m)) (inRange4 m) c
  | ⟨5, _⟩ => fun c => datG5 (rd (W11 m)) (inRange5 m) c
  | ⟨6, _⟩ => fun c => datG6 (rd (W13 m)) (inRange6 m) c
  | ⟨7, _⟩ => fun c => datG7 (rd (W15 m)) (inRange7 m) c
  | ⟨8, _⟩ => fun c => datG8 (rd (W17 m)) (inRange8 m) c
  | ⟨_ + 9, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The projection region as a segment of @main -/

theorem hF0 (c : Dev nD) (w : Fin cfg0.W) : (dat0 (rd (W1 (F := F) m)) c).arrAt w cfg0.N = rd (W2 m) c (Pipeline.arrRef spec0 w) := by
  match w with
  | ⟨0, _⟩ =>
    show _ = W2 m c (Proc.devRef .tc main_v0)
    unfold W2
    rw [Function.update_of_ne (StableHlo.devRef_ne_of_ne (by decide : (main_v0 : Ref sig .tc) ≠ main_v2) : (Proc.devRef .tc main_v0 : DevRef τ sig) ≠ Proc.devRef .tc main_v2)]
    exact ((dat0 (rd (W1 m)) c).arrAt_in 0 rfl _).trans (A_eq0 (rd (W1 m)) c 0)
  | ⟨1, _⟩ =>
    show _ = W2 m c (Proc.devRef .tc main_v1)
    unfold W2
    rw [Function.update_of_ne (StableHlo.devRef_ne_of_ne (by decide : (main_v1 : Ref sig .tc) ≠ main_v2) : (Proc.devRef .tc main_v1 : DevRef τ sig) ≠ Proc.devRef .tc main_v2)]
    exact ((dat0 (rd (W1 m)) c).arrAt_in 1 rfl _).trans (A_eq0 (rd (W1 m)) c 1)
  | ⟨2, _⟩ =>
    show _ = W2 m c (Proc.devRef .tc main_v2)
    unfold W2
    rw [Function.update_self]; rfl
theorem hrest0 (c : Dev nD) : ∀ b, b ∉ Finset.univ.image (Pipeline.arrRef spec0) → rd (F := F) (W2 m) c b = rd (F := F) (W1 m) c b := fun b hb => by
  have hne : b ≠ main_v2 := fun e => hb (Finset.mem_image.mpr ⟨2, Finset.mem_univ _, e.symm⟩)
  show W2 m c (Proc.devRef .tc b) = W1 m c (Proc.devRef .tc b)
  unfold W2
  rw [Function.update_of_ne (StableHlo.devRef_ne_of_ne hne)]

set_option backward.isDefEq.respectTransparency.types false in
/-- The projection region: entered with every unscoped buffer at `W1`, left at `W2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (rd (W1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 1 as a segment of @main -/

theorem hF1 (c : Dev nD) (w : Fin 1) :
    (datG1 (rd (W3 (F := F) m)) (inRange1 m) c).arrAt w (pcfgG1 (F := F) (rd (W3 m))).N = rd (W4 m) c (Pipeline.arrRef spec1 w) := by
  match w with
  | ⟨0, _⟩ =>
    show _ = W4 m c (Proc.devRef .tc main_v35)
    unfold W4
    rw [Function.update_self]; rfl
theorem hrest1 (c : Dev nD) : ∀ b, b ∉ Finset.univ.image (Pipeline.arrRef spec1) → rd (F := F) (W4 m) c b = rd (F := F) (W3 m) c b := fun b hb => by
  have hne : b ≠ main_v35 := fun e => hb (Finset.mem_image.mpr ⟨0, Finset.mem_univ _, e.symm⟩)
  show W4 m c (Proc.devRef .tc b) = W3 m c (Proc.devRef .tc b)
  unfold W4
  rw [Function.update_of_ne (StableHlo.devRef_ne_of_ne hne)]

set_option backward.isDefEq.respectTransparency.types false in
/-- Gather region 1: entered with every unscoped buffer at `W3`, left at `W4`. The weight array and the table are
    taken out of the buffers that bypass the region and handed to its invariant, the table as the launch's prefetched
    table; the kernel's thirty-two DMA semaphores go in at zero and come back at zero. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 32
  osem := osem1
  ho := ownSemFacts1
  hbody c := (body_obligationG1 (rd (W3 m)) (inRange1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ (((c : Thread nD τ).loc main_arg2) ↦{fullShare} rd (W3 m) c main_arg2))
  Y c := iprop((∃ r, prngReg c r) ∗ (((c : Thread nD τ).loc main_arg2) ↦{fullShare} rd (W3 m) c main_arg2)
    ∗ (((c : Thread nD τ).loc main_v34) ↦{fullShare} rd (W3 m) c main_v34))
  Z c := BI.bigSep (Pipeline.restRefs sig spec1 \ H1) fun b => (((c : Thread nD τ)).loc b) ↦{fullShare} rd (W3 m) c b
  hentry c := by
    have hsplit := Pipeline.arrays_of_unscopedBufs (p := 1) (pcfgs (F := F)) (adm m) (pdats m) (launch1 (F := F)).win (launch1 (F := F)).arr_whole c
      ((pdats m 1 c).share_full fun _ => rfl) (rd (W3 m) c) fun _ => rfl
    rw [Pipeline.unscopedBufs_held] at hsplit
    have hH : (Pipeline.unscopedRest (Ix := Unit) (Name := ℕ) (U := Pipeline.UD sig nD τ) (Lvl := ℕ) spec1 c (rd (W3 m) c) : sProp 𝕄)
        = iprop((BI.bigSep H1 fun b => (((c : Thread nD τ)).loc b) ↦{fullShare} rd (W3 m) c b) ∗ (BI.bigSep (Pipeline.restRefs sig spec1 \ H1) fun b => (((c : Thread nD τ)).loc b) ↦{fullShare} rd (W3 m) c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts1_eq (rd (W3 m)) c)) $$ HH
    icases H'' with ⟨Hw, Htb⟩
    imodintro
    isplitl [Ha]; · iexact Ha
    isplitl [Htb]
    · rw [show (Pipeline.prefHeld (pcfgs (F := F) 1).pre c (fun _ => fullShare) (adm m 1).1 : sProp 𝕄)
          = (((c : Thread nD τ).loc main_v34) ↦{fullShare} rd (W3 m) c main_v34) from prefHeld1_eq (rd (W3 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 1 c).Φ 0 = ΦG1 (rd (W3 m)) c from rfl,
      show (Pipeline.prefHeld (pcfgs (F := F) 1).pre c (fun _ => fullShare) (adm m 1).1 : sProp 𝕄)
          = (((c : Thread nD τ).loc main_v34) ↦{fullShare} rd (W3 m) c main_v34) from prefHeld1_eq (rd (W3 m)) c]
    unfold ΦG1
    rw [tbPt1_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 1 c).Φ (Fin.last _) = ΦG1 (rd (W3 m)) c from rfl]
    unfold ΦG1
    rw [tbPt1_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (rd (W3 m) c) (rd (W4 m) c) ((pdats m 1 c).arrAt · (pcfgG1 (F := F) (rd (W3 m))).N) (hF1 m c) (hrest1 m c)
    rw [Pipeline.unscopedBufs_held] at hjoin
    have hH : (Pipeline.unscopedRest (Ix := Unit) (Name := ℕ) (U := Pipeline.UD sig nD τ) (Lvl := ℕ) spec1 c (rd (W3 m) c) : sProp 𝕄)
        = iprop((BI.bigSep H1 fun b => (((c : Thread nD τ)).loc b) ↦{fullShare} rd (W3 m) c b) ∗ (BI.bigSep (Pipeline.restRefs sig spec1 \ H1) fun b => (((c : Thread nD τ)).loc b) ↦{fullShare} rd (W3 m) c b)) := by
      unfold Pipeline.unscopedRest; exact BI.bigSep_sdiff_split H1_sub
    iintro ⟨Ha, HO, ⟨HY, Hw, Htb⟩, HR⟩
    ihave HH := (Entails.of_eq (hbmPts1_eq (rd (W3 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 2 as a segment of @main -/

theorem hF2 (c : Dev nD) (w : Fin 1) :
    (datG2 (rd (W5 (F := F) m)) (inRange2 m) c).arrAt w (pcfgG2 (F := F) (rd (W5 m))).N = rd (W6 m) c (Pipeline.arrRef spec2 w) := by
  match w with
  | ⟨0, _⟩ =>
    show _ = W6 m c (Proc.devRef .tc main_v38)
    unfold W6
    rw [Function.update_self]; rfl
theorem hrest2 (c : Dev nD) : ∀ b, b ∉ Finset.univ.image (Pipeline.arrRef spec2) → rd (F := F) (W6 m) c b = rd (F := F) (W5 m) c b := fun b hb => by
  have hne : b ≠ main_v38 := fun e => hb (Finset.mem_image.mpr ⟨0, Finset.mem_univ _, e.symm⟩)
  show W6 m c (Proc.devRef .tc b) = W5 m c (Proc.devRef .tc b)
  unfold W6
  rw [Function.update_of_ne (StableHlo.devRef_ne_of_ne hne)]

set_option backward.isDefEq.respectTransparency.types false in
/-- Gather region 2: entered with every unscoped buffer at `W5`, left at `W6`. The weight array and the table are
    taken out of the buffers that bypass the region and handed to its invariant, the table as the launch's prefetched
    table; the kernel's thirty-two DMA semaphores go in at zero and come back at zero. -/
def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := Fin 32
  osem := osem2
  ho := ownSemFacts2
  hbody c := (body_obligationG2 (rd (W5 m)) (inRange2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop((∃ r, prngReg c r) ∗ Pipeline.ownSems0 (Ix := Unit) (Name := ℕ) (U := Pipeline.UD sig nD τ) (Lvl := ℕ) (Val := Elt F) (τ := τ) osem2 c
    ∗ (((c : Thread nD τ).loc main_arg2) ↦{fullShare} rd (W5 m) c main_arg2))
  Y c := iprop((∃ r, prngReg c r) ∗ (((c : Thread nD τ).loc main_arg2) ↦{fullShare} rd (W5 m) c main_arg2)
    ∗ (((c : Thread nD τ).loc main_v37) ↦{fullShare} rd (W5 m) c main_v37))
  Z c := BI.bigSep (Pipeline.restRefs sig spec2 \ H2) fun b => (((c : Thread nD τ)).loc b) ↦{fullShare} rd (W5 m) c b
  hentry c := by
    have hsplit := Pipeline.arrays_of_unscopedBufs (p := 2) (pcfgs (F := F)) (adm m) (pdats m) (launch2 (F := F)).win (launch2 (F := F)).arr_whole c
      ((pdats m 2 c).share_full fun _ => rfl) (rd (W5 m) c) fun _ => rfl
    rw [Pipeline.unscopedBufs_held] at hsplit
    have hH : (Pipeline.unscopedRest (Ix := Unit) (Name := ℕ) (U := Pipeline.UD sig nD τ) (Lvl := ℕ) spec2 c (rd (W5 m) c) : sProp 𝕄)
        = iprop((BI.bigSep H2 fun b => (((c : Thread nD τ)).loc b) ↦{fullShare} rd (W5 m) c b) ∗ (BI.bigSep (Pipeline.restRefs sig spec2 \ H2) fun b => (((c : Thread nD τ)).loc b) ↦{fullShare} rd (W5 m) c b)) := by
      unfold Pipeline.unscopedRest; exact BI.bigSep_sdiff_split H2_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts2_eq (rd (W5 m)) c)) $$ HH
    icases H'' with ⟨Hw, Htb⟩
    imodintro
    isplitl [Ha]; · iexact Ha
    isplitl [Htb]
    · rw [show (Pipeline.prefHeld (pcfgs (F := F) 2).pre c (fun _ => fullShare) (adm m 2).1 : sProp 𝕄)
          = (((c : Thread nD τ).loc main_v37) ↦{fullShare} rd (W5 m) c main_v37) from prefHeld2_eq (rd (W5 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 2 c).Φ 0 = ΦG2 (rd (W5 m)) c from rfl,
      show (Pipeline.prefHeld (pcfgs (F := F) 2).pre c (fun _ => fullShare) (adm m 2).1 : sProp 𝕄)
          = (((c : Thread nD τ).loc main_v37) ↦{fullShare} rd (W5 m) c main_v37) from prefHeld2_eq (rd (W5 m)) c]
    unfold ΦG2
    rw [tbPt2_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 2 c).Φ (Fin.last _) = ΦG2 (rd (W5 m)) c from rfl]
    unfold ΦG2
    rw [tbPt2_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m 2 c).share_full fun _ => rfl)
      (rd (W5 m) c) (rd (W6 m) c) ((pdats m 2 c).arrAt · (pcfgG2 (F := F) (rd (W5 m))).N) (hF2 m c) (hrest2 m c)
    rw [Pipeline.unscopedBufs_held] at hjoin
    have hH : (Pipeline.unscopedRest (Ix := Unit) (Name := ℕ) (U := Pipeline.UD sig nD τ) (Lvl := ℕ) spec2 c (rd (W5 m) c) : sProp 𝕄)
        = iprop((BI.bigSep H2 fun b => (((c : Thread nD τ)).loc b) ↦{fullShare} rd (W5 m) c b) ∗ (BI.bigSep (Pipeline.restRefs sig spec2 \ H2) fun b => (((c : Thread nD τ)).loc b) ↦{fullShare} rd (W5 m) c b)) := by
      unfold Pipeline.unscopedRest; exact BI.bigSep_sdiff_split H2_sub
    iintro ⟨Ha, HO, ⟨HY, Hw, Htb⟩, HR⟩
    ihave HH := (Entails.of_eq (hbmPts2_eq (rd (W5 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 3 as a segment of @main -/

theorem hF3 (c : Dev nD) (w : Fin 1) :
    (datG3 (rd (W7 (F := F) m)) (inRange3 m) c).arrAt w (pcfgG3 (F := F) (rd (W7 m))).N = rd (W8 m) c (Pipeline.arrRef spec3 w) := by
  match w with
  | ⟨0, _⟩ =>
    show _ = W8 m c (Proc.devRef .tc main_v41)
    unfold W8
    rw [Function.update_self]; rfl
theorem hrest3 (c : Dev nD) : ∀ b, b ∉ Finset.univ.image (Pipeline.arrRef spec3) → rd (F := F) (W8 m) c b = rd (F := F) (W7 m) c b := fun b hb => by
  have hne : b ≠ main_v41 := fun e => hb (Finset.mem_image.mpr ⟨0, Finset.mem_univ _, e.symm⟩)
  show W8 m c (Proc.devRef .tc b) = W7 m c (Proc.devRef .tc b)
  unfold W8
  rw [Function.update_of_ne (StableHlo.devRef_ne_of_ne hne)]

set_option backward.isDefEq.respectTransparency.types false in
/-- Gather region 3: entered with every unscoped buffer at `W7`, left at `W8`. The weight array and the table are
    taken out of the buffers that bypass the region and handed to its invariant, the table as the launch's prefetched
    table; the kernel's thirty-two DMA semaphores go in at zero and come back at zero. -/
def reg3 : Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := Fin 32
  osem := osem3
  ho := ownSemFacts3
  hbody c := (body_obligationG3 (rd (W7 m)) (inRange3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop((∃ r, prngReg c r) ∗ Pipeline.ownSems0 (Ix := Unit) (Name := ℕ) (U := Pipeline.UD sig nD τ) (Lvl := ℕ) (Val := Elt F) (τ := τ) osem3 c
    ∗ (((c : Thread nD τ).loc main_arg2) ↦{fullShare} rd (W7 m) c main_arg2))
  Y c := iprop((∃ r, prngReg c r) ∗ (((c : Thread nD τ).loc main_arg2) ↦{fullShare} rd (W7 m) c main_arg2)
    ∗ (((c : Thread nD τ).loc main_v40) ↦{fullShare} rd (W7 m) c main_v40))
  Z c := BI.bigSep (Pipeline.restRefs sig spec3 \ H3) fun b => (((c : Thread nD τ)).loc b) ↦{fullShare} rd (W7 m) c b
  hentry c := by
    have hsplit := Pipeline.arrays_of_unscopedBufs (p := 3) (pcfgs (F := F)) (adm m) (pdats m) (launch3 (F := F)).win (launch3 (F := F)).arr_whole c
      ((pdats m 3 c).share_full fun _ => rfl) (rd (W7 m) c) fun _ => rfl
    rw [Pipeline.unscopedBufs_held] at hsplit
    have hH : (Pipeline.unscopedRest (Ix := Unit) (Name := ℕ) (U := Pipeline.UD sig nD τ) (Lvl := ℕ) spec3 c (rd (W7 m) c) : sProp 𝕄)
        = iprop((BI.bigSep H3 fun b => (((c : Thread nD τ)).loc b) ↦{fullShare} rd (W7 m) c b) ∗ (BI.bigSep (Pipeline.restRefs sig spec3 \ H3) fun b => (((c : Thread nD τ)).loc b) ↦{fullShare} rd (W7 m) c b)) := by
      unfold Pipeline.unscopedRest; exact BI.bigSep_sdiff_split H3_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts3_eq (rd (W7 m)) c)) $$ HH
    icases H'' with ⟨Hw, Htb⟩
    imodintro
    isplitl [Ha]; · iexact Ha
    isplitl [Htb]
    · rw [show (Pipeline.prefHeld (pcfgs (F := F) 3).pre c (fun _ => fullShare) (adm m 3).1 : sProp 𝕄)
          = (((c : Thread nD τ).loc main_v40) ↦{fullShare} rd (W7 m) c main_v40) from prefHeld3_eq (rd (W7 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 3 c).Φ 0 = ΦG3 (rd (W7 m)) c from rfl,
      show (Pipeline.prefHeld (pcfgs (F := F) 3).pre c (fun _ => fullShare) (adm m 3).1 : sProp 𝕄)
          = (((c : Thread nD τ).loc main_v40) ↦{fullShare} rd (W7 m) c main_v40) from prefHeld3_eq (rd (W7 m)) c]
    unfold ΦG3
    rw [tbPt3_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 3 c).Φ (Fin.last _) = ΦG3 (rd (W7 m)) c from rfl]
    unfold ΦG3
    rw [tbPt3_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m 3 c).share_full fun _ => rfl)
      (rd (W7 m) c) (rd (W8 m) c) ((pdats m 3 c).arrAt · (pcfgG3 (F := F) (rd (W7 m))).N) (hF3 m c) (hrest3 m c)
    rw [Pipeline.unscopedBufs_held] at hjoin
    have hH : (Pipeline.unscopedRest (Ix := Unit) (Name := ℕ) (U := Pipeline.UD sig nD τ) (Lvl := ℕ) spec3 c (rd (W7 m) c) : sProp 𝕄)
        = iprop((BI.bigSep H3 fun b => (((c : Thread nD τ)).loc b) ↦{fullShare} rd (W7 m) c b) ∗ (BI.bigSep (Pipeline.restRefs sig spec3 \ H3) fun b => (((c : Thread nD τ)).loc b) ↦{fullShare} rd (W7 m) c b)) := by
      unfold Pipeline.unscopedRest; exact BI.bigSep_sdiff_split H3_sub
    iintro ⟨Ha, HO, ⟨HY, Hw, Htb⟩, HR⟩
    ihave HH := (Entails.of_eq (hbmPts3_eq (rd (W7 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 4 as a segment of @main -/

theorem hF4 (c : Dev nD) (w : Fin 1) :
    (datG4 (rd (W9 (F := F) m)) (inRange4 m) c).arrAt w (pcfgG4 (F := F) (rd (W9 m))).N = rd (W10 m) c (Pipeline.arrRef spec4 w) := by
  match w with
  | ⟨0, _⟩ =>
    show _ = W10 m c (Proc.devRef .tc main_v44)
    unfold W10
    rw [Function.update_self]; rfl
theorem hrest4 (c : Dev nD) : ∀ b, b ∉ Finset.univ.image (Pipeline.arrRef spec4) → rd (F := F) (W10 m) c b = rd (F := F) (W9 m) c b := fun b hb => by
  have hne : b ≠ main_v44 := fun e => hb (Finset.mem_image.mpr ⟨0, Finset.mem_univ _, e.symm⟩)
  show W10 m c (Proc.devRef .tc b) = W9 m c (Proc.devRef .tc b)
  unfold W10
  rw [Function.update_of_ne (StableHlo.devRef_ne_of_ne hne)]

set_option backward.isDefEq.respectTransparency.types false in
/-- Gather region 4: entered with every unscoped buffer at `W9`, left at `W10`. The weight array and the table are
    taken out of the buffers that bypass the region and handed to its invariant, the table as the launch's prefetched
    table; the kernel's thirty-two DMA semaphores go in at zero and come back at zero. -/
def reg4 : Pipeline.RegionSeg (pcfgs (F := F)) (adm m) (pdats m) () defs₀ 𝒱₀ L lv 4 where
  win := (launch4 (F := F)).win.to₀
  block_pos := (launch4 (F := F)).block_pos
  stage_whole := (launch4 (F := F)).stage_whole
  K := Fin 32
  osem := osem4
  ho := ownSemFacts4
  hbody c := (body_obligationG4 (rd (W9 m)) (inRange4 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop((∃ r, prngReg c r) ∗ Pipeline.ownSems0 (Ix := Unit) (Name := ℕ) (U := Pipeline.UD sig nD τ) (Lvl := ℕ) (Val := Elt F) (τ := τ) osem4 c
    ∗ (((c : Thread nD τ).loc main_arg2) ↦{fullShare} rd (W9 m) c main_arg2))
  Y c := iprop((∃ r, prngReg c r) ∗ (((c : Thread nD τ).loc main_arg2) ↦{fullShare} rd (W9 m) c main_arg2)
    ∗ (((c : Thread nD τ).loc main_v43) ↦{fullShare} rd (W9 m) c main_v43))
  Z c := BI.bigSep (Pipeline.restRefs sig spec4 \ H4) fun b => (((c : Thread nD τ)).loc b) ↦{fullShare} rd (W9 m) c b
  hentry c := by
    have hsplit := Pipeline.arrays_of_unscopedBufs (p := 4) (pcfgs (F := F)) (adm m) (pdats m) (launch4 (F := F)).win (launch4 (F := F)).arr_whole c
      ((pdats m 4 c).share_full fun _ => rfl) (rd (W9 m) c) fun _ => rfl
    rw [Pipeline.unscopedBufs_held] at hsplit
    have hH : (Pipeline.unscopedRest (Ix := Unit) (Name := ℕ) (U := Pipeline.UD sig nD τ) (Lvl := ℕ) spec4 c (rd (W9 m) c) : sProp 𝕄)
        = iprop((BI.bigSep H4 fun b => (((c : Thread nD τ)).loc b) ↦{fullShare} rd (W9 m) c b) ∗ (BI.bigSep (Pipeline.restRefs sig spec4 \ H4) fun b => (((c : Thread nD τ)).loc b) ↦{fullShare} rd (W9 m) c b)) := by
      unfold Pipeline.unscopedRest; exact BI.bigSep_sdiff_split H4_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts4_eq (rd (W9 m)) c)) $$ HH
    icases H'' with ⟨Hw, Htb⟩
    imodintro
    isplitl [Ha]; · iexact Ha
    isplitl [Htb]
    · rw [show (Pipeline.prefHeld (pcfgs (F := F) 4).pre c (fun _ => fullShare) (adm m 4).1 : sProp 𝕄)
          = (((c : Thread nD τ).loc main_v43) ↦{fullShare} rd (W9 m) c main_v43) from prefHeld4_eq (rd (W9 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 4 c).Φ 0 = ΦG4 (rd (W9 m)) c from rfl,
      show (Pipeline.prefHeld (pcfgs (F := F) 4).pre c (fun _ => fullShare) (adm m 4).1 : sProp 𝕄)
          = (((c : Thread nD τ).loc main_v43) ↦{fullShare} rd (W9 m) c main_v43) from prefHeld4_eq (rd (W9 m)) c]
    unfold ΦG4
    rw [tbPt4_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 4 c).Φ (Fin.last _) = ΦG4 (rd (W9 m)) c from rfl]
    unfold ΦG4
    rw [tbPt4_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m 4 c).share_full fun _ => rfl)
      (rd (W9 m) c) (rd (W10 m) c) ((pdats m 4 c).arrAt · (pcfgG4 (F := F) (rd (W9 m))).N) (hF4 m c) (hrest4 m c)
    rw [Pipeline.unscopedBufs_held] at hjoin
    have hH : (Pipeline.unscopedRest (Ix := Unit) (Name := ℕ) (U := Pipeline.UD sig nD τ) (Lvl := ℕ) spec4 c (rd (W9 m) c) : sProp 𝕄)
        = iprop((BI.bigSep H4 fun b => (((c : Thread nD τ)).loc b) ↦{fullShare} rd (W9 m) c b) ∗ (BI.bigSep (Pipeline.restRefs sig spec4 \ H4) fun b => (((c : Thread nD τ)).loc b) ↦{fullShare} rd (W9 m) c b)) := by
      unfold Pipeline.unscopedRest; exact BI.bigSep_sdiff_split H4_sub
    iintro ⟨Ha, HO, ⟨HY, Hw, Htb⟩, HR⟩
    ihave HH := (Entails.of_eq (hbmPts4_eq (rd (W9 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 5 as a segment of @main -/

theorem hF5 (c : Dev nD) (w : Fin 1) :
    (datG5 (rd (W11 (F := F) m)) (inRange5 m) c).arrAt w (pcfgG5 (F := F) (rd (W11 m))).N = rd (W12 m) c (Pipeline.arrRef spec5 w) := by
  match w with
  | ⟨0, _⟩ =>
    show _ = W12 m c (Proc.devRef .tc main_v52)
    unfold W12
    rw [Function.update_self]; rfl
theorem hrest5 (c : Dev nD) : ∀ b, b ∉ Finset.univ.image (Pipeline.arrRef spec5) → rd (F := F) (W12 m) c b = rd (F := F) (W11 m) c b := fun b hb => by
  have hne : b ≠ main_v52 := fun e => hb (Finset.mem_image.mpr ⟨0, Finset.mem_univ _, e.symm⟩)
  show W12 m c (Proc.devRef .tc b) = W11 m c (Proc.devRef .tc b)
  unfold W12
  rw [Function.update_of_ne (StableHlo.devRef_ne_of_ne hne)]

set_option backward.isDefEq.respectTransparency.types false in
/-- Gather region 5: entered with every unscoped buffer at `W11`, left at `W12`. The weight array and the table are
    taken out of the buffers that bypass the region and handed to its invariant, the table as the launch's prefetched
    table; the kernel's thirty-two DMA semaphores go in at zero and come back at zero. -/
def reg5 : Pipeline.RegionSeg (pcfgs (F := F)) (adm m) (pdats m) () defs₀ 𝒱₀ L lv 5 where
  win := (launch5 (F := F)).win.to₀
  block_pos := (launch5 (F := F)).block_pos
  stage_whole := (launch5 (F := F)).stage_whole
  K := Fin 32
  osem := osem5
  ho := ownSemFacts5
  hbody c := (body_obligationG5 (rd (W11 m)) (inRange5 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop((∃ r, prngReg c r) ∗ Pipeline.ownSems0 (Ix := Unit) (Name := ℕ) (U := Pipeline.UD sig nD τ) (Lvl := ℕ) (Val := Elt F) (τ := τ) osem5 c
    ∗ (((c : Thread nD τ).loc main_arg2) ↦{fullShare} rd (W11 m) c main_arg2))
  Y c := iprop((∃ r, prngReg c r) ∗ (((c : Thread nD τ).loc main_arg2) ↦{fullShare} rd (W11 m) c main_arg2)
    ∗ (((c : Thread nD τ).loc main_v51) ↦{fullShare} rd (W11 m) c main_v51))
  Z c := BI.bigSep (Pipeline.restRefs sig spec5 \ H5) fun b => (((c : Thread nD τ)).loc b) ↦{fullShare} rd (W11 m) c b
  hentry c := by
    have hsplit := Pipeline.arrays_of_unscopedBufs (p := 5) (pcfgs (F := F)) (adm m) (pdats m) (launch5 (F := F)).win (launch5 (F := F)).arr_whole c
      ((pdats m 5 c).share_full fun _ => rfl) (rd (W11 m) c) fun _ => rfl
    rw [Pipeline.unscopedBufs_held] at hsplit
    have hH : (Pipeline.unscopedRest (Ix := Unit) (Name := ℕ) (U := Pipeline.UD sig nD τ) (Lvl := ℕ) spec5 c (rd (W11 m) c) : sProp 𝕄)
        = iprop((BI.bigSep H5 fun b => (((c : Thread nD τ)).loc b) ↦{fullShare} rd (W11 m) c b) ∗ (BI.bigSep (Pipeline.restRefs sig spec5 \ H5) fun b => (((c : Thread nD τ)).loc b) ↦{fullShare} rd (W11 m) c b)) := by
      unfold Pipeline.unscopedRest; exact BI.bigSep_sdiff_split H5_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts5_eq (rd (W11 m)) c)) $$ HH
    icases H'' with ⟨Hw, Htb⟩
    imodintro
    isplitl [Ha]; · iexact Ha
    isplitl [Htb]
    · rw [show (Pipeline.prefHeld (pcfgs (F := F) 5).pre c (fun _ => fullShare) (adm m 5).1 : sProp 𝕄)
          = (((c : Thread nD τ).loc main_v51) ↦{fullShare} rd (W11 m) c main_v51) from prefHeld5_eq (rd (W11 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 5 c).Φ 0 = ΦG5 (rd (W11 m)) c from rfl,
      show (Pipeline.prefHeld (pcfgs (F := F) 5).pre c (fun _ => fullShare) (adm m 5).1 : sProp 𝕄)
          = (((c : Thread nD τ).loc main_v51) ↦{fullShare} rd (W11 m) c main_v51) from prefHeld5_eq (rd (W11 m)) c]
    unfold ΦG5
    rw [tbPt5_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 5 c).Φ (Fin.last _) = ΦG5 (rd (W11 m)) c from rfl]
    unfold ΦG5
    rw [tbPt5_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m) ((pdats m 5 c).share_full fun _ => rfl)
      (rd (W11 m) c) (rd (W12 m) c) ((pdats m 5 c).arrAt · (pcfgG5 (F := F) (rd (W11 m))).N) (hF5 m c) (hrest5 m c)
    rw [Pipeline.unscopedBufs_held] at hjoin
    have hH : (Pipeline.unscopedRest (Ix := Unit) (Name := ℕ) (U := Pipeline.UD sig nD τ) (Lvl := ℕ) spec5 c (rd (W11 m) c) : sProp 𝕄)
        = iprop((BI.bigSep H5 fun b => (((c : Thread nD τ)).loc b) ↦{fullShare} rd (W11 m) c b) ∗ (BI.bigSep (Pipeline.restRefs sig spec5 \ H5) fun b => (((c : Thread nD τ)).loc b) ↦{fullShare} rd (W11 m) c b)) := by
      unfold Pipeline.unscopedRest; exact BI.bigSep_sdiff_split H5_sub
    iintro ⟨Ha, HO, ⟨HY, Hw, Htb⟩, HR⟩
    ihave HH := (Entails.of_eq (hbmPts5_eq (rd (W11 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 6 as a segment of @main -/

theorem hF6 (c : Dev nD) (w : Fin 1) :
    (datG6 (rd (W13 (F := F) m)) (inRange6 m) c).arrAt w (pcfgG6 (F := F) (rd (W13 m))).N = rd (W14 m) c (Pipeline.arrRef spec6 w) := by
  match w with
  | ⟨0, _⟩ =>
    show _ = W14 m c (Proc.devRef .tc main_v55)
    unfold W14
    rw [Function.update_self]; rfl
theorem hrest6 (c : Dev nD) : ∀ b, b ∉ Finset.univ.image (Pipeline.arrRef spec6) → rd (F := F) (W14 m) c b = rd (F := F) (W13 m) c b := fun b hb => by
  have hne : b ≠ main_v55 := fun e => hb (Finset.mem_image.mpr ⟨0, Finset.mem_univ _, e.symm⟩)
  show W14 m c (Proc.devRef .tc b) = W13 m c (Proc.devRef .tc b)
  unfold W14
  rw [Function.update_of_ne (StableHlo.devRef_ne_of_ne hne)]

set_option backward.isDefEq.respectTransparency.types false in
/-- Gather region 6: entered with every unscoped buffer at `W13`, left at `W14`. The weight array and the table are
    taken out of the buffers that bypass the region and handed to its invariant, the table as the launch's prefetched
    table; the kernel's thirty-two DMA semaphores go in at zero and come back at zero. -/
def reg6 : Pipeline.RegionSeg (pcfgs (F := F)) (adm m) (pdats m) () defs₀ 𝒱₀ L lv 6 where
  win := (launch6 (F := F)).win.to₀
  block_pos := (launch6 (F := F)).block_pos
  stage_whole := (launch6 (F := F)).stage_whole
  K := Fin 32
  osem := osem6
  ho := ownSemFacts6
  hbody c := (body_obligationG6 (rd (W13 m)) (inRange6 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop((∃ r, prngReg c r) ∗ Pipeline.ownSems0 (Ix := Unit) (Name := ℕ) (U := Pipeline.UD sig nD τ) (Lvl := ℕ) (Val := Elt F) (τ := τ) osem6 c
    ∗ (((c : Thread nD τ).loc main_arg2) ↦{fullShare} rd (W13 m) c main_arg2))
  Y c := iprop((∃ r, prngReg c r) ∗ (((c : Thread nD τ).loc main_arg2) ↦{fullShare} rd (W13 m) c main_arg2)
    ∗ (((c : Thread nD τ).loc main_v54) ↦{fullShare} rd (W13 m) c main_v54))
  Z c := BI.bigSep (Pipeline.restRefs sig spec6 \ H6) fun b => (((c : Thread nD τ)).loc b) ↦{fullShare} rd (W13 m) c b
  hentry c := by
    have hsplit := Pipeline.arrays_of_unscopedBufs (p := 6) (pcfgs (F := F)) (adm m) (pdats m) (launch6 (F := F)).win (launch6 (F := F)).arr_whole c
      ((pdats m 6 c).share_full fun _ => rfl) (rd (W13 m) c) fun _ => rfl
    rw [Pipeline.unscopedBufs_held] at hsplit
    have hH : (Pipeline.unscopedRest (Ix := Unit) (Name := ℕ) (U := Pipeline.UD sig nD τ) (Lvl := ℕ) spec6 c (rd (W13 m) c) : sProp 𝕄)
        = iprop((BI.bigSep H6 fun b => (((c : Thread nD τ)).loc b) ↦{fullShare} rd (W13 m) c b) ∗ (BI.bigSep (Pipeline.restRefs sig spec6 \ H6) fun b => (((c : Thread nD τ)).loc b) ↦{fullShare} rd (W13 m) c b)) := by
      unfold Pipeline.unscopedRest; exact BI.bigSep_sdiff_split H6_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts6_eq (rd (W13 m)) c)) $$ HH
    icases H'' with ⟨Hw, Htb⟩
    imodintro
    isplitl [Ha]; · iexact Ha
    isplitl [Htb]
    · rw [show (Pipeline.prefHeld (pcfgs (F := F) 6).pre c (fun _ => fullShare) (adm m 6).1 : sProp 𝕄)
          = (((c : Thread nD τ).loc main_v54) ↦{fullShare} rd (W13 m) c main_v54) from prefHeld6_eq (rd (W13 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 6 c).Φ 0 = ΦG6 (rd (W13 m)) c from rfl,
      show (Pipeline.prefHeld (pcfgs (F := F) 6).pre c (fun _ => fullShare) (adm m 6).1 : sProp 𝕄)
          = (((c : Thread nD τ).loc main_v54) ↦{fullShare} rd (W13 m) c main_v54) from prefHeld6_eq (rd (W13 m)) c]
    unfold ΦG6
    rw [tbPt6_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 6 c).Φ (Fin.last _) = ΦG6 (rd (W13 m)) c from rfl]
    unfold ΦG6
    rw [tbPt6_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m) ((pdats m 6 c).share_full fun _ => rfl)
      (rd (W13 m) c) (rd (W14 m) c) ((pdats m 6 c).arrAt · (pcfgG6 (F := F) (rd (W13 m))).N) (hF6 m c) (hrest6 m c)
    rw [Pipeline.unscopedBufs_held] at hjoin
    have hH : (Pipeline.unscopedRest (Ix := Unit) (Name := ℕ) (U := Pipeline.UD sig nD τ) (Lvl := ℕ) spec6 c (rd (W13 m) c) : sProp 𝕄)
        = iprop((BI.bigSep H6 fun b => (((c : Thread nD τ)).loc b) ↦{fullShare} rd (W13 m) c b) ∗ (BI.bigSep (Pipeline.restRefs sig spec6 \ H6) fun b => (((c : Thread nD τ)).loc b) ↦{fullShare} rd (W13 m) c b)) := by
      unfold Pipeline.unscopedRest; exact BI.bigSep_sdiff_split H6_sub
    iintro ⟨Ha, HO, ⟨HY, Hw, Htb⟩, HR⟩
    ihave HH := (Entails.of_eq (hbmPts6_eq (rd (W13 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 7 as a segment of @main -/

theorem hF7 (c : Dev nD) (w : Fin 1) :
    (datG7 (rd (W15 (F := F) m)) (inRange7 m) c).arrAt w (pcfgG7 (F := F) (rd (W15 m))).N = rd (W16 m) c (Pipeline.arrRef spec7 w) := by
  match w with
  | ⟨0, _⟩ =>
    show _ = W16 m c (Proc.devRef .tc main_v58)
    unfold W16
    rw [Function.update_self]; rfl
theorem hrest7 (c : Dev nD) : ∀ b, b ∉ Finset.univ.image (Pipeline.arrRef spec7) → rd (F := F) (W16 m) c b = rd (F := F) (W15 m) c b := fun b hb => by
  have hne : b ≠ main_v58 := fun e => hb (Finset.mem_image.mpr ⟨0, Finset.mem_univ _, e.symm⟩)
  show W16 m c (Proc.devRef .tc b) = W15 m c (Proc.devRef .tc b)
  unfold W16
  rw [Function.update_of_ne (StableHlo.devRef_ne_of_ne hne)]

set_option backward.isDefEq.respectTransparency.types false in
/-- Gather region 7: entered with every unscoped buffer at `W15`, left at `W16`. The weight array and the table are
    taken out of the buffers that bypass the region and handed to its invariant, the table as the launch's prefetched
    table; the kernel's thirty-two DMA semaphores go in at zero and come back at zero. -/
def reg7 : Pipeline.RegionSeg (pcfgs (F := F)) (adm m) (pdats m) () defs₀ 𝒱₀ L lv 7 where
  win := (launch7 (F := F)).win.to₀
  block_pos := (launch7 (F := F)).block_pos
  stage_whole := (launch7 (F := F)).stage_whole
  K := Fin 32
  osem := osem7
  ho := ownSemFacts7
  hbody c := (body_obligationG7 (rd (W15 m)) (inRange7 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop((∃ r, prngReg c r) ∗ Pipeline.ownSems0 (Ix := Unit) (Name := ℕ) (U := Pipeline.UD sig nD τ) (Lvl := ℕ) (Val := Elt F) (τ := τ) osem7 c
    ∗ (((c : Thread nD τ).loc main_arg2) ↦{fullShare} rd (W15 m) c main_arg2))
  Y c := iprop((∃ r, prngReg c r) ∗ (((c : Thread nD τ).loc main_arg2) ↦{fullShare} rd (W15 m) c main_arg2)
    ∗ (((c : Thread nD τ).loc main_v57) ↦{fullShare} rd (W15 m) c main_v57))
  Z c := BI.bigSep (Pipeline.restRefs sig spec7 \ H7) fun b => (((c : Thread nD τ)).loc b) ↦{fullShare} rd (W15 m) c b
  hentry c := by
    have hsplit := Pipeline.arrays_of_unscopedBufs (p := 7) (pcfgs (F := F)) (adm m) (pdats m) (launch7 (F := F)).win (launch7 (F := F)).arr_whole c
      ((pdats m 7 c).share_full fun _ => rfl) (rd (W15 m) c) fun _ => rfl
    rw [Pipeline.unscopedBufs_held] at hsplit
    have hH : (Pipeline.unscopedRest (Ix := Unit) (Name := ℕ) (U := Pipeline.UD sig nD τ) (Lvl := ℕ) spec7 c (rd (W15 m) c) : sProp 𝕄)
        = iprop((BI.bigSep H7 fun b => (((c : Thread nD τ)).loc b) ↦{fullShare} rd (W15 m) c b) ∗ (BI.bigSep (Pipeline.restRefs sig spec7 \ H7) fun b => (((c : Thread nD τ)).loc b) ↦{fullShare} rd (W15 m) c b)) := by
      unfold Pipeline.unscopedRest; exact BI.bigSep_sdiff_split H7_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts7_eq (rd (W15 m)) c)) $$ HH
    icases H'' with ⟨Hw, Htb⟩
    imodintro
    isplitl [Ha]; · iexact Ha
    isplitl [Htb]
    · rw [show (Pipeline.prefHeld (pcfgs (F := F) 7).pre c (fun _ => fullShare) (adm m 7).1 : sProp 𝕄)
          = (((c : Thread nD τ).loc main_v57) ↦{fullShare} rd (W15 m) c main_v57) from prefHeld7_eq (rd (W15 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 7 c).Φ 0 = ΦG7 (rd (W15 m)) c from rfl,
      show (Pipeline.prefHeld (pcfgs (F := F) 7).pre c (fun _ => fullShare) (adm m 7).1 : sProp 𝕄)
          = (((c : Thread nD τ).loc main_v57) ↦{fullShare} rd (W15 m) c main_v57) from prefHeld7_eq (rd (W15 m)) c]
    unfold ΦG7
    rw [tbPt7_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 7 c).Φ (Fin.last _) = ΦG7 (rd (W15 m)) c from rfl]
    unfold ΦG7
    rw [tbPt7_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m) ((pdats m 7 c).share_full fun _ => rfl)
      (rd (W15 m) c) (rd (W16 m) c) ((pdats m 7 c).arrAt · (pcfgG7 (F := F) (rd (W15 m))).N) (hF7 m c) (hrest7 m c)
    rw [Pipeline.unscopedBufs_held] at hjoin
    have hH : (Pipeline.unscopedRest (Ix := Unit) (Name := ℕ) (U := Pipeline.UD sig nD τ) (Lvl := ℕ) spec7 c (rd (W15 m) c) : sProp 𝕄)
        = iprop((BI.bigSep H7 fun b => (((c : Thread nD τ)).loc b) ↦{fullShare} rd (W15 m) c b) ∗ (BI.bigSep (Pipeline.restRefs sig spec7 \ H7) fun b => (((c : Thread nD τ)).loc b) ↦{fullShare} rd (W15 m) c b)) := by
      unfold Pipeline.unscopedRest; exact BI.bigSep_sdiff_split H7_sub
    iintro ⟨Ha, HO, ⟨HY, Hw, Htb⟩, HR⟩
    ihave HH := (Entails.of_eq (hbmPts7_eq (rd (W15 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 8 as a segment of @main -/

theorem hF8 (c : Dev nD) (w : Fin 1) :
    (datG8 (rd (W17 (F := F) m)) (inRange8 m) c).arrAt w (pcfgG8 (F := F) (rd (W17 m))).N = rd (W18 m) c (Pipeline.arrRef spec8 w) := by
  match w with
  | ⟨0, _⟩ =>
    show _ = W18 m c (Proc.devRef .tc main_v61)
    unfold W18
    rw [Function.update_self]; rfl
theorem hrest8 (c : Dev nD) : ∀ b, b ∉ Finset.univ.image (Pipeline.arrRef spec8) → rd (F := F) (W18 m) c b = rd (F := F) (W17 m) c b := fun b hb => by
  have hne : b ≠ main_v61 := fun e => hb (Finset.mem_image.mpr ⟨0, Finset.mem_univ _, e.symm⟩)
  show W18 m c (Proc.devRef .tc b) = W17 m c (Proc.devRef .tc b)
  unfold W18
  rw [Function.update_of_ne (StableHlo.devRef_ne_of_ne hne)]

set_option backward.isDefEq.respectTransparency.types false in
/-- Gather region 8: entered with every unscoped buffer at `W17`, left at `W18`. The weight array and the table are
    taken out of the buffers that bypass the region and handed to its invariant, the table as the launch's prefetched
    table; the kernel's thirty-two DMA semaphores go in at zero and come back at zero. -/
def reg8 : Pipeline.RegionSeg (pcfgs (F := F)) (adm m) (pdats m) () defs₀ 𝒱₀ L lv 8 where
  win := (launch8 (F := F)).win.to₀
  block_pos := (launch8 (F := F)).block_pos
  stage_whole := (launch8 (F := F)).stage_whole
  K := Fin 32
  osem := osem8
  ho := ownSemFacts8
  hbody c := (body_obligationG8 (rd (W17 m)) (inRange8 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop((∃ r, prngReg c r) ∗ Pipeline.ownSems0 (Ix := Unit) (Name := ℕ) (U := Pipeline.UD sig nD τ) (Lvl := ℕ) (Val := Elt F) (τ := τ) osem8 c
    ∗ (((c : Thread nD τ).loc main_arg2) ↦{fullShare} rd (W17 m) c main_arg2))
  Y c := iprop((∃ r, prngReg c r) ∗ (((c : Thread nD τ).loc main_arg2) ↦{fullShare} rd (W17 m) c main_arg2)
    ∗ (((c : Thread nD τ).loc main_v60) ↦{fullShare} rd (W17 m) c main_v60))
  Z c := BI.bigSep (Pipeline.restRefs sig spec8 \ H8) fun b => (((c : Thread nD τ)).loc b) ↦{fullShare} rd (W17 m) c b
  hentry c := by
    have hsplit := Pipeline.arrays_of_unscopedBufs (p := 8) (pcfgs (F := F)) (adm m) (pdats m) (launch8 (F := F)).win (launch8 (F := F)).arr_whole c
      ((pdats m 8 c).share_full fun _ => rfl) (rd (W17 m) c) fun _ => rfl
    rw [Pipeline.unscopedBufs_held] at hsplit
    have hH : (Pipeline.unscopedRest (Ix := Unit) (Name := ℕ) (U := Pipeline.UD sig nD τ) (Lvl := ℕ) spec8 c (rd (W17 m) c) : sProp 𝕄)
        = iprop((BI.bigSep H8 fun b => (((c : Thread nD τ)).loc b) ↦{fullShare} rd (W17 m) c b) ∗ (BI.bigSep (Pipeline.restRefs sig spec8 \ H8) fun b => (((c : Thread nD τ)).loc b) ↦{fullShare} rd (W17 m) c b)) := by
      unfold Pipeline.unscopedRest; exact BI.bigSep_sdiff_split H8_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts8_eq (rd (W17 m)) c)) $$ HH
    icases H'' with ⟨Hw, Htb⟩
    imodintro
    isplitl [Ha]; · iexact Ha
    isplitl [Htb]
    · rw [show (Pipeline.prefHeld (pcfgs (F := F) 8).pre c (fun _ => fullShare) (adm m 8).1 : sProp 𝕄)
          = (((c : Thread nD τ).loc main_v60) ↦{fullShare} rd (W17 m) c main_v60) from prefHeld8_eq (rd (W17 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 8 c).Φ 0 = ΦG8 (rd (W17 m)) c from rfl,
      show (Pipeline.prefHeld (pcfgs (F := F) 8).pre c (fun _ => fullShare) (adm m 8).1 : sProp 𝕄)
          = (((c : Thread nD τ).loc main_v60) ↦{fullShare} rd (W17 m) c main_v60) from prefHeld8_eq (rd (W17 m)) c]
    unfold ΦG8
    rw [tbPt8_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 8 c).Φ (Fin.last _) = ΦG8 (rd (W17 m)) c from rfl]
    unfold ΦG8
    rw [tbPt8_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m) ((pdats m 8 c).share_full fun _ => rfl)
      (rd (W17 m) c) (rd (W18 m) c) ((pdats m 8 c).arrAt · (pcfgG8 (F := F) (rd (W17 m))).N) (hF8 m c) (hrest8 m c)
    rw [Pipeline.unscopedBufs_held] at hjoin
    have hH : (Pipeline.unscopedRest (Ix := Unit) (Name := ℕ) (U := Pipeline.UD sig nD τ) (Lvl := ℕ) spec8 c (rd (W17 m) c) : sProp 𝕄)
        = iprop((BI.bigSep H8 fun b => (((c : Thread nD τ)).loc b) ↦{fullShare} rd (W17 m) c b) ∗ (BI.bigSep (Pipeline.restRefs sig spec8 \ H8) fun b => (((c : Thread nD τ)).loc b) ↦{fullShare} rd (W17 m) c b)) := by
      unfold Pipeline.unscopedRest; exact BI.bigSep_sdiff_split H8_sub
    iintro ⟨Ha, HO, ⟨HY, Hw, Htb⟩, HR⟩
    ihave HH := (Entails.of_eq (hbmPts8_eq (rd (W17 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The generated boundary valuations, at these results, are the `W`s -/

/-- What each region leaves in the buffer it may change, read off the boundary contents. -/
def outsW : Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | 16 => W16 m c (Proc.devRef .tc r)
  | 18 => W18 m c (Proc.devRef .tc r)
  | _ => W0 m c (Proc.devRef .tc r)

theorem V1_eq (c : Dev nD) : V1 m c = W1 (F := F) m c := rfl
theorem V2_eq (c : Dev nD) : V2 m (outsW m) c = W2 (F := F) m c := by
  show Function.update (V1 m c) (Proc.devRef .tc main_v2) (W2 m c (Proc.devRef .tc main_v2)) = W2 m c
  rw [V1_eq]; unfold W2; rw [Function.update_self]
theorem V3_eq (c : Dev nD) : V3 m (outsW m) c = W3 (F := F) m c := by
  show StableHlo.after hostOps1 (V2 m (outsW m) c) = W3 m c
  rw [V2_eq]; rfl
theorem V4_eq (c : Dev nD) : V4 m (outsW m) c = W4 (F := F) m c := by
  show Function.update (V3 m (outsW m) c) (Proc.devRef .tc main_v35) (W4 m c (Proc.devRef .tc main_v35)) = W4 m c
  rw [V3_eq]; unfold W4; rw [Function.update_self]
theorem V5_eq (c : Dev nD) : V5 m (outsW m) c = W5 (F := F) m c := by
  show StableHlo.after hostOps2 (V4 m (outsW m) c) = W5 m c
  rw [V4_eq]; rfl
theorem V6_eq (c : Dev nD) : V6 m (outsW m) c = W6 (F := F) m c := by
  show Function.update (V5 m (outsW m) c) (Proc.devRef .tc main_v38) (W6 m c (Proc.devRef .tc main_v38)) = W6 m c
  rw [V5_eq]; unfold W6; rw [Function.update_self]
theorem V7_eq (c : Dev nD) : V7 m (outsW m) c = W7 (F := F) m c := by
  show StableHlo.after hostOps3 (V6 m (outsW m) c) = W7 m c
  rw [V6_eq]; rfl
theorem V8_eq (c : Dev nD) : V8 m (outsW m) c = W8 (F := F) m c := by
  show Function.update (V7 m (outsW m) c) (Proc.devRef .tc main_v41) (W8 m c (Proc.devRef .tc main_v41)) = W8 m c
  rw [V7_eq]; unfold W8; rw [Function.update_self]
theorem V9_eq (c : Dev nD) : V9 m (outsW m) c = W9 (F := F) m c := by
  show StableHlo.after hostOps4 (V8 m (outsW m) c) = W9 m c
  rw [V8_eq]; rfl
theorem V10_eq (c : Dev nD) : V10 m (outsW m) c = W10 (F := F) m c := by
  show Function.update (V9 m (outsW m) c) (Proc.devRef .tc main_v44) (W10 m c (Proc.devRef .tc main_v44)) = W10 m c
  rw [V9_eq]; unfold W10; rw [Function.update_self]
theorem V11_eq (c : Dev nD) : V11 m (outsW m) c = W11 (F := F) m c := by
  show StableHlo.after hostOps5 (V10 m (outsW m) c) = W11 m c
  rw [V10_eq]; rfl
theorem V12_eq (c : Dev nD) : V12 m (outsW m) c = W12 (F := F) m c := by
  show Function.update (V11 m (outsW m) c) (Proc.devRef .tc main_v52) (W12 m c (Proc.devRef .tc main_v52)) = W12 m c
  rw [V11_eq]; unfold W12; rw [Function.update_self]
theorem V13_eq (c : Dev nD) : V13 m (outsW m) c = W13 (F := F) m c := by
  show StableHlo.after hostOps6 (V12 m (outsW m) c) = W13 m c
  rw [V12_eq]; rfl
theorem V14_eq (c : Dev nD) : V14 m (outsW m) c = W14 (F := F) m c := by
  show Function.update (V13 m (outsW m) c) (Proc.devRef .tc main_v55) (W14 m c (Proc.devRef .tc main_v55)) = W14 m c
  rw [V13_eq]; unfold W14; rw [Function.update_self]
theorem V15_eq (c : Dev nD) : V15 m (outsW m) c = W15 (F := F) m c := by
  show StableHlo.after hostOps7 (V14 m (outsW m) c) = W15 m c
  rw [V14_eq]; rfl
theorem V16_eq (c : Dev nD) : V16 m (outsW m) c = W16 (F := F) m c := by
  show Function.update (V15 m (outsW m) c) (Proc.devRef .tc main_v58) (W16 m c (Proc.devRef .tc main_v58)) = W16 m c
  rw [V15_eq]; unfold W16; rw [Function.update_self]
theorem V17_eq (c : Dev nD) : V17 m (outsW m) c = W17 (F := F) m c := by
  show StableHlo.after hostOps8 (V16 m (outsW m) c) = W17 m c
  rw [V16_eq]; rfl
theorem V18_eq (c : Dev nD) : V18 m (outsW m) c = W18 (F := F) m c := by
  show Function.update (V17 m (outsW m) c) (Proc.devRef .tc main_v61) (W18 m c (Proc.devRef .tc main_v61)) = W18 m c
  rw [V17_eq]; unfold W18; rw [Function.update_self]
theorem V19_eq (c : Dev nD) : V19 m (outsW m) c = W19 (F := F) m c := by
  show StableHlo.after hostOps9 (V18 m (outsW m) c) = W19 m c
  rw [V18_eq]; rfl

variable (ρ : Dev nD → PrngReg)

set_option backward.isDefEq.respectTransparency.types false in
/-- THE FRAME, at any float instance: every weakly fair execution of @main from memory `m` terminates, nothing faults, and
    the three argument arrays end as launched — the nine regions' records chained through @main's host stretches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := Pipeline.UD sig nD τ) (Lvl := ℕ) embL () 𝒱₀ L lv (fun _ _ => rfl) ρ (outsW m) (adm m) (pdats m)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ BI.bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

end Run

end Cert.Kernel.Hand

end
-- ==== Proof.KernelIdealProj.lean ====
/-
  The projection kernel's region: at each of its four grid points the body multiplies the whole flattened hidden
  block by one subtable's transposed weight block and stores the product into that subtable's output block.
  Stated here: what the body leaves in the output block, the body's triple, the pipeline's proof data over the
  contents `V` the region is entered with, and the body obligation at every point. Everything is stated at any
  float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # The projection kernel (the first pallas_call): one grid point per subtable `s`

At point `s` the body loads the whole flattened hidden block (2048 × 256) and subtable `s`'s transposed weight block
(256 × 256), multiplies them on the matrix unit into a zero accumulator, and stores the product whole into the
output block `s`. -/

section Proj
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or kept it. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rH : Rect S2048x256 := Rect.unit (s := S2048x256) ![0, 0] S2048x256.size inb_S2048x256_S2048x256_0_0
abbrev rW : Rect S1x256x256 := Rect.unit (s := S1x256x256) ![0, 0, 0] S1x256x256.size inb_S1x256x256_S1x256x256_0_0_0
abbrev rO : Rect S1x2048x256 := Rect.unit (s := S1x2048x256) ![0, 0, 0] S1x2048x256.size inb_S1x2048x256_S1x2048x256_0_0_0

/-- The output block after the body: the product of the hidden block and the weight block, stored whole. -/
def projOut (x0 : Vec F S2048x256 .f32) (x1 : Vec F S1x256x256 .f32) : Vec F S1x2048x256 .f32 :=
  View.canon [⟨rO, k0_pay1 (View.ld x0 rH) (View.ld x1 rW)⟩]

theorem projCover (p0 : Vec F S1x2048x256 .f32) (y : S1x2048x256.Idx) :
    ∃ pc ∈ ([⟨rO, p0⟩] : List (View.Piece (Elt F) S1x2048x256 .f32)), y ∈ pc.1.set :=
  View.cover_of_tiled [⟨rO, p0⟩] S1x2048x256.size (by rfl) y

set_option maxHeartbeats 4000000 in
/-- The body on whole staging buffers: the two inputs are left as they were, the output holds `projOut` of them. -/
theorem sound_proj (c : Dev nD) (E : Set ℕ) (i : grid0.Coords) (arg1 : Memref sig .tc .vmem S2048x256 .f32) (harg1 : arg1.IsWhole)
    (arg2 : Memref sig .tc .vmem S1x256x256 .f32) (harg2 : arg2.IsWhole) (arg3 : Memref sig .tc .vmem S1x2048x256 .f32) (harg3 : arg3.IsWhole)
    (x0 : Vec F S2048x256 .f32) (x1 : Vec F S1x256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The proof data of the projection pipeline on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => projOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = projOut (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_proj c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Proj

end Cert.KernelIdeal.Hand

end
-- ==== Proof.KernelIdealTables.lean ====
/-
  The row-index tables are in range. On the host, eight sign bits of a float array are packed into a code
  `0 ≤ code ≤ 255`; two consecutive codes make an address `code[t] + code[t + 1] · 256 ≤ 65535`; the row index is
  `s · 2097152 + r · 65536 + address` with `s < 4` and `r < 32`, so at most `3 · 2097152 + 31 · 65536 + 65535 = 8388607`.
  Every table the kernel reads is a block of that array, so every word of every table, read as a natural number,
  is below `8388608`. The float array is arbitrary and so is the float instance: the comparison's result is one bit,
  whatever it is. All bounds are upper bounds on `BitVec.toNat`, which wrapping arithmetic can only lower.
-/
import proofs.«145402_j1717986918579_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Reduce
noncomputable section
namespace Cert.KernelIdeal.Hand
open Cert.KernelIdeal Cert.KernelIdeal.Gen Idealize.ShloMosaic Idealize.ShloMosaic.TcCoe Idealize.SL.Sem
variable {F : FTy → Type} [FloatOps F]

/-! The auxiliary definitions and bounds live in `Tables`, so that their short names meet no other module's. -/

namespace Tables

/-! ## Entrywise bounds

A layout operation (reshape, transpose, slice, broadcast) writes at each index one entry of its operand, so
a bound on every entry of the operand bounds every entry of the result. A 32-bit sum or product read as a natural
number is at most the sum or product of its operands read so: it can only wrap downward. -/

section Entrywise

variable {s t : Shape} {w n : ℕ}

theorem shapeCast_le (x : IVec s w) (h : s.ShapeCasts t) (hx : ∀ k, (x k).toNat ≤ n) :
    ∀ j, (shapeCast t x h j).toNat ≤ n := fun _ => hx _

theorem transpose_le (perm : List (Fin s.rank)) (x : IVec s w) (h : s.Transposes perm t)
    (hx : ∀ k, (x k).toNat ≤ n) : ∀ j, (transpose t perm x h j).toNat ≤ n := fun _ => hx _

theorem slice_le (off : Fin s.rank → ℕ) (x : IVec s w) (h : s.Slices off t)
    (hx : ∀ k, (x k).toNat ≤ n) : ∀ j, (extractStridedSlice t off x h j).toNat ≤ n := fun _ => hx _

theorem bcast_le (dims : Fin s.rank → Fin t.rank) (h : s.BroadcastsInDim t dims) (x : IVec s w)
    (hx : ∀ k, (x k).toNat ≤ n) : ∀ j, (broadcastInDim t dims h x j).toNat ≤ n := fun _ => hx _

theorem addi_le (x y : IVec s 32) (a b : ℕ) (hx : ∀ i, (x i).toNat ≤ a) (hy : ∀ i, (y i).toNat ≤ b) (hn : a + b ≤ n) :
    ∀ i, (addi x y i).toNat ≤ n := fun i => by
  show (x i + y i).toNat ≤ n
  rw [BitVec.toNat_add]
  exact (Nat.mod_le _ _).trans ((Nat.add_le_add (hx i) (hy i)).trans hn)

theorem muli_le (x y : IVec s 32) (a b : ℕ) (hx : ∀ i, (x i).toNat ≤ a) (hy : ∀ i, (y i).toNat ≤ b) (hn : a * b ≤ n) :
    ∀ i, (muli x y i).toNat ≤ n := fun i => by
  show (x i * y i).toNat ≤ n
  rw [BitVec.toNat_mul]
  exact (Nat.mod_le _ _).trans ((Nat.mul_le_mul (hx i) (hy i)).trans hn)

/-- An iota along an axis of size at most `n + 1` is at most `n`. -/
theorem iota_le (d : Fin s.rank) (hn : s.size d ≤ n + 1) : ∀ i, (iotaInDim s 32 d i).toNat ≤ n := fun i => by
  show (BitVec.ofNat 32 (i d).val).toNat ≤ n
  rw [BitVec.toNat_ofNat]
  have := (i d).isLt
  exact (Nat.mod_le _ _).trans (by omega)

theorem const_le (b : BitVec 32) (hb : b.toNat ≤ n) : ∀ i, (constantI s 32 b i).toNat ≤ n := fun _ => hb

/-- A fold of 32-bit addition over a finite set, read as a natural number, is at most the initial value plus the
    sum of the entries. -/
theorem fold_addi_le {ι : Type} (S : Finset ι) (g : ι → BitVec 32) (b : BitVec 32) :
    (S.fold IntOp.addi b g).toNat ≤ b.toNat + ∑ k ∈ S, (g k).toNat := by
  induction S using Finset.cons_induction with
  | empty => simp
  | cons a S ha ih =>
    rw [Finset.fold_cons, Finset.sum_cons]
    show (g a + _).toNat ≤ _
    rw [BitVec.toNat_add]
    exact (Nat.mod_le _ _).trans (by omega)

end Entrywise

/-! ## The codes

`codes` packs eight sign bits into one word: bit `k` of the word at `(b, s, t, r)` is the bit at `(b, s, t, r, k)`,
so a code is at most `2⁸ - 1`. -/

/-- The shift amounts: at `(b, s, t, r, k)` the amount is `k`. -/
abbrev shifts : IVec S2x4x1024x32x8 32 :=
  broadcastInDim S2x4x1024x32x8 ![0, 1, 2, 3, 4] bcast_S1x1x1x1x8_S2x4x1024x32x8_0_1_2_3_4
    (broadcastInDim S1x1x1x1x8 ![4] bcast_S8_S1x1x1x1x8_4 (iotaInDim S8 32 0))

theorem shifts_apply (i : S2x4x1024x32x8.Idx) : shifts i = BitVec.ofNat 32 (i 4).val := rfl

/-- One bit moved to position `k` is at most `2 ^ k`. -/
theorem bit_le (c : IVec S2x4x1024x32x8 1) (i : S2x4x1024x32x8.Idx) :
    (Host.shli (extui 32 c natLt_1_32) shifts i).toNat ≤ 2 ^ (i 4).val := by
  show (IntOp.shli .host ((c i).setWidth 32) (shifts i)).toNat ≤ _
  rw [shifts_apply]
  have hk : (i 4).val < 8 := (i 4).isLt
  have hs : (BitVec.ofNat 32 (i 4).val).toNat = (i 4).val := by
    rw [BitVec.toNat_ofNat]; exact Nat.mod_eq_of_lt (by omega)
  have hc : ((c i).setWidth 32).toNat ≤ 1 := by
    rw [BitVec.toNat_setWidth]; have := (c i).isLt; exact (Nat.mod_le _ _).trans (by omega)
  unfold IntOp.shli
  rw [if_pos (by rw [hs]; omega), BitVec.shiftLeft_eq', hs, BitVec.toNat_shiftLeft, Nat.shiftLeft_eq]
  exact (Nat.mod_le _ _).trans ((Nat.mul_le_mul_right _ hc).trans (by rw [Nat.one_mul]))

theorem reduces4 : S2x4x1024x32x8.Reduces [4] S2x4x1024x32 := by decide

theorem lift4 (j : S2x4x1024x32.Idx) (k : Fin (S2x4x1024x32x8.size 4)) : ((reduces4.lift j k) 4).val = k.val := rfl

theorem codes_le (c : IVec S2x4x1024x32x8 1) :
    ∀ j, (Host.reduce IntOp.addi (Host.shli (extui 32 c natLt_1_32) shifts) (constantI S_ 32 0#32)
      reducesTo_S2x4x1024x32x8_S2x4x1024x32_d4 h_S_ j).toNat ≤ 255 := fun j => by
  rw [Host.reduce_eq_fold_single IntOp.addi _ _ reducesTo_S2x4x1024x32x8_S2x4x1024x32_d4 reduces4 h_S_ j]
  refine (fold_addi_le _ _ _).trans ?_
  have hterm : ∀ k : Fin (S2x4x1024x32x8.size 4),
      (((Host.shli (extui 32 c natLt_1_32) shifts) ∘ reduces4.lift j) k).toNat ≤ 2 ^ k.val := fun k => by
    have := bit_le c (reduces4.lift j k)
    rwa [lift4] at this
  refine (Nat.add_le_add_left (Finset.sum_le_sum fun k _ => hterm k) _).trans ?_
  show (0#32).toNat + ∑ k : Fin 8, 2 ^ k.val ≤ 255
  decide

/-! ## The row indices

`addr = codes[t] + codes[t + 1] · 256 ≤ 255 + 255 · 256 = 65535`; the base `s · 2097152 + r · 65536` with `s < 4` and
`r < 32` is at most `3 · 2097152 + 31 · 65536 = 8323072`; their sum is at most `8388607`. -/

/-- The codes of a bit array. -/
abbrev codes (c : IVec S2x4x1024x32x8 1) : IVec S2x4x1024x32 32 :=
  Host.reduce IntOp.addi (Host.shli (extui 32 c natLt_1_32) shifts) (constantI S_ 32 0#32)
    reducesTo_S2x4x1024x32x8_S2x4x1024x32_d4 h_S_

/-- Two consecutive codes as one 16-bit address. -/
abbrev addr (c : IVec S2x4x1024x32x8 1) : IVec S2x4x1023x32 32 :=
  addi (extractStridedSlice S2x4x1023x32 ![0, 0, 0, 0] (codes c) slices_S2x4x1024x32_S2x4x1023x32_0_0_0_0)
    (muli (extractStridedSlice S2x4x1023x32 ![0, 0, 1, 0] (codes c) slices_S2x4x1024x32_S2x4x1023x32_0_0_1_0)
      (broadcastInDim S2x4x1023x32 ![] bcast_S_S2x4x1023x32 (constantI S_ 32 256#32)))

theorem addr_le (c : IVec S2x4x1024x32x8 1) : ∀ i, (addr c i).toNat ≤ 65535 :=
  addi_le _ _ 255 65280 (slice_le _ _ _ (codes_le c))
    (muli_le _ _ 255 256 (slice_le _ _ _ (codes_le c)) (bcast_le _ _ _ (const_le 256#32 (by decide))) (by decide))
    (by decide)

/-- `s · 2097152` at `(0, s, 0, 0)`. -/
abbrev baseS : IVec S1x4x1x1 32 :=
  shapeCast S1x4x1x1 (muli (iotaInDim S4 32 0) (broadcastInDim S4 ![] bcast_S_S4 (constantI S_ 32 2097152#32)))
    shapeCasts_S4_S1x4x1x1

theorem baseS_le : ∀ i, (baseS i).toNat ≤ 6291456 :=
  shapeCast_le _ _ (muli_le _ _ 3 2097152 (iota_le (s := S4) 0 (by decide))
    (bcast_le _ _ _ (const_le 2097152#32 (by decide))) (by decide))

/-- `r · 65536` at `(0, 0, 0, r)`. -/
abbrev baseR : IVec S1x1x1x32 32 :=
  shapeCast S1x1x1x32 (muli (iotaInDim S32 32 0) (broadcastInDim S32 ![] bcast_S_S32 (constantI S_ 32 65536#32)))
    shapeCasts_S32_S1x1x1x32

theorem baseR_le : ∀ i, (baseR i).toNat ≤ 2031616 :=
  shapeCast_le _ _ (muli_le _ _ 31 65536 (iota_le (s := S32) 0 (by decide))
    (bcast_le _ _ _ (const_le 65536#32 (by decide))) (by decide))

/-- The base `s · 2097152 + r · 65536` at `(b, s, t, r)`. -/
abbrev base : IVec S2x4x1023x32 32 :=
  broadcastInDim S2x4x1023x32 ![0, 1, 2, 3] bcast_S1x4x1x32_S2x4x1023x32_0_1_2_3
    (addi (broadcastInDim S1x4x1x32 ![0, 1, 2, 3] bcast_S1x4x1x1_S1x4x1x32_0_1_2_3 baseS)
      (broadcastInDim S1x4x1x32 ![0, 1, 2, 3] bcast_S1x1x1x32_S1x4x1x32_0_1_2_3 baseR))

theorem base_le : ∀ i, (base i).toNat ≤ 8323072 :=
  bcast_le _ _ _ (addi_le _ _ 6291456 2031616 (bcast_le _ _ _ baseS_le) (bcast_le _ _ _ baseR_le) (by decide))

/-- The row indices, `[2, 4, 32, 1023]`. -/
abbrev gidx (c : IVec S2x4x1024x32x8 1) : IVec S2x4x32x1023 32 :=
  transpose S2x4x32x1023 [0, 1, 3, 2] (addi base (addr c)) transposes_S2x4x1023x32_S2x4x32x1023_0_1_3_2

theorem gidx_le (c : IVec S2x4x1024x32x8 1) : ∀ i, (gidx c i).toNat ≤ 8388607 :=
  transpose_le _ _ _ (addi_le _ _ 8323072 65535 base_le (addr_le c) (by decide))

end Tables

open Tables

/-! ## The tables

`main_v32` is the row indices of the sign bits of `main_v2`; each table is one `[1, 1, 32, 1023]` block of it as
`[32, 1023]`. -/

open Idealize.ShloMosaic.StableHlo in
theorem v32_lt (V : Valuation τ sig (Elt F)) :
    ∀ i, ((StableHlo.after (hostOps1 (F := F)) V (Proc.devRef .tc main_v32)) i).toNat < 8388608 := by
  simp only [hostOps1]
  after_results_simp
  exact fun i => Nat.lt_succ_of_le (gidx_le _ i)

open Idealize.ShloMosaic.StableHlo in
theorem tbl34_lt (V : Valuation τ sig (Elt F)) :
    ∀ j, ((StableHlo.after (hostOps1 (F := F)) V (Proc.devRef .tc main_v34)) j).toNat < 8388608 := by
  simp only [hostOps1]
  after_results_simp
  exact fun j => Nat.lt_succ_of_le (shapeCast_le _ _ (slice_le _ _ _ (gidx_le _)) j)

open Idealize.ShloMosaic.StableHlo in
theorem tbl37_lt (V : Valuation τ sig (Elt F)) (h : ∀ i, ((V (Proc.devRef .tc main_v32)) i).toNat < 8388608) :
    ∀ j, ((StableHlo.after (hostOps2 (F := F)) V (Proc.devRef .tc main_v37)) j).toNat < 8388608 := by
  simp only [hostOps2]
  after_results_simp
  exact fun j => Nat.lt_succ_of_le (shapeCast_le _ _ (slice_le _ _ _ fun i => Nat.le_of_lt_succ (h i)) j)

open Idealize.ShloMosaic.StableHlo in
theorem tbl40_lt (V : Valuation τ sig (Elt F)) (h : ∀ i, ((V (Proc.devRef .tc main_v32)) i).toNat < 8388608) :
    ∀ j, ((StableHlo.after (hostOps3 (F := F)) V (Proc.devRef .tc main_v40)) j).toNat < 8388608 := by
  simp only [hostOps3]
  after_results_simp
  exact fun j => Nat.lt_succ_of_le (shapeCast_le _ _ (slice_le _ _ _ fun i => Nat.le_of_lt_succ (h i)) j)

open Idealize.ShloMosaic.StableHlo in
theorem tbl43_lt (V : Valuation τ sig (Elt F)) (h : ∀ i, ((V (Proc.devRef .tc main_v32)) i).toNat < 8388608) :
    ∀ j, ((StableHlo.after (hostOps4 (F := F)) V (Proc.devRef .tc main_v43)) j).toNat < 8388608 := by
  simp only [hostOps4]
  after_results_simp
  exact fun j => Nat.lt_succ_of_le (shapeCast_le _ _ (slice_le _ _ _ fun i => Nat.le_of_lt_succ (h i)) j)

open Idealize.ShloMosaic.StableHlo in
theorem tbl51_lt (V : Valuation τ sig (Elt F)) (h : ∀ i, ((V (Proc.devRef .tc main_v32)) i).toNat < 8388608) :
    ∀ j, ((StableHlo.after (hostOps5 (F := F)) V (Proc.devRef .tc main_v51)) j).toNat < 8388608 := by
  simp only [hostOps5]
  after_results_simp
  exact fun j => Nat.lt_succ_of_le (shapeCast_le _ _ (slice_le _ _ _ fun i => Nat.le_of_lt_succ (h i)) j)

open Idealize.ShloMosaic.StableHlo in
theorem tbl54_lt (V : Valuation τ sig (Elt F)) (h : ∀ i, ((V (Proc.devRef .tc main_v32)) i).toNat < 8388608) :
    ∀ j, ((StableHlo.after (hostOps6 (F := F)) V (Proc.devRef .tc main_v54)) j).toNat < 8388608 := by
  simp only [hostOps6]
  after_results_simp
  exact fun j => Nat.lt_succ_of_le (shapeCast_le _ _ (slice_le _ _ _ fun i => Nat.le_of_lt_succ (h i)) j)

open Idealize.ShloMosaic.StableHlo in
theorem tbl57_lt (V : Valuation τ sig (Elt F)) (h : ∀ i, ((V (Proc.devRef .tc main_v32)) i).toNat < 8388608) :
    ∀ j, ((StableHlo.after (hostOps7 (F := F)) V (Proc.devRef .tc main_v57)) j).toNat < 8388608 := by
  simp only [hostOps7]
  after_results_simp
  exact fun j => Nat.lt_succ_of_le (shapeCast_le _ _ (slice_le _ _ _ fun i => Nat.le_of_lt_succ (h i)) j)

open Idealize.ShloMosaic.StableHlo in
theorem tbl60_lt (V : Valuation τ sig (Elt F)) (h : ∀ i, ((V (Proc.devRef .tc main_v32)) i).toNat < 8388608) :
    ∀ j, ((StableHlo.after (hostOps8 (F := F)) V (Proc.devRef .tc main_v60)) j).toNat < 8388608 := by
  simp only [hostOps8]
  after_results_simp
  exact fun j => Nat.lt_succ_of_le (shapeCast_le _ _ (slice_le _ _ _ fun i => Nat.le_of_lt_succ (h i)) j)

end Cert.KernelIdeal.Hand
end
-- ==== Proof.KernelIdealCommon.lean ====
/-
  Shared by the eight gather regions: the weight array as the kernels receive it, the spelling of "a buffer held at
  a share", the read shares a buffer splits into when several copies read it at once, and the arithmetic fact that a
  row index below 8388608 names a row of the weight array.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row `n` of the weight array, eight entries wide, lies inside the array when `n` is one of its 8388608 rows. -/
theorem row_inb (n : Nat) (h : n < 8388608) : ∀ a, (![n, 0] : Fin 2 → Nat) a + S1x8.size a ≤ S8388608x8.size a := by
  intro a; match a with
  | ⟨0, _⟩ => show n + 1 ≤ 8388608; omega
  | ⟨1, _⟩ => show 0 + 8 ≤ 8; omega

/-- The weight array, left in HBM, as the kernels receive it: whole. -/
abbrev hbM : Memref sig .tc .hbm S8388608x8 .f32 := Memref.whole main_arg2
/-- The contents type of a memref's buffer on core `c`. -/
abbrev HbBuf (c : Dev nD) {sp : Space} {S : Shape} {e : EltTy} (M : Memref sig .tc sp S e) : Type := Buf (Elt F) (M.view.loc (c : Thread nD τ))
/-- A memref's buffer held through the memref's own elements at share `q`. -/
abbrev ptSet (c : Dev nD) {sp : Space} {S : Shape} {e : EltTy} (M : Memref sig .tc sp S e) (q : PosShare TreeShare) (f : HbBuf (F := F) c M) : sProp 𝕄 :=
  M.view.loc (c : Thread nD τ) ↦[M.view.set]{q} f
/-- The weight array held whole at the read share numbered `n`: the share the copy completing on DMA semaphore `n` reads it through. -/
abbrev tokH (c : Dev nD) (n : ℕ) (fh : HbBuf (F := F) c hbM) : sProp 𝕄 :=
  hbM.view.loc (c : Thread nD τ) ↦{Transfers.shareTokN fullShare n} fh

open Idealize.ShloMosaic.Transfers in
/-- The remainder after `a` read shares splits into the remainder after `a + n` and the `n` read shares numbered from `a`. -/
theorem toks_from {ℓ : Loc nD τ sig} {S : Finset (Idx ℓ)} {f : Buf (Elt F) ℓ} (q : PosShare TreeShare) (n a : ℕ) :
    (ℓ ↦[S]{shareDrop q a} f : sProp 𝕄) ⊣⊢ iprop((ℓ ↦[S]{shareDrop q (a + n)} f) ∗ bigSepL (List.range' a n) (fun i => (ℓ ↦[S]{shareTokN q i} f : sProp 𝕄))) := by
  induction n generalizing a with
  | zero => rw [List.range'_zero, bigSepL_nil, Nat.add_zero]; exact ⟨Laws.sep_emp.2, Laws.sep_emp.1⟩
  | succ n ih =>
    have hs : (ℓ ↦[S]{shareDrop q a} f : sProp 𝕄) ⊣⊢ iprop((ℓ ↦[S]{shareDrop q (a + 1)} f) ∗ ℓ ↦[S]{shareTokN q a} f) :=
      pointsTo_share (PosShare.mem_left_op_right _)
    have hc : (bigSepL (List.range' a (n + 1)) (fun i => (ℓ ↦[S]{shareTokN q i} f : sProp 𝕄)))
        = iprop((ℓ ↦[S]{shareTokN q a} f) ∗ bigSepL (List.range' (a + 1) n) (fun i => (ℓ ↦[S]{shareTokN q i} f : sProp 𝕄))) := by
      rw [List.range'_succ, bigSepL_cons]; rfl
    rw [hc, show a + (n + 1) = a + 1 + n by omega]
    constructor
    · refine hs.1.trans ((sep_mono_left (ih (a + 1)).1).trans ?_)
      iintro ⟨⟨Hd, Hts⟩, Ht⟩
      isplitl [Hd]; · iexact Hd
      isplitl [Ht] <;> iassumption
    · refine BIBase.Entails.trans ?_ ((sep_mono_left (ih (a + 1)).2).trans hs.2)
      iintro ⟨Hd, Ht, Hts⟩
      isplitl [Hd Hts]; · isplitl [Hd] <;> iassumption
      iexact Ht

open Idealize.ShloMosaic.Transfers in
/-- A buffer held whole at the full share, as: the remainder after `a + 32` read shares, the thirty-two read shares numbered
    from `a`, and the `a` read shares below them. -/
theorem toks32 {ℓ : Loc nD τ sig} {f : Buf (Elt F) ℓ} (a : ℕ) :
    (ℓ ↦{fullShare} f : sProp 𝕄) ⊣⊢ iprop(((ℓ ↦{shareDrop fullShare (a + 32)} f) ∗ bigSepL (List.range' a 32) (fun i => (ℓ ↦{shareTokN fullShare i} f : sProp 𝕄)))
      ∗ BI.bigSep (Finset.range a) (fun i => (ℓ ↦{shareTokN fullShare i} f : sProp 𝕄))) := by
  have h1 := pointsTo_toks_range (Ix := Unit) (Name := ℕ) (U := Pipeline.UD sig nD τ) (Lvl := ℕ) (ℓ := ℓ) (S := Finset.univ) (f := f) fullShare a
  have h2 := toks_from (F := F) (ℓ := ℓ) (S := Finset.univ) (f := f) fullShare 32 a
  exact ⟨h1.1.trans (sep_mono_left h2.1), (sep_mono_left h2.2).trans h1.2⟩

end Cert.KernelIdeal.Hand

end
-- ==== Proof.KernelIdealRows.lean ====
/-
  A [32,8] buffer held row by row: the whole buffer's points-to as the thirty-two points-tos of its rows, the rows
  joined back after each has been overwritten, and what the joined buffer reads at an index.
-/
import proofs.«145402_j1717986918579_1_alg».proof.Proof.KernelIdealCommon
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Row `r` of a [32,8] buffer, as the kernel spells it. -/
abbrev rowM (M : Memref sig .tc .vmem S32x8 .f32) (r : ℕ) (h : ∀ a, (![r, 0] : Fin 2 → ℕ) a + S1x8.size a ≤ S32x8.size a) : Memref sig .tc .vmem S8 .f32 :=
  (M.slice (Rect.unit (s := S32x8) ![r, 0] S1x8.size h) (fun _ => rfl)).squeeze S8 squeezes_S1x8_S8

/-- Row `r`, eight entries wide, lies inside the buffer when `r` is one of its 32 rows. -/
theorem row_inb32 (r : ℕ) (h : r < 32) : ∀ a, (![r, 0] : Fin 2 → ℕ) a + S1x8.size a ≤ S32x8.size a := by
  intro a; match a with
  | ⟨0, _⟩ => show r + 1 ≤ 32; omega
  | ⟨1, _⟩ => show 0 + 8 ≤ 8; omega

/-- An index of the [32,8] shape lies in row `r`'s rectangle exactly when its first coordinate is `r`. -/
theorem mem_rowRect {r : ℕ} {h : ∀ a, (![r, 0] : Fin 2 → ℕ) a + S1x8.size a ≤ S32x8.size a} {i : S32x8.Idx} :
    i ∈ (Rect.unit (s := S32x8) ![r, 0] S1x8.size h).set ↔ ((i 0 : Fin 32) : ℕ) = r := by
  rw [Rect.mem_set_unit]
  constructor
  · intro H
    have h0 : r ≤ ((i 0 : Fin 32) : ℕ) ∧ ((i 0 : Fin 32) : ℕ) < r + 1 := H 0
    omega
  · intro e a
    match a with
    | ⟨0, _⟩ => show r ≤ ((i 0 : Fin 32) : ℕ) ∧ ((i 0 : Fin 32) : ℕ) < r + 1; omega
    | ⟨1, _⟩ =>
      have := (i 1).isLt
      show 0 ≤ ((i 1 : Fin 8) : ℕ) ∧ ((i 1 : Fin 8) : ℕ) < 0 + 8
      have h8 : ((i 1 : Fin 8) : ℕ) < 8 := (i 1).isLt
      omega

/-- Row `r`'s elements: the buffer's elements under the indices of row `r`'s rectangle. -/
theorem set_rowM (M : Memref sig .tc .vmem S32x8 .f32) (r : ℕ) (h : ∀ a, (![r, 0] : Fin 2 → ℕ) a + S1x8.size a ≤ S32x8.size a) :
    (rowM M r h).view.set = (Rect.unit (s := S32x8) ![r, 0] S1x8.size h).set.map M.view.emb := by
  show ((M.view.slice _).reshape S8 _).set = _
  rw [View.set_reshape, View.set_slice]

/-- Different rows have no element in common. -/
theorem disjoint_rowM (M : Memref sig .tc .vmem S32x8 .f32) {r r' : ℕ} (hne : r ≠ r') (h h') :
    Disjoint (rowM M r h).view.set (rowM M r' h').view.set := by
  rw [set_rowM, set_rowM, Finset.disjoint_map]
  rw [Finset.disjoint_left]
  intro i hi hi'
  exact hne ((mem_rowRect.mp hi).symm.trans (mem_rowRect.mp hi'))

/-- Row `r`'s elements for `r < 32`, no element otherwise. -/
def rowSet (c : Dev nD) (M : Memref sig .tc .vmem S32x8 .f32) (r : ℕ) : Finset (Idx (M.view.loc (c : Thread nD τ))) :=
  if h : r < 32 then (rowM M r (row_inb32 r h)).view.set else ∅

/-- The 32 rows cover the buffer. -/
theorem set_eq_biUnion_rowSet (c : Dev nD) (M : Memref sig .tc .vmem S32x8 .f32) :
    M.view.set = (Finset.range 32).biUnion (rowSet c M) := by
  ext x
  simp only [Finset.mem_biUnion, Finset.mem_range]
  constructor
  · intro hx
    obtain ⟨i, -, rfl⟩ := Finset.mem_map.mp hx
    have hlt : ((i 0 : Fin 32) : ℕ) < 32 := (i 0).isLt
    refine ⟨((i 0 : Fin 32) : ℕ), hlt, ?_⟩
    unfold rowSet
    rw [dif_pos hlt, set_rowM]
    exact Finset.mem_map_of_mem _ (mem_rowRect.mpr rfl)
  · rintro ⟨r, hr, hx⟩
    unfold rowSet at hx
    rw [dif_pos hr, set_rowM] at hx
    obtain ⟨i, -, rfl⟩ := Finset.mem_map.mp hx
    exact M.view.emb_mem_set i

theorem disjoint_rowSet (c : Dev nD) (M : Memref sig .tc .vmem S32x8 .f32) {r r' : ℕ} (hne : r ≠ r') :
    Disjoint (rowSet c M r) (rowSet c M r') := by
  unfold rowSet
  by_cases h : r < 32
  · by_cases h' : r' < 32
    · rw [dif_pos h, dif_pos h']; exact disjoint_rowM M hne _ _
    · rw [dif_neg h']; exact Finset.disjoint_empty_right _
  · rw [dif_neg h]; exact Finset.disjoint_empty_left _

/-- The whole buffer held at the full share is its 32 rows held at the full share. -/
theorem rows_split (c : Dev nD) (M : Memref sig .tc .vmem S32x8 .f32) (hM : M.IsWhole) (f : HbBuf (F := F) c M) :
    (M.view.loc (c : Thread nD τ) ↦[M.view.set]{fullShare} f : sProp 𝕄)
      ⊣⊢ bigSepL (List.range 32) (fun r => if h : r < 32 then (M.view.loc (c : Thread nD τ) ↦[(rowM M r (row_inb32 r h)).view.set]{fullShare} f : sProp 𝕄) else iprop(emp)) := by
  have h1 := pointsTo_biUnion (Ix := Unit) (Name := ℕ) (U := Pipeline.UD sig nD τ) (Lvl := ℕ) (q := fullShare) (f := f)
    (Finset.range 32) (rowSet c M) (fun t _ t' _ hne => disjoint_rowSet c M hne)
  have h2 : (fun r => if h : r < 32 then (M.view.loc (c : Thread nD τ) ↦[(rowM M r (row_inb32 r h)).view.set]{fullShare} f : sProp 𝕄) else iprop(emp))
      = fun r => (M.view.loc (c : Thread nD τ) ↦[rowSet c M r]{fullShare} f : sProp 𝕄) := by
    funext r
    unfold rowSet
    by_cases h : r < 32
    · rw [dif_pos h, dif_pos h]
    · rw [dif_neg h, dif_neg h, pointsTo_empty]
  have h3 : Finset.range 32 = (List.range 32).toFinset := by decide
  have h4 := bigSep_eq_bigSepL_of_eq (List.range 32) h3 (List.nodup_range) (fun r => (M.view.loc (c : Thread nD τ) ↦[rowSet c M r]{fullShare} f : sProp 𝕄))
  have e : (M.view.loc (c : Thread nD τ) ↦[M.view.set]{fullShare} f : sProp 𝕄)
      = bigSepL (List.range 32) (fun r => if h : r < 32 then (M.view.loc (c : Thread nD τ) ↦[(rowM M r (row_inb32 r h)).view.set]{fullShare} f : sProp 𝕄) else iprop(emp)) := by
    rw [h2, ← h4, ← h1, ← set_eq_biUnion_rowSet]
  exact ⟨Entails.of_eq e, Entails.of_eq e.symm⟩

/-! ## The rows one by one: an explicit thirty-two-fold separating conjunction -/

/-- Row `r` held by exactly its own elements, at contents `f` of the whole buffer's type (the row's location is the buffer's). -/
abbrev rowPt (c : Dev nD) (M : Memref sig .tc .vmem S32x8 .f32) (r : ℕ) (h : r < 32) (f : HbBuf (F := F) c M) : sProp 𝕄 :=
  (rowM M r (row_inb32 r h)).view.loc (c : Thread nD τ) ↦[(rowM M r (row_inb32 r h)).view.set]{fullShare} (show HbBuf (F := F) c (rowM M r (row_inb32 r h)) from f)

theorem range32 : List.range 32 = [0, 1, 2, 3, 4, 5, 6, 7, 8, 9, 10, 11, 12, 13, 14, 15, 16, 17, 18, 19, 20, 21, 22, 23, 24, 25, 26, 27, 28, 29, 30, 31] := by decide

/-- The list-indexed conjunction of the rows, row `r` at contents `g r`, written out. -/
theorem rows_chain32 (c : Dev nD) (M : Memref sig .tc .vmem S32x8 .f32) (g : ℕ → HbBuf (F := F) c M) :
    bigSepL (List.range 32) (fun r => if h : r < 32 then (M.view.loc (c : Thread nD τ) ↦[(rowM M r (row_inb32 r h)).view.set]{fullShare} g r : sProp 𝕄) else iprop(emp))
      = iprop(rowPt c M 0 (by decide) (g 0) ∗ rowPt c M 1 (by decide) (g 1) ∗ rowPt c M 2 (by decide) (g 2) ∗ rowPt c M 3 (by decide) (g 3) ∗ rowPt c M 4 (by decide) (g 4) ∗ rowPt c M 5 (by decide) (g 5) ∗ rowPt c M 6 (by decide) (g 6) ∗ rowPt c M 7 (by decide) (g 7) ∗ rowPt c M 8 (by decide) (g 8) ∗ rowPt c M 9 (by decide) (g 9) ∗ rowPt c M 10 (by decide) (g 10) ∗ rowPt c M 11 (by decide) (g 11) ∗ rowPt c M 12 (by decide) (g 12) ∗ rowPt c M 13 (by decide) (g 13) ∗ rowPt c M 14 (by decide) (g 14) ∗ rowPt c M 15 (by decide) (g 15) ∗ rowPt c M 16 (by decide) (g 16) ∗ rowPt c M 17 (by decide) (g 17) ∗ rowPt c M 18 (by decide) (g 18) ∗ rowPt c M 19 (by decide) (g 19) ∗ rowPt c M 20 (by decide) (g 20) ∗ rowPt c M 21 (by decide) (g 21) ∗ rowPt c M 22 (by decide) (g 22) ∗ rowPt c M 23 (by decide) (g 23) ∗ rowPt c M 24 (by decide) (g 24) ∗ rowPt c M 25 (by decide) (g 25) ∗ rowPt c M 26 (by decide) (g 26) ∗ rowPt c M 27 (by decide) (g 27) ∗ rowPt c M 28 (by decide) (g 28) ∗ rowPt c M 29 (by decide) (g 29) ∗ rowPt c M 30 (by decide) (g 30) ∗ rowPt c M 31 (by decide) (g 31)) := by
  rw [range32]; rfl

/-- A whole [32,8] buffer held by its own elements is its thirty-two rows, each held by its own elements. -/
theorem rows_split32 (c : Dev nD) (M : Memref sig .tc .vmem S32x8 .f32) (hM : M.IsWhole) (f : HbBuf (F := F) c M) :
    (ptSet c M fullShare f : sProp 𝕄) ⊢ iprop(rowPt c M 0 (by decide) f ∗ rowPt c M 1 (by decide) f ∗ rowPt c M 2 (by decide) f ∗ rowPt c M 3 (by decide) f ∗ rowPt c M 4 (by decide) f ∗ rowPt c M 5 (by decide) f ∗ rowPt c M 6 (by decide) f ∗ rowPt c M 7 (by decide) f ∗ rowPt c M 8 (by decide) f ∗ rowPt c M 9 (by decide) f ∗ rowPt c M 10 (by decide) f ∗ rowPt c M 11 (by decide) f ∗ rowPt c M 12 (by decide) f ∗ rowPt c M 13 (by decide) f ∗ rowPt c M 14 (by decide) f ∗ rowPt c M 15 (by decide) f ∗ rowPt c M 16 (by decide) f ∗ rowPt c M 17 (by decide) f ∗ rowPt c M 18 (by decide) f ∗ rowPt c M 19 (by decide) f ∗ rowPt c M 20 (by decide) f ∗ rowPt c M 21 (by decide) f ∗ rowPt c M 22 (by decide) f ∗ rowPt c M 23 (by decide) f ∗ rowPt c M 24 (by decide) f ∗ rowPt c M 25 (by decide) f ∗ rowPt c M 26 (by decide) f ∗ rowPt c M 27 (by decide) f ∗ rowPt c M 28 (by decide) f ∗ rowPt c M 29 (by decide) f ∗ rowPt c M 30 (by decide) f ∗ rowPt c M 31 (by decide) f) :=
  (rows_split c M hM f).1.trans (Entails.of_eq (rows_chain32 c M fun _ => f))

/-- The thirty-two rows at one contents are the whole buffer at that contents. -/
theorem rows_unsplit32 (c : Dev nD) (M : Memref sig .tc .vmem S32x8 .f32) (hM : M.IsWhole) (f : HbBuf (F := F) c M) :
    (iprop(rowPt c M 0 (by decide) f ∗ rowPt c M 1 (by decide) f ∗ rowPt c M 2 (by decide) f ∗ rowPt c M 3 (by decide) f ∗ rowPt c M 4 (by decide) f ∗ rowPt c M 5 (by decide) f ∗ rowPt c M 6 (by decide) f ∗ rowPt c M 7 (by decide) f ∗ rowPt c M 8 (by decide) f ∗ rowPt c M 9 (by decide) f ∗ rowPt c M 10 (by decide) f ∗ rowPt c M 11 (by decide) f ∗ rowPt c M 12 (by decide) f ∗ rowPt c M 13 (by decide) f ∗ rowPt c M 14 (by decide) f ∗ rowPt c M 15 (by decide) f ∗ rowPt c M 16 (by decide) f ∗ rowPt c M 17 (by decide) f ∗ rowPt c M 18 (by decide) f ∗ rowPt c M 19 (by decide) f ∗ rowPt c M 20 (by decide) f ∗ rowPt c M 21 (by decide) f ∗ rowPt c M 22 (by decide) f ∗ rowPt c M 23 (by decide) f ∗ rowPt c M 24 (by decide) f ∗ rowPt c M 25 (by decide) f ∗ rowPt c M 26 (by decide) f ∗ rowPt c M 27 (by decide) f ∗ rowPt c M 28 (by decide) f ∗ rowPt c M 29 (by decide) f ∗ rowPt c M 30 (by decide) f ∗ rowPt c M 31 (by decide) f) : sProp 𝕄) ⊢ ptSet c M fullShare f :=
  (Entails.of_eq (rows_chain32 c M fun _ => f).symm).trans (rows_split c M hM f).2

/-! ## Joining rows held at contents of their own -/

/-- The row of the buffer an element lies in (row 0 for an element under none of the memref's indices). -/
def rowOf (c : Dev nD) (M : Memref sig .tc .vmem S32x8 .f32) (i : Idx (M.view.loc (c : Thread nD τ))) : ℕ :=
  match preimage? M.view.emb i with
  | some x => ((x 0 : Fin 32) : ℕ)
  | none => 0

theorem rowOf_emb (c : Dev nD) (M : Memref sig .tc .vmem S32x8 .f32) (x : S32x8.Idx) : rowOf c M (M.view.emb x) = ((x 0 : Fin 32) : ℕ) := by
  unfold rowOf; rw [preimage?_emb]

/-- The contents that at each element of row `r` are `g r`'s. -/
def joinRowsFn (c : Dev nD) (M : Memref sig .tc .vmem S32x8 .f32) (g : ℕ → HbBuf (F := F) c M) : HbBuf (F := F) c M :=
  fun i => g (rowOf c M i) i

theorem joinRowsFn_emb (c : Dev nD) (M : Memref sig .tc .vmem S32x8 .f32) (g : ℕ → HbBuf (F := F) c M) (x : S32x8.Idx) :
    joinRowsFn c M g (M.view.emb x) = g ((x 0 : Fin 32) : ℕ) (M.view.emb x) := by
  unfold joinRowsFn; rw [rowOf_emb]

/-- On row `r`'s elements the joined contents are `g r`'s. -/
theorem joinRowsFn_of_mem (c : Dev nD) (M : Memref sig .tc .vmem S32x8 .f32) (g : ℕ → HbBuf (F := F) c M) {r : ℕ} (hr : r < 32)
    {i : Idx (M.view.loc (c : Thread nD τ))} (hi : i ∈ (rowM M r (row_inb32 r hr)).view.set) : joinRowsFn c M g i = g r i := by
  rw [set_rowM] at hi
  obtain ⟨x, hx, rfl⟩ := Finset.mem_map.mp hi
  rw [joinRowsFn_emb, mem_rowRect.mp hx]

/-- The joined contents read, at an index of row `r`, what `g r` reads there. -/
theorem read_joinRowsFn (c : Dev nD) (M : Memref sig .tc .vmem S32x8 .f32) (g : ℕ → HbBuf (F := F) c M) (x : S32x8.Idx) :
    M.view.read (Elt F) (joinRowsFn c M g) x = M.view.read (Elt F) (g ((x 0 : Fin 32) : ℕ)) x := by
  rw [View.read_apply, View.read_apply, joinRowsFn_emb]

/-- The rows, row `r` held at `g r`, are the whole buffer held at the joined contents. -/
theorem rows_joinFn (c : Dev nD) (M : Memref sig .tc .vmem S32x8 .f32) (hM : M.IsWhole) (g : ℕ → HbBuf (F := F) c M) :
    bigSepL (List.range 32) (fun r => if h : r < 32 then (M.view.loc (c : Thread nD τ) ↦[(rowM M r (row_inb32 r h)).view.set]{fullShare} g r : sProp 𝕄) else iprop(emp))
      ⊢ (M.view.loc (c : Thread nD τ) ↦[M.view.set]{fullShare} joinRowsFn c M g) := by
  have e : (fun r => if h : r < 32 then (M.view.loc (c : Thread nD τ) ↦[(rowM M r (row_inb32 r h)).view.set]{fullShare} g r : sProp 𝕄) else iprop(emp))
      = fun r => if h : r < 32 then (M.view.loc (c : Thread nD τ) ↦[(rowM M r (row_inb32 r h)).view.set]{fullShare} joinRowsFn c M g : sProp 𝕄) else iprop(emp) := by
    funext r
    by_cases h : r < 32
    · rw [dif_pos h, dif_pos h]
      exact pointsTo_congr fun i hi => (joinRowsFn_of_mem c M g h hi).symm
    · rw [dif_neg h, dif_neg h]
  rw [e]
  exact (rows_split c M hM (joinRowsFn c M g)).2

/-- The `r`-th of thirty-two things (the last for `r ≥ 31`). -/
def rowSel32 {α : Type} (g0 : α) (g1 : α) (g2 : α) (g3 : α) (g4 : α) (g5 : α) (g6 : α) (g7 : α) (g8 : α) (g9 : α) (g10 : α) (g11 : α) (g12 : α) (g13 : α) (g14 : α) (g15 : α) (g16 : α) (g17 : α) (g18 : α) (g19 : α) (g20 : α) (g21 : α) (g22 : α) (g23 : α) (g24 : α) (g25 : α) (g26 : α) (g27 : α) (g28 : α) (g29 : α) (g30 : α) (g31 : α) : ℕ → α
  | 0 => g0
  | 1 => g1
  | 2 => g2
  | 3 => g3
  | 4 => g4
  | 5 => g5
  | 6 => g6
  | 7 => g7
  | 8 => g8
  | 9 => g9
  | 10 => g10
  | 11 => g11
  | 12 => g12
  | 13 => g13
  | 14 => g14
  | 15 => g15
  | 16 => g16
  | 17 => g17
  | 18 => g18
  | 19 => g19
  | 20 => g20
  | 21 => g21
  | 22 => g22
  | 23 => g23
  | 24 => g24
  | 25 => g25
  | 26 => g26
  | 27 => g27
  | 28 => g28
  | 29 => g29
  | 30 => g30
  | _ => g31

/-- The thirty-two rows joined: the contents that on row `r` are `g r`'s. -/
def joinRows32 (c : Dev nD) (M : Memref sig .tc .vmem S32x8 .f32) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) : HbBuf (F := F) c M :=
  joinRowsFn c M (rowSel32 g0 g1 g2 g3 g4 g5 g6 g7 g8 g9 g10 g11 g12 g13 g14 g15 g16 g17 g18 g19 g20 g21 g22 g23 g24 g25 g26 g27 g28 g29 g30 g31)

/-- The thirty-two rows, each at contents of its own, are the whole buffer at the joined contents. -/
theorem rows_join32 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) :
    (iprop(rowPt c M 0 (by decide) g0 ∗ rowPt c M 1 (by decide) g1 ∗ rowPt c M 2 (by decide) g2 ∗ rowPt c M 3 (by decide) g3 ∗ rowPt c M 4 (by decide) g4 ∗ rowPt c M 5 (by decide) g5 ∗ rowPt c M 6 (by decide) g6 ∗ rowPt c M 7 (by decide) g7 ∗ rowPt c M 8 (by decide) g8 ∗ rowPt c M 9 (by decide) g9 ∗ rowPt c M 10 (by decide) g10 ∗ rowPt c M 11 (by decide) g11 ∗ rowPt c M 12 (by decide) g12 ∗ rowPt c M 13 (by decide) g13 ∗ rowPt c M 14 (by decide) g14 ∗ rowPt c M 15 (by decide) g15 ∗ rowPt c M 16 (by decide) g16 ∗ rowPt c M 17 (by decide) g17 ∗ rowPt c M 18 (by decide) g18 ∗ rowPt c M 19 (by decide) g19 ∗ rowPt c M 20 (by decide) g20 ∗ rowPt c M 21 (by decide) g21 ∗ rowPt c M 22 (by decide) g22 ∗ rowPt c M 23 (by decide) g23 ∗ rowPt c M 24 (by decide) g24 ∗ rowPt c M 25 (by decide) g25 ∗ rowPt c M 26 (by decide) g26 ∗ rowPt c M 27 (by decide) g27 ∗ rowPt c M 28 (by decide) g28 ∗ rowPt c M 29 (by decide) g29 ∗ rowPt c M 30 (by decide) g30 ∗ rowPt c M 31 (by decide) g31) : sProp 𝕄) ⊢ ptSet c M fullShare (joinRows32 c M g0 g1 g2 g3 g4 g5 g6 g7 g8 g9 g10 g11 g12 g13 g14 g15 g16 g17 g18 g19 g20 g21 g22 g23 g24 g25 g26 g27 g28 g29 g30 g31) :=
  (Entails.of_eq (rows_chain32 c M (rowSel32 g0 g1 g2 g3 g4 g5 g6 g7 g8 g9 g10 g11 g12 g13 g14 g15 g16 g17 g18 g19 g20 g21 g22 g23 g24 g25 g26 g27 g28 g29 g30 g31)).symm).trans (rows_joinFn c M hM (rowSel32 g0 g1 g2 g3 g4 g5 g6 g7 g8 g9 g10 g11 g12 g13 g14 g15 g16 g17 g18 g19 g20 g21 g22 g23 g24 g25 g26 g27 g28 g29 g30 g31))

/-! ## Reading the joined buffer, and a row after it is overwritten -/

/-- The joined buffer reads, at row `r` and column `j`, what row `r`'s own contents read there. -/
theorem joinRows32_read (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (r : Fin 32) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 r j)
      = M.view.read (Elt F) (rowSel32 g0 g1 g2 g3 g4 g5 g6 g7 g8 g9 g10 g11 g12 g13 g14 g15 g16 g17 g18 g19 g20 g21 g22 g23 g24 g25 g26 g27 g28 g29 g30 g31 r.val) (ValueIdx.ix2 r j) :=
  read_joinRowsFn c M (rowSel32 g0 g1 g2 g3 g4 g5 g6 g7 g8 g9 g10 g11 g12 g13 g14 g15 g16 g17 g18 g19 g20 g21 g22 g23 g24 g25 g26 g27 g28 g29 g30 g31) (ValueIdx.ix2 r j)

theorem joinRows32_read_0 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (0 : Fin 32) j) = M.view.read (Elt F) g0 (ValueIdx.ix2 (0 : Fin 32) j) :=
  joinRows32_read c M hM g0 g1 g2 g3 g4 g5 g6 g7 g8 g9 g10 g11 g12 g13 g14 g15 g16 g17 g18 g19 g20 g21 g22 g23 g24 g25 g26 g27 g28 g29 g30 g31 0 j
theorem joinRows32_read_1 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (1 : Fin 32) j) = M.view.read (Elt F) g1 (ValueIdx.ix2 (1 : Fin 32) j) :=
  joinRows32_read c M hM g0 g1 g2 g3 g4 g5 g6 g7 g8 g9 g10 g11 g12 g13 g14 g15 g16 g17 g18 g19 g20 g21 g22 g23 g24 g25 g26 g27 g28 g29 g30 g31 1 j
theorem joinRows32_read_2 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (2 : Fin 32) j) = M.view.read (Elt F) g2 (ValueIdx.ix2 (2 : Fin 32) j) :=
  joinRows32_read c M hM g0 g1 g2 g3 g4 g5 g6 g7 g8 g9 g10 g11 g12 g13 g14 g15 g16 g17 g18 g19 g20 g21 g22 g23 g24 g25 g26 g27 g28 g29 g30 g31 2 j
theorem joinRows32_read_3 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (3 : Fin 32) j) = M.view.read (Elt F) g3 (ValueIdx.ix2 (3 : Fin 32) j) :=
  joinRows32_read c M hM g0 g1 g2 g3 g4 g5 g6 g7 g8 g9 g10 g11 g12 g13 g14 g15 g16 g17 g18 g19 g20 g21 g22 g23 g24 g25 g26 g27 g28 g29 g30 g31 3 j
theorem joinRows32_read_4 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (4 : Fin 32) j) = M.view.read (Elt F) g4 (ValueIdx.ix2 (4 : Fin 32) j) :=
  joinRows32_read c M hM g0 g1 g2 g3 g4 g5 g6 g7 g8 g9 g10 g11 g12 g13 g14 g15 g16 g17 g18 g19 g20 g21 g22 g23 g24 g25 g26 g27 g28 g29 g30 g31 4 j
theorem joinRows32_read_5 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (5 : Fin 32) j) = M.view.read (Elt F) g5 (ValueIdx.ix2 (5 : Fin 32) j) :=
  joinRows32_read c M hM g0 g1 g2 g3 g4 g5 g6 g7 g8 g9 g10 g11 g12 g13 g14 g15 g16 g17 g18 g19 g20 g21 g22 g23 g24 g25 g26 g27 g28 g29 g30 g31 5 j
theorem joinRows32_read_6 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (6 : Fin 32) j) = M.view.read (Elt F) g6 (ValueIdx.ix2 (6 : Fin 32) j) :=
  joinRows32_read c M hM g0 g1 g2 g3 g4 g5 g6 g7 g8 g9 g10 g11 g12 g13 g14 g15 g16 g17 g18 g19 g20 g21 g22 g23 g24 g25 g26 g27 g28 g29 g30 g31 6 j
theorem joinRows32_read_7 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (7 : Fin 32) j) = M.view.read (Elt F) g7 (ValueIdx.ix2 (7 : Fin 32) j) :=
  joinRows32_read c M hM g0 g1 g2 g3 g4 g5 g6 g7 g8 g9 g10 g11 g12 g13 g14 g15 g16 g17 g18 g19 g20 g21 g22 g23 g24 g25 g26 g27 g28 g29 g30 g31 7 j
theorem joinRows32_read_8 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (8 : Fin 32) j) = M.view.read (Elt F) g8 (ValueIdx.ix2 (8 : Fin 32) j) :=
  joinRows32_read c M hM g0 g1 g2 g3 g4 g5 g6 g7 g8 g9 g10 g11 g12 g13 g14 g15 g16 g17 g18 g19 g20 g21 g22 g23 g24 g25 g26 g27 g28 g29 g30 g31 8 j
theorem joinRows32_read_9 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (9 : Fin 32) j) = M.view.read (Elt F) g9 (ValueIdx.ix2 (9 : Fin 32) j) :=
  joinRows32_read c M hM g0 g1 g2 g3 g4 g5 g6 g7 g8 g9 g10 g11 g12 g13 g14 g15 g16 g17 g18 g19 g20 g21 g22 g23 g24 g25 g26 g27 g28 g29 g30 g31 9 j
theorem joinRows32_read_10 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (10 : Fin 32) j) = M.view.read (Elt F) g10 (ValueIdx.ix2 (10 : Fin 32) j) :=
  joinRows32_read c M hM g0 g1 g2 g3 g4 g5 g6 g7 g8 g9 g10 g11 g12 g13 g14 g15 g16 g17 g18 g19 g20 g21 g22 g23 g24 g25 g26 g27 g28 g29 g30 g31 10 j
theorem joinRows32_read_11 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (11 : Fin 32) j) = M.view.read (Elt F) g11 (ValueIdx.ix2 (11 : Fin 32) j) :=
  joinRows32_read c M hM g0 g1 g2 g3 g4 g5 g6 g7 g8 g9 g10 g11 g12 g13 g14 g15 g16 g17 g18 g19 g20 g21 g22 g23 g24 g25 g26 g27 g28 g29 g30 g31 11 j
theorem joinRows32_read_12 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (12 : Fin 32) j) = M.view.read (Elt F) g12 (ValueIdx.ix2 (12 : Fin 32) j) :=
  joinRows32_read c M hM g0 g1 g2 g3 g4 g5 g6 g7 g8 g9 g10 g11 g12 g13 g14 g15 g16 g17 g18 g19 g20 g21 g22 g23 g24 g25 g26 g27 g28 g29 g30 g31 12 j
theorem joinRows32_read_13 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (13 : Fin 32) j) = M.view.read (Elt F) g13 (ValueIdx.ix2 (13 : Fin 32) j) :=
  joinRows32_read c M hM g0 g1 g2 g3 g4 g5 g6 g7 g8 g9 g10 g11 g12 g13 g14 g15 g16 g17 g18 g19 g20 g21 g22 g23 g24 g25 g26 g27 g28 g29 g30 g31 13 j
theorem joinRows32_read_14 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (14 : Fin 32) j) = M.view.read (Elt F) g14 (ValueIdx.ix2 (14 : Fin 32) j) :=
  joinRows32_read c M hM g0 g1 g2 g3 g4 g5 g6 g7 g8 g9 g10 g11 g12 g13 g14 g15 g16 g17 g18 g19 g20 g21 g22 g23 g24 g25 g26 g27 g28 g29 g30 g31 14 j
theorem joinRows32_read_15 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (15 : Fin 32) j) = M.view.read (Elt F) g15 (ValueIdx.ix2 (15 : Fin 32) j) :=
  joinRows32_read c M hM g0 g1 g2 g3 g4 g5 g6 g7 g8 g9 g10 g11 g12 g13 g14 g15 g16 g17 g18 g19 g20 g21 g22 g23 g24 g25 g26 g27 g28 g29 g30 g31 15 j
theorem joinRows32_read_16 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (16 : Fin 32) j) = M.view.read (Elt F) g16 (ValueIdx.ix2 (16 : Fin 32) j) :=
  joinRows32_read c M hM g0 g1 g2 g3 g4 g5 g6 g7 g8 g9 g10 g11 g12 g13 g14 g15 g16 g17 g18 g19 g20 g21 g22 g23 g24 g25 g26 g27 g28 g29 g30 g31 16 j
theorem joinRows32_read_17 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (17 : Fin 32) j) = M.view.read (Elt F) g17 (ValueIdx.ix2 (17 : Fin 32) j) :=
  joinRows32_read c M hM g0 g1 g2 g3 g4 g5 g6 g7 g8 g9 g10 g11 g12 g13 g14 g15 g16 g17 g18 g19 g20 g21 g22 g23 g24 g25 g26 g27 g28 g29 g30 g31 17 j
theorem joinRows32_read_18 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (18 : Fin 32) j) = M.view.read (Elt F) g18 (ValueIdx.ix2 (18 : Fin 32) j) :=
  joinRows32_read c M hM g0 g1 g2 g3 g4 g5 g6 g7 g8 g9 g10 g11 g12 g13 g14 g15 g16 g17 g18 g19 g20 g21 g22 g23 g24 g25 g26 g27 g28 g29 g30 g31 18 j
theorem joinRows32_read_19 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (19 : Fin 32) j) = M.view.read (Elt F) g19 (ValueIdx.ix2 (19 : Fin 32) j) :=
  joinRows32_read c M hM g0 g1 g2 g3 g4 g5 g6 g7 g8 g9 g10 g11 g12 g13 g14 g15 g16 g17 g18 g19 g20 g21 g22 g23 g24 g25 g26 g27 g28 g29 g30 g31 19 j
theorem joinRows32_read_20 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (20 : Fin 32) j) = M.view.read (Elt F) g20 (ValueIdx.ix2 (20 : Fin 32) j) :=
  joinRows32_read c M hM g0 g1 g2 g3 g4 g5 g6 g7 g8 g9 g10 g11 g12 g13 g14 g15 g16 g17 g18 g19 g20 g21 g22 g23 g24 g25 g26 g27 g28 g29 g30 g31 20 j
theorem joinRows32_read_21 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (21 : Fin 32) j) = M.view.read (Elt F) g21 (ValueIdx.ix2 (21 : Fin 32) j) :=
  joinRows32_read c M hM g0 g1 g2 g3 g4 g5 g6 g7 g8 g9 g10 g11 g12 g13 g14 g15 g16 g17 g18 g19 g20 g21 g22 g23 g24 g25 g26 g27 g28 g29 g30 g31 21 j
theorem joinRows32_read_22 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (22 : Fin 32) j) = M.view.read (Elt F) g22 (ValueIdx.ix2 (22 : Fin 32) j) :=
  joinRows32_read c M hM g0 g1 g2 g3 g4 g5 g6 g7 g8 g9 g10 g11 g12 g13 g14 g15 g16 g17 g18 g19 g20 g21 g22 g23 g24 g25 g26 g27 g28 g29 g30 g31 22 j
theorem joinRows32_read_23 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (23 : Fin 32) j) = M.view.read (Elt F) g23 (ValueIdx.ix2 (23 : Fin 32) j) :=
  joinRows32_read c M hM g0 g1 g2 g3 g4 g5 g6 g7 g8 g9 g10 g11 g12 g13 g14 g15 g16 g17 g18 g19 g20 g21 g22 g23 g24 g25 g26 g27 g28 g29 g30 g31 23 j
theorem joinRows32_read_24 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (24 : Fin 32) j) = M.view.read (Elt F) g24 (ValueIdx.ix2 (24 : Fin 32) j) :=
  joinRows32_read c M hM g0 g1 g2 g3 g4 g5 g6 g7 g8 g9 g10 g11 g12 g13 g14 g15 g16 g17 g18 g19 g20 g21 g22 g23 g24 g25 g26 g27 g28 g29 g30 g31 24 j
theorem joinRows32_read_25 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (25 : Fin 32) j) = M.view.read (Elt F) g25 (ValueIdx.ix2 (25 : Fin 32) j) :=
  joinRows32_read c M hM g0 g1 g2 g3 g4 g5 g6 g7 g8 g9 g10 g11 g12 g13 g14 g15 g16 g17 g18 g19 g20 g21 g22 g23 g24 g25 g26 g27 g28 g29 g30 g31 25 j
theorem joinRows32_read_26 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (26 : Fin 32) j) = M.view.read (Elt F) g26 (ValueIdx.ix2 (26 : Fin 32) j) :=
  joinRows32_read c M hM g0 g1 g2 g3 g4 g5 g6 g7 g8 g9 g10 g11 g12 g13 g14 g15 g16 g17 g18 g19 g20 g21 g22 g23 g24 g25 g26 g27 g28 g29 g30 g31 26 j
theorem joinRows32_read_27 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (27 : Fin 32) j) = M.view.read (Elt F) g27 (ValueIdx.ix2 (27 : Fin 32) j) :=
  joinRows32_read c M hM g0 g1 g2 g3 g4 g5 g6 g7 g8 g9 g10 g11 g12 g13 g14 g15 g16 g17 g18 g19 g20 g21 g22 g23 g24 g25 g26 g27 g28 g29 g30 g31 27 j
theorem joinRows32_read_28 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (28 : Fin 32) j) = M.view.read (Elt F) g28 (ValueIdx.ix2 (28 : Fin 32) j) :=
  joinRows32_read c M hM g0 g1 g2 g3 g4 g5 g6 g7 g8 g9 g10 g11 g12 g13 g14 g15 g16 g17 g18 g19 g20 g21 g22 g23 g24 g25 g26 g27 g28 g29 g30 g31 28 j
theorem joinRows32_read_29 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (29 : Fin 32) j) = M.view.read (Elt F) g29 (ValueIdx.ix2 (29 : Fin 32) j) :=
  joinRows32_read c M hM g0 g1 g2 g3 g4 g5 g6 g7 g8 g9 g10 g11 g12 g13 g14 g15 g16 g17 g18 g19 g20 g21 g22 g23 g24 g25 g26 g27 g28 g29 g30 g31 29 j
theorem joinRows32_read_30 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (30 : Fin 32) j) = M.view.read (Elt F) g30 (ValueIdx.ix2 (30 : Fin 32) j) :=
  joinRows32_read c M hM g0 g1 g2 g3 g4 g5 g6 g7 g8 g9 g10 g11 g12 g13 g14 g15 g16 g17 g18 g19 g20 g21 g22 g23 g24 g25 g26 g27 g28 g29 g30 g31 30 j
theorem joinRows32_read_31 (c : Dev nD) (M : Memref sig .tc .vmem S32x8 .f32) (hM : M.IsWhole) (g0 : HbBuf (F := F) c M) (g1 : HbBuf (F := F) c M) (g2 : HbBuf (F := F) c M) (g3 : HbBuf (F := F) c M) (g4 : HbBuf (F := F) c M) (g5 : HbBuf (F := F) c M) (g6 : HbBuf (F := F) c M) (g7 : HbBuf (F := F) c M) (g8 : HbBuf (F := F) c M) (g9 : HbBuf (F := F) c M) (g10 : HbBuf (F := F) c M) (g11 : HbBuf (F := F) c M) (g12 : HbBuf (F := F) c M) (g13 : HbBuf (F := F) c M) (g14 : HbBuf (F := F) c M) (g15 : HbBuf (F := F) c M) (g16 : HbBuf (F := F) c M) (g17 : HbBuf (F := F) c M) (g18 : HbBuf (F := F) c M) (g19 : HbBuf (F := F) c M) (g20 : HbBuf (F := F) c M) (g21 : HbBuf (F := F) c M) (g22 : HbBuf (F := F) c M) (g23 : HbBuf (F := F) c M) (g24 : HbBuf (F := F) c M) (g25 : HbBuf (F := F) c M) (g26 : HbBuf (F := F) c M) (g27 : HbBuf (F := F) c M) (g28 : HbBuf (F := F) c M) (g29 : HbBuf (F := F) c M) (g30 : HbBuf (F := F) c M) (g31 : HbBuf (F := F) c M) (j : Fin 8) :
    M.view.read (Elt F) (joinRows32 c M g0 g1 g2 g3 g4 g5 g6 g7 g8 g9 g10 g11 g12 g13 g14 g15 g16 g17 g18 g19 g20 g21 g22 g23 g24 g25 g26 g27 g28 g29 g30 g31) (ValueIdx.ix2 (31 : Fin 32) j) = M.view.read (Elt F) g31 (ValueIdx.ix2 (31 : Fin 32) j) :=
  joinRows32_read c M hM g0 g1 g2 g3 g4 g5 g6 g7 g8 g9 g10 g11 g12 g13 g14 g15 g16 g17 g18 g19 g20 g21 g22 g23 g24 g25 g26 g27 g28 g29 g30 g31 31 j

/-- Row `r`'s index `j` sits in the buffer where the buffer's own index `(r, j)` does. -/
theorem emb_rowM (M : Memref sig .tc .vmem S32x8 .f32) (r : ℕ) (hr : r < 32) (j : Fin 8) :
    (rowM M r (row_inb32 r hr)).view.emb (ValueIdx.ix1 j) = M.view.emb (ValueIdx.ix2 (⟨r, hr⟩ : Fin 32) j) := by
  show M.view.emb ((Rect.unit (s := S32x8) ![r, 0] S1x8.size (row_inb32 r hr)).emb
      (Shape.reshapeEquiv squeezes_S1x8_S8.numel_eq (ValueIdx.ix1 j))) = _
  congr 1
  rw [show Shape.reshapeEquiv squeezes_S1x8_S8.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show r + 1 * 0 = r; omega
  | ⟨1, _⟩ => apply Fin.ext; show 0 + 1 * (j : ℕ) = j; omega

/-- Reading through the row is reading the buffer at that row. -/
theorem read_rowM (c : Dev nD) (M : Memref sig .tc .vmem S32x8 .f32) (f : HbBuf (F := F) c M) (r : ℕ) (h : r < 32) (j : Fin 8) :
    (rowM M r (row_inb32 r h)).view.read (Elt F) f (ValueIdx.ix1 j) = M.view.read (Elt F) f (ValueIdx.ix2 ⟨r, h⟩ j) := by
  rw [View.read_apply, View.read_apply, emb_rowM M r h j]

/-- After row `r` is overwritten by `p`, the buffer reads `p` at row `r`. -/
theorem rowWrite_read (c : Dev nD) (M : Memref sig .tc .vmem S32x8 .f32) (hM : M.IsWhole) (f0 : HbBuf (F := F) c M) (p : S8.Idx → Elt F .f32) (r : ℕ) (h : r < 32) (j : Fin 8) :
    M.view.read (Elt F) (show HbBuf (F := F) c M from View.write (Elt F) (rowM M r (row_inb32 r h)).view f0 p Finset.univ) (ValueIdx.ix2 ⟨r, h⟩ j) = p (ValueIdx.ix1 j) := by
  show M.view.read (Elt F) ((rowM M r (row_inb32 r h)).view.write (Elt F) f0 p Finset.univ) (ValueIdx.ix2 ⟨r, h⟩ j) = _
  rw [← read_rowM c M _ r h j]
  exact View.read_write_of_mem _ _ (Finset.mem_univ _)

/-- After row `r` is overwritten, the buffer reads at any other row what it read before. -/
theorem rowWrite_read_of_ne (c : Dev nD) (M : Memref sig .tc .vmem S32x8 .f32) (f0 : HbBuf (F := F) c M) (p : S8.Idx → Elt F .f32) (r : ℕ) (h : r < 32)
    (x : S32x8.Idx) (hx : ((x 0 : Fin 32) : ℕ) ≠ r) :
    M.view.read (Elt F) (show HbBuf (F := F) c M from View.write (Elt F) (rowM M r (row_inb32 r h)).view f0 p Finset.univ) x = M.view.read (Elt F) f0 x := by
  show M.view.read (Elt F) ((rowM M r (row_inb32 r h)).view.write (Elt F) f0 p Finset.univ) x = _
  have hn : M.view.emb x ∉ (rowM M r (row_inb32 r h)).view.setOn Finset.univ := by
    rw [View.setOn_univ, set_rowM]
    intro hm
    obtain ⟨y, hy, e⟩ := Finset.mem_map.mp hm
    rw [M.view.emb.injective e] at hy
    exact hx (mem_rowRect.mp hy)
  rw [View.read_apply, View.read_apply, View.write_of_not_mem _ _ _ hn]

/-! ## A row a copy has landed in, as one whole-row piece written over the prior contents -/

/-- On a view's own elements, what a write through the whole view leaves does not depend on the prior contents. -/
theorem write_univ_of_mem_set {κ : Kind} {sp : Space} {s : Shape} {e : EltTy} (v : View sig κ sp s e)
    (g g' : v.ty.Contents (Elt F)) (w : s.Idx → Elt F e) {x : v.ty.Idx} (hx : x ∈ v.set) :
    v.write (Elt F) g w Finset.univ x = v.write (Elt F) g' w Finset.univ x := by
  obtain ⟨j, -, rfl⟩ := Finset.mem_map.mp hx
  rw [View.write_emb_of_mem _ _ (Finset.mem_univ j), View.write_emb_of_mem _ _ (Finset.mem_univ j)]

/-- One whole-view piece written over `f` is the write through the whole view. -/
theorem writes_whole_eq_write {κ : Kind} {sp : Space} {s : Shape} {e : EltTy} (v : View sig κ sp s e)
    (f : v.ty.Contents (Elt F)) (w : s.Idx → Elt F e) :
    v.writes (Elt F) f [⟨Rect.whole s, w⟩] = v.write (Elt F) f w Finset.univ := by
  have h := View.write_univ_eq_writes_whole v f [] w
  rw [View.writes_nil] at h
  exact h.symm

/-- A row held at the whole-row piece `p` written over some contents: the contents underneath do not matter. -/
theorem rowPt_base (c : Dev nD) (M : Memref sig .tc .vmem S32x8 .f32) (r : ℕ) (h : r < 32) (f f' : HbBuf (F := F) c M) (p : S8.Idx → Elt F .f32) :
    (rowPt c M r h (show HbBuf (F := F) c M from (rowM M r (row_inb32 r h)).view.writes (Elt F) (show HbBuf (F := F) c (rowM M r (row_inb32 r h)) from f) [⟨Rect.whole S8, p⟩]) : sProp 𝕄)
      = rowPt c M r h (show HbBuf (F := F) c M from (rowM M r (row_inb32 r h)).view.writes (Elt F) (show HbBuf (F := F) c (rowM M r (row_inb32 r h)) from f') [⟨Rect.whole S8, p⟩]) := by
  refine pointsTo_congr fun i hi => ?_
  show (rowM M r (row_inb32 r h)).view.writes (Elt F) f [⟨Rect.whole S8, p⟩] i
    = (rowM M r (row_inb32 r h)).view.writes (Elt F) f' [⟨Rect.whole S8, p⟩] i
  rw [writes_whole_eq_write, writes_whole_eq_write]
  exact write_univ_of_mem_set _ _ _ _ hi

/-- The same with the contents underneath replaced by the row view's arbitrary contents, a closed term. -/
theorem rowPt_base_junk (c : Dev nD) (M : Memref sig .tc .vmem S32x8 .f32) (r : ℕ) (h : r < 32) (f : HbBuf (F := F) c M) (p : S8.Idx → Elt F .f32) :
    (rowPt c M r h (show HbBuf (F := F) c M from (rowM M r (row_inb32 r h)).view.writes (Elt F) (show HbBuf (F := F) c (rowM M r (row_inb32 r h)) from f) [⟨Rect.whole S8, p⟩]) : sProp 𝕄)
      = rowPt c M r h (show HbBuf (F := F) c M from (rowM M r (row_inb32 r h)).view.writes (Elt F) (rowM M r (row_inb32 r h)).view.junk [⟨Rect.whole S8, p⟩]) :=
  rowPt_base c M r h f (show HbBuf (F := F) c M from (rowM M r (row_inb32 r h)).view.junk) p

/-- After a copy lands in row `r` as the whole-row piece `p`, the buffer reads `p` at row `r`. -/
theorem rowWrites_read (c : Dev nD) (M : Memref sig .tc .vmem S32x8 .f32) (hM : M.IsWhole) (f0 : HbBuf (F := F) c M) (p : S8.Idx → Elt F .f32) (r : ℕ) (h : r < 32) (j : Fin 8) :
    M.view.read (Elt F) (show HbBuf (F := F) c M from (rowM M r (row_inb32 r h)).view.writes (Elt F) (show HbBuf (F := F) c (rowM M r (row_inb32 r h)) from f0) [⟨Rect.whole S8, p⟩]) (ValueIdx.ix2 ⟨r, h⟩ j) = p (ValueIdx.ix1 j) := by
  show M.view.read (Elt F) ((rowM M r (row_inb32 r h)).view.writes (Elt F) f0 [⟨Rect.whole S8, p⟩]) (ValueIdx.ix2 ⟨r, h⟩ j) = _
  rw [← read_rowM c M _ r h j, View.read_writes_whole]

end Cert.KernelIdeal.Hand

end
-- ==== Proof.KernelIdealRun1.lean ====
/-
  The body of gather kernel 1 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM1 : Memref sig .tc .smem S32x1023 .i32 := Memref.whole main_v34

set_option maxHeartbeats 40000000 in
/-- What the body of gather kernel 1 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun1 (c : Dev nD) (i : grid1.Coords) (arg3 : Memref sig .tc .vmem S1x32x8 .f32) (harg3 : arg3.IsWhole)
    (arg4 : Memref sig .tc .vmem S32x8 .f32) (harg4 : arg4.IsWhole)
    (f0 : HbBuf (F := F) c tbM1) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM1 fullShare f0 ∗ (∃ d, owns (c : Thread nD τ) arg3 fullShare d) ∗ (∃ d, owns (c : Thread nD τ) arg4 fullShare d)
            ∗ (tokH c 7 fh ∗ tokH c 8 fh ∗ tokH c 9 fh ∗ tokH c 10 fh ∗ tokH c 11 fh ∗ tokH c 12 fh ∗ tokH c 13 fh ∗ tokH c 14 fh ∗ tokH c 15 fh ∗ tokH c 16 fh ∗ tokH c 17 fh ∗ tokH c 18 fh ∗ tokH c 19 fh ∗ tokH c 20 fh ∗ tokH c 21 fh ∗ tokH c 22 fh ∗ tokH c 23 fh ∗ tokH c 24 fh ∗ tokH c 25 fh ∗ tokH c 26 fh ∗ tokH c 27 fh ∗ tokH c 28 fh ∗ tokH c 29 fh ∗ tokH c 30 fh ∗ tokH c 31 fh ∗ tokH c 32 fh ∗ tokH c 33 fh ∗ tokH c 34 fh ∗ tokH c 35 fh ∗ tokH c 36 fh ∗ tokH c 37 fh ∗ tokH c 38 fh)
            ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
            ∗ owes (c : Thread nD τ) 0 W
            ∗ (iprop(ptSet c tbM1 fullShare f0 ∗ (∃ f, arg3.view.loc (c : Thread nD τ) ↦[arg3.view.set]{fullShare} arg3.view.writes (Elt F) f L3) ∗ (∃ d, owns (c : Thread nD τ) arg4 fullShare d)
                ∗ (tokH c 7 fh ∗ tokH c 8 fh ∗ tokH c 9 fh ∗ tokH c 10 fh ∗ tokH c 11 fh ∗ tokH c 12 fh ∗ tokH c 13 fh ∗ tokH c 14 fh ∗ tokH c 15 fh ∗ tokH c 16 fh ∗ tokH c 17 fh ∗ tokH c 18 fh ∗ tokH c 19 fh ∗ tokH c 20 fh ∗ tokH c 21 fh ∗ tokH c 22 fh ∗ tokH c 23 fh ∗ tokH c 24 fh ∗ tokH c 25 fh ∗ tokH c 26 fh ∗ tokH c 27 fh ∗ tokH c 28 fh ∗ tokH c 29 fh ∗ tokH c 30 fh ∗ tokH c 31 fh ∗ tokH c 32 fh ∗ tokH c 33 fh ∗ tokH c 34 fh ∗ tokH c 35 fh ∗ tokH c 36 fh ∗ tokH c 37 fh ∗ tokH c 38 fh)
                ∗ (semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0)
                ∗ (∃ W', owes (c : Thread nD τ) 0 W')) -∗ K ⟨⟩))
          ⊢ wp frame (wpE (defs₀ (F := F)) Variants.none c none) Set.univ (cc1__gather_kernel i tbM1 (Memref.isWhole_whole _) hbM (Memref.isWhole_whole _) arg3 harg3 arg4 harg4 cc1_scratch1) K } := by
  refine ⟨?_, fun W K => ?run⟩
  case run =>
    simp only [cc1__gather_kernel_eq_skeleton]; unfold cc1__gather_kernel_skel
    unfold owns
    iintro ⟨H0, ⟨%d1, %f1, -, H1⟩, ⟨%ds0, %fs0, -, HS0⟩, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
    · isplitl [HT7]; · iexact HT7
      isplitl [HT8]; · iexact HT8
      isplitl [HT9]; · iexact HT9
      isplitl [HT10]; · iexact HT10
      isplitl [HT11]; · iexact HT11
      isplitl [HT12]; · iexact HT12
      isplitl [HT13]; · iexact HT13
      isplitl [HT14]; · iexact HT14
      isplitl [HT15]; · iexact HT15
      isplitl [HT16]; · iexact HT16
      isplitl [HT17]; · iexact HT17
      isplitl [HT18]; · iexact HT18
      isplitl [HT19]; · iexact HT19
      isplitl [HT20]; · iexact HT20
      isplitl [HT21]; · iexact HT21
      isplitl [HT22]; · iexact HT22
      isplitl [HT23]; · iexact HT23
      isplitl [HT24]; · iexact HT24
      isplitl [HT25]; · iexact HT25
      isplitl [HT26]; · iexact HT26
      isplitl [HT27]; · iexact HT27
      isplitl [HT28]; · iexact HT28
      isplitl [HT29]; · iexact HT29
      isplitl [HT30]; · iexact HT30
      isplitl [HT31]; · iexact HT31
      isplitl [HT32]; · iexact HT32
      isplitl [HT33]; · iexact HT33
      isplitl [HT34]; · iexact HT34
      isplitl [HT35]; · iexact HT35
      isplitl [HT36]; · iexact HT36
      isplitl [HT37]; · iexact HT37
      iexact HT38
    isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    iexists _; iexact HW

/-- The run's pieces for the output block tile it (its one store writes the whole block), so they cover it. -/
theorem coverRun1 (c : Dev nD) (i : grid1.Coords) (arg3 : Memref sig .tc .vmem S1x32x8 .f32) (harg3 : arg3.IsWhole)
    (arg4 : Memref sig .tc .vmem S32x8 .f32) (harg4 : arg4.IsWhole)
    (f0 : HbBuf (F := F) c tbM1) (hall : ∀ j, (f0 j).toNat < 8388608) (fh : HbBuf (F := F) c hbM) (y : S1x32x8.Idx) :
    ∃ pc ∈ (kernelRun1 c i arg3 harg3 arg4 harg4 f0 hall fh).1, y ∈ pc.1.set :=
  View.cover_of_tiledL (kernelRun1 c i arg3 harg3 arg4 harg4 f0 hall fh).1 S1x32x8.size (by sl_kernel_rfl) y

end Cert.KernelIdeal.Hand

end
-- ==== Proof.KernelIdealGather1.lean ====
/-
  Gather kernel 1 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun1

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 1: its region, over the contents `V` it is entered with -/

section Gather1
variable (V : (c : Dev nD) → (b : Ref sig .tc) → Buf (Elt F) ((c : Thread nD τ).loc b))

/-- The row-index table of this launch as the region finds it. The pipeline asks nothing of a table (its windows' index
    maps do not read it), so every table is admissible. -/
def adm1 : (pcfg1 (F := F)).Adm := ⟨fun | ⟨0, _⟩ => V 0 main_v34 | ⟨_ + 1, h⟩ => absurd h (Nat.not_lt.2 (Nat.le_add_left _ _)), trivial⟩

/-- Every word of the table names a row of the weight array. -/
def InRange1 : Prop := ∀ (c : Dev nD) j, ((V c main_v34) j).toNat < 8388608

abbrev pcfgG1 : Pipeline.Cfg sig Λ₀ := cfg1 (adm1 (F := F) V)

/-- The output window's current staging buffer at point `t`, as the pipeline passes it to the body. -/
abbrev ms1 (t : Fin (pcfgG1 (F := F) V).N) : Memref sig .tc .vmem S1x32x8 .f32 := spec1_0.stage ((pcfgG1 (F := F) V).slots t 0)
abbrev hs1 (t : Fin (pcfgG1 (F := F) V).N) : (ms1 V t).IsWhole := hstage1_0 (((pcfgG1 (F := F) V).slots t 0).cast nbuf1_0)
/-- The kernel's scratch block, a whole scoped buffer of its own. -/
abbrev scM1 : Memref sig .tc .vmem S32x8 .f32 := Memref.whole cc1_scratch0
/-- One staging buffer of the output window, through which its contents are stated. -/
abbrev VO1 : View sig .tc .vmem S1x32x8 .f32 := (Memref.whole cc1_stg0_0 : Memref sig .tc .vmem S1x32x8 .f32).view

/-- The kernel's own DMA semaphores, one per route. -/
abbrev osem1 : Fin 32 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38] : Fin 32 → SemLoc sig) j
theorem ownSemFacts1 : Pipeline.OwnSemFacts spec1 osem1 := by decide
theorem ownSems01_eq (c : Dev nD) :
    (Pipeline.ownSems0 (Ix := Unit) (Name := ℕ) (U := Pipeline.UD sig nD τ) (Lvl := ℕ) (Val := Elt F) (τ := τ) osem1 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0) := by
  rw [Pipeline.ownSems0_eq_of_list c osem1 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H1 : Finset (Ref sig .tc) := {main_arg2, main_v34}
theorem H1_sub : H1 ⊆ Pipeline.restRefs sig spec1 := by decide

/-- What the output block holds after the body at point `t`: the run's pieces read back. -/
def outsAt1 (hH : InRange1 V) (c : Dev nD) (t : Fin (pcfgG1 (F := F) V).N) : Vec F S1x32x8 .f32 :=
  (VO1).read (Elt F) ((VO1).writes (Elt F) (VO1).junk
    (kernelRun1 c (grid1.coords t) (ms1 V t) (hs1 V t) scM1 (Memref.isWhole_whole _) (V c main_v34) (hH c) (V c main_arg2)).1)

/-- The region's invariant: the scoped buffers no window stages (the scratch block among them), the generator register,
    the kernel's DMA semaphores at zero, the weight array and the table whole at their entry contents. -/
def ΦG1 (c : Dev nD) : sProp 𝕄 :=
  iprop(Pipeline.scopedRest (Ix := Unit) (Name := ℕ) (U := Pipeline.UD sig nD τ) (Lvl := ℕ) (Val := Elt F) spec1 c ∗ (∃ r, prngReg c r)
    ∗ Pipeline.ownSems0 (Ix := Unit) (Name := ℕ) (U := Pipeline.UD sig nD τ) (Lvl := ℕ) (Val := Elt F) (τ := τ) osem1 c
    ∗ (((c : Thread nD τ).loc main_arg2) ↦{fullShare} V c main_arg2)
    ∗ ptSet c tbM1 fullShare (V c main_v34))

/-- The proof data of gather pipeline 1 on core `c`. -/
def datG1 (hH : InRange1 V) (c : Dev nD) : Dat τ (Elt F) Unit ℕ (Pipeline.UD sig nD τ) ℕ (pcfgG1 (F := F) V) c where
  A w := V c (Pipeline.arrRef spec1 w)
  after w t := match w with
    | ⟨0, _⟩ => outsAt1 V hH c t
  Φ _ := ΦG1 V c
  q _ := fullShare
  owed _ := 0

theorem afterG1 (hH : InRange1 V) (c : Dev nD) (t) : (datG1 V hH c).after 0 t = outsAt1 V hH c t := by dsimp only [datG1]; rfl

end Gather1

section GatherBody1
variable (V : (c : Dev nD) → (b : Ref sig .tc) → Buf (Elt F) ((c : Thread nD τ).loc b))

open Idealize.ShloMosaic.Transfers in
/-- The weight array at the full share, as the read shares the thirty-two copies take and what is left beside them. -/
theorem hbSplit1 (c : Dev nD) :
    ((((c : Thread nD τ).loc main_arg2) ↦{fullShare} V c main_arg2) : sProp 𝕄)
      ⊣⊢ iprop((((((c : Thread nD τ).loc main_arg2) ↦{shareDrop fullShare (7 + 32)} V c main_arg2)) ∗ (tokH c 7 (V c main_arg2) ∗ tokH c 8 (V c main_arg2) ∗ tokH c 9 (V c main_arg2) ∗ tokH c 10 (V c main_arg2) ∗ tokH c 11 (V c main_arg2) ∗ tokH c 12 (V c main_arg2) ∗ tokH c 13 (V c main_arg2) ∗ tokH c 14 (V c main_arg2) ∗ tokH c 15 (V c main_arg2) ∗ tokH c 16 (V c main_arg2) ∗ tokH c 17 (V c main_arg2) ∗ tokH c 18 (V c main_arg2) ∗ tokH c 19 (V c main_arg2) ∗ tokH c 20 (V c main_arg2) ∗ tokH c 21 (V c main_arg2) ∗ tokH c 22 (V c main_arg2) ∗ tokH c 23 (V c main_arg2) ∗ tokH c 24 (V c main_arg2) ∗ tokH c 25 (V c main_arg2) ∗ tokH c 26 (V c main_arg2) ∗ tokH c 27 (V c main_arg2) ∗ tokH c 28 (V c main_arg2) ∗ tokH c 29 (V c main_arg2) ∗ tokH c 30 (V c main_arg2) ∗ tokH c 31 (V c main_arg2) ∗ tokH c 32 (V c main_arg2) ∗ tokH c 33 (V c main_arg2) ∗ tokH c 34 (V c main_arg2) ∗ tokH c 35 (V c main_arg2) ∗ tokH c 36 (V c main_arg2) ∗ tokH c 37 (V c main_arg2) ∗ tokH c 38 (V c main_arg2)))
        ∗ BI.bigSep (Finset.range 7) (fun i => ((((c : Thread nD τ).loc main_arg2) ↦{shareTokN fullShare i} V c main_arg2) : sProp 𝕄))) :=
  toks32 (F := F) 7

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG1 (hH : InRange1 V) (c : Dev nD) (t : Fin (pcfgG1 (F := F) V).N) :
    iprop((datG1 V hH c).Φ t.castSucc ∗ (datG1 V hH c).owesAt () t.castSucc
        ∗ (∃ d, owns (c : Thread nD τ) (ms1 V t) fullShare ((datG1 V hH c).before 0 t d)))
      ⊢ wp frame (wpE (defs₀ (F := F)) Variants.none c none) Set.univ
          (cc1__gather_kernel (grid1.coords t) tbM1 (Memref.isWhole_whole _) hbM (Memref.isWhole_whole _) (ms1 V t) (hs1 V t) scM1 (Memref.isWhole_whole _) cc1_scratch1)
          (fun _ => iprop((datG1 V hH c).Φ t.succ ∗ (datG1 V hH c).owesAt () t.succ
            ∗ owns (c : Thread nD τ) (ms1 V t) fullShare ((datG1 V hH c).after 0 t))) := by
  rw [show (datG1 V hH c).Φ t.succ = ΦG1 V c from rfl, show (datG1 V hH c).Φ t.castSucc = ΦG1 V c from rfl, afterG1]
  unfold ΦG1
  rw [scopedRest1_split, ownSems01_eq]
  unfold Dat.owesAt Pipeline.owesWithin
  rw [show (datG1 V hH c).owed t.castSucc = 0 from rfl, show (datG1 V hH c).owed t.succ = 0 from rfl]
  unfold outsAt1
  iintro ⟨⟨⟨HS0, HRB⟩, Hg, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, Hh, Ht⟩, ⟨%W, -, HW⟩, ⟨%d1, H1⟩⟩
  ihave Hh2 := (hbSplit1 V c).1 $$ Hh
  icases Hh2 with ⟨⟨Hdrop, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩⟩, Hlow⟩
  iapply ((kernelRun1 c (grid1.coords t) (ms1 V t) (hs1 V t) scM1 (Memref.isWhole_whole _) (V c main_v34) (hH c) (V c main_arg2)).2 W _)
  isplitl [Ht]; · iexact Ht
  isplitl [H1]; · iexists _; iexact H1
  isplitl [HS0]; · simp only [owns_whole]; iexact HS0
  isplitl [HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
  · isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    isplitl [HT19]; · iexact HT19
    isplitl [HT20]; · iexact HT20
    isplitl [HT21]; · iexact HT21
    isplitl [HT22]; · iexact HT22
    isplitl [HT23]; · iexact HT23
    isplitl [HT24]; · iexact HT24
    isplitl [HT25]; · iexact HT25
    isplitl [HT26]; · iexact HT26
    isplitl [HT27]; · iexact HT27
    isplitl [HT28]; · iexact HT28
    isplitl [HT29]; · iexact HT29
    isplitl [HT30]; · iexact HT30
    isplitl [HT31]; · iexact HT31
    isplitl [HT32]; · iexact HT32
    isplitl [HT33]; · iexact HT33
    isplitl [HT34]; · iexact HT34
    isplitl [HT35]; · iexact HT35
    isplitl [HT36]; · iexact HT36
    isplitl [HT37]; · iexact HT37
    iexact HT38
  isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
  · isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hq32]; · iexact Hq32
    isplitl [Hq33]; · iexact Hq33
    isplitl [Hq34]; · iexact Hq34
    isplitl [Hq35]; · iexact Hq35
    isplitl [Hq36]; · iexact Hq36
    isplitl [Hq37]; · iexact Hq37
    iexact Hq38
  isplitl [HW]; · iexact HW
  iintro ⟨Ht, ⟨%e1, H1⟩, HS0, ⟨HT7, HT8, HT9, HT10, HT11, HT12, HT13, HT14, HT15, HT16, HT17, HT18, HT19, HT20, HT21, HT22, HT23, HT24, HT25, HT26, HT27, HT28, HT29, HT30, HT31, HT32, HT33, HT34, HT35, HT36, HT37, HT38⟩, ⟨Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38⟩, ⟨%W', HW'⟩⟩
  isplitl [Ht HS0 HRB Hg Hdrop Hlow HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
  · isplitl [HS0 HRB]
    · isplitl [HS0]; · simp only [owns_whole]; iexact HS0
      iexact HRB
    isplitl [Hg]; · iexact Hg
    isplitl [Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38]
    · isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      iexact Hq38
    isplitl [Hdrop Hlow HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
    · iapply (hbSplit1 V c).2
      isplitl [Hdrop HT7 HT8 HT9 HT10 HT11 HT12 HT13 HT14 HT15 HT16 HT17 HT18 HT19 HT20 HT21 HT22 HT23 HT24 HT25 HT26 HT27 HT28 HT29 HT30 HT31 HT32 HT33 HT34 HT35 HT36 HT37 HT38]
      · isplitl [Hdrop]; · iexact Hdrop
        isplitl [HT7]; · iexact HT7
        isplitl [HT8]; · iexact HT8
        isplitl [HT9]; · iexact HT9
        isplitl [HT10]; · iexact HT10
        isplitl [HT11]; · iexact HT11
        isplitl [HT12]; · iexact HT12
        isplitl [HT13]; · iexact HT13
        isplitl [HT14]; · iexact HT14
        isplitl [HT15]; · iexact HT15
        isplitl [HT16]; · iexact HT16
        isplitl [HT17]; · iexact HT17
        isplitl [HT18]; · iexact HT18
        isplitl [HT19]; · iexact HT19
        isplitl [HT20]; · iexact HT20
        isplitl [HT21]; · iexact HT21
        isplitl [HT22]; · iexact HT22
        isplitl [HT23]; · iexact HT23
        isplitl [HT24]; · iexact HT24
        isplitl [HT25]; · iexact HT25
        isplitl [HT26]; · iexact HT26
        isplitl [HT27]; · iexact HT27
        isplitl [HT28]; · iexact HT28
        isplitl [HT29]; · iexact HT29
        isplitl [HT30]; · iexact HT30
        isplitl [HT31]; · iexact HT31
        isplitl [HT32]; · iexact HT32
        isplitl [HT33]; · iexact HT33
        isplitl [HT34]; · iexact HT34
        isplitl [HT35]; · iexact HT35
        isplitl [HT36]; · iexact HT36
        isplitl [HT37]; · iexact HT37
        iexact HT38
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun1 c _ _ _ _ _ _ _ _)

/-- The body obligation of gather pipeline 1, at every point. -/
theorem body_obligationG1 (hH : InRange1 V) (c : Dev nD) :
    BodyObligation (datG1 (F := F) V hH c) (defs₀ (F := F)) Variants.none () Set.univ := fun t => by
  rw [bigSep_W1, bigSep_W1]
  exact sound_bodyG1 V hH c t

end GatherBody1

section GatherLaunch1
variable (V : (c : Dev nD) → (b : Ref sig .tc) → Buf (Elt F) ((c : Thread nD τ).loc b))

/-- The table held through its own elements is the table's buffer held whole. -/
theorem tbPt1_eq (c : Dev nD) (f : HbBuf (F := F) c tbM1) :
    (ptSet c tbM1 fullShare f : sProp 𝕄) = (((c : Thread nD τ).loc main_v34) ↦{fullShare} f) := by
  show ((Memref.whole main_v34 : Memref sig .tc .smem S32x1023 .i32).view.loc (c : Thread nD τ) ↦[(Memref.whole main_v34 : Memref sig .tc .smem S32x1023 .i32).view.set]{fullShare} f) = _
  simp only [View.set_whole, Memref.view_whole]

/-- The launch's prefetched tables at the admitted contents: the one table's buffer held whole. -/
theorem prefHeld1_eq (c : Dev nD) :
    (Pipeline.prefHeld (Ix := Unit) (Name := ℕ) (U := Pipeline.UD sig nD τ) (Lvl := ℕ) pre1 c (fun _ => fullShare) (adm1 (F := F) V).1 : sProp 𝕄)
      = (((c : Thread nD τ).loc main_v34) ↦{fullShare} V c main_v34) := by
  obtain rfl : c = 0 := Subsingleton.elim _ _
  unfold Pipeline.prefHeld adm1
  rw [bigSep_W1]; rfl

/-- The two unscoped buffers the body reads by itself, their points-tos listed. -/
theorem hbmPts1_eq (c : Dev nD) :
    (BI.bigSep H1 (fun b => ((c : Thread nD τ).loc b) ↦{fullShare} V c b) : sProp 𝕄)
      = iprop((((c : Thread nD τ).loc main_arg2) ↦{fullShare} V c main_arg2) ∗ (((c : Thread nD τ).loc main_v34) ↦{fullShare} V c main_v34)) := by
  rw [BI.bigSep_eq_bigSepL_of_eq [main_arg2, main_v34] (by decide) (by decide)]; rfl

end GatherLaunch1

end Cert.KernelIdeal.Hand

end
-- ==== Proof.KernelIdealRun2.lean ====
/-
  The body of gather kernel 2 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM2 : Memref sig .tc .smem S32x1023 .i32 := Memref.whole main_v37

set_option maxHeartbeats 40000000 in
/-- What the body of gather kernel 2 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun2 (c : Dev nD) (i : grid2.Coords) (arg3 : Memref sig .tc .vmem S1x32x8 .f32) (harg3 : arg3.IsWhole)
    (arg4 : Memref sig .tc .vmem S32x8 .f32) (harg4 : arg4.IsWhole)
    (f0 : HbBuf (F := F) c tbM2) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM2 fullShare f0 ∗ (∃ d, owns (c : Thread nD τ) arg3 fullShare d) ∗ (∃ d, owns (c : Thread nD τ) arg4 fullShare d)
            ∗ (tokH c 41 fh ∗ tokH c 42 fh ∗ tokH c 43 fh ∗ tokH c 44 fh ∗ tokH c 45 fh ∗ tokH c 46 fh ∗ tokH c 47 fh ∗ tokH c 48 fh ∗ tokH c 49 fh ∗ tokH c 50 fh ∗ tokH c 51 fh ∗ tokH c 52 fh ∗ tokH c 53 fh ∗ tokH c 54 fh ∗ tokH c 55 fh ∗ tokH c 56 fh ∗ tokH c 57 fh ∗ tokH c 58 fh ∗ tokH c 59 fh ∗ tokH c 60 fh ∗ tokH c 61 fh ∗ tokH c 62 fh ∗ tokH c 63 fh ∗ tokH c 64 fh ∗ tokH c 65 fh ∗ tokH c 66 fh ∗ tokH c 67 fh ∗ tokH c 68 fh ∗ tokH c 69 fh ∗ tokH c 70 fh ∗ tokH c 71 fh ∗ tokH c 72 fh)
            ∗ (semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0)
            ∗ owes (c : Thread nD τ) 0 W
            ∗ (iprop(ptSet c tbM2 fullShare f0 ∗ (∃ f, arg3.view.loc (c : Thread nD τ) ↦[arg3.view.set]{fullShare} arg3.view.writes (Elt F) f L3) ∗ (∃ d, owns (c : Thread nD τ) arg4 fullShare d)
                ∗ (tokH c 41 fh ∗ tokH c 42 fh ∗ tokH c 43 fh ∗ tokH c 44 fh ∗ tokH c 45 fh ∗ tokH c 46 fh ∗ tokH c 47 fh ∗ tokH c 48 fh ∗ tokH c 49 fh ∗ tokH c 50 fh ∗ tokH c 51 fh ∗ tokH c 52 fh ∗ tokH c 53 fh ∗ tokH c 54 fh ∗ tokH c 55 fh ∗ tokH c 56 fh ∗ tokH c 57 fh ∗ tokH c 58 fh ∗ tokH c 59 fh ∗ tokH c 60 fh ∗ tokH c 61 fh ∗ tokH c 62 fh ∗ tokH c 63 fh ∗ tokH c 64 fh ∗ tokH c 65 fh ∗ tokH c 66 fh ∗ tokH c 67 fh ∗ tokH c 68 fh ∗ tokH c 69 fh ∗ tokH c 70 fh ∗ tokH c 71 fh ∗ tokH c 72 fh)
                ∗ (semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0)
                ∗ (∃ W', owes (c : Thread nD τ) 0 W')) -∗ K ⟨⟩))
          ⊢ wp frame (wpE (defs₀ (F := F)) Variants.none c none) Set.univ (cc2__gather_kernel i tbM2 (Memref.isWhole_whole _) hbM (Memref.isWhole_whole _) arg3 harg3 arg4 harg4 cc2_scratch1) K } := by
  refine ⟨?_, fun W K => ?run⟩
  case run =>
    simp only [cc2__gather_kernel_eq_skeleton]; unfold cc2__gather_kernel_skel
    unfold owns
    iintro ⟨H0, ⟨%d1, %f1, -, H1⟩, ⟨%ds0, %fs0, -, HS0⟩, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
    · isplitl [HT41]; · iexact HT41
      isplitl [HT42]; · iexact HT42
      isplitl [HT43]; · iexact HT43
      isplitl [HT44]; · iexact HT44
      isplitl [HT45]; · iexact HT45
      isplitl [HT46]; · iexact HT46
      isplitl [HT47]; · iexact HT47
      isplitl [HT48]; · iexact HT48
      isplitl [HT49]; · iexact HT49
      isplitl [HT50]; · iexact HT50
      isplitl [HT51]; · iexact HT51
      isplitl [HT52]; · iexact HT52
      isplitl [HT53]; · iexact HT53
      isplitl [HT54]; · iexact HT54
      isplitl [HT55]; · iexact HT55
      isplitl [HT56]; · iexact HT56
      isplitl [HT57]; · iexact HT57
      isplitl [HT58]; · iexact HT58
      isplitl [HT59]; · iexact HT59
      isplitl [HT60]; · iexact HT60
      isplitl [HT61]; · iexact HT61
      isplitl [HT62]; · iexact HT62
      isplitl [HT63]; · iexact HT63
      isplitl [HT64]; · iexact HT64
      isplitl [HT65]; · iexact HT65
      isplitl [HT66]; · iexact HT66
      isplitl [HT67]; · iexact HT67
      isplitl [HT68]; · iexact HT68
      isplitl [HT69]; · iexact HT69
      isplitl [HT70]; · iexact HT70
      isplitl [HT71]; · iexact HT71
      iexact HT72
    isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
    · isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      iexact Hq72
    iexists _; iexact HW

/-- The run's pieces for the output block tile it (its one store writes the whole block), so they cover it. -/
theorem coverRun2 (c : Dev nD) (i : grid2.Coords) (arg3 : Memref sig .tc .vmem S1x32x8 .f32) (harg3 : arg3.IsWhole)
    (arg4 : Memref sig .tc .vmem S32x8 .f32) (harg4 : arg4.IsWhole)
    (f0 : HbBuf (F := F) c tbM2) (hall : ∀ j, (f0 j).toNat < 8388608) (fh : HbBuf (F := F) c hbM) (y : S1x32x8.Idx) :
    ∃ pc ∈ (kernelRun2 c i arg3 harg3 arg4 harg4 f0 hall fh).1, y ∈ pc.1.set :=
  View.cover_of_tiledL (kernelRun2 c i arg3 harg3 arg4 harg4 f0 hall fh).1 S1x32x8.size (by sl_kernel_rfl) y

end Cert.KernelIdeal.Hand

end
-- ==== Proof.KernelIdealGather2.lean ====
/-
  Gather kernel 2 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun2

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 2: its region, over the contents `V` it is entered with -/

section Gather2
variable (V : (c : Dev nD) → (b : Ref sig .tc) → Buf (Elt F) ((c : Thread nD τ).loc b))

/-- The row-index table of this launch as the region finds it. The pipeline asks nothing of a table (its windows' index
    maps do not read it), so every table is admissible. -/
def adm2 : (pcfg2 (F := F)).Adm := ⟨fun | ⟨0, _⟩ => V 0 main_v37 | ⟨_ + 1, h⟩ => absurd h (Nat.not_lt.2 (Nat.le_add_left _ _)), trivial⟩

/-- Every word of the table names a row of the weight array. -/
def InRange2 : Prop := ∀ (c : Dev nD) j, ((V c main_v37) j).toNat < 8388608

abbrev pcfgG2 : Pipeline.Cfg sig Λ₀ := cfg2 (adm2 (F := F) V)

/-- The output window's current staging buffer at point `t`, as the pipeline passes it to the body. -/
abbrev ms2 (t : Fin (pcfgG2 (F := F) V).N) : Memref sig .tc .vmem S1x32x8 .f32 := spec2_0.stage ((pcfgG2 (F := F) V).slots t 0)
abbrev hs2 (t : Fin (pcfgG2 (F := F) V).N) : (ms2 V t).IsWhole := hstage2_0 (((pcfgG2 (F := F) V).slots t 0).cast nbuf2_0)
/-- The kernel's scratch block, a whole scoped buffer of its own. -/
abbrev scM2 : Memref sig .tc .vmem S32x8 .f32 := Memref.whole cc2_scratch0
/-- One staging buffer of the output window, through which its contents are stated. -/
abbrev VO2 : View sig .tc .vmem S1x32x8 .f32 := (Memref.whole cc2_stg0_0 : Memref sig .tc .vmem S1x32x8 .f32).view

/-- The kernel's own DMA semaphores, one per route. -/
abbrev osem2 : Fin 32 → SemLoc sig := fun j => (![SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72] : Fin 32 → SemLoc sig) j
theorem ownSemFacts2 : Pipeline.OwnSemFacts spec2 osem2 := by decide
theorem ownSems02_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0) := by
  rw [Pipeline.ownSems0_eq_of_list c osem2 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H2 : Finset (Ref sig .tc) := {main_arg2, main_v37}
theorem H2_sub : H2 ⊆ Pipeline.restRefs sig spec2 := by decide

/-- What the output block holds after the body at point `t`: the run's pieces read back. -/
def outsAt2 (hH : InRange2 V) (c : Dev nD) (t : Fin (pcfgG2 (F := F) V).N) : Vec F S1x32x8 .f32 :=
  (VO2).read (Elt F) ((VO2).writes (Elt F) (VO2).junk
    (kernelRun2 c (grid2.coords t) (ms2 V t) (hs2 V t) scM2 (Memref.isWhole_whole _) (V c main_v37) (hH c) (V c main_arg2)).1)

/-- The region's invariant: the scoped buffers no window stages (the scratch block among them), the generator register,
    the kernel's DMA semaphores at zero, the weight array and the table whole at their entry contents. -/
def ΦG2 (c : Dev nD) : sProp 𝕄 :=
  iprop(Pipeline.scopedRest (Ix := Unit) (Name := ℕ) (U := Pipeline.UD sig nD τ) (Lvl := ℕ) (Val := Elt F) spec2 c ∗ (∃ r, prngReg c r)
    ∗ Pipeline.ownSems0 (Ix := Unit) (Name := ℕ) (U := Pipeline.UD sig nD τ) (Lvl := ℕ) (Val := Elt F) (τ := τ) osem2 c
    ∗ (((c : Thread nD τ).loc main_arg2) ↦{fullShare} V c main_arg2)
    ∗ ptSet c tbM2 fullShare (V c main_v37))

/-- The proof data of gather pipeline 2 on core `c`. -/
def datG2 (hH : InRange2 V) (c : Dev nD) : Dat τ (Elt F) Unit ℕ (Pipeline.UD sig nD τ) ℕ (pcfgG2 (F := F) V) c where
  A w := V c (Pipeline.arrRef spec2 w)
  after w t := match w with
    | ⟨0, _⟩ => outsAt2 V hH c t
  Φ _ := ΦG2 V c
  q _ := fullShare
  owed _ := 0

theorem afterG2 (hH : InRange2 V) (c : Dev nD) (t) : (datG2 V hH c).after 0 t = outsAt2 V hH c t := by dsimp only [datG2]; rfl

end Gather2

section GatherBody2
variable (V : (c : Dev nD) → (b : Ref sig .tc) → Buf (Elt F) ((c : Thread nD τ).loc b))

open Idealize.ShloMosaic.Transfers in
/-- The weight array at the full share, as the read shares the thirty-two copies take and what is left beside them. -/
theorem hbSplit2 (c : Dev nD) :
    ((((c : Thread nD τ).loc main_arg2) ↦{fullShare} V c main_arg2) : sProp 𝕄)
      ⊣⊢ iprop((((((c : Thread nD τ).loc main_arg2) ↦{shareDrop fullShare (41 + 32)} V c main_arg2)) ∗ (tokH c 41 (V c main_arg2) ∗ tokH c 42 (V c main_arg2) ∗ tokH c 43 (V c main_arg2) ∗ tokH c 44 (V c main_arg2) ∗ tokH c 45 (V c main_arg2) ∗ tokH c 46 (V c main_arg2) ∗ tokH c 47 (V c main_arg2) ∗ tokH c 48 (V c main_arg2) ∗ tokH c 49 (V c main_arg2) ∗ tokH c 50 (V c main_arg2) ∗ tokH c 51 (V c main_arg2) ∗ tokH c 52 (V c main_arg2) ∗ tokH c 53 (V c main_arg2) ∗ tokH c 54 (V c main_arg2) ∗ tokH c 55 (V c main_arg2) ∗ tokH c 56 (V c main_arg2) ∗ tokH c 57 (V c main_arg2) ∗ tokH c 58 (V c main_arg2) ∗ tokH c 59 (V c main_arg2) ∗ tokH c 60 (V c main_arg2) ∗ tokH c 61 (V c main_arg2) ∗ tokH c 62 (V c main_arg2) ∗ tokH c 63 (V c main_arg2) ∗ tokH c 64 (V c main_arg2) ∗ tokH c 65 (V c main_arg2) ∗ tokH c 66 (V c main_arg2) ∗ tokH c 67 (V c main_arg2) ∗ tokH c 68 (V c main_arg2) ∗ tokH c 69 (V c main_arg2) ∗ tokH c 70 (V c main_arg2) ∗ tokH c 71 (V c main_arg2) ∗ tokH c 72 (V c main_arg2)))
        ∗ BI.bigSep (Finset.range 41) (fun i => ((((c : Thread nD τ).loc main_arg2) ↦{shareTokN fullShare i} V c main_arg2) : sProp 𝕄))) :=
  toks32 (F := F) 41

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG2 (hH : InRange2 V) (c : Dev nD) (t : Fin (pcfgG2 (F := F) V).N) :
    iprop((datG2 V hH c).Φ t.castSucc ∗ (datG2 V hH c).owesAt () t.castSucc
        ∗ (∃ d, owns (c : Thread nD τ) (ms2 V t) fullShare ((datG2 V hH c).before 0 t d)))
      ⊢ wp frame (wpE (defs₀ (F := F)) Variants.none c none) Set.univ
          (cc2__gather_kernel (grid2.coords t) tbM2 (Memref.isWhole_whole _) hbM (Memref.isWhole_whole _) (ms2 V t) (hs2 V t) scM2 (Memref.isWhole_whole _) cc2_scratch1)
          (fun _ => iprop((datG2 V hH c).Φ t.succ ∗ (datG2 V hH c).owesAt () t.succ
            ∗ owns (c : Thread nD τ) (ms2 V t) fullShare ((datG2 V hH c).after 0 t))) := by
  rw [show (datG2 V hH c).Φ t.succ = ΦG2 V c from rfl, show (datG2 V hH c).Φ t.castSucc = ΦG2 V c from rfl, afterG2]
  unfold ΦG2
  rw [scopedRest2_split, ownSems02_eq]
  unfold Dat.owesAt Pipeline.owesWithin
  rw [show (datG2 V hH c).owed t.castSucc = 0 from rfl, show (datG2 V hH c).owed t.succ = 0 from rfl]
  unfold outsAt2
  iintro ⟨⟨⟨HS0, HRB⟩, Hg, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, Hh, Ht⟩, ⟨%W, -, HW⟩, ⟨%d1, H1⟩⟩
  ihave Hh2 := (hbSplit2 V c).1 $$ Hh
  icases Hh2 with ⟨⟨Hdrop, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩⟩, Hlow⟩
  iapply ((kernelRun2 c (grid2.coords t) (ms2 V t) (hs2 V t) scM2 (Memref.isWhole_whole _) (V c main_v37) (hH c) (V c main_arg2)).2 W _)
  isplitl [Ht]; · iexact Ht
  isplitl [H1]; · iexists _; iexact H1
  isplitl [HS0]; · simp only [owns_whole]; iexact HS0
  isplitl [HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
  · isplitl [HT41]; · iexact HT41
    isplitl [HT42]; · iexact HT42
    isplitl [HT43]; · iexact HT43
    isplitl [HT44]; · iexact HT44
    isplitl [HT45]; · iexact HT45
    isplitl [HT46]; · iexact HT46
    isplitl [HT47]; · iexact HT47
    isplitl [HT48]; · iexact HT48
    isplitl [HT49]; · iexact HT49
    isplitl [HT50]; · iexact HT50
    isplitl [HT51]; · iexact HT51
    isplitl [HT52]; · iexact HT52
    isplitl [HT53]; · iexact HT53
    isplitl [HT54]; · iexact HT54
    isplitl [HT55]; · iexact HT55
    isplitl [HT56]; · iexact HT56
    isplitl [HT57]; · iexact HT57
    isplitl [HT58]; · iexact HT58
    isplitl [HT59]; · iexact HT59
    isplitl [HT60]; · iexact HT60
    isplitl [HT61]; · iexact HT61
    isplitl [HT62]; · iexact HT62
    isplitl [HT63]; · iexact HT63
    isplitl [HT64]; · iexact HT64
    isplitl [HT65]; · iexact HT65
    isplitl [HT66]; · iexact HT66
    isplitl [HT67]; · iexact HT67
    isplitl [HT68]; · iexact HT68
    isplitl [HT69]; · iexact HT69
    isplitl [HT70]; · iexact HT70
    isplitl [HT71]; · iexact HT71
    iexact HT72
  isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
  · isplitl [Hq41]; · iexact Hq41
    isplitl [Hq42]; · iexact Hq42
    isplitl [Hq43]; · iexact Hq43
    isplitl [Hq44]; · iexact Hq44
    isplitl [Hq45]; · iexact Hq45
    isplitl [Hq46]; · iexact Hq46
    isplitl [Hq47]; · iexact Hq47
    isplitl [Hq48]; · iexact Hq48
    isplitl [Hq49]; · iexact Hq49
    isplitl [Hq50]; · iexact Hq50
    isplitl [Hq51]; · iexact Hq51
    isplitl [Hq52]; · iexact Hq52
    isplitl [Hq53]; · iexact Hq53
    isplitl [Hq54]; · iexact Hq54
    isplitl [Hq55]; · iexact Hq55
    isplitl [Hq56]; · iexact Hq56
    isplitl [Hq57]; · iexact Hq57
    isplitl [Hq58]; · iexact Hq58
    isplitl [Hq59]; · iexact Hq59
    isplitl [Hq60]; · iexact Hq60
    isplitl [Hq61]; · iexact Hq61
    isplitl [Hq62]; · iexact Hq62
    isplitl [Hq63]; · iexact Hq63
    isplitl [Hq64]; · iexact Hq64
    isplitl [Hq65]; · iexact Hq65
    isplitl [Hq66]; · iexact Hq66
    isplitl [Hq67]; · iexact Hq67
    isplitl [Hq68]; · iexact Hq68
    isplitl [Hq69]; · iexact Hq69
    isplitl [Hq70]; · iexact Hq70
    isplitl [Hq71]; · iexact Hq71
    iexact Hq72
  isplitl [HW]; · iexact HW
  iintro ⟨Ht, ⟨%e1, H1⟩, HS0, ⟨HT41, HT42, HT43, HT44, HT45, HT46, HT47, HT48, HT49, HT50, HT51, HT52, HT53, HT54, HT55, HT56, HT57, HT58, HT59, HT60, HT61, HT62, HT63, HT64, HT65, HT66, HT67, HT68, HT69, HT70, HT71, HT72⟩, ⟨Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72⟩, ⟨%W', HW'⟩⟩
  isplitl [Ht HS0 HRB Hg Hdrop Hlow HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72 Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
  · isplitl [HS0 HRB]
    · isplitl [HS0]; · simp only [owns_whole]; iexact HS0
      iexact HRB
    isplitl [Hg]; · iexact Hg
    isplitl [Hq41 Hq42 Hq43 Hq44 Hq45 Hq46 Hq47 Hq48 Hq49 Hq50 Hq51 Hq52 Hq53 Hq54 Hq55 Hq56 Hq57 Hq58 Hq59 Hq60 Hq61 Hq62 Hq63 Hq64 Hq65 Hq66 Hq67 Hq68 Hq69 Hq70 Hq71 Hq72]
    · isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      isplitl [Hq47]; · iexact Hq47
      isplitl [Hq48]; · iexact Hq48
      isplitl [Hq49]; · iexact Hq49
      isplitl [Hq50]; · iexact Hq50
      isplitl [Hq51]; · iexact Hq51
      isplitl [Hq52]; · iexact Hq52
      isplitl [Hq53]; · iexact Hq53
      isplitl [Hq54]; · iexact Hq54
      isplitl [Hq55]; · iexact Hq55
      isplitl [Hq56]; · iexact Hq56
      isplitl [Hq57]; · iexact Hq57
      isplitl [Hq58]; · iexact Hq58
      isplitl [Hq59]; · iexact Hq59
      isplitl [Hq60]; · iexact Hq60
      isplitl [Hq61]; · iexact Hq61
      isplitl [Hq62]; · iexact Hq62
      isplitl [Hq63]; · iexact Hq63
      isplitl [Hq64]; · iexact Hq64
      isplitl [Hq65]; · iexact Hq65
      isplitl [Hq66]; · iexact Hq66
      isplitl [Hq67]; · iexact Hq67
      isplitl [Hq68]; · iexact Hq68
      isplitl [Hq69]; · iexact Hq69
      isplitl [Hq70]; · iexact Hq70
      isplitl [Hq71]; · iexact Hq71
      iexact Hq72
    isplitl [Hdrop Hlow HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
    · iapply (hbSplit2 V c).2
      isplitl [Hdrop HT41 HT42 HT43 HT44 HT45 HT46 HT47 HT48 HT49 HT50 HT51 HT52 HT53 HT54 HT55 HT56 HT57 HT58 HT59 HT60 HT61 HT62 HT63 HT64 HT65 HT66 HT67 HT68 HT69 HT70 HT71 HT72]
      · isplitl [Hdrop]; · iexact Hdrop
        isplitl [HT41]; · iexact HT41
        isplitl [HT42]; · iexact HT42
        isplitl [HT43]; · iexact HT43
        isplitl [HT44]; · iexact HT44
        isplitl [HT45]; · iexact HT45
        isplitl [HT46]; · iexact HT46
        isplitl [HT47]; · iexact HT47
        isplitl [HT48]; · iexact HT48
        isplitl [HT49]; · iexact HT49
        isplitl [HT50]; · iexact HT50
        isplitl [HT51]; · iexact HT51
        isplitl [HT52]; · iexact HT52
        isplitl [HT53]; · iexact HT53
        isplitl [HT54]; · iexact HT54
        isplitl [HT55]; · iexact HT55
        isplitl [HT56]; · iexact HT56
        isplitl [HT57]; · iexact HT57
        isplitl [HT58]; · iexact HT58
        isplitl [HT59]; · iexact HT59
        isplitl [HT60]; · iexact HT60
        isplitl [HT61]; · iexact HT61
        isplitl [HT62]; · iexact HT62
        isplitl [HT63]; · iexact HT63
        isplitl [HT64]; · iexact HT64
        isplitl [HT65]; · iexact HT65
        isplitl [HT66]; · iexact HT66
        isplitl [HT67]; · iexact HT67
        isplitl [HT68]; · iexact HT68
        isplitl [HT69]; · iexact HT69
        isplitl [HT70]; · iexact HT70
        isplitl [HT71]; · iexact HT71
        iexact HT72
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun2 c _ _ _ _ _ _ _ _)

/-- The body obligation of gather pipeline 2, at every point. -/
theorem body_obligationG2 (hH : InRange2 V) (c : Dev nD) :
    BodyObligation (datG2 (F := F) V hH c) (defs₀ (F := F)) Variants.none () Set.univ := fun t => by
  rw [bigSep_W2, bigSep_W2]
  exact sound_bodyG2 V hH c t

end GatherBody2

section GatherLaunch2
variable (V : (c : Dev nD) → (b : Ref sig .tc) → Buf (Elt F) ((c : Thread nD τ).loc b))

/-- The table held through its own elements is the table's buffer held whole. -/
theorem tbPt2_eq (c : Dev nD) (f : HbBuf (F := F) c tbM2) :
    (ptSet c tbM2 fullShare f : sProp 𝕄) = (((c : Thread nD τ).loc main_v37) ↦{fullShare} f) := by
  show ((Memref.whole main_v37 : Memref sig .tc .smem S32x1023 .i32).view.loc (c : Thread nD τ) ↦[(Memref.whole main_v37 : Memref sig .tc .smem S32x1023 .i32).view.set]{fullShare} f) = _
  simp only [View.set_whole, Memref.view_whole]

/-- The launch's prefetched tables at the admitted contents: the one table's buffer held whole. -/
theorem prefHeld2_eq (c : Dev nD) :
    (Pipeline.prefHeld (Ix := Unit) (Name := ℕ) (U := Pipeline.UD sig nD τ) (Lvl := ℕ) pre2 c (fun _ => fullShare) (adm2 (F := F) V).1 : sProp 𝕄)
      = (((c : Thread nD τ).loc main_v37) ↦{fullShare} V c main_v37) := by
  obtain rfl : c = 0 := Subsingleton.elim _ _
  unfold Pipeline.prefHeld adm2
  rw [bigSep_W2]; rfl

/-- The two unscoped buffers the body reads by itself, their points-tos listed. -/
theorem hbmPts2_eq (c : Dev nD) :
    (BI.bigSep H2 (fun b => ((c : Thread nD τ).loc b) ↦{fullShare} V c b) : sProp 𝕄)
      = iprop((((c : Thread nD τ).loc main_arg2) ↦{fullShare} V c main_arg2) ∗ (((c : Thread nD τ).loc main_v37) ↦{fullShare} V c main_v37)) := by
  rw [BI.bigSep_eq_bigSepL_of_eq [main_arg2, main_v37] (by decide) (by decide)]; rfl

end GatherLaunch2

end Cert.KernelIdeal.Hand

end
-- ==== Proof.KernelIdealRun3.lean ====
/-
  The body of gather kernel 3 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM3 : Memref sig .tc .smem S32x1023 .i32 := Memref.whole main_v40

set_option maxHeartbeats 40000000 in
/-- What the body of gather kernel 3 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun3 (c : Dev nD) (i : grid3.Coords) (arg3 : Memref sig .tc .vmem S1x32x8 .f32) (harg3 : arg3.IsWhole)
    (arg4 : Memref sig .tc .vmem S32x8 .f32) (harg4 : arg4.IsWhole)
    (f0 : HbBuf (F := F) c tbM3) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM3 fullShare f0 ∗ (∃ d, owns (c : Thread nD τ) arg3 fullShare d) ∗ (∃ d, owns (c : Thread nD τ) arg4 fullShare d)
            ∗ (tokH c 75 fh ∗ tokH c 76 fh ∗ tokH c 77 fh ∗ tokH c 78 fh ∗ tokH c 79 fh ∗ tokH c 80 fh ∗ tokH c 81 fh ∗ tokH c 82 fh ∗ tokH c 83 fh ∗ tokH c 84 fh ∗ tokH c 85 fh ∗ tokH c 86 fh ∗ tokH c 87 fh ∗ tokH c 88 fh ∗ tokH c 89 fh ∗ tokH c 90 fh ∗ tokH c 91 fh ∗ tokH c 92 fh ∗ tokH c 93 fh ∗ tokH c 94 fh ∗ tokH c 95 fh ∗ tokH c 96 fh ∗ tokH c 97 fh ∗ tokH c 98 fh ∗ tokH c 99 fh ∗ tokH c 100 fh ∗ tokH c 101 fh ∗ tokH c 102 fh ∗ tokH c 103 fh ∗ tokH c 104 fh ∗ tokH c 105 fh ∗ tokH c 106 fh)
            ∗ (semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0)
            ∗ owes (c : Thread nD τ) 0 W
            ∗ (iprop(ptSet c tbM3 fullShare f0 ∗ (∃ f, arg3.view.loc (c : Thread nD τ) ↦[arg3.view.set]{fullShare} arg3.view.writes (Elt F) f L3) ∗ (∃ d, owns (c : Thread nD τ) arg4 fullShare d)
                ∗ (tokH c 75 fh ∗ tokH c 76 fh ∗ tokH c 77 fh ∗ tokH c 78 fh ∗ tokH c 79 fh ∗ tokH c 80 fh ∗ tokH c 81 fh ∗ tokH c 82 fh ∗ tokH c 83 fh ∗ tokH c 84 fh ∗ tokH c 85 fh ∗ tokH c 86 fh ∗ tokH c 87 fh ∗ tokH c 88 fh ∗ tokH c 89 fh ∗ tokH c 90 fh ∗ tokH c 91 fh ∗ tokH c 92 fh ∗ tokH c 93 fh ∗ tokH c 94 fh ∗ tokH c 95 fh ∗ tokH c 96 fh ∗ tokH c 97 fh ∗ tokH c 98 fh ∗ tokH c 99 fh ∗ tokH c 100 fh ∗ tokH c 101 fh ∗ tokH c 102 fh ∗ tokH c 103 fh ∗ tokH c 104 fh ∗ tokH c 105 fh ∗ tokH c 106 fh)
                ∗ (semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0)
                ∗ (∃ W', owes (c : Thread nD τ) 0 W')) -∗ K ⟨⟩))
          ⊢ wp frame (wpE (defs₀ (F := F)) Variants.none c none) Set.univ (cc3__gather_kernel i tbM3 (Memref.isWhole_whole _) hbM (Memref.isWhole_whole _) arg3 harg3 arg4 harg4 cc3_scratch1) K } := by
  refine ⟨?_, fun W K => ?run⟩
  case run =>
    simp only [cc3__gather_kernel_eq_skeleton]; unfold cc3__gather_kernel_skel
    unfold owns
    iintro ⟨H0, ⟨%d1, %f1, -, H1⟩, ⟨%ds0, %fs0, -, HS0⟩, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
    · isplitl [HT75]; · iexact HT75
      isplitl [HT76]; · iexact HT76
      isplitl [HT77]; · iexact HT77
      isplitl [HT78]; · iexact HT78
      isplitl [HT79]; · iexact HT79
      isplitl [HT80]; · iexact HT80
      isplitl [HT81]; · iexact HT81
      isplitl [HT82]; · iexact HT82
      isplitl [HT83]; · iexact HT83
      isplitl [HT84]; · iexact HT84
      isplitl [HT85]; · iexact HT85
      isplitl [HT86]; · iexact HT86
      isplitl [HT87]; · iexact HT87
      isplitl [HT88]; · iexact HT88
      isplitl [HT89]; · iexact HT89
      isplitl [HT90]; · iexact HT90
      isplitl [HT91]; · iexact HT91
      isplitl [HT92]; · iexact HT92
      isplitl [HT93]; · iexact HT93
      isplitl [HT94]; · iexact HT94
      isplitl [HT95]; · iexact HT95
      isplitl [HT96]; · iexact HT96
      isplitl [HT97]; · iexact HT97
      isplitl [HT98]; · iexact HT98
      isplitl [HT99]; · iexact HT99
      isplitl [HT100]; · iexact HT100
      isplitl [HT101]; · iexact HT101
      isplitl [HT102]; · iexact HT102
      isplitl [HT103]; · iexact HT103
      isplitl [HT104]; · iexact HT104
      isplitl [HT105]; · iexact HT105
      iexact HT106
    isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
    · isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      iexact Hq106
    iexists _; iexact HW

/-- The run's pieces for the output block tile it (its one store writes the whole block), so they cover it. -/
theorem coverRun3 (c : Dev nD) (i : grid3.Coords) (arg3 : Memref sig .tc .vmem S1x32x8 .f32) (harg3 : arg3.IsWhole)
    (arg4 : Memref sig .tc .vmem S32x8 .f32) (harg4 : arg4.IsWhole)
    (f0 : HbBuf (F := F) c tbM3) (hall : ∀ j, (f0 j).toNat < 8388608) (fh : HbBuf (F := F) c hbM) (y : S1x32x8.Idx) :
    ∃ pc ∈ (kernelRun3 c i arg3 harg3 arg4 harg4 f0 hall fh).1, y ∈ pc.1.set :=
  View.cover_of_tiledL (kernelRun3 c i arg3 harg3 arg4 harg4 f0 hall fh).1 S1x32x8.size (by sl_kernel_rfl) y

end Cert.KernelIdeal.Hand

end
-- ==== Proof.KernelIdealGather3.lean ====
/-
  Gather kernel 3 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun3

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 3: its region, over the contents `V` it is entered with -/

section Gather3
variable (V : (c : Dev nD) → (b : Ref sig .tc) → Buf (Elt F) ((c : Thread nD τ).loc b))

/-- The row-index table of this launch as the region finds it. The pipeline asks nothing of a table (its windows' index
    maps do not read it), so every table is admissible. -/
def adm3 : (pcfg3 (F := F)).Adm := ⟨fun | ⟨0, _⟩ => V 0 main_v40 | ⟨_ + 1, h⟩ => absurd h (Nat.not_lt.2 (Nat.le_add_left _ _)), trivial⟩

/-- Every word of the table names a row of the weight array. -/
def InRange3 : Prop := ∀ (c : Dev nD) j, ((V c main_v40) j).toNat < 8388608

abbrev pcfgG3 : Pipeline.Cfg sig Λ₀ := cfg3 (adm3 (F := F) V)

/-- The output window's current staging buffer at point `t`, as the pipeline passes it to the body. -/
abbrev ms3 (t : Fin (pcfgG3 (F := F) V).N) : Memref sig .tc .vmem S1x32x8 .f32 := spec3_0.stage ((pcfgG3 (F := F) V).slots t 0)
abbrev hs3 (t : Fin (pcfgG3 (F := F) V).N) : (ms3 V t).IsWhole := hstage3_0 (((pcfgG3 (F := F) V).slots t 0).cast nbuf3_0)
/-- The kernel's scratch block, a whole scoped buffer of its own. -/
abbrev scM3 : Memref sig .tc .vmem S32x8 .f32 := Memref.whole cc3_scratch0
/-- One staging buffer of the output window, through which its contents are stated. -/
abbrev VO3 : View sig .tc .vmem S1x32x8 .f32 := (Memref.whole cc3_stg0_0 : Memref sig .tc .vmem S1x32x8 .f32).view

/-- The kernel's own DMA semaphores, one per route. -/
abbrev osem3 : Fin 32 → SemLoc sig := fun j => (![SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106] : Fin 32 → SemLoc sig) j
theorem ownSemFacts3 : Pipeline.OwnSemFacts spec3 osem3 := by decide
theorem ownSems03_eq (c : Dev nD) :
    (Pipeline.ownSems0 (Ix := Unit) (Name := ℕ) (U := Pipeline.UD sig nD τ) (Lvl := ℕ) (Val := Elt F) (τ := τ) osem3 c : sProp 𝕄)
      = iprop(semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0) := by
  rw [Pipeline.ownSems0_eq_of_list c osem3 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H3 : Finset (Ref sig .tc) := {main_arg2, main_v40}
theorem H3_sub : H3 ⊆ Pipeline.restRefs sig spec3 := by decide

/-- What the output block holds after the body at point `t`: the run's pieces read back. -/
def outsAt3 (hH : InRange3 V) (c : Dev nD) (t : Fin (pcfgG3 (F := F) V).N) : Vec F S1x32x8 .f32 :=
  (VO3).read (Elt F) ((VO3).writes (Elt F) (VO3).junk
    (kernelRun3 c (grid3.coords t) (ms3 V t) (hs3 V t) scM3 (Memref.isWhole_whole _) (V c main_v40) (hH c) (V c main_arg2)).1)

/-- The region's invariant: the scoped buffers no window stages (the scratch block among them), the generator register,
    the kernel's DMA semaphores at zero, the weight array and the table whole at their entry contents. -/
def ΦG3 (c : Dev nD) : sProp 𝕄 :=
  iprop(Pipeline.scopedRest (Ix := Unit) (Name := ℕ) (U := Pipeline.UD sig nD τ) (Lvl := ℕ) (Val := Elt F) spec3 c ∗ (∃ r, prngReg c r)
    ∗ Pipeline.ownSems0 (Ix := Unit) (Name := ℕ) (U := Pipeline.UD sig nD τ) (Lvl := ℕ) (Val := Elt F) (τ := τ) osem3 c
    ∗ (((c : Thread nD τ).loc main_arg2) ↦{fullShare} V c main_arg2)
    ∗ ptSet c tbM3 fullShare (V c main_v40))

/-- The proof data of gather pipeline 3 on core `c`. -/
def datG3 (hH : InRange3 V) (c : Dev nD) : Dat τ (Elt F) Unit ℕ (Pipeline.UD sig nD τ) ℕ (pcfgG3 (F := F) V) c where
  A w := V c (Pipeline.arrRef spec3 w)
  after w t := match w with
    | ⟨0, _⟩ => outsAt3 V hH c t
  Φ _ := ΦG3 V c
  q _ := fullShare
  owed _ := 0

theorem afterG3 (hH : InRange3 V) (c : Dev nD) (t) : (datG3 V hH c).after 0 t = outsAt3 V hH c t := by dsimp only [datG3]; rfl

end Gather3

section GatherBody3
variable (V : (c : Dev nD) → (b : Ref sig .tc) → Buf (Elt F) ((c : Thread nD τ).loc b))

open Idealize.ShloMosaic.Transfers in
/-- The weight array at the full share, as the read shares the thirty-two copies take and what is left beside them. -/
theorem hbSplit3 (c : Dev nD) :
    ((((c : Thread nD τ).loc main_arg2) ↦{fullShare} V c main_arg2) : sProp 𝕄)
      ⊣⊢ iprop((((((c : Thread nD τ).loc main_arg2) ↦{shareDrop fullShare (75 + 32)} V c main_arg2)) ∗ (tokH c 75 (V c main_arg2) ∗ tokH c 76 (V c main_arg2) ∗ tokH c 77 (V c main_arg2) ∗ tokH c 78 (V c main_arg2) ∗ tokH c 79 (V c main_arg2) ∗ tokH c 80 (V c main_arg2) ∗ tokH c 81 (V c main_arg2) ∗ tokH c 82 (V c main_arg2) ∗ tokH c 83 (V c main_arg2) ∗ tokH c 84 (V c main_arg2) ∗ tokH c 85 (V c main_arg2) ∗ tokH c 86 (V c main_arg2) ∗ tokH c 87 (V c main_arg2) ∗ tokH c 88 (V c main_arg2) ∗ tokH c 89 (V c main_arg2) ∗ tokH c 90 (V c main_arg2) ∗ tokH c 91 (V c main_arg2) ∗ tokH c 92 (V c main_arg2) ∗ tokH c 93 (V c main_arg2) ∗ tokH c 94 (V c main_arg2) ∗ tokH c 95 (V c main_arg2) ∗ tokH c 96 (V c main_arg2) ∗ tokH c 97 (V c main_arg2) ∗ tokH c 98 (V c main_arg2) ∗ tokH c 99 (V c main_arg2) ∗ tokH c 100 (V c main_arg2) ∗ tokH c 101 (V c main_arg2) ∗ tokH c 102 (V c main_arg2) ∗ tokH c 103 (V c main_arg2) ∗ tokH c 104 (V c main_arg2) ∗ tokH c 105 (V c main_arg2) ∗ tokH c 106 (V c main_arg2)))
        ∗ BI.bigSep (Finset.range 75) (fun i => ((((c : Thread nD τ).loc main_arg2) ↦{shareTokN fullShare i} V c main_arg2) : sProp 𝕄))) :=
  toks32 (F := F) 75

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG3 (hH : InRange3 V) (c : Dev nD) (t : Fin (pcfgG3 (F := F) V).N) :
    iprop((datG3 V hH c).Φ t.castSucc ∗ (datG3 V hH c).owesAt () t.castSucc
        ∗ (∃ d, owns (c : Thread nD τ) (ms3 V t) fullShare ((datG3 V hH c).before 0 t d)))
      ⊢ wp frame (wpE (defs₀ (F := F)) Variants.none c none) Set.univ
          (cc3__gather_kernel (grid3.coords t) tbM3 (Memref.isWhole_whole _) hbM (Memref.isWhole_whole _) (ms3 V t) (hs3 V t) scM3 (Memref.isWhole_whole _) cc3_scratch1)
          (fun _ => iprop((datG3 V hH c).Φ t.succ ∗ (datG3 V hH c).owesAt () t.succ
            ∗ owns (c : Thread nD τ) (ms3 V t) fullShare ((datG3 V hH c).after 0 t))) := by
  rw [show (datG3 V hH c).Φ t.succ = ΦG3 V c from rfl, show (datG3 V hH c).Φ t.castSucc = ΦG3 V c from rfl, afterG3]
  unfold ΦG3
  rw [scopedRest3_split, ownSems03_eq]
  unfold Dat.owesAt Pipeline.owesWithin
  rw [show (datG3 V hH c).owed t.castSucc = 0 from rfl, show (datG3 V hH c).owed t.succ = 0 from rfl]
  unfold outsAt3
  iintro ⟨⟨⟨HS0, HRB⟩, Hg, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, Hh, Ht⟩, ⟨%W, -, HW⟩, ⟨%d1, H1⟩⟩
  ihave Hh2 := (hbSplit3 V c).1 $$ Hh
  icases Hh2 with ⟨⟨Hdrop, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩⟩, Hlow⟩
  iapply ((kernelRun3 c (grid3.coords t) (ms3 V t) (hs3 V t) scM3 (Memref.isWhole_whole _) (V c main_v40) (hH c) (V c main_arg2)).2 W _)
  isplitl [Ht]; · iexact Ht
  isplitl [H1]; · iexists _; iexact H1
  isplitl [HS0]; · simp only [owns_whole]; iexact HS0
  isplitl [HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
  · isplitl [HT75]; · iexact HT75
    isplitl [HT76]; · iexact HT76
    isplitl [HT77]; · iexact HT77
    isplitl [HT78]; · iexact HT78
    isplitl [HT79]; · iexact HT79
    isplitl [HT80]; · iexact HT80
    isplitl [HT81]; · iexact HT81
    isplitl [HT82]; · iexact HT82
    isplitl [HT83]; · iexact HT83
    isplitl [HT84]; · iexact HT84
    isplitl [HT85]; · iexact HT85
    isplitl [HT86]; · iexact HT86
    isplitl [HT87]; · iexact HT87
    isplitl [HT88]; · iexact HT88
    isplitl [HT89]; · iexact HT89
    isplitl [HT90]; · iexact HT90
    isplitl [HT91]; · iexact HT91
    isplitl [HT92]; · iexact HT92
    isplitl [HT93]; · iexact HT93
    isplitl [HT94]; · iexact HT94
    isplitl [HT95]; · iexact HT95
    isplitl [HT96]; · iexact HT96
    isplitl [HT97]; · iexact HT97
    isplitl [HT98]; · iexact HT98
    isplitl [HT99]; · iexact HT99
    isplitl [HT100]; · iexact HT100
    isplitl [HT101]; · iexact HT101
    isplitl [HT102]; · iexact HT102
    isplitl [HT103]; · iexact HT103
    isplitl [HT104]; · iexact HT104
    isplitl [HT105]; · iexact HT105
    iexact HT106
  isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
  · isplitl [Hq75]; · iexact Hq75
    isplitl [Hq76]; · iexact Hq76
    isplitl [Hq77]; · iexact Hq77
    isplitl [Hq78]; · iexact Hq78
    isplitl [Hq79]; · iexact Hq79
    isplitl [Hq80]; · iexact Hq80
    isplitl [Hq81]; · iexact Hq81
    isplitl [Hq82]; · iexact Hq82
    isplitl [Hq83]; · iexact Hq83
    isplitl [Hq84]; · iexact Hq84
    isplitl [Hq85]; · iexact Hq85
    isplitl [Hq86]; · iexact Hq86
    isplitl [Hq87]; · iexact Hq87
    isplitl [Hq88]; · iexact Hq88
    isplitl [Hq89]; · iexact Hq89
    isplitl [Hq90]; · iexact Hq90
    isplitl [Hq91]; · iexact Hq91
    isplitl [Hq92]; · iexact Hq92
    isplitl [Hq93]; · iexact Hq93
    isplitl [Hq94]; · iexact Hq94
    isplitl [Hq95]; · iexact Hq95
    isplitl [Hq96]; · iexact Hq96
    isplitl [Hq97]; · iexact Hq97
    isplitl [Hq98]; · iexact Hq98
    isplitl [Hq99]; · iexact Hq99
    isplitl [Hq100]; · iexact Hq100
    isplitl [Hq101]; · iexact Hq101
    isplitl [Hq102]; · iexact Hq102
    isplitl [Hq103]; · iexact Hq103
    isplitl [Hq104]; · iexact Hq104
    isplitl [Hq105]; · iexact Hq105
    iexact Hq106
  isplitl [HW]; · iexact HW
  iintro ⟨Ht, ⟨%e1, H1⟩, HS0, ⟨HT75, HT76, HT77, HT78, HT79, HT80, HT81, HT82, HT83, HT84, HT85, HT86, HT87, HT88, HT89, HT90, HT91, HT92, HT93, HT94, HT95, HT96, HT97, HT98, HT99, HT100, HT101, HT102, HT103, HT104, HT105, HT106⟩, ⟨Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106⟩, ⟨%W', HW'⟩⟩
  isplitl [Ht HS0 HRB Hg Hdrop Hlow HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106 Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
  · isplitl [HS0 HRB]
    · isplitl [HS0]; · simp only [owns_whole]; iexact HS0
      iexact HRB
    isplitl [Hg]; · iexact Hg
    isplitl [Hq75 Hq76 Hq77 Hq78 Hq79 Hq80 Hq81 Hq82 Hq83 Hq84 Hq85 Hq86 Hq87 Hq88 Hq89 Hq90 Hq91 Hq92 Hq93 Hq94 Hq95 Hq96 Hq97 Hq98 Hq99 Hq100 Hq101 Hq102 Hq103 Hq104 Hq105 Hq106]
    · isplitl [Hq75]; · iexact Hq75
      isplitl [Hq76]; · iexact Hq76
      isplitl [Hq77]; · iexact Hq77
      isplitl [Hq78]; · iexact Hq78
      isplitl [Hq79]; · iexact Hq79
      isplitl [Hq80]; · iexact Hq80
      isplitl [Hq81]; · iexact Hq81
      isplitl [Hq82]; · iexact Hq82
      isplitl [Hq83]; · iexact Hq83
      isplitl [Hq84]; · iexact Hq84
      isplitl [Hq85]; · iexact Hq85
      isplitl [Hq86]; · iexact Hq86
      isplitl [Hq87]; · iexact Hq87
      isplitl [Hq88]; · iexact Hq88
      isplitl [Hq89]; · iexact Hq89
      isplitl [Hq90]; · iexact Hq90
      isplitl [Hq91]; · iexact Hq91
      isplitl [Hq92]; · iexact Hq92
      isplitl [Hq93]; · iexact Hq93
      isplitl [Hq94]; · iexact Hq94
      isplitl [Hq95]; · iexact Hq95
      isplitl [Hq96]; · iexact Hq96
      isplitl [Hq97]; · iexact Hq97
      isplitl [Hq98]; · iexact Hq98
      isplitl [Hq99]; · iexact Hq99
      isplitl [Hq100]; · iexact Hq100
      isplitl [Hq101]; · iexact Hq101
      isplitl [Hq102]; · iexact Hq102
      isplitl [Hq103]; · iexact Hq103
      isplitl [Hq104]; · iexact Hq104
      isplitl [Hq105]; · iexact Hq105
      iexact Hq106
    isplitl [Hdrop Hlow HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
    · iapply (hbSplit3 V c).2
      isplitl [Hdrop HT75 HT76 HT77 HT78 HT79 HT80 HT81 HT82 HT83 HT84 HT85 HT86 HT87 HT88 HT89 HT90 HT91 HT92 HT93 HT94 HT95 HT96 HT97 HT98 HT99 HT100 HT101 HT102 HT103 HT104 HT105 HT106]
      · isplitl [Hdrop]; · iexact Hdrop
        isplitl [HT75]; · iexact HT75
        isplitl [HT76]; · iexact HT76
        isplitl [HT77]; · iexact HT77
        isplitl [HT78]; · iexact HT78
        isplitl [HT79]; · iexact HT79
        isplitl [HT80]; · iexact HT80
        isplitl [HT81]; · iexact HT81
        isplitl [HT82]; · iexact HT82
        isplitl [HT83]; · iexact HT83
        isplitl [HT84]; · iexact HT84
        isplitl [HT85]; · iexact HT85
        isplitl [HT86]; · iexact HT86
        isplitl [HT87]; · iexact HT87
        isplitl [HT88]; · iexact HT88
        isplitl [HT89]; · iexact HT89
        isplitl [HT90]; · iexact HT90
        isplitl [HT91]; · iexact HT91
        isplitl [HT92]; · iexact HT92
        isplitl [HT93]; · iexact HT93
        isplitl [HT94]; · iexact HT94
        isplitl [HT95]; · iexact HT95
        isplitl [HT96]; · iexact HT96
        isplitl [HT97]; · iexact HT97
        isplitl [HT98]; · iexact HT98
        isplitl [HT99]; · iexact HT99
        isplitl [HT100]; · iexact HT100
        isplitl [HT101]; · iexact HT101
        isplitl [HT102]; · iexact HT102
        isplitl [HT103]; · iexact HT103
        isplitl [HT104]; · iexact HT104
        isplitl [HT105]; · iexact HT105
        iexact HT106
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun3 c _ _ _ _ _ _ _ _)

/-- The body obligation of gather pipeline 3, at every point. -/
theorem body_obligationG3 (hH : InRange3 V) (c : Dev nD) :
    BodyObligation (datG3 (F := F) V hH c) (defs₀ (F := F)) Variants.none () Set.univ := fun t => by
  rw [bigSep_W3, bigSep_W3]
  exact sound_bodyG3 V hH c t

end GatherBody3

section GatherLaunch3
variable (V : (c : Dev nD) → (b : Ref sig .tc) → Buf (Elt F) ((c : Thread nD τ).loc b))

/-- The table held through its own elements is the table's buffer held whole. -/
theorem tbPt3_eq (c : Dev nD) (f : HbBuf (F := F) c tbM3) :
    (ptSet c tbM3 fullShare f : sProp 𝕄) = (((c : Thread nD τ).loc main_v40) ↦{fullShare} f) := by
  show ((Memref.whole main_v40 : Memref sig .tc .smem S32x1023 .i32).view.loc (c : Thread nD τ) ↦[(Memref.whole main_v40 : Memref sig .tc .smem S32x1023 .i32).view.set]{fullShare} f) = _
  simp only [View.set_whole, Memref.view_whole]

/-- The launch's prefetched tables at the admitted contents: the one table's buffer held whole. -/
theorem prefHeld3_eq (c : Dev nD) :
    (Pipeline.prefHeld (Ix := Unit) (Name := ℕ) (U := Pipeline.UD sig nD τ) (Lvl := ℕ) pre3 c (fun _ => fullShare) (adm3 (F := F) V).1 : sProp 𝕄)
      = (((c : Thread nD τ).loc main_v40) ↦{fullShare} V c main_v40) := by
  obtain rfl : c = 0 := Subsingleton.elim _ _
  unfold Pipeline.prefHeld adm3
  rw [bigSep_W3]; rfl

/-- The two unscoped buffers the body reads by itself, their points-tos listed. -/
theorem hbmPts3_eq (c : Dev nD) :
    (BI.bigSep H3 (fun b => ((c : Thread nD τ).loc b) ↦{fullShare} V c b) : sProp 𝕄)
      = iprop((((c : Thread nD τ).loc main_arg2) ↦{fullShare} V c main_arg2) ∗ (((c : Thread nD τ).loc main_v40) ↦{fullShare} V c main_v40)) := by
  rw [BI.bigSep_eq_bigSepL_of_eq [main_arg2, main_v40] (by decide) (by decide)]; rfl

end GatherLaunch3

end Cert.KernelIdeal.Hand

end
-- ==== Proof.KernelIdealRun4.lean ====
/-
  The body of gather kernel 4 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM4 : Memref sig .tc .smem S32x1023 .i32 := Memref.whole main_v43

set_option maxHeartbeats 40000000 in
/-- What the body of gather kernel 4 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun4 (c : Dev nD) (i : grid4.Coords) (arg3 : Memref sig .tc .vmem S1x32x8 .f32) (harg3 : arg3.IsWhole)
    (arg4 : Memref sig .tc .vmem S32x8 .f32) (harg4 : arg4.IsWhole)
    (f0 : HbBuf (F := F) c tbM4) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM4 fullShare f0 ∗ (∃ d, owns (c : Thread nD τ) arg3 fullShare d) ∗ (∃ d, owns (c : Thread nD τ) arg4 fullShare d)
            ∗ (tokH c 109 fh ∗ tokH c 110 fh ∗ tokH c 111 fh ∗ tokH c 112 fh ∗ tokH c 113 fh ∗ tokH c 114 fh ∗ tokH c 115 fh ∗ tokH c 116 fh ∗ tokH c 117 fh ∗ tokH c 118 fh ∗ tokH c 119 fh ∗ tokH c 120 fh ∗ tokH c 121 fh ∗ tokH c 122 fh ∗ tokH c 123 fh ∗ tokH c 124 fh ∗ tokH c 125 fh ∗ tokH c 126 fh ∗ tokH c 127 fh ∗ tokH c 128 fh ∗ tokH c 129 fh ∗ tokH c 130 fh ∗ tokH c 131 fh ∗ tokH c 132 fh ∗ tokH c 133 fh ∗ tokH c 134 fh ∗ tokH c 135 fh ∗ tokH c 136 fh ∗ tokH c 137 fh ∗ tokH c 138 fh ∗ tokH c 139 fh ∗ tokH c 140 fh)
            ∗ (semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0)
            ∗ owes (c : Thread nD τ) 0 W
            ∗ (iprop(ptSet c tbM4 fullShare f0 ∗ (∃ f, arg3.view.loc (c : Thread nD τ) ↦[arg3.view.set]{fullShare} arg3.view.writes (Elt F) f L3) ∗ (∃ d, owns (c : Thread nD τ) arg4 fullShare d)
                ∗ (tokH c 109 fh ∗ tokH c 110 fh ∗ tokH c 111 fh ∗ tokH c 112 fh ∗ tokH c 113 fh ∗ tokH c 114 fh ∗ tokH c 115 fh ∗ tokH c 116 fh ∗ tokH c 117 fh ∗ tokH c 118 fh ∗ tokH c 119 fh ∗ tokH c 120 fh ∗ tokH c 121 fh ∗ tokH c 122 fh ∗ tokH c 123 fh ∗ tokH c 124 fh ∗ tokH c 125 fh ∗ tokH c 126 fh ∗ tokH c 127 fh ∗ tokH c 128 fh ∗ tokH c 129 fh ∗ tokH c 130 fh ∗ tokH c 131 fh ∗ tokH c 132 fh ∗ tokH c 133 fh ∗ tokH c 134 fh ∗ tokH c 135 fh ∗ tokH c 136 fh ∗ tokH c 137 fh ∗ tokH c 138 fh ∗ tokH c 139 fh ∗ tokH c 140 fh)
                ∗ (semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0)
                ∗ (∃ W', owes (c : Thread nD τ) 0 W')) -∗ K ⟨⟩))
          ⊢ wp frame (wpE (defs₀ (F := F)) Variants.none c none) Set.univ (cc4__gather_kernel i tbM4 (Memref.isWhole_whole _) hbM (Memref.isWhole_whole _) arg3 harg3 arg4 harg4 cc4_scratch1) K } := by
  refine ⟨?_, fun W K => ?run⟩
  case run =>
    simp only [cc4__gather_kernel_eq_skeleton]; unfold cc4__gather_kernel_skel
    unfold owns
    iintro ⟨H0, ⟨%d1, %f1, -, H1⟩, ⟨%ds0, %fs0, -, HS0⟩, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
    · isplitl [HT109]; · iexact HT109
      isplitl [HT110]; · iexact HT110
      isplitl [HT111]; · iexact HT111
      isplitl [HT112]; · iexact HT112
      isplitl [HT113]; · iexact HT113
      isplitl [HT114]; · iexact HT114
      isplitl [HT115]; · iexact HT115
      isplitl [HT116]; · iexact HT116
      isplitl [HT117]; · iexact HT117
      isplitl [HT118]; · iexact HT118
      isplitl [HT119]; · iexact HT119
      isplitl [HT120]; · iexact HT120
      isplitl [HT121]; · iexact HT121
      isplitl [HT122]; · iexact HT122
      isplitl [HT123]; · iexact HT123
      isplitl [HT124]; · iexact HT124
      isplitl [HT125]; · iexact HT125
      isplitl [HT126]; · iexact HT126
      isplitl [HT127]; · iexact HT127
      isplitl [HT128]; · iexact HT128
      isplitl [HT129]; · iexact HT129
      isplitl [HT130]; · iexact HT130
      isplitl [HT131]; · iexact HT131
      isplitl [HT132]; · iexact HT132
      isplitl [HT133]; · iexact HT133
      isplitl [HT134]; · iexact HT134
      isplitl [HT135]; · iexact HT135
      isplitl [HT136]; · iexact HT136
      isplitl [HT137]; · iexact HT137
      isplitl [HT138]; · iexact HT138
      isplitl [HT139]; · iexact HT139
      iexact HT140
    isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
    · isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      isplitl [Hq127]; · iexact Hq127
      isplitl [Hq128]; · iexact Hq128
      isplitl [Hq129]; · iexact Hq129
      isplitl [Hq130]; · iexact Hq130
      isplitl [Hq131]; · iexact Hq131
      isplitl [Hq132]; · iexact Hq132
      isplitl [Hq133]; · iexact Hq133
      isplitl [Hq134]; · iexact Hq134
      isplitl [Hq135]; · iexact Hq135
      isplitl [Hq136]; · iexact Hq136
      isplitl [Hq137]; · iexact Hq137
      isplitl [Hq138]; · iexact Hq138
      isplitl [Hq139]; · iexact Hq139
      iexact Hq140
    iexists _; iexact HW

/-- The run's pieces for the output block tile it (its one store writes the whole block), so they cover it. -/
theorem coverRun4 (c : Dev nD) (i : grid4.Coords) (arg3 : Memref sig .tc .vmem S1x32x8 .f32) (harg3 : arg3.IsWhole)
    (arg4 : Memref sig .tc .vmem S32x8 .f32) (harg4 : arg4.IsWhole)
    (f0 : HbBuf (F := F) c tbM4) (hall : ∀ j, (f0 j).toNat < 8388608) (fh : HbBuf (F := F) c hbM) (y : S1x32x8.Idx) :
    ∃ pc ∈ (kernelRun4 c i arg3 harg3 arg4 harg4 f0 hall fh).1, y ∈ pc.1.set :=
  View.cover_of_tiledL (kernelRun4 c i arg3 harg3 arg4 harg4 f0 hall fh).1 S1x32x8.size (by sl_kernel_rfl) y

end Cert.KernelIdeal.Hand

end
-- ==== Proof.KernelIdealGather4.lean ====
/-
  Gather kernel 4 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun4

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 4: its region, over the contents `V` it is entered with -/

section Gather4
variable (V : (c : Dev nD) → (b : Ref sig .tc) → Buf (Elt F) ((c : Thread nD τ).loc b))

/-- The row-index table of this launch as the region finds it. The pipeline asks nothing of a table (its windows' index
    maps do not read it), so every table is admissible. -/
def adm4 : (pcfg4 (F := F)).Adm := ⟨fun | ⟨0, _⟩ => V 0 main_v43 | ⟨_ + 1, h⟩ => absurd h (Nat.not_lt.2 (Nat.le_add_left _ _)), trivial⟩

/-- Every word of the table names a row of the weight array. -/
def InRange4 : Prop := ∀ (c : Dev nD) j, ((V c main_v43) j).toNat < 8388608

abbrev pcfgG4 : Pipeline.Cfg sig Λ₀ := cfg4 (adm4 (F := F) V)

/-- The output window's current staging buffer at point `t`, as the pipeline passes it to the body. -/
abbrev ms4 (t : Fin (pcfgG4 (F := F) V).N) : Memref sig .tc .vmem S1x32x8 .f32 := spec4_0.stage ((pcfgG4 (F := F) V).slots t 0)
abbrev hs4 (t : Fin (pcfgG4 (F := F) V).N) : (ms4 V t).IsWhole := hstage4_0 (((pcfgG4 (F := F) V).slots t 0).cast nbuf4_0)
/-- The kernel's scratch block, a whole scoped buffer of its own. -/
abbrev scM4 : Memref sig .tc .vmem S32x8 .f32 := Memref.whole cc4_scratch0
/-- One staging buffer of the output window, through which its contents are stated. -/
abbrev VO4 : View sig .tc .vmem S1x32x8 .f32 := (Memref.whole cc4_stg0_0 : Memref sig .tc .vmem S1x32x8 .f32).view

/-- The kernel's own DMA semaphores, one per route. -/
abbrev osem4 : Fin 32 → SemLoc sig := fun j => (![SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129, SemLoc.dma 130, SemLoc.dma 131, SemLoc.dma 132, SemLoc.dma 133, SemLoc.dma 134, SemLoc.dma 135, SemLoc.dma 136, SemLoc.dma 137, SemLoc.dma 138, SemLoc.dma 139, SemLoc.dma 140] : Fin 32 → SemLoc sig) j
theorem ownSemFacts4 : Pipeline.OwnSemFacts spec4 osem4 := by decide
theorem ownSems04_eq (c : Dev nD) :
    (Pipeline.ownSems0 (Ix := Unit) (Name := ℕ) (U := Pipeline.UD sig nD τ) (Lvl := ℕ) (Val := Elt F) (τ := τ) osem4 c : sProp 𝕄)
      = iprop(semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0) := by
  rw [Pipeline.ownSems0_eq_of_list c osem4 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H4 : Finset (Ref sig .tc) := {main_arg2, main_v43}
theorem H4_sub : H4 ⊆ Pipeline.restRefs sig spec4 := by decide

/-- What the output block holds after the body at point `t`: the run's pieces read back. -/
def outsAt4 (hH : InRange4 V) (c : Dev nD) (t : Fin (pcfgG4 (F := F) V).N) : Vec F S1x32x8 .f32 :=
  (VO4).read (Elt F) ((VO4).writes (Elt F) (VO4).junk
    (kernelRun4 c (grid4.coords t) (ms4 V t) (hs4 V t) scM4 (Memref.isWhole_whole _) (V c main_v43) (hH c) (V c main_arg2)).1)

/-- The region's invariant: the scoped buffers no window stages (the scratch block among them), the generator register,
    the kernel's DMA semaphores at zero, the weight array and the table whole at their entry contents. -/
def ΦG4 (c : Dev nD) : sProp 𝕄 :=
  iprop(Pipeline.scopedRest (Ix := Unit) (Name := ℕ) (U := Pipeline.UD sig nD τ) (Lvl := ℕ) (Val := Elt F) spec4 c ∗ (∃ r, prngReg c r)
    ∗ Pipeline.ownSems0 (Ix := Unit) (Name := ℕ) (U := Pipeline.UD sig nD τ) (Lvl := ℕ) (Val := Elt F) (τ := τ) osem4 c
    ∗ (((c : Thread nD τ).loc main_arg2) ↦{fullShare} V c main_arg2)
    ∗ ptSet c tbM4 fullShare (V c main_v43))

/-- The proof data of gather pipeline 4 on core `c`. -/
def datG4 (hH : InRange4 V) (c : Dev nD) : Dat τ (Elt F) Unit ℕ (Pipeline.UD sig nD τ) ℕ (pcfgG4 (F := F) V) c where
  A w := V c (Pipeline.arrRef spec4 w)
  after w t := match w with
    | ⟨0, _⟩ => outsAt4 V hH c t
  Φ _ := ΦG4 V c
  q _ := fullShare
  owed _ := 0

theorem afterG4 (hH : InRange4 V) (c : Dev nD) (t) : (datG4 V hH c).after 0 t = outsAt4 V hH c t := by dsimp only [datG4]; rfl

end Gather4

section GatherBody4
variable (V : (c : Dev nD) → (b : Ref sig .tc) → Buf (Elt F) ((c : Thread nD τ).loc b))

open Idealize.ShloMosaic.Transfers in
/-- The weight array at the full share, as the read shares the thirty-two copies take and what is left beside them. -/
theorem hbSplit4 (c : Dev nD) :
    ((((c : Thread nD τ).loc main_arg2) ↦{fullShare} V c main_arg2) : sProp 𝕄)
      ⊣⊢ iprop((((((c : Thread nD τ).loc main_arg2) ↦{shareDrop fullShare (109 + 32)} V c main_arg2)) ∗ (tokH c 109 (V c main_arg2) ∗ tokH c 110 (V c main_arg2) ∗ tokH c 111 (V c main_arg2) ∗ tokH c 112 (V c main_arg2) ∗ tokH c 113 (V c main_arg2) ∗ tokH c 114 (V c main_arg2) ∗ tokH c 115 (V c main_arg2) ∗ tokH c 116 (V c main_arg2) ∗ tokH c 117 (V c main_arg2) ∗ tokH c 118 (V c main_arg2) ∗ tokH c 119 (V c main_arg2) ∗ tokH c 120 (V c main_arg2) ∗ tokH c 121 (V c main_arg2) ∗ tokH c 122 (V c main_arg2) ∗ tokH c 123 (V c main_arg2) ∗ tokH c 124 (V c main_arg2) ∗ tokH c 125 (V c main_arg2) ∗ tokH c 126 (V c main_arg2) ∗ tokH c 127 (V c main_arg2) ∗ tokH c 128 (V c main_arg2) ∗ tokH c 129 (V c main_arg2) ∗ tokH c 130 (V c main_arg2) ∗ tokH c 131 (V c main_arg2) ∗ tokH c 132 (V c main_arg2) ∗ tokH c 133 (V c main_arg2) ∗ tokH c 134 (V c main_arg2) ∗ tokH c 135 (V c main_arg2) ∗ tokH c 136 (V c main_arg2) ∗ tokH c 137 (V c main_arg2) ∗ tokH c 138 (V c main_arg2) ∗ tokH c 139 (V c main_arg2) ∗ tokH c 140 (V c main_arg2)))
        ∗ BI.bigSep (Finset.range 109) (fun i => ((((c : Thread nD τ).loc main_arg2) ↦{shareTokN fullShare i} V c main_arg2) : sProp 𝕄))) :=
  toks32 (F := F) 109

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG4 (hH : InRange4 V) (c : Dev nD) (t : Fin (pcfgG4 (F := F) V).N) :
    iprop((datG4 V hH c).Φ t.castSucc ∗ (datG4 V hH c).owesAt () t.castSucc
        ∗ (∃ d, owns (c : Thread nD τ) (ms4 V t) fullShare ((datG4 V hH c).before 0 t d)))
      ⊢ wp frame (wpE (defs₀ (F := F)) Variants.none c none) Set.univ
          (cc4__gather_kernel (grid4.coords t) tbM4 (Memref.isWhole_whole _) hbM (Memref.isWhole_whole _) (ms4 V t) (hs4 V t) scM4 (Memref.isWhole_whole _) cc4_scratch1)
          (fun _ => iprop((datG4 V hH c).Φ t.succ ∗ (datG4 V hH c).owesAt () t.succ
            ∗ owns (c : Thread nD τ) (ms4 V t) fullShare ((datG4 V hH c).after 0 t))) := by
  rw [show (datG4 V hH c).Φ t.succ = ΦG4 V c from rfl, show (datG4 V hH c).Φ t.castSucc = ΦG4 V c from rfl, afterG4]
  unfold ΦG4
  rw [scopedRest4_split, ownSems04_eq]
  unfold Dat.owesAt Pipeline.owesWithin
  rw [show (datG4 V hH c).owed t.castSucc = 0 from rfl, show (datG4 V hH c).owed t.succ = 0 from rfl]
  unfold outsAt4
  iintro ⟨⟨⟨HS0, HRB⟩, Hg, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, Hh, Ht⟩, ⟨%W, -, HW⟩, ⟨%d1, H1⟩⟩
  ihave Hh2 := (hbSplit4 V c).1 $$ Hh
  icases Hh2 with ⟨⟨Hdrop, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩⟩, Hlow⟩
  iapply ((kernelRun4 c (grid4.coords t) (ms4 V t) (hs4 V t) scM4 (Memref.isWhole_whole _) (V c main_v43) (hH c) (V c main_arg2)).2 W _)
  isplitl [Ht]; · iexact Ht
  isplitl [H1]; · iexists _; iexact H1
  isplitl [HS0]; · simp only [owns_whole]; iexact HS0
  isplitl [HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
  · isplitl [HT109]; · iexact HT109
    isplitl [HT110]; · iexact HT110
    isplitl [HT111]; · iexact HT111
    isplitl [HT112]; · iexact HT112
    isplitl [HT113]; · iexact HT113
    isplitl [HT114]; · iexact HT114
    isplitl [HT115]; · iexact HT115
    isplitl [HT116]; · iexact HT116
    isplitl [HT117]; · iexact HT117
    isplitl [HT118]; · iexact HT118
    isplitl [HT119]; · iexact HT119
    isplitl [HT120]; · iexact HT120
    isplitl [HT121]; · iexact HT121
    isplitl [HT122]; · iexact HT122
    isplitl [HT123]; · iexact HT123
    isplitl [HT124]; · iexact HT124
    isplitl [HT125]; · iexact HT125
    isplitl [HT126]; · iexact HT126
    isplitl [HT127]; · iexact HT127
    isplitl [HT128]; · iexact HT128
    isplitl [HT129]; · iexact HT129
    isplitl [HT130]; · iexact HT130
    isplitl [HT131]; · iexact HT131
    isplitl [HT132]; · iexact HT132
    isplitl [HT133]; · iexact HT133
    isplitl [HT134]; · iexact HT134
    isplitl [HT135]; · iexact HT135
    isplitl [HT136]; · iexact HT136
    isplitl [HT137]; · iexact HT137
    isplitl [HT138]; · iexact HT138
    isplitl [HT139]; · iexact HT139
    iexact HT140
  isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
  · isplitl [Hq109]; · iexact Hq109
    isplitl [Hq110]; · iexact Hq110
    isplitl [Hq111]; · iexact Hq111
    isplitl [Hq112]; · iexact Hq112
    isplitl [Hq113]; · iexact Hq113
    isplitl [Hq114]; · iexact Hq114
    isplitl [Hq115]; · iexact Hq115
    isplitl [Hq116]; · iexact Hq116
    isplitl [Hq117]; · iexact Hq117
    isplitl [Hq118]; · iexact Hq118
    isplitl [Hq119]; · iexact Hq119
    isplitl [Hq120]; · iexact Hq120
    isplitl [Hq121]; · iexact Hq121
    isplitl [Hq122]; · iexact Hq122
    isplitl [Hq123]; · iexact Hq123
    isplitl [Hq124]; · iexact Hq124
    isplitl [Hq125]; · iexact Hq125
    isplitl [Hq126]; · iexact Hq126
    isplitl [Hq127]; · iexact Hq127
    isplitl [Hq128]; · iexact Hq128
    isplitl [Hq129]; · iexact Hq129
    isplitl [Hq130]; · iexact Hq130
    isplitl [Hq131]; · iexact Hq131
    isplitl [Hq132]; · iexact Hq132
    isplitl [Hq133]; · iexact Hq133
    isplitl [Hq134]; · iexact Hq134
    isplitl [Hq135]; · iexact Hq135
    isplitl [Hq136]; · iexact Hq136
    isplitl [Hq137]; · iexact Hq137
    isplitl [Hq138]; · iexact Hq138
    isplitl [Hq139]; · iexact Hq139
    iexact Hq140
  isplitl [HW]; · iexact HW
  iintro ⟨Ht, ⟨%e1, H1⟩, HS0, ⟨HT109, HT110, HT111, HT112, HT113, HT114, HT115, HT116, HT117, HT118, HT119, HT120, HT121, HT122, HT123, HT124, HT125, HT126, HT127, HT128, HT129, HT130, HT131, HT132, HT133, HT134, HT135, HT136, HT137, HT138, HT139, HT140⟩, ⟨Hq109, Hq110, Hq111, Hq112, Hq113, Hq114, Hq115, Hq116, Hq117, Hq118, Hq119, Hq120, Hq121, Hq122, Hq123, Hq124, Hq125, Hq126, Hq127, Hq128, Hq129, Hq130, Hq131, Hq132, Hq133, Hq134, Hq135, Hq136, Hq137, Hq138, Hq139, Hq140⟩, ⟨%W', HW'⟩⟩
  isplitl [Ht HS0 HRB Hg Hdrop Hlow HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140 Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
  · isplitl [HS0 HRB]
    · isplitl [HS0]; · simp only [owns_whole]; iexact HS0
      iexact HRB
    isplitl [Hg]; · iexact Hg
    isplitl [Hq109 Hq110 Hq111 Hq112 Hq113 Hq114 Hq115 Hq116 Hq117 Hq118 Hq119 Hq120 Hq121 Hq122 Hq123 Hq124 Hq125 Hq126 Hq127 Hq128 Hq129 Hq130 Hq131 Hq132 Hq133 Hq134 Hq135 Hq136 Hq137 Hq138 Hq139 Hq140]
    · isplitl [Hq109]; · iexact Hq109
      isplitl [Hq110]; · iexact Hq110
      isplitl [Hq111]; · iexact Hq111
      isplitl [Hq112]; · iexact Hq112
      isplitl [Hq113]; · iexact Hq113
      isplitl [Hq114]; · iexact Hq114
      isplitl [Hq115]; · iexact Hq115
      isplitl [Hq116]; · iexact Hq116
      isplitl [Hq117]; · iexact Hq117
      isplitl [Hq118]; · iexact Hq118
      isplitl [Hq119]; · iexact Hq119
      isplitl [Hq120]; · iexact Hq120
      isplitl [Hq121]; · iexact Hq121
      isplitl [Hq122]; · iexact Hq122
      isplitl [Hq123]; · iexact Hq123
      isplitl [Hq124]; · iexact Hq124
      isplitl [Hq125]; · iexact Hq125
      isplitl [Hq126]; · iexact Hq126
      isplitl [Hq127]; · iexact Hq127
      isplitl [Hq128]; · iexact Hq128
      isplitl [Hq129]; · iexact Hq129
      isplitl [Hq130]; · iexact Hq130
      isplitl [Hq131]; · iexact Hq131
      isplitl [Hq132]; · iexact Hq132
      isplitl [Hq133]; · iexact Hq133
      isplitl [Hq134]; · iexact Hq134
      isplitl [Hq135]; · iexact Hq135
      isplitl [Hq136]; · iexact Hq136
      isplitl [Hq137]; · iexact Hq137
      isplitl [Hq138]; · iexact Hq138
      isplitl [Hq139]; · iexact Hq139
      iexact Hq140
    isplitl [Hdrop Hlow HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
    · iapply (hbSplit4 V c).2
      isplitl [Hdrop HT109 HT110 HT111 HT112 HT113 HT114 HT115 HT116 HT117 HT118 HT119 HT120 HT121 HT122 HT123 HT124 HT125 HT126 HT127 HT128 HT129 HT130 HT131 HT132 HT133 HT134 HT135 HT136 HT137 HT138 HT139 HT140]
      · isplitl [Hdrop]; · iexact Hdrop
        isplitl [HT109]; · iexact HT109
        isplitl [HT110]; · iexact HT110
        isplitl [HT111]; · iexact HT111
        isplitl [HT112]; · iexact HT112
        isplitl [HT113]; · iexact HT113
        isplitl [HT114]; · iexact HT114
        isplitl [HT115]; · iexact HT115
        isplitl [HT116]; · iexact HT116
        isplitl [HT117]; · iexact HT117
        isplitl [HT118]; · iexact HT118
        isplitl [HT119]; · iexact HT119
        isplitl [HT120]; · iexact HT120
        isplitl [HT121]; · iexact HT121
        isplitl [HT122]; · iexact HT122
        isplitl [HT123]; · iexact HT123
        isplitl [HT124]; · iexact HT124
        isplitl [HT125]; · iexact HT125
        isplitl [HT126]; · iexact HT126
        isplitl [HT127]; · iexact HT127
        isplitl [HT128]; · iexact HT128
        isplitl [HT129]; · iexact HT129
        isplitl [HT130]; · iexact HT130
        isplitl [HT131]; · iexact HT131
        isplitl [HT132]; · iexact HT132
        isplitl [HT133]; · iexact HT133
        isplitl [HT134]; · iexact HT134
        isplitl [HT135]; · iexact HT135
        isplitl [HT136]; · iexact HT136
        isplitl [HT137]; · iexact HT137
        isplitl [HT138]; · iexact HT138
        isplitl [HT139]; · iexact HT139
        iexact HT140
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun4 c _ _ _ _ _ _ _ _)

/-- The body obligation of gather pipeline 4, at every point. -/
theorem body_obligationG4 (hH : InRange4 V) (c : Dev nD) :
    BodyObligation (datG4 (F := F) V hH c) (defs₀ (F := F)) Variants.none () Set.univ := fun t => by
  rw [bigSep_W4, bigSep_W4]
  exact sound_bodyG4 V hH c t

end GatherBody4

section GatherLaunch4
variable (V : (c : Dev nD) → (b : Ref sig .tc) → Buf (Elt F) ((c : Thread nD τ).loc b))

/-- The table held through its own elements is the table's buffer held whole. -/
theorem tbPt4_eq (c : Dev nD) (f : HbBuf (F := F) c tbM4) :
    (ptSet c tbM4 fullShare f : sProp 𝕄) = (((c : Thread nD τ).loc main_v43) ↦{fullShare} f) := by
  show ((Memref.whole main_v43 : Memref sig .tc .smem S32x1023 .i32).view.loc (c : Thread nD τ) ↦[(Memref.whole main_v43 : Memref sig .tc .smem S32x1023 .i32).view.set]{fullShare} f) = _
  simp only [View.set_whole, Memref.view_whole]

/-- The launch's prefetched tables at the admitted contents: the one table's buffer held whole. -/
theorem prefHeld4_eq (c : Dev nD) :
    (Pipeline.prefHeld (Ix := Unit) (Name := ℕ) (U := Pipeline.UD sig nD τ) (Lvl := ℕ) pre4 c (fun _ => fullShare) (adm4 (F := F) V).1 : sProp 𝕄)
      = (((c : Thread nD τ).loc main_v43) ↦{fullShare} V c main_v43) := by
  obtain rfl : c = 0 := Subsingleton.elim _ _
  unfold Pipeline.prefHeld adm4
  rw [bigSep_W4]; rfl

/-- The two unscoped buffers the body reads by itself, their points-tos listed. -/
theorem hbmPts4_eq (c : Dev nD) :
    (BI.bigSep H4 (fun b => ((c : Thread nD τ).loc b) ↦{fullShare} V c b) : sProp 𝕄)
      = iprop((((c : Thread nD τ).loc main_arg2) ↦{fullShare} V c main_arg2) ∗ (((c : Thread nD τ).loc main_v43) ↦{fullShare} V c main_v43)) := by
  rw [BI.bigSep_eq_bigSepL_of_eq [main_arg2, main_v43] (by decide) (by decide)]; rfl

end GatherLaunch4

end Cert.KernelIdeal.Hand

end
-- ==== Proof.KernelIdealRun5.lean ====
/-
  The body of gather kernel 5 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM5 : Memref sig .tc .smem S32x1023 .i32 := Memref.whole main_v51

set_option maxHeartbeats 40000000 in
/-- What the body of gather kernel 5 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun5 (c : Dev nD) (i : grid5.Coords) (arg3 : Memref sig .tc .vmem S1x32x8 .f32) (harg3 : arg3.IsWhole)
    (arg4 : Memref sig .tc .vmem S32x8 .f32) (harg4 : arg4.IsWhole)
    (f0 : HbBuf (F := F) c tbM5) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM5 fullShare f0 ∗ (∃ d, owns (c : Thread nD τ) arg3 fullShare d) ∗ (∃ d, owns (c : Thread nD τ) arg4 fullShare d)
            ∗ (tokH c 143 fh ∗ tokH c 144 fh ∗ tokH c 145 fh ∗ tokH c 146 fh ∗ tokH c 147 fh ∗ tokH c 148 fh ∗ tokH c 149 fh ∗ tokH c 150 fh ∗ tokH c 151 fh ∗ tokH c 152 fh ∗ tokH c 153 fh ∗ tokH c 154 fh ∗ tokH c 155 fh ∗ tokH c 156 fh ∗ tokH c 157 fh ∗ tokH c 158 fh ∗ tokH c 159 fh ∗ tokH c 160 fh ∗ tokH c 161 fh ∗ tokH c 162 fh ∗ tokH c 163 fh ∗ tokH c 164 fh ∗ tokH c 165 fh ∗ tokH c 166 fh ∗ tokH c 167 fh ∗ tokH c 168 fh ∗ tokH c 169 fh ∗ tokH c 170 fh ∗ tokH c 171 fh ∗ tokH c 172 fh ∗ tokH c 173 fh ∗ tokH c 174 fh)
            ∗ (semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0)
            ∗ owes (c : Thread nD τ) 0 W
            ∗ (iprop(ptSet c tbM5 fullShare f0 ∗ (∃ f, arg3.view.loc (c : Thread nD τ) ↦[arg3.view.set]{fullShare} arg3.view.writes (Elt F) f L3) ∗ (∃ d, owns (c : Thread nD τ) arg4 fullShare d)
                ∗ (tokH c 143 fh ∗ tokH c 144 fh ∗ tokH c 145 fh ∗ tokH c 146 fh ∗ tokH c 147 fh ∗ tokH c 148 fh ∗ tokH c 149 fh ∗ tokH c 150 fh ∗ tokH c 151 fh ∗ tokH c 152 fh ∗ tokH c 153 fh ∗ tokH c 154 fh ∗ tokH c 155 fh ∗ tokH c 156 fh ∗ tokH c 157 fh ∗ tokH c 158 fh ∗ tokH c 159 fh ∗ tokH c 160 fh ∗ tokH c 161 fh ∗ tokH c 162 fh ∗ tokH c 163 fh ∗ tokH c 164 fh ∗ tokH c 165 fh ∗ tokH c 166 fh ∗ tokH c 167 fh ∗ tokH c 168 fh ∗ tokH c 169 fh ∗ tokH c 170 fh ∗ tokH c 171 fh ∗ tokH c 172 fh ∗ tokH c 173 fh ∗ tokH c 174 fh)
                ∗ (semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0)
                ∗ (∃ W', owes (c : Thread nD τ) 0 W')) -∗ K ⟨⟩))
          ⊢ wp frame (wpE (defs₀ (F := F)) Variants.none c none) Set.univ (cc5__gather_kernel i tbM5 (Memref.isWhole_whole _) hbM (Memref.isWhole_whole _) arg3 harg3 arg4 harg4 cc5_scratch1) K } := by
  refine ⟨?_, fun W K => ?run⟩
  case run =>
    simp only [cc5__gather_kernel_eq_skeleton]; unfold cc5__gather_kernel_skel
    unfold owns
    iintro ⟨H0, ⟨%d1, %f1, -, H1⟩, ⟨%ds0, %fs0, -, HS0⟩, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
    · isplitl [HT143]; · iexact HT143
      isplitl [HT144]; · iexact HT144
      isplitl [HT145]; · iexact HT145
      isplitl [HT146]; · iexact HT146
      isplitl [HT147]; · iexact HT147
      isplitl [HT148]; · iexact HT148
      isplitl [HT149]; · iexact HT149
      isplitl [HT150]; · iexact HT150
      isplitl [HT151]; · iexact HT151
      isplitl [HT152]; · iexact HT152
      isplitl [HT153]; · iexact HT153
      isplitl [HT154]; · iexact HT154
      isplitl [HT155]; · iexact HT155
      isplitl [HT156]; · iexact HT156
      isplitl [HT157]; · iexact HT157
      isplitl [HT158]; · iexact HT158
      isplitl [HT159]; · iexact HT159
      isplitl [HT160]; · iexact HT160
      isplitl [HT161]; · iexact HT161
      isplitl [HT162]; · iexact HT162
      isplitl [HT163]; · iexact HT163
      isplitl [HT164]; · iexact HT164
      isplitl [HT165]; · iexact HT165
      isplitl [HT166]; · iexact HT166
      isplitl [HT167]; · iexact HT167
      isplitl [HT168]; · iexact HT168
      isplitl [HT169]; · iexact HT169
      isplitl [HT170]; · iexact HT170
      isplitl [HT171]; · iexact HT171
      isplitl [HT172]; · iexact HT172
      isplitl [HT173]; · iexact HT173
      iexact HT174
    isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
    · isplitl [Hq143]; · iexact Hq143
      isplitl [Hq144]; · iexact Hq144
      isplitl [Hq145]; · iexact Hq145
      isplitl [Hq146]; · iexact Hq146
      isplitl [Hq147]; · iexact Hq147
      isplitl [Hq148]; · iexact Hq148
      isplitl [Hq149]; · iexact Hq149
      isplitl [Hq150]; · iexact Hq150
      isplitl [Hq151]; · iexact Hq151
      isplitl [Hq152]; · iexact Hq152
      isplitl [Hq153]; · iexact Hq153
      isplitl [Hq154]; · iexact Hq154
      isplitl [Hq155]; · iexact Hq155
      isplitl [Hq156]; · iexact Hq156
      isplitl [Hq157]; · iexact Hq157
      isplitl [Hq158]; · iexact Hq158
      isplitl [Hq159]; · iexact Hq159
      isplitl [Hq160]; · iexact Hq160
      isplitl [Hq161]; · iexact Hq161
      isplitl [Hq162]; · iexact Hq162
      isplitl [Hq163]; · iexact Hq163
      isplitl [Hq164]; · iexact Hq164
      isplitl [Hq165]; · iexact Hq165
      isplitl [Hq166]; · iexact Hq166
      isplitl [Hq167]; · iexact Hq167
      isplitl [Hq168]; · iexact Hq168
      isplitl [Hq169]; · iexact Hq169
      isplitl [Hq170]; · iexact Hq170
      isplitl [Hq171]; · iexact Hq171
      isplitl [Hq172]; · iexact Hq172
      isplitl [Hq173]; · iexact Hq173
      iexact Hq174
    iexists _; iexact HW

/-- The run's pieces for the output block tile it (its one store writes the whole block), so they cover it. -/
theorem coverRun5 (c : Dev nD) (i : grid5.Coords) (arg3 : Memref sig .tc .vmem S1x32x8 .f32) (harg3 : arg3.IsWhole)
    (arg4 : Memref sig .tc .vmem S32x8 .f32) (harg4 : arg4.IsWhole)
    (f0 : HbBuf (F := F) c tbM5) (hall : ∀ j, (f0 j).toNat < 8388608) (fh : HbBuf (F := F) c hbM) (y : S1x32x8.Idx) :
    ∃ pc ∈ (kernelRun5 c i arg3 harg3 arg4 harg4 f0 hall fh).1, y ∈ pc.1.set :=
  View.cover_of_tiledL (kernelRun5 c i arg3 harg3 arg4 harg4 f0 hall fh).1 S1x32x8.size (by sl_kernel_rfl) y

end Cert.KernelIdeal.Hand

end
-- ==== Proof.KernelIdealGather5.lean ====
/-
  Gather kernel 5 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun5

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 5: its region, over the contents `V` it is entered with -/

section Gather5
variable (V : (c : Dev nD) → (b : Ref sig .tc) → Buf (Elt F) ((c : Thread nD τ).loc b))

/-- The row-index table of this launch as the region finds it. The pipeline asks nothing of a table (its windows' index
    maps do not read it), so every table is admissible. -/
def adm5 : (pcfg5 (F := F)).Adm := ⟨fun | ⟨0, _⟩ => V 0 main_v51 | ⟨_ + 1, h⟩ => absurd h (Nat.not_lt.2 (Nat.le_add_left _ _)), trivial⟩

/-- Every word of the table names a row of the weight array. -/
def InRange5 : Prop := ∀ (c : Dev nD) j, ((V c main_v51) j).toNat < 8388608

abbrev pcfgG5 : Pipeline.Cfg sig Λ₀ := cfg5 (adm5 (F := F) V)

/-- The output window's current staging buffer at point `t`, as the pipeline passes it to the body. -/
abbrev ms5 (t : Fin (pcfgG5 (F := F) V).N) : Memref sig .tc .vmem S1x32x8 .f32 := spec5_0.stage ((pcfgG5 (F := F) V).slots t 0)
abbrev hs5 (t : Fin (pcfgG5 (F := F) V).N) : (ms5 V t).IsWhole := hstage5_0 (((pcfgG5 (F := F) V).slots t 0).cast nbuf5_0)
/-- The kernel's scratch block, a whole scoped buffer of its own. -/
abbrev scM5 : Memref sig .tc .vmem S32x8 .f32 := Memref.whole cc5_scratch0
/-- One staging buffer of the output window, through which its contents are stated. -/
abbrev VO5 : View sig .tc .vmem S1x32x8 .f32 := (Memref.whole cc5_stg0_0 : Memref sig .tc .vmem S1x32x8 .f32).view

/-- The kernel's own DMA semaphores, one per route. -/
abbrev osem5 : Fin 32 → SemLoc sig := fun j => (![SemLoc.dma 143, SemLoc.dma 144, SemLoc.dma 145, SemLoc.dma 146, SemLoc.dma 147, SemLoc.dma 148, SemLoc.dma 149, SemLoc.dma 150, SemLoc.dma 151, SemLoc.dma 152, SemLoc.dma 153, SemLoc.dma 154, SemLoc.dma 155, SemLoc.dma 156, SemLoc.dma 157, SemLoc.dma 158, SemLoc.dma 159, SemLoc.dma 160, SemLoc.dma 161, SemLoc.dma 162, SemLoc.dma 163, SemLoc.dma 164, SemLoc.dma 165, SemLoc.dma 166, SemLoc.dma 167, SemLoc.dma 168, SemLoc.dma 169, SemLoc.dma 170, SemLoc.dma 171, SemLoc.dma 172, SemLoc.dma 173, SemLoc.dma 174] : Fin 32 → SemLoc sig) j
theorem ownSemFacts5 : Pipeline.OwnSemFacts spec5 osem5 := by decide
theorem ownSems05_eq (c : Dev nD) :
    (Pipeline.ownSems0 (Ix := Unit) (Name := ℕ) (U := Pipeline.UD sig nD τ) (Lvl := ℕ) (Val := Elt F) (τ := τ) osem5 c : sProp 𝕄)
      = iprop(semVal ((c : Thread nD τ), SemLoc.dma 143) 0 ∗ semVal ((c : Thread nD τ), SemLoc.dma 144) 0 ∗ semVal ((c : Thread nD τ), SemLoc.dma 145) 0 ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0) := by
  rw [Pipeline.ownSems0_eq_of_list c osem5 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H5 : Finset (Ref sig .tc) := {main_arg2, main_v51}
theorem H5_sub : H5 ⊆ Pipeline.restRefs sig spec5 := by decide

/-- What the output block holds after the body at point `t`: the run's pieces read back. -/
def outsAt5 (hH : InRange5 V) (c : Dev nD) (t : Fin (pcfgG5 (F := F) V).N) : Vec F S1x32x8 .f32 :=
  (VO5).read (Elt F) ((VO5).writes (Elt F) (VO5).junk
    (kernelRun5 c (grid5.coords t) (ms5 V t) (hs5 V t) scM5 (Memref.isWhole_whole _) (V c main_v51) (hH c) (V c main_arg2)).1)

/-- The region's invariant: the scoped buffers no window stages (the scratch block among them), the generator register,
    the kernel's DMA semaphores at zero, the weight array and the table whole at their entry contents. -/
def ΦG5 (c : Dev nD) : sProp 𝕄 :=
  iprop(Pipeline.scopedRest (Ix := Unit) (Name := ℕ) (U := Pipeline.UD sig nD τ) (Lvl := ℕ) (Val := Elt F) spec5 c ∗ (∃ r, prngReg c r)
    ∗ Pipeline.ownSems0 (Ix := Unit) (Name := ℕ) (U := Pipeline.UD sig nD τ) (Lvl := ℕ) (Val := Elt F) (τ := τ) osem5 c
    ∗ (((c : Thread nD τ).loc main_arg2) ↦{fullShare} V c main_arg2)
    ∗ ptSet c tbM5 fullShare (V c main_v51))

/-- The proof data of gather pipeline 5 on core `c`. -/
def datG5 (hH : InRange5 V) (c : Dev nD) : Dat τ (Elt F) Unit ℕ (Pipeline.UD sig nD τ) ℕ (pcfgG5 (F := F) V) c where
  A w := V c (Pipeline.arrRef spec5 w)
  after w t := match w with
    | ⟨0, _⟩ => outsAt5 V hH c t
  Φ _ := ΦG5 V c
  q _ := fullShare
  owed _ := 0

theorem afterG5 (hH : InRange5 V) (c : Dev nD) (t) : (datG5 V hH c).after 0 t = outsAt5 V hH c t := by dsimp only [datG5]; rfl

end Gather5

section GatherBody5
variable (V : (c : Dev nD) → (b : Ref sig .tc) → Buf (Elt F) ((c : Thread nD τ).loc b))

open Idealize.ShloMosaic.Transfers in
/-- The weight array at the full share, as the read shares the thirty-two copies take and what is left beside them. -/
theorem hbSplit5 (c : Dev nD) :
    ((((c : Thread nD τ).loc main_arg2) ↦{fullShare} V c main_arg2) : sProp 𝕄)
      ⊣⊢ iprop((((((c : Thread nD τ).loc main_arg2) ↦{shareDrop fullShare (143 + 32)} V c main_arg2)) ∗ (tokH c 143 (V c main_arg2) ∗ tokH c 144 (V c main_arg2) ∗ tokH c 145 (V c main_arg2) ∗ tokH c 146 (V c main_arg2) ∗ tokH c 147 (V c main_arg2) ∗ tokH c 148 (V c main_arg2) ∗ tokH c 149 (V c main_arg2) ∗ tokH c 150 (V c main_arg2) ∗ tokH c 151 (V c main_arg2) ∗ tokH c 152 (V c main_arg2) ∗ tokH c 153 (V c main_arg2) ∗ tokH c 154 (V c main_arg2) ∗ tokH c 155 (V c main_arg2) ∗ tokH c 156 (V c main_arg2) ∗ tokH c 157 (V c main_arg2) ∗ tokH c 158 (V c main_arg2) ∗ tokH c 159 (V c main_arg2) ∗ tokH c 160 (V c main_arg2) ∗ tokH c 161 (V c main_arg2) ∗ tokH c 162 (V c main_arg2) ∗ tokH c 163 (V c main_arg2) ∗ tokH c 164 (V c main_arg2) ∗ tokH c 165 (V c main_arg2) ∗ tokH c 166 (V c main_arg2) ∗ tokH c 167 (V c main_arg2) ∗ tokH c 168 (V c main_arg2) ∗ tokH c 169 (V c main_arg2) ∗ tokH c 170 (V c main_arg2) ∗ tokH c 171 (V c main_arg2) ∗ tokH c 172 (V c main_arg2) ∗ tokH c 173 (V c main_arg2) ∗ tokH c 174 (V c main_arg2)))
        ∗ BI.bigSep (Finset.range 143) (fun i => ((((c : Thread nD τ).loc main_arg2) ↦{shareTokN fullShare i} V c main_arg2) : sProp 𝕄))) :=
  toks32 (F := F) 143

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG5 (hH : InRange5 V) (c : Dev nD) (t : Fin (pcfgG5 (F := F) V).N) :
    iprop((datG5 V hH c).Φ t.castSucc ∗ (datG5 V hH c).owesAt () t.castSucc
        ∗ (∃ d, owns (c : Thread nD τ) (ms5 V t) fullShare ((datG5 V hH c).before 0 t d)))
      ⊢ wp frame (wpE (defs₀ (F := F)) Variants.none c none) Set.univ
          (cc5__gather_kernel (grid5.coords t) tbM5 (Memref.isWhole_whole _) hbM (Memref.isWhole_whole _) (ms5 V t) (hs5 V t) scM5 (Memref.isWhole_whole _) cc5_scratch1)
          (fun _ => iprop((datG5 V hH c).Φ t.succ ∗ (datG5 V hH c).owesAt () t.succ
            ∗ owns (c : Thread nD τ) (ms5 V t) fullShare ((datG5 V hH c).after 0 t))) := by
  rw [show (datG5 V hH c).Φ t.succ = ΦG5 V c from rfl, show (datG5 V hH c).Φ t.castSucc = ΦG5 V c from rfl, afterG5]
  unfold ΦG5
  rw [scopedRest5_split, ownSems05_eq]
  unfold Dat.owesAt Pipeline.owesWithin
  rw [show (datG5 V hH c).owed t.castSucc = 0 from rfl, show (datG5 V hH c).owed t.succ = 0 from rfl]
  unfold outsAt5
  iintro ⟨⟨⟨HS0, HRB⟩, Hg, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, Hh, Ht⟩, ⟨%W, -, HW⟩, ⟨%d1, H1⟩⟩
  ihave Hh2 := (hbSplit5 V c).1 $$ Hh
  icases Hh2 with ⟨⟨Hdrop, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩⟩, Hlow⟩
  iapply ((kernelRun5 c (grid5.coords t) (ms5 V t) (hs5 V t) scM5 (Memref.isWhole_whole _) (V c main_v51) (hH c) (V c main_arg2)).2 W _)
  isplitl [Ht]; · iexact Ht
  isplitl [H1]; · iexists _; iexact H1
  isplitl [HS0]; · simp only [owns_whole]; iexact HS0
  isplitl [HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
  · isplitl [HT143]; · iexact HT143
    isplitl [HT144]; · iexact HT144
    isplitl [HT145]; · iexact HT145
    isplitl [HT146]; · iexact HT146
    isplitl [HT147]; · iexact HT147
    isplitl [HT148]; · iexact HT148
    isplitl [HT149]; · iexact HT149
    isplitl [HT150]; · iexact HT150
    isplitl [HT151]; · iexact HT151
    isplitl [HT152]; · iexact HT152
    isplitl [HT153]; · iexact HT153
    isplitl [HT154]; · iexact HT154
    isplitl [HT155]; · iexact HT155
    isplitl [HT156]; · iexact HT156
    isplitl [HT157]; · iexact HT157
    isplitl [HT158]; · iexact HT158
    isplitl [HT159]; · iexact HT159
    isplitl [HT160]; · iexact HT160
    isplitl [HT161]; · iexact HT161
    isplitl [HT162]; · iexact HT162
    isplitl [HT163]; · iexact HT163
    isplitl [HT164]; · iexact HT164
    isplitl [HT165]; · iexact HT165
    isplitl [HT166]; · iexact HT166
    isplitl [HT167]; · iexact HT167
    isplitl [HT168]; · iexact HT168
    isplitl [HT169]; · iexact HT169
    isplitl [HT170]; · iexact HT170
    isplitl [HT171]; · iexact HT171
    isplitl [HT172]; · iexact HT172
    isplitl [HT173]; · iexact HT173
    iexact HT174
  isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
  · isplitl [Hq143]; · iexact Hq143
    isplitl [Hq144]; · iexact Hq144
    isplitl [Hq145]; · iexact Hq145
    isplitl [Hq146]; · iexact Hq146
    isplitl [Hq147]; · iexact Hq147
    isplitl [Hq148]; · iexact Hq148
    isplitl [Hq149]; · iexact Hq149
    isplitl [Hq150]; · iexact Hq150
    isplitl [Hq151]; · iexact Hq151
    isplitl [Hq152]; · iexact Hq152
    isplitl [Hq153]; · iexact Hq153
    isplitl [Hq154]; · iexact Hq154
    isplitl [Hq155]; · iexact Hq155
    isplitl [Hq156]; · iexact Hq156
    isplitl [Hq157]; · iexact Hq157
    isplitl [Hq158]; · iexact Hq158
    isplitl [Hq159]; · iexact Hq159
    isplitl [Hq160]; · iexact Hq160
    isplitl [Hq161]; · iexact Hq161
    isplitl [Hq162]; · iexact Hq162
    isplitl [Hq163]; · iexact Hq163
    isplitl [Hq164]; · iexact Hq164
    isplitl [Hq165]; · iexact Hq165
    isplitl [Hq166]; · iexact Hq166
    isplitl [Hq167]; · iexact Hq167
    isplitl [Hq168]; · iexact Hq168
    isplitl [Hq169]; · iexact Hq169
    isplitl [Hq170]; · iexact Hq170
    isplitl [Hq171]; · iexact Hq171
    isplitl [Hq172]; · iexact Hq172
    isplitl [Hq173]; · iexact Hq173
    iexact Hq174
  isplitl [HW]; · iexact HW
  iintro ⟨Ht, ⟨%e1, H1⟩, HS0, ⟨HT143, HT144, HT145, HT146, HT147, HT148, HT149, HT150, HT151, HT152, HT153, HT154, HT155, HT156, HT157, HT158, HT159, HT160, HT161, HT162, HT163, HT164, HT165, HT166, HT167, HT168, HT169, HT170, HT171, HT172, HT173, HT174⟩, ⟨Hq143, Hq144, Hq145, Hq146, Hq147, Hq148, Hq149, Hq150, Hq151, Hq152, Hq153, Hq154, Hq155, Hq156, Hq157, Hq158, Hq159, Hq160, Hq161, Hq162, Hq163, Hq164, Hq165, Hq166, Hq167, Hq168, Hq169, Hq170, Hq171, Hq172, Hq173, Hq174⟩, ⟨%W', HW'⟩⟩
  isplitl [Ht HS0 HRB Hg Hdrop Hlow HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174 Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
  · isplitl [HS0 HRB]
    · isplitl [HS0]; · simp only [owns_whole]; iexact HS0
      iexact HRB
    isplitl [Hg]; · iexact Hg
    isplitl [Hq143 Hq144 Hq145 Hq146 Hq147 Hq148 Hq149 Hq150 Hq151 Hq152 Hq153 Hq154 Hq155 Hq156 Hq157 Hq158 Hq159 Hq160 Hq161 Hq162 Hq163 Hq164 Hq165 Hq166 Hq167 Hq168 Hq169 Hq170 Hq171 Hq172 Hq173 Hq174]
    · isplitl [Hq143]; · iexact Hq143
      isplitl [Hq144]; · iexact Hq144
      isplitl [Hq145]; · iexact Hq145
      isplitl [Hq146]; · iexact Hq146
      isplitl [Hq147]; · iexact Hq147
      isplitl [Hq148]; · iexact Hq148
      isplitl [Hq149]; · iexact Hq149
      isplitl [Hq150]; · iexact Hq150
      isplitl [Hq151]; · iexact Hq151
      isplitl [Hq152]; · iexact Hq152
      isplitl [Hq153]; · iexact Hq153
      isplitl [Hq154]; · iexact Hq154
      isplitl [Hq155]; · iexact Hq155
      isplitl [Hq156]; · iexact Hq156
      isplitl [Hq157]; · iexact Hq157
      isplitl [Hq158]; · iexact Hq158
      isplitl [Hq159]; · iexact Hq159
      isplitl [Hq160]; · iexact Hq160
      isplitl [Hq161]; · iexact Hq161
      isplitl [Hq162]; · iexact Hq162
      isplitl [Hq163]; · iexact Hq163
      isplitl [Hq164]; · iexact Hq164
      isplitl [Hq165]; · iexact Hq165
      isplitl [Hq166]; · iexact Hq166
      isplitl [Hq167]; · iexact Hq167
      isplitl [Hq168]; · iexact Hq168
      isplitl [Hq169]; · iexact Hq169
      isplitl [Hq170]; · iexact Hq170
      isplitl [Hq171]; · iexact Hq171
      isplitl [Hq172]; · iexact Hq172
      isplitl [Hq173]; · iexact Hq173
      iexact Hq174
    isplitl [Hdrop Hlow HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
    · iapply (hbSplit5 V c).2
      isplitl [Hdrop HT143 HT144 HT145 HT146 HT147 HT148 HT149 HT150 HT151 HT152 HT153 HT154 HT155 HT156 HT157 HT158 HT159 HT160 HT161 HT162 HT163 HT164 HT165 HT166 HT167 HT168 HT169 HT170 HT171 HT172 HT173 HT174]
      · isplitl [Hdrop]; · iexact Hdrop
        isplitl [HT143]; · iexact HT143
        isplitl [HT144]; · iexact HT144
        isplitl [HT145]; · iexact HT145
        isplitl [HT146]; · iexact HT146
        isplitl [HT147]; · iexact HT147
        isplitl [HT148]; · iexact HT148
        isplitl [HT149]; · iexact HT149
        isplitl [HT150]; · iexact HT150
        isplitl [HT151]; · iexact HT151
        isplitl [HT152]; · iexact HT152
        isplitl [HT153]; · iexact HT153
        isplitl [HT154]; · iexact HT154
        isplitl [HT155]; · iexact HT155
        isplitl [HT156]; · iexact HT156
        isplitl [HT157]; · iexact HT157
        isplitl [HT158]; · iexact HT158
        isplitl [HT159]; · iexact HT159
        isplitl [HT160]; · iexact HT160
        isplitl [HT161]; · iexact HT161
        isplitl [HT162]; · iexact HT162
        isplitl [HT163]; · iexact HT163
        isplitl [HT164]; · iexact HT164
        isplitl [HT165]; · iexact HT165
        isplitl [HT166]; · iexact HT166
        isplitl [HT167]; · iexact HT167
        isplitl [HT168]; · iexact HT168
        isplitl [HT169]; · iexact HT169
        isplitl [HT170]; · iexact HT170
        isplitl [HT171]; · iexact HT171
        isplitl [HT172]; · iexact HT172
        isplitl [HT173]; · iexact HT173
        iexact HT174
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun5 c _ _ _ _ _ _ _ _)

/-- The body obligation of gather pipeline 5, at every point. -/
theorem body_obligationG5 (hH : InRange5 V) (c : Dev nD) :
    BodyObligation (datG5 (F := F) V hH c) (defs₀ (F := F)) Variants.none () Set.univ := fun t => by
  rw [bigSep_W5, bigSep_W5]
  exact sound_bodyG5 V hH c t

end GatherBody5

section GatherLaunch5
variable (V : (c : Dev nD) → (b : Ref sig .tc) → Buf (Elt F) ((c : Thread nD τ).loc b))

/-- The table held through its own elements is the table's buffer held whole. -/
theorem tbPt5_eq (c : Dev nD) (f : HbBuf (F := F) c tbM5) :
    (ptSet c tbM5 fullShare f : sProp 𝕄) = (((c : Thread nD τ).loc main_v51) ↦{fullShare} f) := by
  show ((Memref.whole main_v51 : Memref sig .tc .smem S32x1023 .i32).view.loc (c : Thread nD τ) ↦[(Memref.whole main_v51 : Memref sig .tc .smem S32x1023 .i32).view.set]{fullShare} f) = _
  simp only [View.set_whole, Memref.view_whole]

/-- The launch's prefetched tables at the admitted contents: the one table's buffer held whole. -/
theorem prefHeld5_eq (c : Dev nD) :
    (Pipeline.prefHeld (Ix := Unit) (Name := ℕ) (U := Pipeline.UD sig nD τ) (Lvl := ℕ) pre5 c (fun _ => fullShare) (adm5 (F := F) V).1 : sProp 𝕄)
      = (((c : Thread nD τ).loc main_v51) ↦{fullShare} V c main_v51) := by
  obtain rfl : c = 0 := Subsingleton.elim _ _
  unfold Pipeline.prefHeld adm5
  rw [bigSep_W5]; rfl

/-- The two unscoped buffers the body reads by itself, their points-tos listed. -/
theorem hbmPts5_eq (c : Dev nD) :
    (BI.bigSep H5 (fun b => ((c : Thread nD τ).loc b) ↦{fullShare} V c b) : sProp 𝕄)
      = iprop((((c : Thread nD τ).loc main_arg2) ↦{fullShare} V c main_arg2) ∗ (((c : Thread nD τ).loc main_v51) ↦{fullShare} V c main_v51)) := by
  rw [BI.bigSep_eq_bigSepL_of_eq [main_arg2, main_v51] (by decide) (by decide)]; rfl

end GatherLaunch5

end Cert.KernelIdeal.Hand

end
-- ==== Proof.KernelIdealRun6.lean ====
/-
  The body of gather kernel 6 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM6 : Memref sig .tc .smem S32x1023 .i32 := Memref.whole main_v54

set_option maxHeartbeats 40000000 in
/-- What the body of gather kernel 6 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun6 (c : Dev nD) (i : grid6.Coords) (arg3 : Memref sig .tc .vmem S1x32x8 .f32) (harg3 : arg3.IsWhole)
    (arg4 : Memref sig .tc .vmem S32x8 .f32) (harg4 : arg4.IsWhole)
    (f0 : HbBuf (F := F) c tbM6) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM6 fullShare f0 ∗ (∃ d, owns (c : Thread nD τ) arg3 fullShare d) ∗ (∃ d, owns (c : Thread nD τ) arg4 fullShare d)
            ∗ (tokH c 177 fh ∗ tokH c 178 fh ∗ tokH c 179 fh ∗ tokH c 180 fh ∗ tokH c 181 fh ∗ tokH c 182 fh ∗ tokH c 183 fh ∗ tokH c 184 fh ∗ tokH c 185 fh ∗ tokH c 186 fh ∗ tokH c 187 fh ∗ tokH c 188 fh ∗ tokH c 189 fh ∗ tokH c 190 fh ∗ tokH c 191 fh ∗ tokH c 192 fh ∗ tokH c 193 fh ∗ tokH c 194 fh ∗ tokH c 195 fh ∗ tokH c 196 fh ∗ tokH c 197 fh ∗ tokH c 198 fh ∗ tokH c 199 fh ∗ tokH c 200 fh ∗ tokH c 201 fh ∗ tokH c 202 fh ∗ tokH c 203 fh ∗ tokH c 204 fh ∗ tokH c 205 fh ∗ tokH c 206 fh ∗ tokH c 207 fh ∗ tokH c 208 fh)
            ∗ (semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0)
            ∗ owes (c : Thread nD τ) 0 W
            ∗ (iprop(ptSet c tbM6 fullShare f0 ∗ (∃ f, arg3.view.loc (c : Thread nD τ) ↦[arg3.view.set]{fullShare} arg3.view.writes (Elt F) f L3) ∗ (∃ d, owns (c : Thread nD τ) arg4 fullShare d)
                ∗ (tokH c 177 fh ∗ tokH c 178 fh ∗ tokH c 179 fh ∗ tokH c 180 fh ∗ tokH c 181 fh ∗ tokH c 182 fh ∗ tokH c 183 fh ∗ tokH c 184 fh ∗ tokH c 185 fh ∗ tokH c 186 fh ∗ tokH c 187 fh ∗ tokH c 188 fh ∗ tokH c 189 fh ∗ tokH c 190 fh ∗ tokH c 191 fh ∗ tokH c 192 fh ∗ tokH c 193 fh ∗ tokH c 194 fh ∗ tokH c 195 fh ∗ tokH c 196 fh ∗ tokH c 197 fh ∗ tokH c 198 fh ∗ tokH c 199 fh ∗ tokH c 200 fh ∗ tokH c 201 fh ∗ tokH c 202 fh ∗ tokH c 203 fh ∗ tokH c 204 fh ∗ tokH c 205 fh ∗ tokH c 206 fh ∗ tokH c 207 fh ∗ tokH c 208 fh)
                ∗ (semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0)
                ∗ (∃ W', owes (c : Thread nD τ) 0 W')) -∗ K ⟨⟩))
          ⊢ wp frame (wpE (defs₀ (F := F)) Variants.none c none) Set.univ (cc6__gather_kernel i tbM6 (Memref.isWhole_whole _) hbM (Memref.isWhole_whole _) arg3 harg3 arg4 harg4 cc6_scratch1) K } := by
  refine ⟨?_, fun W K => ?run⟩
  case run =>
    simp only [cc6__gather_kernel_eq_skeleton]; unfold cc6__gather_kernel_skel
    unfold owns
    iintro ⟨H0, ⟨%d1, %f1, -, H1⟩, ⟨%ds0, %fs0, -, HS0⟩, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
    · isplitl [HT177]; · iexact HT177
      isplitl [HT178]; · iexact HT178
      isplitl [HT179]; · iexact HT179
      isplitl [HT180]; · iexact HT180
      isplitl [HT181]; · iexact HT181
      isplitl [HT182]; · iexact HT182
      isplitl [HT183]; · iexact HT183
      isplitl [HT184]; · iexact HT184
      isplitl [HT185]; · iexact HT185
      isplitl [HT186]; · iexact HT186
      isplitl [HT187]; · iexact HT187
      isplitl [HT188]; · iexact HT188
      isplitl [HT189]; · iexact HT189
      isplitl [HT190]; · iexact HT190
      isplitl [HT191]; · iexact HT191
      isplitl [HT192]; · iexact HT192
      isplitl [HT193]; · iexact HT193
      isplitl [HT194]; · iexact HT194
      isplitl [HT195]; · iexact HT195
      isplitl [HT196]; · iexact HT196
      isplitl [HT197]; · iexact HT197
      isplitl [HT198]; · iexact HT198
      isplitl [HT199]; · iexact HT199
      isplitl [HT200]; · iexact HT200
      isplitl [HT201]; · iexact HT201
      isplitl [HT202]; · iexact HT202
      isplitl [HT203]; · iexact HT203
      isplitl [HT204]; · iexact HT204
      isplitl [HT205]; · iexact HT205
      isplitl [HT206]; · iexact HT206
      isplitl [HT207]; · iexact HT207
      iexact HT208
    isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
    · isplitl [Hq177]; · iexact Hq177
      isplitl [Hq178]; · iexact Hq178
      isplitl [Hq179]; · iexact Hq179
      isplitl [Hq180]; · iexact Hq180
      isplitl [Hq181]; · iexact Hq181
      isplitl [Hq182]; · iexact Hq182
      isplitl [Hq183]; · iexact Hq183
      isplitl [Hq184]; · iexact Hq184
      isplitl [Hq185]; · iexact Hq185
      isplitl [Hq186]; · iexact Hq186
      isplitl [Hq187]; · iexact Hq187
      isplitl [Hq188]; · iexact Hq188
      isplitl [Hq189]; · iexact Hq189
      isplitl [Hq190]; · iexact Hq190
      isplitl [Hq191]; · iexact Hq191
      isplitl [Hq192]; · iexact Hq192
      isplitl [Hq193]; · iexact Hq193
      isplitl [Hq194]; · iexact Hq194
      isplitl [Hq195]; · iexact Hq195
      isplitl [Hq196]; · iexact Hq196
      isplitl [Hq197]; · iexact Hq197
      isplitl [Hq198]; · iexact Hq198
      isplitl [Hq199]; · iexact Hq199
      isplitl [Hq200]; · iexact Hq200
      isplitl [Hq201]; · iexact Hq201
      isplitl [Hq202]; · iexact Hq202
      isplitl [Hq203]; · iexact Hq203
      isplitl [Hq204]; · iexact Hq204
      isplitl [Hq205]; · iexact Hq205
      isplitl [Hq206]; · iexact Hq206
      isplitl [Hq207]; · iexact Hq207
      iexact Hq208
    iexists _; iexact HW

/-- The run's pieces for the output block tile it (its one store writes the whole block), so they cover it. -/
theorem coverRun6 (c : Dev nD) (i : grid6.Coords) (arg3 : Memref sig .tc .vmem S1x32x8 .f32) (harg3 : arg3.IsWhole)
    (arg4 : Memref sig .tc .vmem S32x8 .f32) (harg4 : arg4.IsWhole)
    (f0 : HbBuf (F := F) c tbM6) (hall : ∀ j, (f0 j).toNat < 8388608) (fh : HbBuf (F := F) c hbM) (y : S1x32x8.Idx) :
    ∃ pc ∈ (kernelRun6 c i arg3 harg3 arg4 harg4 f0 hall fh).1, y ∈ pc.1.set :=
  View.cover_of_tiledL (kernelRun6 c i arg3 harg3 arg4 harg4 f0 hall fh).1 S1x32x8.size (by sl_kernel_rfl) y

end Cert.KernelIdeal.Hand

end
-- ==== Proof.KernelIdealGather6.lean ====
/-
  Gather kernel 6 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun6

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 6: its region, over the contents `V` it is entered with -/

section Gather6
variable (V : (c : Dev nD) → (b : Ref sig .tc) → Buf (Elt F) ((c : Thread nD τ).loc b))

/-- The row-index table of this launch as the region finds it. The pipeline asks nothing of a table (its windows' index
    maps do not read it), so every table is admissible. -/
def adm6 : (pcfg6 (F := F)).Adm := ⟨fun | ⟨0, _⟩ => V 0 main_v54 | ⟨_ + 1, h⟩ => absurd h (Nat.not_lt.2 (Nat.le_add_left _ _)), trivial⟩

/-- Every word of the table names a row of the weight array. -/
def InRange6 : Prop := ∀ (c : Dev nD) j, ((V c main_v54) j).toNat < 8388608

abbrev pcfgG6 : Pipeline.Cfg sig Λ₀ := cfg6 (adm6 (F := F) V)

/-- The output window's current staging buffer at point `t`, as the pipeline passes it to the body. -/
abbrev ms6 (t : Fin (pcfgG6 (F := F) V).N) : Memref sig .tc .vmem S1x32x8 .f32 := spec6_0.stage ((pcfgG6 (F := F) V).slots t 0)
abbrev hs6 (t : Fin (pcfgG6 (F := F) V).N) : (ms6 V t).IsWhole := hstage6_0 (((pcfgG6 (F := F) V).slots t 0).cast nbuf6_0)
/-- The kernel's scratch block, a whole scoped buffer of its own. -/
abbrev scM6 : Memref sig .tc .vmem S32x8 .f32 := Memref.whole cc6_scratch0
/-- One staging buffer of the output window, through which its contents are stated. -/
abbrev VO6 : View sig .tc .vmem S1x32x8 .f32 := (Memref.whole cc6_stg0_0 : Memref sig .tc .vmem S1x32x8 .f32).view

/-- The kernel's own DMA semaphores, one per route. -/
abbrev osem6 : Fin 32 → SemLoc sig := fun j => (![SemLoc.dma 177, SemLoc.dma 178, SemLoc.dma 179, SemLoc.dma 180, SemLoc.dma 181, SemLoc.dma 182, SemLoc.dma 183, SemLoc.dma 184, SemLoc.dma 185, SemLoc.dma 186, SemLoc.dma 187, SemLoc.dma 188, SemLoc.dma 189, SemLoc.dma 190, SemLoc.dma 191, SemLoc.dma 192, SemLoc.dma 193, SemLoc.dma 194, SemLoc.dma 195, SemLoc.dma 196, SemLoc.dma 197, SemLoc.dma 198, SemLoc.dma 199, SemLoc.dma 200, SemLoc.dma 201, SemLoc.dma 202, SemLoc.dma 203, SemLoc.dma 204, SemLoc.dma 205, SemLoc.dma 206, SemLoc.dma 207, SemLoc.dma 208] : Fin 32 → SemLoc sig) j
theorem ownSemFacts6 : Pipeline.OwnSemFacts spec6 osem6 := by decide
theorem ownSems06_eq (c : Dev nD) :
    (Pipeline.ownSems0 (Ix := Unit) (Name := ℕ) (U := Pipeline.UD sig nD τ) (Lvl := ℕ) (Val := Elt F) (τ := τ) osem6 c : sProp 𝕄)
      = iprop(semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0 ∗ semVal ((c : Thread nD τ), SemLoc.dma 185) 0 ∗ semVal ((c : Thread nD τ), SemLoc.dma 186) 0 ∗ semVal ((c : Thread nD τ), SemLoc.dma 187) 0 ∗ semVal ((c : Thread nD τ), SemLoc.dma 188) 0 ∗ semVal ((c : Thread nD τ), SemLoc.dma 189) 0 ∗ semVal ((c : Thread nD τ), SemLoc.dma 190) 0 ∗ semVal ((c : Thread nD τ), SemLoc.dma 191) 0 ∗ semVal ((c : Thread nD τ), SemLoc.dma 192) 0 ∗ semVal ((c : Thread nD τ), SemLoc.dma 193) 0 ∗ semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0) := by
  rw [Pipeline.ownSems0_eq_of_list c osem6 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H6 : Finset (Ref sig .tc) := {main_arg2, main_v54}
theorem H6_sub : H6 ⊆ Pipeline.restRefs sig spec6 := by decide

/-- What the output block holds after the body at point `t`: the run's pieces read back. -/
def outsAt6 (hH : InRange6 V) (c : Dev nD) (t : Fin (pcfgG6 (F := F) V).N) : Vec F S1x32x8 .f32 :=
  (VO6).read (Elt F) ((VO6).writes (Elt F) (VO6).junk
    (kernelRun6 c (grid6.coords t) (ms6 V t) (hs6 V t) scM6 (Memref.isWhole_whole _) (V c main_v54) (hH c) (V c main_arg2)).1)

/-- The region's invariant: the scoped buffers no window stages (the scratch block among them), the generator register,
    the kernel's DMA semaphores at zero, the weight array and the table whole at their entry contents. -/
def ΦG6 (c : Dev nD) : sProp 𝕄 :=
  iprop(Pipeline.scopedRest (Ix := Unit) (Name := ℕ) (U := Pipeline.UD sig nD τ) (Lvl := ℕ) (Val := Elt F) spec6 c ∗ (∃ r, prngReg c r)
    ∗ Pipeline.ownSems0 (Ix := Unit) (Name := ℕ) (U := Pipeline.UD sig nD τ) (Lvl := ℕ) (Val := Elt F) (τ := τ) osem6 c
    ∗ (((c : Thread nD τ).loc main_arg2) ↦{fullShare} V c main_arg2)
    ∗ ptSet c tbM6 fullShare (V c main_v54))

/-- The proof data of gather pipeline 6 on core `c`. -/
def datG6 (hH : InRange6 V) (c : Dev nD) : Dat τ (Elt F) Unit ℕ (Pipeline.UD sig nD τ) ℕ (pcfgG6 (F := F) V) c where
  A w := V c (Pipeline.arrRef spec6 w)
  after w t := match w with
    | ⟨0, _⟩ => outsAt6 V hH c t
  Φ _ := ΦG6 V c
  q _ := fullShare
  owed _ := 0

theorem afterG6 (hH : InRange6 V) (c : Dev nD) (t) : (datG6 V hH c).after 0 t = outsAt6 V hH c t := by dsimp only [datG6]; rfl

end Gather6

section GatherBody6
variable (V : (c : Dev nD) → (b : Ref sig .tc) → Buf (Elt F) ((c : Thread nD τ).loc b))

open Idealize.ShloMosaic.Transfers in
/-- The weight array at the full share, as the read shares the thirty-two copies take and what is left beside them. -/
theorem hbSplit6 (c : Dev nD) :
    ((((c : Thread nD τ).loc main_arg2) ↦{fullShare} V c main_arg2) : sProp 𝕄)
      ⊣⊢ iprop((((((c : Thread nD τ).loc main_arg2) ↦{shareDrop fullShare (177 + 32)} V c main_arg2)) ∗ (tokH c 177 (V c main_arg2) ∗ tokH c 178 (V c main_arg2) ∗ tokH c 179 (V c main_arg2) ∗ tokH c 180 (V c main_arg2) ∗ tokH c 181 (V c main_arg2) ∗ tokH c 182 (V c main_arg2) ∗ tokH c 183 (V c main_arg2) ∗ tokH c 184 (V c main_arg2) ∗ tokH c 185 (V c main_arg2) ∗ tokH c 186 (V c main_arg2) ∗ tokH c 187 (V c main_arg2) ∗ tokH c 188 (V c main_arg2) ∗ tokH c 189 (V c main_arg2) ∗ tokH c 190 (V c main_arg2) ∗ tokH c 191 (V c main_arg2) ∗ tokH c 192 (V c main_arg2) ∗ tokH c 193 (V c main_arg2) ∗ tokH c 194 (V c main_arg2) ∗ tokH c 195 (V c main_arg2) ∗ tokH c 196 (V c main_arg2) ∗ tokH c 197 (V c main_arg2) ∗ tokH c 198 (V c main_arg2) ∗ tokH c 199 (V c main_arg2) ∗ tokH c 200 (V c main_arg2) ∗ tokH c 201 (V c main_arg2) ∗ tokH c 202 (V c main_arg2) ∗ tokH c 203 (V c main_arg2) ∗ tokH c 204 (V c main_arg2) ∗ tokH c 205 (V c main_arg2) ∗ tokH c 206 (V c main_arg2) ∗ tokH c 207 (V c main_arg2) ∗ tokH c 208 (V c main_arg2)))
        ∗ BI.bigSep (Finset.range 177) (fun i => ((((c : Thread nD τ).loc main_arg2) ↦{shareTokN fullShare i} V c main_arg2) : sProp 𝕄))) :=
  toks32 (F := F) 177

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG6 (hH : InRange6 V) (c : Dev nD) (t : Fin (pcfgG6 (F := F) V).N) :
    iprop((datG6 V hH c).Φ t.castSucc ∗ (datG6 V hH c).owesAt () t.castSucc
        ∗ (∃ d, owns (c : Thread nD τ) (ms6 V t) fullShare ((datG6 V hH c).before 0 t d)))
      ⊢ wp frame (wpE (defs₀ (F := F)) Variants.none c none) Set.univ
          (cc6__gather_kernel (grid6.coords t) tbM6 (Memref.isWhole_whole _) hbM (Memref.isWhole_whole _) (ms6 V t) (hs6 V t) scM6 (Memref.isWhole_whole _) cc6_scratch1)
          (fun _ => iprop((datG6 V hH c).Φ t.succ ∗ (datG6 V hH c).owesAt () t.succ
            ∗ owns (c : Thread nD τ) (ms6 V t) fullShare ((datG6 V hH c).after 0 t))) := by
  rw [show (datG6 V hH c).Φ t.succ = ΦG6 V c from rfl, show (datG6 V hH c).Φ t.castSucc = ΦG6 V c from rfl, afterG6]
  unfold ΦG6
  rw [scopedRest6_split, ownSems06_eq]
  unfold Dat.owesAt Pipeline.owesWithin
  rw [show (datG6 V hH c).owed t.castSucc = 0 from rfl, show (datG6 V hH c).owed t.succ = 0 from rfl]
  unfold outsAt6
  iintro ⟨⟨⟨HS0, HRB⟩, Hg, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, Hh, Ht⟩, ⟨%W, -, HW⟩, ⟨%d1, H1⟩⟩
  ihave Hh2 := (hbSplit6 V c).1 $$ Hh
  icases Hh2 with ⟨⟨Hdrop, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩⟩, Hlow⟩
  iapply ((kernelRun6 c (grid6.coords t) (ms6 V t) (hs6 V t) scM6 (Memref.isWhole_whole _) (V c main_v54) (hH c) (V c main_arg2)).2 W _)
  isplitl [Ht]; · iexact Ht
  isplitl [H1]; · iexists _; iexact H1
  isplitl [HS0]; · simp only [owns_whole]; iexact HS0
  isplitl [HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
  · isplitl [HT177]; · iexact HT177
    isplitl [HT178]; · iexact HT178
    isplitl [HT179]; · iexact HT179
    isplitl [HT180]; · iexact HT180
    isplitl [HT181]; · iexact HT181
    isplitl [HT182]; · iexact HT182
    isplitl [HT183]; · iexact HT183
    isplitl [HT184]; · iexact HT184
    isplitl [HT185]; · iexact HT185
    isplitl [HT186]; · iexact HT186
    isplitl [HT187]; · iexact HT187
    isplitl [HT188]; · iexact HT188
    isplitl [HT189]; · iexact HT189
    isplitl [HT190]; · iexact HT190
    isplitl [HT191]; · iexact HT191
    isplitl [HT192]; · iexact HT192
    isplitl [HT193]; · iexact HT193
    isplitl [HT194]; · iexact HT194
    isplitl [HT195]; · iexact HT195
    isplitl [HT196]; · iexact HT196
    isplitl [HT197]; · iexact HT197
    isplitl [HT198]; · iexact HT198
    isplitl [HT199]; · iexact HT199
    isplitl [HT200]; · iexact HT200
    isplitl [HT201]; · iexact HT201
    isplitl [HT202]; · iexact HT202
    isplitl [HT203]; · iexact HT203
    isplitl [HT204]; · iexact HT204
    isplitl [HT205]; · iexact HT205
    isplitl [HT206]; · iexact HT206
    isplitl [HT207]; · iexact HT207
    iexact HT208
  isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
  · isplitl [Hq177]; · iexact Hq177
    isplitl [Hq178]; · iexact Hq178
    isplitl [Hq179]; · iexact Hq179
    isplitl [Hq180]; · iexact Hq180
    isplitl [Hq181]; · iexact Hq181
    isplitl [Hq182]; · iexact Hq182
    isplitl [Hq183]; · iexact Hq183
    isplitl [Hq184]; · iexact Hq184
    isplitl [Hq185]; · iexact Hq185
    isplitl [Hq186]; · iexact Hq186
    isplitl [Hq187]; · iexact Hq187
    isplitl [Hq188]; · iexact Hq188
    isplitl [Hq189]; · iexact Hq189
    isplitl [Hq190]; · iexact Hq190
    isplitl [Hq191]; · iexact Hq191
    isplitl [Hq192]; · iexact Hq192
    isplitl [Hq193]; · iexact Hq193
    isplitl [Hq194]; · iexact Hq194
    isplitl [Hq195]; · iexact Hq195
    isplitl [Hq196]; · iexact Hq196
    isplitl [Hq197]; · iexact Hq197
    isplitl [Hq198]; · iexact Hq198
    isplitl [Hq199]; · iexact Hq199
    isplitl [Hq200]; · iexact Hq200
    isplitl [Hq201]; · iexact Hq201
    isplitl [Hq202]; · iexact Hq202
    isplitl [Hq203]; · iexact Hq203
    isplitl [Hq204]; · iexact Hq204
    isplitl [Hq205]; · iexact Hq205
    isplitl [Hq206]; · iexact Hq206
    isplitl [Hq207]; · iexact Hq207
    iexact Hq208
  isplitl [HW]; · iexact HW
  iintro ⟨Ht, ⟨%e1, H1⟩, HS0, ⟨HT177, HT178, HT179, HT180, HT181, HT182, HT183, HT184, HT185, HT186, HT187, HT188, HT189, HT190, HT191, HT192, HT193, HT194, HT195, HT196, HT197, HT198, HT199, HT200, HT201, HT202, HT203, HT204, HT205, HT206, HT207, HT208⟩, ⟨Hq177, Hq178, Hq179, Hq180, Hq181, Hq182, Hq183, Hq184, Hq185, Hq186, Hq187, Hq188, Hq189, Hq190, Hq191, Hq192, Hq193, Hq194, Hq195, Hq196, Hq197, Hq198, Hq199, Hq200, Hq201, Hq202, Hq203, Hq204, Hq205, Hq206, Hq207, Hq208⟩, ⟨%W', HW'⟩⟩
  isplitl [Ht HS0 HRB Hg Hdrop Hlow HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208 Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
  · isplitl [HS0 HRB]
    · isplitl [HS0]; · simp only [owns_whole]; iexact HS0
      iexact HRB
    isplitl [Hg]; · iexact Hg
    isplitl [Hq177 Hq178 Hq179 Hq180 Hq181 Hq182 Hq183 Hq184 Hq185 Hq186 Hq187 Hq188 Hq189 Hq190 Hq191 Hq192 Hq193 Hq194 Hq195 Hq196 Hq197 Hq198 Hq199 Hq200 Hq201 Hq202 Hq203 Hq204 Hq205 Hq206 Hq207 Hq208]
    · isplitl [Hq177]; · iexact Hq177
      isplitl [Hq178]; · iexact Hq178
      isplitl [Hq179]; · iexact Hq179
      isplitl [Hq180]; · iexact Hq180
      isplitl [Hq181]; · iexact Hq181
      isplitl [Hq182]; · iexact Hq182
      isplitl [Hq183]; · iexact Hq183
      isplitl [Hq184]; · iexact Hq184
      isplitl [Hq185]; · iexact Hq185
      isplitl [Hq186]; · iexact Hq186
      isplitl [Hq187]; · iexact Hq187
      isplitl [Hq188]; · iexact Hq188
      isplitl [Hq189]; · iexact Hq189
      isplitl [Hq190]; · iexact Hq190
      isplitl [Hq191]; · iexact Hq191
      isplitl [Hq192]; · iexact Hq192
      isplitl [Hq193]; · iexact Hq193
      isplitl [Hq194]; · iexact Hq194
      isplitl [Hq195]; · iexact Hq195
      isplitl [Hq196]; · iexact Hq196
      isplitl [Hq197]; · iexact Hq197
      isplitl [Hq198]; · iexact Hq198
      isplitl [Hq199]; · iexact Hq199
      isplitl [Hq200]; · iexact Hq200
      isplitl [Hq201]; · iexact Hq201
      isplitl [Hq202]; · iexact Hq202
      isplitl [Hq203]; · iexact Hq203
      isplitl [Hq204]; · iexact Hq204
      isplitl [Hq205]; · iexact Hq205
      isplitl [Hq206]; · iexact Hq206
      isplitl [Hq207]; · iexact Hq207
      iexact Hq208
    isplitl [Hdrop Hlow HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
    · iapply (hbSplit6 V c).2
      isplitl [Hdrop HT177 HT178 HT179 HT180 HT181 HT182 HT183 HT184 HT185 HT186 HT187 HT188 HT189 HT190 HT191 HT192 HT193 HT194 HT195 HT196 HT197 HT198 HT199 HT200 HT201 HT202 HT203 HT204 HT205 HT206 HT207 HT208]
      · isplitl [Hdrop]; · iexact Hdrop
        isplitl [HT177]; · iexact HT177
        isplitl [HT178]; · iexact HT178
        isplitl [HT179]; · iexact HT179
        isplitl [HT180]; · iexact HT180
        isplitl [HT181]; · iexact HT181
        isplitl [HT182]; · iexact HT182
        isplitl [HT183]; · iexact HT183
        isplitl [HT184]; · iexact HT184
        isplitl [HT185]; · iexact HT185
        isplitl [HT186]; · iexact HT186
        isplitl [HT187]; · iexact HT187
        isplitl [HT188]; · iexact HT188
        isplitl [HT189]; · iexact HT189
        isplitl [HT190]; · iexact HT190
        isplitl [HT191]; · iexact HT191
        isplitl [HT192]; · iexact HT192
        isplitl [HT193]; · iexact HT193
        isplitl [HT194]; · iexact HT194
        isplitl [HT195]; · iexact HT195
        isplitl [HT196]; · iexact HT196
        isplitl [HT197]; · iexact HT197
        isplitl [HT198]; · iexact HT198
        isplitl [HT199]; · iexact HT199
        isplitl [HT200]; · iexact HT200
        isplitl [HT201]; · iexact HT201
        isplitl [HT202]; · iexact HT202
        isplitl [HT203]; · iexact HT203
        isplitl [HT204]; · iexact HT204
        isplitl [HT205]; · iexact HT205
        isplitl [HT206]; · iexact HT206
        isplitl [HT207]; · iexact HT207
        iexact HT208
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun6 c _ _ _ _ _ _ _ _)

/-- The body obligation of gather pipeline 6, at every point. -/
theorem body_obligationG6 (hH : InRange6 V) (c : Dev nD) :
    BodyObligation (datG6 (F := F) V hH c) (defs₀ (F := F)) Variants.none () Set.univ := fun t => by
  rw [bigSep_W6, bigSep_W6]
  exact sound_bodyG6 V hH c t

end GatherBody6

section GatherLaunch6
variable (V : (c : Dev nD) → (b : Ref sig .tc) → Buf (Elt F) ((c : Thread nD τ).loc b))

/-- The table held through its own elements is the table's buffer held whole. -/
theorem tbPt6_eq (c : Dev nD) (f : HbBuf (F := F) c tbM6) :
    (ptSet c tbM6 fullShare f : sProp 𝕄) = (((c : Thread nD τ).loc main_v54) ↦{fullShare} f) := by
  show ((Memref.whole main_v54 : Memref sig .tc .smem S32x1023 .i32).view.loc (c : Thread nD τ) ↦[(Memref.whole main_v54 : Memref sig .tc .smem S32x1023 .i32).view.set]{fullShare} f) = _
  simp only [View.set_whole, Memref.view_whole]

/-- The launch's prefetched tables at the admitted contents: the one table's buffer held whole. -/
theorem prefHeld6_eq (c : Dev nD) :
    (Pipeline.prefHeld (Ix := Unit) (Name := ℕ) (U := Pipeline.UD sig nD τ) (Lvl := ℕ) pre6 c (fun _ => fullShare) (adm6 (F := F) V).1 : sProp 𝕄)
      = (((c : Thread nD τ).loc main_v54) ↦{fullShare} V c main_v54) := by
  obtain rfl : c = 0 := Subsingleton.elim _ _
  unfold Pipeline.prefHeld adm6
  rw [bigSep_W6]; rfl

/-- The two unscoped buffers the body reads by itself, their points-tos listed. -/
theorem hbmPts6_eq (c : Dev nD) :
    (BI.bigSep H6 (fun b => ((c : Thread nD τ).loc b) ↦{fullShare} V c b) : sProp 𝕄)
      = iprop((((c : Thread nD τ).loc main_arg2) ↦{fullShare} V c main_arg2) ∗ (((c : Thread nD τ).loc main_v54) ↦{fullShare} V c main_v54)) := by
  rw [BI.bigSep_eq_bigSepL_of_eq [main_arg2, main_v54] (by decide) (by decide)]; rfl

end GatherLaunch6

end Cert.KernelIdeal.Hand

end
-- ==== Proof.KernelIdealRun7.lean ====
/-
  The body of gather kernel 7 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM7 : Memref sig .tc .smem S32x1023 .i32 := Memref.whole main_v57

set_option maxHeartbeats 40000000 in
/-- What the body of gather kernel 7 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun7 (c : Dev nD) (i : grid7.Coords) (arg3 : Memref sig .tc .vmem S1x32x8 .f32) (harg3 : arg3.IsWhole)
    (arg4 : Memref sig .tc .vmem S32x8 .f32) (harg4 : arg4.IsWhole)
    (f0 : HbBuf (F := F) c tbM7) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM7 fullShare f0 ∗ (∃ d, owns (c : Thread nD τ) arg3 fullShare d) ∗ (∃ d, owns (c : Thread nD τ) arg4 fullShare d)
            ∗ (tokH c 211 fh ∗ tokH c 212 fh ∗ tokH c 213 fh ∗ tokH c 214 fh ∗ tokH c 215 fh ∗ tokH c 216 fh ∗ tokH c 217 fh ∗ tokH c 218 fh ∗ tokH c 219 fh ∗ tokH c 220 fh ∗ tokH c 221 fh ∗ tokH c 222 fh ∗ tokH c 223 fh ∗ tokH c 224 fh ∗ tokH c 225 fh ∗ tokH c 226 fh ∗ tokH c 227 fh ∗ tokH c 228 fh ∗ tokH c 229 fh ∗ tokH c 230 fh ∗ tokH c 231 fh ∗ tokH c 232 fh ∗ tokH c 233 fh ∗ tokH c 234 fh ∗ tokH c 235 fh ∗ tokH c 236 fh ∗ tokH c 237 fh ∗ tokH c 238 fh ∗ tokH c 239 fh ∗ tokH c 240 fh ∗ tokH c 241 fh ∗ tokH c 242 fh)
            ∗ (semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0)
            ∗ owes (c : Thread nD τ) 0 W
            ∗ (iprop(ptSet c tbM7 fullShare f0 ∗ (∃ f, arg3.view.loc (c : Thread nD τ) ↦[arg3.view.set]{fullShare} arg3.view.writes (Elt F) f L3) ∗ (∃ d, owns (c : Thread nD τ) arg4 fullShare d)
                ∗ (tokH c 211 fh ∗ tokH c 212 fh ∗ tokH c 213 fh ∗ tokH c 214 fh ∗ tokH c 215 fh ∗ tokH c 216 fh ∗ tokH c 217 fh ∗ tokH c 218 fh ∗ tokH c 219 fh ∗ tokH c 220 fh ∗ tokH c 221 fh ∗ tokH c 222 fh ∗ tokH c 223 fh ∗ tokH c 224 fh ∗ tokH c 225 fh ∗ tokH c 226 fh ∗ tokH c 227 fh ∗ tokH c 228 fh ∗ tokH c 229 fh ∗ tokH c 230 fh ∗ tokH c 231 fh ∗ tokH c 232 fh ∗ tokH c 233 fh ∗ tokH c 234 fh ∗ tokH c 235 fh ∗ tokH c 236 fh ∗ tokH c 237 fh ∗ tokH c 238 fh ∗ tokH c 239 fh ∗ tokH c 240 fh ∗ tokH c 241 fh ∗ tokH c 242 fh)
                ∗ (semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0)
                ∗ (∃ W', owes (c : Thread nD τ) 0 W')) -∗ K ⟨⟩))
          ⊢ wp frame (wpE (defs₀ (F := F)) Variants.none c none) Set.univ (cc7__gather_kernel i tbM7 (Memref.isWhole_whole _) hbM (Memref.isWhole_whole _) arg3 harg3 arg4 harg4 cc7_scratch1) K } := by
  refine ⟨?_, fun W K => ?run⟩
  case run =>
    simp only [cc7__gather_kernel_eq_skeleton]; unfold cc7__gather_kernel_skel
    unfold owns
    iintro ⟨H0, ⟨%d1, %f1, -, H1⟩, ⟨%ds0, %fs0, -, HS0⟩, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
    · isplitl [HT211]; · iexact HT211
      isplitl [HT212]; · iexact HT212
      isplitl [HT213]; · iexact HT213
      isplitl [HT214]; · iexact HT214
      isplitl [HT215]; · iexact HT215
      isplitl [HT216]; · iexact HT216
      isplitl [HT217]; · iexact HT217
      isplitl [HT218]; · iexact HT218
      isplitl [HT219]; · iexact HT219
      isplitl [HT220]; · iexact HT220
      isplitl [HT221]; · iexact HT221
      isplitl [HT222]; · iexact HT222
      isplitl [HT223]; · iexact HT223
      isplitl [HT224]; · iexact HT224
      isplitl [HT225]; · iexact HT225
      isplitl [HT226]; · iexact HT226
      isplitl [HT227]; · iexact HT227
      isplitl [HT228]; · iexact HT228
      isplitl [HT229]; · iexact HT229
      isplitl [HT230]; · iexact HT230
      isplitl [HT231]; · iexact HT231
      isplitl [HT232]; · iexact HT232
      isplitl [HT233]; · iexact HT233
      isplitl [HT234]; · iexact HT234
      isplitl [HT235]; · iexact HT235
      isplitl [HT236]; · iexact HT236
      isplitl [HT237]; · iexact HT237
      isplitl [HT238]; · iexact HT238
      isplitl [HT239]; · iexact HT239
      isplitl [HT240]; · iexact HT240
      isplitl [HT241]; · iexact HT241
      iexact HT242
    isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
    · isplitl [Hq211]; · iexact Hq211
      isplitl [Hq212]; · iexact Hq212
      isplitl [Hq213]; · iexact Hq213
      isplitl [Hq214]; · iexact Hq214
      isplitl [Hq215]; · iexact Hq215
      isplitl [Hq216]; · iexact Hq216
      isplitl [Hq217]; · iexact Hq217
      isplitl [Hq218]; · iexact Hq218
      isplitl [Hq219]; · iexact Hq219
      isplitl [Hq220]; · iexact Hq220
      isplitl [Hq221]; · iexact Hq221
      isplitl [Hq222]; · iexact Hq222
      isplitl [Hq223]; · iexact Hq223
      isplitl [Hq224]; · iexact Hq224
      isplitl [Hq225]; · iexact Hq225
      isplitl [Hq226]; · iexact Hq226
      isplitl [Hq227]; · iexact Hq227
      isplitl [Hq228]; · iexact Hq228
      isplitl [Hq229]; · iexact Hq229
      isplitl [Hq230]; · iexact Hq230
      isplitl [Hq231]; · iexact Hq231
      isplitl [Hq232]; · iexact Hq232
      isplitl [Hq233]; · iexact Hq233
      isplitl [Hq234]; · iexact Hq234
      isplitl [Hq235]; · iexact Hq235
      isplitl [Hq236]; · iexact Hq236
      isplitl [Hq237]; · iexact Hq237
      isplitl [Hq238]; · iexact Hq238
      isplitl [Hq239]; · iexact Hq239
      isplitl [Hq240]; · iexact Hq240
      isplitl [Hq241]; · iexact Hq241
      iexact Hq242
    iexists _; iexact HW

/-- The run's pieces for the output block tile it (its one store writes the whole block), so they cover it. -/
theorem coverRun7 (c : Dev nD) (i : grid7.Coords) (arg3 : Memref sig .tc .vmem S1x32x8 .f32) (harg3 : arg3.IsWhole)
    (arg4 : Memref sig .tc .vmem S32x8 .f32) (harg4 : arg4.IsWhole)
    (f0 : HbBuf (F := F) c tbM7) (hall : ∀ j, (f0 j).toNat < 8388608) (fh : HbBuf (F := F) c hbM) (y : S1x32x8.Idx) :
    ∃ pc ∈ (kernelRun7 c i arg3 harg3 arg4 harg4 f0 hall fh).1, y ∈ pc.1.set :=
  View.cover_of_tiledL (kernelRun7 c i arg3 harg3 arg4 harg4 f0 hall fh).1 S1x32x8.size (by sl_kernel_rfl) y

end Cert.KernelIdeal.Hand

end
-- ==== Proof.KernelIdealGather7.lean ====
/-
  Gather kernel 7 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun7

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 7: its region, over the contents `V` it is entered with -/

section Gather7
variable (V : (c : Dev nD) → (b : Ref sig .tc) → Buf (Elt F) ((c : Thread nD τ).loc b))

/-- The row-index table of this launch as the region finds it. The pipeline asks nothing of a table (its windows' index
    maps do not read it), so every table is admissible. -/
def adm7 : (pcfg7 (F := F)).Adm := ⟨fun | ⟨0, _⟩ => V 0 main_v57 | ⟨_ + 1, h⟩ => absurd h (Nat.not_lt.2 (Nat.le_add_left _ _)), trivial⟩

/-- Every word of the table names a row of the weight array. -/
def InRange7 : Prop := ∀ (c : Dev nD) j, ((V c main_v57) j).toNat < 8388608

abbrev pcfgG7 : Pipeline.Cfg sig Λ₀ := cfg7 (adm7 (F := F) V)

/-- The output window's current staging buffer at point `t`, as the pipeline passes it to the body. -/
abbrev ms7 (t : Fin (pcfgG7 (F := F) V).N) : Memref sig .tc .vmem S1x32x8 .f32 := spec7_0.stage ((pcfgG7 (F := F) V).slots t 0)
abbrev hs7 (t : Fin (pcfgG7 (F := F) V).N) : (ms7 V t).IsWhole := hstage7_0 (((pcfgG7 (F := F) V).slots t 0).cast nbuf7_0)
/-- The kernel's scratch block, a whole scoped buffer of its own. -/
abbrev scM7 : Memref sig .tc .vmem S32x8 .f32 := Memref.whole cc7_scratch0
/-- One staging buffer of the output window, through which its contents are stated. -/
abbrev VO7 : View sig .tc .vmem S1x32x8 .f32 := (Memref.whole cc7_stg0_0 : Memref sig .tc .vmem S1x32x8 .f32).view

/-- The kernel's own DMA semaphores, one per route. -/
abbrev osem7 : Fin 32 → SemLoc sig := fun j => (![SemLoc.dma 211, SemLoc.dma 212, SemLoc.dma 213, SemLoc.dma 214, SemLoc.dma 215, SemLoc.dma 216, SemLoc.dma 217, SemLoc.dma 218, SemLoc.dma 219, SemLoc.dma 220, SemLoc.dma 221, SemLoc.dma 222, SemLoc.dma 223, SemLoc.dma 224, SemLoc.dma 225, SemLoc.dma 226, SemLoc.dma 227, SemLoc.dma 228, SemLoc.dma 229, SemLoc.dma 230, SemLoc.dma 231, SemLoc.dma 232, SemLoc.dma 233, SemLoc.dma 234, SemLoc.dma 235, SemLoc.dma 236, SemLoc.dma 237, SemLoc.dma 238, SemLoc.dma 239, SemLoc.dma 240, SemLoc.dma 241, SemLoc.dma 242] : Fin 32 → SemLoc sig) j
theorem ownSemFacts7 : Pipeline.OwnSemFacts spec7 osem7 := by decide
theorem ownSems07_eq (c : Dev nD) :
    (Pipeline.ownSems0 (Ix := Unit) (Name := ℕ) (U := Pipeline.UD sig nD τ) (Lvl := ℕ) (Val := Elt F) (τ := τ) osem7 c : sProp 𝕄)
      = iprop(semVal ((c : Thread nD τ), SemLoc.dma 211) 0 ∗ semVal ((c : Thread nD τ), SemLoc.dma 212) 0 ∗ semVal ((c : Thread nD τ), SemLoc.dma 213) 0 ∗ semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0 ∗ semVal ((c : Thread nD τ), SemLoc.dma 230) 0 ∗ semVal ((c : Thread nD τ), SemLoc.dma 231) 0 ∗ semVal ((c : Thread nD τ), SemLoc.dma 232) 0 ∗ semVal ((c : Thread nD τ), SemLoc.dma 233) 0 ∗ semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0) := by
  rw [Pipeline.ownSems0_eq_of_list c osem7 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H7 : Finset (Ref sig .tc) := {main_arg2, main_v57}
theorem H7_sub : H7 ⊆ Pipeline.restRefs sig spec7 := by decide

/-- What the output block holds after the body at point `t`: the run's pieces read back. -/
def outsAt7 (hH : InRange7 V) (c : Dev nD) (t : Fin (pcfgG7 (F := F) V).N) : Vec F S1x32x8 .f32 :=
  (VO7).read (Elt F) ((VO7).writes (Elt F) (VO7).junk
    (kernelRun7 c (grid7.coords t) (ms7 V t) (hs7 V t) scM7 (Memref.isWhole_whole _) (V c main_v57) (hH c) (V c main_arg2)).1)

/-- The region's invariant: the scoped buffers no window stages (the scratch block among them), the generator register,
    the kernel's DMA semaphores at zero, the weight array and the table whole at their entry contents. -/
def ΦG7 (c : Dev nD) : sProp 𝕄 :=
  iprop(Pipeline.scopedRest (Ix := Unit) (Name := ℕ) (U := Pipeline.UD sig nD τ) (Lvl := ℕ) (Val := Elt F) spec7 c ∗ (∃ r, prngReg c r)
    ∗ Pipeline.ownSems0 (Ix := Unit) (Name := ℕ) (U := Pipeline.UD sig nD τ) (Lvl := ℕ) (Val := Elt F) (τ := τ) osem7 c
    ∗ (((c : Thread nD τ).loc main_arg2) ↦{fullShare} V c main_arg2)
    ∗ ptSet c tbM7 fullShare (V c main_v57))

/-- The proof data of gather pipeline 7 on core `c`. -/
def datG7 (hH : InRange7 V) (c : Dev nD) : Dat τ (Elt F) Unit ℕ (Pipeline.UD sig nD τ) ℕ (pcfgG7 (F := F) V) c where
  A w := V c (Pipeline.arrRef spec7 w)
  after w t := match w with
    | ⟨0, _⟩ => outsAt7 V hH c t
  Φ _ := ΦG7 V c
  q _ := fullShare
  owed _ := 0

theorem afterG7 (hH : InRange7 V) (c : Dev nD) (t) : (datG7 V hH c).after 0 t = outsAt7 V hH c t := by dsimp only [datG7]; rfl

end Gather7

section GatherBody7
variable (V : (c : Dev nD) → (b : Ref sig .tc) → Buf (Elt F) ((c : Thread nD τ).loc b))

open Idealize.ShloMosaic.Transfers in
/-- The weight array at the full share, as the read shares the thirty-two copies take and what is left beside them. -/
theorem hbSplit7 (c : Dev nD) :
    ((((c : Thread nD τ).loc main_arg2) ↦{fullShare} V c main_arg2) : sProp 𝕄)
      ⊣⊢ iprop((((((c : Thread nD τ).loc main_arg2) ↦{shareDrop fullShare (211 + 32)} V c main_arg2)) ∗ (tokH c 211 (V c main_arg2) ∗ tokH c 212 (V c main_arg2) ∗ tokH c 213 (V c main_arg2) ∗ tokH c 214 (V c main_arg2) ∗ tokH c 215 (V c main_arg2) ∗ tokH c 216 (V c main_arg2) ∗ tokH c 217 (V c main_arg2) ∗ tokH c 218 (V c main_arg2) ∗ tokH c 219 (V c main_arg2) ∗ tokH c 220 (V c main_arg2) ∗ tokH c 221 (V c main_arg2) ∗ tokH c 222 (V c main_arg2) ∗ tokH c 223 (V c main_arg2) ∗ tokH c 224 (V c main_arg2) ∗ tokH c 225 (V c main_arg2) ∗ tokH c 226 (V c main_arg2) ∗ tokH c 227 (V c main_arg2) ∗ tokH c 228 (V c main_arg2) ∗ tokH c 229 (V c main_arg2) ∗ tokH c 230 (V c main_arg2) ∗ tokH c 231 (V c main_arg2) ∗ tokH c 232 (V c main_arg2) ∗ tokH c 233 (V c main_arg2) ∗ tokH c 234 (V c main_arg2) ∗ tokH c 235 (V c main_arg2) ∗ tokH c 236 (V c main_arg2) ∗ tokH c 237 (V c main_arg2) ∗ tokH c 238 (V c main_arg2) ∗ tokH c 239 (V c main_arg2) ∗ tokH c 240 (V c main_arg2) ∗ tokH c 241 (V c main_arg2) ∗ tokH c 242 (V c main_arg2)))
        ∗ BI.bigSep (Finset.range 211) (fun i => ((((c : Thread nD τ).loc main_arg2) ↦{shareTokN fullShare i} V c main_arg2) : sProp 𝕄))) :=
  toks32 (F := F) 211

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG7 (hH : InRange7 V) (c : Dev nD) (t : Fin (pcfgG7 (F := F) V).N) :
    iprop((datG7 V hH c).Φ t.castSucc ∗ (datG7 V hH c).owesAt () t.castSucc
        ∗ (∃ d, owns (c : Thread nD τ) (ms7 V t) fullShare ((datG7 V hH c).before 0 t d)))
      ⊢ wp frame (wpE (defs₀ (F := F)) Variants.none c none) Set.univ
          (cc7__gather_kernel (grid7.coords t) tbM7 (Memref.isWhole_whole _) hbM (Memref.isWhole_whole _) (ms7 V t) (hs7 V t) scM7 (Memref.isWhole_whole _) cc7_scratch1)
          (fun _ => iprop((datG7 V hH c).Φ t.succ ∗ (datG7 V hH c).owesAt () t.succ
            ∗ owns (c : Thread nD τ) (ms7 V t) fullShare ((datG7 V hH c).after 0 t))) := by
  rw [show (datG7 V hH c).Φ t.succ = ΦG7 V c from rfl, show (datG7 V hH c).Φ t.castSucc = ΦG7 V c from rfl, afterG7]
  unfold ΦG7
  rw [scopedRest7_split, ownSems07_eq]
  unfold Dat.owesAt Pipeline.owesWithin
  rw [show (datG7 V hH c).owed t.castSucc = 0 from rfl, show (datG7 V hH c).owed t.succ = 0 from rfl]
  unfold outsAt7
  iintro ⟨⟨⟨HS0, HRB⟩, Hg, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, Hh, Ht⟩, ⟨%W, -, HW⟩, ⟨%d1, H1⟩⟩
  ihave Hh2 := (hbSplit7 V c).1 $$ Hh
  icases Hh2 with ⟨⟨Hdrop, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩⟩, Hlow⟩
  iapply ((kernelRun7 c (grid7.coords t) (ms7 V t) (hs7 V t) scM7 (Memref.isWhole_whole _) (V c main_v57) (hH c) (V c main_arg2)).2 W _)
  isplitl [Ht]; · iexact Ht
  isplitl [H1]; · iexists _; iexact H1
  isplitl [HS0]; · simp only [owns_whole]; iexact HS0
  isplitl [HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
  · isplitl [HT211]; · iexact HT211
    isplitl [HT212]; · iexact HT212
    isplitl [HT213]; · iexact HT213
    isplitl [HT214]; · iexact HT214
    isplitl [HT215]; · iexact HT215
    isplitl [HT216]; · iexact HT216
    isplitl [HT217]; · iexact HT217
    isplitl [HT218]; · iexact HT218
    isplitl [HT219]; · iexact HT219
    isplitl [HT220]; · iexact HT220
    isplitl [HT221]; · iexact HT221
    isplitl [HT222]; · iexact HT222
    isplitl [HT223]; · iexact HT223
    isplitl [HT224]; · iexact HT224
    isplitl [HT225]; · iexact HT225
    isplitl [HT226]; · iexact HT226
    isplitl [HT227]; · iexact HT227
    isplitl [HT228]; · iexact HT228
    isplitl [HT229]; · iexact HT229
    isplitl [HT230]; · iexact HT230
    isplitl [HT231]; · iexact HT231
    isplitl [HT232]; · iexact HT232
    isplitl [HT233]; · iexact HT233
    isplitl [HT234]; · iexact HT234
    isplitl [HT235]; · iexact HT235
    isplitl [HT236]; · iexact HT236
    isplitl [HT237]; · iexact HT237
    isplitl [HT238]; · iexact HT238
    isplitl [HT239]; · iexact HT239
    isplitl [HT240]; · iexact HT240
    isplitl [HT241]; · iexact HT241
    iexact HT242
  isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
  · isplitl [Hq211]; · iexact Hq211
    isplitl [Hq212]; · iexact Hq212
    isplitl [Hq213]; · iexact Hq213
    isplitl [Hq214]; · iexact Hq214
    isplitl [Hq215]; · iexact Hq215
    isplitl [Hq216]; · iexact Hq216
    isplitl [Hq217]; · iexact Hq217
    isplitl [Hq218]; · iexact Hq218
    isplitl [Hq219]; · iexact Hq219
    isplitl [Hq220]; · iexact Hq220
    isplitl [Hq221]; · iexact Hq221
    isplitl [Hq222]; · iexact Hq222
    isplitl [Hq223]; · iexact Hq223
    isplitl [Hq224]; · iexact Hq224
    isplitl [Hq225]; · iexact Hq225
    isplitl [Hq226]; · iexact Hq226
    isplitl [Hq227]; · iexact Hq227
    isplitl [Hq228]; · iexact Hq228
    isplitl [Hq229]; · iexact Hq229
    isplitl [Hq230]; · iexact Hq230
    isplitl [Hq231]; · iexact Hq231
    isplitl [Hq232]; · iexact Hq232
    isplitl [Hq233]; · iexact Hq233
    isplitl [Hq234]; · iexact Hq234
    isplitl [Hq235]; · iexact Hq235
    isplitl [Hq236]; · iexact Hq236
    isplitl [Hq237]; · iexact Hq237
    isplitl [Hq238]; · iexact Hq238
    isplitl [Hq239]; · iexact Hq239
    isplitl [Hq240]; · iexact Hq240
    isplitl [Hq241]; · iexact Hq241
    iexact Hq242
  isplitl [HW]; · iexact HW
  iintro ⟨Ht, ⟨%e1, H1⟩, HS0, ⟨HT211, HT212, HT213, HT214, HT215, HT216, HT217, HT218, HT219, HT220, HT221, HT222, HT223, HT224, HT225, HT226, HT227, HT228, HT229, HT230, HT231, HT232, HT233, HT234, HT235, HT236, HT237, HT238, HT239, HT240, HT241, HT242⟩, ⟨Hq211, Hq212, Hq213, Hq214, Hq215, Hq216, Hq217, Hq218, Hq219, Hq220, Hq221, Hq222, Hq223, Hq224, Hq225, Hq226, Hq227, Hq228, Hq229, Hq230, Hq231, Hq232, Hq233, Hq234, Hq235, Hq236, Hq237, Hq238, Hq239, Hq240, Hq241, Hq242⟩, ⟨%W', HW'⟩⟩
  isplitl [Ht HS0 HRB Hg Hdrop Hlow HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242 Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
  · isplitl [HS0 HRB]
    · isplitl [HS0]; · simp only [owns_whole]; iexact HS0
      iexact HRB
    isplitl [Hg]; · iexact Hg
    isplitl [Hq211 Hq212 Hq213 Hq214 Hq215 Hq216 Hq217 Hq218 Hq219 Hq220 Hq221 Hq222 Hq223 Hq224 Hq225 Hq226 Hq227 Hq228 Hq229 Hq230 Hq231 Hq232 Hq233 Hq234 Hq235 Hq236 Hq237 Hq238 Hq239 Hq240 Hq241 Hq242]
    · isplitl [Hq211]; · iexact Hq211
      isplitl [Hq212]; · iexact Hq212
      isplitl [Hq213]; · iexact Hq213
      isplitl [Hq214]; · iexact Hq214
      isplitl [Hq215]; · iexact Hq215
      isplitl [Hq216]; · iexact Hq216
      isplitl [Hq217]; · iexact Hq217
      isplitl [Hq218]; · iexact Hq218
      isplitl [Hq219]; · iexact Hq219
      isplitl [Hq220]; · iexact Hq220
      isplitl [Hq221]; · iexact Hq221
      isplitl [Hq222]; · iexact Hq222
      isplitl [Hq223]; · iexact Hq223
      isplitl [Hq224]; · iexact Hq224
      isplitl [Hq225]; · iexact Hq225
      isplitl [Hq226]; · iexact Hq226
      isplitl [Hq227]; · iexact Hq227
      isplitl [Hq228]; · iexact Hq228
      isplitl [Hq229]; · iexact Hq229
      isplitl [Hq230]; · iexact Hq230
      isplitl [Hq231]; · iexact Hq231
      isplitl [Hq232]; · iexact Hq232
      isplitl [Hq233]; · iexact Hq233
      isplitl [Hq234]; · iexact Hq234
      isplitl [Hq235]; · iexact Hq235
      isplitl [Hq236]; · iexact Hq236
      isplitl [Hq237]; · iexact Hq237
      isplitl [Hq238]; · iexact Hq238
      isplitl [Hq239]; · iexact Hq239
      isplitl [Hq240]; · iexact Hq240
      isplitl [Hq241]; · iexact Hq241
      iexact Hq242
    isplitl [Hdrop Hlow HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
    · iapply (hbSplit7 V c).2
      isplitl [Hdrop HT211 HT212 HT213 HT214 HT215 HT216 HT217 HT218 HT219 HT220 HT221 HT222 HT223 HT224 HT225 HT226 HT227 HT228 HT229 HT230 HT231 HT232 HT233 HT234 HT235 HT236 HT237 HT238 HT239 HT240 HT241 HT242]
      · isplitl [Hdrop]; · iexact Hdrop
        isplitl [HT211]; · iexact HT211
        isplitl [HT212]; · iexact HT212
        isplitl [HT213]; · iexact HT213
        isplitl [HT214]; · iexact HT214
        isplitl [HT215]; · iexact HT215
        isplitl [HT216]; · iexact HT216
        isplitl [HT217]; · iexact HT217
        isplitl [HT218]; · iexact HT218
        isplitl [HT219]; · iexact HT219
        isplitl [HT220]; · iexact HT220
        isplitl [HT221]; · iexact HT221
        isplitl [HT222]; · iexact HT222
        isplitl [HT223]; · iexact HT223
        isplitl [HT224]; · iexact HT224
        isplitl [HT225]; · iexact HT225
        isplitl [HT226]; · iexact HT226
        isplitl [HT227]; · iexact HT227
        isplitl [HT228]; · iexact HT228
        isplitl [HT229]; · iexact HT229
        isplitl [HT230]; · iexact HT230
        isplitl [HT231]; · iexact HT231
        isplitl [HT232]; · iexact HT232
        isplitl [HT233]; · iexact HT233
        isplitl [HT234]; · iexact HT234
        isplitl [HT235]; · iexact HT235
        isplitl [HT236]; · iexact HT236
        isplitl [HT237]; · iexact HT237
        isplitl [HT238]; · iexact HT238
        isplitl [HT239]; · iexact HT239
        isplitl [HT240]; · iexact HT240
        isplitl [HT241]; · iexact HT241
        iexact HT242
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun7 c _ _ _ _ _ _ _ _)

/-- The body obligation of gather pipeline 7, at every point. -/
theorem body_obligationG7 (hH : InRange7 V) (c : Dev nD) :
    BodyObligation (datG7 (F := F) V hH c) (defs₀ (F := F)) Variants.none () Set.univ := fun t => by
  rw [bigSep_W7, bigSep_W7]
  exact sound_bodyG7 V hH c t

end GatherBody7

section GatherLaunch7
variable (V : (c : Dev nD) → (b : Ref sig .tc) → Buf (Elt F) ((c : Thread nD τ).loc b))

/-- The table held through its own elements is the table's buffer held whole. -/
theorem tbPt7_eq (c : Dev nD) (f : HbBuf (F := F) c tbM7) :
    (ptSet c tbM7 fullShare f : sProp 𝕄) = (((c : Thread nD τ).loc main_v57) ↦{fullShare} f) := by
  show ((Memref.whole main_v57 : Memref sig .tc .smem S32x1023 .i32).view.loc (c : Thread nD τ) ↦[(Memref.whole main_v57 : Memref sig .tc .smem S32x1023 .i32).view.set]{fullShare} f) = _
  simp only [View.set_whole, Memref.view_whole]

/-- The launch's prefetched tables at the admitted contents: the one table's buffer held whole. -/
theorem prefHeld7_eq (c : Dev nD) :
    (Pipeline.prefHeld (Ix := Unit) (Name := ℕ) (U := Pipeline.UD sig nD τ) (Lvl := ℕ) pre7 c (fun _ => fullShare) (adm7 (F := F) V).1 : sProp 𝕄)
      = (((c : Thread nD τ).loc main_v57) ↦{fullShare} V c main_v57) := by
  obtain rfl : c = 0 := Subsingleton.elim _ _
  unfold Pipeline.prefHeld adm7
  rw [bigSep_W7]; rfl

/-- The two unscoped buffers the body reads by itself, their points-tos listed. -/
theorem hbmPts7_eq (c : Dev nD) :
    (BI.bigSep H7 (fun b => ((c : Thread nD τ).loc b) ↦{fullShare} V c b) : sProp 𝕄)
      = iprop((((c : Thread nD τ).loc main_arg2) ↦{fullShare} V c main_arg2) ∗ (((c : Thread nD τ).loc main_v57) ↦{fullShare} V c main_v57)) := by
  rw [BI.bigSep_eq_bigSepL_of_eq [main_arg2, main_v57] (by decide) (by decide)]; rfl

end GatherLaunch7

end Cert.KernelIdeal.Hand

end
-- ==== Proof.KernelIdealRun8.lean ====
/-
  The body of gather kernel 8 run on whole buffers: under the hypothesis that every word of the row-index table is
  below 8388608 (so names a row of the weight array), the body reads its thirty-two table words, starts the
  thirty-two one-row copies — all in flight together, each reading the weight array through a read share of its own
  and landing in its own row of the scratch block —, waits for each, loads the scratch block and stores it into the
  output block. The pieces the output block ends with are the witness the run finds. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRows

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM8 : Memref sig .tc .smem S32x1023 .i32 := Memref.whole main_v60

set_option maxHeartbeats 40000000 in
/-- What the body of gather kernel 8 leaves in its output block, as the pieces its one store writes, WITH the proof
    that it runs: every row index it reads from the table is a row of the weight array (`hall`), so each of the
    thirty-two copies it starts reads a row that exists; the copies are all in flight together, each reading the weight array through
    a read share of its own and landing in its own row of the scratch block (held row by row while they fly, joined again
    afterwards); each is waited for; then the scratch block is stored whole into the output block. -/
noncomputable def kernelRun8 (c : Dev nD) (i : grid8.Coords) (arg3 : Memref sig .tc .vmem S1x32x8 .f32) (harg3 : arg3.IsWhole)
    (arg4 : Memref sig .tc .vmem S32x8 .f32) (harg4 : arg4.IsWhole)
    (f0 : HbBuf (F := F) c tbM8) (hall : ∀ j, (f0 j).toNat < 8388608) (fh : HbBuf (F := F) c hbM) :
    { L3 : List (View.Piece (Elt F) S1x32x8 .f32) //
      ∀ (W : Waits sig Unit) (K : PUnit → sProp 𝕄),
        iprop(ptSet c tbM8 fullShare f0 ∗ (∃ d, owns (c : Thread nD τ) arg3 fullShare d) ∗ (∃ d, owns (c : Thread nD τ) arg4 fullShare d)
            ∗ (tokH c 245 fh ∗ tokH c 246 fh ∗ tokH c 247 fh ∗ tokH c 248 fh ∗ tokH c 249 fh ∗ tokH c 250 fh ∗ tokH c 251 fh ∗ tokH c 252 fh ∗ tokH c 253 fh ∗ tokH c 254 fh ∗ tokH c 255 fh ∗ tokH c 256 fh ∗ tokH c 257 fh ∗ tokH c 258 fh ∗ tokH c 259 fh ∗ tokH c 260 fh ∗ tokH c 261 fh ∗ tokH c 262 fh ∗ tokH c 263 fh ∗ tokH c 264 fh ∗ tokH c 265 fh ∗ tokH c 266 fh ∗ tokH c 267 fh ∗ tokH c 268 fh ∗ tokH c 269 fh ∗ tokH c 270 fh ∗ tokH c 271 fh ∗ tokH c 272 fh ∗ tokH c 273 fh ∗ tokH c 274 fh ∗ tokH c 275 fh ∗ tokH c 276 fh)
            ∗ (semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0)
            ∗ owes (c : Thread nD τ) 0 W
            ∗ (iprop(ptSet c tbM8 fullShare f0 ∗ (∃ f, arg3.view.loc (c : Thread nD τ) ↦[arg3.view.set]{fullShare} arg3.view.writes (Elt F) f L3) ∗ (∃ d, owns (c : Thread nD τ) arg4 fullShare d)
                ∗ (tokH c 245 fh ∗ tokH c 246 fh ∗ tokH c 247 fh ∗ tokH c 248 fh ∗ tokH c 249 fh ∗ tokH c 250 fh ∗ tokH c 251 fh ∗ tokH c 252 fh ∗ tokH c 253 fh ∗ tokH c 254 fh ∗ tokH c 255 fh ∗ tokH c 256 fh ∗ tokH c 257 fh ∗ tokH c 258 fh ∗ tokH c 259 fh ∗ tokH c 260 fh ∗ tokH c 261 fh ∗ tokH c 262 fh ∗ tokH c 263 fh ∗ tokH c 264 fh ∗ tokH c 265 fh ∗ tokH c 266 fh ∗ tokH c 267 fh ∗ tokH c 268 fh ∗ tokH c 269 fh ∗ tokH c 270 fh ∗ tokH c 271 fh ∗ tokH c 272 fh ∗ tokH c 273 fh ∗ tokH c 274 fh ∗ tokH c 275 fh ∗ tokH c 276 fh)
                ∗ (semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0)
                ∗ (∃ W', owes (c : Thread nD τ) 0 W')) -∗ K ⟨⟩))
          ⊢ wp frame (wpE (defs₀ (F := F)) Variants.none c none) Set.univ (cc8__gather_kernel i tbM8 (Memref.isWhole_whole _) hbM (Memref.isWhole_whole _) arg3 harg3 arg4 harg4 cc8_scratch1) K } := by
  refine ⟨?_, fun W K => ?run⟩
  case run =>
    simp only [cc8__gather_kernel_eq_skeleton]; unfold cc8__gather_kernel_skel
    unfold owns
    iintro ⟨H0, ⟨%d1, %f1, -, H1⟩, ⟨%ds0, %fs0, -, HS0⟩, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, HW, Hk⟩
    ihave HS := (rows_split32 c arg4 harg4 fs0) $$ HS0
    icases HS with ⟨HR0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31⟩
    sl_exec (disch := first | exact ⟨row_inb _ (hall _), row_inb _ (hall _)⟩ | exact row_inb _ (hall _))
    ihave HR0 := (Entails.of_eq (rowPt_base_junk c arg4 0 (by decide) fs0 _)) $$ HR0
    ihave HR1 := (Entails.of_eq (rowPt_base_junk c arg4 1 (by decide) fs0 _)) $$ HR1
    ihave HR2 := (Entails.of_eq (rowPt_base_junk c arg4 2 (by decide) fs0 _)) $$ HR2
    ihave HR3 := (Entails.of_eq (rowPt_base_junk c arg4 3 (by decide) fs0 _)) $$ HR3
    ihave HR4 := (Entails.of_eq (rowPt_base_junk c arg4 4 (by decide) fs0 _)) $$ HR4
    ihave HR5 := (Entails.of_eq (rowPt_base_junk c arg4 5 (by decide) fs0 _)) $$ HR5
    ihave HR6 := (Entails.of_eq (rowPt_base_junk c arg4 6 (by decide) fs0 _)) $$ HR6
    ihave HR7 := (Entails.of_eq (rowPt_base_junk c arg4 7 (by decide) fs0 _)) $$ HR7
    ihave HR8 := (Entails.of_eq (rowPt_base_junk c arg4 8 (by decide) fs0 _)) $$ HR8
    ihave HR9 := (Entails.of_eq (rowPt_base_junk c arg4 9 (by decide) fs0 _)) $$ HR9
    ihave HR10 := (Entails.of_eq (rowPt_base_junk c arg4 10 (by decide) fs0 _)) $$ HR10
    ihave HR11 := (Entails.of_eq (rowPt_base_junk c arg4 11 (by decide) fs0 _)) $$ HR11
    ihave HR12 := (Entails.of_eq (rowPt_base_junk c arg4 12 (by decide) fs0 _)) $$ HR12
    ihave HR13 := (Entails.of_eq (rowPt_base_junk c arg4 13 (by decide) fs0 _)) $$ HR13
    ihave HR14 := (Entails.of_eq (rowPt_base_junk c arg4 14 (by decide) fs0 _)) $$ HR14
    ihave HR15 := (Entails.of_eq (rowPt_base_junk c arg4 15 (by decide) fs0 _)) $$ HR15
    ihave HR16 := (Entails.of_eq (rowPt_base_junk c arg4 16 (by decide) fs0 _)) $$ HR16
    ihave HR17 := (Entails.of_eq (rowPt_base_junk c arg4 17 (by decide) fs0 _)) $$ HR17
    ihave HR18 := (Entails.of_eq (rowPt_base_junk c arg4 18 (by decide) fs0 _)) $$ HR18
    ihave HR19 := (Entails.of_eq (rowPt_base_junk c arg4 19 (by decide) fs0 _)) $$ HR19
    ihave HR20 := (Entails.of_eq (rowPt_base_junk c arg4 20 (by decide) fs0 _)) $$ HR20
    ihave HR21 := (Entails.of_eq (rowPt_base_junk c arg4 21 (by decide) fs0 _)) $$ HR21
    ihave HR22 := (Entails.of_eq (rowPt_base_junk c arg4 22 (by decide) fs0 _)) $$ HR22
    ihave HR23 := (Entails.of_eq (rowPt_base_junk c arg4 23 (by decide) fs0 _)) $$ HR23
    ihave HR24 := (Entails.of_eq (rowPt_base_junk c arg4 24 (by decide) fs0 _)) $$ HR24
    ihave HR25 := (Entails.of_eq (rowPt_base_junk c arg4 25 (by decide) fs0 _)) $$ HR25
    ihave HR26 := (Entails.of_eq (rowPt_base_junk c arg4 26 (by decide) fs0 _)) $$ HR26
    ihave HR27 := (Entails.of_eq (rowPt_base_junk c arg4 27 (by decide) fs0 _)) $$ HR27
    ihave HR28 := (Entails.of_eq (rowPt_base_junk c arg4 28 (by decide) fs0 _)) $$ HR28
    ihave HR29 := (Entails.of_eq (rowPt_base_junk c arg4 29 (by decide) fs0 _)) $$ HR29
    ihave HR30 := (Entails.of_eq (rowPt_base_junk c arg4 30 (by decide) fs0 _)) $$ HR30
    ihave HR31 := (Entails.of_eq (rowPt_base_junk c arg4 31 (by decide) fs0 _)) $$ HR31
    ihave HS0 := (rows_join32 c arg4 harg4 _ _ _ _ _ _ _ _ _ _ _ _ _ _ _ _ _ _ _ _ _ _ _ _ _ _ _ _ _ _ _ _) $$ [HR0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HR23]; · iexact HR23
      isplitl [HR24]; · iexact HR24
      isplitl [HR25]; · iexact HR25
      isplitl [HR26]; · iexact HR26
      isplitl [HR27]; · iexact HR27
      isplitl [HR28]; · iexact HR28
      isplitl [HR29]; · iexact HR29
      isplitl [HR30]; · iexact HR30
      iexact HR31
    sl_exec (disch := first | exact ⟨row_inb _ (hall _), row_inb _ (hall _)⟩ | exact row_inb _ (hall _))
    sl_step
    iapply Hk
    isplitl [H0]; · iexact H0
    isplitl [H1]; · iexists _; iexact H1
    isplitl [HS0]
    · iexists _, _; isplitr; swap; · iexact HS0
      ipureintro; rfl
    isplitl [HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
    · isplitl [HT245]; · iexact HT245
      isplitl [HT246]; · iexact HT246
      isplitl [HT247]; · iexact HT247
      isplitl [HT248]; · iexact HT248
      isplitl [HT249]; · iexact HT249
      isplitl [HT250]; · iexact HT250
      isplitl [HT251]; · iexact HT251
      isplitl [HT252]; · iexact HT252
      isplitl [HT253]; · iexact HT253
      isplitl [HT254]; · iexact HT254
      isplitl [HT255]; · iexact HT255
      isplitl [HT256]; · iexact HT256
      isplitl [HT257]; · iexact HT257
      isplitl [HT258]; · iexact HT258
      isplitl [HT259]; · iexact HT259
      isplitl [HT260]; · iexact HT260
      isplitl [HT261]; · iexact HT261
      isplitl [HT262]; · iexact HT262
      isplitl [HT263]; · iexact HT263
      isplitl [HT264]; · iexact HT264
      isplitl [HT265]; · iexact HT265
      isplitl [HT266]; · iexact HT266
      isplitl [HT267]; · iexact HT267
      isplitl [HT268]; · iexact HT268
      isplitl [HT269]; · iexact HT269
      isplitl [HT270]; · iexact HT270
      isplitl [HT271]; · iexact HT271
      isplitl [HT272]; · iexact HT272
      isplitl [HT273]; · iexact HT273
      isplitl [HT274]; · iexact HT274
      isplitl [HT275]; · iexact HT275
      iexact HT276
    isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
    · isplitl [Hq245]; · iexact Hq245
      isplitl [Hq246]; · iexact Hq246
      isplitl [Hq247]; · iexact Hq247
      isplitl [Hq248]; · iexact Hq248
      isplitl [Hq249]; · iexact Hq249
      isplitl [Hq250]; · iexact Hq250
      isplitl [Hq251]; · iexact Hq251
      isplitl [Hq252]; · iexact Hq252
      isplitl [Hq253]; · iexact Hq253
      isplitl [Hq254]; · iexact Hq254
      isplitl [Hq255]; · iexact Hq255
      isplitl [Hq256]; · iexact Hq256
      isplitl [Hq257]; · iexact Hq257
      isplitl [Hq258]; · iexact Hq258
      isplitl [Hq259]; · iexact Hq259
      isplitl [Hq260]; · iexact Hq260
      isplitl [Hq261]; · iexact Hq261
      isplitl [Hq262]; · iexact Hq262
      isplitl [Hq263]; · iexact Hq263
      isplitl [Hq264]; · iexact Hq264
      isplitl [Hq265]; · iexact Hq265
      isplitl [Hq266]; · iexact Hq266
      isplitl [Hq267]; · iexact Hq267
      isplitl [Hq268]; · iexact Hq268
      isplitl [Hq269]; · iexact Hq269
      isplitl [Hq270]; · iexact Hq270
      isplitl [Hq271]; · iexact Hq271
      isplitl [Hq272]; · iexact Hq272
      isplitl [Hq273]; · iexact Hq273
      isplitl [Hq274]; · iexact Hq274
      isplitl [Hq275]; · iexact Hq275
      iexact Hq276
    iexists _; iexact HW

/-- The run's pieces for the output block tile it (its one store writes the whole block), so they cover it. -/
theorem coverRun8 (c : Dev nD) (i : grid8.Coords) (arg3 : Memref sig .tc .vmem S1x32x8 .f32) (harg3 : arg3.IsWhole)
    (arg4 : Memref sig .tc .vmem S32x8 .f32) (harg4 : arg4.IsWhole)
    (f0 : HbBuf (F := F) c tbM8) (hall : ∀ j, (f0 j).toNat < 8388608) (fh : HbBuf (F := F) c hbM) (y : S1x32x8.Idx) :
    ∃ pc ∈ (kernelRun8 c i arg3 harg3 arg4 harg4 f0 hall fh).1, y ∈ pc.1.set :=
  View.cover_of_tiledL (kernelRun8 c i arg3 harg3 arg4 harg4 f0 hall fh).1 S1x32x8.size (by sl_kernel_rfl) y

end Cert.KernelIdeal.Hand

end
-- ==== Proof.KernelIdealGather8.lean ====
/-
  Gather kernel 8 (one of eight launches of one body, each with its own table of row indices): at a grid point
  `t` the body reads the thirty-two row indices `table[r, t]`, starts thirty-two copies of one row each of the weight
  array (left in HBM) into the thirty-two rows of a scratch block, waits for them all, and stores the scratch block
  into the output block. Stated here: the body's triple under the hypothesis that every table word names a row of
  the weight array, the region's invariant and proof data over the contents `V` the region is entered with, and the
  body obligation at every point. Everything is stated at any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.KernelIdealCommon
import proofs.«145402_j1717986918579_1_alg».proof.Proof.KernelIdealRun8

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! # Gather kernel 8: its region, over the contents `V` it is entered with -/

section Gather8
variable (V : (c : Dev nD) → (b : Ref sig .tc) → Buf (Elt F) ((c : Thread nD τ).loc b))

/-- The row-index table of this launch as the region finds it. The pipeline asks nothing of a table (its windows' index
    maps do not read it), so every table is admissible. -/
def adm8 : (pcfg8 (F := F)).Adm := ⟨fun | ⟨0, _⟩ => V 0 main_v60 | ⟨_ + 1, h⟩ => absurd h (Nat.not_lt.2 (Nat.le_add_left _ _)), trivial⟩

/-- Every word of the table names a row of the weight array. -/
def InRange8 : Prop := ∀ (c : Dev nD) j, ((V c main_v60) j).toNat < 8388608

abbrev pcfgG8 : Pipeline.Cfg sig Λ₀ := cfg8 (adm8 (F := F) V)

/-- The output window's current staging buffer at point `t`, as the pipeline passes it to the body. -/
abbrev ms8 (t : Fin (pcfgG8 (F := F) V).N) : Memref sig .tc .vmem S1x32x8 .f32 := spec8_0.stage ((pcfgG8 (F := F) V).slots t 0)
abbrev hs8 (t : Fin (pcfgG8 (F := F) V).N) : (ms8 V t).IsWhole := hstage8_0 (((pcfgG8 (F := F) V).slots t 0).cast nbuf8_0)
/-- The kernel's scratch block, a whole scoped buffer of its own. -/
abbrev scM8 : Memref sig .tc .vmem S32x8 .f32 := Memref.whole cc8_scratch0
/-- One staging buffer of the output window, through which its contents are stated. -/
abbrev VO8 : View sig .tc .vmem S1x32x8 .f32 := (Memref.whole cc8_stg0_0 : Memref sig .tc .vmem S1x32x8 .f32).view

/-- The kernel's own DMA semaphores, one per route. -/
abbrev osem8 : Fin 32 → SemLoc sig := fun j => (![SemLoc.dma 245, SemLoc.dma 246, SemLoc.dma 247, SemLoc.dma 248, SemLoc.dma 249, SemLoc.dma 250, SemLoc.dma 251, SemLoc.dma 252, SemLoc.dma 253, SemLoc.dma 254, SemLoc.dma 255, SemLoc.dma 256, SemLoc.dma 257, SemLoc.dma 258, SemLoc.dma 259, SemLoc.dma 260, SemLoc.dma 261, SemLoc.dma 262, SemLoc.dma 263, SemLoc.dma 264, SemLoc.dma 265, SemLoc.dma 266, SemLoc.dma 267, SemLoc.dma 268, SemLoc.dma 269, SemLoc.dma 270, SemLoc.dma 271, SemLoc.dma 272, SemLoc.dma 273, SemLoc.dma 274, SemLoc.dma 275, SemLoc.dma 276] : Fin 32 → SemLoc sig) j
theorem ownSemFacts8 : Pipeline.OwnSemFacts spec8 osem8 := by decide
theorem ownSems08_eq (c : Dev nD) :
    (Pipeline.ownSems0 (Ix := Unit) (Name := ℕ) (U := Pipeline.UD sig nD τ) (Lvl := ℕ) (Val := Elt F) (τ := τ) osem8 c : sProp 𝕄)
      = iprop(semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0 ∗ semVal ((c : Thread nD τ), SemLoc.dma 250) 0 ∗ semVal ((c : Thread nD τ), SemLoc.dma 251) 0 ∗ semVal ((c : Thread nD τ), SemLoc.dma 252) 0 ∗ semVal ((c : Thread nD τ), SemLoc.dma 253) 0 ∗ semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0 ∗ semVal ((c : Thread nD τ), SemLoc.dma 270) 0 ∗ semVal ((c : Thread nD τ), SemLoc.dma 271) 0 ∗ semVal ((c : Thread nD τ), SemLoc.dma 272) 0 ∗ semVal ((c : Thread nD τ), SemLoc.dma 273) 0 ∗ semVal ((c : Thread nD τ), SemLoc.dma 274) 0 ∗ semVal ((c : Thread nD τ), SemLoc.dma 275) 0 ∗ semVal ((c : Thread nD τ), SemLoc.dma 276) 0) := by
  rw [Pipeline.ownSems0_eq_of_list c osem8 [0, 1, 2, 3, 4, 5, 6, 7, 8, 9, 10, 11, 12, 13, 14, 15, 16, 17, 18, 19, 20, 21, 22, 23, 24, 25, 26, 27, 28, 29, 30, 31] (by decide) (by decide)]; rfl

/-- The unscoped buffers the body reads by itself: the weight array (the source of its copies) and the table. -/
def H8 : Finset (Ref sig .tc) := {main_arg2, main_v60}
theorem H8_sub : H8 ⊆ Pipeline.restRefs sig spec8 := by decide

/-- What the output block holds after the body at point `t`: the run's pieces read back. -/
def outsAt8 (hH : InRange8 V) (c : Dev nD) (t : Fin (pcfgG8 (F := F) V).N) : Vec F S1x32x8 .f32 :=
  (VO8).read (Elt F) ((VO8).writes (Elt F) (VO8).junk
    (kernelRun8 c (grid8.coords t) (ms8 V t) (hs8 V t) scM8 (Memref.isWhole_whole _) (V c main_v60) (hH c) (V c main_arg2)).1)

/-- The region's invariant: the scoped buffers no window stages (the scratch block among them), the generator register,
    the kernel's DMA semaphores at zero, the weight array and the table whole at their entry contents. -/
def ΦG8 (c : Dev nD) : sProp 𝕄 :=
  iprop(Pipeline.scopedRest (Ix := Unit) (Name := ℕ) (U := Pipeline.UD sig nD τ) (Lvl := ℕ) (Val := Elt F) spec8 c ∗ (∃ r, prngReg c r)
    ∗ Pipeline.ownSems0 (Ix := Unit) (Name := ℕ) (U := Pipeline.UD sig nD τ) (Lvl := ℕ) (Val := Elt F) (τ := τ) osem8 c
    ∗ (((c : Thread nD τ).loc main_arg2) ↦{fullShare} V c main_arg2)
    ∗ ptSet c tbM8 fullShare (V c main_v60))

/-- The proof data of gather pipeline 8 on core `c`. -/
def datG8 (hH : InRange8 V) (c : Dev nD) : Dat τ (Elt F) Unit ℕ (Pipeline.UD sig nD τ) ℕ (pcfgG8 (F := F) V) c where
  A w := V c (Pipeline.arrRef spec8 w)
  after w t := match w with
    | ⟨0, _⟩ => outsAt8 V hH c t
  Φ _ := ΦG8 V c
  q _ := fullShare
  owed _ := 0

theorem afterG8 (hH : InRange8 V) (c : Dev nD) (t) : (datG8 V hH c).after 0 t = outsAt8 V hH c t := by dsimp only [datG8]; rfl

end Gather8

section GatherBody8
variable (V : (c : Dev nD) → (b : Ref sig .tc) → Buf (Elt F) ((c : Thread nD τ).loc b))

open Idealize.ShloMosaic.Transfers in
/-- The weight array at the full share, as the read shares the thirty-two copies take and what is left beside them. -/
theorem hbSplit8 (c : Dev nD) :
    ((((c : Thread nD τ).loc main_arg2) ↦{fullShare} V c main_arg2) : sProp 𝕄)
      ⊣⊢ iprop((((((c : Thread nD τ).loc main_arg2) ↦{shareDrop fullShare (245 + 32)} V c main_arg2)) ∗ (tokH c 245 (V c main_arg2) ∗ tokH c 246 (V c main_arg2) ∗ tokH c 247 (V c main_arg2) ∗ tokH c 248 (V c main_arg2) ∗ tokH c 249 (V c main_arg2) ∗ tokH c 250 (V c main_arg2) ∗ tokH c 251 (V c main_arg2) ∗ tokH c 252 (V c main_arg2) ∗ tokH c 253 (V c main_arg2) ∗ tokH c 254 (V c main_arg2) ∗ tokH c 255 (V c main_arg2) ∗ tokH c 256 (V c main_arg2) ∗ tokH c 257 (V c main_arg2) ∗ tokH c 258 (V c main_arg2) ∗ tokH c 259 (V c main_arg2) ∗ tokH c 260 (V c main_arg2) ∗ tokH c 261 (V c main_arg2) ∗ tokH c 262 (V c main_arg2) ∗ tokH c 263 (V c main_arg2) ∗ tokH c 264 (V c main_arg2) ∗ tokH c 265 (V c main_arg2) ∗ tokH c 266 (V c main_arg2) ∗ tokH c 267 (V c main_arg2) ∗ tokH c 268 (V c main_arg2) ∗ tokH c 269 (V c main_arg2) ∗ tokH c 270 (V c main_arg2) ∗ tokH c 271 (V c main_arg2) ∗ tokH c 272 (V c main_arg2) ∗ tokH c 273 (V c main_arg2) ∗ tokH c 274 (V c main_arg2) ∗ tokH c 275 (V c main_arg2) ∗ tokH c 276 (V c main_arg2)))
        ∗ BI.bigSep (Finset.range 245) (fun i => ((((c : Thread nD τ).loc main_arg2) ↦{shareTokN fullShare i} V c main_arg2) : sProp 𝕄))) :=
  toks32 (F := F) 245

set_option maxHeartbeats 4000000 in
/-- The body at any point of the grid: the invariant hands it the scratch block, its semaphores at zero, the weight array
    (split into the copies' read shares and joined back afterwards) and the table; the run applies because every table word
    names a row; the output block ends at the run's pieces read back. -/
theorem sound_bodyG8 (hH : InRange8 V) (c : Dev nD) (t : Fin (pcfgG8 (F := F) V).N) :
    iprop((datG8 V hH c).Φ t.castSucc ∗ (datG8 V hH c).owesAt () t.castSucc
        ∗ (∃ d, owns (c : Thread nD τ) (ms8 V t) fullShare ((datG8 V hH c).before 0 t d)))
      ⊢ wp frame (wpE (defs₀ (F := F)) Variants.none c none) Set.univ
          (cc8__gather_kernel (grid8.coords t) tbM8 (Memref.isWhole_whole _) hbM (Memref.isWhole_whole _) (ms8 V t) (hs8 V t) scM8 (Memref.isWhole_whole _) cc8_scratch1)
          (fun _ => iprop((datG8 V hH c).Φ t.succ ∗ (datG8 V hH c).owesAt () t.succ
            ∗ owns (c : Thread nD τ) (ms8 V t) fullShare ((datG8 V hH c).after 0 t))) := by
  rw [show (datG8 V hH c).Φ t.succ = ΦG8 V c from rfl, show (datG8 V hH c).Φ t.castSucc = ΦG8 V c from rfl, afterG8]
  unfold ΦG8
  rw [scopedRest8_split, ownSems08_eq]
  unfold Dat.owesAt Pipeline.owesWithin
  rw [show (datG8 V hH c).owed t.castSucc = 0 from rfl, show (datG8 V hH c).owed t.succ = 0 from rfl]
  unfold outsAt8
  iintro ⟨⟨⟨HS0, HRB⟩, Hg, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, Hh, Ht⟩, ⟨%W, -, HW⟩, ⟨%d1, H1⟩⟩
  ihave Hh2 := (hbSplit8 V c).1 $$ Hh
  icases Hh2 with ⟨⟨Hdrop, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩⟩, Hlow⟩
  iapply ((kernelRun8 c (grid8.coords t) (ms8 V t) (hs8 V t) scM8 (Memref.isWhole_whole _) (V c main_v60) (hH c) (V c main_arg2)).2 W _)
  isplitl [Ht]; · iexact Ht
  isplitl [H1]; · iexists _; iexact H1
  isplitl [HS0]; · simp only [owns_whole]; iexact HS0
  isplitl [HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
  · isplitl [HT245]; · iexact HT245
    isplitl [HT246]; · iexact HT246
    isplitl [HT247]; · iexact HT247
    isplitl [HT248]; · iexact HT248
    isplitl [HT249]; · iexact HT249
    isplitl [HT250]; · iexact HT250
    isplitl [HT251]; · iexact HT251
    isplitl [HT252]; · iexact HT252
    isplitl [HT253]; · iexact HT253
    isplitl [HT254]; · iexact HT254
    isplitl [HT255]; · iexact HT255
    isplitl [HT256]; · iexact HT256
    isplitl [HT257]; · iexact HT257
    isplitl [HT258]; · iexact HT258
    isplitl [HT259]; · iexact HT259
    isplitl [HT260]; · iexact HT260
    isplitl [HT261]; · iexact HT261
    isplitl [HT262]; · iexact HT262
    isplitl [HT263]; · iexact HT263
    isplitl [HT264]; · iexact HT264
    isplitl [HT265]; · iexact HT265
    isplitl [HT266]; · iexact HT266
    isplitl [HT267]; · iexact HT267
    isplitl [HT268]; · iexact HT268
    isplitl [HT269]; · iexact HT269
    isplitl [HT270]; · iexact HT270
    isplitl [HT271]; · iexact HT271
    isplitl [HT272]; · iexact HT272
    isplitl [HT273]; · iexact HT273
    isplitl [HT274]; · iexact HT274
    isplitl [HT275]; · iexact HT275
    iexact HT276
  isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
  · isplitl [Hq245]; · iexact Hq245
    isplitl [Hq246]; · iexact Hq246
    isplitl [Hq247]; · iexact Hq247
    isplitl [Hq248]; · iexact Hq248
    isplitl [Hq249]; · iexact Hq249
    isplitl [Hq250]; · iexact Hq250
    isplitl [Hq251]; · iexact Hq251
    isplitl [Hq252]; · iexact Hq252
    isplitl [Hq253]; · iexact Hq253
    isplitl [Hq254]; · iexact Hq254
    isplitl [Hq255]; · iexact Hq255
    isplitl [Hq256]; · iexact Hq256
    isplitl [Hq257]; · iexact Hq257
    isplitl [Hq258]; · iexact Hq258
    isplitl [Hq259]; · iexact Hq259
    isplitl [Hq260]; · iexact Hq260
    isplitl [Hq261]; · iexact Hq261
    isplitl [Hq262]; · iexact Hq262
    isplitl [Hq263]; · iexact Hq263
    isplitl [Hq264]; · iexact Hq264
    isplitl [Hq265]; · iexact Hq265
    isplitl [Hq266]; · iexact Hq266
    isplitl [Hq267]; · iexact Hq267
    isplitl [Hq268]; · iexact Hq268
    isplitl [Hq269]; · iexact Hq269
    isplitl [Hq270]; · iexact Hq270
    isplitl [Hq271]; · iexact Hq271
    isplitl [Hq272]; · iexact Hq272
    isplitl [Hq273]; · iexact Hq273
    isplitl [Hq274]; · iexact Hq274
    isplitl [Hq275]; · iexact Hq275
    iexact Hq276
  isplitl [HW]; · iexact HW
  iintro ⟨Ht, ⟨%e1, H1⟩, HS0, ⟨HT245, HT246, HT247, HT248, HT249, HT250, HT251, HT252, HT253, HT254, HT255, HT256, HT257, HT258, HT259, HT260, HT261, HT262, HT263, HT264, HT265, HT266, HT267, HT268, HT269, HT270, HT271, HT272, HT273, HT274, HT275, HT276⟩, ⟨Hq245, Hq246, Hq247, Hq248, Hq249, Hq250, Hq251, Hq252, Hq253, Hq254, Hq255, Hq256, Hq257, Hq258, Hq259, Hq260, Hq261, Hq262, Hq263, Hq264, Hq265, Hq266, Hq267, Hq268, Hq269, Hq270, Hq271, Hq272, Hq273, Hq274, Hq275, Hq276⟩, ⟨%W', HW'⟩⟩
  isplitl [Ht HS0 HRB Hg Hdrop Hlow HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276 Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
  · isplitl [HS0 HRB]
    · isplitl [HS0]; · simp only [owns_whole]; iexact HS0
      iexact HRB
    isplitl [Hg]; · iexact Hg
    isplitl [Hq245 Hq246 Hq247 Hq248 Hq249 Hq250 Hq251 Hq252 Hq253 Hq254 Hq255 Hq256 Hq257 Hq258 Hq259 Hq260 Hq261 Hq262 Hq263 Hq264 Hq265 Hq266 Hq267 Hq268 Hq269 Hq270 Hq271 Hq272 Hq273 Hq274 Hq275 Hq276]
    · isplitl [Hq245]; · iexact Hq245
      isplitl [Hq246]; · iexact Hq246
      isplitl [Hq247]; · iexact Hq247
      isplitl [Hq248]; · iexact Hq248
      isplitl [Hq249]; · iexact Hq249
      isplitl [Hq250]; · iexact Hq250
      isplitl [Hq251]; · iexact Hq251
      isplitl [Hq252]; · iexact Hq252
      isplitl [Hq253]; · iexact Hq253
      isplitl [Hq254]; · iexact Hq254
      isplitl [Hq255]; · iexact Hq255
      isplitl [Hq256]; · iexact Hq256
      isplitl [Hq257]; · iexact Hq257
      isplitl [Hq258]; · iexact Hq258
      isplitl [Hq259]; · iexact Hq259
      isplitl [Hq260]; · iexact Hq260
      isplitl [Hq261]; · iexact Hq261
      isplitl [Hq262]; · iexact Hq262
      isplitl [Hq263]; · iexact Hq263
      isplitl [Hq264]; · iexact Hq264
      isplitl [Hq265]; · iexact Hq265
      isplitl [Hq266]; · iexact Hq266
      isplitl [Hq267]; · iexact Hq267
      isplitl [Hq268]; · iexact Hq268
      isplitl [Hq269]; · iexact Hq269
      isplitl [Hq270]; · iexact Hq270
      isplitl [Hq271]; · iexact Hq271
      isplitl [Hq272]; · iexact Hq272
      isplitl [Hq273]; · iexact Hq273
      isplitl [Hq274]; · iexact Hq274
      isplitl [Hq275]; · iexact Hq275
      iexact Hq276
    isplitl [Hdrop Hlow HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
    · iapply (hbSplit8 V c).2
      isplitl [Hdrop HT245 HT246 HT247 HT248 HT249 HT250 HT251 HT252 HT253 HT254 HT255 HT256 HT257 HT258 HT259 HT260 HT261 HT262 HT263 HT264 HT265 HT266 HT267 HT268 HT269 HT270 HT271 HT272 HT273 HT274 HT275 HT276]
      · isplitl [Hdrop]; · iexact Hdrop
        isplitl [HT245]; · iexact HT245
        isplitl [HT246]; · iexact HT246
        isplitl [HT247]; · iexact HT247
        isplitl [HT248]; · iexact HT248
        isplitl [HT249]; · iexact HT249
        isplitl [HT250]; · iexact HT250
        isplitl [HT251]; · iexact HT251
        isplitl [HT252]; · iexact HT252
        isplitl [HT253]; · iexact HT253
        isplitl [HT254]; · iexact HT254
        isplitl [HT255]; · iexact HT255
        isplitl [HT256]; · iexact HT256
        isplitl [HT257]; · iexact HT257
        isplitl [HT258]; · iexact HT258
        isplitl [HT259]; · iexact HT259
        isplitl [HT260]; · iexact HT260
        isplitl [HT261]; · iexact HT261
        isplitl [HT262]; · iexact HT262
        isplitl [HT263]; · iexact HT263
        isplitl [HT264]; · iexact HT264
        isplitl [HT265]; · iexact HT265
        isplitl [HT266]; · iexact HT266
        isplitl [HT267]; · iexact HT267
        isplitl [HT268]; · iexact HT268
        isplitl [HT269]; · iexact HT269
        isplitl [HT270]; · iexact HT270
        isplitl [HT271]; · iexact HT271
        isplitl [HT272]; · iexact HT272
        isplitl [HT273]; · iexact HT273
        isplitl [HT274]; · iexact HT274
        isplitl [HT275]; · iexact HT275
        iexact HT276
      iexact Hlow
    iexact Ht
  isplitl [HW']
  · iexists W'; isplitr; · ipureintro; exact fun _ _ => Or.inl trivial
    iexact HW'
  unfold owns; iexists _; isplitr
  swap; · iexact H1
  ipureintro; exact View.read_writes_of_cover _ _ _ _ _ (coverRun8 c _ _ _ _ _ _ _ _)

/-- The body obligation of gather pipeline 8, at every point. -/
theorem body_obligationG8 (hH : InRange8 V) (c : Dev nD) :
    BodyObligation (datG8 (F := F) V hH c) (defs₀ (F := F)) Variants.none () Set.univ := fun t => by
  rw [bigSep_W8, bigSep_W8]
  exact sound_bodyG8 V hH c t

end GatherBody8

section GatherLaunch8
variable (V : (c : Dev nD) → (b : Ref sig .tc) → Buf (Elt F) ((c : Thread nD τ).loc b))

/-- The table held through its own elements is the table's buffer held whole. -/
theorem tbPt8_eq (c : Dev nD) (f : HbBuf (F := F) c tbM8) :
    (ptSet c tbM8 fullShare f : sProp 𝕄) = (((c : Thread nD τ).loc main_v60) ↦{fullShare} f) := by
  show ((Memref.whole main_v60 : Memref sig .tc .smem S32x1023 .i32).view.loc (c : Thread nD τ) ↦[(Memref.whole main_v60 : Memref sig .tc .smem S32x1023 .i32).view.set]{fullShare} f) = _
  simp only [View.set_whole, Memref.view_whole]

/-- The launch's prefetched tables at the admitted contents: the one table's buffer held whole. -/
theorem prefHeld8_eq (c : Dev nD) :
    (Pipeline.prefHeld (Ix := Unit) (Name := ℕ) (U := Pipeline.UD sig nD τ) (Lvl := ℕ) pre8 c (fun _ => fullShare) (adm8 (F := F) V).1 : sProp 𝕄)
      = (((c : Thread nD τ).loc main_v60) ↦{fullShare} V c main_v60) := by
  obtain rfl : c = 0 := Subsingleton.elim _ _
  unfold Pipeline.prefHeld adm8
  rw [bigSep_W8]; rfl

/-- The two unscoped buffers the body reads by itself, their points-tos listed. -/
theorem hbmPts8_eq (c : Dev nD) :
    (BI.bigSep H8 (fun b => ((c : Thread nD τ).loc b) ↦{fullShare} V c b) : sProp 𝕄)
      = iprop((((c : Thread nD τ).loc main_arg2) ↦{fullShare} V c main_arg2) ∗ (((c : Thread nD τ).loc main_v60) ↦{fullShare} V c main_v60)) := by
  rw [BI.bigSep_eq_bigSepL_of_eq [main_arg2, main_v60] (by decide) (by decide)]; rfl

end GatherLaunch8

end Cert.KernelIdeal.Hand

end
-- ==== Proof.KernelIdealFrame.lean ====
/-
  @main as nine kernel regions among host stretches. The contents of every buffer at each boundary are named
  (`W`), each region's result filled in as what its pipeline's write-backs leave; each region is given its record —
  entered with every unscoped buffer at the boundary's contents, left at the next boundary's —; the gather regions'
  hypothesis, that every table word names a row of the weight array, is proved from the host arithmetic that makes
  the tables; and the records are chained through the host stretches into the frame: every weakly fair execution
  terminates, nothing faults, and the argument arrays end as launched. At any float instance `F`.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.Gen.KernelIdeal.Regions
import proofs.«145402_j1717986918579_1_alg».proof.Proof.KernelIdealProj
import proofs.«145402_j1717986918579_1_alg».proof.Proof.KernelIdealTables
import proofs.«145402_j1717986918579_1_alg».proof.Proof.KernelIdealGather1
import proofs.«145402_j1717986918579_1_alg».proof.Proof.KernelIdealGather2
import proofs.«145402_j1717986918579_1_alg».proof.Proof.KernelIdealGather3
import proofs.«145402_j1717986918579_1_alg».proof.Proof.KernelIdealGather4
import proofs.«145402_j1717986918579_1_alg».proof.Proof.KernelIdealGather5
import proofs.«145402_j1717986918579_1_alg».proof.Proof.KernelIdealGather6
import proofs.«145402_j1717986918579_1_alg».proof.Proof.KernelIdealGather7
import proofs.«145402_j1717986918579_1_alg».proof.Proof.KernelIdealGather8

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Run
variable (m : (ℓ : Loc nD τ sig) → Buf (Elt F) ℓ)

/-! ## The buffers' contents at every boundary of @main, the regions' results filled in

`W (2k+1)` is what region `k` is entered with; `W (2k+2)` what it leaves: its output array at what the pipeline's
write-backs leave, every other buffer unchanged. -/

/-- A valuation read at the TensorCore's references. -/
abbrev rd (W : Dev nD → Valuation τ sig (Elt F)) : (c : Dev nD) → (b : Ref sig .tc) → Buf (Elt F) ((c : Thread nD τ).loc b) := fun c b => W c b

def W0 (c : Dev nD) : Valuation τ sig (Elt F) := fun b => m (c, b)
def W1 (c : Dev nD) : Valuation τ sig (Elt F) := StableHlo.after hostOps0 (W0 m c)
/-- What the projection region leaves in its output array. -/
def res0 (c : Dev nD) : Buf (Elt F) ((c : Thread nD τ).loc main_v2) := (dat0 (rd (W1 m)) c).arrAt 2 cfg0.N
def W2 (c : Dev nD) : Valuation τ sig (Elt F) := Function.update (W1 m c) (Proc.devRef .tc main_v2) (res0 m c)
def W3 (c : Dev nD) : Valuation τ sig (Elt F) := StableHlo.after hostOps1 (W2 m c)

/-- The transposed row-index array, computed before the first gather region, is in range, -/
theorem v32_3 (c : Dev nD) : ∀ i, ((W3 (F := F) m c (Proc.devRef .tc main_v32)) i).toNat < 8388608 := by
  unfold W3; exact v32_lt (W2 m c)

/-- Every word of gather 1's table names a row of the weight array. -/
theorem inRange1 : InRange1 (rd (W3 (F := F) m)) := fun c j => by
  show ((W3 m c (Proc.devRef .tc main_v34)) j).toNat < 8388608
  unfold W3
  exact tbl34_lt (W2 m c) j
/-- What gather region 1 leaves in its output array. -/
def res1 (c : Dev nD) : Buf (Elt F) ((c : Thread nD τ).loc main_v35) := (datG1 (rd (W3 m)) (inRange1 m) c).arrAt 0 (pcfgG1 (F := F) (rd (W3 m))).N
def W4 (c : Dev nD) : Valuation τ sig (Elt F) := Function.update (W3 m c) (Proc.devRef .tc main_v35) (res1 m c)
/-- and no region and no later stretch writes it. -/
theorem v32_4 (c : Dev nD) : ∀ i, ((W4 (F := F) m c (Proc.devRef .tc main_v32)) i).toNat < 8388608 := by
  unfold W4
  rw [Function.update_of_ne (StableHlo.devRef_ne_of_ne (by decide : (main_v32 : Ref sig .tc) ≠ main_v35) : (Proc.devRef .tc main_v32 : DevRef τ sig) ≠ Proc.devRef .tc main_v35)]
  exact v32_3 m c
def W5 (c : Dev nD) : Valuation τ sig (Elt F) := StableHlo.after hostOps2 (W4 m c)
theorem v32_5 (c : Dev nD) : ∀ i, ((W5 (F := F) m c (Proc.devRef .tc main_v32)) i).toNat < 8388608 := by
  unfold W5
  rw [StableHlo.after_of_writes_sub hostOps2 _ hostOps2_writes (by decide : main_v32 ∉ hostOps2_W)]
  exact v32_4 m c

/-- Every word of gather 2's table names a row of the weight array. -/
theorem inRange2 : InRange2 (rd (W5 (F := F) m)) := fun c j => by
  show ((W5 m c (Proc.devRef .tc main_v37)) j).toNat < 8388608
  unfold W5
  exact tbl37_lt (W4 m c) (v32_4 m c) j
/-- What gather region 2 leaves in its output array. -/
def res2 (c : Dev nD) : Buf (Elt F) ((c : Thread nD τ).loc main_v38) := (datG2 (rd (W5 m)) (inRange2 m) c).arrAt 0 (pcfgG2 (F := F) (rd (W5 m))).N
def W6 (c : Dev nD) : Valuation τ sig (Elt F) := Function.update (W5 m c) (Proc.devRef .tc main_v38) (res2 m c)
/-- and no region and no later stretch writes it. -/
theorem v32_6 (c : Dev nD) : ∀ i, ((W6 (F := F) m c (Proc.devRef .tc main_v32)) i).toNat < 8388608 := by
  unfold W6
  rw [Function.update_of_ne (StableHlo.devRef_ne_of_ne (by decide : (main_v32 : Ref sig .tc) ≠ main_v38) : (Proc.devRef .tc main_v32 : DevRef τ sig) ≠ Proc.devRef .tc main_v38)]
  exact v32_5 m c
def W7 (c : Dev nD) : Valuation τ sig (Elt F) := StableHlo.after hostOps3 (W6 m c)
theorem v32_7 (c : Dev nD) : ∀ i, ((W7 (F := F) m c (Proc.devRef .tc main_v32)) i).toNat < 8388608 := by
  unfold W7
  rw [StableHlo.after_of_writes_sub hostOps3 _ hostOps3_writes (by decide : main_v32 ∉ hostOps3_W)]
  exact v32_6 m c

/-- Every word of gather 3's table names a row of the weight array. -/
theorem inRange3 : InRange3 (rd (W7 (F := F) m)) := fun c j => by
  show ((W7 m c (Proc.devRef .tc main_v40)) j).toNat < 8388608
  unfold W7
  exact tbl40_lt (W6 m c) (v32_6 m c) j
/-- What gather region 3 leaves in its output array. -/
def res3 (c : Dev nD) : Buf (Elt F) ((c : Thread nD τ).loc main_v41) := (datG3 (rd (W7 m)) (inRange3 m) c).arrAt 0 (pcfgG3 (F := F) (rd (W7 m))).N
def W8 (c : Dev nD) : Valuation τ sig (Elt F) := Function.update (W7 m c) (Proc.devRef .tc main_v41) (res3 m c)
/-- and no region and no later stretch writes it. -/
theorem v32_8 (c : Dev nD) : ∀ i, ((W8 (F := F) m c (Proc.devRef .tc main_v32)) i).toNat < 8388608 := by
  unfold W8
  rw [Function.update_of_ne (StableHlo.devRef_ne_of_ne (by decide : (main_v32 : Ref sig .tc) ≠ main_v41) : (Proc.devRef .tc main_v32 : DevRef τ sig) ≠ Proc.devRef .tc main_v41)]
  exact v32_7 m c
def W9 (c : Dev nD) : Valuation τ sig (Elt F) := StableHlo.after hostOps4 (W8 m c)
theorem v32_9 (c : Dev nD) : ∀ i, ((W9 (F := F) m c (Proc.devRef .tc main_v32)) i).toNat < 8388608 := by
  unfold W9
  rw [StableHlo.after_of_writes_sub hostOps4 _ hostOps4_writes (by decide : main_v32 ∉ hostOps4_W)]
  exact v32_8 m c

/-- Every word of gather 4's table names a row of the weight array. -/
theorem inRange4 : InRange4 (rd (W9 (F := F) m)) := fun c j => by
  show ((W9 m c (Proc.devRef .tc main_v43)) j).toNat < 8388608
  unfold W9
  exact tbl43_lt (W8 m c) (v32_8 m c) j
/-- What gather region 4 leaves in its output array. -/
def res4 (c : Dev nD) : Buf (Elt F) ((c : Thread nD τ).loc main_v44) := (datG4 (rd (W9 m)) (inRange4 m) c).arrAt 0 (pcfgG4 (F := F) (rd (W9 m))).N
def W10 (c : Dev nD) : Valuation τ sig (Elt F) := Function.update (W9 m c) (Proc.devRef .tc main_v44) (res4 m c)
/-- and no region and no later stretch writes it. -/
theorem v32_10 (c : Dev nD) : ∀ i, ((W10 (F := F) m c (Proc.devRef .tc main_v32)) i).toNat < 8388608 := by
  unfold W10
  rw [Function.update_of_ne (StableHlo.devRef_ne_of_ne (by decide : (main_v32 : Ref sig .tc) ≠ main_v44) : (Proc.devRef .tc main_v32 : DevRef τ sig) ≠ Proc.devRef .tc main_v44)]
  exact v32_9 m c
def W11 (c : Dev nD) : Valuation τ sig (Elt F) := StableHlo.after hostOps5 (W10 m c)
theorem v32_11 (c : Dev nD) : ∀ i, ((W11 (F := F) m c (Proc.devRef .tc main_v32)) i).toNat < 8388608 := by
  unfold W11
  rw [StableHlo.after_of_writes_sub hostOps5 _ hostOps5_writes (by decide : main_v32 ∉ hostOps5_W)]
  exact v32_10 m c

/-- Every word of gather 5's table names a row of the weight array. -/
theorem inRange5 : InRange5 (rd (W11 (F := F) m)) := fun c j => by
  show ((W11 m c (Proc.devRef .tc main_v51)) j).toNat < 8388608
  unfold W11
  exact tbl51_lt (W10 m c) (v32_10 m c) j
/-- What gather region 5 leaves in its output array. -/
def res5 (c : Dev nD) : Buf (Elt F) ((c : Thread nD τ).loc main_v52) := (datG5 (rd (W11 m)) (inRange5 m) c).arrAt 0 (pcfgG5 (F := F) (rd (W11 m))).N
def W12 (c : Dev nD) : Valuation τ sig (Elt F) := Function.update (W11 m c) (Proc.devRef .tc main_v52) (res5 m c)
/-- and no region and no later stretch writes it. -/
theorem v32_12 (c : Dev nD) : ∀ i, ((W12 (F := F) m c (Proc.devRef .tc main_v32)) i).toNat < 8388608 := by
  unfold W12
  rw [Function.update_of_ne (StableHlo.devRef_ne_of_ne (by decide : (main_v32 : Ref sig .tc) ≠ main_v52) : (Proc.devRef .tc main_v32 : DevRef τ sig) ≠ Proc.devRef .tc main_v52)]
  exact v32_11 m c
def W13 (c : Dev nD) : Valuation τ sig (Elt F) := StableHlo.after hostOps6 (W12 m c)
theorem v32_13 (c : Dev nD) : ∀ i, ((W13 (F := F) m c (Proc.devRef .tc main_v32)) i).toNat < 8388608 := by
  unfold W13
  rw [StableHlo.after_of_writes_sub hostOps6 _ hostOps6_writes (by decide : main_v32 ∉ hostOps6_W)]
  exact v32_12 m c

/-- Every word of gather 6's table names a row of the weight array. -/
theorem inRange6 : InRange6 (rd (W13 (F := F) m)) := fun c j => by
  show ((W13 m c (Proc.devRef .tc main_v54)) j).toNat < 8388608
  unfold W13
  exact tbl54_lt (W12 m c) (v32_12 m c) j
/-- What gather region 6 leaves in its output array. -/
def res6 (c : Dev nD) : Buf (Elt F) ((c : Thread nD τ).loc main_v55) := (datG6 (rd (W13 m)) (inRange6 m) c).arrAt 0 (pcfgG6 (F := F) (rd (W13 m))).N
def W14 (c : Dev nD) : Valuation τ sig (Elt F) := Function.update (W13 m c) (Proc.devRef .tc main_v55) (res6 m c)
/-- and no region and no later stretch writes it. -/
theorem v32_14 (c : Dev nD) : ∀ i, ((W14 (F := F) m c (Proc.devRef .tc main_v32)) i).toNat < 8388608 := by
  unfold W14
  rw [Function.update_of_ne (StableHlo.devRef_ne_of_ne (by decide : (main_v32 : Ref sig .tc) ≠ main_v55) : (Proc.devRef .tc main_v32 : DevRef τ sig) ≠ Proc.devRef .tc main_v55)]
  exact v32_13 m c
def W15 (c : Dev nD) : Valuation τ sig (Elt F) := StableHlo.after hostOps7 (W14 m c)
theorem v32_15 (c : Dev nD) : ∀ i, ((W15 (F := F) m c (Proc.devRef .tc main_v32)) i).toNat < 8388608 := by
  unfold W15
  rw [StableHlo.after_of_writes_sub hostOps7 _ hostOps7_writes (by decide : main_v32 ∉ hostOps7_W)]
  exact v32_14 m c

/-- Every word of gather 7's table names a row of the weight array. -/
theorem inRange7 : InRange7 (rd (W15 (F := F) m)) := fun c j => by
  show ((W15 m c (Proc.devRef .tc main_v57)) j).toNat < 8388608
  unfold W15
  exact tbl57_lt (W14 m c) (v32_14 m c) j
/-- What gather region 7 leaves in its output array. -/
def res7 (c : Dev nD) : Buf (Elt F) ((c : Thread nD τ).loc main_v58) := (datG7 (rd (W15 m)) (inRange7 m) c).arrAt 0 (pcfgG7 (F := F) (rd (W15 m))).N
def W16 (c : Dev nD) : Valuation τ sig (Elt F) := Function.update (W15 m c) (Proc.devRef .tc main_v58) (res7 m c)
/-- and no region and no later stretch writes it. -/
theorem v32_16 (c : Dev nD) : ∀ i, ((W16 (F := F) m c (Proc.devRef .tc main_v32)) i).toNat < 8388608 := by
  unfold W16
  rw [Function.update_of_ne (StableHlo.devRef_ne_of_ne (by decide : (main_v32 : Ref sig .tc) ≠ main_v58) : (Proc.devRef .tc main_v32 : DevRef τ sig) ≠ Proc.devRef .tc main_v58)]
  exact v32_15 m c
def W17 (c : Dev nD) : Valuation τ sig (Elt F) := StableHlo.after hostOps8 (W16 m c)
theorem v32_17 (c : Dev nD) : ∀ i, ((W17 (F := F) m c (Proc.devRef .tc main_v32)) i).toNat < 8388608 := by
  unfold W17
  rw [StableHlo.after_of_writes_sub hostOps8 _ hostOps8_writes (by decide : main_v32 ∉ hostOps8_W)]
  exact v32_16 m c

/-- Every word of gather 8's table names a row of the weight array. -/
theorem inRange8 : InRange8 (rd (W17 (F := F) m)) := fun c j => by
  show ((W17 m c (Proc.devRef .tc main_v60)) j).toNat < 8388608
  unfold W17
  exact tbl60_lt (W16 m c) (v32_16 m c) j
/-- What gather region 8 leaves in its output array. -/
def res8 (c : Dev nD) : Buf (Elt F) ((c : Thread nD τ).loc main_v61) := (datG8 (rd (W17 m)) (inRange8 m) c).arrAt 0 (pcfgG8 (F := F) (rd (W17 m))).N
def W18 (c : Dev nD) : Valuation τ sig (Elt F) := Function.update (W17 m c) (Proc.devRef .tc main_v61) (res8 m c)
/-- and no region and no later stretch writes it. -/
theorem v32_18 (c : Dev nD) : ∀ i, ((W18 (F := F) m c (Proc.devRef .tc main_v32)) i).toNat < 8388608 := by
  unfold W18
  rw [Function.update_of_ne (StableHlo.devRef_ne_of_ne (by decide : (main_v32 : Ref sig .tc) ≠ main_v61) : (Proc.devRef .tc main_v32 : DevRef τ sig) ≠ Proc.devRef .tc main_v61)]
  exact v32_17 m c
def W19 (c : Dev nD) : Valuation τ sig (Elt F) := StableHlo.after hostOps9 (W18 m c)
theorem v32_19 (c : Dev nD) : ∀ i, ((W19 (F := F) m c (Proc.devRef .tc main_v32)) i).toNat < 8388608 := by
  unfold W19
  rw [StableHlo.after_of_writes_sub hostOps9 _ hostOps9_writes (by decide : main_v32 ∉ hostOps9_W)]
  exact v32_18 m c

/-! ## The tables' contents and the proof data, pipeline by pipeline -/

/-- The prefetched tables at the contents their regions are entered with (the projection pipeline has none). -/
def adm : (p : Fin 9) → (pcfgs (F := F) p).Adm
  | ⟨0, _⟩ => cfg0.toPCfg_adm
  | ⟨1, _⟩ => adm1 (rd (W3 m))
  | ⟨2, _⟩ => adm2 (rd (W5 m))
  | ⟨3, _⟩ => adm3 (rd (W7 m))
  | ⟨4, _⟩ => adm4 (rd (W9 m))
  | ⟨5, _⟩ => adm5 (rd (W11 m))
  | ⟨6, _⟩ => adm6 (rd (W13 m))
  | ⟨7, _⟩ => adm7 (rd (W15 m))
  | ⟨8, _⟩ => adm8 (rd (W17 m))
  | ⟨_ + 9, h⟩ => absurd h (Nat.not_lt.2 (Nat.le_add_left _ _))

/-- Every pipeline's proof data, each over its region's entry contents. -/
def pdats : (p : Fin 9) → (c : Dev nD) → Dat τ (Elt F) Unit ℕ (Pipeline.UD sig nD τ) ℕ (Pipeline.pin (pcfgs (F := F)) (adm m) p) c
  | ⟨0, _⟩ => fun c => dat0 (rd (W1 m)) c
  | ⟨1, _⟩ => fun c => datG1 (rd (W3 m)) (inRange1 m) c
  | ⟨2, _⟩ => fun c => datG2 (rd (W5 m)) (inRange2 m) c
  | ⟨3, _⟩ => fun c => datG3 (rd (W7 m)) (inRange3 m) c
  | ⟨4, _⟩ => fun c => datG4 (rd (W9 m)) (inRange4 m) c
  | ⟨5, _⟩ => fun c => datG5 (rd (W11 m)) (inRange5 m) c
  | ⟨6, _⟩ => fun c => datG6 (rd (W13 m)) (inRange6 m) c
  | ⟨7, _⟩ => fun c => datG7 (rd (W15 m)) (inRange7 m) c
  | ⟨8, _⟩ => fun c => datG8 (rd (W17 m)) (inRange8 m) c
  | ⟨_ + 9, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-! ## The projection region as a segment of @main -/

theorem hF0 (c : Dev nD) (w : Fin cfg0.W) : (dat0 (rd (W1 (F := F) m)) c).arrAt w cfg0.N = rd (W2 m) c (Pipeline.arrRef spec0 w) := by
  match w with
  | ⟨0, _⟩ =>
    show _ = W2 m c (Proc.devRef .tc main_v0)
    unfold W2
    rw [Function.update_of_ne (StableHlo.devRef_ne_of_ne (by decide : (main_v0 : Ref sig .tc) ≠ main_v2) : (Proc.devRef .tc main_v0 : DevRef τ sig) ≠ Proc.devRef .tc main_v2)]
    exact ((dat0 (rd (W1 m)) c).arrAt_in 0 rfl _).trans (A_eq0 (rd (W1 m)) c 0)
  | ⟨1, _⟩ =>
    show _ = W2 m c (Proc.devRef .tc main_v1)
    unfold W2
    rw [Function.update_of_ne (StableHlo.devRef_ne_of_ne (by decide : (main_v1 : Ref sig .tc) ≠ main_v2) : (Proc.devRef .tc main_v1 : DevRef τ sig) ≠ Proc.devRef .tc main_v2)]
    exact ((dat0 (rd (W1 m)) c).arrAt_in 1 rfl _).trans (A_eq0 (rd (W1 m)) c 1)
  | ⟨2, _⟩ =>
    show _ = W2 m c (Proc.devRef .tc main_v2)
    unfold W2
    rw [Function.update_self]; rfl
theorem hrest0 (c : Dev nD) : ∀ b, b ∉ Finset.univ.image (Pipeline.arrRef spec0) → rd (F := F) (W2 m) c b = rd (F := F) (W1 m) c b := fun b hb => by
  have hne : b ≠ main_v2 := fun e => hb (Finset.mem_image.mpr ⟨2, Finset.mem_univ _, e.symm⟩)
  show W2 m c (Proc.devRef .tc b) = W1 m c (Proc.devRef .tc b)
  unfold W2
  rw [Function.update_of_ne (StableHlo.devRef_ne_of_ne hne)]

set_option backward.isDefEq.respectTransparency.types false in
/-- The projection region: entered with every unscoped buffer at `W1`, left at `W2`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (rd (W1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 1 as a segment of @main -/

theorem hF1 (c : Dev nD) (w : Fin 1) :
    (datG1 (rd (W3 (F := F) m)) (inRange1 m) c).arrAt w (pcfgG1 (F := F) (rd (W3 m))).N = rd (W4 m) c (Pipeline.arrRef spec1 w) := by
  match w with
  | ⟨0, _⟩ =>
    show _ = W4 m c (Proc.devRef .tc main_v35)
    unfold W4
    rw [Function.update_self]; rfl
theorem hrest1 (c : Dev nD) : ∀ b, b ∉ Finset.univ.image (Pipeline.arrRef spec1) → rd (F := F) (W4 m) c b = rd (F := F) (W3 m) c b := fun b hb => by
  have hne : b ≠ main_v35 := fun e => hb (Finset.mem_image.mpr ⟨0, Finset.mem_univ _, e.symm⟩)
  show W4 m c (Proc.devRef .tc b) = W3 m c (Proc.devRef .tc b)
  unfold W4
  rw [Function.update_of_ne (StableHlo.devRef_ne_of_ne hne)]

set_option backward.isDefEq.respectTransparency.types false in
/-- Gather region 1: entered with every unscoped buffer at `W3`, left at `W4`. The weight array and the table are
    taken out of the buffers that bypass the region and handed to its invariant, the table as the launch's prefetched
    table; the kernel's thirty-two DMA semaphores go in at zero and come back at zero. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 32
  osem := osem1
  ho := ownSemFacts1
  hbody c := (body_obligationG1 (rd (W3 m)) (inRange1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop((∃ r, prngReg c r) ∗ Pipeline.ownSems0 (Ix := Unit) (Name := ℕ) (U := Pipeline.UD sig nD τ) (Lvl := ℕ) (Val := Elt F) (τ := τ) osem1 c
    ∗ (((c : Thread nD τ).loc main_arg2) ↦{fullShare} rd (W3 m) c main_arg2))
  Y c := iprop((∃ r, prngReg c r) ∗ (((c : Thread nD τ).loc main_arg2) ↦{fullShare} rd (W3 m) c main_arg2)
    ∗ (((c : Thread nD τ).loc main_v34) ↦{fullShare} rd (W3 m) c main_v34))
  Z c := BI.bigSep (Pipeline.restRefs sig spec1 \ H1) fun b => (((c : Thread nD τ)).loc b) ↦{fullShare} rd (W3 m) c b
  hentry c := by
    have hsplit := Pipeline.arrays_of_unscopedBufs (p := 1) (pcfgs (F := F)) (adm m) (pdats m) (launch1 (F := F)).win (launch1 (F := F)).arr_whole c
      ((pdats m 1 c).share_full fun _ => rfl) (rd (W3 m) c) fun _ => rfl
    rw [Pipeline.unscopedBufs_held] at hsplit
    have hH : (Pipeline.unscopedRest (Ix := Unit) (Name := ℕ) (U := Pipeline.UD sig nD τ) (Lvl := ℕ) spec1 c (rd (W3 m) c) : sProp 𝕄)
        = iprop((BI.bigSep H1 fun b => (((c : Thread nD τ)).loc b) ↦{fullShare} rd (W3 m) c b) ∗ (BI.bigSep (Pipeline.restRefs sig spec1 \ H1) fun b => (((c : Thread nD τ)).loc b) ↦{fullShare} rd (W3 m) c b)) := by
      unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts1_eq (rd (W3 m)) c)) $$ HH
    icases H'' with ⟨Hw, Htb⟩
    imodintro
    isplitl [Ha]; · iexact Ha
    isplitl [Htb]
    · rw [show (Pipeline.prefHeld (pcfgs (F := F) 1).pre c (fun _ => fullShare) (adm m 1).1 : sProp 𝕄)
          = (((c : Thread nD τ).loc main_v34) ↦{fullShare} rd (W3 m) c main_v34) from prefHeld1_eq (rd (W3 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 1 c).Φ 0 = ΦG1 (rd (W3 m)) c from rfl,
      show (Pipeline.prefHeld (pcfgs (F := F) 1).pre c (fun _ => fullShare) (adm m 1).1 : sProp 𝕄)
          = (((c : Thread nD τ).loc main_v34) ↦{fullShare} rd (W3 m) c main_v34) from prefHeld1_eq (rd (W3 m)) c]
    unfold ΦG1
    rw [tbPt1_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 1 c).Φ (Fin.last _) = ΦG1 (rd (W3 m)) c from rfl]
    unfold ΦG1
    rw [tbPt1_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (rd (W3 m) c) (rd (W4 m) c) ((pdats m 1 c).arrAt · (pcfgG1 (F := F) (rd (W3 m))).N) (hF1 m c) (hrest1 m c)
    rw [Pipeline.unscopedBufs_held] at hjoin
    have hH : (Pipeline.unscopedRest (Ix := Unit) (Name := ℕ) (U := Pipeline.UD sig nD τ) (Lvl := ℕ) spec1 c (rd (W3 m) c) : sProp 𝕄)
        = iprop((BI.bigSep H1 fun b => (((c : Thread nD τ)).loc b) ↦{fullShare} rd (W3 m) c b) ∗ (BI.bigSep (Pipeline.restRefs sig spec1 \ H1) fun b => (((c : Thread nD τ)).loc b) ↦{fullShare} rd (W3 m) c b)) := by
      unfold Pipeline.unscopedRest; exact BI.bigSep_sdiff_split H1_sub
    iintro ⟨Ha, HO, ⟨HY, Hw, Htb⟩, HR⟩
    ihave HH := (Entails.of_eq (hbmPts1_eq (rd (W3 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 2 as a segment of @main -/

theorem hF2 (c : Dev nD) (w : Fin 1) :
    (datG2 (rd (W5 (F := F) m)) (inRange2 m) c).arrAt w (pcfgG2 (F := F) (rd (W5 m))).N = rd (W6 m) c (Pipeline.arrRef spec2 w) := by
  match w with
  | ⟨0, _⟩ =>
    show _ = W6 m c (Proc.devRef .tc main_v38)
    unfold W6
    rw [Function.update_self]; rfl
theorem hrest2 (c : Dev nD) : ∀ b, b ∉ Finset.univ.image (Pipeline.arrRef spec2) → rd (F := F) (W6 m) c b = rd (F := F) (W5 m) c b := fun b hb => by
  have hne : b ≠ main_v38 := fun e => hb (Finset.mem_image.mpr ⟨0, Finset.mem_univ _, e.symm⟩)
  show W6 m c (Proc.devRef .tc b) = W5 m c (Proc.devRef .tc b)
  unfold W6
  rw [Function.update_of_ne (StableHlo.devRef_ne_of_ne hne)]

set_option backward.isDefEq.respectTransparency.types false in
/-- Gather region 2: entered with every unscoped buffer at `W5`, left at `W6`. The weight array and the table are
    taken out of the buffers that bypass the region and handed to its invariant, the table as the launch's prefetched
    table; the kernel's thirty-two DMA semaphores go in at zero and come back at zero. -/
def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := Fin 32
  osem := osem2
  ho := ownSemFacts2
  hbody c := (body_obligationG2 (rd (W5 m)) (inRange2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop((∃ r, prngReg c r) ∗ Pipeline.ownSems0 (Ix := Unit) (Name := ℕ) (U := Pipeline.UD sig nD τ) (Lvl := ℕ) (Val := Elt F) (τ := τ) osem2 c
    ∗ (((c : Thread nD τ).loc main_arg2) ↦{fullShare} rd (W5 m) c main_arg2))
  Y c := iprop((∃ r, prngReg c r) ∗ (((c : Thread nD τ).loc main_arg2) ↦{fullShare} rd (W5 m) c main_arg2)
    ∗ (((c : Thread nD τ).loc main_v37) ↦{fullShare} rd (W5 m) c main_v37))
  Z c := BI.bigSep (Pipeline.restRefs sig spec2 \ H2) fun b => (((c : Thread nD τ)).loc b) ↦{fullShare} rd (W5 m) c b
  hentry c := by
    have hsplit := Pipeline.arrays_of_unscopedBufs (p := 2) (pcfgs (F := F)) (adm m) (pdats m) (launch2 (F := F)).win (launch2 (F := F)).arr_whole c
      ((pdats m 2 c).share_full fun _ => rfl) (rd (W5 m) c) fun _ => rfl
    rw [Pipeline.unscopedBufs_held] at hsplit
    have hH : (Pipeline.unscopedRest (Ix := Unit) (Name := ℕ) (U := Pipeline.UD sig nD τ) (Lvl := ℕ) spec2 c (rd (W5 m) c) : sProp 𝕄)
        = iprop((BI.bigSep H2 fun b => (((c : Thread nD τ)).loc b) ↦{fullShare} rd (W5 m) c b) ∗ (BI.bigSep (Pipeline.restRefs sig spec2 \ H2) fun b => (((c : Thread nD τ)).loc b) ↦{fullShare} rd (W5 m) c b)) := by
      unfold Pipeline.unscopedRest; exact BI.bigSep_sdiff_split H2_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts2_eq (rd (W5 m)) c)) $$ HH
    icases H'' with ⟨Hw, Htb⟩
    imodintro
    isplitl [Ha]; · iexact Ha
    isplitl [Htb]
    · rw [show (Pipeline.prefHeld (pcfgs (F := F) 2).pre c (fun _ => fullShare) (adm m 2).1 : sProp 𝕄)
          = (((c : Thread nD τ).loc main_v37) ↦{fullShare} rd (W5 m) c main_v37) from prefHeld2_eq (rd (W5 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 2 c).Φ 0 = ΦG2 (rd (W5 m)) c from rfl,
      show (Pipeline.prefHeld (pcfgs (F := F) 2).pre c (fun _ => fullShare) (adm m 2).1 : sProp 𝕄)
          = (((c : Thread nD τ).loc main_v37) ↦{fullShare} rd (W5 m) c main_v37) from prefHeld2_eq (rd (W5 m)) c]
    unfold ΦG2
    rw [tbPt2_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 2 c).Φ (Fin.last _) = ΦG2 (rd (W5 m)) c from rfl]
    unfold ΦG2
    rw [tbPt2_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m 2 c).share_full fun _ => rfl)
      (rd (W5 m) c) (rd (W6 m) c) ((pdats m 2 c).arrAt · (pcfgG2 (F := F) (rd (W5 m))).N) (hF2 m c) (hrest2 m c)
    rw [Pipeline.unscopedBufs_held] at hjoin
    have hH : (Pipeline.unscopedRest (Ix := Unit) (Name := ℕ) (U := Pipeline.UD sig nD τ) (Lvl := ℕ) spec2 c (rd (W5 m) c) : sProp 𝕄)
        = iprop((BI.bigSep H2 fun b => (((c : Thread nD τ)).loc b) ↦{fullShare} rd (W5 m) c b) ∗ (BI.bigSep (Pipeline.restRefs sig spec2 \ H2) fun b => (((c : Thread nD τ)).loc b) ↦{fullShare} rd (W5 m) c b)) := by
      unfold Pipeline.unscopedRest; exact BI.bigSep_sdiff_split H2_sub
    iintro ⟨Ha, HO, ⟨HY, Hw, Htb⟩, HR⟩
    ihave HH := (Entails.of_eq (hbmPts2_eq (rd (W5 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 3 as a segment of @main -/

theorem hF3 (c : Dev nD) (w : Fin 1) :
    (datG3 (rd (W7 (F := F) m)) (inRange3 m) c).arrAt w (pcfgG3 (F := F) (rd (W7 m))).N = rd (W8 m) c (Pipeline.arrRef spec3 w) := by
  match w with
  | ⟨0, _⟩ =>
    show _ = W8 m c (Proc.devRef .tc main_v41)
    unfold W8
    rw [Function.update_self]; rfl
theorem hrest3 (c : Dev nD) : ∀ b, b ∉ Finset.univ.image (Pipeline.arrRef spec3) → rd (F := F) (W8 m) c b = rd (F := F) (W7 m) c b := fun b hb => by
  have hne : b ≠ main_v41 := fun e => hb (Finset.mem_image.mpr ⟨0, Finset.mem_univ _, e.symm⟩)
  show W8 m c (Proc.devRef .tc b) = W7 m c (Proc.devRef .tc b)
  unfold W8
  rw [Function.update_of_ne (StableHlo.devRef_ne_of_ne hne)]

set_option backward.isDefEq.respectTransparency.types false in
/-- Gather region 3: entered with every unscoped buffer at `W7`, left at `W8`. The weight array and the table are
    taken out of the buffers that bypass the region and handed to its invariant, the table as the launch's prefetched
    table; the kernel's thirty-two DMA semaphores go in at zero and come back at zero. -/
def reg3 : Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := Fin 32
  osem := osem3
  ho := ownSemFacts3
  hbody c := (body_obligationG3 (rd (W7 m)) (inRange3 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop((∃ r, prngReg c r) ∗ Pipeline.ownSems0 (Ix := Unit) (Name := ℕ) (U := Pipeline.UD sig nD τ) (Lvl := ℕ) (Val := Elt F) (τ := τ) osem3 c
    ∗ (((c : Thread nD τ).loc main_arg2) ↦{fullShare} rd (W7 m) c main_arg2))
  Y c := iprop((∃ r, prngReg c r) ∗ (((c : Thread nD τ).loc main_arg2) ↦{fullShare} rd (W7 m) c main_arg2)
    ∗ (((c : Thread nD τ).loc main_v40) ↦{fullShare} rd (W7 m) c main_v40))
  Z c := BI.bigSep (Pipeline.restRefs sig spec3 \ H3) fun b => (((c : Thread nD τ)).loc b) ↦{fullShare} rd (W7 m) c b
  hentry c := by
    have hsplit := Pipeline.arrays_of_unscopedBufs (p := 3) (pcfgs (F := F)) (adm m) (pdats m) (launch3 (F := F)).win (launch3 (F := F)).arr_whole c
      ((pdats m 3 c).share_full fun _ => rfl) (rd (W7 m) c) fun _ => rfl
    rw [Pipeline.unscopedBufs_held] at hsplit
    have hH : (Pipeline.unscopedRest (Ix := Unit) (Name := ℕ) (U := Pipeline.UD sig nD τ) (Lvl := ℕ) spec3 c (rd (W7 m) c) : sProp 𝕄)
        = iprop((BI.bigSep H3 fun b => (((c : Thread nD τ)).loc b) ↦{fullShare} rd (W7 m) c b) ∗ (BI.bigSep (Pipeline.restRefs sig spec3 \ H3) fun b => (((c : Thread nD τ)).loc b) ↦{fullShare} rd (W7 m) c b)) := by
      unfold Pipeline.unscopedRest; exact BI.bigSep_sdiff_split H3_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts3_eq (rd (W7 m)) c)) $$ HH
    icases H'' with ⟨Hw, Htb⟩
    imodintro
    isplitl [Ha]; · iexact Ha
    isplitl [Htb]
    · rw [show (Pipeline.prefHeld (pcfgs (F := F) 3).pre c (fun _ => fullShare) (adm m 3).1 : sProp 𝕄)
          = (((c : Thread nD τ).loc main_v40) ↦{fullShare} rd (W7 m) c main_v40) from prefHeld3_eq (rd (W7 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 3 c).Φ 0 = ΦG3 (rd (W7 m)) c from rfl,
      show (Pipeline.prefHeld (pcfgs (F := F) 3).pre c (fun _ => fullShare) (adm m 3).1 : sProp 𝕄)
          = (((c : Thread nD τ).loc main_v40) ↦{fullShare} rd (W7 m) c main_v40) from prefHeld3_eq (rd (W7 m)) c]
    unfold ΦG3
    rw [tbPt3_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 3 c).Φ (Fin.last _) = ΦG3 (rd (W7 m)) c from rfl]
    unfold ΦG3
    rw [tbPt3_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m 3 c).share_full fun _ => rfl)
      (rd (W7 m) c) (rd (W8 m) c) ((pdats m 3 c).arrAt · (pcfgG3 (F := F) (rd (W7 m))).N) (hF3 m c) (hrest3 m c)
    rw [Pipeline.unscopedBufs_held] at hjoin
    have hH : (Pipeline.unscopedRest (Ix := Unit) (Name := ℕ) (U := Pipeline.UD sig nD τ) (Lvl := ℕ) spec3 c (rd (W7 m) c) : sProp 𝕄)
        = iprop((BI.bigSep H3 fun b => (((c : Thread nD τ)).loc b) ↦{fullShare} rd (W7 m) c b) ∗ (BI.bigSep (Pipeline.restRefs sig spec3 \ H3) fun b => (((c : Thread nD τ)).loc b) ↦{fullShare} rd (W7 m) c b)) := by
      unfold Pipeline.unscopedRest; exact BI.bigSep_sdiff_split H3_sub
    iintro ⟨Ha, HO, ⟨HY, Hw, Htb⟩, HR⟩
    ihave HH := (Entails.of_eq (hbmPts3_eq (rd (W7 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 4 as a segment of @main -/

theorem hF4 (c : Dev nD) (w : Fin 1) :
    (datG4 (rd (W9 (F := F) m)) (inRange4 m) c).arrAt w (pcfgG4 (F := F) (rd (W9 m))).N = rd (W10 m) c (Pipeline.arrRef spec4 w) := by
  match w with
  | ⟨0, _⟩ =>
    show _ = W10 m c (Proc.devRef .tc main_v44)
    unfold W10
    rw [Function.update_self]; rfl
theorem hrest4 (c : Dev nD) : ∀ b, b ∉ Finset.univ.image (Pipeline.arrRef spec4) → rd (F := F) (W10 m) c b = rd (F := F) (W9 m) c b := fun b hb => by
  have hne : b ≠ main_v44 := fun e => hb (Finset.mem_image.mpr ⟨0, Finset.mem_univ _, e.symm⟩)
  show W10 m c (Proc.devRef .tc b) = W9 m c (Proc.devRef .tc b)
  unfold W10
  rw [Function.update_of_ne (StableHlo.devRef_ne_of_ne hne)]

set_option backward.isDefEq.respectTransparency.types false in
/-- Gather region 4: entered with every unscoped buffer at `W9`, left at `W10`. The weight array and the table are
    taken out of the buffers that bypass the region and handed to its invariant, the table as the launch's prefetched
    table; the kernel's thirty-two DMA semaphores go in at zero and come back at zero. -/
def reg4 : Pipeline.RegionSeg (pcfgs (F := F)) (adm m) (pdats m) () defs₀ 𝒱₀ L lv 4 where
  win := (launch4 (F := F)).win.to₀
  block_pos := (launch4 (F := F)).block_pos
  stage_whole := (launch4 (F := F)).stage_whole
  K := Fin 32
  osem := osem4
  ho := ownSemFacts4
  hbody c := (body_obligationG4 (rd (W9 m)) (inRange4 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop((∃ r, prngReg c r) ∗ Pipeline.ownSems0 (Ix := Unit) (Name := ℕ) (U := Pipeline.UD sig nD τ) (Lvl := ℕ) (Val := Elt F) (τ := τ) osem4 c
    ∗ (((c : Thread nD τ).loc main_arg2) ↦{fullShare} rd (W9 m) c main_arg2))
  Y c := iprop((∃ r, prngReg c r) ∗ (((c : Thread nD τ).loc main_arg2) ↦{fullShare} rd (W9 m) c main_arg2)
    ∗ (((c : Thread nD τ).loc main_v43) ↦{fullShare} rd (W9 m) c main_v43))
  Z c := BI.bigSep (Pipeline.restRefs sig spec4 \ H4) fun b => (((c : Thread nD τ)).loc b) ↦{fullShare} rd (W9 m) c b
  hentry c := by
    have hsplit := Pipeline.arrays_of_unscopedBufs (p := 4) (pcfgs (F := F)) (adm m) (pdats m) (launch4 (F := F)).win (launch4 (F := F)).arr_whole c
      ((pdats m 4 c).share_full fun _ => rfl) (rd (W9 m) c) fun _ => rfl
    rw [Pipeline.unscopedBufs_held] at hsplit
    have hH : (Pipeline.unscopedRest (Ix := Unit) (Name := ℕ) (U := Pipeline.UD sig nD τ) (Lvl := ℕ) spec4 c (rd (W9 m) c) : sProp 𝕄)
        = iprop((BI.bigSep H4 fun b => (((c : Thread nD τ)).loc b) ↦{fullShare} rd (W9 m) c b) ∗ (BI.bigSep (Pipeline.restRefs sig spec4 \ H4) fun b => (((c : Thread nD τ)).loc b) ↦{fullShare} rd (W9 m) c b)) := by
      unfold Pipeline.unscopedRest; exact BI.bigSep_sdiff_split H4_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts4_eq (rd (W9 m)) c)) $$ HH
    icases H'' with ⟨Hw, Htb⟩
    imodintro
    isplitl [Ha]; · iexact Ha
    isplitl [Htb]
    · rw [show (Pipeline.prefHeld (pcfgs (F := F) 4).pre c (fun _ => fullShare) (adm m 4).1 : sProp 𝕄)
          = (((c : Thread nD τ).loc main_v43) ↦{fullShare} rd (W9 m) c main_v43) from prefHeld4_eq (rd (W9 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 4 c).Φ 0 = ΦG4 (rd (W9 m)) c from rfl,
      show (Pipeline.prefHeld (pcfgs (F := F) 4).pre c (fun _ => fullShare) (adm m 4).1 : sProp 𝕄)
          = (((c : Thread nD τ).loc main_v43) ↦{fullShare} rd (W9 m) c main_v43) from prefHeld4_eq (rd (W9 m)) c]
    unfold ΦG4
    rw [tbPt4_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 4 c).Φ (Fin.last _) = ΦG4 (rd (W9 m)) c from rfl]
    unfold ΦG4
    rw [tbPt4_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m 4 c).share_full fun _ => rfl)
      (rd (W9 m) c) (rd (W10 m) c) ((pdats m 4 c).arrAt · (pcfgG4 (F := F) (rd (W9 m))).N) (hF4 m c) (hrest4 m c)
    rw [Pipeline.unscopedBufs_held] at hjoin
    have hH : (Pipeline.unscopedRest (Ix := Unit) (Name := ℕ) (U := Pipeline.UD sig nD τ) (Lvl := ℕ) spec4 c (rd (W9 m) c) : sProp 𝕄)
        = iprop((BI.bigSep H4 fun b => (((c : Thread nD τ)).loc b) ↦{fullShare} rd (W9 m) c b) ∗ (BI.bigSep (Pipeline.restRefs sig spec4 \ H4) fun b => (((c : Thread nD τ)).loc b) ↦{fullShare} rd (W9 m) c b)) := by
      unfold Pipeline.unscopedRest; exact BI.bigSep_sdiff_split H4_sub
    iintro ⟨Ha, HO, ⟨HY, Hw, Htb⟩, HR⟩
    ihave HH := (Entails.of_eq (hbmPts4_eq (rd (W9 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 5 as a segment of @main -/

theorem hF5 (c : Dev nD) (w : Fin 1) :
    (datG5 (rd (W11 (F := F) m)) (inRange5 m) c).arrAt w (pcfgG5 (F := F) (rd (W11 m))).N = rd (W12 m) c (Pipeline.arrRef spec5 w) := by
  match w with
  | ⟨0, _⟩ =>
    show _ = W12 m c (Proc.devRef .tc main_v52)
    unfold W12
    rw [Function.update_self]; rfl
theorem hrest5 (c : Dev nD) : ∀ b, b ∉ Finset.univ.image (Pipeline.arrRef spec5) → rd (F := F) (W12 m) c b = rd (F := F) (W11 m) c b := fun b hb => by
  have hne : b ≠ main_v52 := fun e => hb (Finset.mem_image.mpr ⟨0, Finset.mem_univ _, e.symm⟩)
  show W12 m c (Proc.devRef .tc b) = W11 m c (Proc.devRef .tc b)
  unfold W12
  rw [Function.update_of_ne (StableHlo.devRef_ne_of_ne hne)]

set_option backward.isDefEq.respectTransparency.types false in
/-- Gather region 5: entered with every unscoped buffer at `W11`, left at `W12`. The weight array and the table are
    taken out of the buffers that bypass the region and handed to its invariant, the table as the launch's prefetched
    table; the kernel's thirty-two DMA semaphores go in at zero and come back at zero. -/
def reg5 : Pipeline.RegionSeg (pcfgs (F := F)) (adm m) (pdats m) () defs₀ 𝒱₀ L lv 5 where
  win := (launch5 (F := F)).win.to₀
  block_pos := (launch5 (F := F)).block_pos
  stage_whole := (launch5 (F := F)).stage_whole
  K := Fin 32
  osem := osem5
  ho := ownSemFacts5
  hbody c := (body_obligationG5 (rd (W11 m)) (inRange5 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop((∃ r, prngReg c r) ∗ Pipeline.ownSems0 (Ix := Unit) (Name := ℕ) (U := Pipeline.UD sig nD τ) (Lvl := ℕ) (Val := Elt F) (τ := τ) osem5 c
    ∗ (((c : Thread nD τ).loc main_arg2) ↦{fullShare} rd (W11 m) c main_arg2))
  Y c := iprop((∃ r, prngReg c r) ∗ (((c : Thread nD τ).loc main_arg2) ↦{fullShare} rd (W11 m) c main_arg2)
    ∗ (((c : Thread nD τ).loc main_v51) ↦{fullShare} rd (W11 m) c main_v51))
  Z c := BI.bigSep (Pipeline.restRefs sig spec5 \ H5) fun b => (((c : Thread nD τ)).loc b) ↦{fullShare} rd (W11 m) c b
  hentry c := by
    have hsplit := Pipeline.arrays_of_unscopedBufs (p := 5) (pcfgs (F := F)) (adm m) (pdats m) (launch5 (F := F)).win (launch5 (F := F)).arr_whole c
      ((pdats m 5 c).share_full fun _ => rfl) (rd (W11 m) c) fun _ => rfl
    rw [Pipeline.unscopedBufs_held] at hsplit
    have hH : (Pipeline.unscopedRest (Ix := Unit) (Name := ℕ) (U := Pipeline.UD sig nD τ) (Lvl := ℕ) spec5 c (rd (W11 m) c) : sProp 𝕄)
        = iprop((BI.bigSep H5 fun b => (((c : Thread nD τ)).loc b) ↦{fullShare} rd (W11 m) c b) ∗ (BI.bigSep (Pipeline.restRefs sig spec5 \ H5) fun b => (((c : Thread nD τ)).loc b) ↦{fullShare} rd (W11 m) c b)) := by
      unfold Pipeline.unscopedRest; exact BI.bigSep_sdiff_split H5_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts5_eq (rd (W11 m)) c)) $$ HH
    icases H'' with ⟨Hw, Htb⟩
    imodintro
    isplitl [Ha]; · iexact Ha
    isplitl [Htb]
    · rw [show (Pipeline.prefHeld (pcfgs (F := F) 5).pre c (fun _ => fullShare) (adm m 5).1 : sProp 𝕄)
          = (((c : Thread nD τ).loc main_v51) ↦{fullShare} rd (W11 m) c main_v51) from prefHeld5_eq (rd (W11 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 5 c).Φ 0 = ΦG5 (rd (W11 m)) c from rfl,
      show (Pipeline.prefHeld (pcfgs (F := F) 5).pre c (fun _ => fullShare) (adm m 5).1 : sProp 𝕄)
          = (((c : Thread nD τ).loc main_v51) ↦{fullShare} rd (W11 m) c main_v51) from prefHeld5_eq (rd (W11 m)) c]
    unfold ΦG5
    rw [tbPt5_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 5 c).Φ (Fin.last _) = ΦG5 (rd (W11 m)) c from rfl]
    unfold ΦG5
    rw [tbPt5_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m) ((pdats m 5 c).share_full fun _ => rfl)
      (rd (W11 m) c) (rd (W12 m) c) ((pdats m 5 c).arrAt · (pcfgG5 (F := F) (rd (W11 m))).N) (hF5 m c) (hrest5 m c)
    rw [Pipeline.unscopedBufs_held] at hjoin
    have hH : (Pipeline.unscopedRest (Ix := Unit) (Name := ℕ) (U := Pipeline.UD sig nD τ) (Lvl := ℕ) spec5 c (rd (W11 m) c) : sProp 𝕄)
        = iprop((BI.bigSep H5 fun b => (((c : Thread nD τ)).loc b) ↦{fullShare} rd (W11 m) c b) ∗ (BI.bigSep (Pipeline.restRefs sig spec5 \ H5) fun b => (((c : Thread nD τ)).loc b) ↦{fullShare} rd (W11 m) c b)) := by
      unfold Pipeline.unscopedRest; exact BI.bigSep_sdiff_split H5_sub
    iintro ⟨Ha, HO, ⟨HY, Hw, Htb⟩, HR⟩
    ihave HH := (Entails.of_eq (hbmPts5_eq (rd (W11 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 6 as a segment of @main -/

theorem hF6 (c : Dev nD) (w : Fin 1) :
    (datG6 (rd (W13 (F := F) m)) (inRange6 m) c).arrAt w (pcfgG6 (F := F) (rd (W13 m))).N = rd (W14 m) c (Pipeline.arrRef spec6 w) := by
  match w with
  | ⟨0, _⟩ =>
    show _ = W14 m c (Proc.devRef .tc main_v55)
    unfold W14
    rw [Function.update_self]; rfl
theorem hrest6 (c : Dev nD) : ∀ b, b ∉ Finset.univ.image (Pipeline.arrRef spec6) → rd (F := F) (W14 m) c b = rd (F := F) (W13 m) c b := fun b hb => by
  have hne : b ≠ main_v55 := fun e => hb (Finset.mem_image.mpr ⟨0, Finset.mem_univ _, e.symm⟩)
  show W14 m c (Proc.devRef .tc b) = W13 m c (Proc.devRef .tc b)
  unfold W14
  rw [Function.update_of_ne (StableHlo.devRef_ne_of_ne hne)]

set_option backward.isDefEq.respectTransparency.types false in
/-- Gather region 6: entered with every unscoped buffer at `W13`, left at `W14`. The weight array and the table are
    taken out of the buffers that bypass the region and handed to its invariant, the table as the launch's prefetched
    table; the kernel's thirty-two DMA semaphores go in at zero and come back at zero. -/
def reg6 : Pipeline.RegionSeg (pcfgs (F := F)) (adm m) (pdats m) () defs₀ 𝒱₀ L lv 6 where
  win := (launch6 (F := F)).win.to₀
  block_pos := (launch6 (F := F)).block_pos
  stage_whole := (launch6 (F := F)).stage_whole
  K := Fin 32
  osem := osem6
  ho := ownSemFacts6
  hbody c := (body_obligationG6 (rd (W13 m)) (inRange6 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop((∃ r, prngReg c r) ∗ Pipeline.ownSems0 (Ix := Unit) (Name := ℕ) (U := Pipeline.UD sig nD τ) (Lvl := ℕ) (Val := Elt F) (τ := τ) osem6 c
    ∗ (((c : Thread nD τ).loc main_arg2) ↦{fullShare} rd (W13 m) c main_arg2))
  Y c := iprop((∃ r, prngReg c r) ∗ (((c : Thread nD τ).loc main_arg2) ↦{fullShare} rd (W13 m) c main_arg2)
    ∗ (((c : Thread nD τ).loc main_v54) ↦{fullShare} rd (W13 m) c main_v54))
  Z c := BI.bigSep (Pipeline.restRefs sig spec6 \ H6) fun b => (((c : Thread nD τ)).loc b) ↦{fullShare} rd (W13 m) c b
  hentry c := by
    have hsplit := Pipeline.arrays_of_unscopedBufs (p := 6) (pcfgs (F := F)) (adm m) (pdats m) (launch6 (F := F)).win (launch6 (F := F)).arr_whole c
      ((pdats m 6 c).share_full fun _ => rfl) (rd (W13 m) c) fun _ => rfl
    rw [Pipeline.unscopedBufs_held] at hsplit
    have hH : (Pipeline.unscopedRest (Ix := Unit) (Name := ℕ) (U := Pipeline.UD sig nD τ) (Lvl := ℕ) spec6 c (rd (W13 m) c) : sProp 𝕄)
        = iprop((BI.bigSep H6 fun b => (((c : Thread nD τ)).loc b) ↦{fullShare} rd (W13 m) c b) ∗ (BI.bigSep (Pipeline.restRefs sig spec6 \ H6) fun b => (((c : Thread nD τ)).loc b) ↦{fullShare} rd (W13 m) c b)) := by
      unfold Pipeline.unscopedRest; exact BI.bigSep_sdiff_split H6_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts6_eq (rd (W13 m)) c)) $$ HH
    icases H'' with ⟨Hw, Htb⟩
    imodintro
    isplitl [Ha]; · iexact Ha
    isplitl [Htb]
    · rw [show (Pipeline.prefHeld (pcfgs (F := F) 6).pre c (fun _ => fullShare) (adm m 6).1 : sProp 𝕄)
          = (((c : Thread nD τ).loc main_v54) ↦{fullShare} rd (W13 m) c main_v54) from prefHeld6_eq (rd (W13 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 6 c).Φ 0 = ΦG6 (rd (W13 m)) c from rfl,
      show (Pipeline.prefHeld (pcfgs (F := F) 6).pre c (fun _ => fullShare) (adm m 6).1 : sProp 𝕄)
          = (((c : Thread nD τ).loc main_v54) ↦{fullShare} rd (W13 m) c main_v54) from prefHeld6_eq (rd (W13 m)) c]
    unfold ΦG6
    rw [tbPt6_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 6 c).Φ (Fin.last _) = ΦG6 (rd (W13 m)) c from rfl]
    unfold ΦG6
    rw [tbPt6_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m) ((pdats m 6 c).share_full fun _ => rfl)
      (rd (W13 m) c) (rd (W14 m) c) ((pdats m 6 c).arrAt · (pcfgG6 (F := F) (rd (W13 m))).N) (hF6 m c) (hrest6 m c)
    rw [Pipeline.unscopedBufs_held] at hjoin
    have hH : (Pipeline.unscopedRest (Ix := Unit) (Name := ℕ) (U := Pipeline.UD sig nD τ) (Lvl := ℕ) spec6 c (rd (W13 m) c) : sProp 𝕄)
        = iprop((BI.bigSep H6 fun b => (((c : Thread nD τ)).loc b) ↦{fullShare} rd (W13 m) c b) ∗ (BI.bigSep (Pipeline.restRefs sig spec6 \ H6) fun b => (((c : Thread nD τ)).loc b) ↦{fullShare} rd (W13 m) c b)) := by
      unfold Pipeline.unscopedRest; exact BI.bigSep_sdiff_split H6_sub
    iintro ⟨Ha, HO, ⟨HY, Hw, Htb⟩, HR⟩
    ihave HH := (Entails.of_eq (hbmPts6_eq (rd (W13 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 7 as a segment of @main -/

theorem hF7 (c : Dev nD) (w : Fin 1) :
    (datG7 (rd (W15 (F := F) m)) (inRange7 m) c).arrAt w (pcfgG7 (F := F) (rd (W15 m))).N = rd (W16 m) c (Pipeline.arrRef spec7 w) := by
  match w with
  | ⟨0, _⟩ =>
    show _ = W16 m c (Proc.devRef .tc main_v58)
    unfold W16
    rw [Function.update_self]; rfl
theorem hrest7 (c : Dev nD) : ∀ b, b ∉ Finset.univ.image (Pipeline.arrRef spec7) → rd (F := F) (W16 m) c b = rd (F := F) (W15 m) c b := fun b hb => by
  have hne : b ≠ main_v58 := fun e => hb (Finset.mem_image.mpr ⟨0, Finset.mem_univ _, e.symm⟩)
  show W16 m c (Proc.devRef .tc b) = W15 m c (Proc.devRef .tc b)
  unfold W16
  rw [Function.update_of_ne (StableHlo.devRef_ne_of_ne hne)]

set_option backward.isDefEq.respectTransparency.types false in
/-- Gather region 7: entered with every unscoped buffer at `W15`, left at `W16`. The weight array and the table are
    taken out of the buffers that bypass the region and handed to its invariant, the table as the launch's prefetched
    table; the kernel's thirty-two DMA semaphores go in at zero and come back at zero. -/
def reg7 : Pipeline.RegionSeg (pcfgs (F := F)) (adm m) (pdats m) () defs₀ 𝒱₀ L lv 7 where
  win := (launch7 (F := F)).win.to₀
  block_pos := (launch7 (F := F)).block_pos
  stage_whole := (launch7 (F := F)).stage_whole
  K := Fin 32
  osem := osem7
  ho := ownSemFacts7
  hbody c := (body_obligationG7 (rd (W15 m)) (inRange7 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop((∃ r, prngReg c r) ∗ Pipeline.ownSems0 (Ix := Unit) (Name := ℕ) (U := Pipeline.UD sig nD τ) (Lvl := ℕ) (Val := Elt F) (τ := τ) osem7 c
    ∗ (((c : Thread nD τ).loc main_arg2) ↦{fullShare} rd (W15 m) c main_arg2))
  Y c := iprop((∃ r, prngReg c r) ∗ (((c : Thread nD τ).loc main_arg2) ↦{fullShare} rd (W15 m) c main_arg2)
    ∗ (((c : Thread nD τ).loc main_v57) ↦{fullShare} rd (W15 m) c main_v57))
  Z c := BI.bigSep (Pipeline.restRefs sig spec7 \ H7) fun b => (((c : Thread nD τ)).loc b) ↦{fullShare} rd (W15 m) c b
  hentry c := by
    have hsplit := Pipeline.arrays_of_unscopedBufs (p := 7) (pcfgs (F := F)) (adm m) (pdats m) (launch7 (F := F)).win (launch7 (F := F)).arr_whole c
      ((pdats m 7 c).share_full fun _ => rfl) (rd (W15 m) c) fun _ => rfl
    rw [Pipeline.unscopedBufs_held] at hsplit
    have hH : (Pipeline.unscopedRest (Ix := Unit) (Name := ℕ) (U := Pipeline.UD sig nD τ) (Lvl := ℕ) spec7 c (rd (W15 m) c) : sProp 𝕄)
        = iprop((BI.bigSep H7 fun b => (((c : Thread nD τ)).loc b) ↦{fullShare} rd (W15 m) c b) ∗ (BI.bigSep (Pipeline.restRefs sig spec7 \ H7) fun b => (((c : Thread nD τ)).loc b) ↦{fullShare} rd (W15 m) c b)) := by
      unfold Pipeline.unscopedRest; exact BI.bigSep_sdiff_split H7_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts7_eq (rd (W15 m)) c)) $$ HH
    icases H'' with ⟨Hw, Htb⟩
    imodintro
    isplitl [Ha]; · iexact Ha
    isplitl [Htb]
    · rw [show (Pipeline.prefHeld (pcfgs (F := F) 7).pre c (fun _ => fullShare) (adm m 7).1 : sProp 𝕄)
          = (((c : Thread nD τ).loc main_v57) ↦{fullShare} rd (W15 m) c main_v57) from prefHeld7_eq (rd (W15 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 7 c).Φ 0 = ΦG7 (rd (W15 m)) c from rfl,
      show (Pipeline.prefHeld (pcfgs (F := F) 7).pre c (fun _ => fullShare) (adm m 7).1 : sProp 𝕄)
          = (((c : Thread nD τ).loc main_v57) ↦{fullShare} rd (W15 m) c main_v57) from prefHeld7_eq (rd (W15 m)) c]
    unfold ΦG7
    rw [tbPt7_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 7 c).Φ (Fin.last _) = ΦG7 (rd (W15 m)) c from rfl]
    unfold ΦG7
    rw [tbPt7_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m) ((pdats m 7 c).share_full fun _ => rfl)
      (rd (W15 m) c) (rd (W16 m) c) ((pdats m 7 c).arrAt · (pcfgG7 (F := F) (rd (W15 m))).N) (hF7 m c) (hrest7 m c)
    rw [Pipeline.unscopedBufs_held] at hjoin
    have hH : (Pipeline.unscopedRest (Ix := Unit) (Name := ℕ) (U := Pipeline.UD sig nD τ) (Lvl := ℕ) spec7 c (rd (W15 m) c) : sProp 𝕄)
        = iprop((BI.bigSep H7 fun b => (((c : Thread nD τ)).loc b) ↦{fullShare} rd (W15 m) c b) ∗ (BI.bigSep (Pipeline.restRefs sig spec7 \ H7) fun b => (((c : Thread nD τ)).loc b) ↦{fullShare} rd (W15 m) c b)) := by
      unfold Pipeline.unscopedRest; exact BI.bigSep_sdiff_split H7_sub
    iintro ⟨Ha, HO, ⟨HY, Hw, Htb⟩, HR⟩
    ihave HH := (Entails.of_eq (hbmPts7_eq (rd (W15 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Gather region 8 as a segment of @main -/

theorem hF8 (c : Dev nD) (w : Fin 1) :
    (datG8 (rd (W17 (F := F) m)) (inRange8 m) c).arrAt w (pcfgG8 (F := F) (rd (W17 m))).N = rd (W18 m) c (Pipeline.arrRef spec8 w) := by
  match w with
  | ⟨0, _⟩ =>
    show _ = W18 m c (Proc.devRef .tc main_v61)
    unfold W18
    rw [Function.update_self]; rfl
theorem hrest8 (c : Dev nD) : ∀ b, b ∉ Finset.univ.image (Pipeline.arrRef spec8) → rd (F := F) (W18 m) c b = rd (F := F) (W17 m) c b := fun b hb => by
  have hne : b ≠ main_v61 := fun e => hb (Finset.mem_image.mpr ⟨0, Finset.mem_univ _, e.symm⟩)
  show W18 m c (Proc.devRef .tc b) = W17 m c (Proc.devRef .tc b)
  unfold W18
  rw [Function.update_of_ne (StableHlo.devRef_ne_of_ne hne)]

set_option backward.isDefEq.respectTransparency.types false in
/-- Gather region 8: entered with every unscoped buffer at `W17`, left at `W18`. The weight array and the table are
    taken out of the buffers that bypass the region and handed to its invariant, the table as the launch's prefetched
    table; the kernel's thirty-two DMA semaphores go in at zero and come back at zero. -/
def reg8 : Pipeline.RegionSeg (pcfgs (F := F)) (adm m) (pdats m) () defs₀ 𝒱₀ L lv 8 where
  win := (launch8 (F := F)).win.to₀
  block_pos := (launch8 (F := F)).block_pos
  stage_whole := (launch8 (F := F)).stage_whole
  K := Fin 32
  osem := osem8
  ho := ownSemFacts8
  hbody c := (body_obligationG8 (rd (W17 m)) (inRange8 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop((∃ r, prngReg c r) ∗ Pipeline.ownSems0 (Ix := Unit) (Name := ℕ) (U := Pipeline.UD sig nD τ) (Lvl := ℕ) (Val := Elt F) (τ := τ) osem8 c
    ∗ (((c : Thread nD τ).loc main_arg2) ↦{fullShare} rd (W17 m) c main_arg2))
  Y c := iprop((∃ r, prngReg c r) ∗ (((c : Thread nD τ).loc main_arg2) ↦{fullShare} rd (W17 m) c main_arg2)
    ∗ (((c : Thread nD τ).loc main_v60) ↦{fullShare} rd (W17 m) c main_v60))
  Z c := BI.bigSep (Pipeline.restRefs sig spec8 \ H8) fun b => (((c : Thread nD τ)).loc b) ↦{fullShare} rd (W17 m) c b
  hentry c := by
    have hsplit := Pipeline.arrays_of_unscopedBufs (p := 8) (pcfgs (F := F)) (adm m) (pdats m) (launch8 (F := F)).win (launch8 (F := F)).arr_whole c
      ((pdats m 8 c).share_full fun _ => rfl) (rd (W17 m) c) fun _ => rfl
    rw [Pipeline.unscopedBufs_held] at hsplit
    have hH : (Pipeline.unscopedRest (Ix := Unit) (Name := ℕ) (U := Pipeline.UD sig nD τ) (Lvl := ℕ) spec8 c (rd (W17 m) c) : sProp 𝕄)
        = iprop((BI.bigSep H8 fun b => (((c : Thread nD τ)).loc b) ↦{fullShare} rd (W17 m) c b) ∗ (BI.bigSep (Pipeline.restRefs sig spec8 \ H8) fun b => (((c : Thread nD τ)).loc b) ↦{fullShare} rd (W17 m) c b)) := by
      unfold Pipeline.unscopedRest; exact BI.bigSep_sdiff_split H8_sub
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (hbmPts8_eq (rd (W17 m)) c)) $$ HH
    icases H'' with ⟨Hw, Htb⟩
    imodintro
    isplitl [Ha]; · iexact Ha
    isplitl [Htb]
    · rw [show (Pipeline.prefHeld (pcfgs (F := F) 8).pre c (fun _ => fullShare) (adm m 8).1 : sProp 𝕄)
          = (((c : Thread nD τ).loc main_v60) ↦{fullShare} rd (W17 m) c main_v60) from prefHeld8_eq (rd (W17 m)) c]
      iexact Htb
    isplitl [HO]
    · unfold Pipeline.Dat.owesAt Pipeline.owesWithin
      icases HO with ⟨%W, HO⟩; iexists W; isplitr; · ipureintro; exact fun _ _ => Or.inl trivial
      iexact HO
    isplitl [Hp Hos Hw]
    · isplitl [Hp]; · iexact Hp
      isplitl [Hos]; · iexact Hos
      iexact Hw
    iexact HR
  hin c := by
    rw [show (pdats m 8 c).Φ 0 = ΦG8 (rd (W17 m)) c from rfl,
      show (Pipeline.prefHeld (pcfgs (F := F) 8).pre c (fun _ => fullShare) (adm m 8).1 : sProp 𝕄)
          = (((c : Thread nD τ).loc main_v60) ↦{fullShare} rd (W17 m) c main_v60) from prefHeld8_eq (rd (W17 m)) c]
    unfold ΦG8
    rw [tbPt8_eq]
    iintro ⟨⟨Hp, Ho, Hw⟩, Htb, Hr⟩
    isplitl [Hr]; · iexact Hr
    isplitl [Hp]; · iexact Hp
    isplitl [Ho]; · iexact Ho
    isplitl [Hw]; · iexact Hw
    iexact Htb
  hout c := by
    rw [show (pdats m 8 c).Φ (Fin.last _) = ΦG8 (rd (W17 m)) c from rfl]
    unfold ΦG8
    rw [tbPt8_eq]
    iintro ⟨Hr, Hp, Ho, Hw, Htb⟩
    isplitl [Hp Hw Htb]
    · isplitl [Hp]; · iexact Hp
      isplitl [Hw]; · iexact Hw
      iexact Htb
    isplitl [Ho]; · iexact Ho
    iexact Hr
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m) ((pdats m 8 c).share_full fun _ => rfl)
      (rd (W17 m) c) (rd (W18 m) c) ((pdats m 8 c).arrAt · (pcfgG8 (F := F) (rd (W17 m))).N) (hF8 m c) (hrest8 m c)
    rw [Pipeline.unscopedBufs_held] at hjoin
    have hH : (Pipeline.unscopedRest (Ix := Unit) (Name := ℕ) (U := Pipeline.UD sig nD τ) (Lvl := ℕ) spec8 c (rd (W17 m) c) : sProp 𝕄)
        = iprop((BI.bigSep H8 fun b => (((c : Thread nD τ)).loc b) ↦{fullShare} rd (W17 m) c b) ∗ (BI.bigSep (Pipeline.restRefs sig spec8 \ H8) fun b => (((c : Thread nD τ)).loc b) ↦{fullShare} rd (W17 m) c b)) := by
      unfold Pipeline.unscopedRest; exact BI.bigSep_sdiff_split H8_sub
    iintro ⟨Ha, HO, ⟨HY, Hw, Htb⟩, HR⟩
    ihave HH := (Entails.of_eq (hbmPts8_eq (rd (W17 m)) c).symm) $$ [Hw Htb]
    · isplitl [Hw]; · iexact Hw
      iexact Htb
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The generated boundary valuations, at these results, are the `W`s -/

/-- What each region leaves in the buffer it may change, read off the boundary contents. -/
def outsW : Outs (F := F) := fun J r c =>
  match J with
  | 2 => W2 m c (Proc.devRef .tc r)
  | 4 => W4 m c (Proc.devRef .tc r)
  | 6 => W6 m c (Proc.devRef .tc r)
  | 8 => W8 m c (Proc.devRef .tc r)
  | 10 => W10 m c (Proc.devRef .tc r)
  | 12 => W12 m c (Proc.devRef .tc r)
  | 14 => W14 m c (Proc.devRef .tc r)
  | 16 => W16 m c (Proc.devRef .tc r)
  | 18 => W18 m c (Proc.devRef .tc r)
  | _ => W0 m c (Proc.devRef .tc r)

theorem V1_eq (c : Dev nD) : V1 m c = W1 (F := F) m c := rfl
theorem V2_eq (c : Dev nD) : V2 m (outsW m) c = W2 (F := F) m c := by
  show Function.update (V1 m c) (Proc.devRef .tc main_v2) (W2 m c (Proc.devRef .tc main_v2)) = W2 m c
  rw [V1_eq]; unfold W2; rw [Function.update_self]
theorem V3_eq (c : Dev nD) : V3 m (outsW m) c = W3 (F := F) m c := by
  show StableHlo.after hostOps1 (V2 m (outsW m) c) = W3 m c
  rw [V2_eq]; rfl
theorem V4_eq (c : Dev nD) : V4 m (outsW m) c = W4 (F := F) m c := by
  show Function.update (V3 m (outsW m) c) (Proc.devRef .tc main_v35) (W4 m c (Proc.devRef .tc main_v35)) = W4 m c
  rw [V3_eq]; unfold W4; rw [Function.update_self]
theorem V5_eq (c : Dev nD) : V5 m (outsW m) c = W5 (F := F) m c := by
  show StableHlo.after hostOps2 (V4 m (outsW m) c) = W5 m c
  rw [V4_eq]; rfl
theorem V6_eq (c : Dev nD) : V6 m (outsW m) c = W6 (F := F) m c := by
  show Function.update (V5 m (outsW m) c) (Proc.devRef .tc main_v38) (W6 m c (Proc.devRef .tc main_v38)) = W6 m c
  rw [V5_eq]; unfold W6; rw [Function.update_self]
theorem V7_eq (c : Dev nD) : V7 m (outsW m) c = W7 (F := F) m c := by
  show StableHlo.after hostOps3 (V6 m (outsW m) c) = W7 m c
  rw [V6_eq]; rfl
theorem V8_eq (c : Dev nD) : V8 m (outsW m) c = W8 (F := F) m c := by
  show Function.update (V7 m (outsW m) c) (Proc.devRef .tc main_v41) (W8 m c (Proc.devRef .tc main_v41)) = W8 m c
  rw [V7_eq]; unfold W8; rw [Function.update_self]
theorem V9_eq (c : Dev nD) : V9 m (outsW m) c = W9 (F := F) m c := by
  show StableHlo.after hostOps4 (V8 m (outsW m) c) = W9 m c
  rw [V8_eq]; rfl
theorem V10_eq (c : Dev nD) : V10 m (outsW m) c = W10 (F := F) m c := by
  show Function.update (V9 m (outsW m) c) (Proc.devRef .tc main_v44) (W10 m c (Proc.devRef .tc main_v44)) = W10 m c
  rw [V9_eq]; unfold W10; rw [Function.update_self]
theorem V11_eq (c : Dev nD) : V11 m (outsW m) c = W11 (F := F) m c := by
  show StableHlo.after hostOps5 (V10 m (outsW m) c) = W11 m c
  rw [V10_eq]; rfl
theorem V12_eq (c : Dev nD) : V12 m (outsW m) c = W12 (F := F) m c := by
  show Function.update (V11 m (outsW m) c) (Proc.devRef .tc main_v52) (W12 m c (Proc.devRef .tc main_v52)) = W12 m c
  rw [V11_eq]; unfold W12; rw [Function.update_self]
theorem V13_eq (c : Dev nD) : V13 m (outsW m) c = W13 (F := F) m c := by
  show StableHlo.after hostOps6 (V12 m (outsW m) c) = W13 m c
  rw [V12_eq]; rfl
theorem V14_eq (c : Dev nD) : V14 m (outsW m) c = W14 (F := F) m c := by
  show Function.update (V13 m (outsW m) c) (Proc.devRef .tc main_v55) (W14 m c (Proc.devRef .tc main_v55)) = W14 m c
  rw [V13_eq]; unfold W14; rw [Function.update_self]
theorem V15_eq (c : Dev nD) : V15 m (outsW m) c = W15 (F := F) m c := by
  show StableHlo.after hostOps7 (V14 m (outsW m) c) = W15 m c
  rw [V14_eq]; rfl
theorem V16_eq (c : Dev nD) : V16 m (outsW m) c = W16 (F := F) m c := by
  show Function.update (V15 m (outsW m) c) (Proc.devRef .tc main_v58) (W16 m c (Proc.devRef .tc main_v58)) = W16 m c
  rw [V15_eq]; unfold W16; rw [Function.update_self]
theorem V17_eq (c : Dev nD) : V17 m (outsW m) c = W17 (F := F) m c := by
  show StableHlo.after hostOps8 (V16 m (outsW m) c) = W17 m c
  rw [V16_eq]; rfl
theorem V18_eq (c : Dev nD) : V18 m (outsW m) c = W18 (F := F) m c := by
  show Function.update (V17 m (outsW m) c) (Proc.devRef .tc main_v61) (W18 m c (Proc.devRef .tc main_v61)) = W18 m c
  rw [V17_eq]; unfold W18; rw [Function.update_self]
theorem V19_eq (c : Dev nD) : V19 m (outsW m) c = W19 (F := F) m c := by
  show StableHlo.after hostOps9 (V18 m (outsW m) c) = W19 m c
  rw [V18_eq]; rfl

variable (ρ : Dev nD → PrngReg)

set_option backward.isDefEq.respectTransparency.types false in
/-- THE FRAME, at any float instance: every weakly fair execution of @main from memory `m` terminates, nothing faults, and
    the three argument arrays end as launched — the nine regions' records chained through @main's host stretches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m (Ix := Unit) (U := Pipeline.UD sig nD τ) (Lvl := ℕ) embL () 𝒱₀ L lv (fun _ _ => rfl) ρ (outsW m) (adm m) (pdats m)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ BI.bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

end Run

end Cert.KernelIdeal.Hand

end
-- ==== Proof.KernelIdealRunValue.lean ====
/-
  The kernel program's run with its result named: the chaining of the nine regions' records through @main's host
  stretches, stated with one more conjunct than the frame — the result array ends at the contents the last
  boundary gives it.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.Gen.KernelIdeal.Regions
import proofs.«145402_j1717986918579_1_alg».proof.Proof.KernelIdealFrame

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The run with the result named

The conditional frame's statement with one more conjunct — the result array ends at the last boundary's contents —
by the same chaining of the segments; the last valuation is read at the result's buffer as it is at the arguments'. -/

section RunCond
open Idealize.ShloMosaic.Pipeline (Dat Seg HostSeg RegionSeg)
variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 9) → (pcfgs (F := F) p).Adm)
    (pdats : (p : Fin 9) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) a pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) a pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) a pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) a pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) a pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) a pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c)) :
    θ_run defs (onTc (τ := τ) (main (F := F))) ⟨m, fun _ => 0, ρ⟩ (fun r => ∀ c : Dev nD,
      r.2.mem ((c.tc : Thread nD τ).loc main_v70) = V19 m outs c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2 R3 R4 R5 R6 R7 R8)
    (fun c Q => by
      rewrite [main_chain c, Seg.run_eq_chain,
        show (segs m outs 𝒱₀ L lv E ι a pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, sep_mono .rfl (hE9 c)⟩)
    (hinit := ?_) (QY := fun c s => s.mem ((c.tc : Thread nD τ).loc main_v70) = V19 m outs c main_v70 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      exact ⟨h (Proc.devRef .tc main_v70) (Finset.mem_filter.mpr ⟨StableHlo.devRef_mem_tcRefs main_v70, by decide⟩),
        (h (Proc.devRef .tc main_arg0) (Finset.mem_filter.mpr ⟨StableHlo.devRef_mem_tcRefs main_arg0, by decide⟩)).trans (V19_main_arg0 m outs c),
        (h (Proc.devRef .tc main_arg1) (Finset.mem_filter.mpr ⟨StableHlo.devRef_mem_tcRefs main_arg1, by decide⟩)).trans (V19_main_arg1 m outs c),
        (h (Proc.devRef .tc main_arg2) (Finset.mem_filter.mpr ⟨StableHlo.devRef_mem_tcRefs main_arg2, by decide⟩)).trans (V19_main_arg2 m outs c)⟩
    · iexact HSI

end RunCond

section RunV
variable (m : (ℓ : Loc nD τ sig) → Buf (Elt F) ℓ)
variable (ρ : Dev nD → PrngReg)

set_option backward.isDefEq.respectTransparency.types false in
/-- THE RUN WITH THE RESULT NAMED, at any float instance: as the frame, and the result array ends at the last boundary's contents. -/
theorem run_value0 : θ_run defs (onTc (τ := τ) (main (F := F))) ⟨m, fun _ => 0, ρ⟩ (fun r => ∀ c : Dev nD,
      r.2.mem ((c.tc : Thread nD τ).loc main_v70) = V19 m (outsW m) c main_v70
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond (F := F) m (Ix := Unit) (U := Pipeline.UD sig nD τ) (Lvl := ℕ) embL () 𝒱₀ L lv (fun _ _ => rfl) ρ (outsW m) (adm m) (pdats m)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ BI.bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, HO⟩; iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V5_eq]; exact .rfl) (fun c => by rw [V6_eq]; exact .rfl)
    (reg3 m) (fun c => by rw [V7_eq]; exact .rfl) (fun c => by rw [V8_eq]; exact .rfl)
    (reg4 m) (fun c => by rw [V9_eq]; exact .rfl) (fun c => by rw [V10_eq]; exact .rfl)
    (reg5 m) (fun c => by rw [V11_eq]; exact .rfl) (fun c => by rw [V12_eq]; exact .rfl)
    (reg6 m) (fun c => by rw [V13_eq]; exact .rfl) (fun c => by rw [V14_eq]; exact .rfl)
    (reg7 m) (fun c => by rw [V15_eq]; exact .rfl) (fun c => by rw [V16_eq]; exact .rfl)
    (reg8 m) (fun c => by rw [V17_eq]; exact .rfl) (fun c => by rw [V18_eq]; exact .rfl)

/-- The same with the last boundary's contents spelt `W19`. -/
theorem run_value : θ_run defs (onTc (τ := τ) (main (F := F))) ⟨m, fun _ => 0, ρ⟩ (fun r => ∀ c : Dev nD,
      r.2.mem ((c.tc : Thread nD τ).loc main_v70) = W19 m c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (by rw [V19_eq]), (h c).2⟩) (run_value0 m ρ)

end RunV

end Cert.KernelIdeal.Hand

end
-- ==== Proof.KernelIdealKeep.lean ====
/-
  Bookkeeping over the boundary contents `W` of @main: a buffer that no later host stretch and no later region writes
  holds at every later boundary what it held when it was written — the argument arrays what was launched, each
  region's result what the region left, the transposed row-index array what the first long host stretch computed.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.Gen.KernelIdeal.Regions
import proofs.«145402_j1717986918579_1_alg».proof.Proof.KernelIdealFrame

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Keep
variable (m : (ℓ : Loc nD τ sig) → Buf (Elt F) ℓ)

/-! ## Buffers no later item writes keep their contents -/
theorem keep_arg2_1 (c : Dev nD) : W1 (F := F) m c (Proc.devRef .tc main_arg2) = W0 m c (Proc.devRef .tc main_arg2) := by
  unfold W1
  exact StableHlo.after_of_writes_sub hostOps0 _ hostOps0_writes (by decide : main_arg2 ∉ hostOps0_W)
theorem keep_arg2_2 (c : Dev nD) : W2 (F := F) m c (Proc.devRef .tc main_arg2) = W1 m c (Proc.devRef .tc main_arg2) := by
  unfold W2
  rw [Function.update_of_ne (StableHlo.devRef_ne_of_ne (by decide : (main_arg2 : Ref sig .tc) ≠ main_v2) : (Proc.devRef .tc main_arg2 : DevRef τ sig) ≠ Proc.devRef .tc main_v2)]
theorem keep_arg2_3 (c : Dev nD) : W3 (F := F) m c (Proc.devRef .tc main_arg2) = W2 m c (Proc.devRef .tc main_arg2) := by
  unfold W3
  exact StableHlo.after_of_writes_sub hostOps1 _ hostOps1_writes (by decide : main_arg2 ∉ hostOps1_W)
theorem keep_arg2_4 (c : Dev nD) : W4 (F := F) m c (Proc.devRef .tc main_arg2) = W3 m c (Proc.devRef .tc main_arg2) := by
  unfold W4
  rw [Function.update_of_ne (StableHlo.devRef_ne_of_ne (by decide : (main_arg2 : Ref sig .tc) ≠ main_v35) : (Proc.devRef .tc main_arg2 : DevRef τ sig) ≠ Proc.devRef .tc main_v35)]
theorem keep_arg2_5 (c : Dev nD) : W5 (F := F) m c (Proc.devRef .tc main_arg2) = W4 m c (Proc.devRef .tc main_arg2) := by
  unfold W5
  exact StableHlo.after_of_writes_sub hostOps2 _ hostOps2_writes (by decide : main_arg2 ∉ hostOps2_W)
theorem keep_arg2_6 (c : Dev nD) : W6 (F := F) m c (Proc.devRef .tc main_arg2) = W5 m c (Proc.devRef .tc main_arg2) := by
  unfold W6
  rw [Function.update_of_ne (StableHlo.devRef_ne_of_ne (by decide : (main_arg2 : Ref sig .tc) ≠ main_v38) : (Proc.devRef .tc main_arg2 : DevRef τ sig) ≠ Proc.devRef .tc main_v38)]
theorem keep_arg2_7 (c : Dev nD) : W7 (F := F) m c (Proc.devRef .tc main_arg2) = W6 m c (Proc.devRef .tc main_arg2) := by
  unfold W7
  exact StableHlo.after_of_writes_sub hostOps3 _ hostOps3_writes (by decide : main_arg2 ∉ hostOps3_W)
theorem keep_arg2_8 (c : Dev nD) : W8 (F := F) m c (Proc.devRef .tc main_arg2) = W7 m c (Proc.devRef .tc main_arg2) := by
  unfold W8
  rw [Function.update_of_ne (StableHlo.devRef_ne_of_ne (by decide : (main_arg2 : Ref sig .tc) ≠ main_v41) : (Proc.devRef .tc main_arg2 : DevRef τ sig) ≠ Proc.devRef .tc main_v41)]
theorem keep_arg2_9 (c : Dev nD) : W9 (F := F) m c (Proc.devRef .tc main_arg2) = W8 m c (Proc.devRef .tc main_arg2) := by
  unfold W9
  exact StableHlo.after_of_writes_sub hostOps4 _ hostOps4_writes (by decide : main_arg2 ∉ hostOps4_W)
theorem keep_arg2_10 (c : Dev nD) : W10 (F := F) m c (Proc.devRef .tc main_arg2) = W9 m c (Proc.devRef .tc main_arg2) := by
  unfold W10
  rw [Function.update_of_ne (StableHlo.devRef_ne_of_ne (by decide : (main_arg2 : Ref sig .tc) ≠ main_v44) : (Proc.devRef .tc main_arg2 : DevRef τ sig) ≠ Proc.devRef .tc main_v44)]
theorem keep_arg2_11 (c : Dev nD) : W11 (F := F) m c (Proc.devRef .tc main_arg2) = W10 m c (Proc.devRef .tc main_arg2) := by
  unfold W11
  exact StableHlo.after_of_writes_sub hostOps5 _ hostOps5_writes (by decide : main_arg2 ∉ hostOps5_W)
theorem keep_arg2_12 (c : Dev nD) : W12 (F := F) m c (Proc.devRef .tc main_arg2) = W11 m c (Proc.devRef .tc main_arg2) := by
  unfold W12
  rw [Function.update_of_ne (StableHlo.devRef_ne_of_ne (by decide : (main_arg2 : Ref sig .tc) ≠ main_v52) : (Proc.devRef .tc main_arg2 : DevRef τ sig) ≠ Proc.devRef .tc main_v52)]
theorem keep_arg2_13 (c : Dev nD) : W13 (F := F) m c (Proc.devRef .tc main_arg2) = W12 m c (Proc.devRef .tc main_arg2) := by
  unfold W13
  exact StableHlo.after_of_writes_sub hostOps6 _ hostOps6_writes (by decide : main_arg2 ∉ hostOps6_W)
theorem keep_arg2_14 (c : Dev nD) : W14 (F := F) m c (Proc.devRef .tc main_arg2) = W13 m c (Proc.devRef .tc main_arg2) := by
  unfold W14
  rw [Function.update_of_ne (StableHlo.devRef_ne_of_ne (by decide : (main_arg2 : Ref sig .tc) ≠ main_v55) : (Proc.devRef .tc main_arg2 : DevRef τ sig) ≠ Proc.devRef .tc main_v55)]
theorem keep_arg2_15 (c : Dev nD) : W15 (F := F) m c (Proc.devRef .tc main_arg2) = W14 m c (Proc.devRef .tc main_arg2) := by
  unfold W15
  exact StableHlo.after_of_writes_sub hostOps7 _ hostOps7_writes (by decide : main_arg2 ∉ hostOps7_W)
theorem keep_arg2_16 (c : Dev nD) : W16 (F := F) m c (Proc.devRef .tc main_arg2) = W15 m c (Proc.devRef .tc main_arg2) := by
  unfold W16
  rw [Function.update_of_ne (StableHlo.devRef_ne_of_ne (by decide : (main_arg2 : Ref sig .tc) ≠ main_v58) : (Proc.devRef .tc main_arg2 : DevRef τ sig) ≠ Proc.devRef .tc main_v58)]
theorem keep_arg2_17 (c : Dev nD) : W17 (F := F) m c (Proc.devRef .tc main_arg2) = W16 m c (Proc.devRef .tc main_arg2) := by
  unfold W17
  exact StableHlo.after_of_writes_sub hostOps8 _ hostOps8_writes (by decide : main_arg2 ∉ hostOps8_W)
theorem keep_arg0_1 (c : Dev nD) : W1 (F := F) m c (Proc.devRef .tc main_arg0) = W0 m c (Proc.devRef .tc main_arg0) := by
  unfold W1
  exact StableHlo.after_of_writes_sub hostOps0 _ hostOps0_writes (by decide : main_arg0 ∉ hostOps0_W)
theorem keep_arg1_1 (c : Dev nD) : W1 (F := F) m c (Proc.devRef .tc main_arg1) = W0 m c (Proc.devRef .tc main_arg1) := by
  unfold W1
  exact StableHlo.after_of_writes_sub hostOps0 _ hostOps0_writes (by decide : main_arg1 ∉ hostOps0_W)
theorem keep_o1_5 (c : Dev nD) : W5 (F := F) m c (Proc.devRef .tc main_v35) = W4 m c (Proc.devRef .tc main_v35) := by
  unfold W5
  exact StableHlo.after_of_writes_sub hostOps2 _ hostOps2_writes (by decide : main_v35 ∉ hostOps2_W)
theorem keep_o1_6 (c : Dev nD) : W6 (F := F) m c (Proc.devRef .tc main_v35) = W5 m c (Proc.devRef .tc main_v35) := by
  unfold W6
  rw [Function.update_of_ne (StableHlo.devRef_ne_of_ne (by decide : (main_v35 : Ref sig .tc) ≠ main_v38) : (Proc.devRef .tc main_v35 : DevRef τ sig) ≠ Proc.devRef .tc main_v38)]
theorem keep_o1_7 (c : Dev nD) : W7 (F := F) m c (Proc.devRef .tc main_v35) = W6 m c (Proc.devRef .tc main_v35) := by
  unfold W7
  exact StableHlo.after_of_writes_sub hostOps3 _ hostOps3_writes (by decide : main_v35 ∉ hostOps3_W)
theorem keep_o1_8 (c : Dev nD) : W8 (F := F) m c (Proc.devRef .tc main_v35) = W7 m c (Proc.devRef .tc main_v35) := by
  unfold W8
  rw [Function.update_of_ne (StableHlo.devRef_ne_of_ne (by decide : (main_v35 : Ref sig .tc) ≠ main_v41) : (Proc.devRef .tc main_v35 : DevRef τ sig) ≠ Proc.devRef .tc main_v41)]
theorem keep_o1_9 (c : Dev nD) : W9 (F := F) m c (Proc.devRef .tc main_v35) = W8 m c (Proc.devRef .tc main_v35) := by
  unfold W9
  exact StableHlo.after_of_writes_sub hostOps4 _ hostOps4_writes (by decide : main_v35 ∉ hostOps4_W)
theorem keep_o1_10 (c : Dev nD) : W10 (F := F) m c (Proc.devRef .tc main_v35) = W9 m c (Proc.devRef .tc main_v35) := by
  unfold W10
  rw [Function.update_of_ne (StableHlo.devRef_ne_of_ne (by decide : (main_v35 : Ref sig .tc) ≠ main_v44) : (Proc.devRef .tc main_v35 : DevRef τ sig) ≠ Proc.devRef .tc main_v44)]
theorem keep_o2_7 (c : Dev nD) : W7 (F := F) m c (Proc.devRef .tc main_v38) = W6 m c (Proc.devRef .tc main_v38) := by
  unfold W7
  exact StableHlo.after_of_writes_sub hostOps3 _ hostOps3_writes (by decide : main_v38 ∉ hostOps3_W)
theorem keep_o2_8 (c : Dev nD) : W8 (F := F) m c (Proc.devRef .tc main_v38) = W7 m c (Proc.devRef .tc main_v38) := by
  unfold W8
  rw [Function.update_of_ne (StableHlo.devRef_ne_of_ne (by decide : (main_v38 : Ref sig .tc) ≠ main_v41) : (Proc.devRef .tc main_v38 : DevRef τ sig) ≠ Proc.devRef .tc main_v41)]
theorem keep_o2_9 (c : Dev nD) : W9 (F := F) m c (Proc.devRef .tc main_v38) = W8 m c (Proc.devRef .tc main_v38) := by
  unfold W9
  exact StableHlo.after_of_writes_sub hostOps4 _ hostOps4_writes (by decide : main_v38 ∉ hostOps4_W)
theorem keep_o2_10 (c : Dev nD) : W10 (F := F) m c (Proc.devRef .tc main_v38) = W9 m c (Proc.devRef .tc main_v38) := by
  unfold W10
  rw [Function.update_of_ne (StableHlo.devRef_ne_of_ne (by decide : (main_v38 : Ref sig .tc) ≠ main_v44) : (Proc.devRef .tc main_v38 : DevRef τ sig) ≠ Proc.devRef .tc main_v44)]
theorem keep_o3_9 (c : Dev nD) : W9 (F := F) m c (Proc.devRef .tc main_v41) = W8 m c (Proc.devRef .tc main_v41) := by
  unfold W9
  exact StableHlo.after_of_writes_sub hostOps4 _ hostOps4_writes (by decide : main_v41 ∉ hostOps4_W)
theorem keep_o3_10 (c : Dev nD) : W10 (F := F) m c (Proc.devRef .tc main_v41) = W9 m c (Proc.devRef .tc main_v41) := by
  unfold W10
  rw [Function.update_of_ne (StableHlo.devRef_ne_of_ne (by decide : (main_v41 : Ref sig .tc) ≠ main_v44) : (Proc.devRef .tc main_v41 : DevRef τ sig) ≠ Proc.devRef .tc main_v44)]
theorem keep_o5_13 (c : Dev nD) : W13 (F := F) m c (Proc.devRef .tc main_v52) = W12 m c (Proc.devRef .tc main_v52) := by
  unfold W13
  exact StableHlo.after_of_writes_sub hostOps6 _ hostOps6_writes (by decide : main_v52 ∉ hostOps6_W)
theorem keep_o5_14 (c : Dev nD) : W14 (F := F) m c (Proc.devRef .tc main_v52) = W13 m c (Proc.devRef .tc main_v52) := by
  unfold W14
  rw [Function.update_of_ne (StableHlo.devRef_ne_of_ne (by decide : (main_v52 : Ref sig .tc) ≠ main_v55) : (Proc.devRef .tc main_v52 : DevRef τ sig) ≠ Proc.devRef .tc main_v55)]
theorem keep_o5_15 (c : Dev nD) : W15 (F := F) m c (Proc.devRef .tc main_v52) = W14 m c (Proc.devRef .tc main_v52) := by
  unfold W15
  exact StableHlo.after_of_writes_sub hostOps7 _ hostOps7_writes (by decide : main_v52 ∉ hostOps7_W)
theorem keep_o5_16 (c : Dev nD) : W16 (F := F) m c (Proc.devRef .tc main_v52) = W15 m c (Proc.devRef .tc main_v52) := by
  unfold W16
  rw [Function.update_of_ne (StableHlo.devRef_ne_of_ne (by decide : (main_v52 : Ref sig .tc) ≠ main_v58) : (Proc.devRef .tc main_v52 : DevRef τ sig) ≠ Proc.devRef .tc main_v58)]
theorem keep_o5_17 (c : Dev nD) : W17 (F := F) m c (Proc.devRef .tc main_v52) = W16 m c (Proc.devRef .tc main_v52) := by
  unfold W17
  exact StableHlo.after_of_writes_sub hostOps8 _ hostOps8_writes (by decide : main_v52 ∉ hostOps8_W)
theorem keep_o5_18 (c : Dev nD) : W18 (F := F) m c (Proc.devRef .tc main_v52) = W17 m c (Proc.devRef .tc main_v52) := by
  unfold W18
  rw [Function.update_of_ne (StableHlo.devRef_ne_of_ne (by decide : (main_v52 : Ref sig .tc) ≠ main_v61) : (Proc.devRef .tc main_v52 : DevRef τ sig) ≠ Proc.devRef .tc main_v61)]
theorem keep_o6_15 (c : Dev nD) : W15 (F := F) m c (Proc.devRef .tc main_v55) = W14 m c (Proc.devRef .tc main_v55) := by
  unfold W15
  exact StableHlo.after_of_writes_sub hostOps7 _ hostOps7_writes (by decide : main_v55 ∉ hostOps7_W)
theorem keep_o6_16 (c : Dev nD) : W16 (F := F) m c (Proc.devRef .tc main_v55) = W15 m c (Proc.devRef .tc main_v55) := by
  unfold W16
  rw [Function.update_of_ne (StableHlo.devRef_ne_of_ne (by decide : (main_v55 : Ref sig .tc) ≠ main_v58) : (Proc.devRef .tc main_v55 : DevRef τ sig) ≠ Proc.devRef .tc main_v58)]
theorem keep_o6_17 (c : Dev nD) : W17 (F := F) m c (Proc.devRef .tc main_v55) = W16 m c (Proc.devRef .tc main_v55) := by
  unfold W17
  exact StableHlo.after_of_writes_sub hostOps8 _ hostOps8_writes (by decide : main_v55 ∉ hostOps8_W)
theorem keep_o6_18 (c : Dev nD) : W18 (F := F) m c (Proc.devRef .tc main_v55) = W17 m c (Proc.devRef .tc main_v55) := by
  unfold W18
  rw [Function.update_of_ne (StableHlo.devRef_ne_of_ne (by decide : (main_v55 : Ref sig .tc) ≠ main_v61) : (Proc.devRef .tc main_v55 : DevRef τ sig) ≠ Proc.devRef .tc main_v61)]
theorem keep_o7_17 (c : Dev nD) : W17 (F := F) m c (Proc.devRef .tc main_v58) = W16 m c (Proc.devRef .tc main_v58) := by
  unfold W17
  exact StableHlo.after_of_writes_sub hostOps8 _ hostOps8_writes (by decide : main_v58 ∉ hostOps8_W)
theorem keep_o7_18 (c : Dev nD) : W18 (F := F) m c (Proc.devRef .tc main_v58) = W17 m c (Proc.devRef .tc main_v58) := by
  unfold W18
  rw [Function.update_of_ne (StableHlo.devRef_ne_of_ne (by decide : (main_v58 : Ref sig .tc) ≠ main_v61) : (Proc.devRef .tc main_v58 : DevRef τ sig) ≠ Proc.devRef .tc main_v61)]
theorem keep_v49_12 (c : Dev nD) : W12 (F := F) m c (Proc.devRef .tc main_v49) = W11 m c (Proc.devRef .tc main_v49) := by
  unfold W12
  rw [Function.update_of_ne (StableHlo.devRef_ne_of_ne (by decide : (main_v49 : Ref sig .tc) ≠ main_v52) : (Proc.devRef .tc main_v49 : DevRef τ sig) ≠ Proc.devRef .tc main_v52)]
theorem keep_v49_13 (c : Dev nD) : W13 (F := F) m c (Proc.devRef .tc main_v49) = W12 m c (Proc.devRef .tc main_v49) := by
  unfold W13
  exact StableHlo.after_of_writes_sub hostOps6 _ hostOps6_writes (by decide : main_v49 ∉ hostOps6_W)
theorem keep_v49_14 (c : Dev nD) : W14 (F := F) m c (Proc.devRef .tc main_v49) = W13 m c (Proc.devRef .tc main_v49) := by
  unfold W14
  rw [Function.update_of_ne (StableHlo.devRef_ne_of_ne (by decide : (main_v49 : Ref sig .tc) ≠ main_v55) : (Proc.devRef .tc main_v49 : DevRef τ sig) ≠ Proc.devRef .tc main_v55)]
theorem keep_v49_15 (c : Dev nD) : W15 (F := F) m c (Proc.devRef .tc main_v49) = W14 m c (Proc.devRef .tc main_v49) := by
  unfold W15
  exact StableHlo.after_of_writes_sub hostOps7 _ hostOps7_writes (by decide : main_v49 ∉ hostOps7_W)
theorem keep_v49_16 (c : Dev nD) : W16 (F := F) m c (Proc.devRef .tc main_v49) = W15 m c (Proc.devRef .tc main_v49) := by
  unfold W16
  rw [Function.update_of_ne (StableHlo.devRef_ne_of_ne (by decide : (main_v49 : Ref sig .tc) ≠ main_v58) : (Proc.devRef .tc main_v49 : DevRef τ sig) ≠ Proc.devRef .tc main_v58)]
theorem keep_v49_17 (c : Dev nD) : W17 (F := F) m c (Proc.devRef .tc main_v49) = W16 m c (Proc.devRef .tc main_v49) := by
  unfold W17
  exact StableHlo.after_of_writes_sub hostOps8 _ hostOps8_writes (by decide : main_v49 ∉ hostOps8_W)
theorem keep_v49_18 (c : Dev nD) : W18 (F := F) m c (Proc.devRef .tc main_v49) = W17 m c (Proc.devRef .tc main_v49) := by
  unfold W18
  rw [Function.update_of_ne (StableHlo.devRef_ne_of_ne (by decide : (main_v49 : Ref sig .tc) ≠ main_v61) : (Proc.devRef .tc main_v49 : DevRef τ sig) ≠ Proc.devRef .tc main_v61)]
theorem keep_v32_4 (c : Dev nD) : W4 (F := F) m c (Proc.devRef .tc main_v32) = W3 m c (Proc.devRef .tc main_v32) := by
  unfold W4
  rw [Function.update_of_ne (StableHlo.devRef_ne_of_ne (by decide : (main_v32 : Ref sig .tc) ≠ main_v35) : (Proc.devRef .tc main_v32 : DevRef τ sig) ≠ Proc.devRef .tc main_v35)]
theorem keep_v32_5 (c : Dev nD) : W5 (F := F) m c (Proc.devRef .tc main_v32) = W4 m c (Proc.devRef .tc main_v32) := by
  unfold W5
  exact StableHlo.after_of_writes_sub hostOps2 _ hostOps2_writes (by decide : main_v32 ∉ hostOps2_W)
theorem keep_v32_6 (c : Dev nD) : W6 (F := F) m c (Proc.devRef .tc main_v32) = W5 m c (Proc.devRef .tc main_v32) := by
  unfold W6
  rw [Function.update_of_ne (StableHlo.devRef_ne_of_ne (by decide : (main_v32 : Ref sig .tc) ≠ main_v38) : (Proc.devRef .tc main_v32 : DevRef τ sig) ≠ Proc.devRef .tc main_v38)]
theorem keep_v32_7 (c : Dev nD) : W7 (F := F) m c (Proc.devRef .tc main_v32) = W6 m c (Proc.devRef .tc main_v32) := by
  unfold W7
  exact StableHlo.after_of_writes_sub hostOps3 _ hostOps3_writes (by decide : main_v32 ∉ hostOps3_W)
theorem keep_v32_8 (c : Dev nD) : W8 (F := F) m c (Proc.devRef .tc main_v32) = W7 m c (Proc.devRef .tc main_v32) := by
  unfold W8
  rw [Function.update_of_ne (StableHlo.devRef_ne_of_ne (by decide : (main_v32 : Ref sig .tc) ≠ main_v41) : (Proc.devRef .tc main_v32 : DevRef τ sig) ≠ Proc.devRef .tc main_v41)]
theorem keep_v32_9 (c : Dev nD) : W9 (F := F) m c (Proc.devRef .tc main_v32) = W8 m c (Proc.devRef .tc main_v32) := by
  unfold W9
  exact StableHlo.after_of_writes_sub hostOps4 _ hostOps4_writes (by decide : main_v32 ∉ hostOps4_W)
theorem keep_v32_10 (c : Dev nD) : W10 (F := F) m c (Proc.devRef .tc main_v32) = W9 m c (Proc.devRef .tc main_v32) := by
  unfold W10
  rw [Function.update_of_ne (StableHlo.devRef_ne_of_ne (by decide : (main_v32 : Ref sig .tc) ≠ main_v44) : (Proc.devRef .tc main_v32 : DevRef τ sig) ≠ Proc.devRef .tc main_v44)]
theorem keep_v32_11 (c : Dev nD) : W11 (F := F) m c (Proc.devRef .tc main_v32) = W10 m c (Proc.devRef .tc main_v32) := by
  unfold W11
  exact StableHlo.after_of_writes_sub hostOps5 _ hostOps5_writes (by decide : main_v32 ∉ hostOps5_W)
theorem keep_v32_12 (c : Dev nD) : W12 (F := F) m c (Proc.devRef .tc main_v32) = W11 m c (Proc.devRef .tc main_v32) := by
  unfold W12
  rw [Function.update_of_ne (StableHlo.devRef_ne_of_ne (by decide : (main_v32 : Ref sig .tc) ≠ main_v52) : (Proc.devRef .tc main_v32 : DevRef τ sig) ≠ Proc.devRef .tc main_v52)]
theorem keep_v32_13 (c : Dev nD) : W13 (F := F) m c (Proc.devRef .tc main_v32) = W12 m c (Proc.devRef .tc main_v32) := by
  unfold W13
  exact StableHlo.after_of_writes_sub hostOps6 _ hostOps6_writes (by decide : main_v32 ∉ hostOps6_W)
theorem keep_v32_14 (c : Dev nD) : W14 (F := F) m c (Proc.devRef .tc main_v32) = W13 m c (Proc.devRef .tc main_v32) := by
  unfold W14
  rw [Function.update_of_ne (StableHlo.devRef_ne_of_ne (by decide : (main_v32 : Ref sig .tc) ≠ main_v55) : (Proc.devRef .tc main_v32 : DevRef τ sig) ≠ Proc.devRef .tc main_v55)]
theorem keep_v32_15 (c : Dev nD) : W15 (F := F) m c (Proc.devRef .tc main_v32) = W14 m c (Proc.devRef .tc main_v32) := by
  unfold W15
  exact StableHlo.after_of_writes_sub hostOps7 _ hostOps7_writes (by decide : main_v32 ∉ hostOps7_W)
theorem keep_v32_16 (c : Dev nD) : W16 (F := F) m c (Proc.devRef .tc main_v32) = W15 m c (Proc.devRef .tc main_v32) := by
  unfold W16
  rw [Function.update_of_ne (StableHlo.devRef_ne_of_ne (by decide : (main_v32 : Ref sig .tc) ≠ main_v58) : (Proc.devRef .tc main_v32 : DevRef τ sig) ≠ Proc.devRef .tc main_v58)]
theorem at_res0 (c : Dev nD) : W2 (F := F) m c (Proc.devRef .tc main_v2) = res0 m c := by
  unfold W2; rw [Function.update_self]
theorem at_res1 (c : Dev nD) : W4 (F := F) m c (Proc.devRef .tc main_v35) = res1 m c := by
  unfold W4; rw [Function.update_self]
theorem at_res2 (c : Dev nD) : W6 (F := F) m c (Proc.devRef .tc main_v38) = res2 m c := by
  unfold W6; rw [Function.update_self]
theorem at_res3 (c : Dev nD) : W8 (F := F) m c (Proc.devRef .tc main_v41) = res3 m c := by
  unfold W8; rw [Function.update_self]
theorem at_res4 (c : Dev nD) : W10 (F := F) m c (Proc.devRef .tc main_v44) = res4 m c := by
  unfold W10; rw [Function.update_self]
theorem at_res5 (c : Dev nD) : W12 (F := F) m c (Proc.devRef .tc main_v52) = res5 m c := by
  unfold W12; rw [Function.update_self]
theorem at_res6 (c : Dev nD) : W14 (F := F) m c (Proc.devRef .tc main_v55) = res6 m c := by
  unfold W14; rw [Function.update_self]
theorem at_res7 (c : Dev nD) : W16 (F := F) m c (Proc.devRef .tc main_v58) = res7 m c := by
  unfold W16; rw [Function.update_self]
theorem at_res8 (c : Dev nD) : W18 (F := F) m c (Proc.devRef .tc main_v61) = res8 m c := by
  unfold W18; rw [Function.update_self]

end Keep

end Cert.KernelIdeal.Hand

end
-- ==== Proof.KernelIdealHost.lean ====
/-
  The kernel program's host operations between its kernel calls, read at an index: the logits as the kernel's first call
  leaves them, the integer chain that turns them into row indices, and the eight index tables cut out of the transposed
  row indices.
-/
import proofs.«145402_j1717986918579_1_alg».proof.Proof.Gen.KernelIdeal.Launch
import Idealize.ShloMosaic.Lib.StableHlo.Run
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem

variable {F : FTy → Type} [FloatOps F]

/-! ## The index tables -/

/-- A `[1, 1, 32, 1023]` block of a `[2, 4, 32, 1023]` array cut at `[p, q, 0, 0]` and read as a `[32, 1023]` table: at
    `(r, t)` it is the array at `[p, q, r, t]`. -/
theorem table_apply {α : Type} (x : S2x4x32x1023.Idx → α) (off : Fin 4 → Nat)
    (h : S2x4x32x1023.Slices off S1x1x32x1023) (hc : S1x1x32x1023.ShapeCasts S32x1023)
    (p : Fin 2) (q : Fin 4) (h0 : off 0 = p.val) (h1 : off 1 = q.val) (h2 : off 2 = 0) (h3 : off 3 = 0)
    (r : Fin 32) (t : Fin 1023) :
    shapeCast S32x1023 (extractStridedSlice S1x1x32x1023 off x h) hc (ValueIdx.ix2 r t) = x (ValueIdx.ix4 p q r t) := by
  rw [shapeCast_apply _ hc (ValueIdx.ix2 r t) (ValueIdx.ix4 (0 : Fin 1) (0 : Fin 1) r t)
    (by rw [Shape.rowMajor_val_four, Shape.rowMajor_val_two]
        show ((0 * 1 + 0) * 32 + r.val) * 1023 + t.val = r.val * 1023 + t.val
        omega)]
  exact extractStridedSlice_apply off x h _ (ValueIdx.ix4 p q r t) (fun a => match a with
    | ⟨0, _⟩ => by show p.val = off 0 + 0; omega
    | ⟨1, _⟩ => by show q.val = off 1 + 0; omega
    | ⟨2, _⟩ => by show r.val = off 2 + r.val; omega
    | ⟨3, _⟩ => by show t.val = off 3 + t.val; omega)

/-- The transposed row indices at `[b, s, r, t]` are the row indices at `[b, s, t, r]`. -/
theorem v32_apply (V : Valuation τ sig (Elt F)) (b : Fin 2) (s : Fin 4) (r : Fin 32) (t : Fin 1023) :
    StableHlo.after (hostOps1 (F := F)) V (Proc.devRef .tc main_v32) (ValueIdx.ix4 b s r t)
      = StableHlo.after (hostOps1 (F := F)) V (Proc.devRef .tc main_v31) (ValueIdx.ix4 b s t r) := by
  have h : StableHlo.after (hostOps1 (F := F)) V (Proc.devRef .tc main_v32)
      = transpose S2x4x32x1023 [0, 1, 3, 2] (StableHlo.after (hostOps1 (F := F)) V (Proc.devRef .tc main_v31))
          transposes_S2x4x1023x32_S2x4x32x1023_0_1_3_2 := by
    simp only [hostOps1]
    after_results_simp <;> rfl
  rw [h]
  exact transpose_apply [0, 1, 3, 2] _ transposes_S2x4x1023x32_S2x4x32x1023_0_1_3_2 (ValueIdx.ix4 b s r t) (ValueIdx.ix4 b s t r)
    (fun a => match a with
      | ⟨0, _⟩ => rfl
      | ⟨1, _⟩ => rfl
      | ⟨2, _⟩ => rfl
      | ⟨3, _⟩ => rfl)

/-- Table `main_v34` at `(r, t)` is the transposed row indices at `[0, 0, r, t]`. -/
theorem tbl34_apply (V : Valuation τ sig (Elt F)) (r : Fin 32) (t : Fin 1023) :
    StableHlo.after (hostOps1 (F := F)) V (Proc.devRef .tc main_v34) (ValueIdx.ix2 r t)
      = StableHlo.after (hostOps1 (F := F)) V (Proc.devRef .tc main_v32) (ValueIdx.ix4 (0 : Fin 2) (0 : Fin 4) r t) := by
  have h : StableHlo.after (hostOps1 (F := F)) V (Proc.devRef .tc main_v34)
      = shapeCast S32x1023 (extractStridedSlice S1x1x32x1023 ![0, 0, 0, 0] (StableHlo.after (hostOps1 (F := F)) V (Proc.devRef .tc main_v32))
          slices_S2x4x32x1023_S1x1x32x1023_0_0_0_0) shapeCasts_S1x1x32x1023_S32x1023 := by
    simp only [hostOps1]
    after_results_simp <;> rfl
  rw [h]
  exact table_apply (StableHlo.after (hostOps1 (F := F)) V (Proc.devRef .tc main_v32)) ![0, 0, 0, 0] slices_S2x4x32x1023_S1x1x32x1023_0_0_0_0
    shapeCasts_S1x1x32x1023_S32x1023 (0 : Fin 2) (0 : Fin 4) rfl rfl rfl rfl r t

/-- Table `main_v37` at `(r, t)` is the transposed row indices at `[0, 1, r, t]`. -/
theorem tbl37_apply (V : Valuation τ sig (Elt F)) (r : Fin 32) (t : Fin 1023) :
    StableHlo.after (hostOps2 (F := F)) V (Proc.devRef .tc main_v37) (ValueIdx.ix2 r t)
      = V (Proc.devRef .tc main_v32) (ValueIdx.ix4 (0 : Fin 2) (1 : Fin 4) r t) := by
  have h : StableHlo.after (hostOps2 (F := F)) V (Proc.devRef .tc main_v37)
      = shapeCast S32x1023 (extractStridedSlice S1x1x32x1023 ![0, 1, 0, 0] (V (Proc.devRef .tc main_v32))
          slices_S2x4x32x1023_S1x1x32x1023_0_1_0_0) shapeCasts_S1x1x32x1023_S32x1023 := by
    simp only [hostOps2]
    after_results_simp <;> rfl
  rw [h]
  exact table_apply (V (Proc.devRef .tc main_v32)) ![0, 1, 0, 0] slices_S2x4x32x1023_S1x1x32x1023_0_1_0_0
    shapeCasts_S1x1x32x1023_S32x1023 (0 : Fin 2) (1 : Fin 4) rfl rfl rfl rfl r t

/-- Table `main_v40` at `(r, t)` is the transposed row indices at `[0, 2, r, t]`. -/
theorem tbl40_apply (V : Valuation τ sig (Elt F)) (r : Fin 32) (t : Fin 1023) :
    StableHlo.after (hostOps3 (F := F)) V (Proc.devRef .tc main_v40) (ValueIdx.ix2 r t)
      = V (Proc.devRef .tc main_v32) (ValueIdx.ix4 (0 : Fin 2) (2 : Fin 4) r t) := by
  have h : StableHlo.after (hostOps3 (F := F)) V (Proc.devRef .tc main_v40)
      = shapeCast S32x1023 (extractStridedSlice S1x1x32x1023 ![0, 2, 0, 0] (V (Proc.devRef .tc main_v32))
          slices_S2x4x32x1023_S1x1x32x1023_0_2_0_0) shapeCasts_S1x1x32x1023_S32x1023 := by
    simp only [hostOps3]
    after_results_simp <;> rfl
  rw [h]
  exact table_apply (V (Proc.devRef .tc main_v32)) ![0, 2, 0, 0] slices_S2x4x32x1023_S1x1x32x1023_0_2_0_0
    shapeCasts_S1x1x32x1023_S32x1023 (0 : Fin 2) (2 : Fin 4) rfl rfl rfl rfl r t

/-- Table `main_v43` at `(r, t)` is the transposed row indices at `[0, 3, r, t]`. -/
theorem tbl43_apply (V : Valuation τ sig (Elt F)) (r : Fin 32) (t : Fin 1023) :
    StableHlo.after (hostOps4 (F := F)) V (Proc.devRef .tc main_v43) (ValueIdx.ix2 r t)
      = V (Proc.devRef .tc main_v32) (ValueIdx.ix4 (0 : Fin 2) (3 : Fin 4) r t) := by
  have h : StableHlo.after (hostOps4 (F := F)) V (Proc.devRef .tc main_v43)
      = shapeCast S32x1023 (extractStridedSlice S1x1x32x1023 ![0, 3, 0, 0] (V (Proc.devRef .tc main_v32))
          slices_S2x4x32x1023_S1x1x32x1023_0_3_0_0) shapeCasts_S1x1x32x1023_S32x1023 := by
    simp only [hostOps4]
    after_results_simp <;> rfl
  rw [h]
  exact table_apply (V (Proc.devRef .tc main_v32)) ![0, 3, 0, 0] slices_S2x4x32x1023_S1x1x32x1023_0_3_0_0
    shapeCasts_S1x1x32x1023_S32x1023 (0 : Fin 2) (3 : Fin 4) rfl rfl rfl rfl r t

/-- Table `main_v51` at `(r, t)` is the transposed row indices at `[1, 0, r, t]`. -/
theorem tbl51_apply (V : Valuation τ sig (Elt F)) (r : Fin 32) (t : Fin 1023) :
    StableHlo.after (hostOps5 (F := F)) V (Proc.devRef .tc main_v51) (ValueIdx.ix2 r t)
      = V (Proc.devRef .tc main_v32) (ValueIdx.ix4 (1 : Fin 2) (0 : Fin 4) r t) := by
  have h : StableHlo.after (hostOps5 (F := F)) V (Proc.devRef .tc main_v51)
      = shapeCast S32x1023 (extractStridedSlice S1x1x32x1023 ![1, 0, 0, 0] (V (Proc.devRef .tc main_v32))
          slices_S2x4x32x1023_S1x1x32x1023_1_0_0_0) shapeCasts_S1x1x32x1023_S32x1023 := by
    simp only [hostOps5]
    after_results_simp <;> rfl
  rw [h]
  exact table_apply (V (Proc.devRef .tc main_v32)) ![1, 0, 0, 0] slices_S2x4x32x1023_S1x1x32x1023_1_0_0_0
    shapeCasts_S1x1x32x1023_S32x1023 (1 : Fin 2) (0 : Fin 4) rfl rfl rfl rfl r t

/-- Table `main_v54` at `(r, t)` is the transposed row indices at `[1, 1, r, t]`. -/
theorem tbl54_apply (V : Valuation τ sig (Elt F)) (r : Fin 32) (t : Fin 1023) :
    StableHlo.after (hostOps6 (F := F)) V (Proc.devRef .tc main_v54) (ValueIdx.ix2 r t)
      = V (Proc.devRef .tc main_v32) (ValueIdx.ix4 (1 : Fin 2) (1 : Fin 4) r t) := by
  have h : StableHlo.after (hostOps6 (F := F)) V (Proc.devRef .tc main_v54)
      = shapeCast S32x1023 (extractStridedSlice S1x1x32x1023 ![1, 1, 0, 0] (V (Proc.devRef .tc main_v32))
          slices_S2x4x32x1023_S1x1x32x1023_1_1_0_0) shapeCasts_S1x1x32x1023_S32x1023 := by
    simp only [hostOps6]
    after_results_simp <;> rfl
  rw [h]
  exact table_apply (V (Proc.devRef .tc main_v32)) ![1, 1, 0, 0] slices_S2x4x32x1023_S1x1x32x1023_1_1_0_0
    shapeCasts_S1x1x32x1023_S32x1023 (1 : Fin 2) (1 : Fin 4) rfl rfl rfl rfl r t

/-- Table `main_v57` at `(r, t)` is the transposed row indices at `[1, 2, r, t]`. -/
theorem tbl57_apply (V : Valuation τ sig (Elt F)) (r : Fin 32) (t : Fin 1023) :
    StableHlo.after (hostOps7 (F := F)) V (Proc.devRef .tc main_v57) (ValueIdx.ix2 r t)
      = V (Proc.devRef .tc main_v32) (ValueIdx.ix4 (1 : Fin 2) (2 : Fin 4) r t) := by
  have h : StableHlo.after (hostOps7 (F := F)) V (Proc.devRef .tc main_v57)
      = shapeCast S32x1023 (extractStridedSlice S1x1x32x1023 ![1, 2, 0, 0] (V (Proc.devRef .tc main_v32))
          slices_S2x4x32x1023_S1x1x32x1023_1_2_0_0) shapeCasts_S1x1x32x1023_S32x1023 := by
    simp only [hostOps7]
    after_results_simp <;> rfl
  rw [h]
  exact table_apply (V (Proc.devRef .tc main_v32)) ![1, 2, 0, 0] slices_S2x4x32x1023_S1x1x32x1023_1_2_0_0
    shapeCasts_S1x1x32x1023_S32x1023 (1 : Fin 2) (2 : Fin 4) rfl rfl rfl rfl r t

/-- Table `main_v60` at `(r, t)` is the transposed row indices at `[1, 3, r, t]`. -/
theorem tbl60_apply (V : Valuation τ sig (Elt F)) (r : Fin 32) (t : Fin 1023) :
    StableHlo.after (hostOps8 (F := F)) V (Proc.devRef .tc main_v60) (ValueIdx.ix2 r t)
      = V (Proc.devRef .tc main_v32) (ValueIdx.ix4 (1 : Fin 2) (3 : Fin 4) r t) := by
  have h : StableHlo.after (hostOps8 (F := F)) V (Proc.devRef .tc main_v60)
      = shapeCast S32x1023 (extractStridedSlice S1x1x32x1023 ![1, 3, 0, 0] (V (Proc.devRef .tc main_v32))
          slices_S2x4x32x1023_S1x1x32x1023_1_3_0_0) shapeCasts_S1x1x32x1023_S32x1023 := by
    simp only [hostOps8]
    after_results_simp <;> rfl
  rw [h]
  exact table_apply (V (Proc.devRef .tc main_v32)) ![1, 3, 0, 0] slices_S2x4x32x1023_S1x1x32x1023_1_3_0_0
    shapeCasts_S1x1x32x1023_S32x1023 (1 : Fin 2) (3 : Fin 4) rfl rfl rfl rfl r t

/-! ## The logits and the integer chain -/

/-- The first kernel call's result `[4, 2048, 256]` laid out as the logits `[2, 4, 1024, 32, 8]`: split the rows into
    `[2, 1024]`, swap the first two axes, split the columns into `[32, 8]`. -/
def logits5 (x : (⟨S4x2048x256, .f32⟩ : BufTy).Contents (Elt F)) : (⟨S2x4x1024x32x8, .f32⟩ : BufTy).Contents (Elt F) :=
  shapeCast S2x4x1024x32x8
    (transpose S2x4x1024x256 [1, 0, 2, 3] (shapeCast S4x2x1024x256 x shapeCasts_S4x2048x256_S4x2x1024x256)
      transposes_S4x2x1024x256_S2x4x1024x256_1_0_2_3)
    shapeCasts_S2x4x1024x256_S2x4x1024x32x8

/-- The row indices `[2, 4, 1023, 32]` from the logits `[2, 4, 1024, 32, 8]`: the signs of the eight logits of a group packed
    into a byte (bit `j` set where logit `j` is positive, summed over `j`), the byte at position `t` plus `256` times the byte
    at position `t + 1`, plus the offsets `2097152 * s` of the slab and `65536 * r` of the group. -/
def chain5 (y : (⟨S2x4x1024x32x8, .f32⟩ : BufTy).Contents (Elt F)) : (⟨S2x4x1023x32, .i32⟩ : BufTy).Contents (Elt F) :=
  addi
    (broadcastInDim S2x4x1023x32 ![0, 1, 2, 3] bcast_S1x4x1x32_S2x4x1023x32_0_1_2_3
      (addi
        (broadcastInDim S1x4x1x32 ![0, 1, 2, 3] bcast_S1x4x1x1_S1x4x1x32_0_1_2_3
          (shapeCast S1x4x1x1 (muli (iotaInDim S4 32 0) (broadcastInDim S4 ![] bcast_S_S4 (constantI S_ 32 2097152#32)))
            shapeCasts_S4_S1x4x1x1))
        (broadcastInDim S1x4x1x32 ![0, 1, 2, 3] bcast_S1x1x1x32_S1x4x1x32_0_1_2_3
          (shapeCast S1x1x1x32 (muli (iotaInDim S32 32 0) (broadcastInDim S32 ![] bcast_S_S32 (constantI S_ 32 65536#32)))
            shapeCasts_S32_S1x1x1x32))))
    (addi
      (extractStridedSlice S2x4x1023x32 ![0, 0, 0, 0]
        (Host.reduce IntOp.addi
          (Host.shli
            (extui 32 (cmpf .ogt y (broadcastInDim S2x4x1024x32x8 ![] bcast_S_S2x4x1024x32x8 (constant S_ .f32 0x00000000#32))) natLt_1_32)
            (broadcastInDim S2x4x1024x32x8 ![0, 1, 2, 3, 4] bcast_S1x1x1x1x8_S2x4x1024x32x8_0_1_2_3_4
              (broadcastInDim S1x1x1x1x8 ![4] bcast_S8_S1x1x1x1x8_4 (iotaInDim S8 32 0))))
          (constantI S_ 32 0#32) reducesTo_S2x4x1024x32x8_S2x4x1024x32_d4 h_S_)
        slices_S2x4x1024x32_S2x4x1023x32_0_0_0_0)
      (muli
        (extractStridedSlice S2x4x1023x32 ![0, 0, 1, 0]
          (Host.reduce IntOp.addi
            (Host.shli
              (extui 32 (cmpf .ogt y (broadcastInDim S2x4x1024x32x8 ![] bcast_S_S2x4x1024x32x8 (constant S_ .f32 0x00000000#32))) natLt_1_32)
              (broadcastInDim S2x4x1024x32x8 ![0, 1, 2, 3, 4] bcast_S1x1x1x1x8_S2x4x1024x32x8_0_1_2_3_4
                (broadcastInDim S1x1x1x1x8 ![4] bcast_S8_S1x1x1x1x8_4 (iotaInDim S8 32 0))))
            (constantI S_ 32 0#32) reducesTo_S2x4x1024x32x8_S2x4x1024x32_d4 h_S_)
          slices_S2x4x1024x32_S2x4x1023x32_0_0_1_0)
        (broadcastInDim S2x4x1023x32 ![] bcast_S_S2x4x1023x32 (constantI S_ 32 256#32))))

/-- After the first host stretch the row-index buffer holds the integer chain of the logits laid out from the first kernel
    call's result. -/
theorem v31_eq (V : Valuation τ sig (Elt F)) :
    StableHlo.after (hostOps1 (F := F)) V (Proc.devRef .tc main_v31) = chain5 (logits5 (V (Proc.devRef .tc main_v2))) := by
  simp only [hostOps1]
  after_results_simp <;> rfl

/-- The logits at `[b, s, t, r, j]` are the first kernel call's result at slab `s`, row `b * 1024 + t`, column `r * 8 + j`. -/
theorem logits5_apply (x : (⟨S4x2048x256, .f32⟩ : BufTy).Contents (Elt F)) (b : Fin 2) (s : Fin 4) (t : Fin 1024) (r : Fin 32) (j : Fin 8) :
    logits5 x (ValueIdx.ix5 b s t r j)
      = x (ValueIdx.ix3 s ⟨b.val * 1024 + t.val, by omega⟩ ⟨r.val * 8 + j.val, by omega⟩) := by
  have hb := b.isLt; have hs := s.isLt; have ht := t.isLt; have hr := r.isLt; have hj := j.isLt
  unfold logits5
  rw [shapeCast_apply _ shapeCasts_S2x4x1024x256_S2x4x1024x32x8 (ValueIdx.ix5 b s t r j)
    (ValueIdx.ix4 b s t (⟨r.val * 8 + j.val, by omega⟩ : Fin 256))
    (by rw [Shape.rowMajor_val_four, Shape.rowMajor_val_five]
        show ((b.val * 4 + s.val) * 1024 + t.val) * 256 + (r.val * 8 + j.val)
          = (((b.val * 4 + s.val) * 1024 + t.val) * 32 + r.val) * 8 + j.val
        omega)]
  rw [transpose_apply [1, 0, 2, 3] _ transposes_S4x2x1024x256_S2x4x1024x256_1_0_2_3
    (ValueIdx.ix4 b s t (⟨r.val * 8 + j.val, by omega⟩ : Fin 256)) (ValueIdx.ix4 s b t (⟨r.val * 8 + j.val, by omega⟩ : Fin 256))
    (fun a => match a with
      | ⟨0, _⟩ => rfl
      | ⟨1, _⟩ => rfl
      | ⟨2, _⟩ => rfl
      | ⟨3, _⟩ => rfl)]
  exact shapeCast_apply x shapeCasts_S4x2048x256_S4x2x1024x256 (ValueIdx.ix4 s b t (⟨r.val * 8 + j.val, by omega⟩ : Fin 256))
    (ValueIdx.ix3 s (⟨b.val * 1024 + t.val, by omega⟩ : Fin 2048) (⟨r.val * 8 + j.val, by omega⟩ : Fin 256))
    (by rw [Shape.rowMajor_val_three, Shape.rowMajor_val_four]
        show (s.val * 2048 + (b.val * 1024 + t.val)) * 256 + (r.val * 8 + j.val)
          = ((s.val * 2 + b.val) * 1024 + t.val) * 256 + (r.val * 8 + j.val)
        omega)

end Cert.KernelIdeal.Hand

end
-- ==== Proof.KernelIdealTail.lean ====
import proofs.«145402_j1717986918579_1_alg».proof.Proof.Gen.KernelIdeal.Launch
import Idealize.ShloMosaic.Lib.StableHlo.Run
import Idealize.ShloMosaic.Lib.ValueIdx
import Idealize.ShloMosaic.Lib.Pipeline.Value
noncomputable section
namespace Cert.KernelIdeal.Hand
open Cert.KernelIdeal Cert.KernelIdeal.Gen Idealize.ShloMosaic Idealize.ShloMosaic.TcCoe Idealize.SL.Sem
variable {F : FTy → Type} [FloatOps F]

/-! # The host tail: eight launch results stacked and reshaped, read at an index

Eight arrays f32[1023,32,8] (batch b ∈ {0,1}, subtable s ∈ {0,1,2,3}) are assembled into one array f32[2,4,1023,256]:
each is given a leading unit axis, the four of a batch are laid end to end along it ([4,1023,32,8]), each of the two
results is again given a leading unit axis and the two are laid end to end ([2,4,1023,32,8]), and the last two axes are
merged row-major ([2,4,1023,256]). Hence entry [b, s, t, 8 r + j] of the result is entry [t, r, j] of array (b, s).
The lemmas here state this for the two operation lists that perform the assembly: `v49_apply` (the first stack),
`v69_apply` (the joined stacks at a rank-5 index) and `v70_apply` (the reshaped result). -/

/-- Four arrays [1023,32,8], each given a leading unit axis and the four laid end to end along it, read at
    index (s, t, r, j): array s at (t, r, j). -/
theorem stack4_apply {α : Type} (x0 x1 x2 x3 : S1023x32x8.Idx → α) (s : Fin 4) (t : Fin 1023) (r : Fin 32) (j : Fin 8) :
    concatenate S4x1023x32x8 0
        [⟨S1x1023x32x8, broadcastInDim S1x1023x32x8 ![1, 2, 3] bcast_S1023x32x8_S1x1023x32x8_1_2_3 x0⟩,
         ⟨S1x1023x32x8, broadcastInDim S1x1023x32x8 ![1, 2, 3] bcast_S1023x32x8_S1x1023x32x8_1_2_3 x1⟩,
         ⟨S1x1023x32x8, broadcastInDim S1x1023x32x8 ![1, 2, 3] bcast_S1023x32x8_S1x1023x32x8_1_2_3 x2⟩,
         ⟨S1x1023x32x8, broadcastInDim S1x1023x32x8 ![1, 2, 3] bcast_S1023x32x8_S1x1023x32x8_1_2_3 x3⟩]
        concatenates_S1x1023x32x8_S1x1023x32x8_S1x1023x32x8_S1x1023x32x8_S4x1023x32x8_d0 (ValueIdx.ix4 s t r j)
      = (match s with | 0 => x0 | 1 => x1 | 2 => x2 | 3 => x3) (ValueIdx.ix3 t r j) := by
  have hb : ∀ x : S1023x32x8.Idx → α,
      broadcastInDim S1x1023x32x8 ![1, 2, 3] bcast_S1023x32x8_S1x1023x32x8_1_2_3 x (ValueIdx.ix4 (0 : Fin 1) t r j) = x (ValueIdx.ix3 t r j) :=
    fun x => broadcastInDim_apply _ _ x _ (ValueIdx.ix3 t r j) (fun a => match a with | ⟨0, _⟩ => rfl | ⟨1, _⟩ => rfl | ⟨2, _⟩ => rfl)
  match s with
  | ⟨0, _⟩ =>
    refine Eq.trans (b := broadcastInDim S1x1023x32x8 ![1, 2, 3] bcast_S1023x32x8_S1x1023x32x8_1_2_3 x0 (ValueIdx.ix4 (0 : Fin 1) t r j)) ?_ (hb x0)
    exact concatenate_apply_piece (t := S4x1023x32x8) (0 : Fin 4) _ _ _ 0 (by show (0 : Nat) < 4; decide) S1x1023x32x8 _ rfl rfl 0 rfl (ValueIdx.ix4 (0 : Fin 1) t r j)
      (fun b hb' => match b with | ⟨0, _⟩ => absurd rfl hb' | ⟨1, _⟩ => rfl | ⟨2, _⟩ => rfl | ⟨3, _⟩ => rfl) rfl
  | ⟨1, _⟩ =>
    refine Eq.trans (b := broadcastInDim S1x1023x32x8 ![1, 2, 3] bcast_S1023x32x8_S1x1023x32x8_1_2_3 x1 (ValueIdx.ix4 (0 : Fin 1) t r j)) ?_ (hb x1)
    exact concatenate_apply_piece (t := S4x1023x32x8) (0 : Fin 4) _ _ _ 1 (by show (1 : Nat) < 4; decide) S1x1023x32x8 _ rfl rfl 1 rfl (ValueIdx.ix4 (0 : Fin 1) t r j)
      (fun b hb' => match b with | ⟨0, _⟩ => absurd rfl hb' | ⟨1, _⟩ => rfl | ⟨2, _⟩ => rfl | ⟨3, _⟩ => rfl) rfl
  | ⟨2, _⟩ =>
    refine Eq.trans (b := broadcastInDim S1x1023x32x8 ![1, 2, 3] bcast_S1023x32x8_S1x1023x32x8_1_2_3 x2 (ValueIdx.ix4 (0 : Fin 1) t r j)) ?_ (hb x2)
    exact concatenate_apply_piece (t := S4x1023x32x8) (0 : Fin 4) _ _ _ 2 (by show (2 : Nat) < 4; decide) S1x1023x32x8 _ rfl rfl 2 rfl (ValueIdx.ix4 (0 : Fin 1) t r j)
      (fun b hb' => match b with | ⟨0, _⟩ => absurd rfl hb' | ⟨1, _⟩ => rfl | ⟨2, _⟩ => rfl | ⟨3, _⟩ => rfl) rfl
  | ⟨3, _⟩ =>
    refine Eq.trans (b := broadcastInDim S1x1023x32x8 ![1, 2, 3] bcast_S1023x32x8_S1x1023x32x8_1_2_3 x3 (ValueIdx.ix4 (0 : Fin 1) t r j)) ?_ (hb x3)
    exact concatenate_apply_piece (t := S4x1023x32x8) (0 : Fin 4) _ _ _ 3 (by show (3 : Nat) < 4; decide) S1x1023x32x8 _ rfl rfl 3 rfl (ValueIdx.ix4 (0 : Fin 1) t r j)
      (fun b hb' => match b with | ⟨0, _⟩ => absurd rfl hb' | ⟨1, _⟩ => rfl | ⟨2, _⟩ => rfl | ⟨3, _⟩ => rfl) rfl

/-- The stacked array after the first stack's operations, as the operations' composed term. -/
theorem v49_eq (V : Valuation τ sig (Elt F)) :
    StableHlo.after (hostOps5 (F := F)) V (Proc.devRef .tc main_v49)
      = concatenate S4x1023x32x8 0
          [⟨S1x1023x32x8, broadcastInDim S1x1023x32x8 ![1, 2, 3] bcast_S1023x32x8_S1x1023x32x8_1_2_3 (V (Proc.devRef .tc main_v35))⟩,
           ⟨S1x1023x32x8, broadcastInDim S1x1023x32x8 ![1, 2, 3] bcast_S1023x32x8_S1x1023x32x8_1_2_3 (V (Proc.devRef .tc main_v38))⟩,
           ⟨S1x1023x32x8, broadcastInDim S1x1023x32x8 ![1, 2, 3] bcast_S1023x32x8_S1x1023x32x8_1_2_3 (V (Proc.devRef .tc main_v41))⟩,
           ⟨S1x1023x32x8, broadcastInDim S1x1023x32x8 ![1, 2, 3] bcast_S1023x32x8_S1x1023x32x8_1_2_3 (V (Proc.devRef .tc main_v44))⟩]
          concatenates_S1x1023x32x8_S1x1023x32x8_S1x1023x32x8_S1x1023x32x8_S4x1023x32x8_d0 := by
  simp only [hostOps5]
  after_results
  rfl

theorem v49_apply (V : Valuation τ sig (Elt F)) (s : Fin 4) (t : Fin 1023) (r : Fin 32) (j : Fin 8) :
    StableHlo.after (hostOps5 (F := F)) V (Proc.devRef .tc main_v49) (ValueIdx.ix4 s t r j)
      = (match s with
          | 0 => V (Proc.devRef .tc main_v35) | 1 => V (Proc.devRef .tc main_v38)
          | 2 => V (Proc.devRef .tc main_v41) | 3 => V (Proc.devRef .tc main_v44)) (ValueIdx.ix3 t r j) := by
  rw [v49_eq]
  exact stack4_apply _ _ _ _ s t r j

/-- Two arrays [4,1023,32,8], each given a leading unit axis and the two laid end to end along it, read at
    index (b, s, t, r, j): array b at (s, t, r, j). -/
theorem stack2_apply {α : Type} (y0 y1 : S4x1023x32x8.Idx → α) (b : Fin 2) (s : Fin 4) (t : Fin 1023) (r : Fin 32) (j : Fin 8) :
    concatenate S2x4x1023x32x8 0
        [⟨S1x4x1023x32x8, broadcastInDim S1x4x1023x32x8 ![1, 2, 3, 4] bcast_S4x1023x32x8_S1x4x1023x32x8_1_2_3_4 y0⟩,
         ⟨S1x4x1023x32x8, broadcastInDim S1x4x1023x32x8 ![1, 2, 3, 4] bcast_S4x1023x32x8_S1x4x1023x32x8_1_2_3_4 y1⟩]
        concatenates_S1x4x1023x32x8_S1x4x1023x32x8_S2x4x1023x32x8_d0 (ValueIdx.ix5 b s t r j)
      = (match b with | 0 => y0 | 1 => y1) (ValueIdx.ix4 s t r j) := by
  have hb : ∀ y : S4x1023x32x8.Idx → α,
      broadcastInDim S1x4x1023x32x8 ![1, 2, 3, 4] bcast_S4x1023x32x8_S1x4x1023x32x8_1_2_3_4 y (ValueIdx.ix5 (0 : Fin 1) s t r j) = y (ValueIdx.ix4 s t r j) :=
    fun y => broadcastInDim_apply _ _ y _ (ValueIdx.ix4 s t r j)
      (fun a => match a with | ⟨0, _⟩ => rfl | ⟨1, _⟩ => rfl | ⟨2, _⟩ => rfl | ⟨3, _⟩ => rfl)
  match b with
  | ⟨0, _⟩ =>
    refine Eq.trans (b := broadcastInDim S1x4x1023x32x8 ![1, 2, 3, 4] bcast_S4x1023x32x8_S1x4x1023x32x8_1_2_3_4 y0 (ValueIdx.ix5 (0 : Fin 1) s t r j)) ?_ (hb y0)
    exact concatenate_apply_piece (t := S2x4x1023x32x8) (0 : Fin 5) _ _ _ 0 (by show (0 : Nat) < 2; decide) S1x4x1023x32x8 _ rfl rfl 0 rfl (ValueIdx.ix5 (0 : Fin 1) s t r j)
      (fun a ha => match a with | ⟨0, _⟩ => absurd rfl ha | ⟨1, _⟩ => rfl | ⟨2, _⟩ => rfl | ⟨3, _⟩ => rfl | ⟨4, _⟩ => rfl) rfl
  | ⟨1, _⟩ =>
    refine Eq.trans (b := broadcastInDim S1x4x1023x32x8 ![1, 2, 3, 4] bcast_S4x1023x32x8_S1x4x1023x32x8_1_2_3_4 y1 (ValueIdx.ix5 (0 : Fin 1) s t r j)) ?_ (hb y1)
    exact concatenate_apply_piece (t := S2x4x1023x32x8) (0 : Fin 5) _ _ _ 1 (by show (1 : Nat) < 2; decide) S1x4x1023x32x8 _ rfl rfl 1 rfl (ValueIdx.ix5 (0 : Fin 1) s t r j)
      (fun a ha => match a with | ⟨0, _⟩ => absurd rfl ha | ⟨1, _⟩ => rfl | ⟨2, _⟩ => rfl | ⟨3, _⟩ => rfl | ⟨4, _⟩ => rfl) rfl

/-- The reshape [2,4,1023,32,8] → [2,4,1023,256] read at (b, s, t, 8 r + j): the operand at (b, s, t, r, j). -/
theorem reshape_apply {α : Type} (x : S2x4x1023x32x8.Idx → α) (b : Fin 2) (s : Fin 4) (t : Fin 1023) (r : Fin 32) (j : Fin 8) :
    shapeCast S2x4x1023x256 x shapeCasts_S2x4x1023x32x8_S2x4x1023x256 (ValueIdx.ix4 b s t ⟨r.val * 8 + j.val, by omega⟩)
      = x (ValueIdx.ix5 b s t r j) := by
  refine shapeCast_apply x _ _ _ ?_
  rw [Shape.rowMajor_val_five, Shape.rowMajor_val_four]
  show (((b.val * 4 + s.val) * 1023 + t.val) * 32 + r.val) * 8 + j.val
    = ((b.val * 4 + s.val) * 1023 + t.val) * 256 + (r.val * 8 + j.val)
  omega

/-- The two stacks joined, after the second stack's operations, as the operations' composed term. -/
theorem v69_eq (V : Valuation τ sig (Elt F)) :
    StableHlo.after (hostOps9 (F := F)) V (Proc.devRef .tc main_v69)
      = concatenate S2x4x1023x32x8 0
            [⟨S1x4x1023x32x8, broadcastInDim S1x4x1023x32x8 ![1, 2, 3, 4] bcast_S4x1023x32x8_S1x4x1023x32x8_1_2_3_4 (V (Proc.devRef .tc main_v49))⟩,
             ⟨S1x4x1023x32x8, broadcastInDim S1x4x1023x32x8 ![1, 2, 3, 4] bcast_S4x1023x32x8_S1x4x1023x32x8_1_2_3_4
                (concatenate S4x1023x32x8 0
                  [⟨S1x1023x32x8, broadcastInDim S1x1023x32x8 ![1, 2, 3] bcast_S1023x32x8_S1x1023x32x8_1_2_3 (V (Proc.devRef .tc main_v52))⟩,
                   ⟨S1x1023x32x8, broadcastInDim S1x1023x32x8 ![1, 2, 3] bcast_S1023x32x8_S1x1023x32x8_1_2_3 (V (Proc.devRef .tc main_v55))⟩,
                   ⟨S1x1023x32x8, broadcastInDim S1x1023x32x8 ![1, 2, 3] bcast_S1023x32x8_S1x1023x32x8_1_2_3 (V (Proc.devRef .tc main_v58))⟩,
                   ⟨S1x1023x32x8, broadcastInDim S1x1023x32x8 ![1, 2, 3] bcast_S1023x32x8_S1x1023x32x8_1_2_3 (V (Proc.devRef .tc main_v61))⟩]
                  concatenates_S1x1023x32x8_S1x1023x32x8_S1x1023x32x8_S1x1023x32x8_S4x1023x32x8_d0)⟩]
            concatenates_S1x4x1023x32x8_S1x4x1023x32x8_S2x4x1023x32x8_d0 := by
  simp only [hostOps9]
  after_results
  rfl

/-- The reshaped result after the second stack's operations: the reshape of the two stacks joined. -/
theorem v70_eq (V : Valuation τ sig (Elt F)) :
    StableHlo.after (hostOps9 (F := F)) V (Proc.devRef .tc main_v70)
      = shapeCast S2x4x1023x256 (StableHlo.after (hostOps9 (F := F)) V (Proc.devRef .tc main_v69))
          shapeCasts_S2x4x1023x32x8_S2x4x1023x256 := by
  simp only [hostOps9]
  after_results
  rfl

theorem v69_apply (V : Valuation τ sig (Elt F)) (b : Fin 2) (s : Fin 4) (t : Fin 1023) (r : Fin 32) (j : Fin 8) :
    StableHlo.after (hostOps9 (F := F)) V (Proc.devRef .tc main_v69) (ValueIdx.ix5 b s t r j)
      = (if b = 0 then V (Proc.devRef .tc main_v49) (ValueIdx.ix4 s t r j)
         else (match s with
                | 0 => V (Proc.devRef .tc main_v52) | 1 => V (Proc.devRef .tc main_v55)
                | 2 => V (Proc.devRef .tc main_v58) | 3 => V (Proc.devRef .tc main_v61)) (ValueIdx.ix3 t r j)) := by
  rw [v69_eq, stack2_apply]
  match b with
  | ⟨0, _⟩ => exact (if_pos rfl).symm
  | ⟨1, _⟩ =>
    rw [if_neg (Fin.ne_of_val_ne (by show (1 : Nat) ≠ 0; decide))]
    exact stack4_apply _ _ _ _ s t r j

theorem v70_apply (V : Valuation τ sig (Elt F)) (b : Fin 2) (s : Fin 4) (t : Fin 1023) (r : Fin 32) (j : Fin 8) :
    StableHlo.after (hostOps9 (F := F)) V (Proc.devRef .tc main_v70) (ValueIdx.ix4 b s t ⟨r.val * 8 + j.val, by omega⟩)
      = (if b = 0 then V (Proc.devRef .tc main_v49) (ValueIdx.ix4 s t r j)
         else (match s with
                | 0 => V (Proc.devRef .tc main_v52) | 1 => V (Proc.devRef .tc main_v55)
                | 2 => V (Proc.devRef .tc main_v58) | 3 => V (Proc.devRef .tc main_v61)) (ValueIdx.ix3 t r j)) := by
  rw [v70_eq, reshape_apply]
  exact v69_apply V b s t r j

/-! ## The same at literal batch and subtable -/

theorem v49_apply_0 (V : Valuation τ sig (Elt F)) (t : Fin 1023) (r : Fin 32) (j : Fin 8) :
    StableHlo.after (hostOps5 (F := F)) V (Proc.devRef .tc main_v49) (ValueIdx.ix4 (0 : Fin 4) t r j)
      = V (Proc.devRef .tc main_v35) (ValueIdx.ix3 t r j) := v49_apply V 0 t r j
theorem v49_apply_1 (V : Valuation τ sig (Elt F)) (t : Fin 1023) (r : Fin 32) (j : Fin 8) :
    StableHlo.after (hostOps5 (F := F)) V (Proc.devRef .tc main_v49) (ValueIdx.ix4 (1 : Fin 4) t r j)
      = V (Proc.devRef .tc main_v38) (ValueIdx.ix3 t r j) := v49_apply V 1 t r j
theorem v49_apply_2 (V : Valuation τ sig (Elt F)) (t : Fin 1023) (r : Fin 32) (j : Fin 8) :
    StableHlo.after (hostOps5 (F := F)) V (Proc.devRef .tc main_v49) (ValueIdx.ix4 (2 : Fin 4) t r j)
      = V (Proc.devRef .tc main_v41) (ValueIdx.ix3 t r j) := v49_apply V 2 t r j
theorem v49_apply_3 (V : Valuation τ sig (Elt F)) (t : Fin 1023) (r : Fin 32) (j : Fin 8) :
    StableHlo.after (hostOps5 (F := F)) V (Proc.devRef .tc main_v49) (ValueIdx.ix4 (3 : Fin 4) t r j)
      = V (Proc.devRef .tc main_v44) (ValueIdx.ix3 t r j) := v49_apply V 3 t r j

/-- Batch 0 of the reshaped result: the first stack, as the valuation holds it. -/
theorem v70_apply_batch0 (V : Valuation τ sig (Elt F)) (s : Fin 4) (t : Fin 1023) (r : Fin 32) (j : Fin 8) :
    StableHlo.after (hostOps9 (F := F)) V (Proc.devRef .tc main_v70) (ValueIdx.ix4 (0 : Fin 2) s t ⟨r.val * 8 + j.val, by omega⟩)
      = V (Proc.devRef .tc main_v49) (ValueIdx.ix4 s t r j) :=
  (v70_apply V 0 s t r j).trans (if_pos rfl)

/-- Batch 1 of the reshaped result: array (1, s) at (t, r, j). -/
theorem v70_apply_batch1 (V : Valuation τ sig (Elt F)) (s : Fin 4) (t : Fin 1023) (r : Fin 32) (j : Fin 8) :
    StableHlo.after (hostOps9 (F := F)) V (Proc.devRef .tc main_v70) (ValueIdx.ix4 (1 : Fin 2) s t ⟨r.val * 8 + j.val, by omega⟩)
      = (match s with
          | 0 => V (Proc.devRef .tc main_v52) | 1 => V (Proc.devRef .tc main_v55)
          | 2 => V (Proc.devRef .tc main_v58) | 3 => V (Proc.devRef .tc main_v61)) (ValueIdx.ix3 t r j) :=
  (v70_apply V 1 s t r j).trans (if_neg (by decide))

end Cert.KernelIdeal.Hand
-- ==== Proof.KernelIdealProjValue.lean ====
/-
  The projection kernel's region read at an index, at the ideal float instance: the output array the region leaves is,
  entry by entry, the contraction of the flattened hidden array with one subtable's transposed weight block; and the two
  host operations before the region (the flattening of the hidden array, the transposition of the weights) read at an index.
-/
import proofs.«145402_j1717986918579_1_alg».proof.Proof.KernelIdealProj
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem

open scoped BigOperators

/-! ## The two host operations before the region -/

section Host
variable {F : FTy → Type} [FloatOps F]

/-- The flattened hidden array at row `b * 1024 + t` is the hidden array at `[b, t]`. -/
theorem v0_apply (W : Valuation τ sig (Elt F)) (b : Fin 2) (t : Fin 1024) (i : Fin 256) :
    StableHlo.after (hostOps0 (F := F)) W (Proc.devRef .tc main_v0) (ValueIdx.ix2 ⟨b.val * 1024 + t.val, by omega⟩ i)
      = W (Proc.devRef .tc main_arg0) (ValueIdx.ix3 b t i) := by
  have h : StableHlo.after (hostOps0 (F := F)) W (Proc.devRef .tc main_v0)
      = shapeCast S2048x256 (W (Proc.devRef .tc main_arg0)) shapeCasts_S2x1024x256_S2048x256 := by
    simp only [hostOps0]
    after_results_simp <;> rfl
  rw [h]
  exact shapeCast_apply (W (Proc.devRef .tc main_arg0)) shapeCasts_S2x1024x256_S2048x256
    (ValueIdx.ix2 (⟨b.val * 1024 + t.val, by omega⟩ : Fin 2048) i) (ValueIdx.ix3 b t i)
    (by show (S2x1024x256.rowMajor (ValueIdx.ix3 b t i)).val
          = (S2048x256.rowMajor (ValueIdx.ix2 (⟨b.val * 1024 + t.val, by omega⟩ : Fin 2048) i)).val
        rw [Shape.rowMajor_val_three, Shape.rowMajor_val_two]
        show (b.val * 1024 + t.val) * 256 + i.val = (b.val * 1024 + t.val) * 256 + i.val
        rfl)

/-- The transposed weights at `[s, i, o]` are the weights at `[s, o, i]`. -/
theorem v1_apply (W : Valuation τ sig (Elt F)) (s : Fin 4) (i : Fin 256) (o : Fin 256) :
    StableHlo.after (hostOps0 (F := F)) W (Proc.devRef .tc main_v1) (ValueIdx.ix3 s i o)
      = W (Proc.devRef .tc main_arg1) (ValueIdx.ix3 s o i) := by
  have h : StableHlo.after (hostOps0 (F := F)) W (Proc.devRef .tc main_v1)
      = transpose S4x256x256 [0, 2, 1] (W (Proc.devRef .tc main_arg1)) transposes_S4x256x256_S4x256x256_0_2_1 := by
    simp only [hostOps0]
    after_results_simp <;> rfl
  rw [h]
  exact transpose_apply [0, 2, 1] (W (Proc.devRef .tc main_arg1)) transposes_S4x256x256_S4x256x256_0_2_1
    (ValueIdx.ix3 s i o) (ValueIdx.ix3 s o i)
    (fun a => match a with
      | ⟨0, _⟩ => rfl
      | ⟨1, _⟩ => rfl
      | ⟨2, _⟩ => rfl)

end Host

/-! ## The body's payload at an index (ideal instance) -/

/-- The matrix product's operand indices, coordinate by coordinate: at output index `(q, o)` and contraction index `k` the left
    operand is read at `(q, k)` and the right at `(k, o)`. -/
theorem lhs_pay_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_pay_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_pay_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_pay_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The payload at `[0, q, o]`: the contraction over `k` of the hidden block at `(q, k)` with the weight block at `[0, k, o]`
    (at the ideal instance the two format changes are the identity and the accumulator is zero). -/
theorem pay_apply (x0 : Vec Ideal S2048x256 .f32) (x1 : Vec Ideal S1x256x256 .f32) (j : S1x2048x256.Idx) :
    k0_pay1 (F := Ideal) x0 x1 j
      = ∑ k : Fin 256, x0 (ValueIdx.ix2 (⟨(j 1).val, (j 1).isLt⟩ : Fin 2048) k)
          * x1 (ValueIdx.ix3 (0 : Fin 1) k (⟨(j 2).val, (j 2).isLt⟩ : Fin 256)) := by
  have h0 : (j 0).val < 1 := (j 0).isLt
  unfold k0_pay1
  dsimp only
  rw [shapeCast_apply _ shapeCasts_S2048x256_S1x2048x256 j
    (ValueIdx.ix2 (⟨(j 1).val, (j 1).isLt⟩ : Fin 2048) (⟨(j 2).val, (j 2).isLt⟩ : Fin 256))
    (by rw [Shape.rowMajor_val_two, Shape.rowMajor_val_three]
        show (j 1).val * 256 + (j 2).val = ((j 0).val * 2048 + (j 1).val) * 256 + (j 2).val
        omega)]
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  rw [ValueIdx.truncf_apply, ValueIdx.truncf_apply, shapeCast_self]
  have el : dot_S2048x256_S256x256_S2048x256_1_0_0_1_n_n.lhsIdx (ValueIdx.ix2 (⟨(j 1).val, (j 1).isLt⟩ : Fin 2048) (⟨(j 2).val, (j 2).isLt⟩ : Fin 256))
      ((ValueIdx.contrEquiv1 dot_S2048x256_S256x256_S2048x256_1_0_0_1_n_n 256 rfl rfl).symm k) = ValueIdx.ix2 (⟨(j 1).val, (j 1).isLt⟩ : Fin 2048) k :=
    funext fun a => Fin.ext (by
      match a with
      | ⟨0, _⟩ => exact lhs_pay_0 _ _
      | ⟨1, _⟩ => exact (lhs_pay_1 _ _).trans hk)
  rw [el]
  congr 1
  exact shapeCast_apply x1 shapeCasts_S1x256x256_S256x256 _ (ValueIdx.ix3 (0 : Fin 1) k (⟨(j 2).val, (j 2).isLt⟩ : Fin 256))
    (by rw [Shape.rowMajor_val_three, Shape.rowMajor_val_two, rhs_pay_0, rhs_pay_1, hk]
        show ((0 : Fin 1).val * 256 + k.val) * 256 + (j 2).val = k.val * 256 + (j 2).val
        simp)

/-! ## The region's output array (ideal instance) -/

section Region
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- What the output array ends holding: at `[s, q, o]` the contraction over `k` of the flattened hidden array at `(q, k)` with
    the transposed weights at `[s, k, o]`. -/
def projAll (a0 : S2048x256.Idx → Elt Ideal .f32) (a1 : S4x256x256.Idx → Elt Ideal .f32) : S4x2048x256.Idx → Elt Ideal .f32 :=
  fun i => ∑ k : Fin 256, a0 (ValueIdx.ix2 (⟨(i 1).val, (i 1).isLt⟩ : Fin 2048) k)
    * a1 (ValueIdx.ix3 (⟨(i 0).val, (i 0).isLt⟩ : Fin 4) k (⟨(i 2).val, (i 2).isLt⟩ : Fin 256))

/-- The printed index maps, decided over the grid: the hidden window is the whole array at every point, the weight window's
    block is the output window's, and both stay at block zero on their last two axes. -/
theorem idx_facts0 : ∀ t : Fin cfg0.N,
    win0_0.index t (0 : Fin 2) = 0 ∧ win0_0.index t (1 : Fin 2) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 3 :=
  (by decide +kernel : ∀ t : Fin grid0.N, _)

/-- Every subtable's block is some point's. -/
theorem idx_onto0 : ∀ q0 : Fin 4, ∃ t : Fin cfg0.N, win0_2.index t = ![q0.val, 0, 0] :=
  (by decide +kernel : ∀ q0 : Fin 4, ∃ t : Fin grid0.N, win0_2.index t = ![q0.val, 0, 0])

/-- What point `t` writes back is block `t` of `projAll` of the two input arrays as the region finds them. -/
theorem flushed0_eq (c : Dev nD) (t : Fin cfg0.N) :
    (dat0 (F := Ideal) V c).flushed 2 t
      = ((cfg0.win 2).blk t).view.read (Elt Ideal) (projAll (V c main_v0) (V c main_v1)) := by
  show (cfg0.win 2).cut (grid0.coords t) ((dat0 (F := Ideal) V c).after 2 t) = _
  rw [after0_2]
  unfold projOut
  rw [View.canon_unit_zero hz3]
  simp only [View.ld_unit_zero (S := S2048x256) hz2, View.ld_unit_zero (S := S1x256x256) hz3]
  funext j
  show k0_pay1 (F := Ideal) (iblk0 V c 0 t) (iblk0 V c 1 t) j
    = projAll (V c main_v0) (V c main_v1) (((cfg0.win 2).blk t).view.emb j)
  rw [pay_apply]
  unfold projAll
  refine Finset.sum_congr rfl fun k _ => ?_
  obtain ⟨e0, e1, e2, e3, e4, e5, e6, e7⟩ := idx_facts0 t
  have hj0 : (j 0).val < 1 := (j 0).isLt
  congr 1
  · unfold iblk0
    rw [View.read_apply]
    show V c main_v0 _ = V c main_v0 _
    congr 1
    funext a
    apply Fin.ext
    match a with
    | ⟨0, _⟩ =>
      show win0_0.index t (0 : Fin 2) * 2048 + 1 * (j 1).val = win0_2.index t (1 : Fin 3) * 2048 + 1 * (j 1).val
      rw [e0, e5]
    | ⟨1, _⟩ =>
      show win0_0.index t (1 : Fin 2) * 256 + 1 * k.val = k.val
      rw [e1]; omega
  · unfold iblk0
    rw [View.read_apply]
    show V c main_v1 _ = V c main_v1 _
    congr 1
    funext a
    apply Fin.ext
    match a with
    | ⟨0, _⟩ =>
      show win0_1.index t (0 : Fin 3) * 1 + 1 * (0 : Fin 1).val = win0_2.index t (0 : Fin 3) * 1 + 1 * (j 0).val
      rw [e2]; show _ + 1 * 0 = _; omega
    | ⟨1, _⟩ =>
      show win0_1.index t (1 : Fin 3) * 256 + 1 * k.val = k.val
      rw [e3]; omega
    | ⟨2, _⟩ =>
      show win0_1.index t (2 : Fin 3) * 256 + 1 * (j 2).val = win0_2.index t (2 : Fin 3) * 256 + 1 * (j 2).val
      rw [e4, e6]

/-- An index of the output array is in point `t`'s block iff each coordinate is in the block's range on its axis. -/
theorem mem_blk0 (t : Fin cfg0.N) (i : S4x2048x256.Idx) :
    i ∈ ((cfg0.win 2).blk t).view.set
      ↔ ∀ a : Fin 3, win0_2.index t a * S1x2048x256.size a ≤ (i a).val
          ∧ (i a).val < win0_2.index t a * S1x2048x256.size a + S1x2048x256.size a := by
  show i ∈ ((View.whole main_v2).slice (win0_2.rect t)).set ↔ _
  rw [View.set_slice_whole, Rect.mem_set_unit]
  exact Iff.rfl

/-- Every index of the output array is in some point's block: the four blocks tile it along the subtable axis. -/
theorem cover0 (i : S4x2048x256.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 256 := (i 2).isLt
  obtain ⟨t, ht⟩ := idx_onto0 ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk0]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 256 ≤ (i 2).val ∧ (i 2).val < win0_2.index t (2 : Fin 3) * 256 + 256
    omega

/-- The output array after the region's run is `projAll` of the two input arrays as the region finds them. -/
theorem final0 (c : Dev nD) :
    (dat0 (F := Ideal) V c).arrAt 2 cfg0.N = projAll (V c main_v0) (V c main_v1) :=
  (dat0 (F := Ideal) V c).arrAt_eq_of_cover 2 (projAll (V c main_v0) (V c main_v1))
    (fun t _ => flushed0_eq V c t) (cover0)

/-- `projAll` at `[s, q, o]`: the contraction over `i` of the first array at `(q, i)` with the second at `[s, i, o]`. -/
theorem projAll_apply (a0 : S2048x256.Idx → Elt Ideal .f32) (a1 : S4x256x256.Idx → Elt Ideal .f32)
    (s : Fin 4) (q : Fin 2048) (o : Fin 256) :
    projAll a0 a1 (ValueIdx.ix3 s q o) = ∑ i : Fin 256, a0 (ValueIdx.ix2 q i) * a1 (ValueIdx.ix3 s i o) := rfl

/-- The output array after the region's run at `[s, q, o]` is `projAll` of the two input arrays there (then `projAll_apply`:
    the contraction over `i` of the flattened hidden array at `(q, i)` with the transposed weights at `[s, i, o]`). -/
theorem res0_apply (c : Dev nD) (s : Fin 4) (q : Fin 2048) (o : Fin 256) :
    (dat0 (F := Ideal) V c).arrAt 2 cfg0.N (ValueIdx.ix3 s q o)
      = projAll (V c main_v0) (V c main_v1) (ValueIdx.ix3 s q o) := by
  rw [final0]

/-- The same as a sum, the two input arrays named at their literal shapes. -/
theorem res0_apply_of (c : Dev nD) (a0 : S2048x256.Idx → Elt Ideal .f32) (a1 : S4x256x256.Idx → Elt Ideal .f32)
    (h0 : V c main_v0 = a0) (h1 : V c main_v1 = a1) (s : Fin 4) (q : Fin 2048) (o : Fin 256) :
    (dat0 (F := Ideal) V c).arrAt 2 cfg0.N (ValueIdx.ix3 s q o)
      = ∑ i : Fin 256, a0 (ValueIdx.ix2 q i) * a1 (ValueIdx.ix3 s i o) := by
  subst h0; subst h1
  rw [final0]
  rfl

end Region

end Cert.KernelIdeal.Hand

end
-- ==== Proof.KernelIdealValue.lean ====
/-
  The value of @main's result over the boundary contents. The weight array is as launched at every boundary; each gather
  region's table is a block of the integer chain of the projection's logits, all of whose words are in range; the result
  buffer lays the eight gather regions' outputs end to end; and the projection's inputs are the launched hidden states and
  weight re-laid-out. Given each gather region's output as the weight array's rows named by its table, the result buffer at
  `[b, s, t, 8 r + j]` is the launched weight array at row `chain(logits)[b, s, t, r]`, column `j`.
-/
import proofs.«145402_j1717986918579_1_alg».proof.Proof.KernelIdealKeep
import proofs.«145402_j1717986918579_1_alg».proof.Proof.KernelIdealHost
import proofs.«145402_j1717986918579_1_alg».proof.Proof.KernelIdealTail
import proofs.«145402_j1717986918579_1_alg».proof.Proof.KernelIdealProjValue
import proofs.«145402_j1717986918579_1_alg».proof.Proof.KernelIdealTables

set_option maxRecDepth 16384

noncomputable section

namespace Cert.KernelIdeal.Hand

open Cert.KernelIdeal Cert.KernelIdeal.Gen Idealize.ShloMosaic Idealize.ShloMosaic.TcCoe Idealize.SL.Sem

open scoped BigOperators

variable {F : FTy → Type} [FloatOps F]

section Value
variable (m : (ℓ : Loc nD τ sig) → Buf (Elt F) ℓ)

/-! ## The weight array at every boundary

No host stretch and no region writes the weight array: at every boundary it is as launched. -/

theorem arg2_at_0 (c : Dev nD) : W0 (F := F) m c (Proc.devRef .tc main_arg2) = m ((c.tc : Thread nD τ).loc main_arg2) := rfl
theorem arg2_at_1 (c : Dev nD) : W1 (F := F) m c (Proc.devRef .tc main_arg2) = m ((c.tc : Thread nD τ).loc main_arg2) :=
  (keep_arg2_1 m c).trans (arg2_at_0 m c)
theorem arg2_at_2 (c : Dev nD) : W2 (F := F) m c (Proc.devRef .tc main_arg2) = m ((c.tc : Thread nD τ).loc main_arg2) :=
  (keep_arg2_2 m c).trans (arg2_at_1 m c)
theorem arg2_at_3 (c : Dev nD) : W3 (F := F) m c (Proc.devRef .tc main_arg2) = m ((c.tc : Thread nD τ).loc main_arg2) :=
  (keep_arg2_3 m c).trans (arg2_at_2 m c)
theorem arg2_at_4 (c : Dev nD) : W4 (F := F) m c (Proc.devRef .tc main_arg2) = m ((c.tc : Thread nD τ).loc main_arg2) :=
  (keep_arg2_4 m c).trans (arg2_at_3 m c)
theorem arg2_at_5 (c : Dev nD) : W5 (F := F) m c (Proc.devRef .tc main_arg2) = m ((c.tc : Thread nD τ).loc main_arg2) :=
  (keep_arg2_5 m c).trans (arg2_at_4 m c)
theorem arg2_at_6 (c : Dev nD) : W6 (F := F) m c (Proc.devRef .tc main_arg2) = m ((c.tc : Thread nD τ).loc main_arg2) :=
  (keep_arg2_6 m c).trans (arg2_at_5 m c)
theorem arg2_at_7 (c : Dev nD) : W7 (F := F) m c (Proc.devRef .tc main_arg2) = m ((c.tc : Thread nD τ).loc main_arg2) :=
  (keep_arg2_7 m c).trans (arg2_at_6 m c)
theorem arg2_at_8 (c : Dev nD) : W8 (F := F) m c (Proc.devRef .tc main_arg2) = m ((c.tc : Thread nD τ).loc main_arg2) :=
  (keep_arg2_8 m c).trans (arg2_at_7 m c)
theorem arg2_at_9 (c : Dev nD) : W9 (F := F) m c (Proc.devRef .tc main_arg2) = m ((c.tc : Thread nD τ).loc main_arg2) :=
  (keep_arg2_9 m c).trans (arg2_at_8 m c)
theorem arg2_at_10 (c : Dev nD) : W10 (F := F) m c (Proc.devRef .tc main_arg2) = m ((c.tc : Thread nD τ).loc main_arg2) :=
  (keep_arg2_10 m c).trans (arg2_at_9 m c)
theorem arg2_at_11 (c : Dev nD) : W11 (F := F) m c (Proc.devRef .tc main_arg2) = m ((c.tc : Thread nD τ).loc main_arg2) :=
  (keep_arg2_11 m c).trans (arg2_at_10 m c)
theorem arg2_at_12 (c : Dev nD) : W12 (F := F) m c (Proc.devRef .tc main_arg2) = m ((c.tc : Thread nD τ).loc main_arg2) :=
  (keep_arg2_12 m c).trans (arg2_at_11 m c)
theorem arg2_at_13 (c : Dev nD) : W13 (F := F) m c (Proc.devRef .tc main_arg2) = m ((c.tc : Thread nD τ).loc main_arg2) :=
  (keep_arg2_13 m c).trans (arg2_at_12 m c)
theorem arg2_at_14 (c : Dev nD) : W14 (F := F) m c (Proc.devRef .tc main_arg2) = m ((c.tc : Thread nD τ).loc main_arg2) :=
  (keep_arg2_14 m c).trans (arg2_at_13 m c)
theorem arg2_at_15 (c : Dev nD) : W15 (F := F) m c (Proc.devRef .tc main_arg2) = m ((c.tc : Thread nD τ).loc main_arg2) :=
  (keep_arg2_15 m c).trans (arg2_at_14 m c)
theorem arg2_at_16 (c : Dev nD) : W16 (F := F) m c (Proc.devRef .tc main_arg2) = m ((c.tc : Thread nD τ).loc main_arg2) :=
  (keep_arg2_16 m c).trans (arg2_at_15 m c)
theorem arg2_at_17 (c : Dev nD) : W17 (F := F) m c (Proc.devRef .tc main_arg2) = m ((c.tc : Thread nD τ).loc main_arg2) :=
  (keep_arg2_17 m c).trans (arg2_at_16 m c)

/-! ## The row indices and the tables

The row-index array, transposed, is written once, before the first gather region, and kept; table `k` is its block
`(b, s)` with `k = 4 b + s + 1`. -/

/-- The integer chain of any logits is in range. -/
theorem chain5_lt (y : (⟨S2x4x1024x32x8, .f32⟩ : BufTy).Contents (Elt F)) : ∀ i, (chain5 y i).toNat < 8388608 := fun i =>
  Nat.lt_succ_of_le (Tables.addi_le _ _ 8323072 65535 Tables.base_le (Tables.addr_le _) (by decide) i)

/-- The row indices of the projection's result are in range. -/
theorem gidx_lt (c : Dev nD) : ∀ i, (chain5 (logits5 (res0 (F := F) m c)) i).toNat < 8388608 := chain5_lt _

/-- The transposed row indices at `[b, s, r, t]`, as the first gather region is entered, are the chain at `[b, s, t, r]`. -/
theorem v32_at_3 (c : Dev nD) (b : Fin 2) (s : Fin 4) (r : Fin 32) (t : Fin 1023) :
    W3 (F := F) m c (Proc.devRef .tc main_v32) (ValueIdx.ix4 b s r t) = chain5 (logits5 (res0 m c)) (ValueIdx.ix4 b s t r) := by
  show StableHlo.after (hostOps1 (F := F)) (W2 m c) (Proc.devRef .tc main_v32) (ValueIdx.ix4 b s r t) = _
  rw [v32_apply, v31_eq, at_res0]

theorem v32_eq_3 (c : Dev nD) : W3 (F := F) m c (Proc.devRef .tc main_v32) = W3 m c (Proc.devRef .tc main_v32) := rfl
theorem v32_eq_4 (c : Dev nD) : W4 (F := F) m c (Proc.devRef .tc main_v32) = W3 m c (Proc.devRef .tc main_v32) :=
  (keep_v32_4 m c).trans (v32_eq_3 m c)
theorem v32_eq_5 (c : Dev nD) : W5 (F := F) m c (Proc.devRef .tc main_v32) = W3 m c (Proc.devRef .tc main_v32) :=
  (keep_v32_5 m c).trans (v32_eq_4 m c)
theorem v32_eq_6 (c : Dev nD) : W6 (F := F) m c (Proc.devRef .tc main_v32) = W3 m c (Proc.devRef .tc main_v32) :=
  (keep_v32_6 m c).trans (v32_eq_5 m c)
theorem v32_eq_7 (c : Dev nD) : W7 (F := F) m c (Proc.devRef .tc main_v32) = W3 m c (Proc.devRef .tc main_v32) :=
  (keep_v32_7 m c).trans (v32_eq_6 m c)
theorem v32_eq_8 (c : Dev nD) : W8 (F := F) m c (Proc.devRef .tc main_v32) = W3 m c (Proc.devRef .tc main_v32) :=
  (keep_v32_8 m c).trans (v32_eq_7 m c)
theorem v32_eq_9 (c : Dev nD) : W9 (F := F) m c (Proc.devRef .tc main_v32) = W3 m c (Proc.devRef .tc main_v32) :=
  (keep_v32_9 m c).trans (v32_eq_8 m c)
theorem v32_eq_10 (c : Dev nD) : W10 (F := F) m c (Proc.devRef .tc main_v32) = W3 m c (Proc.devRef .tc main_v32) :=
  (keep_v32_10 m c).trans (v32_eq_9 m c)
theorem v32_eq_11 (c : Dev nD) : W11 (F := F) m c (Proc.devRef .tc main_v32) = W3 m c (Proc.devRef .tc main_v32) :=
  (keep_v32_11 m c).trans (v32_eq_10 m c)
theorem v32_eq_12 (c : Dev nD) : W12 (F := F) m c (Proc.devRef .tc main_v32) = W3 m c (Proc.devRef .tc main_v32) :=
  (keep_v32_12 m c).trans (v32_eq_11 m c)
theorem v32_eq_13 (c : Dev nD) : W13 (F := F) m c (Proc.devRef .tc main_v32) = W3 m c (Proc.devRef .tc main_v32) :=
  (keep_v32_13 m c).trans (v32_eq_12 m c)
theorem v32_eq_14 (c : Dev nD) : W14 (F := F) m c (Proc.devRef .tc main_v32) = W3 m c (Proc.devRef .tc main_v32) :=
  (keep_v32_14 m c).trans (v32_eq_13 m c)
theorem v32_eq_15 (c : Dev nD) : W15 (F := F) m c (Proc.devRef .tc main_v32) = W3 m c (Proc.devRef .tc main_v32) :=
  (keep_v32_15 m c).trans (v32_eq_14 m c)
theorem v32_eq_16 (c : Dev nD) : W16 (F := F) m c (Proc.devRef .tc main_v32) = W3 m c (Proc.devRef .tc main_v32) :=
  (keep_v32_16 m c).trans (v32_eq_15 m c)

/-- Table 1, read at `(r, t)` as gather region 1 is entered. -/
theorem tbl_at_1 (c : Dev nD) (r : Fin 32) (t : Fin 1023) :
    W3 (F := F) m c (Proc.devRef .tc main_v34) (ValueIdx.ix2 r t) = chain5 (logits5 (res0 m c)) (ValueIdx.ix4 (0 : Fin 2) (0 : Fin 4) t r) := by
  show StableHlo.after (hostOps1 (F := F)) (W2 m c) (Proc.devRef .tc main_v34) (ValueIdx.ix2 r t) = _
  rw [tbl34_apply]
  exact v32_at_3 m c 0 0 r t

/-- Table 2, read at `(r, t)` as gather region 2 is entered. -/
theorem tbl_at_2 (c : Dev nD) (r : Fin 32) (t : Fin 1023) :
    W5 (F := F) m c (Proc.devRef .tc main_v37) (ValueIdx.ix2 r t) = chain5 (logits5 (res0 m c)) (ValueIdx.ix4 (0 : Fin 2) (1 : Fin 4) t r) := by
  show StableHlo.after (hostOps2 (F := F)) (W4 m c) (Proc.devRef .tc main_v37) (ValueIdx.ix2 r t) = _
  rw [tbl37_apply, v32_eq_4]
  exact v32_at_3 m c 0 1 r t

/-- Table 3, read at `(r, t)` as gather region 3 is entered. -/
theorem tbl_at_3 (c : Dev nD) (r : Fin 32) (t : Fin 1023) :
    W7 (F := F) m c (Proc.devRef .tc main_v40) (ValueIdx.ix2 r t) = chain5 (logits5 (res0 m c)) (ValueIdx.ix4 (0 : Fin 2) (2 : Fin 4) t r) := by
  show StableHlo.after (hostOps3 (F := F)) (W6 m c) (Proc.devRef .tc main_v40) (ValueIdx.ix2 r t) = _
  rw [tbl40_apply, v32_eq_6]
  exact v32_at_3 m c 0 2 r t

/-- Table 4, read at `(r, t)` as gather region 4 is entered. -/
theorem tbl_at_4 (c : Dev nD) (r : Fin 32) (t : Fin 1023) :
    W9 (F := F) m c (Proc.devRef .tc main_v43) (ValueIdx.ix2 r t) = chain5 (logits5 (res0 m c)) (ValueIdx.ix4 (0 : Fin 2) (3 : Fin 4) t r) := by
  show StableHlo.after (hostOps4 (F := F)) (W8 m c) (Proc.devRef .tc main_v43) (ValueIdx.ix2 r t) = _
  rw [tbl43_apply, v32_eq_8]
  exact v32_at_3 m c 0 3 r t

/-- Table 5, read at `(r, t)` as gather region 5 is entered. -/
theorem tbl_at_5 (c : Dev nD) (r : Fin 32) (t : Fin 1023) :
    W11 (F := F) m c (Proc.devRef .tc main_v51) (ValueIdx.ix2 r t) = chain5 (logits5 (res0 m c)) (ValueIdx.ix4 (1 : Fin 2) (0 : Fin 4) t r) := by
  show StableHlo.after (hostOps5 (F := F)) (W10 m c) (Proc.devRef .tc main_v51) (ValueIdx.ix2 r t) = _
  rw [tbl51_apply, v32_eq_10]
  exact v32_at_3 m c 1 0 r t

/-- Table 6, read at `(r, t)` as gather region 6 is entered. -/
theorem tbl_at_6 (c : Dev nD) (r : Fin 32) (t : Fin 1023) :
    W13 (F := F) m c (Proc.devRef .tc main_v54) (ValueIdx.ix2 r t) = chain5 (logits5 (res0 m c)) (ValueIdx.ix4 (1 : Fin 2) (1 : Fin 4) t r) := by
  show StableHlo.after (hostOps6 (F := F)) (W12 m c) (Proc.devRef .tc main_v54) (ValueIdx.ix2 r t) = _
  rw [tbl54_apply, v32_eq_12]
  exact v32_at_3 m c 1 1 r t

/-- Table 7, read at `(r, t)` as gather region 7 is entered. -/
theorem tbl_at_7 (c : Dev nD) (r : Fin 32) (t : Fin 1023) :
    W15 (F := F) m c (Proc.devRef .tc main_v57) (ValueIdx.ix2 r t) = chain5 (logits5 (res0 m c)) (ValueIdx.ix4 (1 : Fin 2) (2 : Fin 4) t r) := by
  show StableHlo.after (hostOps7 (F := F)) (W14 m c) (Proc.devRef .tc main_v57) (ValueIdx.ix2 r t) = _
  rw [tbl57_apply, v32_eq_14]
  exact v32_at_3 m c 1 2 r t

/-- Table 8, read at `(r, t)` as gather region 8 is entered. -/
theorem tbl_at_8 (c : Dev nD) (r : Fin 32) (t : Fin 1023) :
    W17 (F := F) m c (Proc.devRef .tc main_v60) (ValueIdx.ix2 r t) = chain5 (logits5 (res0 m c)) (ValueIdx.ix4 (1 : Fin 2) (3 : Fin 4) t r) := by
  show StableHlo.after (hostOps8 (F := F)) (W16 m c) (Proc.devRef .tc main_v60) (ValueIdx.ix2 r t) = _
  rw [tbl60_apply, v32_eq_16]
  exact v32_at_3 m c 1 3 r t

/-! ## The result buffer

The last stretch lays the eight gather regions' outputs end to end: batch 0's four were stacked into `main_v49` before
gather region 5, batch 1's four are read as gather region 8 leaves them. Each output array is kept from the boundary its
region leaves it at until the stretch that reads it. -/

theorem o1_at_10 (c : Dev nD) : W10 (F := F) m c (Proc.devRef .tc main_v35) = res1 m c := (keep_o1_10 m c).trans ((keep_o1_9 m c).trans ((keep_o1_8 m c).trans ((keep_o1_7 m c).trans ((keep_o1_6 m c).trans ((keep_o1_5 m c).trans (at_res1 m c))))))
theorem o2_at_10 (c : Dev nD) : W10 (F := F) m c (Proc.devRef .tc main_v38) = res2 m c := (keep_o2_10 m c).trans ((keep_o2_9 m c).trans ((keep_o2_8 m c).trans ((keep_o2_7 m c).trans (at_res2 m c))))
theorem o3_at_10 (c : Dev nD) : W10 (F := F) m c (Proc.devRef .tc main_v41) = res3 m c := (keep_o3_10 m c).trans ((keep_o3_9 m c).trans (at_res3 m c))
theorem o4_at_10 (c : Dev nD) : W10 (F := F) m c (Proc.devRef .tc main_v44) = res4 m c := at_res4 m c
theorem o5_at_18 (c : Dev nD) : W18 (F := F) m c (Proc.devRef .tc main_v52) = res5 m c := (keep_o5_18 m c).trans ((keep_o5_17 m c).trans ((keep_o5_16 m c).trans ((keep_o5_15 m c).trans ((keep_o5_14 m c).trans ((keep_o5_13 m c).trans (at_res5 m c))))))
theorem o6_at_18 (c : Dev nD) : W18 (F := F) m c (Proc.devRef .tc main_v55) = res6 m c := (keep_o6_18 m c).trans ((keep_o6_17 m c).trans ((keep_o6_16 m c).trans ((keep_o6_15 m c).trans (at_res6 m c))))
theorem o7_at_18 (c : Dev nD) : W18 (F := F) m c (Proc.devRef .tc main_v58) = res7 m c := (keep_o7_18 m c).trans ((keep_o7_17 m c).trans (at_res7 m c))
theorem o8_at_18 (c : Dev nD) : W18 (F := F) m c (Proc.devRef .tc main_v61) = res8 m c := at_res8 m c
theorem v49_at_18 (c : Dev nD) : W18 (F := F) m c (Proc.devRef .tc main_v49) = W11 m c (Proc.devRef .tc main_v49) := (keep_v49_18 m c).trans ((keep_v49_17 m c).trans ((keep_v49_16 m c).trans ((keep_v49_15 m c).trans ((keep_v49_14 m c).trans ((keep_v49_13 m c).trans ((keep_v49_12 m c).trans (rfl)))))))

theorem v70_at_00 (c : Dev nD) (t : Fin 1023) (r : Fin 32) (j : Fin 8) :
    W19 (F := F) m c (Proc.devRef .tc main_v70) (ValueIdx.ix4 (0 : Fin 2) (0 : Fin 4) t ⟨r.val * 8 + j.val, by omega⟩) = res1 m c (ValueIdx.ix3 t r j) := by
  show StableHlo.after (hostOps9 (F := F)) (W18 m c) (Proc.devRef .tc main_v70) (ValueIdx.ix4 (0 : Fin 2) (0 : Fin 4) t ⟨r.val * 8 + j.val, by omega⟩) = _
  rw [v70_apply_batch0, v49_at_18]
  show StableHlo.after (hostOps5 (F := F)) (W10 m c) (Proc.devRef .tc main_v49) (ValueIdx.ix4 (0 : Fin 4) t r j) = _
  rw [v49_apply_0, o1_at_10]

theorem v70_at_01 (c : Dev nD) (t : Fin 1023) (r : Fin 32) (j : Fin 8) :
    W19 (F := F) m c (Proc.devRef .tc main_v70) (ValueIdx.ix4 (0 : Fin 2) (1 : Fin 4) t ⟨r.val * 8 + j.val, by omega⟩) = res2 m c (ValueIdx.ix3 t r j) := by
  show StableHlo.after (hostOps9 (F := F)) (W18 m c) (Proc.devRef .tc main_v70) (ValueIdx.ix4 (0 : Fin 2) (1 : Fin 4) t ⟨r.val * 8 + j.val, by omega⟩) = _
  rw [v70_apply_batch0, v49_at_18]
  show StableHlo.after (hostOps5 (F := F)) (W10 m c) (Proc.devRef .tc main_v49) (ValueIdx.ix4 (1 : Fin 4) t r j) = _
  rw [v49_apply_1, o2_at_10]

theorem v70_at_02 (c : Dev nD) (t : Fin 1023) (r : Fin 32) (j : Fin 8) :
    W19 (F := F) m c (Proc.devRef .tc main_v70) (ValueIdx.ix4 (0 : Fin 2) (2 : Fin 4) t ⟨r.val * 8 + j.val, by omega⟩) = res3 m c (ValueIdx.ix3 t r j) := by
  show StableHlo.after (hostOps9 (F := F)) (W18 m c) (Proc.devRef .tc main_v70) (ValueIdx.ix4 (0 : Fin 2) (2 : Fin 4) t ⟨r.val * 8 + j.val, by omega⟩) = _
  rw [v70_apply_batch0, v49_at_18]
  show StableHlo.after (hostOps5 (F := F)) (W10 m c) (Proc.devRef .tc main_v49) (ValueIdx.ix4 (2 : Fin 4) t r j) = _
  rw [v49_apply_2, o3_at_10]

theorem v70_at_03 (c : Dev nD) (t : Fin 1023) (r : Fin 32) (j : Fin 8) :
    W19 (F := F) m c (Proc.devRef .tc main_v70) (ValueIdx.ix4 (0 : Fin 2) (3 : Fin 4) t ⟨r.val * 8 + j.val, by omega⟩) = res4 m c (ValueIdx.ix3 t r j) := by
  show StableHlo.after (hostOps9 (F := F)) (W18 m c) (Proc.devRef .tc main_v70) (ValueIdx.ix4 (0 : Fin 2) (3 : Fin 4) t ⟨r.val * 8 + j.val, by omega⟩) = _
  rw [v70_apply_batch0, v49_at_18]
  show StableHlo.after (hostOps5 (F := F)) (W10 m c) (Proc.devRef .tc main_v49) (ValueIdx.ix4 (3 : Fin 4) t r j) = _
  rw [v49_apply_3, o4_at_10]

theorem v70_at_10 (c : Dev nD) (t : Fin 1023) (r : Fin 32) (j : Fin 8) :
    W19 (F := F) m c (Proc.devRef .tc main_v70) (ValueIdx.ix4 (1 : Fin 2) (0 : Fin 4) t ⟨r.val * 8 + j.val, by omega⟩) = res5 m c (ValueIdx.ix3 t r j) := by
  show StableHlo.after (hostOps9 (F := F)) (W18 m c) (Proc.devRef .tc main_v70) (ValueIdx.ix4 (1 : Fin 2) (0 : Fin 4) t ⟨r.val * 8 + j.val, by omega⟩) = _
  rw [v70_apply_batch1]
  show W18 m c (Proc.devRef .tc main_v52) (ValueIdx.ix3 t r j) = _
  rw [o5_at_18]

theorem v70_at_11 (c : Dev nD) (t : Fin 1023) (r : Fin 32) (j : Fin 8) :
    W19 (F := F) m c (Proc.devRef .tc main_v70) (ValueIdx.ix4 (1 : Fin 2) (1 : Fin 4) t ⟨r.val * 8 + j.val, by omega⟩) = res6 m c (ValueIdx.ix3 t r j) := by
  show StableHlo.after (hostOps9 (F := F)) (W18 m c) (Proc.devRef .tc main_v70) (ValueIdx.ix4 (1 : Fin 2) (1 : Fin 4) t ⟨r.val * 8 + j.val, by omega⟩) = _
  rw [v70_apply_batch1]
  show W18 m c (Proc.devRef .tc main_v55) (ValueIdx.ix3 t r j) = _
  rw [o6_at_18]

theorem v70_at_12 (c : Dev nD) (t : Fin 1023) (r : Fin 32) (j : Fin 8) :
    W19 (F := F) m c (Proc.devRef .tc main_v70) (ValueIdx.ix4 (1 : Fin 2) (2 : Fin 4) t ⟨r.val * 8 + j.val, by omega⟩) = res7 m c (ValueIdx.ix3 t r j) := by
  show StableHlo.after (hostOps9 (F := F)) (W18 m c) (Proc.devRef .tc main_v70) (ValueIdx.ix4 (1 : Fin 2) (2 : Fin 4) t ⟨r.val * 8 + j.val, by omega⟩) = _
  rw [v70_apply_batch1]
  show W18 m c (Proc.devRef .tc main_v58) (ValueIdx.ix3 t r j) = _
  rw [o7_at_18]

theorem v70_at_13 (c : Dev nD) (t : Fin 1023) (r : Fin 32) (j : Fin 8) :
    W19 (F := F) m c (Proc.devRef .tc main_v70) (ValueIdx.ix4 (1 : Fin 2) (3 : Fin 4) t ⟨r.val * 8 + j.val, by omega⟩) = res8 m c (ValueIdx.ix3 t r j) := by
  show StableHlo.after (hostOps9 (F := F)) (W18 m c) (Proc.devRef .tc main_v70) (ValueIdx.ix4 (1 : Fin 2) (3 : Fin 4) t ⟨r.val * 8 + j.val, by omega⟩) = _
  rw [v70_apply_batch1]
  show W18 m c (Proc.devRef .tc main_v61) (ValueIdx.ix3 t r j) = _
  rw [o8_at_18]

/-- The result buffer at `[b, s, t, 8 r + j]` is gather region `4 b + s + 1`'s output at `[t, r, j]`. -/
theorem v70_at (c : Dev nD) (b : Fin 2) (s : Fin 4) (t : Fin 1023) (r : Fin 32) (j : Fin 8) :
    W19 (F := F) m c (Proc.devRef .tc main_v70) (ValueIdx.ix4 b s t ⟨r.val * 8 + j.val, by omega⟩)
      = (match b, s with
          | 0, 0 => res1 m c | 0, 1 => res2 m c | 0, 2 => res3 m c | 0, 3 => res4 m c
          | 1, 0 => res5 m c | 1, 1 => res6 m c | 1, 2 => res7 m c | 1, 3 => res8 m c) (ValueIdx.ix3 t r j) := by
  match b, s with
  | 0, 0 => exact v70_at_00 m c t r j
  | 0, 1 => exact v70_at_01 m c t r j
  | 0, 2 => exact v70_at_02 m c t r j
  | 0, 3 => exact v70_at_03 m c t r j
  | 1, 0 => exact v70_at_10 m c t r j
  | 1, 1 => exact v70_at_11 m c t r j
  | 1, 2 => exact v70_at_12 m c t r j
  | 1, 3 => exact v70_at_13 m c t r j

/-! ## The projection's inputs -/

/-- The hidden states with batch and position merged. -/
theorem v0_at (c : Dev nD) (b : Fin 2) (t : Fin 1024) (i : Fin 256) :
    W1 (F := F) m c (Proc.devRef .tc main_v0) (ValueIdx.ix2 ⟨b.val * 1024 + t.val, by omega⟩ i)
      = m ((c.tc : Thread nD τ).loc main_arg0) (ValueIdx.ix3 b t i) :=
  v0_apply (W0 m c) b t i

/-- The weight with its last two axes swapped. -/
theorem v1_at (c : Dev nD) (s : Fin 4) (i : Fin 256) (o : Fin 256) :
    W1 (F := F) m c (Proc.devRef .tc main_v1) (ValueIdx.ix3 s i o)
      = m ((c.tc : Thread nD τ).loc main_arg1) (ValueIdx.ix3 s o i) :=
  v1_apply (W0 m c) s i o

/-! ## The assembly

Each gather region's output, taken as given: at `[t, r, j]` it is the weight array at the row its table names at `(r, t)`,
column `j`. The table is the chain's block, the weight array is as launched, so the result buffer at `[b, s, t, 8 r + j]` is
the launched weight array at row `chain(logits)[b, s, t, r]`, column `j`. -/

/-- Two equal arrays read at rows that are the same number give the same entry. -/
theorem row_congr {α : Type} (x y : S8388608x8.Idx → α) (hxy : x = y) (j : Fin 8) (n k : ℕ) (hn : n < 8388608)
    (hk : k < 8388608) (e : n = k) :
    x (ValueIdx.ix2 (⟨n, hn⟩ : Fin 8388608) j) = y (ValueIdx.ix2 (⟨k, hk⟩ : Fin 8388608) j) := by
  subst hxy; subst e; rfl

theorem v70_closed (c : Dev nD)
    (hG1 : ∀ (t : Fin 1023) (r : Fin 32) (j : Fin 8), res1 (F := F) m c (ValueIdx.ix3 t r j)
      = W3 m c (Proc.devRef .tc main_arg2) (ValueIdx.ix2 ⟨(W3 m c (Proc.devRef .tc main_v34) (ValueIdx.ix2 r t)).toNat, inRange1 m c _⟩ j))
    (hG2 : ∀ (t : Fin 1023) (r : Fin 32) (j : Fin 8), res2 (F := F) m c (ValueIdx.ix3 t r j)
      = W5 m c (Proc.devRef .tc main_arg2) (ValueIdx.ix2 ⟨(W5 m c (Proc.devRef .tc main_v37) (ValueIdx.ix2 r t)).toNat, inRange2 m c _⟩ j))
    (hG3 : ∀ (t : Fin 1023) (r : Fin 32) (j : Fin 8), res3 (F := F) m c (ValueIdx.ix3 t r j)
      = W7 m c (Proc.devRef .tc main_arg2) (ValueIdx.ix2 ⟨(W7 m c (Proc.devRef .tc main_v40) (ValueIdx.ix2 r t)).toNat, inRange3 m c _⟩ j))
    (hG4 : ∀ (t : Fin 1023) (r : Fin 32) (j : Fin 8), res4 (F := F) m c (ValueIdx.ix3 t r j)
      = W9 m c (Proc.devRef .tc main_arg2) (ValueIdx.ix2 ⟨(W9 m c (Proc.devRef .tc main_v43) (ValueIdx.ix2 r t)).toNat, inRange4 m c _⟩ j))
    (hG5 : ∀ (t : Fin 1023) (r : Fin 32) (j : Fin 8), res5 (F := F) m c (ValueIdx.ix3 t r j)
      = W11 m c (Proc.devRef .tc main_arg2) (ValueIdx.ix2 ⟨(W11 m c (Proc.devRef .tc main_v51) (ValueIdx.ix2 r t)).toNat, inRange5 m c _⟩ j))
    (hG6 : ∀ (t : Fin 1023) (r : Fin 32) (j : Fin 8), res6 (F := F) m c (ValueIdx.ix3 t r j)
      = W13 m c (Proc.devRef .tc main_arg2) (ValueIdx.ix2 ⟨(W13 m c (Proc.devRef .tc main_v54) (ValueIdx.ix2 r t)).toNat, inRange6 m c _⟩ j))
    (hG7 : ∀ (t : Fin 1023) (r : Fin 32) (j : Fin 8), res7 (F := F) m c (ValueIdx.ix3 t r j)
      = W15 m c (Proc.devRef .tc main_arg2) (ValueIdx.ix2 ⟨(W15 m c (Proc.devRef .tc main_v57) (ValueIdx.ix2 r t)).toNat, inRange7 m c _⟩ j))
    (hG8 : ∀ (t : Fin 1023) (r : Fin 32) (j : Fin 8), res8 (F := F) m c (ValueIdx.ix3 t r j)
      = W17 m c (Proc.devRef .tc main_arg2) (ValueIdx.ix2 ⟨(W17 m c (Proc.devRef .tc main_v60) (ValueIdx.ix2 r t)).toNat, inRange8 m c _⟩ j))
    (b : Fin 2) (s : Fin 4) (t : Fin 1023) (r : Fin 32) (j : Fin 8) :
    W19 (F := F) m c (Proc.devRef .tc main_v70) (ValueIdx.ix4 b s t ⟨r.val * 8 + j.val, by omega⟩)
      = m ((c.tc : Thread nD τ).loc main_arg2)
          (ValueIdx.ix2 ⟨(chain5 (logits5 (res0 m c)) (ValueIdx.ix4 b s t r)).toNat, gidx_lt m c _⟩ j) := by
  match b, s with
  | 0, 0 =>
    rw [v70_at_00, hG1]
    exact row_congr _ _ (arg2_at_3 m c) j _ _ _ _ (congrArg BitVec.toNat (tbl_at_1 m c r t))
  | 0, 1 =>
    rw [v70_at_01, hG2]
    exact row_congr _ _ (arg2_at_5 m c) j _ _ _ _ (congrArg BitVec.toNat (tbl_at_2 m c r t))
  | 0, 2 =>
    rw [v70_at_02, hG3]
    exact row_congr _ _ (arg2_at_7 m c) j _ _ _ _ (congrArg BitVec.toNat (tbl_at_3 m c r t))
  | 0, 3 =>
    rw [v70_at_03, hG4]
    exact row_congr _ _ (arg2_at_9 m c) j _ _ _ _ (congrArg BitVec.toNat (tbl_at_4 m c r t))
  | 1, 0 =>
    rw [v70_at_10, hG5]
    exact row_congr _ _ (arg2_at_11 m c) j _ _ _ _ (congrArg BitVec.toNat (tbl_at_5 m c r t))
  | 1, 1 =>
    rw [v70_at_11, hG6]
    exact row_congr _ _ (arg2_at_13 m c) j _ _ _ _ (congrArg BitVec.toNat (tbl_at_6 m c r t))
  | 1, 2 =>
    rw [v70_at_12, hG7]
    exact row_congr _ _ (arg2_at_15 m c) j _ _ _ _ (congrArg BitVec.toNat (tbl_at_7 m c r t))
  | 1, 3 =>
    rw [v70_at_13, hG8]
    exact row_congr _ _ (arg2_at_17 m c) j _ _ _ _ (congrArg BitVec.toNat (tbl_at_8 m c r t))

end Value

section IdealValue
variable (m : (ℓ : Loc nD τ sig) → Buf (Elt Ideal) ℓ)

/-- The projection's result is the product of the two arrays the first stretch leaves. -/
theorem res0_at (c : Dev nD) (s : Fin 4) (q : Fin 2048) (o : Fin 256) :
    res0 (F := Ideal) m c (ValueIdx.ix3 s q o)
      = projAll (W1 m c (Proc.devRef .tc main_v0)) (W1 m c (Proc.devRef .tc main_v1)) (ValueIdx.ix3 s q o) :=
  res0_apply (rd (W1 m)) c s q o

end IdealValue

end Cert.KernelIdeal.Hand
end
-- ==== Proof.KernelIdealGatherValue1.lean ====
/-
  Gather kernel 1's region, from blocks to the array: the output array after the region's run is, block by block along its
  first axis, what the body leaves in the output block at each grid point.
-/
import proofs.«145402_j1717986918579_1_alg».proof.Proof.KernelIdealGather1
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1 : ∀ t : Fin grid1.N, cc1_transform_1 (grid1.coords t) = ![t.val, 0, 0] := by decide +kernel

/-- The grid has 1023 points whatever the table holds. -/
theorem NG1 (a : (pcfg1 (F := F)).Adm) : (cfg1 a).N = 1023 := N_1

/-- The output window's block index at a point does not read the table. -/
theorem indexG1 (a : (pcfg1 (F := F)).Adm) (t : Fin (cfg1 a).N) :
    ((cfg1 a).win 0).index t = ![t.val, 0, 0] :=
  (rfl : ((cfg1 a).win 0).index t = cc1_transform_1 (grid1.coords t)).trans (trG1 t)

/-- Every point writes its block back: the next point's block is another. -/
theorem flushG1 (a : (pcfg1 (F := F)).Adm) (t : Fin (cfg1 a).N) : ((cfg1 a).win 0).flush t = true := by
  have hN : (cfg1 a).N = 1023 := NG1 a
  have ht := t.isLt
  simp only [Pipeline.Window.flush, Bool.and_eq_true, Bool.or_eq_true, decide_eq_true_eq]
  refine ⟨rfl, ?_⟩
  by_cases h : t.val + 1 = (cfg1 a).N
  · exact Or.inl h
  · have hlt : t.val + 1 < (cfg1 a).N := by omega
    refine Or.inr ⟨hlt, ?_⟩
    rw [indexG1, indexG1]
    intro he
    have := congrFun he 0
    simp at this

/-! ## From blocks to the array, for any table contents -/

section Blocks
variable (a : (pcfg1 (F := F)).Adm) (c : Dev nD)
  (dat : Pipeline.Dat τ (Elt F) Unit ℕ (Pipeline.UD sig nD τ) ℕ (cfg1 a) c)
  (outs : Fin (cfg1 a).N → Vec F S1x32x8 .f32)

/-- The array whose block `t` along the first axis is the output block after the body at point `t`. -/
def allG1 : S1023x32x8.Idx → Elt F .f32 := fun i =>
  outs ⟨(i 0).val, lt_of_lt_of_eq (i 0).isLt (NG1 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1 (t t' : Fin (cfg1 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1 (t : Fin (cfg1 a).N) (y : S1x32x8.Idx) (i : S1023x32x8.Idx)
    (h0 : (i 0).val = t.val + (y 0).val) (h1 : (i 1).val = (y 1).val) (h2 : (i 2).val = (y 2).val) :
    ((((cfg1 a).win 0).blk t).view.emb y : S1023x32x8.Idx) = i := by
  have hidx := indexG1 a t
  have e0 : ((cfg1 a).win 0).index t (0 : Fin 3) = t.val := congrFun hidx (0 : Fin 3)
  have e1 : ((cfg1 a).win 0).index t (1 : Fin 3) = 0 := congrFun hidx (1 : Fin 3)
  have e2 : ((cfg1 a).win 0).index t (2 : Fin 3) = 0 := congrFun hidx (2 : Fin 3)
  funext (b : Fin 3)
  apply Fin.ext
  match b with
  | ⟨0, _⟩ =>
    show ((cfg1 a).win 0).index t (0 : Fin 3) * 1 + 1 * (y 0).val = (i 0).val
    rw [e0, h0]; omega
  | ⟨1, _⟩ =>
    show ((cfg1 a).win 0).index t (1 : Fin 3) * 32 + 1 * (y 1).val = (i 1).val
    rw [e1, h1]; omega
  | ⟨2, _⟩ =>
    show ((cfg1 a).win 0).index t (2 : Fin 3) * 8 + 1 * (y 2).val = (i 2).val
    rw [e2, h2]; omega

/-- What point `t` writes back is block `t` of `allG1`. -/
theorem flushedG1_eq (hafter : ∀ t, dat.after 0 t = outs t) (t : Fin (cfg1 a).N) :
    dat.flushed 0 t = (((cfg1 a).win 0).blk t).view.read (Elt F) (allG1 a outs) := by
  show ((cfg1 a).win 0).cut ((cfg1 a).grid.coords t) (dat.after 0 t) = _
  rw [hafter]
  refine funext fun (j : S1x32x8.Idx) => ?_
  have hj0 : (j 0).val < 1 := (j 0).isLt
  show outs t j = allG1 a outs ((((cfg1 a).win 0).blk t).view.emb j : S1023x32x8.Idx)
  rw [embG1 a t j (ValueIdx.ix3 (⟨t.val, lt_of_lt_of_eq t.isLt (NG1 a)⟩ : Fin 1023) (⟨(j 1).val, (j 1).isLt⟩ : Fin 32) (⟨(j 2).val, (j 2).isLt⟩ : Fin 8))
    (by show t.val = t.val + (j 0).val; omega) rfl rfl]
  unfold allG1
  refine outs_congrG1 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1 (i : S1023x32x8.Idx) :
    ∃ t : Fin (cfg1 a).N, ((cfg1 a).win 0).flush t = true ∧ i ∈ (((cfg1 a).win 0).blk t).view.set := by
  refine ⟨⟨(i 0).val, lt_of_lt_of_eq (i 0).isLt (NG1 a).symm⟩, flushG1 a _, ?_⟩
  have he := embG1 a ⟨(i 0).val, lt_of_lt_of_eq (i 0).isLt (NG1 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg1 a).win 0).blk ⟨(i 0).val, lt_of_lt_of_eq (i 0).isLt (NG1 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1`: its 1023 blocks tile the array along the first axis. -/
theorem finalG1 (hafter : ∀ t, dat.after 0 t = outs t) : dat.arrAt 0 (cfg1 a).N = allG1 a outs :=
  dat.arrAt_eq_of_cover 0 (allG1 a outs) (fun t _ => flushedG1_eq a c dat outs hafter t) (coverG1 a)

/-- The output array after the region's run at `[t, r, j]` is the output block after the body at point `t`, at `[0, r, j]`. -/
theorem blocksG1 (hafter : ∀ t, dat.after 0 t = outs t) (t : Fin 1023) (r : Fin 32) (j : Fin 8) :
    dat.arrAt 0 (cfg1 a).N (ValueIdx.ix3 t r j)
      = outs ⟨t.val, lt_of_lt_of_eq t.isLt (NG1 a).symm⟩ (ValueIdx.ix3 (0 : Fin 1) r j) := by
  rw [finalG1 a c dat outs hafter]
  rfl

end Blocks

/-! ## Gather kernel 1's region -/

/-- The output array of gather kernel 1 after its region's run, at `[t, r, j]`: what the body leaves in the output block at
    grid point `t`, at `[0, r, j]`. -/
theorem gather1_blocks (V : (c : Dev nD) → (b : Ref sig .tc) → Buf (Elt F) ((c : Thread nD τ).loc b))
    (hH : InRange1 (F := F) V) (c : Dev nD) (t : Fin 1023) (r : Fin 32) (j : Fin 8) :
    (datG1 (F := F) V hH c).arrAt 0 (pcfgG1 (F := F) V).N (ValueIdx.ix3 t r j)
      = outsAt1 V hH c ⟨t.val, lt_of_lt_of_eq t.isLt (NG1 (adm1 (F := F) V)).symm⟩ (ValueIdx.ix3 (0 : Fin 1) r j) :=
  blocksG1 (adm1 (F := F) V) c (datG1 (F := F) V hH c) (outsAt1 V hH c) (afterG1 V hH c) t r j

/-- The gather body's payload at `[0, r, j]` is the scratch block at `(r, j)`: the payload only adds a leading unit axis. -/
theorem pay1_apply (v : Vec F S32x8 .f32) (r : Fin 32) (j : Fin 8) :
    k1_pay1 (F := F) v (ValueIdx.ix3 (0 : Fin 1) r j) = v (ValueIdx.ix2 r j) := by
  unfold k1_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2 : (![0, 0] : Fin 2 → Nat) = fun _ => 0 := funext fun a => by fin_cases a <;> rfl
theorem hzG3 : (![0, 0, 0] : Fin 3 → Nat) = fun _ => 0 := funext fun a => by fin_cases a <;> rfl

/-- A one-row slice of the weight array at row `w`, squeezed to a row, reads the weight array at `[w, j]`. -/
theorem srcRow_read (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read (f0 : HbBuf (F := F) c tbM1) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM1.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid1.Coords) (arg3 : Memref sig .tc .vmem S1x32x8 .f32) (harg3 : arg3.IsWhole)
  (arg4 : Memref sig .tc .vmem S32x8 .f32) (harg4 : arg4.IsWhole)
  (f0 : HbBuf (F := F) c tbM1) (hall : ∀ j, (f0 j).toNat < 8388608) (fh : HbBuf (F := F) c hbM)

/-- The run's pieces: one store of the whole block, its payload the scratch block read after the copies landed. -/
theorem run1_list : (kernelRun1 c i arg3 harg3 arg4 harg4 f0 hall fh).1
    = [⟨Rect.unit (s := S1x32x8) ![0, 0, 0] S1x32x8.size inb_S1x32x8_S1x32x8_0_0_0, k1_pay1 (kernelRun1.sl.v448 c i arg4 f0 hall fh)⟩] := rfl

/-- Row `r` of the output block after the body is the `(r + 1)`-th copy's delivery, which is the weight array's row at the
    table's word `[r, t]`: the same three steps for each of the thirty-two rows. -/
theorem run1_row0 (VO : View sig .tc .vmem S1x32x8 .f32) (j : Fin 8) :
    VO.read (Elt F) (VO.writes (Elt F) VO.junk (kernelRun1 c i arg3 harg3 arg4 harg4 f0 hall fh).1) (ValueIdx.ix3 (0 : Fin 1) (0 : Fin 32) j)
      = kernelRun1.sl.dma1 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_0 c arg4 harg4]
  exact rowWrites_read c arg4 harg4 _ _ 0 (by decide) j
theorem run1_value0 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0]
  unfold kernelRun1.sl.dma1
  have hwd : kernelRun1.sl.r (F := F) c i f0 = f0 (ValueIdx.ix2 (0 : Fin 32) t) := by
    unfold kernelRun1.sl.r
    exact tblWord_read c f0 _ (0 : Fin 32) t ((k1_off1_eq i).trans (by rw [ht]; rfl)) _ _
  exact (srcRow_read c fh (kernelRun1.sl.r (F := F) c i f0) (k1_off2 (kernelRun1.sl.r (F := F) c i f0)) rfl _ _ _
    (hwd ▸ hall _) j).trans (fh_congr c fh _ _ hwd _ _ j)

theorem run1_row1 (VO : View sig .tc .vmem S1x32x8 .f32) (j : Fin 8) :
    VO.read (Elt F) (VO.writes (Elt F) VO.junk (kernelRun1 c i arg3 harg3 arg4 harg4 f0 hall fh).1) (ValueIdx.ix3 (0 : Fin 1) (1 : Fin 32) j)
      = kernelRun1.sl.dma2 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_1 c arg4 harg4]
  exact rowWrites_read c arg4 harg4 _ _ 1 (by decide) j
theorem run1_value1 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1]
  unfold kernelRun1.sl.dma2
  have hwd : kernelRun1.sl.r_1 (F := F) c i f0 = f0 (ValueIdx.ix2 (1 : Fin 32) t) := by
    unfold kernelRun1.sl.r_1
    exact tblWord_read c f0 _ (1 : Fin 32) t ((k1_off3_eq i).trans (by rw [ht]; rfl)) _ _
  exact (srcRow_read c fh (kernelRun1.sl.r_1 (F := F) c i f0) (k1_off4 (kernelRun1.sl.r_1 (F := F) c i f0)) rfl _ _ _
    (hwd ▸ hall _) j).trans (fh_congr c fh _ _ hwd _ _ j)

theorem run1_row2 (VO : View sig .tc .vmem S1x32x8 .f32) (j : Fin 8) :
    VO.read (Elt F) (VO.writes (Elt F) VO.junk (kernelRun1 c i arg3 harg3 arg4 harg4 f0 hall fh).1) (ValueIdx.ix3 (0 : Fin 1) (2 : Fin 32) j)
      = kernelRun1.sl.dma3 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_2 c arg4 harg4]
  exact rowWrites_read c arg4 harg4 _ _ 2 (by decide) j
theorem run1_value2 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2]
  unfold kernelRun1.sl.dma3
  have hwd : kernelRun1.sl.r_2 (F := F) c i f0 = f0 (ValueIdx.ix2 (2 : Fin 32) t) := by
    unfold kernelRun1.sl.r_2
    exact tblWord_read c f0 _ (2 : Fin 32) t ((k1_off5_eq i).trans (by rw [ht]; rfl)) _ _
  exact (srcRow_read c fh (kernelRun1.sl.r_2 (F := F) c i f0) (k1_off6 (kernelRun1.sl.r_2 (F := F) c i f0)) rfl _ _ _
    (hwd ▸ hall _) j).trans (fh_congr c fh _ _ hwd _ _ j)

theorem run1_row3 (VO : View sig .tc .vmem S1x32x8 .f32) (j : Fin 8) :
    VO.read (Elt F) (VO.writes (Elt F) VO.junk (kernelRun1 c i arg3 harg3 arg4 harg4 f0 hall fh).1) (ValueIdx.ix3 (0 : Fin 1) (3 : Fin 32) j)
      = kernelRun1.sl.dma4 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_3 c arg4 harg4]
  exact rowWrites_read c arg4 harg4 _ _ 3 (by decide) j
theorem run1_value3 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3]
  unfold kernelRun1.sl.dma4
  have hwd : kernelRun1.sl.r_3 (F := F) c i f0 = f0 (ValueIdx.ix2 (3 : Fin 32) t) := by
    unfold kernelRun1.sl.r_3
    exact tblWord_read c f0 _ (3 : Fin 32) t ((k1_off7_eq i).trans (by rw [ht]; rfl)) _ _
  exact (srcRow_read c fh (kernelRun1.sl.r_3 (F := F) c i f0) (k1_off8 (kernelRun1.sl.r_3 (F := F) c i f0)) rfl _ _ _
    (hwd ▸ hall _) j).trans (fh_congr c fh _ _ hwd _ _ j)

theorem run1_row4 (VO : View sig .tc .vmem S1x32x8 .f32) (j : Fin 8) :
    VO.read (Elt F) (VO.writes (Elt F) VO.junk (kernelRun1 c i arg3 harg3 arg4 harg4 f0 hall fh).1) (ValueIdx.ix3 (0 : Fin 1) (4 : Fin 32) j)
      = kernelRun1.sl.dma5 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_4 c arg4 harg4]
  exact rowWrites_read c arg4 harg4 _ _ 4 (by decide) j
theorem run1_value4 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4]
  unfold kernelRun1.sl.dma5
  have hwd : kernelRun1.sl.r_4 (F := F) c i f0 = f0 (ValueIdx.ix2 (4 : Fin 32) t) := by
    unfold kernelRun1.sl.r_4
    exact tblWord_read c f0 _ (4 : Fin 32) t ((k1_off9_eq i).trans (by rw [ht]; rfl)) _ _
  exact (srcRow_read c fh (kernelRun1.sl.r_4 (F := F) c i f0) (k1_off10 (kernelRun1.sl.r_4 (F := F) c i f0)) rfl _ _ _
    (hwd ▸ hall _) j).trans (fh_congr c fh _ _ hwd _ _ j)

theorem run1_row5 (VO : View sig .tc .vmem S1x32x8 .f32) (j : Fin 8) :
    VO.read (Elt F) (VO.writes (Elt F) VO.junk (kernelRun1 c i arg3 harg3 arg4 harg4 f0 hall fh).1) (ValueIdx.ix3 (0 : Fin 1) (5 : Fin 32) j)
      = kernelRun1.sl.dma6 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_5 c arg4 harg4]
  exact rowWrites_read c arg4 harg4 _ _ 5 (by decide) j
theorem run1_value5 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5]
  unfold kernelRun1.sl.dma6
  have hwd : kernelRun1.sl.r_5 (F := F) c i f0 = f0 (ValueIdx.ix2 (5 : Fin 32) t) := by
    unfold kernelRun1.sl.r_5
    exact tblWord_read c f0 _ (5 : Fin 32) t ((k1_off11_eq i).trans (by rw [ht]; rfl)) _ _
  exact (srcRow_read c fh (kernelRun1.sl.r_5 (F := F) c i f0) (k1_off12 (kernelRun1.sl.r_5 (F := F) c i f0)) rfl _ _ _
    (hwd ▸ hall _) j).trans (fh_congr c fh _ _ hwd _ _ j)

theorem run1_row6 (VO : View sig .tc .vmem S1x32x8 .f32) (j : Fin 8) :
    VO.read (Elt F) (VO.writes (Elt F) VO.junk (kernelRun1 c i arg3 harg3 arg4 harg4 f0 hall fh).1) (ValueIdx.ix3 (0 : Fin 1) (6 : Fin 32) j)
      = kernelRun1.sl.dma7 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_6 c arg4 harg4]
  exact rowWrites_read c arg4 harg4 _ _ 6 (by decide) j
theorem run1_value6 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6]
  unfold kernelRun1.sl.dma7
  have hwd : kernelRun1.sl.r_6 (F := F) c i f0 = f0 (ValueIdx.ix2 (6 : Fin 32) t) := by
    unfold kernelRun1.sl.r_6
    exact tblWord_read c f0 _ (6 : Fin 32) t ((k1_off13_eq i).trans (by rw [ht]; rfl)) _ _
  exact (srcRow_read c fh (kernelRun1.sl.r_6 (F := F) c i f0) (k1_off14 (kernelRun1.sl.r_6 (F := F) c i f0)) rfl _ _ _
    (hwd ▸ hall _) j).trans (fh_congr c fh _ _ hwd _ _ j)

theorem run1_row7 (VO : View sig .tc .vmem S1x32x8 .f32) (j : Fin 8) :
    VO.read (Elt F) (VO.writes (Elt F) VO.junk (kernelRun1 c i arg3 harg3 arg4 harg4 f0 hall fh).1) (ValueIdx.ix3 (0 : Fin 1) (7 : Fin 32) j)
      = kernelRun1.sl.dma8 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_7 c arg4 harg4]
  exact rowWrites_read c arg4 harg4 _ _ 7 (by decide) j
theorem run1_value7 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7]
  unfold kernelRun1.sl.dma8
  have hwd : kernelRun1.sl.r_7 (F := F) c i f0 = f0 (ValueIdx.ix2 (7 : Fin 32) t) := by
    unfold kernelRun1.sl.r_7
    exact tblWord_read c f0 _ (7 : Fin 32) t ((k1_off15_eq i).trans (by rw [ht]; rfl)) _ _
  exact (srcRow_read c fh (kernelRun1.sl.r_7 (F := F) c i f0) (k1_off16 (kernelRun1.sl.r_7 (F := F) c i f0)) rfl _ _ _
    (hwd ▸ hall _) j).trans (fh_congr c fh _ _ hwd _ _ j)

theorem run1_row8 (VO : View sig .tc .vmem S1x32x8 .f32) (j : Fin 8) :
    VO.read (Elt F) (VO.writes (Elt F) VO.junk (kernelRun1 c i arg3 harg3 arg4 harg4 f0 hall fh).1) (ValueIdx.ix3 (0 : Fin 1) (8 : Fin 32) j)
      = kernelRun1.sl.dma9 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_8 c arg4 harg4]
  exact rowWrites_read c arg4 harg4 _ _ 8 (by decide) j
theorem run1_value8 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8]
  unfold kernelRun1.sl.dma9
  have hwd : kernelRun1.sl.r_8 (F := F) c i f0 = f0 (ValueIdx.ix2 (8 : Fin 32) t) := by
    unfold kernelRun1.sl.r_8
    exact tblWord_read c f0 _ (8 : Fin 32) t ((k1_off17_eq i).trans (by rw [ht]; rfl)) _ _
  exact (srcRow_read c fh (kernelRun1.sl.r_8 (F := F) c i f0) (k1_off18 (kernelRun1.sl.r_8 (F := F) c i f0)) rfl _ _ _
    (hwd ▸ hall _) j).trans (fh_congr c fh _ _ hwd _ _ j)

theorem run1_row9 (VO : View sig .tc .vmem S1x32x8 .f32) (j : Fin 8) :
    VO.read (Elt F) (VO.writes (Elt F) VO.junk (kernelRun1 c i arg3 harg3 arg4 harg4 f0 hall fh).1) (ValueIdx.ix3 (0 : Fin 1) (9 : Fin 32) j)
      = kernelRun1.sl.dma10 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_9 c arg4 harg4]
  exact rowWrites_read c arg4 harg4 _ _ 9 (by decide) j
theorem run1_value9 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9]
  unfold kernelRun1.sl.dma10
  have hwd : kernelRun1.sl.r_9 (F := F) c i f0 = f0 (ValueIdx.ix2 (9 : Fin 32) t) := by
    unfold kernelRun1.sl.r_9
    exact tblWord_read c f0 _ (9 : Fin 32) t ((k1_off19_eq i).trans (by rw [ht]; rfl)) _ _
  exact (srcRow_read c fh (kernelRun1.sl.r_9 (F := F) c i f0) (k1_off20 (kernelRun1.sl.r_9 (F := F) c i f0)) rfl _ _ _
    (hwd ▸ hall _) j).trans (fh_congr c fh _ _ hwd _ _ j)

theorem run1_row10 (VO : View sig .tc .vmem S1x32x8 .f32) (j : Fin 8) :
    VO.read (Elt F) (VO.writes (Elt F) VO.junk (kernelRun1 c i arg3 harg3 arg4 harg4 f0 hall fh).1) (ValueIdx.ix3 (0 : Fin 1) (10 : Fin 32) j)
      = kernelRun1.sl.dma11 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_10 c arg4 harg4]
  exact rowWrites_read c arg4 harg4 _ _ 10 (by decide) j
theorem run1_value10 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10]
  unfold kernelRun1.sl.dma11
  have hwd : kernelRun1.sl.r_10 (F := F) c i f0 = f0 (ValueIdx.ix2 (10 : Fin 32) t) := by
    unfold kernelRun1.sl.r_10
    exact tblWord_read c f0 _ (10 : Fin 32) t ((k1_off21_eq i).trans (by rw [ht]; rfl)) _ _
  exact (srcRow_read c fh (kernelRun1.sl.r_10 (F := F) c i f0) (k1_off22 (kernelRun1.sl.r_10 (F := F) c i f0)) rfl _ _ _
    (hwd ▸ hall _) j).trans (fh_congr c fh _ _ hwd _ _ j)

theorem run1_row11 (VO : View sig .tc .vmem S1x32x8 .f32) (j : Fin 8) :
    VO.read (Elt F) (VO.writes (Elt F) VO.junk (kernelRun1 c i arg3 harg3 arg4 harg4 f0 hall fh).1) (ValueIdx.ix3 (0 : Fin 1) (11 : Fin 32) j)
      = kernelRun1.sl.dma12 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_11 c arg4 harg4]
  exact rowWrites_read c arg4 harg4 _ _ 11 (by decide) j
theorem run1_value11 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11]
  unfold kernelRun1.sl.dma12
  have hwd : kernelRun1.sl.r_11 (F := F) c i f0 = f0 (ValueIdx.ix2 (11 : Fin 32) t) := by
    unfold kernelRun1.sl.r_11
    exact tblWord_read c f0 _ (11 : Fin 32) t ((k1_off23_eq i).trans (by rw [ht]; rfl)) _ _
  exact (srcRow_read c fh (kernelRun1.sl.r_11 (F := F) c i f0) (k1_off24 (kernelRun1.sl.r_11 (F := F) c i f0)) rfl _ _ _
    (hwd ▸ hall _) j).trans (fh_congr c fh _ _ hwd _ _ j)

theorem run1_row12 (VO : View sig .tc .vmem S1x32x8 .f32) (j : Fin 8) :
    VO.read (Elt F) (VO.writes (Elt F) VO.junk (kernelRun1 c i arg3 harg3 arg4 harg4 f0 hall fh).1) (ValueIdx.ix3 (0 : Fin 1) (12 : Fin 32) j)
      = kernelRun1.sl.dma13 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_12 c arg4 harg4]
  exact rowWrites_read c arg4 harg4 _ _ 12 (by decide) j
theorem run1_value12 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12]
  unfold kernelRun1.sl.dma13
  have hwd : kernelRun1.sl.r_12 (F := F) c i f0 = f0 (ValueIdx.ix2 (12 : Fin 32) t) := by
    unfold kernelRun1.sl.r_12
    exact tblWord_read c f0 _ (12 : Fin 32) t ((k1_off25_eq i).trans (by rw [ht]; rfl)) _ _
  exact (srcRow_read c fh (kernelRun1.sl.r_12 (F := F) c i f0) (k1_off26 (kernelRun1.sl.r_12 (F := F) c i f0)) rfl _ _ _
    (hwd ▸ hall _) j).trans (fh_congr c fh _ _ hwd _ _ j)

theorem run1_row13 (VO : View sig .tc .vmem S1x32x8 .f32) (j : Fin 8) :
    VO.read (Elt F) (VO.writes (Elt F) VO.junk (kernelRun1 c i arg3 harg3 arg4 harg4 f0 hall fh).1) (ValueIdx.ix3 (0 : Fin 1) (13 : Fin 32) j)
      = kernelRun1.sl.dma14 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_13 c arg4 harg4]
  exact rowWrites_read c arg4 harg4 _ _ 13 (by decide) j
theorem run1_value13 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13]
  unfold kernelRun1.sl.dma14
  have hwd : kernelRun1.sl.r_13 (F := F) c i f0 = f0 (ValueIdx.ix2 (13 : Fin 32) t) := by
    unfold kernelRun1.sl.r_13
    exact tblWord_read c f0 _ (13 : Fin 32) t ((k1_off27_eq i).trans (by rw [ht]; rfl)) _ _
  exact (srcRow_read c fh (kernelRun1.sl.r_13 (F := F) c i f0) (k1_off28 (kernelRun1.sl.r_13 (F := F) c i f0)) rfl _ _ _
    (hwd ▸ hall _) j).trans (fh_congr c fh _ _ hwd _ _ j)

theorem run1_row14 (VO : View sig .tc .vmem S1x32x8 .f32) (j : Fin 8) :
    VO.read (Elt F) (VO.writes (Elt F) VO.junk (kernelRun1 c i arg3 harg3 arg4 harg4 f0 hall fh).1) (ValueIdx.ix3 (0 : Fin 1) (14 : Fin 32) j)
      = kernelRun1.sl.dma15 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_14 c arg4 harg4]
  exact rowWrites_read c arg4 harg4 _ _ 14 (by decide) j
theorem run1_value14 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14]
  unfold kernelRun1.sl.dma15
  have hwd : kernelRun1.sl.r_14 (F := F) c i f0 = f0 (ValueIdx.ix2 (14 : Fin 32) t) := by
    unfold kernelRun1.sl.r_14
    exact tblWord_read c f0 _ (14 : Fin 32) t ((k1_off29_eq i).trans (by rw [ht]; rfl)) _ _
  exact (srcRow_read c fh (kernelRun1.sl.r_14 (F := F) c i f0) (k1_off30 (kernelRun1.sl.r_14 (F := F) c i f0)) rfl _ _ _
    (hwd ▸ hall _) j).trans (fh_congr c fh _ _ hwd _ _ j)

theorem run1_row15 (VO : View sig .tc .vmem S1x32x8 .f32) (j : Fin 8) :
    VO.read (Elt F) (VO.writes (Elt F) VO.junk (kernelRun1 c i arg3 harg3 arg4 harg4 f0 hall fh).1) (ValueIdx.ix3 (0 : Fin 1) (15 : Fin 32) j)
      = kernelRun1.sl.dma16 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_15 c arg4 harg4]
  exact rowWrites_read c arg4 harg4 _ _ 15 (by decide) j
theorem run1_value15 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15]
  unfold kernelRun1.sl.dma16
  have hwd : kernelRun1.sl.r_15 (F := F) c i f0 = f0 (ValueIdx.ix2 (15 : Fin 32) t) := by
    unfold kernelRun1.sl.r_15
    exact tblWord_read c f0 _ (15 : Fin 32) t ((k1_off31_eq i).trans (by rw [ht]; rfl)) _ _
  exact (srcRow_read c fh (kernelRun1.sl.r_15 (F := F) c i f0) (k1_off32 (kernelRun1.sl.r_15 (F := F) c i f0)) rfl _ _ _
    (hwd ▸ hall _) j).trans (fh_congr c fh _ _ hwd _ _ j)

theorem run1_row16 (VO : View sig .tc .vmem S1x32x8 .f32) (j : Fin 8) :
    VO.read (Elt F) (VO.writes (Elt F) VO.junk (kernelRun1 c i arg3 harg3 arg4 harg4 f0 hall fh).1) (ValueIdx.ix3 (0 : Fin 1) (16 : Fin 32) j)
      = kernelRun1.sl.dma17 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_16 c arg4 harg4]
  exact rowWrites_read c arg4 harg4 _ _ 16 (by decide) j
theorem run1_value16 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16]
  unfold kernelRun1.sl.dma17
  have hwd : kernelRun1.sl.r_16 (F := F) c i f0 = f0 (ValueIdx.ix2 (16 : Fin 32) t) := by
    unfold kernelRun1.sl.r_16
    exact tblWord_read c f0 _ (16 : Fin 32) t ((k1_off33_eq i).trans (by rw [ht]; rfl)) _ _
  exact (srcRow_read c fh (kernelRun1.sl.r_16 (F := F) c i f0) (k1_off34 (kernelRun1.sl.r_16 (F := F) c i f0)) rfl _ _ _
    (hwd ▸ hall _) j).trans (fh_congr c fh _ _ hwd _ _ j)

theorem run1_row17 (VO : View sig .tc .vmem S1x32x8 .f32) (j : Fin 8) :
    VO.read (Elt F) (VO.writes (Elt F) VO.junk (kernelRun1 c i arg3 harg3 arg4 harg4 f0 hall fh).1) (ValueIdx.ix3 (0 : Fin 1) (17 : Fin 32) j)
      = kernelRun1.sl.dma18 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_17 c arg4 harg4]
  exact rowWrites_read c arg4 harg4 _ _ 17 (by decide) j
theorem run1_value17 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17]
  unfold kernelRun1.sl.dma18
  have hwd : kernelRun1.sl.r_17 (F := F) c i f0 = f0 (ValueIdx.ix2 (17 : Fin 32) t) := by
    unfold kernelRun1.sl.r_17
    exact tblWord_read c f0 _ (17 : Fin 32) t ((k1_off35_eq i).trans (by rw [ht]; rfl)) _ _
  exact (srcRow_read c fh (kernelRun1.sl.r_17 (F := F) c i f0) (k1_off36 (kernelRun1.sl.r_17 (F := F) c i f0)) rfl _ _ _
    (hwd ▸ hall _) j).trans (fh_congr c fh _ _ hwd _ _ j)

theorem run1_row18 (VO : View sig .tc .vmem S1x32x8 .f32) (j : Fin 8) :
    VO.read (Elt F) (VO.writes (Elt F) VO.junk (kernelRun1 c i arg3 harg3 arg4 harg4 f0 hall fh).1) (ValueIdx.ix3 (0 : Fin 1) (18 : Fin 32) j)
      = kernelRun1.sl.dma19 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_18 c arg4 harg4]
  exact rowWrites_read c arg4 harg4 _ _ 18 (by decide) j
theorem run1_value18 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18]
  unfold kernelRun1.sl.dma19
  have hwd : kernelRun1.sl.r_18 (F := F) c i f0 = f0 (ValueIdx.ix2 (18 : Fin 32) t) := by
    unfold kernelRun1.sl.r_18
    exact tblWord_read c f0 _ (18 : Fin 32) t ((k1_off37_eq i).trans (by rw [ht]; rfl)) _ _
  exact (srcRow_read c fh (kernelRun1.sl.r_18 (F := F) c i f0) (k1_off38 (kernelRun1.sl.r_18 (F := F) c i f0)) rfl _ _ _
    (hwd ▸ hall _) j).trans (fh_congr c fh _ _ hwd _ _ j)

theorem run1_row19 (VO : View sig .tc .vmem S1x32x8 .f32) (j : Fin 8) :
    VO.read (Elt F) (VO.writes (Elt F) VO.junk (kernelRun1 c i arg3 harg3 arg4 harg4 f0 hall fh).1) (ValueIdx.ix3 (0 : Fin 1) (19 : Fin 32) j)
      = kernelRun1.sl.dma20 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_19 c arg4 harg4]
  exact rowWrites_read c arg4 harg4 _ _ 19 (by decide) j
theorem run1_value19 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19]
  unfold kernelRun1.sl.dma20
  have hwd : kernelRun1.sl.r_19 (F := F) c i f0 = f0 (ValueIdx.ix2 (19 : Fin 32) t) := by
    unfold kernelRun1.sl.r_19
    exact tblWord_read c f0 _ (19 : Fin 32) t ((k1_off39_eq i).trans (by rw [ht]; rfl)) _ _
  exact (srcRow_read c fh (kernelRun1.sl.r_19 (F := F) c i f0) (k1_off40 (kernelRun1.sl.r_19 (F := F) c i f0)) rfl _ _ _
    (hwd ▸ hall _) j).trans (fh_congr c fh _ _ hwd _ _ j)

theorem run1_row20 (VO : View sig .tc .vmem S1x32x8 .f32) (j : Fin 8) :
    VO.read (Elt F) (VO.writes (Elt F) VO.junk (kernelRun1 c i arg3 harg3 arg4 harg4 f0 hall fh).1) (ValueIdx.ix3 (0 : Fin 1) (20 : Fin 32) j)
      = kernelRun1.sl.dma21 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_20 c arg4 harg4]
  exact rowWrites_read c arg4 harg4 _ _ 20 (by decide) j
theorem run1_value20 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20]
  unfold kernelRun1.sl.dma21
  have hwd : kernelRun1.sl.r_20 (F := F) c i f0 = f0 (ValueIdx.ix2 (20 : Fin 32) t) := by
    unfold kernelRun1.sl.r_20
    exact tblWord_read c f0 _ (20 : Fin 32) t ((k1_off41_eq i).trans (by rw [ht]; rfl)) _ _
  exact (srcRow_read c fh (kernelRun1.sl.r_20 (F := F) c i f0) (k1_off42 (kernelRun1.sl.r_20 (F := F) c i f0)) rfl _ _ _
    (hwd ▸ hall _) j).trans (fh_congr c fh _ _ hwd _ _ j)

theorem run1_row21 (VO : View sig .tc .vmem S1x32x8 .f32) (j : Fin 8) :
    VO.read (Elt F) (VO.writes (Elt F) VO.junk (kernelRun1 c i arg3 harg3 arg4 harg4 f0 hall fh).1) (ValueIdx.ix3 (0 : Fin 1) (21 : Fin 32) j)
      = kernelRun1.sl.dma22 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_21 c arg4 harg4]
  exact rowWrites_read c arg4 harg4 _ _ 21 (by decide) j
theorem run1_value21 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21]
  unfold kernelRun1.sl.dma22
  have hwd : kernelRun1.sl.r_21 (F := F) c i f0 = f0 (ValueIdx.ix2 (21 : Fin 32) t) := by
    unfold kernelRun1.sl.r_21
    exact tblWord_read c f0 _ (21 : Fin 32) t ((k1_off43_eq i).trans (by rw [ht]; rfl)) _ _
  exact (srcRow_read c fh (kernelRun1.sl.r_21 (F := F) c i f0) (k1_off44 (kernelRun1.sl.r_21 (F := F) c i f0)) rfl _ _ _
    (hwd ▸ hall _) j).trans (fh_congr c fh _ _ hwd _ _ j)

theorem run1_row22 (VO : View sig .tc .vmem S1x32x8 .f32) (j : Fin 8) :
    VO.read (Elt F) (VO.writes (Elt F) VO.junk (kernelRun1 c i arg3 harg3 arg4 harg4 f0 hall fh).1) (ValueIdx.ix3 (0 : Fin 1) (22 : Fin 32) j)
      = kernelRun1.sl.dma23 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_22 c arg4 harg4]
  exact rowWrites_read c arg4 harg4 _ _ 22 (by decide) j
theorem run1_value22 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22]
  unfold kernelRun1.sl.dma23
  have hwd : kernelRun1.sl.r_22 (F := F) c i f0 = f0 (ValueIdx.ix2 (22 : Fin 32) t) := by
    unfold kernelRun1.sl.r_22
    exact tblWord_read c f0 _ (22 : Fin 32) t ((k1_off45_eq i).trans (by rw [ht]; rfl)) _ _
  exact (srcRow_read c fh (kernelRun1.sl.r_22 (F := F) c i f0) (k1_off46 (kernelRun1.sl.r_22 (F := F) c i f0)) rfl _ _ _
    (hwd ▸ hall _) j).trans (fh_congr c fh _ _ hwd _ _ j)

theorem run1_row23 (VO : View sig .tc .vmem S1x32x8 .f32) (j : Fin 8) :
    VO.read (Elt F) (VO.writes (Elt F) VO.junk (kernelRun1 c i arg3 harg3 arg4 harg4 f0 hall fh).1) (ValueIdx.ix3 (0 : Fin 1) (23 : Fin 32) j)
      = kernelRun1.sl.dma24 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_23 c arg4 harg4]
  exact rowWrites_read c arg4 harg4 _ _ 23 (by decide) j
theorem run1_value23 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23]
  unfold kernelRun1.sl.dma24
  have hwd : kernelRun1.sl.r_23 (F := F) c i f0 = f0 (ValueIdx.ix2 (23 : Fin 32) t) := by
    unfold kernelRun1.sl.r_23
    exact tblWord_read c f0 _ (23 : Fin 32) t ((k1_off47_eq i).trans (by rw [ht]; rfl)) _ _
  exact (srcRow_read c fh (kernelRun1.sl.r_23 (F := F) c i f0) (k1_off48 (kernelRun1.sl.r_23 (F := F) c i f0)) rfl _ _ _
    (hwd ▸ hall _) j).trans (fh_congr c fh _ _ hwd _ _ j)

theorem run1_row24 (VO : View sig .tc .vmem S1x32x8 .f32) (j : Fin 8) :
    VO.read (Elt F) (VO.writes (Elt F) VO.junk (kernelRun1 c i arg3 harg3 arg4 harg4 f0 hall fh).1) (ValueIdx.ix3 (0 : Fin 1) (24 : Fin 32) j)
      = kernelRun1.sl.dma25 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_24 c arg4 harg4]
  exact rowWrites_read c arg4 harg4 _ _ 24 (by decide) j
theorem run1_value24 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24]
  unfold kernelRun1.sl.dma25
  have hwd : kernelRun1.sl.r_24 (F := F) c i f0 = f0 (ValueIdx.ix2 (24 : Fin 32) t) := by
    unfold kernelRun1.sl.r_24
    exact tblWord_read c f0 _ (24 : Fin 32) t ((k1_off49_eq i).trans (by rw [ht]; rfl)) _ _
  exact (srcRow_read c fh (kernelRun1.sl.r_24 (F := F) c i f0) (k1_off50 (kernelRun1.sl.r_24 (F := F) c i f0)) rfl _ _ _
    (hwd ▸ hall _) j).trans (fh_congr c fh _ _ hwd _ _ j)

theorem run1_row25 (VO : View sig .tc .vmem S1x32x8 .f32) (j : Fin 8) :
    VO.read (Elt F) (VO.writes (Elt F) VO.junk (kernelRun1 c i arg3 harg3 arg4 harg4 f0 hall fh).1) (ValueIdx.ix3 (0 : Fin 1) (25 : Fin 32) j)
      = kernelRun1.sl.dma26 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_25 c arg4 harg4]
  exact rowWrites_read c arg4 harg4 _ _ 25 (by decide) j
theorem run1_value25 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25]
  unfold kernelRun1.sl.dma26
  have hwd : kernelRun1.sl.r_25 (F := F) c i f0 = f0 (ValueIdx.ix2 (25 : Fin 32) t) := by
    unfold kernelRun1.sl.r_25
    exact tblWord_read c f0 _ (25 : Fin 32) t ((k1_off51_eq i).trans (by rw [ht]; rfl)) _ _
  exact (srcRow_read c fh (kernelRun1.sl.r_25 (F := F) c i f0) (k1_off52 (kernelRun1.sl.r_25 (F := F) c i f0)) rfl _ _ _
    (hwd ▸ hall _) j).trans (fh_congr c fh _ _ hwd _ _ j)

theorem run1_row26 (VO : View sig .tc .vmem S1x32x8 .f32) (j : Fin 8) :
    VO.read (Elt F) (VO.writes (Elt F) VO.junk (kernelRun1 c i arg3 harg3 arg4 harg4 f0 hall fh).1) (ValueIdx.ix3 (0 : Fin 1) (26 : Fin 32) j)
      = kernelRun1.sl.dma27 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_26 c arg4 harg4]
  exact rowWrites_read c arg4 harg4 _ _ 26 (by decide) j
theorem run1_value26 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26]
  unfold kernelRun1.sl.dma27
  have hwd : kernelRun1.sl.r_26 (F := F) c i f0 = f0 (ValueIdx.ix2 (26 : Fin 32) t) := by
    unfold kernelRun1.sl.r_26
    exact tblWord_read c f0 _ (26 : Fin 32) t ((k1_off53_eq i).trans (by rw [ht]; rfl)) _ _
  exact (srcRow_read c fh (kernelRun1.sl.r_26 (F := F) c i f0) (k1_off54 (kernelRun1.sl.r_26 (F := F) c i f0)) rfl _ _ _
    (hwd ▸ hall _) j).trans (fh_congr c fh _ _ hwd _ _ j)

theorem run1_row27 (VO : View sig .tc .vmem S1x32x8 .f32) (j : Fin 8) :
    VO.read (Elt F) (VO.writes (Elt F) VO.junk (kernelRun1 c i arg3 harg3 arg4 harg4 f0 hall fh).1) (ValueIdx.ix3 (0 : Fin 1) (27 : Fin 32) j)
      = kernelRun1.sl.dma28 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_27 c arg4 harg4]
  exact rowWrites_read c arg4 harg4 _ _ 27 (by decide) j
theorem run1_value27 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27]
  unfold kernelRun1.sl.dma28
  have hwd : kernelRun1.sl.r_27 (F := F) c i f0 = f0 (ValueIdx.ix2 (27 : Fin 32) t) := by
    unfold kernelRun1.sl.r_27
    exact tblWord_read c f0 _ (27 : Fin 32) t ((k1_off55_eq i).trans (by rw [ht]; rfl)) _ _
  exact (srcRow_read c fh (kernelRun1.sl.r_27 (F := F) c i f0) (k1_off56 (kernelRun1.sl.r_27 (F := F) c i f0)) rfl _ _ _
    (hwd ▸ hall _) j).trans (fh_congr c fh _ _ hwd _ _ j)

theorem run1_row28 (VO : View sig .tc .vmem S1x32x8 .f32) (j : Fin 8) :
    VO.read (Elt F) (VO.writes (Elt F) VO.junk (kernelRun1 c i arg3 harg3 arg4 harg4 f0 hall fh).1) (ValueIdx.ix3 (0 : Fin 1) (28 : Fin 32) j)
      = kernelRun1.sl.dma29 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_28 c arg4 harg4]
  exact rowWrites_read c arg4 harg4 _ _ 28 (by decide) j
theorem run1_value28 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28]
  unfold kernelRun1.sl.dma29
  have hwd : kernelRun1.sl.r_28 (F := F) c i f0 = f0 (ValueIdx.ix2 (28 : Fin 32) t) := by
    unfold kernelRun1.sl.r_28
    exact tblWord_read c f0 _ (28 : Fin 32) t ((k1_off57_eq i).trans (by rw [ht]; rfl)) _ _
  exact (srcRow_read c fh (kernelRun1.sl.r_28 (F := F) c i f0) (k1_off58 (kernelRun1.sl.r_28 (F := F) c i f0)) rfl _ _ _
    (hwd ▸ hall _) j).trans (fh_congr c fh _ _ hwd _ _ j)

theorem run1_row29 (VO : View sig .tc .vmem S1x32x8 .f32) (j : Fin 8) :
    VO.read (Elt F) (VO.writes (Elt F) VO.junk (kernelRun1 c i arg3 harg3 arg4 harg4 f0 hall fh).1) (ValueIdx.ix3 (0 : Fin 1) (29 : Fin 32) j)
      = kernelRun1.sl.dma30 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_29 c arg4 harg4]
  exact rowWrites_read c arg4 harg4 _ _ 29 (by decide) j
theorem run1_value29 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29]
  unfold kernelRun1.sl.dma30
  have hwd : kernelRun1.sl.r_29 (F := F) c i f0 = f0 (ValueIdx.ix2 (29 : Fin 32) t) := by
    unfold kernelRun1.sl.r_29
    exact tblWord_read c f0 _ (29 : Fin 32) t ((k1_off59_eq i).trans (by rw [ht]; rfl)) _ _
  exact (srcRow_read c fh (kernelRun1.sl.r_29 (F := F) c i f0) (k1_off60 (kernelRun1.sl.r_29 (F := F) c i f0)) rfl _ _ _
    (hwd ▸ hall _) j).trans (fh_congr c fh _ _ hwd _ _ j)

theorem run1_row30 (VO : View sig .tc .vmem S1x32x8 .f32) (j : Fin 8) :
    VO.read (Elt F) (VO.writes (Elt F) VO.junk (kernelRun1 c i arg3 harg3 arg4 harg4 f0 hall fh).1) (ValueIdx.ix3 (0 : Fin 1) (30 : Fin 32) j)
      = kernelRun1.sl.dma31 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_30 c arg4 harg4]
  exact rowWrites_read c arg4 harg4 _ _ 30 (by decide) j
theorem run1_value30 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30]
  unfold kernelRun1.sl.dma31
  have hwd : kernelRun1.sl.r_30 (F := F) c i f0 = f0 (ValueIdx.ix2 (30 : Fin 32) t) := by
    unfold kernelRun1.sl.r_30
    exact tblWord_read c f0 _ (30 : Fin 32) t ((k1_off61_eq i).trans (by rw [ht]; rfl)) _ _
  exact (srcRow_read c fh (kernelRun1.sl.r_30 (F := F) c i f0) (k1_off62 (kernelRun1.sl.r_30 (F := F) c i f0)) rfl _ _ _
    (hwd ▸ hall _) j).trans (fh_congr c fh _ _ hwd _ _ j)

theorem run1_row31 (VO : View sig .tc .vmem S1x32x8 .f32) (j : Fin 8) :
    VO.read (Elt F) (VO.writes (Elt F) VO.junk (kernelRun1 c i arg3 harg3 arg4 harg4 f0 hall fh).1) (ValueIdx.ix3 (0 : Fin 1) (31 : Fin 32) j)
      = kernelRun1.sl.dma32 c i f0 hall fh (ValueIdx.ix1 j) := by
  rw [View.read_writes_eq_canon _ _ _ (coverRun1 c i arg3 harg3 arg4 harg4 f0 hall fh), run1_list, View.canon_unit_zero hzG3, pay1_apply]
  unfold kernelRun1.sl.v448
  rw [View.readAt_eq_ld, View.ld_unit_zero (S := S32x8) hzG2]
  rw [joinRows32_read_31 c arg4 harg4]
  exact rowWrites_read c arg4 harg4 _ _ 31 (by decide) j
theorem run1_value31 (VO : View sig .tc .vmem S1x32x8 .f32) (t : Fin 1023) (ht : (i 0).val = t.val) (j : Fin 8) :
    VO.read (Elt F) (VO.writes (Elt F) VO.junk (kernelRun1 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31]
  unfold kernelRun1.sl.dma32
  have hwd : kernelRun1.sl.r_31 (F := F) c i f0 = f0 (ValueIdx.ix2 (31 : Fin 32) t) := by
    unfold kernelRun1.sl.r_31
    exact tblWord_read c f0 _ (31 : Fin 32) t ((k1_off63_eq i).trans (by rw [ht]; rfl)) _ _
  exact (srcRow_read c fh (kernelRun1.sl.r_31 (F := F) c i f0) (k1_off64 (kernelRun1.sl.r_31 (F := F) c i f0)) rfl _ _ _
    (hwd ▸ hall _) j).trans (fh_congr c fh _ _ hwd _ _ j)

/-- The output block after the body at `[0, r, j]`: the weight array's row at the table's word `[r, t]`, element `j`. -/
theorem run1_value (VO : View sig .tc .vmem S1x32x8 .f32) (t : Fin 1023) (ht : (i 0).val = t.val) (r : Fin 32) (j : Fin 8) :
    VO.read (Elt F) (VO.writes (Elt F) VO.junk (kernelRun1 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0 c i arg3 harg3 arg4 harg4 f0 hall fh VO t ht j
  | ⟨1, _⟩ => exact run1_value1 c i arg3 harg3 arg4 harg4 f0 hall fh VO t ht j
  | ⟨2, _⟩ => exact run1_value2 c i arg3 harg3 arg4 harg4 f0 hall fh VO t ht j
  | ⟨3, _⟩ => exact run1_value3 c i arg3 harg3 arg4 harg4 f0 hall fh VO t ht j
  | ⟨4, _⟩ => exact run1_value4 c i arg3 harg3 arg4 harg4 f0 hall fh VO t ht j
  | ⟨5, _⟩ => exact run1_value5 c i arg3 harg3 arg4 harg4 f0 hall fh VO t ht j
  | ⟨6, _⟩ => exact run1_value6 c i arg3 harg3 arg4 harg4 f0 hall fh VO t ht j
  | ⟨7, _⟩ => exact run1_value7 c i arg3 harg3 arg4 harg4 f0 hall fh VO t ht j
  | ⟨8, _⟩ => exact run1_value8 c i arg3 harg3 arg4 harg4 f0 hall fh VO t ht j
  | ⟨9, _⟩ => exact run1_value9 c i arg3 harg3 arg4 harg4 f0 hall fh VO t ht j
  | ⟨10, _⟩ => exact run1_value10 c i arg3 harg3 arg4 harg4 f0 hall fh VO t ht j
  | ⟨11, _⟩ => exact run1_value11 c i arg3 harg3 arg4 harg4 f0 hall fh VO t ht j
  | ⟨12, _⟩ => exact run1_value12 c i arg3 harg3 arg4 harg4 f0 hall fh VO t ht j
  | ⟨13, _⟩ => exact run1_value13 c i arg3 harg3 arg4 harg4 f0 hall fh VO t ht j
  | ⟨14, _⟩ => exact run1_value14 c i arg3 harg3 arg4 harg4 f0 hall fh VO t ht j
  | ⟨15, _⟩ => exact run1_value15 c i arg3 harg3 arg4 harg4 f0 hall fh VO t ht j
  | ⟨16, _⟩ => exact run1_value16 c i arg3 harg3 arg4 harg4 f0 hall fh VO t ht j
  | ⟨17, _⟩ => exact run1_value17 c i arg3 harg3 arg4 harg4 f0 hall fh VO t ht j
  | ⟨18, _⟩ => exact run1_value18 c i arg3 harg3 arg4 harg4 f0 hall fh VO t ht j
  | ⟨19, _⟩ => exact run1_value19 c i arg3 harg3 arg4 harg4 f0 hall fh VO t ht j
  | ⟨20, _⟩ => exact run1_value20 c i arg3 harg3 arg4 harg4 f0 hall fh VO t ht j
  | ⟨21, _⟩ => exact run1_value21 c i arg3 harg3 arg4 harg4 f0 hall fh VO t ht j
  | ⟨22, _⟩ => exact run1_value22 c i arg3 harg3 arg4 harg4 f0 hall fh VO t ht j
  | ⟨23, _⟩ => exact run1_value23 c i arg3 harg3 arg4 harg4 f0 hall fh VO t ht j
  | ⟨24, _⟩ => exact run1_value24 c i arg3 harg3 arg4 harg4 f0 hall fh VO t ht j
  | ⟨25, _⟩ => exact run1_value25 c i arg3 harg3 arg4 harg4 f0 hall fh VO t ht j
  | ⟨26, _⟩ => exact run1_value26 c i arg3 harg3 arg4 harg4 f0 hall fh VO t ht j
  | ⟨27, _⟩ => exact run1_value27 c i arg3 harg3 arg4 harg4 f0 hall fh VO t ht j
  | ⟨28, _⟩ => exact run1_value28 c i arg3 harg3 arg4 harg4 f0 hall fh VO t ht j
  | ⟨29, _⟩ => exact run1_value29 c i arg3 harg3 arg4 harg4 f0 hall fh VO t ht j
  | ⟨30, _⟩ => exact run1_value30 c i arg3 harg3 arg4 harg4 f0 hall fh VO t ht j
  | ⟨31, _⟩ => exact run1_value31 c i arg3 harg3 arg4 harg4 f0 hall fh VO t ht j
  | ⟨n + 32, h⟩ => exact absurd h (by omega)

end Run

/-! ## Gather kernel 1: the point and the region -/

/-- A grid point's one coordinate is the point's number. -/
theorem coordsG1 : ∀ t : Fin grid1.N, ((grid1.coords t) 0).val = t.val := by decide +kernel

/-- What the output block holds after the body at point `t`, at `[0, r, j]`: element `j` of the weight array's row at the
    table's word `[r, t]`. -/
theorem gather1_point (V : (c : Dev nD) → (b : Ref sig .tc) → Buf (Elt F) ((c : Thread nD τ).loc b))
    (hH : InRange1 (F := F) V) (c : Dev nD) (t : Fin (pcfgG1 (F := F) V).N) (r : Fin 32) (j : Fin 8) :
    outsAt1 V hH c t (ValueIdx.ix3 (0 : Fin 1) r j)
      = V c main_arg2 (ValueIdx.ix2 (⟨(V c main_v34 (ValueIdx.ix2 r (⟨t.val, lt_of_lt_of_eq t.isLt (NG1 (adm1 (F := F) V))⟩ : Fin 1023))).toNat, hH c _⟩ : Fin 8388608) j) := by
  unfold outsAt1
  exact run1_value c (grid1.coords t) (ms1 V t) (hs1 V t) scM1 (Memref.isWhole_whole _) (V c main_v34) (hH c) (V c main_arg2) VO1
    (⟨t.val, lt_of_lt_of_eq t.isLt (NG1 (adm1 (F := F) V))⟩ : Fin 1023) (coordsG1 t) r j

/-- The output array of gather kernel 1 after its region's run, at `[t, r, j]`: element `j` of the weight array's row at the
    table's word `[r, t]`. -/
theorem gather1_value (V : (c : Dev nD) → (b : Ref sig .tc) → Buf (Elt F) ((c : Thread nD τ).loc b))
    (hH : InRange1 (F := F) V) (c : Dev nD) (t : Fin 1023) (r : Fin 32) (j : Fin 8) :
    (datG1 (F := F) V hH c).arrAt 0 (pcfgG1 (F := F) V).N (ValueIdx.ix3 t r j)
      = V c main_arg2 (ValueIdx.ix2 (⟨(V c main_v34 (ValueIdx.ix2 r t)).toNat, hH c _⟩ : Fin 8388608) j) := by
  rw [gather1_blocks V hH c t r j, gather1_point V hH c _ r j]

end Cert.KernelIdeal.Hand

end
-- ==== Proof.KernelIdealGatherValue2.lean ====
/-
  Gather kernel 2's region, from blocks to the array: the output array after the region's run is, block by block along its
  first axis, what the body leaves in the output block at each grid point.
-/
import proofs.«145402_j1717986918579_1_alg».proof.Proof.KernelIdealGather2
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g2 : ∀ t : Fin grid2.N, cc2_transform_1 (grid2.coords t) = ![t.val, 0, 0] := by decide +kernel

/-- The grid has 1023 points whatever the table holds. -/
theorem NG1_g2 (a : (pcfg2 (F := F)).Adm) : (cfg2 a).N = 1023 := N_2

/-- The output window's block index at a point does not read the table. -/
theorem indexG1_g2 (a : (pcfg2 (F := F)).Adm) (t : Fin (cfg2 a).N) :
    ((cfg2 a).win 0).index t = ![t.val, 0, 0] :=
  (rfl : ((cfg2 a).win 0).index t = cc2_transform_1 (grid2.coords t)).trans (trG1_g2 t)

/-- Every point writes its block back: the next point's block is another. -/
theorem flushG1_g2 (a : (pcfg2 (F := F)).Adm) (t : Fin (cfg2 a).N) : ((cfg2 a).win 0).flush t = true := by
  have hN : (cfg2 a).N = 1023 := NG1_g2 a
  have ht := t.isLt
  simp only [Pipeline.Window.flush, Bool.and_eq_true, Bool.or_eq_true, decide_eq_true_eq]
  refine ⟨rfl, ?_⟩
  by_cases h : t.val + 1 = (cfg2 a).N
  · exact Or.inl h
  · have hlt : t.val + 1 < (cfg2 a).N := by omega
    refine Or.inr ⟨hlt, ?_⟩
    rw [indexG1_g2, indexG1_g2]
    intro he
    have := congrFun he 0
    simp at this

/-! ## From blocks to the array, for any table contents -/

section Blocks
variable (a : (pcfg2 (F := F)).Adm) (c : Dev nD)
  (dat : Pipeline.Dat τ (Elt F) Unit ℕ (Pipeline.UD sig nD τ) ℕ (cfg2 a) c)
  (outs : Fin (cfg2 a).N → Vec F S1x32x8 .f32)

/-- The array whose block `t` along the first axis is the output block after the body at point `t`. -/
def allG1_g2 : S1023x32x8.Idx → Elt F .f32 := fun i =>
  outs ⟨(i 0).val, lt_of_lt_of_eq (i 0).isLt (NG1_g2 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g2 (t t' : Fin (cfg2 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g2 (t : Fin (cfg2 a).N) (y : S1x32x8.Idx) (i : S1023x32x8.Idx)
    (h0 : (i 0).val = t.val + (y 0).val) (h1 : (i 1).val = (y 1).val) (h2 : (i 2).val = (y 2).val) :
    ((((cfg2 a).win 0).blk t).view.emb y : S1023x32x8.Idx) = i := by
  have hidx := indexG1_g2 a t
  have e0 : ((cfg2 a).win 0).index t (0 : Fin 3) = t.val := congrFun hidx (0 : Fin 3)
  have e1 : ((cfg2 a).win 0).index t (1 : Fin 3) = 0 := congrFun hidx (1 : Fin 3)
  have e2 : ((cfg2 a).win 0).index t (2 : Fin 3) = 0 := congrFun hidx (2 : Fin 3)
  funext (b : Fin 3)
  apply Fin.ext
  match b with
  | ⟨0, _⟩ =>
    show ((cfg2 a).win 0).index t (0 : Fin 3) * 1 + 1 * (y 0).val = (i 0).val
    rw [e0, h0]; omega
  | ⟨1, _⟩ =>
    show ((cfg2 a).win 0).index t (1 : Fin 3) * 32 + 1 * (y 1).val = (i 1).val
    rw [e1, h1]; omega
  | ⟨2, _⟩ =>
    show ((cfg2 a).win 0).index t (2 : Fin 3) * 8 + 1 * (y 2).val = (i 2).val
    rw [e2, h2]; omega

/-- What point `t` writes back is block `t` of `allG1_g2`. -/
theorem flushedG1_eq_g2 (hafter : ∀ t, dat.after 0 t = outs t) (t : Fin (cfg2 a).N) :
    dat.flushed 0 t = (((cfg2 a).win 0).blk t).view.read (Elt F) (allG1_g2 a outs) := by
  show ((cfg2 a).win 0).cut ((cfg2 a).grid.coords t) (dat.after 0 t) = _
  rw [hafter]
  refine funext fun (j : S1x32x8.Idx) => ?_
  have hj0 : (j 0).val < 1 := (j 0).isLt
  show outs t j = allG1_g2 a outs ((((cfg2 a).win 0).blk t).view.emb j : S1023x32x8.Idx)
  rw [embG1_g2 a t j (ValueIdx.ix3 (⟨t.val, lt_of_lt_of_eq t.isLt (NG1_g2 a)⟩ : Fin 1023) (⟨(j 1).val, (j 1).isLt⟩ : Fin 32) (⟨(j 2).val, (j 2).isLt⟩ : Fin 8))
    (by show t.val = t.val + (j 0).val; omega) rfl rfl]
  unfold allG1_g2
  refine outs_congrG1_g2 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g2 (i : S1023x32x8.Idx) :
    ∃ t : Fin (cfg2 a).N, ((cfg2 a).win 0).flush t = true ∧ i ∈ (((cfg2 a).win 0).blk t).view.set := by
  refine ⟨⟨(i 0).val, lt_of_lt_of_eq (i 0).isLt (NG1_g2 a).symm⟩, flushG1_g2 a _, ?_⟩
  have he := embG1_g2 a ⟨(i 0).val, lt_of_lt_of_eq (i 0).isLt (NG1_g2 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg2 a).win 0).blk ⟨(i 0).val, lt_of_lt_of_eq (i 0).isLt (NG1_g2 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g2`: its 1023 blocks tile the array along the first axis. -/
theorem finalG1_g2 (hafter : ∀ t, dat.after 0 t = outs t) : dat.arrAt 0 (cfg2 a).N = allG1_g2 a outs :=
  dat.arrAt_eq_of_cover 0 (allG1_g2 a outs) (fun t _ => flushedG1_eq_g2 a c dat outs hafter t) (coverG1_g2 a)

/-- The output array after the region's run at `[t, r, j]` is the output block after the body at point `t`, at `[0, r, j]`. -/
theorem blocksG1_g2 (hafter : ∀ t, dat.after 0 t = outs t) (t : Fin 1023) (r : Fin 32) (j : Fin 8) :
    dat.arrAt 0 (cfg2 a).N (ValueIdx.ix3 t r j)
      = outs ⟨t.val, lt_of_lt_of_eq t.isLt (NG1_g2 a).symm⟩ (ValueIdx.ix3 (0 : Fin 1) r j) := by
  rw [finalG1_g2 a c dat outs hafter]
  rfl

end Blocks

/-! ## Gather kernel 2's region -/

/-- The output array of gather kernel 2 after its region's run, at `[t, r, j]`: what the body leaves in the output block at
    grid point `t`, at `[0, r, j]`. -/
theorem gather1_blocks_g2 (V : (c : Dev nD) → (b : Ref sig .tc) → Buf (Elt F) ((c : Thread nD τ).loc b))
    (hH : InRange2 (F := F) V) (c : Dev nD) (t : Fin 1023) (r : Fin 32) (j : Fin 8) :
    (datG2 (F := F) V hH c).arrAt 0 (pcfgG2 (F := F) V).N (ValueIdx.ix3 t r j)
      = outsAt2 V hH c ⟨t.val, lt_of_lt_of_eq t.isLt (NG1_g2 (adm2 (F := F) V)).symm⟩ (ValueIdx.ix3 (0 : Fin 1) r j) :=
  blocksG1_g2 (adm2 (F := F) V) c (datG2 (F := F) V hH c) (outsAt2 V hH c) (afterG2 V hH c) t r j

/-- The gather body's payload at `[0, r, j]` is the scratch block at `(r, j)`: the payload only adds a leading unit axis. -/
theorem pay1_apply_g2 (v : Vec F S32x8 .f32) (r : Fin 32) (j : Fin 8) :
    k2_pay1 (F := F) v (ValueIdx.ix3 (0 : Fin 1) r j) = v (ValueIdx.ix2 r j) := by
  unfold k2_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g2 : (![0, 0] : Fin 2 → Nat) = fun _ => 0 := funext fun a => by fin_cases a <;> rfl
theorem hzG3_g2 : (![0, 0, 0] : Fin 3 → Nat) = fun _ => 0 := funext fun a => by fin_cases a <;> rfl

/-- A one-row slice of the weight array at row `w`, squeezed to a row, reads the weight array at `[w, j]`. -/
theorem srcRow_read_g2 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g2 (f0 : HbBuf (F := F) c tbM2) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM2.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g2 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid2.Coords) (arg3 : Memref sig .tc .vmem S1x32x8 .f32) (harg3 : arg3.IsWhole)
  (arg4 : Memref sig .tc .vmem S32x8 .f32) (harg4 : arg4.IsWhole)
  (f0 : HbBuf (F := F) c tbM2) (hall : ∀ j, (f0 j).toNat < 8388608) (fh : HbBuf (F := F) c hbM)

/-- The run's pieces: one store of the whole block, its payload the scratch block read after the copies landed. -/
theorem run1_list_g2 : (kernelRun2 c i arg3 harg3 arg4 harg4 f0 hall fh).1
    = [⟨Rect.unit (s := S1x32x8) ![0, 0, 0] S1x32x8.size inb_S1x32x8_S1x32x8_0_0_0, k2_pay1 (kernelRun2.sl.v448 c i arg4 f0 hall fh)⟩] := rfl

/-- Row `r` of the output block after the body is the `(r + 1)`-th copy's delivery, which is the weight array's row at the
    table's word `[r, t]`: the same three steps for each of the thirty-two rows. -/
theorem run1_row0_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (0 : Fin 32) j)
      = kernelRun2.sl.dma1 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_0 c arg4 harg4]
  exact rowWrites_read c arg4 harg4 _ _ 0 (by decide) j
theorem run1_value0_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g2]
  unfold kernelRun2.sl.dma1
  have hwd : kernelRun2.sl.r (F := F) c i f0 = f0 (ValueIdx.ix2 (0 : Fin 32) t) := by
    unfold kernelRun2.sl.r
    exact tblWord_read_g2 c f0 _ (0 : Fin 32) t ((k2_off1_eq i).trans (by rw [ht]; rfl)) _ _
  exact (srcRow_read_g2 c fh (kernelRun2.sl.r (F := F) c i f0) (k2_off2 (kernelRun2.sl.r (F := F) c i f0)) rfl _ _ _
    (hwd ▸ hall _) j).trans (fh_congr_g2 c fh _ _ hwd _ _ j)

theorem run1_row1_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (1 : Fin 32) j)
      = kernelRun2.sl.dma2 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_1 c arg4 harg4]
  exact rowWrites_read c arg4 harg4 _ _ 1 (by decide) j
theorem run1_value1_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g2]
  unfold kernelRun2.sl.dma2
  have hwd : kernelRun2.sl.r_1 (F := F) c i f0 = f0 (ValueIdx.ix2 (1 : Fin 32) t) := by
    unfold kernelRun2.sl.r_1
    exact tblWord_read_g2 c f0 _ (1 : Fin 32) t ((k2_off3_eq i).trans (by rw [ht]; rfl)) _ _
  exact (srcRow_read_g2 c fh (kernelRun2.sl.r_1 (F := F) c i f0) (k2_off4 (kernelRun2.sl.r_1 (F := F) c i f0)) rfl _ _ _
    (hwd ▸ hall _) j).trans (fh_congr_g2 c fh _ _ hwd _ _ j)

theorem run1_row2_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (2 : Fin 32) j)
      = kernelRun2.sl.dma3 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_2 c arg4 harg4]
  exact rowWrites_read c arg4 harg4 _ _ 2 (by decide) j
theorem run1_value2_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g2]
  unfold kernelRun2.sl.dma3
  have hwd : kernelRun2.sl.r_2 (F := F) c i f0 = f0 (ValueIdx.ix2 (2 : Fin 32) t) := by
    unfold kernelRun2.sl.r_2
    exact tblWord_read_g2 c f0 _ (2 : Fin 32) t ((k2_off5_eq i).trans (by rw [ht]; rfl)) _ _
  exact (srcRow_read_g2 c fh (kernelRun2.sl.r_2 (F := F) c i f0) (k2_off6 (kernelRun2.sl.r_2 (F := F) c i f0)) rfl _ _ _
    (hwd ▸ hall _) j).trans (fh_congr_g2 c fh _ _ hwd _ _ j)

theorem run1_row3_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (3 : Fin 32) j)
      = kernelRun2.sl.dma4 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_3 c arg4 harg4]
  exact rowWrites_read c arg4 harg4 _ _ 3 (by decide) j
theorem run1_value3_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g2]
  unfold kernelRun2.sl.dma4
  have hwd : kernelRun2.sl.r_3 (F := F) c i f0 = f0 (ValueIdx.ix2 (3 : Fin 32) t) := by
    unfold kernelRun2.sl.r_3
    exact tblWord_read_g2 c f0 _ (3 : Fin 32) t ((k2_off7_eq i).trans (by rw [ht]; rfl)) _ _
  exact (srcRow_read_g2 c fh (kernelRun2.sl.r_3 (F := F) c i f0) (k2_off8 (kernelRun2.sl.r_3 (F := F) c i f0)) rfl _ _ _
    (hwd ▸ hall _) j).trans (fh_congr_g2 c fh _ _ hwd _ _ j)

theorem run1_row4_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (4 : Fin 32) j)
      = kernelRun2.sl.dma5 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_4 c arg4 harg4]
  exact rowWrites_read c arg4 harg4 _ _ 4 (by decide) j
theorem run1_value4_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g2]
  unfold kernelRun2.sl.dma5
  have hwd : kernelRun2.sl.r_4 (F := F) c i f0 = f0 (ValueIdx.ix2 (4 : Fin 32) t) := by
    unfold kernelRun2.sl.r_4
    exact tblWord_read_g2 c f0 _ (4 : Fin 32) t ((k2_off9_eq i).trans (by rw [ht]; rfl)) _ _
  exact (srcRow_read_g2 c fh (kernelRun2.sl.r_4 (F := F) c i f0) (k2_off10 (kernelRun2.sl.r_4 (F := F) c i f0)) rfl _ _ _
    (hwd ▸ hall _) j).trans (fh_congr_g2 c fh _ _ hwd _ _ j)

theorem run1_row5_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (5 : Fin 32) j)
      = kernelRun2.sl.dma6 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_5 c arg4 harg4]
  exact rowWrites_read c arg4 harg4 _ _ 5 (by decide) j
theorem run1_value5_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g2]
  unfold kernelRun2.sl.dma6
  have hwd : kernelRun2.sl.r_5 (F := F) c i f0 = f0 (ValueIdx.ix2 (5 : Fin 32) t) := by
    unfold kernelRun2.sl.r_5
    exact tblWord_read_g2 c f0 _ (5 : Fin 32) t ((k2_off11_eq i).trans (by rw [ht]; rfl)) _ _
  exact (srcRow_read_g2 c fh (kernelRun2.sl.r_5 (F := F) c i f0) (k2_off12 (kernelRun2.sl.r_5 (F := F) c i f0)) rfl _ _ _
    (hwd ▸ hall _) j).trans (fh_congr_g2 c fh _ _ hwd _ _ j)

theorem run1_row6_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (6 : Fin 32) j)
      = kernelRun2.sl.dma7 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_6 c arg4 harg4]
  exact rowWrites_read c arg4 harg4 _ _ 6 (by decide) j
theorem run1_value6_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g2]
  unfold kernelRun2.sl.dma7
  have hwd : kernelRun2.sl.r_6 (F := F) c i f0 = f0 (ValueIdx.ix2 (6 : Fin 32) t) := by
    unfold kernelRun2.sl.r_6
    exact tblWord_read_g2 c f0 _ (6 : Fin 32) t ((k2_off13_eq i).trans (by rw [ht]; rfl)) _ _
  exact (srcRow_read_g2 c fh (kernelRun2.sl.r_6 (F := F) c i f0) (k2_off14 (kernelRun2.sl.r_6 (F := F) c i f0)) rfl _ _ _
    (hwd ▸ hall _) j).trans (fh_congr_g2 c fh _ _ hwd _ _ j)

theorem run1_row7_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (7 : Fin 32) j)
      = kernelRun2.sl.dma8 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_7 c arg4 harg4]
  exact rowWrites_read c arg4 harg4 _ _ 7 (by decide) j
theorem run1_value7_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g2]
  unfold kernelRun2.sl.dma8
  have hwd : kernelRun2.sl.r_7 (F := F) c i f0 = f0 (ValueIdx.ix2 (7 : Fin 32) t) := by
    unfold kernelRun2.sl.r_7
    exact tblWord_read_g2 c f0 _ (7 : Fin 32) t ((k2_off15_eq i).trans (by rw [ht]; rfl)) _ _
  exact (srcRow_read_g2 c fh (kernelRun2.sl.r_7 (F := F) c i f0) (k2_off16 (kernelRun2.sl.r_7 (F := F) c i f0)) rfl _ _ _
    (hwd ▸ hall _) j).trans (fh_congr_g2 c fh _ _ hwd _ _ j)

theorem run1_row8_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (8 : Fin 32) j)
      = kernelRun2.sl.dma9 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_8 c arg4 harg4]
  exact rowWrites_read c arg4 harg4 _ _ 8 (by decide) j
theorem run1_value8_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g2]
  unfold kernelRun2.sl.dma9
  have hwd : kernelRun2.sl.r_8 (F := F) c i f0 = f0 (ValueIdx.ix2 (8 : Fin 32) t) := by
    unfold kernelRun2.sl.r_8
    exact tblWord_read_g2 c f0 _ (8 : Fin 32) t ((k2_off17_eq i).trans (by rw [ht]; rfl)) _ _
  exact (srcRow_read_g2 c fh (kernelRun2.sl.r_8 (F := F) c i f0) (k2_off18 (kernelRun2.sl.r_8 (F := F) c i f0)) rfl _ _ _
    (hwd ▸ hall _) j).trans (fh_congr_g2 c fh _ _ hwd _ _ j)

theorem run1_row9_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (9 : Fin 32) j)
      = kernelRun2.sl.dma10 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_9 c arg4 harg4]
  exact rowWrites_read c arg4 harg4 _ _ 9 (by decide) j
theorem run1_value9_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g2]
  unfold kernelRun2.sl.dma10
  have hwd : kernelRun2.sl.r_9 (F := F) c i f0 = f0 (ValueIdx.ix2 (9 : Fin 32) t) := by
    unfold kernelRun2.sl.r_9
    exact tblWord_read_g2 c f0 _ (9 : Fin 32) t ((k2_off19_eq i).trans (by rw [ht]; rfl)) _ _
  exact (srcRow_read_g2 c fh (kernelRun2.sl.r_9 (F := F) c i f0) (k2_off20 (kernelRun2.sl.r_9 (F := F) c i f0)) rfl _ _ _
    (hwd ▸ hall _) j).trans (fh_congr_g2 c fh _ _ hwd _ _ j)

theorem run1_row10_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (10 : Fin 32) j)
      = kernelRun2.sl.dma11 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_10 c arg4 harg4]
  exact rowWrites_read c arg4 harg4 _ _ 10 (by decide) j
theorem run1_value10_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g2]
  unfold kernelRun2.sl.dma11
  have hwd : kernelRun2.sl.r_10 (F := F) c i f0 = f0 (ValueIdx.ix2 (10 : Fin 32) t) := by
    unfold kernelRun2.sl.r_10
    exact tblWord_read_g2 c f0 _ (10 : Fin 32) t ((k2_off21_eq i).trans (by rw [ht]; rfl)) _ _
  exact (srcRow_read_g2 c fh (kernelRun2.sl.r_10 (F := F) c i f0) (k2_off22 (kernelRun2.sl.r_10 (F := F) c i f0)) rfl _ _ _
    (hwd ▸ hall _) j).trans (fh_congr_g2 c fh _ _ hwd _ _ j)

theorem run1_row11_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (11 : Fin 32) j)
      = kernelRun2.sl.dma12 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_11 c arg4 harg4]
  exact rowWrites_read c arg4 harg4 _ _ 11 (by decide) j
theorem run1_value11_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g2]
  unfold kernelRun2.sl.dma12
  have hwd : kernelRun2.sl.r_11 (F := F) c i f0 = f0 (ValueIdx.ix2 (11 : Fin 32) t) := by
    unfold kernelRun2.sl.r_11
    exact tblWord_read_g2 c f0 _ (11 : Fin 32) t ((k2_off23_eq i).trans (by rw [ht]; rfl)) _ _
  exact (srcRow_read_g2 c fh (kernelRun2.sl.r_11 (F := F) c i f0) (k2_off24 (kernelRun2.sl.r_11 (F := F) c i f0)) rfl _ _ _
    (hwd ▸ hall _) j).trans (fh_congr_g2 c fh _ _ hwd _ _ j)

theorem run1_row12_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (12 : Fin 32) j)
      = kernelRun2.sl.dma13 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_12 c arg4 harg4]
  exact rowWrites_read c arg4 harg4 _ _ 12 (by decide) j
theorem run1_value12_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g2]
  unfold kernelRun2.sl.dma13
  have hwd : kernelRun2.sl.r_12 (F := F) c i f0 = f0 (ValueIdx.ix2 (12 : Fin 32) t) := by
    unfold kernelRun2.sl.r_12
    exact tblWord_read_g2 c f0 _ (12 : Fin 32) t ((k2_off25_eq i).trans (by rw [ht]; rfl)) _ _
  exact (srcRow_read_g2 c fh (kernelRun2.sl.r_12 (F := F) c i f0) (k2_off26 (kernelRun2.sl.r_12 (F := F) c i f0)) rfl _ _ _
    (hwd ▸ hall _) j).trans (fh_congr_g2 c fh _ _ hwd _ _ j)

theorem run1_row13_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (13 : Fin 32) j)
      = kernelRun2.sl.dma14 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_13 c arg4 harg4]
  exact rowWrites_read c arg4 harg4 _ _ 13 (by decide) j
theorem run1_value13_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g2]
  unfold kernelRun2.sl.dma14
  have hwd : kernelRun2.sl.r_13 (F := F) c i f0 = f0 (ValueIdx.ix2 (13 : Fin 32) t) := by
    unfold kernelRun2.sl.r_13
    exact tblWord_read_g2 c f0 _ (13 : Fin 32) t ((k2_off27_eq i).trans (by rw [ht]; rfl)) _ _
  exact (srcRow_read_g2 c fh (kernelRun2.sl.r_13 (F := F) c i f0) (k2_off28 (kernelRun2.sl.r_13 (F := F) c i f0)) rfl _ _ _
    (hwd ▸ hall _) j).trans (fh_congr_g2 c fh _ _ hwd _ _ j)

theorem run1_row14_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (14 : Fin 32) j)
      = kernelRun2.sl.dma15 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_14 c arg4 harg4]
  exact rowWrites_read c arg4 harg4 _ _ 14 (by decide) j
theorem run1_value14_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g2]
  unfold kernelRun2.sl.dma15
  have hwd : kernelRun2.sl.r_14 (F := F) c i f0 = f0 (ValueIdx.ix2 (14 : Fin 32) t) := by
    unfold kernelRun2.sl.r_14
    exact tblWord_read_g2 c f0 _ (14 : Fin 32) t ((k2_off29_eq i).trans (by rw [ht]; rfl)) _ _
  exact (srcRow_read_g2 c fh (kernelRun2.sl.r_14 (F := F) c i f0) (k2_off30 (kernelRun2.sl.r_14 (F := F) c i f0)) rfl _ _ _
    (hwd ▸ hall _) j).trans (fh_congr_g2 c fh _ _ hwd _ _ j)

theorem run1_row15_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (15 : Fin 32) j)
      = kernelRun2.sl.dma16 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_15 c arg4 harg4]
  exact rowWrites_read c arg4 harg4 _ _ 15 (by decide) j
theorem run1_value15_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g2]
  unfold kernelRun2.sl.dma16
  have hwd : kernelRun2.sl.r_15 (F := F) c i f0 = f0 (ValueIdx.ix2 (15 : Fin 32) t) := by
    unfold kernelRun2.sl.r_15
    exact tblWord_read_g2 c f0 _ (15 : Fin 32) t ((k2_off31_eq i).trans (by rw [ht]; rfl)) _ _
  exact (srcRow_read_g2 c fh (kernelRun2.sl.r_15 (F := F) c i f0) (k2_off32 (kernelRun2.sl.r_15 (F := F) c i f0)) rfl _ _ _
    (hwd ▸ hall _) j).trans (fh_congr_g2 c fh _ _ hwd _ _ j)

theorem run1_row16_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (16 : Fin 32) j)
      = kernelRun2.sl.dma17 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_16 c arg4 harg4]
  exact rowWrites_read c arg4 harg4 _ _ 16 (by decide) j
theorem run1_value16_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g2]
  unfold kernelRun2.sl.dma17
  have hwd : kernelRun2.sl.r_16 (F := F) c i f0 = f0 (ValueIdx.ix2 (16 : Fin 32) t) := by
    unfold kernelRun2.sl.r_16
    exact tblWord_read_g2 c f0 _ (16 : Fin 32) t ((k2_off33_eq i).trans (by rw [ht]; rfl)) _ _
  exact (srcRow_read_g2 c fh (kernelRun2.sl.r_16 (F := F) c i f0) (k2_off34 (kernelRun2.sl.r_16 (F := F) c i f0)) rfl _ _ _
    (hwd ▸ hall _) j).trans (fh_congr_g2 c fh _ _ hwd _ _ j)

theorem run1_row17_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (17 : Fin 32) j)
      = kernelRun2.sl.dma18 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_17 c arg4 harg4]
  exact rowWrites_read c arg4 harg4 _ _ 17 (by decide) j
theorem run1_value17_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g2]
  unfold kernelRun2.sl.dma18
  have hwd : kernelRun2.sl.r_17 (F := F) c i f0 = f0 (ValueIdx.ix2 (17 : Fin 32) t) := by
    unfold kernelRun2.sl.r_17
    exact tblWord_read_g2 c f0 _ (17 : Fin 32) t ((k2_off35_eq i).trans (by rw [ht]; rfl)) _ _
  exact (srcRow_read_g2 c fh (kernelRun2.sl.r_17 (F := F) c i f0) (k2_off36 (kernelRun2.sl.r_17 (F := F) c i f0)) rfl _ _ _
    (hwd ▸ hall _) j).trans (fh_congr_g2 c fh _ _ hwd _ _ j)

theorem run1_row18_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (18 : Fin 32) j)
      = kernelRun2.sl.dma19 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_18 c arg4 harg4]
  exact rowWrites_read c arg4 harg4 _ _ 18 (by decide) j
theorem run1_value18_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g2]
  unfold kernelRun2.sl.dma19
  have hwd : kernelRun2.sl.r_18 (F := F) c i f0 = f0 (ValueIdx.ix2 (18 : Fin 32) t) := by
    unfold kernelRun2.sl.r_18
    exact tblWord_read_g2 c f0 _ (18 : Fin 32) t ((k2_off37_eq i).trans (by rw [ht]; rfl)) _ _
  exact (srcRow_read_g2 c fh (kernelRun2.sl.r_18 (F := F) c i f0) (k2_off38 (kernelRun2.sl.r_18 (F := F) c i f0)) rfl _ _ _
    (hwd ▸ hall _) j).trans (fh_congr_g2 c fh _ _ hwd _ _ j)

theorem run1_row19_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (19 : Fin 32) j)
      = kernelRun2.sl.dma20 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_19 c arg4 harg4]
  exact rowWrites_read c arg4 harg4 _ _ 19 (by decide) j
theorem run1_value19_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g2]
  unfold kernelRun2.sl.dma20
  have hwd : kernelRun2.sl.r_19 (F := F) c i f0 = f0 (ValueIdx.ix2 (19 : Fin 32) t) := by
    unfold kernelRun2.sl.r_19
    exact tblWord_read_g2 c f0 _ (19 : Fin 32) t ((k2_off39_eq i).trans (by rw [ht]; rfl)) _ _
  exact (srcRow_read_g2 c fh (kernelRun2.sl.r_19 (F := F) c i f0) (k2_off40 (kernelRun2.sl.r_19 (F := F) c i f0)) rfl _ _ _
    (hwd ▸ hall _) j).trans (fh_congr_g2 c fh _ _ hwd _ _ j)

theorem run1_row20_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (20 : Fin 32) j)
      = kernelRun2.sl.dma21 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_20 c arg4 harg4]
  exact rowWrites_read c arg4 harg4 _ _ 20 (by decide) j
theorem run1_value20_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g2]
  unfold kernelRun2.sl.dma21
  have hwd : kernelRun2.sl.r_20 (F := F) c i f0 = f0 (ValueIdx.ix2 (20 : Fin 32) t) := by
    unfold kernelRun2.sl.r_20
    exact tblWord_read_g2 c f0 _ (20 : Fin 32) t ((k2_off41_eq i).trans (by rw [ht]; rfl)) _ _
  exact (srcRow_read_g2 c fh (kernelRun2.sl.r_20 (F := F) c i f0) (k2_off42 (kernelRun2.sl.r_20 (F := F) c i f0)) rfl _ _ _
    (hwd ▸ hall _) j).trans (fh_congr_g2 c fh _ _ hwd _ _ j)

theorem run1_row21_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (21 : Fin 32) j)
      = kernelRun2.sl.dma22 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_21 c arg4 harg4]
  exact rowWrites_read c arg4 harg4 _ _ 21 (by decide) j
theorem run1_value21_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g2]
  unfold kernelRun2.sl.dma22
  have hwd : kernelRun2.sl.r_21 (F := F) c i f0 = f0 (ValueIdx.ix2 (21 : Fin 32) t) := by
    unfold kernelRun2.sl.r_21
    exact tblWord_read_g2 c f0 _ (21 : Fin 32) t ((k2_off43_eq i).trans (by rw [ht]; rfl)) _ _
  exact (srcRow_read_g2 c fh (kernelRun2.sl.r_21 (F := F) c i f0) (k2_off44 (kernelRun2.sl.r_21 (F := F) c i f0)) rfl _ _ _
    (hwd ▸ hall _) j).trans (fh_congr_g2 c fh _ _ hwd _ _ j)

theorem run1_row22_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (22 : Fin 32) j)
      = kernelRun2.sl.dma23 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_22 c arg4 harg4]
  exact rowWrites_read c arg4 harg4 _ _ 22 (by decide) j
theorem run1_value22_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g2]
  unfold kernelRun2.sl.dma23
  have hwd : kernelRun2.sl.r_22 (F := F) c i f0 = f0 (ValueIdx.ix2 (22 : Fin 32) t) := by
    unfold kernelRun2.sl.r_22
    exact tblWord_read_g2 c f0 _ (22 : Fin 32) t ((k2_off45_eq i).trans (by rw [ht]; rfl)) _ _
  exact (srcRow_read_g2 c fh (kernelRun2.sl.r_22 (F := F) c i f0) (k2_off46 (kernelRun2.sl.r_22 (F := F) c i f0)) rfl _ _ _
    (hwd ▸ hall _) j).trans (fh_congr_g2 c fh _ _ hwd _ _ j)

theorem run1_row23_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (23 : Fin 32) j)
      = kernelRun2.sl.dma24 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_23 c arg4 harg4]
  exact rowWrites_read c arg4 harg4 _ _ 23 (by decide) j
theorem run1_value23_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g2]
  unfold kernelRun2.sl.dma24
  have hwd : kernelRun2.sl.r_23 (F := F) c i f0 = f0 (ValueIdx.ix2 (23 : Fin 32) t) := by
    unfold kernelRun2.sl.r_23
    exact tblWord_read_g2 c f0 _ (23 : Fin 32) t ((k2_off47_eq i).trans (by rw [ht]; rfl)) _ _
  exact (srcRow_read_g2 c fh (kernelRun2.sl.r_23 (F := F) c i f0) (k2_off48 (kernelRun2.sl.r_23 (F := F) c i f0)) rfl _ _ _
    (hwd ▸ hall _) j).trans (fh_congr_g2 c fh _ _ hwd _ _ j)

theorem run1_row24_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (24 : Fin 32) j)
      = kernelRun2.sl.dma25 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_24 c arg4 harg4]
  exact rowWrites_read c arg4 harg4 _ _ 24 (by decide) j
theorem run1_value24_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g2]
  unfold kernelRun2.sl.dma25
  have hwd : kernelRun2.sl.r_24 (F := F) c i f0 = f0 (ValueIdx.ix2 (24 : Fin 32) t) := by
    unfold kernelRun2.sl.r_24
    exact tblWord_read_g2 c f0 _ (24 : Fin 32) t ((k2_off49_eq i).trans (by rw [ht]; rfl)) _ _
  exact (srcRow_read_g2 c fh (kernelRun2.sl.r_24 (F := F) c i f0) (k2_off50 (kernelRun2.sl.r_24 (F := F) c i f0)) rfl _ _ _
    (hwd ▸ hall _) j).trans (fh_congr_g2 c fh _ _ hwd _ _ j)

theorem run1_row25_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (25 : Fin 32) j)
      = kernelRun2.sl.dma26 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_25 c arg4 harg4]
  exact rowWrites_read c arg4 harg4 _ _ 25 (by decide) j
theorem run1_value25_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g2]
  unfold kernelRun2.sl.dma26
  have hwd : kernelRun2.sl.r_25 (F := F) c i f0 = f0 (ValueIdx.ix2 (25 : Fin 32) t) := by
    unfold kernelRun2.sl.r_25
    exact tblWord_read_g2 c f0 _ (25 : Fin 32) t ((k2_off51_eq i).trans (by rw [ht]; rfl)) _ _
  exact (srcRow_read_g2 c fh (kernelRun2.sl.r_25 (F := F) c i f0) (k2_off52 (kernelRun2.sl.r_25 (F := F) c i f0)) rfl _ _ _
    (hwd ▸ hall _) j).trans (fh_congr_g2 c fh _ _ hwd _ _ j)

theorem run1_row26_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (26 : Fin 32) j)
      = kernelRun2.sl.dma27 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_26 c arg4 harg4]
  exact rowWrites_read c arg4 harg4 _ _ 26 (by decide) j
theorem run1_value26_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g2]
  unfold kernelRun2.sl.dma27
  have hwd : kernelRun2.sl.r_26 (F := F) c i f0 = f0 (ValueIdx.ix2 (26 : Fin 32) t) := by
    unfold kernelRun2.sl.r_26
    exact tblWord_read_g2 c f0 _ (26 : Fin 32) t ((k2_off53_eq i).trans (by rw [ht]; rfl)) _ _
  exact (srcRow_read_g2 c fh (kernelRun2.sl.r_26 (F := F) c i f0) (k2_off54 (kernelRun2.sl.r_26 (F := F) c i f0)) rfl _ _ _
    (hwd ▸ hall _) j).trans (fh_congr_g2 c fh _ _ hwd _ _ j)

theorem run1_row27_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (27 : Fin 32) j)
      = kernelRun2.sl.dma28 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_27 c arg4 harg4]
  exact rowWrites_read c arg4 harg4 _ _ 27 (by decide) j
theorem run1_value27_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g2]
  unfold kernelRun2.sl.dma28
  have hwd : kernelRun2.sl.r_27 (F := F) c i f0 = f0 (ValueIdx.ix2 (27 : Fin 32) t) := by
    unfold kernelRun2.sl.r_27
    exact tblWord_read_g2 c f0 _ (27 : Fin 32) t ((k2_off55_eq i).trans (by rw [ht]; rfl)) _ _
  exact (srcRow_read_g2 c fh (kernelRun2.sl.r_27 (F := F) c i f0) (k2_off56 (kernelRun2.sl.r_27 (F := F) c i f0)) rfl _ _ _
    (hwd ▸ hall _) j).trans (fh_congr_g2 c fh _ _ hwd _ _ j)

theorem run1_row28_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (28 : Fin 32) j)
      = kernelRun2.sl.dma29 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_28 c arg4 harg4]
  exact rowWrites_read c arg4 harg4 _ _ 28 (by decide) j
theorem run1_value28_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g2]
  unfold kernelRun2.sl.dma29
  have hwd : kernelRun2.sl.r_28 (F := F) c i f0 = f0 (ValueIdx.ix2 (28 : Fin 32) t) := by
    unfold kernelRun2.sl.r_28
    exact tblWord_read_g2 c f0 _ (28 : Fin 32) t ((k2_off57_eq i).trans (by rw [ht]; rfl)) _ _
  exact (srcRow_read_g2 c fh (kernelRun2.sl.r_28 (F := F) c i f0) (k2_off58 (kernelRun2.sl.r_28 (F := F) c i f0)) rfl _ _ _
    (hwd ▸ hall _) j).trans (fh_congr_g2 c fh _ _ hwd _ _ j)

theorem run1_row29_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (29 : Fin 32) j)
      = kernelRun2.sl.dma30 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_29 c arg4 harg4]
  exact rowWrites_read c arg4 harg4 _ _ 29 (by decide) j
theorem run1_value29_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g2]
  unfold kernelRun2.sl.dma30
  have hwd : kernelRun2.sl.r_29 (F := F) c i f0 = f0 (ValueIdx.ix2 (29 : Fin 32) t) := by
    unfold kernelRun2.sl.r_29
    exact tblWord_read_g2 c f0 _ (29 : Fin 32) t ((k2_off59_eq i).trans (by rw [ht]; rfl)) _ _
  exact (srcRow_read_g2 c fh (kernelRun2.sl.r_29 (F := F) c i f0) (k2_off60 (kernelRun2.sl.r_29 (F := F) c i f0)) rfl _ _ _
    (hwd ▸ hall _) j).trans (fh_congr_g2 c fh _ _ hwd _ _ j)

theorem run1_row30_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (30 : Fin 32) j)
      = kernelRun2.sl.dma31 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_30 c arg4 harg4]
  exact rowWrites_read c arg4 harg4 _ _ 30 (by decide) j
theorem run1_value30_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g2]
  unfold kernelRun2.sl.dma31
  have hwd : kernelRun2.sl.r_30 (F := F) c i f0 = f0 (ValueIdx.ix2 (30 : Fin 32) t) := by
    unfold kernelRun2.sl.r_30
    exact tblWord_read_g2 c f0 _ (30 : Fin 32) t ((k2_off61_eq i).trans (by rw [ht]; rfl)) _ _
  exact (srcRow_read_g2 c fh (kernelRun2.sl.r_30 (F := F) c i f0) (k2_off62 (kernelRun2.sl.r_30 (F := F) c i f0)) rfl _ _ _
    (hwd ▸ hall _) j).trans (fh_congr_g2 c fh _ _ hwd _ _ j)

theorem run1_row31_g2 (VO : View sig .tc .vmem S1x32x8 .f32) (j : Fin 8) :
    VO.read (Elt F) (VO.writes (Elt F) VO.junk (kernelRun2 c i arg3 harg3 arg4 harg4 f0 hall fh).1) (ValueIdx.ix3 (0 : Fin 1) (31 : Fin 32) j)
      = kernelRun2.sl.dma32 c i f0 hall fh (ValueIdx.ix1 j) := by
  rw [View.read_writes_eq_canon _ _ _ (coverRun2 c i arg3 harg3 arg4 harg4 f0 hall fh), run1_list_g2, View.canon_unit_zero hzG3_g2, pay1_apply_g2]
  unfold kernelRun2.sl.v448
  rw [View.readAt_eq_ld, View.ld_unit_zero (S := S32x8) hzG2_g2]
  rw [joinRows32_read_31 c arg4 harg4]
  exact rowWrites_read c arg4 harg4 _ _ 31 (by decide) j
theorem run1_value31_g2 (VO : View sig .tc .vmem S1x32x8 .f32) (t : Fin 1023) (ht : (i 0).val = t.val) (j : Fin 8) :
    VO.read (Elt F) (VO.writes (Elt F) VO.junk (kernelRun2 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g2]
  unfold kernelRun2.sl.dma32
  have hwd : kernelRun2.sl.r_31 (F := F) c i f0 = f0 (ValueIdx.ix2 (31 : Fin 32) t) := by
    unfold kernelRun2.sl.r_31
    exact tblWord_read_g2 c f0 _ (31 : Fin 32) t ((k2_off63_eq i).trans (by rw [ht]; rfl)) _ _
  exact (srcRow_read_g2 c fh (kernelRun2.sl.r_31 (F := F) c i f0) (k2_off64 (kernelRun2.sl.r_31 (F := F) c i f0)) rfl _ _ _
    (hwd ▸ hall _) j).trans (fh_congr_g2 c fh _ _ hwd _ _ j)

/-- The output block after the body at `[0, r, j]`: the weight array's row at the table's word `[r, t]`, element `j`. -/
theorem run1_value_g2 (VO : View sig .tc .vmem S1x32x8 .f32) (t : Fin 1023) (ht : (i 0).val = t.val) (r : Fin 32) (j : Fin 8) :
    VO.read (Elt F) (VO.writes (Elt F) VO.junk (kernelRun2 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g2 c i arg3 harg3 arg4 harg4 f0 hall fh VO t ht j
  | ⟨1, _⟩ => exact run1_value1_g2 c i arg3 harg3 arg4 harg4 f0 hall fh VO t ht j
  | ⟨2, _⟩ => exact run1_value2_g2 c i arg3 harg3 arg4 harg4 f0 hall fh VO t ht j
  | ⟨3, _⟩ => exact run1_value3_g2 c i arg3 harg3 arg4 harg4 f0 hall fh VO t ht j
  | ⟨4, _⟩ => exact run1_value4_g2 c i arg3 harg3 arg4 harg4 f0 hall fh VO t ht j
  | ⟨5, _⟩ => exact run1_value5_g2 c i arg3 harg3 arg4 harg4 f0 hall fh VO t ht j
  | ⟨6, _⟩ => exact run1_value6_g2 c i arg3 harg3 arg4 harg4 f0 hall fh VO t ht j
  | ⟨7, _⟩ => exact run1_value7_g2 c i arg3 harg3 arg4 harg4 f0 hall fh VO t ht j
  | ⟨8, _⟩ => exact run1_value8_g2 c i arg3 harg3 arg4 harg4 f0 hall fh VO t ht j
  | ⟨9, _⟩ => exact run1_value9_g2 c i arg3 harg3 arg4 harg4 f0 hall fh VO t ht j
  | ⟨10, _⟩ => exact run1_value10_g2 c i arg3 harg3 arg4 harg4 f0 hall fh VO t ht j
  | ⟨11, _⟩ => exact run1_value11_g2 c i arg3 harg3 arg4 harg4 f0 hall fh VO t ht j
  | ⟨12, _⟩ => exact run1_value12_g2 c i arg3 harg3 arg4 harg4 f0 hall fh VO t ht j
  | ⟨13, _⟩ => exact run1_value13_g2 c i arg3 harg3 arg4 harg4 f0 hall fh VO t ht j
  | ⟨14, _⟩ => exact run1_value14_g2 c i arg3 harg3 arg4 harg4 f0 hall fh VO t ht j
  | ⟨15, _⟩ => exact run1_value15_g2 c i arg3 harg3 arg4 harg4 f0 hall fh VO t ht j
  | ⟨16, _⟩ => exact run1_value16_g2 c i arg3 harg3 arg4 harg4 f0 hall fh VO t ht j
  | ⟨17, _⟩ => exact run1_value17_g2 c i arg3 harg3 arg4 harg4 f0 hall fh VO t ht j
  | ⟨18, _⟩ => exact run1_value18_g2 c i arg3 harg3 arg4 harg4 f0 hall fh VO t ht j
  | ⟨19, _⟩ => exact run1_value19_g2 c i arg3 harg3 arg4 harg4 f0 hall fh VO t ht j
  | ⟨20, _⟩ => exact run1_value20_g2 c i arg3 harg3 arg4 harg4 f0 hall fh VO t ht j
  | ⟨21, _⟩ => exact run1_value21_g2 c i arg3 harg3 arg4 harg4 f0 hall fh VO t ht j
  | ⟨22, _⟩ => exact run1_value22_g2 c i arg3 harg3 arg4 harg4 f0 hall fh VO t ht j
  | ⟨23, _⟩ => exact run1_value23_g2 c i arg3 harg3 arg4 harg4 f0 hall fh VO t ht j
  | ⟨24, _⟩ => exact run1_value24_g2 c i arg3 harg3 arg4 harg4 f0 hall fh VO t ht j
  | ⟨25, _⟩ => exact run1_value25_g2 c i arg3 harg3 arg4 harg4 f0 hall fh VO t ht j
  | ⟨26, _⟩ => exact run1_value26_g2 c i arg3 harg3 arg4 harg4 f0 hall fh VO t ht j
  | ⟨27, _⟩ => exact run1_value27_g2 c i arg3 harg3 arg4 harg4 f0 hall fh VO t ht j
  | ⟨28, _⟩ => exact run1_value28_g2 c i arg3 harg3 arg4 harg4 f0 hall fh VO t ht j
  | ⟨29, _⟩ => exact run1_value29_g2 c i arg3 harg3 arg4 harg4 f0 hall fh VO t ht j
  | ⟨30, _⟩ => exact run1_value30_g2 c i arg3 harg3 arg4 harg4 f0 hall fh VO t ht j
  | ⟨31, _⟩ => exact run1_value31_g2 c i arg3 harg3 arg4 harg4 f0 hall fh VO t ht j
  | ⟨n + 32, h⟩ => exact absurd h (by omega)

end Run

/-! ## Gather kernel 2: the point and the region -/

/-- A grid point's one coordinate is the point's number. -/
theorem coordsG1_g2 : ∀ t : Fin grid2.N, ((grid2.coords t) 0).val = t.val := by decide +kernel

/-- What the output block holds after the body at point `t`, at `[0, r, j]`: element `j` of the weight array's row at the
    table's word `[r, t]`. -/
theorem gather1_point_g2 (V : (c : Dev nD) → (b : Ref sig .tc) → Buf (Elt F) ((c : Thread nD τ).loc b))
    (hH : InRange2 (F := F) V) (c : Dev nD) (t : Fin (pcfgG2 (F := F) V).N) (r : Fin 32) (j : Fin 8) :
    outsAt2 V hH c t (ValueIdx.ix3 (0 : Fin 1) r j)
      = V c main_arg2 (ValueIdx.ix2 (⟨(V c main_v37 (ValueIdx.ix2 r (⟨t.val, lt_of_lt_of_eq t.isLt (NG1_g2 (adm2 (F := F) V))⟩ : Fin 1023))).toNat, hH c _⟩ : Fin 8388608) j) := by
  unfold outsAt2
  exact run1_value_g2 c (grid2.coords t) (ms2 V t) (hs2 V t) scM2 (Memref.isWhole_whole _) (V c main_v37) (hH c) (V c main_arg2) VO2
    (⟨t.val, lt_of_lt_of_eq t.isLt (NG1_g2 (adm2 (F := F) V))⟩ : Fin 1023) (coordsG1_g2 t) r j

/-- The output array of gather kernel 2 after its region's run, at `[t, r, j]`: element `j` of the weight array's row at the
    table's word `[r, t]`. -/
theorem gather1_value_g2 (V : (c : Dev nD) → (b : Ref sig .tc) → Buf (Elt F) ((c : Thread nD τ).loc b))
    (hH : InRange2 (F := F) V) (c : Dev nD) (t : Fin 1023) (r : Fin 32) (j : Fin 8) :
    (datG2 (F := F) V hH c).arrAt 0 (pcfgG2 (F := F) V).N (ValueIdx.ix3 t r j)
      = V c main_arg2 (ValueIdx.ix2 (⟨(V c main_v37 (ValueIdx.ix2 r t)).toNat, hH c _⟩ : Fin 8388608) j) := by
  rw [gather1_blocks_g2 V hH c t r j, gather1_point_g2 V hH c _ r j]

end Cert.KernelIdeal.Hand

end
-- ==== Proof.KernelIdealGatherValue3.lean ====
/-
  Gather kernel 3's region, from blocks to the array: the output array after the region's run is, block by block along its
  first axis, what the body leaves in the output block at each grid point.
-/
import proofs.«145402_j1717986918579_1_alg».proof.Proof.KernelIdealGather3
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g3 : ∀ t : Fin grid3.N, cc3_transform_1 (grid3.coords t) = ![t.val, 0, 0] := by decide +kernel

/-- The grid has 1023 points whatever the table holds. -/
theorem NG1_g3 (a : (pcfg3 (F := F)).Adm) : (cfg3 a).N = 1023 := N_3

/-- The output window's block index at a point does not read the table. -/
theorem indexG1_g3 (a : (pcfg3 (F := F)).Adm) (t : Fin (cfg3 a).N) :
    ((cfg3 a).win 0).index t = ![t.val, 0, 0] :=
  (rfl : ((cfg3 a).win 0).index t = cc3_transform_1 (grid3.coords t)).trans (trG1_g3 t)

/-- Every point writes its block back: the next point's block is another. -/
theorem flushG1_g3 (a : (pcfg3 (F := F)).Adm) (t : Fin (cfg3 a).N) : ((cfg3 a).win 0).flush t = true := by
  have hN : (cfg3 a).N = 1023 := NG1_g3 a
  have ht := t.isLt
  simp only [Pipeline.Window.flush, Bool.and_eq_true, Bool.or_eq_true, decide_eq_true_eq]
  refine ⟨rfl, ?_⟩
  by_cases h : t.val + 1 = (cfg3 a).N
  · exact Or.inl h
  · have hlt : t.val + 1 < (cfg3 a).N := by omega
    refine Or.inr ⟨hlt, ?_⟩
    rw [indexG1_g3, indexG1_g3]
    intro he
    have := congrFun he 0
    simp at this

/-! ## From blocks to the array, for any table contents -/

section Blocks
variable (a : (pcfg3 (F := F)).Adm) (c : Dev nD)
  (dat : Pipeline.Dat τ (Elt F) Unit ℕ (Pipeline.UD sig nD τ) ℕ (cfg3 a) c)
  (outs : Fin (cfg3 a).N → Vec F S1x32x8 .f32)

/-- The array whose block `t` along the first axis is the output block after the body at point `t`. -/
def allG1_g3 : S1023x32x8.Idx → Elt F .f32 := fun i =>
  outs ⟨(i 0).val, lt_of_lt_of_eq (i 0).isLt (NG1_g3 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g3 (t t' : Fin (cfg3 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g3 (t : Fin (cfg3 a).N) (y : S1x32x8.Idx) (i : S1023x32x8.Idx)
    (h0 : (i 0).val = t.val + (y 0).val) (h1 : (i 1).val = (y 1).val) (h2 : (i 2).val = (y 2).val) :
    ((((cfg3 a).win 0).blk t).view.emb y : S1023x32x8.Idx) = i := by
  have hidx := indexG1_g3 a t
  have e0 : ((cfg3 a).win 0).index t (0 : Fin 3) = t.val := congrFun hidx (0 : Fin 3)
  have e1 : ((cfg3 a).win 0).index t (1 : Fin 3) = 0 := congrFun hidx (1 : Fin 3)
  have e2 : ((cfg3 a).win 0).index t (2 : Fin 3) = 0 := congrFun hidx (2 : Fin 3)
  funext (b : Fin 3)
  apply Fin.ext
  match b with
  | ⟨0, _⟩ =>
    show ((cfg3 a).win 0).index t (0 : Fin 3) * 1 + 1 * (y 0).val = (i 0).val
    rw [e0, h0]; omega
  | ⟨1, _⟩ =>
    show ((cfg3 a).win 0).index t (1 : Fin 3) * 32 + 1 * (y 1).val = (i 1).val
    rw [e1, h1]; omega
  | ⟨2, _⟩ =>
    show ((cfg3 a).win 0).index t (2 : Fin 3) * 8 + 1 * (y 2).val = (i 2).val
    rw [e2, h2]; omega

/-- What point `t` writes back is block `t` of `allG1_g3`. -/
theorem flushedG1_eq_g3 (hafter : ∀ t, dat.after 0 t = outs t) (t : Fin (cfg3 a).N) :
    dat.flushed 0 t = (((cfg3 a).win 0).blk t).view.read (Elt F) (allG1_g3 a outs) := by
  show ((cfg3 a).win 0).cut ((cfg3 a).grid.coords t) (dat.after 0 t) = _
  rw [hafter]
  refine funext fun (j : S1x32x8.Idx) => ?_
  have hj0 : (j 0).val < 1 := (j 0).isLt
  show outs t j = allG1_g3 a outs ((((cfg3 a).win 0).blk t).view.emb j : S1023x32x8.Idx)
  rw [embG1_g3 a t j (ValueIdx.ix3 (⟨t.val, lt_of_lt_of_eq t.isLt (NG1_g3 a)⟩ : Fin 1023) (⟨(j 1).val, (j 1).isLt⟩ : Fin 32) (⟨(j 2).val, (j 2).isLt⟩ : Fin 8))
    (by show t.val = t.val + (j 0).val; omega) rfl rfl]
  unfold allG1_g3
  refine outs_congrG1_g3 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g3 (i : S1023x32x8.Idx) :
    ∃ t : Fin (cfg3 a).N, ((cfg3 a).win 0).flush t = true ∧ i ∈ (((cfg3 a).win 0).blk t).view.set := by
  refine ⟨⟨(i 0).val, lt_of_lt_of_eq (i 0).isLt (NG1_g3 a).symm⟩, flushG1_g3 a _, ?_⟩
  have he := embG1_g3 a ⟨(i 0).val, lt_of_lt_of_eq (i 0).isLt (NG1_g3 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg3 a).win 0).blk ⟨(i 0).val, lt_of_lt_of_eq (i 0).isLt (NG1_g3 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g3`: its 1023 blocks tile the array along the first axis. -/
theorem finalG1_g3 (hafter : ∀ t, dat.after 0 t = outs t) : dat.arrAt 0 (cfg3 a).N = allG1_g3 a outs :=
  dat.arrAt_eq_of_cover 0 (allG1_g3 a outs) (fun t _ => flushedG1_eq_g3 a c dat outs hafter t) (coverG1_g3 a)

/-- The output array after the region's run at `[t, r, j]` is the output block after the body at point `t`, at `[0, r, j]`. -/
theorem blocksG1_g3 (hafter : ∀ t, dat.after 0 t = outs t) (t : Fin 1023) (r : Fin 32) (j : Fin 8) :
    dat.arrAt 0 (cfg3 a).N (ValueIdx.ix3 t r j)
      = outs ⟨t.val, lt_of_lt_of_eq t.isLt (NG1_g3 a).symm⟩ (ValueIdx.ix3 (0 : Fin 1) r j) := by
  rw [finalG1_g3 a c dat outs hafter]
  rfl

end Blocks

/-! ## Gather kernel 3's region -/

/-- The output array of gather kernel 3 after its region's run, at `[t, r, j]`: what the body leaves in the output block at
    grid point `t`, at `[0, r, j]`. -/
theorem gather1_blocks_g3 (V : (c : Dev nD) → (b : Ref sig .tc) → Buf (Elt F) ((c : Thread nD τ).loc b))
    (hH : InRange3 (F := F) V) (c : Dev nD) (t : Fin 1023) (r : Fin 32) (j : Fin 8) :
    (datG3 (F := F) V hH c).arrAt 0 (pcfgG3 (F := F) V).N (ValueIdx.ix3 t r j)
      = outsAt3 V hH c ⟨t.val, lt_of_lt_of_eq t.isLt (NG1_g3 (adm3 (F := F) V)).symm⟩ (ValueIdx.ix3 (0 : Fin 1) r j) :=
  blocksG1_g3 (adm3 (F := F) V) c (datG3 (F := F) V hH c) (outsAt3 V hH c) (afterG3 V hH c) t r j

/-- The gather body's payload at `[0, r, j]` is the scratch block at `(r, j)`: the payload only adds a leading unit axis. -/
theorem pay1_apply_g3 (v : Vec F S32x8 .f32) (r : Fin 32) (j : Fin 8) :
    k3_pay1 (F := F) v (ValueIdx.ix3 (0 : Fin 1) r j) = v (ValueIdx.ix2 r j) := by
  unfold k3_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g3 : (![0, 0] : Fin 2 → Nat) = fun _ => 0 := funext fun a => by fin_cases a <;> rfl
theorem hzG3_g3 : (![0, 0, 0] : Fin 3 → Nat) = fun _ => 0 := funext fun a => by fin_cases a <;> rfl

/-- A one-row slice of the weight array at row `w`, squeezed to a row, reads the weight array at `[w, j]`. -/
theorem srcRow_read_g3 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g3 (f0 : HbBuf (F := F) c tbM3) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM3.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g3 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid3.Coords) (arg3 : Memref sig .tc .vmem S1x32x8 .f32) (harg3 : arg3.IsWhole)
  (arg4 : Memref sig .tc .vmem S32x8 .f32) (harg4 : arg4.IsWhole)
  (f0 : HbBuf (F := F) c tbM3) (hall : ∀ j, (f0 j).toNat < 8388608) (fh : HbBuf (F := F) c hbM)

/-- The run's pieces: one store of the whole block, its payload the scratch block read after the copies landed. -/
theorem run1_list_g3 : (kernelRun3 c i arg3 harg3 arg4 harg4 f0 hall fh).1
    = [⟨Rect.unit (s := S1x32x8) ![0, 0, 0] S1x32x8.size inb_S1x32x8_S1x32x8_0_0_0, k3_pay1 (kernelRun3.sl.v448 c i arg4 f0 hall fh)⟩] := rfl

/-- Row `r` of the output block after the body is the `(r + 1)`-th copy's delivery, which is the weight array's row at the
    table's word `[r, t]`: the same three steps for each of the thirty-two rows. -/
theorem run1_row0_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (0 : Fin 32) j)
      = kernelRun3.sl.dma1 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_0 c arg4 harg4]
  exact rowWrites_read c arg4 harg4 _ _ 0 (by decide) j
theorem run1_value0_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g3]
  unfold kernelRun3.sl.dma1
  have hwd : kernelRun3.sl.r (F := F) c i f0 = f0 (ValueIdx.ix2 (0 : Fin 32) t) := by
    unfold kernelRun3.sl.r
    exact tblWord_read_g3 c f0 _ (0 : Fin 32) t ((k3_off1_eq i).trans (by rw [ht]; rfl)) _ _
  exact (srcRow_read_g3 c fh (kernelRun3.sl.r (F := F) c i f0) (k3_off2 (kernelRun3.sl.r (F := F) c i f0)) rfl _ _ _
    (hwd ▸ hall _) j).trans (fh_congr_g3 c fh _ _ hwd _ _ j)

theorem run1_row1_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (1 : Fin 32) j)
      = kernelRun3.sl.dma2 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_1 c arg4 harg4]
  exact rowWrites_read c arg4 harg4 _ _ 1 (by decide) j
theorem run1_value1_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g3]
  unfold kernelRun3.sl.dma2
  have hwd : kernelRun3.sl.r_1 (F := F) c i f0 = f0 (ValueIdx.ix2 (1 : Fin 32) t) := by
    unfold kernelRun3.sl.r_1
    exact tblWord_read_g3 c f0 _ (1 : Fin 32) t ((k3_off3_eq i).trans (by rw [ht]; rfl)) _ _
  exact (srcRow_read_g3 c fh (kernelRun3.sl.r_1 (F := F) c i f0) (k3_off4 (kernelRun3.sl.r_1 (F := F) c i f0)) rfl _ _ _
    (hwd ▸ hall _) j).trans (fh_congr_g3 c fh _ _ hwd _ _ j)

theorem run1_row2_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (2 : Fin 32) j)
      = kernelRun3.sl.dma3 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_2 c arg4 harg4]
  exact rowWrites_read c arg4 harg4 _ _ 2 (by decide) j
theorem run1_value2_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g3]
  unfold kernelRun3.sl.dma3
  have hwd : kernelRun3.sl.r_2 (F := F) c i f0 = f0 (ValueIdx.ix2 (2 : Fin 32) t) := by
    unfold kernelRun3.sl.r_2
    exact tblWord_read_g3 c f0 _ (2 : Fin 32) t ((k3_off5_eq i).trans (by rw [ht]; rfl)) _ _
  exact (srcRow_read_g3 c fh (kernelRun3.sl.r_2 (F := F) c i f0) (k3_off6 (kernelRun3.sl.r_2 (F := F) c i f0)) rfl _ _ _
    (hwd ▸ hall _) j).trans (fh_congr_g3 c fh _ _ hwd _ _ j)

theorem run1_row3_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (3 : Fin 32) j)
      = kernelRun3.sl.dma4 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_3 c arg4 harg4]
  exact rowWrites_read c arg4 harg4 _ _ 3 (by decide) j
theorem run1_value3_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g3]
  unfold kernelRun3.sl.dma4
  have hwd : kernelRun3.sl.r_3 (F := F) c i f0 = f0 (ValueIdx.ix2 (3 : Fin 32) t) := by
    unfold kernelRun3.sl.r_3
    exact tblWord_read_g3 c f0 _ (3 : Fin 32) t ((k3_off7_eq i).trans (by rw [ht]; rfl)) _ _
  exact (srcRow_read_g3 c fh (kernelRun3.sl.r_3 (F := F) c i f0) (k3_off8 (kernelRun3.sl.r_3 (F := F) c i f0)) rfl _ _ _
    (hwd ▸ hall _) j).trans (fh_congr_g3 c fh _ _ hwd _ _ j)

theorem run1_row4_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (4 : Fin 32) j)
      = kernelRun3.sl.dma5 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_4 c arg4 harg4]
  exact rowWrites_read c arg4 harg4 _ _ 4 (by decide) j
theorem run1_value4_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g3]
  unfold kernelRun3.sl.dma5
  have hwd : kernelRun3.sl.r_4 (F := F) c i f0 = f0 (ValueIdx.ix2 (4 : Fin 32) t) := by
    unfold kernelRun3.sl.r_4
    exact tblWord_read_g3 c f0 _ (4 : Fin 32) t ((k3_off9_eq i).trans (by rw [ht]; rfl)) _ _
  exact (srcRow_read_g3 c fh (kernelRun3.sl.r_4 (F := F) c i f0) (k3_off10 (kernelRun3.sl.r_4 (F := F) c i f0)) rfl _ _ _
    (hwd ▸ hall _) j).trans (fh_congr_g3 c fh _ _ hwd _ _ j)

theorem run1_row5_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (5 : Fin 32) j)
      = kernelRun3.sl.dma6 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_5 c arg4 harg4]
  exact rowWrites_read c arg4 harg4 _ _ 5 (by decide) j
theorem run1_value5_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g3]
  unfold kernelRun3.sl.dma6
  have hwd : kernelRun3.sl.r_5 (F := F) c i f0 = f0 (ValueIdx.ix2 (5 : Fin 32) t) := by
    unfold kernelRun3.sl.r_5
    exact tblWord_read_g3 c f0 _ (5 : Fin 32) t ((k3_off11_eq i).trans (by rw [ht]; rfl)) _ _
  exact (srcRow_read_g3 c fh (kernelRun3.sl.r_5 (F := F) c i f0) (k3_off12 (kernelRun3.sl.r_5 (F := F) c i f0)) rfl _ _ _
    (hwd ▸ hall _) j).trans (fh_congr_g3 c fh _ _ hwd _ _ j)

theorem run1_row6_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (6 : Fin 32) j)
      = kernelRun3.sl.dma7 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_6 c arg4 harg4]
  exact rowWrites_read c arg4 harg4 _ _ 6 (by decide) j
theorem run1_value6_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g3]
  unfold kernelRun3.sl.dma7
  have hwd : kernelRun3.sl.r_6 (F := F) c i f0 = f0 (ValueIdx.ix2 (6 : Fin 32) t) := by
    unfold kernelRun3.sl.r_6
    exact tblWord_read_g3 c f0 _ (6 : Fin 32) t ((k3_off13_eq i).trans (by rw [ht]; rfl)) _ _
  exact (srcRow_read_g3 c fh (kernelRun3.sl.r_6 (F := F) c i f0) (k3_off14 (kernelRun3.sl.r_6 (F := F) c i f0)) rfl _ _ _
    (hwd ▸ hall _) j).trans (fh_congr_g3 c fh _ _ hwd _ _ j)

theorem run1_row7_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (7 : Fin 32) j)
      = kernelRun3.sl.dma8 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_7 c arg4 harg4]
  exact rowWrites_read c arg4 harg4 _ _ 7 (by decide) j
theorem run1_value7_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g3]
  unfold kernelRun3.sl.dma8
  have hwd : kernelRun3.sl.r_7 (F := F) c i f0 = f0 (ValueIdx.ix2 (7 : Fin 32) t) := by
    unfold kernelRun3.sl.r_7
    exact tblWord_read_g3 c f0 _ (7 : Fin 32) t ((k3_off15_eq i).trans (by rw [ht]; rfl)) _ _
  exact (srcRow_read_g3 c fh (kernelRun3.sl.r_7 (F := F) c i f0) (k3_off16 (kernelRun3.sl.r_7 (F := F) c i f0)) rfl _ _ _
    (hwd ▸ hall _) j).trans (fh_congr_g3 c fh _ _ hwd _ _ j)

theorem run1_row8_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (8 : Fin 32) j)
      = kernelRun3.sl.dma9 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_8 c arg4 harg4]
  exact rowWrites_read c arg4 harg4 _ _ 8 (by decide) j
theorem run1_value8_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g3]
  unfold kernelRun3.sl.dma9
  have hwd : kernelRun3.sl.r_8 (F := F) c i f0 = f0 (ValueIdx.ix2 (8 : Fin 32) t) := by
    unfold kernelRun3.sl.r_8
    exact tblWord_read_g3 c f0 _ (8 : Fin 32) t ((k3_off17_eq i).trans (by rw [ht]; rfl)) _ _
  exact (srcRow_read_g3 c fh (kernelRun3.sl.r_8 (F := F) c i f0) (k3_off18 (kernelRun3.sl.r_8 (F := F) c i f0)) rfl _ _ _
    (hwd ▸ hall _) j).trans (fh_congr_g3 c fh _ _ hwd _ _ j)

theorem run1_row9_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (9 : Fin 32) j)
      = kernelRun3.sl.dma10 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_9 c arg4 harg4]
  exact rowWrites_read c arg4 harg4 _ _ 9 (by decide) j
theorem run1_value9_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g3]
  unfold kernelRun3.sl.dma10
  have hwd : kernelRun3.sl.r_9 (F := F) c i f0 = f0 (ValueIdx.ix2 (9 : Fin 32) t) := by
    unfold kernelRun3.sl.r_9
    exact tblWord_read_g3 c f0 _ (9 : Fin 32) t ((k3_off19_eq i).trans (by rw [ht]; rfl)) _ _
  exact (srcRow_read_g3 c fh (kernelRun3.sl.r_9 (F := F) c i f0) (k3_off20 (kernelRun3.sl.r_9 (F := F) c i f0)) rfl _ _ _
    (hwd ▸ hall _) j).trans (fh_congr_g3 c fh _ _ hwd _ _ j)

theorem run1_row10_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (10 : Fin 32) j)
      = kernelRun3.sl.dma11 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_10 c arg4 harg4]
  exact rowWrites_read c arg4 harg4 _ _ 10 (by decide) j
theorem run1_value10_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g3]
  unfold kernelRun3.sl.dma11
  have hwd : kernelRun3.sl.r_10 (F := F) c i f0 = f0 (ValueIdx.ix2 (10 : Fin 32) t) := by
    unfold kernelRun3.sl.r_10
    exact tblWord_read_g3 c f0 _ (10 : Fin 32) t ((k3_off21_eq i).trans (by rw [ht]; rfl)) _ _
  exact (srcRow_read_g3 c fh (kernelRun3.sl.r_10 (F := F) c i f0) (k3_off22 (kernelRun3.sl.r_10 (F := F) c i f0)) rfl _ _ _
    (hwd ▸ hall _) j).trans (fh_congr_g3 c fh _ _ hwd _ _ j)

theorem run1_row11_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (11 : Fin 32) j)
      = kernelRun3.sl.dma12 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_11 c arg4 harg4]
  exact rowWrites_read c arg4 harg4 _ _ 11 (by decide) j
theorem run1_value11_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g3]
  unfold kernelRun3.sl.dma12
  have hwd : kernelRun3.sl.r_11 (F := F) c i f0 = f0 (ValueIdx.ix2 (11 : Fin 32) t) := by
    unfold kernelRun3.sl.r_11
    exact tblWord_read_g3 c f0 _ (11 : Fin 32) t ((k3_off23_eq i).trans (by rw [ht]; rfl)) _ _
  exact (srcRow_read_g3 c fh (kernelRun3.sl.r_11 (F := F) c i f0) (k3_off24 (kernelRun3.sl.r_11 (F := F) c i f0)) rfl _ _ _
    (hwd ▸ hall _) j).trans (fh_congr_g3 c fh _ _ hwd _ _ j)

theorem run1_row12_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (12 : Fin 32) j)
      = kernelRun3.sl.dma13 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_12 c arg4 harg4]
  exact rowWrites_read c arg4 harg4 _ _ 12 (by decide) j
theorem run1_value12_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g3]
  unfold kernelRun3.sl.dma13
  have hwd : kernelRun3.sl.r_12 (F := F) c i f0 = f0 (ValueIdx.ix2 (12 : Fin 32) t) := by
    unfold kernelRun3.sl.r_12
    exact tblWord_read_g3 c f0 _ (12 : Fin 32) t ((k3_off25_eq i).trans (by rw [ht]; rfl)) _ _
  exact (srcRow_read_g3 c fh (kernelRun3.sl.r_12 (F := F) c i f0) (k3_off26 (kernelRun3.sl.r_12 (F := F) c i f0)) rfl _ _ _
    (hwd ▸ hall _) j).trans (fh_congr_g3 c fh _ _ hwd _ _ j)

theorem run1_row13_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (13 : Fin 32) j)
      = kernelRun3.sl.dma14 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_13 c arg4 harg4]
  exact rowWrites_read c arg4 harg4 _ _ 13 (by decide) j
theorem run1_value13_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g3]
  unfold kernelRun3.sl.dma14
  have hwd : kernelRun3.sl.r_13 (F := F) c i f0 = f0 (ValueIdx.ix2 (13 : Fin 32) t) := by
    unfold kernelRun3.sl.r_13
    exact tblWord_read_g3 c f0 _ (13 : Fin 32) t ((k3_off27_eq i).trans (by rw [ht]; rfl)) _ _
  exact (srcRow_read_g3 c fh (kernelRun3.sl.r_13 (F := F) c i f0) (k3_off28 (kernelRun3.sl.r_13 (F := F) c i f0)) rfl _ _ _
    (hwd ▸ hall _) j).trans (fh_congr_g3 c fh _ _ hwd _ _ j)

theorem run1_row14_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (14 : Fin 32) j)
      = kernelRun3.sl.dma15 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_14 c arg4 harg4]
  exact rowWrites_read c arg4 harg4 _ _ 14 (by decide) j
theorem run1_value14_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g3]
  unfold kernelRun3.sl.dma15
  have hwd : kernelRun3.sl.r_14 (F := F) c i f0 = f0 (ValueIdx.ix2 (14 : Fin 32) t) := by
    unfold kernelRun3.sl.r_14
    exact tblWord_read_g3 c f0 _ (14 : Fin 32) t ((k3_off29_eq i).trans (by rw [ht]; rfl)) _ _
  exact (srcRow_read_g3 c fh (kernelRun3.sl.r_14 (F := F) c i f0) (k3_off30 (kernelRun3.sl.r_14 (F := F) c i f0)) rfl _ _ _
    (hwd ▸ hall _) j).trans (fh_congr_g3 c fh _ _ hwd _ _ j)

theorem run1_row15_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (15 : Fin 32) j)
      = kernelRun3.sl.dma16 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_15 c arg4 harg4]
  exact rowWrites_read c arg4 harg4 _ _ 15 (by decide) j
theorem run1_value15_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g3]
  unfold kernelRun3.sl.dma16
  have hwd : kernelRun3.sl.r_15 (F := F) c i f0 = f0 (ValueIdx.ix2 (15 : Fin 32) t) := by
    unfold kernelRun3.sl.r_15
    exact tblWord_read_g3 c f0 _ (15 : Fin 32) t ((k3_off31_eq i).trans (by rw [ht]; rfl)) _ _
  exact (srcRow_read_g3 c fh (kernelRun3.sl.r_15 (F := F) c i f0) (k3_off32 (kernelRun3.sl.r_15 (F := F) c i f0)) rfl _ _ _
    (hwd ▸ hall _) j).trans (fh_congr_g3 c fh _ _ hwd _ _ j)

theorem run1_row16_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (16 : Fin 32) j)
      = kernelRun3.sl.dma17 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_16 c arg4 harg4]
  exact rowWrites_read c arg4 harg4 _ _ 16 (by decide) j
theorem run1_value16_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g3]
  unfold kernelRun3.sl.dma17
  have hwd : kernelRun3.sl.r_16 (F := F) c i f0 = f0 (ValueIdx.ix2 (16 : Fin 32) t) := by
    unfold kernelRun3.sl.r_16
    exact tblWord_read_g3 c f0 _ (16 : Fin 32) t ((k3_off33_eq i).trans (by rw [ht]; rfl)) _ _
  exact (srcRow_read_g3 c fh (kernelRun3.sl.r_16 (F := F) c i f0) (k3_off34 (kernelRun3.sl.r_16 (F := F) c i f0)) rfl _ _ _
    (hwd ▸ hall _) j).trans (fh_congr_g3 c fh _ _ hwd _ _ j)

theorem run1_row17_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (17 : Fin 32) j)
      = kernelRun3.sl.dma18 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_17 c arg4 harg4]
  exact rowWrites_read c arg4 harg4 _ _ 17 (by decide) j
theorem run1_value17_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g3]
  unfold kernelRun3.sl.dma18
  have hwd : kernelRun3.sl.r_17 (F := F) c i f0 = f0 (ValueIdx.ix2 (17 : Fin 32) t) := by
    unfold kernelRun3.sl.r_17
    exact tblWord_read_g3 c f0 _ (17 : Fin 32) t ((k3_off35_eq i).trans (by rw [ht]; rfl)) _ _
  exact (srcRow_read_g3 c fh (kernelRun3.sl.r_17 (F := F) c i f0) (k3_off36 (kernelRun3.sl.r_17 (F := F) c i f0)) rfl _ _ _
    (hwd ▸ hall _) j).trans (fh_congr_g3 c fh _ _ hwd _ _ j)

theorem run1_row18_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (18 : Fin 32) j)
      = kernelRun3.sl.dma19 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_18 c arg4 harg4]
  exact rowWrites_read c arg4 harg4 _ _ 18 (by decide) j
theorem run1_value18_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g3]
  unfold kernelRun3.sl.dma19
  have hwd : kernelRun3.sl.r_18 (F := F) c i f0 = f0 (ValueIdx.ix2 (18 : Fin 32) t) := by
    unfold kernelRun3.sl.r_18
    exact tblWord_read_g3 c f0 _ (18 : Fin 32) t ((k3_off37_eq i).trans (by rw [ht]; rfl)) _ _
  exact (srcRow_read_g3 c fh (kernelRun3.sl.r_18 (F := F) c i f0) (k3_off38 (kernelRun3.sl.r_18 (F := F) c i f0)) rfl _ _ _
    (hwd ▸ hall _) j).trans (fh_congr_g3 c fh _ _ hwd _ _ j)

theorem run1_row19_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (19 : Fin 32) j)
      = kernelRun3.sl.dma20 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_19 c arg4 harg4]
  exact rowWrites_read c arg4 harg4 _ _ 19 (by decide) j
theorem run1_value19_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g3]
  unfold kernelRun3.sl.dma20
  have hwd : kernelRun3.sl.r_19 (F := F) c i f0 = f0 (ValueIdx.ix2 (19 : Fin 32) t) := by
    unfold kernelRun3.sl.r_19
    exact tblWord_read_g3 c f0 _ (19 : Fin 32) t ((k3_off39_eq i).trans (by rw [ht]; rfl)) _ _
  exact (srcRow_read_g3 c fh (kernelRun3.sl.r_19 (F := F) c i f0) (k3_off40 (kernelRun3.sl.r_19 (F := F) c i f0)) rfl _ _ _
    (hwd ▸ hall _) j).trans (fh_congr_g3 c fh _ _ hwd _ _ j)

theorem run1_row20_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (20 : Fin 32) j)
      = kernelRun3.sl.dma21 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_20 c arg4 harg4]
  exact rowWrites_read c arg4 harg4 _ _ 20 (by decide) j
theorem run1_value20_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g3]
  unfold kernelRun3.sl.dma21
  have hwd : kernelRun3.sl.r_20 (F := F) c i f0 = f0 (ValueIdx.ix2 (20 : Fin 32) t) := by
    unfold kernelRun3.sl.r_20
    exact tblWord_read_g3 c f0 _ (20 : Fin 32) t ((k3_off41_eq i).trans (by rw [ht]; rfl)) _ _
  exact (srcRow_read_g3 c fh (kernelRun3.sl.r_20 (F := F) c i f0) (k3_off42 (kernelRun3.sl.r_20 (F := F) c i f0)) rfl _ _ _
    (hwd ▸ hall _) j).trans (fh_congr_g3 c fh _ _ hwd _ _ j)

theorem run1_row21_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (21 : Fin 32) j)
      = kernelRun3.sl.dma22 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_21 c arg4 harg4]
  exact rowWrites_read c arg4 harg4 _ _ 21 (by decide) j
theorem run1_value21_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g3]
  unfold kernelRun3.sl.dma22
  have hwd : kernelRun3.sl.r_21 (F := F) c i f0 = f0 (ValueIdx.ix2 (21 : Fin 32) t) := by
    unfold kernelRun3.sl.r_21
    exact tblWord_read_g3 c f0 _ (21 : Fin 32) t ((k3_off43_eq i).trans (by rw [ht]; rfl)) _ _
  exact (srcRow_read_g3 c fh (kernelRun3.sl.r_21 (F := F) c i f0) (k3_off44 (kernelRun3.sl.r_21 (F := F) c i f0)) rfl _ _ _
    (hwd ▸ hall _) j).trans (fh_congr_g3 c fh _ _ hwd _ _ j)

theorem run1_row22_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (22 : Fin 32) j)
      = kernelRun3.sl.dma23 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_22 c arg4 harg4]
  exact rowWrites_read c arg4 harg4 _ _ 22 (by decide) j
theorem run1_value22_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g3]
  unfold kernelRun3.sl.dma23
  have hwd : kernelRun3.sl.r_22 (F := F) c i f0 = f0 (ValueIdx.ix2 (22 : Fin 32) t) := by
    unfold kernelRun3.sl.r_22
    exact tblWord_read_g3 c f0 _ (22 : Fin 32) t ((k3_off45_eq i).trans (by rw [ht]; rfl)) _ _
  exact (srcRow_read_g3 c fh (kernelRun3.sl.r_22 (F := F) c i f0) (k3_off46 (kernelRun3.sl.r_22 (F := F) c i f0)) rfl _ _ _
    (hwd ▸ hall _) j).trans (fh_congr_g3 c fh _ _ hwd _ _ j)

theorem run1_row23_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (23 : Fin 32) j)
      = kernelRun3.sl.dma24 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_23 c arg4 harg4]
  exact rowWrites_read c arg4 harg4 _ _ 23 (by decide) j
theorem run1_value23_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g3]
  unfold kernelRun3.sl.dma24
  have hwd : kernelRun3.sl.r_23 (F := F) c i f0 = f0 (ValueIdx.ix2 (23 : Fin 32) t) := by
    unfold kernelRun3.sl.r_23
    exact tblWord_read_g3 c f0 _ (23 : Fin 32) t ((k3_off47_eq i).trans (by rw [ht]; rfl)) _ _
  exact (srcRow_read_g3 c fh (kernelRun3.sl.r_23 (F := F) c i f0) (k3_off48 (kernelRun3.sl.r_23 (F := F) c i f0)) rfl _ _ _
    (hwd ▸ hall _) j).trans (fh_congr_g3 c fh _ _ hwd _ _ j)

theorem run1_row24_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (24 : Fin 32) j)
      = kernelRun3.sl.dma25 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_24 c arg4 harg4]
  exact rowWrites_read c arg4 harg4 _ _ 24 (by decide) j
theorem run1_value24_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g3]
  unfold kernelRun3.sl.dma25
  have hwd : kernelRun3.sl.r_24 (F := F) c i f0 = f0 (ValueIdx.ix2 (24 : Fin 32) t) := by
    unfold kernelRun3.sl.r_24
    exact tblWord_read_g3 c f0 _ (24 : Fin 32) t ((k3_off49_eq i).trans (by rw [ht]; rfl)) _ _
  exact (srcRow_read_g3 c fh (kernelRun3.sl.r_24 (F := F) c i f0) (k3_off50 (kernelRun3.sl.r_24 (F := F) c i f0)) rfl _ _ _
    (hwd ▸ hall _) j).trans (fh_congr_g3 c fh _ _ hwd _ _ j)

theorem run1_row25_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (25 : Fin 32) j)
      = kernelRun3.sl.dma26 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_25 c arg4 harg4]
  exact rowWrites_read c arg4 harg4 _ _ 25 (by decide) j
theorem run1_value25_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g3]
  unfold kernelRun3.sl.dma26
  have hwd : kernelRun3.sl.r_25 (F := F) c i f0 = f0 (ValueIdx.ix2 (25 : Fin 32) t) := by
    unfold kernelRun3.sl.r_25
    exact tblWord_read_g3 c f0 _ (25 : Fin 32) t ((k3_off51_eq i).trans (by rw [ht]; rfl)) _ _
  exact (srcRow_read_g3 c fh (kernelRun3.sl.r_25 (F := F) c i f0) (k3_off52 (kernelRun3.sl.r_25 (F := F) c i f0)) rfl _ _ _
    (hwd ▸ hall _) j).trans (fh_congr_g3 c fh _ _ hwd _ _ j)

theorem run1_row26_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (26 : Fin 32) j)
      = kernelRun3.sl.dma27 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_26 c arg4 harg4]
  exact rowWrites_read c arg4 harg4 _ _ 26 (by decide) j
theorem run1_value26_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g3]
  unfold kernelRun3.sl.dma27
  have hwd : kernelRun3.sl.r_26 (F := F) c i f0 = f0 (ValueIdx.ix2 (26 : Fin 32) t) := by
    unfold kernelRun3.sl.r_26
    exact tblWord_read_g3 c f0 _ (26 : Fin 32) t ((k3_off53_eq i).trans (by rw [ht]; rfl)) _ _
  exact (srcRow_read_g3 c fh (kernelRun3.sl.r_26 (F := F) c i f0) (k3_off54 (kernelRun3.sl.r_26 (F := F) c i f0)) rfl _ _ _
    (hwd ▸ hall _) j).trans (fh_congr_g3 c fh _ _ hwd _ _ j)

theorem run1_row27_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (27 : Fin 32) j)
      = kernelRun3.sl.dma28 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_27 c arg4 harg4]
  exact rowWrites_read c arg4 harg4 _ _ 27 (by decide) j
theorem run1_value27_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g3]
  unfold kernelRun3.sl.dma28
  have hwd : kernelRun3.sl.r_27 (F := F) c i f0 = f0 (ValueIdx.ix2 (27 : Fin 32) t) := by
    unfold kernelRun3.sl.r_27
    exact tblWord_read_g3 c f0 _ (27 : Fin 32) t ((k3_off55_eq i).trans (by rw [ht]; rfl)) _ _
  exact (srcRow_read_g3 c fh (kernelRun3.sl.r_27 (F := F) c i f0) (k3_off56 (kernelRun3.sl.r_27 (F := F) c i f0)) rfl _ _ _
    (hwd ▸ hall _) j).trans (fh_congr_g3 c fh _ _ hwd _ _ j)

theorem run1_row28_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (28 : Fin 32) j)
      = kernelRun3.sl.dma29 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_28 c arg4 harg4]
  exact rowWrites_read c arg4 harg4 _ _ 28 (by decide) j
theorem run1_value28_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g3]
  unfold kernelRun3.sl.dma29
  have hwd : kernelRun3.sl.r_28 (F := F) c i f0 = f0 (ValueIdx.ix2 (28 : Fin 32) t) := by
    unfold kernelRun3.sl.r_28
    exact tblWord_read_g3 c f0 _ (28 : Fin 32) t ((k3_off57_eq i).trans (by rw [ht]; rfl)) _ _
  exact (srcRow_read_g3 c fh (kernelRun3.sl.r_28 (F := F) c i f0) (k3_off58 (kernelRun3.sl.r_28 (F := F) c i f0)) rfl _ _ _
    (hwd ▸ hall _) j).trans (fh_congr_g3 c fh _ _ hwd _ _ j)

theorem run1_row29_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (29 : Fin 32) j)
      = kernelRun3.sl.dma30 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_29 c arg4 harg4]
  exact rowWrites_read c arg4 harg4 _ _ 29 (by decide) j
theorem run1_value29_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g3]
  unfold kernelRun3.sl.dma30
  have hwd : kernelRun3.sl.r_29 (F := F) c i f0 = f0 (ValueIdx.ix2 (29 : Fin 32) t) := by
    unfold kernelRun3.sl.r_29
    exact tblWord_read_g3 c f0 _ (29 : Fin 32) t ((k3_off59_eq i).trans (by rw [ht]; rfl)) _ _
  exact (srcRow_read_g3 c fh (kernelRun3.sl.r_29 (F := F) c i f0) (k3_off60 (kernelRun3.sl.r_29 (F := F) c i f0)) rfl _ _ _
    (hwd ▸ hall _) j).trans (fh_congr_g3 c fh _ _ hwd _ _ j)

theorem run1_row30_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (30 : Fin 32) j)
      = kernelRun3.sl.dma31 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_30 c arg4 harg4]
  exact rowWrites_read c arg4 harg4 _ _ 30 (by decide) j
theorem run1_value30_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g3]
  unfold kernelRun3.sl.dma31
  have hwd : kernelRun3.sl.r_30 (F := F) c i f0 = f0 (ValueIdx.ix2 (30 : Fin 32) t) := by
    unfold kernelRun3.sl.r_30
    exact tblWord_read_g3 c f0 _ (30 : Fin 32) t ((k3_off61_eq i).trans (by rw [ht]; rfl)) _ _
  exact (srcRow_read_g3 c fh (kernelRun3.sl.r_30 (F := F) c i f0) (k3_off62 (kernelRun3.sl.r_30 (F := F) c i f0)) rfl _ _ _
    (hwd ▸ hall _) j).trans (fh_congr_g3 c fh _ _ hwd _ _ j)

theorem run1_row31_g3 (VO : View sig .tc .vmem S1x32x8 .f32) (j : Fin 8) :
    VO.read (Elt F) (VO.writes (Elt F) VO.junk (kernelRun3 c i arg3 harg3 arg4 harg4 f0 hall fh).1) (ValueIdx.ix3 (0 : Fin 1) (31 : Fin 32) j)
      = kernelRun3.sl.dma32 c i f0 hall fh (ValueIdx.ix1 j) := by
  rw [View.read_writes_eq_canon _ _ _ (coverRun3 c i arg3 harg3 arg4 harg4 f0 hall fh), run1_list_g3, View.canon_unit_zero hzG3_g3, pay1_apply_g3]
  unfold kernelRun3.sl.v448
  rw [View.readAt_eq_ld, View.ld_unit_zero (S := S32x8) hzG2_g3]
  rw [joinRows32_read_31 c arg4 harg4]
  exact rowWrites_read c arg4 harg4 _ _ 31 (by decide) j
theorem run1_value31_g3 (VO : View sig .tc .vmem S1x32x8 .f32) (t : Fin 1023) (ht : (i 0).val = t.val) (j : Fin 8) :
    VO.read (Elt F) (VO.writes (Elt F) VO.junk (kernelRun3 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g3]
  unfold kernelRun3.sl.dma32
  have hwd : kernelRun3.sl.r_31 (F := F) c i f0 = f0 (ValueIdx.ix2 (31 : Fin 32) t) := by
    unfold kernelRun3.sl.r_31
    exact tblWord_read_g3 c f0 _ (31 : Fin 32) t ((k3_off63_eq i).trans (by rw [ht]; rfl)) _ _
  exact (srcRow_read_g3 c fh (kernelRun3.sl.r_31 (F := F) c i f0) (k3_off64 (kernelRun3.sl.r_31 (F := F) c i f0)) rfl _ _ _
    (hwd ▸ hall _) j).trans (fh_congr_g3 c fh _ _ hwd _ _ j)

/-- The output block after the body at `[0, r, j]`: the weight array's row at the table's word `[r, t]`, element `j`. -/
theorem run1_value_g3 (VO : View sig .tc .vmem S1x32x8 .f32) (t : Fin 1023) (ht : (i 0).val = t.val) (r : Fin 32) (j : Fin 8) :
    VO.read (Elt F) (VO.writes (Elt F) VO.junk (kernelRun3 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g3 c i arg3 harg3 arg4 harg4 f0 hall fh VO t ht j
  | ⟨1, _⟩ => exact run1_value1_g3 c i arg3 harg3 arg4 harg4 f0 hall fh VO t ht j
  | ⟨2, _⟩ => exact run1_value2_g3 c i arg3 harg3 arg4 harg4 f0 hall fh VO t ht j
  | ⟨3, _⟩ => exact run1_value3_g3 c i arg3 harg3 arg4 harg4 f0 hall fh VO t ht j
  | ⟨4, _⟩ => exact run1_value4_g3 c i arg3 harg3 arg4 harg4 f0 hall fh VO t ht j
  | ⟨5, _⟩ => exact run1_value5_g3 c i arg3 harg3 arg4 harg4 f0 hall fh VO t ht j
  | ⟨6, _⟩ => exact run1_value6_g3 c i arg3 harg3 arg4 harg4 f0 hall fh VO t ht j
  | ⟨7, _⟩ => exact run1_value7_g3 c i arg3 harg3 arg4 harg4 f0 hall fh VO t ht j
  | ⟨8, _⟩ => exact run1_value8_g3 c i arg3 harg3 arg4 harg4 f0 hall fh VO t ht j
  | ⟨9, _⟩ => exact run1_value9_g3 c i arg3 harg3 arg4 harg4 f0 hall fh VO t ht j
  | ⟨10, _⟩ => exact run1_value10_g3 c i arg3 harg3 arg4 harg4 f0 hall fh VO t ht j
  | ⟨11, _⟩ => exact run1_value11_g3 c i arg3 harg3 arg4 harg4 f0 hall fh VO t ht j
  | ⟨12, _⟩ => exact run1_value12_g3 c i arg3 harg3 arg4 harg4 f0 hall fh VO t ht j
  | ⟨13, _⟩ => exact run1_value13_g3 c i arg3 harg3 arg4 harg4 f0 hall fh VO t ht j
  | ⟨14, _⟩ => exact run1_value14_g3 c i arg3 harg3 arg4 harg4 f0 hall fh VO t ht j
  | ⟨15, _⟩ => exact run1_value15_g3 c i arg3 harg3 arg4 harg4 f0 hall fh VO t ht j
  | ⟨16, _⟩ => exact run1_value16_g3 c i arg3 harg3 arg4 harg4 f0 hall fh VO t ht j
  | ⟨17, _⟩ => exact run1_value17_g3 c i arg3 harg3 arg4 harg4 f0 hall fh VO t ht j
  | ⟨18, _⟩ => exact run1_value18_g3 c i arg3 harg3 arg4 harg4 f0 hall fh VO t ht j
  | ⟨19, _⟩ => exact run1_value19_g3 c i arg3 harg3 arg4 harg4 f0 hall fh VO t ht j
  | ⟨20, _⟩ => exact run1_value20_g3 c i arg3 harg3 arg4 harg4 f0 hall fh VO t ht j
  | ⟨21, _⟩ => exact run1_value21_g3 c i arg3 harg3 arg4 harg4 f0 hall fh VO t ht j
  | ⟨22, _⟩ => exact run1_value22_g3 c i arg3 harg3 arg4 harg4 f0 hall fh VO t ht j
  | ⟨23, _⟩ => exact run1_value23_g3 c i arg3 harg3 arg4 harg4 f0 hall fh VO t ht j
  | ⟨24, _⟩ => exact run1_value24_g3 c i arg3 harg3 arg4 harg4 f0 hall fh VO t ht j
  | ⟨25, _⟩ => exact run1_value25_g3 c i arg3 harg3 arg4 harg4 f0 hall fh VO t ht j
  | ⟨26, _⟩ => exact run1_value26_g3 c i arg3 harg3 arg4 harg4 f0 hall fh VO t ht j
  | ⟨27, _⟩ => exact run1_value27_g3 c i arg3 harg3 arg4 harg4 f0 hall fh VO t ht j
  | ⟨28, _⟩ => exact run1_value28_g3 c i arg3 harg3 arg4 harg4 f0 hall fh VO t ht j
  | ⟨29, _⟩ => exact run1_value29_g3 c i arg3 harg3 arg4 harg4 f0 hall fh VO t ht j
  | ⟨30, _⟩ => exact run1_value30_g3 c i arg3 harg3 arg4 harg4 f0 hall fh VO t ht j
  | ⟨31, _⟩ => exact run1_value31_g3 c i arg3 harg3 arg4 harg4 f0 hall fh VO t ht j
  | ⟨n + 32, h⟩ => exact absurd h (by omega)

end Run

/-! ## Gather kernel 3: the point and the region -/

/-- A grid point's one coordinate is the point's number. -/
theorem coordsG1_g3 : ∀ t : Fin grid3.N, ((grid3.coords t) 0).val = t.val := by decide +kernel

/-- What the output block holds after the body at point `t`, at `[0, r, j]`: element `j` of the weight array's row at the
    table's word `[r, t]`. -/
theorem gather1_point_g3 (V : (c : Dev nD) → (b : Ref sig .tc) → Buf (Elt F) ((c : Thread nD τ).loc b))
    (hH : InRange3 (F := F) V) (c : Dev nD) (t : Fin (pcfgG3 (F := F) V).N) (r : Fin 32) (j : Fin 8) :
    outsAt3 V hH c t (ValueIdx.ix3 (0 : Fin 1) r j)
      = V c main_arg2 (ValueIdx.ix2 (⟨(V c main_v40 (ValueIdx.ix2 r (⟨t.val, lt_of_lt_of_eq t.isLt (NG1_g3 (adm3 (F := F) V))⟩ : Fin 1023))).toNat, hH c _⟩ : Fin 8388608) j) := by
  unfold outsAt3
  exact run1_value_g3 c (grid3.coords t) (ms3 V t) (hs3 V t) scM3 (Memref.isWhole_whole _) (V c main_v40) (hH c) (V c main_arg2) VO3
    (⟨t.val, lt_of_lt_of_eq t.isLt (NG1_g3 (adm3 (F := F) V))⟩ : Fin 1023) (coordsG1_g3 t) r j

/-- The output array of gather kernel 3 after its region's run, at `[t, r, j]`: element `j` of the weight array's row at the
    table's word `[r, t]`. -/
theorem gather1_value_g3 (V : (c : Dev nD) → (b : Ref sig .tc) → Buf (Elt F) ((c : Thread nD τ).loc b))
    (hH : InRange3 (F := F) V) (c : Dev nD) (t : Fin 1023) (r : Fin 32) (j : Fin 8) :
    (datG3 (F := F) V hH c).arrAt 0 (pcfgG3 (F := F) V).N (ValueIdx.ix3 t r j)
      = V c main_arg2 (ValueIdx.ix2 (⟨(V c main_v40 (ValueIdx.ix2 r t)).toNat, hH c _⟩ : Fin 8388608) j) := by
  rw [gather1_blocks_g3 V hH c t r j, gather1_point_g3 V hH c _ r j]

end Cert.KernelIdeal.Hand

end
-- ==== Proof.KernelIdealGatherValue4.lean ====
/-
  Gather kernel 4's region, from blocks to the array: the output array after the region's run is, block by block along its
  first axis, what the body leaves in the output block at each grid point.
-/
import proofs.«145402_j1717986918579_1_alg».proof.Proof.KernelIdealGather4
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g4 : ∀ t : Fin grid4.N, cc4_transform_1 (grid4.coords t) = ![t.val, 0, 0] := by decide +kernel

/-- The grid has 1023 points whatever the table holds. -/
theorem NG1_g4 (a : (pcfg4 (F := F)).Adm) : (cfg4 a).N = 1023 := N_4

/-- The output window's block index at a point does not read the table. -/
theorem indexG1_g4 (a : (pcfg4 (F := F)).Adm) (t : Fin (cfg4 a).N) :
    ((cfg4 a).win 0).index t = ![t.val, 0, 0] :=
  (rfl : ((cfg4 a).win 0).index t = cc4_transform_1 (grid4.coords t)).trans (trG1_g4 t)

/-- Every point writes its block back: the next point's block is another. -/
theorem flushG1_g4 (a : (pcfg4 (F := F)).Adm) (t : Fin (cfg4 a).N) : ((cfg4 a).win 0).flush t = true := by
  have hN : (cfg4 a).N = 1023 := NG1_g4 a
  have ht := t.isLt
  simp only [Pipeline.Window.flush, Bool.and_eq_true, Bool.or_eq_true, decide_eq_true_eq]
  refine ⟨rfl, ?_⟩
  by_cases h : t.val + 1 = (cfg4 a).N
  · exact Or.inl h
  · have hlt : t.val + 1 < (cfg4 a).N := by omega
    refine Or.inr ⟨hlt, ?_⟩
    rw [indexG1_g4, indexG1_g4]
    intro he
    have := congrFun he 0
    simp at this

/-! ## From blocks to the array, for any table contents -/

section Blocks
variable (a : (pcfg4 (F := F)).Adm) (c : Dev nD)
  (dat : Pipeline.Dat τ (Elt F) Unit ℕ (Pipeline.UD sig nD τ) ℕ (cfg4 a) c)
  (outs : Fin (cfg4 a).N → Vec F S1x32x8 .f32)

/-- The array whose block `t` along the first axis is the output block after the body at point `t`. -/
def allG1_g4 : S1023x32x8.Idx → Elt F .f32 := fun i =>
  outs ⟨(i 0).val, lt_of_lt_of_eq (i 0).isLt (NG1_g4 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g4 (t t' : Fin (cfg4 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g4 (t : Fin (cfg4 a).N) (y : S1x32x8.Idx) (i : S1023x32x8.Idx)
    (h0 : (i 0).val = t.val + (y 0).val) (h1 : (i 1).val = (y 1).val) (h2 : (i 2).val = (y 2).val) :
    ((((cfg4 a).win 0).blk t).view.emb y : S1023x32x8.Idx) = i := by
  have hidx := indexG1_g4 a t
  have e0 : ((cfg4 a).win 0).index t (0 : Fin 3) = t.val := congrFun hidx (0 : Fin 3)
  have e1 : ((cfg4 a).win 0).index t (1 : Fin 3) = 0 := congrFun hidx (1 : Fin 3)
  have e2 : ((cfg4 a).win 0).index t (2 : Fin 3) = 0 := congrFun hidx (2 : Fin 3)
  funext (b : Fin 3)
  apply Fin.ext
  match b with
  | ⟨0, _⟩ =>
    show ((cfg4 a).win 0).index t (0 : Fin 3) * 1 + 1 * (y 0).val = (i 0).val
    rw [e0, h0]; omega
  | ⟨1, _⟩ =>
    show ((cfg4 a).win 0).index t (1 : Fin 3) * 32 + 1 * (y 1).val = (i 1).val
    rw [e1, h1]; omega
  | ⟨2, _⟩ =>
    show ((cfg4 a).win 0).index t (2 : Fin 3) * 8 + 1 * (y 2).val = (i 2).val
    rw [e2, h2]; omega

/-- What point `t` writes back is block `t` of `allG1_g4`. -/
theorem flushedG1_eq_g4 (hafter : ∀ t, dat.after 0 t = outs t) (t : Fin (cfg4 a).N) :
    dat.flushed 0 t = (((cfg4 a).win 0).blk t).view.read (Elt F) (allG1_g4 a outs) := by
  show ((cfg4 a).win 0).cut ((cfg4 a).grid.coords t) (dat.after 0 t) = _
  rw [hafter]
  refine funext fun (j : S1x32x8.Idx) => ?_
  have hj0 : (j 0).val < 1 := (j 0).isLt
  show outs t j = allG1_g4 a outs ((((cfg4 a).win 0).blk t).view.emb j : S1023x32x8.Idx)
  rw [embG1_g4 a t j (ValueIdx.ix3 (⟨t.val, lt_of_lt_of_eq t.isLt (NG1_g4 a)⟩ : Fin 1023) (⟨(j 1).val, (j 1).isLt⟩ : Fin 32) (⟨(j 2).val, (j 2).isLt⟩ : Fin 8))
    (by show t.val = t.val + (j 0).val; omega) rfl rfl]
  unfold allG1_g4
  refine outs_congrG1_g4 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g4 (i : S1023x32x8.Idx) :
    ∃ t : Fin (cfg4 a).N, ((cfg4 a).win 0).flush t = true ∧ i ∈ (((cfg4 a).win 0).blk t).view.set := by
  refine ⟨⟨(i 0).val, lt_of_lt_of_eq (i 0).isLt (NG1_g4 a).symm⟩, flushG1_g4 a _, ?_⟩
  have he := embG1_g4 a ⟨(i 0).val, lt_of_lt_of_eq (i 0).isLt (NG1_g4 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg4 a).win 0).blk ⟨(i 0).val, lt_of_lt_of_eq (i 0).isLt (NG1_g4 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g4`: its 1023 blocks tile the array along the first axis. -/
theorem finalG1_g4 (hafter : ∀ t, dat.after 0 t = outs t) : dat.arrAt 0 (cfg4 a).N = allG1_g4 a outs :=
  dat.arrAt_eq_of_cover 0 (allG1_g4 a outs) (fun t _ => flushedG1_eq_g4 a c dat outs hafter t) (coverG1_g4 a)

/-- The output array after the region's run at `[t, r, j]` is the output block after the body at point `t`, at `[0, r, j]`. -/
theorem blocksG1_g4 (hafter : ∀ t, dat.after 0 t = outs t) (t : Fin 1023) (r : Fin 32) (j : Fin 8) :
    dat.arrAt 0 (cfg4 a).N (ValueIdx.ix3 t r j)
      = outs ⟨t.val, lt_of_lt_of_eq t.isLt (NG1_g4 a).symm⟩ (ValueIdx.ix3 (0 : Fin 1) r j) := by
  rw [finalG1_g4 a c dat outs hafter]
  rfl

end Blocks

/-! ## Gather kernel 4's region -/

/-- The output array of gather kernel 4 after its region's run, at `[t, r, j]`: what the body leaves in the output block at
    grid point `t`, at `[0, r, j]`. -/
theorem gather1_blocks_g4 (V : (c : Dev nD) → (b : Ref sig .tc) → Buf (Elt F) ((c : Thread nD τ).loc b))
    (hH : InRange4 (F := F) V) (c : Dev nD) (t : Fin 1023) (r : Fin 32) (j : Fin 8) :
    (datG4 (F := F) V hH c).arrAt 0 (pcfgG4 (F := F) V).N (ValueIdx.ix3 t r j)
      = outsAt4 V hH c ⟨t.val, lt_of_lt_of_eq t.isLt (NG1_g4 (adm4 (F := F) V)).symm⟩ (ValueIdx.ix3 (0 : Fin 1) r j) :=
  blocksG1_g4 (adm4 (F := F) V) c (datG4 (F := F) V hH c) (outsAt4 V hH c) (afterG4 V hH c) t r j

/-- The gather body's payload at `[0, r, j]` is the scratch block at `(r, j)`: the payload only adds a leading unit axis. -/
theorem pay1_apply_g4 (v : Vec F S32x8 .f32) (r : Fin 32) (j : Fin 8) :
    k4_pay1 (F := F) v (ValueIdx.ix3 (0 : Fin 1) r j) = v (ValueIdx.ix2 r j) := by
  unfold k4_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g4 : (![0, 0] : Fin 2 → Nat) = fun _ => 0 := funext fun a => by fin_cases a <;> rfl
theorem hzG3_g4 : (![0, 0, 0] : Fin 3 → Nat) = fun _ => 0 := funext fun a => by fin_cases a <;> rfl

/-- A one-row slice of the weight array at row `w`, squeezed to a row, reads the weight array at `[w, j]`. -/
theorem srcRow_read_g4 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g4 (f0 : HbBuf (F := F) c tbM4) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM4.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g4 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid4.Coords) (arg3 : Memref sig .tc .vmem S1x32x8 .f32) (harg3 : arg3.IsWhole)
  (arg4 : Memref sig .tc .vmem S32x8 .f32) (harg4 : arg4.IsWhole)
  (f0 : HbBuf (F := F) c tbM4) (hall : ∀ j, (f0 j).toNat < 8388608) (fh : HbBuf (F := F) c hbM)

/-- The run's pieces: one store of the whole block, its payload the scratch block read after the copies landed. -/
theorem run1_list_g4 : (kernelRun4 c i arg3 harg3 arg4 harg4 f0 hall fh).1
    = [⟨Rect.unit (s := S1x32x8) ![0, 0, 0] S1x32x8.size inb_S1x32x8_S1x32x8_0_0_0, k4_pay1 (kernelRun4.sl.v448 c i arg4 f0 hall fh)⟩] := rfl

/-- Row `r` of the output block after the body is the `(r + 1)`-th copy's delivery, which is the weight array's row at the
    table's word `[r, t]`: the same three steps for each of the thirty-two rows. -/
theorem run1_row0_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (0 : Fin 32) j)
      = kernelRun4.sl.dma1 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_0 c arg4 harg4]
  exact rowWrites_read c arg4 harg4 _ _ 0 (by decide) j
theorem run1_value0_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g4]
  unfold kernelRun4.sl.dma1
  have hwd : kernelRun4.sl.r (F := F) c i f0 = f0 (ValueIdx.ix2 (0 : Fin 32) t) := by
    unfold kernelRun4.sl.r
    exact tblWord_read_g4 c f0 _ (0 : Fin 32) t ((k4_off1_eq i).trans (by rw [ht]; rfl)) _ _
  exact (srcRow_read_g4 c fh (kernelRun4.sl.r (F := F) c i f0) (k4_off2 (kernelRun4.sl.r (F := F) c i f0)) rfl _ _ _
    (hwd ▸ hall _) j).trans (fh_congr_g4 c fh _ _ hwd _ _ j)

theorem run1_row1_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (1 : Fin 32) j)
      = kernelRun4.sl.dma2 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_1 c arg4 harg4]
  exact rowWrites_read c arg4 harg4 _ _ 1 (by decide) j
theorem run1_value1_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g4]
  unfold kernelRun4.sl.dma2
  have hwd : kernelRun4.sl.r_1 (F := F) c i f0 = f0 (ValueIdx.ix2 (1 : Fin 32) t) := by
    unfold kernelRun4.sl.r_1
    exact tblWord_read_g4 c f0 _ (1 : Fin 32) t ((k4_off3_eq i).trans (by rw [ht]; rfl)) _ _
  exact (srcRow_read_g4 c fh (kernelRun4.sl.r_1 (F := F) c i f0) (k4_off4 (kernelRun4.sl.r_1 (F := F) c i f0)) rfl _ _ _
    (hwd ▸ hall _) j).trans (fh_congr_g4 c fh _ _ hwd _ _ j)

theorem run1_row2_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (2 : Fin 32) j)
      = kernelRun4.sl.dma3 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_2 c arg4 harg4]
  exact rowWrites_read c arg4 harg4 _ _ 2 (by decide) j
theorem run1_value2_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g4]
  unfold kernelRun4.sl.dma3
  have hwd : kernelRun4.sl.r_2 (F := F) c i f0 = f0 (ValueIdx.ix2 (2 : Fin 32) t) := by
    unfold kernelRun4.sl.r_2
    exact tblWord_read_g4 c f0 _ (2 : Fin 32) t ((k4_off5_eq i).trans (by rw [ht]; rfl)) _ _
  exact (srcRow_read_g4 c fh (kernelRun4.sl.r_2 (F := F) c i f0) (k4_off6 (kernelRun4.sl.r_2 (F := F) c i f0)) rfl _ _ _
    (hwd ▸ hall _) j).trans (fh_congr_g4 c fh _ _ hwd _ _ j)

theorem run1_row3_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (3 : Fin 32) j)
      = kernelRun4.sl.dma4 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_3 c arg4 harg4]
  exact rowWrites_read c arg4 harg4 _ _ 3 (by decide) j
theorem run1_value3_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g4]
  unfold kernelRun4.sl.dma4
  have hwd : kernelRun4.sl.r_3 (F := F) c i f0 = f0 (ValueIdx.ix2 (3 : Fin 32) t) := by
    unfold kernelRun4.sl.r_3
    exact tblWord_read_g4 c f0 _ (3 : Fin 32) t ((k4_off7_eq i).trans (by rw [ht]; rfl)) _ _
  exact (srcRow_read_g4 c fh (kernelRun4.sl.r_3 (F := F) c i f0) (k4_off8 (kernelRun4.sl.r_3 (F := F) c i f0)) rfl _ _ _
    (hwd ▸ hall _) j).trans (fh_congr_g4 c fh _ _ hwd _ _ j)

theorem run1_row4_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (4 : Fin 32) j)
      = kernelRun4.sl.dma5 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_4 c arg4 harg4]
  exact rowWrites_read c arg4 harg4 _ _ 4 (by decide) j
theorem run1_value4_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g4]
  unfold kernelRun4.sl.dma5
  have hwd : kernelRun4.sl.r_4 (F := F) c i f0 = f0 (ValueIdx.ix2 (4 : Fin 32) t) := by
    unfold kernelRun4.sl.r_4
    exact tblWord_read_g4 c f0 _ (4 : Fin 32) t ((k4_off9_eq i).trans (by rw [ht]; rfl)) _ _
  exact (srcRow_read_g4 c fh (kernelRun4.sl.r_4 (F := F) c i f0) (k4_off10 (kernelRun4.sl.r_4 (F := F) c i f0)) rfl _ _ _
    (hwd ▸ hall _) j).trans (fh_congr_g4 c fh _ _ hwd _ _ j)

theorem run1_row5_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (5 : Fin 32) j)
      = kernelRun4.sl.dma6 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_5 c arg4 harg4]
  exact rowWrites_read c arg4 harg4 _ _ 5 (by decide) j
theorem run1_value5_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g4]
  unfold kernelRun4.sl.dma6
  have hwd : kernelRun4.sl.r_5 (F := F) c i f0 = f0 (ValueIdx.ix2 (5 : Fin 32) t) := by
    unfold kernelRun4.sl.r_5
    exact tblWord_read_g4 c f0 _ (5 : Fin 32) t ((k4_off11_eq i).trans (by rw [ht]; rfl)) _ _
  exact (srcRow_read_g4 c fh (kernelRun4.sl.r_5 (F := F) c i f0) (k4_off12 (kernelRun4.sl.r_5 (F := F) c i f0)) rfl _ _ _
    (hwd ▸ hall _) j).trans (fh_congr_g4 c fh _ _ hwd _ _ j)

theorem run1_row6_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (6 : Fin 32) j)
      = kernelRun4.sl.dma7 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_6 c arg4 harg4]
  exact rowWrites_read c arg4 harg4 _ _ 6 (by decide) j
theorem run1_value6_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g4]
  unfold kernelRun4.sl.dma7
  have hwd : kernelRun4.sl.r_6 (F := F) c i f0 = f0 (ValueIdx.ix2 (6 : Fin 32) t) := by
    unfold kernelRun4.sl.r_6
    exact tblWord_read_g4 c f0 _ (6 : Fin 32) t ((k4_off13_eq i).trans (by rw [ht]; rfl)) _ _
  exact (srcRow_read_g4 c fh (kernelRun4.sl.r_6 (F := F) c i f0) (k4_off14 (kernelRun4.sl.r_6 (F := F) c i f0)) rfl _ _ _
    (hwd ▸ hall _) j).trans (fh_congr_g4 c fh _ _ hwd _ _ j)

theorem run1_row7_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (7 : Fin 32) j)
      = kernelRun4.sl.dma8 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_7 c arg4 harg4]
  exact rowWrites_read c arg4 harg4 _ _ 7 (by decide) j
theorem run1_value7_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g4]
  unfold kernelRun4.sl.dma8
  have hwd : kernelRun4.sl.r_7 (F := F) c i f0 = f0 (ValueIdx.ix2 (7 : Fin 32) t) := by
    unfold kernelRun4.sl.r_7
    exact tblWord_read_g4 c f0 _ (7 : Fin 32) t ((k4_off15_eq i).trans (by rw [ht]; rfl)) _ _
  exact (srcRow_read_g4 c fh (kernelRun4.sl.r_7 (F := F) c i f0) (k4_off16 (kernelRun4.sl.r_7 (F := F) c i f0)) rfl _ _ _
    (hwd ▸ hall _) j).trans (fh_congr_g4 c fh _ _ hwd _ _ j)

theorem run1_row8_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (8 : Fin 32) j)
      = kernelRun4.sl.dma9 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_8 c arg4 harg4]
  exact rowWrites_read c arg4 harg4 _ _ 8 (by decide) j
theorem run1_value8_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g4]
  unfold kernelRun4.sl.dma9
  have hwd : kernelRun4.sl.r_8 (F := F) c i f0 = f0 (ValueIdx.ix2 (8 : Fin 32) t) := by
    unfold kernelRun4.sl.r_8
    exact tblWord_read_g4 c f0 _ (8 : Fin 32) t ((k4_off17_eq i).trans (by rw [ht]; rfl)) _ _
  exact (srcRow_read_g4 c fh (kernelRun4.sl.r_8 (F := F) c i f0) (k4_off18 (kernelRun4.sl.r_8 (F := F) c i f0)) rfl _ _ _
    (hwd ▸ hall _) j).trans (fh_congr_g4 c fh _ _ hwd _ _ j)

theorem run1_row9_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (9 : Fin 32) j)
      = kernelRun4.sl.dma10 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_9 c arg4 harg4]
  exact rowWrites_read c arg4 harg4 _ _ 9 (by decide) j
theorem run1_value9_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g4]
  unfold kernelRun4.sl.dma10
  have hwd : kernelRun4.sl.r_9 (F := F) c i f0 = f0 (ValueIdx.ix2 (9 : Fin 32) t) := by
    unfold kernelRun4.sl.r_9
    exact tblWord_read_g4 c f0 _ (9 : Fin 32) t ((k4_off19_eq i).trans (by rw [ht]; rfl)) _ _
  exact (srcRow_read_g4 c fh (kernelRun4.sl.r_9 (F := F) c i f0) (k4_off20 (kernelRun4.sl.r_9 (F := F) c i f0)) rfl _ _ _
    (hwd ▸ hall _) j).trans (fh_congr_g4 c fh _ _ hwd _ _ j)

theorem run1_row10_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (10 : Fin 32) j)
      = kernelRun4.sl.dma11 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_10 c arg4 harg4]
  exact rowWrites_read c arg4 harg4 _ _ 10 (by decide) j
theorem run1_value10_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g4]
  unfold kernelRun4.sl.dma11
  have hwd : kernelRun4.sl.r_10 (F := F) c i f0 = f0 (ValueIdx.ix2 (10 : Fin 32) t) := by
    unfold kernelRun4.sl.r_10
    exact tblWord_read_g4 c f0 _ (10 : Fin 32) t ((k4_off21_eq i).trans (by rw [ht]; rfl)) _ _
  exact (srcRow_read_g4 c fh (kernelRun4.sl.r_10 (F := F) c i f0) (k4_off22 (kernelRun4.sl.r_10 (F := F) c i f0)) rfl _ _ _
    (hwd ▸ hall _) j).trans (fh_congr_g4 c fh _ _ hwd _ _ j)

theorem run1_row11_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (11 : Fin 32) j)
      = kernelRun4.sl.dma12 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_11 c arg4 harg4]
  exact rowWrites_read c arg4 harg4 _ _ 11 (by decide) j
theorem run1_value11_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g4]
  unfold kernelRun4.sl.dma12
  have hwd : kernelRun4.sl.r_11 (F := F) c i f0 = f0 (ValueIdx.ix2 (11 : Fin 32) t) := by
    unfold kernelRun4.sl.r_11
    exact tblWord_read_g4 c f0 _ (11 : Fin 32) t ((k4_off23_eq i).trans (by rw [ht]; rfl)) _ _
  exact (srcRow_read_g4 c fh (kernelRun4.sl.r_11 (F := F) c i f0) (k4_off24 (kernelRun4.sl.r_11 (F := F) c i f0)) rfl _ _ _
    (hwd ▸ hall _) j).trans (fh_congr_g4 c fh _ _ hwd _ _ j)

theorem run1_row12_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (12 : Fin 32) j)
      = kernelRun4.sl.dma13 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_12 c arg4 harg4]
  exact rowWrites_read c arg4 harg4 _ _ 12 (by decide) j
theorem run1_value12_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g4]
  unfold kernelRun4.sl.dma13
  have hwd : kernelRun4.sl.r_12 (F := F) c i f0 = f0 (ValueIdx.ix2 (12 : Fin 32) t) := by
    unfold kernelRun4.sl.r_12
    exact tblWord_read_g4 c f0 _ (12 : Fin 32) t ((k4_off25_eq i).trans (by rw [ht]; rfl)) _ _
  exact (srcRow_read_g4 c fh (kernelRun4.sl.r_12 (F := F) c i f0) (k4_off26 (kernelRun4.sl.r_12 (F := F) c i f0)) rfl _ _ _
    (hwd ▸ hall _) j).trans (fh_congr_g4 c fh _ _ hwd _ _ j)

theorem run1_row13_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (13 : Fin 32) j)
      = kernelRun4.sl.dma14 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_13 c arg4 harg4]
  exact rowWrites_read c arg4 harg4 _ _ 13 (by decide) j
theorem run1_value13_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g4]
  unfold kernelRun4.sl.dma14
  have hwd : kernelRun4.sl.r_13 (F := F) c i f0 = f0 (ValueIdx.ix2 (13 : Fin 32) t) := by
    unfold kernelRun4.sl.r_13
    exact tblWord_read_g4 c f0 _ (13 : Fin 32) t ((k4_off27_eq i).trans (by rw [ht]; rfl)) _ _
  exact (srcRow_read_g4 c fh (kernelRun4.sl.r_13 (F := F) c i f0) (k4_off28 (kernelRun4.sl.r_13 (F := F) c i f0)) rfl _ _ _
    (hwd ▸ hall _) j).trans (fh_congr_g4 c fh _ _ hwd _ _ j)

theorem run1_row14_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (14 : Fin 32) j)
      = kernelRun4.sl.dma15 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_14 c arg4 harg4]
  exact rowWrites_read c arg4 harg4 _ _ 14 (by decide) j
theorem run1_value14_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g4]
  unfold kernelRun4.sl.dma15
  have hwd : kernelRun4.sl.r_14 (F := F) c i f0 = f0 (ValueIdx.ix2 (14 : Fin 32) t) := by
    unfold kernelRun4.sl.r_14
    exact tblWord_read_g4 c f0 _ (14 : Fin 32) t ((k4_off29_eq i).trans (by rw [ht]; rfl)) _ _
  exact (srcRow_read_g4 c fh (kernelRun4.sl.r_14 (F := F) c i f0) (k4_off30 (kernelRun4.sl.r_14 (F := F) c i f0)) rfl _ _ _
    (hwd ▸ hall _) j).trans (fh_congr_g4 c fh _ _ hwd _ _ j)

theorem run1_row15_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (15 : Fin 32) j)
      = kernelRun4.sl.dma16 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_15 c arg4 harg4]
  exact rowWrites_read c arg4 harg4 _ _ 15 (by decide) j
theorem run1_value15_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g4]
  unfold kernelRun4.sl.dma16
  have hwd : kernelRun4.sl.r_15 (F := F) c i f0 = f0 (ValueIdx.ix2 (15 : Fin 32) t) := by
    unfold kernelRun4.sl.r_15
    exact tblWord_read_g4 c f0 _ (15 : Fin 32) t ((k4_off31_eq i).trans (by rw [ht]; rfl)) _ _
  exact (srcRow_read_g4 c fh (kernelRun4.sl.r_15 (F := F) c i f0) (k4_off32 (kernelRun4.sl.r_15 (F := F) c i f0)) rfl _ _ _
    (hwd ▸ hall _) j).trans (fh_congr_g4 c fh _ _ hwd _ _ j)

theorem run1_row16_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (16 : Fin 32) j)
      = kernelRun4.sl.dma17 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_16 c arg4 harg4]
  exact rowWrites_read c arg4 harg4 _ _ 16 (by decide) j
theorem run1_value16_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g4]
  unfold kernelRun4.sl.dma17
  have hwd : kernelRun4.sl.r_16 (F := F) c i f0 = f0 (ValueIdx.ix2 (16 : Fin 32) t) := by
    unfold kernelRun4.sl.r_16
    exact tblWord_read_g4 c f0 _ (16 : Fin 32) t ((k4_off33_eq i).trans (by rw [ht]; rfl)) _ _
  exact (srcRow_read_g4 c fh (kernelRun4.sl.r_16 (F := F) c i f0) (k4_off34 (kernelRun4.sl.r_16 (F := F) c i f0)) rfl _ _ _
    (hwd ▸ hall _) j).trans (fh_congr_g4 c fh _ _ hwd _ _ j)

theorem run1_row17_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (17 : Fin 32) j)
      = kernelRun4.sl.dma18 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_17 c arg4 harg4]
  exact rowWrites_read c arg4 harg4 _ _ 17 (by decide) j
theorem run1_value17_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g4]
  unfold kernelRun4.sl.dma18
  have hwd : kernelRun4.sl.r_17 (F := F) c i f0 = f0 (ValueIdx.ix2 (17 : Fin 32) t) := by
    unfold kernelRun4.sl.r_17
    exact tblWord_read_g4 c f0 _ (17 : Fin 32) t ((k4_off35_eq i).trans (by rw [ht]; rfl)) _ _
  exact (srcRow_read_g4 c fh (kernelRun4.sl.r_17 (F := F) c i f0) (k4_off36 (kernelRun4.sl.r_17 (F := F) c i f0)) rfl _ _ _
    (hwd ▸ hall _) j).trans (fh_congr_g4 c fh _ _ hwd _ _ j)

theorem run1_row18_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (18 : Fin 32) j)
      = kernelRun4.sl.dma19 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_18 c arg4 harg4]
  exact rowWrites_read c arg4 harg4 _ _ 18 (by decide) j
theorem run1_value18_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g4]
  unfold kernelRun4.sl.dma19
  have hwd : kernelRun4.sl.r_18 (F := F) c i f0 = f0 (ValueIdx.ix2 (18 : Fin 32) t) := by
    unfold kernelRun4.sl.r_18
    exact tblWord_read_g4 c f0 _ (18 : Fin 32) t ((k4_off37_eq i).trans (by rw [ht]; rfl)) _ _
  exact (srcRow_read_g4 c fh (kernelRun4.sl.r_18 (F := F) c i f0) (k4_off38 (kernelRun4.sl.r_18 (F := F) c i f0)) rfl _ _ _
    (hwd ▸ hall _) j).trans (fh_congr_g4 c fh _ _ hwd _ _ j)

theorem run1_row19_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (19 : Fin 32) j)
      = kernelRun4.sl.dma20 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_19 c arg4 harg4]
  exact rowWrites_read c arg4 harg4 _ _ 19 (by decide) j
theorem run1_value19_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g4]
  unfold kernelRun4.sl.dma20
  have hwd : kernelRun4.sl.r_19 (F := F) c i f0 = f0 (ValueIdx.ix2 (19 : Fin 32) t) := by
    unfold kernelRun4.sl.r_19
    exact tblWord_read_g4 c f0 _ (19 : Fin 32) t ((k4_off39_eq i).trans (by rw [ht]; rfl)) _ _
  exact (srcRow_read_g4 c fh (kernelRun4.sl.r_19 (F := F) c i f0) (k4_off40 (kernelRun4.sl.r_19 (F := F) c i f0)) rfl _ _ _
    (hwd ▸ hall _) j).trans (fh_congr_g4 c fh _ _ hwd _ _ j)

theorem run1_row20_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (20 : Fin 32) j)
      = kernelRun4.sl.dma21 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_20 c arg4 harg4]
  exact rowWrites_read c arg4 harg4 _ _ 20 (by decide) j
theorem run1_value20_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g4]
  unfold kernelRun4.sl.dma21
  have hwd : kernelRun4.sl.r_20 (F := F) c i f0 = f0 (ValueIdx.ix2 (20 : Fin 32) t) := by
    unfold kernelRun4.sl.r_20
    exact tblWord_read_g4 c f0 _ (20 : Fin 32) t ((k4_off41_eq i).trans (by rw [ht]; rfl)) _ _
  exact (srcRow_read_g4 c fh (kernelRun4.sl.r_20 (F := F) c i f0) (k4_off42 (kernelRun4.sl.r_20 (F := F) c i f0)) rfl _ _ _
    (hwd ▸ hall _) j).trans (fh_congr_g4 c fh _ _ hwd _ _ j)

theorem run1_row21_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (21 : Fin 32) j)
      = kernelRun4.sl.dma22 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_21 c arg4 harg4]
  exact rowWrites_read c arg4 harg4 _ _ 21 (by decide) j
theorem run1_value21_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g4]
  unfold kernelRun4.sl.dma22
  have hwd : kernelRun4.sl.r_21 (F := F) c i f0 = f0 (ValueIdx.ix2 (21 : Fin 32) t) := by
    unfold kernelRun4.sl.r_21
    exact tblWord_read_g4 c f0 _ (21 : Fin 32) t ((k4_off43_eq i).trans (by rw [ht]; rfl)) _ _
  exact (srcRow_read_g4 c fh (kernelRun4.sl.r_21 (F := F) c i f0) (k4_off44 (kernelRun4.sl.r_21 (F := F) c i f0)) rfl _ _ _
    (hwd ▸ hall _) j).trans (fh_congr_g4 c fh _ _ hwd _ _ j)

theorem run1_row22_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (22 : Fin 32) j)
      = kernelRun4.sl.dma23 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_22 c arg4 harg4]
  exact rowWrites_read c arg4 harg4 _ _ 22 (by decide) j
theorem run1_value22_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g4]
  unfold kernelRun4.sl.dma23
  have hwd : kernelRun4.sl.r_22 (F := F) c i f0 = f0 (ValueIdx.ix2 (22 : Fin 32) t) := by
    unfold kernelRun4.sl.r_22
    exact tblWord_read_g4 c f0 _ (22 : Fin 32) t ((k4_off45_eq i).trans (by rw [ht]; rfl)) _ _
  exact (srcRow_read_g4 c fh (kernelRun4.sl.r_22 (F := F) c i f0) (k4_off46 (kernelRun4.sl.r_22 (F := F) c i f0)) rfl _ _ _
    (hwd ▸ hall _) j).trans (fh_congr_g4 c fh _ _ hwd _ _ j)

theorem run1_row23_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (23 : Fin 32) j)
      = kernelRun4.sl.dma24 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_23 c arg4 harg4]
  exact rowWrites_read c arg4 harg4 _ _ 23 (by decide) j
theorem run1_value23_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g4]
  unfold kernelRun4.sl.dma24
  have hwd : kernelRun4.sl.r_23 (F := F) c i f0 = f0 (ValueIdx.ix2 (23 : Fin 32) t) := by
    unfold kernelRun4.sl.r_23
    exact tblWord_read_g4 c f0 _ (23 : Fin 32) t ((k4_off47_eq i).trans (by rw [ht]; rfl)) _ _
  exact (srcRow_read_g4 c fh (kernelRun4.sl.r_23 (F := F) c i f0) (k4_off48 (kernelRun4.sl.r_23 (F := F) c i f0)) rfl _ _ _
    (hwd ▸ hall _) j).trans (fh_congr_g4 c fh _ _ hwd _ _ j)

theorem run1_row24_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (24 : Fin 32) j)
      = kernelRun4.sl.dma25 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_24 c arg4 harg4]
  exact rowWrites_read c arg4 harg4 _ _ 24 (by decide) j
theorem run1_value24_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g4]
  unfold kernelRun4.sl.dma25
  have hwd : kernelRun4.sl.r_24 (F := F) c i f0 = f0 (ValueIdx.ix2 (24 : Fin 32) t) := by
    unfold kernelRun4.sl.r_24
    exact tblWord_read_g4 c f0 _ (24 : Fin 32) t ((k4_off49_eq i).trans (by rw [ht]; rfl)) _ _
  exact (srcRow_read_g4 c fh (kernelRun4.sl.r_24 (F := F) c i f0) (k4_off50 (kernelRun4.sl.r_24 (F := F) c i f0)) rfl _ _ _
    (hwd ▸ hall _) j).trans (fh_congr_g4 c fh _ _ hwd _ _ j)

theorem run1_row25_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (25 : Fin 32) j)
      = kernelRun4.sl.dma26 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_25 c arg4 harg4]
  exact rowWrites_read c arg4 harg4 _ _ 25 (by decide) j
theorem run1_value25_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g4]
  unfold kernelRun4.sl.dma26
  have hwd : kernelRun4.sl.r_25 (F := F) c i f0 = f0 (ValueIdx.ix2 (25 : Fin 32) t) := by
    unfold kernelRun4.sl.r_25
    exact tblWord_read_g4 c f0 _ (25 : Fin 32) t ((k4_off51_eq i).trans (by rw [ht]; rfl)) _ _
  exact (srcRow_read_g4 c fh (kernelRun4.sl.r_25 (F := F) c i f0) (k4_off52 (kernelRun4.sl.r_25 (F := F) c i f0)) rfl _ _ _
    (hwd ▸ hall _) j).trans (fh_congr_g4 c fh _ _ hwd _ _ j)

theorem run1_row26_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (26 : Fin 32) j)
      = kernelRun4.sl.dma27 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_26 c arg4 harg4]
  exact rowWrites_read c arg4 harg4 _ _ 26 (by decide) j
theorem run1_value26_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g4]
  unfold kernelRun4.sl.dma27
  have hwd : kernelRun4.sl.r_26 (F := F) c i f0 = f0 (ValueIdx.ix2 (26 : Fin 32) t) := by
    unfold kernelRun4.sl.r_26
    exact tblWord_read_g4 c f0 _ (26 : Fin 32) t ((k4_off53_eq i).trans (by rw [ht]; rfl)) _ _
  exact (srcRow_read_g4 c fh (kernelRun4.sl.r_26 (F := F) c i f0) (k4_off54 (kernelRun4.sl.r_26 (F := F) c i f0)) rfl _ _ _
    (hwd ▸ hall _) j).trans (fh_congr_g4 c fh _ _ hwd _ _ j)

theorem run1_row27_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (27 : Fin 32) j)
      = kernelRun4.sl.dma28 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_27 c arg4 harg4]
  exact rowWrites_read c arg4 harg4 _ _ 27 (by decide) j
theorem run1_value27_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g4]
  unfold kernelRun4.sl.dma28
  have hwd : kernelRun4.sl.r_27 (F := F) c i f0 = f0 (ValueIdx.ix2 (27 : Fin 32) t) := by
    unfold kernelRun4.sl.r_27
    exact tblWord_read_g4 c f0 _ (27 : Fin 32) t ((k4_off55_eq i).trans (by rw [ht]; rfl)) _ _
  exact (srcRow_read_g4 c fh (kernelRun4.sl.r_27 (F := F) c i f0) (k4_off56 (kernelRun4.sl.r_27 (F := F) c i f0)) rfl _ _ _
    (hwd ▸ hall _) j).trans (fh_congr_g4 c fh _ _ hwd _ _ j)

theorem run1_row28_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (28 : Fin 32) j)
      = kernelRun4.sl.dma29 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_28 c arg4 harg4]
  exact rowWrites_read c arg4 harg4 _ _ 28 (by decide) j
theorem run1_value28_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g4]
  unfold kernelRun4.sl.dma29
  have hwd : kernelRun4.sl.r_28 (F := F) c i f0 = f0 (ValueIdx.ix2 (28 : Fin 32) t) := by
    unfold kernelRun4.sl.r_28
    exact tblWord_read_g4 c f0 _ (28 : Fin 32) t ((k4_off57_eq i).trans (by rw [ht]; rfl)) _ _
  exact (srcRow_read_g4 c fh (kernelRun4.sl.r_28 (F := F) c i f0) (k4_off58 (kernelRun4.sl.r_28 (F := F) c i f0)) rfl _ _ _
    (hwd ▸ hall _) j).trans (fh_congr_g4 c fh _ _ hwd _ _ j)

theorem run1_row29_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (29 : Fin 32) j)
      = kernelRun4.sl.dma30 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_29 c arg4 harg4]
  exact rowWrites_read c arg4 harg4 _ _ 29 (by decide) j
theorem run1_value29_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g4]
  unfold kernelRun4.sl.dma30
  have hwd : kernelRun4.sl.r_29 (F := F) c i f0 = f0 (ValueIdx.ix2 (29 : Fin 32) t) := by
    unfold kernelRun4.sl.r_29
    exact tblWord_read_g4 c f0 _ (29 : Fin 32) t ((k4_off59_eq i).trans (by rw [ht]; rfl)) _ _
  exact (srcRow_read_g4 c fh (kernelRun4.sl.r_29 (F := F) c i f0) (k4_off60 (kernelRun4.sl.r_29 (F := F) c i f0)) rfl _ _ _
    (hwd ▸ hall _) j).trans (fh_congr_g4 c fh _ _ hwd _ _ j)

theorem run1_row30_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (30 : Fin 32) j)
      = kernelRun4.sl.dma31 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_30 c arg4 harg4]
  exact rowWrites_read c arg4 harg4 _ _ 30 (by decide) j
theorem run1_value30_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g4]
  unfold kernelRun4.sl.dma31
  have hwd : kernelRun4.sl.r_30 (F := F) c i f0 = f0 (ValueIdx.ix2 (30 : Fin 32) t) := by
    unfold kernelRun4.sl.r_30
    exact tblWord_read_g4 c f0 _ (30 : Fin 32) t ((k4_off61_eq i).trans (by rw [ht]; rfl)) _ _
  exact (srcRow_read_g4 c fh (kernelRun4.sl.r_30 (F := F) c i f0) (k4_off62 (kernelRun4.sl.r_30 (F := F) c i f0)) rfl _ _ _
    (hwd ▸ hall _) j).trans (fh_congr_g4 c fh _ _ hwd _ _ j)

theorem run1_row31_g4 (VO : View sig .tc .vmem S1x32x8 .f32) (j : Fin 8) :
    VO.read (Elt F) (VO.writes (Elt F) VO.junk (kernelRun4 c i arg3 harg3 arg4 harg4 f0 hall fh).1) (ValueIdx.ix3 (0 : Fin 1) (31 : Fin 32) j)
      = kernelRun4.sl.dma32 c i f0 hall fh (ValueIdx.ix1 j) := by
  rw [View.read_writes_eq_canon _ _ _ (coverRun4 c i arg3 harg3 arg4 harg4 f0 hall fh), run1_list_g4, View.canon_unit_zero hzG3_g4, pay1_apply_g4]
  unfold kernelRun4.sl.v448
  rw [View.readAt_eq_ld, View.ld_unit_zero (S := S32x8) hzG2_g4]
  rw [joinRows32_read_31 c arg4 harg4]
  exact rowWrites_read c arg4 harg4 _ _ 31 (by decide) j
theorem run1_value31_g4 (VO : View sig .tc .vmem S1x32x8 .f32) (t : Fin 1023) (ht : (i 0).val = t.val) (j : Fin 8) :
    VO.read (Elt F) (VO.writes (Elt F) VO.junk (kernelRun4 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g4]
  unfold kernelRun4.sl.dma32
  have hwd : kernelRun4.sl.r_31 (F := F) c i f0 = f0 (ValueIdx.ix2 (31 : Fin 32) t) := by
    unfold kernelRun4.sl.r_31
    exact tblWord_read_g4 c f0 _ (31 : Fin 32) t ((k4_off63_eq i).trans (by rw [ht]; rfl)) _ _
  exact (srcRow_read_g4 c fh (kernelRun4.sl.r_31 (F := F) c i f0) (k4_off64 (kernelRun4.sl.r_31 (F := F) c i f0)) rfl _ _ _
    (hwd ▸ hall _) j).trans (fh_congr_g4 c fh _ _ hwd _ _ j)

/-- The output block after the body at `[0, r, j]`: the weight array's row at the table's word `[r, t]`, element `j`. -/
theorem run1_value_g4 (VO : View sig .tc .vmem S1x32x8 .f32) (t : Fin 1023) (ht : (i 0).val = t.val) (r : Fin 32) (j : Fin 8) :
    VO.read (Elt F) (VO.writes (Elt F) VO.junk (kernelRun4 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g4 c i arg3 harg3 arg4 harg4 f0 hall fh VO t ht j
  | ⟨1, _⟩ => exact run1_value1_g4 c i arg3 harg3 arg4 harg4 f0 hall fh VO t ht j
  | ⟨2, _⟩ => exact run1_value2_g4 c i arg3 harg3 arg4 harg4 f0 hall fh VO t ht j
  | ⟨3, _⟩ => exact run1_value3_g4 c i arg3 harg3 arg4 harg4 f0 hall fh VO t ht j
  | ⟨4, _⟩ => exact run1_value4_g4 c i arg3 harg3 arg4 harg4 f0 hall fh VO t ht j
  | ⟨5, _⟩ => exact run1_value5_g4 c i arg3 harg3 arg4 harg4 f0 hall fh VO t ht j
  | ⟨6, _⟩ => exact run1_value6_g4 c i arg3 harg3 arg4 harg4 f0 hall fh VO t ht j
  | ⟨7, _⟩ => exact run1_value7_g4 c i arg3 harg3 arg4 harg4 f0 hall fh VO t ht j
  | ⟨8, _⟩ => exact run1_value8_g4 c i arg3 harg3 arg4 harg4 f0 hall fh VO t ht j
  | ⟨9, _⟩ => exact run1_value9_g4 c i arg3 harg3 arg4 harg4 f0 hall fh VO t ht j
  | ⟨10, _⟩ => exact run1_value10_g4 c i arg3 harg3 arg4 harg4 f0 hall fh VO t ht j
  | ⟨11, _⟩ => exact run1_value11_g4 c i arg3 harg3 arg4 harg4 f0 hall fh VO t ht j
  | ⟨12, _⟩ => exact run1_value12_g4 c i arg3 harg3 arg4 harg4 f0 hall fh VO t ht j
  | ⟨13, _⟩ => exact run1_value13_g4 c i arg3 harg3 arg4 harg4 f0 hall fh VO t ht j
  | ⟨14, _⟩ => exact run1_value14_g4 c i arg3 harg3 arg4 harg4 f0 hall fh VO t ht j
  | ⟨15, _⟩ => exact run1_value15_g4 c i arg3 harg3 arg4 harg4 f0 hall fh VO t ht j
  | ⟨16, _⟩ => exact run1_value16_g4 c i arg3 harg3 arg4 harg4 f0 hall fh VO t ht j
  | ⟨17, _⟩ => exact run1_value17_g4 c i arg3 harg3 arg4 harg4 f0 hall fh VO t ht j
  | ⟨18, _⟩ => exact run1_value18_g4 c i arg3 harg3 arg4 harg4 f0 hall fh VO t ht j
  | ⟨19, _⟩ => exact run1_value19_g4 c i arg3 harg3 arg4 harg4 f0 hall fh VO t ht j
  | ⟨20, _⟩ => exact run1_value20_g4 c i arg3 harg3 arg4 harg4 f0 hall fh VO t ht j
  | ⟨21, _⟩ => exact run1_value21_g4 c i arg3 harg3 arg4 harg4 f0 hall fh VO t ht j
  | ⟨22, _⟩ => exact run1_value22_g4 c i arg3 harg3 arg4 harg4 f0 hall fh VO t ht j
  | ⟨23, _⟩ => exact run1_value23_g4 c i arg3 harg3 arg4 harg4 f0 hall fh VO t ht j
  | ⟨24, _⟩ => exact run1_value24_g4 c i arg3 harg3 arg4 harg4 f0 hall fh VO t ht j
  | ⟨25, _⟩ => exact run1_value25_g4 c i arg3 harg3 arg4 harg4 f0 hall fh VO t ht j
  | ⟨26, _⟩ => exact run1_value26_g4 c i arg3 harg3 arg4 harg4 f0 hall fh VO t ht j
  | ⟨27, _⟩ => exact run1_value27_g4 c i arg3 harg3 arg4 harg4 f0 hall fh VO t ht j
  | ⟨28, _⟩ => exact run1_value28_g4 c i arg3 harg3 arg4 harg4 f0 hall fh VO t ht j
  | ⟨29, _⟩ => exact run1_value29_g4 c i arg3 harg3 arg4 harg4 f0 hall fh VO t ht j
  | ⟨30, _⟩ => exact run1_value30_g4 c i arg3 harg3 arg4 harg4 f0 hall fh VO t ht j
  | ⟨31, _⟩ => exact run1_value31_g4 c i arg3 harg3 arg4 harg4 f0 hall fh VO t ht j
  | ⟨n + 32, h⟩ => exact absurd h (by omega)

end Run

/-! ## Gather kernel 4: the point and the region -/

/-- A grid point's one coordinate is the point's number. -/
theorem coordsG1_g4 : ∀ t : Fin grid4.N, ((grid4.coords t) 0).val = t.val := by decide +kernel

/-- What the output block holds after the body at point `t`, at `[0, r, j]`: element `j` of the weight array's row at the
    table's word `[r, t]`. -/
theorem gather1_point_g4 (V : (c : Dev nD) → (b : Ref sig .tc) → Buf (Elt F) ((c : Thread nD τ).loc b))
    (hH : InRange4 (F := F) V) (c : Dev nD) (t : Fin (pcfgG4 (F := F) V).N) (r : Fin 32) (j : Fin 8) :
    outsAt4 V hH c t (ValueIdx.ix3 (0 : Fin 1) r j)
      = V c main_arg2 (ValueIdx.ix2 (⟨(V c main_v43 (ValueIdx.ix2 r (⟨t.val, lt_of_lt_of_eq t.isLt (NG1_g4 (adm4 (F := F) V))⟩ : Fin 1023))).toNat, hH c _⟩ : Fin 8388608) j) := by
  unfold outsAt4
  exact run1_value_g4 c (grid4.coords t) (ms4 V t) (hs4 V t) scM4 (Memref.isWhole_whole _) (V c main_v43) (hH c) (V c main_arg2) VO4
    (⟨t.val, lt_of_lt_of_eq t.isLt (NG1_g4 (adm4 (F := F) V))⟩ : Fin 1023) (coordsG1_g4 t) r j

/-- The output array of gather kernel 4 after its region's run, at `[t, r, j]`: element `j` of the weight array's row at the
    table's word `[r, t]`. -/
theorem gather1_value_g4 (V : (c : Dev nD) → (b : Ref sig .tc) → Buf (Elt F) ((c : Thread nD τ).loc b))
    (hH : InRange4 (F := F) V) (c : Dev nD) (t : Fin 1023) (r : Fin 32) (j : Fin 8) :
    (datG4 (F := F) V hH c).arrAt 0 (pcfgG4 (F := F) V).N (ValueIdx.ix3 t r j)
      = V c main_arg2 (ValueIdx.ix2 (⟨(V c main_v43 (ValueIdx.ix2 r t)).toNat, hH c _⟩ : Fin 8388608) j) := by
  rw [gather1_blocks_g4 V hH c t r j, gather1_point_g4 V hH c _ r j]

end Cert.KernelIdeal.Hand

end
-- ==== Proof.KernelIdealGatherValue5.lean ====
/-
  Gather kernel 5's region, from blocks to the array: the output array after the region's run is, block by block along its
  first axis, what the body leaves in the output block at each grid point.
-/
import proofs.«145402_j1717986918579_1_alg».proof.Proof.KernelIdealGather5
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g5 : ∀ t : Fin grid5.N, cc5_transform_1 (grid5.coords t) = ![t.val, 0, 0] := by decide +kernel

/-- The grid has 1023 points whatever the table holds. -/
theorem NG1_g5 (a : (pcfg5 (F := F)).Adm) : (cfg5 a).N = 1023 := N_5

/-- The output window's block index at a point does not read the table. -/
theorem indexG1_g5 (a : (pcfg5 (F := F)).Adm) (t : Fin (cfg5 a).N) :
    ((cfg5 a).win 0).index t = ![t.val, 0, 0] :=
  (rfl : ((cfg5 a).win 0).index t = cc5_transform_1 (grid5.coords t)).trans (trG1_g5 t)

/-- Every point writes its block back: the next point's block is another. -/
theorem flushG1_g5 (a : (pcfg5 (F := F)).Adm) (t : Fin (cfg5 a).N) : ((cfg5 a).win 0).flush t = true := by
  have hN : (cfg5 a).N = 1023 := NG1_g5 a
  have ht := t.isLt
  simp only [Pipeline.Window.flush, Bool.and_eq_true, Bool.or_eq_true, decide_eq_true_eq]
  refine ⟨rfl, ?_⟩
  by_cases h : t.val + 1 = (cfg5 a).N
  · exact Or.inl h
  · have hlt : t.val + 1 < (cfg5 a).N := by omega
    refine Or.inr ⟨hlt, ?_⟩
    rw [indexG1_g5, indexG1_g5]
    intro he
    have := congrFun he 0
    simp at this

/-! ## From blocks to the array, for any table contents -/

section Blocks
variable (a : (pcfg5 (F := F)).Adm) (c : Dev nD)
  (dat : Pipeline.Dat τ (Elt F) Unit ℕ (Pipeline.UD sig nD τ) ℕ (cfg5 a) c)
  (outs : Fin (cfg5 a).N → Vec F S1x32x8 .f32)

/-- The array whose block `t` along the first axis is the output block after the body at point `t`. -/
def allG1_g5 : S1023x32x8.Idx → Elt F .f32 := fun i =>
  outs ⟨(i 0).val, lt_of_lt_of_eq (i 0).isLt (NG1_g5 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g5 (t t' : Fin (cfg5 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g5 (t : Fin (cfg5 a).N) (y : S1x32x8.Idx) (i : S1023x32x8.Idx)
    (h0 : (i 0).val = t.val + (y 0).val) (h1 : (i 1).val = (y 1).val) (h2 : (i 2).val = (y 2).val) :
    ((((cfg5 a).win 0).blk t).view.emb y : S1023x32x8.Idx) = i := by
  have hidx := indexG1_g5 a t
  have e0 : ((cfg5 a).win 0).index t (0 : Fin 3) = t.val := congrFun hidx (0 : Fin 3)
  have e1 : ((cfg5 a).win 0).index t (1 : Fin 3) = 0 := congrFun hidx (1 : Fin 3)
  have e2 : ((cfg5 a).win 0).index t (2 : Fin 3) = 0 := congrFun hidx (2 : Fin 3)
  funext (b : Fin 3)
  apply Fin.ext
  match b with
  | ⟨0, _⟩ =>
    show ((cfg5 a).win 0).index t (0 : Fin 3) * 1 + 1 * (y 0).val = (i 0).val
    rw [e0, h0]; omega
  | ⟨1, _⟩ =>
    show ((cfg5 a).win 0).index t (1 : Fin 3) * 32 + 1 * (y 1).val = (i 1).val
    rw [e1, h1]; omega
  | ⟨2, _⟩ =>
    show ((cfg5 a).win 0).index t (2 : Fin 3) * 8 + 1 * (y 2).val = (i 2).val
    rw [e2, h2]; omega

/-- What point `t` writes back is block `t` of `allG1_g5`. -/
theorem flushedG1_eq_g5 (hafter : ∀ t, dat.after 0 t = outs t) (t : Fin (cfg5 a).N) :
    dat.flushed 0 t = (((cfg5 a).win 0).blk t).view.read (Elt F) (allG1_g5 a outs) := by
  show ((cfg5 a).win 0).cut ((cfg5 a).grid.coords t) (dat.after 0 t) = _
  rw [hafter]
  refine funext fun (j : S1x32x8.Idx) => ?_
  have hj0 : (j 0).val < 1 := (j 0).isLt
  show outs t j = allG1_g5 a outs ((((cfg5 a).win 0).blk t).view.emb j : S1023x32x8.Idx)
  rw [embG1_g5 a t j (ValueIdx.ix3 (⟨t.val, lt_of_lt_of_eq t.isLt (NG1_g5 a)⟩ : Fin 1023) (⟨(j 1).val, (j 1).isLt⟩ : Fin 32) (⟨(j 2).val, (j 2).isLt⟩ : Fin 8))
    (by show t.val = t.val + (j 0).val; omega) rfl rfl]
  unfold allG1_g5
  refine outs_congrG1_g5 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g5 (i : S1023x32x8.Idx) :
    ∃ t : Fin (cfg5 a).N, ((cfg5 a).win 0).flush t = true ∧ i ∈ (((cfg5 a).win 0).blk t).view.set := by
  refine ⟨⟨(i 0).val, lt_of_lt_of_eq (i 0).isLt (NG1_g5 a).symm⟩, flushG1_g5 a _, ?_⟩
  have he := embG1_g5 a ⟨(i 0).val, lt_of_lt_of_eq (i 0).isLt (NG1_g5 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg5 a).win 0).blk ⟨(i 0).val, lt_of_lt_of_eq (i 0).isLt (NG1_g5 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g5`: its 1023 blocks tile the array along the first axis. -/
theorem finalG1_g5 (hafter : ∀ t, dat.after 0 t = outs t) : dat.arrAt 0 (cfg5 a).N = allG1_g5 a outs :=
  dat.arrAt_eq_of_cover 0 (allG1_g5 a outs) (fun t _ => flushedG1_eq_g5 a c dat outs hafter t) (coverG1_g5 a)

/-- The output array after the region's run at `[t, r, j]` is the output block after the body at point `t`, at `[0, r, j]`. -/
theorem blocksG1_g5 (hafter : ∀ t, dat.after 0 t = outs t) (t : Fin 1023) (r : Fin 32) (j : Fin 8) :
    dat.arrAt 0 (cfg5 a).N (ValueIdx.ix3 t r j)
      = outs ⟨t.val, lt_of_lt_of_eq t.isLt (NG1_g5 a).symm⟩ (ValueIdx.ix3 (0 : Fin 1) r j) := by
  rw [finalG1_g5 a c dat outs hafter]
  rfl

end Blocks

/-! ## Gather kernel 5's region -/

/-- The output array of gather kernel 5 after its region's run, at `[t, r, j]`: what the body leaves in the output block at
    grid point `t`, at `[0, r, j]`. -/
theorem gather1_blocks_g5 (V : (c : Dev nD) → (b : Ref sig .tc) → Buf (Elt F) ((c : Thread nD τ).loc b))
    (hH : InRange5 (F := F) V) (c : Dev nD) (t : Fin 1023) (r : Fin 32) (j : Fin 8) :
    (datG5 (F := F) V hH c).arrAt 0 (pcfgG5 (F := F) V).N (ValueIdx.ix3 t r j)
      = outsAt5 V hH c ⟨t.val, lt_of_lt_of_eq t.isLt (NG1_g5 (adm5 (F := F) V)).symm⟩ (ValueIdx.ix3 (0 : Fin 1) r j) :=
  blocksG1_g5 (adm5 (F := F) V) c (datG5 (F := F) V hH c) (outsAt5 V hH c) (afterG5 V hH c) t r j

/-- The gather body's payload at `[0, r, j]` is the scratch block at `(r, j)`: the payload only adds a leading unit axis. -/
theorem pay1_apply_g5 (v : Vec F S32x8 .f32) (r : Fin 32) (j : Fin 8) :
    k5_pay1 (F := F) v (ValueIdx.ix3 (0 : Fin 1) r j) = v (ValueIdx.ix2 r j) := by
  unfold k5_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g5 : (![0, 0] : Fin 2 → Nat) = fun _ => 0 := funext fun a => by fin_cases a <;> rfl
theorem hzG3_g5 : (![0, 0, 0] : Fin 3 → Nat) = fun _ => 0 := funext fun a => by fin_cases a <;> rfl

/-- A one-row slice of the weight array at row `w`, squeezed to a row, reads the weight array at `[w, j]`. -/
theorem srcRow_read_g5 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g5 (f0 : HbBuf (F := F) c tbM5) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM5.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g5 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid5.Coords) (arg3 : Memref sig .tc .vmem S1x32x8 .f32) (harg3 : arg3.IsWhole)
  (arg4 : Memref sig .tc .vmem S32x8 .f32) (harg4 : arg4.IsWhole)
  (f0 : HbBuf (F := F) c tbM5) (hall : ∀ j, (f0 j).toNat < 8388608) (fh : HbBuf (F := F) c hbM)

/-- The run's pieces: one store of the whole block, its payload the scratch block read after the copies landed. -/
theorem run1_list_g5 : (kernelRun5 c i arg3 harg3 arg4 harg4 f0 hall fh).1
    = [⟨Rect.unit (s := S1x32x8) ![0, 0, 0] S1x32x8.size inb_S1x32x8_S1x32x8_0_0_0, k5_pay1 (kernelRun5.sl.v448 c i arg4 f0 hall fh)⟩] := rfl

/-- Row `r` of the output block after the body is the `(r + 1)`-th copy's delivery, which is the weight array's row at the
    table's word `[r, t]`: the same three steps for each of the thirty-two rows. -/
theorem run1_row0_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (0 : Fin 32) j)
      = kernelRun5.sl.dma1 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_0 c arg4 harg4]
  exact rowWrites_read c arg4 harg4 _ _ 0 (by decide) j
theorem run1_value0_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g5]
  unfold kernelRun5.sl.dma1
  have hwd : kernelRun5.sl.r (F := F) c i f0 = f0 (ValueIdx.ix2 (0 : Fin 32) t) := by
    unfold kernelRun5.sl.r
    exact tblWord_read_g5 c f0 _ (0 : Fin 32) t ((k5_off1_eq i).trans (by rw [ht]; rfl)) _ _
  exact (srcRow_read_g5 c fh (kernelRun5.sl.r (F := F) c i f0) (k5_off2 (kernelRun5.sl.r (F := F) c i f0)) rfl _ _ _
    (hwd ▸ hall _) j).trans (fh_congr_g5 c fh _ _ hwd _ _ j)

theorem run1_row1_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (1 : Fin 32) j)
      = kernelRun5.sl.dma2 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_1 c arg4 harg4]
  exact rowWrites_read c arg4 harg4 _ _ 1 (by decide) j
theorem run1_value1_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g5]
  unfold kernelRun5.sl.dma2
  have hwd : kernelRun5.sl.r_1 (F := F) c i f0 = f0 (ValueIdx.ix2 (1 : Fin 32) t) := by
    unfold kernelRun5.sl.r_1
    exact tblWord_read_g5 c f0 _ (1 : Fin 32) t ((k5_off3_eq i).trans (by rw [ht]; rfl)) _ _
  exact (srcRow_read_g5 c fh (kernelRun5.sl.r_1 (F := F) c i f0) (k5_off4 (kernelRun5.sl.r_1 (F := F) c i f0)) rfl _ _ _
    (hwd ▸ hall _) j).trans (fh_congr_g5 c fh _ _ hwd _ _ j)

theorem run1_row2_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (2 : Fin 32) j)
      = kernelRun5.sl.dma3 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_2 c arg4 harg4]
  exact rowWrites_read c arg4 harg4 _ _ 2 (by decide) j
theorem run1_value2_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g5]
  unfold kernelRun5.sl.dma3
  have hwd : kernelRun5.sl.r_2 (F := F) c i f0 = f0 (ValueIdx.ix2 (2 : Fin 32) t) := by
    unfold kernelRun5.sl.r_2
    exact tblWord_read_g5 c f0 _ (2 : Fin 32) t ((k5_off5_eq i).trans (by rw [ht]; rfl)) _ _
  exact (srcRow_read_g5 c fh (kernelRun5.sl.r_2 (F := F) c i f0) (k5_off6 (kernelRun5.sl.r_2 (F := F) c i f0)) rfl _ _ _
    (hwd ▸ hall _) j).trans (fh_congr_g5 c fh _ _ hwd _ _ j)

theorem run1_row3_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (3 : Fin 32) j)
      = kernelRun5.sl.dma4 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_3 c arg4 harg4]
  exact rowWrites_read c arg4 harg4 _ _ 3 (by decide) j
theorem run1_value3_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g5]
  unfold kernelRun5.sl.dma4
  have hwd : kernelRun5.sl.r_3 (F := F) c i f0 = f0 (ValueIdx.ix2 (3 : Fin 32) t) := by
    unfold kernelRun5.sl.r_3
    exact tblWord_read_g5 c f0 _ (3 : Fin 32) t ((k5_off7_eq i).trans (by rw [ht]; rfl)) _ _
  exact (srcRow_read_g5 c fh (kernelRun5.sl.r_3 (F := F) c i f0) (k5_off8 (kernelRun5.sl.r_3 (F := F) c i f0)) rfl _ _ _
    (hwd ▸ hall _) j).trans (fh_congr_g5 c fh _ _ hwd _ _ j)

theorem run1_row4_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (4 : Fin 32) j)
      = kernelRun5.sl.dma5 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_4 c arg4 harg4]
  exact rowWrites_read c arg4 harg4 _ _ 4 (by decide) j
theorem run1_value4_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g5]
  unfold kernelRun5.sl.dma5
  have hwd : kernelRun5.sl.r_4 (F := F) c i f0 = f0 (ValueIdx.ix2 (4 : Fin 32) t) := by
    unfold kernelRun5.sl.r_4
    exact tblWord_read_g5 c f0 _ (4 : Fin 32) t ((k5_off9_eq i).trans (by rw [ht]; rfl)) _ _
  exact (srcRow_read_g5 c fh (kernelRun5.sl.r_4 (F := F) c i f0) (k5_off10 (kernelRun5.sl.r_4 (F := F) c i f0)) rfl _ _ _
    (hwd ▸ hall _) j).trans (fh_congr_g5 c fh _ _ hwd _ _ j)

theorem run1_row5_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (5 : Fin 32) j)
      = kernelRun5.sl.dma6 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_5 c arg4 harg4]
  exact rowWrites_read c arg4 harg4 _ _ 5 (by decide) j
theorem run1_value5_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g5]
  unfold kernelRun5.sl.dma6
  have hwd : kernelRun5.sl.r_5 (F := F) c i f0 = f0 (ValueIdx.ix2 (5 : Fin 32) t) := by
    unfold kernelRun5.sl.r_5
    exact tblWord_read_g5 c f0 _ (5 : Fin 32) t ((k5_off11_eq i).trans (by rw [ht]; rfl)) _ _
  exact (srcRow_read_g5 c fh (kernelRun5.sl.r_5 (F := F) c i f0) (k5_off12 (kernelRun5.sl.r_5 (F := F) c i f0)) rfl _ _ _
    (hwd ▸ hall _) j).trans (fh_congr_g5 c fh _ _ hwd _ _ j)

theorem run1_row6_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (6 : Fin 32) j)
      = kernelRun5.sl.dma7 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_6 c arg4 harg4]
  exact rowWrites_read c arg4 harg4 _ _ 6 (by decide) j
theorem run1_value6_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g5]
  unfold kernelRun5.sl.dma7
  have hwd : kernelRun5.sl.r_6 (F := F) c i f0 = f0 (ValueIdx.ix2 (6 : Fin 32) t) := by
    unfold kernelRun5.sl.r_6
    exact tblWord_read_g5 c f0 _ (6 : Fin 32) t ((k5_off13_eq i).trans (by rw [ht]; rfl)) _ _
  exact (srcRow_read_g5 c fh (kernelRun5.sl.r_6 (F := F) c i f0) (k5_off14 (kernelRun5.sl.r_6 (F := F) c i f0)) rfl _ _ _
    (hwd ▸ hall _) j).trans (fh_congr_g5 c fh _ _ hwd _ _ j)

theorem run1_row7_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (7 : Fin 32) j)
      = kernelRun5.sl.dma8 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_7 c arg4 harg4]
  exact rowWrites_read c arg4 harg4 _ _ 7 (by decide) j
theorem run1_value7_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g5]
  unfold kernelRun5.sl.dma8
  have hwd : kernelRun5.sl.r_7 (F := F) c i f0 = f0 (ValueIdx.ix2 (7 : Fin 32) t) := by
    unfold kernelRun5.sl.r_7
    exact tblWord_read_g5 c f0 _ (7 : Fin 32) t ((k5_off15_eq i).trans (by rw [ht]; rfl)) _ _
  exact (srcRow_read_g5 c fh (kernelRun5.sl.r_7 (F := F) c i f0) (k5_off16 (kernelRun5.sl.r_7 (F := F) c i f0)) rfl _ _ _
    (hwd ▸ hall _) j).trans (fh_congr_g5 c fh _ _ hwd _ _ j)

theorem run1_row8_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (8 : Fin 32) j)
      = kernelRun5.sl.dma9 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_8 c arg4 harg4]
  exact rowWrites_read c arg4 harg4 _ _ 8 (by decide) j
theorem run1_value8_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g5]
  unfold kernelRun5.sl.dma9
  have hwd : kernelRun5.sl.r_8 (F := F) c i f0 = f0 (ValueIdx.ix2 (8 : Fin 32) t) := by
    unfold kernelRun5.sl.r_8
    exact tblWord_read_g5 c f0 _ (8 : Fin 32) t ((k5_off17_eq i).trans (by rw [ht]; rfl)) _ _
  exact (srcRow_read_g5 c fh (kernelRun5.sl.r_8 (F := F) c i f0) (k5_off18 (kernelRun5.sl.r_8 (F := F) c i f0)) rfl _ _ _
    (hwd ▸ hall _) j).trans (fh_congr_g5 c fh _ _ hwd _ _ j)

theorem run1_row9_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (9 : Fin 32) j)
      = kernelRun5.sl.dma10 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_9 c arg4 harg4]
  exact rowWrites_read c arg4 harg4 _ _ 9 (by decide) j
theorem run1_value9_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g5]
  unfold kernelRun5.sl.dma10
  have hwd : kernelRun5.sl.r_9 (F := F) c i f0 = f0 (ValueIdx.ix2 (9 : Fin 32) t) := by
    unfold kernelRun5.sl.r_9
    exact tblWord_read_g5 c f0 _ (9 : Fin 32) t ((k5_off19_eq i).trans (by rw [ht]; rfl)) _ _
  exact (srcRow_read_g5 c fh (kernelRun5.sl.r_9 (F := F) c i f0) (k5_off20 (kernelRun5.sl.r_9 (F := F) c i f0)) rfl _ _ _
    (hwd ▸ hall _) j).trans (fh_congr_g5 c fh _ _ hwd _ _ j)

theorem run1_row10_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (10 : Fin 32) j)
      = kernelRun5.sl.dma11 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_10 c arg4 harg4]
  exact rowWrites_read c arg4 harg4 _ _ 10 (by decide) j
theorem run1_value10_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g5]
  unfold kernelRun5.sl.dma11
  have hwd : kernelRun5.sl.r_10 (F := F) c i f0 = f0 (ValueIdx.ix2 (10 : Fin 32) t) := by
    unfold kernelRun5.sl.r_10
    exact tblWord_read_g5 c f0 _ (10 : Fin 32) t ((k5_off21_eq i).trans (by rw [ht]; rfl)) _ _
  exact (srcRow_read_g5 c fh (kernelRun5.sl.r_10 (F := F) c i f0) (k5_off22 (kernelRun5.sl.r_10 (F := F) c i f0)) rfl _ _ _
    (hwd ▸ hall _) j).trans (fh_congr_g5 c fh _ _ hwd _ _ j)

theorem run1_row11_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (11 : Fin 32) j)
      = kernelRun5.sl.dma12 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_11 c arg4 harg4]
  exact rowWrites_read c arg4 harg4 _ _ 11 (by decide) j
theorem run1_value11_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g5]
  unfold kernelRun5.sl.dma12
  have hwd : kernelRun5.sl.r_11 (F := F) c i f0 = f0 (ValueIdx.ix2 (11 : Fin 32) t) := by
    unfold kernelRun5.sl.r_11
    exact tblWord_read_g5 c f0 _ (11 : Fin 32) t ((k5_off23_eq i).trans (by rw [ht]; rfl)) _ _
  exact (srcRow_read_g5 c fh (kernelRun5.sl.r_11 (F := F) c i f0) (k5_off24 (kernelRun5.sl.r_11 (F := F) c i f0)) rfl _ _ _
    (hwd ▸ hall _) j).trans (fh_congr_g5 c fh _ _ hwd _ _ j)

theorem run1_row12_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (12 : Fin 32) j)
      = kernelRun5.sl.dma13 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_12 c arg4 harg4]
  exact rowWrites_read c arg4 harg4 _ _ 12 (by decide) j
theorem run1_value12_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g5]
  unfold kernelRun5.sl.dma13
  have hwd : kernelRun5.sl.r_12 (F := F) c i f0 = f0 (ValueIdx.ix2 (12 : Fin 32) t) := by
    unfold kernelRun5.sl.r_12
    exact tblWord_read_g5 c f0 _ (12 : Fin 32) t ((k5_off25_eq i).trans (by rw [ht]; rfl)) _ _
  exact (srcRow_read_g5 c fh (kernelRun5.sl.r_12 (F := F) c i f0) (k5_off26 (kernelRun5.sl.r_12 (F := F) c i f0)) rfl _ _ _
    (hwd ▸ hall _) j).trans (fh_congr_g5 c fh _ _ hwd _ _ j)

theorem run1_row13_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (13 : Fin 32) j)
      = kernelRun5.sl.dma14 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_13 c arg4 harg4]
  exact rowWrites_read c arg4 harg4 _ _ 13 (by decide) j
theorem run1_value13_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g5]
  unfold kernelRun5.sl.dma14
  have hwd : kernelRun5.sl.r_13 (F := F) c i f0 = f0 (ValueIdx.ix2 (13 : Fin 32) t) := by
    unfold kernelRun5.sl.r_13
    exact tblWord_read_g5 c f0 _ (13 : Fin 32) t ((k5_off27_eq i).trans (by rw [ht]; rfl)) _ _
  exact (srcRow_read_g5 c fh (kernelRun5.sl.r_13 (F := F) c i f0) (k5_off28 (kernelRun5.sl.r_13 (F := F) c i f0)) rfl _ _ _
    (hwd ▸ hall _) j).trans (fh_congr_g5 c fh _ _ hwd _ _ j)

theorem run1_row14_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (14 : Fin 32) j)
      = kernelRun5.sl.dma15 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_14 c arg4 harg4]
  exact rowWrites_read c arg4 harg4 _ _ 14 (by decide) j
theorem run1_value14_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g5]
  unfold kernelRun5.sl.dma15
  have hwd : kernelRun5.sl.r_14 (F := F) c i f0 = f0 (ValueIdx.ix2 (14 : Fin 32) t) := by
    unfold kernelRun5.sl.r_14
    exact tblWord_read_g5 c f0 _ (14 : Fin 32) t ((k5_off29_eq i).trans (by rw [ht]; rfl)) _ _
  exact (srcRow_read_g5 c fh (kernelRun5.sl.r_14 (F := F) c i f0) (k5_off30 (kernelRun5.sl.r_14 (F := F) c i f0)) rfl _ _ _
    (hwd ▸ hall _) j).trans (fh_congr_g5 c fh _ _ hwd _ _ j)

theorem run1_row15_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (15 : Fin 32) j)
      = kernelRun5.sl.dma16 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_15 c arg4 harg4]
  exact rowWrites_read c arg4 harg4 _ _ 15 (by decide) j
theorem run1_value15_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g5]
  unfold kernelRun5.sl.dma16
  have hwd : kernelRun5.sl.r_15 (F := F) c i f0 = f0 (ValueIdx.ix2 (15 : Fin 32) t) := by
    unfold kernelRun5.sl.r_15
    exact tblWord_read_g5 c f0 _ (15 : Fin 32) t ((k5_off31_eq i).trans (by rw [ht]; rfl)) _ _
  exact (srcRow_read_g5 c fh (kernelRun5.sl.r_15 (F := F) c i f0) (k5_off32 (kernelRun5.sl.r_15 (F := F) c i f0)) rfl _ _ _
    (hwd ▸ hall _) j).trans (fh_congr_g5 c fh _ _ hwd _ _ j)

theorem run1_row16_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (16 : Fin 32) j)
      = kernelRun5.sl.dma17 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_16 c arg4 harg4]
  exact rowWrites_read c arg4 harg4 _ _ 16 (by decide) j
theorem run1_value16_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g5]
  unfold kernelRun5.sl.dma17
  have hwd : kernelRun5.sl.r_16 (F := F) c i f0 = f0 (ValueIdx.ix2 (16 : Fin 32) t) := by
    unfold kernelRun5.sl.r_16
    exact tblWord_read_g5 c f0 _ (16 : Fin 32) t ((k5_off33_eq i).trans (by rw [ht]; rfl)) _ _
  exact (srcRow_read_g5 c fh (kernelRun5.sl.r_16 (F := F) c i f0) (k5_off34 (kernelRun5.sl.r_16 (F := F) c i f0)) rfl _ _ _
    (hwd ▸ hall _) j).trans (fh_congr_g5 c fh _ _ hwd _ _ j)

theorem run1_row17_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (17 : Fin 32) j)
      = kernelRun5.sl.dma18 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_17 c arg4 harg4]
  exact rowWrites_read c arg4 harg4 _ _ 17 (by decide) j
theorem run1_value17_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g5]
  unfold kernelRun5.sl.dma18
  have hwd : kernelRun5.sl.r_17 (F := F) c i f0 = f0 (ValueIdx.ix2 (17 : Fin 32) t) := by
    unfold kernelRun5.sl.r_17
    exact tblWord_read_g5 c f0 _ (17 : Fin 32) t ((k5_off35_eq i).trans (by rw [ht]; rfl)) _ _
  exact (srcRow_read_g5 c fh (kernelRun5.sl.r_17 (F := F) c i f0) (k5_off36 (kernelRun5.sl.r_17 (F := F) c i f0)) rfl _ _ _
    (hwd ▸ hall _) j).trans (fh_congr_g5 c fh _ _ hwd _ _ j)

theorem run1_row18_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (18 : Fin 32) j)
      = kernelRun5.sl.dma19 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_18 c arg4 harg4]
  exact rowWrites_read c arg4 harg4 _ _ 18 (by decide) j
theorem run1_value18_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g5]
  unfold kernelRun5.sl.dma19
  have hwd : kernelRun5.sl.r_18 (F := F) c i f0 = f0 (ValueIdx.ix2 (18 : Fin 32) t) := by
    unfold kernelRun5.sl.r_18
    exact tblWord_read_g5 c f0 _ (18 : Fin 32) t ((k5_off37_eq i).trans (by rw [ht]; rfl)) _ _
  exact (srcRow_read_g5 c fh (kernelRun5.sl.r_18 (F := F) c i f0) (k5_off38 (kernelRun5.sl.r_18 (F := F) c i f0)) rfl _ _ _
    (hwd ▸ hall _) j).trans (fh_congr_g5 c fh _ _ hwd _ _ j)

theorem run1_row19_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (19 : Fin 32) j)
      = kernelRun5.sl.dma20 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_19 c arg4 harg4]
  exact rowWrites_read c arg4 harg4 _ _ 19 (by decide) j
theorem run1_value19_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g5]
  unfold kernelRun5.sl.dma20
  have hwd : kernelRun5.sl.r_19 (F := F) c i f0 = f0 (ValueIdx.ix2 (19 : Fin 32) t) := by
    unfold kernelRun5.sl.r_19
    exact tblWord_read_g5 c f0 _ (19 : Fin 32) t ((k5_off39_eq i).trans (by rw [ht]; rfl)) _ _
  exact (srcRow_read_g5 c fh (kernelRun5.sl.r_19 (F := F) c i f0) (k5_off40 (kernelRun5.sl.r_19 (F := F) c i f0)) rfl _ _ _
    (hwd ▸ hall _) j).trans (fh_congr_g5 c fh _ _ hwd _ _ j)

theorem run1_row20_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (20 : Fin 32) j)
      = kernelRun5.sl.dma21 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_20 c arg4 harg4]
  exact rowWrites_read c arg4 harg4 _ _ 20 (by decide) j
theorem run1_value20_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g5]
  unfold kernelRun5.sl.dma21
  have hwd : kernelRun5.sl.r_20 (F := F) c i f0 = f0 (ValueIdx.ix2 (20 : Fin 32) t) := by
    unfold kernelRun5.sl.r_20
    exact tblWord_read_g5 c f0 _ (20 : Fin 32) t ((k5_off41_eq i).trans (by rw [ht]; rfl)) _ _
  exact (srcRow_read_g5 c fh (kernelRun5.sl.r_20 (F := F) c i f0) (k5_off42 (kernelRun5.sl.r_20 (F := F) c i f0)) rfl _ _ _
    (hwd ▸ hall _) j).trans (fh_congr_g5 c fh _ _ hwd _ _ j)

theorem run1_row21_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (21 : Fin 32) j)
      = kernelRun5.sl.dma22 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_21 c arg4 harg4]
  exact rowWrites_read c arg4 harg4 _ _ 21 (by decide) j
theorem run1_value21_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g5]
  unfold kernelRun5.sl.dma22
  have hwd : kernelRun5.sl.r_21 (F := F) c i f0 = f0 (ValueIdx.ix2 (21 : Fin 32) t) := by
    unfold kernelRun5.sl.r_21
    exact tblWord_read_g5 c f0 _ (21 : Fin 32) t ((k5_off43_eq i).trans (by rw [ht]; rfl)) _ _
  exact (srcRow_read_g5 c fh (kernelRun5.sl.r_21 (F := F) c i f0) (k5_off44 (kernelRun5.sl.r_21 (F := F) c i f0)) rfl _ _ _
    (hwd ▸ hall _) j).trans (fh_congr_g5 c fh _ _ hwd _ _ j)

theorem run1_row22_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (22 : Fin 32) j)
      = kernelRun5.sl.dma23 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_22 c arg4 harg4]
  exact rowWrites_read c arg4 harg4 _ _ 22 (by decide) j
theorem run1_value22_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g5]
  unfold kernelRun5.sl.dma23
  have hwd : kernelRun5.sl.r_22 (F := F) c i f0 = f0 (ValueIdx.ix2 (22 : Fin 32) t) := by
    unfold kernelRun5.sl.r_22
    exact tblWord_read_g5 c f0 _ (22 : Fin 32) t ((k5_off45_eq i).trans (by rw [ht]; rfl)) _ _
  exact (srcRow_read_g5 c fh (kernelRun5.sl.r_22 (F := F) c i f0) (k5_off46 (kernelRun5.sl.r_22 (F := F) c i f0)) rfl _ _ _
    (hwd ▸ hall _) j).trans (fh_congr_g5 c fh _ _ hwd _ _ j)

theorem run1_row23_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (23 : Fin 32) j)
      = kernelRun5.sl.dma24 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_23 c arg4 harg4]
  exact rowWrites_read c arg4 harg4 _ _ 23 (by decide) j
theorem run1_value23_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g5]
  unfold kernelRun5.sl.dma24
  have hwd : kernelRun5.sl.r_23 (F := F) c i f0 = f0 (ValueIdx.ix2 (23 : Fin 32) t) := by
    unfold kernelRun5.sl.r_23
    exact tblWord_read_g5 c f0 _ (23 : Fin 32) t ((k5_off47_eq i).trans (by rw [ht]; rfl)) _ _
  exact (srcRow_read_g5 c fh (kernelRun5.sl.r_23 (F := F) c i f0) (k5_off48 (kernelRun5.sl.r_23 (F := F) c i f0)) rfl _ _ _
    (hwd ▸ hall _) j).trans (fh_congr_g5 c fh _ _ hwd _ _ j)

theorem run1_row24_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (24 : Fin 32) j)
      = kernelRun5.sl.dma25 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_24 c arg4 harg4]
  exact rowWrites_read c arg4 harg4 _ _ 24 (by decide) j
theorem run1_value24_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g5]
  unfold kernelRun5.sl.dma25
  have hwd : kernelRun5.sl.r_24 (F := F) c i f0 = f0 (ValueIdx.ix2 (24 : Fin 32) t) := by
    unfold kernelRun5.sl.r_24
    exact tblWord_read_g5 c f0 _ (24 : Fin 32) t ((k5_off49_eq i).trans (by rw [ht]; rfl)) _ _
  exact (srcRow_read_g5 c fh (kernelRun5.sl.r_24 (F := F) c i f0) (k5_off50 (kernelRun5.sl.r_24 (F := F) c i f0)) rfl _ _ _
    (hwd ▸ hall _) j).trans (fh_congr_g5 c fh _ _ hwd _ _ j)

theorem run1_row25_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (25 : Fin 32) j)
      = kernelRun5.sl.dma26 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_25 c arg4 harg4]
  exact rowWrites_read c arg4 harg4 _ _ 25 (by decide) j
theorem run1_value25_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g5]
  unfold kernelRun5.sl.dma26
  have hwd : kernelRun5.sl.r_25 (F := F) c i f0 = f0 (ValueIdx.ix2 (25 : Fin 32) t) := by
    unfold kernelRun5.sl.r_25
    exact tblWord_read_g5 c f0 _ (25 : Fin 32) t ((k5_off51_eq i).trans (by rw [ht]; rfl)) _ _
  exact (srcRow_read_g5 c fh (kernelRun5.sl.r_25 (F := F) c i f0) (k5_off52 (kernelRun5.sl.r_25 (F := F) c i f0)) rfl _ _ _
    (hwd ▸ hall _) j).trans (fh_congr_g5 c fh _ _ hwd _ _ j)

theorem run1_row26_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (26 : Fin 32) j)
      = kernelRun5.sl.dma27 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_26 c arg4 harg4]
  exact rowWrites_read c arg4 harg4 _ _ 26 (by decide) j
theorem run1_value26_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g5]
  unfold kernelRun5.sl.dma27
  have hwd : kernelRun5.sl.r_26 (F := F) c i f0 = f0 (ValueIdx.ix2 (26 : Fin 32) t) := by
    unfold kernelRun5.sl.r_26
    exact tblWord_read_g5 c f0 _ (26 : Fin 32) t ((k5_off53_eq i).trans (by rw [ht]; rfl)) _ _
  exact (srcRow_read_g5 c fh (kernelRun5.sl.r_26 (F := F) c i f0) (k5_off54 (kernelRun5.sl.r_26 (F := F) c i f0)) rfl _ _ _
    (hwd ▸ hall _) j).trans (fh_congr_g5 c fh _ _ hwd _ _ j)

theorem run1_row27_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (27 : Fin 32) j)
      = kernelRun5.sl.dma28 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_27 c arg4 harg4]
  exact rowWrites_read c arg4 harg4 _ _ 27 (by decide) j
theorem run1_value27_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g5]
  unfold kernelRun5.sl.dma28
  have hwd : kernelRun5.sl.r_27 (F := F) c i f0 = f0 (ValueIdx.ix2 (27 : Fin 32) t) := by
    unfold kernelRun5.sl.r_27
    exact tblWord_read_g5 c f0 _ (27 : Fin 32) t ((k5_off55_eq i).trans (by rw [ht]; rfl)) _ _
  exact (srcRow_read_g5 c fh (kernelRun5.sl.r_27 (F := F) c i f0) (k5_off56 (kernelRun5.sl.r_27 (F := F) c i f0)) rfl _ _ _
    (hwd ▸ hall _) j).trans (fh_congr_g5 c fh _ _ hwd _ _ j)

theorem run1_row28_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (28 : Fin 32) j)
      = kernelRun5.sl.dma29 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_28 c arg4 harg4]
  exact rowWrites_read c arg4 harg4 _ _ 28 (by decide) j
theorem run1_value28_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g5]
  unfold kernelRun5.sl.dma29
  have hwd : kernelRun5.sl.r_28 (F := F) c i f0 = f0 (ValueIdx.ix2 (28 : Fin 32) t) := by
    unfold kernelRun5.sl.r_28
    exact tblWord_read_g5 c f0 _ (28 : Fin 32) t ((k5_off57_eq i).trans (by rw [ht]; rfl)) _ _
  exact (srcRow_read_g5 c fh (kernelRun5.sl.r_28 (F := F) c i f0) (k5_off58 (kernelRun5.sl.r_28 (F := F) c i f0)) rfl _ _ _
    (hwd ▸ hall _) j).trans (fh_congr_g5 c fh _ _ hwd _ _ j)

theorem run1_row29_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (29 : Fin 32) j)
      = kernelRun5.sl.dma30 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_29 c arg4 harg4]
  exact rowWrites_read c arg4 harg4 _ _ 29 (by decide) j
theorem run1_value29_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g5]
  unfold kernelRun5.sl.dma30
  have hwd : kernelRun5.sl.r_29 (F := F) c i f0 = f0 (ValueIdx.ix2 (29 : Fin 32) t) := by
    unfold kernelRun5.sl.r_29
    exact tblWord_read_g5 c f0 _ (29 : Fin 32) t ((k5_off59_eq i).trans (by rw [ht]; rfl)) _ _
  exact (srcRow_read_g5 c fh (kernelRun5.sl.r_29 (F := F) c i f0) (k5_off60 (kernelRun5.sl.r_29 (F := F) c i f0)) rfl _ _ _
    (hwd ▸ hall _) j).trans (fh_congr_g5 c fh _ _ hwd _ _ j)

theorem run1_row30_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (30 : Fin 32) j)
      = kernelRun5.sl.dma31 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_30 c arg4 harg4]
  exact rowWrites_read c arg4 harg4 _ _ 30 (by decide) j
theorem run1_value30_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g5]
  unfold kernelRun5.sl.dma31
  have hwd : kernelRun5.sl.r_30 (F := F) c i f0 = f0 (ValueIdx.ix2 (30 : Fin 32) t) := by
    unfold kernelRun5.sl.r_30
    exact tblWord_read_g5 c f0 _ (30 : Fin 32) t ((k5_off61_eq i).trans (by rw [ht]; rfl)) _ _
  exact (srcRow_read_g5 c fh (kernelRun5.sl.r_30 (F := F) c i f0) (k5_off62 (kernelRun5.sl.r_30 (F := F) c i f0)) rfl _ _ _
    (hwd ▸ hall _) j).trans (fh_congr_g5 c fh _ _ hwd _ _ j)

theorem run1_row31_g5 (VO : View sig .tc .vmem S1x32x8 .f32) (j : Fin 8) :
    VO.read (Elt F) (VO.writes (Elt F) VO.junk (kernelRun5 c i arg3 harg3 arg4 harg4 f0 hall fh).1) (ValueIdx.ix3 (0 : Fin 1) (31 : Fin 32) j)
      = kernelRun5.sl.dma32 c i f0 hall fh (ValueIdx.ix1 j) := by
  rw [View.read_writes_eq_canon _ _ _ (coverRun5 c i arg3 harg3 arg4 harg4 f0 hall fh), run1_list_g5, View.canon_unit_zero hzG3_g5, pay1_apply_g5]
  unfold kernelRun5.sl.v448
  rw [View.readAt_eq_ld, View.ld_unit_zero (S := S32x8) hzG2_g5]
  rw [joinRows32_read_31 c arg4 harg4]
  exact rowWrites_read c arg4 harg4 _ _ 31 (by decide) j
theorem run1_value31_g5 (VO : View sig .tc .vmem S1x32x8 .f32) (t : Fin 1023) (ht : (i 0).val = t.val) (j : Fin 8) :
    VO.read (Elt F) (VO.writes (Elt F) VO.junk (kernelRun5 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g5]
  unfold kernelRun5.sl.dma32
  have hwd : kernelRun5.sl.r_31 (F := F) c i f0 = f0 (ValueIdx.ix2 (31 : Fin 32) t) := by
    unfold kernelRun5.sl.r_31
    exact tblWord_read_g5 c f0 _ (31 : Fin 32) t ((k5_off63_eq i).trans (by rw [ht]; rfl)) _ _
  exact (srcRow_read_g5 c fh (kernelRun5.sl.r_31 (F := F) c i f0) (k5_off64 (kernelRun5.sl.r_31 (F := F) c i f0)) rfl _ _ _
    (hwd ▸ hall _) j).trans (fh_congr_g5 c fh _ _ hwd _ _ j)

/-- The output block after the body at `[0, r, j]`: the weight array's row at the table's word `[r, t]`, element `j`. -/
theorem run1_value_g5 (VO : View sig .tc .vmem S1x32x8 .f32) (t : Fin 1023) (ht : (i 0).val = t.val) (r : Fin 32) (j : Fin 8) :
    VO.read (Elt F) (VO.writes (Elt F) VO.junk (kernelRun5 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g5 c i arg3 harg3 arg4 harg4 f0 hall fh VO t ht j
  | ⟨1, _⟩ => exact run1_value1_g5 c i arg3 harg3 arg4 harg4 f0 hall fh VO t ht j
  | ⟨2, _⟩ => exact run1_value2_g5 c i arg3 harg3 arg4 harg4 f0 hall fh VO t ht j
  | ⟨3, _⟩ => exact run1_value3_g5 c i arg3 harg3 arg4 harg4 f0 hall fh VO t ht j
  | ⟨4, _⟩ => exact run1_value4_g5 c i arg3 harg3 arg4 harg4 f0 hall fh VO t ht j
  | ⟨5, _⟩ => exact run1_value5_g5 c i arg3 harg3 arg4 harg4 f0 hall fh VO t ht j
  | ⟨6, _⟩ => exact run1_value6_g5 c i arg3 harg3 arg4 harg4 f0 hall fh VO t ht j
  | ⟨7, _⟩ => exact run1_value7_g5 c i arg3 harg3 arg4 harg4 f0 hall fh VO t ht j
  | ⟨8, _⟩ => exact run1_value8_g5 c i arg3 harg3 arg4 harg4 f0 hall fh VO t ht j
  | ⟨9, _⟩ => exact run1_value9_g5 c i arg3 harg3 arg4 harg4 f0 hall fh VO t ht j
  | ⟨10, _⟩ => exact run1_value10_g5 c i arg3 harg3 arg4 harg4 f0 hall fh VO t ht j
  | ⟨11, _⟩ => exact run1_value11_g5 c i arg3 harg3 arg4 harg4 f0 hall fh VO t ht j
  | ⟨12, _⟩ => exact run1_value12_g5 c i arg3 harg3 arg4 harg4 f0 hall fh VO t ht j
  | ⟨13, _⟩ => exact run1_value13_g5 c i arg3 harg3 arg4 harg4 f0 hall fh VO t ht j
  | ⟨14, _⟩ => exact run1_value14_g5 c i arg3 harg3 arg4 harg4 f0 hall fh VO t ht j
  | ⟨15, _⟩ => exact run1_value15_g5 c i arg3 harg3 arg4 harg4 f0 hall fh VO t ht j
  | ⟨16, _⟩ => exact run1_value16_g5 c i arg3 harg3 arg4 harg4 f0 hall fh VO t ht j
  | ⟨17, _⟩ => exact run1_value17_g5 c i arg3 harg3 arg4 harg4 f0 hall fh VO t ht j
  | ⟨18, _⟩ => exact run1_value18_g5 c i arg3 harg3 arg4 harg4 f0 hall fh VO t ht j
  | ⟨19, _⟩ => exact run1_value19_g5 c i arg3 harg3 arg4 harg4 f0 hall fh VO t ht j
  | ⟨20, _⟩ => exact run1_value20_g5 c i arg3 harg3 arg4 harg4 f0 hall fh VO t ht j
  | ⟨21, _⟩ => exact run1_value21_g5 c i arg3 harg3 arg4 harg4 f0 hall fh VO t ht j
  | ⟨22, _⟩ => exact run1_value22_g5 c i arg3 harg3 arg4 harg4 f0 hall fh VO t ht j
  | ⟨23, _⟩ => exact run1_value23_g5 c i arg3 harg3 arg4 harg4 f0 hall fh VO t ht j
  | ⟨24, _⟩ => exact run1_value24_g5 c i arg3 harg3 arg4 harg4 f0 hall fh VO t ht j
  | ⟨25, _⟩ => exact run1_value25_g5 c i arg3 harg3 arg4 harg4 f0 hall fh VO t ht j
  | ⟨26, _⟩ => exact run1_value26_g5 c i arg3 harg3 arg4 harg4 f0 hall fh VO t ht j
  | ⟨27, _⟩ => exact run1_value27_g5 c i arg3 harg3 arg4 harg4 f0 hall fh VO t ht j
  | ⟨28, _⟩ => exact run1_value28_g5 c i arg3 harg3 arg4 harg4 f0 hall fh VO t ht j
  | ⟨29, _⟩ => exact run1_value29_g5 c i arg3 harg3 arg4 harg4 f0 hall fh VO t ht j
  | ⟨30, _⟩ => exact run1_value30_g5 c i arg3 harg3 arg4 harg4 f0 hall fh VO t ht j
  | ⟨31, _⟩ => exact run1_value31_g5 c i arg3 harg3 arg4 harg4 f0 hall fh VO t ht j
  | ⟨n + 32, h⟩ => exact absurd h (by omega)

end Run

/-! ## Gather kernel 5: the point and the region -/

/-- A grid point's one coordinate is the point's number. -/
theorem coordsG1_g5 : ∀ t : Fin grid5.N, ((grid5.coords t) 0).val = t.val := by decide +kernel

/-- What the output block holds after the body at point `t`, at `[0, r, j]`: element `j` of the weight array's row at the
    table's word `[r, t]`. -/
theorem gather1_point_g5 (V : (c : Dev nD) → (b : Ref sig .tc) → Buf (Elt F) ((c : Thread nD τ).loc b))
    (hH : InRange5 (F := F) V) (c : Dev nD) (t : Fin (pcfgG5 (F := F) V).N) (r : Fin 32) (j : Fin 8) :
    outsAt5 V hH c t (ValueIdx.ix3 (0 : Fin 1) r j)
      = V c main_arg2 (ValueIdx.ix2 (⟨(V c main_v51 (ValueIdx.ix2 r (⟨t.val, lt_of_lt_of_eq t.isLt (NG1_g5 (adm5 (F := F) V))⟩ : Fin 1023))).toNat, hH c _⟩ : Fin 8388608) j) := by
  unfold outsAt5
  exact run1_value_g5 c (grid5.coords t) (ms5 V t) (hs5 V t) scM5 (Memref.isWhole_whole _) (V c main_v51) (hH c) (V c main_arg2) VO5
    (⟨t.val, lt_of_lt_of_eq t.isLt (NG1_g5 (adm5 (F := F) V))⟩ : Fin 1023) (coordsG1_g5 t) r j

/-- The output array of gather kernel 5 after its region's run, at `[t, r, j]`: element `j` of the weight array's row at the
    table's word `[r, t]`. -/
theorem gather1_value_g5 (V : (c : Dev nD) → (b : Ref sig .tc) → Buf (Elt F) ((c : Thread nD τ).loc b))
    (hH : InRange5 (F := F) V) (c : Dev nD) (t : Fin 1023) (r : Fin 32) (j : Fin 8) :
    (datG5 (F := F) V hH c).arrAt 0 (pcfgG5 (F := F) V).N (ValueIdx.ix3 t r j)
      = V c main_arg2 (ValueIdx.ix2 (⟨(V c main_v51 (ValueIdx.ix2 r t)).toNat, hH c _⟩ : Fin 8388608) j) := by
  rw [gather1_blocks_g5 V hH c t r j, gather1_point_g5 V hH c _ r j]

end Cert.KernelIdeal.Hand

end
-- ==== Proof.KernelIdealGatherValue6.lean ====
/-
  Gather kernel 6's region, from blocks to the array: the output array after the region's run is, block by block along its
  first axis, what the body leaves in the output block at each grid point.
-/
import proofs.«145402_j1717986918579_1_alg».proof.Proof.KernelIdealGather6
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g6 : ∀ t : Fin grid6.N, cc6_transform_1 (grid6.coords t) = ![t.val, 0, 0] := by decide +kernel

/-- The grid has 1023 points whatever the table holds. -/
theorem NG1_g6 (a : (pcfg6 (F := F)).Adm) : (cfg6 a).N = 1023 := N_6

/-- The output window's block index at a point does not read the table. -/
theorem indexG1_g6 (a : (pcfg6 (F := F)).Adm) (t : Fin (cfg6 a).N) :
    ((cfg6 a).win 0).index t = ![t.val, 0, 0] :=
  (rfl : ((cfg6 a).win 0).index t = cc6_transform_1 (grid6.coords t)).trans (trG1_g6 t)

/-- Every point writes its block back: the next point's block is another. -/
theorem flushG1_g6 (a : (pcfg6 (F := F)).Adm) (t : Fin (cfg6 a).N) : ((cfg6 a).win 0).flush t = true := by
  have hN : (cfg6 a).N = 1023 := NG1_g6 a
  have ht := t.isLt
  simp only [Pipeline.Window.flush, Bool.and_eq_true, Bool.or_eq_true, decide_eq_true_eq]
  refine ⟨rfl, ?_⟩
  by_cases h : t.val + 1 = (cfg6 a).N
  · exact Or.inl h
  · have hlt : t.val + 1 < (cfg6 a).N := by omega
    refine Or.inr ⟨hlt, ?_⟩
    rw [indexG1_g6, indexG1_g6]
    intro he
    have := congrFun he 0
    simp at this

/-! ## From blocks to the array, for any table contents -/

section Blocks
variable (a : (pcfg6 (F := F)).Adm) (c : Dev nD)
  (dat : Pipeline.Dat τ (Elt F) Unit ℕ (Pipeline.UD sig nD τ) ℕ (cfg6 a) c)
  (outs : Fin (cfg6 a).N → Vec F S1x32x8 .f32)

/-- The array whose block `t` along the first axis is the output block after the body at point `t`. -/
def allG1_g6 : S1023x32x8.Idx → Elt F .f32 := fun i =>
  outs ⟨(i 0).val, lt_of_lt_of_eq (i 0).isLt (NG1_g6 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g6 (t t' : Fin (cfg6 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g6 (t : Fin (cfg6 a).N) (y : S1x32x8.Idx) (i : S1023x32x8.Idx)
    (h0 : (i 0).val = t.val + (y 0).val) (h1 : (i 1).val = (y 1).val) (h2 : (i 2).val = (y 2).val) :
    ((((cfg6 a).win 0).blk t).view.emb y : S1023x32x8.Idx) = i := by
  have hidx := indexG1_g6 a t
  have e0 : ((cfg6 a).win 0).index t (0 : Fin 3) = t.val := congrFun hidx (0 : Fin 3)
  have e1 : ((cfg6 a).win 0).index t (1 : Fin 3) = 0 := congrFun hidx (1 : Fin 3)
  have e2 : ((cfg6 a).win 0).index t (2 : Fin 3) = 0 := congrFun hidx (2 : Fin 3)
  funext (b : Fin 3)
  apply Fin.ext
  match b with
  | ⟨0, _⟩ =>
    show ((cfg6 a).win 0).index t (0 : Fin 3) * 1 + 1 * (y 0).val = (i 0).val
    rw [e0, h0]; omega
  | ⟨1, _⟩ =>
    show ((cfg6 a).win 0).index t (1 : Fin 3) * 32 + 1 * (y 1).val = (i 1).val
    rw [e1, h1]; omega
  | ⟨2, _⟩ =>
    show ((cfg6 a).win 0).index t (2 : Fin 3) * 8 + 1 * (y 2).val = (i 2).val
    rw [e2, h2]; omega

/-- What point `t` writes back is block `t` of `allG1_g6`. -/
theorem flushedG1_eq_g6 (hafter : ∀ t, dat.after 0 t = outs t) (t : Fin (cfg6 a).N) :
    dat.flushed 0 t = (((cfg6 a).win 0).blk t).view.read (Elt F) (allG1_g6 a outs) := by
  show ((cfg6 a).win 0).cut ((cfg6 a).grid.coords t) (dat.after 0 t) = _
  rw [hafter]
  refine funext fun (j : S1x32x8.Idx) => ?_
  have hj0 : (j 0).val < 1 := (j 0).isLt
  show outs t j = allG1_g6 a outs ((((cfg6 a).win 0).blk t).view.emb j : S1023x32x8.Idx)
  rw [embG1_g6 a t j (ValueIdx.ix3 (⟨t.val, lt_of_lt_of_eq t.isLt (NG1_g6 a)⟩ : Fin 1023) (⟨(j 1).val, (j 1).isLt⟩ : Fin 32) (⟨(j 2).val, (j 2).isLt⟩ : Fin 8))
    (by show t.val = t.val + (j 0).val; omega) rfl rfl]
  unfold allG1_g6
  refine outs_congrG1_g6 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g6 (i : S1023x32x8.Idx) :
    ∃ t : Fin (cfg6 a).N, ((cfg6 a).win 0).flush t = true ∧ i ∈ (((cfg6 a).win 0).blk t).view.set := by
  refine ⟨⟨(i 0).val, lt_of_lt_of_eq (i 0).isLt (NG1_g6 a).symm⟩, flushG1_g6 a _, ?_⟩
  have he := embG1_g6 a ⟨(i 0).val, lt_of_lt_of_eq (i 0).isLt (NG1_g6 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg6 a).win 0).blk ⟨(i 0).val, lt_of_lt_of_eq (i 0).isLt (NG1_g6 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g6`: its 1023 blocks tile the array along the first axis. -/
theorem finalG1_g6 (hafter : ∀ t, dat.after 0 t = outs t) : dat.arrAt 0 (cfg6 a).N = allG1_g6 a outs :=
  dat.arrAt_eq_of_cover 0 (allG1_g6 a outs) (fun t _ => flushedG1_eq_g6 a c dat outs hafter t) (coverG1_g6 a)

/-- The output array after the region's run at `[t, r, j]` is the output block after the body at point `t`, at `[0, r, j]`. -/
theorem blocksG1_g6 (hafter : ∀ t, dat.after 0 t = outs t) (t : Fin 1023) (r : Fin 32) (j : Fin 8) :
    dat.arrAt 0 (cfg6 a).N (ValueIdx.ix3 t r j)
      = outs ⟨t.val, lt_of_lt_of_eq t.isLt (NG1_g6 a).symm⟩ (ValueIdx.ix3 (0 : Fin 1) r j) := by
  rw [finalG1_g6 a c dat outs hafter]
  rfl

end Blocks

/-! ## Gather kernel 6's region -/

/-- The output array of gather kernel 6 after its region's run, at `[t, r, j]`: what the body leaves in the output block at
    grid point `t`, at `[0, r, j]`. -/
theorem gather1_blocks_g6 (V : (c : Dev nD) → (b : Ref sig .tc) → Buf (Elt F) ((c : Thread nD τ).loc b))
    (hH : InRange6 (F := F) V) (c : Dev nD) (t : Fin 1023) (r : Fin 32) (j : Fin 8) :
    (datG6 (F := F) V hH c).arrAt 0 (pcfgG6 (F := F) V).N (ValueIdx.ix3 t r j)
      = outsAt6 V hH c ⟨t.val, lt_of_lt_of_eq t.isLt (NG1_g6 (adm6 (F := F) V)).symm⟩ (ValueIdx.ix3 (0 : Fin 1) r j) :=
  blocksG1_g6 (adm6 (F := F) V) c (datG6 (F := F) V hH c) (outsAt6 V hH c) (afterG6 V hH c) t r j

/-- The gather body's payload at `[0, r, j]` is the scratch block at `(r, j)`: the payload only adds a leading unit axis. -/
theorem pay1_apply_g6 (v : Vec F S32x8 .f32) (r : Fin 32) (j : Fin 8) :
    k6_pay1 (F := F) v (ValueIdx.ix3 (0 : Fin 1) r j) = v (ValueIdx.ix2 r j) := by
  unfold k6_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g6 : (![0, 0] : Fin 2 → Nat) = fun _ => 0 := funext fun a => by fin_cases a <;> rfl
theorem hzG3_g6 : (![0, 0, 0] : Fin 3 → Nat) = fun _ => 0 := funext fun a => by fin_cases a <;> rfl

/-- A one-row slice of the weight array at row `w`, squeezed to a row, reads the weight array at `[w, j]`. -/
theorem srcRow_read_g6 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g6 (f0 : HbBuf (F := F) c tbM6) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM6.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g6 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid6.Coords) (arg3 : Memref sig .tc .vmem S1x32x8 .f32) (harg3 : arg3.IsWhole)
  (arg4 : Memref sig .tc .vmem S32x8 .f32) (harg4 : arg4.IsWhole)
  (f0 : HbBuf (F := F) c tbM6) (hall : ∀ j, (f0 j).toNat < 8388608) (fh : HbBuf (F := F) c hbM)

/-- The run's pieces: one store of the whole block, its payload the scratch block read after the copies landed. -/
theorem run1_list_g6 : (kernelRun6 c i arg3 harg3 arg4 harg4 f0 hall fh).1
    = [⟨Rect.unit (s := S1x32x8) ![0, 0, 0] S1x32x8.size inb_S1x32x8_S1x32x8_0_0_0, k6_pay1 (kernelRun6.sl.v448 c i arg4 f0 hall fh)⟩] := rfl

/-- Row `r` of the output block after the body is the `(r + 1)`-th copy's delivery, which is the weight array's row at the
    table's word `[r, t]`: the same three steps for each of the thirty-two rows. -/
theorem run1_row0_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (0 : Fin 32) j)
      = kernelRun6.sl.dma1 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_0 c arg4 harg4]
  exact rowWrites_read c arg4 harg4 _ _ 0 (by decide) j
theorem run1_value0_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g6]
  unfold kernelRun6.sl.dma1
  have hwd : kernelRun6.sl.r (F := F) c i f0 = f0 (ValueIdx.ix2 (0 : Fin 32) t) := by
    unfold kernelRun6.sl.r
    exact tblWord_read_g6 c f0 _ (0 : Fin 32) t ((k6_off1_eq i).trans (by rw [ht]; rfl)) _ _
  exact (srcRow_read_g6 c fh (kernelRun6.sl.r (F := F) c i f0) (k6_off2 (kernelRun6.sl.r (F := F) c i f0)) rfl _ _ _
    (hwd ▸ hall _) j).trans (fh_congr_g6 c fh _ _ hwd _ _ j)

theorem run1_row1_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (1 : Fin 32) j)
      = kernelRun6.sl.dma2 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_1 c arg4 harg4]
  exact rowWrites_read c arg4 harg4 _ _ 1 (by decide) j
theorem run1_value1_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g6]
  unfold kernelRun6.sl.dma2
  have hwd : kernelRun6.sl.r_1 (F := F) c i f0 = f0 (ValueIdx.ix2 (1 : Fin 32) t) := by
    unfold kernelRun6.sl.r_1
    exact tblWord_read_g6 c f0 _ (1 : Fin 32) t ((k6_off3_eq i).trans (by rw [ht]; rfl)) _ _
  exact (srcRow_read_g6 c fh (kernelRun6.sl.r_1 (F := F) c i f0) (k6_off4 (kernelRun6.sl.r_1 (F := F) c i f0)) rfl _ _ _
    (hwd ▸ hall _) j).trans (fh_congr_g6 c fh _ _ hwd _ _ j)

theorem run1_row2_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (2 : Fin 32) j)
      = kernelRun6.sl.dma3 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_2 c arg4 harg4]
  exact rowWrites_read c arg4 harg4 _ _ 2 (by decide) j
theorem run1_value2_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g6]
  unfold kernelRun6.sl.dma3
  have hwd : kernelRun6.sl.r_2 (F := F) c i f0 = f0 (ValueIdx.ix2 (2 : Fin 32) t) := by
    unfold kernelRun6.sl.r_2
    exact tblWord_read_g6 c f0 _ (2 : Fin 32) t ((k6_off5_eq i).trans (by rw [ht]; rfl)) _ _
  exact (srcRow_read_g6 c fh (kernelRun6.sl.r_2 (F := F) c i f0) (k6_off6 (kernelRun6.sl.r_2 (F := F) c i f0)) rfl _ _ _
    (hwd ▸ hall _) j).trans (fh_congr_g6 c fh _ _ hwd _ _ j)

theorem run1_row3_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (3 : Fin 32) j)
      = kernelRun6.sl.dma4 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_3 c arg4 harg4]
  exact rowWrites_read c arg4 harg4 _ _ 3 (by decide) j
theorem run1_value3_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g6]
  unfold kernelRun6.sl.dma4
  have hwd : kernelRun6.sl.r_3 (F := F) c i f0 = f0 (ValueIdx.ix2 (3 : Fin 32) t) := by
    unfold kernelRun6.sl.r_3
    exact tblWord_read_g6 c f0 _ (3 : Fin 32) t ((k6_off7_eq i).trans (by rw [ht]; rfl)) _ _
  exact (srcRow_read_g6 c fh (kernelRun6.sl.r_3 (F := F) c i f0) (k6_off8 (kernelRun6.sl.r_3 (F := F) c i f0)) rfl _ _ _
    (hwd ▸ hall _) j).trans (fh_congr_g6 c fh _ _ hwd _ _ j)

theorem run1_row4_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (4 : Fin 32) j)
      = kernelRun6.sl.dma5 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_4 c arg4 harg4]
  exact rowWrites_read c arg4 harg4 _ _ 4 (by decide) j
theorem run1_value4_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g6]
  unfold kernelRun6.sl.dma5
  have hwd : kernelRun6.sl.r_4 (F := F) c i f0 = f0 (ValueIdx.ix2 (4 : Fin 32) t) := by
    unfold kernelRun6.sl.r_4
    exact tblWord_read_g6 c f0 _ (4 : Fin 32) t ((k6_off9_eq i).trans (by rw [ht]; rfl)) _ _
  exact (srcRow_read_g6 c fh (kernelRun6.sl.r_4 (F := F) c i f0) (k6_off10 (kernelRun6.sl.r_4 (F := F) c i f0)) rfl _ _ _
    (hwd ▸ hall _) j).trans (fh_congr_g6 c fh _ _ hwd _ _ j)

theorem run1_row5_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (5 : Fin 32) j)
      = kernelRun6.sl.dma6 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_5 c arg4 harg4]
  exact rowWrites_read c arg4 harg4 _ _ 5 (by decide) j
theorem run1_value5_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g6]
  unfold kernelRun6.sl.dma6
  have hwd : kernelRun6.sl.r_5 (F := F) c i f0 = f0 (ValueIdx.ix2 (5 : Fin 32) t) := by
    unfold kernelRun6.sl.r_5
    exact tblWord_read_g6 c f0 _ (5 : Fin 32) t ((k6_off11_eq i).trans (by rw [ht]; rfl)) _ _
  exact (srcRow_read_g6 c fh (kernelRun6.sl.r_5 (F := F) c i f0) (k6_off12 (kernelRun6.sl.r_5 (F := F) c i f0)) rfl _ _ _
    (hwd ▸ hall _) j).trans (fh_congr_g6 c fh _ _ hwd _ _ j)

theorem run1_row6_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (6 : Fin 32) j)
      = kernelRun6.sl.dma7 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_6 c arg4 harg4]
  exact rowWrites_read c arg4 harg4 _ _ 6 (by decide) j
theorem run1_value6_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g6]
  unfold kernelRun6.sl.dma7
  have hwd : kernelRun6.sl.r_6 (F := F) c i f0 = f0 (ValueIdx.ix2 (6 : Fin 32) t) := by
    unfold kernelRun6.sl.r_6
    exact tblWord_read_g6 c f0 _ (6 : Fin 32) t ((k6_off13_eq i).trans (by rw [ht]; rfl)) _ _
  exact (srcRow_read_g6 c fh (kernelRun6.sl.r_6 (F := F) c i f0) (k6_off14 (kernelRun6.sl.r_6 (F := F) c i f0)) rfl _ _ _
    (hwd ▸ hall _) j).trans (fh_congr_g6 c fh _ _ hwd _ _ j)

theorem run1_row7_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (7 : Fin 32) j)
      = kernelRun6.sl.dma8 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_7 c arg4 harg4]
  exact rowWrites_read c arg4 harg4 _ _ 7 (by decide) j
theorem run1_value7_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g6]
  unfold kernelRun6.sl.dma8
  have hwd : kernelRun6.sl.r_7 (F := F) c i f0 = f0 (ValueIdx.ix2 (7 : Fin 32) t) := by
    unfold kernelRun6.sl.r_7
    exact tblWord_read_g6 c f0 _ (7 : Fin 32) t ((k6_off15_eq i).trans (by rw [ht]; rfl)) _ _
  exact (srcRow_read_g6 c fh (kernelRun6.sl.r_7 (F := F) c i f0) (k6_off16 (kernelRun6.sl.r_7 (F := F) c i f0)) rfl _ _ _
    (hwd ▸ hall _) j).trans (fh_congr_g6 c fh _ _ hwd _ _ j)

theorem run1_row8_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (8 : Fin 32) j)
      = kernelRun6.sl.dma9 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_8 c arg4 harg4]
  exact rowWrites_read c arg4 harg4 _ _ 8 (by decide) j
theorem run1_value8_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g6]
  unfold kernelRun6.sl.dma9
  have hwd : kernelRun6.sl.r_8 (F := F) c i f0 = f0 (ValueIdx.ix2 (8 : Fin 32) t) := by
    unfold kernelRun6.sl.r_8
    exact tblWord_read_g6 c f0 _ (8 : Fin 32) t ((k6_off17_eq i).trans (by rw [ht]; rfl)) _ _
  exact (srcRow_read_g6 c fh (kernelRun6.sl.r_8 (F := F) c i f0) (k6_off18 (kernelRun6.sl.r_8 (F := F) c i f0)) rfl _ _ _
    (hwd ▸ hall _) j).trans (fh_congr_g6 c fh _ _ hwd _ _ j)

theorem run1_row9_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (9 : Fin 32) j)
      = kernelRun6.sl.dma10 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_9 c arg4 harg4]
  exact rowWrites_read c arg4 harg4 _ _ 9 (by decide) j
theorem run1_value9_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g6]
  unfold kernelRun6.sl.dma10
  have hwd : kernelRun6.sl.r_9 (F := F) c i f0 = f0 (ValueIdx.ix2 (9 : Fin 32) t) := by
    unfold kernelRun6.sl.r_9
    exact tblWord_read_g6 c f0 _ (9 : Fin 32) t ((k6_off19_eq i).trans (by rw [ht]; rfl)) _ _
  exact (srcRow_read_g6 c fh (kernelRun6.sl.r_9 (F := F) c i f0) (k6_off20 (kernelRun6.sl.r_9 (F := F) c i f0)) rfl _ _ _
    (hwd ▸ hall _) j).trans (fh_congr_g6 c fh _ _ hwd _ _ j)

theorem run1_row10_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (10 : Fin 32) j)
      = kernelRun6.sl.dma11 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_10 c arg4 harg4]
  exact rowWrites_read c arg4 harg4 _ _ 10 (by decide) j
theorem run1_value10_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g6]
  unfold kernelRun6.sl.dma11
  have hwd : kernelRun6.sl.r_10 (F := F) c i f0 = f0 (ValueIdx.ix2 (10 : Fin 32) t) := by
    unfold kernelRun6.sl.r_10
    exact tblWord_read_g6 c f0 _ (10 : Fin 32) t ((k6_off21_eq i).trans (by rw [ht]; rfl)) _ _
  exact (srcRow_read_g6 c fh (kernelRun6.sl.r_10 (F := F) c i f0) (k6_off22 (kernelRun6.sl.r_10 (F := F) c i f0)) rfl _ _ _
    (hwd ▸ hall _) j).trans (fh_congr_g6 c fh _ _ hwd _ _ j)

theorem run1_row11_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (11 : Fin 32) j)
      = kernelRun6.sl.dma12 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_11 c arg4 harg4]
  exact rowWrites_read c arg4 harg4 _ _ 11 (by decide) j
theorem run1_value11_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g6]
  unfold kernelRun6.sl.dma12
  have hwd : kernelRun6.sl.r_11 (F := F) c i f0 = f0 (ValueIdx.ix2 (11 : Fin 32) t) := by
    unfold kernelRun6.sl.r_11
    exact tblWord_read_g6 c f0 _ (11 : Fin 32) t ((k6_off23_eq i).trans (by rw [ht]; rfl)) _ _
  exact (srcRow_read_g6 c fh (kernelRun6.sl.r_11 (F := F) c i f0) (k6_off24 (kernelRun6.sl.r_11 (F := F) c i f0)) rfl _ _ _
    (hwd ▸ hall _) j).trans (fh_congr_g6 c fh _ _ hwd _ _ j)

theorem run1_row12_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (12 : Fin 32) j)
      = kernelRun6.sl.dma13 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_12 c arg4 harg4]
  exact rowWrites_read c arg4 harg4 _ _ 12 (by decide) j
theorem run1_value12_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g6]
  unfold kernelRun6.sl.dma13
  have hwd : kernelRun6.sl.r_12 (F := F) c i f0 = f0 (ValueIdx.ix2 (12 : Fin 32) t) := by
    unfold kernelRun6.sl.r_12
    exact tblWord_read_g6 c f0 _ (12 : Fin 32) t ((k6_off25_eq i).trans (by rw [ht]; rfl)) _ _
  exact (srcRow_read_g6 c fh (kernelRun6.sl.r_12 (F := F) c i f0) (k6_off26 (kernelRun6.sl.r_12 (F := F) c i f0)) rfl _ _ _
    (hwd ▸ hall _) j).trans (fh_congr_g6 c fh _ _ hwd _ _ j)

theorem run1_row13_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (13 : Fin 32) j)
      = kernelRun6.sl.dma14 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_13 c arg4 harg4]
  exact rowWrites_read c arg4 harg4 _ _ 13 (by decide) j
theorem run1_value13_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g6]
  unfold kernelRun6.sl.dma14
  have hwd : kernelRun6.sl.r_13 (F := F) c i f0 = f0 (ValueIdx.ix2 (13 : Fin 32) t) := by
    unfold kernelRun6.sl.r_13
    exact tblWord_read_g6 c f0 _ (13 : Fin 32) t ((k6_off27_eq i).trans (by rw [ht]; rfl)) _ _
  exact (srcRow_read_g6 c fh (kernelRun6.sl.r_13 (F := F) c i f0) (k6_off28 (kernelRun6.sl.r_13 (F := F) c i f0)) rfl _ _ _
    (hwd ▸ hall _) j).trans (fh_congr_g6 c fh _ _ hwd _ _ j)

theorem run1_row14_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (14 : Fin 32) j)
      = kernelRun6.sl.dma15 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_14 c arg4 harg4]
  exact rowWrites_read c arg4 harg4 _ _ 14 (by decide) j
theorem run1_value14_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g6]
  unfold kernelRun6.sl.dma15
  have hwd : kernelRun6.sl.r_14 (F := F) c i f0 = f0 (ValueIdx.ix2 (14 : Fin 32) t) := by
    unfold kernelRun6.sl.r_14
    exact tblWord_read_g6 c f0 _ (14 : Fin 32) t ((k6_off29_eq i).trans (by rw [ht]; rfl)) _ _
  exact (srcRow_read_g6 c fh (kernelRun6.sl.r_14 (F := F) c i f0) (k6_off30 (kernelRun6.sl.r_14 (F := F) c i f0)) rfl _ _ _
    (hwd ▸ hall _) j).trans (fh_congr_g6 c fh _ _ hwd _ _ j)

theorem run1_row15_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (15 : Fin 32) j)
      = kernelRun6.sl.dma16 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_15 c arg4 harg4]
  exact rowWrites_read c arg4 harg4 _ _ 15 (by decide) j
theorem run1_value15_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g6]
  unfold kernelRun6.sl.dma16
  have hwd : kernelRun6.sl.r_15 (F := F) c i f0 = f0 (ValueIdx.ix2 (15 : Fin 32) t) := by
    unfold kernelRun6.sl.r_15
    exact tblWord_read_g6 c f0 _ (15 : Fin 32) t ((k6_off31_eq i).trans (by rw [ht]; rfl)) _ _
  exact (srcRow_read_g6 c fh (kernelRun6.sl.r_15 (F := F) c i f0) (k6_off32 (kernelRun6.sl.r_15 (F := F) c i f0)) rfl _ _ _
    (hwd ▸ hall _) j).trans (fh_congr_g6 c fh _ _ hwd _ _ j)

theorem run1_row16_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (16 : Fin 32) j)
      = kernelRun6.sl.dma17 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_16 c arg4 harg4]
  exact rowWrites_read c arg4 harg4 _ _ 16 (by decide) j
theorem run1_value16_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g6]
  unfold kernelRun6.sl.dma17
  have hwd : kernelRun6.sl.r_16 (F := F) c i f0 = f0 (ValueIdx.ix2 (16 : Fin 32) t) := by
    unfold kernelRun6.sl.r_16
    exact tblWord_read_g6 c f0 _ (16 : Fin 32) t ((k6_off33_eq i).trans (by rw [ht]; rfl)) _ _
  exact (srcRow_read_g6 c fh (kernelRun6.sl.r_16 (F := F) c i f0) (k6_off34 (kernelRun6.sl.r_16 (F := F) c i f0)) rfl _ _ _
    (hwd ▸ hall _) j).trans (fh_congr_g6 c fh _ _ hwd _ _ j)

theorem run1_row17_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (17 : Fin 32) j)
      = kernelRun6.sl.dma18 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_17 c arg4 harg4]
  exact rowWrites_read c arg4 harg4 _ _ 17 (by decide) j
theorem run1_value17_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g6]
  unfold kernelRun6.sl.dma18
  have hwd : kernelRun6.sl.r_17 (F := F) c i f0 = f0 (ValueIdx.ix2 (17 : Fin 32) t) := by
    unfold kernelRun6.sl.r_17
    exact tblWord_read_g6 c f0 _ (17 : Fin 32) t ((k6_off35_eq i).trans (by rw [ht]; rfl)) _ _
  exact (srcRow_read_g6 c fh (kernelRun6.sl.r_17 (F := F) c i f0) (k6_off36 (kernelRun6.sl.r_17 (F := F) c i f0)) rfl _ _ _
    (hwd ▸ hall _) j).trans (fh_congr_g6 c fh _ _ hwd _ _ j)

theorem run1_row18_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (18 : Fin 32) j)
      = kernelRun6.sl.dma19 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_18 c arg4 harg4]
  exact rowWrites_read c arg4 harg4 _ _ 18 (by decide) j
theorem run1_value18_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g6]
  unfold kernelRun6.sl.dma19
  have hwd : kernelRun6.sl.r_18 (F := F) c i f0 = f0 (ValueIdx.ix2 (18 : Fin 32) t) := by
    unfold kernelRun6.sl.r_18
    exact tblWord_read_g6 c f0 _ (18 : Fin 32) t ((k6_off37_eq i).trans (by rw [ht]; rfl)) _ _
  exact (srcRow_read_g6 c fh (kernelRun6.sl.r_18 (F := F) c i f0) (k6_off38 (kernelRun6.sl.r_18 (F := F) c i f0)) rfl _ _ _
    (hwd ▸ hall _) j).trans (fh_congr_g6 c fh _ _ hwd _ _ j)

theorem run1_row19_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (19 : Fin 32) j)
      = kernelRun6.sl.dma20 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_19 c arg4 harg4]
  exact rowWrites_read c arg4 harg4 _ _ 19 (by decide) j
theorem run1_value19_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g6]
  unfold kernelRun6.sl.dma20
  have hwd : kernelRun6.sl.r_19 (F := F) c i f0 = f0 (ValueIdx.ix2 (19 : Fin 32) t) := by
    unfold kernelRun6.sl.r_19
    exact tblWord_read_g6 c f0 _ (19 : Fin 32) t ((k6_off39_eq i).trans (by rw [ht]; rfl)) _ _
  exact (srcRow_read_g6 c fh (kernelRun6.sl.r_19 (F := F) c i f0) (k6_off40 (kernelRun6.sl.r_19 (F := F) c i f0)) rfl _ _ _
    (hwd ▸ hall _) j).trans (fh_congr_g6 c fh _ _ hwd _ _ j)

theorem run1_row20_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (20 : Fin 32) j)
      = kernelRun6.sl.dma21 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_20 c arg4 harg4]
  exact rowWrites_read c arg4 harg4 _ _ 20 (by decide) j
theorem run1_value20_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g6]
  unfold kernelRun6.sl.dma21
  have hwd : kernelRun6.sl.r_20 (F := F) c i f0 = f0 (ValueIdx.ix2 (20 : Fin 32) t) := by
    unfold kernelRun6.sl.r_20
    exact tblWord_read_g6 c f0 _ (20 : Fin 32) t ((k6_off41_eq i).trans (by rw [ht]; rfl)) _ _
  exact (srcRow_read_g6 c fh (kernelRun6.sl.r_20 (F := F) c i f0) (k6_off42 (kernelRun6.sl.r_20 (F := F) c i f0)) rfl _ _ _
    (hwd ▸ hall _) j).trans (fh_congr_g6 c fh _ _ hwd _ _ j)

theorem run1_row21_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (21 : Fin 32) j)
      = kernelRun6.sl.dma22 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_21 c arg4 harg4]
  exact rowWrites_read c arg4 harg4 _ _ 21 (by decide) j
theorem run1_value21_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g6]
  unfold kernelRun6.sl.dma22
  have hwd : kernelRun6.sl.r_21 (F := F) c i f0 = f0 (ValueIdx.ix2 (21 : Fin 32) t) := by
    unfold kernelRun6.sl.r_21
    exact tblWord_read_g6 c f0 _ (21 : Fin 32) t ((k6_off43_eq i).trans (by rw [ht]; rfl)) _ _
  exact (srcRow_read_g6 c fh (kernelRun6.sl.r_21 (F := F) c i f0) (k6_off44 (kernelRun6.sl.r_21 (F := F) c i f0)) rfl _ _ _
    (hwd ▸ hall _) j).trans (fh_congr_g6 c fh _ _ hwd _ _ j)

theorem run1_row22_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (22 : Fin 32) j)
      = kernelRun6.sl.dma23 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_22 c arg4 harg4]
  exact rowWrites_read c arg4 harg4 _ _ 22 (by decide) j
theorem run1_value22_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g6]
  unfold kernelRun6.sl.dma23
  have hwd : kernelRun6.sl.r_22 (F := F) c i f0 = f0 (ValueIdx.ix2 (22 : Fin 32) t) := by
    unfold kernelRun6.sl.r_22
    exact tblWord_read_g6 c f0 _ (22 : Fin 32) t ((k6_off45_eq i).trans (by rw [ht]; rfl)) _ _
  exact (srcRow_read_g6 c fh (kernelRun6.sl.r_22 (F := F) c i f0) (k6_off46 (kernelRun6.sl.r_22 (F := F) c i f0)) rfl _ _ _
    (hwd ▸ hall _) j).trans (fh_congr_g6 c fh _ _ hwd _ _ j)

theorem run1_row23_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (23 : Fin 32) j)
      = kernelRun6.sl.dma24 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_23 c arg4 harg4]
  exact rowWrites_read c arg4 harg4 _ _ 23 (by decide) j
theorem run1_value23_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g6]
  unfold kernelRun6.sl.dma24
  have hwd : kernelRun6.sl.r_23 (F := F) c i f0 = f0 (ValueIdx.ix2 (23 : Fin 32) t) := by
    unfold kernelRun6.sl.r_23
    exact tblWord_read_g6 c f0 _ (23 : Fin 32) t ((k6_off47_eq i).trans (by rw [ht]; rfl)) _ _
  exact (srcRow_read_g6 c fh (kernelRun6.sl.r_23 (F := F) c i f0) (k6_off48 (kernelRun6.sl.r_23 (F := F) c i f0)) rfl _ _ _
    (hwd ▸ hall _) j).trans (fh_congr_g6 c fh _ _ hwd _ _ j)

theorem run1_row24_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (24 : Fin 32) j)
      = kernelRun6.sl.dma25 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_24 c arg4 harg4]
  exact rowWrites_read c arg4 harg4 _ _ 24 (by decide) j
theorem run1_value24_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g6]
  unfold kernelRun6.sl.dma25
  have hwd : kernelRun6.sl.r_24 (F := F) c i f0 = f0 (ValueIdx.ix2 (24 : Fin 32) t) := by
    unfold kernelRun6.sl.r_24
    exact tblWord_read_g6 c f0 _ (24 : Fin 32) t ((k6_off49_eq i).trans (by rw [ht]; rfl)) _ _
  exact (srcRow_read_g6 c fh (kernelRun6.sl.r_24 (F := F) c i f0) (k6_off50 (kernelRun6.sl.r_24 (F := F) c i f0)) rfl _ _ _
    (hwd ▸ hall _) j).trans (fh_congr_g6 c fh _ _ hwd _ _ j)

theorem run1_row25_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (25 : Fin 32) j)
      = kernelRun6.sl.dma26 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_25 c arg4 harg4]
  exact rowWrites_read c arg4 harg4 _ _ 25 (by decide) j
theorem run1_value25_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g6]
  unfold kernelRun6.sl.dma26
  have hwd : kernelRun6.sl.r_25 (F := F) c i f0 = f0 (ValueIdx.ix2 (25 : Fin 32) t) := by
    unfold kernelRun6.sl.r_25
    exact tblWord_read_g6 c f0 _ (25 : Fin 32) t ((k6_off51_eq i).trans (by rw [ht]; rfl)) _ _
  exact (srcRow_read_g6 c fh (kernelRun6.sl.r_25 (F := F) c i f0) (k6_off52 (kernelRun6.sl.r_25 (F := F) c i f0)) rfl _ _ _
    (hwd ▸ hall _) j).trans (fh_congr_g6 c fh _ _ hwd _ _ j)

theorem run1_row26_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (26 : Fin 32) j)
      = kernelRun6.sl.dma27 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_26 c arg4 harg4]
  exact rowWrites_read c arg4 harg4 _ _ 26 (by decide) j
theorem run1_value26_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g6]
  unfold kernelRun6.sl.dma27
  have hwd : kernelRun6.sl.r_26 (F := F) c i f0 = f0 (ValueIdx.ix2 (26 : Fin 32) t) := by
    unfold kernelRun6.sl.r_26
    exact tblWord_read_g6 c f0 _ (26 : Fin 32) t ((k6_off53_eq i).trans (by rw [ht]; rfl)) _ _
  exact (srcRow_read_g6 c fh (kernelRun6.sl.r_26 (F := F) c i f0) (k6_off54 (kernelRun6.sl.r_26 (F := F) c i f0)) rfl _ _ _
    (hwd ▸ hall _) j).trans (fh_congr_g6 c fh _ _ hwd _ _ j)

theorem run1_row27_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (27 : Fin 32) j)
      = kernelRun6.sl.dma28 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_27 c arg4 harg4]
  exact rowWrites_read c arg4 harg4 _ _ 27 (by decide) j
theorem run1_value27_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g6]
  unfold kernelRun6.sl.dma28
  have hwd : kernelRun6.sl.r_27 (F := F) c i f0 = f0 (ValueIdx.ix2 (27 : Fin 32) t) := by
    unfold kernelRun6.sl.r_27
    exact tblWord_read_g6 c f0 _ (27 : Fin 32) t ((k6_off55_eq i).trans (by rw [ht]; rfl)) _ _
  exact (srcRow_read_g6 c fh (kernelRun6.sl.r_27 (F := F) c i f0) (k6_off56 (kernelRun6.sl.r_27 (F := F) c i f0)) rfl _ _ _
    (hwd ▸ hall _) j).trans (fh_congr_g6 c fh _ _ hwd _ _ j)

theorem run1_row28_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (28 : Fin 32) j)
      = kernelRun6.sl.dma29 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_28 c arg4 harg4]
  exact rowWrites_read c arg4 harg4 _ _ 28 (by decide) j
theorem run1_value28_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g6]
  unfold kernelRun6.sl.dma29
  have hwd : kernelRun6.sl.r_28 (F := F) c i f0 = f0 (ValueIdx.ix2 (28 : Fin 32) t) := by
    unfold kernelRun6.sl.r_28
    exact tblWord_read_g6 c f0 _ (28 : Fin 32) t ((k6_off57_eq i).trans (by rw [ht]; rfl)) _ _
  exact (srcRow_read_g6 c fh (kernelRun6.sl.r_28 (F := F) c i f0) (k6_off58 (kernelRun6.sl.r_28 (F := F) c i f0)) rfl _ _ _
    (hwd ▸ hall _) j).trans (fh_congr_g6 c fh _ _ hwd _ _ j)

theorem run1_row29_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (29 : Fin 32) j)
      = kernelRun6.sl.dma30 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_29 c arg4 harg4]
  exact rowWrites_read c arg4 harg4 _ _ 29 (by decide) j
theorem run1_value29_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g6]
  unfold kernelRun6.sl.dma30
  have hwd : kernelRun6.sl.r_29 (F := F) c i f0 = f0 (ValueIdx.ix2 (29 : Fin 32) t) := by
    unfold kernelRun6.sl.r_29
    exact tblWord_read_g6 c f0 _ (29 : Fin 32) t ((k6_off59_eq i).trans (by rw [ht]; rfl)) _ _
  exact (srcRow_read_g6 c fh (kernelRun6.sl.r_29 (F := F) c i f0) (k6_off60 (kernelRun6.sl.r_29 (F := F) c i f0)) rfl _ _ _
    (hwd ▸ hall _) j).trans (fh_congr_g6 c fh _ _ hwd _ _ j)

theorem run1_row30_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (30 : Fin 32) j)
      = kernelRun6.sl.dma31 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_30 c arg4 harg4]
  exact rowWrites_read c arg4 harg4 _ _ 30 (by decide) j
theorem run1_value30_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g6]
  unfold kernelRun6.sl.dma31
  have hwd : kernelRun6.sl.r_30 (F := F) c i f0 = f0 (ValueIdx.ix2 (30 : Fin 32) t) := by
    unfold kernelRun6.sl.r_30
    exact tblWord_read_g6 c f0 _ (30 : Fin 32) t ((k6_off61_eq i).trans (by rw [ht]; rfl)) _ _
  exact (srcRow_read_g6 c fh (kernelRun6.sl.r_30 (F := F) c i f0) (k6_off62 (kernelRun6.sl.r_30 (F := F) c i f0)) rfl _ _ _
    (hwd ▸ hall _) j).trans (fh_congr_g6 c fh _ _ hwd _ _ j)

theorem run1_row31_g6 (VO : View sig .tc .vmem S1x32x8 .f32) (j : Fin 8) :
    VO.read (Elt F) (VO.writes (Elt F) VO.junk (kernelRun6 c i arg3 harg3 arg4 harg4 f0 hall fh).1) (ValueIdx.ix3 (0 : Fin 1) (31 : Fin 32) j)
      = kernelRun6.sl.dma32 c i f0 hall fh (ValueIdx.ix1 j) := by
  rw [View.read_writes_eq_canon _ _ _ (coverRun6 c i arg3 harg3 arg4 harg4 f0 hall fh), run1_list_g6, View.canon_unit_zero hzG3_g6, pay1_apply_g6]
  unfold kernelRun6.sl.v448
  rw [View.readAt_eq_ld, View.ld_unit_zero (S := S32x8) hzG2_g6]
  rw [joinRows32_read_31 c arg4 harg4]
  exact rowWrites_read c arg4 harg4 _ _ 31 (by decide) j
theorem run1_value31_g6 (VO : View sig .tc .vmem S1x32x8 .f32) (t : Fin 1023) (ht : (i 0).val = t.val) (j : Fin 8) :
    VO.read (Elt F) (VO.writes (Elt F) VO.junk (kernelRun6 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g6]
  unfold kernelRun6.sl.dma32
  have hwd : kernelRun6.sl.r_31 (F := F) c i f0 = f0 (ValueIdx.ix2 (31 : Fin 32) t) := by
    unfold kernelRun6.sl.r_31
    exact tblWord_read_g6 c f0 _ (31 : Fin 32) t ((k6_off63_eq i).trans (by rw [ht]; rfl)) _ _
  exact (srcRow_read_g6 c fh (kernelRun6.sl.r_31 (F := F) c i f0) (k6_off64 (kernelRun6.sl.r_31 (F := F) c i f0)) rfl _ _ _
    (hwd ▸ hall _) j).trans (fh_congr_g6 c fh _ _ hwd _ _ j)

/-- The output block after the body at `[0, r, j]`: the weight array's row at the table's word `[r, t]`, element `j`. -/
theorem run1_value_g6 (VO : View sig .tc .vmem S1x32x8 .f32) (t : Fin 1023) (ht : (i 0).val = t.val) (r : Fin 32) (j : Fin 8) :
    VO.read (Elt F) (VO.writes (Elt F) VO.junk (kernelRun6 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g6 c i arg3 harg3 arg4 harg4 f0 hall fh VO t ht j
  | ⟨1, _⟩ => exact run1_value1_g6 c i arg3 harg3 arg4 harg4 f0 hall fh VO t ht j
  | ⟨2, _⟩ => exact run1_value2_g6 c i arg3 harg3 arg4 harg4 f0 hall fh VO t ht j
  | ⟨3, _⟩ => exact run1_value3_g6 c i arg3 harg3 arg4 harg4 f0 hall fh VO t ht j
  | ⟨4, _⟩ => exact run1_value4_g6 c i arg3 harg3 arg4 harg4 f0 hall fh VO t ht j
  | ⟨5, _⟩ => exact run1_value5_g6 c i arg3 harg3 arg4 harg4 f0 hall fh VO t ht j
  | ⟨6, _⟩ => exact run1_value6_g6 c i arg3 harg3 arg4 harg4 f0 hall fh VO t ht j
  | ⟨7, _⟩ => exact run1_value7_g6 c i arg3 harg3 arg4 harg4 f0 hall fh VO t ht j
  | ⟨8, _⟩ => exact run1_value8_g6 c i arg3 harg3 arg4 harg4 f0 hall fh VO t ht j
  | ⟨9, _⟩ => exact run1_value9_g6 c i arg3 harg3 arg4 harg4 f0 hall fh VO t ht j
  | ⟨10, _⟩ => exact run1_value10_g6 c i arg3 harg3 arg4 harg4 f0 hall fh VO t ht j
  | ⟨11, _⟩ => exact run1_value11_g6 c i arg3 harg3 arg4 harg4 f0 hall fh VO t ht j
  | ⟨12, _⟩ => exact run1_value12_g6 c i arg3 harg3 arg4 harg4 f0 hall fh VO t ht j
  | ⟨13, _⟩ => exact run1_value13_g6 c i arg3 harg3 arg4 harg4 f0 hall fh VO t ht j
  | ⟨14, _⟩ => exact run1_value14_g6 c i arg3 harg3 arg4 harg4 f0 hall fh VO t ht j
  | ⟨15, _⟩ => exact run1_value15_g6 c i arg3 harg3 arg4 harg4 f0 hall fh VO t ht j
  | ⟨16, _⟩ => exact run1_value16_g6 c i arg3 harg3 arg4 harg4 f0 hall fh VO t ht j
  | ⟨17, _⟩ => exact run1_value17_g6 c i arg3 harg3 arg4 harg4 f0 hall fh VO t ht j
  | ⟨18, _⟩ => exact run1_value18_g6 c i arg3 harg3 arg4 harg4 f0 hall fh VO t ht j
  | ⟨19, _⟩ => exact run1_value19_g6 c i arg3 harg3 arg4 harg4 f0 hall fh VO t ht j
  | ⟨20, _⟩ => exact run1_value20_g6 c i arg3 harg3 arg4 harg4 f0 hall fh VO t ht j
  | ⟨21, _⟩ => exact run1_value21_g6 c i arg3 harg3 arg4 harg4 f0 hall fh VO t ht j
  | ⟨22, _⟩ => exact run1_value22_g6 c i arg3 harg3 arg4 harg4 f0 hall fh VO t ht j
  | ⟨23, _⟩ => exact run1_value23_g6 c i arg3 harg3 arg4 harg4 f0 hall fh VO t ht j
  | ⟨24, _⟩ => exact run1_value24_g6 c i arg3 harg3 arg4 harg4 f0 hall fh VO t ht j
  | ⟨25, _⟩ => exact run1_value25_g6 c i arg3 harg3 arg4 harg4 f0 hall fh VO t ht j
  | ⟨26, _⟩ => exact run1_value26_g6 c i arg3 harg3 arg4 harg4 f0 hall fh VO t ht j
  | ⟨27, _⟩ => exact run1_value27_g6 c i arg3 harg3 arg4 harg4 f0 hall fh VO t ht j
  | ⟨28, _⟩ => exact run1_value28_g6 c i arg3 harg3 arg4 harg4 f0 hall fh VO t ht j
  | ⟨29, _⟩ => exact run1_value29_g6 c i arg3 harg3 arg4 harg4 f0 hall fh VO t ht j
  | ⟨30, _⟩ => exact run1_value30_g6 c i arg3 harg3 arg4 harg4 f0 hall fh VO t ht j
  | ⟨31, _⟩ => exact run1_value31_g6 c i arg3 harg3 arg4 harg4 f0 hall fh VO t ht j
  | ⟨n + 32, h⟩ => exact absurd h (by omega)

end Run

/-! ## Gather kernel 6: the point and the region -/

/-- A grid point's one coordinate is the point's number. -/
theorem coordsG1_g6 : ∀ t : Fin grid6.N, ((grid6.coords t) 0).val = t.val := by decide +kernel

/-- What the output block holds after the body at point `t`, at `[0, r, j]`: element `j` of the weight array's row at the
    table's word `[r, t]`. -/
theorem gather1_point_g6 (V : (c : Dev nD) → (b : Ref sig .tc) → Buf (Elt F) ((c : Thread nD τ).loc b))
    (hH : InRange6 (F := F) V) (c : Dev nD) (t : Fin (pcfgG6 (F := F) V).N) (r : Fin 32) (j : Fin 8) :
    outsAt6 V hH c t (ValueIdx.ix3 (0 : Fin 1) r j)
      = V c main_arg2 (ValueIdx.ix2 (⟨(V c main_v54 (ValueIdx.ix2 r (⟨t.val, lt_of_lt_of_eq t.isLt (NG1_g6 (adm6 (F := F) V))⟩ : Fin 1023))).toNat, hH c _⟩ : Fin 8388608) j) := by
  unfold outsAt6
  exact run1_value_g6 c (grid6.coords t) (ms6 V t) (hs6 V t) scM6 (Memref.isWhole_whole _) (V c main_v54) (hH c) (V c main_arg2) VO6
    (⟨t.val, lt_of_lt_of_eq t.isLt (NG1_g6 (adm6 (F := F) V))⟩ : Fin 1023) (coordsG1_g6 t) r j

/-- The output array of gather kernel 6 after its region's run, at `[t, r, j]`: element `j` of the weight array's row at the
    table's word `[r, t]`. -/
theorem gather1_value_g6 (V : (c : Dev nD) → (b : Ref sig .tc) → Buf (Elt F) ((c : Thread nD τ).loc b))
    (hH : InRange6 (F := F) V) (c : Dev nD) (t : Fin 1023) (r : Fin 32) (j : Fin 8) :
    (datG6 (F := F) V hH c).arrAt 0 (pcfgG6 (F := F) V).N (ValueIdx.ix3 t r j)
      = V c main_arg2 (ValueIdx.ix2 (⟨(V c main_v54 (ValueIdx.ix2 r t)).toNat, hH c _⟩ : Fin 8388608) j) := by
  rw [gather1_blocks_g6 V hH c t r j, gather1_point_g6 V hH c _ r j]

end Cert.KernelIdeal.Hand

end
-- ==== Proof.KernelIdealGatherValue7.lean ====
/-
  Gather kernel 7's region, from blocks to the array: the output array after the region's run is, block by block along its
  first axis, what the body leaves in the output block at each grid point.
-/
import proofs.«145402_j1717986918579_1_alg».proof.Proof.KernelIdealGather7
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g7 : ∀ t : Fin grid7.N, cc7_transform_1 (grid7.coords t) = ![t.val, 0, 0] := by decide +kernel

/-- The grid has 1023 points whatever the table holds. -/
theorem NG1_g7 (a : (pcfg7 (F := F)).Adm) : (cfg7 a).N = 1023 := N_7

/-- The output window's block index at a point does not read the table. -/
theorem indexG1_g7 (a : (pcfg7 (F := F)).Adm) (t : Fin (cfg7 a).N) :
    ((cfg7 a).win 0).index t = ![t.val, 0, 0] :=
  (rfl : ((cfg7 a).win 0).index t = cc7_transform_1 (grid7.coords t)).trans (trG1_g7 t)

/-- Every point writes its block back: the next point's block is another. -/
theorem flushG1_g7 (a : (pcfg7 (F := F)).Adm) (t : Fin (cfg7 a).N) : ((cfg7 a).win 0).flush t = true := by
  have hN : (cfg7 a).N = 1023 := NG1_g7 a
  have ht := t.isLt
  simp only [Pipeline.Window.flush, Bool.and_eq_true, Bool.or_eq_true, decide_eq_true_eq]
  refine ⟨rfl, ?_⟩
  by_cases h : t.val + 1 = (cfg7 a).N
  · exact Or.inl h
  · have hlt : t.val + 1 < (cfg7 a).N := by omega
    refine Or.inr ⟨hlt, ?_⟩
    rw [indexG1_g7, indexG1_g7]
    intro he
    have := congrFun he 0
    simp at this

/-! ## From blocks to the array, for any table contents -/

section Blocks
variable (a : (pcfg7 (F := F)).Adm) (c : Dev nD)
  (dat : Pipeline.Dat τ (Elt F) Unit ℕ (Pipeline.UD sig nD τ) ℕ (cfg7 a) c)
  (outs : Fin (cfg7 a).N → Vec F S1x32x8 .f32)

/-- The array whose block `t` along the first axis is the output block after the body at point `t`. -/
def allG1_g7 : S1023x32x8.Idx → Elt F .f32 := fun i =>
  outs ⟨(i 0).val, lt_of_lt_of_eq (i 0).isLt (NG1_g7 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g7 (t t' : Fin (cfg7 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g7 (t : Fin (cfg7 a).N) (y : S1x32x8.Idx) (i : S1023x32x8.Idx)
    (h0 : (i 0).val = t.val + (y 0).val) (h1 : (i 1).val = (y 1).val) (h2 : (i 2).val = (y 2).val) :
    ((((cfg7 a).win 0).blk t).view.emb y : S1023x32x8.Idx) = i := by
  have hidx := indexG1_g7 a t
  have e0 : ((cfg7 a).win 0).index t (0 : Fin 3) = t.val := congrFun hidx (0 : Fin 3)
  have e1 : ((cfg7 a).win 0).index t (1 : Fin 3) = 0 := congrFun hidx (1 : Fin 3)
  have e2 : ((cfg7 a).win 0).index t (2 : Fin 3) = 0 := congrFun hidx (2 : Fin 3)
  funext (b : Fin 3)
  apply Fin.ext
  match b with
  | ⟨0, _⟩ =>
    show ((cfg7 a).win 0).index t (0 : Fin 3) * 1 + 1 * (y 0).val = (i 0).val
    rw [e0, h0]; omega
  | ⟨1, _⟩ =>
    show ((cfg7 a).win 0).index t (1 : Fin 3) * 32 + 1 * (y 1).val = (i 1).val
    rw [e1, h1]; omega
  | ⟨2, _⟩ =>
    show ((cfg7 a).win 0).index t (2 : Fin 3) * 8 + 1 * (y 2).val = (i 2).val
    rw [e2, h2]; omega

/-- What point `t` writes back is block `t` of `allG1_g7`. -/
theorem flushedG1_eq_g7 (hafter : ∀ t, dat.after 0 t = outs t) (t : Fin (cfg7 a).N) :
    dat.flushed 0 t = (((cfg7 a).win 0).blk t).view.read (Elt F) (allG1_g7 a outs) := by
  show ((cfg7 a).win 0).cut ((cfg7 a).grid.coords t) (dat.after 0 t) = _
  rw [hafter]
  refine funext fun (j : S1x32x8.Idx) => ?_
  have hj0 : (j 0).val < 1 := (j 0).isLt
  show outs t j = allG1_g7 a outs ((((cfg7 a).win 0).blk t).view.emb j : S1023x32x8.Idx)
  rw [embG1_g7 a t j (ValueIdx.ix3 (⟨t.val, lt_of_lt_of_eq t.isLt (NG1_g7 a)⟩ : Fin 1023) (⟨(j 1).val, (j 1).isLt⟩ : Fin 32) (⟨(j 2).val, (j 2).isLt⟩ : Fin 8))
    (by show t.val = t.val + (j 0).val; omega) rfl rfl]
  unfold allG1_g7
  refine outs_congrG1_g7 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g7 (i : S1023x32x8.Idx) :
    ∃ t : Fin (cfg7 a).N, ((cfg7 a).win 0).flush t = true ∧ i ∈ (((cfg7 a).win 0).blk t).view.set := by
  refine ⟨⟨(i 0).val, lt_of_lt_of_eq (i 0).isLt (NG1_g7 a).symm⟩, flushG1_g7 a _, ?_⟩
  have he := embG1_g7 a ⟨(i 0).val, lt_of_lt_of_eq (i 0).isLt (NG1_g7 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg7 a).win 0).blk ⟨(i 0).val, lt_of_lt_of_eq (i 0).isLt (NG1_g7 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g7`: its 1023 blocks tile the array along the first axis. -/
theorem finalG1_g7 (hafter : ∀ t, dat.after 0 t = outs t) : dat.arrAt 0 (cfg7 a).N = allG1_g7 a outs :=
  dat.arrAt_eq_of_cover 0 (allG1_g7 a outs) (fun t _ => flushedG1_eq_g7 a c dat outs hafter t) (coverG1_g7 a)

/-- The output array after the region's run at `[t, r, j]` is the output block after the body at point `t`, at `[0, r, j]`. -/
theorem blocksG1_g7 (hafter : ∀ t, dat.after 0 t = outs t) (t : Fin 1023) (r : Fin 32) (j : Fin 8) :
    dat.arrAt 0 (cfg7 a).N (ValueIdx.ix3 t r j)
      = outs ⟨t.val, lt_of_lt_of_eq t.isLt (NG1_g7 a).symm⟩ (ValueIdx.ix3 (0 : Fin 1) r j) := by
  rw [finalG1_g7 a c dat outs hafter]
  rfl

end Blocks

/-! ## Gather kernel 7's region -/

/-- The output array of gather kernel 7 after its region's run, at `[t, r, j]`: what the body leaves in the output block at
    grid point `t`, at `[0, r, j]`. -/
theorem gather1_blocks_g7 (V : (c : Dev nD) → (b : Ref sig .tc) → Buf (Elt F) ((c : Thread nD τ).loc b))
    (hH : InRange7 (F := F) V) (c : Dev nD) (t : Fin 1023) (r : Fin 32) (j : Fin 8) :
    (datG7 (F := F) V hH c).arrAt 0 (pcfgG7 (F := F) V).N (ValueIdx.ix3 t r j)
      = outsAt7 V hH c ⟨t.val, lt_of_lt_of_eq t.isLt (NG1_g7 (adm7 (F := F) V)).symm⟩ (ValueIdx.ix3 (0 : Fin 1) r j) :=
  blocksG1_g7 (adm7 (F := F) V) c (datG7 (F := F) V hH c) (outsAt7 V hH c) (afterG7 V hH c) t r j

/-- The gather body's payload at `[0, r, j]` is the scratch block at `(r, j)`: the payload only adds a leading unit axis. -/
theorem pay1_apply_g7 (v : Vec F S32x8 .f32) (r : Fin 32) (j : Fin 8) :
    k7_pay1 (F := F) v (ValueIdx.ix3 (0 : Fin 1) r j) = v (ValueIdx.ix2 r j) := by
  unfold k7_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g7 : (![0, 0] : Fin 2 → Nat) = fun _ => 0 := funext fun a => by fin_cases a <;> rfl
theorem hzG3_g7 : (![0, 0, 0] : Fin 3 → Nat) = fun _ => 0 := funext fun a => by fin_cases a <;> rfl

/-- A one-row slice of the weight array at row `w`, squeezed to a row, reads the weight array at `[w, j]`. -/
theorem srcRow_read_g7 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g7 (f0 : HbBuf (F := F) c tbM7) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM7.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g7 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid7.Coords) (arg3 : Memref sig .tc .vmem S1x32x8 .f32) (harg3 : arg3.IsWhole)
  (arg4 : Memref sig .tc .vmem S32x8 .f32) (harg4 : arg4.IsWhole)
  (f0 : HbBuf (F := F) c tbM7) (hall : ∀ j, (f0 j).toNat < 8388608) (fh : HbBuf (F := F) c hbM)

/-- The run's pieces: one store of the whole block, its payload the scratch block read after the copies landed. -/
theorem run1_list_g7 : (kernelRun7 c i arg3 harg3 arg4 harg4 f0 hall fh).1
    = [⟨Rect.unit (s := S1x32x8) ![0, 0, 0] S1x32x8.size inb_S1x32x8_S1x32x8_0_0_0, k7_pay1 (kernelRun7.sl.v448 c i arg4 f0 hall fh)⟩] := rfl

/-- Row `r` of the output block after the body is the `(r + 1)`-th copy's delivery, which is the weight array's row at the
    table's word `[r, t]`: the same three steps for each of the thirty-two rows. -/
theorem run1_row0_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (0 : Fin 32) j)
      = kernelRun7.sl.dma1 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_0 c arg4 harg4]
  exact rowWrites_read c arg4 harg4 _ _ 0 (by decide) j
theorem run1_value0_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g7]
  unfold kernelRun7.sl.dma1
  have hwd : kernelRun7.sl.r (F := F) c i f0 = f0 (ValueIdx.ix2 (0 : Fin 32) t) := by
    unfold kernelRun7.sl.r
    exact tblWord_read_g7 c f0 _ (0 : Fin 32) t ((k7_off1_eq i).trans (by rw [ht]; rfl)) _ _
  exact (srcRow_read_g7 c fh (kernelRun7.sl.r (F := F) c i f0) (k7_off2 (kernelRun7.sl.r (F := F) c i f0)) rfl _ _ _
    (hwd ▸ hall _) j).trans (fh_congr_g7 c fh _ _ hwd _ _ j)

theorem run1_row1_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (1 : Fin 32) j)
      = kernelRun7.sl.dma2 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_1 c arg4 harg4]
  exact rowWrites_read c arg4 harg4 _ _ 1 (by decide) j
theorem run1_value1_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g7]
  unfold kernelRun7.sl.dma2
  have hwd : kernelRun7.sl.r_1 (F := F) c i f0 = f0 (ValueIdx.ix2 (1 : Fin 32) t) := by
    unfold kernelRun7.sl.r_1
    exact tblWord_read_g7 c f0 _ (1 : Fin 32) t ((k7_off3_eq i).trans (by rw [ht]; rfl)) _ _
  exact (srcRow_read_g7 c fh (kernelRun7.sl.r_1 (F := F) c i f0) (k7_off4 (kernelRun7.sl.r_1 (F := F) c i f0)) rfl _ _ _
    (hwd ▸ hall _) j).trans (fh_congr_g7 c fh _ _ hwd _ _ j)

theorem run1_row2_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (2 : Fin 32) j)
      = kernelRun7.sl.dma3 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_2 c arg4 harg4]
  exact rowWrites_read c arg4 harg4 _ _ 2 (by decide) j
theorem run1_value2_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g7]
  unfold kernelRun7.sl.dma3
  have hwd : kernelRun7.sl.r_2 (F := F) c i f0 = f0 (ValueIdx.ix2 (2 : Fin 32) t) := by
    unfold kernelRun7.sl.r_2
    exact tblWord_read_g7 c f0 _ (2 : Fin 32) t ((k7_off5_eq i).trans (by rw [ht]; rfl)) _ _
  exact (srcRow_read_g7 c fh (kernelRun7.sl.r_2 (F := F) c i f0) (k7_off6 (kernelRun7.sl.r_2 (F := F) c i f0)) rfl _ _ _
    (hwd ▸ hall _) j).trans (fh_congr_g7 c fh _ _ hwd _ _ j)

theorem run1_row3_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (3 : Fin 32) j)
      = kernelRun7.sl.dma4 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_3 c arg4 harg4]
  exact rowWrites_read c arg4 harg4 _ _ 3 (by decide) j
theorem run1_value3_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g7]
  unfold kernelRun7.sl.dma4
  have hwd : kernelRun7.sl.r_3 (F := F) c i f0 = f0 (ValueIdx.ix2 (3 : Fin 32) t) := by
    unfold kernelRun7.sl.r_3
    exact tblWord_read_g7 c f0 _ (3 : Fin 32) t ((k7_off7_eq i).trans (by rw [ht]; rfl)) _ _
  exact (srcRow_read_g7 c fh (kernelRun7.sl.r_3 (F := F) c i f0) (k7_off8 (kernelRun7.sl.r_3 (F := F) c i f0)) rfl _ _ _
    (hwd ▸ hall _) j).trans (fh_congr_g7 c fh _ _ hwd _ _ j)

theorem run1_row4_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (4 : Fin 32) j)
      = kernelRun7.sl.dma5 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_4 c arg4 harg4]
  exact rowWrites_read c arg4 harg4 _ _ 4 (by decide) j
theorem run1_value4_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g7]
  unfold kernelRun7.sl.dma5
  have hwd : kernelRun7.sl.r_4 (F := F) c i f0 = f0 (ValueIdx.ix2 (4 : Fin 32) t) := by
    unfold kernelRun7.sl.r_4
    exact tblWord_read_g7 c f0 _ (4 : Fin 32) t ((k7_off9_eq i).trans (by rw [ht]; rfl)) _ _
  exact (srcRow_read_g7 c fh (kernelRun7.sl.r_4 (F := F) c i f0) (k7_off10 (kernelRun7.sl.r_4 (F := F) c i f0)) rfl _ _ _
    (hwd ▸ hall _) j).trans (fh_congr_g7 c fh _ _ hwd _ _ j)

theorem run1_row5_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (5 : Fin 32) j)
      = kernelRun7.sl.dma6 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_5 c arg4 harg4]
  exact rowWrites_read c arg4 harg4 _ _ 5 (by decide) j
theorem run1_value5_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g7]
  unfold kernelRun7.sl.dma6
  have hwd : kernelRun7.sl.r_5 (F := F) c i f0 = f0 (ValueIdx.ix2 (5 : Fin 32) t) := by
    unfold kernelRun7.sl.r_5
    exact tblWord_read_g7 c f0 _ (5 : Fin 32) t ((k7_off11_eq i).trans (by rw [ht]; rfl)) _ _
  exact (srcRow_read_g7 c fh (kernelRun7.sl.r_5 (F := F) c i f0) (k7_off12 (kernelRun7.sl.r_5 (F := F) c i f0)) rfl _ _ _
    (hwd ▸ hall _) j).trans (fh_congr_g7 c fh _ _ hwd _ _ j)

theorem run1_row6_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (6 : Fin 32) j)
      = kernelRun7.sl.dma7 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_6 c arg4 harg4]
  exact rowWrites_read c arg4 harg4 _ _ 6 (by decide) j
theorem run1_value6_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g7]
  unfold kernelRun7.sl.dma7
  have hwd : kernelRun7.sl.r_6 (F := F) c i f0 = f0 (ValueIdx.ix2 (6 : Fin 32) t) := by
    unfold kernelRun7.sl.r_6
    exact tblWord_read_g7 c f0 _ (6 : Fin 32) t ((k7_off13_eq i).trans (by rw [ht]; rfl)) _ _
  exact (srcRow_read_g7 c fh (kernelRun7.sl.r_6 (F := F) c i f0) (k7_off14 (kernelRun7.sl.r_6 (F := F) c i f0)) rfl _ _ _
    (hwd ▸ hall _) j).trans (fh_congr_g7 c fh _ _ hwd _ _ j)

theorem run1_row7_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (7 : Fin 32) j)
      = kernelRun7.sl.dma8 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_7 c arg4 harg4]
  exact rowWrites_read c arg4 harg4 _ _ 7 (by decide) j
theorem run1_value7_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g7]
  unfold kernelRun7.sl.dma8
  have hwd : kernelRun7.sl.r_7 (F := F) c i f0 = f0 (ValueIdx.ix2 (7 : Fin 32) t) := by
    unfold kernelRun7.sl.r_7
    exact tblWord_read_g7 c f0 _ (7 : Fin 32) t ((k7_off15_eq i).trans (by rw [ht]; rfl)) _ _
  exact (srcRow_read_g7 c fh (kernelRun7.sl.r_7 (F := F) c i f0) (k7_off16 (kernelRun7.sl.r_7 (F := F) c i f0)) rfl _ _ _
    (hwd ▸ hall _) j).trans (fh_congr_g7 c fh _ _ hwd _ _ j)

theorem run1_row8_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (8 : Fin 32) j)
      = kernelRun7.sl.dma9 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_8 c arg4 harg4]
  exact rowWrites_read c arg4 harg4 _ _ 8 (by decide) j
theorem run1_value8_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g7]
  unfold kernelRun7.sl.dma9
  have hwd : kernelRun7.sl.r_8 (F := F) c i f0 = f0 (ValueIdx.ix2 (8 : Fin 32) t) := by
    unfold kernelRun7.sl.r_8
    exact tblWord_read_g7 c f0 _ (8 : Fin 32) t ((k7_off17_eq i).trans (by rw [ht]; rfl)) _ _
  exact (srcRow_read_g7 c fh (kernelRun7.sl.r_8 (F := F) c i f0) (k7_off18 (kernelRun7.sl.r_8 (F := F) c i f0)) rfl _ _ _
    (hwd ▸ hall _) j).trans (fh_congr_g7 c fh _ _ hwd _ _ j)

theorem run1_row9_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (9 : Fin 32) j)
      = kernelRun7.sl.dma10 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_9 c arg4 harg4]
  exact rowWrites_read c arg4 harg4 _ _ 9 (by decide) j
theorem run1_value9_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g7]
  unfold kernelRun7.sl.dma10
  have hwd : kernelRun7.sl.r_9 (F := F) c i f0 = f0 (ValueIdx.ix2 (9 : Fin 32) t) := by
    unfold kernelRun7.sl.r_9
    exact tblWord_read_g7 c f0 _ (9 : Fin 32) t ((k7_off19_eq i).trans (by rw [ht]; rfl)) _ _
  exact (srcRow_read_g7 c fh (kernelRun7.sl.r_9 (F := F) c i f0) (k7_off20 (kernelRun7.sl.r_9 (F := F) c i f0)) rfl _ _ _
    (hwd ▸ hall _) j).trans (fh_congr_g7 c fh _ _ hwd _ _ j)

theorem run1_row10_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (10 : Fin 32) j)
      = kernelRun7.sl.dma11 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_10 c arg4 harg4]
  exact rowWrites_read c arg4 harg4 _ _ 10 (by decide) j
theorem run1_value10_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g7]
  unfold kernelRun7.sl.dma11
  have hwd : kernelRun7.sl.r_10 (F := F) c i f0 = f0 (ValueIdx.ix2 (10 : Fin 32) t) := by
    unfold kernelRun7.sl.r_10
    exact tblWord_read_g7 c f0 _ (10 : Fin 32) t ((k7_off21_eq i).trans (by rw [ht]; rfl)) _ _
  exact (srcRow_read_g7 c fh (kernelRun7.sl.r_10 (F := F) c i f0) (k7_off22 (kernelRun7.sl.r_10 (F := F) c i f0)) rfl _ _ _
    (hwd ▸ hall _) j).trans (fh_congr_g7 c fh _ _ hwd _ _ j)

theorem run1_row11_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (11 : Fin 32) j)
      = kernelRun7.sl.dma12 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_11 c arg4 harg4]
  exact rowWrites_read c arg4 harg4 _ _ 11 (by decide) j
theorem run1_value11_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g7]
  unfold kernelRun7.sl.dma12
  have hwd : kernelRun7.sl.r_11 (F := F) c i f0 = f0 (ValueIdx.ix2 (11 : Fin 32) t) := by
    unfold kernelRun7.sl.r_11
    exact tblWord_read_g7 c f0 _ (11 : Fin 32) t ((k7_off23_eq i).trans (by rw [ht]; rfl)) _ _
  exact (srcRow_read_g7 c fh (kernelRun7.sl.r_11 (F := F) c i f0) (k7_off24 (kernelRun7.sl.r_11 (F := F) c i f0)) rfl _ _ _
    (hwd ▸ hall _) j).trans (fh_congr_g7 c fh _ _ hwd _ _ j)

theorem run1_row12_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (12 : Fin 32) j)
      = kernelRun7.sl.dma13 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_12 c arg4 harg4]
  exact rowWrites_read c arg4 harg4 _ _ 12 (by decide) j
theorem run1_value12_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g7]
  unfold kernelRun7.sl.dma13
  have hwd : kernelRun7.sl.r_12 (F := F) c i f0 = f0 (ValueIdx.ix2 (12 : Fin 32) t) := by
    unfold kernelRun7.sl.r_12
    exact tblWord_read_g7 c f0 _ (12 : Fin 32) t ((k7_off25_eq i).trans (by rw [ht]; rfl)) _ _
  exact (srcRow_read_g7 c fh (kernelRun7.sl.r_12 (F := F) c i f0) (k7_off26 (kernelRun7.sl.r_12 (F := F) c i f0)) rfl _ _ _
    (hwd ▸ hall _) j).trans (fh_congr_g7 c fh _ _ hwd _ _ j)

theorem run1_row13_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (13 : Fin 32) j)
      = kernelRun7.sl.dma14 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_13 c arg4 harg4]
  exact rowWrites_read c arg4 harg4 _ _ 13 (by decide) j
theorem run1_value13_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g7]
  unfold kernelRun7.sl.dma14
  have hwd : kernelRun7.sl.r_13 (F := F) c i f0 = f0 (ValueIdx.ix2 (13 : Fin 32) t) := by
    unfold kernelRun7.sl.r_13
    exact tblWord_read_g7 c f0 _ (13 : Fin 32) t ((k7_off27_eq i).trans (by rw [ht]; rfl)) _ _
  exact (srcRow_read_g7 c fh (kernelRun7.sl.r_13 (F := F) c i f0) (k7_off28 (kernelRun7.sl.r_13 (F := F) c i f0)) rfl _ _ _
    (hwd ▸ hall _) j).trans (fh_congr_g7 c fh _ _ hwd _ _ j)

theorem run1_row14_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (14 : Fin 32) j)
      = kernelRun7.sl.dma15 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_14 c arg4 harg4]
  exact rowWrites_read c arg4 harg4 _ _ 14 (by decide) j
theorem run1_value14_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g7]
  unfold kernelRun7.sl.dma15
  have hwd : kernelRun7.sl.r_14 (F := F) c i f0 = f0 (ValueIdx.ix2 (14 : Fin 32) t) := by
    unfold kernelRun7.sl.r_14
    exact tblWord_read_g7 c f0 _ (14 : Fin 32) t ((k7_off29_eq i).trans (by rw [ht]; rfl)) _ _
  exact (srcRow_read_g7 c fh (kernelRun7.sl.r_14 (F := F) c i f0) (k7_off30 (kernelRun7.sl.r_14 (F := F) c i f0)) rfl _ _ _
    (hwd ▸ hall _) j).trans (fh_congr_g7 c fh _ _ hwd _ _ j)

theorem run1_row15_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (15 : Fin 32) j)
      = kernelRun7.sl.dma16 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_15 c arg4 harg4]
  exact rowWrites_read c arg4 harg4 _ _ 15 (by decide) j
theorem run1_value15_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g7]
  unfold kernelRun7.sl.dma16
  have hwd : kernelRun7.sl.r_15 (F := F) c i f0 = f0 (ValueIdx.ix2 (15 : Fin 32) t) := by
    unfold kernelRun7.sl.r_15
    exact tblWord_read_g7 c f0 _ (15 : Fin 32) t ((k7_off31_eq i).trans (by rw [ht]; rfl)) _ _
  exact (srcRow_read_g7 c fh (kernelRun7.sl.r_15 (F := F) c i f0) (k7_off32 (kernelRun7.sl.r_15 (F := F) c i f0)) rfl _ _ _
    (hwd ▸ hall _) j).trans (fh_congr_g7 c fh _ _ hwd _ _ j)

theorem run1_row16_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (16 : Fin 32) j)
      = kernelRun7.sl.dma17 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_16 c arg4 harg4]
  exact rowWrites_read c arg4 harg4 _ _ 16 (by decide) j
theorem run1_value16_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g7]
  unfold kernelRun7.sl.dma17
  have hwd : kernelRun7.sl.r_16 (F := F) c i f0 = f0 (ValueIdx.ix2 (16 : Fin 32) t) := by
    unfold kernelRun7.sl.r_16
    exact tblWord_read_g7 c f0 _ (16 : Fin 32) t ((k7_off33_eq i).trans (by rw [ht]; rfl)) _ _
  exact (srcRow_read_g7 c fh (kernelRun7.sl.r_16 (F := F) c i f0) (k7_off34 (kernelRun7.sl.r_16 (F := F) c i f0)) rfl _ _ _
    (hwd ▸ hall _) j).trans (fh_congr_g7 c fh _ _ hwd _ _ j)

theorem run1_row17_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (17 : Fin 32) j)
      = kernelRun7.sl.dma18 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_17 c arg4 harg4]
  exact rowWrites_read c arg4 harg4 _ _ 17 (by decide) j
theorem run1_value17_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g7]
  unfold kernelRun7.sl.dma18
  have hwd : kernelRun7.sl.r_17 (F := F) c i f0 = f0 (ValueIdx.ix2 (17 : Fin 32) t) := by
    unfold kernelRun7.sl.r_17
    exact tblWord_read_g7 c f0 _ (17 : Fin 32) t ((k7_off35_eq i).trans (by rw [ht]; rfl)) _ _
  exact (srcRow_read_g7 c fh (kernelRun7.sl.r_17 (F := F) c i f0) (k7_off36 (kernelRun7.sl.r_17 (F := F) c i f0)) rfl _ _ _
    (hwd ▸ hall _) j).trans (fh_congr_g7 c fh _ _ hwd _ _ j)

theorem run1_row18_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (18 : Fin 32) j)
      = kernelRun7.sl.dma19 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_18 c arg4 harg4]
  exact rowWrites_read c arg4 harg4 _ _ 18 (by decide) j
theorem run1_value18_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g7]
  unfold kernelRun7.sl.dma19
  have hwd : kernelRun7.sl.r_18 (F := F) c i f0 = f0 (ValueIdx.ix2 (18 : Fin 32) t) := by
    unfold kernelRun7.sl.r_18
    exact tblWord_read_g7 c f0 _ (18 : Fin 32) t ((k7_off37_eq i).trans (by rw [ht]; rfl)) _ _
  exact (srcRow_read_g7 c fh (kernelRun7.sl.r_18 (F := F) c i f0) (k7_off38 (kernelRun7.sl.r_18 (F := F) c i f0)) rfl _ _ _
    (hwd ▸ hall _) j).trans (fh_congr_g7 c fh _ _ hwd _ _ j)

theorem run1_row19_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (19 : Fin 32) j)
      = kernelRun7.sl.dma20 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_19 c arg4 harg4]
  exact rowWrites_read c arg4 harg4 _ _ 19 (by decide) j
theorem run1_value19_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g7]
  unfold kernelRun7.sl.dma20
  have hwd : kernelRun7.sl.r_19 (F := F) c i f0 = f0 (ValueIdx.ix2 (19 : Fin 32) t) := by
    unfold kernelRun7.sl.r_19
    exact tblWord_read_g7 c f0 _ (19 : Fin 32) t ((k7_off39_eq i).trans (by rw [ht]; rfl)) _ _
  exact (srcRow_read_g7 c fh (kernelRun7.sl.r_19 (F := F) c i f0) (k7_off40 (kernelRun7.sl.r_19 (F := F) c i f0)) rfl _ _ _
    (hwd ▸ hall _) j).trans (fh_congr_g7 c fh _ _ hwd _ _ j)

theorem run1_row20_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (20 : Fin 32) j)
      = kernelRun7.sl.dma21 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_20 c arg4 harg4]
  exact rowWrites_read c arg4 harg4 _ _ 20 (by decide) j
theorem run1_value20_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g7]
  unfold kernelRun7.sl.dma21
  have hwd : kernelRun7.sl.r_20 (F := F) c i f0 = f0 (ValueIdx.ix2 (20 : Fin 32) t) := by
    unfold kernelRun7.sl.r_20
    exact tblWord_read_g7 c f0 _ (20 : Fin 32) t ((k7_off41_eq i).trans (by rw [ht]; rfl)) _ _
  exact (srcRow_read_g7 c fh (kernelRun7.sl.r_20 (F := F) c i f0) (k7_off42 (kernelRun7.sl.r_20 (F := F) c i f0)) rfl _ _ _
    (hwd ▸ hall _) j).trans (fh_congr_g7 c fh _ _ hwd _ _ j)

theorem run1_row21_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (21 : Fin 32) j)
      = kernelRun7.sl.dma22 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_21 c arg4 harg4]
  exact rowWrites_read c arg4 harg4 _ _ 21 (by decide) j
theorem run1_value21_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g7]
  unfold kernelRun7.sl.dma22
  have hwd : kernelRun7.sl.r_21 (F := F) c i f0 = f0 (ValueIdx.ix2 (21 : Fin 32) t) := by
    unfold kernelRun7.sl.r_21
    exact tblWord_read_g7 c f0 _ (21 : Fin 32) t ((k7_off43_eq i).trans (by rw [ht]; rfl)) _ _
  exact (srcRow_read_g7 c fh (kernelRun7.sl.r_21 (F := F) c i f0) (k7_off44 (kernelRun7.sl.r_21 (F := F) c i f0)) rfl _ _ _
    (hwd ▸ hall _) j).trans (fh_congr_g7 c fh _ _ hwd _ _ j)

theorem run1_row22_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (22 : Fin 32) j)
      = kernelRun7.sl.dma23 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_22 c arg4 harg4]
  exact rowWrites_read c arg4 harg4 _ _ 22 (by decide) j
theorem run1_value22_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g7]
  unfold kernelRun7.sl.dma23
  have hwd : kernelRun7.sl.r_22 (F := F) c i f0 = f0 (ValueIdx.ix2 (22 : Fin 32) t) := by
    unfold kernelRun7.sl.r_22
    exact tblWord_read_g7 c f0 _ (22 : Fin 32) t ((k7_off45_eq i).trans (by rw [ht]; rfl)) _ _
  exact (srcRow_read_g7 c fh (kernelRun7.sl.r_22 (F := F) c i f0) (k7_off46 (kernelRun7.sl.r_22 (F := F) c i f0)) rfl _ _ _
    (hwd ▸ hall _) j).trans (fh_congr_g7 c fh _ _ hwd _ _ j)

theorem run1_row23_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (23 : Fin 32) j)
      = kernelRun7.sl.dma24 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_23 c arg4 harg4]
  exact rowWrites_read c arg4 harg4 _ _ 23 (by decide) j
theorem run1_value23_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g7]
  unfold kernelRun7.sl.dma24
  have hwd : kernelRun7.sl.r_23 (F := F) c i f0 = f0 (ValueIdx.ix2 (23 : Fin 32) t) := by
    unfold kernelRun7.sl.r_23
    exact tblWord_read_g7 c f0 _ (23 : Fin 32) t ((k7_off47_eq i).trans (by rw [ht]; rfl)) _ _
  exact (srcRow_read_g7 c fh (kernelRun7.sl.r_23 (F := F) c i f0) (k7_off48 (kernelRun7.sl.r_23 (F := F) c i f0)) rfl _ _ _
    (hwd ▸ hall _) j).trans (fh_congr_g7 c fh _ _ hwd _ _ j)

theorem run1_row24_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (24 : Fin 32) j)
      = kernelRun7.sl.dma25 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_24 c arg4 harg4]
  exact rowWrites_read c arg4 harg4 _ _ 24 (by decide) j
theorem run1_value24_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g7]
  unfold kernelRun7.sl.dma25
  have hwd : kernelRun7.sl.r_24 (F := F) c i f0 = f0 (ValueIdx.ix2 (24 : Fin 32) t) := by
    unfold kernelRun7.sl.r_24
    exact tblWord_read_g7 c f0 _ (24 : Fin 32) t ((k7_off49_eq i).trans (by rw [ht]; rfl)) _ _
  exact (srcRow_read_g7 c fh (kernelRun7.sl.r_24 (F := F) c i f0) (k7_off50 (kernelRun7.sl.r_24 (F := F) c i f0)) rfl _ _ _
    (hwd ▸ hall _) j).trans (fh_congr_g7 c fh _ _ hwd _ _ j)

theorem run1_row25_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (25 : Fin 32) j)
      = kernelRun7.sl.dma26 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_25 c arg4 harg4]
  exact rowWrites_read c arg4 harg4 _ _ 25 (by decide) j
theorem run1_value25_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g7]
  unfold kernelRun7.sl.dma26
  have hwd : kernelRun7.sl.r_25 (F := F) c i f0 = f0 (ValueIdx.ix2 (25 : Fin 32) t) := by
    unfold kernelRun7.sl.r_25
    exact tblWord_read_g7 c f0 _ (25 : Fin 32) t ((k7_off51_eq i).trans (by rw [ht]; rfl)) _ _
  exact (srcRow_read_g7 c fh (kernelRun7.sl.r_25 (F := F) c i f0) (k7_off52 (kernelRun7.sl.r_25 (F := F) c i f0)) rfl _ _ _
    (hwd ▸ hall _) j).trans (fh_congr_g7 c fh _ _ hwd _ _ j)

theorem run1_row26_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (26 : Fin 32) j)
      = kernelRun7.sl.dma27 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_26 c arg4 harg4]
  exact rowWrites_read c arg4 harg4 _ _ 26 (by decide) j
theorem run1_value26_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g7]
  unfold kernelRun7.sl.dma27
  have hwd : kernelRun7.sl.r_26 (F := F) c i f0 = f0 (ValueIdx.ix2 (26 : Fin 32) t) := by
    unfold kernelRun7.sl.r_26
    exact tblWord_read_g7 c f0 _ (26 : Fin 32) t ((k7_off53_eq i).trans (by rw [ht]; rfl)) _ _
  exact (srcRow_read_g7 c fh (kernelRun7.sl.r_26 (F := F) c i f0) (k7_off54 (kernelRun7.sl.r_26 (F := F) c i f0)) rfl _ _ _
    (hwd ▸ hall _) j).trans (fh_congr_g7 c fh _ _ hwd _ _ j)

theorem run1_row27_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (27 : Fin 32) j)
      = kernelRun7.sl.dma28 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_27 c arg4 harg4]
  exact rowWrites_read c arg4 harg4 _ _ 27 (by decide) j
theorem run1_value27_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g7]
  unfold kernelRun7.sl.dma28
  have hwd : kernelRun7.sl.r_27 (F := F) c i f0 = f0 (ValueIdx.ix2 (27 : Fin 32) t) := by
    unfold kernelRun7.sl.r_27
    exact tblWord_read_g7 c f0 _ (27 : Fin 32) t ((k7_off55_eq i).trans (by rw [ht]; rfl)) _ _
  exact (srcRow_read_g7 c fh (kernelRun7.sl.r_27 (F := F) c i f0) (k7_off56 (kernelRun7.sl.r_27 (F := F) c i f0)) rfl _ _ _
    (hwd ▸ hall _) j).trans (fh_congr_g7 c fh _ _ hwd _ _ j)

theorem run1_row28_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (28 : Fin 32) j)
      = kernelRun7.sl.dma29 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_28 c arg4 harg4]
  exact rowWrites_read c arg4 harg4 _ _ 28 (by decide) j
theorem run1_value28_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g7]
  unfold kernelRun7.sl.dma29
  have hwd : kernelRun7.sl.r_28 (F := F) c i f0 = f0 (ValueIdx.ix2 (28 : Fin 32) t) := by
    unfold kernelRun7.sl.r_28
    exact tblWord_read_g7 c f0 _ (28 : Fin 32) t ((k7_off57_eq i).trans (by rw [ht]; rfl)) _ _
  exact (srcRow_read_g7 c fh (kernelRun7.sl.r_28 (F := F) c i f0) (k7_off58 (kernelRun7.sl.r_28 (F := F) c i f0)) rfl _ _ _
    (hwd ▸ hall _) j).trans (fh_congr_g7 c fh _ _ hwd _ _ j)

theorem run1_row29_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (29 : Fin 32) j)
      = kernelRun7.sl.dma30 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_29 c arg4 harg4]
  exact rowWrites_read c arg4 harg4 _ _ 29 (by decide) j
theorem run1_value29_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g7]
  unfold kernelRun7.sl.dma30
  have hwd : kernelRun7.sl.r_29 (F := F) c i f0 = f0 (ValueIdx.ix2 (29 : Fin 32) t) := by
    unfold kernelRun7.sl.r_29
    exact tblWord_read_g7 c f0 _ (29 : Fin 32) t ((k7_off59_eq i).trans (by rw [ht]; rfl)) _ _
  exact (srcRow_read_g7 c fh (kernelRun7.sl.r_29 (F := F) c i f0) (k7_off60 (kernelRun7.sl.r_29 (F := F) c i f0)) rfl _ _ _
    (hwd ▸ hall _) j).trans (fh_congr_g7 c fh _ _ hwd _ _ j)

theorem run1_row30_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (30 : Fin 32) j)
      = kernelRun7.sl.dma31 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_30 c arg4 harg4]
  exact rowWrites_read c arg4 harg4 _ _ 30 (by decide) j
theorem run1_value30_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g7]
  unfold kernelRun7.sl.dma31
  have hwd : kernelRun7.sl.r_30 (F := F) c i f0 = f0 (ValueIdx.ix2 (30 : Fin 32) t) := by
    unfold kernelRun7.sl.r_30
    exact tblWord_read_g7 c f0 _ (30 : Fin 32) t ((k7_off61_eq i).trans (by rw [ht]; rfl)) _ _
  exact (srcRow_read_g7 c fh (kernelRun7.sl.r_30 (F := F) c i f0) (k7_off62 (kernelRun7.sl.r_30 (F := F) c i f0)) rfl _ _ _
    (hwd ▸ hall _) j).trans (fh_congr_g7 c fh _ _ hwd _ _ j)

theorem run1_row31_g7 (VO : View sig .tc .vmem S1x32x8 .f32) (j : Fin 8) :
    VO.read (Elt F) (VO.writes (Elt F) VO.junk (kernelRun7 c i arg3 harg3 arg4 harg4 f0 hall fh).1) (ValueIdx.ix3 (0 : Fin 1) (31 : Fin 32) j)
      = kernelRun7.sl.dma32 c i f0 hall fh (ValueIdx.ix1 j) := by
  rw [View.read_writes_eq_canon _ _ _ (coverRun7 c i arg3 harg3 arg4 harg4 f0 hall fh), run1_list_g7, View.canon_unit_zero hzG3_g7, pay1_apply_g7]
  unfold kernelRun7.sl.v448
  rw [View.readAt_eq_ld, View.ld_unit_zero (S := S32x8) hzG2_g7]
  rw [joinRows32_read_31 c arg4 harg4]
  exact rowWrites_read c arg4 harg4 _ _ 31 (by decide) j
theorem run1_value31_g7 (VO : View sig .tc .vmem S1x32x8 .f32) (t : Fin 1023) (ht : (i 0).val = t.val) (j : Fin 8) :
    VO.read (Elt F) (VO.writes (Elt F) VO.junk (kernelRun7 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g7]
  unfold kernelRun7.sl.dma32
  have hwd : kernelRun7.sl.r_31 (F := F) c i f0 = f0 (ValueIdx.ix2 (31 : Fin 32) t) := by
    unfold kernelRun7.sl.r_31
    exact tblWord_read_g7 c f0 _ (31 : Fin 32) t ((k7_off63_eq i).trans (by rw [ht]; rfl)) _ _
  exact (srcRow_read_g7 c fh (kernelRun7.sl.r_31 (F := F) c i f0) (k7_off64 (kernelRun7.sl.r_31 (F := F) c i f0)) rfl _ _ _
    (hwd ▸ hall _) j).trans (fh_congr_g7 c fh _ _ hwd _ _ j)

/-- The output block after the body at `[0, r, j]`: the weight array's row at the table's word `[r, t]`, element `j`. -/
theorem run1_value_g7 (VO : View sig .tc .vmem S1x32x8 .f32) (t : Fin 1023) (ht : (i 0).val = t.val) (r : Fin 32) (j : Fin 8) :
    VO.read (Elt F) (VO.writes (Elt F) VO.junk (kernelRun7 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g7 c i arg3 harg3 arg4 harg4 f0 hall fh VO t ht j
  | ⟨1, _⟩ => exact run1_value1_g7 c i arg3 harg3 arg4 harg4 f0 hall fh VO t ht j
  | ⟨2, _⟩ => exact run1_value2_g7 c i arg3 harg3 arg4 harg4 f0 hall fh VO t ht j
  | ⟨3, _⟩ => exact run1_value3_g7 c i arg3 harg3 arg4 harg4 f0 hall fh VO t ht j
  | ⟨4, _⟩ => exact run1_value4_g7 c i arg3 harg3 arg4 harg4 f0 hall fh VO t ht j
  | ⟨5, _⟩ => exact run1_value5_g7 c i arg3 harg3 arg4 harg4 f0 hall fh VO t ht j
  | ⟨6, _⟩ => exact run1_value6_g7 c i arg3 harg3 arg4 harg4 f0 hall fh VO t ht j
  | ⟨7, _⟩ => exact run1_value7_g7 c i arg3 harg3 arg4 harg4 f0 hall fh VO t ht j
  | ⟨8, _⟩ => exact run1_value8_g7 c i arg3 harg3 arg4 harg4 f0 hall fh VO t ht j
  | ⟨9, _⟩ => exact run1_value9_g7 c i arg3 harg3 arg4 harg4 f0 hall fh VO t ht j
  | ⟨10, _⟩ => exact run1_value10_g7 c i arg3 harg3 arg4 harg4 f0 hall fh VO t ht j
  | ⟨11, _⟩ => exact run1_value11_g7 c i arg3 harg3 arg4 harg4 f0 hall fh VO t ht j
  | ⟨12, _⟩ => exact run1_value12_g7 c i arg3 harg3 arg4 harg4 f0 hall fh VO t ht j
  | ⟨13, _⟩ => exact run1_value13_g7 c i arg3 harg3 arg4 harg4 f0 hall fh VO t ht j
  | ⟨14, _⟩ => exact run1_value14_g7 c i arg3 harg3 arg4 harg4 f0 hall fh VO t ht j
  | ⟨15, _⟩ => exact run1_value15_g7 c i arg3 harg3 arg4 harg4 f0 hall fh VO t ht j
  | ⟨16, _⟩ => exact run1_value16_g7 c i arg3 harg3 arg4 harg4 f0 hall fh VO t ht j
  | ⟨17, _⟩ => exact run1_value17_g7 c i arg3 harg3 arg4 harg4 f0 hall fh VO t ht j
  | ⟨18, _⟩ => exact run1_value18_g7 c i arg3 harg3 arg4 harg4 f0 hall fh VO t ht j
  | ⟨19, _⟩ => exact run1_value19_g7 c i arg3 harg3 arg4 harg4 f0 hall fh VO t ht j
  | ⟨20, _⟩ => exact run1_value20_g7 c i arg3 harg3 arg4 harg4 f0 hall fh VO t ht j
  | ⟨21, _⟩ => exact run1_value21_g7 c i arg3 harg3 arg4 harg4 f0 hall fh VO t ht j
  | ⟨22, _⟩ => exact run1_value22_g7 c i arg3 harg3 arg4 harg4 f0 hall fh VO t ht j
  | ⟨23, _⟩ => exact run1_value23_g7 c i arg3 harg3 arg4 harg4 f0 hall fh VO t ht j
  | ⟨24, _⟩ => exact run1_value24_g7 c i arg3 harg3 arg4 harg4 f0 hall fh VO t ht j
  | ⟨25, _⟩ => exact run1_value25_g7 c i arg3 harg3 arg4 harg4 f0 hall fh VO t ht j
  | ⟨26, _⟩ => exact run1_value26_g7 c i arg3 harg3 arg4 harg4 f0 hall fh VO t ht j
  | ⟨27, _⟩ => exact run1_value27_g7 c i arg3 harg3 arg4 harg4 f0 hall fh VO t ht j
  | ⟨28, _⟩ => exact run1_value28_g7 c i arg3 harg3 arg4 harg4 f0 hall fh VO t ht j
  | ⟨29, _⟩ => exact run1_value29_g7 c i arg3 harg3 arg4 harg4 f0 hall fh VO t ht j
  | ⟨30, _⟩ => exact run1_value30_g7 c i arg3 harg3 arg4 harg4 f0 hall fh VO t ht j
  | ⟨31, _⟩ => exact run1_value31_g7 c i arg3 harg3 arg4 harg4 f0 hall fh VO t ht j
  | ⟨n + 32, h⟩ => exact absurd h (by omega)

end Run

/-! ## Gather kernel 7: the point and the region -/

/-- A grid point's one coordinate is the point's number. -/
theorem coordsG1_g7 : ∀ t : Fin grid7.N, ((grid7.coords t) 0).val = t.val := by decide +kernel

/-- What the output block holds after the body at point `t`, at `[0, r, j]`: element `j` of the weight array's row at the
    table's word `[r, t]`. -/
theorem gather1_point_g7 (V : (c : Dev nD) → (b : Ref sig .tc) → Buf (Elt F) ((c : Thread nD τ).loc b))
    (hH : InRange7 (F := F) V) (c : Dev nD) (t : Fin (pcfgG7 (F := F) V).N) (r : Fin 32) (j : Fin 8) :
    outsAt7 V hH c t (ValueIdx.ix3 (0 : Fin 1) r j)
      = V c main_arg2 (ValueIdx.ix2 (⟨(V c main_v57 (ValueIdx.ix2 r (⟨t.val, lt_of_lt_of_eq t.isLt (NG1_g7 (adm7 (F := F) V))⟩ : Fin 1023))).toNat, hH c _⟩ : Fin 8388608) j) := by
  unfold outsAt7
  exact run1_value_g7 c (grid7.coords t) (ms7 V t) (hs7 V t) scM7 (Memref.isWhole_whole _) (V c main_v57) (hH c) (V c main_arg2) VO7
    (⟨t.val, lt_of_lt_of_eq t.isLt (NG1_g7 (adm7 (F := F) V))⟩ : Fin 1023) (coordsG1_g7 t) r j

/-- The output array of gather kernel 7 after its region's run, at `[t, r, j]`: element `j` of the weight array's row at the
    table's word `[r, t]`. -/
theorem gather1_value_g7 (V : (c : Dev nD) → (b : Ref sig .tc) → Buf (Elt F) ((c : Thread nD τ).loc b))
    (hH : InRange7 (F := F) V) (c : Dev nD) (t : Fin 1023) (r : Fin 32) (j : Fin 8) :
    (datG7 (F := F) V hH c).arrAt 0 (pcfgG7 (F := F) V).N (ValueIdx.ix3 t r j)
      = V c main_arg2 (ValueIdx.ix2 (⟨(V c main_v57 (ValueIdx.ix2 r t)).toNat, hH c _⟩ : Fin 8388608) j) := by
  rw [gather1_blocks_g7 V hH c t r j, gather1_point_g7 V hH c _ r j]

end Cert.KernelIdeal.Hand

end
-- ==== Proof.KernelIdealGatherValue8.lean ====
/-
  Gather kernel 8's region, from blocks to the array: the output array after the region's run is, block by block along its
  first axis, what the body leaves in the output block at each grid point.
-/
import proofs.«145402_j1717986918579_1_alg».proof.Proof.KernelIdealGather8
import Idealize.ShloMosaic.Lib.ValueIdx
import Idealize.ShloMosaic.Lib.Pipeline.Value
import Idealize.ShloMosaic.Lib.Pipeline.FrameBody

noncomputable section

namespace Cert.KernelIdeal.Hand

open Cert.KernelIdeal Cert.KernelIdeal.Gen Idealize.ShloMosaic Idealize.ShloMosaic.TcCoe Idealize.SL.Sem

variable {F : FTy → Type} [FloatOps F]

/-! ## The pinned pipeline's window, the table's contents a variable -/

/-- The output window's index map over the grid: block `t` along the first axis, block zero on the other two. -/
theorem trG1_g8 : ∀ t : Fin grid8.N, cc8_transform_1 (grid8.coords t) = ![t.val, 0, 0] := by decide +kernel

/-- The grid has 1023 points whatever the table holds. -/
theorem NG1_g8 (a : (pcfg8 (F := F)).Adm) : (cfg8 a).N = 1023 := N_8

/-- The output window's block index at a point does not read the table. -/
theorem indexG1_g8 (a : (pcfg8 (F := F)).Adm) (t : Fin (cfg8 a).N) :
    ((cfg8 a).win 0).index t = ![t.val, 0, 0] :=
  (rfl : ((cfg8 a).win 0).index t = cc8_transform_1 (grid8.coords t)).trans (trG1_g8 t)

/-- Every point writes its block back: the next point's block is another. -/
theorem flushG1_g8 (a : (pcfg8 (F := F)).Adm) (t : Fin (cfg8 a).N) : ((cfg8 a).win 0).flush t = true := by
  have hN : (cfg8 a).N = 1023 := NG1_g8 a
  have ht := t.isLt
  simp only [Pipeline.Window.flush, Bool.and_eq_true, Bool.or_eq_true, decide_eq_true_eq]
  refine ⟨rfl, ?_⟩
  by_cases h : t.val + 1 = (cfg8 a).N
  · exact Or.inl h
  · have hlt : t.val + 1 < (cfg8 a).N := by omega
    refine Or.inr ⟨hlt, ?_⟩
    rw [indexG1_g8, indexG1_g8]
    intro he
    have := congrFun he 0
    simp at this

/-! ## From blocks to the array, for any table contents -/

section Blocks
variable (a : (pcfg8 (F := F)).Adm) (c : Dev nD)
  (dat : Pipeline.Dat τ (Elt F) Unit ℕ (Pipeline.UD sig nD τ) ℕ (cfg8 a) c)
  (outs : Fin (cfg8 a).N → Vec F S1x32x8 .f32)

/-- The array whose block `t` along the first axis is the output block after the body at point `t`. -/
def allG1_g8 : S1023x32x8.Idx → Elt F .f32 := fun i =>
  outs ⟨(i 0).val, lt_of_lt_of_eq (i 0).isLt (NG1_g8 a).symm⟩
    (ValueIdx.ix3 (0 : Fin 1) (⟨(i 1).val, (i 1).isLt⟩ : Fin 32) (⟨(i 2).val, (i 2).isLt⟩ : Fin 8))

/-- The blocks at two spellings of one point and one index agree. -/
theorem outs_congrG1_g8 (t t' : Fin (cfg8 a).N) (x x' : S1x32x8.Idx) (ht : t.val = t'.val) (hx : ∀ b, (x b).val = (x' b).val) :
    outs t x = outs t' x' := by
  obtain rfl : t = t' := Fin.ext ht
  obtain rfl : x = x' := funext fun b => Fin.ext (hx b)
  rfl

/-- The output window's block at point `t` embeds its index `y` at `[t + y 0, y 1, y 2]`. -/
theorem embG1_g8 (t : Fin (cfg8 a).N) (y : S1x32x8.Idx) (i : S1023x32x8.Idx)
    (h0 : (i 0).val = t.val + (y 0).val) (h1 : (i 1).val = (y 1).val) (h2 : (i 2).val = (y 2).val) :
    ((((cfg8 a).win 0).blk t).view.emb y : S1023x32x8.Idx) = i := by
  have hidx := indexG1_g8 a t
  have e0 : ((cfg8 a).win 0).index t (0 : Fin 3) = t.val := congrFun hidx (0 : Fin 3)
  have e1 : ((cfg8 a).win 0).index t (1 : Fin 3) = 0 := congrFun hidx (1 : Fin 3)
  have e2 : ((cfg8 a).win 0).index t (2 : Fin 3) = 0 := congrFun hidx (2 : Fin 3)
  funext (b : Fin 3)
  apply Fin.ext
  match b with
  | ⟨0, _⟩ =>
    show ((cfg8 a).win 0).index t (0 : Fin 3) * 1 + 1 * (y 0).val = (i 0).val
    rw [e0, h0]; omega
  | ⟨1, _⟩ =>
    show ((cfg8 a).win 0).index t (1 : Fin 3) * 32 + 1 * (y 1).val = (i 1).val
    rw [e1, h1]; omega
  | ⟨2, _⟩ =>
    show ((cfg8 a).win 0).index t (2 : Fin 3) * 8 + 1 * (y 2).val = (i 2).val
    rw [e2, h2]; omega

/-- What point `t` writes back is block `t` of `allG1_g8`. -/
theorem flushedG1_eq_g8 (hafter : ∀ t, dat.after 0 t = outs t) (t : Fin (cfg8 a).N) :
    dat.flushed 0 t = (((cfg8 a).win 0).blk t).view.read (Elt F) (allG1_g8 a outs) := by
  show ((cfg8 a).win 0).cut ((cfg8 a).grid.coords t) (dat.after 0 t) = _
  rw [hafter]
  refine funext fun (j : S1x32x8.Idx) => ?_
  have hj0 : (j 0).val < 1 := (j 0).isLt
  show outs t j = allG1_g8 a outs ((((cfg8 a).win 0).blk t).view.emb j : S1023x32x8.Idx)
  rw [embG1_g8 a t j (ValueIdx.ix3 (⟨t.val, lt_of_lt_of_eq t.isLt (NG1_g8 a)⟩ : Fin 1023) (⟨(j 1).val, (j 1).isLt⟩ : Fin 32) (⟨(j 2).val, (j 2).isLt⟩ : Fin 8))
    (by show t.val = t.val + (j 0).val; omega) rfl rfl]
  unfold allG1_g8
  refine outs_congrG1_g8 a outs _ _ _ _ rfl (fun b => ?_)
  match b with
  | ⟨0, _⟩ =>
    show (j 0).val = 0
    omega
  | ⟨1, _⟩ => rfl
  | ⟨2, _⟩ => rfl

/-- Every index of the output array is in the block of the point its first coordinate names. -/
theorem coverG1_g8 (i : S1023x32x8.Idx) :
    ∃ t : Fin (cfg8 a).N, ((cfg8 a).win 0).flush t = true ∧ i ∈ (((cfg8 a).win 0).blk t).view.set := by
  refine ⟨⟨(i 0).val, lt_of_lt_of_eq (i 0).isLt (NG1_g8 a).symm⟩, flushG1_g8 a _, ?_⟩
  have he := embG1_g8 a ⟨(i 0).val, lt_of_lt_of_eq (i 0).isLt (NG1_g8 a).symm⟩
    (ValueIdx.ix3 (0 : Fin 1) (⟨(i 1).val, (i 1).isLt⟩ : Fin 32) (⟨(i 2).val, (i 2).isLt⟩ : Fin 8)) i
    (by show (i 0).val = (i 0).val + 0; omega) rfl rfl
  have hm := View.emb_mem_set (((cfg8 a).win 0).blk ⟨(i 0).val, lt_of_lt_of_eq (i 0).isLt (NG1_g8 a).symm⟩).view
    (ValueIdx.ix3 (0 : Fin 1) (⟨(i 1).val, (i 1).isLt⟩ : Fin 32) (⟨(i 2).val, (i 2).isLt⟩ : Fin 8))
  rw [he] at hm
  exact hm

/-- The output array after the region's run is `allG1_g8`: its 1023 blocks tile the array along the first axis. -/
theorem finalG1_g8 (hafter : ∀ t, dat.after 0 t = outs t) : dat.arrAt 0 (cfg8 a).N = allG1_g8 a outs :=
  dat.arrAt_eq_of_cover 0 (allG1_g8 a outs) (fun t _ => flushedG1_eq_g8 a c dat outs hafter t) (coverG1_g8 a)

/-- The output array after the region's run at `[t, r, j]` is the output block after the body at point `t`, at `[0, r, j]`. -/
theorem blocksG1_g8 (hafter : ∀ t, dat.after 0 t = outs t) (t : Fin 1023) (r : Fin 32) (j : Fin 8) :
    dat.arrAt 0 (cfg8 a).N (ValueIdx.ix3 t r j)
      = outs ⟨t.val, lt_of_lt_of_eq t.isLt (NG1_g8 a).symm⟩ (ValueIdx.ix3 (0 : Fin 1) r j) := by
  rw [finalG1_g8 a c dat outs hafter]
  rfl

end Blocks

/-! ## Gather kernel 8's region -/

/-- The output array of gather kernel 8 after its region's run, at `[t, r, j]`: what the body leaves in the output block at
    grid point `t`, at `[0, r, j]`. -/
theorem gather1_blocks_g8 (V : (c : Dev nD) → (b : Ref sig .tc) → Buf (Elt F) ((c : Thread nD τ).loc b))
    (hH : InRange8 (F := F) V) (c : Dev nD) (t : Fin 1023) (r : Fin 32) (j : Fin 8) :
    (datG8 (F := F) V hH c).arrAt 0 (pcfgG8 (F := F) V).N (ValueIdx.ix3 t r j)
      = outsAt8 V hH c ⟨t.val, lt_of_lt_of_eq t.isLt (NG1_g8 (adm8 (F := F) V)).symm⟩ (ValueIdx.ix3 (0 : Fin 1) r j) :=
  blocksG1_g8 (adm8 (F := F) V) c (datG8 (F := F) V hH c) (outsAt8 V hH c) (afterG8 V hH c) t r j

/-- The gather body's payload at `[0, r, j]` is the scratch block at `(r, j)`: the payload only adds a leading unit axis. -/
theorem pay1_apply_g8 (v : Vec F S32x8 .f32) (r : Fin 32) (j : Fin 8) :
    k8_pay1 (F := F) v (ValueIdx.ix3 (0 : Fin 1) r j) = v (ValueIdx.ix2 r j) := by
  unfold k8_pay1
  exact shapeCast_apply v shapeCasts_S32x8_S1x32x8 (ValueIdx.ix3 (0 : Fin 1) r j) (ValueIdx.ix2 r j)
    (by rw [Shape.rowMajor_val_two, Shape.rowMajor_val_three]
        show r.val * 8 + j.val = ((0 : Fin 1).val * 32 + r.val) * 8 + j.val
        simp)

section Src
variable (c : Dev nD)
/-! ## The body's run read at an index -/

theorem hzG2_g8 : (![0, 0] : Fin 2 → Nat) = fun _ => 0 := funext fun a => by fin_cases a <;> rfl
theorem hzG3_g8 : (![0, 0, 0] : Fin 3 → Nat) = fun _ => 0 := funext fun a => by fin_cases a <;> rfl

/-- A one-row slice of the weight array at row `w`, squeezed to a row, reads the weight array at `[w, j]`. -/
theorem srcRow_read_g8 (fh : HbBuf (F := F) c hbM) (w : BitVec 32) (off : Fin 2 → Nat) (hoff : off = ![w.toNat, 0])
    (h1 : ∀ a, off a + S1x8.size a ≤ S8388608x8.size a) (h2 : _) (h3 : _) (hw : w.toNat < 8388608) (j : Fin 8) :
    ReadAs.same.apply (View.read (Elt F) ((hbM.slice (Rect.unit (s := S8388608x8) off S1x8.size h1) h2).squeeze S8 h3).view fh) (ValueIdx.ix1 j)
      = fh (ValueIdx.ix2 (⟨w.toNat, hw⟩ : Fin 8388608) j) := by
  subst hoff
  show (View.read (Elt F) ((hbM.slice (Rect.unit (s := S8388608x8) ![w.toNat, 0] S1x8.size h1) h2).squeeze S8 h3).view fh) (ValueIdx.ix1 j) = _
  rw [View.read_apply]
  refine congrArg (fun x => fh x) ?_
  show ((Rect.unit (s := S8388608x8) ![w.toNat, 0] S1x8.size h1).emb
      (Shape.reshapeEquiv h3.numel_eq (ValueIdx.ix1 j)) : S8388608x8.Idx) = _
  rw [show Shape.reshapeEquiv h3.numel_eq (ValueIdx.ix1 j) = (Fin.cons ⟨0, Nat.one_pos⟩ (ValueIdx.ix1 j) : S1x8.Idx) from
    Shape.reshapeEquiv_cons_one (n := 1) (d := ![8]) _ _]
  funext a
  match a with
  | ⟨0, _⟩ => apply Fin.ext; show w.toNat + 1 * 0 = w.toNat; omega
  | ⟨1, _⟩ => apply Fin.ext; show 0 + 1 * (j : ℕ) = j; omega

/-- The table read through a one-word rectangle at `[r, t]` is the table's word there. -/
theorem tblWord_read_g8 (f0 : HbBuf (F := F) c tbM8) (off : Fin 2 → Nat) (r : Fin 32) (t : Fin 1023) (hoff : off = ![r.val, t.val])
    (h1 : ∀ a, off a + S1x1.size a ≤ S32x1023.size a)
    (y : (Rect.unit (s := S32x1023) off S1x1.size h1).toLoadRect.shape.Idx) :
    View.readAt (Elt F) tbM8.view (Rect.unit (s := S32x1023) off S1x1.size h1).toLoadRect f0 y
      = f0 (ValueIdx.ix2 r t) := by
  subst hoff
  rw [View.readAt_apply, View.read_apply]
  refine congrArg (fun x => f0 x) ?_
  have hy0 : (y (0 : Fin 2)).val < 1 := (y (0 : Fin 2)).isLt
  have hy1 : (y (1 : Fin 2)).val < 1 := (y (1 : Fin 2)).isLt
  funext a
  match a with
  | ⟨0, _⟩ => apply Fin.ext; show r.val + 1 * (y (0 : Fin 2)).val = r.val; omega
  | ⟨1, _⟩ => apply Fin.ext; show t.val + 1 * (y (1 : Fin 2)).val = t.val; omega

/-- The weight array at two spellings of one row index. -/
theorem fh_congr_g8 (fh : HbBuf (F := F) c hbM) (w w' : BitVec 32) (h : w = w') (hw : w.toNat < 8388608) (hw' : w'.toNat < 8388608) (j : Fin 8) :
    fh (ValueIdx.ix2 (⟨w.toNat, hw⟩ : Fin 8388608) j) = fh (ValueIdx.ix2 (⟨w'.toNat, hw'⟩ : Fin 8388608) j) := by
  subst h; rfl

end Src

section Run
variable (c : Dev nD) (i : grid8.Coords) (arg3 : Memref sig .tc .vmem S1x32x8 .f32) (harg3 : arg3.IsWhole)
  (arg4 : Memref sig .tc .vmem S32x8 .f32) (harg4 : arg4.IsWhole)
  (f0 : HbBuf (F := F) c tbM8) (hall : ∀ j, (f0 j).toNat < 8388608) (fh : HbBuf (F := F) c hbM)

/-- The run's pieces: one store of the whole block, its payload the scratch block read after the copies landed. -/
theorem run1_list_g8 : (kernelRun8 c i arg3 harg3 arg4 harg4 f0 hall fh).1
    = [⟨Rect.unit (s := S1x32x8) ![0, 0, 0] S1x32x8.size inb_S1x32x8_S1x32x8_0_0_0, k8_pay1 (kernelRun8.sl.v448 c i arg4 f0 hall fh)⟩] := rfl

/-- Row `r` of the output block after the body is the `(r + 1)`-th copy's delivery, which is the weight array's row at the
    table's word `[r, t]`: the same three steps for each of the thirty-two rows. -/
theorem run1_row0_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (0 : Fin 32) j)
      = kernelRun8.sl.dma1 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_0 c arg4 harg4]
  exact rowWrites_read c arg4 harg4 _ _ 0 (by decide) j
theorem run1_value0_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (0 : Fin 32) j)
      = fh (ValueIdx.ix2 (⟨(f0 (ValueIdx.ix2 (0 : Fin 32) t)).toNat, hall _⟩ : Fin 8388608) j) := by
  rw [run1_row0_g8]
  unfold kernelRun8.sl.dma1
  have hwd : kernelRun8.sl.r (F := F) c i f0 = f0 (ValueIdx.ix2 (0 : Fin 32) t) := by
    unfold kernelRun8.sl.r
    exact tblWord_read_g8 c f0 _ (0 : Fin 32) t ((k8_off1_eq i).trans (by rw [ht]; rfl)) _ _
  exact (srcRow_read_g8 c fh (kernelRun8.sl.r (F := F) c i f0) (k8_off2 (kernelRun8.sl.r (F := F) c i f0)) rfl _ _ _
    (hwd ▸ hall _) j).trans (fh_congr_g8 c fh _ _ hwd _ _ j)

theorem run1_row1_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (1 : Fin 32) j)
      = kernelRun8.sl.dma2 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_1 c arg4 harg4]
  exact rowWrites_read c arg4 harg4 _ _ 1 (by decide) j
theorem run1_value1_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (1 : Fin 32) j)
      = fh (ValueIdx.ix2 (⟨(f0 (ValueIdx.ix2 (1 : Fin 32) t)).toNat, hall _⟩ : Fin 8388608) j) := by
  rw [run1_row1_g8]
  unfold kernelRun8.sl.dma2
  have hwd : kernelRun8.sl.r_1 (F := F) c i f0 = f0 (ValueIdx.ix2 (1 : Fin 32) t) := by
    unfold kernelRun8.sl.r_1
    exact tblWord_read_g8 c f0 _ (1 : Fin 32) t ((k8_off3_eq i).trans (by rw [ht]; rfl)) _ _
  exact (srcRow_read_g8 c fh (kernelRun8.sl.r_1 (F := F) c i f0) (k8_off4 (kernelRun8.sl.r_1 (F := F) c i f0)) rfl _ _ _
    (hwd ▸ hall _) j).trans (fh_congr_g8 c fh _ _ hwd _ _ j)

theorem run1_row2_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (2 : Fin 32) j)
      = kernelRun8.sl.dma3 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_2 c arg4 harg4]
  exact rowWrites_read c arg4 harg4 _ _ 2 (by decide) j
theorem run1_value2_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (2 : Fin 32) j)
      = fh (ValueIdx.ix2 (⟨(f0 (ValueIdx.ix2 (2 : Fin 32) t)).toNat, hall _⟩ : Fin 8388608) j) := by
  rw [run1_row2_g8]
  unfold kernelRun8.sl.dma3
  have hwd : kernelRun8.sl.r_2 (F := F) c i f0 = f0 (ValueIdx.ix2 (2 : Fin 32) t) := by
    unfold kernelRun8.sl.r_2
    exact tblWord_read_g8 c f0 _ (2 : Fin 32) t ((k8_off5_eq i).trans (by rw [ht]; rfl)) _ _
  exact (srcRow_read_g8 c fh (kernelRun8.sl.r_2 (F := F) c i f0) (k8_off6 (kernelRun8.sl.r_2 (F := F) c i f0)) rfl _ _ _
    (hwd ▸ hall _) j).trans (fh_congr_g8 c fh _ _ hwd _ _ j)

theorem run1_row3_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (3 : Fin 32) j)
      = kernelRun8.sl.dma4 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_3 c arg4 harg4]
  exact rowWrites_read c arg4 harg4 _ _ 3 (by decide) j
theorem run1_value3_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (3 : Fin 32) j)
      = fh (ValueIdx.ix2 (⟨(f0 (ValueIdx.ix2 (3 : Fin 32) t)).toNat, hall _⟩ : Fin 8388608) j) := by
  rw [run1_row3_g8]
  unfold kernelRun8.sl.dma4
  have hwd : kernelRun8.sl.r_3 (F := F) c i f0 = f0 (ValueIdx.ix2 (3 : Fin 32) t) := by
    unfold kernelRun8.sl.r_3
    exact tblWord_read_g8 c f0 _ (3 : Fin 32) t ((k8_off7_eq i).trans (by rw [ht]; rfl)) _ _
  exact (srcRow_read_g8 c fh (kernelRun8.sl.r_3 (F := F) c i f0) (k8_off8 (kernelRun8.sl.r_3 (F := F) c i f0)) rfl _ _ _
    (hwd ▸ hall _) j).trans (fh_congr_g8 c fh _ _ hwd _ _ j)

theorem run1_row4_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (4 : Fin 32) j)
      = kernelRun8.sl.dma5 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_4 c arg4 harg4]
  exact rowWrites_read c arg4 harg4 _ _ 4 (by decide) j
theorem run1_value4_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (4 : Fin 32) j)
      = fh (ValueIdx.ix2 (⟨(f0 (ValueIdx.ix2 (4 : Fin 32) t)).toNat, hall _⟩ : Fin 8388608) j) := by
  rw [run1_row4_g8]
  unfold kernelRun8.sl.dma5
  have hwd : kernelRun8.sl.r_4 (F := F) c i f0 = f0 (ValueIdx.ix2 (4 : Fin 32) t) := by
    unfold kernelRun8.sl.r_4
    exact tblWord_read_g8 c f0 _ (4 : Fin 32) t ((k8_off9_eq i).trans (by rw [ht]; rfl)) _ _
  exact (srcRow_read_g8 c fh (kernelRun8.sl.r_4 (F := F) c i f0) (k8_off10 (kernelRun8.sl.r_4 (F := F) c i f0)) rfl _ _ _
    (hwd ▸ hall _) j).trans (fh_congr_g8 c fh _ _ hwd _ _ j)

theorem run1_row5_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (5 : Fin 32) j)
      = kernelRun8.sl.dma6 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_5 c arg4 harg4]
  exact rowWrites_read c arg4 harg4 _ _ 5 (by decide) j
theorem run1_value5_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (5 : Fin 32) j)
      = fh (ValueIdx.ix2 (⟨(f0 (ValueIdx.ix2 (5 : Fin 32) t)).toNat, hall _⟩ : Fin 8388608) j) := by
  rw [run1_row5_g8]
  unfold kernelRun8.sl.dma6
  have hwd : kernelRun8.sl.r_5 (F := F) c i f0 = f0 (ValueIdx.ix2 (5 : Fin 32) t) := by
    unfold kernelRun8.sl.r_5
    exact tblWord_read_g8 c f0 _ (5 : Fin 32) t ((k8_off11_eq i).trans (by rw [ht]; rfl)) _ _
  exact (srcRow_read_g8 c fh (kernelRun8.sl.r_5 (F := F) c i f0) (k8_off12 (kernelRun8.sl.r_5 (F := F) c i f0)) rfl _ _ _
    (hwd ▸ hall _) j).trans (fh_congr_g8 c fh _ _ hwd _ _ j)

theorem run1_row6_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (6 : Fin 32) j)
      = kernelRun8.sl.dma7 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_6 c arg4 harg4]
  exact rowWrites_read c arg4 harg4 _ _ 6 (by decide) j
theorem run1_value6_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (6 : Fin 32) j)
      = fh (ValueIdx.ix2 (⟨(f0 (ValueIdx.ix2 (6 : Fin 32) t)).toNat, hall _⟩ : Fin 8388608) j) := by
  rw [run1_row6_g8]
  unfold kernelRun8.sl.dma7
  have hwd : kernelRun8.sl.r_6 (F := F) c i f0 = f0 (ValueIdx.ix2 (6 : Fin 32) t) := by
    unfold kernelRun8.sl.r_6
    exact tblWord_read_g8 c f0 _ (6 : Fin 32) t ((k8_off13_eq i).trans (by rw [ht]; rfl)) _ _
  exact (srcRow_read_g8 c fh (kernelRun8.sl.r_6 (F := F) c i f0) (k8_off14 (kernelRun8.sl.r_6 (F := F) c i f0)) rfl _ _ _
    (hwd ▸ hall _) j).trans (fh_congr_g8 c fh _ _ hwd _ _ j)

theorem run1_row7_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (7 : Fin 32) j)
      = kernelRun8.sl.dma8 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_7 c arg4 harg4]
  exact rowWrites_read c arg4 harg4 _ _ 7 (by decide) j
theorem run1_value7_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (7 : Fin 32) j)
      = fh (ValueIdx.ix2 (⟨(f0 (ValueIdx.ix2 (7 : Fin 32) t)).toNat, hall _⟩ : Fin 8388608) j) := by
  rw [run1_row7_g8]
  unfold kernelRun8.sl.dma8
  have hwd : kernelRun8.sl.r_7 (F := F) c i f0 = f0 (ValueIdx.ix2 (7 : Fin 32) t) := by
    unfold kernelRun8.sl.r_7
    exact tblWord_read_g8 c f0 _ (7 : Fin 32) t ((k8_off15_eq i).trans (by rw [ht]; rfl)) _ _
  exact (srcRow_read_g8 c fh (kernelRun8.sl.r_7 (F := F) c i f0) (k8_off16 (kernelRun8.sl.r_7 (F := F) c i f0)) rfl _ _ _
    (hwd ▸ hall _) j).trans (fh_congr_g8 c fh _ _ hwd _ _ j)

theorem run1_row8_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (8 : Fin 32) j)
      = kernelRun8.sl.dma9 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_8 c arg4 harg4]
  exact rowWrites_read c arg4 harg4 _ _ 8 (by decide) j
theorem run1_value8_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (8 : Fin 32) j)
      = fh (ValueIdx.ix2 (⟨(f0 (ValueIdx.ix2 (8 : Fin 32) t)).toNat, hall _⟩ : Fin 8388608) j) := by
  rw [run1_row8_g8]
  unfold kernelRun8.sl.dma9
  have hwd : kernelRun8.sl.r_8 (F := F) c i f0 = f0 (ValueIdx.ix2 (8 : Fin 32) t) := by
    unfold kernelRun8.sl.r_8
    exact tblWord_read_g8 c f0 _ (8 : Fin 32) t ((k8_off17_eq i).trans (by rw [ht]; rfl)) _ _
  exact (srcRow_read_g8 c fh (kernelRun8.sl.r_8 (F := F) c i f0) (k8_off18 (kernelRun8.sl.r_8 (F := F) c i f0)) rfl _ _ _
    (hwd ▸ hall _) j).trans (fh_congr_g8 c fh _ _ hwd _ _ j)

theorem run1_row9_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (9 : Fin 32) j)
      = kernelRun8.sl.dma10 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_9 c arg4 harg4]
  exact rowWrites_read c arg4 harg4 _ _ 9 (by decide) j
theorem run1_value9_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (9 : Fin 32) j)
      = fh (ValueIdx.ix2 (⟨(f0 (ValueIdx.ix2 (9 : Fin 32) t)).toNat, hall _⟩ : Fin 8388608) j) := by
  rw [run1_row9_g8]
  unfold kernelRun8.sl.dma10
  have hwd : kernelRun8.sl.r_9 (F := F) c i f0 = f0 (ValueIdx.ix2 (9 : Fin 32) t) := by
    unfold kernelRun8.sl.r_9
    exact tblWord_read_g8 c f0 _ (9 : Fin 32) t ((k8_off19_eq i).trans (by rw [ht]; rfl)) _ _
  exact (srcRow_read_g8 c fh (kernelRun8.sl.r_9 (F := F) c i f0) (k8_off20 (kernelRun8.sl.r_9 (F := F) c i f0)) rfl _ _ _
    (hwd ▸ hall _) j).trans (fh_congr_g8 c fh _ _ hwd _ _ j)

theorem run1_row10_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (10 : Fin 32) j)
      = kernelRun8.sl.dma11 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_10 c arg4 harg4]
  exact rowWrites_read c arg4 harg4 _ _ 10 (by decide) j
theorem run1_value10_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (10 : Fin 32) j)
      = fh (ValueIdx.ix2 (⟨(f0 (ValueIdx.ix2 (10 : Fin 32) t)).toNat, hall _⟩ : Fin 8388608) j) := by
  rw [run1_row10_g8]
  unfold kernelRun8.sl.dma11
  have hwd : kernelRun8.sl.r_10 (F := F) c i f0 = f0 (ValueIdx.ix2 (10 : Fin 32) t) := by
    unfold kernelRun8.sl.r_10
    exact tblWord_read_g8 c f0 _ (10 : Fin 32) t ((k8_off21_eq i).trans (by rw [ht]; rfl)) _ _
  exact (srcRow_read_g8 c fh (kernelRun8.sl.r_10 (F := F) c i f0) (k8_off22 (kernelRun8.sl.r_10 (F := F) c i f0)) rfl _ _ _
    (hwd ▸ hall _) j).trans (fh_congr_g8 c fh _ _ hwd _ _ j)

theorem run1_row11_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (11 : Fin 32) j)
      = kernelRun8.sl.dma12 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_11 c arg4 harg4]
  exact rowWrites_read c arg4 harg4 _ _ 11 (by decide) j
theorem run1_value11_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (11 : Fin 32) j)
      = fh (ValueIdx.ix2 (⟨(f0 (ValueIdx.ix2 (11 : Fin 32) t)).toNat, hall _⟩ : Fin 8388608) j) := by
  rw [run1_row11_g8]
  unfold kernelRun8.sl.dma12
  have hwd : kernelRun8.sl.r_11 (F := F) c i f0 = f0 (ValueIdx.ix2 (11 : Fin 32) t) := by
    unfold kernelRun8.sl.r_11
    exact tblWord_read_g8 c f0 _ (11 : Fin 32) t ((k8_off23_eq i).trans (by rw [ht]; rfl)) _ _
  exact (srcRow_read_g8 c fh (kernelRun8.sl.r_11 (F := F) c i f0) (k8_off24 (kernelRun8.sl.r_11 (F := F) c i f0)) rfl _ _ _
    (hwd ▸ hall _) j).trans (fh_congr_g8 c fh _ _ hwd _ _ j)

theorem run1_row12_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (12 : Fin 32) j)
      = kernelRun8.sl.dma13 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_12 c arg4 harg4]
  exact rowWrites_read c arg4 harg4 _ _ 12 (by decide) j
theorem run1_value12_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (12 : Fin 32) j)
      = fh (ValueIdx.ix2 (⟨(f0 (ValueIdx.ix2 (12 : Fin 32) t)).toNat, hall _⟩ : Fin 8388608) j) := by
  rw [run1_row12_g8]
  unfold kernelRun8.sl.dma13
  have hwd : kernelRun8.sl.r_12 (F := F) c i f0 = f0 (ValueIdx.ix2 (12 : Fin 32) t) := by
    unfold kernelRun8.sl.r_12
    exact tblWord_read_g8 c f0 _ (12 : Fin 32) t ((k8_off25_eq i).trans (by rw [ht]; rfl)) _ _
  exact (srcRow_read_g8 c fh (kernelRun8.sl.r_12 (F := F) c i f0) (k8_off26 (kernelRun8.sl.r_12 (F := F) c i f0)) rfl _ _ _
    (hwd ▸ hall _) j).trans (fh_congr_g8 c fh _ _ hwd _ _ j)

theorem run1_row13_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (13 : Fin 32) j)
      = kernelRun8.sl.dma14 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_13 c arg4 harg4]
  exact rowWrites_read c arg4 harg4 _ _ 13 (by decide) j
theorem run1_value13_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (13 : Fin 32) j)
      = fh (ValueIdx.ix2 (⟨(f0 (ValueIdx.ix2 (13 : Fin 32) t)).toNat, hall _⟩ : Fin 8388608) j) := by
  rw [run1_row13_g8]
  unfold kernelRun8.sl.dma14
  have hwd : kernelRun8.sl.r_13 (F := F) c i f0 = f0 (ValueIdx.ix2 (13 : Fin 32) t) := by
    unfold kernelRun8.sl.r_13
    exact tblWord_read_g8 c f0 _ (13 : Fin 32) t ((k8_off27_eq i).trans (by rw [ht]; rfl)) _ _
  exact (srcRow_read_g8 c fh (kernelRun8.sl.r_13 (F := F) c i f0) (k8_off28 (kernelRun8.sl.r_13 (F := F) c i f0)) rfl _ _ _
    (hwd ▸ hall _) j).trans (fh_congr_g8 c fh _ _ hwd _ _ j)

theorem run1_row14_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (14 : Fin 32) j)
      = kernelRun8.sl.dma15 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_14 c arg4 harg4]
  exact rowWrites_read c arg4 harg4 _ _ 14 (by decide) j
theorem run1_value14_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (14 : Fin 32) j)
      = fh (ValueIdx.ix2 (⟨(f0 (ValueIdx.ix2 (14 : Fin 32) t)).toNat, hall _⟩ : Fin 8388608) j) := by
  rw [run1_row14_g8]
  unfold kernelRun8.sl.dma15
  have hwd : kernelRun8.sl.r_14 (F := F) c i f0 = f0 (ValueIdx.ix2 (14 : Fin 32) t) := by
    unfold kernelRun8.sl.r_14
    exact tblWord_read_g8 c f0 _ (14 : Fin 32) t ((k8_off29_eq i).trans (by rw [ht]; rfl)) _ _
  exact (srcRow_read_g8 c fh (kernelRun8.sl.r_14 (F := F) c i f0) (k8_off30 (kernelRun8.sl.r_14 (F := F) c i f0)) rfl _ _ _
    (hwd ▸ hall _) j).trans (fh_congr_g8 c fh _ _ hwd _ _ j)

theorem run1_row15_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (15 : Fin 32) j)
      = kernelRun8.sl.dma16 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_15 c arg4 harg4]
  exact rowWrites_read c arg4 harg4 _ _ 15 (by decide) j
theorem run1_value15_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (15 : Fin 32) j)
      = fh (ValueIdx.ix2 (⟨(f0 (ValueIdx.ix2 (15 : Fin 32) t)).toNat, hall _⟩ : Fin 8388608) j) := by
  rw [run1_row15_g8]
  unfold kernelRun8.sl.dma16
  have hwd : kernelRun8.sl.r_15 (F := F) c i f0 = f0 (ValueIdx.ix2 (15 : Fin 32) t) := by
    unfold kernelRun8.sl.r_15
    exact tblWord_read_g8 c f0 _ (15 : Fin 32) t ((k8_off31_eq i).trans (by rw [ht]; rfl)) _ _
  exact (srcRow_read_g8 c fh (kernelRun8.sl.r_15 (F := F) c i f0) (k8_off32 (kernelRun8.sl.r_15 (F := F) c i f0)) rfl _ _ _
    (hwd ▸ hall _) j).trans (fh_congr_g8 c fh _ _ hwd _ _ j)

theorem run1_row16_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (16 : Fin 32) j)
      = kernelRun8.sl.dma17 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_16 c arg4 harg4]
  exact rowWrites_read c arg4 harg4 _ _ 16 (by decide) j
theorem run1_value16_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (16 : Fin 32) j)
      = fh (ValueIdx.ix2 (⟨(f0 (ValueIdx.ix2 (16 : Fin 32) t)).toNat, hall _⟩ : Fin 8388608) j) := by
  rw [run1_row16_g8]
  unfold kernelRun8.sl.dma17
  have hwd : kernelRun8.sl.r_16 (F := F) c i f0 = f0 (ValueIdx.ix2 (16 : Fin 32) t) := by
    unfold kernelRun8.sl.r_16
    exact tblWord_read_g8 c f0 _ (16 : Fin 32) t ((k8_off33_eq i).trans (by rw [ht]; rfl)) _ _
  exact (srcRow_read_g8 c fh (kernelRun8.sl.r_16 (F := F) c i f0) (k8_off34 (kernelRun8.sl.r_16 (F := F) c i f0)) rfl _ _ _
    (hwd ▸ hall _) j).trans (fh_congr_g8 c fh _ _ hwd _ _ j)

theorem run1_row17_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (17 : Fin 32) j)
      = kernelRun8.sl.dma18 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_17 c arg4 harg4]
  exact rowWrites_read c arg4 harg4 _ _ 17 (by decide) j
theorem run1_value17_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (17 : Fin 32) j)
      = fh (ValueIdx.ix2 (⟨(f0 (ValueIdx.ix2 (17 : Fin 32) t)).toNat, hall _⟩ : Fin 8388608) j) := by
  rw [run1_row17_g8]
  unfold kernelRun8.sl.dma18
  have hwd : kernelRun8.sl.r_17 (F := F) c i f0 = f0 (ValueIdx.ix2 (17 : Fin 32) t) := by
    unfold kernelRun8.sl.r_17
    exact tblWord_read_g8 c f0 _ (17 : Fin 32) t ((k8_off35_eq i).trans (by rw [ht]; rfl)) _ _
  exact (srcRow_read_g8 c fh (kernelRun8.sl.r_17 (F := F) c i f0) (k8_off36 (kernelRun8.sl.r_17 (F := F) c i f0)) rfl _ _ _
    (hwd ▸ hall _) j).trans (fh_congr_g8 c fh _ _ hwd _ _ j)

theorem run1_row18_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (18 : Fin 32) j)
      = kernelRun8.sl.dma19 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_18 c arg4 harg4]
  exact rowWrites_read c arg4 harg4 _ _ 18 (by decide) j
theorem run1_value18_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (18 : Fin 32) j)
      = fh (ValueIdx.ix2 (⟨(f0 (ValueIdx.ix2 (18 : Fin 32) t)).toNat, hall _⟩ : Fin 8388608) j) := by
  rw [run1_row18_g8]
  unfold kernelRun8.sl.dma19
  have hwd : kernelRun8.sl.r_18 (F := F) c i f0 = f0 (ValueIdx.ix2 (18 : Fin 32) t) := by
    unfold kernelRun8.sl.r_18
    exact tblWord_read_g8 c f0 _ (18 : Fin 32) t ((k8_off37_eq i).trans (by rw [ht]; rfl)) _ _
  exact (srcRow_read_g8 c fh (kernelRun8.sl.r_18 (F := F) c i f0) (k8_off38 (kernelRun8.sl.r_18 (F := F) c i f0)) rfl _ _ _
    (hwd ▸ hall _) j).trans (fh_congr_g8 c fh _ _ hwd _ _ j)

theorem run1_row19_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (19 : Fin 32) j)
      = kernelRun8.sl.dma20 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_19 c arg4 harg4]
  exact rowWrites_read c arg4 harg4 _ _ 19 (by decide) j
theorem run1_value19_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (19 : Fin 32) j)
      = fh (ValueIdx.ix2 (⟨(f0 (ValueIdx.ix2 (19 : Fin 32) t)).toNat, hall _⟩ : Fin 8388608) j) := by
  rw [run1_row19_g8]
  unfold kernelRun8.sl.dma20
  have hwd : kernelRun8.sl.r_19 (F := F) c i f0 = f0 (ValueIdx.ix2 (19 : Fin 32) t) := by
    unfold kernelRun8.sl.r_19
    exact tblWord_read_g8 c f0 _ (19 : Fin 32) t ((k8_off39_eq i).trans (by rw [ht]; rfl)) _ _
  exact (srcRow_read_g8 c fh (kernelRun8.sl.r_19 (F := F) c i f0) (k8_off40 (kernelRun8.sl.r_19 (F := F) c i f0)) rfl _ _ _
    (hwd ▸ hall _) j).trans (fh_congr_g8 c fh _ _ hwd _ _ j)

theorem run1_row20_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (20 : Fin 32) j)
      = kernelRun8.sl.dma21 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_20 c arg4 harg4]
  exact rowWrites_read c arg4 harg4 _ _ 20 (by decide) j
theorem run1_value20_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (20 : Fin 32) j)
      = fh (ValueIdx.ix2 (⟨(f0 (ValueIdx.ix2 (20 : Fin 32) t)).toNat, hall _⟩ : Fin 8388608) j) := by
  rw [run1_row20_g8]
  unfold kernelRun8.sl.dma21
  have hwd : kernelRun8.sl.r_20 (F := F) c i f0 = f0 (ValueIdx.ix2 (20 : Fin 32) t) := by
    unfold kernelRun8.sl.r_20
    exact tblWord_read_g8 c f0 _ (20 : Fin 32) t ((k8_off41_eq i).trans (by rw [ht]; rfl)) _ _
  exact (srcRow_read_g8 c fh (kernelRun8.sl.r_20 (F := F) c i f0) (k8_off42 (kernelRun8.sl.r_20 (F := F) c i f0)) rfl _ _ _
    (hwd ▸ hall _) j).trans (fh_congr_g8 c fh _ _ hwd _ _ j)

theorem run1_row21_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (21 : Fin 32) j)
      = kernelRun8.sl.dma22 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_21 c arg4 harg4]
  exact rowWrites_read c arg4 harg4 _ _ 21 (by decide) j
theorem run1_value21_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (21 : Fin 32) j)
      = fh (ValueIdx.ix2 (⟨(f0 (ValueIdx.ix2 (21 : Fin 32) t)).toNat, hall _⟩ : Fin 8388608) j) := by
  rw [run1_row21_g8]
  unfold kernelRun8.sl.dma22
  have hwd : kernelRun8.sl.r_21 (F := F) c i f0 = f0 (ValueIdx.ix2 (21 : Fin 32) t) := by
    unfold kernelRun8.sl.r_21
    exact tblWord_read_g8 c f0 _ (21 : Fin 32) t ((k8_off43_eq i).trans (by rw [ht]; rfl)) _ _
  exact (srcRow_read_g8 c fh (kernelRun8.sl.r_21 (F := F) c i f0) (k8_off44 (kernelRun8.sl.r_21 (F := F) c i f0)) rfl _ _ _
    (hwd ▸ hall _) j).trans (fh_congr_g8 c fh _ _ hwd _ _ j)

theorem run1_row22_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (22 : Fin 32) j)
      = kernelRun8.sl.dma23 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_22 c arg4 harg4]
  exact rowWrites_read c arg4 harg4 _ _ 22 (by decide) j
theorem run1_value22_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (22 : Fin 32) j)
      = fh (ValueIdx.ix2 (⟨(f0 (ValueIdx.ix2 (22 : Fin 32) t)).toNat, hall _⟩ : Fin 8388608) j) := by
  rw [run1_row22_g8]
  unfold kernelRun8.sl.dma23
  have hwd : kernelRun8.sl.r_22 (F := F) c i f0 = f0 (ValueIdx.ix2 (22 : Fin 32) t) := by
    unfold kernelRun8.sl.r_22
    exact tblWord_read_g8 c f0 _ (22 : Fin 32) t ((k8_off45_eq i).trans (by rw [ht]; rfl)) _ _
  exact (srcRow_read_g8 c fh (kernelRun8.sl.r_22 (F := F) c i f0) (k8_off46 (kernelRun8.sl.r_22 (F := F) c i f0)) rfl _ _ _
    (hwd ▸ hall _) j).trans (fh_congr_g8 c fh _ _ hwd _ _ j)

theorem run1_row23_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (23 : Fin 32) j)
      = kernelRun8.sl.dma24 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_23 c arg4 harg4]
  exact rowWrites_read c arg4 harg4 _ _ 23 (by decide) j
theorem run1_value23_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (23 : Fin 32) j)
      = fh (ValueIdx.ix2 (⟨(f0 (ValueIdx.ix2 (23 : Fin 32) t)).toNat, hall _⟩ : Fin 8388608) j) := by
  rw [run1_row23_g8]
  unfold kernelRun8.sl.dma24
  have hwd : kernelRun8.sl.r_23 (F := F) c i f0 = f0 (ValueIdx.ix2 (23 : Fin 32) t) := by
    unfold kernelRun8.sl.r_23
    exact tblWord_read_g8 c f0 _ (23 : Fin 32) t ((k8_off47_eq i).trans (by rw [ht]; rfl)) _ _
  exact (srcRow_read_g8 c fh (kernelRun8.sl.r_23 (F := F) c i f0) (k8_off48 (kernelRun8.sl.r_23 (F := F) c i f0)) rfl _ _ _
    (hwd ▸ hall _) j).trans (fh_congr_g8 c fh _ _ hwd _ _ j)

theorem run1_row24_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (24 : Fin 32) j)
      = kernelRun8.sl.dma25 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_24 c arg4 harg4]
  exact rowWrites_read c arg4 harg4 _ _ 24 (by decide) j
theorem run1_value24_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (24 : Fin 32) j)
      = fh (ValueIdx.ix2 (⟨(f0 (ValueIdx.ix2 (24 : Fin 32) t)).toNat, hall _⟩ : Fin 8388608) j) := by
  rw [run1_row24_g8]
  unfold kernelRun8.sl.dma25
  have hwd : kernelRun8.sl.r_24 (F := F) c i f0 = f0 (ValueIdx.ix2 (24 : Fin 32) t) := by
    unfold kernelRun8.sl.r_24
    exact tblWord_read_g8 c f0 _ (24 : Fin 32) t ((k8_off49_eq i).trans (by rw [ht]; rfl)) _ _
  exact (srcRow_read_g8 c fh (kernelRun8.sl.r_24 (F := F) c i f0) (k8_off50 (kernelRun8.sl.r_24 (F := F) c i f0)) rfl _ _ _
    (hwd ▸ hall _) j).trans (fh_congr_g8 c fh _ _ hwd _ _ j)

theorem run1_row25_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (25 : Fin 32) j)
      = kernelRun8.sl.dma26 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_25 c arg4 harg4]
  exact rowWrites_read c arg4 harg4 _ _ 25 (by decide) j
theorem run1_value25_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (25 : Fin 32) j)
      = fh (ValueIdx.ix2 (⟨(f0 (ValueIdx.ix2 (25 : Fin 32) t)).toNat, hall _⟩ : Fin 8388608) j) := by
  rw [run1_row25_g8]
  unfold kernelRun8.sl.dma26
  have hwd : kernelRun8.sl.r_25 (F := F) c i f0 = f0 (ValueIdx.ix2 (25 : Fin 32) t) := by
    unfold kernelRun8.sl.r_25
    exact tblWord_read_g8 c f0 _ (25 : Fin 32) t ((k8_off51_eq i).trans (by rw [ht]; rfl)) _ _
  exact (srcRow_read_g8 c fh (kernelRun8.sl.r_25 (F := F) c i f0) (k8_off52 (kernelRun8.sl.r_25 (F := F) c i f0)) rfl _ _ _
    (hwd ▸ hall _) j).trans (fh_congr_g8 c fh _ _ hwd _ _ j)

theorem run1_row26_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (26 : Fin 32) j)
      = kernelRun8.sl.dma27 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_26 c arg4 harg4]
  exact rowWrites_read c arg4 harg4 _ _ 26 (by decide) j
theorem run1_value26_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (26 : Fin 32) j)
      = fh (ValueIdx.ix2 (⟨(f0 (ValueIdx.ix2 (26 : Fin 32) t)).toNat, hall _⟩ : Fin 8388608) j) := by
  rw [run1_row26_g8]
  unfold kernelRun8.sl.dma27
  have hwd : kernelRun8.sl.r_26 (F := F) c i f0 = f0 (ValueIdx.ix2 (26 : Fin 32) t) := by
    unfold kernelRun8.sl.r_26
    exact tblWord_read_g8 c f0 _ (26 : Fin 32) t ((k8_off53_eq i).trans (by rw [ht]; rfl)) _ _
  exact (srcRow_read_g8 c fh (kernelRun8.sl.r_26 (F := F) c i f0) (k8_off54 (kernelRun8.sl.r_26 (F := F) c i f0)) rfl _ _ _
    (hwd ▸ hall _) j).trans (fh_congr_g8 c fh _ _ hwd _ _ j)

theorem run1_row27_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (27 : Fin 32) j)
      = kernelRun8.sl.dma28 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_27 c arg4 harg4]
  exact rowWrites_read c arg4 harg4 _ _ 27 (by decide) j
theorem run1_value27_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (27 : Fin 32) j)
      = fh (ValueIdx.ix2 (⟨(f0 (ValueIdx.ix2 (27 : Fin 32) t)).toNat, hall _⟩ : Fin 8388608) j) := by
  rw [run1_row27_g8]
  unfold kernelRun8.sl.dma28
  have hwd : kernelRun8.sl.r_27 (F := F) c i f0 = f0 (ValueIdx.ix2 (27 : Fin 32) t) := by
    unfold kernelRun8.sl.r_27
    exact tblWord_read_g8 c f0 _ (27 : Fin 32) t ((k8_off55_eq i).trans (by rw [ht]; rfl)) _ _
  exact (srcRow_read_g8 c fh (kernelRun8.sl.r_27 (F := F) c i f0) (k8_off56 (kernelRun8.sl.r_27 (F := F) c i f0)) rfl _ _ _
    (hwd ▸ hall _) j).trans (fh_congr_g8 c fh _ _ hwd _ _ j)

theorem run1_row28_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (28 : Fin 32) j)
      = kernelRun8.sl.dma29 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_28 c arg4 harg4]
  exact rowWrites_read c arg4 harg4 _ _ 28 (by decide) j
theorem run1_value28_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (28 : Fin 32) j)
      = fh (ValueIdx.ix2 (⟨(f0 (ValueIdx.ix2 (28 : Fin 32) t)).toNat, hall _⟩ : Fin 8388608) j) := by
  rw [run1_row28_g8]
  unfold kernelRun8.sl.dma29
  have hwd : kernelRun8.sl.r_28 (F := F) c i f0 = f0 (ValueIdx.ix2 (28 : Fin 32) t) := by
    unfold kernelRun8.sl.r_28
    exact tblWord_read_g8 c f0 _ (28 : Fin 32) t ((k8_off57_eq i).trans (by rw [ht]; rfl)) _ _
  exact (srcRow_read_g8 c fh (kernelRun8.sl.r_28 (F := F) c i f0) (k8_off58 (kernelRun8.sl.r_28 (F := F) c i f0)) rfl _ _ _
    (hwd ▸ hall _) j).trans (fh_congr_g8 c fh _ _ hwd _ _ j)

theorem run1_row29_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (29 : Fin 32) j)
      = kernelRun8.sl.dma30 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_29 c arg4 harg4]
  exact rowWrites_read c arg4 harg4 _ _ 29 (by decide) j
theorem run1_value29_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (29 : Fin 32) j)
      = fh (ValueIdx.ix2 (⟨(f0 (ValueIdx.ix2 (29 : Fin 32) t)).toNat, hall _⟩ : Fin 8388608) j) := by
  rw [run1_row29_g8]
  unfold kernelRun8.sl.dma30
  have hwd : kernelRun8.sl.r_29 (F := F) c i f0 = f0 (ValueIdx.ix2 (29 : Fin 32) t) := by
    unfold kernelRun8.sl.r_29
    exact tblWord_read_g8 c f0 _ (29 : Fin 32) t ((k8_off59_eq i).trans (by rw [ht]; rfl)) _ _
  exact (srcRow_read_g8 c fh (kernelRun8.sl.r_29 (F := F) c i f0) (k8_off60 (kernelRun8.sl.r_29 (F := F) c i f0)) rfl _ _ _
    (hwd ▸ hall _) j).trans (fh_congr_g8 c fh _ _ hwd _ _ j)

theorem run1_row30_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (30 : Fin 32) j)
      = kernelRun8.sl.dma31 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_30 c arg4 harg4]
  exact rowWrites_read c arg4 harg4 _ _ 30 (by decide) j
theorem run1_value30_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (30 : Fin 32) j)
      = fh (ValueIdx.ix2 (⟨(f0 (ValueIdx.ix2 (30 : Fin 32) t)).toNat, hall _⟩ : Fin 8388608) j) := by
  rw [run1_row30_g8]
  unfold kernelRun8.sl.dma31
  have hwd : kernelRun8.sl.r_30 (F := F) c i f0 = f0 (ValueIdx.ix2 (30 : Fin 32) t) := by
    unfold kernelRun8.sl.r_30
    exact tblWord_read_g8 c f0 _ (30 : Fin 32) t ((k8_off61_eq i).trans (by rw [ht]; rfl)) _ _
  exact (srcRow_read_g8 c fh (kernelRun8.sl.r_30 (F := F) c i f0) (k8_off62 (kernelRun8.sl.r_30 (F := F) c i f0)) rfl _ _ _
    (hwd ▸ hall _) j).trans (fh_congr_g8 c fh _ _ hwd _ _ j)

theorem run1_row31_g8 (VO : View sig .tc .vmem S1x32x8 .f32) (j : Fin 8) :
    VO.read (Elt F) (VO.writes (Elt F) VO.junk (kernelRun8 c i arg3 harg3 arg4 harg4 f0 hall fh).1) (ValueIdx.ix3 (0 : Fin 1) (31 : Fin 32) j)
      = kernelRun8.sl.dma32 c i f0 hall fh (ValueIdx.ix1 j) := by
  rw [View.read_writes_eq_canon _ _ _ (coverRun8 c i arg3 harg3 arg4 harg4 f0 hall fh), run1_list_g8, View.canon_unit_zero hzG3_g8, pay1_apply_g8]
  unfold kernelRun8.sl.v448
  rw [View.readAt_eq_ld, View.ld_unit_zero (S := S32x8) hzG2_g8]
  rw [joinRows32_read_31 c arg4 harg4]
  exact rowWrites_read c arg4 harg4 _ _ 31 (by decide) j
theorem run1_value31_g8 (VO : View sig .tc .vmem S1x32x8 .f32) (t : Fin 1023) (ht : (i 0).val = t.val) (j : Fin 8) :
    VO.read (Elt F) (VO.writes (Elt F) VO.junk (kernelRun8 c i arg3 harg3 arg4 harg4 f0 hall fh).1) (ValueIdx.ix3 (0 : Fin 1) (31 : Fin 32) j)
      = fh (ValueIdx.ix2 (⟨(f0 (ValueIdx.ix2 (31 : Fin 32) t)).toNat, hall _⟩ : Fin 8388608) j) := by
  rw [run1_row31_g8]
  unfold kernelRun8.sl.dma32
  have hwd : kernelRun8.sl.r_31 (F := F) c i f0 = f0 (ValueIdx.ix2 (31 : Fin 32) t) := by
    unfold kernelRun8.sl.r_31
    exact tblWord_read_g8 c f0 _ (31 : Fin 32) t ((k8_off63_eq i).trans (by rw [ht]; rfl)) _ _
  exact (srcRow_read_g8 c fh (kernelRun8.sl.r_31 (F := F) c i f0) (k8_off64 (kernelRun8.sl.r_31 (F := F) c i f0)) rfl _ _ _
    (hwd ▸ hall _) j).trans (fh_congr_g8 c fh _ _ hwd _ _ j)

/-- The output block after the body at `[0, r, j]`: the weight array's row at the table's word `[r, t]`, element `j`. -/
theorem run1_value_g8 (VO : View sig .tc .vmem S1x32x8 .f32) (t : Fin 1023) (ht : (i 0).val = t.val) (r : Fin 32) (j : Fin 8) :
    VO.read (Elt F) (VO.writes (Elt F) VO.junk (kernelRun8 c i arg3 harg3 arg4 harg4 f0 hall fh).1) (ValueIdx.ix3 (0 : Fin 1) r j)
      = fh (ValueIdx.ix2 (⟨(f0 (ValueIdx.ix2 r t)).toNat, hall _⟩ : Fin 8388608) j) := by
  match r with
  | ⟨0, _⟩ => exact run1_value0_g8 c i arg3 harg3 arg4 harg4 f0 hall fh VO t ht j
  | ⟨1, _⟩ => exact run1_value1_g8 c i arg3 harg3 arg4 harg4 f0 hall fh VO t ht j
  | ⟨2, _⟩ => exact run1_value2_g8 c i arg3 harg3 arg4 harg4 f0 hall fh VO t ht j
  | ⟨3, _⟩ => exact run1_value3_g8 c i arg3 harg3 arg4 harg4 f0 hall fh VO t ht j
  | ⟨4, _⟩ => exact run1_value4_g8 c i arg3 harg3 arg4 harg4 f0 hall fh VO t ht j
  | ⟨5, _⟩ => exact run1_value5_g8 c i arg3 harg3 arg4 harg4 f0 hall fh VO t ht j
  | ⟨6, _⟩ => exact run1_value6_g8 c i arg3 harg3 arg4 harg4 f0 hall fh VO t ht j
  | ⟨7, _⟩ => exact run1_value7_g8 c i arg3 harg3 arg4 harg4 f0 hall fh VO t ht j
  | ⟨8, _⟩ => exact run1_value8_g8 c i arg3 harg3 arg4 harg4 f0 hall fh VO t ht j
  | ⟨9, _⟩ => exact run1_value9_g8 c i arg3 harg3 arg4 harg4 f0 hall fh VO t ht j
  | ⟨10, _⟩ => exact run1_value10_g8 c i arg3 harg3 arg4 harg4 f0 hall fh VO t ht j
  | ⟨11, _⟩ => exact run1_value11_g8 c i arg3 harg3 arg4 harg4 f0 hall fh VO t ht j
  | ⟨12, _⟩ => exact run1_value12_g8 c i arg3 harg3 arg4 harg4 f0 hall fh VO t ht j
  | ⟨13, _⟩ => exact run1_value13_g8 c i arg3 harg3 arg4 harg4 f0 hall fh VO t ht j
  | ⟨14, _⟩ => exact run1_value14_g8 c i arg3 harg3 arg4 harg4 f0 hall fh VO t ht j
  | ⟨15, _⟩ => exact run1_value15_g8 c i arg3 harg3 arg4 harg4 f0 hall fh VO t ht j
  | ⟨16, _⟩ => exact run1_value16_g8 c i arg3 harg3 arg4 harg4 f0 hall fh VO t ht j
  | ⟨17, _⟩ => exact run1_value17_g8 c i arg3 harg3 arg4 harg4 f0 hall fh VO t ht j
  | ⟨18, _⟩ => exact run1_value18_g8 c i arg3 harg3 arg4 harg4 f0 hall fh VO t ht j
  | ⟨19, _⟩ => exact run1_value19_g8 c i arg3 harg3 arg4 harg4 f0 hall fh VO t ht j
  | ⟨20, _⟩ => exact run1_value20_g8 c i arg3 harg3 arg4 harg4 f0 hall fh VO t ht j
  | ⟨21, _⟩ => exact run1_value21_g8 c i arg3 harg3 arg4 harg4 f0 hall fh VO t ht j
  | ⟨22, _⟩ => exact run1_value22_g8 c i arg3 harg3 arg4 harg4 f0 hall fh VO t ht j
  | ⟨23, _⟩ => exact run1_value23_g8 c i arg3 harg3 arg4 harg4 f0 hall fh VO t ht j
  | ⟨24, _⟩ => exact run1_value24_g8 c i arg3 harg3 arg4 harg4 f0 hall fh VO t ht j
  | ⟨25, _⟩ => exact run1_value25_g8 c i arg3 harg3 arg4 harg4 f0 hall fh VO t ht j
  | ⟨26, _⟩ => exact run1_value26_g8 c i arg3 harg3 arg4 harg4 f0 hall fh VO t ht j
  | ⟨27, _⟩ => exact run1_value27_g8 c i arg3 harg3 arg4 harg4 f0 hall fh VO t ht j
  | ⟨28, _⟩ => exact run1_value28_g8 c i arg3 harg3 arg4 harg4 f0 hall fh VO t ht j
  | ⟨29, _⟩ => exact run1_value29_g8 c i arg3 harg3 arg4 harg4 f0 hall fh VO t ht j
  | ⟨30, _⟩ => exact run1_value30_g8 c i arg3 harg3 arg4 harg4 f0 hall fh VO t ht j
  | ⟨31, _⟩ => exact run1_value31_g8 c i arg3 harg3 arg4 harg4 f0 hall fh VO t ht j
  | ⟨n + 32, h⟩ => exact absurd h (by omega)

end Run

/-! ## Gather kernel 8: the point and the region -/

/-- A grid point's one coordinate is the point's number. -/
theorem coordsG1_g8 : ∀ t : Fin grid8.N, ((grid8.coords t) 0).val = t.val := by decide +kernel

/-- What the output block holds after the body at point `t`, at `[0, r, j]`: element `j` of the weight array's row at the
    table's word `[r, t]`. -/
theorem gather1_point_g8 (V : (c : Dev nD) → (b : Ref sig .tc) → Buf (Elt F) ((c : Thread nD τ).loc b))
    (hH : InRange8 (F := F) V) (c : Dev nD) (t : Fin (pcfgG8 (F := F) V).N) (r : Fin 32) (j : Fin 8) :
    outsAt8 V hH c t (ValueIdx.ix3 (0 : Fin 1) r j)
      = V c main_arg2 (ValueIdx.ix2 (⟨(V c main_v60 (ValueIdx.ix2 r (⟨t.val, lt_of_lt_of_eq t.isLt (NG1_g8 (adm8 (F := F) V))⟩ : Fin 1023))).toNat, hH c _⟩ : Fin 8388608) j) := by
  unfold outsAt8
  exact run1_value_g8 c (grid8.coords t) (ms8 V t) (hs8 V t) scM8 (Memref.isWhole_whole _) (V c main_v60) (hH c) (V c main_arg2) VO8
    (⟨t.val, lt_of_lt_of_eq t.isLt (NG1_g8 (adm8 (F := F) V))⟩ : Fin 1023) (coordsG1_g8 t) r j

/-- The output array of gather kernel 8 after its region's run, at `[t, r, j]`: element `j` of the weight array's row at the
    table's word `[r, t]`. -/
theorem gather1_value_g8 (V : (c : Dev nD) → (b : Ref sig .tc) → Buf (Elt F) ((c : Thread nD τ).loc b))
    (hH : InRange8 (F := F) V) (c : Dev nD) (t : Fin 1023) (r : Fin 32) (j : Fin 8) :
    (datG8 (F := F) V hH c).arrAt 0 (pcfgG8 (F := F) V).N (ValueIdx.ix3 t r j)
      = V c main_arg2 (ValueIdx.ix2 (⟨(V c main_v60 (ValueIdx.ix2 r t)).toNat, hH c _⟩ : Fin 8388608) j) := by
  rw [gather1_blocks_g8 V hH c t r j, gather1_point_g8 V hH c _ r j]

end Cert.KernelIdeal.Hand

end
-- ==== Proof.KernelIdealGatherValue.lean ====
/-
  The eight gather regions' results over @main's boundary contents: entry [t, r, j] of the array region k leaves is
  entry j of the weight array's row whose index is the word [r, t] of region k's table.
-/
import proofs.«145402_j1717986918579_1_alg».proof.Proof.Gen.KernelIdeal.Launch
import proofs.«145402_j1717986918579_1_alg».proof.Proof.Gen.KernelIdeal.Skeleton
import proofs.«145402_j1717986918579_1_alg».proof.Proof.Gen.KernelIdeal.Points
import proofs.«145402_j1717986918579_1_alg».proof.Proof.Gen.KernelIdeal.Regions
import Idealize.ShloMosaic.Lib.ValueIdx
import proofs.«145402_j1717986918579_1_alg».proof.Proof.KernelIdealFrame
import proofs.«145402_j1717986918579_1_alg».proof.Proof.KernelIdealGatherValue1
import proofs.«145402_j1717986918579_1_alg».proof.Proof.KernelIdealGatherValue2
import proofs.«145402_j1717986918579_1_alg».proof.Proof.KernelIdealGatherValue3
import proofs.«145402_j1717986918579_1_alg».proof.Proof.KernelIdealGatherValue4
import proofs.«145402_j1717986918579_1_alg».proof.Proof.KernelIdealGatherValue5
import proofs.«145402_j1717986918579_1_alg».proof.Proof.KernelIdealGatherValue6
import proofs.«145402_j1717986918579_1_alg».proof.Proof.KernelIdealGatherValue7
import proofs.«145402_j1717986918579_1_alg».proof.Proof.KernelIdealGatherValue8

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section GV
variable (m : (ℓ : Loc nD τ sig) → Buf (Elt F) ℓ)

theorem gather1_at (c : Dev nD) : ∀ (t : Fin 1023) (r : Fin 32) (j : Fin 8),
    res1 (F := F) m c (ValueIdx.ix3 t r j)
      = W3 m c (Proc.devRef .tc main_arg2) (ValueIdx.ix2 ⟨(W3 m c (Proc.devRef .tc main_v34) (ValueIdx.ix2 r t)).toNat, inRange1 m c _⟩ j) :=
  fun t r j => gather1_value (rd (W3 m)) (inRange1 m) c t r j

theorem gather2_at (c : Dev nD) : ∀ (t : Fin 1023) (r : Fin 32) (j : Fin 8),
    res2 (F := F) m c (ValueIdx.ix3 t r j)
      = W5 m c (Proc.devRef .tc main_arg2) (ValueIdx.ix2 ⟨(W5 m c (Proc.devRef .tc main_v37) (ValueIdx.ix2 r t)).toNat, inRange2 m c _⟩ j) :=
  fun t r j => gather1_value_g2 (rd (W5 m)) (inRange2 m) c t r j

theorem gather3_at (c : Dev nD) : ∀ (t : Fin 1023) (r : Fin 32) (j : Fin 8),
    res3 (F := F) m c (ValueIdx.ix3 t r j)
      = W7 m c (Proc.devRef .tc main_arg2) (ValueIdx.ix2 ⟨(W7 m c (Proc.devRef .tc main_v40) (ValueIdx.ix2 r t)).toNat, inRange3 m c _⟩ j) :=
  fun t r j => gather1_value_g3 (rd (W7 m)) (inRange3 m) c t r j

theorem gather4_at (c : Dev nD) : ∀ (t : Fin 1023) (r : Fin 32) (j : Fin 8),
    res4 (F := F) m c (ValueIdx.ix3 t r j)
      = W9 m c (Proc.devRef .tc main_arg2) (ValueIdx.ix2 ⟨(W9 m c (Proc.devRef .tc main_v43) (ValueIdx.ix2 r t)).toNat, inRange4 m c _⟩ j) :=
  fun t r j => gather1_value_g4 (rd (W9 m)) (inRange4 m) c t r j

theorem gather5_at (c : Dev nD) : ∀ (t : Fin 1023) (r : Fin 32) (j : Fin 8),
    res5 (F := F) m c (ValueIdx.ix3 t r j)
      = W11 m c (Proc.devRef .tc main_arg2) (ValueIdx.ix2 ⟨(W11 m c (Proc.devRef .tc main_v51) (ValueIdx.ix2 r t)).toNat, inRange5 m c _⟩ j) :=
  fun t r j => gather1_value_g5 (rd (W11 m)) (inRange5 m) c t r j

theorem gather6_at (c : Dev nD) : ∀ (t : Fin 1023) (r : Fin 32) (j : Fin 8),
    res6 (F := F) m c (ValueIdx.ix3 t r j)
      = W13 m c (Proc.devRef .tc main_arg2) (ValueIdx.ix2 ⟨(W13 m c (Proc.devRef .tc main_v54) (ValueIdx.ix2 r t)).toNat, inRange6 m c _⟩ j) :=
  fun t r j => gather1_value_g6 (rd (W13 m)) (inRange6 m) c t r j

theorem gather7_at (c : Dev nD) : ∀ (t : Fin 1023) (r : Fin 32) (j : Fin 8),
    res7 (F := F) m c (ValueIdx.ix3 t r j)
      = W15 m c (Proc.devRef .tc main_arg2) (ValueIdx.ix2 ⟨(W15 m c (Proc.devRef .tc main_v57) (ValueIdx.ix2 r t)).toNat, inRange7 m c _⟩ j) :=
  fun t r j => gather1_value_g7 (rd (W15 m)) (inRange7 m) c t r j

theorem gather8_at (c : Dev nD) : ∀ (t : Fin 1023) (r : Fin 32) (j : Fin 8),
    res8 (F := F) m c (ValueIdx.ix3 t r j)
      = W17 m c (Proc.devRef .tc main_arg2) (ValueIdx.ix2 ⟨(W17 m c (Proc.devRef .tc main_v60) (ValueIdx.ix2 r t)).toNat, inRange8 m c _⟩ j) :=
  fun t r j => gather1_value_g8 (rd (W17 m)) (inRange8 m) c t r j

end GV

end Cert.KernelIdeal.Hand

end
-- ==== Proof.RefRead.lean ====
/-
  The reference program's run, read back one host operation at a time: this module only gathers the two
  generated modules about the reference (its run as a composed term, and the index-by-index reading of that term)
  under one name for the modules that compare the two programs.
-/
import proofs.«145402_j1717986918579_1_alg».proof.Proof.Gen.ReferenceIdeal.Run
import proofs.«145402_j1717986918579_1_alg».proof.Proof.Gen.ReferenceIdeal.Read
-- ==== Proof.RefChain.lean ====
/-
  The reference's row indices are the kernel program's integer chain applied to the reference's logits: the two programs
  compute the row indices from their logits by the same operations.
-/
import proofs.«145402_j1717986918579_1_alg».proof.Proof.KernelIdealHost
import proofs.«145402_j1717986918579_1_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The same, for any float instance: operation by operation the reference's chain from its logits to its row indices is the
    kernel program's. -/
theorem ref_v28_eq_of {F : FTy → Type} [FloatOps F] (x0 : (⟨S2x1024x256, .f32⟩ : BufTy).Contents (Elt F))
    (x1 : (⟨S4x256x256, .f32⟩ : BufTy).Contents (Elt F)) :
    Read.val_main_v28 (F := F) x0 x1 = Cert.KernelIdeal.Hand.chain5 (F := F) (Read.val_main_v2 (F := F) x0 x1) := by
  unfold Read.val_main_v28 Read.val_main_v27 Read.val_main_v26 Read.val_main_v24 Read.val_main_v25
    Read.val_main_v19 Read.val_main_v23 Read.val_main_v18 Read.val_main_v22 Read.val_main_v16
    Read.val_main_v17 Read.val_main_v20 Read.val_main_v21 Read.val_main_c_1 Read.val_main_c_2
    Read.val_main_v15 Read.val_main_v11 Read.val_main_v14 Read.val_main_v12 Read.val_main_v13
    Read.val_main_c_0 Read.val_main_v10 Read.val_main_v9 Read.val_main_c Read.val_main_v5
    Read.val_main_v8 Read.val_main_v4 Read.val_main_v3 Read.val_main_cst Read.val_main_v7
    Read.val_main_v6
  unfold Cert.KernelIdeal.Hand.chain5
  generalize Read.val_main_v2 (F := F) x0 x1 = y
  rfl

/-- The reference's row indices are the kernel program's integer chain of the reference's logits. -/
theorem ref_v28_eq (x0 : (⟨S2x1024x256, .f32⟩ : BufTy).Contents (Elt Ideal)) (x1 : (⟨S4x256x256, .f32⟩ : BufTy).Contents (Elt Ideal)) :
    Read.val_main_v28 (F := Ideal) x0 x1
      = Cert.KernelIdeal.Hand.chain5 (F := Ideal) (Read.val_main_v2 (F := Ideal) x0 x1) :=
  ref_v28_eq_of x0 x1

end Cert.ReferenceIdeal.RefValue

end
-- ==== Proof.RefValue.lean ====
/-
  The reference program read at an index, at the ideal float instance: the logits as the contraction they are, and the
  result as the rows of the flat weight table at the row indices the reference computes.
-/
import proofs.«145402_j1717986918579_1_alg».proof.Proof.RefRead
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

open scoped BigOperators

/-- The logits at `[b, s, t, r, j]`: the contraction over the hidden axis of the query weight's row `r * 8 + j` of slab `s`
    with the hidden vector at `[b, t]`. -/
theorem logits_apply (x0 : (⟨S2x1024x256, .f32⟩ : BufTy).Contents (Elt Ideal)) (x1 : (⟨S4x256x256, .f32⟩ : BufTy).Contents (Elt Ideal))
    (b : Fin 2) (s : Fin 4) (t : Fin 1024) (r : Fin 32) (j : Fin 8) :
    Read.val_main_v2 (F := Ideal) x0 x1 (ValueIdx.ix5 b s t r j)
      = ∑ k : Fin 256, x1 (ValueIdx.ix3 s ⟨r.val * 8 + j.val, by omega⟩ k) * x0 (ValueIdx.ix3 b t k) := by
  rw [Read.val_main_v2_apply, Read.val_main_v1_apply, Read.val_main_v0_apply]
  have hb := b.isLt; have hs := s.isLt; have ht := t.isLt; have hr := r.isLt; have hj := j.isLt
  refine Finset.sum_congr rfl fun k _ => ?_
  have el : Read.lidx_main_v0 (Read.idx_main_v1 (Read.idx_main_v2 (ValueIdx.ix5 b s t r j))) k
      = ValueIdx.ix3 s ⟨r.val * 8 + j.val, by omega⟩ k := funext fun a => Fin.ext (by
    match a with
    | ⟨0, _⟩ =>
      show ((((b.val * 4 + s.val) * 1024 + t.val) * 32 + r.val) * 8 + j.val) / 262144 % 4 = s.val
      omega
    | ⟨1, _⟩ =>
      show ((((b.val * 4 + s.val) * 1024 + t.val) * 32 + r.val) * 8 + j.val) % 256 = r.val * 8 + j.val
      omega
    | ⟨2, _⟩ => rfl)
  have er : Read.ridx_main_v0 (Read.idx_main_v1 (Read.idx_main_v2 (ValueIdx.ix5 b s t r j))) k
      = ValueIdx.ix3 b t k := funext fun a => Fin.ext (by
    match a with
    | ⟨0, _⟩ =>
      show ((((b.val * 4 + s.val) * 1024 + t.val) * 32 + r.val) * 8 + j.val) / 1048576 = b.val
      omega
    | ⟨1, _⟩ =>
      show ((((b.val * 4 + s.val) * 1024 + t.val) * 32 + r.val) * 8 + j.val) / 256 % 1024 = t.val
      omega
    | ⟨2, _⟩ => rfl)
  rw [el, er]

/-- A 32-bit word below `2 ^ 23`, read signed, is its unsigned value. -/
theorem toInt_of_lt (v : BitVec 32) (h : v.toNat < 8388608) : v.toInt = (v.toNat : Int) := by
  rw [BitVec.toInt_eq_toNat_cond]
  split <;> omega

/-- A 32-bit word below `2 ^ 23` is not negative read signed: the signed comparison with zero fails. -/
theorem cmpi_slt_zero_of_lt (v : BitVec 32) (h : v.toNat < 8388608) : IntOp.cmpi .slt v 0#32 = 0#1 := by
  have hs : v.slt 0#32 = false := by
    simp only [BitVec.slt, BitVec.toInt_zero, decide_eq_false_iff_not, Int.not_lt]
    rw [toInt_of_lt v h]
    omega
  show BitVec.ofBool (v.slt 0#32) = 0#1
  rw [hs]
  rfl

/-- A 32-bit word below `2 ^ 23`, read signed and clamped into `[0, 8388607]`, is its unsigned value. -/
theorem clamp_of_lt (v : BitVec 32) (h : v.toNat < 8388608) : min v.toInt.toNat 8388607 = v.toNat := by
  rw [toInt_of_lt v h, Int.toNat_natCast]
  omega

/-- The gather of table rows read at `[b, s, t, r, j]`: element `j` of the table's row at the start index at
    `[b, s, t, r, 0]`, read signed and clamped into the table. -/
theorem gather_apply {α : Type} (x : S8388608x8.Idx → α) (idx : IVec S2x4x1023x32x1 32)
    (b : Fin 2) (s : Fin 4) (t : Fin 1023) (r : Fin 32) (j : Fin 8) :
    Host.gather gather_S8388608x8_S2x4x1023x32x1_S2x4x1023x32x8_4_0_n_n_0_4_18 x idx (ValueIdx.ix5 b s t r j)
      = x (ValueIdx.ix2 ⟨min (idx (ValueIdx.ix5 b s t r (0 : Fin 1))).toInt.toNat 8388607, by omega⟩ j) := by
  unfold Host.gather
  congr 1
  funext a
  refine Fin.ext ?_
  match a with
  | ⟨0, _⟩ =>
    show gather_S8388608x8_S2x4x1023x32x1_S2x4x1023x32x8_4_0_n_n_0_4_18.start (ValueIdx.ix5 b s t r j) idx 0
        + gather_S8388608x8_S2x4x1023x32x1_S2x4x1023x32x8_4_0_n_n_0_4_18.batchCoord (ValueIdx.ix5 b s t r j) 0
        + gather_S8388608x8_S2x4x1023x32x1_S2x4x1023x32x8_4_0_n_n_0_4_18.offCoord (ValueIdx.ix5 b s t r j) 0
      = min (idx (ValueIdx.ix5 b s t r (0 : Fin 1))).toInt.toNat 8388607
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8388608x8_S2x4x1023x32x1_S2x4x1023x32x8_4_0_n_n_0_4_18.startIndexMap from List.mem_singleton.mpr rfl)]
    have hsi : gather_S8388608x8_S2x4x1023x32x1_S2x4x1023x32x8_4_0_n_n_0_4_18.siIdx (ValueIdx.ix5 b s t r j)
        ⟨List.idxOf (0 : Fin 2) gather_S8388608x8_S2x4x1023x32x1_S2x4x1023x32x8_4_0_n_n_0_4_18.startIndexMap,
          List.idxOf_lt_length_iff.2 (List.mem_singleton.mpr rfl)⟩ = ValueIdx.ix5 b s t r (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  | ⟨1, _⟩ =>
    show gather_S8388608x8_S2x4x1023x32x1_S2x4x1023x32x8_4_0_n_n_0_4_18.start (ValueIdx.ix5 b s t r j) idx 1
        + gather_S8388608x8_S2x4x1023x32x1_S2x4x1023x32x8_4_0_n_n_0_4_18.batchCoord (ValueIdx.ix5 b s t r j) 1
        + gather_S8388608x8_S2x4x1023x32x1_S2x4x1023x32x8_4_0_n_n_0_4_18.offCoord (ValueIdx.ix5 b s t r j) 1
      = j.val
    rw [GatherDims.batchCoord_eq_zero _ _ _ List.not_mem_nil]
    unfold GatherDims.start
    rw [dif_neg (show (1 : Fin 2) ∉ gather_S8388608x8_S2x4x1023x32x1_S2x4x1023x32x8_4_0_n_n_0_4_18.startIndexMap from
      fun h => absurd (List.mem_singleton.mp h) (by decide))]
    simp only [Nat.add_zero, Nat.zero_add]
    rfl

/-- The same, with the clamped start index given as a number `n` below the table's row count. -/
theorem gather_apply_of_eq {α : Type} (x : S8388608x8.Idx → α) (idx : IVec S2x4x1023x32x1 32)
    (b : Fin 2) (s : Fin 4) (t : Fin 1023) (r : Fin 32) (j : Fin 8) (n : Nat) (hn : n < 8388608)
    (h : min (idx (ValueIdx.ix5 b s t r (0 : Fin 1))).toInt.toNat 8388607 = n) :
    Host.gather gather_S8388608x8_S2x4x1023x32x1_S2x4x1023x32x8_4_0_n_n_0_4_18 x idx (ValueIdx.ix5 b s t r j) = x (ValueIdx.ix2 ⟨n, hn⟩ j) := by
  subst h
  exact gather_apply x idx b s t r j

/-- The start index the gather reads at `[b, s, t, r, 0]` is the row index at `[b, s, t, r]` when that is below `2 ^ 23`:
    it is not negative, so the wrap-around select keeps it. -/
theorem startIndex_apply (x0 : (⟨S2x1024x256, .f32⟩ : BufTy).Contents (Elt Ideal)) (x1 : (⟨S4x256x256, .f32⟩ : BufTy).Contents (Elt Ideal))
    (b : Fin 2) (s : Fin 4) (t : Fin 1023) (r : Fin 32)
    (hv : (Read.val_main_v28 (F := Ideal) x0 x1 (ValueIdx.ix4 b s t r)).toNat < 8388608) :
    Read.val_main_v34 (F := Ideal) x0 x1 (ValueIdx.ix5 b s t r (0 : Fin 1))
      = Read.val_main_v28 (F := Ideal) x0 x1 (ValueIdx.ix4 b s t r) := by
  have e34 : Read.idx_main_v34 (ValueIdx.ix5 b s t r (0 : Fin 1)) = ValueIdx.ix4 b s t r :=
    funext fun c => Fin.ext (by
      match c with
      | ⟨0, _⟩ => rfl
      | ⟨1, _⟩ => rfl
      | ⟨2, _⟩ => rfl
      | ⟨3, _⟩ => rfl)
  rw [Read.val_main_v34_apply, e34, Read.val_main_v33_apply, Read.val_main_v30_apply, Read.val_main_v29_apply,
    Read.val_main_c_3_apply, cmpi_slt_zero_of_lt _ hv, ValueIdx.select_zero]

/-- The result at `[b, s, t, r * 8 + j]`, when every row index the reference computes is below the table's `8388608` rows:
    element `j` of the flat weight table's row at the row index at `[b, s, t, r]`. (The index is not negative, so the
    wrap-around select keeps it, and it is in range, so the gather's clamp keeps it.) -/
theorem result_apply (x0 : (⟨S2x1024x256, .f32⟩ : BufTy).Contents (Elt Ideal)) (x1 : (⟨S4x256x256, .f32⟩ : BufTy).Contents (Elt Ideal))
    (x2 : (⟨S8388608x8, .f32⟩ : BufTy).Contents (Elt Ideal))
    (hlt : ∀ i, (Read.val_main_v28 (F := Ideal) x0 x1 i).toNat < 8388608)
    (b : Fin 2) (s : Fin 4) (t : Fin 1023) (r : Fin 32) (j : Fin 8) :
    Read.val_main_v36 (F := Ideal) x0 x1 x2 (ValueIdx.ix4 b s t ⟨r.val * 8 + j.val, by omega⟩)
      = x2 (ValueIdx.ix2 ⟨(Read.val_main_v28 (F := Ideal) x0 x1 (ValueIdx.ix4 b s t r)).toNat, hlt _⟩ j) := by
  have hb := b.isLt; have hs := s.isLt; have ht := t.isLt; have hr := r.isLt; have hj := j.isLt
  have e36 : Read.idx_main_v36 (ValueIdx.ix4 b s t ⟨r.val * 8 + j.val, by omega⟩) = ValueIdx.ix5 b s t r j :=
    funext fun a => Fin.ext (by
      match a with
      | ⟨0, _⟩ =>
        show (((b.val * 4 + s.val) * 1023 + t.val) * 256 + (r.val * 8 + j.val)) / 1047552 = b.val
        omega
      | ⟨1, _⟩ =>
        show (((b.val * 4 + s.val) * 1023 + t.val) * 256 + (r.val * 8 + j.val)) / 261888 % 4 = s.val
        omega
      | ⟨2, _⟩ =>
        show (((b.val * 4 + s.val) * 1023 + t.val) * 256 + (r.val * 8 + j.val)) / 256 % 1023 = t.val
        omega
      | ⟨3, _⟩ =>
        show (((b.val * 4 + s.val) * 1023 + t.val) * 256 + (r.val * 8 + j.val)) / 8 % 32 = r.val
        omega
      | ⟨4, _⟩ =>
        show (((b.val * 4 + s.val) * 1023 + t.val) * 256 + (r.val * 8 + j.val)) % 8 = j.val
        omega)
  rw [Read.val_main_v36_apply, e36]
  unfold Read.val_main_v35
  exact gather_apply_of_eq x2 (Read.val_main_v34 (F := Ideal) x0 x1) b s t r j _ (hlt _)
    (by rw [startIndex_apply x0 x1 b s t r (hlt _)]; exact clamp_of_lt _ (hlt _))

end Cert.ReferenceIdeal.RefValue

end
-- ==== Proof.RefBridge.lean ====
/-
  The two programs' logits agree at the ideal float instance: the kernel program's first call contracts the hidden vector with
  the transposed weight, the reference contracts the weight with the hidden vector; the products commute.
-/
import proofs.«145402_j1717986918579_1_alg».proof.Proof.RefChain
import proofs.«145402_j1717986918579_1_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

open scoped BigOperators

/-- The kernel program's logits are the reference's. With `Q[s, q, o] = ∑ i, h0[q, i] * w1[s, i, o]` (the first call's
    product), `h0` the hidden states with batch and position merged (`h0[1024 b + t, i] = x0[b, t, i]`) and `w1` the weight
    with its last two axes swapped (`w1[s, i, o] = x1[s, o, i]`), entry `[b, s, t, r, j]` of the kernel program's logits is
    `∑ i, x0[b, t, i] * x1[s, 8 r + j, i]`, the reference's `∑ i, x1[s, 8 r + j, i] * x0[b, t, i]` with each product
    commuted. -/
theorem logits_agree (x0 : (⟨S2x1024x256, .f32⟩ : BufTy).Contents (Elt Ideal)) (x1 : (⟨S4x256x256, .f32⟩ : BufTy).Contents (Elt Ideal))
    (Q : (⟨Cert.KernelIdeal.S4x2048x256, .f32⟩ : BufTy).Contents (Elt Ideal)) (h0 : (⟨Cert.KernelIdeal.S2048x256, .f32⟩ : BufTy).Contents (Elt Ideal)) (w1 : (⟨Cert.KernelIdeal.S4x256x256, .f32⟩ : BufTy).Contents (Elt Ideal))
    (hQ : ∀ (s : Fin 4) (q : Fin 2048) (o : Fin 256), Q (ValueIdx.ix3 s q o) = ∑ i : Fin 256, h0 (ValueIdx.ix2 q i) * w1 (ValueIdx.ix3 s i o))
    (hh : ∀ (b : Fin 2) (t : Fin 1024) (i : Fin 256), h0 (ValueIdx.ix2 ⟨b.val * 1024 + t.val, by omega⟩ i) = x0 (ValueIdx.ix3 b t i))
    (hw : ∀ (s : Fin 4) (i : Fin 256) (o : Fin 256), w1 (ValueIdx.ix3 s i o) = x1 (ValueIdx.ix3 s o i)) :
    Cert.KernelIdeal.Hand.logits5 (F := Ideal) Q = Read.val_main_v2 (F := Ideal) x0 x1 := by
  funext i
  obtain ⟨b, s, t, r, j, rfl⟩ : ∃ b s t r j, i = ValueIdx.ix5 b s t r j :=
    ⟨i 0, i 1, i 2, i 3, i 4, ValueIdx.eq_ix5 i⟩
  rw [Cert.KernelIdeal.Hand.logits5_apply, logits_apply, hQ]
  refine Finset.sum_congr rfl fun k _ => ?_
  rw [hh, hw, mul_comm]

end Cert.ReferenceIdeal.RefValue

end
-- ==== Proof.RefFinal.lean ====
/-
  The two programs' results agree as pure functions at the ideal float instance. The kernel program's result gathers, at
  `[b, s, t, 8 r + j]`, row `chain(logits)[b, s, t, r]` of the table at column `j`; the reference's result is the same gather of
  the same table at the reference's row indices, which are the same integer chain applied to the reference's logits; and the
  two programs' logits agree. So the results agree entry by entry.
-/
import proofs.«145402_j1717986918579_1_alg».proof.Proof.RefBridge
import proofs.«145402_j1717986918579_1_alg».proof.Proof.RefValue
import proofs.«145402_j1717986918579_1_alg».proof.Proof.RefChain

noncomputable section

namespace Cert.ReferenceIdeal.RefValue

open Cert.ReferenceIdeal Cert.ReferenceIdeal.Gen Idealize.ShloMosaic Idealize.ShloMosaic.TcCoe Idealize.SL.Sem Idealize.ShloMosaic.StableHlo

open scoped BigOperators

/-- A table read at two rows that are the same number is the same entry. -/
theorem table_congr {α : Type} (x : S8388608x8.Idx → α) (j : Fin 8) (n m : ℕ) (hn : n < 8388608) (hm : m < 8388608)
    (e : n = m) : x (ValueIdx.ix2 (⟨n, hn⟩ : Fin 8388608) j) = x (ValueIdx.ix2 (⟨m, hm⟩ : Fin 8388608) j) := by
  subst e; rfl

/-- Every column index below `256` is `8 r + j` with `r < 32` and `j < 8`. -/
theorem col_split (o : Fin 256) : ∃ (r : Fin 32) (j : Fin 8), o = ⟨r.val * 8 + j.val, by omega⟩ :=
  ⟨⟨o.val / 8, by omega⟩, ⟨o.val % 8, by omega⟩, Fin.ext (by show o.val = o.val / 8 * 8 + o.val % 8; omega)⟩

/-- The kernel program's result, given entry by entry as the gather of the table `x2` at the kernel program's row indices
    (the integer chain of its logits, all in range), is the reference's result. -/
theorem results_agree (x0 : (⟨S2x1024x256, .f32⟩ : BufTy).Contents (Elt Ideal)) (x1 : (⟨S4x256x256, .f32⟩ : BufTy).Contents (Elt Ideal)) (x2 : (⟨S8388608x8, .f32⟩ : BufTy).Contents (Elt Ideal))
    (Q : (⟨Cert.KernelIdeal.S4x2048x256, .f32⟩ : BufTy).Contents (Elt Ideal)) (h0 : (⟨Cert.KernelIdeal.S2048x256, .f32⟩ : BufTy).Contents (Elt Ideal)) (w1 : (⟨Cert.KernelIdeal.S4x256x256, .f32⟩ : BufTy).Contents (Elt Ideal))
    (hQ : ∀ (s : Fin 4) (q : Fin 2048) (o : Fin 256), Q (ValueIdx.ix3 s q o) = ∑ i : Fin 256, h0 (ValueIdx.ix2 q i) * w1 (ValueIdx.ix3 s i o))
    (hh : ∀ (b : Fin 2) (t : Fin 1024) (i : Fin 256), h0 (ValueIdx.ix2 ⟨b.val * 1024 + t.val, by omega⟩ i) = x0 (ValueIdx.ix3 b t i))
    (hw : ∀ (s : Fin 4) (i : Fin 256) (o : Fin 256), w1 (ValueIdx.ix3 s i o) = x1 (ValueIdx.ix3 s o i))
    (hrange : ∀ i, (Cert.KernelIdeal.Hand.chain5 (F := Ideal) (Cert.KernelIdeal.Hand.logits5 (F := Ideal) Q) i).toNat < 8388608)
    (K : (⟨Cert.KernelIdeal.S2x4x1023x256, .f32⟩ : BufTy).Contents (Elt Ideal))
    (hK : ∀ (b : Fin 2) (s : Fin 4) (t : Fin 1023) (r : Fin 32) (j : Fin 8),
        K (ValueIdx.ix4 b s t ⟨r.val * 8 + j.val, by omega⟩)
          = x2 (ValueIdx.ix2 ⟨(Cert.KernelIdeal.Hand.chain5 (F := Ideal) (Cert.KernelIdeal.Hand.logits5 (F := Ideal) Q) (ValueIdx.ix4 b s t r)).toNat, hrange _⟩ j)) :
    K = Read.val_main_v36 (F := Ideal) x0 x1 x2 := by
  have eL := logits_agree x0 x1 Q h0 w1 hQ hh hw
  have e28 := ref_v28_eq x0 x1
  have hlt : ∀ i, (Read.val_main_v28 (F := Ideal) x0 x1 i).toNat < 8388608 := by
    intro i
    rw [e28, ← eL]
    exact hrange i
  funext i
  obtain ⟨b, s, t, o, rfl⟩ : ∃ (b : Fin 2) (s : Fin 4) (t : Fin 1023) (o : Fin 256), i = ValueIdx.ix4 b s t o :=
    ⟨i 0, i 1, i 2, i 3, ValueIdx.eq_ix4 i⟩
  obtain ⟨r, j, rfl⟩ := col_split o
  rw [hK, result_apply x0 x1 x2 hlt]
  exact table_congr x2 j _ _ _ _ (by rw [e28, ← eL])

end Cert.ReferenceIdeal.RefValue

end
-- ==== Proof.lean ====
/-
  The certificate of the n-gram table lookup: a Pallas program of nine kernel launches against its jnp reference.
  The kernel program projects the hidden states onto each subtable's query weights on the matrix unit (one launch,
  four grid points), packs the signs of the logits eight at a time into codes, combines two consecutive codes into an
  address, adds the subtable's and the route's offsets, and then, once per batch and subtable (eight launches), copies
  by thirty-two concurrent one-row transfers per grid point the addressed rows of the weight table into its result;
  the reference computes the same logits by one contraction, the same addresses by the same integer operations, and
  gathers the rows in one operation.
  Frames: each launch is a region of @main with its own record (the projection: loads, one matrix product, one store;
  a gather: thirty-two table words each proved to name a row of the table, thirty-two copies in flight together, their
  waits, one store), chained through the host stretches; the reference's frame is its run with the result dropped.
  The ideal pass rewrote nothing, so the idealization is trivially sanctioned.
  Equality over the extended reals: the projection's logits are the reference's (a finite sum of products, the factors
  commuted), so the two programs compute the same addresses, every address is a row of the table, and both results
  hold that row of the same table at every index.
-/
import proofs.«145402_j1717986918579_1_alg».proof.Defs
import proofs.«145402_j1717986918579_1_alg».proof.Proof.Gen.Kernel
import proofs.«145402_j1717986918579_1_alg».proof.Proof.Gen.KernelIdeal
import proofs.«145402_j1717986918579_1_alg».proof.Proof.Gen.ReferenceIdeal
import proofs.«145402_j1717986918579_1_alg».proof.Proof.Gen.Pre_finite_inputs
import proofs.«145402_j1717986918579_1_alg».proof.Proof.KernelFrame
import proofs.«145402_j1717986918579_1_alg».proof.Proof.KernelIdealFrame
import proofs.«145402_j1717986918579_1_alg».proof.Proof.KernelIdealRunValue
import proofs.«145402_j1717986918579_1_alg».proof.Proof.KernelIdealValue
import proofs.«145402_j1717986918579_1_alg».proof.Proof.KernelIdealGatherValue
import proofs.«145402_j1717986918579_1_alg».proof.Proof.RefFinal
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k [Cert.Kernel.Facts] [Cert.Pre_finite_inputs.Facts] : Cert.frame_Kernel := fun m ρ _ => Cert.Kernel.Hand.frame (F := Bits) m ρ
/-- So does the idealized program, -/
theorem frame_ki [Cert.KernelIdeal.Facts] [Cert.Pre_finite_inputs.Facts] : Cert.frame_KernelIdeal := fun m ρ _ => Cert.KernelIdeal.Hand.frame (F := Ideal) m ρ
/-- and the reference: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.KernelIdeal.Hand Cert.ReferenceIdeal.RefValue in
/-- Both idealized programs end with the same array: at every index the row of the weight table that the common address
    names. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => W19 (F := Ideal) m c (Proc.devRef .tc Cert.KernelIdeal.main_v70), run_value (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v36_eq]
  refine (results_agree _ _ _ (res0 (F := Ideal) m c) (W1 m c (Proc.devRef .tc Cert.KernelIdeal.main_v0)) (W1 m c (Proc.devRef .tc Cert.KernelIdeal.main_v1))
    (fun s q o => by rw [res0_at, projAll_apply])
    (fun b t i => by rw [v0_at, (hagree c).1])
    (fun s i o => by rw [v1_at, (hagree c).2.1])
    (gidx_lt m c) (W19 (F := Ideal) m c (Proc.devRef .tc Cert.KernelIdeal.main_v70))
    (fun b s t r j => ?_)).symm
  rw [v70_closed m c (gather1_at m c) (gather2_at m c) (gather3_at m c) (gather4_at m c) (gather5_at m c) (gather6_at m c) (gather7_at m c) (gather8_at m c) b s t r j, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
